-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x16x16 : Shape := ⟨3, ![1024, 16, 16]⟩
abbrev S100000x128 : Shape := ⟨2, ![100000, 128]⟩
abbrev S16x64 : Shape := ⟨2, ![16, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S1024x16x16 : S_.BroadcastsInDim S1024x16x16 (![] : Fin 0 → Fin S1024x16x16.rank)
  reducesTo_S1024x16x16_S_d0_1_2 : S1024x16x16.ReducesTo [0, 1, 2] S_

variable [Facts]

def fn_part1 {F : FTy → Type} [FloatOps F] (main_arg0 : IVec S1024x16x16 32) (main_v13 : IVec S_ 1) (main_v15 : IVec S1024x16x16 1) (main_c_5 : IVec S_ 32) : IVec S_ 1 :=
  let main_v16 : IVec S1024x16x16 32 := broadcastInDim S1024x16x16 ![] bcast_S_S1024x16x16 main_c_5
  let main_v17 : IVec S1024x16x16 1 := cmpi .sle main_arg0 main_v16
  let main_v18 : IVec S1024x16x16 1 := andi main_v15 main_v17
  let main_c_6 : IVec S_ 1 := constantI S_ 1 1#1
  let main_v19 : IVec S_ 1 := (fun x v => Host.reduce IntOp.andi x v reducesTo_S1024x16x16_S_d0_1_2 h_S_) main_v18 main_c_6
  let main_v20 : IVec S_ 1 := andi main_v13 main_v19
  main_v20

def fn {F : FTy → Type} [FloatOps F] (main_arg0 : IVec S1024x16x16 32) (main_arg1 : FVec F S100000x128 .f32) (main_arg2 : FVec F S16x64 .f32) (main_arg3 : FVec F S16x64 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_c_4 : IVec S_ 32 := constantI S_ 32 0#32
  let main_v14 : IVec S1024x16x16 32 := broadcastInDim S1024x16x16 ![] bcast_S_S1024x16x16 main_c_4
  let main_v15 : IVec S1024x16x16 1 := cmpi .sge main_arg0 main_v14
  let main_c_5 : IVec S_ 32 := constantI S_ 32 99999#32
  fn_part1 (F := F) main_arg0 main_v13 main_v15 main_c_5
-- ==== Kernel.lean ====
abbrev S1024x16x16 : Shape := ⟨3, ![1024, 16, 16]⟩
abbrev S100000x128 : Shape := ⟨2, ![100000, 128]⟩
abbrev S16x64 : Shape := ⟨2, ![16, 64]⟩
abbrev S1024x256 : Shape := ⟨2, ![1024, 256]⟩
abbrev S16x16x64 : Shape := ⟨3, ![16, 16, 64]⟩
abbrev S256x64 : Shape := ⟨2, ![256, 64]⟩
abbrev S1x16x1x64 : Shape := ⟨4, ![1, 16, 1, 64]⟩
abbrev S16x16x1x64 : Shape := ⟨4, ![16, 16, 1, 64]⟩
abbrev S256x128 : Shape := ⟨2, ![256, 128]⟩
abbrev S2048x128 : Shape := ⟨2, ![2048, 128]⟩
abbrev S262144x128 : Shape := ⟨2, ![262144, 128]⟩
abbrev S64x128 : Shape := ⟨2, ![64, 128]⟩
abbrev S2x128x128 : Shape := ⟨3, ![2, 128, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x16 : Shape := ⟨2, ![1, 16]⟩
abbrev S16 : Shape := ⟨1, ![16]⟩
abbrev S1024x256x128 : Shape := ⟨3, ![1024, 256, 128]⟩

abbrev nBuf : Table → Nat
  | .hbm => 14
  | .local .scVector .vmem => 4
  | _ => 0

abbrev bufTy : (tb : Table) → Fin (nBuf tb) → BufTy
  | .hbm, ⟨0, _⟩ => ⟨S1024x16x16, .i32⟩
  | .hbm, ⟨1, _⟩ => ⟨S100000x128, .f32⟩
  | .hbm, ⟨2, _⟩ => ⟨S16x64, .f32⟩
  | .hbm, ⟨3, _⟩ => ⟨S16x64, .f32⟩
  | .hbm, ⟨4, _⟩ => ⟨S1024x256, .i32⟩
  | .hbm, ⟨5, _⟩ => ⟨S16x16x64, .f32⟩
  | .hbm, ⟨6, _⟩ => ⟨S256x64, .f32⟩
  | .hbm, ⟨7, _⟩ => ⟨S1x16x1x64, .f32⟩
  | .hbm, ⟨8, _⟩ => ⟨S16x16x1x64, .f32⟩
  | .hbm, ⟨9, _⟩ => ⟨S256x64, .f32⟩
  | .hbm, ⟨10, _⟩ => ⟨S256x128, .f32⟩
  | .hbm, ⟨11, _⟩ => ⟨S2048x128, .i32⟩
  | .hbm, ⟨12, _⟩ => ⟨S262144x128, .f32⟩
  | .hbm, ⟨13, _⟩ => ⟨S1024x256x128, .f32⟩
  | .local .scVector .vmem, ⟨0, _⟩ => ⟨S64x128, .i32⟩
  | .local .scVector .vmem, ⟨1, _⟩ => ⟨S256x128, .f32⟩
  | .local .scVector .vmem, ⟨2, _⟩ => ⟨S2x128x128, .f32⟩
  | .local .scVector .vmem, ⟨3, _⟩ => ⟨S2x128x128, .f32⟩
  | _, _ => ⟨S1024x16x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v7_scv : Ref sig .scVector := ⟨.hbm, 11, rfl⟩
abbrev main_v6_scv : Ref sig .scVector := ⟨.hbm, 10, rfl⟩
abbrev main_arg1_scv : Ref sig .scVector := ⟨.hbm, 1, rfl⟩
abbrev main_v8_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v3 : BitVec 32 := Scalar.muli v1 c64_i32
  let c0_i32_2178_r0 : BitVec 32 := 0#32
  ![v3.toNat, 0]
@[reducible] def k0_t1_loop : Scf.Loop 32 :=
  let c0_i32_21 : BitVec 32 := 0#32
  let c128_i32 : BitVec 32 := 128#32
  let v19 : BitVec 32 := Scalar.addi c0_i32_21 c128_i32
  let c1_i32_22 : BitVec 32 := 1#32
  ⟨c0_i32_21, v19, c1_i32_22⟩
def k0_off2 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1606 : Index := Scalar.indexCast arg14
  let c0 : Index := 0#32
  ![v1606.toNat, 0]
def k0_off3 (k0_t1 : Fin k0_t1_loop.trips) : Fin 2 → Nat :=
  let c0_i32_2180 : BitVec 32 := 0#32
  let c0_i32_21 : BitVec 32 := 0#32
  let c1_i32_22 : BitVec 32 := 1#32
  let arg14 : BitVec 32 := Scf.iv c0_i32_21 c1_i32_22 k0_t1
  let v1609 : BitVec 32 := Scalar.addi c0_i32_2180 arg14
  let v1610 : Index := Scalar.indexCast v1609
  let c0_2181 : Index := 0#32
  ![v1610.toNat, 0]
def k0_off4 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1622 : Index := Scalar.indexCast arg14
  let c16 : Index := 16#32
  ![v1622.toNat, 16]
def k0_off5 (k0_t1 : Fin k0_t1_loop.trips) : Fin 2 → Nat :=
  let c0_i32_2187 : BitVec 32 := 0#32
  let c0_i32_21 : BitVec 32 := 0#32
  let c1_i32_22 : BitVec 32 := 1#32
  let arg14 : BitVec 32 := Scf.iv c0_i32_21 c1_i32_22 k0_t1
  let v1625 : BitVec 32 := Scalar.addi c0_i32_2187 arg14
  let v1626 : Index := Scalar.indexCast v1625
  let c16_2188 : Index := 16#32
  ![v1626.toNat, 16]
def k0_off6 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1638 : Index := Scalar.indexCast arg14
  let c32 : Index := 32#32
  ![v1638.toNat, 32]
def k0_off7 (k0_t1 : Fin k0_t1_loop.trips) : Fin 2 → Nat :=
  let c0_i32_2194 : BitVec 32 := 0#32
  let c0_i32_21 : BitVec 32 := 0#32
  let c1_i32_22 : BitVec 32 := 1#32
  let arg14 : BitVec 32 := Scf.iv c0_i32_21 c1_i32_22 k0_t1
  let v1641 : BitVec 32 := Scalar.addi c0_i32_2194 arg14
  let v1642 : Index := Scalar.indexCast v1641
  let c32_2195 : Index := 32#32
  ![v1642.toNat, 32]
def k0_off8 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1654 : Index := Scalar.indexCast arg14
  let c48 : Index := 48#32
  ![v1654.toNat, 48]
def k0_off9 (k0_t1 : Fin k0_t1_loop.trips) : Fin 2 → Nat :=
  let c0_i32_2201 : BitVec 32 := 0#32
  let c0_i32_21 : BitVec 32 := 0#32
  let c1_i32_22 : BitVec 32 := 1#32
  let arg14 : BitVec 32 := Scf.iv c0_i32_21 c1_i32_22 k0_t1
  let v1657 : BitVec 32 := Scalar.addi c0_i32_2201 arg14
  let v1658 : Index := Scalar.indexCast v1657
  let c48_2202 : Index := 48#32
  ![v1658.toNat, 48]
def k0_off10 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1670 : Index := Scalar.indexCast arg14
  let c64 : Index := 64#32
  ![v1670.toNat, 64]
def k0_off11 (k0_t1 : Fin k0_t1_loop.trips) : Fin 2 → Nat :=
  let c0_i32_2208 : BitVec 32 := 0#32
  let c0_i32_21 : BitVec 32 := 0#32
  let c1_i32_22 : BitVec 32 := 1#32
  let arg14 : BitVec 32 := Scf.iv c0_i32_21 c1_i32_22 k0_t1
  let v1673 : BitVec 32 := Scalar.addi c0_i32_2208 arg14
  let v1674 : Index := Scalar.indexCast v1673
  let c64_2209 : Index := 64#32
  ![v1674.toNat, 64]
def k0_off12 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1686 : Index := Scalar.indexCast arg14
  let c80 : Index := 80#32
  ![v1686.toNat, 80]
def k0_off13 (k0_t1 : Fin k0_t1_loop.trips) : Fin 2 → Nat :=
  let c0_i32_2215 : BitVec 32 := 0#32
  let c0_i32_21 : BitVec 32 := 0#32
  let c1_i32_22 : BitVec 32 := 1#32
  let arg14 : BitVec 32 := Scf.iv c0_i32_21 c1_i32_22 k0_t1
  let v1689 : BitVec 32 := Scalar.addi c0_i32_2215 arg14
  let v1690 : Index := Scalar.indexCast v1689
  let c80_2216 : Index := 80#32
  ![v1690.toNat, 80]
def k0_off14 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1702 : Index := Scalar.indexCast arg14
  let c96 : Index := 96#32
  ![v1702.toNat, 96]
def k0_off15 (k0_t1 : Fin k0_t1_loop.trips) : Fin 2 → Nat :=
  let c0_i32_2222 : BitVec 32 := 0#32
  let c0_i32_21 : BitVec 32 := 0#32
  let c1_i32_22 : BitVec 32 := 1#32
  let arg14 : BitVec 32 := Scf.iv c0_i32_21 c1_i32_22 k0_t1
  let v1705 : BitVec 32 := Scalar.addi c0_i32_2222 arg14
  let v1706 : Index := Scalar.indexCast v1705
  let c96_2223 : Index := 96#32
  ![v1706.toNat, 96]
def k0_off16 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let v1718 : Index := Scalar.indexCast arg14
  let c112 : Index := 112#32
  ![v1718.toNat, 112]
def k0_off17 (k0_t1 : Fin k0_t1_loop.trips) : Fin 2 → Nat :=
  let c0_i32_2229 : BitVec 32 := 0#32
  let c0_i32_21 : BitVec 32 := 0#32
  let c1_i32_22 : BitVec 32 := 1#32
  let arg14 : BitVec 32 := Scf.iv c0_i32_21 c1_i32_22 k0_t1
  let v1721 : BitVec 32 := Scalar.addi c0_i32_2229 arg14
  let v1722 : Index := Scalar.indexCast v1721
  let c112_2230 : Index := 112#32
  ![v1722.toNat, 112]
def k0_off18 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v20 : BitVec 32 := Scalar.addi v2 c0_i32_24
  let c0_i32_28 : BitVec 32 := 0#32
  ![v20.toNat, 0]
@[reducible] def k0_t2_loop : Scf.Loop 32 :=
  let c0_i32_48 : BitVec 32 := 0#32
  let c128_i32_49 : BitVec 32 := 128#32
  let v37 : BitVec 32 := Scalar.addi c0_i32_48 c128_i32_49
  let c1_i32_50 : BitVec 32 := 1#32
  ⟨c0_i32_48, v37, c1_i32_50⟩
def k0_off19 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1606 : Index := Scalar.indexCast arg14
  let c0 : Index := 0#32
  ![v1606.toNat, 0]
def k0_off20 (k0_t2 : Fin k0_t2_loop.trips) : Fin 2 → Nat :=
  let c128_i32_2180 : BitVec 32 := 128#32
  let c0_i32_48 : BitVec 32 := 0#32
  let c1_i32_50 : BitVec 32 := 1#32
  let arg14 : BitVec 32 := Scf.iv c0_i32_48 c1_i32_50 k0_t2
  let v1609 : BitVec 32 := Scalar.addi c128_i32_2180 arg14
  let v1610 : Index := Scalar.indexCast v1609
  let c0_2181 : Index := 0#32
  ![v1610.toNat, 0]
def k0_off21 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1622 : Index := Scalar.indexCast arg14
  let c16 : Index := 16#32
  ![v1622.toNat, 16]
def k0_off22 (k0_t2 : Fin k0_t2_loop.trips) : Fin 2 → Nat :=
  let c128_i32_2187 : BitVec 32 := 128#32
  let c0_i32_48 : BitVec 32 := 0#32
  let c1_i32_50 : BitVec 32 := 1#32
  let arg14 : BitVec 32 := Scf.iv c0_i32_48 c1_i32_50 k0_t2
  let v1625 : BitVec 32 := Scalar.addi c128_i32_2187 arg14
  let v1626 : Index := Scalar.indexCast v1625
  let c16_2188 : Index := 16#32
  ![v1626.toNat, 16]
def k0_off23 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1638 : Index := Scalar.indexCast arg14
  let c32 : Index := 32#32
  ![v1638.toNat, 32]
def k0_off24 (k0_t2 : Fin k0_t2_loop.trips) : Fin 2 → Nat :=
  let c128_i32_2194 : BitVec 32 := 128#32
  let c0_i32_48 : BitVec 32 := 0#32
  let c1_i32_50 : BitVec 32 := 1#32
  let arg14 : BitVec 32 := Scf.iv c0_i32_48 c1_i32_50 k0_t2
  let v1641 : BitVec 32 := Scalar.addi c128_i32_2194 arg14
  let v1642 : Index := Scalar.indexCast v1641
  let c32_2195 : Index := 32#32
  ![v1642.toNat, 32]
def k0_off25 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1654 : Index := Scalar.indexCast arg14
  let c48 : Index := 48#32
  ![v1654.toNat, 48]
def k0_off26 (k0_t2 : Fin k0_t2_loop.trips) : Fin 2 → Nat :=
  let c128_i32_2201 : BitVec 32 := 128#32
  let c0_i32_48 : BitVec 32 := 0#32
  let c1_i32_50 : BitVec 32 := 1#32
  let arg14 : BitVec 32 := Scf.iv c0_i32_48 c1_i32_50 k0_t2
  let v1657 : BitVec 32 := Scalar.addi c128_i32_2201 arg14
  let v1658 : Index := Scalar.indexCast v1657
  let c48_2202 : Index := 48#32
  ![v1658.toNat, 48]
def k0_off27 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1670 : Index := Scalar.indexCast arg14
  let c64 : Index := 64#32
  ![v1670.toNat, 64]
def k0_off28 (k0_t2 : Fin k0_t2_loop.trips) : Fin 2 → Nat :=
  let c128_i32_2208 : BitVec 32 := 128#32
  let c0_i32_48 : BitVec 32 := 0#32
  let c1_i32_50 : BitVec 32 := 1#32
  let arg14 : BitVec 32 := Scf.iv c0_i32_48 c1_i32_50 k0_t2
  let v1673 : BitVec 32 := Scalar.addi c128_i32_2208 arg14
  let v1674 : Index := Scalar.indexCast v1673
  let c64_2209 : Index := 64#32
  ![v1674.toNat, 64]
def k0_off29 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1686 : Index := Scalar.indexCast arg14
  let c80 : Index := 80#32
  ![v1686.toNat, 80]
def k0_off30 (k0_t2 : Fin k0_t2_loop.trips) : Fin 2 → Nat :=
  let c128_i32_2215 : BitVec 32 := 128#32
  let c0_i32_48 : BitVec 32 := 0#32
  let c1_i32_50 : BitVec 32 := 1#32
  let arg14 : BitVec 32 := Scf.iv c0_i32_48 c1_i32_50 k0_t2
  let v1689 : BitVec 32 := Scalar.addi c128_i32_2215 arg14
  let v1690 : Index := Scalar.indexCast v1689
  let c80_2216 : Index := 80#32
  ![v1690.toNat, 80]
def k0_off31 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1702 : Index := Scalar.indexCast arg14
  let c96 : Index := 96#32
  ![v1702.toNat, 96]
def k0_off32 (k0_t2 : Fin k0_t2_loop.trips) : Fin 2 → Nat :=
  let c128_i32_2222 : BitVec 32 := 128#32
  let c0_i32_48 : BitVec 32 := 0#32
  let c1_i32_50 : BitVec 32 := 1#32
  let arg14 : BitVec 32 := Scf.iv c0_i32_48 c1_i32_50 k0_t2
  let v1705 : BitVec 32 := Scalar.addi c128_i32_2222 arg14
  let v1706 : Index := Scalar.indexCast v1705
  let c96_2223 : Index := 96#32
  ![v1706.toNat, 96]
def k0_off33 (k0_t2 : Fin k0_t2_loop.trips) : Fin 2 → Nat :=
  let c0_i32_48 : BitVec 32 := 0#32
  let c1_i32_50 : BitVec 32 := 1#32
  let arg14 : BitVec 32 := Scf.iv c0_i32_48 c1_i32_50 k0_t2
  let v1718 : Index := Scalar.indexCast arg14
  let c112 : Index := 112#32
  ![v1718.toNat, 112]
def k0_off34 (k0_t2 : Fin k0_t2_loop.trips) : Fin 2 → Nat :=
  let c128_i32_2229 : BitVec 32 := 128#32
  let c0_i32_48 : BitVec 32 := 0#32
  let c1_i32_50 : BitVec 32 := 1#32
  let arg14 : BitVec 32 := Scf.iv c0_i32_48 c1_i32_50 k0_t2
  let v1721 : BitVec 32 := Scalar.addi c128_i32_2229 arg14
  let v1722 : Index := Scalar.indexCast v1721
  let c112_2230 : Index := 112#32
  ![v1722.toNat, 112]
@[reducible] def k0_t3_loop : Scf.Loop 32 :=
  let c0_i32_83 : BitVec 32 := 0#32
  let c128_i32_84 : BitVec 32 := 128#32
  let v62 : BitVec 32 := Scalar.addi c0_i32_83 c128_i32_84
  let c1_i32_85 : BitVec 32 := 1#32
  ⟨c0_i32_83, v62, c1_i32_85⟩
def k0_off35 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1606 : Index := Scalar.indexCast arg14
  let c0 : Index := 0#32
  ![v1606.toNat, 0]
def k0_off36 (k0_t3 : Fin k0_t3_loop.trips) : Fin 2 → Nat :=
  let c0_i32_2180 : BitVec 32 := 0#32
  let c0_i32_83 : BitVec 32 := 0#32
  let c1_i32_85 : BitVec 32 := 1#32
  let arg14 : BitVec 32 := Scf.iv c0_i32_83 c1_i32_85 k0_t3
  let v1609 : BitVec 32 := Scalar.addi c0_i32_2180 arg14
  let v1610 : Index := Scalar.indexCast v1609
  let c0_2181 : Index := 0#32
  ![v1610.toNat, 0]
def k0_off37 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1622 : Index := Scalar.indexCast arg14
  let c16 : Index := 16#32
  ![v1622.toNat, 16]
def k0_off38 (k0_t3 : Fin k0_t3_loop.trips) : Fin 2 → Nat :=
  let c0_i32_2187 : BitVec 32 := 0#32
  let c0_i32_83 : BitVec 32 := 0#32
  let c1_i32_85 : BitVec 32 := 1#32
  let arg14 : BitVec 32 := Scf.iv c0_i32_83 c1_i32_85 k0_t3
  let v1625 : BitVec 32 := Scalar.addi c0_i32_2187 arg14
  let v1626 : Index := Scalar.indexCast v1625
  let c16_2188 : Index := 16#32
  ![v1626.toNat, 16]
def k0_off39 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1638 : Index := Scalar.indexCast arg14
  let c32 : Index := 32#32
  ![v1638.toNat, 32]
def k0_off40 (k0_t3 : Fin k0_t3_loop.trips) : Fin 2 → Nat :=
  let c0_i32_2194 : BitVec 32 := 0#32
  let c0_i32_83 : BitVec 32 := 0#32
  let c1_i32_85 : BitVec 32 := 1#32
  let arg14 : BitVec 32 := Scf.iv c0_i32_83 c1_i32_85 k0_t3
  let v1641 : BitVec 32 := Scalar.addi c0_i32_2194 arg14
  let v1642 : Index := Scalar.indexCast v1641
  let c32_2195 : Index := 32#32
  ![v1642.toNat, 32]
def k0_off41 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1654 : Index := Scalar.indexCast arg14
  let c48 : Index := 48#32
  ![v1654.toNat, 48]
def k0_off42 (k0_t3 : Fin k0_t3_loop.trips) : Fin 2 → Nat :=
  let c0_i32_2201 : BitVec 32 := 0#32
  let c0_i32_83 : BitVec 32 := 0#32
  let c1_i32_85 : BitVec 32 := 1#32
  let arg14 : BitVec 32 := Scf.iv c0_i32_83 c1_i32_85 k0_t3
  let v1657 : BitVec 32 := Scalar.addi c0_i32_2201 arg14
  let v1658 : Index := Scalar.indexCast v1657
  let c48_2202 : Index := 48#32
  ![v1658.toNat, 48]
def k0_off43 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1670 : Index := Scalar.indexCast arg14
  let c64 : Index := 64#32
  ![v1670.toNat, 64]
def k0_off44 (k0_t3 : Fin k0_t3_loop.trips) : Fin 2 → Nat :=
  let c0_i32_2208 : BitVec 32 := 0#32
  let c0_i32_83 : BitVec 32 := 0#32
  let c1_i32_85 : BitVec 32 := 1#32
  let arg14 : BitVec 32 := Scf.iv c0_i32_83 c1_i32_85 k0_t3
  let v1673 : BitVec 32 := Scalar.addi c0_i32_2208 arg14
  let v1674 : Index := Scalar.indexCast v1673
  let c64_2209 : Index := 64#32
  ![v1674.toNat, 64]
def k0_off45 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1686 : Index := Scalar.indexCast arg14
  let c80 : Index := 80#32
  ![v1686.toNat, 80]
def k0_off46 (k0_t3 : Fin k0_t3_loop.trips) : Fin 2 → Nat :=
  let c0_i32_2215 : BitVec 32 := 0#32
  let c0_i32_83 : BitVec 32 := 0#32
  let c1_i32_85 : BitVec 32 := 1#32
  let arg14 : BitVec 32 := Scf.iv c0_i32_83 c1_i32_85 k0_t3
  let v1689 : BitVec 32 := Scalar.addi c0_i32_2215 arg14
  let v1690 : Index := Scalar.indexCast v1689
  let c80_2216 : Index := 80#32
  ![v1690.toNat, 80]
def k0_off47 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1702 : Index := Scalar.indexCast arg14
  let c96 : Index := 96#32
  ![v1702.toNat, 96]
def k0_off48 (k0_t3 : Fin k0_t3_loop.trips) : Fin 2 → Nat :=
  let c0_i32_2222 : BitVec 32 := 0#32
  let c0_i32_83 : BitVec 32 := 0#32
  let c1_i32_85 : BitVec 32 := 1#32
  let arg14 : BitVec 32 := Scf.iv c0_i32_83 c1_i32_85 k0_t3
  let v1705 : BitVec 32 := Scalar.addi c0_i32_2222 arg14
  let v1706 : Index := Scalar.indexCast v1705
  let c96_2223 : Index := 96#32
  ![v1706.toNat, 96]
def k0_off49 (k0_t3 : Fin k0_t3_loop.trips) : Fin 2 → Nat :=
  let c0_i32_83 : BitVec 32 := 0#32
  let c1_i32_85 : BitVec 32 := 1#32
  let arg14 : BitVec 32 := Scf.iv c0_i32_83 c1_i32_85 k0_t3
  let v1718 : Index := Scalar.indexCast arg14
  let c112 : Index := 112#32
  ![v1718.toNat, 112]
def k0_off50 (k0_t3 : Fin k0_t3_loop.trips) : Fin 2 → Nat :=
  let c0_i32_2229 : BitVec 32 := 0#32
  let c0_i32_83 : BitVec 32 := 0#32
  let c1_i32_85 : BitVec 32 := 1#32
  let arg14 : BitVec 32 := Scf.iv c0_i32_83 c1_i32_85 k0_t3
  let v1721 : BitVec 32 := Scalar.addi c0_i32_2229 arg14
  let v1722 : Index := Scalar.indexCast v1721
  let c112_2230 : Index := 112#32
  ![v1722.toNat, 112]
@[reducible] def k0_t4_loop : Scf.Loop 32 :=
  let c0_i32_117 : BitVec 32 := 0#32
  let c128_i32_118 : BitVec 32 := 128#32
  let v87 : BitVec 32 := Scalar.addi c0_i32_117 c128_i32_118
  let c1_i32_119 : BitVec 32 := 1#32
  ⟨c0_i32_117, v87, c1_i32_119⟩
def k0_off51 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1606 : Index := Scalar.indexCast arg14
  let c0 : Index := 0#32
  ![v1606.toNat, 0]
def k0_off52 (k0_t4 : Fin k0_t4_loop.trips) : Fin 2 → Nat :=
  let c128_i32_2180 : BitVec 32 := 128#32
  let c0_i32_117 : BitVec 32 := 0#32
  let c1_i32_119 : BitVec 32 := 1#32
  let arg14 : BitVec 32 := Scf.iv c0_i32_117 c1_i32_119 k0_t4
  let v1609 : BitVec 32 := Scalar.addi c128_i32_2180 arg14
  let v1610 : Index := Scalar.indexCast v1609
  let c0_2181 : Index := 0#32
  ![v1610.toNat, 0]
def k0_off53 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1622 : Index := Scalar.indexCast arg14
  let c16 : Index := 16#32
  ![v1622.toNat, 16]
def k0_off54 (k0_t4 : Fin k0_t4_loop.trips) : Fin 2 → Nat :=
  let c128_i32_2187 : BitVec 32 := 128#32
  let c0_i32_117 : BitVec 32 := 0#32
  let c1_i32_119 : BitVec 32 := 1#32
  let arg14 : BitVec 32 := Scf.iv c0_i32_117 c1_i32_119 k0_t4
  let v1625 : BitVec 32 := Scalar.addi c128_i32_2187 arg14
  let v1626 : Index := Scalar.indexCast v1625
  let c16_2188 : Index := 16#32
  ![v1626.toNat, 16]
def k0_off55 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1638 : Index := Scalar.indexCast arg14
  let c32 : Index := 32#32
  ![v1638.toNat, 32]
def k0_off56 (k0_t4 : Fin k0_t4_loop.trips) : Fin 2 → Nat :=
  let c128_i32_2194 : BitVec 32 := 128#32
  let c0_i32_117 : BitVec 32 := 0#32
  let c1_i32_119 : BitVec 32 := 1#32
  let arg14 : BitVec 32 := Scf.iv c0_i32_117 c1_i32_119 k0_t4
  let v1641 : BitVec 32 := Scalar.addi c128_i32_2194 arg14
  let v1642 : Index := Scalar.indexCast v1641
  let c32_2195 : Index := 32#32
  ![v1642.toNat, 32]
def k0_off57 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1654 : Index := Scalar.indexCast arg14
  let c48 : Index := 48#32
  ![v1654.toNat, 48]
def k0_off58 (k0_t4 : Fin k0_t4_loop.trips) : Fin 2 → Nat :=
  let c128_i32_2201 : BitVec 32 := 128#32
  let c0_i32_117 : BitVec 32 := 0#32
  let c1_i32_119 : BitVec 32 := 1#32
  let arg14 : BitVec 32 := Scf.iv c0_i32_117 c1_i32_119 k0_t4
  let v1657 : BitVec 32 := Scalar.addi c128_i32_2201 arg14
  let v1658 : Index := Scalar.indexCast v1657
  let c48_2202 : Index := 48#32
  ![v1658.toNat, 48]
def k0_off59 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1670 : Index := Scalar.indexCast arg14
  let c64 : Index := 64#32
  ![v1670.toNat, 64]
def k0_off60 (k0_t4 : Fin k0_t4_loop.trips) : Fin 2 → Nat :=
  let c128_i32_2208 : BitVec 32 := 128#32
  let c0_i32_117 : BitVec 32 := 0#32
  let c1_i32_119 : BitVec 32 := 1#32
  let arg14 : BitVec 32 := Scf.iv c0_i32_117 c1_i32_119 k0_t4
  let v1673 : BitVec 32 := Scalar.addi c128_i32_2208 arg14
  let v1674 : Index := Scalar.indexCast v1673
  let c64_2209 : Index := 64#32
  ![v1674.toNat, 64]
def k0_off61 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1686 : Index := Scalar.indexCast arg14
  let c80 : Index := 80#32
  ![v1686.toNat, 80]
def k0_off62 (k0_t4 : Fin k0_t4_loop.trips) : Fin 2 → Nat :=
  let c128_i32_2215 : BitVec 32 := 128#32
  let c0_i32_117 : BitVec 32 := 0#32
  let c1_i32_119 : BitVec 32 := 1#32
  let arg14 : BitVec 32 := Scf.iv c0_i32_117 c1_i32_119 k0_t4
  let v1689 : BitVec 32 := Scalar.addi c128_i32_2215 arg14
  let v1690 : Index := Scalar.indexCast v1689
  let c80_2216 : Index := 80#32
  ![v1690.toNat, 80]
def k0_off63 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1702 : Index := Scalar.indexCast arg14
  let c96 : Index := 96#32
  ![v1702.toNat, 96]
def k0_off64 (k0_t4 : Fin k0_t4_loop.trips) : Fin 2 → Nat :=
  let c128_i32_2222 : BitVec 32 := 128#32
  let c0_i32_117 : BitVec 32 := 0#32
  let c1_i32_119 : BitVec 32 := 1#32
  let arg14 : BitVec 32 := Scf.iv c0_i32_117 c1_i32_119 k0_t4
  let v1705 : BitVec 32 := Scalar.addi c128_i32_2222 arg14
  let v1706 : Index := Scalar.indexCast v1705
  let c96_2223 : Index := 96#32
  ![v1706.toNat, 96]
def k0_off65 (k0_t4 : Fin k0_t4_loop.trips) : Fin 2 → Nat :=
  let c0_i32_117 : BitVec 32 := 0#32
  let c1_i32_119 : BitVec 32 := 1#32
  let arg14 : BitVec 32 := Scf.iv c0_i32_117 c1_i32_119 k0_t4
  let v1718 : Index := Scalar.indexCast arg14
  let c112 : Index := 112#32
  ![v1718.toNat, 112]
def k0_off66 (k0_t4 : Fin k0_t4_loop.trips) : Fin 2 → Nat :=
  let c128_i32_2229 : BitVec 32 := 128#32
  let c0_i32_117 : BitVec 32 := 0#32
  let c1_i32_119 : BitVec 32 := 1#32
  let arg14 : BitVec 32 := Scf.iv c0_i32_117 c1_i32_119 k0_t4
  let v1721 : BitVec 32 := Scalar.addi c128_i32_2229 arg14
  let v1722 : Index := Scalar.indexCast v1721
  let c112_2230 : Index := 112#32
  ![v1722.toNat, 112]
@[reducible] def k0_t5_loop : Scf.Loop 32 :=
  let c0_i32_151 : BitVec 32 := 0#32
  let c128_i32_152 : BitVec 32 := 128#32
  let v112 : BitVec 32 := Scalar.addi c0_i32_151 c128_i32_152
  let c1_i32_153 : BitVec 32 := 1#32
  ⟨c0_i32_151, v112, c1_i32_153⟩
def k0_off67 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1606 : Index := Scalar.indexCast arg14
  let c0 : Index := 0#32
  ![v1606.toNat, 0]
def k0_off68 (k0_t5 : Fin k0_t5_loop.trips) : Fin 2 → Nat :=
  let c0_i32_2180 : BitVec 32 := 0#32
  let c0_i32_151 : BitVec 32 := 0#32
  let c1_i32_153 : BitVec 32 := 1#32
  let arg14 : BitVec 32 := Scf.iv c0_i32_151 c1_i32_153 k0_t5
  let v1609 : BitVec 32 := Scalar.addi c0_i32_2180 arg14
  let v1610 : Index := Scalar.indexCast v1609
  let c0_2181 : Index := 0#32
  ![v1610.toNat, 0]
def k0_off69 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1622 : Index := Scalar.indexCast arg14
  let c16 : Index := 16#32
  ![v1622.toNat, 16]
def k0_off70 (k0_t5 : Fin k0_t5_loop.trips) : Fin 2 → Nat :=
  let c0_i32_2187 : BitVec 32 := 0#32
  let c0_i32_151 : BitVec 32 := 0#32
  let c1_i32_153 : BitVec 32 := 1#32
  let arg14 : BitVec 32 := Scf.iv c0_i32_151 c1_i32_153 k0_t5
  let v1625 : BitVec 32 := Scalar.addi c0_i32_2187 arg14
  let v1626 : Index := Scalar.indexCast v1625
  let c16_2188 : Index := 16#32
  ![v1626.toNat, 16]
def k0_off71 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1638 : Index := Scalar.indexCast arg14
  let c32 : Index := 32#32
  ![v1638.toNat, 32]
def k0_off72 (k0_t5 : Fin k0_t5_loop.trips) : Fin 2 → Nat :=
  let c0_i32_2194 : BitVec 32 := 0#32
  let c0_i32_151 : BitVec 32 := 0#32
  let c1_i32_153 : BitVec 32 := 1#32
  let arg14 : BitVec 32 := Scf.iv c0_i32_151 c1_i32_153 k0_t5
  let v1641 : BitVec 32 := Scalar.addi c0_i32_2194 arg14
  let v1642 : Index := Scalar.indexCast v1641
  let c32_2195 : Index := 32#32
  ![v1642.toNat, 32]
def k0_off73 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1654 : Index := Scalar.indexCast arg14
  let c48 : Index := 48#32
  ![v1654.toNat, 48]
def k0_off74 (k0_t5 : Fin k0_t5_loop.trips) : Fin 2 → Nat :=
  let c0_i32_2201 : BitVec 32 := 0#32
  let c0_i32_151 : BitVec 32 := 0#32
  let c1_i32_153 : BitVec 32 := 1#32
  let arg14 : BitVec 32 := Scf.iv c0_i32_151 c1_i32_153 k0_t5
  let v1657 : BitVec 32 := Scalar.addi c0_i32_2201 arg14
  let v1658 : Index := Scalar.indexCast v1657
  let c48_2202 : Index := 48#32
  ![v1658.toNat, 48]
def k0_off75 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1670 : Index := Scalar.indexCast arg14
  let c64 : Index := 64#32
  ![v1670.toNat, 64]
def k0_off76 (k0_t5 : Fin k0_t5_loop.trips) : Fin 2 → Nat :=
  let c0_i32_2208 : BitVec 32 := 0#32
  let c0_i32_151 : BitVec 32 := 0#32
  let c1_i32_153 : BitVec 32 := 1#32
  let arg14 : BitVec 32 := Scf.iv c0_i32_151 c1_i32_153 k0_t5
  let v1673 : BitVec 32 := Scalar.addi c0_i32_2208 arg14
  let v1674 : Index := Scalar.indexCast v1673
  let c64_2209 : Index := 64#32
  ![v1674.toNat, 64]
def k0_off77 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1686 : Index := Scalar.indexCast arg14
  let c80 : Index := 80#32
  ![v1686.toNat, 80]
def k0_off78 (k0_t5 : Fin k0_t5_loop.trips) : Fin 2 → Nat :=
  let c0_i32_2215 : BitVec 32 := 0#32
  let c0_i32_151 : BitVec 32 := 0#32
  let c1_i32_153 : BitVec 32 := 1#32
  let arg14 : BitVec 32 := Scf.iv c0_i32_151 c1_i32_153 k0_t5
  let v1689 : BitVec 32 := Scalar.addi c0_i32_2215 arg14
  let v1690 : Index := Scalar.indexCast v1689
  let c80_2216 : Index := 80#32
  ![v1690.toNat, 80]
def k0_off79 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1702 : Index := Scalar.indexCast arg14
  let c96 : Index := 96#32
  ![v1702.toNat, 96]
def k0_off80 (k0_t5 : Fin k0_t5_loop.trips) : Fin 2 → Nat :=
  let c0_i32_2222 : BitVec 32 := 0#32
  let c0_i32_151 : BitVec 32 := 0#32
  let c1_i32_153 : BitVec 32 := 1#32
  let arg14 : BitVec 32 := Scf.iv c0_i32_151 c1_i32_153 k0_t5
  let v1705 : BitVec 32 := Scalar.addi c0_i32_2222 arg14
  let v1706 : Index := Scalar.indexCast v1705
  let c96_2223 : Index := 96#32
  ![v1706.toNat, 96]
def k0_off81 (k0_t5 : Fin k0_t5_loop.trips) : Fin 2 → Nat :=
  let c0_i32_151 : BitVec 32 := 0#32
  let c1_i32_153 : BitVec 32 := 1#32
  let arg14 : BitVec 32 := Scf.iv c0_i32_151 c1_i32_153 k0_t5
  let v1718 : Index := Scalar.indexCast arg14
  let c112 : Index := 112#32
  ![v1718.toNat, 112]
def k0_off82 (k0_t5 : Fin k0_t5_loop.trips) : Fin 2 → Nat :=
  let c0_i32_2229 : BitVec 32 := 0#32
  let c0_i32_151 : BitVec 32 := 0#32
  let c1_i32_153 : BitVec 32 := 1#32
  let arg14 : BitVec 32 := Scf.iv c0_i32_151 c1_i32_153 k0_t5
  let v1721 : BitVec 32 := Scalar.addi c0_i32_2229 arg14
  let v1722 : Index := Scalar.indexCast v1721
  let c112_2230 : Index := 112#32
  ![v1722.toNat, 112]
@[reducible] def k0_t6_loop : Scf.Loop 32 :=
  let c0_i32_185 : BitVec 32 := 0#32
  let c128_i32_186 : BitVec 32 := 128#32
  let v137 : BitVec 32 := Scalar.addi c0_i32_185 c128_i32_186
  let c1_i32_187 : BitVec 32 := 1#32
  ⟨c0_i32_185, v137, c1_i32_187⟩
def k0_off83 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1606 : Index := Scalar.indexCast arg14
  let c0 : Index := 0#32
  ![v1606.toNat, 0]
def k0_off84 (k0_t6 : Fin k0_t6_loop.trips) : Fin 2 → Nat :=
  let c128_i32_2180 : BitVec 32 := 128#32
  let c0_i32_185 : BitVec 32 := 0#32
  let c1_i32_187 : BitVec 32 := 1#32
  let arg14 : BitVec 32 := Scf.iv c0_i32_185 c1_i32_187 k0_t6
  let v1609 : BitVec 32 := Scalar.addi c128_i32_2180 arg14
  let v1610 : Index := Scalar.indexCast v1609
  let c0_2181 : Index := 0#32
  ![v1610.toNat, 0]
def k0_off85 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1622 : Index := Scalar.indexCast arg14
  let c16 : Index := 16#32
  ![v1622.toNat, 16]
def k0_off86 (k0_t6 : Fin k0_t6_loop.trips) : Fin 2 → Nat :=
  let c128_i32_2187 : BitVec 32 := 128#32
  let c0_i32_185 : BitVec 32 := 0#32
  let c1_i32_187 : BitVec 32 := 1#32
  let arg14 : BitVec 32 := Scf.iv c0_i32_185 c1_i32_187 k0_t6
  let v1625 : BitVec 32 := Scalar.addi c128_i32_2187 arg14
  let v1626 : Index := Scalar.indexCast v1625
  let c16_2188 : Index := 16#32
  ![v1626.toNat, 16]
def k0_off87 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1638 : Index := Scalar.indexCast arg14
  let c32 : Index := 32#32
  ![v1638.toNat, 32]
def k0_off88 (k0_t6 : Fin k0_t6_loop.trips) : Fin 2 → Nat :=
  let c128_i32_2194 : BitVec 32 := 128#32
  let c0_i32_185 : BitVec 32 := 0#32
  let c1_i32_187 : BitVec 32 := 1#32
  let arg14 : BitVec 32 := Scf.iv c0_i32_185 c1_i32_187 k0_t6
  let v1641 : BitVec 32 := Scalar.addi c128_i32_2194 arg14
  let v1642 : Index := Scalar.indexCast v1641
  let c32_2195 : Index := 32#32
  ![v1642.toNat, 32]
def k0_off89 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1654 : Index := Scalar.indexCast arg14
  let c48 : Index := 48#32
  ![v1654.toNat, 48]
def k0_off90 (k0_t6 : Fin k0_t6_loop.trips) : Fin 2 → Nat :=
  let c128_i32_2201 : BitVec 32 := 128#32
  let c0_i32_185 : BitVec 32 := 0#32
  let c1_i32_187 : BitVec 32 := 1#32
  let arg14 : BitVec 32 := Scf.iv c0_i32_185 c1_i32_187 k0_t6
  let v1657 : BitVec 32 := Scalar.addi c128_i32_2201 arg14
  let v1658 : Index := Scalar.indexCast v1657
  let c48_2202 : Index := 48#32
  ![v1658.toNat, 48]
def k0_off91 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1670 : Index := Scalar.indexCast arg14
  let c64 : Index := 64#32
  ![v1670.toNat, 64]
def k0_off92 (k0_t6 : Fin k0_t6_loop.trips) : Fin 2 → Nat :=
  let c128_i32_2208 : BitVec 32 := 128#32
  let c0_i32_185 : BitVec 32 := 0#32
  let c1_i32_187 : BitVec 32 := 1#32
  let arg14 : BitVec 32 := Scf.iv c0_i32_185 c1_i32_187 k0_t6
  let v1673 : BitVec 32 := Scalar.addi c128_i32_2208 arg14
  let v1674 : Index := Scalar.indexCast v1673
  let c64_2209 : Index := 64#32
  ![v1674.toNat, 64]
def k0_off93 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1686 : Index := Scalar.indexCast arg14
  let c80 : Index := 80#32
  ![v1686.toNat, 80]
def k0_off94 (k0_t6 : Fin k0_t6_loop.trips) : Fin 2 → Nat :=
  let c128_i32_2215 : BitVec 32 := 128#32
  let c0_i32_185 : BitVec 32 := 0#32
  let c1_i32_187 : BitVec 32 := 1#32
  let arg14 : BitVec 32 := Scf.iv c0_i32_185 c1_i32_187 k0_t6
  let v1689 : BitVec 32 := Scalar.addi c128_i32_2215 arg14
  let v1690 : Index := Scalar.indexCast v1689
  let c80_2216 : Index := 80#32
  ![v1690.toNat, 80]
def k0_off95 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1702 : Index := Scalar.indexCast arg14
  let c96 : Index := 96#32
  ![v1702.toNat, 96]
def k0_off96 (k0_t6 : Fin k0_t6_loop.trips) : Fin 2 → Nat :=
  let c128_i32_2222 : BitVec 32 := 128#32
  let c0_i32_185 : BitVec 32 := 0#32
  let c1_i32_187 : BitVec 32 := 1#32
  let arg14 : BitVec 32 := Scf.iv c0_i32_185 c1_i32_187 k0_t6
  let v1705 : BitVec 32 := Scalar.addi c128_i32_2222 arg14
  let v1706 : Index := Scalar.indexCast v1705
  let c96_2223 : Index := 96#32
  ![v1706.toNat, 96]
def k0_off97 (k0_t6 : Fin k0_t6_loop.trips) : Fin 2 → Nat :=
  let c0_i32_185 : BitVec 32 := 0#32
  let c1_i32_187 : BitVec 32 := 1#32
  let arg14 : BitVec 32 := Scf.iv c0_i32_185 c1_i32_187 k0_t6
  let v1718 : Index := Scalar.indexCast arg14
  let c112 : Index := 112#32
  ![v1718.toNat, 112]
def k0_off98 (k0_t6 : Fin k0_t6_loop.trips) : Fin 2 → Nat :=
  let c128_i32_2229 : BitVec 32 := 128#32
  let c0_i32_185 : BitVec 32 := 0#32
  let c1_i32_187 : BitVec 32 := 1#32
  let arg14 : BitVec 32 := Scf.iv c0_i32_185 c1_i32_187 k0_t6
  let v1721 : BitVec 32 := Scalar.addi c128_i32_2229 arg14
  let v1722 : Index := Scalar.indexCast v1721
  let c112_2230 : Index := 112#32
  ![v1722.toNat, 112]
@[reducible] def k0_t7_loop : Scf.Loop 32 :=
  let c0_i32_219 : BitVec 32 := 0#32
  let c128_i32_220 : BitVec 32 := 128#32
  let v162 : BitVec 32 := Scalar.addi c0_i32_219 c128_i32_220
  let c1_i32_221 : BitVec 32 := 1#32
  ⟨c0_i32_219, v162, c1_i32_221⟩
def k0_off99 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1606 : Index := Scalar.indexCast arg14
  let c0 : Index := 0#32
  ![v1606.toNat, 0]
def k0_off100 (k0_t7 : Fin k0_t7_loop.trips) : Fin 2 → Nat :=
  let c0_i32_2180 : BitVec 32 := 0#32
  let c0_i32_219 : BitVec 32 := 0#32
  let c1_i32_221 : BitVec 32 := 1#32
  let arg14 : BitVec 32 := Scf.iv c0_i32_219 c1_i32_221 k0_t7
  let v1609 : BitVec 32 := Scalar.addi c0_i32_2180 arg14
  let v1610 : Index := Scalar.indexCast v1609
  let c0_2181 : Index := 0#32
  ![v1610.toNat, 0]
def k0_off101 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1622 : Index := Scalar.indexCast arg14
  let c16 : Index := 16#32
  ![v1622.toNat, 16]
def k0_off102 (k0_t7 : Fin k0_t7_loop.trips) : Fin 2 → Nat :=
  let c0_i32_2187 : BitVec 32 := 0#32
  let c0_i32_219 : BitVec 32 := 0#32
  let c1_i32_221 : BitVec 32 := 1#32
  let arg14 : BitVec 32 := Scf.iv c0_i32_219 c1_i32_221 k0_t7
  let v1625 : BitVec 32 := Scalar.addi c0_i32_2187 arg14
  let v1626 : Index := Scalar.indexCast v1625
  let c16_2188 : Index := 16#32
  ![v1626.toNat, 16]
def k0_off103 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1638 : Index := Scalar.indexCast arg14
  let c32 : Index := 32#32
  ![v1638.toNat, 32]
def k0_off104 (k0_t7 : Fin k0_t7_loop.trips) : Fin 2 → Nat :=
  let c0_i32_2194 : BitVec 32 := 0#32
  let c0_i32_219 : BitVec 32 := 0#32
  let c1_i32_221 : BitVec 32 := 1#32
  let arg14 : BitVec 32 := Scf.iv c0_i32_219 c1_i32_221 k0_t7
  let v1641 : BitVec 32 := Scalar.addi c0_i32_2194 arg14
  let v1642 : Index := Scalar.indexCast v1641
  let c32_2195 : Index := 32#32
  ![v1642.toNat, 32]
def k0_off105 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1654 : Index := Scalar.indexCast arg14
  let c48 : Index := 48#32
  ![v1654.toNat, 48]
def k0_off106 (k0_t7 : Fin k0_t7_loop.trips) : Fin 2 → Nat :=
  let c0_i32_2201 : BitVec 32 := 0#32
  let c0_i32_219 : BitVec 32 := 0#32
  let c1_i32_221 : BitVec 32 := 1#32
  let arg14 : BitVec 32 := Scf.iv c0_i32_219 c1_i32_221 k0_t7
  let v1657 : BitVec 32 := Scalar.addi c0_i32_2201 arg14
  let v1658 : Index := Scalar.indexCast v1657
  let c48_2202 : Index := 48#32
  ![v1658.toNat, 48]
def k0_off107 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1670 : Index := Scalar.indexCast arg14
  let c64 : Index := 64#32
  ![v1670.toNat, 64]
def k0_off108 (k0_t7 : Fin k0_t7_loop.trips) : Fin 2 → Nat :=
  let c0_i32_2208 : BitVec 32 := 0#32
  let c0_i32_219 : BitVec 32 := 0#32
  let c1_i32_221 : BitVec 32 := 1#32
  let arg14 : BitVec 32 := Scf.iv c0_i32_219 c1_i32_221 k0_t7
  let v1673 : BitVec 32 := Scalar.addi c0_i32_2208 arg14
  let v1674 : Index := Scalar.indexCast v1673
  let c64_2209 : Index := 64#32
  ![v1674.toNat, 64]
def k0_off109 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1686 : Index := Scalar.indexCast arg14
  let c80 : Index := 80#32
  ![v1686.toNat, 80]
def k0_off110 (k0_t7 : Fin k0_t7_loop.trips) : Fin 2 → Nat :=
  let c0_i32_2215 : BitVec 32 := 0#32
  let c0_i32_219 : BitVec 32 := 0#32
  let c1_i32_221 : BitVec 32 := 1#32
  let arg14 : BitVec 32 := Scf.iv c0_i32_219 c1_i32_221 k0_t7
  let v1689 : BitVec 32 := Scalar.addi c0_i32_2215 arg14
  let v1690 : Index := Scalar.indexCast v1689
  let c80_2216 : Index := 80#32
  ![v1690.toNat, 80]
def k0_off111 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1702 : Index := Scalar.indexCast arg14
  let c96 : Index := 96#32
  ![v1702.toNat, 96]
def k0_off112 (k0_t7 : Fin k0_t7_loop.trips) : Fin 2 → Nat :=
  let c0_i32_2222 : BitVec 32 := 0#32
  let c0_i32_219 : BitVec 32 := 0#32
  let c1_i32_221 : BitVec 32 := 1#32
  let arg14 : BitVec 32 := Scf.iv c0_i32_219 c1_i32_221 k0_t7
  let v1705 : BitVec 32 := Scalar.addi c0_i32_2222 arg14
  let v1706 : Index := Scalar.indexCast v1705
  let c96_2223 : Index := 96#32
  ![v1706.toNat, 96]
def k0_off113 (k0_t7 : Fin k0_t7_loop.trips) : Fin 2 → Nat :=
  let c0_i32_219 : BitVec 32 := 0#32
  let c1_i32_221 : BitVec 32 := 1#32
  let arg14 : BitVec 32 := Scf.iv c0_i32_219 c1_i32_221 k0_t7
  let v1718 : Index := Scalar.indexCast arg14
  let c112 : Index := 112#32
  ![v1718.toNat, 112]
def k0_off114 (k0_t7 : Fin k0_t7_loop.trips) : Fin 2 → Nat :=
  let c0_i32_2229 : BitVec 32 := 0#32
  let c0_i32_219 : BitVec 32 := 0#32
  let c1_i32_221 : BitVec 32 := 1#32
  let arg14 : BitVec 32 := Scf.iv c0_i32_219 c1_i32_221 k0_t7
  let v1721 : BitVec 32 := Scalar.addi c0_i32_2229 arg14
  let v1722 : Index := Scalar.indexCast v1721
  let c112_2230 : Index := 112#32
  ![v1722.toNat, 112]
@[reducible] def k0_t8_loop : Scf.Loop 32 :=
  let c0_i32_253 : BitVec 32 := 0#32
  let c128_i32_254 : BitVec 32 := 128#32
  let v187 : BitVec 32 := Scalar.addi c0_i32_253 c128_i32_254
  let c1_i32_255 : BitVec 32 := 1#32
  ⟨c0_i32_253, v187, c1_i32_255⟩
def k0_off115 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1606 : Index := Scalar.indexCast arg14
  let c0 : Index := 0#32
  ![v1606.toNat, 0]
def k0_off116 (k0_t8 : Fin k0_t8_loop.trips) : Fin 2 → Nat :=
  let c128_i32_2180 : BitVec 32 := 128#32
  let c0_i32_253 : BitVec 32 := 0#32
  let c1_i32_255 : BitVec 32 := 1#32
  let arg14 : BitVec 32 := Scf.iv c0_i32_253 c1_i32_255 k0_t8
  let v1609 : BitVec 32 := Scalar.addi c128_i32_2180 arg14
  let v1610 : Index := Scalar.indexCast v1609
  let c0_2181 : Index := 0#32
  ![v1610.toNat, 0]
def k0_off117 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1622 : Index := Scalar.indexCast arg14
  let c16 : Index := 16#32
  ![v1622.toNat, 16]
def k0_off118 (k0_t8 : Fin k0_t8_loop.trips) : Fin 2 → Nat :=
  let c128_i32_2187 : BitVec 32 := 128#32
  let c0_i32_253 : BitVec 32 := 0#32
  let c1_i32_255 : BitVec 32 := 1#32
  let arg14 : BitVec 32 := Scf.iv c0_i32_253 c1_i32_255 k0_t8
  let v1625 : BitVec 32 := Scalar.addi c128_i32_2187 arg14
  let v1626 : Index := Scalar.indexCast v1625
  let c16_2188 : Index := 16#32
  ![v1626.toNat, 16]
def k0_off119 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1638 : Index := Scalar.indexCast arg14
  let c32 : Index := 32#32
  ![v1638.toNat, 32]
def k0_off120 (k0_t8 : Fin k0_t8_loop.trips) : Fin 2 → Nat :=
  let c128_i32_2194 : BitVec 32 := 128#32
  let c0_i32_253 : BitVec 32 := 0#32
  let c1_i32_255 : BitVec 32 := 1#32
  let arg14 : BitVec 32 := Scf.iv c0_i32_253 c1_i32_255 k0_t8
  let v1641 : BitVec 32 := Scalar.addi c128_i32_2194 arg14
  let v1642 : Index := Scalar.indexCast v1641
  let c32_2195 : Index := 32#32
  ![v1642.toNat, 32]
def k0_off121 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1654 : Index := Scalar.indexCast arg14
  let c48 : Index := 48#32
  ![v1654.toNat, 48]
def k0_off122 (k0_t8 : Fin k0_t8_loop.trips) : Fin 2 → Nat :=
  let c128_i32_2201 : BitVec 32 := 128#32
  let c0_i32_253 : BitVec 32 := 0#32
  let c1_i32_255 : BitVec 32 := 1#32
  let arg14 : BitVec 32 := Scf.iv c0_i32_253 c1_i32_255 k0_t8
  let v1657 : BitVec 32 := Scalar.addi c128_i32_2201 arg14
  let v1658 : Index := Scalar.indexCast v1657
  let c48_2202 : Index := 48#32
  ![v1658.toNat, 48]
def k0_off123 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1670 : Index := Scalar.indexCast arg14
  let c64 : Index := 64#32
  ![v1670.toNat, 64]
def k0_off124 (k0_t8 : Fin k0_t8_loop.trips) : Fin 2 → Nat :=
  let c128_i32_2208 : BitVec 32 := 128#32
  let c0_i32_253 : BitVec 32 := 0#32
  let c1_i32_255 : BitVec 32 := 1#32
  let arg14 : BitVec 32 := Scf.iv c0_i32_253 c1_i32_255 k0_t8
  let v1673 : BitVec 32 := Scalar.addi c128_i32_2208 arg14
  let v1674 : Index := Scalar.indexCast v1673
  let c64_2209 : Index := 64#32
  ![v1674.toNat, 64]
def k0_off125 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1686 : Index := Scalar.indexCast arg14
  let c80 : Index := 80#32
  ![v1686.toNat, 80]
def k0_off126 (k0_t8 : Fin k0_t8_loop.trips) : Fin 2 → Nat :=
  let c128_i32_2215 : BitVec 32 := 128#32
  let c0_i32_253 : BitVec 32 := 0#32
  let c1_i32_255 : BitVec 32 := 1#32
  let arg14 : BitVec 32 := Scf.iv c0_i32_253 c1_i32_255 k0_t8
  let v1689 : BitVec 32 := Scalar.addi c128_i32_2215 arg14
  let v1690 : Index := Scalar.indexCast v1689
  let c80_2216 : Index := 80#32
  ![v1690.toNat, 80]
def k0_off127 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1702 : Index := Scalar.indexCast arg14
  let c96 : Index := 96#32
  ![v1702.toNat, 96]
def k0_off128 (k0_t8 : Fin k0_t8_loop.trips) : Fin 2 → Nat :=
  let c128_i32_2222 : BitVec 32 := 128#32
  let c0_i32_253 : BitVec 32 := 0#32
  let c1_i32_255 : BitVec 32 := 1#32
  let arg14 : BitVec 32 := Scf.iv c0_i32_253 c1_i32_255 k0_t8
  let v1705 : BitVec 32 := Scalar.addi c128_i32_2222 arg14
  let v1706 : Index := Scalar.indexCast v1705
  let c96_2223 : Index := 96#32
  ![v1706.toNat, 96]
def k0_off129 (k0_t8 : Fin k0_t8_loop.trips) : Fin 2 → Nat :=
  let c0_i32_253 : BitVec 32 := 0#32
  let c1_i32_255 : BitVec 32 := 1#32
  let arg14 : BitVec 32 := Scf.iv c0_i32_253 c1_i32_255 k0_t8
  let v1718 : Index := Scalar.indexCast arg14
  let c112 : Index := 112#32
  ![v1718.toNat, 112]
def k0_off130 (k0_t8 : Fin k0_t8_loop.trips) : Fin 2 → Nat :=
  let c128_i32_2229 : BitVec 32 := 128#32
  let c0_i32_253 : BitVec 32 := 0#32
  let c1_i32_255 : BitVec 32 := 1#32
  let arg14 : BitVec 32 := Scf.iv c0_i32_253 c1_i32_255 k0_t8
  let v1721 : BitVec 32 := Scalar.addi c128_i32_2229 arg14
  let v1722 : Index := Scalar.indexCast v1721
  let c112_2230 : Index := 112#32
  ![v1722.toNat, 112]
@[reducible] def k0_t9_loop : Scf.Loop 32 :=
  let c0_i32_287 : BitVec 32 := 0#32
  let c128_i32_288 : BitVec 32 := 128#32
  let v212 : BitVec 32 := Scalar.addi c0_i32_287 c128_i32_288
  let c1_i32_289 : BitVec 32 := 1#32
  ⟨c0_i32_287, v212, c1_i32_289⟩
def k0_off131 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1606 : Index := Scalar.indexCast arg14
  let c0 : Index := 0#32
  ![v1606.toNat, 0]
def k0_off132 (k0_t9 : Fin k0_t9_loop.trips) : Fin 2 → Nat :=
  let c0_i32_2180 : BitVec 32 := 0#32
  let c0_i32_287 : BitVec 32 := 0#32
  let c1_i32_289 : BitVec 32 := 1#32
  let arg14 : BitVec 32 := Scf.iv c0_i32_287 c1_i32_289 k0_t9
  let v1609 : BitVec 32 := Scalar.addi c0_i32_2180 arg14
  let v1610 : Index := Scalar.indexCast v1609
  let c0_2181 : Index := 0#32
  ![v1610.toNat, 0]
def k0_off133 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1622 : Index := Scalar.indexCast arg14
  let c16 : Index := 16#32
  ![v1622.toNat, 16]
def k0_off134 (k0_t9 : Fin k0_t9_loop.trips) : Fin 2 → Nat :=
  let c0_i32_2187 : BitVec 32 := 0#32
  let c0_i32_287 : BitVec 32 := 0#32
  let c1_i32_289 : BitVec 32 := 1#32
  let arg14 : BitVec 32 := Scf.iv c0_i32_287 c1_i32_289 k0_t9
  let v1625 : BitVec 32 := Scalar.addi c0_i32_2187 arg14
  let v1626 : Index := Scalar.indexCast v1625
  let c16_2188 : Index := 16#32
  ![v1626.toNat, 16]
def k0_off135 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1638 : Index := Scalar.indexCast arg14
  let c32 : Index := 32#32
  ![v1638.toNat, 32]
def k0_off136 (k0_t9 : Fin k0_t9_loop.trips) : Fin 2 → Nat :=
  let c0_i32_2194 : BitVec 32 := 0#32
  let c0_i32_287 : BitVec 32 := 0#32
  let c1_i32_289 : BitVec 32 := 1#32
  let arg14 : BitVec 32 := Scf.iv c0_i32_287 c1_i32_289 k0_t9
  let v1641 : BitVec 32 := Scalar.addi c0_i32_2194 arg14
  let v1642 : Index := Scalar.indexCast v1641
  let c32_2195 : Index := 32#32
  ![v1642.toNat, 32]
def k0_off137 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1654 : Index := Scalar.indexCast arg14
  let c48 : Index := 48#32
  ![v1654.toNat, 48]
def k0_off138 (k0_t9 : Fin k0_t9_loop.trips) : Fin 2 → Nat :=
  let c0_i32_2201 : BitVec 32 := 0#32
  let c0_i32_287 : BitVec 32 := 0#32
  let c1_i32_289 : BitVec 32 := 1#32
  let arg14 : BitVec 32 := Scf.iv c0_i32_287 c1_i32_289 k0_t9
  let v1657 : BitVec 32 := Scalar.addi c0_i32_2201 arg14
  let v1658 : Index := Scalar.indexCast v1657
  let c48_2202 : Index := 48#32
  ![v1658.toNat, 48]
def k0_off139 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1670 : Index := Scalar.indexCast arg14
  let c64 : Index := 64#32
  ![v1670.toNat, 64]
def k0_off140 (k0_t9 : Fin k0_t9_loop.trips) : Fin 2 → Nat :=
  let c0_i32_2208 : BitVec 32 := 0#32
  let c0_i32_287 : BitVec 32 := 0#32
  let c1_i32_289 : BitVec 32 := 1#32
  let arg14 : BitVec 32 := Scf.iv c0_i32_287 c1_i32_289 k0_t9
  let v1673 : BitVec 32 := Scalar.addi c0_i32_2208 arg14
  let v1674 : Index := Scalar.indexCast v1673
  let c64_2209 : Index := 64#32
  ![v1674.toNat, 64]
def k0_off141 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1686 : Index := Scalar.indexCast arg14
  let c80 : Index := 80#32
  ![v1686.toNat, 80]
def k0_off142 (k0_t9 : Fin k0_t9_loop.trips) : Fin 2 → Nat :=
  let c0_i32_2215 : BitVec 32 := 0#32
  let c0_i32_287 : BitVec 32 := 0#32
  let c1_i32_289 : BitVec 32 := 1#32
  let arg14 : BitVec 32 := Scf.iv c0_i32_287 c1_i32_289 k0_t9
  let v1689 : BitVec 32 := Scalar.addi c0_i32_2215 arg14
  let v1690 : Index := Scalar.indexCast v1689
  let c80_2216 : Index := 80#32
  ![v1690.toNat, 80]
def k0_off143 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1702 : Index := Scalar.indexCast arg14
  let c96 : Index := 96#32
  ![v1702.toNat, 96]
def k0_off144 (k0_t9 : Fin k0_t9_loop.trips) : Fin 2 → Nat :=
  let c0_i32_2222 : BitVec 32 := 0#32
  let c0_i32_287 : BitVec 32 := 0#32
  let c1_i32_289 : BitVec 32 := 1#32
  let arg14 : BitVec 32 := Scf.iv c0_i32_287 c1_i32_289 k0_t9
  let v1705 : BitVec 32 := Scalar.addi c0_i32_2222 arg14
  let v1706 : Index := Scalar.indexCast v1705
  let c96_2223 : Index := 96#32
  ![v1706.toNat, 96]
def k0_off145 (k0_t9 : Fin k0_t9_loop.trips) : Fin 2 → Nat :=
  let c0_i32_287 : BitVec 32 := 0#32
  let c1_i32_289 : BitVec 32 := 1#32
  let arg14 : BitVec 32 := Scf.iv c0_i32_287 c1_i32_289 k0_t9
  let v1718 : Index := Scalar.indexCast arg14
  let c112 : Index := 112#32
  ![v1718.toNat, 112]
def k0_off146 (k0_t9 : Fin k0_t9_loop.trips) : Fin 2 → Nat :=
  let c0_i32_2229 : BitVec 32 := 0#32
  let c0_i32_287 : BitVec 32 := 0#32
  let c1_i32_289 : BitVec 32 := 1#32
  let arg14 : BitVec 32 := Scf.iv c0_i32_287 c1_i32_289 k0_t9
  let v1721 : BitVec 32 := Scalar.addi c0_i32_2229 arg14
  let v1722 : Index := Scalar.indexCast v1721
  let c112_2230 : Index := 112#32
  ![v1722.toNat, 112]
@[reducible] def k0_t10_loop : Scf.Loop 32 :=
  let c0_i32_321 : BitVec 32 := 0#32
  let c128_i32_322 : BitVec 32 := 128#32
  let v237 : BitVec 32 := Scalar.addi c0_i32_321 c128_i32_322
  let c1_i32_323 : BitVec 32 := 1#32
  ⟨c0_i32_321, v237, c1_i32_323⟩
def k0_off147 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1606 : Index := Scalar.indexCast arg14
  let c0 : Index := 0#32
  ![v1606.toNat, 0]
def k0_off148 (k0_t10 : Fin k0_t10_loop.trips) : Fin 2 → Nat :=
  let c128_i32_2180 : BitVec 32 := 128#32
  let c0_i32_321 : BitVec 32 := 0#32
  let c1_i32_323 : BitVec 32 := 1#32
  let arg14 : BitVec 32 := Scf.iv c0_i32_321 c1_i32_323 k0_t10
  let v1609 : BitVec 32 := Scalar.addi c128_i32_2180 arg14
  let v1610 : Index := Scalar.indexCast v1609
  let c0_2181 : Index := 0#32
  ![v1610.toNat, 0]
def k0_off149 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1622 : Index := Scalar.indexCast arg14
  let c16 : Index := 16#32
  ![v1622.toNat, 16]
def k0_off150 (k0_t10 : Fin k0_t10_loop.trips) : Fin 2 → Nat :=
  let c128_i32_2187 : BitVec 32 := 128#32
  let c0_i32_321 : BitVec 32 := 0#32
  let c1_i32_323 : BitVec 32 := 1#32
  let arg14 : BitVec 32 := Scf.iv c0_i32_321 c1_i32_323 k0_t10
  let v1625 : BitVec 32 := Scalar.addi c128_i32_2187 arg14
  let v1626 : Index := Scalar.indexCast v1625
  let c16_2188 : Index := 16#32
  ![v1626.toNat, 16]
def k0_off151 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1638 : Index := Scalar.indexCast arg14
  let c32 : Index := 32#32
  ![v1638.toNat, 32]
def k0_off152 (k0_t10 : Fin k0_t10_loop.trips) : Fin 2 → Nat :=
  let c128_i32_2194 : BitVec 32 := 128#32
  let c0_i32_321 : BitVec 32 := 0#32
  let c1_i32_323 : BitVec 32 := 1#32
  let arg14 : BitVec 32 := Scf.iv c0_i32_321 c1_i32_323 k0_t10
  let v1641 : BitVec 32 := Scalar.addi c128_i32_2194 arg14
  let v1642 : Index := Scalar.indexCast v1641
  let c32_2195 : Index := 32#32
  ![v1642.toNat, 32]
def k0_off153 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1654 : Index := Scalar.indexCast arg14
  let c48 : Index := 48#32
  ![v1654.toNat, 48]
def k0_off154 (k0_t10 : Fin k0_t10_loop.trips) : Fin 2 → Nat :=
  let c128_i32_2201 : BitVec 32 := 128#32
  let c0_i32_321 : BitVec 32 := 0#32
  let c1_i32_323 : BitVec 32 := 1#32
  let arg14 : BitVec 32 := Scf.iv c0_i32_321 c1_i32_323 k0_t10
  let v1657 : BitVec 32 := Scalar.addi c128_i32_2201 arg14
  let v1658 : Index := Scalar.indexCast v1657
  let c48_2202 : Index := 48#32
  ![v1658.toNat, 48]
def k0_off155 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1670 : Index := Scalar.indexCast arg14
  let c64 : Index := 64#32
  ![v1670.toNat, 64]
def k0_off156 (k0_t10 : Fin k0_t10_loop.trips) : Fin 2 → Nat :=
  let c128_i32_2208 : BitVec 32 := 128#32
  let c0_i32_321 : BitVec 32 := 0#32
  let c1_i32_323 : BitVec 32 := 1#32
  let arg14 : BitVec 32 := Scf.iv c0_i32_321 c1_i32_323 k0_t10
  let v1673 : BitVec 32 := Scalar.addi c128_i32_2208 arg14
  let v1674 : Index := Scalar.indexCast v1673
  let c64_2209 : Index := 64#32
  ![v1674.toNat, 64]
def k0_off157 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1686 : Index := Scalar.indexCast arg14
  let c80 : Index := 80#32
  ![v1686.toNat, 80]
def k0_off158 (k0_t10 : Fin k0_t10_loop.trips) : Fin 2 → Nat :=
  let c128_i32_2215 : BitVec 32 := 128#32
  let c0_i32_321 : BitVec 32 := 0#32
  let c1_i32_323 : BitVec 32 := 1#32
  let arg14 : BitVec 32 := Scf.iv c0_i32_321 c1_i32_323 k0_t10
  let v1689 : BitVec 32 := Scalar.addi c128_i32_2215 arg14
  let v1690 : Index := Scalar.indexCast v1689
  let c80_2216 : Index := 80#32
  ![v1690.toNat, 80]
def k0_off159 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1702 : Index := Scalar.indexCast arg14
  let c96 : Index := 96#32
  ![v1702.toNat, 96]
def k0_off160 (k0_t10 : Fin k0_t10_loop.trips) : Fin 2 → Nat :=
  let c128_i32_2222 : BitVec 32 := 128#32
  let c0_i32_321 : BitVec 32 := 0#32
  let c1_i32_323 : BitVec 32 := 1#32
  let arg14 : BitVec 32 := Scf.iv c0_i32_321 c1_i32_323 k0_t10
  let v1705 : BitVec 32 := Scalar.addi c128_i32_2222 arg14
  let v1706 : Index := Scalar.indexCast v1705
  let c96_2223 : Index := 96#32
  ![v1706.toNat, 96]
def k0_off161 (k0_t10 : Fin k0_t10_loop.trips) : Fin 2 → Nat :=
  let c0_i32_321 : BitVec 32 := 0#32
  let c1_i32_323 : BitVec 32 := 1#32
  let arg14 : BitVec 32 := Scf.iv c0_i32_321 c1_i32_323 k0_t10
  let v1718 : Index := Scalar.indexCast arg14
  let c112 : Index := 112#32
  ![v1718.toNat, 112]
def k0_off162 (k0_t10 : Fin k0_t10_loop.trips) : Fin 2 → Nat :=
  let c128_i32_2229 : BitVec 32 := 128#32
  let c0_i32_321 : BitVec 32 := 0#32
  let c1_i32_323 : BitVec 32 := 1#32
  let arg14 : BitVec 32 := Scf.iv c0_i32_321 c1_i32_323 k0_t10
  let v1721 : BitVec 32 := Scalar.addi c128_i32_2229 arg14
  let v1722 : Index := Scalar.indexCast v1721
  let c112_2230 : Index := 112#32
  ![v1722.toNat, 112]
@[reducible] def k0_t11_loop : Scf.Loop 32 :=
  let c0_i32_355 : BitVec 32 := 0#32
  let c128_i32_356 : BitVec 32 := 128#32
  let v262 : BitVec 32 := Scalar.addi c0_i32_355 c128_i32_356
  let c1_i32_357 : BitVec 32 := 1#32
  ⟨c0_i32_355, v262, c1_i32_357⟩
def k0_off163 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1606 : Index := Scalar.indexCast arg14
  let c0 : Index := 0#32
  ![v1606.toNat, 0]
def k0_off164 (k0_t11 : Fin k0_t11_loop.trips) : Fin 2 → Nat :=
  let c0_i32_2180 : BitVec 32 := 0#32
  let c0_i32_355 : BitVec 32 := 0#32
  let c1_i32_357 : BitVec 32 := 1#32
  let arg14 : BitVec 32 := Scf.iv c0_i32_355 c1_i32_357 k0_t11
  let v1609 : BitVec 32 := Scalar.addi c0_i32_2180 arg14
  let v1610 : Index := Scalar.indexCast v1609
  let c0_2181 : Index := 0#32
  ![v1610.toNat, 0]
def k0_off165 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1622 : Index := Scalar.indexCast arg14
  let c16 : Index := 16#32
  ![v1622.toNat, 16]
def k0_off166 (k0_t11 : Fin k0_t11_loop.trips) : Fin 2 → Nat :=
  let c0_i32_2187 : BitVec 32 := 0#32
  let c0_i32_355 : BitVec 32 := 0#32
  let c1_i32_357 : BitVec 32 := 1#32
  let arg14 : BitVec 32 := Scf.iv c0_i32_355 c1_i32_357 k0_t11
  let v1625 : BitVec 32 := Scalar.addi c0_i32_2187 arg14
  let v1626 : Index := Scalar.indexCast v1625
  let c16_2188 : Index := 16#32
  ![v1626.toNat, 16]
def k0_off167 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1638 : Index := Scalar.indexCast arg14
  let c32 : Index := 32#32
  ![v1638.toNat, 32]
def k0_off168 (k0_t11 : Fin k0_t11_loop.trips) : Fin 2 → Nat :=
  let c0_i32_2194 : BitVec 32 := 0#32
  let c0_i32_355 : BitVec 32 := 0#32
  let c1_i32_357 : BitVec 32 := 1#32
  let arg14 : BitVec 32 := Scf.iv c0_i32_355 c1_i32_357 k0_t11
  let v1641 : BitVec 32 := Scalar.addi c0_i32_2194 arg14
  let v1642 : Index := Scalar.indexCast v1641
  let c32_2195 : Index := 32#32
  ![v1642.toNat, 32]
def k0_off169 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1654 : Index := Scalar.indexCast arg14
  let c48 : Index := 48#32
  ![v1654.toNat, 48]
def k0_off170 (k0_t11 : Fin k0_t11_loop.trips) : Fin 2 → Nat :=
  let c0_i32_2201 : BitVec 32 := 0#32
  let c0_i32_355 : BitVec 32 := 0#32
  let c1_i32_357 : BitVec 32 := 1#32
  let arg14 : BitVec 32 := Scf.iv c0_i32_355 c1_i32_357 k0_t11
  let v1657 : BitVec 32 := Scalar.addi c0_i32_2201 arg14
  let v1658 : Index := Scalar.indexCast v1657
  let c48_2202 : Index := 48#32
  ![v1658.toNat, 48]
def k0_off171 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1670 : Index := Scalar.indexCast arg14
  let c64 : Index := 64#32
  ![v1670.toNat, 64]
def k0_off172 (k0_t11 : Fin k0_t11_loop.trips) : Fin 2 → Nat :=
  let c0_i32_2208 : BitVec 32 := 0#32
  let c0_i32_355 : BitVec 32 := 0#32
  let c1_i32_357 : BitVec 32 := 1#32
  let arg14 : BitVec 32 := Scf.iv c0_i32_355 c1_i32_357 k0_t11
  let v1673 : BitVec 32 := Scalar.addi c0_i32_2208 arg14
  let v1674 : Index := Scalar.indexCast v1673
  let c64_2209 : Index := 64#32
  ![v1674.toNat, 64]
def k0_off173 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1686 : Index := Scalar.indexCast arg14
  let c80 : Index := 80#32
  ![v1686.toNat, 80]
def k0_off174 (k0_t11 : Fin k0_t11_loop.trips) : Fin 2 → Nat :=
  let c0_i32_2215 : BitVec 32 := 0#32
  let c0_i32_355 : BitVec 32 := 0#32
  let c1_i32_357 : BitVec 32 := 1#32
  let arg14 : BitVec 32 := Scf.iv c0_i32_355 c1_i32_357 k0_t11
  let v1689 : BitVec 32 := Scalar.addi c0_i32_2215 arg14
  let v1690 : Index := Scalar.indexCast v1689
  let c80_2216 : Index := 80#32
  ![v1690.toNat, 80]
def k0_off175 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1702 : Index := Scalar.indexCast arg14
  let c96 : Index := 96#32
  ![v1702.toNat, 96]
def k0_off176 (k0_t11 : Fin k0_t11_loop.trips) : Fin 2 → Nat :=
  let c0_i32_2222 : BitVec 32 := 0#32
  let c0_i32_355 : BitVec 32 := 0#32
  let c1_i32_357 : BitVec 32 := 1#32
  let arg14 : BitVec 32 := Scf.iv c0_i32_355 c1_i32_357 k0_t11
  let v1705 : BitVec 32 := Scalar.addi c0_i32_2222 arg14
  let v1706 : Index := Scalar.indexCast v1705
  let c96_2223 : Index := 96#32
  ![v1706.toNat, 96]
def k0_off177 (k0_t11 : Fin k0_t11_loop.trips) : Fin 2 → Nat :=
  let c0_i32_355 : BitVec 32 := 0#32
  let c1_i32_357 : BitVec 32 := 1#32
  let arg14 : BitVec 32 := Scf.iv c0_i32_355 c1_i32_357 k0_t11
  let v1718 : Index := Scalar.indexCast arg14
  let c112 : Index := 112#32
  ![v1718.toNat, 112]
def k0_off178 (k0_t11 : Fin k0_t11_loop.trips) : Fin 2 → Nat :=
  let c0_i32_2229 : BitVec 32 := 0#32
  let c0_i32_355 : BitVec 32 := 0#32
  let c1_i32_357 : BitVec 32 := 1#32
  let arg14 : BitVec 32 := Scf.iv c0_i32_355 c1_i32_357 k0_t11
  let v1721 : BitVec 32 := Scalar.addi c0_i32_2229 arg14
  let v1722 : Index := Scalar.indexCast v1721
  let c112_2230 : Index := 112#32
  ![v1722.toNat, 112]
@[reducible] def k0_t12_loop : Scf.Loop 32 :=
  let c0_i32_389 : BitVec 32 := 0#32
  let c128_i32_390 : BitVec 32 := 128#32
  let v287 : BitVec 32 := Scalar.addi c0_i32_389 c128_i32_390
  let c1_i32_391 : BitVec 32 := 1#32
  ⟨c0_i32_389, v287, c1_i32_391⟩
def k0_off179 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1606 : Index := Scalar.indexCast arg14
  let c0 : Index := 0#32
  ![v1606.toNat, 0]
def k0_off180 (k0_t12 : Fin k0_t12_loop.trips) : Fin 2 → Nat :=
  let c128_i32_2180 : BitVec 32 := 128#32
  let c0_i32_389 : BitVec 32 := 0#32
  let c1_i32_391 : BitVec 32 := 1#32
  let arg14 : BitVec 32 := Scf.iv c0_i32_389 c1_i32_391 k0_t12
  let v1609 : BitVec 32 := Scalar.addi c128_i32_2180 arg14
  let v1610 : Index := Scalar.indexCast v1609
  let c0_2181 : Index := 0#32
  ![v1610.toNat, 0]
def k0_off181 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1622 : Index := Scalar.indexCast arg14
  let c16 : Index := 16#32
  ![v1622.toNat, 16]
def k0_off182 (k0_t12 : Fin k0_t12_loop.trips) : Fin 2 → Nat :=
  let c128_i32_2187 : BitVec 32 := 128#32
  let c0_i32_389 : BitVec 32 := 0#32
  let c1_i32_391 : BitVec 32 := 1#32
  let arg14 : BitVec 32 := Scf.iv c0_i32_389 c1_i32_391 k0_t12
  let v1625 : BitVec 32 := Scalar.addi c128_i32_2187 arg14
  let v1626 : Index := Scalar.indexCast v1625
  let c16_2188 : Index := 16#32
  ![v1626.toNat, 16]
def k0_off183 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1638 : Index := Scalar.indexCast arg14
  let c32 : Index := 32#32
  ![v1638.toNat, 32]
def k0_off184 (k0_t12 : Fin k0_t12_loop.trips) : Fin 2 → Nat :=
  let c128_i32_2194 : BitVec 32 := 128#32
  let c0_i32_389 : BitVec 32 := 0#32
  let c1_i32_391 : BitVec 32 := 1#32
  let arg14 : BitVec 32 := Scf.iv c0_i32_389 c1_i32_391 k0_t12
  let v1641 : BitVec 32 := Scalar.addi c128_i32_2194 arg14
  let v1642 : Index := Scalar.indexCast v1641
  let c32_2195 : Index := 32#32
  ![v1642.toNat, 32]
def k0_off185 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1654 : Index := Scalar.indexCast arg14
  let c48 : Index := 48#32
  ![v1654.toNat, 48]
def k0_off186 (k0_t12 : Fin k0_t12_loop.trips) : Fin 2 → Nat :=
  let c128_i32_2201 : BitVec 32 := 128#32
  let c0_i32_389 : BitVec 32 := 0#32
  let c1_i32_391 : BitVec 32 := 1#32
  let arg14 : BitVec 32 := Scf.iv c0_i32_389 c1_i32_391 k0_t12
  let v1657 : BitVec 32 := Scalar.addi c128_i32_2201 arg14
  let v1658 : Index := Scalar.indexCast v1657
  let c48_2202 : Index := 48#32
  ![v1658.toNat, 48]
def k0_off187 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1670 : Index := Scalar.indexCast arg14
  let c64 : Index := 64#32
  ![v1670.toNat, 64]
def k0_off188 (k0_t12 : Fin k0_t12_loop.trips) : Fin 2 → Nat :=
  let c128_i32_2208 : BitVec 32 := 128#32
  let c0_i32_389 : BitVec 32 := 0#32
  let c1_i32_391 : BitVec 32 := 1#32
  let arg14 : BitVec 32 := Scf.iv c0_i32_389 c1_i32_391 k0_t12
  let v1673 : BitVec 32 := Scalar.addi c128_i32_2208 arg14
  let v1674 : Index := Scalar.indexCast v1673
  let c64_2209 : Index := 64#32
  ![v1674.toNat, 64]
def k0_off189 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1686 : Index := Scalar.indexCast arg14
  let c80 : Index := 80#32
  ![v1686.toNat, 80]
def k0_off190 (k0_t12 : Fin k0_t12_loop.trips) : Fin 2 → Nat :=
  let c128_i32_2215 : BitVec 32 := 128#32
  let c0_i32_389 : BitVec 32 := 0#32
  let c1_i32_391 : BitVec 32 := 1#32
  let arg14 : BitVec 32 := Scf.iv c0_i32_389 c1_i32_391 k0_t12
  let v1689 : BitVec 32 := Scalar.addi c128_i32_2215 arg14
  let v1690 : Index := Scalar.indexCast v1689
  let c80_2216 : Index := 80#32
  ![v1690.toNat, 80]
def k0_off191 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1702 : Index := Scalar.indexCast arg14
  let c96 : Index := 96#32
  ![v1702.toNat, 96]
def k0_off192 (k0_t12 : Fin k0_t12_loop.trips) : Fin 2 → Nat :=
  let c128_i32_2222 : BitVec 32 := 128#32
  let c0_i32_389 : BitVec 32 := 0#32
  let c1_i32_391 : BitVec 32 := 1#32
  let arg14 : BitVec 32 := Scf.iv c0_i32_389 c1_i32_391 k0_t12
  let v1705 : BitVec 32 := Scalar.addi c128_i32_2222 arg14
  let v1706 : Index := Scalar.indexCast v1705
  let c96_2223 : Index := 96#32
  ![v1706.toNat, 96]
def k0_off193 (k0_t12 : Fin k0_t12_loop.trips) : Fin 2 → Nat :=
  let c0_i32_389 : BitVec 32 := 0#32
  let c1_i32_391 : BitVec 32 := 1#32
  let arg14 : BitVec 32 := Scf.iv c0_i32_389 c1_i32_391 k0_t12
  let v1718 : Index := Scalar.indexCast arg14
  let c112 : Index := 112#32
  ![v1718.toNat, 112]
def k0_off194 (k0_t12 : Fin k0_t12_loop.trips) : Fin 2 → Nat :=
  let c128_i32_2229 : BitVec 32 := 128#32
  let c0_i32_389 : BitVec 32 := 0#32
  let c1_i32_391 : BitVec 32 := 1#32
  let arg14 : BitVec 32 := Scf.iv c0_i32_389 c1_i32_391 k0_t12
  let v1721 : BitVec 32 := Scalar.addi c128_i32_2229 arg14
  let v1722 : Index := Scalar.indexCast v1721
  let c112_2230 : Index := 112#32
  ![v1722.toNat, 112]
@[reducible] def k0_t13_loop : Scf.Loop 32 :=
  let c0_i32_423 : BitVec 32 := 0#32
  let c128_i32_424 : BitVec 32 := 128#32
  let v312 : BitVec 32 := Scalar.addi c0_i32_423 c128_i32_424
  let c1_i32_425 : BitVec 32 := 1#32
  ⟨c0_i32_423, v312, c1_i32_425⟩
def k0_off195 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1606 : Index := Scalar.indexCast arg14
  let c0 : Index := 0#32
  ![v1606.toNat, 0]
def k0_off196 (k0_t13 : Fin k0_t13_loop.trips) : Fin 2 → Nat :=
  let c0_i32_2180 : BitVec 32 := 0#32
  let c0_i32_423 : BitVec 32 := 0#32
  let c1_i32_425 : BitVec 32 := 1#32
  let arg14 : BitVec 32 := Scf.iv c0_i32_423 c1_i32_425 k0_t13
  let v1609 : BitVec 32 := Scalar.addi c0_i32_2180 arg14
  let v1610 : Index := Scalar.indexCast v1609
  let c0_2181 : Index := 0#32
  ![v1610.toNat, 0]
def k0_off197 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1622 : Index := Scalar.indexCast arg14
  let c16 : Index := 16#32
  ![v1622.toNat, 16]
def k0_off198 (k0_t13 : Fin k0_t13_loop.trips) : Fin 2 → Nat :=
  let c0_i32_2187 : BitVec 32 := 0#32
  let c0_i32_423 : BitVec 32 := 0#32
  let c1_i32_425 : BitVec 32 := 1#32
  let arg14 : BitVec 32 := Scf.iv c0_i32_423 c1_i32_425 k0_t13
  let v1625 : BitVec 32 := Scalar.addi c0_i32_2187 arg14
  let v1626 : Index := Scalar.indexCast v1625
  let c16_2188 : Index := 16#32
  ![v1626.toNat, 16]
def k0_off199 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1638 : Index := Scalar.indexCast arg14
  let c32 : Index := 32#32
  ![v1638.toNat, 32]
def k0_off200 (k0_t13 : Fin k0_t13_loop.trips) : Fin 2 → Nat :=
  let c0_i32_2194 : BitVec 32 := 0#32
  let c0_i32_423 : BitVec 32 := 0#32
  let c1_i32_425 : BitVec 32 := 1#32
  let arg14 : BitVec 32 := Scf.iv c0_i32_423 c1_i32_425 k0_t13
  let v1641 : BitVec 32 := Scalar.addi c0_i32_2194 arg14
  let v1642 : Index := Scalar.indexCast v1641
  let c32_2195 : Index := 32#32
  ![v1642.toNat, 32]
def k0_off201 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1654 : Index := Scalar.indexCast arg14
  let c48 : Index := 48#32
  ![v1654.toNat, 48]
def k0_off202 (k0_t13 : Fin k0_t13_loop.trips) : Fin 2 → Nat :=
  let c0_i32_2201 : BitVec 32 := 0#32
  let c0_i32_423 : BitVec 32 := 0#32
  let c1_i32_425 : BitVec 32 := 1#32
  let arg14 : BitVec 32 := Scf.iv c0_i32_423 c1_i32_425 k0_t13
  let v1657 : BitVec 32 := Scalar.addi c0_i32_2201 arg14
  let v1658 : Index := Scalar.indexCast v1657
  let c48_2202 : Index := 48#32
  ![v1658.toNat, 48]
def k0_off203 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1670 : Index := Scalar.indexCast arg14
  let c64 : Index := 64#32
  ![v1670.toNat, 64]
def k0_off204 (k0_t13 : Fin k0_t13_loop.trips) : Fin 2 → Nat :=
  let c0_i32_2208 : BitVec 32 := 0#32
  let c0_i32_423 : BitVec 32 := 0#32
  let c1_i32_425 : BitVec 32 := 1#32
  let arg14 : BitVec 32 := Scf.iv c0_i32_423 c1_i32_425 k0_t13
  let v1673 : BitVec 32 := Scalar.addi c0_i32_2208 arg14
  let v1674 : Index := Scalar.indexCast v1673
  let c64_2209 : Index := 64#32
  ![v1674.toNat, 64]
def k0_off205 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1686 : Index := Scalar.indexCast arg14
  let c80 : Index := 80#32
  ![v1686.toNat, 80]
def k0_off206 (k0_t13 : Fin k0_t13_loop.trips) : Fin 2 → Nat :=
  let c0_i32_2215 : BitVec 32 := 0#32
  let c0_i32_423 : BitVec 32 := 0#32
  let c1_i32_425 : BitVec 32 := 1#32
  let arg14 : BitVec 32 := Scf.iv c0_i32_423 c1_i32_425 k0_t13
  let v1689 : BitVec 32 := Scalar.addi c0_i32_2215 arg14
  let v1690 : Index := Scalar.indexCast v1689
  let c80_2216 : Index := 80#32
  ![v1690.toNat, 80]
def k0_off207 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1702 : Index := Scalar.indexCast arg14
  let c96 : Index := 96#32
  ![v1702.toNat, 96]
def k0_off208 (k0_t13 : Fin k0_t13_loop.trips) : Fin 2 → Nat :=
  let c0_i32_2222 : BitVec 32 := 0#32
  let c0_i32_423 : BitVec 32 := 0#32
  let c1_i32_425 : BitVec 32 := 1#32
  let arg14 : BitVec 32 := Scf.iv c0_i32_423 c1_i32_425 k0_t13
  let v1705 : BitVec 32 := Scalar.addi c0_i32_2222 arg14
  let v1706 : Index := Scalar.indexCast v1705
  let c96_2223 : Index := 96#32
  ![v1706.toNat, 96]
def k0_off209 (k0_t13 : Fin k0_t13_loop.trips) : Fin 2 → Nat :=
  let c0_i32_423 : BitVec 32 := 0#32
  let c1_i32_425 : BitVec 32 := 1#32
  let arg14 : BitVec 32 := Scf.iv c0_i32_423 c1_i32_425 k0_t13
  let v1718 : Index := Scalar.indexCast arg14
  let c112 : Index := 112#32
  ![v1718.toNat, 112]
def k0_off210 (k0_t13 : Fin k0_t13_loop.trips) : Fin 2 → Nat :=
  let c0_i32_2229 : BitVec 32 := 0#32
  let c0_i32_423 : BitVec 32 := 0#32
  let c1_i32_425 : BitVec 32 := 1#32
  let arg14 : BitVec 32 := Scf.iv c0_i32_423 c1_i32_425 k0_t13
  let v1721 : BitVec 32 := Scalar.addi c0_i32_2229 arg14
  let v1722 : Index := Scalar.indexCast v1721
  let c112_2230 : Index := 112#32
  ![v1722.toNat, 112]
@[reducible] def k0_t14_loop : Scf.Loop 32 :=
  let c0_i32_457 : BitVec 32 := 0#32
  let c128_i32_458 : BitVec 32 := 128#32
  let v337 : BitVec 32 := Scalar.addi c0_i32_457 c128_i32_458
  let c1_i32_459 : BitVec 32 := 1#32
  ⟨c0_i32_457, v337, c1_i32_459⟩
def k0_off211 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1606 : Index := Scalar.indexCast arg14
  let c0 : Index := 0#32
  ![v1606.toNat, 0]
def k0_off212 (k0_t14 : Fin k0_t14_loop.trips) : Fin 2 → Nat :=
  let c128_i32_2180 : BitVec 32 := 128#32
  let c0_i32_457 : BitVec 32 := 0#32
  let c1_i32_459 : BitVec 32 := 1#32
  let arg14 : BitVec 32 := Scf.iv c0_i32_457 c1_i32_459 k0_t14
  let v1609 : BitVec 32 := Scalar.addi c128_i32_2180 arg14
  let v1610 : Index := Scalar.indexCast v1609
  let c0_2181 : Index := 0#32
  ![v1610.toNat, 0]
def k0_off213 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1622 : Index := Scalar.indexCast arg14
  let c16 : Index := 16#32
  ![v1622.toNat, 16]
def k0_off214 (k0_t14 : Fin k0_t14_loop.trips) : Fin 2 → Nat :=
  let c128_i32_2187 : BitVec 32 := 128#32
  let c0_i32_457 : BitVec 32 := 0#32
  let c1_i32_459 : BitVec 32 := 1#32
  let arg14 : BitVec 32 := Scf.iv c0_i32_457 c1_i32_459 k0_t14
  let v1625 : BitVec 32 := Scalar.addi c128_i32_2187 arg14
  let v1626 : Index := Scalar.indexCast v1625
  let c16_2188 : Index := 16#32
  ![v1626.toNat, 16]
def k0_off215 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1638 : Index := Scalar.indexCast arg14
  let c32 : Index := 32#32
  ![v1638.toNat, 32]
def k0_off216 (k0_t14 : Fin k0_t14_loop.trips) : Fin 2 → Nat :=
  let c128_i32_2194 : BitVec 32 := 128#32
  let c0_i32_457 : BitVec 32 := 0#32
  let c1_i32_459 : BitVec 32 := 1#32
  let arg14 : BitVec 32 := Scf.iv c0_i32_457 c1_i32_459 k0_t14
  let v1641 : BitVec 32 := Scalar.addi c128_i32_2194 arg14
  let v1642 : Index := Scalar.indexCast v1641
  let c32_2195 : Index := 32#32
  ![v1642.toNat, 32]
def k0_off217 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1654 : Index := Scalar.indexCast arg14
  let c48 : Index := 48#32
  ![v1654.toNat, 48]
def k0_off218 (k0_t14 : Fin k0_t14_loop.trips) : Fin 2 → Nat :=
  let c128_i32_2201 : BitVec 32 := 128#32
  let c0_i32_457 : BitVec 32 := 0#32
  let c1_i32_459 : BitVec 32 := 1#32
  let arg14 : BitVec 32 := Scf.iv c0_i32_457 c1_i32_459 k0_t14
  let v1657 : BitVec 32 := Scalar.addi c128_i32_2201 arg14
  let v1658 : Index := Scalar.indexCast v1657
  let c48_2202 : Index := 48#32
  ![v1658.toNat, 48]
def k0_off219 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1670 : Index := Scalar.indexCast arg14
  let c64 : Index := 64#32
  ![v1670.toNat, 64]
def k0_off220 (k0_t14 : Fin k0_t14_loop.trips) : Fin 2 → Nat :=
  let c128_i32_2208 : BitVec 32 := 128#32
  let c0_i32_457 : BitVec 32 := 0#32
  let c1_i32_459 : BitVec 32 := 1#32
  let arg14 : BitVec 32 := Scf.iv c0_i32_457 c1_i32_459 k0_t14
  let v1673 : BitVec 32 := Scalar.addi c128_i32_2208 arg14
  let v1674 : Index := Scalar.indexCast v1673
  let c64_2209 : Index := 64#32
  ![v1674.toNat, 64]
def k0_off221 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1686 : Index := Scalar.indexCast arg14
  let c80 : Index := 80#32
  ![v1686.toNat, 80]
def k0_off222 (k0_t14 : Fin k0_t14_loop.trips) : Fin 2 → Nat :=
  let c128_i32_2215 : BitVec 32 := 128#32
  let c0_i32_457 : BitVec 32 := 0#32
  let c1_i32_459 : BitVec 32 := 1#32
  let arg14 : BitVec 32 := Scf.iv c0_i32_457 c1_i32_459 k0_t14
  let v1689 : BitVec 32 := Scalar.addi c128_i32_2215 arg14
  let v1690 : Index := Scalar.indexCast v1689
  let c80_2216 : Index := 80#32
  ![v1690.toNat, 80]
def k0_off223 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1702 : Index := Scalar.indexCast arg14
  let c96 : Index := 96#32
  ![v1702.toNat, 96]
def k0_off224 (k0_t14 : Fin k0_t14_loop.trips) : Fin 2 → Nat :=
  let c128_i32_2222 : BitVec 32 := 128#32
  let c0_i32_457 : BitVec 32 := 0#32
  let c1_i32_459 : BitVec 32 := 1#32
  let arg14 : BitVec 32 := Scf.iv c0_i32_457 c1_i32_459 k0_t14
  let v1705 : BitVec 32 := Scalar.addi c128_i32_2222 arg14
  let v1706 : Index := Scalar.indexCast v1705
  let c96_2223 : Index := 96#32
  ![v1706.toNat, 96]
def k0_off225 (k0_t14 : Fin k0_t14_loop.trips) : Fin 2 → Nat :=
  let c0_i32_457 : BitVec 32 := 0#32
  let c1_i32_459 : BitVec 32 := 1#32
  let arg14 : BitVec 32 := Scf.iv c0_i32_457 c1_i32_459 k0_t14
  let v1718 : Index := Scalar.indexCast arg14
  let c112 : Index := 112#32
  ![v1718.toNat, 112]
def k0_off226 (k0_t14 : Fin k0_t14_loop.trips) : Fin 2 → Nat :=
  let c128_i32_2229 : BitVec 32 := 128#32
  let c0_i32_457 : BitVec 32 := 0#32
  let c1_i32_459 : BitVec 32 := 1#32
  let arg14 : BitVec 32 := Scf.iv c0_i32_457 c1_i32_459 k0_t14
  let v1721 : BitVec 32 := Scalar.addi c128_i32_2229 arg14
  let v1722 : Index := Scalar.indexCast v1721
  let c112_2230 : Index := 112#32
  ![v1722.toNat, 112]
@[reducible] def k0_t15_loop : Scf.Loop 32 :=
  let c0_i32_491 : BitVec 32 := 0#32
  let c128_i32_492 : BitVec 32 := 128#32
  let v362 : BitVec 32 := Scalar.addi c0_i32_491 c128_i32_492
  let c1_i32_493 : BitVec 32 := 1#32
  ⟨c0_i32_491, v362, c1_i32_493⟩
def k0_off227 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1606 : Index := Scalar.indexCast arg14
  let c0 : Index := 0#32
  ![v1606.toNat, 0]
def k0_off228 (k0_t15 : Fin k0_t15_loop.trips) : Fin 2 → Nat :=
  let c0_i32_2180 : BitVec 32 := 0#32
  let c0_i32_491 : BitVec 32 := 0#32
  let c1_i32_493 : BitVec 32 := 1#32
  let arg14 : BitVec 32 := Scf.iv c0_i32_491 c1_i32_493 k0_t15
  let v1609 : BitVec 32 := Scalar.addi c0_i32_2180 arg14
  let v1610 : Index := Scalar.indexCast v1609
  let c0_2181 : Index := 0#32
  ![v1610.toNat, 0]
def k0_off229 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1622 : Index := Scalar.indexCast arg14
  let c16 : Index := 16#32
  ![v1622.toNat, 16]
def k0_off230 (k0_t15 : Fin k0_t15_loop.trips) : Fin 2 → Nat :=
  let c0_i32_2187 : BitVec 32 := 0#32
  let c0_i32_491 : BitVec 32 := 0#32
  let c1_i32_493 : BitVec 32 := 1#32
  let arg14 : BitVec 32 := Scf.iv c0_i32_491 c1_i32_493 k0_t15
  let v1625 : BitVec 32 := Scalar.addi c0_i32_2187 arg14
  let v1626 : Index := Scalar.indexCast v1625
  let c16_2188 : Index := 16#32
  ![v1626.toNat, 16]
def k0_off231 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1638 : Index := Scalar.indexCast arg14
  let c32 : Index := 32#32
  ![v1638.toNat, 32]
def k0_off232 (k0_t15 : Fin k0_t15_loop.trips) : Fin 2 → Nat :=
  let c0_i32_2194 : BitVec 32 := 0#32
  let c0_i32_491 : BitVec 32 := 0#32
  let c1_i32_493 : BitVec 32 := 1#32
  let arg14 : BitVec 32 := Scf.iv c0_i32_491 c1_i32_493 k0_t15
  let v1641 : BitVec 32 := Scalar.addi c0_i32_2194 arg14
  let v1642 : Index := Scalar.indexCast v1641
  let c32_2195 : Index := 32#32
  ![v1642.toNat, 32]
def k0_off233 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1654 : Index := Scalar.indexCast arg14
  let c48 : Index := 48#32
  ![v1654.toNat, 48]
def k0_off234 (k0_t15 : Fin k0_t15_loop.trips) : Fin 2 → Nat :=
  let c0_i32_2201 : BitVec 32 := 0#32
  let c0_i32_491 : BitVec 32 := 0#32
  let c1_i32_493 : BitVec 32 := 1#32
  let arg14 : BitVec 32 := Scf.iv c0_i32_491 c1_i32_493 k0_t15
  let v1657 : BitVec 32 := Scalar.addi c0_i32_2201 arg14
  let v1658 : Index := Scalar.indexCast v1657
  let c48_2202 : Index := 48#32
  ![v1658.toNat, 48]
def k0_off235 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1670 : Index := Scalar.indexCast arg14
  let c64 : Index := 64#32
  ![v1670.toNat, 64]
def k0_off236 (k0_t15 : Fin k0_t15_loop.trips) : Fin 2 → Nat :=
  let c0_i32_2208 : BitVec 32 := 0#32
  let c0_i32_491 : BitVec 32 := 0#32
  let c1_i32_493 : BitVec 32 := 1#32
  let arg14 : BitVec 32 := Scf.iv c0_i32_491 c1_i32_493 k0_t15
  let v1673 : BitVec 32 := Scalar.addi c0_i32_2208 arg14
  let v1674 : Index := Scalar.indexCast v1673
  let c64_2209 : Index := 64#32
  ![v1674.toNat, 64]
def k0_off237 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1686 : Index := Scalar.indexCast arg14
  let c80 : Index := 80#32
  ![v1686.toNat, 80]
def k0_off238 (k0_t15 : Fin k0_t15_loop.trips) : Fin 2 → Nat :=
  let c0_i32_2215 : BitVec 32 := 0#32
  let c0_i32_491 : BitVec 32 := 0#32
  let c1_i32_493 : BitVec 32 := 1#32
  let arg14 : BitVec 32 := Scf.iv c0_i32_491 c1_i32_493 k0_t15
  let v1689 : BitVec 32 := Scalar.addi c0_i32_2215 arg14
  let v1690 : Index := Scalar.indexCast v1689
  let c80_2216 : Index := 80#32
  ![v1690.toNat, 80]
def k0_off239 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1702 : Index := Scalar.indexCast arg14
  let c96 : Index := 96#32
  ![v1702.toNat, 96]
def k0_off240 (k0_t15 : Fin k0_t15_loop.trips) : Fin 2 → Nat :=
  let c0_i32_2222 : BitVec 32 := 0#32
  let c0_i32_491 : BitVec 32 := 0#32
  let c1_i32_493 : BitVec 32 := 1#32
  let arg14 : BitVec 32 := Scf.iv c0_i32_491 c1_i32_493 k0_t15
  let v1705 : BitVec 32 := Scalar.addi c0_i32_2222 arg14
  let v1706 : Index := Scalar.indexCast v1705
  let c96_2223 : Index := 96#32
  ![v1706.toNat, 96]
def k0_off241 (k0_t15 : Fin k0_t15_loop.trips) : Fin 2 → Nat :=
  let c0_i32_491 : BitVec 32 := 0#32
  let c1_i32_493 : BitVec 32 := 1#32
  let arg14 : BitVec 32 := Scf.iv c0_i32_491 c1_i32_493 k0_t15
  let v1718 : Index := Scalar.indexCast arg14
  let c112 : Index := 112#32
  ![v1718.toNat, 112]
def k0_off242 (k0_t15 : Fin k0_t15_loop.trips) : Fin 2 → Nat :=
  let c0_i32_2229 : BitVec 32 := 0#32
  let c0_i32_491 : BitVec 32 := 0#32
  let c1_i32_493 : BitVec 32 := 1#32
  let arg14 : BitVec 32 := Scf.iv c0_i32_491 c1_i32_493 k0_t15
  let v1721 : BitVec 32 := Scalar.addi c0_i32_2229 arg14
  let v1722 : Index := Scalar.indexCast v1721
  let c112_2230 : Index := 112#32
  ![v1722.toNat, 112]
@[reducible] def k0_t16_loop : Scf.Loop 32 :=
  let c0_i32_525 : BitVec 32 := 0#32
  let c128_i32_526 : BitVec 32 := 128#32
  let v387 : BitVec 32 := Scalar.addi c0_i32_525 c128_i32_526
  let c1_i32_527 : BitVec 32 := 1#32
  ⟨c0_i32_525, v387, c1_i32_527⟩
def k0_off243 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1606 : Index := Scalar.indexCast arg14
  let c0 : Index := 0#32
  ![v1606.toNat, 0]
def k0_off244 (k0_t16 : Fin k0_t16_loop.trips) : Fin 2 → Nat :=
  let c128_i32_2180 : BitVec 32 := 128#32
  let c0_i32_525 : BitVec 32 := 0#32
  let c1_i32_527 : BitVec 32 := 1#32
  let arg14 : BitVec 32 := Scf.iv c0_i32_525 c1_i32_527 k0_t16
  let v1609 : BitVec 32 := Scalar.addi c128_i32_2180 arg14
  let v1610 : Index := Scalar.indexCast v1609
  let c0_2181 : Index := 0#32
  ![v1610.toNat, 0]
def k0_off245 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1622 : Index := Scalar.indexCast arg14
  let c16 : Index := 16#32
  ![v1622.toNat, 16]
def k0_off246 (k0_t16 : Fin k0_t16_loop.trips) : Fin 2 → Nat :=
  let c128_i32_2187 : BitVec 32 := 128#32
  let c0_i32_525 : BitVec 32 := 0#32
  let c1_i32_527 : BitVec 32 := 1#32
  let arg14 : BitVec 32 := Scf.iv c0_i32_525 c1_i32_527 k0_t16
  let v1625 : BitVec 32 := Scalar.addi c128_i32_2187 arg14
  let v1626 : Index := Scalar.indexCast v1625
  let c16_2188 : Index := 16#32
  ![v1626.toNat, 16]
def k0_off247 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1638 : Index := Scalar.indexCast arg14
  let c32 : Index := 32#32
  ![v1638.toNat, 32]
def k0_off248 (k0_t16 : Fin k0_t16_loop.trips) : Fin 2 → Nat :=
  let c128_i32_2194 : BitVec 32 := 128#32
  let c0_i32_525 : BitVec 32 := 0#32
  let c1_i32_527 : BitVec 32 := 1#32
  let arg14 : BitVec 32 := Scf.iv c0_i32_525 c1_i32_527 k0_t16
  let v1641 : BitVec 32 := Scalar.addi c128_i32_2194 arg14
  let v1642 : Index := Scalar.indexCast v1641
  let c32_2195 : Index := 32#32
  ![v1642.toNat, 32]
def k0_off249 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1654 : Index := Scalar.indexCast arg14
  let c48 : Index := 48#32
  ![v1654.toNat, 48]
def k0_off250 (k0_t16 : Fin k0_t16_loop.trips) : Fin 2 → Nat :=
  let c128_i32_2201 : BitVec 32 := 128#32
  let c0_i32_525 : BitVec 32 := 0#32
  let c1_i32_527 : BitVec 32 := 1#32
  let arg14 : BitVec 32 := Scf.iv c0_i32_525 c1_i32_527 k0_t16
  let v1657 : BitVec 32 := Scalar.addi c128_i32_2201 arg14
  let v1658 : Index := Scalar.indexCast v1657
  let c48_2202 : Index := 48#32
  ![v1658.toNat, 48]
def k0_off251 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1670 : Index := Scalar.indexCast arg14
  let c64 : Index := 64#32
  ![v1670.toNat, 64]
def k0_off252 (k0_t16 : Fin k0_t16_loop.trips) : Fin 2 → Nat :=
  let c128_i32_2208 : BitVec 32 := 128#32
  let c0_i32_525 : BitVec 32 := 0#32
  let c1_i32_527 : BitVec 32 := 1#32
  let arg14 : BitVec 32 := Scf.iv c0_i32_525 c1_i32_527 k0_t16
  let v1673 : BitVec 32 := Scalar.addi c128_i32_2208 arg14
  let v1674 : Index := Scalar.indexCast v1673
  let c64_2209 : Index := 64#32
  ![v1674.toNat, 64]
def k0_off253 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1686 : Index := Scalar.indexCast arg14
  let c80 : Index := 80#32
  ![v1686.toNat, 80]
def k0_off254 (k0_t16 : Fin k0_t16_loop.trips) : Fin 2 → Nat :=
  let c128_i32_2215 : BitVec 32 := 128#32
  let c0_i32_525 : BitVec 32 := 0#32
  let c1_i32_527 : BitVec 32 := 1#32
  let arg14 : BitVec 32 := Scf.iv c0_i32_525 c1_i32_527 k0_t16
  let v1689 : BitVec 32 := Scalar.addi c128_i32_2215 arg14
  let v1690 : Index := Scalar.indexCast v1689
  let c80_2216 : Index := 80#32
  ![v1690.toNat, 80]
def k0_off255 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1702 : Index := Scalar.indexCast arg14
  let c96 : Index := 96#32
  ![v1702.toNat, 96]
def k0_off256 (k0_t16 : Fin k0_t16_loop.trips) : Fin 2 → Nat :=
  let c128_i32_2222 : BitVec 32 := 128#32
  let c0_i32_525 : BitVec 32 := 0#32
  let c1_i32_527 : BitVec 32 := 1#32
  let arg14 : BitVec 32 := Scf.iv c0_i32_525 c1_i32_527 k0_t16
  let v1705 : BitVec 32 := Scalar.addi c128_i32_2222 arg14
  let v1706 : Index := Scalar.indexCast v1705
  let c96_2223 : Index := 96#32
  ![v1706.toNat, 96]
def k0_off257 (k0_t16 : Fin k0_t16_loop.trips) : Fin 2 → Nat :=
  let c0_i32_525 : BitVec 32 := 0#32
  let c1_i32_527 : BitVec 32 := 1#32
  let arg14 : BitVec 32 := Scf.iv c0_i32_525 c1_i32_527 k0_t16
  let v1718 : Index := Scalar.indexCast arg14
  let c112 : Index := 112#32
  ![v1718.toNat, 112]
def k0_off258 (k0_t16 : Fin k0_t16_loop.trips) : Fin 2 → Nat :=
  let c128_i32_2229 : BitVec 32 := 128#32
  let c0_i32_525 : BitVec 32 := 0#32
  let c1_i32_527 : BitVec 32 := 1#32
  let arg14 : BitVec 32 := Scf.iv c0_i32_525 c1_i32_527 k0_t16
  let v1721 : BitVec 32 := Scalar.addi c128_i32_2229 arg14
  let v1722 : Index := Scalar.indexCast v1721
  let c112_2230 : Index := 112#32
  ![v1722.toNat, 112]
@[reducible] def k0_t17_loop : Scf.Loop 32 :=
  let c0_i32_559 : BitVec 32 := 0#32
  let c128_i32_560 : BitVec 32 := 128#32
  let v412 : BitVec 32 := Scalar.addi c0_i32_559 c128_i32_560
  let c1_i32_561 : BitVec 32 := 1#32
  ⟨c0_i32_559, v412, c1_i32_561⟩
def k0_off259 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1606 : Index := Scalar.indexCast arg14
  let c0 : Index := 0#32
  ![v1606.toNat, 0]
def k0_off260 (k0_t17 : Fin k0_t17_loop.trips) : Fin 2 → Nat :=
  let c0_i32_2180 : BitVec 32 := 0#32
  let c0_i32_559 : BitVec 32 := 0#32
  let c1_i32_561 : BitVec 32 := 1#32
  let arg14 : BitVec 32 := Scf.iv c0_i32_559 c1_i32_561 k0_t17
  let v1609 : BitVec 32 := Scalar.addi c0_i32_2180 arg14
  let v1610 : Index := Scalar.indexCast v1609
  let c0_2181 : Index := 0#32
  ![v1610.toNat, 0]
def k0_off261 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1622 : Index := Scalar.indexCast arg14
  let c16 : Index := 16#32
  ![v1622.toNat, 16]
def k0_off262 (k0_t17 : Fin k0_t17_loop.trips) : Fin 2 → Nat :=
  let c0_i32_2187 : BitVec 32 := 0#32
  let c0_i32_559 : BitVec 32 := 0#32
  let c1_i32_561 : BitVec 32 := 1#32
  let arg14 : BitVec 32 := Scf.iv c0_i32_559 c1_i32_561 k0_t17
  let v1625 : BitVec 32 := Scalar.addi c0_i32_2187 arg14
  let v1626 : Index := Scalar.indexCast v1625
  let c16_2188 : Index := 16#32
  ![v1626.toNat, 16]
def k0_off263 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1638 : Index := Scalar.indexCast arg14
  let c32 : Index := 32#32
  ![v1638.toNat, 32]
def k0_off264 (k0_t17 : Fin k0_t17_loop.trips) : Fin 2 → Nat :=
  let c0_i32_2194 : BitVec 32 := 0#32
  let c0_i32_559 : BitVec 32 := 0#32
  let c1_i32_561 : BitVec 32 := 1#32
  let arg14 : BitVec 32 := Scf.iv c0_i32_559 c1_i32_561 k0_t17
  let v1641 : BitVec 32 := Scalar.addi c0_i32_2194 arg14
  let v1642 : Index := Scalar.indexCast v1641
  let c32_2195 : Index := 32#32
  ![v1642.toNat, 32]
def k0_off265 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1654 : Index := Scalar.indexCast arg14
  let c48 : Index := 48#32
  ![v1654.toNat, 48]
def k0_off266 (k0_t17 : Fin k0_t17_loop.trips) : Fin 2 → Nat :=
  let c0_i32_2201 : BitVec 32 := 0#32
  let c0_i32_559 : BitVec 32 := 0#32
  let c1_i32_561 : BitVec 32 := 1#32
  let arg14 : BitVec 32 := Scf.iv c0_i32_559 c1_i32_561 k0_t17
  let v1657 : BitVec 32 := Scalar.addi c0_i32_2201 arg14
  let v1658 : Index := Scalar.indexCast v1657
  let c48_2202 : Index := 48#32
  ![v1658.toNat, 48]
def k0_off267 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1670 : Index := Scalar.indexCast arg14
  let c64 : Index := 64#32
  ![v1670.toNat, 64]
def k0_off268 (k0_t17 : Fin k0_t17_loop.trips) : Fin 2 → Nat :=
  let c0_i32_2208 : BitVec 32 := 0#32
  let c0_i32_559 : BitVec 32 := 0#32
  let c1_i32_561 : BitVec 32 := 1#32
  let arg14 : BitVec 32 := Scf.iv c0_i32_559 c1_i32_561 k0_t17
  let v1673 : BitVec 32 := Scalar.addi c0_i32_2208 arg14
  let v1674 : Index := Scalar.indexCast v1673
  let c64_2209 : Index := 64#32
  ![v1674.toNat, 64]
def k0_off269 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1686 : Index := Scalar.indexCast arg14
  let c80 : Index := 80#32
  ![v1686.toNat, 80]
def k0_off270 (k0_t17 : Fin k0_t17_loop.trips) : Fin 2 → Nat :=
  let c0_i32_2215 : BitVec 32 := 0#32
  let c0_i32_559 : BitVec 32 := 0#32
  let c1_i32_561 : BitVec 32 := 1#32
  let arg14 : BitVec 32 := Scf.iv c0_i32_559 c1_i32_561 k0_t17
  let v1689 : BitVec 32 := Scalar.addi c0_i32_2215 arg14
  let v1690 : Index := Scalar.indexCast v1689
  let c80_2216 : Index := 80#32
  ![v1690.toNat, 80]
def k0_off271 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1702 : Index := Scalar.indexCast arg14
  let c96 : Index := 96#32
  ![v1702.toNat, 96]
def k0_off272 (k0_t17 : Fin k0_t17_loop.trips) : Fin 2 → Nat :=
  let c0_i32_2222 : BitVec 32 := 0#32
  let c0_i32_559 : BitVec 32 := 0#32
  let c1_i32_561 : BitVec 32 := 1#32
  let arg14 : BitVec 32 := Scf.iv c0_i32_559 c1_i32_561 k0_t17
  let v1705 : BitVec 32 := Scalar.addi c0_i32_2222 arg14
  let v1706 : Index := Scalar.indexCast v1705
  let c96_2223 : Index := 96#32
  ![v1706.toNat, 96]
def k0_off273 (k0_t17 : Fin k0_t17_loop.trips) : Fin 2 → Nat :=
  let c0_i32_559 : BitVec 32 := 0#32
  let c1_i32_561 : BitVec 32 := 1#32
  let arg14 : BitVec 32 := Scf.iv c0_i32_559 c1_i32_561 k0_t17
  let v1718 : Index := Scalar.indexCast arg14
  let c112 : Index := 112#32
  ![v1718.toNat, 112]
def k0_off274 (k0_t17 : Fin k0_t17_loop.trips) : Fin 2 → Nat :=
  let c0_i32_2229 : BitVec 32 := 0#32
  let c0_i32_559 : BitVec 32 := 0#32
  let c1_i32_561 : BitVec 32 := 1#32
  let arg14 : BitVec 32 := Scf.iv c0_i32_559 c1_i32_561 k0_t17
  let v1721 : BitVec 32 := Scalar.addi c0_i32_2229 arg14
  let v1722 : Index := Scalar.indexCast v1721
  let c112_2230 : Index := 112#32
  ![v1722.toNat, 112]
@[reducible] def k0_t18_loop : Scf.Loop 32 :=
  let c0_i32_593 : BitVec 32 := 0#32
  let c128_i32_594 : BitVec 32 := 128#32
  let v437 : BitVec 32 := Scalar.addi c0_i32_593 c128_i32_594
  let c1_i32_595 : BitVec 32 := 1#32
  ⟨c0_i32_593, v437, c1_i32_595⟩
def k0_off275 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1606 : Index := Scalar.indexCast arg14
  let c0 : Index := 0#32
  ![v1606.toNat, 0]
def k0_off276 (k0_t18 : Fin k0_t18_loop.trips) : Fin 2 → Nat :=
  let c128_i32_2180 : BitVec 32 := 128#32
  let c0_i32_593 : BitVec 32 := 0#32
  let c1_i32_595 : BitVec 32 := 1#32
  let arg14 : BitVec 32 := Scf.iv c0_i32_593 c1_i32_595 k0_t18
  let v1609 : BitVec 32 := Scalar.addi c128_i32_2180 arg14
  let v1610 : Index := Scalar.indexCast v1609
  let c0_2181 : Index := 0#32
  ![v1610.toNat, 0]
def k0_off277 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1622 : Index := Scalar.indexCast arg14
  let c16 : Index := 16#32
  ![v1622.toNat, 16]
def k0_off278 (k0_t18 : Fin k0_t18_loop.trips) : Fin 2 → Nat :=
  let c128_i32_2187 : BitVec 32 := 128#32
  let c0_i32_593 : BitVec 32 := 0#32
  let c1_i32_595 : BitVec 32 := 1#32
  let arg14 : BitVec 32 := Scf.iv c0_i32_593 c1_i32_595 k0_t18
  let v1625 : BitVec 32 := Scalar.addi c128_i32_2187 arg14
  let v1626 : Index := Scalar.indexCast v1625
  let c16_2188 : Index := 16#32
  ![v1626.toNat, 16]
def k0_off279 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1638 : Index := Scalar.indexCast arg14
  let c32 : Index := 32#32
  ![v1638.toNat, 32]
def k0_off280 (k0_t18 : Fin k0_t18_loop.trips) : Fin 2 → Nat :=
  let c128_i32_2194 : BitVec 32 := 128#32
  let c0_i32_593 : BitVec 32 := 0#32
  let c1_i32_595 : BitVec 32 := 1#32
  let arg14 : BitVec 32 := Scf.iv c0_i32_593 c1_i32_595 k0_t18
  let v1641 : BitVec 32 := Scalar.addi c128_i32_2194 arg14
  let v1642 : Index := Scalar.indexCast v1641
  let c32_2195 : Index := 32#32
  ![v1642.toNat, 32]
def k0_off281 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1654 : Index := Scalar.indexCast arg14
  let c48 : Index := 48#32
  ![v1654.toNat, 48]
def k0_off282 (k0_t18 : Fin k0_t18_loop.trips) : Fin 2 → Nat :=
  let c128_i32_2201 : BitVec 32 := 128#32
  let c0_i32_593 : BitVec 32 := 0#32
  let c1_i32_595 : BitVec 32 := 1#32
  let arg14 : BitVec 32 := Scf.iv c0_i32_593 c1_i32_595 k0_t18
  let v1657 : BitVec 32 := Scalar.addi c128_i32_2201 arg14
  let v1658 : Index := Scalar.indexCast v1657
  let c48_2202 : Index := 48#32
  ![v1658.toNat, 48]
def k0_off283 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1670 : Index := Scalar.indexCast arg14
  let c64 : Index := 64#32
  ![v1670.toNat, 64]
def k0_off284 (k0_t18 : Fin k0_t18_loop.trips) : Fin 2 → Nat :=
  let c128_i32_2208 : BitVec 32 := 128#32
  let c0_i32_593 : BitVec 32 := 0#32
  let c1_i32_595 : BitVec 32 := 1#32
  let arg14 : BitVec 32 := Scf.iv c0_i32_593 c1_i32_595 k0_t18
  let v1673 : BitVec 32 := Scalar.addi c128_i32_2208 arg14
  let v1674 : Index := Scalar.indexCast v1673
  let c64_2209 : Index := 64#32
  ![v1674.toNat, 64]
def k0_off285 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1686 : Index := Scalar.indexCast arg14
  let c80 : Index := 80#32
  ![v1686.toNat, 80]
def k0_off286 (k0_t18 : Fin k0_t18_loop.trips) : Fin 2 → Nat :=
  let c128_i32_2215 : BitVec 32 := 128#32
  let c0_i32_593 : BitVec 32 := 0#32
  let c1_i32_595 : BitVec 32 := 1#32
  let arg14 : BitVec 32 := Scf.iv c0_i32_593 c1_i32_595 k0_t18
  let v1689 : BitVec 32 := Scalar.addi c128_i32_2215 arg14
  let v1690 : Index := Scalar.indexCast v1689
  let c80_2216 : Index := 80#32
  ![v1690.toNat, 80]
def k0_off287 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1702 : Index := Scalar.indexCast arg14
  let c96 : Index := 96#32
  ![v1702.toNat, 96]
def k0_off288 (k0_t18 : Fin k0_t18_loop.trips) : Fin 2 → Nat :=
  let c128_i32_2222 : BitVec 32 := 128#32
  let c0_i32_593 : BitVec 32 := 0#32
  let c1_i32_595 : BitVec 32 := 1#32
  let arg14 : BitVec 32 := Scf.iv c0_i32_593 c1_i32_595 k0_t18
  let v1705 : BitVec 32 := Scalar.addi c128_i32_2222 arg14
  let v1706 : Index := Scalar.indexCast v1705
  let c96_2223 : Index := 96#32
  ![v1706.toNat, 96]
def k0_off289 (k0_t18 : Fin k0_t18_loop.trips) : Fin 2 → Nat :=
  let c0_i32_593 : BitVec 32 := 0#32
  let c1_i32_595 : BitVec 32 := 1#32
  let arg14 : BitVec 32 := Scf.iv c0_i32_593 c1_i32_595 k0_t18
  let v1718 : Index := Scalar.indexCast arg14
  let c112 : Index := 112#32
  ![v1718.toNat, 112]
def k0_off290 (k0_t18 : Fin k0_t18_loop.trips) : Fin 2 → Nat :=
  let c128_i32_2229 : BitVec 32 := 128#32
  let c0_i32_593 : BitVec 32 := 0#32
  let c1_i32_595 : BitVec 32 := 1#32
  let arg14 : BitVec 32 := Scf.iv c0_i32_593 c1_i32_595 k0_t18
  let v1721 : BitVec 32 := Scalar.addi c128_i32_2229 arg14
  let v1722 : Index := Scalar.indexCast v1721
  let c112_2230 : Index := 112#32
  ![v1722.toNat, 112]
@[reducible] def k0_t19_loop : Scf.Loop 32 :=
  let c0_i32_627 : BitVec 32 := 0#32
  let c128_i32_628 : BitVec 32 := 128#32
  let v462 : BitVec 32 := Scalar.addi c0_i32_627 c128_i32_628
  let c1_i32_629 : BitVec 32 := 1#32
  ⟨c0_i32_627, v462, c1_i32_629⟩
def k0_off291 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1606 : Index := Scalar.indexCast arg14
  let c0 : Index := 0#32
  ![v1606.toNat, 0]
def k0_off292 (k0_t19 : Fin k0_t19_loop.trips) : Fin 2 → Nat :=
  let c0_i32_2180 : BitVec 32 := 0#32
  let c0_i32_627 : BitVec 32 := 0#32
  let c1_i32_629 : BitVec 32 := 1#32
  let arg14 : BitVec 32 := Scf.iv c0_i32_627 c1_i32_629 k0_t19
  let v1609 : BitVec 32 := Scalar.addi c0_i32_2180 arg14
  let v1610 : Index := Scalar.indexCast v1609
  let c0_2181 : Index := 0#32
  ![v1610.toNat, 0]
def k0_off293 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1622 : Index := Scalar.indexCast arg14
  let c16 : Index := 16#32
  ![v1622.toNat, 16]
def k0_off294 (k0_t19 : Fin k0_t19_loop.trips) : Fin 2 → Nat :=
  let c0_i32_2187 : BitVec 32 := 0#32
  let c0_i32_627 : BitVec 32 := 0#32
  let c1_i32_629 : BitVec 32 := 1#32
  let arg14 : BitVec 32 := Scf.iv c0_i32_627 c1_i32_629 k0_t19
  let v1625 : BitVec 32 := Scalar.addi c0_i32_2187 arg14
  let v1626 : Index := Scalar.indexCast v1625
  let c16_2188 : Index := 16#32
  ![v1626.toNat, 16]
def k0_off295 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1638 : Index := Scalar.indexCast arg14
  let c32 : Index := 32#32
  ![v1638.toNat, 32]
def k0_off296 (k0_t19 : Fin k0_t19_loop.trips) : Fin 2 → Nat :=
  let c0_i32_2194 : BitVec 32 := 0#32
  let c0_i32_627 : BitVec 32 := 0#32
  let c1_i32_629 : BitVec 32 := 1#32
  let arg14 : BitVec 32 := Scf.iv c0_i32_627 c1_i32_629 k0_t19
  let v1641 : BitVec 32 := Scalar.addi c0_i32_2194 arg14
  let v1642 : Index := Scalar.indexCast v1641
  let c32_2195 : Index := 32#32
  ![v1642.toNat, 32]
def k0_off297 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1654 : Index := Scalar.indexCast arg14
  let c48 : Index := 48#32
  ![v1654.toNat, 48]
def k0_off298 (k0_t19 : Fin k0_t19_loop.trips) : Fin 2 → Nat :=
  let c0_i32_2201 : BitVec 32 := 0#32
  let c0_i32_627 : BitVec 32 := 0#32
  let c1_i32_629 : BitVec 32 := 1#32
  let arg14 : BitVec 32 := Scf.iv c0_i32_627 c1_i32_629 k0_t19
  let v1657 : BitVec 32 := Scalar.addi c0_i32_2201 arg14
  let v1658 : Index := Scalar.indexCast v1657
  let c48_2202 : Index := 48#32
  ![v1658.toNat, 48]
def k0_off299 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1670 : Index := Scalar.indexCast arg14
  let c64 : Index := 64#32
  ![v1670.toNat, 64]
def k0_off300 (k0_t19 : Fin k0_t19_loop.trips) : Fin 2 → Nat :=
  let c0_i32_2208 : BitVec 32 := 0#32
  let c0_i32_627 : BitVec 32 := 0#32
  let c1_i32_629 : BitVec 32 := 1#32
  let arg14 : BitVec 32 := Scf.iv c0_i32_627 c1_i32_629 k0_t19
  let v1673 : BitVec 32 := Scalar.addi c0_i32_2208 arg14
  let v1674 : Index := Scalar.indexCast v1673
  let c64_2209 : Index := 64#32
  ![v1674.toNat, 64]
def k0_off301 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1686 : Index := Scalar.indexCast arg14
  let c80 : Index := 80#32
  ![v1686.toNat, 80]
def k0_off302 (k0_t19 : Fin k0_t19_loop.trips) : Fin 2 → Nat :=
  let c0_i32_2215 : BitVec 32 := 0#32
  let c0_i32_627 : BitVec 32 := 0#32
  let c1_i32_629 : BitVec 32 := 1#32
  let arg14 : BitVec 32 := Scf.iv c0_i32_627 c1_i32_629 k0_t19
  let v1689 : BitVec 32 := Scalar.addi c0_i32_2215 arg14
  let v1690 : Index := Scalar.indexCast v1689
  let c80_2216 : Index := 80#32
  ![v1690.toNat, 80]
def k0_off303 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1702 : Index := Scalar.indexCast arg14
  let c96 : Index := 96#32
  ![v1702.toNat, 96]
def k0_off304 (k0_t19 : Fin k0_t19_loop.trips) : Fin 2 → Nat :=
  let c0_i32_2222 : BitVec 32 := 0#32
  let c0_i32_627 : BitVec 32 := 0#32
  let c1_i32_629 : BitVec 32 := 1#32
  let arg14 : BitVec 32 := Scf.iv c0_i32_627 c1_i32_629 k0_t19
  let v1705 : BitVec 32 := Scalar.addi c0_i32_2222 arg14
  let v1706 : Index := Scalar.indexCast v1705
  let c96_2223 : Index := 96#32
  ![v1706.toNat, 96]
def k0_off305 (k0_t19 : Fin k0_t19_loop.trips) : Fin 2 → Nat :=
  let c0_i32_627 : BitVec 32 := 0#32
  let c1_i32_629 : BitVec 32 := 1#32
  let arg14 : BitVec 32 := Scf.iv c0_i32_627 c1_i32_629 k0_t19
  let v1718 : Index := Scalar.indexCast arg14
  let c112 : Index := 112#32
  ![v1718.toNat, 112]
def k0_off306 (k0_t19 : Fin k0_t19_loop.trips) : Fin 2 → Nat :=
  let c0_i32_2229 : BitVec 32 := 0#32
  let c0_i32_627 : BitVec 32 := 0#32
  let c1_i32_629 : BitVec 32 := 1#32
  let arg14 : BitVec 32 := Scf.iv c0_i32_627 c1_i32_629 k0_t19
  let v1721 : BitVec 32 := Scalar.addi c0_i32_2229 arg14
  let v1722 : Index := Scalar.indexCast v1721
  let c112_2230 : Index := 112#32
  ![v1722.toNat, 112]
@[reducible] def k0_t20_loop : Scf.Loop 32 :=
  let c0_i32_661 : BitVec 32 := 0#32
  let c128_i32_662 : BitVec 32 := 128#32
  let v487 : BitVec 32 := Scalar.addi c0_i32_661 c128_i32_662
  let c1_i32_663 : BitVec 32 := 1#32
  ⟨c0_i32_661, v487, c1_i32_663⟩
def k0_off307 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1606 : Index := Scalar.indexCast arg14
  let c0 : Index := 0#32
  ![v1606.toNat, 0]
def k0_off308 (k0_t20 : Fin k0_t20_loop.trips) : Fin 2 → Nat :=
  let c128_i32_2180 : BitVec 32 := 128#32
  let c0_i32_661 : BitVec 32 := 0#32
  let c1_i32_663 : BitVec 32 := 1#32
  let arg14 : BitVec 32 := Scf.iv c0_i32_661 c1_i32_663 k0_t20
  let v1609 : BitVec 32 := Scalar.addi c128_i32_2180 arg14
  let v1610 : Index := Scalar.indexCast v1609
  let c0_2181 : Index := 0#32
  ![v1610.toNat, 0]
def k0_off309 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1622 : Index := Scalar.indexCast arg14
  let c16 : Index := 16#32
  ![v1622.toNat, 16]
def k0_off310 (k0_t20 : Fin k0_t20_loop.trips) : Fin 2 → Nat :=
  let c128_i32_2187 : BitVec 32 := 128#32
  let c0_i32_661 : BitVec 32 := 0#32
  let c1_i32_663 : BitVec 32 := 1#32
  let arg14 : BitVec 32 := Scf.iv c0_i32_661 c1_i32_663 k0_t20
  let v1625 : BitVec 32 := Scalar.addi c128_i32_2187 arg14
  let v1626 : Index := Scalar.indexCast v1625
  let c16_2188 : Index := 16#32
  ![v1626.toNat, 16]
def k0_off311 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1638 : Index := Scalar.indexCast arg14
  let c32 : Index := 32#32
  ![v1638.toNat, 32]
def k0_off312 (k0_t20 : Fin k0_t20_loop.trips) : Fin 2 → Nat :=
  let c128_i32_2194 : BitVec 32 := 128#32
  let c0_i32_661 : BitVec 32 := 0#32
  let c1_i32_663 : BitVec 32 := 1#32
  let arg14 : BitVec 32 := Scf.iv c0_i32_661 c1_i32_663 k0_t20
  let v1641 : BitVec 32 := Scalar.addi c128_i32_2194 arg14
  let v1642 : Index := Scalar.indexCast v1641
  let c32_2195 : Index := 32#32
  ![v1642.toNat, 32]
def k0_off313 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1654 : Index := Scalar.indexCast arg14
  let c48 : Index := 48#32
  ![v1654.toNat, 48]
def k0_off314 (k0_t20 : Fin k0_t20_loop.trips) : Fin 2 → Nat :=
  let c128_i32_2201 : BitVec 32 := 128#32
  let c0_i32_661 : BitVec 32 := 0#32
  let c1_i32_663 : BitVec 32 := 1#32
  let arg14 : BitVec 32 := Scf.iv c0_i32_661 c1_i32_663 k0_t20
  let v1657 : BitVec 32 := Scalar.addi c128_i32_2201 arg14
  let v1658 : Index := Scalar.indexCast v1657
  let c48_2202 : Index := 48#32
  ![v1658.toNat, 48]
def k0_off315 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1670 : Index := Scalar.indexCast arg14
  let c64 : Index := 64#32
  ![v1670.toNat, 64]
def k0_off316 (k0_t20 : Fin k0_t20_loop.trips) : Fin 2 → Nat :=
  let c128_i32_2208 : BitVec 32 := 128#32
  let c0_i32_661 : BitVec 32 := 0#32
  let c1_i32_663 : BitVec 32 := 1#32
  let arg14 : BitVec 32 := Scf.iv c0_i32_661 c1_i32_663 k0_t20
  let v1673 : BitVec 32 := Scalar.addi c128_i32_2208 arg14
  let v1674 : Index := Scalar.indexCast v1673
  let c64_2209 : Index := 64#32
  ![v1674.toNat, 64]
def k0_off317 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1686 : Index := Scalar.indexCast arg14
  let c80 : Index := 80#32
  ![v1686.toNat, 80]
def k0_off318 (k0_t20 : Fin k0_t20_loop.trips) : Fin 2 → Nat :=
  let c128_i32_2215 : BitVec 32 := 128#32
  let c0_i32_661 : BitVec 32 := 0#32
  let c1_i32_663 : BitVec 32 := 1#32
  let arg14 : BitVec 32 := Scf.iv c0_i32_661 c1_i32_663 k0_t20
  let v1689 : BitVec 32 := Scalar.addi c128_i32_2215 arg14
  let v1690 : Index := Scalar.indexCast v1689
  let c80_2216 : Index := 80#32
  ![v1690.toNat, 80]
def k0_off319 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1702 : Index := Scalar.indexCast arg14
  let c96 : Index := 96#32
  ![v1702.toNat, 96]
def k0_off320 (k0_t20 : Fin k0_t20_loop.trips) : Fin 2 → Nat :=
  let c128_i32_2222 : BitVec 32 := 128#32
  let c0_i32_661 : BitVec 32 := 0#32
  let c1_i32_663 : BitVec 32 := 1#32
  let arg14 : BitVec 32 := Scf.iv c0_i32_661 c1_i32_663 k0_t20
  let v1705 : BitVec 32 := Scalar.addi c128_i32_2222 arg14
  let v1706 : Index := Scalar.indexCast v1705
  let c96_2223 : Index := 96#32
  ![v1706.toNat, 96]
def k0_off321 (k0_t20 : Fin k0_t20_loop.trips) : Fin 2 → Nat :=
  let c0_i32_661 : BitVec 32 := 0#32
  let c1_i32_663 : BitVec 32 := 1#32
  let arg14 : BitVec 32 := Scf.iv c0_i32_661 c1_i32_663 k0_t20
  let v1718 : Index := Scalar.indexCast arg14
  let c112 : Index := 112#32
  ![v1718.toNat, 112]
def k0_off322 (k0_t20 : Fin k0_t20_loop.trips) : Fin 2 → Nat :=
  let c128_i32_2229 : BitVec 32 := 128#32
  let c0_i32_661 : BitVec 32 := 0#32
  let c1_i32_663 : BitVec 32 := 1#32
  let arg14 : BitVec 32 := Scf.iv c0_i32_661 c1_i32_663 k0_t20
  let v1721 : BitVec 32 := Scalar.addi c128_i32_2229 arg14
  let v1722 : Index := Scalar.indexCast v1721
  let c112_2230 : Index := 112#32
  ![v1722.toNat, 112]
@[reducible] def k0_t21_loop : Scf.Loop 32 :=
  let c0_i32_695 : BitVec 32 := 0#32
  let c128_i32_696 : BitVec 32 := 128#32
  let v512 : BitVec 32 := Scalar.addi c0_i32_695 c128_i32_696
  let c1_i32_697 : BitVec 32 := 1#32
  ⟨c0_i32_695, v512, c1_i32_697⟩
def k0_off323 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1606 : Index := Scalar.indexCast arg14
  let c0 : Index := 0#32
  ![v1606.toNat, 0]
def k0_off324 (k0_t21 : Fin k0_t21_loop.trips) : Fin 2 → Nat :=
  let c0_i32_2180 : BitVec 32 := 0#32
  let c0_i32_695 : BitVec 32 := 0#32
  let c1_i32_697 : BitVec 32 := 1#32
  let arg14 : BitVec 32 := Scf.iv c0_i32_695 c1_i32_697 k0_t21
  let v1609 : BitVec 32 := Scalar.addi c0_i32_2180 arg14
  let v1610 : Index := Scalar.indexCast v1609
  let c0_2181 : Index := 0#32
  ![v1610.toNat, 0]
def k0_off325 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1622 : Index := Scalar.indexCast arg14
  let c16 : Index := 16#32
  ![v1622.toNat, 16]
def k0_off326 (k0_t21 : Fin k0_t21_loop.trips) : Fin 2 → Nat :=
  let c0_i32_2187 : BitVec 32 := 0#32
  let c0_i32_695 : BitVec 32 := 0#32
  let c1_i32_697 : BitVec 32 := 1#32
  let arg14 : BitVec 32 := Scf.iv c0_i32_695 c1_i32_697 k0_t21
  let v1625 : BitVec 32 := Scalar.addi c0_i32_2187 arg14
  let v1626 : Index := Scalar.indexCast v1625
  let c16_2188 : Index := 16#32
  ![v1626.toNat, 16]
def k0_off327 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1638 : Index := Scalar.indexCast arg14
  let c32 : Index := 32#32
  ![v1638.toNat, 32]
def k0_off328 (k0_t21 : Fin k0_t21_loop.trips) : Fin 2 → Nat :=
  let c0_i32_2194 : BitVec 32 := 0#32
  let c0_i32_695 : BitVec 32 := 0#32
  let c1_i32_697 : BitVec 32 := 1#32
  let arg14 : BitVec 32 := Scf.iv c0_i32_695 c1_i32_697 k0_t21
  let v1641 : BitVec 32 := Scalar.addi c0_i32_2194 arg14
  let v1642 : Index := Scalar.indexCast v1641
  let c32_2195 : Index := 32#32
  ![v1642.toNat, 32]
def k0_off329 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1654 : Index := Scalar.indexCast arg14
  let c48 : Index := 48#32
  ![v1654.toNat, 48]
def k0_off330 (k0_t21 : Fin k0_t21_loop.trips) : Fin 2 → Nat :=
  let c0_i32_2201 : BitVec 32 := 0#32
  let c0_i32_695 : BitVec 32 := 0#32
  let c1_i32_697 : BitVec 32 := 1#32
  let arg14 : BitVec 32 := Scf.iv c0_i32_695 c1_i32_697 k0_t21
  let v1657 : BitVec 32 := Scalar.addi c0_i32_2201 arg14
  let v1658 : Index := Scalar.indexCast v1657
  let c48_2202 : Index := 48#32
  ![v1658.toNat, 48]
def k0_off331 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1670 : Index := Scalar.indexCast arg14
  let c64 : Index := 64#32
  ![v1670.toNat, 64]
def k0_off332 (k0_t21 : Fin k0_t21_loop.trips) : Fin 2 → Nat :=
  let c0_i32_2208 : BitVec 32 := 0#32
  let c0_i32_695 : BitVec 32 := 0#32
  let c1_i32_697 : BitVec 32 := 1#32
  let arg14 : BitVec 32 := Scf.iv c0_i32_695 c1_i32_697 k0_t21
  let v1673 : BitVec 32 := Scalar.addi c0_i32_2208 arg14
  let v1674 : Index := Scalar.indexCast v1673
  let c64_2209 : Index := 64#32
  ![v1674.toNat, 64]
def k0_off333 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1686 : Index := Scalar.indexCast arg14
  let c80 : Index := 80#32
  ![v1686.toNat, 80]
def k0_off334 (k0_t21 : Fin k0_t21_loop.trips) : Fin 2 → Nat :=
  let c0_i32_2215 : BitVec 32 := 0#32
  let c0_i32_695 : BitVec 32 := 0#32
  let c1_i32_697 : BitVec 32 := 1#32
  let arg14 : BitVec 32 := Scf.iv c0_i32_695 c1_i32_697 k0_t21
  let v1689 : BitVec 32 := Scalar.addi c0_i32_2215 arg14
  let v1690 : Index := Scalar.indexCast v1689
  let c80_2216 : Index := 80#32
  ![v1690.toNat, 80]
def k0_off335 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1702 : Index := Scalar.indexCast arg14
  let c96 : Index := 96#32
  ![v1702.toNat, 96]
def k0_off336 (k0_t21 : Fin k0_t21_loop.trips) : Fin 2 → Nat :=
  let c0_i32_2222 : BitVec 32 := 0#32
  let c0_i32_695 : BitVec 32 := 0#32
  let c1_i32_697 : BitVec 32 := 1#32
  let arg14 : BitVec 32 := Scf.iv c0_i32_695 c1_i32_697 k0_t21
  let v1705 : BitVec 32 := Scalar.addi c0_i32_2222 arg14
  let v1706 : Index := Scalar.indexCast v1705
  let c96_2223 : Index := 96#32
  ![v1706.toNat, 96]
def k0_off337 (k0_t21 : Fin k0_t21_loop.trips) : Fin 2 → Nat :=
  let c0_i32_695 : BitVec 32 := 0#32
  let c1_i32_697 : BitVec 32 := 1#32
  let arg14 : BitVec 32 := Scf.iv c0_i32_695 c1_i32_697 k0_t21
  let v1718 : Index := Scalar.indexCast arg14
  let c112 : Index := 112#32
  ![v1718.toNat, 112]
def k0_off338 (k0_t21 : Fin k0_t21_loop.trips) : Fin 2 → Nat :=
  let c0_i32_2229 : BitVec 32 := 0#32
  let c0_i32_695 : BitVec 32 := 0#32
  let c1_i32_697 : BitVec 32 := 1#32
  let arg14 : BitVec 32 := Scf.iv c0_i32_695 c1_i32_697 k0_t21
  let v1721 : BitVec 32 := Scalar.addi c0_i32_2229 arg14
  let v1722 : Index := Scalar.indexCast v1721
  let c112_2230 : Index := 112#32
  ![v1722.toNat, 112]
@[reducible] def k0_t22_loop : Scf.Loop 32 :=
  let c0_i32_729 : BitVec 32 := 0#32
  let c128_i32_730 : BitVec 32 := 128#32
  let v537 : BitVec 32 := Scalar.addi c0_i32_729 c128_i32_730
  let c1_i32_731 : BitVec 32 := 1#32
  ⟨c0_i32_729, v537, c1_i32_731⟩
def k0_off339 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1606 : Index := Scalar.indexCast arg14
  let c0 : Index := 0#32
  ![v1606.toNat, 0]
def k0_off340 (k0_t22 : Fin k0_t22_loop.trips) : Fin 2 → Nat :=
  let c128_i32_2180 : BitVec 32 := 128#32
  let c0_i32_729 : BitVec 32 := 0#32
  let c1_i32_731 : BitVec 32 := 1#32
  let arg14 : BitVec 32 := Scf.iv c0_i32_729 c1_i32_731 k0_t22
  let v1609 : BitVec 32 := Scalar.addi c128_i32_2180 arg14
  let v1610 : Index := Scalar.indexCast v1609
  let c0_2181 : Index := 0#32
  ![v1610.toNat, 0]
def k0_off341 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1622 : Index := Scalar.indexCast arg14
  let c16 : Index := 16#32
  ![v1622.toNat, 16]
def k0_off342 (k0_t22 : Fin k0_t22_loop.trips) : Fin 2 → Nat :=
  let c128_i32_2187 : BitVec 32 := 128#32
  let c0_i32_729 : BitVec 32 := 0#32
  let c1_i32_731 : BitVec 32 := 1#32
  let arg14 : BitVec 32 := Scf.iv c0_i32_729 c1_i32_731 k0_t22
  let v1625 : BitVec 32 := Scalar.addi c128_i32_2187 arg14
  let v1626 : Index := Scalar.indexCast v1625
  let c16_2188 : Index := 16#32
  ![v1626.toNat, 16]
def k0_off343 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1638 : Index := Scalar.indexCast arg14
  let c32 : Index := 32#32
  ![v1638.toNat, 32]
def k0_off344 (k0_t22 : Fin k0_t22_loop.trips) : Fin 2 → Nat :=
  let c128_i32_2194 : BitVec 32 := 128#32
  let c0_i32_729 : BitVec 32 := 0#32
  let c1_i32_731 : BitVec 32 := 1#32
  let arg14 : BitVec 32 := Scf.iv c0_i32_729 c1_i32_731 k0_t22
  let v1641 : BitVec 32 := Scalar.addi c128_i32_2194 arg14
  let v1642 : Index := Scalar.indexCast v1641
  let c32_2195 : Index := 32#32
  ![v1642.toNat, 32]
def k0_off345 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1654 : Index := Scalar.indexCast arg14
  let c48 : Index := 48#32
  ![v1654.toNat, 48]
def k0_off346 (k0_t22 : Fin k0_t22_loop.trips) : Fin 2 → Nat :=
  let c128_i32_2201 : BitVec 32 := 128#32
  let c0_i32_729 : BitVec 32 := 0#32
  let c1_i32_731 : BitVec 32 := 1#32
  let arg14 : BitVec 32 := Scf.iv c0_i32_729 c1_i32_731 k0_t22
  let v1657 : BitVec 32 := Scalar.addi c128_i32_2201 arg14
  let v1658 : Index := Scalar.indexCast v1657
  let c48_2202 : Index := 48#32
  ![v1658.toNat, 48]
def k0_off347 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1670 : Index := Scalar.indexCast arg14
  let c64 : Index := 64#32
  ![v1670.toNat, 64]
def k0_off348 (k0_t22 : Fin k0_t22_loop.trips) : Fin 2 → Nat :=
  let c128_i32_2208 : BitVec 32 := 128#32
  let c0_i32_729 : BitVec 32 := 0#32
  let c1_i32_731 : BitVec 32 := 1#32
  let arg14 : BitVec 32 := Scf.iv c0_i32_729 c1_i32_731 k0_t22
  let v1673 : BitVec 32 := Scalar.addi c128_i32_2208 arg14
  let v1674 : Index := Scalar.indexCast v1673
  let c64_2209 : Index := 64#32
  ![v1674.toNat, 64]
def k0_off349 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1686 : Index := Scalar.indexCast arg14
  let c80 : Index := 80#32
  ![v1686.toNat, 80]
def k0_off350 (k0_t22 : Fin k0_t22_loop.trips) : Fin 2 → Nat :=
  let c128_i32_2215 : BitVec 32 := 128#32
  let c0_i32_729 : BitVec 32 := 0#32
  let c1_i32_731 : BitVec 32 := 1#32
  let arg14 : BitVec 32 := Scf.iv c0_i32_729 c1_i32_731 k0_t22
  let v1689 : BitVec 32 := Scalar.addi c128_i32_2215 arg14
  let v1690 : Index := Scalar.indexCast v1689
  let c80_2216 : Index := 80#32
  ![v1690.toNat, 80]
def k0_off351 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1702 : Index := Scalar.indexCast arg14
  let c96 : Index := 96#32
  ![v1702.toNat, 96]
def k0_off352 (k0_t22 : Fin k0_t22_loop.trips) : Fin 2 → Nat :=
  let c128_i32_2222 : BitVec 32 := 128#32
  let c0_i32_729 : BitVec 32 := 0#32
  let c1_i32_731 : BitVec 32 := 1#32
  let arg14 : BitVec 32 := Scf.iv c0_i32_729 c1_i32_731 k0_t22
  let v1705 : BitVec 32 := Scalar.addi c128_i32_2222 arg14
  let v1706 : Index := Scalar.indexCast v1705
  let c96_2223 : Index := 96#32
  ![v1706.toNat, 96]
def k0_off353 (k0_t22 : Fin k0_t22_loop.trips) : Fin 2 → Nat :=
  let c0_i32_729 : BitVec 32 := 0#32
  let c1_i32_731 : BitVec 32 := 1#32
  let arg14 : BitVec 32 := Scf.iv c0_i32_729 c1_i32_731 k0_t22
  let v1718 : Index := Scalar.indexCast arg14
  let c112 : Index := 112#32
  ![v1718.toNat, 112]
def k0_off354 (k0_t22 : Fin k0_t22_loop.trips) : Fin 2 → Nat :=
  let c128_i32_2229 : BitVec 32 := 128#32
  let c0_i32_729 : BitVec 32 := 0#32
  let c1_i32_731 : BitVec 32 := 1#32
  let arg14 : BitVec 32 := Scf.iv c0_i32_729 c1_i32_731 k0_t22
  let v1721 : BitVec 32 := Scalar.addi c128_i32_2229 arg14
  let v1722 : Index := Scalar.indexCast v1721
  let c112_2230 : Index := 112#32
  ![v1722.toNat, 112]
@[reducible] def k0_t23_loop : Scf.Loop 32 :=
  let c0_i32_763 : BitVec 32 := 0#32
  let c128_i32_764 : BitVec 32 := 128#32
  let v562 : BitVec 32 := Scalar.addi c0_i32_763 c128_i32_764
  let c1_i32_765 : BitVec 32 := 1#32
  ⟨c0_i32_763, v562, c1_i32_765⟩
def k0_off355 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1606 : Index := Scalar.indexCast arg14
  let c0 : Index := 0#32
  ![v1606.toNat, 0]
def k0_off356 (k0_t23 : Fin k0_t23_loop.trips) : Fin 2 → Nat :=
  let c0_i32_2180 : BitVec 32 := 0#32
  let c0_i32_763 : BitVec 32 := 0#32
  let c1_i32_765 : BitVec 32 := 1#32
  let arg14 : BitVec 32 := Scf.iv c0_i32_763 c1_i32_765 k0_t23
  let v1609 : BitVec 32 := Scalar.addi c0_i32_2180 arg14
  let v1610 : Index := Scalar.indexCast v1609
  let c0_2181 : Index := 0#32
  ![v1610.toNat, 0]
def k0_off357 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1622 : Index := Scalar.indexCast arg14
  let c16 : Index := 16#32
  ![v1622.toNat, 16]
def k0_off358 (k0_t23 : Fin k0_t23_loop.trips) : Fin 2 → Nat :=
  let c0_i32_2187 : BitVec 32 := 0#32
  let c0_i32_763 : BitVec 32 := 0#32
  let c1_i32_765 : BitVec 32 := 1#32
  let arg14 : BitVec 32 := Scf.iv c0_i32_763 c1_i32_765 k0_t23
  let v1625 : BitVec 32 := Scalar.addi c0_i32_2187 arg14
  let v1626 : Index := Scalar.indexCast v1625
  let c16_2188 : Index := 16#32
  ![v1626.toNat, 16]
def k0_off359 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1638 : Index := Scalar.indexCast arg14
  let c32 : Index := 32#32
  ![v1638.toNat, 32]
def k0_off360 (k0_t23 : Fin k0_t23_loop.trips) : Fin 2 → Nat :=
  let c0_i32_2194 : BitVec 32 := 0#32
  let c0_i32_763 : BitVec 32 := 0#32
  let c1_i32_765 : BitVec 32 := 1#32
  let arg14 : BitVec 32 := Scf.iv c0_i32_763 c1_i32_765 k0_t23
  let v1641 : BitVec 32 := Scalar.addi c0_i32_2194 arg14
  let v1642 : Index := Scalar.indexCast v1641
  let c32_2195 : Index := 32#32
  ![v1642.toNat, 32]
def k0_off361 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1654 : Index := Scalar.indexCast arg14
  let c48 : Index := 48#32
  ![v1654.toNat, 48]
def k0_off362 (k0_t23 : Fin k0_t23_loop.trips) : Fin 2 → Nat :=
  let c0_i32_2201 : BitVec 32 := 0#32
  let c0_i32_763 : BitVec 32 := 0#32
  let c1_i32_765 : BitVec 32 := 1#32
  let arg14 : BitVec 32 := Scf.iv c0_i32_763 c1_i32_765 k0_t23
  let v1657 : BitVec 32 := Scalar.addi c0_i32_2201 arg14
  let v1658 : Index := Scalar.indexCast v1657
  let c48_2202 : Index := 48#32
  ![v1658.toNat, 48]
def k0_off363 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1670 : Index := Scalar.indexCast arg14
  let c64 : Index := 64#32
  ![v1670.toNat, 64]
def k0_off364 (k0_t23 : Fin k0_t23_loop.trips) : Fin 2 → Nat :=
  let c0_i32_2208 : BitVec 32 := 0#32
  let c0_i32_763 : BitVec 32 := 0#32
  let c1_i32_765 : BitVec 32 := 1#32
  let arg14 : BitVec 32 := Scf.iv c0_i32_763 c1_i32_765 k0_t23
  let v1673 : BitVec 32 := Scalar.addi c0_i32_2208 arg14
  let v1674 : Index := Scalar.indexCast v1673
  let c64_2209 : Index := 64#32
  ![v1674.toNat, 64]
def k0_off365 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1686 : Index := Scalar.indexCast arg14
  let c80 : Index := 80#32
  ![v1686.toNat, 80]
def k0_off366 (k0_t23 : Fin k0_t23_loop.trips) : Fin 2 → Nat :=
  let c0_i32_2215 : BitVec 32 := 0#32
  let c0_i32_763 : BitVec 32 := 0#32
  let c1_i32_765 : BitVec 32 := 1#32
  let arg14 : BitVec 32 := Scf.iv c0_i32_763 c1_i32_765 k0_t23
  let v1689 : BitVec 32 := Scalar.addi c0_i32_2215 arg14
  let v1690 : Index := Scalar.indexCast v1689
  let c80_2216 : Index := 80#32
  ![v1690.toNat, 80]
def k0_off367 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1702 : Index := Scalar.indexCast arg14
  let c96 : Index := 96#32
  ![v1702.toNat, 96]
def k0_off368 (k0_t23 : Fin k0_t23_loop.trips) : Fin 2 → Nat :=
  let c0_i32_2222 : BitVec 32 := 0#32
  let c0_i32_763 : BitVec 32 := 0#32
  let c1_i32_765 : BitVec 32 := 1#32
  let arg14 : BitVec 32 := Scf.iv c0_i32_763 c1_i32_765 k0_t23
  let v1705 : BitVec 32 := Scalar.addi c0_i32_2222 arg14
  let v1706 : Index := Scalar.indexCast v1705
  let c96_2223 : Index := 96#32
  ![v1706.toNat, 96]
def k0_off369 (k0_t23 : Fin k0_t23_loop.trips) : Fin 2 → Nat :=
  let c0_i32_763 : BitVec 32 := 0#32
  let c1_i32_765 : BitVec 32 := 1#32
  let arg14 : BitVec 32 := Scf.iv c0_i32_763 c1_i32_765 k0_t23
  let v1718 : Index := Scalar.indexCast arg14
  let c112 : Index := 112#32
  ![v1718.toNat, 112]
def k0_off370 (k0_t23 : Fin k0_t23_loop.trips) : Fin 2 → Nat :=
  let c0_i32_2229 : BitVec 32 := 0#32
  let c0_i32_763 : BitVec 32 := 0#32
  let c1_i32_765 : BitVec 32 := 1#32
  let arg14 : BitVec 32 := Scf.iv c0_i32_763 c1_i32_765 k0_t23
  let v1721 : BitVec 32 := Scalar.addi c0_i32_2229 arg14
  let v1722 : Index := Scalar.indexCast v1721
  let c112_2230 : Index := 112#32
  ![v1722.toNat, 112]
@[reducible] def k0_t24_loop : Scf.Loop 32 :=
  let c0_i32_797 : BitVec 32 := 0#32
  let c128_i32_798 : BitVec 32 := 128#32
  let v587 : BitVec 32 := Scalar.addi c0_i32_797 c128_i32_798
  let c1_i32_799 : BitVec 32 := 1#32
  ⟨c0_i32_797, v587, c1_i32_799⟩
def k0_off371 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1606 : Index := Scalar.indexCast arg14
  let c0 : Index := 0#32
  ![v1606.toNat, 0]
def k0_off372 (k0_t24 : Fin k0_t24_loop.trips) : Fin 2 → Nat :=
  let c128_i32_2180 : BitVec 32 := 128#32
  let c0_i32_797 : BitVec 32 := 0#32
  let c1_i32_799 : BitVec 32 := 1#32
  let arg14 : BitVec 32 := Scf.iv c0_i32_797 c1_i32_799 k0_t24
  let v1609 : BitVec 32 := Scalar.addi c128_i32_2180 arg14
  let v1610 : Index := Scalar.indexCast v1609
  let c0_2181 : Index := 0#32
  ![v1610.toNat, 0]
def k0_off373 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1622 : Index := Scalar.indexCast arg14
  let c16 : Index := 16#32
  ![v1622.toNat, 16]
def k0_off374 (k0_t24 : Fin k0_t24_loop.trips) : Fin 2 → Nat :=
  let c128_i32_2187 : BitVec 32 := 128#32
  let c0_i32_797 : BitVec 32 := 0#32
  let c1_i32_799 : BitVec 32 := 1#32
  let arg14 : BitVec 32 := Scf.iv c0_i32_797 c1_i32_799 k0_t24
  let v1625 : BitVec 32 := Scalar.addi c128_i32_2187 arg14
  let v1626 : Index := Scalar.indexCast v1625
  let c16_2188 : Index := 16#32
  ![v1626.toNat, 16]
def k0_off375 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1638 : Index := Scalar.indexCast arg14
  let c32 : Index := 32#32
  ![v1638.toNat, 32]
def k0_off376 (k0_t24 : Fin k0_t24_loop.trips) : Fin 2 → Nat :=
  let c128_i32_2194 : BitVec 32 := 128#32
  let c0_i32_797 : BitVec 32 := 0#32
  let c1_i32_799 : BitVec 32 := 1#32
  let arg14 : BitVec 32 := Scf.iv c0_i32_797 c1_i32_799 k0_t24
  let v1641 : BitVec 32 := Scalar.addi c128_i32_2194 arg14
  let v1642 : Index := Scalar.indexCast v1641
  let c32_2195 : Index := 32#32
  ![v1642.toNat, 32]
def k0_off377 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1654 : Index := Scalar.indexCast arg14
  let c48 : Index := 48#32
  ![v1654.toNat, 48]
def k0_off378 (k0_t24 : Fin k0_t24_loop.trips) : Fin 2 → Nat :=
  let c128_i32_2201 : BitVec 32 := 128#32
  let c0_i32_797 : BitVec 32 := 0#32
  let c1_i32_799 : BitVec 32 := 1#32
  let arg14 : BitVec 32 := Scf.iv c0_i32_797 c1_i32_799 k0_t24
  let v1657 : BitVec 32 := Scalar.addi c128_i32_2201 arg14
  let v1658 : Index := Scalar.indexCast v1657
  let c48_2202 : Index := 48#32
  ![v1658.toNat, 48]
def k0_off379 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1670 : Index := Scalar.indexCast arg14
  let c64 : Index := 64#32
  ![v1670.toNat, 64]
def k0_off380 (k0_t24 : Fin k0_t24_loop.trips) : Fin 2 → Nat :=
  let c128_i32_2208 : BitVec 32 := 128#32
  let c0_i32_797 : BitVec 32 := 0#32
  let c1_i32_799 : BitVec 32 := 1#32
  let arg14 : BitVec 32 := Scf.iv c0_i32_797 c1_i32_799 k0_t24
  let v1673 : BitVec 32 := Scalar.addi c128_i32_2208 arg14
  let v1674 : Index := Scalar.indexCast v1673
  let c64_2209 : Index := 64#32
  ![v1674.toNat, 64]
def k0_off381 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1686 : Index := Scalar.indexCast arg14
  let c80 : Index := 80#32
  ![v1686.toNat, 80]
def k0_off382 (k0_t24 : Fin k0_t24_loop.trips) : Fin 2 → Nat :=
  let c128_i32_2215 : BitVec 32 := 128#32
  let c0_i32_797 : BitVec 32 := 0#32
  let c1_i32_799 : BitVec 32 := 1#32
  let arg14 : BitVec 32 := Scf.iv c0_i32_797 c1_i32_799 k0_t24
  let v1689 : BitVec 32 := Scalar.addi c128_i32_2215 arg14
  let v1690 : Index := Scalar.indexCast v1689
  let c80_2216 : Index := 80#32
  ![v1690.toNat, 80]
def k0_off383 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1702 : Index := Scalar.indexCast arg14
  let c96 : Index := 96#32
  ![v1702.toNat, 96]
def k0_off384 (k0_t24 : Fin k0_t24_loop.trips) : Fin 2 → Nat :=
  let c128_i32_2222 : BitVec 32 := 128#32
  let c0_i32_797 : BitVec 32 := 0#32
  let c1_i32_799 : BitVec 32 := 1#32
  let arg14 : BitVec 32 := Scf.iv c0_i32_797 c1_i32_799 k0_t24
  let v1705 : BitVec 32 := Scalar.addi c128_i32_2222 arg14
  let v1706 : Index := Scalar.indexCast v1705
  let c96_2223 : Index := 96#32
  ![v1706.toNat, 96]
def k0_off385 (k0_t24 : Fin k0_t24_loop.trips) : Fin 2 → Nat :=
  let c0_i32_797 : BitVec 32 := 0#32
  let c1_i32_799 : BitVec 32 := 1#32
  let arg14 : BitVec 32 := Scf.iv c0_i32_797 c1_i32_799 k0_t24
  let v1718 : Index := Scalar.indexCast arg14
  let c112 : Index := 112#32
  ![v1718.toNat, 112]
def k0_off386 (k0_t24 : Fin k0_t24_loop.trips) : Fin 2 → Nat :=
  let c128_i32_2229 : BitVec 32 := 128#32
  let c0_i32_797 : BitVec 32 := 0#32
  let c1_i32_799 : BitVec 32 := 1#32
  let arg14 : BitVec 32 := Scf.iv c0_i32_797 c1_i32_799 k0_t24
  let v1721 : BitVec 32 := Scalar.addi c128_i32_2229 arg14
  let v1722 : Index := Scalar.indexCast v1721
  let c112_2230 : Index := 112#32
  ![v1722.toNat, 112]
@[reducible] def k0_t25_loop : Scf.Loop 32 :=
  let c0_i32_831 : BitVec 32 := 0#32
  let c128_i32_832 : BitVec 32 := 128#32
  let v612 : BitVec 32 := Scalar.addi c0_i32_831 c128_i32_832
  let c1_i32_833 : BitVec 32 := 1#32
  ⟨c0_i32_831, v612, c1_i32_833⟩
def k0_off387 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1606 : Index := Scalar.indexCast arg14
  let c0 : Index := 0#32
  ![v1606.toNat, 0]
def k0_off388 (k0_t25 : Fin k0_t25_loop.trips) : Fin 2 → Nat :=
  let c0_i32_2180 : BitVec 32 := 0#32
  let c0_i32_831 : BitVec 32 := 0#32
  let c1_i32_833 : BitVec 32 := 1#32
  let arg14 : BitVec 32 := Scf.iv c0_i32_831 c1_i32_833 k0_t25
  let v1609 : BitVec 32 := Scalar.addi c0_i32_2180 arg14
  let v1610 : Index := Scalar.indexCast v1609
  let c0_2181 : Index := 0#32
  ![v1610.toNat, 0]
def k0_off389 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1622 : Index := Scalar.indexCast arg14
  let c16 : Index := 16#32
  ![v1622.toNat, 16]
def k0_off390 (k0_t25 : Fin k0_t25_loop.trips) : Fin 2 → Nat :=
  let c0_i32_2187 : BitVec 32 := 0#32
  let c0_i32_831 : BitVec 32 := 0#32
  let c1_i32_833 : BitVec 32 := 1#32
  let arg14 : BitVec 32 := Scf.iv c0_i32_831 c1_i32_833 k0_t25
  let v1625 : BitVec 32 := Scalar.addi c0_i32_2187 arg14
  let v1626 : Index := Scalar.indexCast v1625
  let c16_2188 : Index := 16#32
  ![v1626.toNat, 16]
def k0_off391 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1638 : Index := Scalar.indexCast arg14
  let c32 : Index := 32#32
  ![v1638.toNat, 32]
def k0_off392 (k0_t25 : Fin k0_t25_loop.trips) : Fin 2 → Nat :=
  let c0_i32_2194 : BitVec 32 := 0#32
  let c0_i32_831 : BitVec 32 := 0#32
  let c1_i32_833 : BitVec 32 := 1#32
  let arg14 : BitVec 32 := Scf.iv c0_i32_831 c1_i32_833 k0_t25
  let v1641 : BitVec 32 := Scalar.addi c0_i32_2194 arg14
  let v1642 : Index := Scalar.indexCast v1641
  let c32_2195 : Index := 32#32
  ![v1642.toNat, 32]
def k0_off393 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1654 : Index := Scalar.indexCast arg14
  let c48 : Index := 48#32
  ![v1654.toNat, 48]
def k0_off394 (k0_t25 : Fin k0_t25_loop.trips) : Fin 2 → Nat :=
  let c0_i32_2201 : BitVec 32 := 0#32
  let c0_i32_831 : BitVec 32 := 0#32
  let c1_i32_833 : BitVec 32 := 1#32
  let arg14 : BitVec 32 := Scf.iv c0_i32_831 c1_i32_833 k0_t25
  let v1657 : BitVec 32 := Scalar.addi c0_i32_2201 arg14
  let v1658 : Index := Scalar.indexCast v1657
  let c48_2202 : Index := 48#32
  ![v1658.toNat, 48]
def k0_off395 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1670 : Index := Scalar.indexCast arg14
  let c64 : Index := 64#32
  ![v1670.toNat, 64]
def k0_off396 (k0_t25 : Fin k0_t25_loop.trips) : Fin 2 → Nat :=
  let c0_i32_2208 : BitVec 32 := 0#32
  let c0_i32_831 : BitVec 32 := 0#32
  let c1_i32_833 : BitVec 32 := 1#32
  let arg14 : BitVec 32 := Scf.iv c0_i32_831 c1_i32_833 k0_t25
  let v1673 : BitVec 32 := Scalar.addi c0_i32_2208 arg14
  let v1674 : Index := Scalar.indexCast v1673
  let c64_2209 : Index := 64#32
  ![v1674.toNat, 64]
def k0_off397 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1686 : Index := Scalar.indexCast arg14
  let c80 : Index := 80#32
  ![v1686.toNat, 80]
def k0_off398 (k0_t25 : Fin k0_t25_loop.trips) : Fin 2 → Nat :=
  let c0_i32_2215 : BitVec 32 := 0#32
  let c0_i32_831 : BitVec 32 := 0#32
  let c1_i32_833 : BitVec 32 := 1#32
  let arg14 : BitVec 32 := Scf.iv c0_i32_831 c1_i32_833 k0_t25
  let v1689 : BitVec 32 := Scalar.addi c0_i32_2215 arg14
  let v1690 : Index := Scalar.indexCast v1689
  let c80_2216 : Index := 80#32
  ![v1690.toNat, 80]
def k0_off399 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1702 : Index := Scalar.indexCast arg14
  let c96 : Index := 96#32
  ![v1702.toNat, 96]
def k0_off400 (k0_t25 : Fin k0_t25_loop.trips) : Fin 2 → Nat :=
  let c0_i32_2222 : BitVec 32 := 0#32
  let c0_i32_831 : BitVec 32 := 0#32
  let c1_i32_833 : BitVec 32 := 1#32
  let arg14 : BitVec 32 := Scf.iv c0_i32_831 c1_i32_833 k0_t25
  let v1705 : BitVec 32 := Scalar.addi c0_i32_2222 arg14
  let v1706 : Index := Scalar.indexCast v1705
  let c96_2223 : Index := 96#32
  ![v1706.toNat, 96]
def k0_off401 (k0_t25 : Fin k0_t25_loop.trips) : Fin 2 → Nat :=
  let c0_i32_831 : BitVec 32 := 0#32
  let c1_i32_833 : BitVec 32 := 1#32
  let arg14 : BitVec 32 := Scf.iv c0_i32_831 c1_i32_833 k0_t25
  let v1718 : Index := Scalar.indexCast arg14
  let c112 : Index := 112#32
  ![v1718.toNat, 112]
def k0_off402 (k0_t25 : Fin k0_t25_loop.trips) : Fin 2 → Nat :=
  let c0_i32_2229 : BitVec 32 := 0#32
  let c0_i32_831 : BitVec 32 := 0#32
  let c1_i32_833 : BitVec 32 := 1#32
  let arg14 : BitVec 32 := Scf.iv c0_i32_831 c1_i32_833 k0_t25
  let v1721 : BitVec 32 := Scalar.addi c0_i32_2229 arg14
  let v1722 : Index := Scalar.indexCast v1721
  let c112_2230 : Index := 112#32
  ![v1722.toNat, 112]
@[reducible] def k0_t26_loop : Scf.Loop 32 :=
  let c0_i32_865 : BitVec 32 := 0#32
  let c128_i32_866 : BitVec 32 := 128#32
  let v637 : BitVec 32 := Scalar.addi c0_i32_865 c128_i32_866
  let c1_i32_867 : BitVec 32 := 1#32
  ⟨c0_i32_865, v637, c1_i32_867⟩
def k0_off403 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1606 : Index := Scalar.indexCast arg14
  let c0 : Index := 0#32
  ![v1606.toNat, 0]
def k0_off404 (k0_t26 : Fin k0_t26_loop.trips) : Fin 2 → Nat :=
  let c128_i32_2180 : BitVec 32 := 128#32
  let c0_i32_865 : BitVec 32 := 0#32
  let c1_i32_867 : BitVec 32 := 1#32
  let arg14 : BitVec 32 := Scf.iv c0_i32_865 c1_i32_867 k0_t26
  let v1609 : BitVec 32 := Scalar.addi c128_i32_2180 arg14
  let v1610 : Index := Scalar.indexCast v1609
  let c0_2181 : Index := 0#32
  ![v1610.toNat, 0]
def k0_off405 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1622 : Index := Scalar.indexCast arg14
  let c16 : Index := 16#32
  ![v1622.toNat, 16]
def k0_off406 (k0_t26 : Fin k0_t26_loop.trips) : Fin 2 → Nat :=
  let c128_i32_2187 : BitVec 32 := 128#32
  let c0_i32_865 : BitVec 32 := 0#32
  let c1_i32_867 : BitVec 32 := 1#32
  let arg14 : BitVec 32 := Scf.iv c0_i32_865 c1_i32_867 k0_t26
  let v1625 : BitVec 32 := Scalar.addi c128_i32_2187 arg14
  let v1626 : Index := Scalar.indexCast v1625
  let c16_2188 : Index := 16#32
  ![v1626.toNat, 16]
def k0_off407 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1638 : Index := Scalar.indexCast arg14
  let c32 : Index := 32#32
  ![v1638.toNat, 32]
def k0_off408 (k0_t26 : Fin k0_t26_loop.trips) : Fin 2 → Nat :=
  let c128_i32_2194 : BitVec 32 := 128#32
  let c0_i32_865 : BitVec 32 := 0#32
  let c1_i32_867 : BitVec 32 := 1#32
  let arg14 : BitVec 32 := Scf.iv c0_i32_865 c1_i32_867 k0_t26
  let v1641 : BitVec 32 := Scalar.addi c128_i32_2194 arg14
  let v1642 : Index := Scalar.indexCast v1641
  let c32_2195 : Index := 32#32
  ![v1642.toNat, 32]
def k0_off409 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1654 : Index := Scalar.indexCast arg14
  let c48 : Index := 48#32
  ![v1654.toNat, 48]
def k0_off410 (k0_t26 : Fin k0_t26_loop.trips) : Fin 2 → Nat :=
  let c128_i32_2201 : BitVec 32 := 128#32
  let c0_i32_865 : BitVec 32 := 0#32
  let c1_i32_867 : BitVec 32 := 1#32
  let arg14 : BitVec 32 := Scf.iv c0_i32_865 c1_i32_867 k0_t26
  let v1657 : BitVec 32 := Scalar.addi c128_i32_2201 arg14
  let v1658 : Index := Scalar.indexCast v1657
  let c48_2202 : Index := 48#32
  ![v1658.toNat, 48]
def k0_off411 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1670 : Index := Scalar.indexCast arg14
  let c64 : Index := 64#32
  ![v1670.toNat, 64]
def k0_off412 (k0_t26 : Fin k0_t26_loop.trips) : Fin 2 → Nat :=
  let c128_i32_2208 : BitVec 32 := 128#32
  let c0_i32_865 : BitVec 32 := 0#32
  let c1_i32_867 : BitVec 32 := 1#32
  let arg14 : BitVec 32 := Scf.iv c0_i32_865 c1_i32_867 k0_t26
  let v1673 : BitVec 32 := Scalar.addi c128_i32_2208 arg14
  let v1674 : Index := Scalar.indexCast v1673
  let c64_2209 : Index := 64#32
  ![v1674.toNat, 64]
def k0_off413 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1686 : Index := Scalar.indexCast arg14
  let c80 : Index := 80#32
  ![v1686.toNat, 80]
def k0_off414 (k0_t26 : Fin k0_t26_loop.trips) : Fin 2 → Nat :=
  let c128_i32_2215 : BitVec 32 := 128#32
  let c0_i32_865 : BitVec 32 := 0#32
  let c1_i32_867 : BitVec 32 := 1#32
  let arg14 : BitVec 32 := Scf.iv c0_i32_865 c1_i32_867 k0_t26
  let v1689 : BitVec 32 := Scalar.addi c128_i32_2215 arg14
  let v1690 : Index := Scalar.indexCast v1689
  let c80_2216 : Index := 80#32
  ![v1690.toNat, 80]
def k0_off415 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1702 : Index := Scalar.indexCast arg14
  let c96 : Index := 96#32
  ![v1702.toNat, 96]
def k0_off416 (k0_t26 : Fin k0_t26_loop.trips) : Fin 2 → Nat :=
  let c128_i32_2222 : BitVec 32 := 128#32
  let c0_i32_865 : BitVec 32 := 0#32
  let c1_i32_867 : BitVec 32 := 1#32
  let arg14 : BitVec 32 := Scf.iv c0_i32_865 c1_i32_867 k0_t26
  let v1705 : BitVec 32 := Scalar.addi c128_i32_2222 arg14
  let v1706 : Index := Scalar.indexCast v1705
  let c96_2223 : Index := 96#32
  ![v1706.toNat, 96]
def k0_off417 (k0_t26 : Fin k0_t26_loop.trips) : Fin 2 → Nat :=
  let c0_i32_865 : BitVec 32 := 0#32
  let c1_i32_867 : BitVec 32 := 1#32
  let arg14 : BitVec 32 := Scf.iv c0_i32_865 c1_i32_867 k0_t26
  let v1718 : Index := Scalar.indexCast arg14
  let c112 : Index := 112#32
  ![v1718.toNat, 112]
def k0_off418 (k0_t26 : Fin k0_t26_loop.trips) : Fin 2 → Nat :=
  let c128_i32_2229 : BitVec 32 := 128#32
  let c0_i32_865 : BitVec 32 := 0#32
  let c1_i32_867 : BitVec 32 := 1#32
  let arg14 : BitVec 32 := Scf.iv c0_i32_865 c1_i32_867 k0_t26
  let v1721 : BitVec 32 := Scalar.addi c128_i32_2229 arg14
  let v1722 : Index := Scalar.indexCast v1721
  let c112_2230 : Index := 112#32
  ![v1722.toNat, 112]
@[reducible] def k0_t27_loop : Scf.Loop 32 :=
  let c0_i32_899 : BitVec 32 := 0#32
  let c128_i32_900 : BitVec 32 := 128#32
  let v662 : BitVec 32 := Scalar.addi c0_i32_899 c128_i32_900
  let c1_i32_901 : BitVec 32 := 1#32
  ⟨c0_i32_899, v662, c1_i32_901⟩
def k0_off419 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1606 : Index := Scalar.indexCast arg14
  let c0 : Index := 0#32
  ![v1606.toNat, 0]
def k0_off420 (k0_t27 : Fin k0_t27_loop.trips) : Fin 2 → Nat :=
  let c0_i32_2180 : BitVec 32 := 0#32
  let c0_i32_899 : BitVec 32 := 0#32
  let c1_i32_901 : BitVec 32 := 1#32
  let arg14 : BitVec 32 := Scf.iv c0_i32_899 c1_i32_901 k0_t27
  let v1609 : BitVec 32 := Scalar.addi c0_i32_2180 arg14
  let v1610 : Index := Scalar.indexCast v1609
  let c0_2181 : Index := 0#32
  ![v1610.toNat, 0]
def k0_off421 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1622 : Index := Scalar.indexCast arg14
  let c16 : Index := 16#32
  ![v1622.toNat, 16]
def k0_off422 (k0_t27 : Fin k0_t27_loop.trips) : Fin 2 → Nat :=
  let c0_i32_2187 : BitVec 32 := 0#32
  let c0_i32_899 : BitVec 32 := 0#32
  let c1_i32_901 : BitVec 32 := 1#32
  let arg14 : BitVec 32 := Scf.iv c0_i32_899 c1_i32_901 k0_t27
  let v1625 : BitVec 32 := Scalar.addi c0_i32_2187 arg14
  let v1626 : Index := Scalar.indexCast v1625
  let c16_2188 : Index := 16#32
  ![v1626.toNat, 16]
def k0_off423 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1638 : Index := Scalar.indexCast arg14
  let c32 : Index := 32#32
  ![v1638.toNat, 32]
def k0_off424 (k0_t27 : Fin k0_t27_loop.trips) : Fin 2 → Nat :=
  let c0_i32_2194 : BitVec 32 := 0#32
  let c0_i32_899 : BitVec 32 := 0#32
  let c1_i32_901 : BitVec 32 := 1#32
  let arg14 : BitVec 32 := Scf.iv c0_i32_899 c1_i32_901 k0_t27
  let v1641 : BitVec 32 := Scalar.addi c0_i32_2194 arg14
  let v1642 : Index := Scalar.indexCast v1641
  let c32_2195 : Index := 32#32
  ![v1642.toNat, 32]
def k0_off425 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1654 : Index := Scalar.indexCast arg14
  let c48 : Index := 48#32
  ![v1654.toNat, 48]
def k0_off426 (k0_t27 : Fin k0_t27_loop.trips) : Fin 2 → Nat :=
  let c0_i32_2201 : BitVec 32 := 0#32
  let c0_i32_899 : BitVec 32 := 0#32
  let c1_i32_901 : BitVec 32 := 1#32
  let arg14 : BitVec 32 := Scf.iv c0_i32_899 c1_i32_901 k0_t27
  let v1657 : BitVec 32 := Scalar.addi c0_i32_2201 arg14
  let v1658 : Index := Scalar.indexCast v1657
  let c48_2202 : Index := 48#32
  ![v1658.toNat, 48]
def k0_off427 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1670 : Index := Scalar.indexCast arg14
  let c64 : Index := 64#32
  ![v1670.toNat, 64]
def k0_off428 (k0_t27 : Fin k0_t27_loop.trips) : Fin 2 → Nat :=
  let c0_i32_2208 : BitVec 32 := 0#32
  let c0_i32_899 : BitVec 32 := 0#32
  let c1_i32_901 : BitVec 32 := 1#32
  let arg14 : BitVec 32 := Scf.iv c0_i32_899 c1_i32_901 k0_t27
  let v1673 : BitVec 32 := Scalar.addi c0_i32_2208 arg14
  let v1674 : Index := Scalar.indexCast v1673
  let c64_2209 : Index := 64#32
  ![v1674.toNat, 64]
def k0_off429 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1686 : Index := Scalar.indexCast arg14
  let c80 : Index := 80#32
  ![v1686.toNat, 80]
def k0_off430 (k0_t27 : Fin k0_t27_loop.trips) : Fin 2 → Nat :=
  let c0_i32_2215 : BitVec 32 := 0#32
  let c0_i32_899 : BitVec 32 := 0#32
  let c1_i32_901 : BitVec 32 := 1#32
  let arg14 : BitVec 32 := Scf.iv c0_i32_899 c1_i32_901 k0_t27
  let v1689 : BitVec 32 := Scalar.addi c0_i32_2215 arg14
  let v1690 : Index := Scalar.indexCast v1689
  let c80_2216 : Index := 80#32
  ![v1690.toNat, 80]
def k0_off431 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1702 : Index := Scalar.indexCast arg14
  let c96 : Index := 96#32
  ![v1702.toNat, 96]
def k0_off432 (k0_t27 : Fin k0_t27_loop.trips) : Fin 2 → Nat :=
  let c0_i32_2222 : BitVec 32 := 0#32
  let c0_i32_899 : BitVec 32 := 0#32
  let c1_i32_901 : BitVec 32 := 1#32
  let arg14 : BitVec 32 := Scf.iv c0_i32_899 c1_i32_901 k0_t27
  let v1705 : BitVec 32 := Scalar.addi c0_i32_2222 arg14
  let v1706 : Index := Scalar.indexCast v1705
  let c96_2223 : Index := 96#32
  ![v1706.toNat, 96]
def k0_off433 (k0_t27 : Fin k0_t27_loop.trips) : Fin 2 → Nat :=
  let c0_i32_899 : BitVec 32 := 0#32
  let c1_i32_901 : BitVec 32 := 1#32
  let arg14 : BitVec 32 := Scf.iv c0_i32_899 c1_i32_901 k0_t27
  let v1718 : Index := Scalar.indexCast arg14
  let c112 : Index := 112#32
  ![v1718.toNat, 112]
def k0_off434 (k0_t27 : Fin k0_t27_loop.trips) : Fin 2 → Nat :=
  let c0_i32_2229 : BitVec 32 := 0#32
  let c0_i32_899 : BitVec 32 := 0#32
  let c1_i32_901 : BitVec 32 := 1#32
  let arg14 : BitVec 32 := Scf.iv c0_i32_899 c1_i32_901 k0_t27
  let v1721 : BitVec 32 := Scalar.addi c0_i32_2229 arg14
  let v1722 : Index := Scalar.indexCast v1721
  let c112_2230 : Index := 112#32
  ![v1722.toNat, 112]
@[reducible] def k0_t28_loop : Scf.Loop 32 :=
  let c0_i32_933 : BitVec 32 := 0#32
  let c128_i32_934 : BitVec 32 := 128#32
  let v687 : BitVec 32 := Scalar.addi c0_i32_933 c128_i32_934
  let c1_i32_935 : BitVec 32 := 1#32
  ⟨c0_i32_933, v687, c1_i32_935⟩
def k0_off435 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1606 : Index := Scalar.indexCast arg14
  let c0 : Index := 0#32
  ![v1606.toNat, 0]
def k0_off436 (k0_t28 : Fin k0_t28_loop.trips) : Fin 2 → Nat :=
  let c128_i32_2180 : BitVec 32 := 128#32
  let c0_i32_933 : BitVec 32 := 0#32
  let c1_i32_935 : BitVec 32 := 1#32
  let arg14 : BitVec 32 := Scf.iv c0_i32_933 c1_i32_935 k0_t28
  let v1609 : BitVec 32 := Scalar.addi c128_i32_2180 arg14
  let v1610 : Index := Scalar.indexCast v1609
  let c0_2181 : Index := 0#32
  ![v1610.toNat, 0]
def k0_off437 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1622 : Index := Scalar.indexCast arg14
  let c16 : Index := 16#32
  ![v1622.toNat, 16]
def k0_off438 (k0_t28 : Fin k0_t28_loop.trips) : Fin 2 → Nat :=
  let c128_i32_2187 : BitVec 32 := 128#32
  let c0_i32_933 : BitVec 32 := 0#32
  let c1_i32_935 : BitVec 32 := 1#32
  let arg14 : BitVec 32 := Scf.iv c0_i32_933 c1_i32_935 k0_t28
  let v1625 : BitVec 32 := Scalar.addi c128_i32_2187 arg14
  let v1626 : Index := Scalar.indexCast v1625
  let c16_2188 : Index := 16#32
  ![v1626.toNat, 16]
def k0_off439 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1638 : Index := Scalar.indexCast arg14
  let c32 : Index := 32#32
  ![v1638.toNat, 32]
def k0_off440 (k0_t28 : Fin k0_t28_loop.trips) : Fin 2 → Nat :=
  let c128_i32_2194 : BitVec 32 := 128#32
  let c0_i32_933 : BitVec 32 := 0#32
  let c1_i32_935 : BitVec 32 := 1#32
  let arg14 : BitVec 32 := Scf.iv c0_i32_933 c1_i32_935 k0_t28
  let v1641 : BitVec 32 := Scalar.addi c128_i32_2194 arg14
  let v1642 : Index := Scalar.indexCast v1641
  let c32_2195 : Index := 32#32
  ![v1642.toNat, 32]
def k0_off441 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1654 : Index := Scalar.indexCast arg14
  let c48 : Index := 48#32
  ![v1654.toNat, 48]
def k0_off442 (k0_t28 : Fin k0_t28_loop.trips) : Fin 2 → Nat :=
  let c128_i32_2201 : BitVec 32 := 128#32
  let c0_i32_933 : BitVec 32 := 0#32
  let c1_i32_935 : BitVec 32 := 1#32
  let arg14 : BitVec 32 := Scf.iv c0_i32_933 c1_i32_935 k0_t28
  let v1657 : BitVec 32 := Scalar.addi c128_i32_2201 arg14
  let v1658 : Index := Scalar.indexCast v1657
  let c48_2202 : Index := 48#32
  ![v1658.toNat, 48]
def k0_off443 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1670 : Index := Scalar.indexCast arg14
  let c64 : Index := 64#32
  ![v1670.toNat, 64]
def k0_off444 (k0_t28 : Fin k0_t28_loop.trips) : Fin 2 → Nat :=
  let c128_i32_2208 : BitVec 32 := 128#32
  let c0_i32_933 : BitVec 32 := 0#32
  let c1_i32_935 : BitVec 32 := 1#32
  let arg14 : BitVec 32 := Scf.iv c0_i32_933 c1_i32_935 k0_t28
  let v1673 : BitVec 32 := Scalar.addi c128_i32_2208 arg14
  let v1674 : Index := Scalar.indexCast v1673
  let c64_2209 : Index := 64#32
  ![v1674.toNat, 64]
def k0_off445 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1686 : Index := Scalar.indexCast arg14
  let c80 : Index := 80#32
  ![v1686.toNat, 80]
def k0_off446 (k0_t28 : Fin k0_t28_loop.trips) : Fin 2 → Nat :=
  let c128_i32_2215 : BitVec 32 := 128#32
  let c0_i32_933 : BitVec 32 := 0#32
  let c1_i32_935 : BitVec 32 := 1#32
  let arg14 : BitVec 32 := Scf.iv c0_i32_933 c1_i32_935 k0_t28
  let v1689 : BitVec 32 := Scalar.addi c128_i32_2215 arg14
  let v1690 : Index := Scalar.indexCast v1689
  let c80_2216 : Index := 80#32
  ![v1690.toNat, 80]
def k0_off447 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1702 : Index := Scalar.indexCast arg14
  let c96 : Index := 96#32
  ![v1702.toNat, 96]
def k0_off448 (k0_t28 : Fin k0_t28_loop.trips) : Fin 2 → Nat :=
  let c128_i32_2222 : BitVec 32 := 128#32
  let c0_i32_933 : BitVec 32 := 0#32
  let c1_i32_935 : BitVec 32 := 1#32
  let arg14 : BitVec 32 := Scf.iv c0_i32_933 c1_i32_935 k0_t28
  let v1705 : BitVec 32 := Scalar.addi c128_i32_2222 arg14
  let v1706 : Index := Scalar.indexCast v1705
  let c96_2223 : Index := 96#32
  ![v1706.toNat, 96]
def k0_off449 (k0_t28 : Fin k0_t28_loop.trips) : Fin 2 → Nat :=
  let c0_i32_933 : BitVec 32 := 0#32
  let c1_i32_935 : BitVec 32 := 1#32
  let arg14 : BitVec 32 := Scf.iv c0_i32_933 c1_i32_935 k0_t28
  let v1718 : Index := Scalar.indexCast arg14
  let c112 : Index := 112#32
  ![v1718.toNat, 112]
def k0_off450 (k0_t28 : Fin k0_t28_loop.trips) : Fin 2 → Nat :=
  let c128_i32_2229 : BitVec 32 := 128#32
  let c0_i32_933 : BitVec 32 := 0#32
  let c1_i32_935 : BitVec 32 := 1#32
  let arg14 : BitVec 32 := Scf.iv c0_i32_933 c1_i32_935 k0_t28
  let v1721 : BitVec 32 := Scalar.addi c128_i32_2229 arg14
  let v1722 : Index := Scalar.indexCast v1721
  let c112_2230 : Index := 112#32
  ![v1722.toNat, 112]
@[reducible] def k0_t29_loop : Scf.Loop 32 :=
  let c0_i32_967 : BitVec 32 := 0#32
  let c128_i32_968 : BitVec 32 := 128#32
  let v712 : BitVec 32 := Scalar.addi c0_i32_967 c128_i32_968
  let c1_i32_969 : BitVec 32 := 1#32
  ⟨c0_i32_967, v712, c1_i32_969⟩
def k0_off451 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1606 : Index := Scalar.indexCast arg14
  let c0 : Index := 0#32
  ![v1606.toNat, 0]
def k0_off452 (k0_t29 : Fin k0_t29_loop.trips) : Fin 2 → Nat :=
  let c0_i32_2180 : BitVec 32 := 0#32
  let c0_i32_967 : BitVec 32 := 0#32
  let c1_i32_969 : BitVec 32 := 1#32
  let arg14 : BitVec 32 := Scf.iv c0_i32_967 c1_i32_969 k0_t29
  let v1609 : BitVec 32 := Scalar.addi c0_i32_2180 arg14
  let v1610 : Index := Scalar.indexCast v1609
  let c0_2181 : Index := 0#32
  ![v1610.toNat, 0]
def k0_off453 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1622 : Index := Scalar.indexCast arg14
  let c16 : Index := 16#32
  ![v1622.toNat, 16]
def k0_off454 (k0_t29 : Fin k0_t29_loop.trips) : Fin 2 → Nat :=
  let c0_i32_2187 : BitVec 32 := 0#32
  let c0_i32_967 : BitVec 32 := 0#32
  let c1_i32_969 : BitVec 32 := 1#32
  let arg14 : BitVec 32 := Scf.iv c0_i32_967 c1_i32_969 k0_t29
  let v1625 : BitVec 32 := Scalar.addi c0_i32_2187 arg14
  let v1626 : Index := Scalar.indexCast v1625
  let c16_2188 : Index := 16#32
  ![v1626.toNat, 16]
def k0_off455 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1638 : Index := Scalar.indexCast arg14
  let c32 : Index := 32#32
  ![v1638.toNat, 32]
def k0_off456 (k0_t29 : Fin k0_t29_loop.trips) : Fin 2 → Nat :=
  let c0_i32_2194 : BitVec 32 := 0#32
  let c0_i32_967 : BitVec 32 := 0#32
  let c1_i32_969 : BitVec 32 := 1#32
  let arg14 : BitVec 32 := Scf.iv c0_i32_967 c1_i32_969 k0_t29
  let v1641 : BitVec 32 := Scalar.addi c0_i32_2194 arg14
  let v1642 : Index := Scalar.indexCast v1641
  let c32_2195 : Index := 32#32
  ![v1642.toNat, 32]
def k0_off457 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1654 : Index := Scalar.indexCast arg14
  let c48 : Index := 48#32
  ![v1654.toNat, 48]
def k0_off458 (k0_t29 : Fin k0_t29_loop.trips) : Fin 2 → Nat :=
  let c0_i32_2201 : BitVec 32 := 0#32
  let c0_i32_967 : BitVec 32 := 0#32
  let c1_i32_969 : BitVec 32 := 1#32
  let arg14 : BitVec 32 := Scf.iv c0_i32_967 c1_i32_969 k0_t29
  let v1657 : BitVec 32 := Scalar.addi c0_i32_2201 arg14
  let v1658 : Index := Scalar.indexCast v1657
  let c48_2202 : Index := 48#32
  ![v1658.toNat, 48]
def k0_off459 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1670 : Index := Scalar.indexCast arg14
  let c64 : Index := 64#32
  ![v1670.toNat, 64]
def k0_off460 (k0_t29 : Fin k0_t29_loop.trips) : Fin 2 → Nat :=
  let c0_i32_2208 : BitVec 32 := 0#32
  let c0_i32_967 : BitVec 32 := 0#32
  let c1_i32_969 : BitVec 32 := 1#32
  let arg14 : BitVec 32 := Scf.iv c0_i32_967 c1_i32_969 k0_t29
  let v1673 : BitVec 32 := Scalar.addi c0_i32_2208 arg14
  let v1674 : Index := Scalar.indexCast v1673
  let c64_2209 : Index := 64#32
  ![v1674.toNat, 64]
def k0_off461 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1686 : Index := Scalar.indexCast arg14
  let c80 : Index := 80#32
  ![v1686.toNat, 80]
def k0_off462 (k0_t29 : Fin k0_t29_loop.trips) : Fin 2 → Nat :=
  let c0_i32_2215 : BitVec 32 := 0#32
  let c0_i32_967 : BitVec 32 := 0#32
  let c1_i32_969 : BitVec 32 := 1#32
  let arg14 : BitVec 32 := Scf.iv c0_i32_967 c1_i32_969 k0_t29
  let v1689 : BitVec 32 := Scalar.addi c0_i32_2215 arg14
  let v1690 : Index := Scalar.indexCast v1689
  let c80_2216 : Index := 80#32
  ![v1690.toNat, 80]
def k0_off463 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1702 : Index := Scalar.indexCast arg14
  let c96 : Index := 96#32
  ![v1702.toNat, 96]
def k0_off464 (k0_t29 : Fin k0_t29_loop.trips) : Fin 2 → Nat :=
  let c0_i32_2222 : BitVec 32 := 0#32
  let c0_i32_967 : BitVec 32 := 0#32
  let c1_i32_969 : BitVec 32 := 1#32
  let arg14 : BitVec 32 := Scf.iv c0_i32_967 c1_i32_969 k0_t29
  let v1705 : BitVec 32 := Scalar.addi c0_i32_2222 arg14
  let v1706 : Index := Scalar.indexCast v1705
  let c96_2223 : Index := 96#32
  ![v1706.toNat, 96]
def k0_off465 (k0_t29 : Fin k0_t29_loop.trips) : Fin 2 → Nat :=
  let c0_i32_967 : BitVec 32 := 0#32
  let c1_i32_969 : BitVec 32 := 1#32
  let arg14 : BitVec 32 := Scf.iv c0_i32_967 c1_i32_969 k0_t29
  let v1718 : Index := Scalar.indexCast arg14
  let c112 : Index := 112#32
  ![v1718.toNat, 112]
def k0_off466 (k0_t29 : Fin k0_t29_loop.trips) : Fin 2 → Nat :=
  let c0_i32_2229 : BitVec 32 := 0#32
  let c0_i32_967 : BitVec 32 := 0#32
  let c1_i32_969 : BitVec 32 := 1#32
  let arg14 : BitVec 32 := Scf.iv c0_i32_967 c1_i32_969 k0_t29
  let v1721 : BitVec 32 := Scalar.addi c0_i32_2229 arg14
  let v1722 : Index := Scalar.indexCast v1721
  let c112_2230 : Index := 112#32
  ![v1722.toNat, 112]
@[reducible] def k0_t30_loop : Scf.Loop 32 :=
  let c0_i32_1001 : BitVec 32 := 0#32
  let c128_i32_1002 : BitVec 32 := 128#32
  let v737 : BitVec 32 := Scalar.addi c0_i32_1001 c128_i32_1002
  let c1_i32_1003 : BitVec 32 := 1#32
  ⟨c0_i32_1001, v737, c1_i32_1003⟩
def k0_off467 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1606 : Index := Scalar.indexCast arg14
  let c0 : Index := 0#32
  ![v1606.toNat, 0]
def k0_off468 (k0_t30 : Fin k0_t30_loop.trips) : Fin 2 → Nat :=
  let c128_i32_2180 : BitVec 32 := 128#32
  let c0_i32_1001 : BitVec 32 := 0#32
  let c1_i32_1003 : BitVec 32 := 1#32
  let arg14 : BitVec 32 := Scf.iv c0_i32_1001 c1_i32_1003 k0_t30
  let v1609 : BitVec 32 := Scalar.addi c128_i32_2180 arg14
  let v1610 : Index := Scalar.indexCast v1609
  let c0_2181 : Index := 0#32
  ![v1610.toNat, 0]
def k0_off469 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1622 : Index := Scalar.indexCast arg14
  let c16 : Index := 16#32
  ![v1622.toNat, 16]
def k0_off470 (k0_t30 : Fin k0_t30_loop.trips) : Fin 2 → Nat :=
  let c128_i32_2187 : BitVec 32 := 128#32
  let c0_i32_1001 : BitVec 32 := 0#32
  let c1_i32_1003 : BitVec 32 := 1#32
  let arg14 : BitVec 32 := Scf.iv c0_i32_1001 c1_i32_1003 k0_t30
  let v1625 : BitVec 32 := Scalar.addi c128_i32_2187 arg14
  let v1626 : Index := Scalar.indexCast v1625
  let c16_2188 : Index := 16#32
  ![v1626.toNat, 16]
def k0_off471 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1638 : Index := Scalar.indexCast arg14
  let c32 : Index := 32#32
  ![v1638.toNat, 32]
def k0_off472 (k0_t30 : Fin k0_t30_loop.trips) : Fin 2 → Nat :=
  let c128_i32_2194 : BitVec 32 := 128#32
  let c0_i32_1001 : BitVec 32 := 0#32
  let c1_i32_1003 : BitVec 32 := 1#32
  let arg14 : BitVec 32 := Scf.iv c0_i32_1001 c1_i32_1003 k0_t30
  let v1641 : BitVec 32 := Scalar.addi c128_i32_2194 arg14
  let v1642 : Index := Scalar.indexCast v1641
  let c32_2195 : Index := 32#32
  ![v1642.toNat, 32]
def k0_off473 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1654 : Index := Scalar.indexCast arg14
  let c48 : Index := 48#32
  ![v1654.toNat, 48]
def k0_off474 (k0_t30 : Fin k0_t30_loop.trips) : Fin 2 → Nat :=
  let c128_i32_2201 : BitVec 32 := 128#32
  let c0_i32_1001 : BitVec 32 := 0#32
  let c1_i32_1003 : BitVec 32 := 1#32
  let arg14 : BitVec 32 := Scf.iv c0_i32_1001 c1_i32_1003 k0_t30
  let v1657 : BitVec 32 := Scalar.addi c128_i32_2201 arg14
  let v1658 : Index := Scalar.indexCast v1657
  let c48_2202 : Index := 48#32
  ![v1658.toNat, 48]
def k0_off475 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1670 : Index := Scalar.indexCast arg14
  let c64 : Index := 64#32
  ![v1670.toNat, 64]
def k0_off476 (k0_t30 : Fin k0_t30_loop.trips) : Fin 2 → Nat :=
  let c128_i32_2208 : BitVec 32 := 128#32
  let c0_i32_1001 : BitVec 32 := 0#32
  let c1_i32_1003 : BitVec 32 := 1#32
  let arg14 : BitVec 32 := Scf.iv c0_i32_1001 c1_i32_1003 k0_t30
  let v1673 : BitVec 32 := Scalar.addi c128_i32_2208 arg14
  let v1674 : Index := Scalar.indexCast v1673
  let c64_2209 : Index := 64#32
  ![v1674.toNat, 64]
def k0_off477 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1686 : Index := Scalar.indexCast arg14
  let c80 : Index := 80#32
  ![v1686.toNat, 80]
def k0_off478 (k0_t30 : Fin k0_t30_loop.trips) : Fin 2 → Nat :=
  let c128_i32_2215 : BitVec 32 := 128#32
  let c0_i32_1001 : BitVec 32 := 0#32
  let c1_i32_1003 : BitVec 32 := 1#32
  let arg14 : BitVec 32 := Scf.iv c0_i32_1001 c1_i32_1003 k0_t30
  let v1689 : BitVec 32 := Scalar.addi c128_i32_2215 arg14
  let v1690 : Index := Scalar.indexCast v1689
  let c80_2216 : Index := 80#32
  ![v1690.toNat, 80]
def k0_off479 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1702 : Index := Scalar.indexCast arg14
  let c96 : Index := 96#32
  ![v1702.toNat, 96]
def k0_off480 (k0_t30 : Fin k0_t30_loop.trips) : Fin 2 → Nat :=
  let c128_i32_2222 : BitVec 32 := 128#32
  let c0_i32_1001 : BitVec 32 := 0#32
  let c1_i32_1003 : BitVec 32 := 1#32
  let arg14 : BitVec 32 := Scf.iv c0_i32_1001 c1_i32_1003 k0_t30
  let v1705 : BitVec 32 := Scalar.addi c128_i32_2222 arg14
  let v1706 : Index := Scalar.indexCast v1705
  let c96_2223 : Index := 96#32
  ![v1706.toNat, 96]
def k0_off481 (k0_t30 : Fin k0_t30_loop.trips) : Fin 2 → Nat :=
  let c0_i32_1001 : BitVec 32 := 0#32
  let c1_i32_1003 : BitVec 32 := 1#32
  let arg14 : BitVec 32 := Scf.iv c0_i32_1001 c1_i32_1003 k0_t30
  let v1718 : Index := Scalar.indexCast arg14
  let c112 : Index := 112#32
  ![v1718.toNat, 112]
def k0_off482 (k0_t30 : Fin k0_t30_loop.trips) : Fin 2 → Nat :=
  let c128_i32_2229 : BitVec 32 := 128#32
  let c0_i32_1001 : BitVec 32 := 0#32
  let c1_i32_1003 : BitVec 32 := 1#32
  let arg14 : BitVec 32 := Scf.iv c0_i32_1001 c1_i32_1003 k0_t30
  let v1721 : BitVec 32 := Scalar.addi c128_i32_2229 arg14
  let v1722 : Index := Scalar.indexCast v1721
  let c112_2230 : Index := 112#32
  ![v1722.toNat, 112]
@[reducible] def k0_t31_loop : Scf.Loop 32 :=
  let c0_i32_1035 : BitVec 32 := 0#32
  let c128_i32_1036 : BitVec 32 := 128#32
  let v762 : BitVec 32 := Scalar.addi c0_i32_1035 c128_i32_1036
  let c1_i32_1037 : BitVec 32 := 1#32
  ⟨c0_i32_1035, v762, c1_i32_1037⟩
def k0_off483 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1606 : Index := Scalar.indexCast arg14
  let c0 : Index := 0#32
  ![v1606.toNat, 0]
def k0_off484 (k0_t31 : Fin k0_t31_loop.trips) : Fin 2 → Nat :=
  let c0_i32_2180 : BitVec 32 := 0#32
  let c0_i32_1035 : BitVec 32 := 0#32
  let c1_i32_1037 : BitVec 32 := 1#32
  let arg14 : BitVec 32 := Scf.iv c0_i32_1035 c1_i32_1037 k0_t31
  let v1609 : BitVec 32 := Scalar.addi c0_i32_2180 arg14
  let v1610 : Index := Scalar.indexCast v1609
  let c0_2181 : Index := 0#32
  ![v1610.toNat, 0]
def k0_off485 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1622 : Index := Scalar.indexCast arg14
  let c16 : Index := 16#32
  ![v1622.toNat, 16]
def k0_off486 (k0_t31 : Fin k0_t31_loop.trips) : Fin 2 → Nat :=
  let c0_i32_2187 : BitVec 32 := 0#32
  let c0_i32_1035 : BitVec 32 := 0#32
  let c1_i32_1037 : BitVec 32 := 1#32
  let arg14 : BitVec 32 := Scf.iv c0_i32_1035 c1_i32_1037 k0_t31
  let v1625 : BitVec 32 := Scalar.addi c0_i32_2187 arg14
  let v1626 : Index := Scalar.indexCast v1625
  let c16_2188 : Index := 16#32
  ![v1626.toNat, 16]
def k0_off487 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1638 : Index := Scalar.indexCast arg14
  let c32 : Index := 32#32
  ![v1638.toNat, 32]
def k0_off488 (k0_t31 : Fin k0_t31_loop.trips) : Fin 2 → Nat :=
  let c0_i32_2194 : BitVec 32 := 0#32
  let c0_i32_1035 : BitVec 32 := 0#32
  let c1_i32_1037 : BitVec 32 := 1#32
  let arg14 : BitVec 32 := Scf.iv c0_i32_1035 c1_i32_1037 k0_t31
  let v1641 : BitVec 32 := Scalar.addi c0_i32_2194 arg14
  let v1642 : Index := Scalar.indexCast v1641
  let c32_2195 : Index := 32#32
  ![v1642.toNat, 32]
def k0_off489 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1654 : Index := Scalar.indexCast arg14
  let c48 : Index := 48#32
  ![v1654.toNat, 48]
def k0_off490 (k0_t31 : Fin k0_t31_loop.trips) : Fin 2 → Nat :=
  let c0_i32_2201 : BitVec 32 := 0#32
  let c0_i32_1035 : BitVec 32 := 0#32
  let c1_i32_1037 : BitVec 32 := 1#32
  let arg14 : BitVec 32 := Scf.iv c0_i32_1035 c1_i32_1037 k0_t31
  let v1657 : BitVec 32 := Scalar.addi c0_i32_2201 arg14
  let v1658 : Index := Scalar.indexCast v1657
  let c48_2202 : Index := 48#32
  ![v1658.toNat, 48]
def k0_off491 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1670 : Index := Scalar.indexCast arg14
  let c64 : Index := 64#32
  ![v1670.toNat, 64]
def k0_off492 (k0_t31 : Fin k0_t31_loop.trips) : Fin 2 → Nat :=
  let c0_i32_2208 : BitVec 32 := 0#32
  let c0_i32_1035 : BitVec 32 := 0#32
  let c1_i32_1037 : BitVec 32 := 1#32
  let arg14 : BitVec 32 := Scf.iv c0_i32_1035 c1_i32_1037 k0_t31
  let v1673 : BitVec 32 := Scalar.addi c0_i32_2208 arg14
  let v1674 : Index := Scalar.indexCast v1673
  let c64_2209 : Index := 64#32
  ![v1674.toNat, 64]
def k0_off493 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1686 : Index := Scalar.indexCast arg14
  let c80 : Index := 80#32
  ![v1686.toNat, 80]
def k0_off494 (k0_t31 : Fin k0_t31_loop.trips) : Fin 2 → Nat :=
  let c0_i32_2215 : BitVec 32 := 0#32
  let c0_i32_1035 : BitVec 32 := 0#32
  let c1_i32_1037 : BitVec 32 := 1#32
  let arg14 : BitVec 32 := Scf.iv c0_i32_1035 c1_i32_1037 k0_t31
  let v1689 : BitVec 32 := Scalar.addi c0_i32_2215 arg14
  let v1690 : Index := Scalar.indexCast v1689
  let c80_2216 : Index := 80#32
  ![v1690.toNat, 80]
def k0_off495 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1702 : Index := Scalar.indexCast arg14
  let c96 : Index := 96#32
  ![v1702.toNat, 96]
def k0_off496 (k0_t31 : Fin k0_t31_loop.trips) : Fin 2 → Nat :=
  let c0_i32_2222 : BitVec 32 := 0#32
  let c0_i32_1035 : BitVec 32 := 0#32
  let c1_i32_1037 : BitVec 32 := 1#32
  let arg14 : BitVec 32 := Scf.iv c0_i32_1035 c1_i32_1037 k0_t31
  let v1705 : BitVec 32 := Scalar.addi c0_i32_2222 arg14
  let v1706 : Index := Scalar.indexCast v1705
  let c96_2223 : Index := 96#32
  ![v1706.toNat, 96]
def k0_off497 (k0_t31 : Fin k0_t31_loop.trips) : Fin 2 → Nat :=
  let c0_i32_1035 : BitVec 32 := 0#32
  let c1_i32_1037 : BitVec 32 := 1#32
  let arg14 : BitVec 32 := Scf.iv c0_i32_1035 c1_i32_1037 k0_t31
  let v1718 : Index := Scalar.indexCast arg14
  let c112 : Index := 112#32
  ![v1718.toNat, 112]
def k0_off498 (k0_t31 : Fin k0_t31_loop.trips) : Fin 2 → Nat :=
  let c0_i32_2229 : BitVec 32 := 0#32
  let c0_i32_1035 : BitVec 32 := 0#32
  let c1_i32_1037 : BitVec 32 := 1#32
  let arg14 : BitVec 32 := Scf.iv c0_i32_1035 c1_i32_1037 k0_t31
  let v1721 : BitVec 32 := Scalar.addi c0_i32_2229 arg14
  let v1722 : Index := Scalar.indexCast v1721
  let c112_2230 : Index := 112#32
  ![v1722.toNat, 112]
@[reducible] def k0_t32_loop : Scf.Loop 32 :=
  let c0_i32_1069 : BitVec 32 := 0#32
  let c128_i32_1070 : BitVec 32 := 128#32
  let v787 : BitVec 32 := Scalar.addi c0_i32_1069 c128_i32_1070
  let c1_i32_1071 : BitVec 32 := 1#32
  ⟨c0_i32_1069, v787, c1_i32_1071⟩
def k0_off499 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1606 : Index := Scalar.indexCast arg14
  let c0 : Index := 0#32
  ![v1606.toNat, 0]
def k0_off500 (k0_t32 : Fin k0_t32_loop.trips) : Fin 2 → Nat :=
  let c128_i32_2180 : BitVec 32 := 128#32
  let c0_i32_1069 : BitVec 32 := 0#32
  let c1_i32_1071 : BitVec 32 := 1#32
  let arg14 : BitVec 32 := Scf.iv c0_i32_1069 c1_i32_1071 k0_t32
  let v1609 : BitVec 32 := Scalar.addi c128_i32_2180 arg14
  let v1610 : Index := Scalar.indexCast v1609
  let c0_2181 : Index := 0#32
  ![v1610.toNat, 0]
def k0_off501 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1622 : Index := Scalar.indexCast arg14
  let c16 : Index := 16#32
  ![v1622.toNat, 16]
def k0_off502 (k0_t32 : Fin k0_t32_loop.trips) : Fin 2 → Nat :=
  let c128_i32_2187 : BitVec 32 := 128#32
  let c0_i32_1069 : BitVec 32 := 0#32
  let c1_i32_1071 : BitVec 32 := 1#32
  let arg14 : BitVec 32 := Scf.iv c0_i32_1069 c1_i32_1071 k0_t32
  let v1625 : BitVec 32 := Scalar.addi c128_i32_2187 arg14
  let v1626 : Index := Scalar.indexCast v1625
  let c16_2188 : Index := 16#32
  ![v1626.toNat, 16]
def k0_off503 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1638 : Index := Scalar.indexCast arg14
  let c32 : Index := 32#32
  ![v1638.toNat, 32]
def k0_off504 (k0_t32 : Fin k0_t32_loop.trips) : Fin 2 → Nat :=
  let c128_i32_2194 : BitVec 32 := 128#32
  let c0_i32_1069 : BitVec 32 := 0#32
  let c1_i32_1071 : BitVec 32 := 1#32
  let arg14 : BitVec 32 := Scf.iv c0_i32_1069 c1_i32_1071 k0_t32
  let v1641 : BitVec 32 := Scalar.addi c128_i32_2194 arg14
  let v1642 : Index := Scalar.indexCast v1641
  let c32_2195 : Index := 32#32
  ![v1642.toNat, 32]
def k0_off505 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1654 : Index := Scalar.indexCast arg14
  let c48 : Index := 48#32
  ![v1654.toNat, 48]
def k0_off506 (k0_t32 : Fin k0_t32_loop.trips) : Fin 2 → Nat :=
  let c128_i32_2201 : BitVec 32 := 128#32
  let c0_i32_1069 : BitVec 32 := 0#32
  let c1_i32_1071 : BitVec 32 := 1#32
  let arg14 : BitVec 32 := Scf.iv c0_i32_1069 c1_i32_1071 k0_t32
  let v1657 : BitVec 32 := Scalar.addi c128_i32_2201 arg14
  let v1658 : Index := Scalar.indexCast v1657
  let c48_2202 : Index := 48#32
  ![v1658.toNat, 48]
def k0_off507 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1670 : Index := Scalar.indexCast arg14
  let c64 : Index := 64#32
  ![v1670.toNat, 64]
def k0_off508 (k0_t32 : Fin k0_t32_loop.trips) : Fin 2 → Nat :=
  let c128_i32_2208 : BitVec 32 := 128#32
  let c0_i32_1069 : BitVec 32 := 0#32
  let c1_i32_1071 : BitVec 32 := 1#32
  let arg14 : BitVec 32 := Scf.iv c0_i32_1069 c1_i32_1071 k0_t32
  let v1673 : BitVec 32 := Scalar.addi c128_i32_2208 arg14
  let v1674 : Index := Scalar.indexCast v1673
  let c64_2209 : Index := 64#32
  ![v1674.toNat, 64]
def k0_off509 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1686 : Index := Scalar.indexCast arg14
  let c80 : Index := 80#32
  ![v1686.toNat, 80]
def k0_off510 (k0_t32 : Fin k0_t32_loop.trips) : Fin 2 → Nat :=
  let c128_i32_2215 : BitVec 32 := 128#32
  let c0_i32_1069 : BitVec 32 := 0#32
  let c1_i32_1071 : BitVec 32 := 1#32
  let arg14 : BitVec 32 := Scf.iv c0_i32_1069 c1_i32_1071 k0_t32
  let v1689 : BitVec 32 := Scalar.addi c128_i32_2215 arg14
  let v1690 : Index := Scalar.indexCast v1689
  let c80_2216 : Index := 80#32
  ![v1690.toNat, 80]
def k0_off511 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1702 : Index := Scalar.indexCast arg14
  let c96 : Index := 96#32
  ![v1702.toNat, 96]
def k0_off512 (k0_t32 : Fin k0_t32_loop.trips) : Fin 2 → Nat :=
  let c128_i32_2222 : BitVec 32 := 128#32
  let c0_i32_1069 : BitVec 32 := 0#32
  let c1_i32_1071 : BitVec 32 := 1#32
  let arg14 : BitVec 32 := Scf.iv c0_i32_1069 c1_i32_1071 k0_t32
  let v1705 : BitVec 32 := Scalar.addi c128_i32_2222 arg14
  let v1706 : Index := Scalar.indexCast v1705
  let c96_2223 : Index := 96#32
  ![v1706.toNat, 96]
def k0_off513 (k0_t32 : Fin k0_t32_loop.trips) : Fin 2 → Nat :=
  let c0_i32_1069 : BitVec 32 := 0#32
  let c1_i32_1071 : BitVec 32 := 1#32
  let arg14 : BitVec 32 := Scf.iv c0_i32_1069 c1_i32_1071 k0_t32
  let v1718 : Index := Scalar.indexCast arg14
  let c112 : Index := 112#32
  ![v1718.toNat, 112]
def k0_off514 (k0_t32 : Fin k0_t32_loop.trips) : Fin 2 → Nat :=
  let c128_i32_2229 : BitVec 32 := 128#32
  let c0_i32_1069 : BitVec 32 := 0#32
  let c1_i32_1071 : BitVec 32 := 1#32
  let arg14 : BitVec 32 := Scf.iv c0_i32_1069 c1_i32_1071 k0_t32
  let v1721 : BitVec 32 := Scalar.addi c128_i32_2229 arg14
  let v1722 : Index := Scalar.indexCast v1721
  let c112_2230 : Index := 112#32
  ![v1722.toNat, 112]
@[reducible] def k0_t33_loop : Scf.Loop 32 :=
  let c0_i32_1103 : BitVec 32 := 0#32
  let c128_i32_1104 : BitVec 32 := 128#32
  let v812 : BitVec 32 := Scalar.addi c0_i32_1103 c128_i32_1104
  let c1_i32_1105 : BitVec 32 := 1#32
  ⟨c0_i32_1103, v812, c1_i32_1105⟩
def k0_off515 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1606 : Index := Scalar.indexCast arg14
  let c0 : Index := 0#32
  ![v1606.toNat, 0]
def k0_off516 (k0_t33 : Fin k0_t33_loop.trips) : Fin 2 → Nat :=
  let c0_i32_2180 : BitVec 32 := 0#32
  let c0_i32_1103 : BitVec 32 := 0#32
  let c1_i32_1105 : BitVec 32 := 1#32
  let arg14 : BitVec 32 := Scf.iv c0_i32_1103 c1_i32_1105 k0_t33
  let v1609 : BitVec 32 := Scalar.addi c0_i32_2180 arg14
  let v1610 : Index := Scalar.indexCast v1609
  let c0_2181 : Index := 0#32
  ![v1610.toNat, 0]
def k0_off517 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1622 : Index := Scalar.indexCast arg14
  let c16 : Index := 16#32
  ![v1622.toNat, 16]
def k0_off518 (k0_t33 : Fin k0_t33_loop.trips) : Fin 2 → Nat :=
  let c0_i32_2187 : BitVec 32 := 0#32
  let c0_i32_1103 : BitVec 32 := 0#32
  let c1_i32_1105 : BitVec 32 := 1#32
  let arg14 : BitVec 32 := Scf.iv c0_i32_1103 c1_i32_1105 k0_t33
  let v1625 : BitVec 32 := Scalar.addi c0_i32_2187 arg14
  let v1626 : Index := Scalar.indexCast v1625
  let c16_2188 : Index := 16#32
  ![v1626.toNat, 16]
def k0_off519 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1638 : Index := Scalar.indexCast arg14
  let c32 : Index := 32#32
  ![v1638.toNat, 32]
def k0_off520 (k0_t33 : Fin k0_t33_loop.trips) : Fin 2 → Nat :=
  let c0_i32_2194 : BitVec 32 := 0#32
  let c0_i32_1103 : BitVec 32 := 0#32
  let c1_i32_1105 : BitVec 32 := 1#32
  let arg14 : BitVec 32 := Scf.iv c0_i32_1103 c1_i32_1105 k0_t33
  let v1641 : BitVec 32 := Scalar.addi c0_i32_2194 arg14
  let v1642 : Index := Scalar.indexCast v1641
  let c32_2195 : Index := 32#32
  ![v1642.toNat, 32]
def k0_off521 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1654 : Index := Scalar.indexCast arg14
  let c48 : Index := 48#32
  ![v1654.toNat, 48]
def k0_off522 (k0_t33 : Fin k0_t33_loop.trips) : Fin 2 → Nat :=
  let c0_i32_2201 : BitVec 32 := 0#32
  let c0_i32_1103 : BitVec 32 := 0#32
  let c1_i32_1105 : BitVec 32 := 1#32
  let arg14 : BitVec 32 := Scf.iv c0_i32_1103 c1_i32_1105 k0_t33
  let v1657 : BitVec 32 := Scalar.addi c0_i32_2201 arg14
  let v1658 : Index := Scalar.indexCast v1657
  let c48_2202 : Index := 48#32
  ![v1658.toNat, 48]
def k0_off523 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1670 : Index := Scalar.indexCast arg14
  let c64 : Index := 64#32
  ![v1670.toNat, 64]
def k0_off524 (k0_t33 : Fin k0_t33_loop.trips) : Fin 2 → Nat :=
  let c0_i32_2208 : BitVec 32 := 0#32
  let c0_i32_1103 : BitVec 32 := 0#32
  let c1_i32_1105 : BitVec 32 := 1#32
  let arg14 : BitVec 32 := Scf.iv c0_i32_1103 c1_i32_1105 k0_t33
  let v1673 : BitVec 32 := Scalar.addi c0_i32_2208 arg14
  let v1674 : Index := Scalar.indexCast v1673
  let c64_2209 : Index := 64#32
  ![v1674.toNat, 64]
def k0_off525 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1686 : Index := Scalar.indexCast arg14
  let c80 : Index := 80#32
  ![v1686.toNat, 80]
def k0_off526 (k0_t33 : Fin k0_t33_loop.trips) : Fin 2 → Nat :=
  let c0_i32_2215 : BitVec 32 := 0#32
  let c0_i32_1103 : BitVec 32 := 0#32
  let c1_i32_1105 : BitVec 32 := 1#32
  let arg14 : BitVec 32 := Scf.iv c0_i32_1103 c1_i32_1105 k0_t33
  let v1689 : BitVec 32 := Scalar.addi c0_i32_2215 arg14
  let v1690 : Index := Scalar.indexCast v1689
  let c80_2216 : Index := 80#32
  ![v1690.toNat, 80]
def k0_off527 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1702 : Index := Scalar.indexCast arg14
  let c96 : Index := 96#32
  ![v1702.toNat, 96]
def k0_off528 (k0_t33 : Fin k0_t33_loop.trips) : Fin 2 → Nat :=
  let c0_i32_2222 : BitVec 32 := 0#32
  let c0_i32_1103 : BitVec 32 := 0#32
  let c1_i32_1105 : BitVec 32 := 1#32
  let arg14 : BitVec 32 := Scf.iv c0_i32_1103 c1_i32_1105 k0_t33
  let v1705 : BitVec 32 := Scalar.addi c0_i32_2222 arg14
  let v1706 : Index := Scalar.indexCast v1705
  let c96_2223 : Index := 96#32
  ![v1706.toNat, 96]
def k0_off529 (k0_t33 : Fin k0_t33_loop.trips) : Fin 2 → Nat :=
  let c0_i32_1103 : BitVec 32 := 0#32
  let c1_i32_1105 : BitVec 32 := 1#32
  let arg14 : BitVec 32 := Scf.iv c0_i32_1103 c1_i32_1105 k0_t33
  let v1718 : Index := Scalar.indexCast arg14
  let c112 : Index := 112#32
  ![v1718.toNat, 112]
def k0_off530 (k0_t33 : Fin k0_t33_loop.trips) : Fin 2 → Nat :=
  let c0_i32_2229 : BitVec 32 := 0#32
  let c0_i32_1103 : BitVec 32 := 0#32
  let c1_i32_1105 : BitVec 32 := 1#32
  let arg14 : BitVec 32 := Scf.iv c0_i32_1103 c1_i32_1105 k0_t33
  let v1721 : BitVec 32 := Scalar.addi c0_i32_2229 arg14
  let v1722 : Index := Scalar.indexCast v1721
  let c112_2230 : Index := 112#32
  ![v1722.toNat, 112]
@[reducible] def k0_t34_loop : Scf.Loop 32 :=
  let c0_i32_1137 : BitVec 32 := 0#32
  let c128_i32_1138 : BitVec 32 := 128#32
  let v837 : BitVec 32 := Scalar.addi c0_i32_1137 c128_i32_1138
  let c1_i32_1139 : BitVec 32 := 1#32
  ⟨c0_i32_1137, v837, c1_i32_1139⟩
def k0_off531 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1606 : Index := Scalar.indexCast arg14
  let c0 : Index := 0#32
  ![v1606.toNat, 0]
def k0_off532 (k0_t34 : Fin k0_t34_loop.trips) : Fin 2 → Nat :=
  let c128_i32_2180 : BitVec 32 := 128#32
  let c0_i32_1137 : BitVec 32 := 0#32
  let c1_i32_1139 : BitVec 32 := 1#32
  let arg14 : BitVec 32 := Scf.iv c0_i32_1137 c1_i32_1139 k0_t34
  let v1609 : BitVec 32 := Scalar.addi c128_i32_2180 arg14
  let v1610 : Index := Scalar.indexCast v1609
  let c0_2181 : Index := 0#32
  ![v1610.toNat, 0]
def k0_off533 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1622 : Index := Scalar.indexCast arg14
  let c16 : Index := 16#32
  ![v1622.toNat, 16]
def k0_off534 (k0_t34 : Fin k0_t34_loop.trips) : Fin 2 → Nat :=
  let c128_i32_2187 : BitVec 32 := 128#32
  let c0_i32_1137 : BitVec 32 := 0#32
  let c1_i32_1139 : BitVec 32 := 1#32
  let arg14 : BitVec 32 := Scf.iv c0_i32_1137 c1_i32_1139 k0_t34
  let v1625 : BitVec 32 := Scalar.addi c128_i32_2187 arg14
  let v1626 : Index := Scalar.indexCast v1625
  let c16_2188 : Index := 16#32
  ![v1626.toNat, 16]
def k0_off535 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1638 : Index := Scalar.indexCast arg14
  let c32 : Index := 32#32
  ![v1638.toNat, 32]
def k0_off536 (k0_t34 : Fin k0_t34_loop.trips) : Fin 2 → Nat :=
  let c128_i32_2194 : BitVec 32 := 128#32
  let c0_i32_1137 : BitVec 32 := 0#32
  let c1_i32_1139 : BitVec 32 := 1#32
  let arg14 : BitVec 32 := Scf.iv c0_i32_1137 c1_i32_1139 k0_t34
  let v1641 : BitVec 32 := Scalar.addi c128_i32_2194 arg14
  let v1642 : Index := Scalar.indexCast v1641
  let c32_2195 : Index := 32#32
  ![v1642.toNat, 32]
def k0_off537 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1654 : Index := Scalar.indexCast arg14
  let c48 : Index := 48#32
  ![v1654.toNat, 48]
def k0_off538 (k0_t34 : Fin k0_t34_loop.trips) : Fin 2 → Nat :=
  let c128_i32_2201 : BitVec 32 := 128#32
  let c0_i32_1137 : BitVec 32 := 0#32
  let c1_i32_1139 : BitVec 32 := 1#32
  let arg14 : BitVec 32 := Scf.iv c0_i32_1137 c1_i32_1139 k0_t34
  let v1657 : BitVec 32 := Scalar.addi c128_i32_2201 arg14
  let v1658 : Index := Scalar.indexCast v1657
  let c48_2202 : Index := 48#32
  ![v1658.toNat, 48]
def k0_off539 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1670 : Index := Scalar.indexCast arg14
  let c64 : Index := 64#32
  ![v1670.toNat, 64]
def k0_off540 (k0_t34 : Fin k0_t34_loop.trips) : Fin 2 → Nat :=
  let c128_i32_2208 : BitVec 32 := 128#32
  let c0_i32_1137 : BitVec 32 := 0#32
  let c1_i32_1139 : BitVec 32 := 1#32
  let arg14 : BitVec 32 := Scf.iv c0_i32_1137 c1_i32_1139 k0_t34
  let v1673 : BitVec 32 := Scalar.addi c128_i32_2208 arg14
  let v1674 : Index := Scalar.indexCast v1673
  let c64_2209 : Index := 64#32
  ![v1674.toNat, 64]
def k0_off541 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1686 : Index := Scalar.indexCast arg14
  let c80 : Index := 80#32
  ![v1686.toNat, 80]
def k0_off542 (k0_t34 : Fin k0_t34_loop.trips) : Fin 2 → Nat :=
  let c128_i32_2215 : BitVec 32 := 128#32
  let c0_i32_1137 : BitVec 32 := 0#32
  let c1_i32_1139 : BitVec 32 := 1#32
  let arg14 : BitVec 32 := Scf.iv c0_i32_1137 c1_i32_1139 k0_t34
  let v1689 : BitVec 32 := Scalar.addi c128_i32_2215 arg14
  let v1690 : Index := Scalar.indexCast v1689
  let c80_2216 : Index := 80#32
  ![v1690.toNat, 80]
def k0_off543 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1702 : Index := Scalar.indexCast arg14
  let c96 : Index := 96#32
  ![v1702.toNat, 96]
def k0_off544 (k0_t34 : Fin k0_t34_loop.trips) : Fin 2 → Nat :=
  let c128_i32_2222 : BitVec 32 := 128#32
  let c0_i32_1137 : BitVec 32 := 0#32
  let c1_i32_1139 : BitVec 32 := 1#32
  let arg14 : BitVec 32 := Scf.iv c0_i32_1137 c1_i32_1139 k0_t34
  let v1705 : BitVec 32 := Scalar.addi c128_i32_2222 arg14
  let v1706 : Index := Scalar.indexCast v1705
  let c96_2223 : Index := 96#32
  ![v1706.toNat, 96]
def k0_off545 (k0_t34 : Fin k0_t34_loop.trips) : Fin 2 → Nat :=
  let c0_i32_1137 : BitVec 32 := 0#32
  let c1_i32_1139 : BitVec 32 := 1#32
  let arg14 : BitVec 32 := Scf.iv c0_i32_1137 c1_i32_1139 k0_t34
  let v1718 : Index := Scalar.indexCast arg14
  let c112 : Index := 112#32
  ![v1718.toNat, 112]
def k0_off546 (k0_t34 : Fin k0_t34_loop.trips) : Fin 2 → Nat :=
  let c128_i32_2229 : BitVec 32 := 128#32
  let c0_i32_1137 : BitVec 32 := 0#32
  let c1_i32_1139 : BitVec 32 := 1#32
  let arg14 : BitVec 32 := Scf.iv c0_i32_1137 c1_i32_1139 k0_t34
  let v1721 : BitVec 32 := Scalar.addi c128_i32_2229 arg14
  let v1722 : Index := Scalar.indexCast v1721
  let c112_2230 : Index := 112#32
  ![v1722.toNat, 112]
@[reducible] def k0_t35_loop : Scf.Loop 32 :=
  let c0_i32_1171 : BitVec 32 := 0#32
  let c128_i32_1172 : BitVec 32 := 128#32
  let v862 : BitVec 32 := Scalar.addi c0_i32_1171 c128_i32_1172
  let c1_i32_1173 : BitVec 32 := 1#32
  ⟨c0_i32_1171, v862, c1_i32_1173⟩
def k0_off547 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1606 : Index := Scalar.indexCast arg14
  let c0 : Index := 0#32
  ![v1606.toNat, 0]
def k0_off548 (k0_t35 : Fin k0_t35_loop.trips) : Fin 2 → Nat :=
  let c0_i32_2180 : BitVec 32 := 0#32
  let c0_i32_1171 : BitVec 32 := 0#32
  let c1_i32_1173 : BitVec 32 := 1#32
  let arg14 : BitVec 32 := Scf.iv c0_i32_1171 c1_i32_1173 k0_t35
  let v1609 : BitVec 32 := Scalar.addi c0_i32_2180 arg14
  let v1610 : Index := Scalar.indexCast v1609
  let c0_2181 : Index := 0#32
  ![v1610.toNat, 0]
def k0_off549 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1622 : Index := Scalar.indexCast arg14
  let c16 : Index := 16#32
  ![v1622.toNat, 16]
def k0_off550 (k0_t35 : Fin k0_t35_loop.trips) : Fin 2 → Nat :=
  let c0_i32_2187 : BitVec 32 := 0#32
  let c0_i32_1171 : BitVec 32 := 0#32
  let c1_i32_1173 : BitVec 32 := 1#32
  let arg14 : BitVec 32 := Scf.iv c0_i32_1171 c1_i32_1173 k0_t35
  let v1625 : BitVec 32 := Scalar.addi c0_i32_2187 arg14
  let v1626 : Index := Scalar.indexCast v1625
  let c16_2188 : Index := 16#32
  ![v1626.toNat, 16]
def k0_off551 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1638 : Index := Scalar.indexCast arg14
  let c32 : Index := 32#32
  ![v1638.toNat, 32]
def k0_off552 (k0_t35 : Fin k0_t35_loop.trips) : Fin 2 → Nat :=
  let c0_i32_2194 : BitVec 32 := 0#32
  let c0_i32_1171 : BitVec 32 := 0#32
  let c1_i32_1173 : BitVec 32 := 1#32
  let arg14 : BitVec 32 := Scf.iv c0_i32_1171 c1_i32_1173 k0_t35
  let v1641 : BitVec 32 := Scalar.addi c0_i32_2194 arg14
  let v1642 : Index := Scalar.indexCast v1641
  let c32_2195 : Index := 32#32
  ![v1642.toNat, 32]
def k0_off553 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1654 : Index := Scalar.indexCast arg14
  let c48 : Index := 48#32
  ![v1654.toNat, 48]
def k0_off554 (k0_t35 : Fin k0_t35_loop.trips) : Fin 2 → Nat :=
  let c0_i32_2201 : BitVec 32 := 0#32
  let c0_i32_1171 : BitVec 32 := 0#32
  let c1_i32_1173 : BitVec 32 := 1#32
  let arg14 : BitVec 32 := Scf.iv c0_i32_1171 c1_i32_1173 k0_t35
  let v1657 : BitVec 32 := Scalar.addi c0_i32_2201 arg14
  let v1658 : Index := Scalar.indexCast v1657
  let c48_2202 : Index := 48#32
  ![v1658.toNat, 48]
def k0_off555 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1670 : Index := Scalar.indexCast arg14
  let c64 : Index := 64#32
  ![v1670.toNat, 64]
def k0_off556 (k0_t35 : Fin k0_t35_loop.trips) : Fin 2 → Nat :=
  let c0_i32_2208 : BitVec 32 := 0#32
  let c0_i32_1171 : BitVec 32 := 0#32
  let c1_i32_1173 : BitVec 32 := 1#32
  let arg14 : BitVec 32 := Scf.iv c0_i32_1171 c1_i32_1173 k0_t35
  let v1673 : BitVec 32 := Scalar.addi c0_i32_2208 arg14
  let v1674 : Index := Scalar.indexCast v1673
  let c64_2209 : Index := 64#32
  ![v1674.toNat, 64]
def k0_off557 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1686 : Index := Scalar.indexCast arg14
  let c80 : Index := 80#32
  ![v1686.toNat, 80]
def k0_off558 (k0_t35 : Fin k0_t35_loop.trips) : Fin 2 → Nat :=
  let c0_i32_2215 : BitVec 32 := 0#32
  let c0_i32_1171 : BitVec 32 := 0#32
  let c1_i32_1173 : BitVec 32 := 1#32
  let arg14 : BitVec 32 := Scf.iv c0_i32_1171 c1_i32_1173 k0_t35
  let v1689 : BitVec 32 := Scalar.addi c0_i32_2215 arg14
  let v1690 : Index := Scalar.indexCast v1689
  let c80_2216 : Index := 80#32
  ![v1690.toNat, 80]
def k0_off559 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1702 : Index := Scalar.indexCast arg14
  let c96 : Index := 96#32
  ![v1702.toNat, 96]
def k0_off560 (k0_t35 : Fin k0_t35_loop.trips) : Fin 2 → Nat :=
  let c0_i32_2222 : BitVec 32 := 0#32
  let c0_i32_1171 : BitVec 32 := 0#32
  let c1_i32_1173 : BitVec 32 := 1#32
  let arg14 : BitVec 32 := Scf.iv c0_i32_1171 c1_i32_1173 k0_t35
  let v1705 : BitVec 32 := Scalar.addi c0_i32_2222 arg14
  let v1706 : Index := Scalar.indexCast v1705
  let c96_2223 : Index := 96#32
  ![v1706.toNat, 96]
def k0_off561 (k0_t35 : Fin k0_t35_loop.trips) : Fin 2 → Nat :=
  let c0_i32_1171 : BitVec 32 := 0#32
  let c1_i32_1173 : BitVec 32 := 1#32
  let arg14 : BitVec 32 := Scf.iv c0_i32_1171 c1_i32_1173 k0_t35
  let v1718 : Index := Scalar.indexCast arg14
  let c112 : Index := 112#32
  ![v1718.toNat, 112]
def k0_off562 (k0_t35 : Fin k0_t35_loop.trips) : Fin 2 → Nat :=
  let c0_i32_2229 : BitVec 32 := 0#32
  let c0_i32_1171 : BitVec 32 := 0#32
  let c1_i32_1173 : BitVec 32 := 1#32
  let arg14 : BitVec 32 := Scf.iv c0_i32_1171 c1_i32_1173 k0_t35
  let v1721 : BitVec 32 := Scalar.addi c0_i32_2229 arg14
  let v1722 : Index := Scalar.indexCast v1721
  let c112_2230 : Index := 112#32
  ![v1722.toNat, 112]
@[reducible] def k0_t36_loop : Scf.Loop 32 :=
  let c0_i32_1205 : BitVec 32 := 0#32
  let c128_i32_1206 : BitVec 32 := 128#32
  let v887 : BitVec 32 := Scalar.addi c0_i32_1205 c128_i32_1206
  let c1_i32_1207 : BitVec 32 := 1#32
  ⟨c0_i32_1205, v887, c1_i32_1207⟩
def k0_off563 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1606 : Index := Scalar.indexCast arg14
  let c0 : Index := 0#32
  ![v1606.toNat, 0]
def k0_off564 (k0_t36 : Fin k0_t36_loop.trips) : Fin 2 → Nat :=
  let c128_i32_2180 : BitVec 32 := 128#32
  let c0_i32_1205 : BitVec 32 := 0#32
  let c1_i32_1207 : BitVec 32 := 1#32
  let arg14 : BitVec 32 := Scf.iv c0_i32_1205 c1_i32_1207 k0_t36
  let v1609 : BitVec 32 := Scalar.addi c128_i32_2180 arg14
  let v1610 : Index := Scalar.indexCast v1609
  let c0_2181 : Index := 0#32
  ![v1610.toNat, 0]
def k0_off565 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1622 : Index := Scalar.indexCast arg14
  let c16 : Index := 16#32
  ![v1622.toNat, 16]
def k0_off566 (k0_t36 : Fin k0_t36_loop.trips) : Fin 2 → Nat :=
  let c128_i32_2187 : BitVec 32 := 128#32
  let c0_i32_1205 : BitVec 32 := 0#32
  let c1_i32_1207 : BitVec 32 := 1#32
  let arg14 : BitVec 32 := Scf.iv c0_i32_1205 c1_i32_1207 k0_t36
  let v1625 : BitVec 32 := Scalar.addi c128_i32_2187 arg14
  let v1626 : Index := Scalar.indexCast v1625
  let c16_2188 : Index := 16#32
  ![v1626.toNat, 16]
def k0_off567 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1638 : Index := Scalar.indexCast arg14
  let c32 : Index := 32#32
  ![v1638.toNat, 32]
def k0_off568 (k0_t36 : Fin k0_t36_loop.trips) : Fin 2 → Nat :=
  let c128_i32_2194 : BitVec 32 := 128#32
  let c0_i32_1205 : BitVec 32 := 0#32
  let c1_i32_1207 : BitVec 32 := 1#32
  let arg14 : BitVec 32 := Scf.iv c0_i32_1205 c1_i32_1207 k0_t36
  let v1641 : BitVec 32 := Scalar.addi c128_i32_2194 arg14
  let v1642 : Index := Scalar.indexCast v1641
  let c32_2195 : Index := 32#32
  ![v1642.toNat, 32]
def k0_off569 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1654 : Index := Scalar.indexCast arg14
  let c48 : Index := 48#32
  ![v1654.toNat, 48]
def k0_off570 (k0_t36 : Fin k0_t36_loop.trips) : Fin 2 → Nat :=
  let c128_i32_2201 : BitVec 32 := 128#32
  let c0_i32_1205 : BitVec 32 := 0#32
  let c1_i32_1207 : BitVec 32 := 1#32
  let arg14 : BitVec 32 := Scf.iv c0_i32_1205 c1_i32_1207 k0_t36
  let v1657 : BitVec 32 := Scalar.addi c128_i32_2201 arg14
  let v1658 : Index := Scalar.indexCast v1657
  let c48_2202 : Index := 48#32
  ![v1658.toNat, 48]
def k0_off571 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1670 : Index := Scalar.indexCast arg14
  let c64 : Index := 64#32
  ![v1670.toNat, 64]
def k0_off572 (k0_t36 : Fin k0_t36_loop.trips) : Fin 2 → Nat :=
  let c128_i32_2208 : BitVec 32 := 128#32
  let c0_i32_1205 : BitVec 32 := 0#32
  let c1_i32_1207 : BitVec 32 := 1#32
  let arg14 : BitVec 32 := Scf.iv c0_i32_1205 c1_i32_1207 k0_t36
  let v1673 : BitVec 32 := Scalar.addi c128_i32_2208 arg14
  let v1674 : Index := Scalar.indexCast v1673
  let c64_2209 : Index := 64#32
  ![v1674.toNat, 64]
def k0_off573 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1686 : Index := Scalar.indexCast arg14
  let c80 : Index := 80#32
  ![v1686.toNat, 80]
def k0_off574 (k0_t36 : Fin k0_t36_loop.trips) : Fin 2 → Nat :=
  let c128_i32_2215 : BitVec 32 := 128#32
  let c0_i32_1205 : BitVec 32 := 0#32
  let c1_i32_1207 : BitVec 32 := 1#32
  let arg14 : BitVec 32 := Scf.iv c0_i32_1205 c1_i32_1207 k0_t36
  let v1689 : BitVec 32 := Scalar.addi c128_i32_2215 arg14
  let v1690 : Index := Scalar.indexCast v1689
  let c80_2216 : Index := 80#32
  ![v1690.toNat, 80]
def k0_off575 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1702 : Index := Scalar.indexCast arg14
  let c96 : Index := 96#32
  ![v1702.toNat, 96]
def k0_off576 (k0_t36 : Fin k0_t36_loop.trips) : Fin 2 → Nat :=
  let c128_i32_2222 : BitVec 32 := 128#32
  let c0_i32_1205 : BitVec 32 := 0#32
  let c1_i32_1207 : BitVec 32 := 1#32
  let arg14 : BitVec 32 := Scf.iv c0_i32_1205 c1_i32_1207 k0_t36
  let v1705 : BitVec 32 := Scalar.addi c128_i32_2222 arg14
  let v1706 : Index := Scalar.indexCast v1705
  let c96_2223 : Index := 96#32
  ![v1706.toNat, 96]
def k0_off577 (k0_t36 : Fin k0_t36_loop.trips) : Fin 2 → Nat :=
  let c0_i32_1205 : BitVec 32 := 0#32
  let c1_i32_1207 : BitVec 32 := 1#32
  let arg14 : BitVec 32 := Scf.iv c0_i32_1205 c1_i32_1207 k0_t36
  let v1718 : Index := Scalar.indexCast arg14
  let c112 : Index := 112#32
  ![v1718.toNat, 112]
def k0_off578 (k0_t36 : Fin k0_t36_loop.trips) : Fin 2 → Nat :=
  let c128_i32_2229 : BitVec 32 := 128#32
  let c0_i32_1205 : BitVec 32 := 0#32
  let c1_i32_1207 : BitVec 32 := 1#32
  let arg14 : BitVec 32 := Scf.iv c0_i32_1205 c1_i32_1207 k0_t36
  let v1721 : BitVec 32 := Scalar.addi c128_i32_2229 arg14
  let v1722 : Index := Scalar.indexCast v1721
  let c112_2230 : Index := 112#32
  ![v1722.toNat, 112]
@[reducible] def k0_t37_loop : Scf.Loop 32 :=
  let c0_i32_1239 : BitVec 32 := 0#32
  let c128_i32_1240 : BitVec 32 := 128#32
  let v912 : BitVec 32 := Scalar.addi c0_i32_1239 c128_i32_1240
  let c1_i32_1241 : BitVec 32 := 1#32
  ⟨c0_i32_1239, v912, c1_i32_1241⟩
def k0_off579 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1606 : Index := Scalar.indexCast arg14
  let c0 : Index := 0#32
  ![v1606.toNat, 0]
def k0_off580 (k0_t37 : Fin k0_t37_loop.trips) : Fin 2 → Nat :=
  let c0_i32_2180 : BitVec 32 := 0#32
  let c0_i32_1239 : BitVec 32 := 0#32
  let c1_i32_1241 : BitVec 32 := 1#32
  let arg14 : BitVec 32 := Scf.iv c0_i32_1239 c1_i32_1241 k0_t37
  let v1609 : BitVec 32 := Scalar.addi c0_i32_2180 arg14
  let v1610 : Index := Scalar.indexCast v1609
  let c0_2181 : Index := 0#32
  ![v1610.toNat, 0]
def k0_off581 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1622 : Index := Scalar.indexCast arg14
  let c16 : Index := 16#32
  ![v1622.toNat, 16]
def k0_off582 (k0_t37 : Fin k0_t37_loop.trips) : Fin 2 → Nat :=
  let c0_i32_2187 : BitVec 32 := 0#32
  let c0_i32_1239 : BitVec 32 := 0#32
  let c1_i32_1241 : BitVec 32 := 1#32
  let arg14 : BitVec 32 := Scf.iv c0_i32_1239 c1_i32_1241 k0_t37
  let v1625 : BitVec 32 := Scalar.addi c0_i32_2187 arg14
  let v1626 : Index := Scalar.indexCast v1625
  let c16_2188 : Index := 16#32
  ![v1626.toNat, 16]
def k0_off583 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1638 : Index := Scalar.indexCast arg14
  let c32 : Index := 32#32
  ![v1638.toNat, 32]
def k0_off584 (k0_t37 : Fin k0_t37_loop.trips) : Fin 2 → Nat :=
  let c0_i32_2194 : BitVec 32 := 0#32
  let c0_i32_1239 : BitVec 32 := 0#32
  let c1_i32_1241 : BitVec 32 := 1#32
  let arg14 : BitVec 32 := Scf.iv c0_i32_1239 c1_i32_1241 k0_t37
  let v1641 : BitVec 32 := Scalar.addi c0_i32_2194 arg14
  let v1642 : Index := Scalar.indexCast v1641
  let c32_2195 : Index := 32#32
  ![v1642.toNat, 32]
def k0_off585 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1654 : Index := Scalar.indexCast arg14
  let c48 : Index := 48#32
  ![v1654.toNat, 48]
def k0_off586 (k0_t37 : Fin k0_t37_loop.trips) : Fin 2 → Nat :=
  let c0_i32_2201 : BitVec 32 := 0#32
  let c0_i32_1239 : BitVec 32 := 0#32
  let c1_i32_1241 : BitVec 32 := 1#32
  let arg14 : BitVec 32 := Scf.iv c0_i32_1239 c1_i32_1241 k0_t37
  let v1657 : BitVec 32 := Scalar.addi c0_i32_2201 arg14
  let v1658 : Index := Scalar.indexCast v1657
  let c48_2202 : Index := 48#32
  ![v1658.toNat, 48]
def k0_off587 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1670 : Index := Scalar.indexCast arg14
  let c64 : Index := 64#32
  ![v1670.toNat, 64]
def k0_off588 (k0_t37 : Fin k0_t37_loop.trips) : Fin 2 → Nat :=
  let c0_i32_2208 : BitVec 32 := 0#32
  let c0_i32_1239 : BitVec 32 := 0#32
  let c1_i32_1241 : BitVec 32 := 1#32
  let arg14 : BitVec 32 := Scf.iv c0_i32_1239 c1_i32_1241 k0_t37
  let v1673 : BitVec 32 := Scalar.addi c0_i32_2208 arg14
  let v1674 : Index := Scalar.indexCast v1673
  let c64_2209 : Index := 64#32
  ![v1674.toNat, 64]
def k0_off589 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1686 : Index := Scalar.indexCast arg14
  let c80 : Index := 80#32
  ![v1686.toNat, 80]
def k0_off590 (k0_t37 : Fin k0_t37_loop.trips) : Fin 2 → Nat :=
  let c0_i32_2215 : BitVec 32 := 0#32
  let c0_i32_1239 : BitVec 32 := 0#32
  let c1_i32_1241 : BitVec 32 := 1#32
  let arg14 : BitVec 32 := Scf.iv c0_i32_1239 c1_i32_1241 k0_t37
  let v1689 : BitVec 32 := Scalar.addi c0_i32_2215 arg14
  let v1690 : Index := Scalar.indexCast v1689
  let c80_2216 : Index := 80#32
  ![v1690.toNat, 80]
def k0_off591 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1702 : Index := Scalar.indexCast arg14
  let c96 : Index := 96#32
  ![v1702.toNat, 96]
def k0_off592 (k0_t37 : Fin k0_t37_loop.trips) : Fin 2 → Nat :=
  let c0_i32_2222 : BitVec 32 := 0#32
  let c0_i32_1239 : BitVec 32 := 0#32
  let c1_i32_1241 : BitVec 32 := 1#32
  let arg14 : BitVec 32 := Scf.iv c0_i32_1239 c1_i32_1241 k0_t37
  let v1705 : BitVec 32 := Scalar.addi c0_i32_2222 arg14
  let v1706 : Index := Scalar.indexCast v1705
  let c96_2223 : Index := 96#32
  ![v1706.toNat, 96]
def k0_off593 (k0_t37 : Fin k0_t37_loop.trips) : Fin 2 → Nat :=
  let c0_i32_1239 : BitVec 32 := 0#32
  let c1_i32_1241 : BitVec 32 := 1#32
  let arg14 : BitVec 32 := Scf.iv c0_i32_1239 c1_i32_1241 k0_t37
  let v1718 : Index := Scalar.indexCast arg14
  let c112 : Index := 112#32
  ![v1718.toNat, 112]
def k0_off594 (k0_t37 : Fin k0_t37_loop.trips) : Fin 2 → Nat :=
  let c0_i32_2229 : BitVec 32 := 0#32
  let c0_i32_1239 : BitVec 32 := 0#32
  let c1_i32_1241 : BitVec 32 := 1#32
  let arg14 : BitVec 32 := Scf.iv c0_i32_1239 c1_i32_1241 k0_t37
  let v1721 : BitVec 32 := Scalar.addi c0_i32_2229 arg14
  let v1722 : Index := Scalar.indexCast v1721
  let c112_2230 : Index := 112#32
  ![v1722.toNat, 112]
@[reducible] def k0_t38_loop : Scf.Loop 32 :=
  let c0_i32_1273 : BitVec 32 := 0#32
  let c128_i32_1274 : BitVec 32 := 128#32
  let v937 : BitVec 32 := Scalar.addi c0_i32_1273 c128_i32_1274
  let c1_i32_1275 : BitVec 32 := 1#32
  ⟨c0_i32_1273, v937, c1_i32_1275⟩
def k0_off595 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1606 : Index := Scalar.indexCast arg14
  let c0 : Index := 0#32
  ![v1606.toNat, 0]
def k0_off596 (k0_t38 : Fin k0_t38_loop.trips) : Fin 2 → Nat :=
  let c128_i32_2180 : BitVec 32 := 128#32
  let c0_i32_1273 : BitVec 32 := 0#32
  let c1_i32_1275 : BitVec 32 := 1#32
  let arg14 : BitVec 32 := Scf.iv c0_i32_1273 c1_i32_1275 k0_t38
  let v1609 : BitVec 32 := Scalar.addi c128_i32_2180 arg14
  let v1610 : Index := Scalar.indexCast v1609
  let c0_2181 : Index := 0#32
  ![v1610.toNat, 0]
def k0_off597 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1622 : Index := Scalar.indexCast arg14
  let c16 : Index := 16#32
  ![v1622.toNat, 16]
def k0_off598 (k0_t38 : Fin k0_t38_loop.trips) : Fin 2 → Nat :=
  let c128_i32_2187 : BitVec 32 := 128#32
  let c0_i32_1273 : BitVec 32 := 0#32
  let c1_i32_1275 : BitVec 32 := 1#32
  let arg14 : BitVec 32 := Scf.iv c0_i32_1273 c1_i32_1275 k0_t38
  let v1625 : BitVec 32 := Scalar.addi c128_i32_2187 arg14
  let v1626 : Index := Scalar.indexCast v1625
  let c16_2188 : Index := 16#32
  ![v1626.toNat, 16]
def k0_off599 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1638 : Index := Scalar.indexCast arg14
  let c32 : Index := 32#32
  ![v1638.toNat, 32]
def k0_off600 (k0_t38 : Fin k0_t38_loop.trips) : Fin 2 → Nat :=
  let c128_i32_2194 : BitVec 32 := 128#32
  let c0_i32_1273 : BitVec 32 := 0#32
  let c1_i32_1275 : BitVec 32 := 1#32
  let arg14 : BitVec 32 := Scf.iv c0_i32_1273 c1_i32_1275 k0_t38
  let v1641 : BitVec 32 := Scalar.addi c128_i32_2194 arg14
  let v1642 : Index := Scalar.indexCast v1641
  let c32_2195 : Index := 32#32
  ![v1642.toNat, 32]
def k0_off601 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1654 : Index := Scalar.indexCast arg14
  let c48 : Index := 48#32
  ![v1654.toNat, 48]
def k0_off602 (k0_t38 : Fin k0_t38_loop.trips) : Fin 2 → Nat :=
  let c128_i32_2201 : BitVec 32 := 128#32
  let c0_i32_1273 : BitVec 32 := 0#32
  let c1_i32_1275 : BitVec 32 := 1#32
  let arg14 : BitVec 32 := Scf.iv c0_i32_1273 c1_i32_1275 k0_t38
  let v1657 : BitVec 32 := Scalar.addi c128_i32_2201 arg14
  let v1658 : Index := Scalar.indexCast v1657
  let c48_2202 : Index := 48#32
  ![v1658.toNat, 48]
def k0_off603 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1670 : Index := Scalar.indexCast arg14
  let c64 : Index := 64#32
  ![v1670.toNat, 64]
def k0_off604 (k0_t38 : Fin k0_t38_loop.trips) : Fin 2 → Nat :=
  let c128_i32_2208 : BitVec 32 := 128#32
  let c0_i32_1273 : BitVec 32 := 0#32
  let c1_i32_1275 : BitVec 32 := 1#32
  let arg14 : BitVec 32 := Scf.iv c0_i32_1273 c1_i32_1275 k0_t38
  let v1673 : BitVec 32 := Scalar.addi c128_i32_2208 arg14
  let v1674 : Index := Scalar.indexCast v1673
  let c64_2209 : Index := 64#32
  ![v1674.toNat, 64]
def k0_off605 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1686 : Index := Scalar.indexCast arg14
  let c80 : Index := 80#32
  ![v1686.toNat, 80]
def k0_off606 (k0_t38 : Fin k0_t38_loop.trips) : Fin 2 → Nat :=
  let c128_i32_2215 : BitVec 32 := 128#32
  let c0_i32_1273 : BitVec 32 := 0#32
  let c1_i32_1275 : BitVec 32 := 1#32
  let arg14 : BitVec 32 := Scf.iv c0_i32_1273 c1_i32_1275 k0_t38
  let v1689 : BitVec 32 := Scalar.addi c128_i32_2215 arg14
  let v1690 : Index := Scalar.indexCast v1689
  let c80_2216 : Index := 80#32
  ![v1690.toNat, 80]
def k0_off607 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1702 : Index := Scalar.indexCast arg14
  let c96 : Index := 96#32
  ![v1702.toNat, 96]
def k0_off608 (k0_t38 : Fin k0_t38_loop.trips) : Fin 2 → Nat :=
  let c128_i32_2222 : BitVec 32 := 128#32
  let c0_i32_1273 : BitVec 32 := 0#32
  let c1_i32_1275 : BitVec 32 := 1#32
  let arg14 : BitVec 32 := Scf.iv c0_i32_1273 c1_i32_1275 k0_t38
  let v1705 : BitVec 32 := Scalar.addi c128_i32_2222 arg14
  let v1706 : Index := Scalar.indexCast v1705
  let c96_2223 : Index := 96#32
  ![v1706.toNat, 96]
def k0_off609 (k0_t38 : Fin k0_t38_loop.trips) : Fin 2 → Nat :=
  let c0_i32_1273 : BitVec 32 := 0#32
  let c1_i32_1275 : BitVec 32 := 1#32
  let arg14 : BitVec 32 := Scf.iv c0_i32_1273 c1_i32_1275 k0_t38
  let v1718 : Index := Scalar.indexCast arg14
  let c112 : Index := 112#32
  ![v1718.toNat, 112]
def k0_off610 (k0_t38 : Fin k0_t38_loop.trips) : Fin 2 → Nat :=
  let c128_i32_2229 : BitVec 32 := 128#32
  let c0_i32_1273 : BitVec 32 := 0#32
  let c1_i32_1275 : BitVec 32 := 1#32
  let arg14 : BitVec 32 := Scf.iv c0_i32_1273 c1_i32_1275 k0_t38
  let v1721 : BitVec 32 := Scalar.addi c128_i32_2229 arg14
  let v1722 : Index := Scalar.indexCast v1721
  let c112_2230 : Index := 112#32
  ![v1722.toNat, 112]
@[reducible] def k0_t39_loop : Scf.Loop 32 :=
  let c0_i32_1307 : BitVec 32 := 0#32
  let c128_i32_1308 : BitVec 32 := 128#32
  let v962 : BitVec 32 := Scalar.addi c0_i32_1307 c128_i32_1308
  let c1_i32_1309 : BitVec 32 := 1#32
  ⟨c0_i32_1307, v962, c1_i32_1309⟩
def k0_off611 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1606 : Index := Scalar.indexCast arg14
  let c0 : Index := 0#32
  ![v1606.toNat, 0]
def k0_off612 (k0_t39 : Fin k0_t39_loop.trips) : Fin 2 → Nat :=
  let c0_i32_2180 : BitVec 32 := 0#32
  let c0_i32_1307 : BitVec 32 := 0#32
  let c1_i32_1309 : BitVec 32 := 1#32
  let arg14 : BitVec 32 := Scf.iv c0_i32_1307 c1_i32_1309 k0_t39
  let v1609 : BitVec 32 := Scalar.addi c0_i32_2180 arg14
  let v1610 : Index := Scalar.indexCast v1609
  let c0_2181 : Index := 0#32
  ![v1610.toNat, 0]
def k0_off613 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1622 : Index := Scalar.indexCast arg14
  let c16 : Index := 16#32
  ![v1622.toNat, 16]
def k0_off614 (k0_t39 : Fin k0_t39_loop.trips) : Fin 2 → Nat :=
  let c0_i32_2187 : BitVec 32 := 0#32
  let c0_i32_1307 : BitVec 32 := 0#32
  let c1_i32_1309 : BitVec 32 := 1#32
  let arg14 : BitVec 32 := Scf.iv c0_i32_1307 c1_i32_1309 k0_t39
  let v1625 : BitVec 32 := Scalar.addi c0_i32_2187 arg14
  let v1626 : Index := Scalar.indexCast v1625
  let c16_2188 : Index := 16#32
  ![v1626.toNat, 16]
def k0_off615 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1638 : Index := Scalar.indexCast arg14
  let c32 : Index := 32#32
  ![v1638.toNat, 32]
def k0_off616 (k0_t39 : Fin k0_t39_loop.trips) : Fin 2 → Nat :=
  let c0_i32_2194 : BitVec 32 := 0#32
  let c0_i32_1307 : BitVec 32 := 0#32
  let c1_i32_1309 : BitVec 32 := 1#32
  let arg14 : BitVec 32 := Scf.iv c0_i32_1307 c1_i32_1309 k0_t39
  let v1641 : BitVec 32 := Scalar.addi c0_i32_2194 arg14
  let v1642 : Index := Scalar.indexCast v1641
  let c32_2195 : Index := 32#32
  ![v1642.toNat, 32]
def k0_off617 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1654 : Index := Scalar.indexCast arg14
  let c48 : Index := 48#32
  ![v1654.toNat, 48]
def k0_off618 (k0_t39 : Fin k0_t39_loop.trips) : Fin 2 → Nat :=
  let c0_i32_2201 : BitVec 32 := 0#32
  let c0_i32_1307 : BitVec 32 := 0#32
  let c1_i32_1309 : BitVec 32 := 1#32
  let arg14 : BitVec 32 := Scf.iv c0_i32_1307 c1_i32_1309 k0_t39
  let v1657 : BitVec 32 := Scalar.addi c0_i32_2201 arg14
  let v1658 : Index := Scalar.indexCast v1657
  let c48_2202 : Index := 48#32
  ![v1658.toNat, 48]
def k0_off619 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1670 : Index := Scalar.indexCast arg14
  let c64 : Index := 64#32
  ![v1670.toNat, 64]
def k0_off620 (k0_t39 : Fin k0_t39_loop.trips) : Fin 2 → Nat :=
  let c0_i32_2208 : BitVec 32 := 0#32
  let c0_i32_1307 : BitVec 32 := 0#32
  let c1_i32_1309 : BitVec 32 := 1#32
  let arg14 : BitVec 32 := Scf.iv c0_i32_1307 c1_i32_1309 k0_t39
  let v1673 : BitVec 32 := Scalar.addi c0_i32_2208 arg14
  let v1674 : Index := Scalar.indexCast v1673
  let c64_2209 : Index := 64#32
  ![v1674.toNat, 64]
def k0_off621 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1686 : Index := Scalar.indexCast arg14
  let c80 : Index := 80#32
  ![v1686.toNat, 80]
def k0_off622 (k0_t39 : Fin k0_t39_loop.trips) : Fin 2 → Nat :=
  let c0_i32_2215 : BitVec 32 := 0#32
  let c0_i32_1307 : BitVec 32 := 0#32
  let c1_i32_1309 : BitVec 32 := 1#32
  let arg14 : BitVec 32 := Scf.iv c0_i32_1307 c1_i32_1309 k0_t39
  let v1689 : BitVec 32 := Scalar.addi c0_i32_2215 arg14
  let v1690 : Index := Scalar.indexCast v1689
  let c80_2216 : Index := 80#32
  ![v1690.toNat, 80]
def k0_off623 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1702 : Index := Scalar.indexCast arg14
  let c96 : Index := 96#32
  ![v1702.toNat, 96]
def k0_off624 (k0_t39 : Fin k0_t39_loop.trips) : Fin 2 → Nat :=
  let c0_i32_2222 : BitVec 32 := 0#32
  let c0_i32_1307 : BitVec 32 := 0#32
  let c1_i32_1309 : BitVec 32 := 1#32
  let arg14 : BitVec 32 := Scf.iv c0_i32_1307 c1_i32_1309 k0_t39
  let v1705 : BitVec 32 := Scalar.addi c0_i32_2222 arg14
  let v1706 : Index := Scalar.indexCast v1705
  let c96_2223 : Index := 96#32
  ![v1706.toNat, 96]
def k0_off625 (k0_t39 : Fin k0_t39_loop.trips) : Fin 2 → Nat :=
  let c0_i32_1307 : BitVec 32 := 0#32
  let c1_i32_1309 : BitVec 32 := 1#32
  let arg14 : BitVec 32 := Scf.iv c0_i32_1307 c1_i32_1309 k0_t39
  let v1718 : Index := Scalar.indexCast arg14
  let c112 : Index := 112#32
  ![v1718.toNat, 112]
def k0_off626 (k0_t39 : Fin k0_t39_loop.trips) : Fin 2 → Nat :=
  let c0_i32_2229 : BitVec 32 := 0#32
  let c0_i32_1307 : BitVec 32 := 0#32
  let c1_i32_1309 : BitVec 32 := 1#32
  let arg14 : BitVec 32 := Scf.iv c0_i32_1307 c1_i32_1309 k0_t39
  let v1721 : BitVec 32 := Scalar.addi c0_i32_2229 arg14
  let v1722 : Index := Scalar.indexCast v1721
  let c112_2230 : Index := 112#32
  ![v1722.toNat, 112]
@[reducible] def k0_t40_loop : Scf.Loop 32 :=
  let c0_i32_1341 : BitVec 32 := 0#32
  let c128_i32_1342 : BitVec 32 := 128#32
  let v987 : BitVec 32 := Scalar.addi c0_i32_1341 c128_i32_1342
  let c1_i32_1343 : BitVec 32 := 1#32
  ⟨c0_i32_1341, v987, c1_i32_1343⟩
def k0_off627 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1606 : Index := Scalar.indexCast arg14
  let c0 : Index := 0#32
  ![v1606.toNat, 0]
def k0_off628 (k0_t40 : Fin k0_t40_loop.trips) : Fin 2 → Nat :=
  let c128_i32_2180 : BitVec 32 := 128#32
  let c0_i32_1341 : BitVec 32 := 0#32
  let c1_i32_1343 : BitVec 32 := 1#32
  let arg14 : BitVec 32 := Scf.iv c0_i32_1341 c1_i32_1343 k0_t40
  let v1609 : BitVec 32 := Scalar.addi c128_i32_2180 arg14
  let v1610 : Index := Scalar.indexCast v1609
  let c0_2181 : Index := 0#32
  ![v1610.toNat, 0]
def k0_off629 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1622 : Index := Scalar.indexCast arg14
  let c16 : Index := 16#32
  ![v1622.toNat, 16]
def k0_off630 (k0_t40 : Fin k0_t40_loop.trips) : Fin 2 → Nat :=
  let c128_i32_2187 : BitVec 32 := 128#32
  let c0_i32_1341 : BitVec 32 := 0#32
  let c1_i32_1343 : BitVec 32 := 1#32
  let arg14 : BitVec 32 := Scf.iv c0_i32_1341 c1_i32_1343 k0_t40
  let v1625 : BitVec 32 := Scalar.addi c128_i32_2187 arg14
  let v1626 : Index := Scalar.indexCast v1625
  let c16_2188 : Index := 16#32
  ![v1626.toNat, 16]
def k0_off631 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1638 : Index := Scalar.indexCast arg14
  let c32 : Index := 32#32
  ![v1638.toNat, 32]
def k0_off632 (k0_t40 : Fin k0_t40_loop.trips) : Fin 2 → Nat :=
  let c128_i32_2194 : BitVec 32 := 128#32
  let c0_i32_1341 : BitVec 32 := 0#32
  let c1_i32_1343 : BitVec 32 := 1#32
  let arg14 : BitVec 32 := Scf.iv c0_i32_1341 c1_i32_1343 k0_t40
  let v1641 : BitVec 32 := Scalar.addi c128_i32_2194 arg14
  let v1642 : Index := Scalar.indexCast v1641
  let c32_2195 : Index := 32#32
  ![v1642.toNat, 32]
def k0_off633 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1654 : Index := Scalar.indexCast arg14
  let c48 : Index := 48#32
  ![v1654.toNat, 48]
def k0_off634 (k0_t40 : Fin k0_t40_loop.trips) : Fin 2 → Nat :=
  let c128_i32_2201 : BitVec 32 := 128#32
  let c0_i32_1341 : BitVec 32 := 0#32
  let c1_i32_1343 : BitVec 32 := 1#32
  let arg14 : BitVec 32 := Scf.iv c0_i32_1341 c1_i32_1343 k0_t40
  let v1657 : BitVec 32 := Scalar.addi c128_i32_2201 arg14
  let v1658 : Index := Scalar.indexCast v1657
  let c48_2202 : Index := 48#32
  ![v1658.toNat, 48]
def k0_off635 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1670 : Index := Scalar.indexCast arg14
  let c64 : Index := 64#32
  ![v1670.toNat, 64]
def k0_off636 (k0_t40 : Fin k0_t40_loop.trips) : Fin 2 → Nat :=
  let c128_i32_2208 : BitVec 32 := 128#32
  let c0_i32_1341 : BitVec 32 := 0#32
  let c1_i32_1343 : BitVec 32 := 1#32
  let arg14 : BitVec 32 := Scf.iv c0_i32_1341 c1_i32_1343 k0_t40
  let v1673 : BitVec 32 := Scalar.addi c128_i32_2208 arg14
  let v1674 : Index := Scalar.indexCast v1673
  let c64_2209 : Index := 64#32
  ![v1674.toNat, 64]
def k0_off637 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1686 : Index := Scalar.indexCast arg14
  let c80 : Index := 80#32
  ![v1686.toNat, 80]
def k0_off638 (k0_t40 : Fin k0_t40_loop.trips) : Fin 2 → Nat :=
  let c128_i32_2215 : BitVec 32 := 128#32
  let c0_i32_1341 : BitVec 32 := 0#32
  let c1_i32_1343 : BitVec 32 := 1#32
  let arg14 : BitVec 32 := Scf.iv c0_i32_1341 c1_i32_1343 k0_t40
  let v1689 : BitVec 32 := Scalar.addi c128_i32_2215 arg14
  let v1690 : Index := Scalar.indexCast v1689
  let c80_2216 : Index := 80#32
  ![v1690.toNat, 80]
def k0_off639 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1702 : Index := Scalar.indexCast arg14
  let c96 : Index := 96#32
  ![v1702.toNat, 96]
def k0_off640 (k0_t40 : Fin k0_t40_loop.trips) : Fin 2 → Nat :=
  let c128_i32_2222 : BitVec 32 := 128#32
  let c0_i32_1341 : BitVec 32 := 0#32
  let c1_i32_1343 : BitVec 32 := 1#32
  let arg14 : BitVec 32 := Scf.iv c0_i32_1341 c1_i32_1343 k0_t40
  let v1705 : BitVec 32 := Scalar.addi c128_i32_2222 arg14
  let v1706 : Index := Scalar.indexCast v1705
  let c96_2223 : Index := 96#32
  ![v1706.toNat, 96]
def k0_off641 (k0_t40 : Fin k0_t40_loop.trips) : Fin 2 → Nat :=
  let c0_i32_1341 : BitVec 32 := 0#32
  let c1_i32_1343 : BitVec 32 := 1#32
  let arg14 : BitVec 32 := Scf.iv c0_i32_1341 c1_i32_1343 k0_t40
  let v1718 : Index := Scalar.indexCast arg14
  let c112 : Index := 112#32
  ![v1718.toNat, 112]
def k0_off642 (k0_t40 : Fin k0_t40_loop.trips) : Fin 2 → Nat :=
  let c128_i32_2229 : BitVec 32 := 128#32
  let c0_i32_1341 : BitVec 32 := 0#32
  let c1_i32_1343 : BitVec 32 := 1#32
  let arg14 : BitVec 32 := Scf.iv c0_i32_1341 c1_i32_1343 k0_t40
  let v1721 : BitVec 32 := Scalar.addi c128_i32_2229 arg14
  let v1722 : Index := Scalar.indexCast v1721
  let c112_2230 : Index := 112#32
  ![v1722.toNat, 112]
@[reducible] def k0_t41_loop : Scf.Loop 32 :=
  let c0_i32_1375 : BitVec 32 := 0#32
  let c128_i32_1376 : BitVec 32 := 128#32
  let v1012 : BitVec 32 := Scalar.addi c0_i32_1375 c128_i32_1376
  let c1_i32_1377 : BitVec 32 := 1#32
  ⟨c0_i32_1375, v1012, c1_i32_1377⟩
def k0_off643 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1606 : Index := Scalar.indexCast arg14
  let c0 : Index := 0#32
  ![v1606.toNat, 0]
def k0_off644 (k0_t41 : Fin k0_t41_loop.trips) : Fin 2 → Nat :=
  let c0_i32_2180 : BitVec 32 := 0#32
  let c0_i32_1375 : BitVec 32 := 0#32
  let c1_i32_1377 : BitVec 32 := 1#32
  let arg14 : BitVec 32 := Scf.iv c0_i32_1375 c1_i32_1377 k0_t41
  let v1609 : BitVec 32 := Scalar.addi c0_i32_2180 arg14
  let v1610 : Index := Scalar.indexCast v1609
  let c0_2181 : Index := 0#32
  ![v1610.toNat, 0]
def k0_off645 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1622 : Index := Scalar.indexCast arg14
  let c16 : Index := 16#32
  ![v1622.toNat, 16]
def k0_off646 (k0_t41 : Fin k0_t41_loop.trips) : Fin 2 → Nat :=
  let c0_i32_2187 : BitVec 32 := 0#32
  let c0_i32_1375 : BitVec 32 := 0#32
  let c1_i32_1377 : BitVec 32 := 1#32
  let arg14 : BitVec 32 := Scf.iv c0_i32_1375 c1_i32_1377 k0_t41
  let v1625 : BitVec 32 := Scalar.addi c0_i32_2187 arg14
  let v1626 : Index := Scalar.indexCast v1625
  let c16_2188 : Index := 16#32
  ![v1626.toNat, 16]
def k0_off647 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1638 : Index := Scalar.indexCast arg14
  let c32 : Index := 32#32
  ![v1638.toNat, 32]
def k0_off648 (k0_t41 : Fin k0_t41_loop.trips) : Fin 2 → Nat :=
  let c0_i32_2194 : BitVec 32 := 0#32
  let c0_i32_1375 : BitVec 32 := 0#32
  let c1_i32_1377 : BitVec 32 := 1#32
  let arg14 : BitVec 32 := Scf.iv c0_i32_1375 c1_i32_1377 k0_t41
  let v1641 : BitVec 32 := Scalar.addi c0_i32_2194 arg14
  let v1642 : Index := Scalar.indexCast v1641
  let c32_2195 : Index := 32#32
  ![v1642.toNat, 32]
def k0_off649 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1654 : Index := Scalar.indexCast arg14
  let c48 : Index := 48#32
  ![v1654.toNat, 48]
def k0_off650 (k0_t41 : Fin k0_t41_loop.trips) : Fin 2 → Nat :=
  let c0_i32_2201 : BitVec 32 := 0#32
  let c0_i32_1375 : BitVec 32 := 0#32
  let c1_i32_1377 : BitVec 32 := 1#32
  let arg14 : BitVec 32 := Scf.iv c0_i32_1375 c1_i32_1377 k0_t41
  let v1657 : BitVec 32 := Scalar.addi c0_i32_2201 arg14
  let v1658 : Index := Scalar.indexCast v1657
  let c48_2202 : Index := 48#32
  ![v1658.toNat, 48]
def k0_off651 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1670 : Index := Scalar.indexCast arg14
  let c64 : Index := 64#32
  ![v1670.toNat, 64]
def k0_off652 (k0_t41 : Fin k0_t41_loop.trips) : Fin 2 → Nat :=
  let c0_i32_2208 : BitVec 32 := 0#32
  let c0_i32_1375 : BitVec 32 := 0#32
  let c1_i32_1377 : BitVec 32 := 1#32
  let arg14 : BitVec 32 := Scf.iv c0_i32_1375 c1_i32_1377 k0_t41
  let v1673 : BitVec 32 := Scalar.addi c0_i32_2208 arg14
  let v1674 : Index := Scalar.indexCast v1673
  let c64_2209 : Index := 64#32
  ![v1674.toNat, 64]
def k0_off653 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1686 : Index := Scalar.indexCast arg14
  let c80 : Index := 80#32
  ![v1686.toNat, 80]
def k0_off654 (k0_t41 : Fin k0_t41_loop.trips) : Fin 2 → Nat :=
  let c0_i32_2215 : BitVec 32 := 0#32
  let c0_i32_1375 : BitVec 32 := 0#32
  let c1_i32_1377 : BitVec 32 := 1#32
  let arg14 : BitVec 32 := Scf.iv c0_i32_1375 c1_i32_1377 k0_t41
  let v1689 : BitVec 32 := Scalar.addi c0_i32_2215 arg14
  let v1690 : Index := Scalar.indexCast v1689
  let c80_2216 : Index := 80#32
  ![v1690.toNat, 80]
def k0_off655 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1702 : Index := Scalar.indexCast arg14
  let c96 : Index := 96#32
  ![v1702.toNat, 96]
def k0_off656 (k0_t41 : Fin k0_t41_loop.trips) : Fin 2 → Nat :=
  let c0_i32_2222 : BitVec 32 := 0#32
  let c0_i32_1375 : BitVec 32 := 0#32
  let c1_i32_1377 : BitVec 32 := 1#32
  let arg14 : BitVec 32 := Scf.iv c0_i32_1375 c1_i32_1377 k0_t41
  let v1705 : BitVec 32 := Scalar.addi c0_i32_2222 arg14
  let v1706 : Index := Scalar.indexCast v1705
  let c96_2223 : Index := 96#32
  ![v1706.toNat, 96]
def k0_off657 (k0_t41 : Fin k0_t41_loop.trips) : Fin 2 → Nat :=
  let c0_i32_1375 : BitVec 32 := 0#32
  let c1_i32_1377 : BitVec 32 := 1#32
  let arg14 : BitVec 32 := Scf.iv c0_i32_1375 c1_i32_1377 k0_t41
  let v1718 : Index := Scalar.indexCast arg14
  let c112 : Index := 112#32
  ![v1718.toNat, 112]
def k0_off658 (k0_t41 : Fin k0_t41_loop.trips) : Fin 2 → Nat :=
  let c0_i32_2229 : BitVec 32 := 0#32
  let c0_i32_1375 : BitVec 32 := 0#32
  let c1_i32_1377 : BitVec 32 := 1#32
  let arg14 : BitVec 32 := Scf.iv c0_i32_1375 c1_i32_1377 k0_t41
  let v1721 : BitVec 32 := Scalar.addi c0_i32_2229 arg14
  let v1722 : Index := Scalar.indexCast v1721
  let c112_2230 : Index := 112#32
  ![v1722.toNat, 112]
@[reducible] def k0_t42_loop : Scf.Loop 32 :=
  let c0_i32_1409 : BitVec 32 := 0#32
  let c128_i32_1410 : BitVec 32 := 128#32
  let v1037 : BitVec 32 := Scalar.addi c0_i32_1409 c128_i32_1410
  let c1_i32_1411 : BitVec 32 := 1#32
  ⟨c0_i32_1409, v1037, c1_i32_1411⟩
def k0_off659 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1606 : Index := Scalar.indexCast arg14
  let c0 : Index := 0#32
  ![v1606.toNat, 0]
def k0_off660 (k0_t42 : Fin k0_t42_loop.trips) : Fin 2 → Nat :=
  let c128_i32_2180 : BitVec 32 := 128#32
  let c0_i32_1409 : BitVec 32 := 0#32
  let c1_i32_1411 : BitVec 32 := 1#32
  let arg14 : BitVec 32 := Scf.iv c0_i32_1409 c1_i32_1411 k0_t42
  let v1609 : BitVec 32 := Scalar.addi c128_i32_2180 arg14
  let v1610 : Index := Scalar.indexCast v1609
  let c0_2181 : Index := 0#32
  ![v1610.toNat, 0]
def k0_off661 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1622 : Index := Scalar.indexCast arg14
  let c16 : Index := 16#32
  ![v1622.toNat, 16]
def k0_off662 (k0_t42 : Fin k0_t42_loop.trips) : Fin 2 → Nat :=
  let c128_i32_2187 : BitVec 32 := 128#32
  let c0_i32_1409 : BitVec 32 := 0#32
  let c1_i32_1411 : BitVec 32 := 1#32
  let arg14 : BitVec 32 := Scf.iv c0_i32_1409 c1_i32_1411 k0_t42
  let v1625 : BitVec 32 := Scalar.addi c128_i32_2187 arg14
  let v1626 : Index := Scalar.indexCast v1625
  let c16_2188 : Index := 16#32
  ![v1626.toNat, 16]
def k0_off663 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1638 : Index := Scalar.indexCast arg14
  let c32 : Index := 32#32
  ![v1638.toNat, 32]
def k0_off664 (k0_t42 : Fin k0_t42_loop.trips) : Fin 2 → Nat :=
  let c128_i32_2194 : BitVec 32 := 128#32
  let c0_i32_1409 : BitVec 32 := 0#32
  let c1_i32_1411 : BitVec 32 := 1#32
  let arg14 : BitVec 32 := Scf.iv c0_i32_1409 c1_i32_1411 k0_t42
  let v1641 : BitVec 32 := Scalar.addi c128_i32_2194 arg14
  let v1642 : Index := Scalar.indexCast v1641
  let c32_2195 : Index := 32#32
  ![v1642.toNat, 32]
def k0_off665 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1654 : Index := Scalar.indexCast arg14
  let c48 : Index := 48#32
  ![v1654.toNat, 48]
def k0_off666 (k0_t42 : Fin k0_t42_loop.trips) : Fin 2 → Nat :=
  let c128_i32_2201 : BitVec 32 := 128#32
  let c0_i32_1409 : BitVec 32 := 0#32
  let c1_i32_1411 : BitVec 32 := 1#32
  let arg14 : BitVec 32 := Scf.iv c0_i32_1409 c1_i32_1411 k0_t42
  let v1657 : BitVec 32 := Scalar.addi c128_i32_2201 arg14
  let v1658 : Index := Scalar.indexCast v1657
  let c48_2202 : Index := 48#32
  ![v1658.toNat, 48]
def k0_off667 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1670 : Index := Scalar.indexCast arg14
  let c64 : Index := 64#32
  ![v1670.toNat, 64]
def k0_off668 (k0_t42 : Fin k0_t42_loop.trips) : Fin 2 → Nat :=
  let c128_i32_2208 : BitVec 32 := 128#32
  let c0_i32_1409 : BitVec 32 := 0#32
  let c1_i32_1411 : BitVec 32 := 1#32
  let arg14 : BitVec 32 := Scf.iv c0_i32_1409 c1_i32_1411 k0_t42
  let v1673 : BitVec 32 := Scalar.addi c128_i32_2208 arg14
  let v1674 : Index := Scalar.indexCast v1673
  let c64_2209 : Index := 64#32
  ![v1674.toNat, 64]
def k0_off669 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1686 : Index := Scalar.indexCast arg14
  let c80 : Index := 80#32
  ![v1686.toNat, 80]
def k0_off670 (k0_t42 : Fin k0_t42_loop.trips) : Fin 2 → Nat :=
  let c128_i32_2215 : BitVec 32 := 128#32
  let c0_i32_1409 : BitVec 32 := 0#32
  let c1_i32_1411 : BitVec 32 := 1#32
  let arg14 : BitVec 32 := Scf.iv c0_i32_1409 c1_i32_1411 k0_t42
  let v1689 : BitVec 32 := Scalar.addi c128_i32_2215 arg14
  let v1690 : Index := Scalar.indexCast v1689
  let c80_2216 : Index := 80#32
  ![v1690.toNat, 80]
def k0_off671 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1702 : Index := Scalar.indexCast arg14
  let c96 : Index := 96#32
  ![v1702.toNat, 96]
def k0_off672 (k0_t42 : Fin k0_t42_loop.trips) : Fin 2 → Nat :=
  let c128_i32_2222 : BitVec 32 := 128#32
  let c0_i32_1409 : BitVec 32 := 0#32
  let c1_i32_1411 : BitVec 32 := 1#32
  let arg14 : BitVec 32 := Scf.iv c0_i32_1409 c1_i32_1411 k0_t42
  let v1705 : BitVec 32 := Scalar.addi c128_i32_2222 arg14
  let v1706 : Index := Scalar.indexCast v1705
  let c96_2223 : Index := 96#32
  ![v1706.toNat, 96]
def k0_off673 (k0_t42 : Fin k0_t42_loop.trips) : Fin 2 → Nat :=
  let c0_i32_1409 : BitVec 32 := 0#32
  let c1_i32_1411 : BitVec 32 := 1#32
  let arg14 : BitVec 32 := Scf.iv c0_i32_1409 c1_i32_1411 k0_t42
  let v1718 : Index := Scalar.indexCast arg14
  let c112 : Index := 112#32
  ![v1718.toNat, 112]
def k0_off674 (k0_t42 : Fin k0_t42_loop.trips) : Fin 2 → Nat :=
  let c128_i32_2229 : BitVec 32 := 128#32
  let c0_i32_1409 : BitVec 32 := 0#32
  let c1_i32_1411 : BitVec 32 := 1#32
  let arg14 : BitVec 32 := Scf.iv c0_i32_1409 c1_i32_1411 k0_t42
  let v1721 : BitVec 32 := Scalar.addi c128_i32_2229 arg14
  let v1722 : Index := Scalar.indexCast v1721
  let c112_2230 : Index := 112#32
  ![v1722.toNat, 112]
@[reducible] def k0_t43_loop : Scf.Loop 32 :=
  let c0_i32_1443 : BitVec 32 := 0#32
  let c128_i32_1444 : BitVec 32 := 128#32
  let v1062 : BitVec 32 := Scalar.addi c0_i32_1443 c128_i32_1444
  let c1_i32_1445 : BitVec 32 := 1#32
  ⟨c0_i32_1443, v1062, c1_i32_1445⟩
def k0_off675 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1606 : Index := Scalar.indexCast arg14
  let c0 : Index := 0#32
  ![v1606.toNat, 0]
def k0_off676 (k0_t43 : Fin k0_t43_loop.trips) : Fin 2 → Nat :=
  let c0_i32_2180 : BitVec 32 := 0#32
  let c0_i32_1443 : BitVec 32 := 0#32
  let c1_i32_1445 : BitVec 32 := 1#32
  let arg14 : BitVec 32 := Scf.iv c0_i32_1443 c1_i32_1445 k0_t43
  let v1609 : BitVec 32 := Scalar.addi c0_i32_2180 arg14
  let v1610 : Index := Scalar.indexCast v1609
  let c0_2181 : Index := 0#32
  ![v1610.toNat, 0]
def k0_off677 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1622 : Index := Scalar.indexCast arg14
  let c16 : Index := 16#32
  ![v1622.toNat, 16]
def k0_off678 (k0_t43 : Fin k0_t43_loop.trips) : Fin 2 → Nat :=
  let c0_i32_2187 : BitVec 32 := 0#32
  let c0_i32_1443 : BitVec 32 := 0#32
  let c1_i32_1445 : BitVec 32 := 1#32
  let arg14 : BitVec 32 := Scf.iv c0_i32_1443 c1_i32_1445 k0_t43
  let v1625 : BitVec 32 := Scalar.addi c0_i32_2187 arg14
  let v1626 : Index := Scalar.indexCast v1625
  let c16_2188 : Index := 16#32
  ![v1626.toNat, 16]
def k0_off679 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1638 : Index := Scalar.indexCast arg14
  let c32 : Index := 32#32
  ![v1638.toNat, 32]
def k0_off680 (k0_t43 : Fin k0_t43_loop.trips) : Fin 2 → Nat :=
  let c0_i32_2194 : BitVec 32 := 0#32
  let c0_i32_1443 : BitVec 32 := 0#32
  let c1_i32_1445 : BitVec 32 := 1#32
  let arg14 : BitVec 32 := Scf.iv c0_i32_1443 c1_i32_1445 k0_t43
  let v1641 : BitVec 32 := Scalar.addi c0_i32_2194 arg14
  let v1642 : Index := Scalar.indexCast v1641
  let c32_2195 : Index := 32#32
  ![v1642.toNat, 32]
def k0_off681 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1654 : Index := Scalar.indexCast arg14
  let c48 : Index := 48#32
  ![v1654.toNat, 48]
def k0_off682 (k0_t43 : Fin k0_t43_loop.trips) : Fin 2 → Nat :=
  let c0_i32_2201 : BitVec 32 := 0#32
  let c0_i32_1443 : BitVec 32 := 0#32
  let c1_i32_1445 : BitVec 32 := 1#32
  let arg14 : BitVec 32 := Scf.iv c0_i32_1443 c1_i32_1445 k0_t43
  let v1657 : BitVec 32 := Scalar.addi c0_i32_2201 arg14
  let v1658 : Index := Scalar.indexCast v1657
  let c48_2202 : Index := 48#32
  ![v1658.toNat, 48]
def k0_off683 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1670 : Index := Scalar.indexCast arg14
  let c64 : Index := 64#32
  ![v1670.toNat, 64]
def k0_off684 (k0_t43 : Fin k0_t43_loop.trips) : Fin 2 → Nat :=
  let c0_i32_2208 : BitVec 32 := 0#32
  let c0_i32_1443 : BitVec 32 := 0#32
  let c1_i32_1445 : BitVec 32 := 1#32
  let arg14 : BitVec 32 := Scf.iv c0_i32_1443 c1_i32_1445 k0_t43
  let v1673 : BitVec 32 := Scalar.addi c0_i32_2208 arg14
  let v1674 : Index := Scalar.indexCast v1673
  let c64_2209 : Index := 64#32
  ![v1674.toNat, 64]
def k0_off685 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1686 : Index := Scalar.indexCast arg14
  let c80 : Index := 80#32
  ![v1686.toNat, 80]
def k0_off686 (k0_t43 : Fin k0_t43_loop.trips) : Fin 2 → Nat :=
  let c0_i32_2215 : BitVec 32 := 0#32
  let c0_i32_1443 : BitVec 32 := 0#32
  let c1_i32_1445 : BitVec 32 := 1#32
  let arg14 : BitVec 32 := Scf.iv c0_i32_1443 c1_i32_1445 k0_t43
  let v1689 : BitVec 32 := Scalar.addi c0_i32_2215 arg14
  let v1690 : Index := Scalar.indexCast v1689
  let c80_2216 : Index := 80#32
  ![v1690.toNat, 80]
def k0_off687 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1702 : Index := Scalar.indexCast arg14
  let c96 : Index := 96#32
  ![v1702.toNat, 96]
def k0_off688 (k0_t43 : Fin k0_t43_loop.trips) : Fin 2 → Nat :=
  let c0_i32_2222 : BitVec 32 := 0#32
  let c0_i32_1443 : BitVec 32 := 0#32
  let c1_i32_1445 : BitVec 32 := 1#32
  let arg14 : BitVec 32 := Scf.iv c0_i32_1443 c1_i32_1445 k0_t43
  let v1705 : BitVec 32 := Scalar.addi c0_i32_2222 arg14
  let v1706 : Index := Scalar.indexCast v1705
  let c96_2223 : Index := 96#32
  ![v1706.toNat, 96]
def k0_off689 (k0_t43 : Fin k0_t43_loop.trips) : Fin 2 → Nat :=
  let c0_i32_1443 : BitVec 32 := 0#32
  let c1_i32_1445 : BitVec 32 := 1#32
  let arg14 : BitVec 32 := Scf.iv c0_i32_1443 c1_i32_1445 k0_t43
  let v1718 : Index := Scalar.indexCast arg14
  let c112 : Index := 112#32
  ![v1718.toNat, 112]
def k0_off690 (k0_t43 : Fin k0_t43_loop.trips) : Fin 2 → Nat :=
  let c0_i32_2229 : BitVec 32 := 0#32
  let c0_i32_1443 : BitVec 32 := 0#32
  let c1_i32_1445 : BitVec 32 := 1#32
  let arg14 : BitVec 32 := Scf.iv c0_i32_1443 c1_i32_1445 k0_t43
  let v1721 : BitVec 32 := Scalar.addi c0_i32_2229 arg14
  let v1722 : Index := Scalar.indexCast v1721
  let c112_2230 : Index := 112#32
  ![v1722.toNat, 112]
@[reducible] def k0_t44_loop : Scf.Loop 32 :=
  let c0_i32_1477 : BitVec 32 := 0#32
  let c128_i32_1478 : BitVec 32 := 128#32
  let v1087 : BitVec 32 := Scalar.addi c0_i32_1477 c128_i32_1478
  let c1_i32_1479 : BitVec 32 := 1#32
  ⟨c0_i32_1477, v1087, c1_i32_1479⟩
def k0_off691 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1606 : Index := Scalar.indexCast arg14
  let c0 : Index := 0#32
  ![v1606.toNat, 0]
def k0_off692 (k0_t44 : Fin k0_t44_loop.trips) : Fin 2 → Nat :=
  let c128_i32_2180 : BitVec 32 := 128#32
  let c0_i32_1477 : BitVec 32 := 0#32
  let c1_i32_1479 : BitVec 32 := 1#32
  let arg14 : BitVec 32 := Scf.iv c0_i32_1477 c1_i32_1479 k0_t44
  let v1609 : BitVec 32 := Scalar.addi c128_i32_2180 arg14
  let v1610 : Index := Scalar.indexCast v1609
  let c0_2181 : Index := 0#32
  ![v1610.toNat, 0]
def k0_off693 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1622 : Index := Scalar.indexCast arg14
  let c16 : Index := 16#32
  ![v1622.toNat, 16]
def k0_off694 (k0_t44 : Fin k0_t44_loop.trips) : Fin 2 → Nat :=
  let c128_i32_2187 : BitVec 32 := 128#32
  let c0_i32_1477 : BitVec 32 := 0#32
  let c1_i32_1479 : BitVec 32 := 1#32
  let arg14 : BitVec 32 := Scf.iv c0_i32_1477 c1_i32_1479 k0_t44
  let v1625 : BitVec 32 := Scalar.addi c128_i32_2187 arg14
  let v1626 : Index := Scalar.indexCast v1625
  let c16_2188 : Index := 16#32
  ![v1626.toNat, 16]
def k0_off695 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1638 : Index := Scalar.indexCast arg14
  let c32 : Index := 32#32
  ![v1638.toNat, 32]
def k0_off696 (k0_t44 : Fin k0_t44_loop.trips) : Fin 2 → Nat :=
  let c128_i32_2194 : BitVec 32 := 128#32
  let c0_i32_1477 : BitVec 32 := 0#32
  let c1_i32_1479 : BitVec 32 := 1#32
  let arg14 : BitVec 32 := Scf.iv c0_i32_1477 c1_i32_1479 k0_t44
  let v1641 : BitVec 32 := Scalar.addi c128_i32_2194 arg14
  let v1642 : Index := Scalar.indexCast v1641
  let c32_2195 : Index := 32#32
  ![v1642.toNat, 32]
def k0_off697 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1654 : Index := Scalar.indexCast arg14
  let c48 : Index := 48#32
  ![v1654.toNat, 48]
def k0_off698 (k0_t44 : Fin k0_t44_loop.trips) : Fin 2 → Nat :=
  let c128_i32_2201 : BitVec 32 := 128#32
  let c0_i32_1477 : BitVec 32 := 0#32
  let c1_i32_1479 : BitVec 32 := 1#32
  let arg14 : BitVec 32 := Scf.iv c0_i32_1477 c1_i32_1479 k0_t44
  let v1657 : BitVec 32 := Scalar.addi c128_i32_2201 arg14
  let v1658 : Index := Scalar.indexCast v1657
  let c48_2202 : Index := 48#32
  ![v1658.toNat, 48]
def k0_off699 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1670 : Index := Scalar.indexCast arg14
  let c64 : Index := 64#32
  ![v1670.toNat, 64]
def k0_off700 (k0_t44 : Fin k0_t44_loop.trips) : Fin 2 → Nat :=
  let c128_i32_2208 : BitVec 32 := 128#32
  let c0_i32_1477 : BitVec 32 := 0#32
  let c1_i32_1479 : BitVec 32 := 1#32
  let arg14 : BitVec 32 := Scf.iv c0_i32_1477 c1_i32_1479 k0_t44
  let v1673 : BitVec 32 := Scalar.addi c128_i32_2208 arg14
  let v1674 : Index := Scalar.indexCast v1673
  let c64_2209 : Index := 64#32
  ![v1674.toNat, 64]
def k0_off701 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1686 : Index := Scalar.indexCast arg14
  let c80 : Index := 80#32
  ![v1686.toNat, 80]
def k0_off702 (k0_t44 : Fin k0_t44_loop.trips) : Fin 2 → Nat :=
  let c128_i32_2215 : BitVec 32 := 128#32
  let c0_i32_1477 : BitVec 32 := 0#32
  let c1_i32_1479 : BitVec 32 := 1#32
  let arg14 : BitVec 32 := Scf.iv c0_i32_1477 c1_i32_1479 k0_t44
  let v1689 : BitVec 32 := Scalar.addi c128_i32_2215 arg14
  let v1690 : Index := Scalar.indexCast v1689
  let c80_2216 : Index := 80#32
  ![v1690.toNat, 80]
def k0_off703 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1702 : Index := Scalar.indexCast arg14
  let c96 : Index := 96#32
  ![v1702.toNat, 96]
def k0_off704 (k0_t44 : Fin k0_t44_loop.trips) : Fin 2 → Nat :=
  let c128_i32_2222 : BitVec 32 := 128#32
  let c0_i32_1477 : BitVec 32 := 0#32
  let c1_i32_1479 : BitVec 32 := 1#32
  let arg14 : BitVec 32 := Scf.iv c0_i32_1477 c1_i32_1479 k0_t44
  let v1705 : BitVec 32 := Scalar.addi c128_i32_2222 arg14
  let v1706 : Index := Scalar.indexCast v1705
  let c96_2223 : Index := 96#32
  ![v1706.toNat, 96]
def k0_off705 (k0_t44 : Fin k0_t44_loop.trips) : Fin 2 → Nat :=
  let c0_i32_1477 : BitVec 32 := 0#32
  let c1_i32_1479 : BitVec 32 := 1#32
  let arg14 : BitVec 32 := Scf.iv c0_i32_1477 c1_i32_1479 k0_t44
  let v1718 : Index := Scalar.indexCast arg14
  let c112 : Index := 112#32
  ![v1718.toNat, 112]
def k0_off706 (k0_t44 : Fin k0_t44_loop.trips) : Fin 2 → Nat :=
  let c128_i32_2229 : BitVec 32 := 128#32
  let c0_i32_1477 : BitVec 32 := 0#32
  let c1_i32_1479 : BitVec 32 := 1#32
  let arg14 : BitVec 32 := Scf.iv c0_i32_1477 c1_i32_1479 k0_t44
  let v1721 : BitVec 32 := Scalar.addi c128_i32_2229 arg14
  let v1722 : Index := Scalar.indexCast v1721
  let c112_2230 : Index := 112#32
  ![v1722.toNat, 112]
@[reducible] def k0_t45_loop : Scf.Loop 32 :=
  let c0_i32_1511 : BitVec 32 := 0#32
  let c128_i32_1512 : BitVec 32 := 128#32
  let v1112 : BitVec 32 := Scalar.addi c0_i32_1511 c128_i32_1512
  let c1_i32_1513 : BitVec 32 := 1#32
  ⟨c0_i32_1511, v1112, c1_i32_1513⟩
def k0_off707 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1606 : Index := Scalar.indexCast arg14
  let c0 : Index := 0#32
  ![v1606.toNat, 0]
def k0_off708 (k0_t45 : Fin k0_t45_loop.trips) : Fin 2 → Nat :=
  let c0_i32_2180 : BitVec 32 := 0#32
  let c0_i32_1511 : BitVec 32 := 0#32
  let c1_i32_1513 : BitVec 32 := 1#32
  let arg14 : BitVec 32 := Scf.iv c0_i32_1511 c1_i32_1513 k0_t45
  let v1609 : BitVec 32 := Scalar.addi c0_i32_2180 arg14
  let v1610 : Index := Scalar.indexCast v1609
  let c0_2181 : Index := 0#32
  ![v1610.toNat, 0]
def k0_off709 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1622 : Index := Scalar.indexCast arg14
  let c16 : Index := 16#32
  ![v1622.toNat, 16]
def k0_off710 (k0_t45 : Fin k0_t45_loop.trips) : Fin 2 → Nat :=
  let c0_i32_2187 : BitVec 32 := 0#32
  let c0_i32_1511 : BitVec 32 := 0#32
  let c1_i32_1513 : BitVec 32 := 1#32
  let arg14 : BitVec 32 := Scf.iv c0_i32_1511 c1_i32_1513 k0_t45
  let v1625 : BitVec 32 := Scalar.addi c0_i32_2187 arg14
  let v1626 : Index := Scalar.indexCast v1625
  let c16_2188 : Index := 16#32
  ![v1626.toNat, 16]
def k0_off711 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1638 : Index := Scalar.indexCast arg14
  let c32 : Index := 32#32
  ![v1638.toNat, 32]
def k0_off712 (k0_t45 : Fin k0_t45_loop.trips) : Fin 2 → Nat :=
  let c0_i32_2194 : BitVec 32 := 0#32
  let c0_i32_1511 : BitVec 32 := 0#32
  let c1_i32_1513 : BitVec 32 := 1#32
  let arg14 : BitVec 32 := Scf.iv c0_i32_1511 c1_i32_1513 k0_t45
  let v1641 : BitVec 32 := Scalar.addi c0_i32_2194 arg14
  let v1642 : Index := Scalar.indexCast v1641
  let c32_2195 : Index := 32#32
  ![v1642.toNat, 32]
def k0_off713 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1654 : Index := Scalar.indexCast arg14
  let c48 : Index := 48#32
  ![v1654.toNat, 48]
def k0_off714 (k0_t45 : Fin k0_t45_loop.trips) : Fin 2 → Nat :=
  let c0_i32_2201 : BitVec 32 := 0#32
  let c0_i32_1511 : BitVec 32 := 0#32
  let c1_i32_1513 : BitVec 32 := 1#32
  let arg14 : BitVec 32 := Scf.iv c0_i32_1511 c1_i32_1513 k0_t45
  let v1657 : BitVec 32 := Scalar.addi c0_i32_2201 arg14
  let v1658 : Index := Scalar.indexCast v1657
  let c48_2202 : Index := 48#32
  ![v1658.toNat, 48]
def k0_off715 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1670 : Index := Scalar.indexCast arg14
  let c64 : Index := 64#32
  ![v1670.toNat, 64]
def k0_off716 (k0_t45 : Fin k0_t45_loop.trips) : Fin 2 → Nat :=
  let c0_i32_2208 : BitVec 32 := 0#32
  let c0_i32_1511 : BitVec 32 := 0#32
  let c1_i32_1513 : BitVec 32 := 1#32
  let arg14 : BitVec 32 := Scf.iv c0_i32_1511 c1_i32_1513 k0_t45
  let v1673 : BitVec 32 := Scalar.addi c0_i32_2208 arg14
  let v1674 : Index := Scalar.indexCast v1673
  let c64_2209 : Index := 64#32
  ![v1674.toNat, 64]
def k0_off717 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1686 : Index := Scalar.indexCast arg14
  let c80 : Index := 80#32
  ![v1686.toNat, 80]
def k0_off718 (k0_t45 : Fin k0_t45_loop.trips) : Fin 2 → Nat :=
  let c0_i32_2215 : BitVec 32 := 0#32
  let c0_i32_1511 : BitVec 32 := 0#32
  let c1_i32_1513 : BitVec 32 := 1#32
  let arg14 : BitVec 32 := Scf.iv c0_i32_1511 c1_i32_1513 k0_t45
  let v1689 : BitVec 32 := Scalar.addi c0_i32_2215 arg14
  let v1690 : Index := Scalar.indexCast v1689
  let c80_2216 : Index := 80#32
  ![v1690.toNat, 80]
def k0_off719 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1702 : Index := Scalar.indexCast arg14
  let c96 : Index := 96#32
  ![v1702.toNat, 96]
def k0_off720 (k0_t45 : Fin k0_t45_loop.trips) : Fin 2 → Nat :=
  let c0_i32_2222 : BitVec 32 := 0#32
  let c0_i32_1511 : BitVec 32 := 0#32
  let c1_i32_1513 : BitVec 32 := 1#32
  let arg14 : BitVec 32 := Scf.iv c0_i32_1511 c1_i32_1513 k0_t45
  let v1705 : BitVec 32 := Scalar.addi c0_i32_2222 arg14
  let v1706 : Index := Scalar.indexCast v1705
  let c96_2223 : Index := 96#32
  ![v1706.toNat, 96]
def k0_off721 (k0_t45 : Fin k0_t45_loop.trips) : Fin 2 → Nat :=
  let c0_i32_1511 : BitVec 32 := 0#32
  let c1_i32_1513 : BitVec 32 := 1#32
  let arg14 : BitVec 32 := Scf.iv c0_i32_1511 c1_i32_1513 k0_t45
  let v1718 : Index := Scalar.indexCast arg14
  let c112 : Index := 112#32
  ![v1718.toNat, 112]
def k0_off722 (k0_t45 : Fin k0_t45_loop.trips) : Fin 2 → Nat :=
  let c0_i32_2229 : BitVec 32 := 0#32
  let c0_i32_1511 : BitVec 32 := 0#32
  let c1_i32_1513 : BitVec 32 := 1#32
  let arg14 : BitVec 32 := Scf.iv c0_i32_1511 c1_i32_1513 k0_t45
  let v1721 : BitVec 32 := Scalar.addi c0_i32_2229 arg14
  let v1722 : Index := Scalar.indexCast v1721
  let c112_2230 : Index := 112#32
  ![v1722.toNat, 112]
@[reducible] def k0_t46_loop : Scf.Loop 32 :=
  let c0_i32_1545 : BitVec 32 := 0#32
  let c128_i32_1546 : BitVec 32 := 128#32
  let v1137 : BitVec 32 := Scalar.addi c0_i32_1545 c128_i32_1546
  let c1_i32_1547 : BitVec 32 := 1#32
  ⟨c0_i32_1545, v1137, c1_i32_1547⟩
def k0_off723 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1606 : Index := Scalar.indexCast arg14
  let c0 : Index := 0#32
  ![v1606.toNat, 0]
def k0_off724 (k0_t46 : Fin k0_t46_loop.trips) : Fin 2 → Nat :=
  let c128_i32_2180 : BitVec 32 := 128#32
  let c0_i32_1545 : BitVec 32 := 0#32
  let c1_i32_1547 : BitVec 32 := 1#32
  let arg14 : BitVec 32 := Scf.iv c0_i32_1545 c1_i32_1547 k0_t46
  let v1609 : BitVec 32 := Scalar.addi c128_i32_2180 arg14
  let v1610 : Index := Scalar.indexCast v1609
  let c0_2181 : Index := 0#32
  ![v1610.toNat, 0]
def k0_off725 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1622 : Index := Scalar.indexCast arg14
  let c16 : Index := 16#32
  ![v1622.toNat, 16]
def k0_off726 (k0_t46 : Fin k0_t46_loop.trips) : Fin 2 → Nat :=
  let c128_i32_2187 : BitVec 32 := 128#32
  let c0_i32_1545 : BitVec 32 := 0#32
  let c1_i32_1547 : BitVec 32 := 1#32
  let arg14 : BitVec 32 := Scf.iv c0_i32_1545 c1_i32_1547 k0_t46
  let v1625 : BitVec 32 := Scalar.addi c128_i32_2187 arg14
  let v1626 : Index := Scalar.indexCast v1625
  let c16_2188 : Index := 16#32
  ![v1626.toNat, 16]
def k0_off727 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1638 : Index := Scalar.indexCast arg14
  let c32 : Index := 32#32
  ![v1638.toNat, 32]
def k0_off728 (k0_t46 : Fin k0_t46_loop.trips) : Fin 2 → Nat :=
  let c128_i32_2194 : BitVec 32 := 128#32
  let c0_i32_1545 : BitVec 32 := 0#32
  let c1_i32_1547 : BitVec 32 := 1#32
  let arg14 : BitVec 32 := Scf.iv c0_i32_1545 c1_i32_1547 k0_t46
  let v1641 : BitVec 32 := Scalar.addi c128_i32_2194 arg14
  let v1642 : Index := Scalar.indexCast v1641
  let c32_2195 : Index := 32#32
  ![v1642.toNat, 32]
def k0_off729 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1654 : Index := Scalar.indexCast arg14
  let c48 : Index := 48#32
  ![v1654.toNat, 48]
def k0_off730 (k0_t46 : Fin k0_t46_loop.trips) : Fin 2 → Nat :=
  let c128_i32_2201 : BitVec 32 := 128#32
  let c0_i32_1545 : BitVec 32 := 0#32
  let c1_i32_1547 : BitVec 32 := 1#32
  let arg14 : BitVec 32 := Scf.iv c0_i32_1545 c1_i32_1547 k0_t46
  let v1657 : BitVec 32 := Scalar.addi c128_i32_2201 arg14
  let v1658 : Index := Scalar.indexCast v1657
  let c48_2202 : Index := 48#32
  ![v1658.toNat, 48]
def k0_off731 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1670 : Index := Scalar.indexCast arg14
  let c64 : Index := 64#32
  ![v1670.toNat, 64]
def k0_off732 (k0_t46 : Fin k0_t46_loop.trips) : Fin 2 → Nat :=
  let c128_i32_2208 : BitVec 32 := 128#32
  let c0_i32_1545 : BitVec 32 := 0#32
  let c1_i32_1547 : BitVec 32 := 1#32
  let arg14 : BitVec 32 := Scf.iv c0_i32_1545 c1_i32_1547 k0_t46
  let v1673 : BitVec 32 := Scalar.addi c128_i32_2208 arg14
  let v1674 : Index := Scalar.indexCast v1673
  let c64_2209 : Index := 64#32
  ![v1674.toNat, 64]
def k0_off733 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1686 : Index := Scalar.indexCast arg14
  let c80 : Index := 80#32
  ![v1686.toNat, 80]
def k0_off734 (k0_t46 : Fin k0_t46_loop.trips) : Fin 2 → Nat :=
  let c128_i32_2215 : BitVec 32 := 128#32
  let c0_i32_1545 : BitVec 32 := 0#32
  let c1_i32_1547 : BitVec 32 := 1#32
  let arg14 : BitVec 32 := Scf.iv c0_i32_1545 c1_i32_1547 k0_t46
  let v1689 : BitVec 32 := Scalar.addi c128_i32_2215 arg14
  let v1690 : Index := Scalar.indexCast v1689
  let c80_2216 : Index := 80#32
  ![v1690.toNat, 80]
def k0_off735 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1702 : Index := Scalar.indexCast arg14
  let c96 : Index := 96#32
  ![v1702.toNat, 96]
def k0_off736 (k0_t46 : Fin k0_t46_loop.trips) : Fin 2 → Nat :=
  let c128_i32_2222 : BitVec 32 := 128#32
  let c0_i32_1545 : BitVec 32 := 0#32
  let c1_i32_1547 : BitVec 32 := 1#32
  let arg14 : BitVec 32 := Scf.iv c0_i32_1545 c1_i32_1547 k0_t46
  let v1705 : BitVec 32 := Scalar.addi c128_i32_2222 arg14
  let v1706 : Index := Scalar.indexCast v1705
  let c96_2223 : Index := 96#32
  ![v1706.toNat, 96]
def k0_off737 (k0_t46 : Fin k0_t46_loop.trips) : Fin 2 → Nat :=
  let c0_i32_1545 : BitVec 32 := 0#32
  let c1_i32_1547 : BitVec 32 := 1#32
  let arg14 : BitVec 32 := Scf.iv c0_i32_1545 c1_i32_1547 k0_t46
  let v1718 : Index := Scalar.indexCast arg14
  let c112 : Index := 112#32
  ![v1718.toNat, 112]
def k0_off738 (k0_t46 : Fin k0_t46_loop.trips) : Fin 2 → Nat :=
  let c128_i32_2229 : BitVec 32 := 128#32
  let c0_i32_1545 : BitVec 32 := 0#32
  let c1_i32_1547 : BitVec 32 := 1#32
  let arg14 : BitVec 32 := Scf.iv c0_i32_1545 c1_i32_1547 k0_t46
  let v1721 : BitVec 32 := Scalar.addi c128_i32_2229 arg14
  let v1722 : Index := Scalar.indexCast v1721
  let c112_2230 : Index := 112#32
  ![v1722.toNat, 112]
@[reducible] def k0_t47_loop : Scf.Loop 32 :=
  let c0_i32_1579 : BitVec 32 := 0#32
  let c128_i32_1580 : BitVec 32 := 128#32
  let v1162 : BitVec 32 := Scalar.addi c0_i32_1579 c128_i32_1580
  let c1_i32_1581 : BitVec 32 := 1#32
  ⟨c0_i32_1579, v1162, c1_i32_1581⟩
def k0_off739 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1606 : Index := Scalar.indexCast arg14
  let c0 : Index := 0#32
  ![v1606.toNat, 0]
def k0_off740 (k0_t47 : Fin k0_t47_loop.trips) : Fin 2 → Nat :=
  let c0_i32_2180 : BitVec 32 := 0#32
  let c0_i32_1579 : BitVec 32 := 0#32
  let c1_i32_1581 : BitVec 32 := 1#32
  let arg14 : BitVec 32 := Scf.iv c0_i32_1579 c1_i32_1581 k0_t47
  let v1609 : BitVec 32 := Scalar.addi c0_i32_2180 arg14
  let v1610 : Index := Scalar.indexCast v1609
  let c0_2181 : Index := 0#32
  ![v1610.toNat, 0]
def k0_off741 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1622 : Index := Scalar.indexCast arg14
  let c16 : Index := 16#32
  ![v1622.toNat, 16]
def k0_off742 (k0_t47 : Fin k0_t47_loop.trips) : Fin 2 → Nat :=
  let c0_i32_2187 : BitVec 32 := 0#32
  let c0_i32_1579 : BitVec 32 := 0#32
  let c1_i32_1581 : BitVec 32 := 1#32
  let arg14 : BitVec 32 := Scf.iv c0_i32_1579 c1_i32_1581 k0_t47
  let v1625 : BitVec 32 := Scalar.addi c0_i32_2187 arg14
  let v1626 : Index := Scalar.indexCast v1625
  let c16_2188 : Index := 16#32
  ![v1626.toNat, 16]
def k0_off743 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1638 : Index := Scalar.indexCast arg14
  let c32 : Index := 32#32
  ![v1638.toNat, 32]
def k0_off744 (k0_t47 : Fin k0_t47_loop.trips) : Fin 2 → Nat :=
  let c0_i32_2194 : BitVec 32 := 0#32
  let c0_i32_1579 : BitVec 32 := 0#32
  let c1_i32_1581 : BitVec 32 := 1#32
  let arg14 : BitVec 32 := Scf.iv c0_i32_1579 c1_i32_1581 k0_t47
  let v1641 : BitVec 32 := Scalar.addi c0_i32_2194 arg14
  let v1642 : Index := Scalar.indexCast v1641
  let c32_2195 : Index := 32#32
  ![v1642.toNat, 32]
def k0_off745 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1654 : Index := Scalar.indexCast arg14
  let c48 : Index := 48#32
  ![v1654.toNat, 48]
def k0_off746 (k0_t47 : Fin k0_t47_loop.trips) : Fin 2 → Nat :=
  let c0_i32_2201 : BitVec 32 := 0#32
  let c0_i32_1579 : BitVec 32 := 0#32
  let c1_i32_1581 : BitVec 32 := 1#32
  let arg14 : BitVec 32 := Scf.iv c0_i32_1579 c1_i32_1581 k0_t47
  let v1657 : BitVec 32 := Scalar.addi c0_i32_2201 arg14
  let v1658 : Index := Scalar.indexCast v1657
  let c48_2202 : Index := 48#32
  ![v1658.toNat, 48]
def k0_off747 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1670 : Index := Scalar.indexCast arg14
  let c64 : Index := 64#32
  ![v1670.toNat, 64]
def k0_off748 (k0_t47 : Fin k0_t47_loop.trips) : Fin 2 → Nat :=
  let c0_i32_2208 : BitVec 32 := 0#32
  let c0_i32_1579 : BitVec 32 := 0#32
  let c1_i32_1581 : BitVec 32 := 1#32
  let arg14 : BitVec 32 := Scf.iv c0_i32_1579 c1_i32_1581 k0_t47
  let v1673 : BitVec 32 := Scalar.addi c0_i32_2208 arg14
  let v1674 : Index := Scalar.indexCast v1673
  let c64_2209 : Index := 64#32
  ![v1674.toNat, 64]
def k0_off749 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1686 : Index := Scalar.indexCast arg14
  let c80 : Index := 80#32
  ![v1686.toNat, 80]
def k0_off750 (k0_t47 : Fin k0_t47_loop.trips) : Fin 2 → Nat :=
  let c0_i32_2215 : BitVec 32 := 0#32
  let c0_i32_1579 : BitVec 32 := 0#32
  let c1_i32_1581 : BitVec 32 := 1#32
  let arg14 : BitVec 32 := Scf.iv c0_i32_1579 c1_i32_1581 k0_t47
  let v1689 : BitVec 32 := Scalar.addi c0_i32_2215 arg14
  let v1690 : Index := Scalar.indexCast v1689
  let c80_2216 : Index := 80#32
  ![v1690.toNat, 80]
def k0_off751 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1702 : Index := Scalar.indexCast arg14
  let c96 : Index := 96#32
  ![v1702.toNat, 96]
def k0_off752 (k0_t47 : Fin k0_t47_loop.trips) : Fin 2 → Nat :=
  let c0_i32_2222 : BitVec 32 := 0#32
  let c0_i32_1579 : BitVec 32 := 0#32
  let c1_i32_1581 : BitVec 32 := 1#32
  let arg14 : BitVec 32 := Scf.iv c0_i32_1579 c1_i32_1581 k0_t47
  let v1705 : BitVec 32 := Scalar.addi c0_i32_2222 arg14
  let v1706 : Index := Scalar.indexCast v1705
  let c96_2223 : Index := 96#32
  ![v1706.toNat, 96]
def k0_off753 (k0_t47 : Fin k0_t47_loop.trips) : Fin 2 → Nat :=
  let c0_i32_1579 : BitVec 32 := 0#32
  let c1_i32_1581 : BitVec 32 := 1#32
  let arg14 : BitVec 32 := Scf.iv c0_i32_1579 c1_i32_1581 k0_t47
  let v1718 : Index := Scalar.indexCast arg14
  let c112 : Index := 112#32
  ![v1718.toNat, 112]
def k0_off754 (k0_t47 : Fin k0_t47_loop.trips) : Fin 2 → Nat :=
  let c0_i32_2229 : BitVec 32 := 0#32
  let c0_i32_1579 : BitVec 32 := 0#32
  let c1_i32_1581 : BitVec 32 := 1#32
  let arg14 : BitVec 32 := Scf.iv c0_i32_1579 c1_i32_1581 k0_t47
  let v1721 : BitVec 32 := Scalar.addi c0_i32_2229 arg14
  let v1722 : Index := Scalar.indexCast v1721
  let c112_2230 : Index := 112#32
  ![v1722.toNat, 112]
@[reducible] def k0_t48_loop : Scf.Loop 32 :=
  let c0_i32_1613 : BitVec 32 := 0#32
  let c128_i32_1614 : BitVec 32 := 128#32
  let v1187 : BitVec 32 := Scalar.addi c0_i32_1613 c128_i32_1614
  let c1_i32_1615 : BitVec 32 := 1#32
  ⟨c0_i32_1613, v1187, c1_i32_1615⟩
def k0_off755 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1606 : Index := Scalar.indexCast arg14
  let c0 : Index := 0#32
  ![v1606.toNat, 0]
def k0_off756 (k0_t48 : Fin k0_t48_loop.trips) : Fin 2 → Nat :=
  let c128_i32_2180 : BitVec 32 := 128#32
  let c0_i32_1613 : BitVec 32 := 0#32
  let c1_i32_1615 : BitVec 32 := 1#32
  let arg14 : BitVec 32 := Scf.iv c0_i32_1613 c1_i32_1615 k0_t48
  let v1609 : BitVec 32 := Scalar.addi c128_i32_2180 arg14
  let v1610 : Index := Scalar.indexCast v1609
  let c0_2181 : Index := 0#32
  ![v1610.toNat, 0]
def k0_off757 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1622 : Index := Scalar.indexCast arg14
  let c16 : Index := 16#32
  ![v1622.toNat, 16]
def k0_off758 (k0_t48 : Fin k0_t48_loop.trips) : Fin 2 → Nat :=
  let c128_i32_2187 : BitVec 32 := 128#32
  let c0_i32_1613 : BitVec 32 := 0#32
  let c1_i32_1615 : BitVec 32 := 1#32
  let arg14 : BitVec 32 := Scf.iv c0_i32_1613 c1_i32_1615 k0_t48
  let v1625 : BitVec 32 := Scalar.addi c128_i32_2187 arg14
  let v1626 : Index := Scalar.indexCast v1625
  let c16_2188 : Index := 16#32
  ![v1626.toNat, 16]
def k0_off759 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1638 : Index := Scalar.indexCast arg14
  let c32 : Index := 32#32
  ![v1638.toNat, 32]
def k0_off760 (k0_t48 : Fin k0_t48_loop.trips) : Fin 2 → Nat :=
  let c128_i32_2194 : BitVec 32 := 128#32
  let c0_i32_1613 : BitVec 32 := 0#32
  let c1_i32_1615 : BitVec 32 := 1#32
  let arg14 : BitVec 32 := Scf.iv c0_i32_1613 c1_i32_1615 k0_t48
  let v1641 : BitVec 32 := Scalar.addi c128_i32_2194 arg14
  let v1642 : Index := Scalar.indexCast v1641
  let c32_2195 : Index := 32#32
  ![v1642.toNat, 32]
def k0_off761 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1654 : Index := Scalar.indexCast arg14
  let c48 : Index := 48#32
  ![v1654.toNat, 48]
def k0_off762 (k0_t48 : Fin k0_t48_loop.trips) : Fin 2 → Nat :=
  let c128_i32_2201 : BitVec 32 := 128#32
  let c0_i32_1613 : BitVec 32 := 0#32
  let c1_i32_1615 : BitVec 32 := 1#32
  let arg14 : BitVec 32 := Scf.iv c0_i32_1613 c1_i32_1615 k0_t48
  let v1657 : BitVec 32 := Scalar.addi c128_i32_2201 arg14
  let v1658 : Index := Scalar.indexCast v1657
  let c48_2202 : Index := 48#32
  ![v1658.toNat, 48]
def k0_off763 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1670 : Index := Scalar.indexCast arg14
  let c64 : Index := 64#32
  ![v1670.toNat, 64]
def k0_off764 (k0_t48 : Fin k0_t48_loop.trips) : Fin 2 → Nat :=
  let c128_i32_2208 : BitVec 32 := 128#32
  let c0_i32_1613 : BitVec 32 := 0#32
  let c1_i32_1615 : BitVec 32 := 1#32
  let arg14 : BitVec 32 := Scf.iv c0_i32_1613 c1_i32_1615 k0_t48
  let v1673 : BitVec 32 := Scalar.addi c128_i32_2208 arg14
  let v1674 : Index := Scalar.indexCast v1673
  let c64_2209 : Index := 64#32
  ![v1674.toNat, 64]
def k0_off765 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1686 : Index := Scalar.indexCast arg14
  let c80 : Index := 80#32
  ![v1686.toNat, 80]
def k0_off766 (k0_t48 : Fin k0_t48_loop.trips) : Fin 2 → Nat :=
  let c128_i32_2215 : BitVec 32 := 128#32
  let c0_i32_1613 : BitVec 32 := 0#32
  let c1_i32_1615 : BitVec 32 := 1#32
  let arg14 : BitVec 32 := Scf.iv c0_i32_1613 c1_i32_1615 k0_t48
  let v1689 : BitVec 32 := Scalar.addi c128_i32_2215 arg14
  let v1690 : Index := Scalar.indexCast v1689
  let c80_2216 : Index := 80#32
  ![v1690.toNat, 80]
def k0_off767 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1702 : Index := Scalar.indexCast arg14
  let c96 : Index := 96#32
  ![v1702.toNat, 96]
def k0_off768 (k0_t48 : Fin k0_t48_loop.trips) : Fin 2 → Nat :=
  let c128_i32_2222 : BitVec 32 := 128#32
  let c0_i32_1613 : BitVec 32 := 0#32
  let c1_i32_1615 : BitVec 32 := 1#32
  let arg14 : BitVec 32 := Scf.iv c0_i32_1613 c1_i32_1615 k0_t48
  let v1705 : BitVec 32 := Scalar.addi c128_i32_2222 arg14
  let v1706 : Index := Scalar.indexCast v1705
  let c96_2223 : Index := 96#32
  ![v1706.toNat, 96]
def k0_off769 (k0_t48 : Fin k0_t48_loop.trips) : Fin 2 → Nat :=
  let c0_i32_1613 : BitVec 32 := 0#32
  let c1_i32_1615 : BitVec 32 := 1#32
  let arg14 : BitVec 32 := Scf.iv c0_i32_1613 c1_i32_1615 k0_t48
  let v1718 : Index := Scalar.indexCast arg14
  let c112 : Index := 112#32
  ![v1718.toNat, 112]
def k0_off770 (k0_t48 : Fin k0_t48_loop.trips) : Fin 2 → Nat :=
  let c128_i32_2229 : BitVec 32 := 128#32
  let c0_i32_1613 : BitVec 32 := 0#32
  let c1_i32_1615 : BitVec 32 := 1#32
  let arg14 : BitVec 32 := Scf.iv c0_i32_1613 c1_i32_1615 k0_t48
  let v1721 : BitVec 32 := Scalar.addi c128_i32_2229 arg14
  let v1722 : Index := Scalar.indexCast v1721
  let c112_2230 : Index := 112#32
  ![v1722.toNat, 112]
@[reducible] def k0_t49_loop : Scf.Loop 32 :=
  let c0_i32_1647 : BitVec 32 := 0#32
  let c128_i32_1648 : BitVec 32 := 128#32
  let v1212 : BitVec 32 := Scalar.addi c0_i32_1647 c128_i32_1648
  let c1_i32_1649 : BitVec 32 := 1#32
  ⟨c0_i32_1647, v1212, c1_i32_1649⟩
def k0_off771 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1606 : Index := Scalar.indexCast arg14
  let c0 : Index := 0#32
  ![v1606.toNat, 0]
def k0_off772 (k0_t49 : Fin k0_t49_loop.trips) : Fin 2 → Nat :=
  let c0_i32_2180 : BitVec 32 := 0#32
  let c0_i32_1647 : BitVec 32 := 0#32
  let c1_i32_1649 : BitVec 32 := 1#32
  let arg14 : BitVec 32 := Scf.iv c0_i32_1647 c1_i32_1649 k0_t49
  let v1609 : BitVec 32 := Scalar.addi c0_i32_2180 arg14
  let v1610 : Index := Scalar.indexCast v1609
  let c0_2181 : Index := 0#32
  ![v1610.toNat, 0]
def k0_off773 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1622 : Index := Scalar.indexCast arg14
  let c16 : Index := 16#32
  ![v1622.toNat, 16]
def k0_off774 (k0_t49 : Fin k0_t49_loop.trips) : Fin 2 → Nat :=
  let c0_i32_2187 : BitVec 32 := 0#32
  let c0_i32_1647 : BitVec 32 := 0#32
  let c1_i32_1649 : BitVec 32 := 1#32
  let arg14 : BitVec 32 := Scf.iv c0_i32_1647 c1_i32_1649 k0_t49
  let v1625 : BitVec 32 := Scalar.addi c0_i32_2187 arg14
  let v1626 : Index := Scalar.indexCast v1625
  let c16_2188 : Index := 16#32
  ![v1626.toNat, 16]
def k0_off775 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1638 : Index := Scalar.indexCast arg14
  let c32 : Index := 32#32
  ![v1638.toNat, 32]
def k0_off776 (k0_t49 : Fin k0_t49_loop.trips) : Fin 2 → Nat :=
  let c0_i32_2194 : BitVec 32 := 0#32
  let c0_i32_1647 : BitVec 32 := 0#32
  let c1_i32_1649 : BitVec 32 := 1#32
  let arg14 : BitVec 32 := Scf.iv c0_i32_1647 c1_i32_1649 k0_t49
  let v1641 : BitVec 32 := Scalar.addi c0_i32_2194 arg14
  let v1642 : Index := Scalar.indexCast v1641
  let c32_2195 : Index := 32#32
  ![v1642.toNat, 32]
def k0_off777 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1654 : Index := Scalar.indexCast arg14
  let c48 : Index := 48#32
  ![v1654.toNat, 48]
def k0_off778 (k0_t49 : Fin k0_t49_loop.trips) : Fin 2 → Nat :=
  let c0_i32_2201 : BitVec 32 := 0#32
  let c0_i32_1647 : BitVec 32 := 0#32
  let c1_i32_1649 : BitVec 32 := 1#32
  let arg14 : BitVec 32 := Scf.iv c0_i32_1647 c1_i32_1649 k0_t49
  let v1657 : BitVec 32 := Scalar.addi c0_i32_2201 arg14
  let v1658 : Index := Scalar.indexCast v1657
  let c48_2202 : Index := 48#32
  ![v1658.toNat, 48]
def k0_off779 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1670 : Index := Scalar.indexCast arg14
  let c64 : Index := 64#32
  ![v1670.toNat, 64]
def k0_off780 (k0_t49 : Fin k0_t49_loop.trips) : Fin 2 → Nat :=
  let c0_i32_2208 : BitVec 32 := 0#32
  let c0_i32_1647 : BitVec 32 := 0#32
  let c1_i32_1649 : BitVec 32 := 1#32
  let arg14 : BitVec 32 := Scf.iv c0_i32_1647 c1_i32_1649 k0_t49
  let v1673 : BitVec 32 := Scalar.addi c0_i32_2208 arg14
  let v1674 : Index := Scalar.indexCast v1673
  let c64_2209 : Index := 64#32
  ![v1674.toNat, 64]
def k0_off781 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1686 : Index := Scalar.indexCast arg14
  let c80 : Index := 80#32
  ![v1686.toNat, 80]
def k0_off782 (k0_t49 : Fin k0_t49_loop.trips) : Fin 2 → Nat :=
  let c0_i32_2215 : BitVec 32 := 0#32
  let c0_i32_1647 : BitVec 32 := 0#32
  let c1_i32_1649 : BitVec 32 := 1#32
  let arg14 : BitVec 32 := Scf.iv c0_i32_1647 c1_i32_1649 k0_t49
  let v1689 : BitVec 32 := Scalar.addi c0_i32_2215 arg14
  let v1690 : Index := Scalar.indexCast v1689
  let c80_2216 : Index := 80#32
  ![v1690.toNat, 80]
def k0_off783 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1702 : Index := Scalar.indexCast arg14
  let c96 : Index := 96#32
  ![v1702.toNat, 96]
def k0_off784 (k0_t49 : Fin k0_t49_loop.trips) : Fin 2 → Nat :=
  let c0_i32_2222 : BitVec 32 := 0#32
  let c0_i32_1647 : BitVec 32 := 0#32
  let c1_i32_1649 : BitVec 32 := 1#32
  let arg14 : BitVec 32 := Scf.iv c0_i32_1647 c1_i32_1649 k0_t49
  let v1705 : BitVec 32 := Scalar.addi c0_i32_2222 arg14
  let v1706 : Index := Scalar.indexCast v1705
  let c96_2223 : Index := 96#32
  ![v1706.toNat, 96]
def k0_off785 (k0_t49 : Fin k0_t49_loop.trips) : Fin 2 → Nat :=
  let c0_i32_1647 : BitVec 32 := 0#32
  let c1_i32_1649 : BitVec 32 := 1#32
  let arg14 : BitVec 32 := Scf.iv c0_i32_1647 c1_i32_1649 k0_t49
  let v1718 : Index := Scalar.indexCast arg14
  let c112 : Index := 112#32
  ![v1718.toNat, 112]
def k0_off786 (k0_t49 : Fin k0_t49_loop.trips) : Fin 2 → Nat :=
  let c0_i32_2229 : BitVec 32 := 0#32
  let c0_i32_1647 : BitVec 32 := 0#32
  let c1_i32_1649 : BitVec 32 := 1#32
  let arg14 : BitVec 32 := Scf.iv c0_i32_1647 c1_i32_1649 k0_t49
  let v1721 : BitVec 32 := Scalar.addi c0_i32_2229 arg14
  let v1722 : Index := Scalar.indexCast v1721
  let c112_2230 : Index := 112#32
  ![v1722.toNat, 112]
@[reducible] def k0_t50_loop : Scf.Loop 32 :=
  let c0_i32_1681 : BitVec 32 := 0#32
  let c128_i32_1682 : BitVec 32 := 128#32
  let v1237 : BitVec 32 := Scalar.addi c0_i32_1681 c128_i32_1682
  let c1_i32_1683 : BitVec 32 := 1#32
  ⟨c0_i32_1681, v1237, c1_i32_1683⟩
def k0_off787 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1606 : Index := Scalar.indexCast arg14
  let c0 : Index := 0#32
  ![v1606.toNat, 0]
def k0_off788 (k0_t50 : Fin k0_t50_loop.trips) : Fin 2 → Nat :=
  let c128_i32_2180 : BitVec 32 := 128#32
  let c0_i32_1681 : BitVec 32 := 0#32
  let c1_i32_1683 : BitVec 32 := 1#32
  let arg14 : BitVec 32 := Scf.iv c0_i32_1681 c1_i32_1683 k0_t50
  let v1609 : BitVec 32 := Scalar.addi c128_i32_2180 arg14
  let v1610 : Index := Scalar.indexCast v1609
  let c0_2181 : Index := 0#32
  ![v1610.toNat, 0]
def k0_off789 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1622 : Index := Scalar.indexCast arg14
  let c16 : Index := 16#32
  ![v1622.toNat, 16]
def k0_off790 (k0_t50 : Fin k0_t50_loop.trips) : Fin 2 → Nat :=
  let c128_i32_2187 : BitVec 32 := 128#32
  let c0_i32_1681 : BitVec 32 := 0#32
  let c1_i32_1683 : BitVec 32 := 1#32
  let arg14 : BitVec 32 := Scf.iv c0_i32_1681 c1_i32_1683 k0_t50
  let v1625 : BitVec 32 := Scalar.addi c128_i32_2187 arg14
  let v1626 : Index := Scalar.indexCast v1625
  let c16_2188 : Index := 16#32
  ![v1626.toNat, 16]
def k0_off791 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1638 : Index := Scalar.indexCast arg14
  let c32 : Index := 32#32
  ![v1638.toNat, 32]
def k0_off792 (k0_t50 : Fin k0_t50_loop.trips) : Fin 2 → Nat :=
  let c128_i32_2194 : BitVec 32 := 128#32
  let c0_i32_1681 : BitVec 32 := 0#32
  let c1_i32_1683 : BitVec 32 := 1#32
  let arg14 : BitVec 32 := Scf.iv c0_i32_1681 c1_i32_1683 k0_t50
  let v1641 : BitVec 32 := Scalar.addi c128_i32_2194 arg14
  let v1642 : Index := Scalar.indexCast v1641
  let c32_2195 : Index := 32#32
  ![v1642.toNat, 32]
def k0_off793 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1654 : Index := Scalar.indexCast arg14
  let c48 : Index := 48#32
  ![v1654.toNat, 48]
def k0_off794 (k0_t50 : Fin k0_t50_loop.trips) : Fin 2 → Nat :=
  let c128_i32_2201 : BitVec 32 := 128#32
  let c0_i32_1681 : BitVec 32 := 0#32
  let c1_i32_1683 : BitVec 32 := 1#32
  let arg14 : BitVec 32 := Scf.iv c0_i32_1681 c1_i32_1683 k0_t50
  let v1657 : BitVec 32 := Scalar.addi c128_i32_2201 arg14
  let v1658 : Index := Scalar.indexCast v1657
  let c48_2202 : Index := 48#32
  ![v1658.toNat, 48]
def k0_off795 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1670 : Index := Scalar.indexCast arg14
  let c64 : Index := 64#32
  ![v1670.toNat, 64]
def k0_off796 (k0_t50 : Fin k0_t50_loop.trips) : Fin 2 → Nat :=
  let c128_i32_2208 : BitVec 32 := 128#32
  let c0_i32_1681 : BitVec 32 := 0#32
  let c1_i32_1683 : BitVec 32 := 1#32
  let arg14 : BitVec 32 := Scf.iv c0_i32_1681 c1_i32_1683 k0_t50
  let v1673 : BitVec 32 := Scalar.addi c128_i32_2208 arg14
  let v1674 : Index := Scalar.indexCast v1673
  let c64_2209 : Index := 64#32
  ![v1674.toNat, 64]
def k0_off797 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1686 : Index := Scalar.indexCast arg14
  let c80 : Index := 80#32
  ![v1686.toNat, 80]
def k0_off798 (k0_t50 : Fin k0_t50_loop.trips) : Fin 2 → Nat :=
  let c128_i32_2215 : BitVec 32 := 128#32
  let c0_i32_1681 : BitVec 32 := 0#32
  let c1_i32_1683 : BitVec 32 := 1#32
  let arg14 : BitVec 32 := Scf.iv c0_i32_1681 c1_i32_1683 k0_t50
  let v1689 : BitVec 32 := Scalar.addi c128_i32_2215 arg14
  let v1690 : Index := Scalar.indexCast v1689
  let c80_2216 : Index := 80#32
  ![v1690.toNat, 80]
def k0_off799 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1702 : Index := Scalar.indexCast arg14
  let c96 : Index := 96#32
  ![v1702.toNat, 96]
def k0_off800 (k0_t50 : Fin k0_t50_loop.trips) : Fin 2 → Nat :=
  let c128_i32_2222 : BitVec 32 := 128#32
  let c0_i32_1681 : BitVec 32 := 0#32
  let c1_i32_1683 : BitVec 32 := 1#32
  let arg14 : BitVec 32 := Scf.iv c0_i32_1681 c1_i32_1683 k0_t50
  let v1705 : BitVec 32 := Scalar.addi c128_i32_2222 arg14
  let v1706 : Index := Scalar.indexCast v1705
  let c96_2223 : Index := 96#32
  ![v1706.toNat, 96]
def k0_off801 (k0_t50 : Fin k0_t50_loop.trips) : Fin 2 → Nat :=
  let c0_i32_1681 : BitVec 32 := 0#32
  let c1_i32_1683 : BitVec 32 := 1#32
  let arg14 : BitVec 32 := Scf.iv c0_i32_1681 c1_i32_1683 k0_t50
  let v1718 : Index := Scalar.indexCast arg14
  let c112 : Index := 112#32
  ![v1718.toNat, 112]
def k0_off802 (k0_t50 : Fin k0_t50_loop.trips) : Fin 2 → Nat :=
  let c128_i32_2229 : BitVec 32 := 128#32
  let c0_i32_1681 : BitVec 32 := 0#32
  let c1_i32_1683 : BitVec 32 := 1#32
  let arg14 : BitVec 32 := Scf.iv c0_i32_1681 c1_i32_1683 k0_t50
  let v1721 : BitVec 32 := Scalar.addi c128_i32_2229 arg14
  let v1722 : Index := Scalar.indexCast v1721
  let c112_2230 : Index := 112#32
  ![v1722.toNat, 112]
@[reducible] def k0_t51_loop : Scf.Loop 32 :=
  let c0_i32_1715 : BitVec 32 := 0#32
  let c128_i32_1716 : BitVec 32 := 128#32
  let v1262 : BitVec 32 := Scalar.addi c0_i32_1715 c128_i32_1716
  let c1_i32_1717 : BitVec 32 := 1#32
  ⟨c0_i32_1715, v1262, c1_i32_1717⟩
def k0_off803 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1606 : Index := Scalar.indexCast arg14
  let c0 : Index := 0#32
  ![v1606.toNat, 0]
def k0_off804 (k0_t51 : Fin k0_t51_loop.trips) : Fin 2 → Nat :=
  let c0_i32_2180 : BitVec 32 := 0#32
  let c0_i32_1715 : BitVec 32 := 0#32
  let c1_i32_1717 : BitVec 32 := 1#32
  let arg14 : BitVec 32 := Scf.iv c0_i32_1715 c1_i32_1717 k0_t51
  let v1609 : BitVec 32 := Scalar.addi c0_i32_2180 arg14
  let v1610 : Index := Scalar.indexCast v1609
  let c0_2181 : Index := 0#32
  ![v1610.toNat, 0]
def k0_off805 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1622 : Index := Scalar.indexCast arg14
  let c16 : Index := 16#32
  ![v1622.toNat, 16]
def k0_off806 (k0_t51 : Fin k0_t51_loop.trips) : Fin 2 → Nat :=
  let c0_i32_2187 : BitVec 32 := 0#32
  let c0_i32_1715 : BitVec 32 := 0#32
  let c1_i32_1717 : BitVec 32 := 1#32
  let arg14 : BitVec 32 := Scf.iv c0_i32_1715 c1_i32_1717 k0_t51
  let v1625 : BitVec 32 := Scalar.addi c0_i32_2187 arg14
  let v1626 : Index := Scalar.indexCast v1625
  let c16_2188 : Index := 16#32
  ![v1626.toNat, 16]
def k0_off807 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1638 : Index := Scalar.indexCast arg14
  let c32 : Index := 32#32
  ![v1638.toNat, 32]
def k0_off808 (k0_t51 : Fin k0_t51_loop.trips) : Fin 2 → Nat :=
  let c0_i32_2194 : BitVec 32 := 0#32
  let c0_i32_1715 : BitVec 32 := 0#32
  let c1_i32_1717 : BitVec 32 := 1#32
  let arg14 : BitVec 32 := Scf.iv c0_i32_1715 c1_i32_1717 k0_t51
  let v1641 : BitVec 32 := Scalar.addi c0_i32_2194 arg14
  let v1642 : Index := Scalar.indexCast v1641
  let c32_2195 : Index := 32#32
  ![v1642.toNat, 32]
def k0_off809 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1654 : Index := Scalar.indexCast arg14
  let c48 : Index := 48#32
  ![v1654.toNat, 48]
def k0_off810 (k0_t51 : Fin k0_t51_loop.trips) : Fin 2 → Nat :=
  let c0_i32_2201 : BitVec 32 := 0#32
  let c0_i32_1715 : BitVec 32 := 0#32
  let c1_i32_1717 : BitVec 32 := 1#32
  let arg14 : BitVec 32 := Scf.iv c0_i32_1715 c1_i32_1717 k0_t51
  let v1657 : BitVec 32 := Scalar.addi c0_i32_2201 arg14
  let v1658 : Index := Scalar.indexCast v1657
  let c48_2202 : Index := 48#32
  ![v1658.toNat, 48]
def k0_off811 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1670 : Index := Scalar.indexCast arg14
  let c64 : Index := 64#32
  ![v1670.toNat, 64]
def k0_off812 (k0_t51 : Fin k0_t51_loop.trips) : Fin 2 → Nat :=
  let c0_i32_2208 : BitVec 32 := 0#32
  let c0_i32_1715 : BitVec 32 := 0#32
  let c1_i32_1717 : BitVec 32 := 1#32
  let arg14 : BitVec 32 := Scf.iv c0_i32_1715 c1_i32_1717 k0_t51
  let v1673 : BitVec 32 := Scalar.addi c0_i32_2208 arg14
  let v1674 : Index := Scalar.indexCast v1673
  let c64_2209 : Index := 64#32
  ![v1674.toNat, 64]
def k0_off813 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1686 : Index := Scalar.indexCast arg14
  let c80 : Index := 80#32
  ![v1686.toNat, 80]
def k0_off814 (k0_t51 : Fin k0_t51_loop.trips) : Fin 2 → Nat :=
  let c0_i32_2215 : BitVec 32 := 0#32
  let c0_i32_1715 : BitVec 32 := 0#32
  let c1_i32_1717 : BitVec 32 := 1#32
  let arg14 : BitVec 32 := Scf.iv c0_i32_1715 c1_i32_1717 k0_t51
  let v1689 : BitVec 32 := Scalar.addi c0_i32_2215 arg14
  let v1690 : Index := Scalar.indexCast v1689
  let c80_2216 : Index := 80#32
  ![v1690.toNat, 80]
def k0_off815 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1702 : Index := Scalar.indexCast arg14
  let c96 : Index := 96#32
  ![v1702.toNat, 96]
def k0_off816 (k0_t51 : Fin k0_t51_loop.trips) : Fin 2 → Nat :=
  let c0_i32_2222 : BitVec 32 := 0#32
  let c0_i32_1715 : BitVec 32 := 0#32
  let c1_i32_1717 : BitVec 32 := 1#32
  let arg14 : BitVec 32 := Scf.iv c0_i32_1715 c1_i32_1717 k0_t51
  let v1705 : BitVec 32 := Scalar.addi c0_i32_2222 arg14
  let v1706 : Index := Scalar.indexCast v1705
  let c96_2223 : Index := 96#32
  ![v1706.toNat, 96]
def k0_off817 (k0_t51 : Fin k0_t51_loop.trips) : Fin 2 → Nat :=
  let c0_i32_1715 : BitVec 32 := 0#32
  let c1_i32_1717 : BitVec 32 := 1#32
  let arg14 : BitVec 32 := Scf.iv c0_i32_1715 c1_i32_1717 k0_t51
  let v1718 : Index := Scalar.indexCast arg14
  let c112 : Index := 112#32
  ![v1718.toNat, 112]
def k0_off818 (k0_t51 : Fin k0_t51_loop.trips) : Fin 2 → Nat :=
  let c0_i32_2229 : BitVec 32 := 0#32
  let c0_i32_1715 : BitVec 32 := 0#32
  let c1_i32_1717 : BitVec 32 := 1#32
  let arg14 : BitVec 32 := Scf.iv c0_i32_1715 c1_i32_1717 k0_t51
  let v1721 : BitVec 32 := Scalar.addi c0_i32_2229 arg14
  let v1722 : Index := Scalar.indexCast v1721
  let c112_2230 : Index := 112#32
  ![v1722.toNat, 112]
@[reducible] def k0_t52_loop : Scf.Loop 32 :=
  let c0_i32_1749 : BitVec 32 := 0#32
  let c128_i32_1750 : BitVec 32 := 128#32
  let v1287 : BitVec 32 := Scalar.addi c0_i32_1749 c128_i32_1750
  let c1_i32_1751 : BitVec 32 := 1#32
  ⟨c0_i32_1749, v1287, c1_i32_1751⟩
def k0_off819 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1606 : Index := Scalar.indexCast arg14
  let c0 : Index := 0#32
  ![v1606.toNat, 0]
def k0_off820 (k0_t52 : Fin k0_t52_loop.trips) : Fin 2 → Nat :=
  let c128_i32_2180 : BitVec 32 := 128#32
  let c0_i32_1749 : BitVec 32 := 0#32
  let c1_i32_1751 : BitVec 32 := 1#32
  let arg14 : BitVec 32 := Scf.iv c0_i32_1749 c1_i32_1751 k0_t52
  let v1609 : BitVec 32 := Scalar.addi c128_i32_2180 arg14
  let v1610 : Index := Scalar.indexCast v1609
  let c0_2181 : Index := 0#32
  ![v1610.toNat, 0]
def k0_off821 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1622 : Index := Scalar.indexCast arg14
  let c16 : Index := 16#32
  ![v1622.toNat, 16]
def k0_off822 (k0_t52 : Fin k0_t52_loop.trips) : Fin 2 → Nat :=
  let c128_i32_2187 : BitVec 32 := 128#32
  let c0_i32_1749 : BitVec 32 := 0#32
  let c1_i32_1751 : BitVec 32 := 1#32
  let arg14 : BitVec 32 := Scf.iv c0_i32_1749 c1_i32_1751 k0_t52
  let v1625 : BitVec 32 := Scalar.addi c128_i32_2187 arg14
  let v1626 : Index := Scalar.indexCast v1625
  let c16_2188 : Index := 16#32
  ![v1626.toNat, 16]
def k0_off823 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1638 : Index := Scalar.indexCast arg14
  let c32 : Index := 32#32
  ![v1638.toNat, 32]
def k0_off824 (k0_t52 : Fin k0_t52_loop.trips) : Fin 2 → Nat :=
  let c128_i32_2194 : BitVec 32 := 128#32
  let c0_i32_1749 : BitVec 32 := 0#32
  let c1_i32_1751 : BitVec 32 := 1#32
  let arg14 : BitVec 32 := Scf.iv c0_i32_1749 c1_i32_1751 k0_t52
  let v1641 : BitVec 32 := Scalar.addi c128_i32_2194 arg14
  let v1642 : Index := Scalar.indexCast v1641
  let c32_2195 : Index := 32#32
  ![v1642.toNat, 32]
def k0_off825 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1654 : Index := Scalar.indexCast arg14
  let c48 : Index := 48#32
  ![v1654.toNat, 48]
def k0_off826 (k0_t52 : Fin k0_t52_loop.trips) : Fin 2 → Nat :=
  let c128_i32_2201 : BitVec 32 := 128#32
  let c0_i32_1749 : BitVec 32 := 0#32
  let c1_i32_1751 : BitVec 32 := 1#32
  let arg14 : BitVec 32 := Scf.iv c0_i32_1749 c1_i32_1751 k0_t52
  let v1657 : BitVec 32 := Scalar.addi c128_i32_2201 arg14
  let v1658 : Index := Scalar.indexCast v1657
  let c48_2202 : Index := 48#32
  ![v1658.toNat, 48]
def k0_off827 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1670 : Index := Scalar.indexCast arg14
  let c64 : Index := 64#32
  ![v1670.toNat, 64]
def k0_off828 (k0_t52 : Fin k0_t52_loop.trips) : Fin 2 → Nat :=
  let c128_i32_2208 : BitVec 32 := 128#32
  let c0_i32_1749 : BitVec 32 := 0#32
  let c1_i32_1751 : BitVec 32 := 1#32
  let arg14 : BitVec 32 := Scf.iv c0_i32_1749 c1_i32_1751 k0_t52
  let v1673 : BitVec 32 := Scalar.addi c128_i32_2208 arg14
  let v1674 : Index := Scalar.indexCast v1673
  let c64_2209 : Index := 64#32
  ![v1674.toNat, 64]
def k0_off829 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1686 : Index := Scalar.indexCast arg14
  let c80 : Index := 80#32
  ![v1686.toNat, 80]
def k0_off830 (k0_t52 : Fin k0_t52_loop.trips) : Fin 2 → Nat :=
  let c128_i32_2215 : BitVec 32 := 128#32
  let c0_i32_1749 : BitVec 32 := 0#32
  let c1_i32_1751 : BitVec 32 := 1#32
  let arg14 : BitVec 32 := Scf.iv c0_i32_1749 c1_i32_1751 k0_t52
  let v1689 : BitVec 32 := Scalar.addi c128_i32_2215 arg14
  let v1690 : Index := Scalar.indexCast v1689
  let c80_2216 : Index := 80#32
  ![v1690.toNat, 80]
def k0_off831 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1702 : Index := Scalar.indexCast arg14
  let c96 : Index := 96#32
  ![v1702.toNat, 96]
def k0_off832 (k0_t52 : Fin k0_t52_loop.trips) : Fin 2 → Nat :=
  let c128_i32_2222 : BitVec 32 := 128#32
  let c0_i32_1749 : BitVec 32 := 0#32
  let c1_i32_1751 : BitVec 32 := 1#32
  let arg14 : BitVec 32 := Scf.iv c0_i32_1749 c1_i32_1751 k0_t52
  let v1705 : BitVec 32 := Scalar.addi c128_i32_2222 arg14
  let v1706 : Index := Scalar.indexCast v1705
  let c96_2223 : Index := 96#32
  ![v1706.toNat, 96]
def k0_off833 (k0_t52 : Fin k0_t52_loop.trips) : Fin 2 → Nat :=
  let c0_i32_1749 : BitVec 32 := 0#32
  let c1_i32_1751 : BitVec 32 := 1#32
  let arg14 : BitVec 32 := Scf.iv c0_i32_1749 c1_i32_1751 k0_t52
  let v1718 : Index := Scalar.indexCast arg14
  let c112 : Index := 112#32
  ![v1718.toNat, 112]
def k0_off834 (k0_t52 : Fin k0_t52_loop.trips) : Fin 2 → Nat :=
  let c128_i32_2229 : BitVec 32 := 128#32
  let c0_i32_1749 : BitVec 32 := 0#32
  let c1_i32_1751 : BitVec 32 := 1#32
  let arg14 : BitVec 32 := Scf.iv c0_i32_1749 c1_i32_1751 k0_t52
  let v1721 : BitVec 32 := Scalar.addi c128_i32_2229 arg14
  let v1722 : Index := Scalar.indexCast v1721
  let c112_2230 : Index := 112#32
  ![v1722.toNat, 112]
@[reducible] def k0_t53_loop : Scf.Loop 32 :=
  let c0_i32_1783 : BitVec 32 := 0#32
  let c128_i32_1784 : BitVec 32 := 128#32
  let v1312 : BitVec 32 := Scalar.addi c0_i32_1783 c128_i32_1784
  let c1_i32_1785 : BitVec 32 := 1#32
  ⟨c0_i32_1783, v1312, c1_i32_1785⟩
def k0_off835 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1606 : Index := Scalar.indexCast arg14
  let c0 : Index := 0#32
  ![v1606.toNat, 0]
def k0_off836 (k0_t53 : Fin k0_t53_loop.trips) : Fin 2 → Nat :=
  let c0_i32_2180 : BitVec 32 := 0#32
  let c0_i32_1783 : BitVec 32 := 0#32
  let c1_i32_1785 : BitVec 32 := 1#32
  let arg14 : BitVec 32 := Scf.iv c0_i32_1783 c1_i32_1785 k0_t53
  let v1609 : BitVec 32 := Scalar.addi c0_i32_2180 arg14
  let v1610 : Index := Scalar.indexCast v1609
  let c0_2181 : Index := 0#32
  ![v1610.toNat, 0]
def k0_off837 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1622 : Index := Scalar.indexCast arg14
  let c16 : Index := 16#32
  ![v1622.toNat, 16]
def k0_off838 (k0_t53 : Fin k0_t53_loop.trips) : Fin 2 → Nat :=
  let c0_i32_2187 : BitVec 32 := 0#32
  let c0_i32_1783 : BitVec 32 := 0#32
  let c1_i32_1785 : BitVec 32 := 1#32
  let arg14 : BitVec 32 := Scf.iv c0_i32_1783 c1_i32_1785 k0_t53
  let v1625 : BitVec 32 := Scalar.addi c0_i32_2187 arg14
  let v1626 : Index := Scalar.indexCast v1625
  let c16_2188 : Index := 16#32
  ![v1626.toNat, 16]
def k0_off839 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1638 : Index := Scalar.indexCast arg14
  let c32 : Index := 32#32
  ![v1638.toNat, 32]
def k0_off840 (k0_t53 : Fin k0_t53_loop.trips) : Fin 2 → Nat :=
  let c0_i32_2194 : BitVec 32 := 0#32
  let c0_i32_1783 : BitVec 32 := 0#32
  let c1_i32_1785 : BitVec 32 := 1#32
  let arg14 : BitVec 32 := Scf.iv c0_i32_1783 c1_i32_1785 k0_t53
  let v1641 : BitVec 32 := Scalar.addi c0_i32_2194 arg14
  let v1642 : Index := Scalar.indexCast v1641
  let c32_2195 : Index := 32#32
  ![v1642.toNat, 32]
def k0_off841 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1654 : Index := Scalar.indexCast arg14
  let c48 : Index := 48#32
  ![v1654.toNat, 48]
def k0_off842 (k0_t53 : Fin k0_t53_loop.trips) : Fin 2 → Nat :=
  let c0_i32_2201 : BitVec 32 := 0#32
  let c0_i32_1783 : BitVec 32 := 0#32
  let c1_i32_1785 : BitVec 32 := 1#32
  let arg14 : BitVec 32 := Scf.iv c0_i32_1783 c1_i32_1785 k0_t53
  let v1657 : BitVec 32 := Scalar.addi c0_i32_2201 arg14
  let v1658 : Index := Scalar.indexCast v1657
  let c48_2202 : Index := 48#32
  ![v1658.toNat, 48]
def k0_off843 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1670 : Index := Scalar.indexCast arg14
  let c64 : Index := 64#32
  ![v1670.toNat, 64]
def k0_off844 (k0_t53 : Fin k0_t53_loop.trips) : Fin 2 → Nat :=
  let c0_i32_2208 : BitVec 32 := 0#32
  let c0_i32_1783 : BitVec 32 := 0#32
  let c1_i32_1785 : BitVec 32 := 1#32
  let arg14 : BitVec 32 := Scf.iv c0_i32_1783 c1_i32_1785 k0_t53
  let v1673 : BitVec 32 := Scalar.addi c0_i32_2208 arg14
  let v1674 : Index := Scalar.indexCast v1673
  let c64_2209 : Index := 64#32
  ![v1674.toNat, 64]
def k0_off845 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1686 : Index := Scalar.indexCast arg14
  let c80 : Index := 80#32
  ![v1686.toNat, 80]
def k0_off846 (k0_t53 : Fin k0_t53_loop.trips) : Fin 2 → Nat :=
  let c0_i32_2215 : BitVec 32 := 0#32
  let c0_i32_1783 : BitVec 32 := 0#32
  let c1_i32_1785 : BitVec 32 := 1#32
  let arg14 : BitVec 32 := Scf.iv c0_i32_1783 c1_i32_1785 k0_t53
  let v1689 : BitVec 32 := Scalar.addi c0_i32_2215 arg14
  let v1690 : Index := Scalar.indexCast v1689
  let c80_2216 : Index := 80#32
  ![v1690.toNat, 80]
def k0_off847 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1702 : Index := Scalar.indexCast arg14
  let c96 : Index := 96#32
  ![v1702.toNat, 96]
def k0_off848 (k0_t53 : Fin k0_t53_loop.trips) : Fin 2 → Nat :=
  let c0_i32_2222 : BitVec 32 := 0#32
  let c0_i32_1783 : BitVec 32 := 0#32
  let c1_i32_1785 : BitVec 32 := 1#32
  let arg14 : BitVec 32 := Scf.iv c0_i32_1783 c1_i32_1785 k0_t53
  let v1705 : BitVec 32 := Scalar.addi c0_i32_2222 arg14
  let v1706 : Index := Scalar.indexCast v1705
  let c96_2223 : Index := 96#32
  ![v1706.toNat, 96]
def k0_off849 (k0_t53 : Fin k0_t53_loop.trips) : Fin 2 → Nat :=
  let c0_i32_1783 : BitVec 32 := 0#32
  let c1_i32_1785 : BitVec 32 := 1#32
  let arg14 : BitVec 32 := Scf.iv c0_i32_1783 c1_i32_1785 k0_t53
  let v1718 : Index := Scalar.indexCast arg14
  let c112 : Index := 112#32
  ![v1718.toNat, 112]
def k0_off850 (k0_t53 : Fin k0_t53_loop.trips) : Fin 2 → Nat :=
  let c0_i32_2229 : BitVec 32 := 0#32
  let c0_i32_1783 : BitVec 32 := 0#32
  let c1_i32_1785 : BitVec 32 := 1#32
  let arg14 : BitVec 32 := Scf.iv c0_i32_1783 c1_i32_1785 k0_t53
  let v1721 : BitVec 32 := Scalar.addi c0_i32_2229 arg14
  let v1722 : Index := Scalar.indexCast v1721
  let c112_2230 : Index := 112#32
  ![v1722.toNat, 112]
@[reducible] def k0_t54_loop : Scf.Loop 32 :=
  let c0_i32_1817 : BitVec 32 := 0#32
  let c128_i32_1818 : BitVec 32 := 128#32
  let v1337 : BitVec 32 := Scalar.addi c0_i32_1817 c128_i32_1818
  let c1_i32_1819 : BitVec 32 := 1#32
  ⟨c0_i32_1817, v1337, c1_i32_1819⟩
def k0_off851 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1606 : Index := Scalar.indexCast arg14
  let c0 : Index := 0#32
  ![v1606.toNat, 0]
def k0_off852 (k0_t54 : Fin k0_t54_loop.trips) : Fin 2 → Nat :=
  let c128_i32_2180 : BitVec 32 := 128#32
  let c0_i32_1817 : BitVec 32 := 0#32
  let c1_i32_1819 : BitVec 32 := 1#32
  let arg14 : BitVec 32 := Scf.iv c0_i32_1817 c1_i32_1819 k0_t54
  let v1609 : BitVec 32 := Scalar.addi c128_i32_2180 arg14
  let v1610 : Index := Scalar.indexCast v1609
  let c0_2181 : Index := 0#32
  ![v1610.toNat, 0]
def k0_off853 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1622 : Index := Scalar.indexCast arg14
  let c16 : Index := 16#32
  ![v1622.toNat, 16]
def k0_off854 (k0_t54 : Fin k0_t54_loop.trips) : Fin 2 → Nat :=
  let c128_i32_2187 : BitVec 32 := 128#32
  let c0_i32_1817 : BitVec 32 := 0#32
  let c1_i32_1819 : BitVec 32 := 1#32
  let arg14 : BitVec 32 := Scf.iv c0_i32_1817 c1_i32_1819 k0_t54
  let v1625 : BitVec 32 := Scalar.addi c128_i32_2187 arg14
  let v1626 : Index := Scalar.indexCast v1625
  let c16_2188 : Index := 16#32
  ![v1626.toNat, 16]
def k0_off855 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1638 : Index := Scalar.indexCast arg14
  let c32 : Index := 32#32
  ![v1638.toNat, 32]
def k0_off856 (k0_t54 : Fin k0_t54_loop.trips) : Fin 2 → Nat :=
  let c128_i32_2194 : BitVec 32 := 128#32
  let c0_i32_1817 : BitVec 32 := 0#32
  let c1_i32_1819 : BitVec 32 := 1#32
  let arg14 : BitVec 32 := Scf.iv c0_i32_1817 c1_i32_1819 k0_t54
  let v1641 : BitVec 32 := Scalar.addi c128_i32_2194 arg14
  let v1642 : Index := Scalar.indexCast v1641
  let c32_2195 : Index := 32#32
  ![v1642.toNat, 32]
def k0_off857 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1654 : Index := Scalar.indexCast arg14
  let c48 : Index := 48#32
  ![v1654.toNat, 48]
def k0_off858 (k0_t54 : Fin k0_t54_loop.trips) : Fin 2 → Nat :=
  let c128_i32_2201 : BitVec 32 := 128#32
  let c0_i32_1817 : BitVec 32 := 0#32
  let c1_i32_1819 : BitVec 32 := 1#32
  let arg14 : BitVec 32 := Scf.iv c0_i32_1817 c1_i32_1819 k0_t54
  let v1657 : BitVec 32 := Scalar.addi c128_i32_2201 arg14
  let v1658 : Index := Scalar.indexCast v1657
  let c48_2202 : Index := 48#32
  ![v1658.toNat, 48]
def k0_off859 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1670 : Index := Scalar.indexCast arg14
  let c64 : Index := 64#32
  ![v1670.toNat, 64]
def k0_off860 (k0_t54 : Fin k0_t54_loop.trips) : Fin 2 → Nat :=
  let c128_i32_2208 : BitVec 32 := 128#32
  let c0_i32_1817 : BitVec 32 := 0#32
  let c1_i32_1819 : BitVec 32 := 1#32
  let arg14 : BitVec 32 := Scf.iv c0_i32_1817 c1_i32_1819 k0_t54
  let v1673 : BitVec 32 := Scalar.addi c128_i32_2208 arg14
  let v1674 : Index := Scalar.indexCast v1673
  let c64_2209 : Index := 64#32
  ![v1674.toNat, 64]
def k0_off861 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1686 : Index := Scalar.indexCast arg14
  let c80 : Index := 80#32
  ![v1686.toNat, 80]
def k0_off862 (k0_t54 : Fin k0_t54_loop.trips) : Fin 2 → Nat :=
  let c128_i32_2215 : BitVec 32 := 128#32
  let c0_i32_1817 : BitVec 32 := 0#32
  let c1_i32_1819 : BitVec 32 := 1#32
  let arg14 : BitVec 32 := Scf.iv c0_i32_1817 c1_i32_1819 k0_t54
  let v1689 : BitVec 32 := Scalar.addi c128_i32_2215 arg14
  let v1690 : Index := Scalar.indexCast v1689
  let c80_2216 : Index := 80#32
  ![v1690.toNat, 80]
def k0_off863 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1702 : Index := Scalar.indexCast arg14
  let c96 : Index := 96#32
  ![v1702.toNat, 96]
def k0_off864 (k0_t54 : Fin k0_t54_loop.trips) : Fin 2 → Nat :=
  let c128_i32_2222 : BitVec 32 := 128#32
  let c0_i32_1817 : BitVec 32 := 0#32
  let c1_i32_1819 : BitVec 32 := 1#32
  let arg14 : BitVec 32 := Scf.iv c0_i32_1817 c1_i32_1819 k0_t54
  let v1705 : BitVec 32 := Scalar.addi c128_i32_2222 arg14
  let v1706 : Index := Scalar.indexCast v1705
  let c96_2223 : Index := 96#32
  ![v1706.toNat, 96]
def k0_off865 (k0_t54 : Fin k0_t54_loop.trips) : Fin 2 → Nat :=
  let c0_i32_1817 : BitVec 32 := 0#32
  let c1_i32_1819 : BitVec 32 := 1#32
  let arg14 : BitVec 32 := Scf.iv c0_i32_1817 c1_i32_1819 k0_t54
  let v1718 : Index := Scalar.indexCast arg14
  let c112 : Index := 112#32
  ![v1718.toNat, 112]
def k0_off866 (k0_t54 : Fin k0_t54_loop.trips) : Fin 2 → Nat :=
  let c128_i32_2229 : BitVec 32 := 128#32
  let c0_i32_1817 : BitVec 32 := 0#32
  let c1_i32_1819 : BitVec 32 := 1#32
  let arg14 : BitVec 32 := Scf.iv c0_i32_1817 c1_i32_1819 k0_t54
  let v1721 : BitVec 32 := Scalar.addi c128_i32_2229 arg14
  let v1722 : Index := Scalar.indexCast v1721
  let c112_2230 : Index := 112#32
  ![v1722.toNat, 112]
@[reducible] def k0_t55_loop : Scf.Loop 32 :=
  let c0_i32_1851 : BitVec 32 := 0#32
  let c128_i32_1852 : BitVec 32 := 128#32
  let v1362 : BitVec 32 := Scalar.addi c0_i32_1851 c128_i32_1852
  let c1_i32_1853 : BitVec 32 := 1#32
  ⟨c0_i32_1851, v1362, c1_i32_1853⟩
def k0_off867 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1606 : Index := Scalar.indexCast arg14
  let c0 : Index := 0#32
  ![v1606.toNat, 0]
def k0_off868 (k0_t55 : Fin k0_t55_loop.trips) : Fin 2 → Nat :=
  let c0_i32_2180 : BitVec 32 := 0#32
  let c0_i32_1851 : BitVec 32 := 0#32
  let c1_i32_1853 : BitVec 32 := 1#32
  let arg14 : BitVec 32 := Scf.iv c0_i32_1851 c1_i32_1853 k0_t55
  let v1609 : BitVec 32 := Scalar.addi c0_i32_2180 arg14
  let v1610 : Index := Scalar.indexCast v1609
  let c0_2181 : Index := 0#32
  ![v1610.toNat, 0]
def k0_off869 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1622 : Index := Scalar.indexCast arg14
  let c16 : Index := 16#32
  ![v1622.toNat, 16]
def k0_off870 (k0_t55 : Fin k0_t55_loop.trips) : Fin 2 → Nat :=
  let c0_i32_2187 : BitVec 32 := 0#32
  let c0_i32_1851 : BitVec 32 := 0#32
  let c1_i32_1853 : BitVec 32 := 1#32
  let arg14 : BitVec 32 := Scf.iv c0_i32_1851 c1_i32_1853 k0_t55
  let v1625 : BitVec 32 := Scalar.addi c0_i32_2187 arg14
  let v1626 : Index := Scalar.indexCast v1625
  let c16_2188 : Index := 16#32
  ![v1626.toNat, 16]
def k0_off871 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1638 : Index := Scalar.indexCast arg14
  let c32 : Index := 32#32
  ![v1638.toNat, 32]
def k0_off872 (k0_t55 : Fin k0_t55_loop.trips) : Fin 2 → Nat :=
  let c0_i32_2194 : BitVec 32 := 0#32
  let c0_i32_1851 : BitVec 32 := 0#32
  let c1_i32_1853 : BitVec 32 := 1#32
  let arg14 : BitVec 32 := Scf.iv c0_i32_1851 c1_i32_1853 k0_t55
  let v1641 : BitVec 32 := Scalar.addi c0_i32_2194 arg14
  let v1642 : Index := Scalar.indexCast v1641
  let c32_2195 : Index := 32#32
  ![v1642.toNat, 32]
def k0_off873 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1654 : Index := Scalar.indexCast arg14
  let c48 : Index := 48#32
  ![v1654.toNat, 48]
def k0_off874 (k0_t55 : Fin k0_t55_loop.trips) : Fin 2 → Nat :=
  let c0_i32_2201 : BitVec 32 := 0#32
  let c0_i32_1851 : BitVec 32 := 0#32
  let c1_i32_1853 : BitVec 32 := 1#32
  let arg14 : BitVec 32 := Scf.iv c0_i32_1851 c1_i32_1853 k0_t55
  let v1657 : BitVec 32 := Scalar.addi c0_i32_2201 arg14
  let v1658 : Index := Scalar.indexCast v1657
  let c48_2202 : Index := 48#32
  ![v1658.toNat, 48]
def k0_off875 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1670 : Index := Scalar.indexCast arg14
  let c64 : Index := 64#32
  ![v1670.toNat, 64]
def k0_off876 (k0_t55 : Fin k0_t55_loop.trips) : Fin 2 → Nat :=
  let c0_i32_2208 : BitVec 32 := 0#32
  let c0_i32_1851 : BitVec 32 := 0#32
  let c1_i32_1853 : BitVec 32 := 1#32
  let arg14 : BitVec 32 := Scf.iv c0_i32_1851 c1_i32_1853 k0_t55
  let v1673 : BitVec 32 := Scalar.addi c0_i32_2208 arg14
  let v1674 : Index := Scalar.indexCast v1673
  let c64_2209 : Index := 64#32
  ![v1674.toNat, 64]
def k0_off877 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1686 : Index := Scalar.indexCast arg14
  let c80 : Index := 80#32
  ![v1686.toNat, 80]
def k0_off878 (k0_t55 : Fin k0_t55_loop.trips) : Fin 2 → Nat :=
  let c0_i32_2215 : BitVec 32 := 0#32
  let c0_i32_1851 : BitVec 32 := 0#32
  let c1_i32_1853 : BitVec 32 := 1#32
  let arg14 : BitVec 32 := Scf.iv c0_i32_1851 c1_i32_1853 k0_t55
  let v1689 : BitVec 32 := Scalar.addi c0_i32_2215 arg14
  let v1690 : Index := Scalar.indexCast v1689
  let c80_2216 : Index := 80#32
  ![v1690.toNat, 80]
def k0_off879 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1702 : Index := Scalar.indexCast arg14
  let c96 : Index := 96#32
  ![v1702.toNat, 96]
def k0_off880 (k0_t55 : Fin k0_t55_loop.trips) : Fin 2 → Nat :=
  let c0_i32_2222 : BitVec 32 := 0#32
  let c0_i32_1851 : BitVec 32 := 0#32
  let c1_i32_1853 : BitVec 32 := 1#32
  let arg14 : BitVec 32 := Scf.iv c0_i32_1851 c1_i32_1853 k0_t55
  let v1705 : BitVec 32 := Scalar.addi c0_i32_2222 arg14
  let v1706 : Index := Scalar.indexCast v1705
  let c96_2223 : Index := 96#32
  ![v1706.toNat, 96]
def k0_off881 (k0_t55 : Fin k0_t55_loop.trips) : Fin 2 → Nat :=
  let c0_i32_1851 : BitVec 32 := 0#32
  let c1_i32_1853 : BitVec 32 := 1#32
  let arg14 : BitVec 32 := Scf.iv c0_i32_1851 c1_i32_1853 k0_t55
  let v1718 : Index := Scalar.indexCast arg14
  let c112 : Index := 112#32
  ![v1718.toNat, 112]
def k0_off882 (k0_t55 : Fin k0_t55_loop.trips) : Fin 2 → Nat :=
  let c0_i32_2229 : BitVec 32 := 0#32
  let c0_i32_1851 : BitVec 32 := 0#32
  let c1_i32_1853 : BitVec 32 := 1#32
  let arg14 : BitVec 32 := Scf.iv c0_i32_1851 c1_i32_1853 k0_t55
  let v1721 : BitVec 32 := Scalar.addi c0_i32_2229 arg14
  let v1722 : Index := Scalar.indexCast v1721
  let c112_2230 : Index := 112#32
  ![v1722.toNat, 112]
@[reducible] def k0_t56_loop : Scf.Loop 32 :=
  let c0_i32_1885 : BitVec 32 := 0#32
  let c128_i32_1886 : BitVec 32 := 128#32
  let v1387 : BitVec 32 := Scalar.addi c0_i32_1885 c128_i32_1886
  let c1_i32_1887 : BitVec 32 := 1#32
  ⟨c0_i32_1885, v1387, c1_i32_1887⟩
def k0_off883 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1606 : Index := Scalar.indexCast arg14
  let c0 : Index := 0#32
  ![v1606.toNat, 0]
def k0_off884 (k0_t56 : Fin k0_t56_loop.trips) : Fin 2 → Nat :=
  let c128_i32_2180 : BitVec 32 := 128#32
  let c0_i32_1885 : BitVec 32 := 0#32
  let c1_i32_1887 : BitVec 32 := 1#32
  let arg14 : BitVec 32 := Scf.iv c0_i32_1885 c1_i32_1887 k0_t56
  let v1609 : BitVec 32 := Scalar.addi c128_i32_2180 arg14
  let v1610 : Index := Scalar.indexCast v1609
  let c0_2181 : Index := 0#32
  ![v1610.toNat, 0]
def k0_off885 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1622 : Index := Scalar.indexCast arg14
  let c16 : Index := 16#32
  ![v1622.toNat, 16]
def k0_off886 (k0_t56 : Fin k0_t56_loop.trips) : Fin 2 → Nat :=
  let c128_i32_2187 : BitVec 32 := 128#32
  let c0_i32_1885 : BitVec 32 := 0#32
  let c1_i32_1887 : BitVec 32 := 1#32
  let arg14 : BitVec 32 := Scf.iv c0_i32_1885 c1_i32_1887 k0_t56
  let v1625 : BitVec 32 := Scalar.addi c128_i32_2187 arg14
  let v1626 : Index := Scalar.indexCast v1625
  let c16_2188 : Index := 16#32
  ![v1626.toNat, 16]
def k0_off887 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1638 : Index := Scalar.indexCast arg14
  let c32 : Index := 32#32
  ![v1638.toNat, 32]
def k0_off888 (k0_t56 : Fin k0_t56_loop.trips) : Fin 2 → Nat :=
  let c128_i32_2194 : BitVec 32 := 128#32
  let c0_i32_1885 : BitVec 32 := 0#32
  let c1_i32_1887 : BitVec 32 := 1#32
  let arg14 : BitVec 32 := Scf.iv c0_i32_1885 c1_i32_1887 k0_t56
  let v1641 : BitVec 32 := Scalar.addi c128_i32_2194 arg14
  let v1642 : Index := Scalar.indexCast v1641
  let c32_2195 : Index := 32#32
  ![v1642.toNat, 32]
def k0_off889 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1654 : Index := Scalar.indexCast arg14
  let c48 : Index := 48#32
  ![v1654.toNat, 48]
def k0_off890 (k0_t56 : Fin k0_t56_loop.trips) : Fin 2 → Nat :=
  let c128_i32_2201 : BitVec 32 := 128#32
  let c0_i32_1885 : BitVec 32 := 0#32
  let c1_i32_1887 : BitVec 32 := 1#32
  let arg14 : BitVec 32 := Scf.iv c0_i32_1885 c1_i32_1887 k0_t56
  let v1657 : BitVec 32 := Scalar.addi c128_i32_2201 arg14
  let v1658 : Index := Scalar.indexCast v1657
  let c48_2202 : Index := 48#32
  ![v1658.toNat, 48]
def k0_off891 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1670 : Index := Scalar.indexCast arg14
  let c64 : Index := 64#32
  ![v1670.toNat, 64]
def k0_off892 (k0_t56 : Fin k0_t56_loop.trips) : Fin 2 → Nat :=
  let c128_i32_2208 : BitVec 32 := 128#32
  let c0_i32_1885 : BitVec 32 := 0#32
  let c1_i32_1887 : BitVec 32 := 1#32
  let arg14 : BitVec 32 := Scf.iv c0_i32_1885 c1_i32_1887 k0_t56
  let v1673 : BitVec 32 := Scalar.addi c128_i32_2208 arg14
  let v1674 : Index := Scalar.indexCast v1673
  let c64_2209 : Index := 64#32
  ![v1674.toNat, 64]
def k0_off893 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1686 : Index := Scalar.indexCast arg14
  let c80 : Index := 80#32
  ![v1686.toNat, 80]
def k0_off894 (k0_t56 : Fin k0_t56_loop.trips) : Fin 2 → Nat :=
  let c128_i32_2215 : BitVec 32 := 128#32
  let c0_i32_1885 : BitVec 32 := 0#32
  let c1_i32_1887 : BitVec 32 := 1#32
  let arg14 : BitVec 32 := Scf.iv c0_i32_1885 c1_i32_1887 k0_t56
  let v1689 : BitVec 32 := Scalar.addi c128_i32_2215 arg14
  let v1690 : Index := Scalar.indexCast v1689
  let c80_2216 : Index := 80#32
  ![v1690.toNat, 80]
def k0_off895 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1702 : Index := Scalar.indexCast arg14
  let c96 : Index := 96#32
  ![v1702.toNat, 96]
def k0_off896 (k0_t56 : Fin k0_t56_loop.trips) : Fin 2 → Nat :=
  let c128_i32_2222 : BitVec 32 := 128#32
  let c0_i32_1885 : BitVec 32 := 0#32
  let c1_i32_1887 : BitVec 32 := 1#32
  let arg14 : BitVec 32 := Scf.iv c0_i32_1885 c1_i32_1887 k0_t56
  let v1705 : BitVec 32 := Scalar.addi c128_i32_2222 arg14
  let v1706 : Index := Scalar.indexCast v1705
  let c96_2223 : Index := 96#32
  ![v1706.toNat, 96]
def k0_off897 (k0_t56 : Fin k0_t56_loop.trips) : Fin 2 → Nat :=
  let c0_i32_1885 : BitVec 32 := 0#32
  let c1_i32_1887 : BitVec 32 := 1#32
  let arg14 : BitVec 32 := Scf.iv c0_i32_1885 c1_i32_1887 k0_t56
  let v1718 : Index := Scalar.indexCast arg14
  let c112 : Index := 112#32
  ![v1718.toNat, 112]
def k0_off898 (k0_t56 : Fin k0_t56_loop.trips) : Fin 2 → Nat :=
  let c128_i32_2229 : BitVec 32 := 128#32
  let c0_i32_1885 : BitVec 32 := 0#32
  let c1_i32_1887 : BitVec 32 := 1#32
  let arg14 : BitVec 32 := Scf.iv c0_i32_1885 c1_i32_1887 k0_t56
  let v1721 : BitVec 32 := Scalar.addi c128_i32_2229 arg14
  let v1722 : Index := Scalar.indexCast v1721
  let c112_2230 : Index := 112#32
  ![v1722.toNat, 112]
@[reducible] def k0_t57_loop : Scf.Loop 32 :=
  let c0_i32_1919 : BitVec 32 := 0#32
  let c128_i32_1920 : BitVec 32 := 128#32
  let v1412 : BitVec 32 := Scalar.addi c0_i32_1919 c128_i32_1920
  let c1_i32_1921 : BitVec 32 := 1#32
  ⟨c0_i32_1919, v1412, c1_i32_1921⟩
def k0_off899 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1606 : Index := Scalar.indexCast arg14
  let c0 : Index := 0#32
  ![v1606.toNat, 0]
def k0_off900 (k0_t57 : Fin k0_t57_loop.trips) : Fin 2 → Nat :=
  let c0_i32_2180 : BitVec 32 := 0#32
  let c0_i32_1919 : BitVec 32 := 0#32
  let c1_i32_1921 : BitVec 32 := 1#32
  let arg14 : BitVec 32 := Scf.iv c0_i32_1919 c1_i32_1921 k0_t57
  let v1609 : BitVec 32 := Scalar.addi c0_i32_2180 arg14
  let v1610 : Index := Scalar.indexCast v1609
  let c0_2181 : Index := 0#32
  ![v1610.toNat, 0]
def k0_off901 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1622 : Index := Scalar.indexCast arg14
  let c16 : Index := 16#32
  ![v1622.toNat, 16]
def k0_off902 (k0_t57 : Fin k0_t57_loop.trips) : Fin 2 → Nat :=
  let c0_i32_2187 : BitVec 32 := 0#32
  let c0_i32_1919 : BitVec 32 := 0#32
  let c1_i32_1921 : BitVec 32 := 1#32
  let arg14 : BitVec 32 := Scf.iv c0_i32_1919 c1_i32_1921 k0_t57
  let v1625 : BitVec 32 := Scalar.addi c0_i32_2187 arg14
  let v1626 : Index := Scalar.indexCast v1625
  let c16_2188 : Index := 16#32
  ![v1626.toNat, 16]
def k0_off903 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1638 : Index := Scalar.indexCast arg14
  let c32 : Index := 32#32
  ![v1638.toNat, 32]
def k0_off904 (k0_t57 : Fin k0_t57_loop.trips) : Fin 2 → Nat :=
  let c0_i32_2194 : BitVec 32 := 0#32
  let c0_i32_1919 : BitVec 32 := 0#32
  let c1_i32_1921 : BitVec 32 := 1#32
  let arg14 : BitVec 32 := Scf.iv c0_i32_1919 c1_i32_1921 k0_t57
  let v1641 : BitVec 32 := Scalar.addi c0_i32_2194 arg14
  let v1642 : Index := Scalar.indexCast v1641
  let c32_2195 : Index := 32#32
  ![v1642.toNat, 32]
def k0_off905 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1654 : Index := Scalar.indexCast arg14
  let c48 : Index := 48#32
  ![v1654.toNat, 48]
def k0_off906 (k0_t57 : Fin k0_t57_loop.trips) : Fin 2 → Nat :=
  let c0_i32_2201 : BitVec 32 := 0#32
  let c0_i32_1919 : BitVec 32 := 0#32
  let c1_i32_1921 : BitVec 32 := 1#32
  let arg14 : BitVec 32 := Scf.iv c0_i32_1919 c1_i32_1921 k0_t57
  let v1657 : BitVec 32 := Scalar.addi c0_i32_2201 arg14
  let v1658 : Index := Scalar.indexCast v1657
  let c48_2202 : Index := 48#32
  ![v1658.toNat, 48]
def k0_off907 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1670 : Index := Scalar.indexCast arg14
  let c64 : Index := 64#32
  ![v1670.toNat, 64]
def k0_off908 (k0_t57 : Fin k0_t57_loop.trips) : Fin 2 → Nat :=
  let c0_i32_2208 : BitVec 32 := 0#32
  let c0_i32_1919 : BitVec 32 := 0#32
  let c1_i32_1921 : BitVec 32 := 1#32
  let arg14 : BitVec 32 := Scf.iv c0_i32_1919 c1_i32_1921 k0_t57
  let v1673 : BitVec 32 := Scalar.addi c0_i32_2208 arg14
  let v1674 : Index := Scalar.indexCast v1673
  let c64_2209 : Index := 64#32
  ![v1674.toNat, 64]
def k0_off909 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1686 : Index := Scalar.indexCast arg14
  let c80 : Index := 80#32
  ![v1686.toNat, 80]
def k0_off910 (k0_t57 : Fin k0_t57_loop.trips) : Fin 2 → Nat :=
  let c0_i32_2215 : BitVec 32 := 0#32
  let c0_i32_1919 : BitVec 32 := 0#32
  let c1_i32_1921 : BitVec 32 := 1#32
  let arg14 : BitVec 32 := Scf.iv c0_i32_1919 c1_i32_1921 k0_t57
  let v1689 : BitVec 32 := Scalar.addi c0_i32_2215 arg14
  let v1690 : Index := Scalar.indexCast v1689
  let c80_2216 : Index := 80#32
  ![v1690.toNat, 80]
def k0_off911 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1702 : Index := Scalar.indexCast arg14
  let c96 : Index := 96#32
  ![v1702.toNat, 96]
def k0_off912 (k0_t57 : Fin k0_t57_loop.trips) : Fin 2 → Nat :=
  let c0_i32_2222 : BitVec 32 := 0#32
  let c0_i32_1919 : BitVec 32 := 0#32
  let c1_i32_1921 : BitVec 32 := 1#32
  let arg14 : BitVec 32 := Scf.iv c0_i32_1919 c1_i32_1921 k0_t57
  let v1705 : BitVec 32 := Scalar.addi c0_i32_2222 arg14
  let v1706 : Index := Scalar.indexCast v1705
  let c96_2223 : Index := 96#32
  ![v1706.toNat, 96]
def k0_off913 (k0_t57 : Fin k0_t57_loop.trips) : Fin 2 → Nat :=
  let c0_i32_1919 : BitVec 32 := 0#32
  let c1_i32_1921 : BitVec 32 := 1#32
  let arg14 : BitVec 32 := Scf.iv c0_i32_1919 c1_i32_1921 k0_t57
  let v1718 : Index := Scalar.indexCast arg14
  let c112 : Index := 112#32
  ![v1718.toNat, 112]
def k0_off914 (k0_t57 : Fin k0_t57_loop.trips) : Fin 2 → Nat :=
  let c0_i32_2229 : BitVec 32 := 0#32
  let c0_i32_1919 : BitVec 32 := 0#32
  let c1_i32_1921 : BitVec 32 := 1#32
  let arg14 : BitVec 32 := Scf.iv c0_i32_1919 c1_i32_1921 k0_t57
  let v1721 : BitVec 32 := Scalar.addi c0_i32_2229 arg14
  let v1722 : Index := Scalar.indexCast v1721
  let c112_2230 : Index := 112#32
  ![v1722.toNat, 112]
@[reducible] def k0_t58_loop : Scf.Loop 32 :=
  let c0_i32_1953 : BitVec 32 := 0#32
  let c128_i32_1954 : BitVec 32 := 128#32
  let v1437 : BitVec 32 := Scalar.addi c0_i32_1953 c128_i32_1954
  let c1_i32_1955 : BitVec 32 := 1#32
  ⟨c0_i32_1953, v1437, c1_i32_1955⟩
def k0_off915 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1606 : Index := Scalar.indexCast arg14
  let c0 : Index := 0#32
  ![v1606.toNat, 0]
def k0_off916 (k0_t58 : Fin k0_t58_loop.trips) : Fin 2 → Nat :=
  let c128_i32_2180 : BitVec 32 := 128#32
  let c0_i32_1953 : BitVec 32 := 0#32
  let c1_i32_1955 : BitVec 32 := 1#32
  let arg14 : BitVec 32 := Scf.iv c0_i32_1953 c1_i32_1955 k0_t58
  let v1609 : BitVec 32 := Scalar.addi c128_i32_2180 arg14
  let v1610 : Index := Scalar.indexCast v1609
  let c0_2181 : Index := 0#32
  ![v1610.toNat, 0]
def k0_off917 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1622 : Index := Scalar.indexCast arg14
  let c16 : Index := 16#32
  ![v1622.toNat, 16]
def k0_off918 (k0_t58 : Fin k0_t58_loop.trips) : Fin 2 → Nat :=
  let c128_i32_2187 : BitVec 32 := 128#32
  let c0_i32_1953 : BitVec 32 := 0#32
  let c1_i32_1955 : BitVec 32 := 1#32
  let arg14 : BitVec 32 := Scf.iv c0_i32_1953 c1_i32_1955 k0_t58
  let v1625 : BitVec 32 := Scalar.addi c128_i32_2187 arg14
  let v1626 : Index := Scalar.indexCast v1625
  let c16_2188 : Index := 16#32
  ![v1626.toNat, 16]
def k0_off919 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1638 : Index := Scalar.indexCast arg14
  let c32 : Index := 32#32
  ![v1638.toNat, 32]
def k0_off920 (k0_t58 : Fin k0_t58_loop.trips) : Fin 2 → Nat :=
  let c128_i32_2194 : BitVec 32 := 128#32
  let c0_i32_1953 : BitVec 32 := 0#32
  let c1_i32_1955 : BitVec 32 := 1#32
  let arg14 : BitVec 32 := Scf.iv c0_i32_1953 c1_i32_1955 k0_t58
  let v1641 : BitVec 32 := Scalar.addi c128_i32_2194 arg14
  let v1642 : Index := Scalar.indexCast v1641
  let c32_2195 : Index := 32#32
  ![v1642.toNat, 32]
def k0_off921 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1654 : Index := Scalar.indexCast arg14
  let c48 : Index := 48#32
  ![v1654.toNat, 48]
def k0_off922 (k0_t58 : Fin k0_t58_loop.trips) : Fin 2 → Nat :=
  let c128_i32_2201 : BitVec 32 := 128#32
  let c0_i32_1953 : BitVec 32 := 0#32
  let c1_i32_1955 : BitVec 32 := 1#32
  let arg14 : BitVec 32 := Scf.iv c0_i32_1953 c1_i32_1955 k0_t58
  let v1657 : BitVec 32 := Scalar.addi c128_i32_2201 arg14
  let v1658 : Index := Scalar.indexCast v1657
  let c48_2202 : Index := 48#32
  ![v1658.toNat, 48]
def k0_off923 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1670 : Index := Scalar.indexCast arg14
  let c64 : Index := 64#32
  ![v1670.toNat, 64]
def k0_off924 (k0_t58 : Fin k0_t58_loop.trips) : Fin 2 → Nat :=
  let c128_i32_2208 : BitVec 32 := 128#32
  let c0_i32_1953 : BitVec 32 := 0#32
  let c1_i32_1955 : BitVec 32 := 1#32
  let arg14 : BitVec 32 := Scf.iv c0_i32_1953 c1_i32_1955 k0_t58
  let v1673 : BitVec 32 := Scalar.addi c128_i32_2208 arg14
  let v1674 : Index := Scalar.indexCast v1673
  let c64_2209 : Index := 64#32
  ![v1674.toNat, 64]
def k0_off925 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1686 : Index := Scalar.indexCast arg14
  let c80 : Index := 80#32
  ![v1686.toNat, 80]
def k0_off926 (k0_t58 : Fin k0_t58_loop.trips) : Fin 2 → Nat :=
  let c128_i32_2215 : BitVec 32 := 128#32
  let c0_i32_1953 : BitVec 32 := 0#32
  let c1_i32_1955 : BitVec 32 := 1#32
  let arg14 : BitVec 32 := Scf.iv c0_i32_1953 c1_i32_1955 k0_t58
  let v1689 : BitVec 32 := Scalar.addi c128_i32_2215 arg14
  let v1690 : Index := Scalar.indexCast v1689
  let c80_2216 : Index := 80#32
  ![v1690.toNat, 80]
def k0_off927 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1702 : Index := Scalar.indexCast arg14
  let c96 : Index := 96#32
  ![v1702.toNat, 96]
def k0_off928 (k0_t58 : Fin k0_t58_loop.trips) : Fin 2 → Nat :=
  let c128_i32_2222 : BitVec 32 := 128#32
  let c0_i32_1953 : BitVec 32 := 0#32
  let c1_i32_1955 : BitVec 32 := 1#32
  let arg14 : BitVec 32 := Scf.iv c0_i32_1953 c1_i32_1955 k0_t58
  let v1705 : BitVec 32 := Scalar.addi c128_i32_2222 arg14
  let v1706 : Index := Scalar.indexCast v1705
  let c96_2223 : Index := 96#32
  ![v1706.toNat, 96]
def k0_off929 (k0_t58 : Fin k0_t58_loop.trips) : Fin 2 → Nat :=
  let c0_i32_1953 : BitVec 32 := 0#32
  let c1_i32_1955 : BitVec 32 := 1#32
  let arg14 : BitVec 32 := Scf.iv c0_i32_1953 c1_i32_1955 k0_t58
  let v1718 : Index := Scalar.indexCast arg14
  let c112 : Index := 112#32
  ![v1718.toNat, 112]
def k0_off930 (k0_t58 : Fin k0_t58_loop.trips) : Fin 2 → Nat :=
  let c128_i32_2229 : BitVec 32 := 128#32
  let c0_i32_1953 : BitVec 32 := 0#32
  let c1_i32_1955 : BitVec 32 := 1#32
  let arg14 : BitVec 32 := Scf.iv c0_i32_1953 c1_i32_1955 k0_t58
  let v1721 : BitVec 32 := Scalar.addi c128_i32_2229 arg14
  let v1722 : Index := Scalar.indexCast v1721
  let c112_2230 : Index := 112#32
  ![v1722.toNat, 112]
@[reducible] def k0_t59_loop : Scf.Loop 32 :=
  let c0_i32_1987 : BitVec 32 := 0#32
  let c128_i32_1988 : BitVec 32 := 128#32
  let v1462 : BitVec 32 := Scalar.addi c0_i32_1987 c128_i32_1988
  let c1_i32_1989 : BitVec 32 := 1#32
  ⟨c0_i32_1987, v1462, c1_i32_1989⟩
def k0_off931 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1606 : Index := Scalar.indexCast arg14
  let c0 : Index := 0#32
  ![v1606.toNat, 0]
def k0_off932 (k0_t59 : Fin k0_t59_loop.trips) : Fin 2 → Nat :=
  let c0_i32_2180 : BitVec 32 := 0#32
  let c0_i32_1987 : BitVec 32 := 0#32
  let c1_i32_1989 : BitVec 32 := 1#32
  let arg14 : BitVec 32 := Scf.iv c0_i32_1987 c1_i32_1989 k0_t59
  let v1609 : BitVec 32 := Scalar.addi c0_i32_2180 arg14
  let v1610 : Index := Scalar.indexCast v1609
  let c0_2181 : Index := 0#32
  ![v1610.toNat, 0]
def k0_off933 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1622 : Index := Scalar.indexCast arg14
  let c16 : Index := 16#32
  ![v1622.toNat, 16]
def k0_off934 (k0_t59 : Fin k0_t59_loop.trips) : Fin 2 → Nat :=
  let c0_i32_2187 : BitVec 32 := 0#32
  let c0_i32_1987 : BitVec 32 := 0#32
  let c1_i32_1989 : BitVec 32 := 1#32
  let arg14 : BitVec 32 := Scf.iv c0_i32_1987 c1_i32_1989 k0_t59
  let v1625 : BitVec 32 := Scalar.addi c0_i32_2187 arg14
  let v1626 : Index := Scalar.indexCast v1625
  let c16_2188 : Index := 16#32
  ![v1626.toNat, 16]
def k0_off935 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1638 : Index := Scalar.indexCast arg14
  let c32 : Index := 32#32
  ![v1638.toNat, 32]
def k0_off936 (k0_t59 : Fin k0_t59_loop.trips) : Fin 2 → Nat :=
  let c0_i32_2194 : BitVec 32 := 0#32
  let c0_i32_1987 : BitVec 32 := 0#32
  let c1_i32_1989 : BitVec 32 := 1#32
  let arg14 : BitVec 32 := Scf.iv c0_i32_1987 c1_i32_1989 k0_t59
  let v1641 : BitVec 32 := Scalar.addi c0_i32_2194 arg14
  let v1642 : Index := Scalar.indexCast v1641
  let c32_2195 : Index := 32#32
  ![v1642.toNat, 32]
def k0_off937 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1654 : Index := Scalar.indexCast arg14
  let c48 : Index := 48#32
  ![v1654.toNat, 48]
def k0_off938 (k0_t59 : Fin k0_t59_loop.trips) : Fin 2 → Nat :=
  let c0_i32_2201 : BitVec 32 := 0#32
  let c0_i32_1987 : BitVec 32 := 0#32
  let c1_i32_1989 : BitVec 32 := 1#32
  let arg14 : BitVec 32 := Scf.iv c0_i32_1987 c1_i32_1989 k0_t59
  let v1657 : BitVec 32 := Scalar.addi c0_i32_2201 arg14
  let v1658 : Index := Scalar.indexCast v1657
  let c48_2202 : Index := 48#32
  ![v1658.toNat, 48]
def k0_off939 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1670 : Index := Scalar.indexCast arg14
  let c64 : Index := 64#32
  ![v1670.toNat, 64]
def k0_off940 (k0_t59 : Fin k0_t59_loop.trips) : Fin 2 → Nat :=
  let c0_i32_2208 : BitVec 32 := 0#32
  let c0_i32_1987 : BitVec 32 := 0#32
  let c1_i32_1989 : BitVec 32 := 1#32
  let arg14 : BitVec 32 := Scf.iv c0_i32_1987 c1_i32_1989 k0_t59
  let v1673 : BitVec 32 := Scalar.addi c0_i32_2208 arg14
  let v1674 : Index := Scalar.indexCast v1673
  let c64_2209 : Index := 64#32
  ![v1674.toNat, 64]
def k0_off941 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1686 : Index := Scalar.indexCast arg14
  let c80 : Index := 80#32
  ![v1686.toNat, 80]
def k0_off942 (k0_t59 : Fin k0_t59_loop.trips) : Fin 2 → Nat :=
  let c0_i32_2215 : BitVec 32 := 0#32
  let c0_i32_1987 : BitVec 32 := 0#32
  let c1_i32_1989 : BitVec 32 := 1#32
  let arg14 : BitVec 32 := Scf.iv c0_i32_1987 c1_i32_1989 k0_t59
  let v1689 : BitVec 32 := Scalar.addi c0_i32_2215 arg14
  let v1690 : Index := Scalar.indexCast v1689
  let c80_2216 : Index := 80#32
  ![v1690.toNat, 80]
def k0_off943 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1702 : Index := Scalar.indexCast arg14
  let c96 : Index := 96#32
  ![v1702.toNat, 96]
def k0_off944 (k0_t59 : Fin k0_t59_loop.trips) : Fin 2 → Nat :=
  let c0_i32_2222 : BitVec 32 := 0#32
  let c0_i32_1987 : BitVec 32 := 0#32
  let c1_i32_1989 : BitVec 32 := 1#32
  let arg14 : BitVec 32 := Scf.iv c0_i32_1987 c1_i32_1989 k0_t59
  let v1705 : BitVec 32 := Scalar.addi c0_i32_2222 arg14
  let v1706 : Index := Scalar.indexCast v1705
  let c96_2223 : Index := 96#32
  ![v1706.toNat, 96]
def k0_off945 (k0_t59 : Fin k0_t59_loop.trips) : Fin 2 → Nat :=
  let c0_i32_1987 : BitVec 32 := 0#32
  let c1_i32_1989 : BitVec 32 := 1#32
  let arg14 : BitVec 32 := Scf.iv c0_i32_1987 c1_i32_1989 k0_t59
  let v1718 : Index := Scalar.indexCast arg14
  let c112 : Index := 112#32
  ![v1718.toNat, 112]
def k0_off946 (k0_t59 : Fin k0_t59_loop.trips) : Fin 2 → Nat :=
  let c0_i32_2229 : BitVec 32 := 0#32
  let c0_i32_1987 : BitVec 32 := 0#32
  let c1_i32_1989 : BitVec 32 := 1#32
  let arg14 : BitVec 32 := Scf.iv c0_i32_1987 c1_i32_1989 k0_t59
  let v1721 : BitVec 32 := Scalar.addi c0_i32_2229 arg14
  let v1722 : Index := Scalar.indexCast v1721
  let c112_2230 : Index := 112#32
  ![v1722.toNat, 112]
@[reducible] def k0_t60_loop : Scf.Loop 32 :=
  let c0_i32_2021 : BitVec 32 := 0#32
  let c128_i32_2022 : BitVec 32 := 128#32
  let v1487 : BitVec 32 := Scalar.addi c0_i32_2021 c128_i32_2022
  let c1_i32_2023 : BitVec 32 := 1#32
  ⟨c0_i32_2021, v1487, c1_i32_2023⟩
def k0_off947 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1606 : Index := Scalar.indexCast arg14
  let c0 : Index := 0#32
  ![v1606.toNat, 0]
def k0_off948 (k0_t60 : Fin k0_t60_loop.trips) : Fin 2 → Nat :=
  let c128_i32_2180 : BitVec 32 := 128#32
  let c0_i32_2021 : BitVec 32 := 0#32
  let c1_i32_2023 : BitVec 32 := 1#32
  let arg14 : BitVec 32 := Scf.iv c0_i32_2021 c1_i32_2023 k0_t60
  let v1609 : BitVec 32 := Scalar.addi c128_i32_2180 arg14
  let v1610 : Index := Scalar.indexCast v1609
  let c0_2181 : Index := 0#32
  ![v1610.toNat, 0]
def k0_off949 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1622 : Index := Scalar.indexCast arg14
  let c16 : Index := 16#32
  ![v1622.toNat, 16]
def k0_off950 (k0_t60 : Fin k0_t60_loop.trips) : Fin 2 → Nat :=
  let c128_i32_2187 : BitVec 32 := 128#32
  let c0_i32_2021 : BitVec 32 := 0#32
  let c1_i32_2023 : BitVec 32 := 1#32
  let arg14 : BitVec 32 := Scf.iv c0_i32_2021 c1_i32_2023 k0_t60
  let v1625 : BitVec 32 := Scalar.addi c128_i32_2187 arg14
  let v1626 : Index := Scalar.indexCast v1625
  let c16_2188 : Index := 16#32
  ![v1626.toNat, 16]
def k0_off951 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1638 : Index := Scalar.indexCast arg14
  let c32 : Index := 32#32
  ![v1638.toNat, 32]
def k0_off952 (k0_t60 : Fin k0_t60_loop.trips) : Fin 2 → Nat :=
  let c128_i32_2194 : BitVec 32 := 128#32
  let c0_i32_2021 : BitVec 32 := 0#32
  let c1_i32_2023 : BitVec 32 := 1#32
  let arg14 : BitVec 32 := Scf.iv c0_i32_2021 c1_i32_2023 k0_t60
  let v1641 : BitVec 32 := Scalar.addi c128_i32_2194 arg14
  let v1642 : Index := Scalar.indexCast v1641
  let c32_2195 : Index := 32#32
  ![v1642.toNat, 32]
def k0_off953 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1654 : Index := Scalar.indexCast arg14
  let c48 : Index := 48#32
  ![v1654.toNat, 48]
def k0_off954 (k0_t60 : Fin k0_t60_loop.trips) : Fin 2 → Nat :=
  let c128_i32_2201 : BitVec 32 := 128#32
  let c0_i32_2021 : BitVec 32 := 0#32
  let c1_i32_2023 : BitVec 32 := 1#32
  let arg14 : BitVec 32 := Scf.iv c0_i32_2021 c1_i32_2023 k0_t60
  let v1657 : BitVec 32 := Scalar.addi c128_i32_2201 arg14
  let v1658 : Index := Scalar.indexCast v1657
  let c48_2202 : Index := 48#32
  ![v1658.toNat, 48]
def k0_off955 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1670 : Index := Scalar.indexCast arg14
  let c64 : Index := 64#32
  ![v1670.toNat, 64]
def k0_off956 (k0_t60 : Fin k0_t60_loop.trips) : Fin 2 → Nat :=
  let c128_i32_2208 : BitVec 32 := 128#32
  let c0_i32_2021 : BitVec 32 := 0#32
  let c1_i32_2023 : BitVec 32 := 1#32
  let arg14 : BitVec 32 := Scf.iv c0_i32_2021 c1_i32_2023 k0_t60
  let v1673 : BitVec 32 := Scalar.addi c128_i32_2208 arg14
  let v1674 : Index := Scalar.indexCast v1673
  let c64_2209 : Index := 64#32
  ![v1674.toNat, 64]
def k0_off957 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1686 : Index := Scalar.indexCast arg14
  let c80 : Index := 80#32
  ![v1686.toNat, 80]
def k0_off958 (k0_t60 : Fin k0_t60_loop.trips) : Fin 2 → Nat :=
  let c128_i32_2215 : BitVec 32 := 128#32
  let c0_i32_2021 : BitVec 32 := 0#32
  let c1_i32_2023 : BitVec 32 := 1#32
  let arg14 : BitVec 32 := Scf.iv c0_i32_2021 c1_i32_2023 k0_t60
  let v1689 : BitVec 32 := Scalar.addi c128_i32_2215 arg14
  let v1690 : Index := Scalar.indexCast v1689
  let c80_2216 : Index := 80#32
  ![v1690.toNat, 80]
def k0_off959 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1702 : Index := Scalar.indexCast arg14
  let c96 : Index := 96#32
  ![v1702.toNat, 96]
def k0_off960 (k0_t60 : Fin k0_t60_loop.trips) : Fin 2 → Nat :=
  let c128_i32_2222 : BitVec 32 := 128#32
  let c0_i32_2021 : BitVec 32 := 0#32
  let c1_i32_2023 : BitVec 32 := 1#32
  let arg14 : BitVec 32 := Scf.iv c0_i32_2021 c1_i32_2023 k0_t60
  let v1705 : BitVec 32 := Scalar.addi c128_i32_2222 arg14
  let v1706 : Index := Scalar.indexCast v1705
  let c96_2223 : Index := 96#32
  ![v1706.toNat, 96]
def k0_off961 (k0_t60 : Fin k0_t60_loop.trips) : Fin 2 → Nat :=
  let c0_i32_2021 : BitVec 32 := 0#32
  let c1_i32_2023 : BitVec 32 := 1#32
  let arg14 : BitVec 32 := Scf.iv c0_i32_2021 c1_i32_2023 k0_t60
  let v1718 : Index := Scalar.indexCast arg14
  let c112 : Index := 112#32
  ![v1718.toNat, 112]
def k0_off962 (k0_t60 : Fin k0_t60_loop.trips) : Fin 2 → Nat :=
  let c128_i32_2229 : BitVec 32 := 128#32
  let c0_i32_2021 : BitVec 32 := 0#32
  let c1_i32_2023 : BitVec 32 := 1#32
  let arg14 : BitVec 32 := Scf.iv c0_i32_2021 c1_i32_2023 k0_t60
  let v1721 : BitVec 32 := Scalar.addi c128_i32_2229 arg14
  let v1722 : Index := Scalar.indexCast v1721
  let c112_2230 : Index := 112#32
  ![v1722.toNat, 112]
@[reducible] def k0_t61_loop : Scf.Loop 32 :=
  let c0_i32_2055 : BitVec 32 := 0#32
  let c128_i32_2056 : BitVec 32 := 128#32
  let v1512 : BitVec 32 := Scalar.addi c0_i32_2055 c128_i32_2056
  let c1_i32_2057 : BitVec 32 := 1#32
  ⟨c0_i32_2055, v1512, c1_i32_2057⟩
def k0_off963 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1606 : Index := Scalar.indexCast arg14
  let c0 : Index := 0#32
  ![v1606.toNat, 0]
def k0_off964 (k0_t61 : Fin k0_t61_loop.trips) : Fin 2 → Nat :=
  let c0_i32_2180 : BitVec 32 := 0#32
  let c0_i32_2055 : BitVec 32 := 0#32
  let c1_i32_2057 : BitVec 32 := 1#32
  let arg14 : BitVec 32 := Scf.iv c0_i32_2055 c1_i32_2057 k0_t61
  let v1609 : BitVec 32 := Scalar.addi c0_i32_2180 arg14
  let v1610 : Index := Scalar.indexCast v1609
  let c0_2181 : Index := 0#32
  ![v1610.toNat, 0]
def k0_off965 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1622 : Index := Scalar.indexCast arg14
  let c16 : Index := 16#32
  ![v1622.toNat, 16]
def k0_off966 (k0_t61 : Fin k0_t61_loop.trips) : Fin 2 → Nat :=
  let c0_i32_2187 : BitVec 32 := 0#32
  let c0_i32_2055 : BitVec 32 := 0#32
  let c1_i32_2057 : BitVec 32 := 1#32
  let arg14 : BitVec 32 := Scf.iv c0_i32_2055 c1_i32_2057 k0_t61
  let v1625 : BitVec 32 := Scalar.addi c0_i32_2187 arg14
  let v1626 : Index := Scalar.indexCast v1625
  let c16_2188 : Index := 16#32
  ![v1626.toNat, 16]
def k0_off967 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1638 : Index := Scalar.indexCast arg14
  let c32 : Index := 32#32
  ![v1638.toNat, 32]
def k0_off968 (k0_t61 : Fin k0_t61_loop.trips) : Fin 2 → Nat :=
  let c0_i32_2194 : BitVec 32 := 0#32
  let c0_i32_2055 : BitVec 32 := 0#32
  let c1_i32_2057 : BitVec 32 := 1#32
  let arg14 : BitVec 32 := Scf.iv c0_i32_2055 c1_i32_2057 k0_t61
  let v1641 : BitVec 32 := Scalar.addi c0_i32_2194 arg14
  let v1642 : Index := Scalar.indexCast v1641
  let c32_2195 : Index := 32#32
  ![v1642.toNat, 32]
def k0_off969 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1654 : Index := Scalar.indexCast arg14
  let c48 : Index := 48#32
  ![v1654.toNat, 48]
def k0_off970 (k0_t61 : Fin k0_t61_loop.trips) : Fin 2 → Nat :=
  let c0_i32_2201 : BitVec 32 := 0#32
  let c0_i32_2055 : BitVec 32 := 0#32
  let c1_i32_2057 : BitVec 32 := 1#32
  let arg14 : BitVec 32 := Scf.iv c0_i32_2055 c1_i32_2057 k0_t61
  let v1657 : BitVec 32 := Scalar.addi c0_i32_2201 arg14
  let v1658 : Index := Scalar.indexCast v1657
  let c48_2202 : Index := 48#32
  ![v1658.toNat, 48]
def k0_off971 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1670 : Index := Scalar.indexCast arg14
  let c64 : Index := 64#32
  ![v1670.toNat, 64]
def k0_off972 (k0_t61 : Fin k0_t61_loop.trips) : Fin 2 → Nat :=
  let c0_i32_2208 : BitVec 32 := 0#32
  let c0_i32_2055 : BitVec 32 := 0#32
  let c1_i32_2057 : BitVec 32 := 1#32
  let arg14 : BitVec 32 := Scf.iv c0_i32_2055 c1_i32_2057 k0_t61
  let v1673 : BitVec 32 := Scalar.addi c0_i32_2208 arg14
  let v1674 : Index := Scalar.indexCast v1673
  let c64_2209 : Index := 64#32
  ![v1674.toNat, 64]
def k0_off973 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1686 : Index := Scalar.indexCast arg14
  let c80 : Index := 80#32
  ![v1686.toNat, 80]
def k0_off974 (k0_t61 : Fin k0_t61_loop.trips) : Fin 2 → Nat :=
  let c0_i32_2215 : BitVec 32 := 0#32
  let c0_i32_2055 : BitVec 32 := 0#32
  let c1_i32_2057 : BitVec 32 := 1#32
  let arg14 : BitVec 32 := Scf.iv c0_i32_2055 c1_i32_2057 k0_t61
  let v1689 : BitVec 32 := Scalar.addi c0_i32_2215 arg14
  let v1690 : Index := Scalar.indexCast v1689
  let c80_2216 : Index := 80#32
  ![v1690.toNat, 80]
def k0_off975 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1702 : Index := Scalar.indexCast arg14
  let c96 : Index := 96#32
  ![v1702.toNat, 96]
def k0_off976 (k0_t61 : Fin k0_t61_loop.trips) : Fin 2 → Nat :=
  let c0_i32_2222 : BitVec 32 := 0#32
  let c0_i32_2055 : BitVec 32 := 0#32
  let c1_i32_2057 : BitVec 32 := 1#32
  let arg14 : BitVec 32 := Scf.iv c0_i32_2055 c1_i32_2057 k0_t61
  let v1705 : BitVec 32 := Scalar.addi c0_i32_2222 arg14
  let v1706 : Index := Scalar.indexCast v1705
  let c96_2223 : Index := 96#32
  ![v1706.toNat, 96]
def k0_off977 (k0_t61 : Fin k0_t61_loop.trips) : Fin 2 → Nat :=
  let c0_i32_2055 : BitVec 32 := 0#32
  let c1_i32_2057 : BitVec 32 := 1#32
  let arg14 : BitVec 32 := Scf.iv c0_i32_2055 c1_i32_2057 k0_t61
  let v1718 : Index := Scalar.indexCast arg14
  let c112 : Index := 112#32
  ![v1718.toNat, 112]
def k0_off978 (k0_t61 : Fin k0_t61_loop.trips) : Fin 2 → Nat :=
  let c0_i32_2229 : BitVec 32 := 0#32
  let c0_i32_2055 : BitVec 32 := 0#32
  let c1_i32_2057 : BitVec 32 := 1#32
  let arg14 : BitVec 32 := Scf.iv c0_i32_2055 c1_i32_2057 k0_t61
  let v1721 : BitVec 32 := Scalar.addi c0_i32_2229 arg14
  let v1722 : Index := Scalar.indexCast v1721
  let c112_2230 : Index := 112#32
  ![v1722.toNat, 112]
@[reducible] def k0_t62_loop : Scf.Loop 32 :=
  let c0_i32_2089 : BitVec 32 := 0#32
  let c128_i32_2090 : BitVec 32 := 128#32
  let v1537 : BitVec 32 := Scalar.addi c0_i32_2089 c128_i32_2090
  let c1_i32_2091 : BitVec 32 := 1#32
  ⟨c0_i32_2089, v1537, c1_i32_2091⟩
def k0_off979 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1606 : Index := Scalar.indexCast arg14
  let c0 : Index := 0#32
  ![v1606.toNat, 0]
def k0_off980 (k0_t62 : Fin k0_t62_loop.trips) : Fin 2 → Nat :=
  let c128_i32_2180 : BitVec 32 := 128#32
  let c0_i32_2089 : BitVec 32 := 0#32
  let c1_i32_2091 : BitVec 32 := 1#32
  let arg14 : BitVec 32 := Scf.iv c0_i32_2089 c1_i32_2091 k0_t62
  let v1609 : BitVec 32 := Scalar.addi c128_i32_2180 arg14
  let v1610 : Index := Scalar.indexCast v1609
  let c0_2181 : Index := 0#32
  ![v1610.toNat, 0]
def k0_off981 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1622 : Index := Scalar.indexCast arg14
  let c16 : Index := 16#32
  ![v1622.toNat, 16]
def k0_off982 (k0_t62 : Fin k0_t62_loop.trips) : Fin 2 → Nat :=
  let c128_i32_2187 : BitVec 32 := 128#32
  let c0_i32_2089 : BitVec 32 := 0#32
  let c1_i32_2091 : BitVec 32 := 1#32
  let arg14 : BitVec 32 := Scf.iv c0_i32_2089 c1_i32_2091 k0_t62
  let v1625 : BitVec 32 := Scalar.addi c128_i32_2187 arg14
  let v1626 : Index := Scalar.indexCast v1625
  let c16_2188 : Index := 16#32
  ![v1626.toNat, 16]
def k0_off983 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1638 : Index := Scalar.indexCast arg14
  let c32 : Index := 32#32
  ![v1638.toNat, 32]
def k0_off984 (k0_t62 : Fin k0_t62_loop.trips) : Fin 2 → Nat :=
  let c128_i32_2194 : BitVec 32 := 128#32
  let c0_i32_2089 : BitVec 32 := 0#32
  let c1_i32_2091 : BitVec 32 := 1#32
  let arg14 : BitVec 32 := Scf.iv c0_i32_2089 c1_i32_2091 k0_t62
  let v1641 : BitVec 32 := Scalar.addi c128_i32_2194 arg14
  let v1642 : Index := Scalar.indexCast v1641
  let c32_2195 : Index := 32#32
  ![v1642.toNat, 32]
def k0_off985 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1654 : Index := Scalar.indexCast arg14
  let c48 : Index := 48#32
  ![v1654.toNat, 48]
def k0_off986 (k0_t62 : Fin k0_t62_loop.trips) : Fin 2 → Nat :=
  let c128_i32_2201 : BitVec 32 := 128#32
  let c0_i32_2089 : BitVec 32 := 0#32
  let c1_i32_2091 : BitVec 32 := 1#32
  let arg14 : BitVec 32 := Scf.iv c0_i32_2089 c1_i32_2091 k0_t62
  let v1657 : BitVec 32 := Scalar.addi c128_i32_2201 arg14
  let v1658 : Index := Scalar.indexCast v1657
  let c48_2202 : Index := 48#32
  ![v1658.toNat, 48]
def k0_off987 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1670 : Index := Scalar.indexCast arg14
  let c64 : Index := 64#32
  ![v1670.toNat, 64]
def k0_off988 (k0_t62 : Fin k0_t62_loop.trips) : Fin 2 → Nat :=
  let c128_i32_2208 : BitVec 32 := 128#32
  let c0_i32_2089 : BitVec 32 := 0#32
  let c1_i32_2091 : BitVec 32 := 1#32
  let arg14 : BitVec 32 := Scf.iv c0_i32_2089 c1_i32_2091 k0_t62
  let v1673 : BitVec 32 := Scalar.addi c128_i32_2208 arg14
  let v1674 : Index := Scalar.indexCast v1673
  let c64_2209 : Index := 64#32
  ![v1674.toNat, 64]
def k0_off989 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1686 : Index := Scalar.indexCast arg14
  let c80 : Index := 80#32
  ![v1686.toNat, 80]
def k0_off990 (k0_t62 : Fin k0_t62_loop.trips) : Fin 2 → Nat :=
  let c128_i32_2215 : BitVec 32 := 128#32
  let c0_i32_2089 : BitVec 32 := 0#32
  let c1_i32_2091 : BitVec 32 := 1#32
  let arg14 : BitVec 32 := Scf.iv c0_i32_2089 c1_i32_2091 k0_t62
  let v1689 : BitVec 32 := Scalar.addi c128_i32_2215 arg14
  let v1690 : Index := Scalar.indexCast v1689
  let c80_2216 : Index := 80#32
  ![v1690.toNat, 80]
def k0_off991 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1702 : Index := Scalar.indexCast arg14
  let c96 : Index := 96#32
  ![v1702.toNat, 96]
def k0_off992 (k0_t62 : Fin k0_t62_loop.trips) : Fin 2 → Nat :=
  let c128_i32_2222 : BitVec 32 := 128#32
  let c0_i32_2089 : BitVec 32 := 0#32
  let c1_i32_2091 : BitVec 32 := 1#32
  let arg14 : BitVec 32 := Scf.iv c0_i32_2089 c1_i32_2091 k0_t62
  let v1705 : BitVec 32 := Scalar.addi c128_i32_2222 arg14
  let v1706 : Index := Scalar.indexCast v1705
  let c96_2223 : Index := 96#32
  ![v1706.toNat, 96]
def k0_off993 (k0_t62 : Fin k0_t62_loop.trips) : Fin 2 → Nat :=
  let c0_i32_2089 : BitVec 32 := 0#32
  let c1_i32_2091 : BitVec 32 := 1#32
  let arg14 : BitVec 32 := Scf.iv c0_i32_2089 c1_i32_2091 k0_t62
  let v1718 : Index := Scalar.indexCast arg14
  let c112 : Index := 112#32
  ![v1718.toNat, 112]
def k0_off994 (k0_t62 : Fin k0_t62_loop.trips) : Fin 2 → Nat :=
  let c128_i32_2229 : BitVec 32 := 128#32
  let c0_i32_2089 : BitVec 32 := 0#32
  let c1_i32_2091 : BitVec 32 := 1#32
  let arg14 : BitVec 32 := Scf.iv c0_i32_2089 c1_i32_2091 k0_t62
  let v1721 : BitVec 32 := Scalar.addi c128_i32_2229 arg14
  let v1722 : Index := Scalar.indexCast v1721
  let c112_2230 : Index := 112#32
  ![v1722.toNat, 112]
@[reducible] def k0_t63_loop : Scf.Loop 32 :=
  let c0_i32_2123 : BitVec 32 := 0#32
  let c128_i32_2124 : BitVec 32 := 128#32
  let v1562 : BitVec 32 := Scalar.addi c0_i32_2123 c128_i32_2124
  let c1_i32_2125 : BitVec 32 := 1#32
  ⟨c0_i32_2123, v1562, c1_i32_2125⟩
def k0_off995 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1606 : Index := Scalar.indexCast arg14
  let c0 : Index := 0#32
  ![v1606.toNat, 0]
def k0_off996 (k0_t63 : Fin k0_t63_loop.trips) : Fin 2 → Nat :=
  let c0_i32_2180 : BitVec 32 := 0#32
  let c0_i32_2123 : BitVec 32 := 0#32
  let c1_i32_2125 : BitVec 32 := 1#32
  let arg14 : BitVec 32 := Scf.iv c0_i32_2123 c1_i32_2125 k0_t63
  let v1609 : BitVec 32 := Scalar.addi c0_i32_2180 arg14
  let v1610 : Index := Scalar.indexCast v1609
  let c0_2181 : Index := 0#32
  ![v1610.toNat, 0]
def k0_off997 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1622 : Index := Scalar.indexCast arg14
  let c16 : Index := 16#32
  ![v1622.toNat, 16]
def k0_off998 (k0_t63 : Fin k0_t63_loop.trips) : Fin 2 → Nat :=
  let c0_i32_2187 : BitVec 32 := 0#32
  let c0_i32_2123 : BitVec 32 := 0#32
  let c1_i32_2125 : BitVec 32 := 1#32
  let arg14 : BitVec 32 := Scf.iv c0_i32_2123 c1_i32_2125 k0_t63
  let v1625 : BitVec 32 := Scalar.addi c0_i32_2187 arg14
  let v1626 : Index := Scalar.indexCast v1625
  let c16_2188 : Index := 16#32
  ![v1626.toNat, 16]
def k0_off999 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1638 : Index := Scalar.indexCast arg14
  let c32 : Index := 32#32
  ![v1638.toNat, 32]
def k0_off1000 (k0_t63 : Fin k0_t63_loop.trips) : Fin 2 → Nat :=
  let c0_i32_2194 : BitVec 32 := 0#32
  let c0_i32_2123 : BitVec 32 := 0#32
  let c1_i32_2125 : BitVec 32 := 1#32
  let arg14 : BitVec 32 := Scf.iv c0_i32_2123 c1_i32_2125 k0_t63
  let v1641 : BitVec 32 := Scalar.addi c0_i32_2194 arg14
  let v1642 : Index := Scalar.indexCast v1641
  let c32_2195 : Index := 32#32
  ![v1642.toNat, 32]
def k0_off1001 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1654 : Index := Scalar.indexCast arg14
  let c48 : Index := 48#32
  ![v1654.toNat, 48]
def k0_off1002 (k0_t63 : Fin k0_t63_loop.trips) : Fin 2 → Nat :=
  let c0_i32_2201 : BitVec 32 := 0#32
  let c0_i32_2123 : BitVec 32 := 0#32
  let c1_i32_2125 : BitVec 32 := 1#32
  let arg14 : BitVec 32 := Scf.iv c0_i32_2123 c1_i32_2125 k0_t63
  let v1657 : BitVec 32 := Scalar.addi c0_i32_2201 arg14
  let v1658 : Index := Scalar.indexCast v1657
  let c48_2202 : Index := 48#32
  ![v1658.toNat, 48]
def k0_off1003 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1670 : Index := Scalar.indexCast arg14
  let c64 : Index := 64#32
  ![v1670.toNat, 64]
def k0_off1004 (k0_t63 : Fin k0_t63_loop.trips) : Fin 2 → Nat :=
  let c0_i32_2208 : BitVec 32 := 0#32
  let c0_i32_2123 : BitVec 32 := 0#32
  let c1_i32_2125 : BitVec 32 := 1#32
  let arg14 : BitVec 32 := Scf.iv c0_i32_2123 c1_i32_2125 k0_t63
  let v1673 : BitVec 32 := Scalar.addi c0_i32_2208 arg14
  let v1674 : Index := Scalar.indexCast v1673
  let c64_2209 : Index := 64#32
  ![v1674.toNat, 64]
def k0_off1005 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1686 : Index := Scalar.indexCast arg14
  let c80 : Index := 80#32
  ![v1686.toNat, 80]
def k0_off1006 (k0_t63 : Fin k0_t63_loop.trips) : Fin 2 → Nat :=
  let c0_i32_2215 : BitVec 32 := 0#32
  let c0_i32_2123 : BitVec 32 := 0#32
  let c1_i32_2125 : BitVec 32 := 1#32
  let arg14 : BitVec 32 := Scf.iv c0_i32_2123 c1_i32_2125 k0_t63
  let v1689 : BitVec 32 := Scalar.addi c0_i32_2215 arg14
  let v1690 : Index := Scalar.indexCast v1689
  let c80_2216 : Index := 80#32
  ![v1690.toNat, 80]
def k0_off1007 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1702 : Index := Scalar.indexCast arg14
  let c96 : Index := 96#32
  ![v1702.toNat, 96]
def k0_off1008 (k0_t63 : Fin k0_t63_loop.trips) : Fin 2 → Nat :=
  let c0_i32_2222 : BitVec 32 := 0#32
  let c0_i32_2123 : BitVec 32 := 0#32
  let c1_i32_2125 : BitVec 32 := 1#32
  let arg14 : BitVec 32 := Scf.iv c0_i32_2123 c1_i32_2125 k0_t63
  let v1705 : BitVec 32 := Scalar.addi c0_i32_2222 arg14
  let v1706 : Index := Scalar.indexCast v1705
  let c96_2223 : Index := 96#32
  ![v1706.toNat, 96]
def k0_off1009 (k0_t63 : Fin k0_t63_loop.trips) : Fin 2 → Nat :=
  let c0_i32_2123 : BitVec 32 := 0#32
  let c1_i32_2125 : BitVec 32 := 1#32
  let arg14 : BitVec 32 := Scf.iv c0_i32_2123 c1_i32_2125 k0_t63
  let v1718 : Index := Scalar.indexCast arg14
  let c112 : Index := 112#32
  ![v1718.toNat, 112]
def k0_off1010 (k0_t63 : Fin k0_t63_loop.trips) : Fin 2 → Nat :=
  let c0_i32_2229 : BitVec 32 := 0#32
  let c0_i32_2123 : BitVec 32 := 0#32
  let c1_i32_2125 : BitVec 32 := 1#32
  let arg14 : BitVec 32 := Scf.iv c0_i32_2123 c1_i32_2125 k0_t63
  let v1721 : BitVec 32 := Scalar.addi c0_i32_2229 arg14
  let v1722 : Index := Scalar.indexCast v1721
  let c112_2230 : Index := 112#32
  ![v1722.toNat, 112]
@[reducible] def k0_t64_loop : Scf.Loop 32 :=
  let c0_i32_2151 : BitVec 32 := 0#32
  let c128_i32_2152 : BitVec 32 := 128#32
  let v1582 : BitVec 32 := Scalar.addi c0_i32_2151 c128_i32_2152
  let c1_i32_2153 : BitVec 32 := 1#32
  ⟨c0_i32_2151, v1582, c1_i32_2153⟩
def k0_off1011 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1606 : Index := Scalar.indexCast arg14
  let c0 : Index := 0#32
  ![v1606.toNat, 0]
def k0_off1012 (k0_t64 : Fin k0_t64_loop.trips) : Fin 2 → Nat :=
  let c128_i32_2180 : BitVec 32 := 128#32
  let c0_i32_2151 : BitVec 32 := 0#32
  let c1_i32_2153 : BitVec 32 := 1#32
  let arg14 : BitVec 32 := Scf.iv c0_i32_2151 c1_i32_2153 k0_t64
  let v1609 : BitVec 32 := Scalar.addi c128_i32_2180 arg14
  let v1610 : Index := Scalar.indexCast v1609
  let c0_2181 : Index := 0#32
  ![v1610.toNat, 0]
def k0_off1013 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1622 : Index := Scalar.indexCast arg14
  let c16 : Index := 16#32
  ![v1622.toNat, 16]
def k0_off1014 (k0_t64 : Fin k0_t64_loop.trips) : Fin 2 → Nat :=
  let c128_i32_2187 : BitVec 32 := 128#32
  let c0_i32_2151 : BitVec 32 := 0#32
  let c1_i32_2153 : BitVec 32 := 1#32
  let arg14 : BitVec 32 := Scf.iv c0_i32_2151 c1_i32_2153 k0_t64
  let v1625 : BitVec 32 := Scalar.addi c128_i32_2187 arg14
  let v1626 : Index := Scalar.indexCast v1625
  let c16_2188 : Index := 16#32
  ![v1626.toNat, 16]
def k0_off1015 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1638 : Index := Scalar.indexCast arg14
  let c32 : Index := 32#32
  ![v1638.toNat, 32]
def k0_off1016 (k0_t64 : Fin k0_t64_loop.trips) : Fin 2 → Nat :=
  let c128_i32_2194 : BitVec 32 := 128#32
  let c0_i32_2151 : BitVec 32 := 0#32
  let c1_i32_2153 : BitVec 32 := 1#32
  let arg14 : BitVec 32 := Scf.iv c0_i32_2151 c1_i32_2153 k0_t64
  let v1641 : BitVec 32 := Scalar.addi c128_i32_2194 arg14
  let v1642 : Index := Scalar.indexCast v1641
  let c32_2195 : Index := 32#32
  ![v1642.toNat, 32]
def k0_off1017 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1654 : Index := Scalar.indexCast arg14
  let c48 : Index := 48#32
  ![v1654.toNat, 48]
def k0_off1018 (k0_t64 : Fin k0_t64_loop.trips) : Fin 2 → Nat :=
  let c128_i32_2201 : BitVec 32 := 128#32
  let c0_i32_2151 : BitVec 32 := 0#32
  let c1_i32_2153 : BitVec 32 := 1#32
  let arg14 : BitVec 32 := Scf.iv c0_i32_2151 c1_i32_2153 k0_t64
  let v1657 : BitVec 32 := Scalar.addi c128_i32_2201 arg14
  let v1658 : Index := Scalar.indexCast v1657
  let c48_2202 : Index := 48#32
  ![v1658.toNat, 48]
def k0_off1019 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1670 : Index := Scalar.indexCast arg14
  let c64 : Index := 64#32
  ![v1670.toNat, 64]
def k0_off1020 (k0_t64 : Fin k0_t64_loop.trips) : Fin 2 → Nat :=
  let c128_i32_2208 : BitVec 32 := 128#32
  let c0_i32_2151 : BitVec 32 := 0#32
  let c1_i32_2153 : BitVec 32 := 1#32
  let arg14 : BitVec 32 := Scf.iv c0_i32_2151 c1_i32_2153 k0_t64
  let v1673 : BitVec 32 := Scalar.addi c128_i32_2208 arg14
  let v1674 : Index := Scalar.indexCast v1673
  let c64_2209 : Index := 64#32
  ![v1674.toNat, 64]
def k0_off1021 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1686 : Index := Scalar.indexCast arg14
  let c80 : Index := 80#32
  ![v1686.toNat, 80]
def k0_off1022 (k0_t64 : Fin k0_t64_loop.trips) : Fin 2 → Nat :=
  let c128_i32_2215 : BitVec 32 := 128#32
  let c0_i32_2151 : BitVec 32 := 0#32
  let c1_i32_2153 : BitVec 32 := 1#32
  let arg14 : BitVec 32 := Scf.iv c0_i32_2151 c1_i32_2153 k0_t64
  let v1689 : BitVec 32 := Scalar.addi c128_i32_2215 arg14
  let v1690 : Index := Scalar.indexCast v1689
  let c80_2216 : Index := 80#32
  ![v1690.toNat, 80]
def k0_off1023 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1702 : Index := Scalar.indexCast arg14
  let c96 : Index := 96#32
  ![v1702.toNat, 96]
def k0_off1024 (k0_t64 : Fin k0_t64_loop.trips) : Fin 2 → Nat :=
  let c128_i32_2222 : BitVec 32 := 128#32
  let c0_i32_2151 : BitVec 32 := 0#32
  let c1_i32_2153 : BitVec 32 := 1#32
  let arg14 : BitVec 32 := Scf.iv c0_i32_2151 c1_i32_2153 k0_t64
  let v1705 : BitVec 32 := Scalar.addi c128_i32_2222 arg14
  let v1706 : Index := Scalar.indexCast v1705
  let c96_2223 : Index := 96#32
  ![v1706.toNat, 96]
def k0_off1025 (k0_t64 : Fin k0_t64_loop.trips) : Fin 2 → Nat :=
  let c0_i32_2151 : BitVec 32 := 0#32
  let c1_i32_2153 : BitVec 32 := 1#32
  let arg14 : BitVec 32 := Scf.iv c0_i32_2151 c1_i32_2153 k0_t64
  let v1718 : Index := Scalar.indexCast arg14
  let c112 : Index := 112#32
  ![v1718.toNat, 112]
def k0_off1026 (k0_t64 : Fin k0_t64_loop.trips) : Fin 2 → Nat :=
  let c128_i32_2229 : BitVec 32 := 128#32
  let c0_i32_2151 : BitVec 32 := 0#32
  let c1_i32_2153 : BitVec 32 := 1#32
  let arg14 : BitVec 32 := Scf.iv c0_i32_2151 c1_i32_2153 k0_t64
  let v1721 : BitVec 32 := Scalar.addi c128_i32_2229 arg14
  let v1722 : Index := Scalar.indexCast v1721
  let c112_2230 : Index := 112#32
  ![v1722.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.R1.Facts₀ : Prop where
  hcore0 : grid0.bound 0 ≤ τ.nSC
  hsub0 : grid0.bound 1 ≤ τ.nSub
  k0_off1_inb : ∀ i : grid0.Coords, ∀ a, (k0_off1 i) a + S64x128.size a ≤ S2048x128.size a
  k0_t1_ok : k0_t1_loop.OK
  k0_off2_inb : ∀ k0_t1 : Fin k0_t1_loop.trips, ∀ a, (k0_off2 k0_t1) a + S1x16.size a ≤ S128x128.size a
  k0_off3_inb : ∀ k0_t1 : Fin k0_t1_loop.trips, ∀ a, (k0_off3 k0_t1) a + S1x16.size a ≤ S256x128.size a
  k0_off4_inb : ∀ k0_t1 : Fin k0_t1_loop.trips, ∀ a, (k0_off4 k0_t1) a + S1x16.size a ≤ S128x128.size a
  k0_off5_inb : ∀ k0_t1 : Fin k0_t1_loop.trips, ∀ a, (k0_off5 k0_t1) a + S1x16.size a ≤ S256x128.size a
  k0_off6_inb : ∀ k0_t1 : Fin k0_t1_loop.trips, ∀ a, (k0_off6 k0_t1) a + S1x16.size a ≤ S128x128.size a
  k0_off7_inb : ∀ k0_t1 : Fin k0_t1_loop.trips, ∀ a, (k0_off7 k0_t1) a + S1x16.size a ≤ S256x128.size a
  k0_off8_inb : ∀ k0_t1 : Fin k0_t1_loop.trips, ∀ a, (k0_off8 k0_t1) a + S1x16.size a ≤ S128x128.size a
  k0_off9_inb : ∀ k0_t1 : Fin k0_t1_loop.trips, ∀ a, (k0_off9 k0_t1) a + S1x16.size a ≤ S256x128.size a
  k0_off10_inb : ∀ k0_t1 : Fin k0_t1_loop.trips, ∀ a, (k0_off10 k0_t1) a + S1x16.size a ≤ S128x128.size a
  k0_off11_inb : ∀ k0_t1 : Fin k0_t1_loop.trips, ∀ a, (k0_off11 k0_t1) a + S1x16.size a ≤ S256x128.size a
  k0_off12_inb : ∀ k0_t1 : Fin k0_t1_loop.trips, ∀ a, (k0_off12 k0_t1) a + S1x16.size a ≤ S128x128.size a
  k0_off13_inb : ∀ k0_t1 : Fin k0_t1_loop.trips, ∀ a, (k0_off13 k0_t1) a + S1x16.size a ≤ S256x128.size a
  k0_off14_inb : ∀ k0_t1 : Fin k0_t1_loop.trips, ∀ a, (k0_off14 k0_t1) a + S1x16.size a ≤ S128x128.size a
  k0_off15_inb : ∀ k0_t1 : Fin k0_t1_loop.trips, ∀ a, (k0_off15 k0_t1) a + S1x16.size a ≤ S256x128.size a
  k0_off16_inb : ∀ k0_t1 : Fin k0_t1_loop.trips, ∀ a, (k0_off16 k0_t1) a + S1x16.size a ≤ S128x128.size a
  k0_off17_inb : ∀ k0_t1 : Fin k0_t1_loop.trips, ∀ a, (k0_off17 k0_t1) a + S1x16.size a ≤ S256x128.size a
  k0_off18_inb : ∀ i : grid0.Coords, ∀ (r : Fin 64), ∀ a, (k0_off18 i (BitVec.ofNat 32 (128 * r.val))) a + S128x128.size a ≤ S262144x128.size a
  k0_t2_ok : k0_t2_loop.OK
  k0_off19_inb : ∀ k0_t2 : Fin k0_t2_loop.trips, ∀ a, (k0_off19 k0_t2) a + S1x16.size a ≤ S128x128.size a
  k0_off20_inb : ∀ k0_t2 : Fin k0_t2_loop.trips, ∀ a, (k0_off20 k0_t2) a + S1x16.size a ≤ S256x128.size a
  k0_off21_inb : ∀ k0_t2 : Fin k0_t2_loop.trips, ∀ a, (k0_off21 k0_t2) a + S1x16.size a ≤ S128x128.size a
  k0_off22_inb : ∀ k0_t2 : Fin k0_t2_loop.trips, ∀ a, (k0_off22 k0_t2) a + S1x16.size a ≤ S256x128.size a
  k0_off23_inb : ∀ k0_t2 : Fin k0_t2_loop.trips, ∀ a, (k0_off23 k0_t2) a + S1x16.size a ≤ S128x128.size a
  k0_off24_inb : ∀ k0_t2 : Fin k0_t2_loop.trips, ∀ a, (k0_off24 k0_t2) a + S1x16.size a ≤ S256x128.size a
  k0_off25_inb : ∀ k0_t2 : Fin k0_t2_loop.trips, ∀ a, (k0_off25 k0_t2) a + S1x16.size a ≤ S128x128.size a
  k0_off26_inb : ∀ k0_t2 : Fin k0_t2_loop.trips, ∀ a, (k0_off26 k0_t2) a + S1x16.size a ≤ S256x128.size a
  k0_off27_inb : ∀ k0_t2 : Fin k0_t2_loop.trips, ∀ a, (k0_off27 k0_t2) a + S1x16.size a ≤ S128x128.size a
  k0_off28_inb : ∀ k0_t2 : Fin k0_t2_loop.trips, ∀ a, (k0_off28 k0_t2) a + S1x16.size a ≤ S256x128.size a
  k0_off29_inb : ∀ k0_t2 : Fin k0_t2_loop.trips, ∀ a, (k0_off29 k0_t2) a + S1x16.size a ≤ S128x128.size a
  k0_off30_inb : ∀ k0_t2 : Fin k0_t2_loop.trips, ∀ a, (k0_off30 k0_t2) a + S1x16.size a ≤ S256x128.size a
  k0_off31_inb : ∀ k0_t2 : Fin k0_t2_loop.trips, ∀ a, (k0_off31 k0_t2) a + S1x16.size a ≤ S128x128.size a
  k0_off32_inb : ∀ k0_t2 : Fin k0_t2_loop.trips, ∀ a, (k0_off32 k0_t2) a + S1x16.size a ≤ S256x128.size a
  k0_off33_inb : ∀ k0_t2 : Fin k0_t2_loop.trips, ∀ a, (k0_off33 k0_t2) a + S1x16.size a ≤ S128x128.size a
  k0_off34_inb : ∀ k0_t2 : Fin k0_t2_loop.trips, ∀ a, (k0_off34 k0_t2) a + S1x16.size a ≤ S256x128.size a
  k0_t3_ok : k0_t3_loop.OK
  k0_off35_inb : ∀ k0_t3 : Fin k0_t3_loop.trips, ∀ a, (k0_off35 k0_t3) a + S1x16.size a ≤ S128x128.size a
  k0_off36_inb : ∀ k0_t3 : Fin k0_t3_loop.trips, ∀ a, (k0_off36 k0_t3) a + S1x16.size a ≤ S256x128.size a
  k0_off37_inb : ∀ k0_t3 : Fin k0_t3_loop.trips, ∀ a, (k0_off37 k0_t3) a + S1x16.size a ≤ S128x128.size a
  k0_off38_inb : ∀ k0_t3 : Fin k0_t3_loop.trips, ∀ a, (k0_off38 k0_t3) a + S1x16.size a ≤ S256x128.size a
  k0_off39_inb : ∀ k0_t3 : Fin k0_t3_loop.trips, ∀ a, (k0_off39 k0_t3) a + S1x16.size a ≤ S128x128.size a
  k0_off40_inb : ∀ k0_t3 : Fin k0_t3_loop.trips, ∀ a, (k0_off40 k0_t3) a + S1x16.size a ≤ S256x128.size a
  k0_off41_inb : ∀ k0_t3 : Fin k0_t3_loop.trips, ∀ a, (k0_off41 k0_t3) a + S1x16.size a ≤ S128x128.size a
  k0_off42_inb : ∀ k0_t3 : Fin k0_t3_loop.trips, ∀ a, (k0_off42 k0_t3) a + S1x16.size a ≤ S256x128.size a
  k0_off43_inb : ∀ k0_t3 : Fin k0_t3_loop.trips, ∀ a, (k0_off43 k0_t3) a + S1x16.size a ≤ S128x128.size a
  k0_off44_inb : ∀ k0_t3 : Fin k0_t3_loop.trips, ∀ a, (k0_off44 k0_t3) a + S1x16.size a ≤ S256x128.size a
  k0_off45_inb : ∀ k0_t3 : Fin k0_t3_loop.trips, ∀ a, (k0_off45 k0_t3) a + S1x16.size a ≤ S128x128.size a
  k0_off46_inb : ∀ k0_t3 : Fin k0_t3_loop.trips, ∀ a, (k0_off46 k0_t3) a + S1x16.size a ≤ S256x128.size a
  k0_off47_inb : ∀ k0_t3 : Fin k0_t3_loop.trips, ∀ a, (k0_off47 k0_t3) a + S1x16.size a ≤ S128x128.size a
  k0_off48_inb : ∀ k0_t3 : Fin k0_t3_loop.trips, ∀ a, (k0_off48 k0_t3) a + S1x16.size a ≤ S256x128.size a
  k0_off49_inb : ∀ k0_t3 : Fin k0_t3_loop.trips, ∀ a, (k0_off49 k0_t3) a + S1x16.size a ≤ S128x128.size a
  k0_off50_inb : ∀ k0_t3 : Fin k0_t3_loop.trips, ∀ a, (k0_off50 k0_t3) a + S1x16.size a ≤ S256x128.size a
  k0_t4_ok : k0_t4_loop.OK
  k0_off51_inb : ∀ k0_t4 : Fin k0_t4_loop.trips, ∀ a, (k0_off51 k0_t4) a + S1x16.size a ≤ S128x128.size a
  k0_off52_inb : ∀ k0_t4 : Fin k0_t4_loop.trips, ∀ a, (k0_off52 k0_t4) a + S1x16.size a ≤ S256x128.size a
  k0_off53_inb : ∀ k0_t4 : Fin k0_t4_loop.trips, ∀ a, (k0_off53 k0_t4) a + S1x16.size a ≤ S128x128.size a
  k0_off54_inb : ∀ k0_t4 : Fin k0_t4_loop.trips, ∀ a, (k0_off54 k0_t4) a + S1x16.size a ≤ S256x128.size a
  k0_off55_inb : ∀ k0_t4 : Fin k0_t4_loop.trips, ∀ a, (k0_off55 k0_t4) a + S1x16.size a ≤ S128x128.size a
  k0_off56_inb : ∀ k0_t4 : Fin k0_t4_loop.trips, ∀ a, (k0_off56 k0_t4) a + S1x16.size a ≤ S256x128.size a
  k0_off57_inb : ∀ k0_t4 : Fin k0_t4_loop.trips, ∀ a, (k0_off57 k0_t4) a + S1x16.size a ≤ S128x128.size a
  k0_off58_inb : ∀ k0_t4 : Fin k0_t4_loop.trips, ∀ a, (k0_off58 k0_t4) a + S1x16.size a ≤ S256x128.size a
  k0_off59_inb : ∀ k0_t4 : Fin k0_t4_loop.trips, ∀ a, (k0_off59 k0_t4) a + S1x16.size a ≤ S128x128.size a
  k0_off60_inb : ∀ k0_t4 : Fin k0_t4_loop.trips, ∀ a, (k0_off60 k0_t4) a + S1x16.size a ≤ S256x128.size a
  k0_off61_inb : ∀ k0_t4 : Fin k0_t4_loop.trips, ∀ a, (k0_off61 k0_t4) a + S1x16.size a ≤ S128x128.size a
  k0_off62_inb : ∀ k0_t4 : Fin k0_t4_loop.trips, ∀ a, (k0_off62 k0_t4) a + S1x16.size a ≤ S256x128.size a
  k0_off63_inb : ∀ k0_t4 : Fin k0_t4_loop.trips, ∀ a, (k0_off63 k0_t4) a + S1x16.size a ≤ S128x128.size a
  k0_off64_inb : ∀ k0_t4 : Fin k0_t4_loop.trips, ∀ a, (k0_off64 k0_t4) a + S1x16.size a ≤ S256x128.size a
  k0_off65_inb : ∀ k0_t4 : Fin k0_t4_loop.trips, ∀ a, (k0_off65 k0_t4) a + S1x16.size a ≤ S128x128.size a
  k0_off66_inb : ∀ k0_t4 : Fin k0_t4_loop.trips, ∀ a, (k0_off66 k0_t4) a + S1x16.size a ≤ S256x128.size a
  k0_t5_ok : k0_t5_loop.OK
  k0_off67_inb : ∀ k0_t5 : Fin k0_t5_loop.trips, ∀ a, (k0_off67 k0_t5) a + S1x16.size a ≤ S128x128.size a
  k0_off68_inb : ∀ k0_t5 : Fin k0_t5_loop.trips, ∀ a, (k0_off68 k0_t5) a + S1x16.size a ≤ S256x128.size a
  k0_off69_inb : ∀ k0_t5 : Fin k0_t5_loop.trips, ∀ a, (k0_off69 k0_t5) a + S1x16.size a ≤ S128x128.size a
  k0_off70_inb : ∀ k0_t5 : Fin k0_t5_loop.trips, ∀ a, (k0_off70 k0_t5) a + S1x16.size a ≤ S256x128.size a
  k0_off71_inb : ∀ k0_t5 : Fin k0_t5_loop.trips, ∀ a, (k0_off71 k0_t5) a + S1x16.size a ≤ S128x128.size a
  k0_off72_inb : ∀ k0_t5 : Fin k0_t5_loop.trips, ∀ a, (k0_off72 k0_t5) a + S1x16.size a ≤ S256x128.size a
  k0_off73_inb : ∀ k0_t5 : Fin k0_t5_loop.trips, ∀ a, (k0_off73 k0_t5) a + S1x16.size a ≤ S128x128.size a
  k0_off74_inb : ∀ k0_t5 : Fin k0_t5_loop.trips, ∀ a, (k0_off74 k0_t5) a + S1x16.size a ≤ S256x128.size a
  k0_off75_inb : ∀ k0_t5 : Fin k0_t5_loop.trips, ∀ a, (k0_off75 k0_t5) a + S1x16.size a ≤ S128x128.size a
  k0_off76_inb : ∀ k0_t5 : Fin k0_t5_loop.trips, ∀ a, (k0_off76 k0_t5) a + S1x16.size a ≤ S256x128.size a
  k0_off77_inb : ∀ k0_t5 : Fin k0_t5_loop.trips, ∀ a, (k0_off77 k0_t5) a + S1x16.size a ≤ S128x128.size a
  k0_off78_inb : ∀ k0_t5 : Fin k0_t5_loop.trips, ∀ a, (k0_off78 k0_t5) a + S1x16.size a ≤ S256x128.size a
  k0_off79_inb : ∀ k0_t5 : Fin k0_t5_loop.trips, ∀ a, (k0_off79 k0_t5) a + S1x16.size a ≤ S128x128.size a
  k0_off80_inb : ∀ k0_t5 : Fin k0_t5_loop.trips, ∀ a, (k0_off80 k0_t5) a + S1x16.size a ≤ S256x128.size a
  k0_off81_inb : ∀ k0_t5 : Fin k0_t5_loop.trips, ∀ a, (k0_off81 k0_t5) a + S1x16.size a ≤ S128x128.size a
  k0_off82_inb : ∀ k0_t5 : Fin k0_t5_loop.trips, ∀ a, (k0_off82 k0_t5) a + S1x16.size a ≤ S256x128.size a
  k0_t6_ok : k0_t6_loop.OK
  k0_off83_inb : ∀ k0_t6 : Fin k0_t6_loop.trips, ∀ a, (k0_off83 k0_t6) a + S1x16.size a ≤ S128x128.size a
  k0_off84_inb : ∀ k0_t6 : Fin k0_t6_loop.trips, ∀ a, (k0_off84 k0_t6) a + S1x16.size a ≤ S256x128.size a
  k0_off85_inb : ∀ k0_t6 : Fin k0_t6_loop.trips, ∀ a, (k0_off85 k0_t6) a + S1x16.size a ≤ S128x128.size a
  k0_off86_inb : ∀ k0_t6 : Fin k0_t6_loop.trips, ∀ a, (k0_off86 k0_t6) a + S1x16.size a ≤ S256x128.size a
  k0_off87_inb : ∀ k0_t6 : Fin k0_t6_loop.trips, ∀ a, (k0_off87 k0_t6) a + S1x16.size a ≤ S128x128.size a
  k0_off88_inb : ∀ k0_t6 : Fin k0_t6_loop.trips, ∀ a, (k0_off88 k0_t6) a + S1x16.size a ≤ S256x128.size a
  k0_off89_inb : ∀ k0_t6 : Fin k0_t6_loop.trips, ∀ a, (k0_off89 k0_t6) a + S1x16.size a ≤ S128x128.size a
  k0_off90_inb : ∀ k0_t6 : Fin k0_t6_loop.trips, ∀ a, (k0_off90 k0_t6) a + S1x16.size a ≤ S256x128.size a
  k0_off91_inb : ∀ k0_t6 : Fin k0_t6_loop.trips, ∀ a, (k0_off91 k0_t6) a + S1x16.size a ≤ S128x128.size a
  k0_off92_inb : ∀ k0_t6 : Fin k0_t6_loop.trips, ∀ a, (k0_off92 k0_t6) a + S1x16.size a ≤ S256x128.size a
  k0_off93_inb : ∀ k0_t6 : Fin k0_t6_loop.trips, ∀ a, (k0_off93 k0_t6) a + S1x16.size a ≤ S128x128.size a
  k0_off94_inb : ∀ k0_t6 : Fin k0_t6_loop.trips, ∀ a, (k0_off94 k0_t6) a + S1x16.size a ≤ S256x128.size a
  k0_off95_inb : ∀ k0_t6 : Fin k0_t6_loop.trips, ∀ a, (k0_off95 k0_t6) a + S1x16.size a ≤ S128x128.size a
  k0_off96_inb : ∀ k0_t6 : Fin k0_t6_loop.trips, ∀ a, (k0_off96 k0_t6) a + S1x16.size a ≤ S256x128.size a
  k0_off97_inb : ∀ k0_t6 : Fin k0_t6_loop.trips, ∀ a, (k0_off97 k0_t6) a + S1x16.size a ≤ S128x128.size a
  k0_off98_inb : ∀ k0_t6 : Fin k0_t6_loop.trips, ∀ a, (k0_off98 k0_t6) a + S1x16.size a ≤ S256x128.size a
  k0_t7_ok : k0_t7_loop.OK
  k0_off99_inb : ∀ k0_t7 : Fin k0_t7_loop.trips, ∀ a, (k0_off99 k0_t7) a + S1x16.size a ≤ S128x128.size a
  k0_off100_inb : ∀ k0_t7 : Fin k0_t7_loop.trips, ∀ a, (k0_off100 k0_t7) a + S1x16.size a ≤ S256x128.size a
  k0_off101_inb : ∀ k0_t7 : Fin k0_t7_loop.trips, ∀ a, (k0_off101 k0_t7) a + S1x16.size a ≤ S128x128.size a
  k0_off102_inb : ∀ k0_t7 : Fin k0_t7_loop.trips, ∀ a, (k0_off102 k0_t7) a + S1x16.size a ≤ S256x128.size a
  k0_off103_inb : ∀ k0_t7 : Fin k0_t7_loop.trips, ∀ a, (k0_off103 k0_t7) a + S1x16.size a ≤ S128x128.size a
  k0_off104_inb : ∀ k0_t7 : Fin k0_t7_loop.trips, ∀ a, (k0_off104 k0_t7) a + S1x16.size a ≤ S256x128.size a
  k0_off105_inb : ∀ k0_t7 : Fin k0_t7_loop.trips, ∀ a, (k0_off105 k0_t7) a + S1x16.size a ≤ S128x128.size a
  k0_off106_inb : ∀ k0_t7 : Fin k0_t7_loop.trips, ∀ a, (k0_off106 k0_t7) a + S1x16.size a ≤ S256x128.size a
  k0_off107_inb : ∀ k0_t7 : Fin k0_t7_loop.trips, ∀ a, (k0_off107 k0_t7) a + S1x16.size a ≤ S128x128.size a
  k0_off108_inb : ∀ k0_t7 : Fin k0_t7_loop.trips, ∀ a, (k0_off108 k0_t7) a + S1x16.size a ≤ S256x128.size a
  k0_off109_inb : ∀ k0_t7 : Fin k0_t7_loop.trips, ∀ a, (k0_off109 k0_t7) a + S1x16.size a ≤ S128x128.size a
  k0_off110_inb : ∀ k0_t7 : Fin k0_t7_loop.trips, ∀ a, (k0_off110 k0_t7) a + S1x16.size a ≤ S256x128.size a
  k0_off111_inb : ∀ k0_t7 : Fin k0_t7_loop.trips, ∀ a, (k0_off111 k0_t7) a + S1x16.size a ≤ S128x128.size a
  k0_off112_inb : ∀ k0_t7 : Fin k0_t7_loop.trips, ∀ a, (k0_off112 k0_t7) a + S1x16.size a ≤ S256x128.size a
  k0_off113_inb : ∀ k0_t7 : Fin k0_t7_loop.trips, ∀ a, (k0_off113 k0_t7) a + S1x16.size a ≤ S128x128.size a
  k0_off114_inb : ∀ k0_t7 : Fin k0_t7_loop.trips, ∀ a, (k0_off114 k0_t7) a + S1x16.size a ≤ S256x128.size a
  k0_t8_ok : k0_t8_loop.OK
  k0_off115_inb : ∀ k0_t8 : Fin k0_t8_loop.trips, ∀ a, (k0_off115 k0_t8) a + S1x16.size a ≤ S128x128.size a
  k0_off116_inb : ∀ k0_t8 : Fin k0_t8_loop.trips, ∀ a, (k0_off116 k0_t8) a + S1x16.size a ≤ S256x128.size a
  k0_off117_inb : ∀ k0_t8 : Fin k0_t8_loop.trips, ∀ a, (k0_off117 k0_t8) a + S1x16.size a ≤ S128x128.size a
  k0_off118_inb : ∀ k0_t8 : Fin k0_t8_loop.trips, ∀ a, (k0_off118 k0_t8) a + S1x16.size a ≤ S256x128.size a
  k0_off119_inb : ∀ k0_t8 : Fin k0_t8_loop.trips, ∀ a, (k0_off119 k0_t8) a + S1x16.size a ≤ S128x128.size a
  k0_off120_inb : ∀ k0_t8 : Fin k0_t8_loop.trips, ∀ a, (k0_off120 k0_t8) a + S1x16.size a ≤ S256x128.size a
  k0_off121_inb : ∀ k0_t8 : Fin k0_t8_loop.trips, ∀ a, (k0_off121 k0_t8) a + S1x16.size a ≤ S128x128.size a
  k0_off122_inb : ∀ k0_t8 : Fin k0_t8_loop.trips, ∀ a, (k0_off122 k0_t8) a + S1x16.size a ≤ S256x128.size a
  k0_off123_inb : ∀ k0_t8 : Fin k0_t8_loop.trips, ∀ a, (k0_off123 k0_t8) a + S1x16.size a ≤ S128x128.size a
  k0_off124_inb : ∀ k0_t8 : Fin k0_t8_loop.trips, ∀ a, (k0_off124 k0_t8) a + S1x16.size a ≤ S256x128.size a
  k0_off125_inb : ∀ k0_t8 : Fin k0_t8_loop.trips, ∀ a, (k0_off125 k0_t8) a + S1x16.size a ≤ S128x128.size a
  k0_off126_inb : ∀ k0_t8 : Fin k0_t8_loop.trips, ∀ a, (k0_off126 k0_t8) a + S1x16.size a ≤ S256x128.size a
  k0_off127_inb : ∀ k0_t8 : Fin k0_t8_loop.trips, ∀ a, (k0_off127 k0_t8) a + S1x16.size a ≤ S128x128.size a
  k0_off128_inb : ∀ k0_t8 : Fin k0_t8_loop.trips, ∀ a, (k0_off128 k0_t8) a + S1x16.size a ≤ S256x128.size a
  k0_off129_inb : ∀ k0_t8 : Fin k0_t8_loop.trips, ∀ a, (k0_off129 k0_t8) a + S1x16.size a ≤ S128x128.size a
  k0_off130_inb : ∀ k0_t8 : Fin k0_t8_loop.trips, ∀ a, (k0_off130 k0_t8) a + S1x16.size a ≤ S256x128.size a
  k0_t9_ok : k0_t9_loop.OK
  k0_off131_inb : ∀ k0_t9 : Fin k0_t9_loop.trips, ∀ a, (k0_off131 k0_t9) a + S1x16.size a ≤ S128x128.size a
  k0_off132_inb : ∀ k0_t9 : Fin k0_t9_loop.trips, ∀ a, (k0_off132 k0_t9) a + S1x16.size a ≤ S256x128.size a
  k0_off133_inb : ∀ k0_t9 : Fin k0_t9_loop.trips, ∀ a, (k0_off133 k0_t9) a + S1x16.size a ≤ S128x128.size a
  k0_off134_inb : ∀ k0_t9 : Fin k0_t9_loop.trips, ∀ a, (k0_off134 k0_t9) a + S1x16.size a ≤ S256x128.size a
  k0_off135_inb : ∀ k0_t9 : Fin k0_t9_loop.trips, ∀ a, (k0_off135 k0_t9) a + S1x16.size a ≤ S128x128.size a
  k0_off136_inb : ∀ k0_t9 : Fin k0_t9_loop.trips, ∀ a, (k0_off136 k0_t9) a + S1x16.size a ≤ S256x128.size a
  k0_off137_inb : ∀ k0_t9 : Fin k0_t9_loop.trips, ∀ a, (k0_off137 k0_t9) a + S1x16.size a ≤ S128x128.size a
  k0_off138_inb : ∀ k0_t9 : Fin k0_t9_loop.trips, ∀ a, (k0_off138 k0_t9) a + S1x16.size a ≤ S256x128.size a
  k0_off139_inb : ∀ k0_t9 : Fin k0_t9_loop.trips, ∀ a, (k0_off139 k0_t9) a + S1x16.size a ≤ S128x128.size a
  k0_off140_inb : ∀ k0_t9 : Fin k0_t9_loop.trips, ∀ a, (k0_off140 k0_t9) a + S1x16.size a ≤ S256x128.size a
  k0_off141_inb : ∀ k0_t9 : Fin k0_t9_loop.trips, ∀ a, (k0_off141 k0_t9) a + S1x16.size a ≤ S128x128.size a
  k0_off142_inb : ∀ k0_t9 : Fin k0_t9_loop.trips, ∀ a, (k0_off142 k0_t9) a + S1x16.size a ≤ S256x128.size a
  k0_off143_inb : ∀ k0_t9 : Fin k0_t9_loop.trips, ∀ a, (k0_off143 k0_t9) a + S1x16.size a ≤ S128x128.size a
  k0_off144_inb : ∀ k0_t9 : Fin k0_t9_loop.trips, ∀ a, (k0_off144 k0_t9) a + S1x16.size a ≤ S256x128.size a
  k0_off145_inb : ∀ k0_t9 : Fin k0_t9_loop.trips, ∀ a, (k0_off145 k0_t9) a + S1x16.size a ≤ S128x128.size a
  k0_off146_inb : ∀ k0_t9 : Fin k0_t9_loop.trips, ∀ a, (k0_off146 k0_t9) a + S1x16.size a ≤ S256x128.size a
  k0_t10_ok : k0_t10_loop.OK
  k0_off147_inb : ∀ k0_t10 : Fin k0_t10_loop.trips, ∀ a, (k0_off147 k0_t10) a + S1x16.size a ≤ S128x128.size a
  k0_off148_inb : ∀ k0_t10 : Fin k0_t10_loop.trips, ∀ a, (k0_off148 k0_t10) a + S1x16.size a ≤ S256x128.size a
  k0_off149_inb : ∀ k0_t10 : Fin k0_t10_loop.trips, ∀ a, (k0_off149 k0_t10) a + S1x16.size a ≤ S128x128.size a
  k0_off150_inb : ∀ k0_t10 : Fin k0_t10_loop.trips, ∀ a, (k0_off150 k0_t10) a + S1x16.size a ≤ S256x128.size a
  k0_off151_inb : ∀ k0_t10 : Fin k0_t10_loop.trips, ∀ a, (k0_off151 k0_t10) a + S1x16.size a ≤ S128x128.size a
  k0_off152_inb : ∀ k0_t10 : Fin k0_t10_loop.trips, ∀ a, (k0_off152 k0_t10) a + S1x16.size a ≤ S256x128.size a
  k0_off153_inb : ∀ k0_t10 : Fin k0_t10_loop.trips, ∀ a, (k0_off153 k0_t10) a + S1x16.size a ≤ S128x128.size a
  k0_off154_inb : ∀ k0_t10 : Fin k0_t10_loop.trips, ∀ a, (k0_off154 k0_t10) a + S1x16.size a ≤ S256x128.size a
  k0_off155_inb : ∀ k0_t10 : Fin k0_t10_loop.trips, ∀ a, (k0_off155 k0_t10) a + S1x16.size a ≤ S128x128.size a
  k0_off156_inb : ∀ k0_t10 : Fin k0_t10_loop.trips, ∀ a, (k0_off156 k0_t10) a + S1x16.size a ≤ S256x128.size a
  k0_off157_inb : ∀ k0_t10 : Fin k0_t10_loop.trips, ∀ a, (k0_off157 k0_t10) a + S1x16.size a ≤ S128x128.size a
  k0_off158_inb : ∀ k0_t10 : Fin k0_t10_loop.trips, ∀ a, (k0_off158 k0_t10) a + S1x16.size a ≤ S256x128.size a
  k0_off159_inb : ∀ k0_t10 : Fin k0_t10_loop.trips, ∀ a, (k0_off159 k0_t10) a + S1x16.size a ≤ S128x128.size a
  k0_off160_inb : ∀ k0_t10 : Fin k0_t10_loop.trips, ∀ a, (k0_off160 k0_t10) a + S1x16.size a ≤ S256x128.size a
  k0_off161_inb : ∀ k0_t10 : Fin k0_t10_loop.trips, ∀ a, (k0_off161 k0_t10) a + S1x16.size a ≤ S128x128.size a
  k0_off162_inb : ∀ k0_t10 : Fin k0_t10_loop.trips, ∀ a, (k0_off162 k0_t10) a + S1x16.size a ≤ S256x128.size a
  k0_t11_ok : k0_t11_loop.OK
  k0_off163_inb : ∀ k0_t11 : Fin k0_t11_loop.trips, ∀ a, (k0_off163 k0_t11) a + S1x16.size a ≤ S128x128.size a
  k0_off164_inb : ∀ k0_t11 : Fin k0_t11_loop.trips, ∀ a, (k0_off164 k0_t11) a + S1x16.size a ≤ S256x128.size a
  k0_off165_inb : ∀ k0_t11 : Fin k0_t11_loop.trips, ∀ a, (k0_off165 k0_t11) a + S1x16.size a ≤ S128x128.size a
  k0_off166_inb : ∀ k0_t11 : Fin k0_t11_loop.trips, ∀ a, (k0_off166 k0_t11) a + S1x16.size a ≤ S256x128.size a
  k0_off167_inb : ∀ k0_t11 : Fin k0_t11_loop.trips, ∀ a, (k0_off167 k0_t11) a + S1x16.size a ≤ S128x128.size a
  k0_off168_inb : ∀ k0_t11 : Fin k0_t11_loop.trips, ∀ a, (k0_off168 k0_t11) a + S1x16.size a ≤ S256x128.size a
  k0_off169_inb : ∀ k0_t11 : Fin k0_t11_loop.trips, ∀ a, (k0_off169 k0_t11) a + S1x16.size a ≤ S128x128.size a
  k0_off170_inb : ∀ k0_t11 : Fin k0_t11_loop.trips, ∀ a, (k0_off170 k0_t11) a + S1x16.size a ≤ S256x128.size a
  k0_off171_inb : ∀ k0_t11 : Fin k0_t11_loop.trips, ∀ a, (k0_off171 k0_t11) a + S1x16.size a ≤ S128x128.size a
  k0_off172_inb : ∀ k0_t11 : Fin k0_t11_loop.trips, ∀ a, (k0_off172 k0_t11) a + S1x16.size a ≤ S256x128.size a
  k0_off173_inb : ∀ k0_t11 : Fin k0_t11_loop.trips, ∀ a, (k0_off173 k0_t11) a + S1x16.size a ≤ S128x128.size a
  k0_off174_inb : ∀ k0_t11 : Fin k0_t11_loop.trips, ∀ a, (k0_off174 k0_t11) a + S1x16.size a ≤ S256x128.size a
  k0_off175_inb : ∀ k0_t11 : Fin k0_t11_loop.trips, ∀ a, (k0_off175 k0_t11) a + S1x16.size a ≤ S128x128.size a
  k0_off176_inb : ∀ k0_t11 : Fin k0_t11_loop.trips, ∀ a, (k0_off176 k0_t11) a + S1x16.size a ≤ S256x128.size a
  k0_off177_inb : ∀ k0_t11 : Fin k0_t11_loop.trips, ∀ a, (k0_off177 k0_t11) a + S1x16.size a ≤ S128x128.size a
  k0_off178_inb : ∀ k0_t11 : Fin k0_t11_loop.trips, ∀ a, (k0_off178 k0_t11) a + S1x16.size a ≤ S256x128.size a
  k0_t12_ok : k0_t12_loop.OK
  k0_off179_inb : ∀ k0_t12 : Fin k0_t12_loop.trips, ∀ a, (k0_off179 k0_t12) a + S1x16.size a ≤ S128x128.size a
  k0_off180_inb : ∀ k0_t12 : Fin k0_t12_loop.trips, ∀ a, (k0_off180 k0_t12) a + S1x16.size a ≤ S256x128.size a
  k0_off181_inb : ∀ k0_t12 : Fin k0_t12_loop.trips, ∀ a, (k0_off181 k0_t12) a + S1x16.size a ≤ S128x128.size a
  k0_off182_inb : ∀ k0_t12 : Fin k0_t12_loop.trips, ∀ a, (k0_off182 k0_t12) a + S1x16.size a ≤ S256x128.size a
  k0_off183_inb : ∀ k0_t12 : Fin k0_t12_loop.trips, ∀ a, (k0_off183 k0_t12) a + S1x16.size a ≤ S128x128.size a
  k0_off184_inb : ∀ k0_t12 : Fin k0_t12_loop.trips, ∀ a, (k0_off184 k0_t12) a + S1x16.size a ≤ S256x128.size a
  k0_off185_inb : ∀ k0_t12 : Fin k0_t12_loop.trips, ∀ a, (k0_off185 k0_t12) a + S1x16.size a ≤ S128x128.size a
  k0_off186_inb : ∀ k0_t12 : Fin k0_t12_loop.trips, ∀ a, (k0_off186 k0_t12) a + S1x16.size a ≤ S256x128.size a
  k0_off187_inb : ∀ k0_t12 : Fin k0_t12_loop.trips, ∀ a, (k0_off187 k0_t12) a + S1x16.size a ≤ S128x128.size a
  k0_off188_inb : ∀ k0_t12 : Fin k0_t12_loop.trips, ∀ a, (k0_off188 k0_t12) a + S1x16.size a ≤ S256x128.size a
  k0_off189_inb : ∀ k0_t12 : Fin k0_t12_loop.trips, ∀ a, (k0_off189 k0_t12) a + S1x16.size a ≤ S128x128.size a
  k0_off190_inb : ∀ k0_t12 : Fin k0_t12_loop.trips, ∀ a, (k0_off190 k0_t12) a + S1x16.size a ≤ S256x128.size a
  k0_off191_inb : ∀ k0_t12 : Fin k0_t12_loop.trips, ∀ a, (k0_off191 k0_t12) a + S1x16.size a ≤ S128x128.size a
  k0_off192_inb : ∀ k0_t12 : Fin k0_t12_loop.trips, ∀ a, (k0_off192 k0_t12) a + S1x16.size a ≤ S256x128.size a
  k0_off193_inb : ∀ k0_t12 : Fin k0_t12_loop.trips, ∀ a, (k0_off193 k0_t12) a + S1x16.size a ≤ S128x128.size a
  k0_off194_inb : ∀ k0_t12 : Fin k0_t12_loop.trips, ∀ a, (k0_off194 k0_t12) a + S1x16.size a ≤ S256x128.size a
  k0_t13_ok : k0_t13_loop.OK
  k0_off195_inb : ∀ k0_t13 : Fin k0_t13_loop.trips, ∀ a, (k0_off195 k0_t13) a + S1x16.size a ≤ S128x128.size a
  k0_off196_inb : ∀ k0_t13 : Fin k0_t13_loop.trips, ∀ a, (k0_off196 k0_t13) a + S1x16.size a ≤ S256x128.size a
  k0_off197_inb : ∀ k0_t13 : Fin k0_t13_loop.trips, ∀ a, (k0_off197 k0_t13) a + S1x16.size a ≤ S128x128.size a
  k0_off198_inb : ∀ k0_t13 : Fin k0_t13_loop.trips, ∀ a, (k0_off198 k0_t13) a + S1x16.size a ≤ S256x128.size a
  k0_off199_inb : ∀ k0_t13 : Fin k0_t13_loop.trips, ∀ a, (k0_off199 k0_t13) a + S1x16.size a ≤ S128x128.size a
  k0_off200_inb : ∀ k0_t13 : Fin k0_t13_loop.trips, ∀ a, (k0_off200 k0_t13) a + S1x16.size a ≤ S256x128.size a
  k0_off201_inb : ∀ k0_t13 : Fin k0_t13_loop.trips, ∀ a, (k0_off201 k0_t13) a + S1x16.size a ≤ S128x128.size a
  k0_off202_inb : ∀ k0_t13 : Fin k0_t13_loop.trips, ∀ a, (k0_off202 k0_t13) a + S1x16.size a ≤ S256x128.size a
  k0_off203_inb : ∀ k0_t13 : Fin k0_t13_loop.trips, ∀ a, (k0_off203 k0_t13) a + S1x16.size a ≤ S128x128.size a
  k0_off204_inb : ∀ k0_t13 : Fin k0_t13_loop.trips, ∀ a, (k0_off204 k0_t13) a + S1x16.size a ≤ S256x128.size a
  k0_off205_inb : ∀ k0_t13 : Fin k0_t13_loop.trips, ∀ a, (k0_off205 k0_t13) a + S1x16.size a ≤ S128x128.size a
  k0_off206_inb : ∀ k0_t13 : Fin k0_t13_loop.trips, ∀ a, (k0_off206 k0_t13) a + S1x16.size a ≤ S256x128.size a
  k0_off207_inb : ∀ k0_t13 : Fin k0_t13_loop.trips, ∀ a, (k0_off207 k0_t13) a + S1x16.size a ≤ S128x128.size a
  k0_off208_inb : ∀ k0_t13 : Fin k0_t13_loop.trips, ∀ a, (k0_off208 k0_t13) a + S1x16.size a ≤ S256x128.size a
  k0_off209_inb : ∀ k0_t13 : Fin k0_t13_loop.trips, ∀ a, (k0_off209 k0_t13) a + S1x16.size a ≤ S128x128.size a
  k0_off210_inb : ∀ k0_t13 : Fin k0_t13_loop.trips, ∀ a, (k0_off210 k0_t13) a + S1x16.size a ≤ S256x128.size a
  k0_t14_ok : k0_t14_loop.OK
  k0_off211_inb : ∀ k0_t14 : Fin k0_t14_loop.trips, ∀ a, (k0_off211 k0_t14) a + S1x16.size a ≤ S128x128.size a
  k0_off212_inb : ∀ k0_t14 : Fin k0_t14_loop.trips, ∀ a, (k0_off212 k0_t14) a + S1x16.size a ≤ S256x128.size a
  k0_off213_inb : ∀ k0_t14 : Fin k0_t14_loop.trips, ∀ a, (k0_off213 k0_t14) a + S1x16.size a ≤ S128x128.size a
  k0_off214_inb : ∀ k0_t14 : Fin k0_t14_loop.trips, ∀ a, (k0_off214 k0_t14) a + S1x16.size a ≤ S256x128.size a
  k0_off215_inb : ∀ k0_t14 : Fin k0_t14_loop.trips, ∀ a, (k0_off215 k0_t14) a + S1x16.size a ≤ S128x128.size a
  k0_off216_inb : ∀ k0_t14 : Fin k0_t14_loop.trips, ∀ a, (k0_off216 k0_t14) a + S1x16.size a ≤ S256x128.size a
  k0_off217_inb : ∀ k0_t14 : Fin k0_t14_loop.trips, ∀ a, (k0_off217 k0_t14) a + S1x16.size a ≤ S128x128.size a
  k0_off218_inb : ∀ k0_t14 : Fin k0_t14_loop.trips, ∀ a, (k0_off218 k0_t14) a + S1x16.size a ≤ S256x128.size a
  k0_off219_inb : ∀ k0_t14 : Fin k0_t14_loop.trips, ∀ a, (k0_off219 k0_t14) a + S1x16.size a ≤ S128x128.size a
  k0_off220_inb : ∀ k0_t14 : Fin k0_t14_loop.trips, ∀ a, (k0_off220 k0_t14) a + S1x16.size a ≤ S256x128.size a
  k0_off221_inb : ∀ k0_t14 : Fin k0_t14_loop.trips, ∀ a, (k0_off221 k0_t14) a + S1x16.size a ≤ S128x128.size a
  k0_off222_inb : ∀ k0_t14 : Fin k0_t14_loop.trips, ∀ a, (k0_off222 k0_t14) a + S1x16.size a ≤ S256x128.size a
  k0_off223_inb : ∀ k0_t14 : Fin k0_t14_loop.trips, ∀ a, (k0_off223 k0_t14) a + S1x16.size a ≤ S128x128.size a
  k0_off224_inb : ∀ k0_t14 : Fin k0_t14_loop.trips, ∀ a, (k0_off224 k0_t14) a + S1x16.size a ≤ S256x128.size a
  k0_off225_inb : ∀ k0_t14 : Fin k0_t14_loop.trips, ∀ a, (k0_off225 k0_t14) a + S1x16.size a ≤ S128x128.size a
  k0_off226_inb : ∀ k0_t14 : Fin k0_t14_loop.trips, ∀ a, (k0_off226 k0_t14) a + S1x16.size a ≤ S256x128.size a
  k0_t15_ok : k0_t15_loop.OK
  k0_off227_inb : ∀ k0_t15 : Fin k0_t15_loop.trips, ∀ a, (k0_off227 k0_t15) a + S1x16.size a ≤ S128x128.size a
  k0_off228_inb : ∀ k0_t15 : Fin k0_t15_loop.trips, ∀ a, (k0_off228 k0_t15) a + S1x16.size a ≤ S256x128.size a
  k0_off229_inb : ∀ k0_t15 : Fin k0_t15_loop.trips, ∀ a, (k0_off229 k0_t15) a + S1x16.size a ≤ S128x128.size a
  k0_off230_inb : ∀ k0_t15 : Fin k0_t15_loop.trips, ∀ a, (k0_off230 k0_t15) a + S1x16.size a ≤ S256x128.size a
  k0_off231_inb : ∀ k0_t15 : Fin k0_t15_loop.trips, ∀ a, (k0_off231 k0_t15) a + S1x16.size a ≤ S128x128.size a
  k0_off232_inb : ∀ k0_t15 : Fin k0_t15_loop.trips, ∀ a, (k0_off232 k0_t15) a + S1x16.size a ≤ S256x128.size a
  k0_off233_inb : ∀ k0_t15 : Fin k0_t15_loop.trips, ∀ a, (k0_off233 k0_t15) a + S1x16.size a ≤ S128x128.size a
  k0_off234_inb : ∀ k0_t15 : Fin k0_t15_loop.trips, ∀ a, (k0_off234 k0_t15) a + S1x16.size a ≤ S256x128.size a
  k0_off235_inb : ∀ k0_t15 : Fin k0_t15_loop.trips, ∀ a, (k0_off235 k0_t15) a + S1x16.size a ≤ S128x128.size a
  k0_off236_inb : ∀ k0_t15 : Fin k0_t15_loop.trips, ∀ a, (k0_off236 k0_t15) a + S1x16.size a ≤ S256x128.size a
  k0_off237_inb : ∀ k0_t15 : Fin k0_t15_loop.trips, ∀ a, (k0_off237 k0_t15) a + S1x16.size a ≤ S128x128.size a
  k0_off238_inb : ∀ k0_t15 : Fin k0_t15_loop.trips, ∀ a, (k0_off238 k0_t15) a + S1x16.size a ≤ S256x128.size a
  k0_off239_inb : ∀ k0_t15 : Fin k0_t15_loop.trips, ∀ a, (k0_off239 k0_t15) a + S1x16.size a ≤ S128x128.size a
  k0_off240_inb : ∀ k0_t15 : Fin k0_t15_loop.trips, ∀ a, (k0_off240 k0_t15) a + S1x16.size a ≤ S256x128.size a
  k0_off241_inb : ∀ k0_t15 : Fin k0_t15_loop.trips, ∀ a, (k0_off241 k0_t15) a + S1x16.size a ≤ S128x128.size a
  k0_off242_inb : ∀ k0_t15 : Fin k0_t15_loop.trips, ∀ a, (k0_off242 k0_t15) a + S1x16.size a ≤ S256x128.size a
  k0_t16_ok : k0_t16_loop.OK
  k0_off243_inb : ∀ k0_t16 : Fin k0_t16_loop.trips, ∀ a, (k0_off243 k0_t16) a + S1x16.size a ≤ S128x128.size a
  k0_off244_inb : ∀ k0_t16 : Fin k0_t16_loop.trips, ∀ a, (k0_off244 k0_t16) a + S1x16.size a ≤ S256x128.size a
  k0_off245_inb : ∀ k0_t16 : Fin k0_t16_loop.trips, ∀ a, (k0_off245 k0_t16) a + S1x16.size a ≤ S128x128.size a
  k0_off246_inb : ∀ k0_t16 : Fin k0_t16_loop.trips, ∀ a, (k0_off246 k0_t16) a + S1x16.size a ≤ S256x128.size a
  k0_off247_inb : ∀ k0_t16 : Fin k0_t16_loop.trips, ∀ a, (k0_off247 k0_t16) a + S1x16.size a ≤ S128x128.size a
  k0_off248_inb : ∀ k0_t16 : Fin k0_t16_loop.trips, ∀ a, (k0_off248 k0_t16) a + S1x16.size a ≤ S256x128.size a
  k0_off249_inb : ∀ k0_t16 : Fin k0_t16_loop.trips, ∀ a, (k0_off249 k0_t16) a + S1x16.size a ≤ S128x128.size a
  k0_off250_inb : ∀ k0_t16 : Fin k0_t16_loop.trips, ∀ a, (k0_off250 k0_t16) a + S1x16.size a ≤ S256x128.size a
  k0_off251_inb : ∀ k0_t16 : Fin k0_t16_loop.trips, ∀ a, (k0_off251 k0_t16) a + S1x16.size a ≤ S128x128.size a
  k0_off252_inb : ∀ k0_t16 : Fin k0_t16_loop.trips, ∀ a, (k0_off252 k0_t16) a + S1x16.size a ≤ S256x128.size a
  k0_off253_inb : ∀ k0_t16 : Fin k0_t16_loop.trips, ∀ a, (k0_off253 k0_t16) a + S1x16.size a ≤ S128x128.size a
  k0_off254_inb : ∀ k0_t16 : Fin k0_t16_loop.trips, ∀ a, (k0_off254 k0_t16) a + S1x16.size a ≤ S256x128.size a
  k0_off255_inb : ∀ k0_t16 : Fin k0_t16_loop.trips, ∀ a, (k0_off255 k0_t16) a + S1x16.size a ≤ S128x128.size a
  k0_off256_inb : ∀ k0_t16 : Fin k0_t16_loop.trips, ∀ a, (k0_off256 k0_t16) a + S1x16.size a ≤ S256x128.size a
  k0_off257_inb : ∀ k0_t16 : Fin k0_t16_loop.trips, ∀ a, (k0_off257 k0_t16) a + S1x16.size a ≤ S128x128.size a
  k0_off258_inb : ∀ k0_t16 : Fin k0_t16_loop.trips, ∀ a, (k0_off258 k0_t16) a + S1x16.size a ≤ S256x128.size a
  k0_t17_ok : k0_t17_loop.OK
  k0_off259_inb : ∀ k0_t17 : Fin k0_t17_loop.trips, ∀ a, (k0_off259 k0_t17) a + S1x16.size a ≤ S128x128.size a
  k0_off260_inb : ∀ k0_t17 : Fin k0_t17_loop.trips, ∀ a, (k0_off260 k0_t17) a + S1x16.size a ≤ S256x128.size a
  k0_off261_inb : ∀ k0_t17 : Fin k0_t17_loop.trips, ∀ a, (k0_off261 k0_t17) a + S1x16.size a ≤ S128x128.size a
  k0_off262_inb : ∀ k0_t17 : Fin k0_t17_loop.trips, ∀ a, (k0_off262 k0_t17) a + S1x16.size a ≤ S256x128.size a
  k0_off263_inb : ∀ k0_t17 : Fin k0_t17_loop.trips, ∀ a, (k0_off263 k0_t17) a + S1x16.size a ≤ S128x128.size a
  k0_off264_inb : ∀ k0_t17 : Fin k0_t17_loop.trips, ∀ a, (k0_off264 k0_t17) a + S1x16.size a ≤ S256x128.size a
  k0_off265_inb : ∀ k0_t17 : Fin k0_t17_loop.trips, ∀ a, (k0_off265 k0_t17) a + S1x16.size a ≤ S128x128.size a
  k0_off266_inb : ∀ k0_t17 : Fin k0_t17_loop.trips, ∀ a, (k0_off266 k0_t17) a + S1x16.size a ≤ S256x128.size a
  k0_off267_inb : ∀ k0_t17 : Fin k0_t17_loop.trips, ∀ a, (k0_off267 k0_t17) a + S1x16.size a ≤ S128x128.size a
  k0_off268_inb : ∀ k0_t17 : Fin k0_t17_loop.trips, ∀ a, (k0_off268 k0_t17) a + S1x16.size a ≤ S256x128.size a
  k0_off269_inb : ∀ k0_t17 : Fin k0_t17_loop.trips, ∀ a, (k0_off269 k0_t17) a + S1x16.size a ≤ S128x128.size a
  k0_off270_inb : ∀ k0_t17 : Fin k0_t17_loop.trips, ∀ a, (k0_off270 k0_t17) a + S1x16.size a ≤ S256x128.size a
  k0_off271_inb : ∀ k0_t17 : Fin k0_t17_loop.trips, ∀ a, (k0_off271 k0_t17) a + S1x16.size a ≤ S128x128.size a
  k0_off272_inb : ∀ k0_t17 : Fin k0_t17_loop.trips, ∀ a, (k0_off272 k0_t17) a + S1x16.size a ≤ S256x128.size a
  k0_off273_inb : ∀ k0_t17 : Fin k0_t17_loop.trips, ∀ a, (k0_off273 k0_t17) a + S1x16.size a ≤ S128x128.size a
  k0_off274_inb : ∀ k0_t17 : Fin k0_t17_loop.trips, ∀ a, (k0_off274 k0_t17) a + S1x16.size a ≤ S256x128.size a
  k0_t18_ok : k0_t18_loop.OK
  k0_off275_inb : ∀ k0_t18 : Fin k0_t18_loop.trips, ∀ a, (k0_off275 k0_t18) a + S1x16.size a ≤ S128x128.size a
  k0_off276_inb : ∀ k0_t18 : Fin k0_t18_loop.trips, ∀ a, (k0_off276 k0_t18) a + S1x16.size a ≤ S256x128.size a
  k0_off277_inb : ∀ k0_t18 : Fin k0_t18_loop.trips, ∀ a, (k0_off277 k0_t18) a + S1x16.size a ≤ S128x128.size a
  k0_off278_inb : ∀ k0_t18 : Fin k0_t18_loop.trips, ∀ a, (k0_off278 k0_t18) a + S1x16.size a ≤ S256x128.size a
  k0_off279_inb : ∀ k0_t18 : Fin k0_t18_loop.trips, ∀ a, (k0_off279 k0_t18) a + S1x16.size a ≤ S128x128.size a
  k0_off280_inb : ∀ k0_t18 : Fin k0_t18_loop.trips, ∀ a, (k0_off280 k0_t18) a + S1x16.size a ≤ S256x128.size a
  k0_off281_inb : ∀ k0_t18 : Fin k0_t18_loop.trips, ∀ a, (k0_off281 k0_t18) a + S1x16.size a ≤ S128x128.size a
  k0_off282_inb : ∀ k0_t18 : Fin k0_t18_loop.trips, ∀ a, (k0_off282 k0_t18) a + S1x16.size a ≤ S256x128.size a
  k0_off283_inb : ∀ k0_t18 : Fin k0_t18_loop.trips, ∀ a, (k0_off283 k0_t18) a + S1x16.size a ≤ S128x128.size a
  k0_off284_inb : ∀ k0_t18 : Fin k0_t18_loop.trips, ∀ a, (k0_off284 k0_t18) a + S1x16.size a ≤ S256x128.size a
  k0_off285_inb : ∀ k0_t18 : Fin k0_t18_loop.trips, ∀ a, (k0_off285 k0_t18) a + S1x16.size a ≤ S128x128.size a
  k0_off286_inb : ∀ k0_t18 : Fin k0_t18_loop.trips, ∀ a, (k0_off286 k0_t18) a + S1x16.size a ≤ S256x128.size a
  k0_off287_inb : ∀ k0_t18 : Fin k0_t18_loop.trips, ∀ a, (k0_off287 k0_t18) a + S1x16.size a ≤ S128x128.size a
  k0_off288_inb : ∀ k0_t18 : Fin k0_t18_loop.trips, ∀ a, (k0_off288 k0_t18) a + S1x16.size a ≤ S256x128.size a
  k0_off289_inb : ∀ k0_t18 : Fin k0_t18_loop.trips, ∀ a, (k0_off289 k0_t18) a + S1x16.size a ≤ S128x128.size a
  k0_off290_inb : ∀ k0_t18 : Fin k0_t18_loop.trips, ∀ a, (k0_off290 k0_t18) a + S1x16.size a ≤ S256x128.size a
  k0_t19_ok : k0_t19_loop.OK
  k0_off291_inb : ∀ k0_t19 : Fin k0_t19_loop.trips, ∀ a, (k0_off291 k0_t19) a + S1x16.size a ≤ S128x128.size a
  k0_off292_inb : ∀ k0_t19 : Fin k0_t19_loop.trips, ∀ a, (k0_off292 k0_t19) a + S1x16.size a ≤ S256x128.size a
  k0_off293_inb : ∀ k0_t19 : Fin k0_t19_loop.trips, ∀ a, (k0_off293 k0_t19) a + S1x16.size a ≤ S128x128.size a
  k0_off294_inb : ∀ k0_t19 : Fin k0_t19_loop.trips, ∀ a, (k0_off294 k0_t19) a + S1x16.size a ≤ S256x128.size a
  k0_off295_inb : ∀ k0_t19 : Fin k0_t19_loop.trips, ∀ a, (k0_off295 k0_t19) a + S1x16.size a ≤ S128x128.size a
  k0_off296_inb : ∀ k0_t19 : Fin k0_t19_loop.trips, ∀ a, (k0_off296 k0_t19) a + S1x16.size a ≤ S256x128.size a
  k0_off297_inb : ∀ k0_t19 : Fin k0_t19_loop.trips, ∀ a, (k0_off297 k0_t19) a + S1x16.size a ≤ S128x128.size a
  k0_off298_inb : ∀ k0_t19 : Fin k0_t19_loop.trips, ∀ a, (k0_off298 k0_t19) a + S1x16.size a ≤ S256x128.size a
  k0_off299_inb : ∀ k0_t19 : Fin k0_t19_loop.trips, ∀ a, (k0_off299 k0_t19) a + S1x16.size a ≤ S128x128.size a
  k0_off300_inb : ∀ k0_t19 : Fin k0_t19_loop.trips, ∀ a, (k0_off300 k0_t19) a + S1x16.size a ≤ S256x128.size a
  k0_off301_inb : ∀ k0_t19 : Fin k0_t19_loop.trips, ∀ a, (k0_off301 k0_t19) a + S1x16.size a ≤ S128x128.size a
  k0_off302_inb : ∀ k0_t19 : Fin k0_t19_loop.trips, ∀ a, (k0_off302 k0_t19) a + S1x16.size a ≤ S256x128.size a
  k0_off303_inb : ∀ k0_t19 : Fin k0_t19_loop.trips, ∀ a, (k0_off303 k0_t19) a + S1x16.size a ≤ S128x128.size a
  k0_off304_inb : ∀ k0_t19 : Fin k0_t19_loop.trips, ∀ a, (k0_off304 k0_t19) a + S1x16.size a ≤ S256x128.size a
  k0_off305_inb : ∀ k0_t19 : Fin k0_t19_loop.trips, ∀ a, (k0_off305 k0_t19) a + S1x16.size a ≤ S128x128.size a
  k0_off306_inb : ∀ k0_t19 : Fin k0_t19_loop.trips, ∀ a, (k0_off306 k0_t19) a + S1x16.size a ≤ S256x128.size a
  k0_t20_ok : k0_t20_loop.OK
  k0_off307_inb : ∀ k0_t20 : Fin k0_t20_loop.trips, ∀ a, (k0_off307 k0_t20) a + S1x16.size a ≤ S128x128.size a
  k0_off308_inb : ∀ k0_t20 : Fin k0_t20_loop.trips, ∀ a, (k0_off308 k0_t20) a + S1x16.size a ≤ S256x128.size a
  k0_off309_inb : ∀ k0_t20 : Fin k0_t20_loop.trips, ∀ a, (k0_off309 k0_t20) a + S1x16.size a ≤ S128x128.size a
  k0_off310_inb : ∀ k0_t20 : Fin k0_t20_loop.trips, ∀ a, (k0_off310 k0_t20) a + S1x16.size a ≤ S256x128.size a
  k0_off311_inb : ∀ k0_t20 : Fin k0_t20_loop.trips, ∀ a, (k0_off311 k0_t20) a + S1x16.size a ≤ S128x128.size a
  k0_off312_inb : ∀ k0_t20 : Fin k0_t20_loop.trips, ∀ a, (k0_off312 k0_t20) a + S1x16.size a ≤ S256x128.size a
  k0_off313_inb : ∀ k0_t20 : Fin k0_t20_loop.trips, ∀ a, (k0_off313 k0_t20) a + S1x16.size a ≤ S128x128.size a
  k0_off314_inb : ∀ k0_t20 : Fin k0_t20_loop.trips, ∀ a, (k0_off314 k0_t20) a + S1x16.size a ≤ S256x128.size a
  k0_off315_inb : ∀ k0_t20 : Fin k0_t20_loop.trips, ∀ a, (k0_off315 k0_t20) a + S1x16.size a ≤ S128x128.size a
  k0_off316_inb : ∀ k0_t20 : Fin k0_t20_loop.trips, ∀ a, (k0_off316 k0_t20) a + S1x16.size a ≤ S256x128.size a
  k0_off317_inb : ∀ k0_t20 : Fin k0_t20_loop.trips, ∀ a, (k0_off317 k0_t20) a + S1x16.size a ≤ S128x128.size a
  k0_off318_inb : ∀ k0_t20 : Fin k0_t20_loop.trips, ∀ a, (k0_off318 k0_t20) a + S1x16.size a ≤ S256x128.size a
  k0_off319_inb : ∀ k0_t20 : Fin k0_t20_loop.trips, ∀ a, (k0_off319 k0_t20) a + S1x16.size a ≤ S128x128.size a
  k0_off320_inb : ∀ k0_t20 : Fin k0_t20_loop.trips, ∀ a, (k0_off320 k0_t20) a + S1x16.size a ≤ S256x128.size a
  k0_off321_inb : ∀ k0_t20 : Fin k0_t20_loop.trips, ∀ a, (k0_off321 k0_t20) a + S1x16.size a ≤ S128x128.size a
  k0_off322_inb : ∀ k0_t20 : Fin k0_t20_loop.trips, ∀ a, (k0_off322 k0_t20) a + S1x16.size a ≤ S256x128.size a
  k0_t21_ok : k0_t21_loop.OK
  k0_off323_inb : ∀ k0_t21 : Fin k0_t21_loop.trips, ∀ a, (k0_off323 k0_t21) a + S1x16.size a ≤ S128x128.size a
  k0_off324_inb : ∀ k0_t21 : Fin k0_t21_loop.trips, ∀ a, (k0_off324 k0_t21) a + S1x16.size a ≤ S256x128.size a
  k0_off325_inb : ∀ k0_t21 : Fin k0_t21_loop.trips, ∀ a, (k0_off325 k0_t21) a + S1x16.size a ≤ S128x128.size a
  k0_off326_inb : ∀ k0_t21 : Fin k0_t21_loop.trips, ∀ a, (k0_off326 k0_t21) a + S1x16.size a ≤ S256x128.size a
  k0_off327_inb : ∀ k0_t21 : Fin k0_t21_loop.trips, ∀ a, (k0_off327 k0_t21) a + S1x16.size a ≤ S128x128.size a
  k0_off328_inb : ∀ k0_t21 : Fin k0_t21_loop.trips, ∀ a, (k0_off328 k0_t21) a + S1x16.size a ≤ S256x128.size a
  k0_off329_inb : ∀ k0_t21 : Fin k0_t21_loop.trips, ∀ a, (k0_off329 k0_t21) a + S1x16.size a ≤ S128x128.size a
  k0_off330_inb : ∀ k0_t21 : Fin k0_t21_loop.trips, ∀ a, (k0_off330 k0_t21) a + S1x16.size a ≤ S256x128.size a
  k0_off331_inb : ∀ k0_t21 : Fin k0_t21_loop.trips, ∀ a, (k0_off331 k0_t21) a + S1x16.size a ≤ S128x128.size a
  k0_off332_inb : ∀ k0_t21 : Fin k0_t21_loop.trips, ∀ a, (k0_off332 k0_t21) a + S1x16.size a ≤ S256x128.size a
  k0_off333_inb : ∀ k0_t21 : Fin k0_t21_loop.trips, ∀ a, (k0_off333 k0_t21) a + S1x16.size a ≤ S128x128.size a
  k0_off334_inb : ∀ k0_t21 : Fin k0_t21_loop.trips, ∀ a, (k0_off334 k0_t21) a + S1x16.size a ≤ S256x128.size a
  k0_off335_inb : ∀ k0_t21 : Fin k0_t21_loop.trips, ∀ a, (k0_off335 k0_t21) a + S1x16.size a ≤ S128x128.size a
  k0_off336_inb : ∀ k0_t21 : Fin k0_t21_loop.trips, ∀ a, (k0_off336 k0_t21) a + S1x16.size a ≤ S256x128.size a
  k0_off337_inb : ∀ k0_t21 : Fin k0_t21_loop.trips, ∀ a, (k0_off337 k0_t21) a + S1x16.size a ≤ S128x128.size a
  k0_off338_inb : ∀ k0_t21 : Fin k0_t21_loop.trips, ∀ a, (k0_off338 k0_t21) a + S1x16.size a ≤ S256x128.size a
  k0_t22_ok : k0_t22_loop.OK
  k0_off339_inb : ∀ k0_t22 : Fin k0_t22_loop.trips, ∀ a, (k0_off339 k0_t22) a + S1x16.size a ≤ S128x128.size a
  k0_off340_inb : ∀ k0_t22 : Fin k0_t22_loop.trips, ∀ a, (k0_off340 k0_t22) a + S1x16.size a ≤ S256x128.size a
  k0_off341_inb : ∀ k0_t22 : Fin k0_t22_loop.trips, ∀ a, (k0_off341 k0_t22) a + S1x16.size a ≤ S128x128.size a
  k0_off342_inb : ∀ k0_t22 : Fin k0_t22_loop.trips, ∀ a, (k0_off342 k0_t22) a + S1x16.size a ≤ S256x128.size a
  k0_off343_inb : ∀ k0_t22 : Fin k0_t22_loop.trips, ∀ a, (k0_off343 k0_t22) a + S1x16.size a ≤ S128x128.size a
  k0_off344_inb : ∀ k0_t22 : Fin k0_t22_loop.trips, ∀ a, (k0_off344 k0_t22) a + S1x16.size a ≤ S256x128.size a
  k0_off345_inb : ∀ k0_t22 : Fin k0_t22_loop.trips, ∀ a, (k0_off345 k0_t22) a + S1x16.size a ≤ S128x128.size a
  k0_off346_inb : ∀ k0_t22 : Fin k0_t22_loop.trips, ∀ a, (k0_off346 k0_t22) a + S1x16.size a ≤ S256x128.size a
  k0_off347_inb : ∀ k0_t22 : Fin k0_t22_loop.trips, ∀ a, (k0_off347 k0_t22) a + S1x16.size a ≤ S128x128.size a
  k0_off348_inb : ∀ k0_t22 : Fin k0_t22_loop.trips, ∀ a, (k0_off348 k0_t22) a + S1x16.size a ≤ S256x128.size a
  k0_off349_inb : ∀ k0_t22 : Fin k0_t22_loop.trips, ∀ a, (k0_off349 k0_t22) a + S1x16.size a ≤ S128x128.size a
  k0_off350_inb : ∀ k0_t22 : Fin k0_t22_loop.trips, ∀ a, (k0_off350 k0_t22) a + S1x16.size a ≤ S256x128.size a
  k0_off351_inb : ∀ k0_t22 : Fin k0_t22_loop.trips, ∀ a, (k0_off351 k0_t22) a + S1x16.size a ≤ S128x128.size a
  k0_off352_inb : ∀ k0_t22 : Fin k0_t22_loop.trips, ∀ a, (k0_off352 k0_t22) a + S1x16.size a ≤ S256x128.size a
  k0_off353_inb : ∀ k0_t22 : Fin k0_t22_loop.trips, ∀ a, (k0_off353 k0_t22) a + S1x16.size a ≤ S128x128.size a
  k0_off354_inb : ∀ k0_t22 : Fin k0_t22_loop.trips, ∀ a, (k0_off354 k0_t22) a + S1x16.size a ≤ S256x128.size a
  k0_t23_ok : k0_t23_loop.OK
  k0_off355_inb : ∀ k0_t23 : Fin k0_t23_loop.trips, ∀ a, (k0_off355 k0_t23) a + S1x16.size a ≤ S128x128.size a
  k0_off356_inb : ∀ k0_t23 : Fin k0_t23_loop.trips, ∀ a, (k0_off356 k0_t23) a + S1x16.size a ≤ S256x128.size a
  k0_off357_inb : ∀ k0_t23 : Fin k0_t23_loop.trips, ∀ a, (k0_off357 k0_t23) a + S1x16.size a ≤ S128x128.size a
  k0_off358_inb : ∀ k0_t23 : Fin k0_t23_loop.trips, ∀ a, (k0_off358 k0_t23) a + S1x16.size a ≤ S256x128.size a
  k0_off359_inb : ∀ k0_t23 : Fin k0_t23_loop.trips, ∀ a, (k0_off359 k0_t23) a + S1x16.size a ≤ S128x128.size a
  k0_off360_inb : ∀ k0_t23 : Fin k0_t23_loop.trips, ∀ a, (k0_off360 k0_t23) a + S1x16.size a ≤ S256x128.size a
  k0_off361_inb : ∀ k0_t23 : Fin k0_t23_loop.trips, ∀ a, (k0_off361 k0_t23) a + S1x16.size a ≤ S128x128.size a
  k0_off362_inb : ∀ k0_t23 : Fin k0_t23_loop.trips, ∀ a, (k0_off362 k0_t23) a + S1x16.size a ≤ S256x128.size a
  k0_off363_inb : ∀ k0_t23 : Fin k0_t23_loop.trips, ∀ a, (k0_off363 k0_t23) a + S1x16.size a ≤ S128x128.size a
  k0_off364_inb : ∀ k0_t23 : Fin k0_t23_loop.trips, ∀ a, (k0_off364 k0_t23) a + S1x16.size a ≤ S256x128.size a
  k0_off365_inb : ∀ k0_t23 : Fin k0_t23_loop.trips, ∀ a, (k0_off365 k0_t23) a + S1x16.size a ≤ S128x128.size a
  k0_off366_inb : ∀ k0_t23 : Fin k0_t23_loop.trips, ∀ a, (k0_off366 k0_t23) a + S1x16.size a ≤ S256x128.size a
  k0_off367_inb : ∀ k0_t23 : Fin k0_t23_loop.trips, ∀ a, (k0_off367 k0_t23) a + S1x16.size a ≤ S128x128.size a
  k0_off368_inb : ∀ k0_t23 : Fin k0_t23_loop.trips, ∀ a, (k0_off368 k0_t23) a + S1x16.size a ≤ S256x128.size a
  k0_off369_inb : ∀ k0_t23 : Fin k0_t23_loop.trips, ∀ a, (k0_off369 k0_t23) a + S1x16.size a ≤ S128x128.size a
  k0_off370_inb : ∀ k0_t23 : Fin k0_t23_loop.trips, ∀ a, (k0_off370 k0_t23) a + S1x16.size a ≤ S256x128.size a
  k0_t24_ok : k0_t24_loop.OK
  k0_off371_inb : ∀ k0_t24 : Fin k0_t24_loop.trips, ∀ a, (k0_off371 k0_t24) a + S1x16.size a ≤ S128x128.size a
  k0_off372_inb : ∀ k0_t24 : Fin k0_t24_loop.trips, ∀ a, (k0_off372 k0_t24) a + S1x16.size a ≤ S256x128.size a
  k0_off373_inb : ∀ k0_t24 : Fin k0_t24_loop.trips, ∀ a, (k0_off373 k0_t24) a + S1x16.size a ≤ S128x128.size a
  k0_off374_inb : ∀ k0_t24 : Fin k0_t24_loop.trips, ∀ a, (k0_off374 k0_t24) a + S1x16.size a ≤ S256x128.size a
  k0_off375_inb : ∀ k0_t24 : Fin k0_t24_loop.trips, ∀ a, (k0_off375 k0_t24) a + S1x16.size a ≤ S128x128.size a
  k0_off376_inb : ∀ k0_t24 : Fin k0_t24_loop.trips, ∀ a, (k0_off376 k0_t24) a + S1x16.size a ≤ S256x128.size a
  k0_off377_inb : ∀ k0_t24 : Fin k0_t24_loop.trips, ∀ a, (k0_off377 k0_t24) a + S1x16.size a ≤ S128x128.size a
  k0_off378_inb : ∀ k0_t24 : Fin k0_t24_loop.trips, ∀ a, (k0_off378 k0_t24) a + S1x16.size a ≤ S256x128.size a
  k0_off379_inb : ∀ k0_t24 : Fin k0_t24_loop.trips, ∀ a, (k0_off379 k0_t24) a + S1x16.size a ≤ S128x128.size a
  k0_off380_inb : ∀ k0_t24 : Fin k0_t24_loop.trips, ∀ a, (k0_off380 k0_t24) a + S1x16.size a ≤ S256x128.size a
  k0_off381_inb : ∀ k0_t24 : Fin k0_t24_loop.trips, ∀ a, (k0_off381 k0_t24) a + S1x16.size a ≤ S128x128.size a
  k0_off382_inb : ∀ k0_t24 : Fin k0_t24_loop.trips, ∀ a, (k0_off382 k0_t24) a + S1x16.size a ≤ S256x128.size a
  k0_off383_inb : ∀ k0_t24 : Fin k0_t24_loop.trips, ∀ a, (k0_off383 k0_t24) a + S1x16.size a ≤ S128x128.size a
  k0_off384_inb : ∀ k0_t24 : Fin k0_t24_loop.trips, ∀ a, (k0_off384 k0_t24) a + S1x16.size a ≤ S256x128.size a
  k0_off385_inb : ∀ k0_t24 : Fin k0_t24_loop.trips, ∀ a, (k0_off385 k0_t24) a + S1x16.size a ≤ S128x128.size a
  k0_off386_inb : ∀ k0_t24 : Fin k0_t24_loop.trips, ∀ a, (k0_off386 k0_t24) a + S1x16.size a ≤ S256x128.size a
  k0_t25_ok : k0_t25_loop.OK
  k0_off387_inb : ∀ k0_t25 : Fin k0_t25_loop.trips, ∀ a, (k0_off387 k0_t25) a + S1x16.size a ≤ S128x128.size a
  k0_off388_inb : ∀ k0_t25 : Fin k0_t25_loop.trips, ∀ a, (k0_off388 k0_t25) a + S1x16.size a ≤ S256x128.size a
  k0_off389_inb : ∀ k0_t25 : Fin k0_t25_loop.trips, ∀ a, (k0_off389 k0_t25) a + S1x16.size a ≤ S128x128.size a
  k0_off390_inb : ∀ k0_t25 : Fin k0_t25_loop.trips, ∀ a, (k0_off390 k0_t25) a + S1x16.size a ≤ S256x128.size a
  k0_off391_inb : ∀ k0_t25 : Fin k0_t25_loop.trips, ∀ a, (k0_off391 k0_t25) a + S1x16.size a ≤ S128x128.size a
  k0_off392_inb : ∀ k0_t25 : Fin k0_t25_loop.trips, ∀ a, (k0_off392 k0_t25) a + S1x16.size a ≤ S256x128.size a
  k0_off393_inb : ∀ k0_t25 : Fin k0_t25_loop.trips, ∀ a, (k0_off393 k0_t25) a + S1x16.size a ≤ S128x128.size a
  k0_off394_inb : ∀ k0_t25 : Fin k0_t25_loop.trips, ∀ a, (k0_off394 k0_t25) a + S1x16.size a ≤ S256x128.size a
  k0_off395_inb : ∀ k0_t25 : Fin k0_t25_loop.trips, ∀ a, (k0_off395 k0_t25) a + S1x16.size a ≤ S128x128.size a
  k0_off396_inb : ∀ k0_t25 : Fin k0_t25_loop.trips, ∀ a, (k0_off396 k0_t25) a + S1x16.size a ≤ S256x128.size a
  k0_off397_inb : ∀ k0_t25 : Fin k0_t25_loop.trips, ∀ a, (k0_off397 k0_t25) a + S1x16.size a ≤ S128x128.size a
  k0_off398_inb : ∀ k0_t25 : Fin k0_t25_loop.trips, ∀ a, (k0_off398 k0_t25) a + S1x16.size a ≤ S256x128.size a
  k0_off399_inb : ∀ k0_t25 : Fin k0_t25_loop.trips, ∀ a, (k0_off399 k0_t25) a + S1x16.size a ≤ S128x128.size a
  k0_off400_inb : ∀ k0_t25 : Fin k0_t25_loop.trips, ∀ a, (k0_off400 k0_t25) a + S1x16.size a ≤ S256x128.size a
  k0_off401_inb : ∀ k0_t25 : Fin k0_t25_loop.trips, ∀ a, (k0_off401 k0_t25) a + S1x16.size a ≤ S128x128.size a
  k0_off402_inb : ∀ k0_t25 : Fin k0_t25_loop.trips, ∀ a, (k0_off402 k0_t25) a + S1x16.size a ≤ S256x128.size a
  k0_t26_ok : k0_t26_loop.OK
  k0_off403_inb : ∀ k0_t26 : Fin k0_t26_loop.trips, ∀ a, (k0_off403 k0_t26) a + S1x16.size a ≤ S128x128.size a
  k0_off404_inb : ∀ k0_t26 : Fin k0_t26_loop.trips, ∀ a, (k0_off404 k0_t26) a + S1x16.size a ≤ S256x128.size a
  k0_off405_inb : ∀ k0_t26 : Fin k0_t26_loop.trips, ∀ a, (k0_off405 k0_t26) a + S1x16.size a ≤ S128x128.size a
  k0_off406_inb : ∀ k0_t26 : Fin k0_t26_loop.trips, ∀ a, (k0_off406 k0_t26) a + S1x16.size a ≤ S256x128.size a
  k0_off407_inb : ∀ k0_t26 : Fin k0_t26_loop.trips, ∀ a, (k0_off407 k0_t26) a + S1x16.size a ≤ S128x128.size a
  k0_off408_inb : ∀ k0_t26 : Fin k0_t26_loop.trips, ∀ a, (k0_off408 k0_t26) a + S1x16.size a ≤ S256x128.size a
  k0_off409_inb : ∀ k0_t26 : Fin k0_t26_loop.trips, ∀ a, (k0_off409 k0_t26) a + S1x16.size a ≤ S128x128.size a
  k0_off410_inb : ∀ k0_t26 : Fin k0_t26_loop.trips, ∀ a, (k0_off410 k0_t26) a + S1x16.size a ≤ S256x128.size a
  k0_off411_inb : ∀ k0_t26 : Fin k0_t26_loop.trips, ∀ a, (k0_off411 k0_t26) a + S1x16.size a ≤ S128x128.size a
  k0_off412_inb : ∀ k0_t26 : Fin k0_t26_loop.trips, ∀ a, (k0_off412 k0_t26) a + S1x16.size a ≤ S256x128.size a
  k0_off413_inb : ∀ k0_t26 : Fin k0_t26_loop.trips, ∀ a, (k0_off413 k0_t26) a + S1x16.size a ≤ S128x128.size a
  k0_off414_inb : ∀ k0_t26 : Fin k0_t26_loop.trips, ∀ a, (k0_off414 k0_t26) a + S1x16.size a ≤ S256x128.size a
  k0_off415_inb : ∀ k0_t26 : Fin k0_t26_loop.trips, ∀ a, (k0_off415 k0_t26) a + S1x16.size a ≤ S128x128.size a
  k0_off416_inb : ∀ k0_t26 : Fin k0_t26_loop.trips, ∀ a, (k0_off416 k0_t26) a + S1x16.size a ≤ S256x128.size a
  k0_off417_inb : ∀ k0_t26 : Fin k0_t26_loop.trips, ∀ a, (k0_off417 k0_t26) a + S1x16.size a ≤ S128x128.size a
  k0_off418_inb : ∀ k0_t26 : Fin k0_t26_loop.trips, ∀ a, (k0_off418 k0_t26) a + S1x16.size a ≤ S256x128.size a
  k0_t27_ok : k0_t27_loop.OK
  k0_off419_inb : ∀ k0_t27 : Fin k0_t27_loop.trips, ∀ a, (k0_off419 k0_t27) a + S1x16.size a ≤ S128x128.size a
  k0_off420_inb : ∀ k0_t27 : Fin k0_t27_loop.trips, ∀ a, (k0_off420 k0_t27) a + S1x16.size a ≤ S256x128.size a
  k0_off421_inb : ∀ k0_t27 : Fin k0_t27_loop.trips, ∀ a, (k0_off421 k0_t27) a + S1x16.size a ≤ S128x128.size a
  k0_off422_inb : ∀ k0_t27 : Fin k0_t27_loop.trips, ∀ a, (k0_off422 k0_t27) a + S1x16.size a ≤ S256x128.size a
  k0_off423_inb : ∀ k0_t27 : Fin k0_t27_loop.trips, ∀ a, (k0_off423 k0_t27) a + S1x16.size a ≤ S128x128.size a
  k0_off424_inb : ∀ k0_t27 : Fin k0_t27_loop.trips, ∀ a, (k0_off424 k0_t27) a + S1x16.size a ≤ S256x128.size a
  k0_off425_inb : ∀ k0_t27 : Fin k0_t27_loop.trips, ∀ a, (k0_off425 k0_t27) a + S1x16.size a ≤ S128x128.size a
  k0_off426_inb : ∀ k0_t27 : Fin k0_t27_loop.trips, ∀ a, (k0_off426 k0_t27) a + S1x16.size a ≤ S256x128.size a
  k0_off427_inb : ∀ k0_t27 : Fin k0_t27_loop.trips, ∀ a, (k0_off427 k0_t27) a + S1x16.size a ≤ S128x128.size a
  k0_off428_inb : ∀ k0_t27 : Fin k0_t27_loop.trips, ∀ a, (k0_off428 k0_t27) a + S1x16.size a ≤ S256x128.size a
  k0_off429_inb : ∀ k0_t27 : Fin k0_t27_loop.trips, ∀ a, (k0_off429 k0_t27) a + S1x16.size a ≤ S128x128.size a
  k0_off430_inb : ∀ k0_t27 : Fin k0_t27_loop.trips, ∀ a, (k0_off430 k0_t27) a + S1x16.size a ≤ S256x128.size a
  k0_off431_inb : ∀ k0_t27 : Fin k0_t27_loop.trips, ∀ a, (k0_off431 k0_t27) a + S1x16.size a ≤ S128x128.size a
  k0_off432_inb : ∀ k0_t27 : Fin k0_t27_loop.trips, ∀ a, (k0_off432 k0_t27) a + S1x16.size a ≤ S256x128.size a
  k0_off433_inb : ∀ k0_t27 : Fin k0_t27_loop.trips, ∀ a, (k0_off433 k0_t27) a + S1x16.size a ≤ S128x128.size a
  k0_off434_inb : ∀ k0_t27 : Fin k0_t27_loop.trips, ∀ a, (k0_off434 k0_t27) a + S1x16.size a ≤ S256x128.size a
  k0_t28_ok : k0_t28_loop.OK
  k0_off435_inb : ∀ k0_t28 : Fin k0_t28_loop.trips, ∀ a, (k0_off435 k0_t28) a + S1x16.size a ≤ S128x128.size a
  k0_off436_inb : ∀ k0_t28 : Fin k0_t28_loop.trips, ∀ a, (k0_off436 k0_t28) a + S1x16.size a ≤ S256x128.size a
  k0_off437_inb : ∀ k0_t28 : Fin k0_t28_loop.trips, ∀ a, (k0_off437 k0_t28) a + S1x16.size a ≤ S128x128.size a
  k0_off438_inb : ∀ k0_t28 : Fin k0_t28_loop.trips, ∀ a, (k0_off438 k0_t28) a + S1x16.size a ≤ S256x128.size a
  k0_off439_inb : ∀ k0_t28 : Fin k0_t28_loop.trips, ∀ a, (k0_off439 k0_t28) a + S1x16.size a ≤ S128x128.size a
  k0_off440_inb : ∀ k0_t28 : Fin k0_t28_loop.trips, ∀ a, (k0_off440 k0_t28) a + S1x16.size a ≤ S256x128.size a
  k0_off441_inb : ∀ k0_t28 : Fin k0_t28_loop.trips, ∀ a, (k0_off441 k0_t28) a + S1x16.size a ≤ S128x128.size a
  k0_off442_inb : ∀ k0_t28 : Fin k0_t28_loop.trips, ∀ a, (k0_off442 k0_t28) a + S1x16.size a ≤ S256x128.size a
  k0_off443_inb : ∀ k0_t28 : Fin k0_t28_loop.trips, ∀ a, (k0_off443 k0_t28) a + S1x16.size a ≤ S128x128.size a
  k0_off444_inb : ∀ k0_t28 : Fin k0_t28_loop.trips, ∀ a, (k0_off444 k0_t28) a + S1x16.size a ≤ S256x128.size a
  k0_off445_inb : ∀ k0_t28 : Fin k0_t28_loop.trips, ∀ a, (k0_off445 k0_t28) a + S1x16.size a ≤ S128x128.size a
  k0_off446_inb : ∀ k0_t28 : Fin k0_t28_loop.trips, ∀ a, (k0_off446 k0_t28) a + S1x16.size a ≤ S256x128.size a
  k0_off447_inb : ∀ k0_t28 : Fin k0_t28_loop.trips, ∀ a, (k0_off447 k0_t28) a + S1x16.size a ≤ S128x128.size a
  k0_off448_inb : ∀ k0_t28 : Fin k0_t28_loop.trips, ∀ a, (k0_off448 k0_t28) a + S1x16.size a ≤ S256x128.size a
  k0_off449_inb : ∀ k0_t28 : Fin k0_t28_loop.trips, ∀ a, (k0_off449 k0_t28) a + S1x16.size a ≤ S128x128.size a
  k0_off450_inb : ∀ k0_t28 : Fin k0_t28_loop.trips, ∀ a, (k0_off450 k0_t28) a + S1x16.size a ≤ S256x128.size a
  k0_t29_ok : k0_t29_loop.OK
  k0_off451_inb : ∀ k0_t29 : Fin k0_t29_loop.trips, ∀ a, (k0_off451 k0_t29) a + S1x16.size a ≤ S128x128.size a
  k0_off452_inb : ∀ k0_t29 : Fin k0_t29_loop.trips, ∀ a, (k0_off452 k0_t29) a + S1x16.size a ≤ S256x128.size a
  k0_off453_inb : ∀ k0_t29 : Fin k0_t29_loop.trips, ∀ a, (k0_off453 k0_t29) a + S1x16.size a ≤ S128x128.size a
  k0_off454_inb : ∀ k0_t29 : Fin k0_t29_loop.trips, ∀ a, (k0_off454 k0_t29) a + S1x16.size a ≤ S256x128.size a
  k0_off455_inb : ∀ k0_t29 : Fin k0_t29_loop.trips, ∀ a, (k0_off455 k0_t29) a + S1x16.size a ≤ S128x128.size a
  k0_off456_inb : ∀ k0_t29 : Fin k0_t29_loop.trips, ∀ a, (k0_off456 k0_t29) a + S1x16.size a ≤ S256x128.size a
  k0_off457_inb : ∀ k0_t29 : Fin k0_t29_loop.trips, ∀ a, (k0_off457 k0_t29) a + S1x16.size a ≤ S128x128.size a
  k0_off458_inb : ∀ k0_t29 : Fin k0_t29_loop.trips, ∀ a, (k0_off458 k0_t29) a + S1x16.size a ≤ S256x128.size a
  k0_off459_inb : ∀ k0_t29 : Fin k0_t29_loop.trips, ∀ a, (k0_off459 k0_t29) a + S1x16.size a ≤ S128x128.size a
  k0_off460_inb : ∀ k0_t29 : Fin k0_t29_loop.trips, ∀ a, (k0_off460 k0_t29) a + S1x16.size a ≤ S256x128.size a
  k0_off461_inb : ∀ k0_t29 : Fin k0_t29_loop.trips, ∀ a, (k0_off461 k0_t29) a + S1x16.size a ≤ S128x128.size a
  k0_off462_inb : ∀ k0_t29 : Fin k0_t29_loop.trips, ∀ a, (k0_off462 k0_t29) a + S1x16.size a ≤ S256x128.size a
  k0_off463_inb : ∀ k0_t29 : Fin k0_t29_loop.trips, ∀ a, (k0_off463 k0_t29) a + S1x16.size a ≤ S128x128.size a
  k0_off464_inb : ∀ k0_t29 : Fin k0_t29_loop.trips, ∀ a, (k0_off464 k0_t29) a + S1x16.size a ≤ S256x128.size a
  k0_off465_inb : ∀ k0_t29 : Fin k0_t29_loop.trips, ∀ a, (k0_off465 k0_t29) a + S1x16.size a ≤ S128x128.size a
  k0_off466_inb : ∀ k0_t29 : Fin k0_t29_loop.trips, ∀ a, (k0_off466 k0_t29) a + S1x16.size a ≤ S256x128.size a
  k0_t30_ok : k0_t30_loop.OK
  k0_off467_inb : ∀ k0_t30 : Fin k0_t30_loop.trips, ∀ a, (k0_off467 k0_t30) a + S1x16.size a ≤ S128x128.size a
  k0_off468_inb : ∀ k0_t30 : Fin k0_t30_loop.trips, ∀ a, (k0_off468 k0_t30) a + S1x16.size a ≤ S256x128.size a
  k0_off469_inb : ∀ k0_t30 : Fin k0_t30_loop.trips, ∀ a, (k0_off469 k0_t30) a + S1x16.size a ≤ S128x128.size a
  k0_off470_inb : ∀ k0_t30 : Fin k0_t30_loop.trips, ∀ a, (k0_off470 k0_t30) a + S1x16.size a ≤ S256x128.size a
  k0_off471_inb : ∀ k0_t30 : Fin k0_t30_loop.trips, ∀ a, (k0_off471 k0_t30) a + S1x16.size a ≤ S128x128.size a
  k0_off472_inb : ∀ k0_t30 : Fin k0_t30_loop.trips, ∀ a, (k0_off472 k0_t30) a + S1x16.size a ≤ S256x128.size a
  k0_off473_inb : ∀ k0_t30 : Fin k0_t30_loop.trips, ∀ a, (k0_off473 k0_t30) a + S1x16.size a ≤ S128x128.size a
  k0_off474_inb : ∀ k0_t30 : Fin k0_t30_loop.trips, ∀ a, (k0_off474 k0_t30) a + S1x16.size a ≤ S256x128.size a
  k0_off475_inb : ∀ k0_t30 : Fin k0_t30_loop.trips, ∀ a, (k0_off475 k0_t30) a + S1x16.size a ≤ S128x128.size a
  k0_off476_inb : ∀ k0_t30 : Fin k0_t30_loop.trips, ∀ a, (k0_off476 k0_t30) a + S1x16.size a ≤ S256x128.size a
  k0_off477_inb : ∀ k0_t30 : Fin k0_t30_loop.trips, ∀ a, (k0_off477 k0_t30) a + S1x16.size a ≤ S128x128.size a
  k0_off478_inb : ∀ k0_t30 : Fin k0_t30_loop.trips, ∀ a, (k0_off478 k0_t30) a + S1x16.size a ≤ S256x128.size a
  k0_off479_inb : ∀ k0_t30 : Fin k0_t30_loop.trips, ∀ a, (k0_off479 k0_t30) a + S1x16.size a ≤ S128x128.size a
  k0_off480_inb : ∀ k0_t30 : Fin k0_t30_loop.trips, ∀ a, (k0_off480 k0_t30) a + S1x16.size a ≤ S256x128.size a
  k0_off481_inb : ∀ k0_t30 : Fin k0_t30_loop.trips, ∀ a, (k0_off481 k0_t30) a + S1x16.size a ≤ S128x128.size a
  k0_off482_inb : ∀ k0_t30 : Fin k0_t30_loop.trips, ∀ a, (k0_off482 k0_t30) a + S1x16.size a ≤ S256x128.size a
  k0_t31_ok : k0_t31_loop.OK
  k0_off483_inb : ∀ k0_t31 : Fin k0_t31_loop.trips, ∀ a, (k0_off483 k0_t31) a + S1x16.size a ≤ S128x128.size a
  k0_off484_inb : ∀ k0_t31 : Fin k0_t31_loop.trips, ∀ a, (k0_off484 k0_t31) a + S1x16.size a ≤ S256x128.size a
  k0_off485_inb : ∀ k0_t31 : Fin k0_t31_loop.trips, ∀ a, (k0_off485 k0_t31) a + S1x16.size a ≤ S128x128.size a
  k0_off486_inb : ∀ k0_t31 : Fin k0_t31_loop.trips, ∀ a, (k0_off486 k0_t31) a + S1x16.size a ≤ S256x128.size a
  k0_off487_inb : ∀ k0_t31 : Fin k0_t31_loop.trips, ∀ a, (k0_off487 k0_t31) a + S1x16.size a ≤ S128x128.size a
  k0_off488_inb : ∀ k0_t31 : Fin k0_t31_loop.trips, ∀ a, (k0_off488 k0_t31) a + S1x16.size a ≤ S256x128.size a
  k0_off489_inb : ∀ k0_t31 : Fin k0_t31_loop.trips, ∀ a, (k0_off489 k0_t31) a + S1x16.size a ≤ S128x128.size a
  k0_off490_inb : ∀ k0_t31 : Fin k0_t31_loop.trips, ∀ a, (k0_off490 k0_t31) a + S1x16.size a ≤ S256x128.size a
  k0_off491_inb : ∀ k0_t31 : Fin k0_t31_loop.trips, ∀ a, (k0_off491 k0_t31) a + S1x16.size a ≤ S128x128.size a
  k0_off492_inb : ∀ k0_t31 : Fin k0_t31_loop.trips, ∀ a, (k0_off492 k0_t31) a + S1x16.size a ≤ S256x128.size a
  k0_off493_inb : ∀ k0_t31 : Fin k0_t31_loop.trips, ∀ a, (k0_off493 k0_t31) a + S1x16.size a ≤ S128x128.size a
  k0_off494_inb : ∀ k0_t31 : Fin k0_t31_loop.trips, ∀ a, (k0_off494 k0_t31) a + S1x16.size a ≤ S256x128.size a
  k0_off495_inb : ∀ k0_t31 : Fin k0_t31_loop.trips, ∀ a, (k0_off495 k0_t31) a + S1x16.size a ≤ S128x128.size a
  k0_off496_inb : ∀ k0_t31 : Fin k0_t31_loop.trips, ∀ a, (k0_off496 k0_t31) a + S1x16.size a ≤ S256x128.size a
  k0_off497_inb : ∀ k0_t31 : Fin k0_t31_loop.trips, ∀ a, (k0_off497 k0_t31) a + S1x16.size a ≤ S128x128.size a
  k0_off498_inb : ∀ k0_t31 : Fin k0_t31_loop.trips, ∀ a, (k0_off498 k0_t31) a + S1x16.size a ≤ S256x128.size a
  k0_t32_ok : k0_t32_loop.OK
  k0_off499_inb : ∀ k0_t32 : Fin k0_t32_loop.trips, ∀ a, (k0_off499 k0_t32) a + S1x16.size a ≤ S128x128.size a
  k0_off500_inb : ∀ k0_t32 : Fin k0_t32_loop.trips, ∀ a, (k0_off500 k0_t32) a + S1x16.size a ≤ S256x128.size a
  k0_off501_inb : ∀ k0_t32 : Fin k0_t32_loop.trips, ∀ a, (k0_off501 k0_t32) a + S1x16.size a ≤ S128x128.size a
  k0_off502_inb : ∀ k0_t32 : Fin k0_t32_loop.trips, ∀ a, (k0_off502 k0_t32) a + S1x16.size a ≤ S256x128.size a
  k0_off503_inb : ∀ k0_t32 : Fin k0_t32_loop.trips, ∀ a, (k0_off503 k0_t32) a + S1x16.size a ≤ S128x128.size a
  k0_off504_inb : ∀ k0_t32 : Fin k0_t32_loop.trips, ∀ a, (k0_off504 k0_t32) a + S1x16.size a ≤ S256x128.size a
  k0_off505_inb : ∀ k0_t32 : Fin k0_t32_loop.trips, ∀ a, (k0_off505 k0_t32) a + S1x16.size a ≤ S128x128.size a
  k0_off506_inb : ∀ k0_t32 : Fin k0_t32_loop.trips, ∀ a, (k0_off506 k0_t32) a + S1x16.size a ≤ S256x128.size a
  k0_off507_inb : ∀ k0_t32 : Fin k0_t32_loop.trips, ∀ a, (k0_off507 k0_t32) a + S1x16.size a ≤ S128x128.size a
  k0_off508_inb : ∀ k0_t32 : Fin k0_t32_loop.trips, ∀ a, (k0_off508 k0_t32) a + S1x16.size a ≤ S256x128.size a
  k0_off509_inb : ∀ k0_t32 : Fin k0_t32_loop.trips, ∀ a, (k0_off509 k0_t32) a + S1x16.size a ≤ S128x128.size a
  k0_off510_inb : ∀ k0_t32 : Fin k0_t32_loop.trips, ∀ a, (k0_off510 k0_t32) a + S1x16.size a ≤ S256x128.size a
  k0_off511_inb : ∀ k0_t32 : Fin k0_t32_loop.trips, ∀ a, (k0_off511 k0_t32) a + S1x16.size a ≤ S128x128.size a
  k0_off512_inb : ∀ k0_t32 : Fin k0_t32_loop.trips, ∀ a, (k0_off512 k0_t32) a + S1x16.size a ≤ S256x128.size a
  k0_off513_inb : ∀ k0_t32 : Fin k0_t32_loop.trips, ∀ a, (k0_off513 k0_t32) a + S1x16.size a ≤ S128x128.size a
  k0_off514_inb : ∀ k0_t32 : Fin k0_t32_loop.trips, ∀ a, (k0_off514 k0_t32) a + S1x16.size a ≤ S256x128.size a
  k0_t33_ok : k0_t33_loop.OK
  k0_off515_inb : ∀ k0_t33 : Fin k0_t33_loop.trips, ∀ a, (k0_off515 k0_t33) a + S1x16.size a ≤ S128x128.size a
  k0_off516_inb : ∀ k0_t33 : Fin k0_t33_loop.trips, ∀ a, (k0_off516 k0_t33) a + S1x16.size a ≤ S256x128.size a
  k0_off517_inb : ∀ k0_t33 : Fin k0_t33_loop.trips, ∀ a, (k0_off517 k0_t33) a + S1x16.size a ≤ S128x128.size a
  k0_off518_inb : ∀ k0_t33 : Fin k0_t33_loop.trips, ∀ a, (k0_off518 k0_t33) a + S1x16.size a ≤ S256x128.size a
  k0_off519_inb : ∀ k0_t33 : Fin k0_t33_loop.trips, ∀ a, (k0_off519 k0_t33) a + S1x16.size a ≤ S128x128.size a
  k0_off520_inb : ∀ k0_t33 : Fin k0_t33_loop.trips, ∀ a, (k0_off520 k0_t33) a + S1x16.size a ≤ S256x128.size a
  k0_off521_inb : ∀ k0_t33 : Fin k0_t33_loop.trips, ∀ a, (k0_off521 k0_t33) a + S1x16.size a ≤ S128x128.size a
  k0_off522_inb : ∀ k0_t33 : Fin k0_t33_loop.trips, ∀ a, (k0_off522 k0_t33) a + S1x16.size a ≤ S256x128.size a
  k0_off523_inb : ∀ k0_t33 : Fin k0_t33_loop.trips, ∀ a, (k0_off523 k0_t33) a + S1x16.size a ≤ S128x128.size a
  k0_off524_inb : ∀ k0_t33 : Fin k0_t33_loop.trips, ∀ a, (k0_off524 k0_t33) a + S1x16.size a ≤ S256x128.size a
  k0_off525_inb : ∀ k0_t33 : Fin k0_t33_loop.trips, ∀ a, (k0_off525 k0_t33) a + S1x16.size a ≤ S128x128.size a
  k0_off526_inb : ∀ k0_t33 : Fin k0_t33_loop.trips, ∀ a, (k0_off526 k0_t33) a + S1x16.size a ≤ S256x128.size a
  k0_off527_inb : ∀ k0_t33 : Fin k0_t33_loop.trips, ∀ a, (k0_off527 k0_t33) a + S1x16.size a ≤ S128x128.size a
  k0_off528_inb : ∀ k0_t33 : Fin k0_t33_loop.trips, ∀ a, (k0_off528 k0_t33) a + S1x16.size a ≤ S256x128.size a
  k0_off529_inb : ∀ k0_t33 : Fin k0_t33_loop.trips, ∀ a, (k0_off529 k0_t33) a + S1x16.size a ≤ S128x128.size a
  k0_off530_inb : ∀ k0_t33 : Fin k0_t33_loop.trips, ∀ a, (k0_off530 k0_t33) a + S1x16.size a ≤ S256x128.size a
  k0_t34_ok : k0_t34_loop.OK
  k0_off531_inb : ∀ k0_t34 : Fin k0_t34_loop.trips, ∀ a, (k0_off531 k0_t34) a + S1x16.size a ≤ S128x128.size a
  k0_off532_inb : ∀ k0_t34 : Fin k0_t34_loop.trips, ∀ a, (k0_off532 k0_t34) a + S1x16.size a ≤ S256x128.size a
  k0_off533_inb : ∀ k0_t34 : Fin k0_t34_loop.trips, ∀ a, (k0_off533 k0_t34) a + S1x16.size a ≤ S128x128.size a
  k0_off534_inb : ∀ k0_t34 : Fin k0_t34_loop.trips, ∀ a, (k0_off534 k0_t34) a + S1x16.size a ≤ S256x128.size a
  k0_off535_inb : ∀ k0_t34 : Fin k0_t34_loop.trips, ∀ a, (k0_off535 k0_t34) a + S1x16.size a ≤ S128x128.size a
  k0_off536_inb : ∀ k0_t34 : Fin k0_t34_loop.trips, ∀ a, (k0_off536 k0_t34) a + S1x16.size a ≤ S256x128.size a
  k0_off537_inb : ∀ k0_t34 : Fin k0_t34_loop.trips, ∀ a, (k0_off537 k0_t34) a + S1x16.size a ≤ S128x128.size a
  k0_off538_inb : ∀ k0_t34 : Fin k0_t34_loop.trips, ∀ a, (k0_off538 k0_t34) a + S1x16.size a ≤ S256x128.size a
  k0_off539_inb : ∀ k0_t34 : Fin k0_t34_loop.trips, ∀ a, (k0_off539 k0_t34) a + S1x16.size a ≤ S128x128.size a
  k0_off540_inb : ∀ k0_t34 : Fin k0_t34_loop.trips, ∀ a, (k0_off540 k0_t34) a + S1x16.size a ≤ S256x128.size a
  k0_off541_inb : ∀ k0_t34 : Fin k0_t34_loop.trips, ∀ a, (k0_off541 k0_t34) a + S1x16.size a ≤ S128x128.size a
  k0_off542_inb : ∀ k0_t34 : Fin k0_t34_loop.trips, ∀ a, (k0_off542 k0_t34) a + S1x16.size a ≤ S256x128.size a
  k0_off543_inb : ∀ k0_t34 : Fin k0_t34_loop.trips, ∀ a, (k0_off543 k0_t34) a + S1x16.size a ≤ S128x128.size a
  k0_off544_inb : ∀ k0_t34 : Fin k0_t34_loop.trips, ∀ a, (k0_off544 k0_t34) a + S1x16.size a ≤ S256x128.size a
  k0_off545_inb : ∀ k0_t34 : Fin k0_t34_loop.trips, ∀ a, (k0_off545 k0_t34) a + S1x16.size a ≤ S128x128.size a
  k0_off546_inb : ∀ k0_t34 : Fin k0_t34_loop.trips, ∀ a, (k0_off546 k0_t34) a + S1x16.size a ≤ S256x128.size a
  k0_t35_ok : k0_t35_loop.OK
  k0_off547_inb : ∀ k0_t35 : Fin k0_t35_loop.trips, ∀ a, (k0_off547 k0_t35) a + S1x16.size a ≤ S128x128.size a
  k0_off548_inb : ∀ k0_t35 : Fin k0_t35_loop.trips, ∀ a, (k0_off548 k0_t35) a + S1x16.size a ≤ S256x128.size a
  k0_off549_inb : ∀ k0_t35 : Fin k0_t35_loop.trips, ∀ a, (k0_off549 k0_t35) a + S1x16.size a ≤ S128x128.size a
  k0_off550_inb : ∀ k0_t35 : Fin k0_t35_loop.trips, ∀ a, (k0_off550 k0_t35) a + S1x16.size a ≤ S256x128.size a
  k0_off551_inb : ∀ k0_t35 : Fin k0_t35_loop.trips, ∀ a, (k0_off551 k0_t35) a + S1x16.size a ≤ S128x128.size a
  k0_off552_inb : ∀ k0_t35 : Fin k0_t35_loop.trips, ∀ a, (k0_off552 k0_t35) a + S1x16.size a ≤ S256x128.size a
  k0_off553_inb : ∀ k0_t35 : Fin k0_t35_loop.trips, ∀ a, (k0_off553 k0_t35) a + S1x16.size a ≤ S128x128.size a
  k0_off554_inb : ∀ k0_t35 : Fin k0_t35_loop.trips, ∀ a, (k0_off554 k0_t35) a + S1x16.size a ≤ S256x128.size a
  k0_off555_inb : ∀ k0_t35 : Fin k0_t35_loop.trips, ∀ a, (k0_off555 k0_t35) a + S1x16.size a ≤ S128x128.size a
  k0_off556_inb : ∀ k0_t35 : Fin k0_t35_loop.trips, ∀ a, (k0_off556 k0_t35) a + S1x16.size a ≤ S256x128.size a
  k0_off557_inb : ∀ k0_t35 : Fin k0_t35_loop.trips, ∀ a, (k0_off557 k0_t35) a + S1x16.size a ≤ S128x128.size a
  k0_off558_inb : ∀ k0_t35 : Fin k0_t35_loop.trips, ∀ a, (k0_off558 k0_t35) a + S1x16.size a ≤ S256x128.size a
  k0_off559_inb : ∀ k0_t35 : Fin k0_t35_loop.trips, ∀ a, (k0_off559 k0_t35) a + S1x16.size a ≤ S128x128.size a
  k0_off560_inb : ∀ k0_t35 : Fin k0_t35_loop.trips, ∀ a, (k0_off560 k0_t35) a + S1x16.size a ≤ S256x128.size a
  k0_off561_inb : ∀ k0_t35 : Fin k0_t35_loop.trips, ∀ a, (k0_off561 k0_t35) a + S1x16.size a ≤ S128x128.size a
  k0_off562_inb : ∀ k0_t35 : Fin k0_t35_loop.trips, ∀ a, (k0_off562 k0_t35) a + S1x16.size a ≤ S256x128.size a
  k0_t36_ok : k0_t36_loop.OK
  k0_off563_inb : ∀ k0_t36 : Fin k0_t36_loop.trips, ∀ a, (k0_off563 k0_t36) a + S1x16.size a ≤ S128x128.size a
  k0_off564_inb : ∀ k0_t36 : Fin k0_t36_loop.trips, ∀ a, (k0_off564 k0_t36) a + S1x16.size a ≤ S256x128.size a
  k0_off565_inb : ∀ k0_t36 : Fin k0_t36_loop.trips, ∀ a, (k0_off565 k0_t36) a + S1x16.size a ≤ S128x128.size a
  k0_off566_inb : ∀ k0_t36 : Fin k0_t36_loop.trips, ∀ a, (k0_off566 k0_t36) a + S1x16.size a ≤ S256x128.size a
  k0_off567_inb : ∀ k0_t36 : Fin k0_t36_loop.trips, ∀ a, (k0_off567 k0_t36) a + S1x16.size a ≤ S128x128.size a
  k0_off568_inb : ∀ k0_t36 : Fin k0_t36_loop.trips, ∀ a, (k0_off568 k0_t36) a + S1x16.size a ≤ S256x128.size a
  k0_off569_inb : ∀ k0_t36 : Fin k0_t36_loop.trips, ∀ a, (k0_off569 k0_t36) a + S1x16.size a ≤ S128x128.size a
  k0_off570_inb : ∀ k0_t36 : Fin k0_t36_loop.trips, ∀ a, (k0_off570 k0_t36) a + S1x16.size a ≤ S256x128.size a
  k0_off571_inb : ∀ k0_t36 : Fin k0_t36_loop.trips, ∀ a, (k0_off571 k0_t36) a + S1x16.size a ≤ S128x128.size a
  k0_off572_inb : ∀ k0_t36 : Fin k0_t36_loop.trips, ∀ a, (k0_off572 k0_t36) a + S1x16.size a ≤ S256x128.size a
  k0_off573_inb : ∀ k0_t36 : Fin k0_t36_loop.trips, ∀ a, (k0_off573 k0_t36) a + S1x16.size a ≤ S128x128.size a
  k0_off574_inb : ∀ k0_t36 : Fin k0_t36_loop.trips, ∀ a, (k0_off574 k0_t36) a + S1x16.size a ≤ S256x128.size a
  k0_off575_inb : ∀ k0_t36 : Fin k0_t36_loop.trips, ∀ a, (k0_off575 k0_t36) a + S1x16.size a ≤ S128x128.size a
  k0_off576_inb : ∀ k0_t36 : Fin k0_t36_loop.trips, ∀ a, (k0_off576 k0_t36) a + S1x16.size a ≤ S256x128.size a
  k0_off577_inb : ∀ k0_t36 : Fin k0_t36_loop.trips, ∀ a, (k0_off577 k0_t36) a + S1x16.size a ≤ S128x128.size a
  k0_off578_inb : ∀ k0_t36 : Fin k0_t36_loop.trips, ∀ a, (k0_off578 k0_t36) a + S1x16.size a ≤ S256x128.size a
  k0_t37_ok : k0_t37_loop.OK
  k0_off579_inb : ∀ k0_t37 : Fin k0_t37_loop.trips, ∀ a, (k0_off579 k0_t37) a + S1x16.size a ≤ S128x128.size a
  k0_off580_inb : ∀ k0_t37 : Fin k0_t37_loop.trips, ∀ a, (k0_off580 k0_t37) a + S1x16.size a ≤ S256x128.size a
  k0_off581_inb : ∀ k0_t37 : Fin k0_t37_loop.trips, ∀ a, (k0_off581 k0_t37) a + S1x16.size a ≤ S128x128.size a
  k0_off582_inb : ∀ k0_t37 : Fin k0_t37_loop.trips, ∀ a, (k0_off582 k0_t37) a + S1x16.size a ≤ S256x128.size a
  k0_off583_inb : ∀ k0_t37 : Fin k0_t37_loop.trips, ∀ a, (k0_off583 k0_t37) a + S1x16.size a ≤ S128x128.size a
  k0_off584_inb : ∀ k0_t37 : Fin k0_t37_loop.trips, ∀ a, (k0_off584 k0_t37) a + S1x16.size a ≤ S256x128.size a
  k0_off585_inb : ∀ k0_t37 : Fin k0_t37_loop.trips, ∀ a, (k0_off585 k0_t37) a + S1x16.size a ≤ S128x128.size a
  k0_off586_inb : ∀ k0_t37 : Fin k0_t37_loop.trips, ∀ a, (k0_off586 k0_t37) a + S1x16.size a ≤ S256x128.size a
  k0_off587_inb : ∀ k0_t37 : Fin k0_t37_loop.trips, ∀ a, (k0_off587 k0_t37) a + S1x16.size a ≤ S128x128.size a
  k0_off588_inb : ∀ k0_t37 : Fin k0_t37_loop.trips, ∀ a, (k0_off588 k0_t37) a + S1x16.size a ≤ S256x128.size a
  k0_off589_inb : ∀ k0_t37 : Fin k0_t37_loop.trips, ∀ a, (k0_off589 k0_t37) a + S1x16.size a ≤ S128x128.size a
  k0_off590_inb : ∀ k0_t37 : Fin k0_t37_loop.trips, ∀ a, (k0_off590 k0_t37) a + S1x16.size a ≤ S256x128.size a
  k0_off591_inb : ∀ k0_t37 : Fin k0_t37_loop.trips, ∀ a, (k0_off591 k0_t37) a + S1x16.size a ≤ S128x128.size a
  k0_off592_inb : ∀ k0_t37 : Fin k0_t37_loop.trips, ∀ a, (k0_off592 k0_t37) a + S1x16.size a ≤ S256x128.size a
  k0_off593_inb : ∀ k0_t37 : Fin k0_t37_loop.trips, ∀ a, (k0_off593 k0_t37) a + S1x16.size a ≤ S128x128.size a
  k0_off594_inb : ∀ k0_t37 : Fin k0_t37_loop.trips, ∀ a, (k0_off594 k0_t37) a + S1x16.size a ≤ S256x128.size a
  k0_t38_ok : k0_t38_loop.OK
  k0_off595_inb : ∀ k0_t38 : Fin k0_t38_loop.trips, ∀ a, (k0_off595 k0_t38) a + S1x16.size a ≤ S128x128.size a
  k0_off596_inb : ∀ k0_t38 : Fin k0_t38_loop.trips, ∀ a, (k0_off596 k0_t38) a + S1x16.size a ≤ S256x128.size a
  k0_off597_inb : ∀ k0_t38 : Fin k0_t38_loop.trips, ∀ a, (k0_off597 k0_t38) a + S1x16.size a ≤ S128x128.size a
  k0_off598_inb : ∀ k0_t38 : Fin k0_t38_loop.trips, ∀ a, (k0_off598 k0_t38) a + S1x16.size a ≤ S256x128.size a
  k0_off599_inb : ∀ k0_t38 : Fin k0_t38_loop.trips, ∀ a, (k0_off599 k0_t38) a + S1x16.size a ≤ S128x128.size a
  k0_off600_inb : ∀ k0_t38 : Fin k0_t38_loop.trips, ∀ a, (k0_off600 k0_t38) a + S1x16.size a ≤ S256x128.size a
  k0_off601_inb : ∀ k0_t38 : Fin k0_t38_loop.trips, ∀ a, (k0_off601 k0_t38) a + S1x16.size a ≤ S128x128.size a
  k0_off602_inb : ∀ k0_t38 : Fin k0_t38_loop.trips, ∀ a, (k0_off602 k0_t38) a + S1x16.size a ≤ S256x128.size a
  k0_off603_inb : ∀ k0_t38 : Fin k0_t38_loop.trips, ∀ a, (k0_off603 k0_t38) a + S1x16.size a ≤ S128x128.size a
  k0_off604_inb : ∀ k0_t38 : Fin k0_t38_loop.trips, ∀ a, (k0_off604 k0_t38) a + S1x16.size a ≤ S256x128.size a
  k0_off605_inb : ∀ k0_t38 : Fin k0_t38_loop.trips, ∀ a, (k0_off605 k0_t38) a + S1x16.size a ≤ S128x128.size a
  k0_off606_inb : ∀ k0_t38 : Fin k0_t38_loop.trips, ∀ a, (k0_off606 k0_t38) a + S1x16.size a ≤ S256x128.size a
  k0_off607_inb : ∀ k0_t38 : Fin k0_t38_loop.trips, ∀ a, (k0_off607 k0_t38) a + S1x16.size a ≤ S128x128.size a
  k0_off608_inb : ∀ k0_t38 : Fin k0_t38_loop.trips, ∀ a, (k0_off608 k0_t38) a + S1x16.size a ≤ S256x128.size a
  k0_off609_inb : ∀ k0_t38 : Fin k0_t38_loop.trips, ∀ a, (k0_off609 k0_t38) a + S1x16.size a ≤ S128x128.size a
  k0_off610_inb : ∀ k0_t38 : Fin k0_t38_loop.trips, ∀ a, (k0_off610 k0_t38) a + S1x16.size a ≤ S256x128.size a
  k0_t39_ok : k0_t39_loop.OK
  k0_off611_inb : ∀ k0_t39 : Fin k0_t39_loop.trips, ∀ a, (k0_off611 k0_t39) a + S1x16.size a ≤ S128x128.size a
  k0_off612_inb : ∀ k0_t39 : Fin k0_t39_loop.trips, ∀ a, (k0_off612 k0_t39) a + S1x16.size a ≤ S256x128.size a
  k0_off613_inb : ∀ k0_t39 : Fin k0_t39_loop.trips, ∀ a, (k0_off613 k0_t39) a + S1x16.size a ≤ S128x128.size a
  k0_off614_inb : ∀ k0_t39 : Fin k0_t39_loop.trips, ∀ a, (k0_off614 k0_t39) a + S1x16.size a ≤ S256x128.size a
  k0_off615_inb : ∀ k0_t39 : Fin k0_t39_loop.trips, ∀ a, (k0_off615 k0_t39) a + S1x16.size a ≤ S128x128.size a
  k0_off616_inb : ∀ k0_t39 : Fin k0_t39_loop.trips, ∀ a, (k0_off616 k0_t39) a + S1x16.size a ≤ S256x128.size a
  k0_off617_inb : ∀ k0_t39 : Fin k0_t39_loop.trips, ∀ a, (k0_off617 k0_t39) a + S1x16.size a ≤ S128x128.size a
  k0_off618_inb : ∀ k0_t39 : Fin k0_t39_loop.trips, ∀ a, (k0_off618 k0_t39) a + S1x16.size a ≤ S256x128.size a
  k0_off619_inb : ∀ k0_t39 : Fin k0_t39_loop.trips, ∀ a, (k0_off619 k0_t39) a + S1x16.size a ≤ S128x128.size a
  k0_off620_inb : ∀ k0_t39 : Fin k0_t39_loop.trips, ∀ a, (k0_off620 k0_t39) a + S1x16.size a ≤ S256x128.size a
  k0_off621_inb : ∀ k0_t39 : Fin k0_t39_loop.trips, ∀ a, (k0_off621 k0_t39) a + S1x16.size a ≤ S128x128.size a
  k0_off622_inb : ∀ k0_t39 : Fin k0_t39_loop.trips, ∀ a, (k0_off622 k0_t39) a + S1x16.size a ≤ S256x128.size a
  k0_off623_inb : ∀ k0_t39 : Fin k0_t39_loop.trips, ∀ a, (k0_off623 k0_t39) a + S1x16.size a ≤ S128x128.size a
  k0_off624_inb : ∀ k0_t39 : Fin k0_t39_loop.trips, ∀ a, (k0_off624 k0_t39) a + S1x16.size a ≤ S256x128.size a
  k0_off625_inb : ∀ k0_t39 : Fin k0_t39_loop.trips, ∀ a, (k0_off625 k0_t39) a + S1x16.size a ≤ S128x128.size a
  k0_off626_inb : ∀ k0_t39 : Fin k0_t39_loop.trips, ∀ a, (k0_off626 k0_t39) a + S1x16.size a ≤ S256x128.size a
  k0_t40_ok : k0_t40_loop.OK
  k0_off627_inb : ∀ k0_t40 : Fin k0_t40_loop.trips, ∀ a, (k0_off627 k0_t40) a + S1x16.size a ≤ S128x128.size a
  k0_off628_inb : ∀ k0_t40 : Fin k0_t40_loop.trips, ∀ a, (k0_off628 k0_t40) a + S1x16.size a ≤ S256x128.size a
  k0_off629_inb : ∀ k0_t40 : Fin k0_t40_loop.trips, ∀ a, (k0_off629 k0_t40) a + S1x16.size a ≤ S128x128.size a
  k0_off630_inb : ∀ k0_t40 : Fin k0_t40_loop.trips, ∀ a, (k0_off630 k0_t40) a + S1x16.size a ≤ S256x128.size a
  k0_off631_inb : ∀ k0_t40 : Fin k0_t40_loop.trips, ∀ a, (k0_off631 k0_t40) a + S1x16.size a ≤ S128x128.size a
  k0_off632_inb : ∀ k0_t40 : Fin k0_t40_loop.trips, ∀ a, (k0_off632 k0_t40) a + S1x16.size a ≤ S256x128.size a
  k0_off633_inb : ∀ k0_t40 : Fin k0_t40_loop.trips, ∀ a, (k0_off633 k0_t40) a + S1x16.size a ≤ S128x128.size a
  k0_off634_inb : ∀ k0_t40 : Fin k0_t40_loop.trips, ∀ a, (k0_off634 k0_t40) a + S1x16.size a ≤ S256x128.size a
  k0_off635_inb : ∀ k0_t40 : Fin k0_t40_loop.trips, ∀ a, (k0_off635 k0_t40) a + S1x16.size a ≤ S128x128.size a
  k0_off636_inb : ∀ k0_t40 : Fin k0_t40_loop.trips, ∀ a, (k0_off636 k0_t40) a + S1x16.size a ≤ S256x128.size a
  k0_off637_inb : ∀ k0_t40 : Fin k0_t40_loop.trips, ∀ a, (k0_off637 k0_t40) a + S1x16.size a ≤ S128x128.size a
  k0_off638_inb : ∀ k0_t40 : Fin k0_t40_loop.trips, ∀ a, (k0_off638 k0_t40) a + S1x16.size a ≤ S256x128.size a
  k0_off639_inb : ∀ k0_t40 : Fin k0_t40_loop.trips, ∀ a, (k0_off639 k0_t40) a + S1x16.size a ≤ S128x128.size a
  k0_off640_inb : ∀ k0_t40 : Fin k0_t40_loop.trips, ∀ a, (k0_off640 k0_t40) a + S1x16.size a ≤ S256x128.size a
  k0_off641_inb : ∀ k0_t40 : Fin k0_t40_loop.trips, ∀ a, (k0_off641 k0_t40) a + S1x16.size a ≤ S128x128.size a
  k0_off642_inb : ∀ k0_t40 : Fin k0_t40_loop.trips, ∀ a, (k0_off642 k0_t40) a + S1x16.size a ≤ S256x128.size a
  k0_t41_ok : k0_t41_loop.OK
  k0_off643_inb : ∀ k0_t41 : Fin k0_t41_loop.trips, ∀ a, (k0_off643 k0_t41) a + S1x16.size a ≤ S128x128.size a
  k0_off644_inb : ∀ k0_t41 : Fin k0_t41_loop.trips, ∀ a, (k0_off644 k0_t41) a + S1x16.size a ≤ S256x128.size a
  k0_off645_inb : ∀ k0_t41 : Fin k0_t41_loop.trips, ∀ a, (k0_off645 k0_t41) a + S1x16.size a ≤ S128x128.size a
  k0_off646_inb : ∀ k0_t41 : Fin k0_t41_loop.trips, ∀ a, (k0_off646 k0_t41) a + S1x16.size a ≤ S256x128.size a
  k0_off647_inb : ∀ k0_t41 : Fin k0_t41_loop.trips, ∀ a, (k0_off647 k0_t41) a + S1x16.size a ≤ S128x128.size a
  k0_off648_inb : ∀ k0_t41 : Fin k0_t41_loop.trips, ∀ a, (k0_off648 k0_t41) a + S1x16.size a ≤ S256x128.size a
  k0_off649_inb : ∀ k0_t41 : Fin k0_t41_loop.trips, ∀ a, (k0_off649 k0_t41) a + S1x16.size a ≤ S128x128.size a
  k0_off650_inb : ∀ k0_t41 : Fin k0_t41_loop.trips, ∀ a, (k0_off650 k0_t41) a + S1x16.size a ≤ S256x128.size a
  k0_off651_inb : ∀ k0_t41 : Fin k0_t41_loop.trips, ∀ a, (k0_off651 k0_t41) a + S1x16.size a ≤ S128x128.size a
  k0_off652_inb : ∀ k0_t41 : Fin k0_t41_loop.trips, ∀ a, (k0_off652 k0_t41) a + S1x16.size a ≤ S256x128.size a
  k0_off653_inb : ∀ k0_t41 : Fin k0_t41_loop.trips, ∀ a, (k0_off653 k0_t41) a + S1x16.size a ≤ S128x128.size a
  k0_off654_inb : ∀ k0_t41 : Fin k0_t41_loop.trips, ∀ a, (k0_off654 k0_t41) a + S1x16.size a ≤ S256x128.size a
  k0_off655_inb : ∀ k0_t41 : Fin k0_t41_loop.trips, ∀ a, (k0_off655 k0_t41) a + S1x16.size a ≤ S128x128.size a
  k0_off656_inb : ∀ k0_t41 : Fin k0_t41_loop.trips, ∀ a, (k0_off656 k0_t41) a + S1x16.size a ≤ S256x128.size a
  k0_off657_inb : ∀ k0_t41 : Fin k0_t41_loop.trips, ∀ a, (k0_off657 k0_t41) a + S1x16.size a ≤ S128x128.size a
  k0_off658_inb : ∀ k0_t41 : Fin k0_t41_loop.trips, ∀ a, (k0_off658 k0_t41) a + S1x16.size a ≤ S256x128.size a
  k0_t42_ok : k0_t42_loop.OK
  k0_off659_inb : ∀ k0_t42 : Fin k0_t42_loop.trips, ∀ a, (k0_off659 k0_t42) a + S1x16.size a ≤ S128x128.size a
  k0_off660_inb : ∀ k0_t42 : Fin k0_t42_loop.trips, ∀ a, (k0_off660 k0_t42) a + S1x16.size a ≤ S256x128.size a
  k0_off661_inb : ∀ k0_t42 : Fin k0_t42_loop.trips, ∀ a, (k0_off661 k0_t42) a + S1x16.size a ≤ S128x128.size a
  k0_off662_inb : ∀ k0_t42 : Fin k0_t42_loop.trips, ∀ a, (k0_off662 k0_t42) a + S1x16.size a ≤ S256x128.size a
  k0_off663_inb : ∀ k0_t42 : Fin k0_t42_loop.trips, ∀ a, (k0_off663 k0_t42) a + S1x16.size a ≤ S128x128.size a
  k0_off664_inb : ∀ k0_t42 : Fin k0_t42_loop.trips, ∀ a, (k0_off664 k0_t42) a + S1x16.size a ≤ S256x128.size a
  k0_off665_inb : ∀ k0_t42 : Fin k0_t42_loop.trips, ∀ a, (k0_off665 k0_t42) a + S1x16.size a ≤ S128x128.size a
  k0_off666_inb : ∀ k0_t42 : Fin k0_t42_loop.trips, ∀ a, (k0_off666 k0_t42) a + S1x16.size a ≤ S256x128.size a
  k0_off667_inb : ∀ k0_t42 : Fin k0_t42_loop.trips, ∀ a, (k0_off667 k0_t42) a + S1x16.size a ≤ S128x128.size a
  k0_off668_inb : ∀ k0_t42 : Fin k0_t42_loop.trips, ∀ a, (k0_off668 k0_t42) a + S1x16.size a ≤ S256x128.size a
  k0_off669_inb : ∀ k0_t42 : Fin k0_t42_loop.trips, ∀ a, (k0_off669 k0_t42) a + S1x16.size a ≤ S128x128.size a
  k0_off670_inb : ∀ k0_t42 : Fin k0_t42_loop.trips, ∀ a, (k0_off670 k0_t42) a + S1x16.size a ≤ S256x128.size a
  k0_off671_inb : ∀ k0_t42 : Fin k0_t42_loop.trips, ∀ a, (k0_off671 k0_t42) a + S1x16.size a ≤ S128x128.size a
  k0_off672_inb : ∀ k0_t42 : Fin k0_t42_loop.trips, ∀ a, (k0_off672 k0_t42) a + S1x16.size a ≤ S256x128.size a
  k0_off673_inb : ∀ k0_t42 : Fin k0_t42_loop.trips, ∀ a, (k0_off673 k0_t42) a + S1x16.size a ≤ S128x128.size a
  k0_off674_inb : ∀ k0_t42 : Fin k0_t42_loop.trips, ∀ a, (k0_off674 k0_t42) a + S1x16.size a ≤ S256x128.size a
  k0_t43_ok : k0_t43_loop.OK
  k0_off675_inb : ∀ k0_t43 : Fin k0_t43_loop.trips, ∀ a, (k0_off675 k0_t43) a + S1x16.size a ≤ S128x128.size a
  k0_off676_inb : ∀ k0_t43 : Fin k0_t43_loop.trips, ∀ a, (k0_off676 k0_t43) a + S1x16.size a ≤ S256x128.size a
  k0_off677_inb : ∀ k0_t43 : Fin k0_t43_loop.trips, ∀ a, (k0_off677 k0_t43) a + S1x16.size a ≤ S128x128.size a
  k0_off678_inb : ∀ k0_t43 : Fin k0_t43_loop.trips, ∀ a, (k0_off678 k0_t43) a + S1x16.size a ≤ S256x128.size a
  k0_off679_inb : ∀ k0_t43 : Fin k0_t43_loop.trips, ∀ a, (k0_off679 k0_t43) a + S1x16.size a ≤ S128x128.size a
  k0_off680_inb : ∀ k0_t43 : Fin k0_t43_loop.trips, ∀ a, (k0_off680 k0_t43) a + S1x16.size a ≤ S256x128.size a
  k0_off681_inb : ∀ k0_t43 : Fin k0_t43_loop.trips, ∀ a, (k0_off681 k0_t43) a + S1x16.size a ≤ S128x128.size a
  k0_off682_inb : ∀ k0_t43 : Fin k0_t43_loop.trips, ∀ a, (k0_off682 k0_t43) a + S1x16.size a ≤ S256x128.size a
  k0_off683_inb : ∀ k0_t43 : Fin k0_t43_loop.trips, ∀ a, (k0_off683 k0_t43) a + S1x16.size a ≤ S128x128.size a
  k0_off684_inb : ∀ k0_t43 : Fin k0_t43_loop.trips, ∀ a, (k0_off684 k0_t43) a + S1x16.size a ≤ S256x128.size a
  k0_off685_inb : ∀ k0_t43 : Fin k0_t43_loop.trips, ∀ a, (k0_off685 k0_t43) a + S1x16.size a ≤ S128x128.size a
  k0_off686_inb : ∀ k0_t43 : Fin k0_t43_loop.trips, ∀ a, (k0_off686 k0_t43) a + S1x16.size a ≤ S256x128.size a
  k0_off687_inb : ∀ k0_t43 : Fin k0_t43_loop.trips, ∀ a, (k0_off687 k0_t43) a + S1x16.size a ≤ S128x128.size a
  k0_off688_inb : ∀ k0_t43 : Fin k0_t43_loop.trips, ∀ a, (k0_off688 k0_t43) a + S1x16.size a ≤ S256x128.size a
  k0_off689_inb : ∀ k0_t43 : Fin k0_t43_loop.trips, ∀ a, (k0_off689 k0_t43) a + S1x16.size a ≤ S128x128.size a
  k0_off690_inb : ∀ k0_t43 : Fin k0_t43_loop.trips, ∀ a, (k0_off690 k0_t43) a + S1x16.size a ≤ S256x128.size a
  k0_t44_ok : k0_t44_loop.OK
  k0_off691_inb : ∀ k0_t44 : Fin k0_t44_loop.trips, ∀ a, (k0_off691 k0_t44) a + S1x16.size a ≤ S128x128.size a
  k0_off692_inb : ∀ k0_t44 : Fin k0_t44_loop.trips, ∀ a, (k0_off692 k0_t44) a + S1x16.size a ≤ S256x128.size a
  k0_off693_inb : ∀ k0_t44 : Fin k0_t44_loop.trips, ∀ a, (k0_off693 k0_t44) a + S1x16.size a ≤ S128x128.size a
  k0_off694_inb : ∀ k0_t44 : Fin k0_t44_loop.trips, ∀ a, (k0_off694 k0_t44) a + S1x16.size a ≤ S256x128.size a
  k0_off695_inb : ∀ k0_t44 : Fin k0_t44_loop.trips, ∀ a, (k0_off695 k0_t44) a + S1x16.size a ≤ S128x128.size a
  k0_off696_inb : ∀ k0_t44 : Fin k0_t44_loop.trips, ∀ a, (k0_off696 k0_t44) a + S1x16.size a ≤ S256x128.size a
  k0_off697_inb : ∀ k0_t44 : Fin k0_t44_loop.trips, ∀ a, (k0_off697 k0_t44) a + S1x16.size a ≤ S128x128.size a
  k0_off698_inb : ∀ k0_t44 : Fin k0_t44_loop.trips, ∀ a, (k0_off698 k0_t44) a + S1x16.size a ≤ S256x128.size a
  k0_off699_inb : ∀ k0_t44 : Fin k0_t44_loop.trips, ∀ a, (k0_off699 k0_t44) a + S1x16.size a ≤ S128x128.size a
  k0_off700_inb : ∀ k0_t44 : Fin k0_t44_loop.trips, ∀ a, (k0_off700 k0_t44) a + S1x16.size a ≤ S256x128.size a
  k0_off701_inb : ∀ k0_t44 : Fin k0_t44_loop.trips, ∀ a, (k0_off701 k0_t44) a + S1x16.size a ≤ S128x128.size a
  k0_off702_inb : ∀ k0_t44 : Fin k0_t44_loop.trips, ∀ a, (k0_off702 k0_t44) a + S1x16.size a ≤ S256x128.size a
  k0_off703_inb : ∀ k0_t44 : Fin k0_t44_loop.trips, ∀ a, (k0_off703 k0_t44) a + S1x16.size a ≤ S128x128.size a
  k0_off704_inb : ∀ k0_t44 : Fin k0_t44_loop.trips, ∀ a, (k0_off704 k0_t44) a + S1x16.size a ≤ S256x128.size a
  k0_off705_inb : ∀ k0_t44 : Fin k0_t44_loop.trips, ∀ a, (k0_off705 k0_t44) a + S1x16.size a ≤ S128x128.size a
  k0_off706_inb : ∀ k0_t44 : Fin k0_t44_loop.trips, ∀ a, (k0_off706 k0_t44) a + S1x16.size a ≤ S256x128.size a
  k0_t45_ok : k0_t45_loop.OK
  k0_off707_inb : ∀ k0_t45 : Fin k0_t45_loop.trips, ∀ a, (k0_off707 k0_t45) a + S1x16.size a ≤ S128x128.size a
  k0_off708_inb : ∀ k0_t45 : Fin k0_t45_loop.trips, ∀ a, (k0_off708 k0_t45) a + S1x16.size a ≤ S256x128.size a
  k0_off709_inb : ∀ k0_t45 : Fin k0_t45_loop.trips, ∀ a, (k0_off709 k0_t45) a + S1x16.size a ≤ S128x128.size a
  k0_off710_inb : ∀ k0_t45 : Fin k0_t45_loop.trips, ∀ a, (k0_off710 k0_t45) a + S1x16.size a ≤ S256x128.size a
  k0_off711_inb : ∀ k0_t45 : Fin k0_t45_loop.trips, ∀ a, (k0_off711 k0_t45) a + S1x16.size a ≤ S128x128.size a
  k0_off712_inb : ∀ k0_t45 : Fin k0_t45_loop.trips, ∀ a, (k0_off712 k0_t45) a + S1x16.size a ≤ S256x128.size a
  k0_off713_inb : ∀ k0_t45 : Fin k0_t45_loop.trips, ∀ a, (k0_off713 k0_t45) a + S1x16.size a ≤ S128x128.size a
  k0_off714_inb : ∀ k0_t45 : Fin k0_t45_loop.trips, ∀ a, (k0_off714 k0_t45) a + S1x16.size a ≤ S256x128.size a
  k0_off715_inb : ∀ k0_t45 : Fin k0_t45_loop.trips, ∀ a, (k0_off715 k0_t45) a + S1x16.size a ≤ S128x128.size a
  k0_off716_inb : ∀ k0_t45 : Fin k0_t45_loop.trips, ∀ a, (k0_off716 k0_t45) a + S1x16.size a ≤ S256x128.size a
  k0_off717_inb : ∀ k0_t45 : Fin k0_t45_loop.trips, ∀ a, (k0_off717 k0_t45) a + S1x16.size a ≤ S128x128.size a
  k0_off718_inb : ∀ k0_t45 : Fin k0_t45_loop.trips, ∀ a, (k0_off718 k0_t45) a + S1x16.size a ≤ S256x128.size a
  k0_off719_inb : ∀ k0_t45 : Fin k0_t45_loop.trips, ∀ a, (k0_off719 k0_t45) a + S1x16.size a ≤ S128x128.size a
  k0_off720_inb : ∀ k0_t45 : Fin k0_t45_loop.trips, ∀ a, (k0_off720 k0_t45) a + S1x16.size a ≤ S256x128.size a
  k0_off721_inb : ∀ k0_t45 : Fin k0_t45_loop.trips, ∀ a, (k0_off721 k0_t45) a + S1x16.size a ≤ S128x128.size a
  k0_off722_inb : ∀ k0_t45 : Fin k0_t45_loop.trips, ∀ a, (k0_off722 k0_t45) a + S1x16.size a ≤ S256x128.size a
  k0_t46_ok : k0_t46_loop.OK
  k0_off723_inb : ∀ k0_t46 : Fin k0_t46_loop.trips, ∀ a, (k0_off723 k0_t46) a + S1x16.size a ≤ S128x128.size a
  k0_off724_inb : ∀ k0_t46 : Fin k0_t46_loop.trips, ∀ a, (k0_off724 k0_t46) a + S1x16.size a ≤ S256x128.size a
  k0_off725_inb : ∀ k0_t46 : Fin k0_t46_loop.trips, ∀ a, (k0_off725 k0_t46) a + S1x16.size a ≤ S128x128.size a
  k0_off726_inb : ∀ k0_t46 : Fin k0_t46_loop.trips, ∀ a, (k0_off726 k0_t46) a + S1x16.size a ≤ S256x128.size a
  k0_off727_inb : ∀ k0_t46 : Fin k0_t46_loop.trips, ∀ a, (k0_off727 k0_t46) a + S1x16.size a ≤ S128x128.size a
  k0_off728_inb : ∀ k0_t46 : Fin k0_t46_loop.trips, ∀ a, (k0_off728 k0_t46) a + S1x16.size a ≤ S256x128.size a
  k0_off729_inb : ∀ k0_t46 : Fin k0_t46_loop.trips, ∀ a, (k0_off729 k0_t46) a + S1x16.size a ≤ S128x128.size a
  k0_off730_inb : ∀ k0_t46 : Fin k0_t46_loop.trips, ∀ a, (k0_off730 k0_t46) a + S1x16.size a ≤ S256x128.size a
  k0_off731_inb : ∀ k0_t46 : Fin k0_t46_loop.trips, ∀ a, (k0_off731 k0_t46) a + S1x16.size a ≤ S128x128.size a
  k0_off732_inb : ∀ k0_t46 : Fin k0_t46_loop.trips, ∀ a, (k0_off732 k0_t46) a + S1x16.size a ≤ S256x128.size a
  k0_off733_inb : ∀ k0_t46 : Fin k0_t46_loop.trips, ∀ a, (k0_off733 k0_t46) a + S1x16.size a ≤ S128x128.size a
  k0_off734_inb : ∀ k0_t46 : Fin k0_t46_loop.trips, ∀ a, (k0_off734 k0_t46) a + S1x16.size a ≤ S256x128.size a
  k0_off735_inb : ∀ k0_t46 : Fin k0_t46_loop.trips, ∀ a, (k0_off735 k0_t46) a + S1x16.size a ≤ S128x128.size a
  k0_off736_inb : ∀ k0_t46 : Fin k0_t46_loop.trips, ∀ a, (k0_off736 k0_t46) a + S1x16.size a ≤ S256x128.size a
  k0_off737_inb : ∀ k0_t46 : Fin k0_t46_loop.trips, ∀ a, (k0_off737 k0_t46) a + S1x16.size a ≤ S128x128.size a
  k0_off738_inb : ∀ k0_t46 : Fin k0_t46_loop.trips, ∀ a, (k0_off738 k0_t46) a + S1x16.size a ≤ S256x128.size a
  k0_t47_ok : k0_t47_loop.OK
  k0_off739_inb : ∀ k0_t47 : Fin k0_t47_loop.trips, ∀ a, (k0_off739 k0_t47) a + S1x16.size a ≤ S128x128.size a
  k0_off740_inb : ∀ k0_t47 : Fin k0_t47_loop.trips, ∀ a, (k0_off740 k0_t47) a + S1x16.size a ≤ S256x128.size a
  k0_off741_inb : ∀ k0_t47 : Fin k0_t47_loop.trips, ∀ a, (k0_off741 k0_t47) a + S1x16.size a ≤ S128x128.size a
  k0_off742_inb : ∀ k0_t47 : Fin k0_t47_loop.trips, ∀ a, (k0_off742 k0_t47) a + S1x16.size a ≤ S256x128.size a
  k0_off743_inb : ∀ k0_t47 : Fin k0_t47_loop.trips, ∀ a, (k0_off743 k0_t47) a + S1x16.size a ≤ S128x128.size a
  k0_off744_inb : ∀ k0_t47 : Fin k0_t47_loop.trips, ∀ a, (k0_off744 k0_t47) a + S1x16.size a ≤ S256x128.size a
  k0_off745_inb : ∀ k0_t47 : Fin k0_t47_loop.trips, ∀ a, (k0_off745 k0_t47) a + S1x16.size a ≤ S128x128.size a
  k0_off746_inb : ∀ k0_t47 : Fin k0_t47_loop.trips, ∀ a, (k0_off746 k0_t47) a + S1x16.size a ≤ S256x128.size a
  k0_off747_inb : ∀ k0_t47 : Fin k0_t47_loop.trips, ∀ a, (k0_off747 k0_t47) a + S1x16.size a ≤ S128x128.size a
  k0_off748_inb : ∀ k0_t47 : Fin k0_t47_loop.trips, ∀ a, (k0_off748 k0_t47) a + S1x16.size a ≤ S256x128.size a
  k0_off749_inb : ∀ k0_t47 : Fin k0_t47_loop.trips, ∀ a, (k0_off749 k0_t47) a + S1x16.size a ≤ S128x128.size a
  k0_off750_inb : ∀ k0_t47 : Fin k0_t47_loop.trips, ∀ a, (k0_off750 k0_t47) a + S1x16.size a ≤ S256x128.size a
  k0_off751_inb : ∀ k0_t47 : Fin k0_t47_loop.trips, ∀ a, (k0_off751 k0_t47) a + S1x16.size a ≤ S128x128.size a
  k0_off752_inb : ∀ k0_t47 : Fin k0_t47_loop.trips, ∀ a, (k0_off752 k0_t47) a + S1x16.size a ≤ S256x128.size a
  k0_off753_inb : ∀ k0_t47 : Fin k0_t47_loop.trips, ∀ a, (k0_off753 k0_t47) a + S1x16.size a ≤ S128x128.size a
  k0_off754_inb : ∀ k0_t47 : Fin k0_t47_loop.trips, ∀ a, (k0_off754 k0_t47) a + S1x16.size a ≤ S256x128.size a
  k0_t48_ok : k0_t48_loop.OK
  k0_off755_inb : ∀ k0_t48 : Fin k0_t48_loop.trips, ∀ a, (k0_off755 k0_t48) a + S1x16.size a ≤ S128x128.size a
  k0_off756_inb : ∀ k0_t48 : Fin k0_t48_loop.trips, ∀ a, (k0_off756 k0_t48) a + S1x16.size a ≤ S256x128.size a
  k0_off757_inb : ∀ k0_t48 : Fin k0_t48_loop.trips, ∀ a, (k0_off757 k0_t48) a + S1x16.size a ≤ S128x128.size a
  k0_off758_inb : ∀ k0_t48 : Fin k0_t48_loop.trips, ∀ a, (k0_off758 k0_t48) a + S1x16.size a ≤ S256x128.size a
  k0_off759_inb : ∀ k0_t48 : Fin k0_t48_loop.trips, ∀ a, (k0_off759 k0_t48) a + S1x16.size a ≤ S128x128.size a
  k0_off760_inb : ∀ k0_t48 : Fin k0_t48_loop.trips, ∀ a, (k0_off760 k0_t48) a + S1x16.size a ≤ S256x128.size a
  k0_off761_inb : ∀ k0_t48 : Fin k0_t48_loop.trips, ∀ a, (k0_off761 k0_t48) a + S1x16.size a ≤ S128x128.size a
  k0_off762_inb : ∀ k0_t48 : Fin k0_t48_loop.trips, ∀ a, (k0_off762 k0_t48) a + S1x16.size a ≤ S256x128.size a
  k0_off763_inb : ∀ k0_t48 : Fin k0_t48_loop.trips, ∀ a, (k0_off763 k0_t48) a + S1x16.size a ≤ S128x128.size a
  k0_off764_inb : ∀ k0_t48 : Fin k0_t48_loop.trips, ∀ a, (k0_off764 k0_t48) a + S1x16.size a ≤ S256x128.size a
  k0_off765_inb : ∀ k0_t48 : Fin k0_t48_loop.trips, ∀ a, (k0_off765 k0_t48) a + S1x16.size a ≤ S128x128.size a
  k0_off766_inb : ∀ k0_t48 : Fin k0_t48_loop.trips, ∀ a, (k0_off766 k0_t48) a + S1x16.size a ≤ S256x128.size a
  k0_off767_inb : ∀ k0_t48 : Fin k0_t48_loop.trips, ∀ a, (k0_off767 k0_t48) a + S1x16.size a ≤ S128x128.size a
  k0_off768_inb : ∀ k0_t48 : Fin k0_t48_loop.trips, ∀ a, (k0_off768 k0_t48) a + S1x16.size a ≤ S256x128.size a
  k0_off769_inb : ∀ k0_t48 : Fin k0_t48_loop.trips, ∀ a, (k0_off769 k0_t48) a + S1x16.size a ≤ S128x128.size a
  k0_off770_inb : ∀ k0_t48 : Fin k0_t48_loop.trips, ∀ a, (k0_off770 k0_t48) a + S1x16.size a ≤ S256x128.size a
  k0_t49_ok : k0_t49_loop.OK
  k0_off771_inb : ∀ k0_t49 : Fin k0_t49_loop.trips, ∀ a, (k0_off771 k0_t49) a + S1x16.size a ≤ S128x128.size a
  k0_off772_inb : ∀ k0_t49 : Fin k0_t49_loop.trips, ∀ a, (k0_off772 k0_t49) a + S1x16.size a ≤ S256x128.size a
  k0_off773_inb : ∀ k0_t49 : Fin k0_t49_loop.trips, ∀ a, (k0_off773 k0_t49) a + S1x16.size a ≤ S128x128.size a
  k0_off774_inb : ∀ k0_t49 : Fin k0_t49_loop.trips, ∀ a, (k0_off774 k0_t49) a + S1x16.size a ≤ S256x128.size a
  k0_off775_inb : ∀ k0_t49 : Fin k0_t49_loop.trips, ∀ a, (k0_off775 k0_t49) a + S1x16.size a ≤ S128x128.size a
  k0_off776_inb : ∀ k0_t49 : Fin k0_t49_loop.trips, ∀ a, (k0_off776 k0_t49) a + S1x16.size a ≤ S256x128.size a
  k0_off777_inb : ∀ k0_t49 : Fin k0_t49_loop.trips, ∀ a, (k0_off777 k0_t49) a + S1x16.size a ≤ S128x128.size a
  k0_off778_inb : ∀ k0_t49 : Fin k0_t49_loop.trips, ∀ a, (k0_off778 k0_t49) a + S1x16.size a ≤ S256x128.size a
  k0_off779_inb : ∀ k0_t49 : Fin k0_t49_loop.trips, ∀ a, (k0_off779 k0_t49) a + S1x16.size a ≤ S128x128.size a
  k0_off780_inb : ∀ k0_t49 : Fin k0_t49_loop.trips, ∀ a, (k0_off780 k0_t49) a + S1x16.size a ≤ S256x128.size a
  k0_off781_inb : ∀ k0_t49 : Fin k0_t49_loop.trips, ∀ a, (k0_off781 k0_t49) a + S1x16.size a ≤ S128x128.size a
  k0_off782_inb : ∀ k0_t49 : Fin k0_t49_loop.trips, ∀ a, (k0_off782 k0_t49) a + S1x16.size a ≤ S256x128.size a
  k0_off783_inb : ∀ k0_t49 : Fin k0_t49_loop.trips, ∀ a, (k0_off783 k0_t49) a + S1x16.size a ≤ S128x128.size a
  k0_off784_inb : ∀ k0_t49 : Fin k0_t49_loop.trips, ∀ a, (k0_off784 k0_t49) a + S1x16.size a ≤ S256x128.size a
  k0_off785_inb : ∀ k0_t49 : Fin k0_t49_loop.trips, ∀ a, (k0_off785 k0_t49) a + S1x16.size a ≤ S128x128.size a
  k0_off786_inb : ∀ k0_t49 : Fin k0_t49_loop.trips, ∀ a, (k0_off786 k0_t49) a + S1x16.size a ≤ S256x128.size a
  k0_t50_ok : k0_t50_loop.OK
  k0_off787_inb : ∀ k0_t50 : Fin k0_t50_loop.trips, ∀ a, (k0_off787 k0_t50) a + S1x16.size a ≤ S128x128.size a
  k0_off788_inb : ∀ k0_t50 : Fin k0_t50_loop.trips, ∀ a, (k0_off788 k0_t50) a + S1x16.size a ≤ S256x128.size a
  k0_off789_inb : ∀ k0_t50 : Fin k0_t50_loop.trips, ∀ a, (k0_off789 k0_t50) a + S1x16.size a ≤ S128x128.size a
  k0_off790_inb : ∀ k0_t50 : Fin k0_t50_loop.trips, ∀ a, (k0_off790 k0_t50) a + S1x16.size a ≤ S256x128.size a
  k0_off791_inb : ∀ k0_t50 : Fin k0_t50_loop.trips, ∀ a, (k0_off791 k0_t50) a + S1x16.size a ≤ S128x128.size a
  k0_off792_inb : ∀ k0_t50 : Fin k0_t50_loop.trips, ∀ a, (k0_off792 k0_t50) a + S1x16.size a ≤ S256x128.size a
  k0_off793_inb : ∀ k0_t50 : Fin k0_t50_loop.trips, ∀ a, (k0_off793 k0_t50) a + S1x16.size a ≤ S128x128.size a
  k0_off794_inb : ∀ k0_t50 : Fin k0_t50_loop.trips, ∀ a, (k0_off794 k0_t50) a + S1x16.size a ≤ S256x128.size a
  k0_off795_inb : ∀ k0_t50 : Fin k0_t50_loop.trips, ∀ a, (k0_off795 k0_t50) a + S1x16.size a ≤ S128x128.size a
  k0_off796_inb : ∀ k0_t50 : Fin k0_t50_loop.trips, ∀ a, (k0_off796 k0_t50) a + S1x16.size a ≤ S256x128.size a
  k0_off797_inb : ∀ k0_t50 : Fin k0_t50_loop.trips, ∀ a, (k0_off797 k0_t50) a + S1x16.size a ≤ S128x128.size a
  k0_off798_inb : ∀ k0_t50 : Fin k0_t50_loop.trips, ∀ a, (k0_off798 k0_t50) a + S1x16.size a ≤ S256x128.size a
  k0_off799_inb : ∀ k0_t50 : Fin k0_t50_loop.trips, ∀ a, (k0_off799 k0_t50) a + S1x16.size a ≤ S128x128.size a
  k0_off800_inb : ∀ k0_t50 : Fin k0_t50_loop.trips, ∀ a, (k0_off800 k0_t50) a + S1x16.size a ≤ S256x128.size a
  k0_off801_inb : ∀ k0_t50 : Fin k0_t50_loop.trips, ∀ a, (k0_off801 k0_t50) a + S1x16.size a ≤ S128x128.size a
  k0_off802_inb : ∀ k0_t50 : Fin k0_t50_loop.trips, ∀ a, (k0_off802 k0_t50) a + S1x16.size a ≤ S256x128.size a
  k0_t51_ok : k0_t51_loop.OK
  k0_off803_inb : ∀ k0_t51 : Fin k0_t51_loop.trips, ∀ a, (k0_off803 k0_t51) a + S1x16.size a ≤ S128x128.size a
  k0_off804_inb : ∀ k0_t51 : Fin k0_t51_loop.trips, ∀ a, (k0_off804 k0_t51) a + S1x16.size a ≤ S256x128.size a
  k0_off805_inb : ∀ k0_t51 : Fin k0_t51_loop.trips, ∀ a, (k0_off805 k0_t51) a + S1x16.size a ≤ S128x128.size a
  k0_off806_inb : ∀ k0_t51 : Fin k0_t51_loop.trips, ∀ a, (k0_off806 k0_t51) a + S1x16.size a ≤ S256x128.size a
  k0_off807_inb : ∀ k0_t51 : Fin k0_t51_loop.trips, ∀ a, (k0_off807 k0_t51) a + S1x16.size a ≤ S128x128.size a
  k0_off808_inb : ∀ k0_t51 : Fin k0_t51_loop.trips, ∀ a, (k0_off808 k0_t51) a + S1x16.size a ≤ S256x128.size a
  k0_off809_inb : ∀ k0_t51 : Fin k0_t51_loop.trips, ∀ a, (k0_off809 k0_t51) a + S1x16.size a ≤ S128x128.size a
  k0_off810_inb : ∀ k0_t51 : Fin k0_t51_loop.trips, ∀ a, (k0_off810 k0_t51) a + S1x16.size a ≤ S256x128.size a
  k0_off811_inb : ∀ k0_t51 : Fin k0_t51_loop.trips, ∀ a, (k0_off811 k0_t51) a + S1x16.size a ≤ S128x128.size a
  k0_off812_inb : ∀ k0_t51 : Fin k0_t51_loop.trips, ∀ a, (k0_off812 k0_t51) a + S1x16.size a ≤ S256x128.size a
  k0_off813_inb : ∀ k0_t51 : Fin k0_t51_loop.trips, ∀ a, (k0_off813 k0_t51) a + S1x16.size a ≤ S128x128.size a
  k0_off814_inb : ∀ k0_t51 : Fin k0_t51_loop.trips, ∀ a, (k0_off814 k0_t51) a + S1x16.size a ≤ S256x128.size a
  k0_off815_inb : ∀ k0_t51 : Fin k0_t51_loop.trips, ∀ a, (k0_off815 k0_t51) a + S1x16.size a ≤ S128x128.size a
  k0_off816_inb : ∀ k0_t51 : Fin k0_t51_loop.trips, ∀ a, (k0_off816 k0_t51) a + S1x16.size a ≤ S256x128.size a
  k0_off817_inb : ∀ k0_t51 : Fin k0_t51_loop.trips, ∀ a, (k0_off817 k0_t51) a + S1x16.size a ≤ S128x128.size a
  k0_off818_inb : ∀ k0_t51 : Fin k0_t51_loop.trips, ∀ a, (k0_off818 k0_t51) a + S1x16.size a ≤ S256x128.size a
  k0_t52_ok : k0_t52_loop.OK
  k0_off819_inb : ∀ k0_t52 : Fin k0_t52_loop.trips, ∀ a, (k0_off819 k0_t52) a + S1x16.size a ≤ S128x128.size a
  k0_off820_inb : ∀ k0_t52 : Fin k0_t52_loop.trips, ∀ a, (k0_off820 k0_t52) a + S1x16.size a ≤ S256x128.size a
  k0_off821_inb : ∀ k0_t52 : Fin k0_t52_loop.trips, ∀ a, (k0_off821 k0_t52) a + S1x16.size a ≤ S128x128.size a
  k0_off822_inb : ∀ k0_t52 : Fin k0_t52_loop.trips, ∀ a, (k0_off822 k0_t52) a + S1x16.size a ≤ S256x128.size a
  k0_off823_inb : ∀ k0_t52 : Fin k0_t52_loop.trips, ∀ a, (k0_off823 k0_t52) a + S1x16.size a ≤ S128x128.size a
  k0_off824_inb : ∀ k0_t52 : Fin k0_t52_loop.trips, ∀ a, (k0_off824 k0_t52) a + S1x16.size a ≤ S256x128.size a
  k0_off825_inb : ∀ k0_t52 : Fin k0_t52_loop.trips, ∀ a, (k0_off825 k0_t52) a + S1x16.size a ≤ S128x128.size a
  k0_off826_inb : ∀ k0_t52 : Fin k0_t52_loop.trips, ∀ a, (k0_off826 k0_t52) a + S1x16.size a ≤ S256x128.size a
  k0_off827_inb : ∀ k0_t52 : Fin k0_t52_loop.trips, ∀ a, (k0_off827 k0_t52) a + S1x16.size a ≤ S128x128.size a
  k0_off828_inb : ∀ k0_t52 : Fin k0_t52_loop.trips, ∀ a, (k0_off828 k0_t52) a + S1x16.size a ≤ S256x128.size a
  k0_off829_inb : ∀ k0_t52 : Fin k0_t52_loop.trips, ∀ a, (k0_off829 k0_t52) a + S1x16.size a ≤ S128x128.size a
  k0_off830_inb : ∀ k0_t52 : Fin k0_t52_loop.trips, ∀ a, (k0_off830 k0_t52) a + S1x16.size a ≤ S256x128.size a
  k0_off831_inb : ∀ k0_t52 : Fin k0_t52_loop.trips, ∀ a, (k0_off831 k0_t52) a + S1x16.size a ≤ S128x128.size a
  k0_off832_inb : ∀ k0_t52 : Fin k0_t52_loop.trips, ∀ a, (k0_off832 k0_t52) a + S1x16.size a ≤ S256x128.size a
  k0_off833_inb : ∀ k0_t52 : Fin k0_t52_loop.trips, ∀ a, (k0_off833 k0_t52) a + S1x16.size a ≤ S128x128.size a
  k0_off834_inb : ∀ k0_t52 : Fin k0_t52_loop.trips, ∀ a, (k0_off834 k0_t52) a + S1x16.size a ≤ S256x128.size a
  k0_t53_ok : k0_t53_loop.OK
  k0_off835_inb : ∀ k0_t53 : Fin k0_t53_loop.trips, ∀ a, (k0_off835 k0_t53) a + S1x16.size a ≤ S128x128.size a
  k0_off836_inb : ∀ k0_t53 : Fin k0_t53_loop.trips, ∀ a, (k0_off836 k0_t53) a + S1x16.size a ≤ S256x128.size a
  k0_off837_inb : ∀ k0_t53 : Fin k0_t53_loop.trips, ∀ a, (k0_off837 k0_t53) a + S1x16.size a ≤ S128x128.size a
  k0_off838_inb : ∀ k0_t53 : Fin k0_t53_loop.trips, ∀ a, (k0_off838 k0_t53) a + S1x16.size a ≤ S256x128.size a
  k0_off839_inb : ∀ k0_t53 : Fin k0_t53_loop.trips, ∀ a, (k0_off839 k0_t53) a + S1x16.size a ≤ S128x128.size a
  k0_off840_inb : ∀ k0_t53 : Fin k0_t53_loop.trips, ∀ a, (k0_off840 k0_t53) a + S1x16.size a ≤ S256x128.size a
  k0_off841_inb : ∀ k0_t53 : Fin k0_t53_loop.trips, ∀ a, (k0_off841 k0_t53) a + S1x16.size a ≤ S128x128.size a
  k0_off842_inb : ∀ k0_t53 : Fin k0_t53_loop.trips, ∀ a, (k0_off842 k0_t53) a + S1x16.size a ≤ S256x128.size a
  k0_off843_inb : ∀ k0_t53 : Fin k0_t53_loop.trips, ∀ a, (k0_off843 k0_t53) a + S1x16.size a ≤ S128x128.size a
  k0_off844_inb : ∀ k0_t53 : Fin k0_t53_loop.trips, ∀ a, (k0_off844 k0_t53) a + S1x16.size a ≤ S256x128.size a
  k0_off845_inb : ∀ k0_t53 : Fin k0_t53_loop.trips, ∀ a, (k0_off845 k0_t53) a + S1x16.size a ≤ S128x128.size a
  k0_off846_inb : ∀ k0_t53 : Fin k0_t53_loop.trips, ∀ a, (k0_off846 k0_t53) a + S1x16.size a ≤ S256x128.size a
  k0_off847_inb : ∀ k0_t53 : Fin k0_t53_loop.trips, ∀ a, (k0_off847 k0_t53) a + S1x16.size a ≤ S128x128.size a
  k0_off848_inb : ∀ k0_t53 : Fin k0_t53_loop.trips, ∀ a, (k0_off848 k0_t53) a + S1x16.size a ≤ S256x128.size a
  k0_off849_inb : ∀ k0_t53 : Fin k0_t53_loop.trips, ∀ a, (k0_off849 k0_t53) a + S1x16.size a ≤ S128x128.size a
  k0_off850_inb : ∀ k0_t53 : Fin k0_t53_loop.trips, ∀ a, (k0_off850 k0_t53) a + S1x16.size a ≤ S256x128.size a
  k0_t54_ok : k0_t54_loop.OK
  k0_off851_inb : ∀ k0_t54 : Fin k0_t54_loop.trips, ∀ a, (k0_off851 k0_t54) a + S1x16.size a ≤ S128x128.size a
  k0_off852_inb : ∀ k0_t54 : Fin k0_t54_loop.trips, ∀ a, (k0_off852 k0_t54) a + S1x16.size a ≤ S256x128.size a
  k0_off853_inb : ∀ k0_t54 : Fin k0_t54_loop.trips, ∀ a, (k0_off853 k0_t54) a + S1x16.size a ≤ S128x128.size a
  k0_off854_inb : ∀ k0_t54 : Fin k0_t54_loop.trips, ∀ a, (k0_off854 k0_t54) a + S1x16.size a ≤ S256x128.size a
  k0_off855_inb : ∀ k0_t54 : Fin k0_t54_loop.trips, ∀ a, (k0_off855 k0_t54) a + S1x16.size a ≤ S128x128.size a
  k0_off856_inb : ∀ k0_t54 : Fin k0_t54_loop.trips, ∀ a, (k0_off856 k0_t54) a + S1x16.size a ≤ S256x128.size a
  k0_off857_inb : ∀ k0_t54 : Fin k0_t54_loop.trips, ∀ a, (k0_off857 k0_t54) a + S1x16.size a ≤ S128x128.size a
  k0_off858_inb : ∀ k0_t54 : Fin k0_t54_loop.trips, ∀ a, (k0_off858 k0_t54) a + S1x16.size a ≤ S256x128.size a
  k0_off859_inb : ∀ k0_t54 : Fin k0_t54_loop.trips, ∀ a, (k0_off859 k0_t54) a + S1x16.size a ≤ S128x128.size a
  k0_off860_inb : ∀ k0_t54 : Fin k0_t54_loop.trips, ∀ a, (k0_off860 k0_t54) a + S1x16.size a ≤ S256x128.size a
  k0_off861_inb : ∀ k0_t54 : Fin k0_t54_loop.trips, ∀ a, (k0_off861 k0_t54) a + S1x16.size a ≤ S128x128.size a
  k0_off862_inb : ∀ k0_t54 : Fin k0_t54_loop.trips, ∀ a, (k0_off862 k0_t54) a + S1x16.size a ≤ S256x128.size a
  k0_off863_inb : ∀ k0_t54 : Fin k0_t54_loop.trips, ∀ a, (k0_off863 k0_t54) a + S1x16.size a ≤ S128x128.size a
  k0_off864_inb : ∀ k0_t54 : Fin k0_t54_loop.trips, ∀ a, (k0_off864 k0_t54) a + S1x16.size a ≤ S256x128.size a
  k0_off865_inb : ∀ k0_t54 : Fin k0_t54_loop.trips, ∀ a, (k0_off865 k0_t54) a + S1x16.size a ≤ S128x128.size a
  k0_off866_inb : ∀ k0_t54 : Fin k0_t54_loop.trips, ∀ a, (k0_off866 k0_t54) a + S1x16.size a ≤ S256x128.size a
  k0_t55_ok : k0_t55_loop.OK
  k0_off867_inb : ∀ k0_t55 : Fin k0_t55_loop.trips, ∀ a, (k0_off867 k0_t55) a + S1x16.size a ≤ S128x128.size a
  k0_off868_inb : ∀ k0_t55 : Fin k0_t55_loop.trips, ∀ a, (k0_off868 k0_t55) a + S1x16.size a ≤ S256x128.size a
  k0_off869_inb : ∀ k0_t55 : Fin k0_t55_loop.trips, ∀ a, (k0_off869 k0_t55) a + S1x16.size a ≤ S128x128.size a
  k0_off870_inb : ∀ k0_t55 : Fin k0_t55_loop.trips, ∀ a, (k0_off870 k0_t55) a + S1x16.size a ≤ S256x128.size a
  k0_off871_inb : ∀ k0_t55 : Fin k0_t55_loop.trips, ∀ a, (k0_off871 k0_t55) a + S1x16.size a ≤ S128x128.size a
  k0_off872_inb : ∀ k0_t55 : Fin k0_t55_loop.trips, ∀ a, (k0_off872 k0_t55) a + S1x16.size a ≤ S256x128.size a
  k0_off873_inb : ∀ k0_t55 : Fin k0_t55_loop.trips, ∀ a, (k0_off873 k0_t55) a + S1x16.size a ≤ S128x128.size a
  k0_off874_inb : ∀ k0_t55 : Fin k0_t55_loop.trips, ∀ a, (k0_off874 k0_t55) a + S1x16.size a ≤ S256x128.size a
  k0_off875_inb : ∀ k0_t55 : Fin k0_t55_loop.trips, ∀ a, (k0_off875 k0_t55) a + S1x16.size a ≤ S128x128.size a
  k0_off876_inb : ∀ k0_t55 : Fin k0_t55_loop.trips, ∀ a, (k0_off876 k0_t55) a + S1x16.size a ≤ S256x128.size a
  k0_off877_inb : ∀ k0_t55 : Fin k0_t55_loop.trips, ∀ a, (k0_off877 k0_t55) a + S1x16.size a ≤ S128x128.size a
  k0_off878_inb : ∀ k0_t55 : Fin k0_t55_loop.trips, ∀ a, (k0_off878 k0_t55) a + S1x16.size a ≤ S256x128.size a
  k0_off879_inb : ∀ k0_t55 : Fin k0_t55_loop.trips, ∀ a, (k0_off879 k0_t55) a + S1x16.size a ≤ S128x128.size a
  k0_off880_inb : ∀ k0_t55 : Fin k0_t55_loop.trips, ∀ a, (k0_off880 k0_t55) a + S1x16.size a ≤ S256x128.size a
  k0_off881_inb : ∀ k0_t55 : Fin k0_t55_loop.trips, ∀ a, (k0_off881 k0_t55) a + S1x16.size a ≤ S128x128.size a
  k0_off882_inb : ∀ k0_t55 : Fin k0_t55_loop.trips, ∀ a, (k0_off882 k0_t55) a + S1x16.size a ≤ S256x128.size a
  k0_t56_ok : k0_t56_loop.OK
  k0_off883_inb : ∀ k0_t56 : Fin k0_t56_loop.trips, ∀ a, (k0_off883 k0_t56) a + S1x16.size a ≤ S128x128.size a
  k0_off884_inb : ∀ k0_t56 : Fin k0_t56_loop.trips, ∀ a, (k0_off884 k0_t56) a + S1x16.size a ≤ S256x128.size a
  k0_off885_inb : ∀ k0_t56 : Fin k0_t56_loop.trips, ∀ a, (k0_off885 k0_t56) a + S1x16.size a ≤ S128x128.size a
  k0_off886_inb : ∀ k0_t56 : Fin k0_t56_loop.trips, ∀ a, (k0_off886 k0_t56) a + S1x16.size a ≤ S256x128.size a
  k0_off887_inb : ∀ k0_t56 : Fin k0_t56_loop.trips, ∀ a, (k0_off887 k0_t56) a + S1x16.size a ≤ S128x128.size a
  k0_off888_inb : ∀ k0_t56 : Fin k0_t56_loop.trips, ∀ a, (k0_off888 k0_t56) a + S1x16.size a ≤ S256x128.size a
  k0_off889_inb : ∀ k0_t56 : Fin k0_t56_loop.trips, ∀ a, (k0_off889 k0_t56) a + S1x16.size a ≤ S128x128.size a
  k0_off890_inb : ∀ k0_t56 : Fin k0_t56_loop.trips, ∀ a, (k0_off890 k0_t56) a + S1x16.size a ≤ S256x128.size a
  k0_off891_inb : ∀ k0_t56 : Fin k0_t56_loop.trips, ∀ a, (k0_off891 k0_t56) a + S1x16.size a ≤ S128x128.size a
  k0_off892_inb : ∀ k0_t56 : Fin k0_t56_loop.trips, ∀ a, (k0_off892 k0_t56) a + S1x16.size a ≤ S256x128.size a
  k0_off893_inb : ∀ k0_t56 : Fin k0_t56_loop.trips, ∀ a, (k0_off893 k0_t56) a + S1x16.size a ≤ S128x128.size a
  k0_off894_inb : ∀ k0_t56 : Fin k0_t56_loop.trips, ∀ a, (k0_off894 k0_t56) a + S1x16.size a ≤ S256x128.size a
  k0_off895_inb : ∀ k0_t56 : Fin k0_t56_loop.trips, ∀ a, (k0_off895 k0_t56) a + S1x16.size a ≤ S128x128.size a
  k0_off896_inb : ∀ k0_t56 : Fin k0_t56_loop.trips, ∀ a, (k0_off896 k0_t56) a + S1x16.size a ≤ S256x128.size a
  k0_off897_inb : ∀ k0_t56 : Fin k0_t56_loop.trips, ∀ a, (k0_off897 k0_t56) a + S1x16.size a ≤ S128x128.size a
  k0_off898_inb : ∀ k0_t56 : Fin k0_t56_loop.trips, ∀ a, (k0_off898 k0_t56) a + S1x16.size a ≤ S256x128.size a
  k0_t57_ok : k0_t57_loop.OK
  k0_off899_inb : ∀ k0_t57 : Fin k0_t57_loop.trips, ∀ a, (k0_off899 k0_t57) a + S1x16.size a ≤ S128x128.size a
  k0_off900_inb : ∀ k0_t57 : Fin k0_t57_loop.trips, ∀ a, (k0_off900 k0_t57) a + S1x16.size a ≤ S256x128.size a
  k0_off901_inb : ∀ k0_t57 : Fin k0_t57_loop.trips, ∀ a, (k0_off901 k0_t57) a + S1x16.size a ≤ S128x128.size a
  k0_off902_inb : ∀ k0_t57 : Fin k0_t57_loop.trips, ∀ a, (k0_off902 k0_t57) a + S1x16.size a ≤ S256x128.size a
  k0_off903_inb : ∀ k0_t57 : Fin k0_t57_loop.trips, ∀ a, (k0_off903 k0_t57) a + S1x16.size a ≤ S128x128.size a
  k0_off904_inb : ∀ k0_t57 : Fin k0_t57_loop.trips, ∀ a, (k0_off904 k0_t57) a + S1x16.size a ≤ S256x128.size a
  k0_off905_inb : ∀ k0_t57 : Fin k0_t57_loop.trips, ∀ a, (k0_off905 k0_t57) a + S1x16.size a ≤ S128x128.size a
  k0_off906_inb : ∀ k0_t57 : Fin k0_t57_loop.trips, ∀ a, (k0_off906 k0_t57) a + S1x16.size a ≤ S256x128.size a
  k0_off907_inb : ∀ k0_t57 : Fin k0_t57_loop.trips, ∀ a, (k0_off907 k0_t57) a + S1x16.size a ≤ S128x128.size a
  k0_off908_inb : ∀ k0_t57 : Fin k0_t57_loop.trips, ∀ a, (k0_off908 k0_t57) a + S1x16.size a ≤ S256x128.size a
  k0_off909_inb : ∀ k0_t57 : Fin k0_t57_loop.trips, ∀ a, (k0_off909 k0_t57) a + S1x16.size a ≤ S128x128.size a
  k0_off910_inb : ∀ k0_t57 : Fin k0_t57_loop.trips, ∀ a, (k0_off910 k0_t57) a + S1x16.size a ≤ S256x128.size a
  k0_off911_inb : ∀ k0_t57 : Fin k0_t57_loop.trips, ∀ a, (k0_off911 k0_t57) a + S1x16.size a ≤ S128x128.size a
  k0_off912_inb : ∀ k0_t57 : Fin k0_t57_loop.trips, ∀ a, (k0_off912 k0_t57) a + S1x16.size a ≤ S256x128.size a
  k0_off913_inb : ∀ k0_t57 : Fin k0_t57_loop.trips, ∀ a, (k0_off913 k0_t57) a + S1x16.size a ≤ S128x128.size a
  k0_off914_inb : ∀ k0_t57 : Fin k0_t57_loop.trips, ∀ a, (k0_off914 k0_t57) a + S1x16.size a ≤ S256x128.size a
  k0_t58_ok : k0_t58_loop.OK
  k0_off915_inb : ∀ k0_t58 : Fin k0_t58_loop.trips, ∀ a, (k0_off915 k0_t58) a + S1x16.size a ≤ S128x128.size a
  k0_off916_inb : ∀ k0_t58 : Fin k0_t58_loop.trips, ∀ a, (k0_off916 k0_t58) a + S1x16.size a ≤ S256x128.size a
  k0_off917_inb : ∀ k0_t58 : Fin k0_t58_loop.trips, ∀ a, (k0_off917 k0_t58) a + S1x16.size a ≤ S128x128.size a
  k0_off918_inb : ∀ k0_t58 : Fin k0_t58_loop.trips, ∀ a, (k0_off918 k0_t58) a + S1x16.size a ≤ S256x128.size a
  k0_off919_inb : ∀ k0_t58 : Fin k0_t58_loop.trips, ∀ a, (k0_off919 k0_t58) a + S1x16.size a ≤ S128x128.size a
  k0_off920_inb : ∀ k0_t58 : Fin k0_t58_loop.trips, ∀ a, (k0_off920 k0_t58) a + S1x16.size a ≤ S256x128.size a
  k0_off921_inb : ∀ k0_t58 : Fin k0_t58_loop.trips, ∀ a, (k0_off921 k0_t58) a + S1x16.size a ≤ S128x128.size a
  k0_off922_inb : ∀ k0_t58 : Fin k0_t58_loop.trips, ∀ a, (k0_off922 k0_t58) a + S1x16.size a ≤ S256x128.size a
  k0_off923_inb : ∀ k0_t58 : Fin k0_t58_loop.trips, ∀ a, (k0_off923 k0_t58) a + S1x16.size a ≤ S128x128.size a
  k0_off924_inb : ∀ k0_t58 : Fin k0_t58_loop.trips, ∀ a, (k0_off924 k0_t58) a + S1x16.size a ≤ S256x128.size a
  k0_off925_inb : ∀ k0_t58 : Fin k0_t58_loop.trips, ∀ a, (k0_off925 k0_t58) a + S1x16.size a ≤ S128x128.size a
  k0_off926_inb : ∀ k0_t58 : Fin k0_t58_loop.trips, ∀ a, (k0_off926 k0_t58) a + S1x16.size a ≤ S256x128.size a
  k0_off927_inb : ∀ k0_t58 : Fin k0_t58_loop.trips, ∀ a, (k0_off927 k0_t58) a + S1x16.size a ≤ S128x128.size a
  k0_off928_inb : ∀ k0_t58 : Fin k0_t58_loop.trips, ∀ a, (k0_off928 k0_t58) a + S1x16.size a ≤ S256x128.size a
  k0_off929_inb : ∀ k0_t58 : Fin k0_t58_loop.trips, ∀ a, (k0_off929 k0_t58) a + S1x16.size a ≤ S128x128.size a
  k0_off930_inb : ∀ k0_t58 : Fin k0_t58_loop.trips, ∀ a, (k0_off930 k0_t58) a + S1x16.size a ≤ S256x128.size a
  k0_t59_ok : k0_t59_loop.OK
  k0_off931_inb : ∀ k0_t59 : Fin k0_t59_loop.trips, ∀ a, (k0_off931 k0_t59) a + S1x16.size a ≤ S128x128.size a
  k0_off932_inb : ∀ k0_t59 : Fin k0_t59_loop.trips, ∀ a, (k0_off932 k0_t59) a + S1x16.size a ≤ S256x128.size a
  k0_off933_inb : ∀ k0_t59 : Fin k0_t59_loop.trips, ∀ a, (k0_off933 k0_t59) a + S1x16.size a ≤ S128x128.size a
  k0_off934_inb : ∀ k0_t59 : Fin k0_t59_loop.trips, ∀ a, (k0_off934 k0_t59) a + S1x16.size a ≤ S256x128.size a
  k0_off935_inb : ∀ k0_t59 : Fin k0_t59_loop.trips, ∀ a, (k0_off935 k0_t59) a + S1x16.size a ≤ S128x128.size a
  k0_off936_inb : ∀ k0_t59 : Fin k0_t59_loop.trips, ∀ a, (k0_off936 k0_t59) a + S1x16.size a ≤ S256x128.size a
  k0_off937_inb : ∀ k0_t59 : Fin k0_t59_loop.trips, ∀ a, (k0_off937 k0_t59) a + S1x16.size a ≤ S128x128.size a
  k0_off938_inb : ∀ k0_t59 : Fin k0_t59_loop.trips, ∀ a, (k0_off938 k0_t59) a + S1x16.size a ≤ S256x128.size a
  k0_off939_inb : ∀ k0_t59 : Fin k0_t59_loop.trips, ∀ a, (k0_off939 k0_t59) a + S1x16.size a ≤ S128x128.size a

class K0.R2.Facts₀ : Prop where
  k0_off940_inb : ∀ k0_t59 : Fin k0_t59_loop.trips, ∀ a, (k0_off940 k0_t59) a + S1x16.size a ≤ S256x128.size a
  k0_off941_inb : ∀ k0_t59 : Fin k0_t59_loop.trips, ∀ a, (k0_off941 k0_t59) a + S1x16.size a ≤ S128x128.size a
  k0_off942_inb : ∀ k0_t59 : Fin k0_t59_loop.trips, ∀ a, (k0_off942 k0_t59) a + S1x16.size a ≤ S256x128.size a
  k0_off943_inb : ∀ k0_t59 : Fin k0_t59_loop.trips, ∀ a, (k0_off943 k0_t59) a + S1x16.size a ≤ S128x128.size a
  k0_off944_inb : ∀ k0_t59 : Fin k0_t59_loop.trips, ∀ a, (k0_off944 k0_t59) a + S1x16.size a ≤ S256x128.size a
  k0_off945_inb : ∀ k0_t59 : Fin k0_t59_loop.trips, ∀ a, (k0_off945 k0_t59) a + S1x16.size a ≤ S128x128.size a
  k0_off946_inb : ∀ k0_t59 : Fin k0_t59_loop.trips, ∀ a, (k0_off946 k0_t59) a + S1x16.size a ≤ S256x128.size a
  k0_t60_ok : k0_t60_loop.OK
  k0_off947_inb : ∀ k0_t60 : Fin k0_t60_loop.trips, ∀ a, (k0_off947 k0_t60) a + S1x16.size a ≤ S128x128.size a
  k0_off948_inb : ∀ k0_t60 : Fin k0_t60_loop.trips, ∀ a, (k0_off948 k0_t60) a + S1x16.size a ≤ S256x128.size a
  k0_off949_inb : ∀ k0_t60 : Fin k0_t60_loop.trips, ∀ a, (k0_off949 k0_t60) a + S1x16.size a ≤ S128x128.size a
  k0_off950_inb : ∀ k0_t60 : Fin k0_t60_loop.trips, ∀ a, (k0_off950 k0_t60) a + S1x16.size a ≤ S256x128.size a
  k0_off951_inb : ∀ k0_t60 : Fin k0_t60_loop.trips, ∀ a, (k0_off951 k0_t60) a + S1x16.size a ≤ S128x128.size a
  k0_off952_inb : ∀ k0_t60 : Fin k0_t60_loop.trips, ∀ a, (k0_off952 k0_t60) a + S1x16.size a ≤ S256x128.size a
  k0_off953_inb : ∀ k0_t60 : Fin k0_t60_loop.trips, ∀ a, (k0_off953 k0_t60) a + S1x16.size a ≤ S128x128.size a
  k0_off954_inb : ∀ k0_t60 : Fin k0_t60_loop.trips, ∀ a, (k0_off954 k0_t60) a + S1x16.size a ≤ S256x128.size a
  k0_off955_inb : ∀ k0_t60 : Fin k0_t60_loop.trips, ∀ a, (k0_off955 k0_t60) a + S1x16.size a ≤ S128x128.size a
  k0_off956_inb : ∀ k0_t60 : Fin k0_t60_loop.trips, ∀ a, (k0_off956 k0_t60) a + S1x16.size a ≤ S256x128.size a
  k0_off957_inb : ∀ k0_t60 : Fin k0_t60_loop.trips, ∀ a, (k0_off957 k0_t60) a + S1x16.size a ≤ S128x128.size a
  k0_off958_inb : ∀ k0_t60 : Fin k0_t60_loop.trips, ∀ a, (k0_off958 k0_t60) a + S1x16.size a ≤ S256x128.size a
  k0_off959_inb : ∀ k0_t60 : Fin k0_t60_loop.trips, ∀ a, (k0_off959 k0_t60) a + S1x16.size a ≤ S128x128.size a
  k0_off960_inb : ∀ k0_t60 : Fin k0_t60_loop.trips, ∀ a, (k0_off960 k0_t60) a + S1x16.size a ≤ S256x128.size a
  k0_off961_inb : ∀ k0_t60 : Fin k0_t60_loop.trips, ∀ a, (k0_off961 k0_t60) a + S1x16.size a ≤ S128x128.size a
  k0_off962_inb : ∀ k0_t60 : Fin k0_t60_loop.trips, ∀ a, (k0_off962 k0_t60) a + S1x16.size a ≤ S256x128.size a
  k0_t61_ok : k0_t61_loop.OK
  k0_off963_inb : ∀ k0_t61 : Fin k0_t61_loop.trips, ∀ a, (k0_off963 k0_t61) a + S1x16.size a ≤ S128x128.size a
  k0_off964_inb : ∀ k0_t61 : Fin k0_t61_loop.trips, ∀ a, (k0_off964 k0_t61) a + S1x16.size a ≤ S256x128.size a
  k0_off965_inb : ∀ k0_t61 : Fin k0_t61_loop.trips, ∀ a, (k0_off965 k0_t61) a + S1x16.size a ≤ S128x128.size a
  k0_off966_inb : ∀ k0_t61 : Fin k0_t61_loop.trips, ∀ a, (k0_off966 k0_t61) a + S1x16.size a ≤ S256x128.size a
  k0_off967_inb : ∀ k0_t61 : Fin k0_t61_loop.trips, ∀ a, (k0_off967 k0_t61) a + S1x16.size a ≤ S128x128.size a
  k0_off968_inb : ∀ k0_t61 : Fin k0_t61_loop.trips, ∀ a, (k0_off968 k0_t61) a + S1x16.size a ≤ S256x128.size a
  k0_off969_inb : ∀ k0_t61 : Fin k0_t61_loop.trips, ∀ a, (k0_off969 k0_t61) a + S1x16.size a ≤ S128x128.size a
  k0_off970_inb : ∀ k0_t61 : Fin k0_t61_loop.trips, ∀ a, (k0_off970 k0_t61) a + S1x16.size a ≤ S256x128.size a
  k0_off971_inb : ∀ k0_t61 : Fin k0_t61_loop.trips, ∀ a, (k0_off971 k0_t61) a + S1x16.size a ≤ S128x128.size a
  k0_off972_inb : ∀ k0_t61 : Fin k0_t61_loop.trips, ∀ a, (k0_off972 k0_t61) a + S1x16.size a ≤ S256x128.size a
  k0_off973_inb : ∀ k0_t61 : Fin k0_t61_loop.trips, ∀ a, (k0_off973 k0_t61) a + S1x16.size a ≤ S128x128.size a
  k0_off974_inb : ∀ k0_t61 : Fin k0_t61_loop.trips, ∀ a, (k0_off974 k0_t61) a + S1x16.size a ≤ S256x128.size a
  k0_off975_inb : ∀ k0_t61 : Fin k0_t61_loop.trips, ∀ a, (k0_off975 k0_t61) a + S1x16.size a ≤ S128x128.size a
  k0_off976_inb : ∀ k0_t61 : Fin k0_t61_loop.trips, ∀ a, (k0_off976 k0_t61) a + S1x16.size a ≤ S256x128.size a
  k0_off977_inb : ∀ k0_t61 : Fin k0_t61_loop.trips, ∀ a, (k0_off977 k0_t61) a + S1x16.size a ≤ S128x128.size a
  k0_off978_inb : ∀ k0_t61 : Fin k0_t61_loop.trips, ∀ a, (k0_off978 k0_t61) a + S1x16.size a ≤ S256x128.size a
  k0_t62_ok : k0_t62_loop.OK
  k0_off979_inb : ∀ k0_t62 : Fin k0_t62_loop.trips, ∀ a, (k0_off979 k0_t62) a + S1x16.size a ≤ S128x128.size a
  k0_off980_inb : ∀ k0_t62 : Fin k0_t62_loop.trips, ∀ a, (k0_off980 k0_t62) a + S1x16.size a ≤ S256x128.size a
  k0_off981_inb : ∀ k0_t62 : Fin k0_t62_loop.trips, ∀ a, (k0_off981 k0_t62) a + S1x16.size a ≤ S128x128.size a
  k0_off982_inb : ∀ k0_t62 : Fin k0_t62_loop.trips, ∀ a, (k0_off982 k0_t62) a + S1x16.size a ≤ S256x128.size a
  k0_off983_inb : ∀ k0_t62 : Fin k0_t62_loop.trips, ∀ a, (k0_off983 k0_t62) a + S1x16.size a ≤ S128x128.size a
  k0_off984_inb : ∀ k0_t62 : Fin k0_t62_loop.trips, ∀ a, (k0_off984 k0_t62) a + S1x16.size a ≤ S256x128.size a
  k0_off985_inb : ∀ k0_t62 : Fin k0_t62_loop.trips, ∀ a, (k0_off985 k0_t62) a + S1x16.size a ≤ S128x128.size a
  k0_off986_inb : ∀ k0_t62 : Fin k0_t62_loop.trips, ∀ a, (k0_off986 k0_t62) a + S1x16.size a ≤ S256x128.size a
  k0_off987_inb : ∀ k0_t62 : Fin k0_t62_loop.trips, ∀ a, (k0_off987 k0_t62) a + S1x16.size a ≤ S128x128.size a
  k0_off988_inb : ∀ k0_t62 : Fin k0_t62_loop.trips, ∀ a, (k0_off988 k0_t62) a + S1x16.size a ≤ S256x128.size a
  k0_off989_inb : ∀ k0_t62 : Fin k0_t62_loop.trips, ∀ a, (k0_off989 k0_t62) a + S1x16.size a ≤ S128x128.size a
  k0_off990_inb : ∀ k0_t62 : Fin k0_t62_loop.trips, ∀ a, (k0_off990 k0_t62) a + S1x16.size a ≤ S256x128.size a
  k0_off991_inb : ∀ k0_t62 : Fin k0_t62_loop.trips, ∀ a, (k0_off991 k0_t62) a + S1x16.size a ≤ S128x128.size a
  k0_off992_inb : ∀ k0_t62 : Fin k0_t62_loop.trips, ∀ a, (k0_off992 k0_t62) a + S1x16.size a ≤ S256x128.size a
  k0_off993_inb : ∀ k0_t62 : Fin k0_t62_loop.trips, ∀ a, (k0_off993 k0_t62) a + S1x16.size a ≤ S128x128.size a
  k0_off994_inb : ∀ k0_t62 : Fin k0_t62_loop.trips, ∀ a, (k0_off994 k0_t62) a + S1x16.size a ≤ S256x128.size a
  k0_t63_ok : k0_t63_loop.OK
  k0_off995_inb : ∀ k0_t63 : Fin k0_t63_loop.trips, ∀ a, (k0_off995 k0_t63) a + S1x16.size a ≤ S128x128.size a
  k0_off996_inb : ∀ k0_t63 : Fin k0_t63_loop.trips, ∀ a, (k0_off996 k0_t63) a + S1x16.size a ≤ S256x128.size a
  k0_off997_inb : ∀ k0_t63 : Fin k0_t63_loop.trips, ∀ a, (k0_off997 k0_t63) a + S1x16.size a ≤ S128x128.size a
  k0_off998_inb : ∀ k0_t63 : Fin k0_t63_loop.trips, ∀ a, (k0_off998 k0_t63) a + S1x16.size a ≤ S256x128.size a
  k0_off999_inb : ∀ k0_t63 : Fin k0_t63_loop.trips, ∀ a, (k0_off999 k0_t63) a + S1x16.size a ≤ S128x128.size a
  k0_off1000_inb : ∀ k0_t63 : Fin k0_t63_loop.trips, ∀ a, (k0_off1000 k0_t63) a + S1x16.size a ≤ S256x128.size a
  k0_off1001_inb : ∀ k0_t63 : Fin k0_t63_loop.trips, ∀ a, (k0_off1001 k0_t63) a + S1x16.size a ≤ S128x128.size a
  k0_off1002_inb : ∀ k0_t63 : Fin k0_t63_loop.trips, ∀ a, (k0_off1002 k0_t63) a + S1x16.size a ≤ S256x128.size a
  k0_off1003_inb : ∀ k0_t63 : Fin k0_t63_loop.trips, ∀ a, (k0_off1003 k0_t63) a + S1x16.size a ≤ S128x128.size a
  k0_off1004_inb : ∀ k0_t63 : Fin k0_t63_loop.trips, ∀ a, (k0_off1004 k0_t63) a + S1x16.size a ≤ S256x128.size a
  k0_off1005_inb : ∀ k0_t63 : Fin k0_t63_loop.trips, ∀ a, (k0_off1005 k0_t63) a + S1x16.size a ≤ S128x128.size a
  k0_off1006_inb : ∀ k0_t63 : Fin k0_t63_loop.trips, ∀ a, (k0_off1006 k0_t63) a + S1x16.size a ≤ S256x128.size a
  k0_off1007_inb : ∀ k0_t63 : Fin k0_t63_loop.trips, ∀ a, (k0_off1007 k0_t63) a + S1x16.size a ≤ S128x128.size a
  k0_off1008_inb : ∀ k0_t63 : Fin k0_t63_loop.trips, ∀ a, (k0_off1008 k0_t63) a + S1x16.size a ≤ S256x128.size a
  k0_off1009_inb : ∀ k0_t63 : Fin k0_t63_loop.trips, ∀ a, (k0_off1009 k0_t63) a + S1x16.size a ≤ S128x128.size a
  k0_off1010_inb : ∀ k0_t63 : Fin k0_t63_loop.trips, ∀ a, (k0_off1010 k0_t63) a + S1x16.size a ≤ S256x128.size a
  k0_t64_ok : k0_t64_loop.OK
  k0_off1011_inb : ∀ k0_t64 : Fin k0_t64_loop.trips, ∀ a, (k0_off1011 k0_t64) a + S1x16.size a ≤ S128x128.size a
  k0_off1012_inb : ∀ k0_t64 : Fin k0_t64_loop.trips, ∀ a, (k0_off1012 k0_t64) a + S1x16.size a ≤ S256x128.size a
  k0_off1013_inb : ∀ k0_t64 : Fin k0_t64_loop.trips, ∀ a, (k0_off1013 k0_t64) a + S1x16.size a ≤ S128x128.size a
  k0_off1014_inb : ∀ k0_t64 : Fin k0_t64_loop.trips, ∀ a, (k0_off1014 k0_t64) a + S1x16.size a ≤ S256x128.size a
  k0_off1015_inb : ∀ k0_t64 : Fin k0_t64_loop.trips, ∀ a, (k0_off1015 k0_t64) a + S1x16.size a ≤ S128x128.size a
  k0_off1016_inb : ∀ k0_t64 : Fin k0_t64_loop.trips, ∀ a, (k0_off1016 k0_t64) a + S1x16.size a ≤ S256x128.size a
  k0_off1017_inb : ∀ k0_t64 : Fin k0_t64_loop.trips, ∀ a, (k0_off1017 k0_t64) a + S1x16.size a ≤ S128x128.size a
  k0_off1018_inb : ∀ k0_t64 : Fin k0_t64_loop.trips, ∀ a, (k0_off1018 k0_t64) a + S1x16.size a ≤ S256x128.size a
  k0_off1019_inb : ∀ k0_t64 : Fin k0_t64_loop.trips, ∀ a, (k0_off1019 k0_t64) a + S1x16.size a ≤ S128x128.size a
  k0_off1020_inb : ∀ k0_t64 : Fin k0_t64_loop.trips, ∀ a, (k0_off1020 k0_t64) a + S1x16.size a ≤ S256x128.size a
  k0_off1021_inb : ∀ k0_t64 : Fin k0_t64_loop.trips, ∀ a, (k0_off1021 k0_t64) a + S1x16.size a ≤ S128x128.size a
  k0_off1022_inb : ∀ k0_t64 : Fin k0_t64_loop.trips, ∀ a, (k0_off1022 k0_t64) a + S1x16.size a ≤ S256x128.size a
  k0_off1023_inb : ∀ k0_t64 : Fin k0_t64_loop.trips, ∀ a, (k0_off1023 k0_t64) a + S1x16.size a ≤ S128x128.size a
  k0_off1024_inb : ∀ k0_t64 : Fin k0_t64_loop.trips, ∀ a, (k0_off1024 k0_t64) a + S1x16.size a ≤ S256x128.size a
  k0_off1025_inb : ∀ k0_t64 : Fin k0_t64_loop.trips, ∀ a, (k0_off1025 k0_t64) a + S1x16.size a ≤ S128x128.size a
  k0_off1026_inb : ∀ k0_t64 : Fin k0_t64_loop.trips, ∀ a, (k0_off1026 k0_t64) a + S1x16.size a ≤ S256x128.size a

class Shapes1.Facts₀ : Prop where
  shapeCasts_S1024x16x16_S1024x256 : S1024x16x16.ShapeCasts S1024x256
  bcast_S16x64_S16x16x64_0_2 : S16x64.BroadcastsInDim S16x16x64 (![0, 2] : Fin 2 → Fin S16x16x64.rank)
  shapeCasts_S16x16x64_S256x64 : S16x16x64.ShapeCasts S256x64
  shapeCasts_S16x64_S1x16x1x64 : S16x64.ShapeCasts S1x16x1x64
  bcast_S1x16x1x64_S16x16x1x64_0_1_2_3 : S1x16x1x64.BroadcastsInDim S16x16x1x64 (![0, 1, 2, 3] : Fin 4 → Fin S16x16x1x64.rank)
  shapeCasts_S16x16x1x64_S256x64 : S16x16x1x64.ShapeCasts S256x64
  concatenates_S256x64_S256x64_S256x128_d1 : Shape.Concatenates [S256x64, S256x64] S256x128 1
  shapeCasts_S1024x256_S2048x128 : S1024x256.ShapeCasts S2048x128
  inb_S2x128x128_S1x128x128_0_0_0 : ∀ a, (![0, 0, 0] : Fin 3 → Nat) a + S1x128x128.size a ≤ S2x128x128.size a
  squeezes_S1x128x128_S128x128 : S1x128x128.Squeezes S128x128
  inb_S64x128_S1x128_0_0 : ∀ a, (![0, 0] : Fin 2 → Nat) a + S1x128.size a ≤ S64x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S2x128x128_S1x128x128_1_0_0 : ∀ a, (![1, 0, 0] : Fin 3 → Nat) a + S1x128x128.size a ≤ S2x128x128.size a
  inb_S64x128_S1x128_1_0 : ∀ a, (![1, 0] : Fin 2 → Nat) a + S1x128.size a ≤ S64x128.size a
  h_S1x16 : 0 < S1x16.numel
  shapeCasts_S1x16_S16 : S1x16.ShapeCasts S16
  shapeCasts_S16_S1x16 : S16.ShapeCasts S1x16
  inb_S64x128_S1x128_2_0 : ∀ a, (![2, 0] : Fin 2 → Nat) a + S1x128.size a ≤ S64x128.size a
  inb_S64x128_S1x128_3_0 : ∀ a, (![3, 0] : Fin 2 → Nat) a + S1x128.size a ≤ S64x128.size a
  inb_S64x128_S1x128_4_0 : ∀ a, (![4, 0] : Fin 2 → Nat) a + S1x128.size a ≤ S64x128.size a
  inb_S64x128_S1x128_5_0 : ∀ a, (![5, 0] : Fin 2 → Nat) a + S1x128.size a ≤ S64x128.size a
  inb_S64x128_S1x128_6_0 : ∀ a, (![6, 0] : Fin 2 → Nat) a + S1x128.size a ≤ S64x128.size a
  inb_S64x128_S1x128_7_0 : ∀ a, (![7, 0] : Fin 2 → Nat) a + S1x128.size a ≤ S64x128.size a
  inb_S64x128_S1x128_8_0 : ∀ a, (![8, 0] : Fin 2 → Nat) a + S1x128.size a ≤ S64x128.size a
  inb_S64x128_S1x128_9_0 : ∀ a, (![9, 0] : Fin 2 → Nat) a + S1x128.size a ≤ S64x128.size a
  inb_S64x128_S1x128_10_0 : ∀ a, (![10, 0] : Fin 2 → Nat) a + S1x128.size a ≤ S64x128.size a
  inb_S64x128_S1x128_11_0 : ∀ a, (![11, 0] : Fin 2 → Nat) a + S1x128.size a ≤ S64x128.size a
  inb_S64x128_S1x128_12_0 : ∀ a, (![12, 0] : Fin 2 → Nat) a + S1x128.size a ≤ S64x128.size a
  inb_S64x128_S1x128_13_0 : ∀ a, (![13, 0] : Fin 2 → Nat) a + S1x128.size a ≤ S64x128.size a
  inb_S64x128_S1x128_14_0 : ∀ a, (![14, 0] : Fin 2 → Nat) a + S1x128.size a ≤ S64x128.size a
  inb_S64x128_S1x128_15_0 : ∀ a, (![15, 0] : Fin 2 → Nat) a + S1x128.size a ≤ S64x128.size a
  inb_S64x128_S1x128_16_0 : ∀ a, (![16, 0] : Fin 2 → Nat) a + S1x128.size a ≤ S64x128.size a
  inb_S64x128_S1x128_17_0 : ∀ a, (![17, 0] : Fin 2 → Nat) a + S1x128.size a ≤ S64x128.size a
  inb_S64x128_S1x128_18_0 : ∀ a, (![18, 0] : Fin 2 → Nat) a + S1x128.size a ≤ S64x128.size a
  inb_S64x128_S1x128_19_0 : ∀ a, (![19, 0] : Fin 2 → Nat) a + S1x128.size a ≤ S64x128.size a
  inb_S64x128_S1x128_20_0 : ∀ a, (![20, 0] : Fin 2 → Nat) a + S1x128.size a ≤ S64x128.size a
  inb_S64x128_S1x128_21_0 : ∀ a, (![21, 0] : Fin 2 → Nat) a + S1x128.size a ≤ S64x128.size a
  inb_S64x128_S1x128_22_0 : ∀ a, (![22, 0] : Fin 2 → Nat) a + S1x128.size a ≤ S64x128.size a
  inb_S64x128_S1x128_23_0 : ∀ a, (![23, 0] : Fin 2 → Nat) a + S1x128.size a ≤ S64x128.size a
  inb_S64x128_S1x128_24_0 : ∀ a, (![24, 0] : Fin 2 → Nat) a + S1x128.size a ≤ S64x128.size a
  inb_S64x128_S1x128_25_0 : ∀ a, (![25, 0] : Fin 2 → Nat) a + S1x128.size a ≤ S64x128.size a
  inb_S64x128_S1x128_26_0 : ∀ a, (![26, 0] : Fin 2 → Nat) a + S1x128.size a ≤ S64x128.size a
  inb_S64x128_S1x128_27_0 : ∀ a, (![27, 0] : Fin 2 → Nat) a + S1x128.size a ≤ S64x128.size a
  inb_S64x128_S1x128_28_0 : ∀ a, (![28, 0] : Fin 2 → Nat) a + S1x128.size a ≤ S64x128.size a
  inb_S64x128_S1x128_29_0 : ∀ a, (![29, 0] : Fin 2 → Nat) a + S1x128.size a ≤ S64x128.size a
  inb_S64x128_S1x128_30_0 : ∀ a, (![30, 0] : Fin 2 → Nat) a + S1x128.size a ≤ S64x128.size a
  inb_S64x128_S1x128_31_0 : ∀ a, (![31, 0] : Fin 2 → Nat) a + S1x128.size a ≤ S64x128.size a
  inb_S64x128_S1x128_32_0 : ∀ a, (![32, 0] : Fin 2 → Nat) a + S1x128.size a ≤ S64x128.size a
  inb_S64x128_S1x128_33_0 : ∀ a, (![33, 0] : Fin 2 → Nat) a + S1x128.size a ≤ S64x128.size a
  inb_S64x128_S1x128_34_0 : ∀ a, (![34, 0] : Fin 2 → Nat) a + S1x128.size a ≤ S64x128.size a
  inb_S64x128_S1x128_35_0 : ∀ a, (![35, 0] : Fin 2 → Nat) a + S1x128.size a ≤ S64x128.size a
  inb_S64x128_S1x128_36_0 : ∀ a, (![36, 0] : Fin 2 → Nat) a + S1x128.size a ≤ S64x128.size a
  inb_S64x128_S1x128_37_0 : ∀ a, (![37, 0] : Fin 2 → Nat) a + S1x128.size a ≤ S64x128.size a
  inb_S64x128_S1x128_38_0 : ∀ a, (![38, 0] : Fin 2 → Nat) a + S1x128.size a ≤ S64x128.size a
  inb_S64x128_S1x128_39_0 : ∀ a, (![39, 0] : Fin 2 → Nat) a + S1x128.size a ≤ S64x128.size a
  inb_S64x128_S1x128_40_0 : ∀ a, (![40, 0] : Fin 2 → Nat) a + S1x128.size a ≤ S64x128.size a
  inb_S64x128_S1x128_41_0 : ∀ a, (![41, 0] : Fin 2 → Nat) a + S1x128.size a ≤ S64x128.size a
  inb_S64x128_S1x128_42_0 : ∀ a, (![42, 0] : Fin 2 → Nat) a + S1x128.size a ≤ S64x128.size a
  inb_S64x128_S1x128_43_0 : ∀ a, (![43, 0] : Fin 2 → Nat) a + S1x128.size a ≤ S64x128.size a
  inb_S64x128_S1x128_44_0 : ∀ a, (![44, 0] : Fin 2 → Nat) a + S1x128.size a ≤ S64x128.size a
  inb_S64x128_S1x128_45_0 : ∀ a, (![45, 0] : Fin 2 → Nat) a + S1x128.size a ≤ S64x128.size a
  inb_S64x128_S1x128_46_0 : ∀ a, (![46, 0] : Fin 2 → Nat) a + S1x128.size a ≤ S64x128.size a
  inb_S64x128_S1x128_47_0 : ∀ a, (![47, 0] : Fin 2 → Nat) a + S1x128.size a ≤ S64x128.size a
  inb_S64x128_S1x128_48_0 : ∀ a, (![48, 0] : Fin 2 → Nat) a + S1x128.size a ≤ S64x128.size a
  inb_S64x128_S1x128_49_0 : ∀ a, (![49, 0] : Fin 2 → Nat) a + S1x128.size a ≤ S64x128.size a
  inb_S64x128_S1x128_50_0 : ∀ a, (![50, 0] : Fin 2 → Nat) a + S1x128.size a ≤ S64x128.size a
  inb_S64x128_S1x128_51_0 : ∀ a, (![51, 0] : Fin 2 → Nat) a + S1x128.size a ≤ S64x128.size a
  inb_S64x128_S1x128_52_0 : ∀ a, (![52, 0] : Fin 2 → Nat) a + S1x128.size a ≤ S64x128.size a
  inb_S64x128_S1x128_53_0 : ∀ a, (![53, 0] : Fin 2 → Nat) a + S1x128.size a ≤ S64x128.size a
  inb_S64x128_S1x128_54_0 : ∀ a, (![54, 0] : Fin 2 → Nat) a + S1x128.size a ≤ S64x128.size a
  inb_S64x128_S1x128_55_0 : ∀ a, (![55, 0] : Fin 2 → Nat) a + S1x128.size a ≤ S64x128.size a
  inb_S64x128_S1x128_56_0 : ∀ a, (![56, 0] : Fin 2 → Nat) a + S1x128.size a ≤ S64x128.size a
  inb_S64x128_S1x128_57_0 : ∀ a, (![57, 0] : Fin 2 → Nat) a + S1x128.size a ≤ S64x128.size a
  inb_S64x128_S1x128_58_0 : ∀ a, (![58, 0] : Fin 2 → Nat) a + S1x128.size a ≤ S64x128.size a
  inb_S64x128_S1x128_59_0 : ∀ a, (![59, 0] : Fin 2 → Nat) a + S1x128.size a ≤ S64x128.size a
  inb_S64x128_S1x128_60_0 : ∀ a, (![60, 0] : Fin 2 → Nat) a + S1x128.size a ≤ S64x128.size a
  inb_S64x128_S1x128_61_0 : ∀ a, (![61, 0] : Fin 2 → Nat) a + S1x128.size a ≤ S64x128.size a
  inb_S64x128_S1x128_62_0 : ∀ a, (![62, 0] : Fin 2 → Nat) a + S1x128.size a ≤ S64x128.size a
  inb_S64x128_S1x128_63_0 : ∀ a, (![63, 0] : Fin 2 → Nat) a + S1x128.size a ≤ S64x128.size a
  shapeCasts_S262144x128_S1024x256x128 : S262144x128.ShapeCasts S1024x256x128
  hcc0_scratch4 : 0 + S_.numel ≤ 6
  hcc0_scratch5 : 1 + S_.numel ≤ 6
  hcc0_scratch6 : 2 + S_.numel ≤ 6
  hcc0_scratch7 : 3 + S_.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub

class Facts₀ : Prop where
  k0_r1 : K0.R1.Facts₀
  k0_r2 : K0.R2.Facts₀
  shapes1 : Shapes1.Facts₀
attribute [instance] Facts₀.k0_r1 Facts₀.k0_r2 Facts₀.shapes1

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S1024x16x16 : Shape := ⟨3, ![1024, 16, 16]⟩
abbrev S100000x128 : Shape := ⟨2, ![100000, 128]⟩
abbrev S16x64 : Shape := ⟨2, ![16, 64]⟩
abbrev S1024x256 : Shape := ⟨2, ![1024, 256]⟩
abbrev S_ : Shape := ⟨0, ![]⟩
abbrev S1024x256x1 : Shape := ⟨3, ![1024, 256, 1]⟩
abbrev S1 : Shape := ⟨1, ![1]⟩
abbrev S1x1x1 : Shape := ⟨3, ![1, 1, 1]⟩
abbrev S1024x256x128 : Shape := ⟨3, ![1024, 256, 128]⟩
abbrev S256 : Shape := ⟨1, ![256]⟩
abbrev S256x1 : Shape := ⟨2, ![256, 1]⟩
abbrev S1x1 : Shape := ⟨2, ![1, 1]⟩
abbrev S256x64 : Shape := ⟨2, ![256, 64]⟩
abbrev S256x128 : Shape := ⟨2, ![256, 128]⟩
abbrev S1x256x128 : Shape := ⟨3, ![1, 256, 128]⟩

abbrev nBuf : Space → Nat
  | .hbm => 119
  | .vmem => 0
  | .smem => 0
  | _ => 0

abbrev bufTy : (tb : Table) → Fin (tcTables nBuf tb) → BufTy
  | .hbm, ⟨0, _⟩ => ⟨S1024x16x16, .i32⟩
  | .hbm, ⟨1, _⟩ => ⟨S100000x128, .f32⟩
  | .hbm, ⟨2, _⟩ => ⟨S16x64, .f32⟩
  | .hbm, ⟨3, _⟩ => ⟨S16x64, .f32⟩
  | .hbm, ⟨4, _⟩ => ⟨S1024x256, .i32⟩
  | .hbm, ⟨5, _⟩ => ⟨S_, .i32⟩
  | .hbm, ⟨6, _⟩ => ⟨S1024x256, .i32⟩
  | .hbm, ⟨7, _⟩ => ⟨S1024x256, .i1⟩
  | .hbm, ⟨8, _⟩ => ⟨S_, .i32⟩
  | .hbm, ⟨9, _⟩ => ⟨S1024x256, .i32⟩
  | .hbm, ⟨10, _⟩ => ⟨S1024x256, .i32⟩
  | .hbm, ⟨11, _⟩ => ⟨S1024x256, .i32⟩
  | .hbm, ⟨12, _⟩ => ⟨S1024x256x1, .i32⟩
  | .hbm, ⟨13, _⟩ => ⟨S1, .i32⟩
  | .hbm, ⟨14, _⟩ => ⟨S_, .i32⟩
  | .hbm, ⟨15, _⟩ => ⟨S1024x256x1, .i32⟩
  | .hbm, ⟨16, _⟩ => ⟨S1024x256x1, .i1⟩
  | .hbm, ⟨17, _⟩ => ⟨S1x1x1, .i32⟩
  | .hbm, ⟨18, _⟩ => ⟨S1024x256x1, .i32⟩
  | .hbm, ⟨19, _⟩ => ⟨S1024x256x1, .i1⟩
  | .hbm, ⟨20, _⟩ => ⟨S1024x256x1, .i1⟩
  | .hbm, ⟨21, _⟩ => ⟨S_, .i1⟩
  | .hbm, ⟨22, _⟩ => ⟨S1024x256, .i1⟩
  | .hbm, ⟨23, _⟩ => ⟨S1024x256x128, .f32⟩
  | .hbm, ⟨24, _⟩ => ⟨S1024x256x128, .i1⟩
  | .hbm, ⟨25, _⟩ => ⟨S_, .f32⟩
  | .hbm, ⟨26, _⟩ => ⟨S1024x256x128, .f32⟩
  | .hbm, ⟨27, _⟩ => ⟨S1024x256x128, .f32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S_, .i32⟩
  | .hbm, ⟨62, _⟩ => ⟨S_, .i1⟩
  | .hbm, ⟨63, _⟩ => ⟨S256, .i1⟩
  | .hbm, ⟨64, _⟩ => ⟨S256, .i1⟩
  | .hbm, ⟨65, _⟩ => ⟨S256, .i1⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S256x1, .i32⟩
  | .hbm, ⟨77, _⟩ => ⟨S1, .i32⟩
  | .hbm, ⟨78, _⟩ => ⟨S_, .i32⟩
  | .hbm, ⟨79, _⟩ => ⟨S256x1, .i32⟩
  | .hbm, ⟨80, _⟩ => ⟨S256x1, .i1⟩
  | .hbm, ⟨81, _⟩ => ⟨S1x1, .i32⟩
  | .hbm, ⟨82, _⟩ => ⟨S256x1, .i32⟩
  | .hbm, ⟨83, _⟩ => ⟨S256x1, .i1⟩
  | .hbm, ⟨84, _⟩ => ⟨S256x1, .i1⟩
  | .hbm, ⟨85, _⟩ => ⟨S_, .i1⟩
  | .hbm, ⟨86, _⟩ => ⟨S256, .i1⟩
  | .hbm, ⟨87, _⟩ => ⟨S256x64, .f32⟩
  | .hbm, ⟨88, _⟩ => ⟨S256x64, .i1⟩
  | .hbm, ⟨89, _⟩ => ⟨S_, .f32⟩
  | .hbm, ⟨90, _⟩ => ⟨S256x64, .f32⟩
  | .hbm, ⟨91, _⟩ => ⟨S256x64, .f32⟩
  | .hbm, ⟨92, _⟩ => ⟨S_, .i32⟩
  | .hbm, ⟨93, _⟩ => ⟨S256, .i32⟩
  | .hbm, ⟨94, _⟩ => ⟨S256, .i1⟩
  | .hbm, ⟨95, _⟩ => ⟨S_, .i32⟩
  | .hbm, ⟨96, _⟩ => ⟨S256, .i32⟩
  | .hbm, ⟨97, _⟩ => ⟨S256, .i32⟩
  | .hbm, ⟨98, _⟩ => ⟨S256, .i32⟩
  | .hbm, ⟨99, _⟩ => ⟨S256x1, .i32⟩
  | .hbm, ⟨100, _⟩ => ⟨S1, .i32⟩
  | .hbm, ⟨101, _⟩ => ⟨S_, .i32⟩
  | .hbm, ⟨102, _⟩ => ⟨S256x1, .i32⟩
  | .hbm, ⟨103, _⟩ => ⟨S256x1, .i1⟩
  | .hbm, ⟨104, _⟩ => ⟨S1x1, .i32⟩
  | .hbm, ⟨105, _⟩ => ⟨S256x1, .i32⟩
  | .hbm, ⟨106, _⟩ => ⟨S256x1, .i1⟩
  | .hbm, ⟨107, _⟩ => ⟨S256x1, .i1⟩
  | .hbm, ⟨108, _⟩ => ⟨S_, .i1⟩
  | .hbm, ⟨109, _⟩ => ⟨S256, .i1⟩
  | .hbm, ⟨110, _⟩ => ⟨S256x64, .f32⟩
  | .hbm, ⟨111, _⟩ => ⟨S256x64, .i1⟩
  | .hbm, ⟨112, _⟩ => ⟨S_, .f32⟩
  | .hbm, ⟨113, _⟩ => ⟨S256x64, .f32⟩
  | .hbm, ⟨114, _⟩ => ⟨S256x64, .f32⟩
  | .hbm, ⟨115, _⟩ => ⟨S256x128, .f32⟩
  | .hbm, ⟨116, _⟩ => ⟨S1x256x128, .f32⟩
  | .hbm, ⟨117, _⟩ => ⟨S1024x256x128, .f32⟩
  | .hbm, ⟨118, _⟩ => ⟨S1024x256x128, .f32⟩
  | _, _ => ⟨S1024x16x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v3 : Ref sig .tc := ⟨.hbm, 46, rfl⟩
abbrev main_c_0 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_1 : Ref sig .tc := ⟨.hbm, 55, rfl⟩
abbrev main_call2_v5 : Ref sig .tc := ⟨.hbm, 56, rfl⟩
abbrev main_call2_v6 : Ref sig .tc := ⟨.hbm, 57, rfl⟩
abbrev main_call2_c_2 : Ref sig .tc := ⟨.hbm, 58, rfl⟩
abbrev main_call2_v7 : Ref sig .tc := ⟨.hbm, 59, rfl⟩
abbrev main_call2_v8 : Ref sig .tc := ⟨.hbm, 60, rfl⟩
abbrev main_call2_c_3 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_v4 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v5 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_call4_cst : Ref sig .tc := ⟨.hbm, 112, rfl⟩
abbrev main_call4_v15 : Ref sig .tc := ⟨.hbm, 113, rfl⟩
abbrev main_v6 : Ref sig .tc := ⟨.hbm, 114, rfl⟩
abbrev main_v7 : Ref sig .tc := ⟨.hbm, 115, rfl⟩
abbrev main_v8 : Ref sig .tc := ⟨.hbm, 116, rfl⟩
abbrev main_v9 : Ref sig .tc := ⟨.hbm, 117, rfl⟩
abbrev main_v10 : Ref sig .tc := ⟨.hbm, 118, rfl⟩

abbrev nD : Nat := 1
abbrev τ : Topo := Topo.v7x

variable {F : FTy → Type} [FloatOps F]

class Facts₀ : Prop where
  shapeCasts_S1024x16x16_S1024x256 : S1024x16x16.ShapeCasts S1024x256
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S_S1024x256x1 : S_.BroadcastsInDim S1024x256x1 (![] : Fin 0 → Fin S1024x256x1.rank)
  bcast_S1_S1x1x1_2 : S1.BroadcastsInDim S1x1x1 (![2] : Fin 1 → Fin S1x1x1.rank)
  bcast_S1x1x1_S1024x256x1_0_1_2 : S1x1x1.BroadcastsInDim S1024x256x1 (![0, 1, 2] : Fin 3 → Fin S1024x256x1.rank)
  reducesTo_S1024x256x1_S1024x256_d2 : S1024x256x1.ReducesTo [2] S1024x256
  h_S_ : 0 < S_.numel
  bcast_S1024x256_S1024x256x128_0_1 : S1024x256.BroadcastsInDim S1024x256x128 (![0, 1] : Fin 2 → Fin S1024x256x128.rank)
  bcast_S_S1024x256x128 : S_.BroadcastsInDim S1024x256x128 (![] : Fin 0 → Fin S1024x256x128.rank)
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  bcast_S256_S256x64_0 : S256.BroadcastsInDim S256x64 (![0] : Fin 1 → Fin S256x64.rank)
  bcast_S_S256x64 : S_.BroadcastsInDim S256x64 (![] : Fin 0 → Fin S256x64.rank)
  concatenates_S256x64_S256x64_S256x128_d1 : Shape.Concatenates [S256x64, S256x64] S256x128 1
  bcast_S256x128_S1x256x128_1_2 : S256x128.BroadcastsInDim S1x256x128 (![1, 2] : Fin 2 → Fin S1x256x128.rank)
  bcast_S1x256x128_S1024x256x128_0_1_2 : S1x256x128.BroadcastsInDim S1024x256x128 (![0, 1, 2] : Fin 3 → Fin S1024x256x128.rank)
  gather_S100000x128_S1024x256x1_S1024x256x128_2_0_n_n_0_2_1128_wf : GatherDims.WF S100000x128 S1024x256x1 S1024x256x128 [2] [0] [] [0] [] 2 ![1, 128]
  gather_S16x64_S256x1_S256x64_1_0_n_n_0_1_164_wf : GatherDims.WF S16x64 S256x1 S256x64 [1] [0] [] [0] [] 1 ![1, 64]

variable [Facts₀]

def gather_S100000x128_S1024x256x1_S1024x256x128_2_0_n_n_0_2_1128 : GatherDims S100000x128 S1024x256x1 S1024x256x128 where
  offsetDims := [2]
  collapsedSliceDims := [0]
  operandBatchingDims := []
  startIndicesBatchingDims := []
  startIndexMap := [0]
  indexVectorDim := 2
  sliceSizes := ![1, 128]
  wf := gather_S100000x128_S1024x256x1_S1024x256x128_2_0_n_n_0_2_1128_wf
def gather_S16x64_S256x1_S256x64_1_0_n_n_0_1_164 : GatherDims S16x64 S256x1 S256x64 where
  offsetDims := [1]
  collapsedSliceDims := [0]
  operandBatchingDims := []
  startIndicesBatchingDims := []
  startIndexMap := [0]
  indexVectorDim := 1
  sliceSizes := ![1, 64]
  wf := gather_S16x64_S256x1_S256x64_1_0_n_n_0_1_164_wf

class Facts : Prop extends Facts₀ where

variable [Facts]
-- ==== Proof.PreRange.lean ====
/-
  The input-domain precondition read back: when the printed predicate is all ones, every word of the index
  array x lies in [0, 99999] signed, hence is below 100000 unsigned. The predicate is a conjunction of four
  jnp.all's; the last one reduces, by "and" over all three axes, the pointwise conjunction
  (0 <= x) and (x <= 99999). A reduction by "and" that comes out 1 met only 1s, and a signed comparison that is 1
  says what it compares. The float operands play no part, so the statement holds at every float instance.
-/
import proofs.«208673_g37134287241914_cont_8to1_b_302_3_alg».proof.Pre_input_domain
import proofs.«208673_g37134287241914_cont_8to1_b_302_3_alg».proof.Proof.Gen.Pre_input_domain
import Idealize.ShloMosaic.Lib.ReduceAll
import Idealize.ShloMosaic.Lib.ValueIdx

noncomputable section

namespace Cert.Proof.PreRange

open Idealize.ShloMosaic Cert.Pre_input_domain

/-- The rank-0 shape has one index. -/
instance subsingleton_S_ : Subsingleton S_.Idx := ⟨fun a b => funext fun d => d.elim0⟩

/-- A word between 0 and 99999 signed is below 100000 unsigned. -/
theorem toNat_lt_of_signed (w : BitVec 32) (h0 : (0#32).toInt ≤ w.toInt) (h1 : w.toInt ≤ (99999#32).toInt) :
    w.toNat < 100000 := by
  have e0 : (0#32 : BitVec 32).toInt = 0 := by decide
  have e1 : (99999#32 : BitVec 32).toInt = 99999 := by decide
  rw [e0] at h0
  rw [e1] at h1
  have h32 := w.isLt
  rw [BitVec.toInt_eq_toNat_cond] at h0 h1
  split at h1 <;> omega

/-- Under the precondition every index word is in range. -/
theorem x_in_range {F : FTy → Type} [FloatOps F] [Cert.Pre_input_domain.Facts]
    (x : IVec S1024x16x16 32) (t : FVec F S100000x128 .f32) (r c : FVec F S16x64 .f32)
    (h : Cert.Pre_input_domain.fn (F := F) x t r c = fun _ => 1#1) : ∀ j, (x j).toNat < 100000 := by
  intro j
  have e := congrFun h ValueIdx.ix0
  dsimp only [fn, fn_part1] at e
  obtain ⟨-, e2⟩ := IntOp.andi_eq_one.1 e
  have e3 := Host.reduce_andi_all _ _ _ _ _ e2 j
  obtain ⟨e4, e5⟩ := IntOp.andi_eq_one.1 e3
  exact toNat_lt_of_signed (x j) (IntOp.cmpi_sge.1 e4) (IntOp.cmpi_sle.1 e5)

end Cert.Proof.PreRange

end
-- ==== Proof.LibFoldAppend.lean ====
/-
  The contents after a line of host operations, for a line given in two pieces.

  `StableHlo.after ops V` folds the operations' results over the contents `V`, in order. Running a line that is
  one list followed by another is running the first list and then, from what it leaves, the second.
  General in the program's signature, the topology and the value family.
-/
import Idealize.ShloMosaic.Lib.StableHlo.Run

namespace FoldAppend

open Idealize.ShloMosaic Idealize.ShloMosaic.StableHlo

variable {τ : Topo} {sig : RefSig} {Val : EltTy → Type}

/-- The fold over an appended list is the fold over the second list from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end FoldAppend
-- ==== Proof.RefOps.lean ====
/-
  The reference program as a straight line of host operations.

  The reference computes out[b, p, :] = token_table[x[b, p/16, p%16], :] + concat(row_table[p/16, :], col_table[p%16, :])
  with jnp.take, jnp.arange, floor division and remainder by 16, a concatenation and a broadcast add. Its @main calls the
  outlined helpers of jnp.take (index normalisation, bounds mask, gather, fill select), of floor division and of the
  remainder; a call means the callee's body run on the call's own buffers, so @main is one line of 115 operations:
  the flattened view, the token lookup (24 with the view), the positions and their quotient by 16 (19), their remainder
  (22), the two position-table lookups (23 each), then the concatenation, two broadcasts and the sum (4). The line is
  listed once whole (`ops`), and once in those six stretches (`sA` … `sF`), whose concatenation it is.
-/
import proofs.«208673_g37134287241914_cont_8to1_b_302_3_alg».proof.Proof.Gen.ReferenceIdeal
import proofs.«208673_g37134287241914_cont_8to1_b_302_3_alg».proof.Proof.LibFoldAppend
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- @main's 115 operations in order, each call's operations at its call site over that call's buffers. -/
abbrev ops : List (HloOp τ sig (Elt F)) :=
  [
    reshape main_arg0 main_v0 rfl shapeCasts_S1024x16x16_S1024x256,
    TRef.nullary main_call0.c (constantI S_ 32 0#32),
    TRef.unary main_call0.c main_call0.v0 (broadcastInDim S1024x256 ![] bcast_S_S1024x256),
    TRef.binary (.of main_v0) main_call0.v0 main_call0.v1 (cmpi .slt),
    TRef.nullary main_call0.c_0 (constantI S_ 32 100000#32),
    TRef.unary main_call0.c_0 main_call0.v2 (broadcastInDim S1024x256 ![] bcast_S_S1024x256),
    TRef.binary (.of main_v0) main_call0.v2 main_call0.v3 addi,
    TRef.ternary main_call0.v1 main_call0.v3 (.of main_v0) main_call0.call0.v0 select,
    TRef.unary main_call0.call0.v0 main_call0.v5 (broadcastInDim S1024x256x1 ![0, 1] bcast_S1024x256_S1024x256x1_0_1),
    TRef.nullary main_call0.c_1 (constantI S1 32 99999#32),
    TRef.nullary main_call0.c_2 (constantI S_ 32 0#32),
    TRef.unary main_call0.c_2 main_call0.v6 (broadcastInDim S1024x256x1 ![] bcast_S_S1024x256x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x256x1 ![0, 1, 2] bcast_S1x1x1_S1024x256x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x256x1_S1024x256_d2 h_S_),
    TRef.binary (.of main_arg1) main_call0.v5 main_call0.v13 (fun x i => Host.gather gather_S100000x128_S1024x256x1_S1024x256x128_2_0_n_n_0_2_1128 x i),
    TRef.unary main_call0.v12 main_call0.v14 (broadcastInDim S1024x256x128 ![0, 1] bcast_S1024x256_S1024x256x128_0_1),
    TRef.nullary main_call0.cst (constant S_ .f32 0x7FC00000#32),
    TRef.unary main_call0.cst main_call0.v15 (broadcastInDim S1024x256x128 ![] bcast_S_S1024x256x128),
    TRef.ternary main_call0.v14 main_call0.v13 main_call0.v15 main_call0.v16 select,
    nullary main_v2 (iotaInDim S256 32 0),
    nullary main_c (constantI S_ 32 16#32),
    TRef.unary (.of main_c) main_call1.v0 id,
    TRef.unary main_call1.v0 main_call1.v1 (broadcastInDim S256 ![] bcast_S_S256),
    TRef.binary (.of main_v2) main_call1.v1 main_call1.v2 Host.divsi,
    TRef.unary (.of main_v2) main_call1.v3 signi,
    TRef.unary main_call1.v0 main_call1.v4 signi,
    TRef.unary main_call1.v4 main_call1.v5 (broadcastInDim S256 ![] bcast_S_S256),
    TRef.binary main_call1.v3 main_call1.v5 main_call1.v6 (cmpi .ne),
    TRef.unary main_call1.v0 main_call1.v7 (broadcastInDim S256 ![] bcast_S_S256),
    TRef.binary (.of main_v2) main_call1.v7 main_call1.v8 Host.remsi,
    TRef.nullary main_call1.c (constantI S_ 32 0#32),
    TRef.unary main_call1.c main_call1.v9 (broadcastInDim S256 ![] bcast_S_S256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S256 ![] bcast_S_S256),
    TRef.binary main_call1.v2 main_call1.v12 main_call1.v13 subi,
    TRef.ternary main_call1.v11 main_call1.v13 main_call1.v2 main_call1.call0.v0 select,
    nullary main_c_0 (constantI S_ 32 16#32),
    TRef.unary (.of main_c_0) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S256 ![] bcast_S_S256),
    TRef.binary (.of main_v2) main_call2.v3 main_call2.v4 Host.remsi,
    TRef.nullary main_call2.c_1 (constantI S_ 32 0#32),
    TRef.unary main_call2.c_1 main_call2.v5 (broadcastInDim S256 ![] bcast_S_S256),
    TRef.binary main_call2.v4 main_call2.v5 main_call2.v6 (cmpi .ne),
    TRef.nullary main_call2.c_2 (constantI S_ 32 0#32),
    TRef.unary main_call2.c_2 main_call2.v7 (broadcastInDim S256 ![] bcast_S_S256),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S256 ![] bcast_S_S256),
    TRef.binary main_call2.v8 main_call2.v10 main_call2.v11 (cmpi .ne),
    TRef.binary main_call2.v11 main_call2.v6 main_call2.v12 andi,
    TRef.unary main_call2.call0.v0 main_call2.v13 (broadcastInDim S256 ![] bcast_S_S256),
    TRef.binary main_call2.v4 main_call2.v13 main_call2.v14 addi,
    TRef.ternary main_call2.v12 main_call2.v14 main_call2.v4 main_call2.v15 select,
    TRef.nullary main_call3.c (constantI S_ 32 0#32),
    TRef.unary main_call3.c main_call3.v0 (broadcastInDim S256 ![] bcast_S_S256),
    TRef.binary (.of main_v3) main_call3.v0 main_call3.v1 (cmpi .slt),
    TRef.nullary main_call3.c_0 (constantI S_ 32 16#32),
    TRef.unary main_call3.c_0 main_call3.v2 (broadcastInDim S256 ![] bcast_S_S256),
    TRef.binary (.of main_v3) main_call3.v2 main_call3.v3 addi,
    TRef.ternary main_call3.v1 main_call3.v3 (.of main_v3) main_call3.call0.v0 select,
    TRef.unary main_call3.call0.v0 main_call3.v5 (broadcastInDim S256x1 ![0] bcast_S256_S256x1_0),
    TRef.nullary main_call3.c_1 (constantI S1 32 15#32),
    TRef.nullary main_call3.c_2 (constantI S_ 32 0#32),
    TRef.unary main_call3.c_2 main_call3.v6 (broadcastInDim S256x1 ![] bcast_S_S256x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S256x1 ![0, 1] bcast_S1x1_S256x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S256x1_S256_d1 h_S_),
    TRef.binary (.of main_arg2) main_call3.v5 main_call3.v13 (fun x i => Host.gather gather_S16x64_S256x1_S256x64_1_0_n_n_0_1_164 x i),
    TRef.unary main_call3.v12 main_call3.v14 (broadcastInDim S256x64 ![0] bcast_S256_S256x64_0),
    TRef.nullary main_call3.cst (constant S_ .f32 0x7FC00000#32),
    TRef.unary main_call3.cst main_call3.v15 (broadcastInDim S256x64 ![] bcast_S_S256x64),
    TRef.ternary main_call3.v14 main_call3.v13 main_call3.v15 main_call3.v16 select,
    TRef.nullary main_call4.c (constantI S_ 32 0#32),
    TRef.unary main_call4.c main_call4.v0 (broadcastInDim S256 ![] bcast_S_S256),
    TRef.binary (.of main_v4) main_call4.v0 main_call4.v1 (cmpi .slt),
    TRef.nullary main_call4.c_0 (constantI S_ 32 16#32),
    TRef.unary main_call4.c_0 main_call4.v2 (broadcastInDim S256 ![] bcast_S_S256),
    TRef.binary (.of main_v4) main_call4.v2 main_call4.v3 addi,
    TRef.ternary main_call4.v1 main_call4.v3 (.of main_v4) main_call4.call0.v0 select,
    TRef.unary main_call4.call0.v0 main_call4.v5 (broadcastInDim S256x1 ![0] bcast_S256_S256x1_0),
    TRef.nullary main_call4.c_1 (constantI S1 32 15#32),
    TRef.nullary main_call4.c_2 (constantI S_ 32 0#32),
    TRef.unary main_call4.c_2 main_call4.v6 (broadcastInDim S256x1 ![] bcast_S_S256x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S256x1 ![0, 1] bcast_S1x1_S256x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S256x1_S256_d1 h_S_),
    TRef.binary (.of main_arg3) main_call4.v5 main_call4.v13 (fun x i => Host.gather gather_S16x64_S256x1_S256x64_1_0_n_n_0_1_164 x i),
    TRef.unary main_call4.v12 main_call4.v14 (broadcastInDim S256x64 ![0] bcast_S256_S256x64_0),
    TRef.nullary main_call4.cst (constant S_ .f32 0x7FC00000#32),
    TRef.unary main_call4.cst main_call4.v15 (broadcastInDim S256x64 ![] bcast_S_S256x64),
    TRef.ternary main_call4.v14 main_call4.v13 main_call4.v15 main_call4.v16 select,
    binary main_v5 main_v6 main_v7 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    unary main_v7 main_v8 (broadcastInDim S1x256x128 ![1, 2] bcast_S256x128_S1x256x128_1_2 : (⟨S256x128, .f32⟩ : BufTy).Contents (Elt F) → (⟨S1x256x128, .f32⟩ : BufTy).Contents (Elt F)),
    unary main_v8 main_v9 (broadcastInDim S1024x256x128 ![0, 1, 2] bcast_S1x256x128_S1024x256x128_0_1_2 : (⟨S1x256x128, .f32⟩ : BufTy).Contents (Elt F) → (⟨S1024x256x128, .f32⟩ : BufTy).Contents (Elt F)),
    binary main_v1 main_v9 main_v10 (addf : (⟨S1024x256x128, .f32⟩ : BufTy).Contents (Elt F) → (⟨S1024x256x128, .f32⟩ : BufTy).Contents (Elt F) → (⟨S1024x256x128, .f32⟩ : BufTy).Contents (Elt F)) ]

/-- The flattened view of x and the token lookup. -/
abbrev sA : List (HloOp τ sig (Elt F)) :=
  [ reshape main_arg0 main_v0 rfl shapeCasts_S1024x16x16_S1024x256,
    TRef.nullary main_call0.c (constantI S_ 32 0#32),
    TRef.unary main_call0.c main_call0.v0 (broadcastInDim S1024x256 ![] bcast_S_S1024x256),
    TRef.binary (.of main_v0) main_call0.v0 main_call0.v1 (cmpi .slt),
    TRef.nullary main_call0.c_0 (constantI S_ 32 100000#32),
    TRef.unary main_call0.c_0 main_call0.v2 (broadcastInDim S1024x256 ![] bcast_S_S1024x256),
    TRef.binary (.of main_v0) main_call0.v2 main_call0.v3 addi,
    TRef.ternary main_call0.v1 main_call0.v3 (.of main_v0) main_call0.call0.v0 select,
    TRef.unary main_call0.call0.v0 main_call0.v5 (broadcastInDim S1024x256x1 ![0, 1] bcast_S1024x256_S1024x256x1_0_1),
    TRef.nullary main_call0.c_1 (constantI S1 32 99999#32),
    TRef.nullary main_call0.c_2 (constantI S_ 32 0#32),
    TRef.unary main_call0.c_2 main_call0.v6 (broadcastInDim S1024x256x1 ![] bcast_S_S1024x256x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x256x1 ![0, 1, 2] bcast_S1x1x1_S1024x256x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x256x1_S1024x256_d2 h_S_),
    TRef.binary (.of main_arg1) main_call0.v5 main_call0.v13 (fun x i => Host.gather gather_S100000x128_S1024x256x1_S1024x256x128_2_0_n_n_0_2_1128 x i),
    TRef.unary main_call0.v12 main_call0.v14 (broadcastInDim S1024x256x128 ![0, 1] bcast_S1024x256_S1024x256x128_0_1),
    TRef.nullary main_call0.cst (constant S_ .f32 0x7FC00000#32),
    TRef.unary main_call0.cst main_call0.v15 (broadcastInDim S1024x256x128 ![] bcast_S_S1024x256x128),
    TRef.ternary main_call0.v14 main_call0.v13 main_call0.v15 main_call0.v16 select ]
/-- The positions 0 … 255 and their quotient by 16. -/
abbrev sB : List (HloOp τ sig (Elt F)) :=
  [ nullary main_v2 (iotaInDim S256 32 0),
    nullary main_c (constantI S_ 32 16#32),
    TRef.unary (.of main_c) main_call1.v0 id,
    TRef.unary main_call1.v0 main_call1.v1 (broadcastInDim S256 ![] bcast_S_S256),
    TRef.binary (.of main_v2) main_call1.v1 main_call1.v2 Host.divsi,
    TRef.unary (.of main_v2) main_call1.v3 signi,
    TRef.unary main_call1.v0 main_call1.v4 signi,
    TRef.unary main_call1.v4 main_call1.v5 (broadcastInDim S256 ![] bcast_S_S256),
    TRef.binary main_call1.v3 main_call1.v5 main_call1.v6 (cmpi .ne),
    TRef.unary main_call1.v0 main_call1.v7 (broadcastInDim S256 ![] bcast_S_S256),
    TRef.binary (.of main_v2) main_call1.v7 main_call1.v8 Host.remsi,
    TRef.nullary main_call1.c (constantI S_ 32 0#32),
    TRef.unary main_call1.c main_call1.v9 (broadcastInDim S256 ![] bcast_S_S256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S256 ![] bcast_S_S256),
    TRef.binary main_call1.v2 main_call1.v12 main_call1.v13 subi,
    TRef.ternary main_call1.v11 main_call1.v13 main_call1.v2 main_call1.call0.v0 select ]
/-- The positions' remainder by 16. -/
abbrev sC : List (HloOp τ sig (Elt F)) :=
  [ nullary main_c_0 (constantI S_ 32 16#32),
    TRef.unary (.of main_c_0) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S256 ![] bcast_S_S256),
    TRef.binary (.of main_v2) main_call2.v3 main_call2.v4 Host.remsi,
    TRef.nullary main_call2.c_1 (constantI S_ 32 0#32),
    TRef.unary main_call2.c_1 main_call2.v5 (broadcastInDim S256 ![] bcast_S_S256),
    TRef.binary main_call2.v4 main_call2.v5 main_call2.v6 (cmpi .ne),
    TRef.nullary main_call2.c_2 (constantI S_ 32 0#32),
    TRef.unary main_call2.c_2 main_call2.v7 (broadcastInDim S256 ![] bcast_S_S256),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S256 ![] bcast_S_S256),
    TRef.binary main_call2.v8 main_call2.v10 main_call2.v11 (cmpi .ne),
    TRef.binary main_call2.v11 main_call2.v6 main_call2.v12 andi,
    TRef.unary main_call2.call0.v0 main_call2.v13 (broadcastInDim S256 ![] bcast_S_S256),
    TRef.binary main_call2.v4 main_call2.v13 main_call2.v14 addi,
    TRef.ternary main_call2.v12 main_call2.v14 main_call2.v4 main_call2.v15 select ]
/-- The row-table lookup at the quotients. -/
abbrev sD : List (HloOp τ sig (Elt F)) :=
  [ TRef.nullary main_call3.c (constantI S_ 32 0#32),
    TRef.unary main_call3.c main_call3.v0 (broadcastInDim S256 ![] bcast_S_S256),
    TRef.binary (.of main_v3) main_call3.v0 main_call3.v1 (cmpi .slt),
    TRef.nullary main_call3.c_0 (constantI S_ 32 16#32),
    TRef.unary main_call3.c_0 main_call3.v2 (broadcastInDim S256 ![] bcast_S_S256),
    TRef.binary (.of main_v3) main_call3.v2 main_call3.v3 addi,
    TRef.ternary main_call3.v1 main_call3.v3 (.of main_v3) main_call3.call0.v0 select,
    TRef.unary main_call3.call0.v0 main_call3.v5 (broadcastInDim S256x1 ![0] bcast_S256_S256x1_0),
    TRef.nullary main_call3.c_1 (constantI S1 32 15#32),
    TRef.nullary main_call3.c_2 (constantI S_ 32 0#32),
    TRef.unary main_call3.c_2 main_call3.v6 (broadcastInDim S256x1 ![] bcast_S_S256x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S256x1 ![0, 1] bcast_S1x1_S256x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S256x1_S256_d1 h_S_),
    TRef.binary (.of main_arg2) main_call3.v5 main_call3.v13 (fun x i => Host.gather gather_S16x64_S256x1_S256x64_1_0_n_n_0_1_164 x i),
    TRef.unary main_call3.v12 main_call3.v14 (broadcastInDim S256x64 ![0] bcast_S256_S256x64_0),
    TRef.nullary main_call3.cst (constant S_ .f32 0x7FC00000#32),
    TRef.unary main_call3.cst main_call3.v15 (broadcastInDim S256x64 ![] bcast_S_S256x64),
    TRef.ternary main_call3.v14 main_call3.v13 main_call3.v15 main_call3.v16 select ]
/-- The column-table lookup at the remainders. -/
abbrev sE : List (HloOp τ sig (Elt F)) :=
  [ TRef.nullary main_call4.c (constantI S_ 32 0#32),
    TRef.unary main_call4.c main_call4.v0 (broadcastInDim S256 ![] bcast_S_S256),
    TRef.binary (.of main_v4) main_call4.v0 main_call4.v1 (cmpi .slt),
    TRef.nullary main_call4.c_0 (constantI S_ 32 16#32),
    TRef.unary main_call4.c_0 main_call4.v2 (broadcastInDim S256 ![] bcast_S_S256),
    TRef.binary (.of main_v4) main_call4.v2 main_call4.v3 addi,
    TRef.ternary main_call4.v1 main_call4.v3 (.of main_v4) main_call4.call0.v0 select,
    TRef.unary main_call4.call0.v0 main_call4.v5 (broadcastInDim S256x1 ![0] bcast_S256_S256x1_0),
    TRef.nullary main_call4.c_1 (constantI S1 32 15#32),
    TRef.nullary main_call4.c_2 (constantI S_ 32 0#32),
    TRef.unary main_call4.c_2 main_call4.v6 (broadcastInDim S256x1 ![] bcast_S_S256x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S256x1 ![0, 1] bcast_S1x1_S256x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S256x1_S256_d1 h_S_),
    TRef.binary (.of main_arg3) main_call4.v5 main_call4.v13 (fun x i => Host.gather gather_S16x64_S256x1_S256x64_1_0_n_n_0_1_164 x i),
    TRef.unary main_call4.v12 main_call4.v14 (broadcastInDim S256x64 ![0] bcast_S256_S256x64_0),
    TRef.nullary main_call4.cst (constant S_ .f32 0x7FC00000#32),
    TRef.unary main_call4.cst main_call4.v15 (broadcastInDim S256x64 ![] bcast_S_S256x64),
    TRef.ternary main_call4.v14 main_call4.v13 main_call4.v15 main_call4.v16 select ]
/-- The concatenation, its two broadcasts, and the sum. -/
abbrev sF : List (HloOp τ sig (Elt F)) :=
  [ binary main_v5 main_v6 main_v7 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    unary main_v7 main_v8 (broadcastInDim S1x256x128 ![1, 2] bcast_S256x128_S1x256x128_1_2 : (⟨S256x128, .f32⟩ : BufTy).Contents (Elt F) → (⟨S1x256x128, .f32⟩ : BufTy).Contents (Elt F)),
    unary main_v8 main_v9 (broadcastInDim S1024x256x128 ![0, 1, 2] bcast_S1x256x128_S1024x256x128_0_1_2 : (⟨S1x256x128, .f32⟩ : BufTy).Contents (Elt F) → (⟨S1024x256x128, .f32⟩ : BufTy).Contents (Elt F)),
    binary main_v1 main_v9 main_v10 (addf : (⟨S1024x256x128, .f32⟩ : BufTy).Contents (Elt F) → (⟨S1024x256x128, .f32⟩ : BufTy).Contents (Elt F) → (⟨S1024x256x128, .f32⟩ : BufTy).Contents (Elt F)) ]

/-- The line is its six stretches in order. -/
theorem ops_eq : (ops : List (HloOp τ sig (Elt F))) = sA ++ (sB ++ (sC ++ (sD ++ (sE ++ sF)))) := rfl

/-- The contents after the whole line are the contents after the stretches, one after the other. -/
theorem after_ops (V : Valuation τ sig (Elt F)) :
    after ops V = after sF (after sE (after sD (after sC (after sB (after sA V))))) := by
  rw [ops_eq]
  simp only [FoldAppend.after_append]

end Cert.Proof.Ref

end
-- ==== Proof.RefMain.lean ====
/-
  The reference's @main is the line of its 115 operations, and its run: from any memory with zero counters every
  weakly fair execution terminates with every buffer at the fold of the line over the launch contents.
-/
import proofs.«208673_g37134287241914_cont_8to1_b_302_3_alg».proof.Proof.RefOps

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

-- one hundred and fifteen binds re-associated: the rewrite under the chain recurses once per statement
set_option maxRecDepth 8192 in
set_option maxHeartbeats 4000000 in
/-- @main is that line: each function's definition unfolded at its call, the records at their fields. -/
theorem main_eq (c : Dev nD) : main (F := F) c = seq ops := by
  simp only [main, fn_take.body, fn_where.body, fn_where_0.body, fn_where_1.body, fn_floor_divide.body, fn_remainder.body,
    fn_take_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., unary_bufs_sub ..,
    binary_bufs_sub ..⟩

/-- From any memory with zero counters every weakly fair execution of @main terminates, and every buffer ends at the
    fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.RefKept.lean ====
/-
  Buffers a stretch of the reference's line does not write keep their contents over it: the facts that carry an
  intermediate result, or an argument, from the stretch that produces it to the stretch that reads it. Each is the
  fold unrolled: no operation of the stretch has the buffer as its result.
-/
import proofs.«208673_g37134287241914_cont_8to1_b_302_3_alg».proof.Proof.RefOps

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem sA_keep_arg2 (W : Valuation τ sig (Elt F)) :
    after sA W (main_arg2 : DevRef τ sig) = W (main_arg2 : DevRef τ sig) := by
  after_results_simp

set_option maxHeartbeats 2000000 in
theorem sA_keep_arg3 (W : Valuation τ sig (Elt F)) :
    after sA W (main_arg3 : DevRef τ sig) = W (main_arg3 : DevRef τ sig) := by
  after_results_simp

set_option maxHeartbeats 2000000 in
theorem sB_keep_v1 (W : Valuation τ sig (Elt F)) :
    after sB W (main_v1 : DevRef τ sig) = W (main_v1 : DevRef τ sig) := by
  after_results_simp

set_option maxHeartbeats 2000000 in
theorem sB_keep_arg2 (W : Valuation τ sig (Elt F)) :
    after sB W (main_arg2 : DevRef τ sig) = W (main_arg2 : DevRef τ sig) := by
  after_results_simp

set_option maxHeartbeats 2000000 in
theorem sB_keep_arg3 (W : Valuation τ sig (Elt F)) :
    after sB W (main_arg3 : DevRef τ sig) = W (main_arg3 : DevRef τ sig) := by
  after_results_simp

set_option maxHeartbeats 2000000 in
theorem sC_keep_v1 (W : Valuation τ sig (Elt F)) :
    after sC W (main_v1 : DevRef τ sig) = W (main_v1 : DevRef τ sig) := by
  after_results_simp

set_option maxHeartbeats 2000000 in
theorem sC_keep_arg2 (W : Valuation τ sig (Elt F)) :
    after sC W (main_arg2 : DevRef τ sig) = W (main_arg2 : DevRef τ sig) := by
  after_results_simp

set_option maxHeartbeats 2000000 in
theorem sC_keep_v3 (W : Valuation τ sig (Elt F)) :
    after sC W (main_v3 : DevRef τ sig) = W (main_v3 : DevRef τ sig) := by
  after_results_simp

set_option maxHeartbeats 2000000 in
theorem sC_keep_arg3 (W : Valuation τ sig (Elt F)) :
    after sC W (main_arg3 : DevRef τ sig) = W (main_arg3 : DevRef τ sig) := by
  after_results_simp

set_option maxHeartbeats 2000000 in
theorem sD_keep_v1 (W : Valuation τ sig (Elt F)) :
    after sD W (main_v1 : DevRef τ sig) = W (main_v1 : DevRef τ sig) := by
  after_results_simp

set_option maxHeartbeats 2000000 in
theorem sD_keep_arg3 (W : Valuation τ sig (Elt F)) :
    after sD W (main_arg3 : DevRef τ sig) = W (main_arg3 : DevRef τ sig) := by
  after_results_simp

set_option maxHeartbeats 2000000 in
theorem sD_keep_v4 (W : Valuation τ sig (Elt F)) :
    after sD W (main_v4 : DevRef τ sig) = W (main_v4 : DevRef τ sig) := by
  after_results_simp

set_option maxHeartbeats 2000000 in
theorem sE_keep_v1 (W : Valuation τ sig (Elt F)) :
    after sE W (main_v1 : DevRef τ sig) = W (main_v1 : DevRef τ sig) := by
  after_results_simp

set_option maxHeartbeats 2000000 in
theorem sE_keep_v5 (W : Valuation τ sig (Elt F)) :
    after sE W (main_v5 : DevRef τ sig) = W (main_v5 : DevRef τ sig) := by
  after_results_simp

end Cert.Proof.Ref

end
-- ==== Proof.RefArgs.lean ====
/-
  The reference's line writes none of its four argument buffers: each ends as it began.
-/
import proofs.«208673_g37134287241914_cont_8to1_b_302_3_alg».proof.Proof.RefOps

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem ops_keep_arg0 (V : Valuation τ sig (Elt F)) :
    after ops V (main_arg0 : DevRef τ sig) = V (main_arg0 : DevRef τ sig) := by
  after_results_simp

set_option maxHeartbeats 2000000 in
theorem ops_keep_arg1 (V : Valuation τ sig (Elt F)) :
    after ops V (main_arg1 : DevRef τ sig) = V (main_arg1 : DevRef τ sig) := by
  after_results_simp

set_option maxHeartbeats 2000000 in
theorem ops_keep_arg2 (V : Valuation τ sig (Elt F)) :
    after ops V (main_arg2 : DevRef τ sig) = V (main_arg2 : DevRef τ sig) := by
  after_results_simp

set_option maxHeartbeats 2000000 in
theorem ops_keep_arg3 (V : Valuation τ sig (Elt F)) :
    after ops V (main_arg3 : DevRef τ sig) = V (main_arg3 : DevRef τ sig) := by
  after_results_simp

end Cert.Proof.Ref

end
-- ==== Proof.RefStages.lean ====
/-
  What the reference computes, as functions of array contents.

  jnp.take(table, idx, axis=0) in its default fill mode is: an index below zero is counted from the end (idx + n); the
  normalised index is checked to lie in [0, n-1]; the row is gathered (the gather clamps its start index); and where the
  check failed the row is replaced by NaN. `takeTok` is that lookup of the [100000, 128] token table at a [1024, 256]
  index array, `takePos` that of a [16, 64] position table at a [256] index array. The positions are 0 … 255, their row
  index the floor quotient by 16 (`floorDiv`: the truncated quotient, less one where the signs differ and the remainder
  is not zero) and their column index the floor remainder by 16 (`floorRem`: the truncated remainder, plus the divisor
  where it is not zero and its sign differs from the divisor's; a zero divisor is replaced by one). The result is the token
  rows plus, for every batch entry alike, the row-table row and the column-table row side by side.
  Every function is the reference's own operations composed in the reference's order.
-/
import proofs.«208673_g37134287241914_cont_8to1_b_302_3_alg».proof.Proof.Gen.ReferenceIdeal

noncomputable section

namespace Cert.Proof.Ref

open Cert.ReferenceIdeal Cert.ReferenceIdeal.Gen Idealize.ShloMosaic

variable {F : FTy → Type} [FloatOps F]

/-! ## The token lookup -/

/-- An index below zero counted from the end of the 100000 rows. -/
def wrapTok (x : IVec S1024x256 32) : IVec S1024x256 32 :=
  select (cmpi .slt x (broadcastInDim S1024x256 ![] bcast_S_S1024x256 (constantI S_ 32 0#32)))
    (addi x (broadcastInDim S1024x256 ![] bcast_S_S1024x256 (constantI S_ 32 100000#32))) x

/-- The normalised indices as the gather's [1024, 256, 1] start indices. -/
def tokIdx (x : IVec S1024x256 32) : IVec S1024x256x1 32 :=
  broadcastInDim S1024x256x1 ![0, 1] bcast_S1024x256_S1024x256x1_0_1 (wrapTok x)

/-- The bounds check 0 <= index <= 99999, reduced by "and" over the index vector's one component. -/
def tokOk (i : IVec S1024x256x1 32) : IVec S1024x256 1 :=
  Host.reduce IntOp.andi
    (andi (cmpi .sge i (broadcastInDim S1024x256x1 ![] bcast_S_S1024x256x1 (constantI S_ 32 0#32)))
      (cmpi .sle i (broadcastInDim S1024x256x1 ![0, 1, 2] bcast_S1x1x1_S1024x256x1_0_1_2
        (broadcastInDim S1x1x1 ![2] bcast_S1_S1x1x1_2 (constantI S1 32 99999#32)))))
    (constantI S_ 1 1#1) reducesTo_S1024x256x1_S1024x256_d2 h_S_

/-- jnp.take of the token table at a [1024, 256] index array: the gathered rows, NaN where the index is out of bounds. -/
def takeTok (tab : FVec F S100000x128 .f32) (x : IVec S1024x256 32) : FVec F S1024x256x128 .f32 :=
  select (broadcastInDim S1024x256x128 ![0, 1] bcast_S1024x256_S1024x256x128_0_1 (tokOk (tokIdx x)))
    (Host.gather gather_S100000x128_S1024x256x1_S1024x256x128_2_0_n_n_0_2_1128 tab (tokIdx x))
    (broadcastInDim S1024x256x128 ![] bcast_S_S1024x256x128 (constant S_ .f32 0x7FC00000#32))

/-! ## The positions' row and column indices -/

/-- Floor division of a [256] array by a scalar. -/
def floorDiv (i : IVec S256 32) (c : IVec S_ 32) : IVec S256 32 :=
  select
    (andi (cmpi .ne (signi i) (broadcastInDim S256 ![] bcast_S_S256 (signi c)))
      (cmpi .ne (Host.remsi i (broadcastInDim S256 ![] bcast_S_S256 c))
        (broadcastInDim S256 ![] bcast_S_S256 (constantI S_ 32 0#32))))
    (subi (Host.divsi i (broadcastInDim S256 ![] bcast_S_S256 c))
      (broadcastInDim S256 ![] bcast_S_S256 (constantI S_ 32 1#32)))
    (Host.divsi i (broadcastInDim S256 ![] bcast_S_S256 c))

/-- The divisor the remainder uses: one in place of zero. -/
def safeDiv (c : IVec S_ 32) : IVec S_ 32 :=
  select (cmpi .eq c (constantI S_ 32 0#32)) (constantI S_ 32 1#32) c

/-- Floor remainder of a [256] array by a scalar. -/
def floorRem (i : IVec S256 32) (c : IVec S_ 32) : IVec S256 32 :=
  select
    (andi
      (cmpi .ne
        (cmpi .slt (Host.remsi i (broadcastInDim S256 ![] bcast_S_S256 (safeDiv c)))
          (broadcastInDim S256 ![] bcast_S_S256 (constantI S_ 32 0#32)))
        (broadcastInDim S256 ![] bcast_S_S256 (cmpi .slt (safeDiv c) (constantI S_ 32 0#32))))
      (cmpi .ne (Host.remsi i (broadcastInDim S256 ![] bcast_S_S256 (safeDiv c)))
        (broadcastInDim S256 ![] bcast_S_S256 (constantI S_ 32 0#32))))
    (addi (Host.remsi i (broadcastInDim S256 ![] bcast_S_S256 (safeDiv c)))
      (broadcastInDim S256 ![] bcast_S_S256 (safeDiv c)))
    (Host.remsi i (broadcastInDim S256 ![] bcast_S_S256 (safeDiv c)))

/-- The positions 0 … 255. -/
def positions : IVec S256 32 := iotaInDim S256 32 0
/-- The row index of each position: its floor quotient by 16. -/
def rowsIdx : IVec S256 32 := floorDiv positions (constantI S_ 32 16#32)
/-- The column index of each position: its floor remainder by 16. -/
def colsIdx : IVec S256 32 := floorRem positions (constantI S_ 32 16#32)

/-! ## The position-table lookups -/

/-- An index below zero counted from the end of the 16 rows. -/
def wrapPos (i : IVec S256 32) : IVec S256 32 :=
  select (cmpi .slt i (broadcastInDim S256 ![] bcast_S_S256 (constantI S_ 32 0#32)))
    (addi i (broadcastInDim S256 ![] bcast_S_S256 (constantI S_ 32 16#32))) i

/-- The normalised indices as the gather's [256, 1] start indices. -/
def posIdx (i : IVec S256 32) : IVec S256x1 32 :=
  broadcastInDim S256x1 ![0] bcast_S256_S256x1_0 (wrapPos i)

/-- The bounds check 0 <= index <= 15. -/
def posOk (j : IVec S256x1 32) : IVec S256 1 :=
  Host.reduce IntOp.andi
    (andi (cmpi .sge j (broadcastInDim S256x1 ![] bcast_S_S256x1 (constantI S_ 32 0#32)))
      (cmpi .sle j (broadcastInDim S256x1 ![0, 1] bcast_S1x1_S256x1_0_1
        (broadcastInDim S1x1 ![1] bcast_S1_S1x1_1 (constantI S1 32 15#32)))))
    (constantI S_ 1 1#1) reducesTo_S256x1_S256_d1 h_S_

/-- jnp.take of a [16, 64] table at a [256] index array. -/
def takePos (tab : FVec F S16x64 .f32) (i : IVec S256 32) : FVec F S256x64 .f32 :=
  select (broadcastInDim S256x64 ![0] bcast_S256_S256x64_0 (posOk (posIdx i)))
    (Host.gather gather_S16x64_S256x1_S256x64_1_0_n_n_0_1_164 tab (posIdx i))
    (broadcastInDim S256x64 ![] bcast_S_S256x64 (constant S_ .f32 0x7FC00000#32))

/-! ## The result -/

/-- The position embedding [256, 128]: the row-table row of p/16 beside the column-table row of p%16. -/
def posEmb (row col : FVec F S16x64 .f32) : FVec F S256x128 .f32 :=
  concatenate S256x128 1 [⟨S256x64, takePos row rowsIdx⟩, ⟨S256x64, takePos col colsIdx⟩]
    concatenates_S256x64_S256x64_S256x128_d1

/-- The reference's result from its four arguments' contents: token rows plus the position embedding, the same for
    every batch entry. -/
def refVal (x : IVec S1024x16x16 32) (tab : FVec F S100000x128 .f32) (row col : FVec F S16x64 .f32) :
    FVec F S1024x256x128 .f32 :=
  addf (takeTok tab (shapeCast S1024x256 x shapeCasts_S1024x16x16_S1024x256))
    (broadcastInDim S1024x256x128 ![0, 1, 2] bcast_S1x256x128_S1024x256x128_0_1_2
      (broadcastInDim S1x256x128 ![1, 2] bcast_S256x128_S1x256x128_1_2 (posEmb row col)))

end Cert.Proof.Ref

end
-- ==== Proof.LibTypedRef.lean ====
/-
  Typed references of a host program: the transport of contents along a buffer's type equation is the identity.

  A called host function's operations name their buffers as TYPED references: a reference `r` together with the
  equation `r.ty = T`, and they read and write contents through the transport along that equation
  (`ofBuf`, `toBuf`: a `cast`). A transport along an equation of types changes nothing but the type: what it
  returns is heterogeneously equal to what it was given. Hence reading back through a typed reference what was
  written through it gives the contents back, and reading or writing through a typed reference contents that are
  heterogeneously equal to `w` gives `w` (at a literal reference the two types are the same by computation, and the
  heterogeneous equality is reflexivity). Proved by substituting the type equation, never by unfolding the transport.
  General in the program's signature and the value family.
-/
import Idealize.ShloMosaic.Lib.StableHlo.Run

namespace TypedRef

open Idealize.ShloMosaic Idealize.ShloMosaic.StableHlo

variable {sig : RefSig} {Val : EltTy → Type}

/-- Reading back through a typed reference what was put through it. -/
theorem ofBuf_toBuf {T : BufTy} (x : TRef sig T) (v : T.Contents Val) : x.ofBuf (x.toBuf v) = v := by
  unfold TRef.ofBuf TRef.toBuf
  rw [cast_cast]
  exact cast_eq _ _

/-- Contents read through a typed reference are the contents. -/
theorem ofBuf_lit (r : Ref sig .tc) (T : BufTy) (h : r.ty = T) (h2 : r.space ≠ .host) (h3 : r.isScoped = false)
    (v : r.ty.Contents Val) (w : T.Contents Val) (hvw : HEq v w) : (TRef.of r h h2 h3).ofBuf v = w := by
  subst h
  exact eq_of_heq ((cast_heq _ _).trans hvw)

/-- Contents put through a typed reference are the contents. -/
theorem toBuf_lit (r : Ref sig .tc) (T : BufTy) (h : r.ty = T) (h2 : r.space ≠ .host) (h3 : r.isScoped = false)
    (w : T.Contents Val) (v : r.ty.Contents Val) (hwv : HEq w v) : (TRef.of r h h2 h3).toBuf w = v := by
  subst h
  exact eq_of_heq ((cast_heq _ _).trans hwv)

end TypedRef
-- ==== Proof.RefSeg.lean ====
/-
  What each stretch of the reference's line leaves in the buffer it is there to produce, as the stage function of
  what the stretch found in the buffers it reads. The fold is unrolled, each operation's result rewritten to its
  function's value; a called function's operations read and write through typed references, whose transport along
  the buffer's type equation is the identity; what is left is the stage function's own term.
-/
import proofs.«208673_g37134287241914_cont_8to1_b_302_3_alg».proof.Proof.RefOps
import proofs.«208673_g37134287241914_cont_8to1_b_302_3_alg».proof.Proof.RefStages
import proofs.«208673_g37134287241914_cont_8to1_b_302_3_alg».proof.Proof.LibTypedRef

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The sum's stretch: token rows plus the concatenated position rows broadcast over the batch. -/
theorem sF_v10 (W : Valuation τ sig (Elt F)) :
    after sF W (main_v10 : DevRef τ sig)
      = addf (W (main_v1 : DevRef τ sig))
          (broadcastInDim S1024x256x128 ![0, 1, 2] bcast_S1x256x128_S1024x256x128_0_1_2
            (broadcastInDim S1x256x128 ![1, 2] bcast_S256x128_S1x256x128_1_2
              (concatenate S256x128 1 [⟨S256x64, W (main_v5 : DevRef τ sig)⟩, ⟨S256x64, W (main_v6 : DevRef τ sig)⟩]
                concatenates_S256x64_S256x64_S256x128_d1))) := by
  after_results

set_option maxHeartbeats 2000000 in
/-- The token lookup's stretch. -/
theorem sA_v1 (V : Valuation τ sig (Elt F)) :
    after sA V (main_v1 : DevRef τ sig)
      = takeTok (V (main_arg1 : DevRef τ sig))
          (shapeCast S1024x256 (V (main_arg0 : DevRef τ sig)) shapeCasts_S1024x16x16_S1024x256) := by
  after_results_simp
  simp only [TypedRef.ofBuf_toBuf]
  rw [TypedRef.ofBuf_lit main_v0 ⟨S1024x256, .i32⟩ _ _ _ _ _ HEq.rfl,
    TypedRef.ofBuf_lit main_arg1 ⟨S100000x128, .f32⟩ _ _ _ _ _ HEq.rfl,
    TypedRef.toBuf_lit main_v1 ⟨S1024x256x128, .f32⟩ _ _ _ _ _ HEq.rfl]
  rfl

set_option maxHeartbeats 2000000 in
/-- The positions. -/
theorem sB_v2 (W : Valuation τ sig (Elt F)) : after sB W (main_v2 : DevRef τ sig) = positions := by
  after_results_simp
  rfl

set_option maxHeartbeats 2000000 in
/-- The positions' quotient by 16. -/
theorem sB_v3 (W : Valuation τ sig (Elt F)) : after sB W (main_v3 : DevRef τ sig) = rowsIdx := by
  after_results_simp
  simp only [TypedRef.ofBuf_toBuf]
  rw [TypedRef.ofBuf_lit main_v2 ⟨S256, .i32⟩ _ _ _ _ _ HEq.rfl,
    TypedRef.ofBuf_lit main_c ⟨S_, .i32⟩ _ _ _ _ _ HEq.rfl,
    TypedRef.toBuf_lit main_v3 ⟨S256, .i32⟩ _ _ _ _ _ HEq.rfl]
  rfl

set_option maxHeartbeats 2000000 in
/-- The remainder by 16 of what the stretch finds in the positions' buffer. -/
theorem sC_v4 (W : Valuation τ sig (Elt F)) :
    after sC W (main_v4 : DevRef τ sig) = floorRem (W (main_v2 : DevRef τ sig)) (constantI S_ 32 16#32) := by
  after_results_simp
  simp only [TypedRef.ofBuf_toBuf]
  rw [TypedRef.ofBuf_lit main_v2 ⟨S256, .i32⟩ _ _ _ _ _ HEq.rfl,
    TypedRef.ofBuf_lit main_c_0 ⟨S_, .i32⟩ _ _ _ _ _ HEq.rfl,
    TypedRef.toBuf_lit main_v4 ⟨S256, .i32⟩ _ _ _ _ _ HEq.rfl]
  rfl

set_option maxHeartbeats 2000000 in
/-- The row-table lookup at what the stretch finds in the quotients' buffer. -/
theorem sD_v5 (W : Valuation τ sig (Elt F)) :
    after sD W (main_v5 : DevRef τ sig) = takePos (W (main_arg2 : DevRef τ sig)) (W (main_v3 : DevRef τ sig)) := by
  after_results_simp
  simp only [TypedRef.ofBuf_toBuf]
  rw [TypedRef.ofBuf_lit main_v3 ⟨S256, .i32⟩ _ _ _ _ _ HEq.rfl,
    TypedRef.ofBuf_lit main_arg2 ⟨S16x64, .f32⟩ _ _ _ _ _ HEq.rfl,
    TypedRef.toBuf_lit main_v5 ⟨S256x64, .f32⟩ _ _ _ _ _ HEq.rfl]
  rfl

set_option maxHeartbeats 2000000 in
/-- The column-table lookup at what the stretch finds in the remainders' buffer. -/
theorem sE_v6 (W : Valuation τ sig (Elt F)) :
    after sE W (main_v6 : DevRef τ sig) = takePos (W (main_arg3 : DevRef τ sig)) (W (main_v4 : DevRef τ sig)) := by
  after_results_simp
  simp only [TypedRef.ofBuf_toBuf]
  rw [TypedRef.ofBuf_lit main_v4 ⟨S256, .i32⟩ _ _ _ _ _ HEq.rfl,
    TypedRef.ofBuf_lit main_arg3 ⟨S16x64, .f32⟩ _ _ _ _ _ HEq.rfl,
    TypedRef.toBuf_lit main_v6 ⟨S256x64, .f32⟩ _ _ _ _ _ HEq.rfl]
  rfl

end Cert.Proof.Ref

end
-- ==== Proof.RefRun.lean ====
/-
  The reference's run, with its result named.

  After the whole line the result buffer holds `refVal` of the four arguments' launch contents: the sum's stretch
  reads the token rows, which the first stretch left and no later one touched, and the two position lookups, which
  read the row table at the quotients and the column table at the remainders of the positions 0 … 255; the argument
  buffers are written by no operation. Hence every weakly fair execution of the reference terminates with its result
  at `refVal` of the arguments and the arguments unchanged.
-/
import proofs.«208673_g37134287241914_cont_8to1_b_302_3_alg».proof.Proof.RefMain
import proofs.«208673_g37134287241914_cont_8to1_b_302_3_alg».proof.Proof.RefKept
import proofs.«208673_g37134287241914_cont_8to1_b_302_3_alg».proof.Proof.RefArgs
import proofs.«208673_g37134287241914_cont_8to1_b_302_3_alg».proof.Proof.RefSeg

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The result buffer after the whole line. -/
theorem val_eq (V : Valuation τ sig (Elt F)) :
    after ops V (main_v10 : DevRef τ sig)
      = refVal (V (main_arg0 : DevRef τ sig)) (V (main_arg1 : DevRef τ sig)) (V (main_arg2 : DevRef τ sig))
          (V (main_arg3 : DevRef τ sig)) := by
  rw [after_ops, sF_v10,
    -- the token rows: left by the first stretch, kept by the other four
    sE_keep_v1, sD_keep_v1, sC_keep_v1, sB_keep_v1, sA_v1,
    -- the row-table lookup: kept by the column lookup's stretch; its table an argument, its indices the quotients
    sE_keep_v5, sD_v5, sC_keep_arg2, sB_keep_arg2, sA_keep_arg2, sC_keep_v3, sB_v3,
    -- the column-table lookup: its table an argument, its indices the remainders of the positions
    sE_v6, sD_keep_arg3, sC_keep_arg3, sB_keep_arg3, sA_keep_arg3, sD_keep_v4, sC_v4, sB_v2]
  rfl

/-- On every device, from any memory with zero counters: every weakly fair execution of the reference terminates
    with its result at `refVal` of the arguments' launch contents, and the arguments unchanged. -/
theorem run (m' : (ℓ : Loc Cert.ReferenceIdeal.nD Cert.ReferenceIdeal.τ Cert.ReferenceIdeal.sig) → Buf (Elt F) ℓ)
    (g' : Dev Cert.ReferenceIdeal.nD → PrngReg) :
    θ_run (Cert.ReferenceIdeal.defs (F := F)) (onTc (τ := Cert.ReferenceIdeal.τ) (Cert.ReferenceIdeal.main (F := F)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v10)
          = refVal (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run defs _ _).mono (fun _ h c => ⟨(h c main_v10).trans (val_eq _),
      (h c main_arg0).trans (ops_keep_arg0 _), (h c main_arg1).trans (ops_keep_arg1 _),
      (h c main_arg2).trans (ops_keep_arg2 _), (h c main_arg3).trans (ops_keep_arg3 _)⟩)
    (run_main m' g')

end Cert.Proof.Ref

end
-- ==== Proof.Common.lean ====
/-
  The vocabulary of the launch of the embedding lookup on two SparseCores of sixteen tiles each: the configuration as
  the launch theorem sees it, the ghost state, the four HBM arrays a tile addresses, a tile's worker number, the row
  blocks of the index array and of the result, the read shares of the table and of the positional array (the full
  share halved five times), what the two host-side inputs of the call hold when it starts, and what the handshakes
  carry: each tile its block of index rows, a share of the positional array and of the table, and its block of the
  result, which comes back at contents of which a per-tile predicate holds.
-/
import proofs.«208673_g37134287241914_cont_8to1_b_302_3_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208673_g37134287241914_cont_8to1_b_302_3_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

/-- The model every assertion of this certificate is over. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

/-! ## The arrays a tile addresses -/

/-- The index array (`main_v7`, 2048 × 128 words), the positional array (`main_v6`, 256 × 128), the table
    (`main_arg1`, 100000 × 128) and the result (`main_v8`, 262144 × 128) of device `d`. -/
abbrev x2Loc (d : Dev nD) : Loc nD τ sig := (SparseCore.T d).loc main_v7
abbrev posLoc (d : Dev nD) : Loc nD τ sig := (SparseCore.T d).loc main_v6
abbrev tabLoc (d : Dev nD) : Loc nD τ sig := (SparseCore.T d).loc main_arg1
abbrev outLoc (d : Dev nD) : Loc nD τ sig := (SparseCore.T d).loc main_v8

/-- The four arrays whole, as a vector subcore names them. -/
abbrev x2V : Memref sig .scVector .hbm S2048x128 .i32 := Memref.whole main_v7_scv
abbrev posV : Memref sig .scVector .hbm S256x128 .f32 := Memref.whole main_v6_scv
abbrev tabV : Memref sig .scVector .hbm S100000x128 .f32 := Memref.whole main_arg1_scv
abbrev outV : Memref sig .scVector .hbm S262144x128 .f32 := Memref.whole main_v8_scv

/-! ## Workers: tile `s` of SparseCore `c` is worker `2 s + c` -/

/-- The worker number of tile `s` of SparseCore `c`. -/
def wid (c : Fin 2) (s : Fin 16) : Fin 32 := ⟨s.val * 2 + c.val, by have := c.isLt; have := s.isLt; omega⟩

theorem wid_val (c : Fin 2) (s : Fin 16) : (wid c s).val = s.val * 2 + c.val := rfl

/-- Every worker is one tile of one SparseCore. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have := c.isLt; have := s.isLt
    refine Prod.ext (Fin.ext ?_) (Fin.ext ?_)
    · show (s.val * 2 + c.val) % 2 = c.val; omega
    · show (s.val * 2 + c.val) / 2 = s.val; omega
  right_inv := fun w => by
    refine Fin.ext ?_
    show w.val / 2 * 2 + w.val % 2 = w.val; omega

theorem widEquiv_apply (c : Fin 2) (s : Fin 16) : widEquiv (c, s) = wid c s := rfl

/-- The worker of the launch's tile `i` of its SparseCore `c`. -/
abbrev widK (c : Fin ((K (F := F)).nCore 0)) (i : Fin ((K (F := F)).nSub 0)) : Fin 32 := wid (Fin.cast nCore_zero c) (Fin.cast nSub_zero i)

/-! ## Row blocks: worker `w` has rows `[64 w, 64 w + 64)` of the index array and `[8192 w, 8192 w + 8192)` of the result -/

theorem xdiv : 32 ∣ S2048x128.size 0 := ⟨64, rfl⟩
theorem odiv : 32 ∣ S262144x128.size 0 := ⟨8192, rfl⟩
abbrev xrow (w : Fin 32) : Rect S2048x128 := Rect.part (s := S2048x128) (a₀ := 0) xdiv w
abbrev orow (w : Fin 32) : Rect S262144x128 := Rect.part (s := S262144x128) (a₀ := 0) odiv w
abbrev xRowSet (w : Fin 32) : Finset S2048x128.Idx := ((x2V).view.slice (xrow w)).set
abbrev oRowSet (w : Fin 32) : Finset S262144x128.Idx := ((outV).view.slice (orow w)).set

/-! ## Read shares: the full share halved five times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker `w`'s share of the table, and of the positional array. -/
abbrev tq (w : Fin 32) : PosShare TreeShare := leaf 5 fullShare w
abbrev pq (w : Fin 32) : PosShare TreeShare := leaf 5 fullShare w

/-! ## What the call finds in its two host-side inputs -/

variable (m : (ℓ : Loc nD τ sig) → Buf (Elt F) ℓ)

/-- The index array when the call starts: @main's argument 0 reshaped to 1024 × 256, then to 2048 × 128. -/
def x2Of (d : Dev nD) : Buf (Elt F) (x2Loc d) :=
  shapeCast S2048x128 (shapeCast S1024x256 (m ((SparseCore.T d).loc main_arg0)) shapeCasts_S1024x16x16_S1024x256) shapeCasts_S1024x256_S2048x128

/-- The positional array when the call starts: argument 2 broadcast along a new middle axis and reshaped to 256 × 64,
    beside argument 3 reshaped, broadcast along a new leading axis and reshaped to 256 × 64. -/
def posOf (d : Dev nD) : Buf (Elt F) (posLoc d) :=
  concatenate S256x128 1
    [⟨S256x64, shapeCast S256x64 (broadcastInDim S16x16x64 ![0, 2] bcast_S16x64_S16x16x64_0_2 (m ((SparseCore.T d).loc main_arg2))) shapeCasts_S16x16x64_S256x64⟩,
     ⟨S256x64, shapeCast S256x64 (broadcastInDim S16x16x1x64 ![0, 1, 2, 3] bcast_S1x16x1x64_S16x16x1x64_0_1_2_3
        (shapeCast S1x16x1x64 (m ((SparseCore.T d).loc main_arg3)) shapeCasts_S16x64_S1x16x1x64)) shapeCasts_S16x16x1x64_S256x64⟩]
    concatenates_S256x64_S256x64_S256x128_d1

/-! ## What the handshakes carry -/

variable (X2 : (d : Dev nD) → Buf (Elt F) (x2Loc d)) (PS : (d : Dev nD) → Buf (Elt F) (posLoc d))
variable (R : (d : Dev nD) → Fin 32 → Buf (Elt F) (outLoc d) → Prop)

/-- What worker `w` is handed: its block of index rows, its shares of the positional array and of the table, its block
    of the result at the launch contents. -/
abbrev goPts (d : Dev nD) (w : Fin 32) : sProp 𝕄 :=
  iprop((x2Loc d ↦[xRowSet w]{fullShare} X2 d) ∗ (posLoc d ↦{pq w} PS d) ∗ (tabLoc d ↦{tq w} m (tabLoc d))
    ∗ outLoc d ↦[oRowSet w]{fullShare} m (outLoc d))
/-- What it hands back: the same three unchanged, its block of the result at contents of which `R d w` holds. -/
abbrev tdPts (d : Dev nD) (w : Fin 32) : sProp 𝕄 :=
  iprop((x2Loc d ↦[xRowSet w]{fullShare} X2 d) ∗ (posLoc d ↦{pq w} PS d) ∗ (tabLoc d ↦{tq w} m (tabLoc d))
    ∗ ∃ f, (outLoc d ↦[oRowSet w]{fullShare} f) ∗ ⌜R d w f⌝)

/-- The one call: SparseCore `c` takes its sixteen workers' operands (`wid c i`, `i : Fin 16`: the blocks interleave
    between the two SparseCores; of the positional array and the table its workers' sixteen leaves) and brings their
    results back. -/
def P : (K (F := F)).Pay (nD := nD) (Val := Elt F) (Name := ℕ) (U := UU) where
  st := fun q d c => match q, c with
    | 0, c => bigSep Finset.univ fun i : Fin 16 => goPts m X2 PS d (wid (Fin.cast nCore_zero c) i)
  dn := fun q d c => match q, c with
    | 0, c => bigSep Finset.univ fun i : Fin 16 => tdPts m X2 PS R d (wid (Fin.cast nCore_zero c) i)
  go := fun q d c i => match q, c, i with
    | 0, c, i => goPts m X2 PS d (widK c i)
  td := fun q d c i => match q, c, i with
    | 0, c, i => tdPts m X2 PS R d (widK c i)
  x := fun _ _ => iprop(emp)

theorem P_st (d : Dev nD) (c : Fin ((K (F := F)).nCore 0)) :
    (P m X2 PS R).st 0 d c = bigSep Finset.univ fun i : Fin 16 => goPts m X2 PS d (wid (Fin.cast nCore_zero c) i) := rfl
theorem P_dn (d : Dev nD) (c : Fin ((K (F := F)).nCore 0)) :
    (P m X2 PS R).dn 0 d c = bigSep Finset.univ fun i : Fin 16 => tdPts m X2 PS R d (wid (Fin.cast nCore_zero c) i) := rfl
theorem P_go (d : Dev nD) (c : Fin ((K (F := F)).nCore 0)) (i : Fin ((K (F := F)).nSub 0)) :
    (P m X2 PS R).go 0 d c i = goPts m X2 PS d (widK c i) := rfl
theorem P_td (d : Dev nD) (c : Fin ((K (F := F)).nCore 0)) (i : Fin ((K (F := F)).nSub 0)) :
    (P m X2 PS R).td 0 d c i = tdPts m X2 PS R d (widK c i) := rfl
theorem P_x (q : Fin 1) (thr : Thread nD τ) : (P m X2 PS R).x q thr = iprop(emp) := rfl
theorem P_ox : (P m X2 PS R).ox = fun _ _ => 0 := rfl

end Cert.Proof.KI

end
-- ==== Proof.OutVal.lean ====
/-
  The kernel's result as one function of what the call finds.

  The SparseCore call is handed the index array as 2048 rows of 128 words, the positional array of 256 rows, and the
  table; its result has 262144 rows of 128 lanes. Row n of the result is the table row named by word n of the index
  array (row n / 128, column n % 128 of the 2048 × 128 layout) plus row n % 256 of the positional array, lane by lane,
  the table row first. `outG` is that array, for index words that name rows of the table.
-/
import proofs.«208673_g37134287241914_cont_8to1_b_302_3_alg».proof.Proof.Common
import Idealize.ShloMosaic.Lib.ValueIdx
import Idealize.ShloMosaic.PureOps.Ideal

noncomputable section

namespace Cert.Proof.KI

open Cert.KernelIdeal Cert.KernelIdeal.Gen Idealize.ShloMosaic Idealize.ShloMosaic.ValueIdx

variable {F : FTy → Type} [FloatOps F]

/-- Result row n reads word n of the index array: row n / 128 of its 2048 × 128 layout, -/
abbrev xRow (n : Fin 262144) : Fin 2048 := ⟨n.val / 128, by have := n.isLt; omega⟩
/-- column n % 128; -/
abbrev xCol (n : Fin 262144) : Fin 128 := ⟨n.val % 128, by omega⟩
/-- and row n % 256 of the positional array. -/
abbrev pRow (n : Fin 262144) : Fin 256 := ⟨n.val % 256, by omega⟩

/-- The result array: at (n, k) the table's row X2[n / 128, n % 128] at lane k plus the positional array's row n % 256
    at lane k. -/
def outG (X2 : S2048x128.Idx → Elt F .i32) (PS : S256x128.Idx → Elt F .f32) (TB : S100000x128.Idx → Elt F .f32)
    (hX : ∀ j, (X2 j).toNat < 100000) : S262144x128.Idx → Elt F .f32 := fun j =>
  FloatOps.addf (TB (ix2 (⟨(X2 (ix2 (xRow (j 0)) (xCol (j 0)))).toNat, hX _⟩ : Fin 100000) (j 1)))
    (PS (ix2 (pRow (j 0)) (j 1)))

/-- `outG` at (n, k). -/
theorem outG_apply (X2 : S2048x128.Idx → Elt F .i32) (PS : S256x128.Idx → Elt F .f32) (TB : S100000x128.Idx → Elt F .f32)
    (hX : ∀ j, (X2 j).toNat < 100000) (n : Fin 262144) (k : Fin 128) :
    outG X2 PS TB hX (ix2 n k)
      = FloatOps.addf (TB (ix2 (⟨(X2 (ix2 (xRow n) (xCol n))).toNat, hX _⟩ : Fin 100000) k)) (PS (ix2 (pRow n) k)) := rfl

/-- At the ideal instance the lane sum is the sum of extended reals, the table row first. -/
theorem outG_apply_ideal (X2 : S2048x128.Idx → Elt Ideal .i32) (PS : S256x128.Idx → Elt Ideal .f32)
    (TB : S100000x128.Idx → Elt Ideal .f32) (hX : ∀ j, (X2 j).toNat < 100000) (n : Fin 262144) (k : Fin 128) :
    outG X2 PS TB hX (ix2 n k)
      = TB (ix2 (⟨(X2 (ix2 (xRow n) (xCol n))).toNat, hX _⟩ : Fin 100000) k) + PS (ix2 (pRow n) k) := rfl

end Cert.Proof.KI

end
-- ==== Proof.X2Range.lean ====
/-
  The index array the call finds is a reshape of the program's first argument, so its words are that argument's: if
  every word of the argument names a row of the table, so does every word of the index array.
-/
import proofs.«208673_g37134287241914_cont_8to1_b_302_3_alg».proof.Proof.Common

noncomputable section

namespace Cert.Proof.KI

open Cert.KernelIdeal Cert.KernelIdeal.Gen Idealize.ShloMosaic

variable {F : FTy → Type} [FloatOps F]
variable (m : (ℓ : Loc nD τ sig) → Buf (Elt F) ℓ) (d : Dev nD)

/-- The index array the call finds is a reshape of x: its words are x's. -/
theorem x2Of_in_range (hx : ∀ j, ((m ((SparseCore.T d).loc Cert.KernelIdeal.main_arg0) : IVec S1024x16x16 32) j).toNat < 100000) :
    ∀ j, ((x2Of m d : IVec S2048x128 32) j).toNat < 100000 := fun j => by
  unfold x2Of shapeCast
  exact hx _

end Cert.Proof.KI

end
-- ==== Proof.RefReadLib.lean ====
/-
  The pieces of a table lookup read at an index.

  * A reduction by "and" whose operand is 1 everywhere, from the initial value 1, is 1.
  * A 32-bit word below 2^31 is not negative: it compares "at least 0", "at most n" for any n it does not exceed, not
    "less than 0", and its signed value is its unsigned one.
  * The reference's two gathers at a result index: the row of the operand named by the start index read signed and
    clamped into the table, at the result's last coordinate.
-/
import proofs.«208673_g37134287241914_cont_8to1_b_302_3_alg».proof.Proof.Gen.ReferenceIdeal
import Idealize.ShloMosaic.Lib.ValueIdx
import Idealize.ShloMosaic.Lib.ReduceAll

noncomputable section

namespace Cert.Proof.Ref

open Cert.ReferenceIdeal Cert.ReferenceIdeal.Gen Idealize.ShloMosaic Idealize.ShloMosaic.ValueIdx

/-! ## A reduction by "and" of ones -/

/-- A left fold by "and" from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi (1#1 : BitVec 1) 1#1 = 1#1 from by decide]
    exact ih fun n hn => h n (List.mem_cons_of_mem _ hn)

/-- A reduce by "and" from the constant 1 of an operand that is 1 at every index is 1 at every result index. -/
theorem reduce_andi_one {s t u : Shape} {axes : List (Fin s.rank)} (x : s.Idx → BitVec 1) (init : u.Idx → BitVec 1)
    (h : s.ReducesTo axes t) (hu : 0 < u.numel) (j : t.Idx) (hi : ∀ k, init k = 1#1) (hx : ∀ i, x i = 1#1) :
    Host.reduce IntOp.andi x init h hu j = 1#1 := by
  rw [Host.reduce_eq_foldl, hi]
  exact foldl_andi_one x _ fun n _ => hx n

/-! ## Words that are not negative -/

section Words
variable {w : BitVec 32}

theorem toInt_of_small (hw : w.toNat < 2 ^ 31) : w.toInt = (w.toNat : Int) :=
  BitVec.toInt_eq_toNat_of_lt (by omega)

theorem toInt_toNat_of_small (hw : w.toNat < 2 ^ 31) : w.toInt.toNat = w.toNat := by
  rw [toInt_of_small hw]; exact Int.toNat_natCast _

theorem sge_zero_of_small (hw : w.toNat < 2 ^ 31) : IntOp.cmpi .sge w 0#32 = 1#1 := by
  rw [IntOp.cmpi_sge, toInt_of_small hw]
  show (0 : Int) ≤ _
  exact Int.natCast_nonneg _

theorem slt_zero_of_small (hw : w.toNat < 2 ^ 31) : IntOp.cmpi .slt w 0#32 = 0#1 := by
  refine eq_zero_of_ne_one fun h => ?_
  rw [IntOp.cmpi_slt, toInt_of_small hw] at h
  have h0 : (0#32 : BitVec 32).toInt = 0 := by decide
  rw [h0] at h
  omega

theorem sle_of_le (n : Nat) (hn : n < 2 ^ 31) (hw : w.toNat ≤ n) : IntOp.cmpi .sle w (BitVec.ofNat 32 n) = 1#1 := by
  rw [IntOp.cmpi_sle, toInt_of_small (by omega),
    toInt_of_small (w := BitVec.ofNat 32 n) (by rw [BitVec.toNat_ofNat]; omega), BitVec.toNat_ofNat]
  have : n % 2 ^ 32 = n := Nat.mod_eq_of_lt (by omega)
  omega

end Words

/-! ## The two gathers at an index -/

section Gathers
variable {α : Type}

/-- The token gather at (b, p, k): row min(start, 99999) of the table at column k, the start index read signed. -/
theorem gather_tok_apply (tab : S100000x128.Idx → α) (idx : IVec S1024x256x1 32) (b : Fin 1024) (p : Fin 256) (k : Fin 128) :
    Host.gather gather_S100000x128_S1024x256x1_S1024x256x128_2_0_n_n_0_2_1128 tab idx (ix3 b p k)
      = tab (ix2 (⟨min (idx (ix3 b p (0 : Fin 1))).toInt.toNat 99999, by omega⟩ : Fin 100000) k) := by
  unfold Host.gather
  refine congrArg tab (funext fun a => Fin.ext ?_)
  match a with
  | ⟨0, _⟩ =>
    show GatherDims.start _ (ix3 b p k) idx 0 + GatherDims.batchCoord _ (ix3 b p k) 0 + GatherDims.offCoord _ (ix3 b p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x128_S1024x256x1_S1024x256x128_2_0_n_n_0_2_1128).startIndexMap from List.mem_singleton.mpr rfl)]
    have hsi : (gather_S100000x128_S1024x256x1_S1024x256x128_2_0_n_n_0_2_1128).siIdx (ix3 b p k)
        ⟨List.idxOf (0 : Fin 2) (gather_S100000x128_S1024x256x1_S1024x256x128_2_0_n_n_0_2_1128).startIndexMap,
          List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b p k) idx 1 + GatherDims.batchCoord _ (ix3 b p k) 1 + GatherDims.offCoord _ (ix3 b p k) 1 = k.val
    rw [GatherDims.batchCoord_eq_zero _ _ _ List.not_mem_nil]
    unfold GatherDims.start GatherDims.offCoord
    rw [dif_neg (by decide), dif_pos (by decide)]
    have key : ∀ (i : Nat) (hi : i < (gather_S100000x128_S1024x256x1_S1024x256x128_2_0_n_n_0_2_1128).offsetDims.length), i = 0 →
        (ix3 b p k ((gather_S100000x128_S1024x256x1_S1024x256x128_2_0_n_n_0_2_1128).offsetDims[i]'hi)).val = k.val := by
      intro i hi h0; subst h0; rfl
    simp only [Nat.zero_add]
    exact key _ _ (by decide)

/-- A position-table gather at (p, k): row min(start, 15) of the table at column k. -/
theorem gather_pos_apply (tab : S16x64.Idx → α) (idx : IVec S256x1 32) (p : Fin 256) (k : Fin 64) :
    Host.gather gather_S16x64_S256x1_S256x64_1_0_n_n_0_1_164 tab idx (ix2 p k)
      = tab (ix2 (⟨min (idx (ix2 p (0 : Fin 1))).toInt.toNat 15, by omega⟩ : Fin 16) k) := by
  unfold Host.gather
  refine congrArg tab (funext fun a => Fin.ext ?_)
  match a with
  | ⟨0, _⟩ =>
    show GatherDims.start _ (ix2 p k) idx 0 + GatherDims.batchCoord _ (ix2 p k) 0 + GatherDims.offCoord _ (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S16x64_S256x1_S256x64_1_0_n_n_0_1_164).startIndexMap from List.mem_singleton.mpr rfl)]
    have hsi : (gather_S16x64_S256x1_S256x64_1_0_n_n_0_1_164).siIdx (ix2 p k)
        ⟨List.idxOf (0 : Fin 2) (gather_S16x64_S256x1_S256x64_1_0_n_n_0_1_164).startIndexMap,
          List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show GatherDims.start _ (ix2 p k) idx 1 + GatherDims.batchCoord _ (ix2 p k) 1 + GatherDims.offCoord _ (ix2 p k) 1 = k.val
    rw [GatherDims.batchCoord_eq_zero _ _ _ List.not_mem_nil]
    unfold GatherDims.start GatherDims.offCoord
    rw [dif_neg (by decide), dif_pos (by decide)]
    have key : ∀ (i : Nat) (hi : i < (gather_S16x64_S256x1_S256x64_1_0_n_n_0_1_164).offsetDims.length), i = 0 →
        (ix2 p k ((gather_S16x64_S256x1_S256x64_1_0_n_n_0_1_164).offsetDims[i]'hi)).val = k.val := by
      intro i hi h0; subst h0; rfl
    simp only [Nat.zero_add]
    exact key _ _ (by decide)

end Gathers

end Cert.Proof.Ref

end
-- ==== Proof.LibConcatParts.lean ====
/-
  Concatenations read piece by piece, over generic extents.

  * Three matrices with the same rows set side by side along the column axis: at (p, k) the result is the first at
    (p, k) for k below its width, the second at (p, k − b₁) for k in the next b₂ columns, the third at
    (p, k − b₁ − b₂) above that.
  * Three vectors, and two vectors, laid end to end: the same reading along the one axis.
-/
import Idealize.ShloMosaic.Lib.Pipeline.Value
import Idealize.ShloMosaic.Lib.ValueIdx

noncomputable section

open Idealize.ShloMosaic Idealize.ShloMosaic.ValueIdx

namespace KerHostLayout

variable {α : Type}

/-! ## Three matrices side by side -/

section Cols3
variable {a b₁ b₂ b₃ b : ℕ} (x₁ : (⟨2, ![a, b₁]⟩ : Shape).Idx → α) (x₂ : (⟨2, ![a, b₂]⟩ : Shape).Idx → α)
  (x₃ : (⟨2, ![a, b₃]⟩ : Shape).Idx → α)
  (h : Shape.Concatenates [(⟨2, ![a, b₁]⟩ : Shape), ⟨2, ![a, b₂]⟩, ⟨2, ![a, b₃]⟩] ⟨2, ![a, b]⟩ 1)

/-- `[x₁ | x₂ | x₃]` read at a column of the first part. -/
theorem concat3_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₁ (ix2 p q) :=
  concatenate_apply_piece 1 [⟨⟨2, ![a, b₁]⟩, x₁⟩, ⟨⟨2, ![a, b₂]⟩, x₂⟩, ⟨⟨2, ![a, b₃]⟩, x₃⟩] h (ix2 p k) 0 (by show 0 < 3; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂ | x₃]` read at a column of the second part. -/
theorem concat3_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₂ (ix2 p q) :=
  concatenate_apply_piece 1 [⟨⟨2, ![a, b₁]⟩, x₁⟩, ⟨⟨2, ![a, b₂]⟩, x₂⟩, ⟨⟨2, ![a, b₃]⟩, x₃⟩] h (ix2 p k) 1 (by show 1 < 3; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

/-- `[x₁ | x₂ | x₃]` read at a column of the third part. -/
theorem concat3_cols_trd (p : Fin a) (k : Fin b) (q : Fin b₃) (hq : b₁ + b₂ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₃ (ix2 p q) :=
  concatenate_apply_piece 1 [⟨⟨2, ![a, b₁]⟩, x₁⟩, ⟨⟨2, ![a, b₂]⟩, x₂⟩, ⟨⟨2, ![a, b₃]⟩, x₃⟩] h (ix2 p k) 2 (by show 2 < 3; omega)
    ⟨2, ![a, b₃]⟩ x₃ rfl rfl (b₁ + b₂) (by simp) (ix2 p q)
    (fun c hc => by
      match c with
      | ⟨0, _⟩ => rfl
      | ⟨1, _⟩ => exact absurd rfl hc)
    (by show b₁ + b₂ + q.val = k.val; omega)

end Cols3

/-! ## Two matrices side by side -/

section Cols2
variable {a b₁ b₂ b : ℕ} (x₁ : (⟨2, ![a, b₁]⟩ : Shape).Idx → α) (x₂ : (⟨2, ![a, b₂]⟩ : Shape).Idx → α)
  (h : Shape.Concatenates [(⟨2, ![a, b₁]⟩ : Shape), ⟨2, ![a, b₂]⟩] ⟨2, ![a, b]⟩ 1)

/-- `[x₁ | x₂]` read at a column of the first part. -/
theorem concat2_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩] h (ix2 p k) = x₁ (ix2 p q) :=
  concatenate_apply_piece 1 [⟨⟨2, ![a, b₁]⟩, x₁⟩, ⟨⟨2, ![a, b₂]⟩, x₂⟩] h (ix2 p k) 0 (by show 0 < 2; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂]` read at a column of the second part. -/
theorem concat2_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩] h (ix2 p k) = x₂ (ix2 p q) :=
  concatenate_apply_piece 1 [⟨⟨2, ![a, b₁]⟩, x₁⟩, ⟨⟨2, ![a, b₂]⟩, x₂⟩] h (ix2 p k) 1 (by show 1 < 2; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

end Cols2

/-! ## Three vectors end to end -/

section Vec3
variable {b₁ b₂ b₃ b : ℕ} (x₁ : (⟨1, ![b₁]⟩ : Shape).Idx → α) (x₂ : (⟨1, ![b₂]⟩ : Shape).Idx → α)
  (x₃ : (⟨1, ![b₃]⟩ : Shape).Idx → α)
  (h : Shape.Concatenates [(⟨1, ![b₁]⟩ : Shape), ⟨1, ![b₂]⟩, ⟨1, ![b₃]⟩] ⟨1, ![b]⟩ 0)

theorem concat3_vec_fst (k : Fin b) (q : Fin b₁) (hq : q.val = k.val) :
    concatenate ⟨1, ![b]⟩ 0 [⟨⟨1, ![b₁]⟩, x₁⟩, ⟨⟨1, ![b₂]⟩, x₂⟩, ⟨⟨1, ![b₃]⟩, x₃⟩] h (ix1 k) = x₁ (ix1 q) :=
  concatenate_apply_piece 0 [⟨⟨1, ![b₁]⟩, x₁⟩, ⟨⟨1, ![b₂]⟩, x₂⟩, ⟨⟨1, ![b₃]⟩, x₃⟩] h (ix1 k) 0 (by show 0 < 3; omega)
    ⟨1, ![b₁]⟩ x₁ rfl rfl 0 rfl (ix1 q)
    (fun c hc => by
      match c with
      | ⟨0, _⟩ => exact absurd rfl hc)
    (by show 0 + q.val = k.val; omega)

theorem concat3_vec_snd (k : Fin b) (q : Fin b₂) (hq : b₁ + q.val = k.val) :
    concatenate ⟨1, ![b]⟩ 0 [⟨⟨1, ![b₁]⟩, x₁⟩, ⟨⟨1, ![b₂]⟩, x₂⟩, ⟨⟨1, ![b₃]⟩, x₃⟩] h (ix1 k) = x₂ (ix1 q) :=
  concatenate_apply_piece 0 [⟨⟨1, ![b₁]⟩, x₁⟩, ⟨⟨1, ![b₂]⟩, x₂⟩, ⟨⟨1, ![b₃]⟩, x₃⟩] h (ix1 k) 1 (by show 1 < 3; omega)
    ⟨1, ![b₂]⟩ x₂ rfl rfl b₁ (by simp) (ix1 q)
    (fun c hc => by
      match c with
      | ⟨0, _⟩ => exact absurd rfl hc)
    (by show b₁ + q.val = k.val; omega)

theorem concat3_vec_trd (k : Fin b) (q : Fin b₃) (hq : b₁ + b₂ + q.val = k.val) :
    concatenate ⟨1, ![b]⟩ 0 [⟨⟨1, ![b₁]⟩, x₁⟩, ⟨⟨1, ![b₂]⟩, x₂⟩, ⟨⟨1, ![b₃]⟩, x₃⟩] h (ix1 k) = x₃ (ix1 q) :=
  concatenate_apply_piece 0 [⟨⟨1, ![b₁]⟩, x₁⟩, ⟨⟨1, ![b₂]⟩, x₂⟩, ⟨⟨1, ![b₃]⟩, x₃⟩] h (ix1 k) 2 (by show 2 < 3; omega)
    ⟨1, ![b₃]⟩ x₃ rfl rfl (b₁ + b₂) (by simp) (ix1 q)
    (fun c hc => by
      match c with
      | ⟨0, _⟩ => exact absurd rfl hc)
    (by show b₁ + b₂ + q.val = k.val; omega)

end Vec3

/-! ## Two vectors end to end -/

section Vec2
variable {b₁ b₂ b : ℕ} (x₁ : (⟨1, ![b₁]⟩ : Shape).Idx → α) (x₂ : (⟨1, ![b₂]⟩ : Shape).Idx → α)
  (h : Shape.Concatenates [(⟨1, ![b₁]⟩ : Shape), ⟨1, ![b₂]⟩] ⟨1, ![b]⟩ 0)

theorem concat2_vec_fst (k : Fin b) (q : Fin b₁) (hq : q.val = k.val) :
    concatenate ⟨1, ![b]⟩ 0 [⟨⟨1, ![b₁]⟩, x₁⟩, ⟨⟨1, ![b₂]⟩, x₂⟩] h (ix1 k) = x₁ (ix1 q) :=
  concatenate_apply_piece 0 [⟨⟨1, ![b₁]⟩, x₁⟩, ⟨⟨1, ![b₂]⟩, x₂⟩] h (ix1 k) 0 (by show 0 < 2; omega)
    ⟨1, ![b₁]⟩ x₁ rfl rfl 0 rfl (ix1 q)
    (fun c hc => by
      match c with
      | ⟨0, _⟩ => exact absurd rfl hc)
    (by show 0 + q.val = k.val; omega)

theorem concat2_vec_snd (k : Fin b) (q : Fin b₂) (hq : b₁ + q.val = k.val) :
    concatenate ⟨1, ![b]⟩ 0 [⟨⟨1, ![b₁]⟩, x₁⟩, ⟨⟨1, ![b₂]⟩, x₂⟩] h (ix1 k) = x₂ (ix1 q) :=
  concatenate_apply_piece 0 [⟨⟨1, ![b₁]⟩, x₁⟩, ⟨⟨1, ![b₂]⟩, x₂⟩] h (ix1 k) 1 (by show 1 < 2; omega)
    ⟨1, ![b₂]⟩ x₂ rfl rfl b₁ (by simp) (ix1 q)
    (fun c hc => by
      match c with
      | ⟨0, _⟩ => exact absurd rfl hc)
    (by show b₁ + q.val = k.val; omega)

end Vec2

end KerHostLayout

end
-- ==== Proof.RefRead.lean ====
/-
  The reference's result read at an index.

  Under the range hypothesis on the index array — every word of x below 100000 unsigned, hence not negative —
  jnp.take's normalisation leaves the index alone, its bounds check passes everywhere, the gather's clamp does
  nothing, and the fill value is never selected: the token lookup at (b, p, k) is row x[b, p/16, p%16] of the token
  table at column k (the flattened view's entry (b, p) is x's entry (b, p/16, p%16)). The positions' row and column
  indices are closed integer tables: position p has row index p/16 and column index p%16, both below 16, so the
  position lookups are in range as well and read row p/16 of the row table and row p%16 of the column table. The
  concatenation puts the first in columns 0 … 63 and the second in columns 64 … 127, and the two broadcasts repeat
  the [256, 128] array for every batch entry. At the ideal instance the sum is the sum of extended reals:
  out[b, p, k] = token_table[x[b, p/16, p%16], k] + (row_table[p/16, k] if k < 64 else col_table[p%16, k - 64]).
-/
import proofs.«208673_g37134287241914_cont_8to1_b_302_3_alg».proof.Proof.RefStages
import proofs.«208673_g37134287241914_cont_8to1_b_302_3_alg».proof.Proof.RefReadLib
import proofs.«208673_g37134287241914_cont_8to1_b_302_3_alg».proof.Proof.LibConcatParts
import Idealize.ShloMosaic.Lib.Pipeline.Value
import Idealize.ShloMosaic.PureOps.Ideal

noncomputable section

namespace Cert.Proof.Ref

open Cert.ReferenceIdeal Cert.ReferenceIdeal.Gen Idealize.ShloMosaic Idealize.ShloMosaic.ValueIdx

variable {F : FTy → Type} [FloatOps F]

/-- Position p's row, p / 16. -/
abbrev hi16 (p : Fin 256) : Fin 16 := ⟨p.val / 16, by have := p.isLt; omega⟩
/-- Position p's column, p % 16. -/
abbrev lo16 (p : Fin 256) : Fin 16 := ⟨p.val % 16, by omega⟩

/-! ## The token lookup -/

/-- An index that is not negative is left alone by the normalisation. -/
theorem wrapTok_apply (x : IVec S1024x256 32) (hx : ∀ j, (x j).toNat < 100000) (j : S1024x256.Idx) : wrapTok x j = x j := by
  show Scalar.select (IntOp.cmpi .slt (x j) 0#32) _ (x j) = x j
  rw [slt_zero_of_small (by have := hx j; omega), select_zero]

/-- The gather's start index at (b, p, ·) is the index array's entry (b, p). -/
theorem tokIdx_apply (x : IVec S1024x256 32) (hx : ∀ j, (x j).toNat < 100000) (b : Fin 1024) (p : Fin 256) (u : Fin 1) :
    tokIdx x (ix3 b p u) = x (ix2 b p) := by
  unfold tokIdx
  rw [broadcastInDim_apply _ _ _ (ix3 b p u) (ix2 b p) (fun a => by
    match a with
    | ⟨0, _⟩ => rfl
    | ⟨1, _⟩ => rfl), wrapTok_apply x hx]

/-- The bounds check passes at every index. -/
theorem tokOk_apply (x : IVec S1024x256 32) (hx : ∀ j, (x j).toNat < 100000) (j : S1024x256.Idx) :
    tokOk (tokIdx x) j = 1#1 := by
  unfold tokOk
  refine reduce_andi_one _ _ _ _ j (fun _ => rfl) fun i => ?_
  obtain ⟨b, p, u, rfl⟩ : ∃ (b : Fin 1024) (p : Fin 256) (u : Fin 1), i = ix3 b p u := ⟨i 0, i 1, i 2, eq_ix3 i⟩
  show IntOp.andi (IntOp.cmpi .sge (tokIdx x (ix3 b p u)) 0#32) (IntOp.cmpi .sle (tokIdx x (ix3 b p u)) (BitVec.ofNat 32 99999)) = 1#1
  rw [tokIdx_apply x hx]
  exact IntOp.andi_eq_one.2 ⟨sge_zero_of_small (by have := hx (ix2 b p); omega),
    sle_of_le 99999 (by decide) (by have := hx (ix2 b p); omega)⟩

/-- THE TOKEN LOOKUP AT (b, p, k): the table's row x[b, p] at column k. -/
theorem takeTok_apply (tab : FVec F S100000x128 .f32) (x : IVec S1024x256 32) (hx : ∀ j, (x j).toNat < 100000)
    (b : Fin 1024) (p : Fin 256) (k : Fin 128) :
    takeTok tab x (ix3 b p k) = tab (ix2 (⟨(x (ix2 b p)).toNat, hx _⟩ : Fin 100000) k) := by
  unfold takeTok
  rw [select_apply, broadcastInDim_apply _ _ _ (ix3 b p k) (ix2 b p) (fun a => by
    match a with
    | ⟨0, _⟩ => rfl
    | ⟨1, _⟩ => rfl), tokOk_apply x hx, select_one, gather_tok_apply]
  refine congrArg tab (congrArg (fun r => ix2 r k) (Fin.ext ?_))
  show min (tokIdx x (ix3 b p (0 : Fin 1))).toInt.toNat 99999 = (x (ix2 b p)).toNat
  rw [tokIdx_apply x hx, toInt_toNat_of_small (by have := hx (ix2 b p); omega)]
  have := hx (ix2 b p)
  omega

/-! ## The positions' indices, and the position lookups -/

/-- Position p's row index is p / 16. -/
theorem rowsIdx_toNat : ∀ p : Fin 256, (rowsIdx (ix1 p)).toNat = p.val / 16 := by decide +kernel
/-- Position p's column index is p % 16. -/
theorem colsIdx_toNat : ∀ p : Fin 256, (colsIdx (ix1 p)).toNat = p.val % 16 := by decide +kernel

theorem wrapPos_apply (i : IVec S256 32) (hi : ∀ q, (i q).toNat < 16) (q : S256.Idx) : wrapPos i q = i q := by
  show Scalar.select (IntOp.cmpi .slt (i q) 0#32) _ (i q) = i q
  rw [slt_zero_of_small (by have := hi q; omega), select_zero]

theorem posIdx_apply (i : IVec S256 32) (hi : ∀ q, (i q).toNat < 16) (p : Fin 256) (u : Fin 1) :
    posIdx i (ix2 p u) = i (ix1 p) := by
  unfold posIdx
  rw [broadcastInDim_apply _ _ _ (ix2 p u) (ix1 p) (fun a => by
    match a with
    | ⟨0, _⟩ => rfl), wrapPos_apply i hi]

theorem posOk_apply (i : IVec S256 32) (hi : ∀ q, (i q).toNat < 16) (q : S256.Idx) : posOk (posIdx i) q = 1#1 := by
  unfold posOk
  refine reduce_andi_one _ _ _ _ q (fun _ => rfl) fun j => ?_
  obtain ⟨p, u, rfl⟩ : ∃ (p : Fin 256) (u : Fin 1), j = ix2 p u := ⟨j 0, j 1, eq_ix2 j⟩
  show IntOp.andi (IntOp.cmpi .sge (posIdx i (ix2 p u)) 0#32) (IntOp.cmpi .sle (posIdx i (ix2 p u)) (BitVec.ofNat 32 15)) = 1#1
  rw [posIdx_apply i hi]
  exact IntOp.andi_eq_one.2 ⟨sge_zero_of_small (by have := hi (ix1 p); omega),
    sle_of_le 15 (by decide) (by have := hi (ix1 p); omega)⟩

/-- A POSITION LOOKUP AT (p, k): the table's row i[p] at column k, for indices below 16. -/
theorem takePos_apply (tab : FVec F S16x64 .f32) (i : IVec S256 32) (hi : ∀ q, (i q).toNat < 16) (p : Fin 256) (k : Fin 64) :
    takePos tab i (ix2 p k) = tab (ix2 (⟨(i (ix1 p)).toNat, hi _⟩ : Fin 16) k) := by
  unfold takePos
  rw [select_apply, broadcastInDim_apply _ _ _ (ix2 p k) (ix1 p) (fun a => by
    match a with
    | ⟨0, _⟩ => rfl), posOk_apply i hi, select_one, gather_pos_apply]
  refine congrArg tab (congrArg (fun r => ix2 r k) (Fin.ext ?_))
  show min (posIdx i (ix2 p (0 : Fin 1))).toInt.toNat 15 = (i (ix1 p)).toNat
  rw [posIdx_apply i hi, toInt_toNat_of_small (by have := hi (ix1 p); omega)]
  have := hi (ix1 p)
  omega

theorem rowsIdx_lt (q : S256.Idx) : (rowsIdx q).toNat < 16 := by
  obtain ⟨p, rfl⟩ : ∃ p : Fin 256, q = ix1 p := ⟨q 0, eq_ix1 q⟩
  rw [rowsIdx_toNat]; have := p.isLt; omega
theorem colsIdx_lt (q : S256.Idx) : (colsIdx q).toNat < 16 := by
  obtain ⟨p, rfl⟩ : ∃ p : Fin 256, q = ix1 p := ⟨q 0, eq_ix1 q⟩
  rw [colsIdx_toNat]; omega

/-- The position embedding at (p, k): the row table's row p/16 in the first 64 columns, the column table's row p%16
    in the last 64. -/
theorem posEmb_apply (row col : FVec F S16x64 .f32) (p : Fin 256) (k : Fin 128) :
    posEmb row col (ix2 p k)
      = if h : k.val < 64 then row (ix2 (hi16 p) (⟨k.val, h⟩ : Fin 64))
        else col (ix2 (lo16 p) (⟨k.val - 64, by have := k.isLt; omega⟩ : Fin 64)) := by
  unfold posEmb
  split
  · rename_i h
    rw [KerHostLayout.concat2_cols_fst _ _ _ p k (⟨k.val, h⟩ : Fin 64) rfl, takePos_apply row rowsIdx rowsIdx_lt]
    exact congrArg row (congrArg (fun r => ix2 r _) (Fin.ext (rowsIdx_toNat p)))
  · rename_i h
    rw [KerHostLayout.concat2_cols_snd _ _ _ p k (⟨k.val - 64, by have := k.isLt; omega⟩ : Fin 64) (by show 64 + (k.val - 64) = k.val; omega),
      takePos_apply col colsIdx colsIdx_lt]
    exact congrArg col (congrArg (fun r => ix2 r _) (Fin.ext (colsIdx_toNat p)))

/-! ## The result -/

/-- The flattened view's entry (b, p) is x's entry (b, p/16, p%16). -/
theorem flat_apply (x : IVec S1024x16x16 32) (b : Fin 1024) (p : Fin 256) :
    shapeCast S1024x256 x shapeCasts_S1024x16x16_S1024x256 (ix2 b p) = x (ix3 b (hi16 p) (lo16 p)) :=
  shapeCast_apply x _ _ _ (by
    rw [Shape.rowMajor_val_three, Shape.rowMajor_val_two]
    show (b.val * 16 + p.val / 16) * 16 + p.val % 16 = b.val * 256 + p.val
    omega)

/-- THE REFERENCE'S RESULT AT (b, p, k), for indices in range. -/
theorem refVal_apply (x : IVec S1024x16x16 32) (tab : FVec Ideal S100000x128 .f32) (row col : FVec Ideal S16x64 .f32)
    (hx : ∀ j, (x j).toNat < 100000) (b : Fin 1024) (p : Fin 256) (k : Fin 128) :
    refVal x tab row col (ix3 b p k)
      = tab (ix2 (⟨(x (ix3 b (hi16 p) (lo16 p))).toNat, hx _⟩ : Fin 100000) k)
        + (if h : k.val < 64 then row (ix2 (hi16 p) (⟨k.val, h⟩ : Fin 64))
           else col (ix2 (lo16 p) (⟨k.val - 64, by have := k.isLt; omega⟩ : Fin 64))) := by
  have hx' : ∀ j, (shapeCast S1024x256 x shapeCasts_S1024x16x16_S1024x256 j).toNat < 100000 := fun j => by
    unfold shapeCast; exact hx _
  unfold refVal
  rw [addf_apply, takeTok_apply tab _ hx',
    broadcastInDim_apply _ _ _ (ix3 b p k) (ix3 (0 : Fin 1) p k) (fun a => by
      match a with
      | ⟨0, _⟩ => rfl
      | ⟨1, _⟩ => rfl
      | ⟨2, _⟩ => rfl),
    broadcastInDim_apply _ _ _ (ix3 (0 : Fin 1) p k) (ix2 p k) (fun a => by
      match a with
      | ⟨0, _⟩ => rfl
      | ⟨1, _⟩ => rfl),
    posEmb_apply]
  refine congrArg (· + _) (congrArg tab (congrArg (fun r => ix2 r k) (Fin.ext ?_)))
  show (shapeCast S1024x256 x shapeCasts_S1024x16x16_S1024x256 (ix2 b p)).toNat = _
  rw [flat_apply]

end Cert.Proof.Ref

end
-- ==== Proof.Bridge.lean ====
/-
  The kernel's result is the reference's.

  Both read x[b, p/16, p%16]: the reference flattens x to 1024 × 256 and reads entry (b, p); the call is handed x
  flattened once more to 2048 × 128 and reads word n = 256 b + p, and the two flattenings keep the row-major position.
  Both add the same positional row: the reference gathers row p/16 of the row table and row p%16 of the column table
  and sets them side by side; the kernel's host side broadcasts the row table along a new middle axis and the column
  table along a new leading axis, reshapes both to 256 rows — row p = 16 (p/16) + p%16 of the first is the row table's
  row p/16, of the second the column table's row p%16 — and sets them side by side. Result row n of the kernel reads
  positional row n % 256 = p, and its 262144 × 128 array reshaped to 1024 × 256 × 128 has row n at (b, p). The sums
  agree term by term, the table row first.
-/
import proofs.«208673_g37134287241914_cont_8to1_b_302_3_alg».proof.Proof.OutVal
import proofs.«208673_g37134287241914_cont_8to1_b_302_3_alg».proof.Proof.X2Range
import proofs.«208673_g37134287241914_cont_8to1_b_302_3_alg».proof.Proof.RefRead
import Idealize.ShloMosaic.Lib.Pipeline.Value

noncomputable section

namespace Cert.Proof.KI

open Cert.KernelIdeal Cert.KernelIdeal.Gen Idealize.ShloMosaic Idealize.ShloMosaic.ValueIdx
open Cert.Proof.Ref (hi16 lo16)

variable {F : FTy → Type} [FloatOps F]
variable (m : (ℓ : Loc nD τ sig) → Buf (Elt F) ℓ) (d : Dev nD)

/-- Word (r, c) of the index array, at row-major position 256 b + p, is x[b, p/16, p%16]. -/
theorem x2Of_apply (b : Fin 1024) (p : Fin 256) (r : Fin 2048) (c : Fin 128) (h : r.val * 128 + c.val = b.val * 256 + p.val) :
    (x2Of m d : IVec S2048x128 32) (ix2 r c)
      = (m ((SparseCore.T d).loc Cert.KernelIdeal.main_arg0) : IVec S1024x16x16 32) (ix3 b (hi16 p) (lo16 p)) := by
  unfold x2Of
  rw [shapeCast_apply _ _ (ix2 r c) (ix2 b p) (by
      rw [Shape.rowMajor_val_two, Shape.rowMajor_val_two]
      show b.val * 256 + p.val = r.val * 128 + c.val
      omega),
    shapeCast_apply _ _ (ix2 b p) (ix3 b (hi16 p) (lo16 p)) (by
      rw [Shape.rowMajor_val_three, Shape.rowMajor_val_two]
      show (b.val * 16 + p.val / 16) * 16 + p.val % 16 = b.val * 256 + p.val
      omega)]

/-- The row table broadcast along a new middle axis and reshaped to 256 rows: row p is the row table's row p/16. -/
theorem rowPiece_apply (row : FVec F S16x64 .f32) (p : Fin 256) (k : Fin 64) :
    shapeCast S256x64 (broadcastInDim S16x16x64 ![0, 2] bcast_S16x64_S16x16x64_0_2 row) shapeCasts_S16x16x64_S256x64 (ix2 p k)
      = row (ix2 (hi16 p) k) := by
  rw [shapeCast_apply _ _ (ix2 p k) (ix3 (hi16 p) (lo16 p) k) (by
      rw [Shape.rowMajor_val_three, Shape.rowMajor_val_two]
      show (p.val / 16 * 16 + p.val % 16) * 64 + k.val = p.val * 64 + k.val
      omega),
    broadcastInDim_apply _ _ _ (ix3 (hi16 p) (lo16 p) k) (ix2 (hi16 p) k) (fun a => by
      match a with
      | ⟨0, _⟩ => rfl
      | ⟨1, _⟩ => rfl)]

/-- The column table reshaped, broadcast along a new leading axis and reshaped to 256 rows: row p is the column
    table's row p%16. -/
theorem colPiece_apply (col : FVec F S16x64 .f32) (p : Fin 256) (k : Fin 64) :
    shapeCast S256x64 (broadcastInDim S16x16x1x64 ![0, 1, 2, 3] bcast_S1x16x1x64_S16x16x1x64_0_1_2_3
        (shapeCast S1x16x1x64 col shapeCasts_S16x64_S1x16x1x64)) shapeCasts_S16x16x1x64_S256x64 (ix2 p k)
      = col (ix2 (lo16 p) k) := by
  rw [shapeCast_apply _ _ (ix2 p k) (ix4 (hi16 p) (lo16 p) (0 : Fin 1) k) (by
      rw [Shape.rowMajor_val_four, Shape.rowMajor_val_two]
      show ((p.val / 16 * 16 + p.val % 16) * 1 + 0) * 64 + k.val = p.val * 64 + k.val
      omega),
    broadcastInDim_apply _ _ _ (ix4 (hi16 p) (lo16 p) (0 : Fin 1) k) (ix4 (0 : Fin 1) (lo16 p) (0 : Fin 1) k) (fun a => by
      match a with
      | ⟨0, _⟩ => rfl
      | ⟨1, _⟩ => rfl
      | ⟨2, _⟩ => rfl
      | ⟨3, _⟩ => rfl),
    shapeCast_apply _ _ (ix4 (0 : Fin 1) (lo16 p) (0 : Fin 1) k) (ix2 (lo16 p) k) (by
      rw [Shape.rowMajor_val_two, Shape.rowMajor_val_four]
      show p.val % 16 * 64 + k.val = ((0 * 16 + p.val % 16) * 1 + 0) * 64 + k.val
      omega)]

/-- The positional array the call finds, at (p, k): the row table's row p/16 in the first 64 lanes, the column
    table's row p%16 in the last 64. -/
theorem posOf_apply (p : Fin 256) (k : Fin 128) :
    (posOf m d : FVec F S256x128 .f32) (ix2 p k)
      = if h : k.val < 64 then (m ((SparseCore.T d).loc Cert.KernelIdeal.main_arg2) : FVec F S16x64 .f32) (ix2 (hi16 p) (⟨k.val, h⟩ : Fin 64))
        else (m ((SparseCore.T d).loc Cert.KernelIdeal.main_arg3) : FVec F S16x64 .f32) (ix2 (lo16 p) (⟨k.val - 64, by have := k.isLt; omega⟩ : Fin 64)) := by
  unfold posOf
  split
  · rename_i h
    rw [KerHostLayout.concat2_cols_fst _ _ _ p k (⟨k.val, h⟩ : Fin 64) rfl, rowPiece_apply]
  · rename_i h
    rw [KerHostLayout.concat2_cols_snd _ _ _ p k (⟨k.val - 64, by have := k.isLt; omega⟩ : Fin 64) (by show 64 + (k.val - 64) = k.val; omega),
      colPiece_apply]

end Cert.Proof.KI

namespace Cert.Proof.KI

open Cert.KernelIdeal Cert.KernelIdeal.Gen Idealize.ShloMosaic Idealize.ShloMosaic.ValueIdx
open Cert.Proof.Ref (hi16 lo16)

/-- THE BRIDGE: the kernel's result array, reshaped as @main's last operation reshapes it, is the reference's result
    of the same four arguments. -/
theorem bridge (m : (ℓ : Loc nD τ sig) → Buf (Elt Ideal) ℓ) (d : Dev nD)
    (hx : ∀ j, ((m ((SparseCore.T d).loc Cert.KernelIdeal.main_arg0) : IVec S1024x16x16 32) j).toNat < 100000) :
    shapeCast S1024x256x128 (outG (x2Of m d) (posOf m d) (m (tabLoc d)) (x2Of_in_range m d hx)) shapeCasts_S262144x128_S1024x256x128
      = Cert.Proof.Ref.refVal (F := Ideal) (m ((SparseCore.T d).loc Cert.KernelIdeal.main_arg0)) (m ((SparseCore.T d).loc Cert.KernelIdeal.main_arg1))
          (m ((SparseCore.T d).loc Cert.KernelIdeal.main_arg2)) (m ((SparseCore.T d).loc Cert.KernelIdeal.main_arg3)) := by
  funext i
  obtain ⟨b, p, k, rfl⟩ : ∃ (b : Fin 1024) (p : Fin 256) (k : Fin 128), i = ix3 b p k := ⟨i 0, i 1, i 2, eq_ix3 i⟩
  have hn : b.val * 256 + p.val < 262144 := by have := b.isLt; have := p.isLt; omega
  rw [Cert.Proof.Ref.refVal_apply _ _ _ _ hx b p k,
    shapeCast_apply _ _ (ix3 b p k) (ix2 (⟨b.val * 256 + p.val, hn⟩ : Fin 262144) k) (by
      rw [Shape.rowMajor_val_two, Shape.rowMajor_val_three]
      rfl),
    outG_apply_ideal]
  have hp : pRow (⟨b.val * 256 + p.val, hn⟩ : Fin 262144) = p := Fin.ext (by show (b.val * 256 + p.val) % 256 = p.val; omega)
  refine congrArg₂ (· + ·) ?_ ?_
  · refine congrArg _ (congrArg (fun r => ix2 r k) (Fin.ext ?_))
    show ((x2Of m d : IVec S2048x128 32) (ix2 (xRow ⟨b.val * 256 + p.val, hn⟩) (xCol ⟨b.val * 256 + p.val, hn⟩))).toNat = _
    rw [x2Of_apply m d b p _ _ (by show (b.val * 256 + p.val) / 128 * 128 + (b.val * 256 + p.val) % 128 = b.val * 256 + p.val; omega)]
  · rw [hp]
    exact posOf_apply m d p k

end Cert.Proof.KI

end
-- ==== Proof.Launch.lean ====
/-
  The launch of the embedding lookup: how a SparseCore's operands split among its sixteen tiles and gather again, the
  launch element of the ghost state, @main on the TensorCore — eight host operations that compute the index array and
  the positional array from the arguments, the call, which hands every worker its block of index rows, its shares of
  the positional array and of the table and its block of the result and gets them back, and the reshape of the result —,
  how the final memory reads the claim, and the run of the whole program from a proof of one tile's task.
-/
import proofs.«208673_g37134287241914_cont_8to1_b_302_3_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq seq after)

variable {F : FTy → Type} [FloatOps F]

local notation "𝕄" => MT nD τ sig (HIx 1) (Elt F) ℕ UU ℕ

variable (m : (ℓ : Loc nD τ sig) → Buf (Elt F) ℓ) (ρ : Dev nD → PrngReg)
variable (X2 : (d : Dev nD) → Buf (Elt F) (x2Loc d)) (PS : (d : Dev nD) → Buf (Elt F) (posLoc d))
variable (R : (d : Dev nD) → Fin 32 → Buf (Elt F) (outLoc d) → Prop)

instance P_storable : (P (F := F) m X2 PS R).IsStorable where
  st q d c := match q, c with
    | 0, c => (inferInstance : BI.Storable (upEmb : UEmb _ 𝕄) (bigSep Finset.univ fun i : Fin 16 => goPts m X2 PS d (wid (Fin.cast nCore_zero c) i)))
  dn q d c := match q, c with
    | 0, c => (inferInstance : BI.Storable (upEmb : UEmb _ 𝕄) (bigSep Finset.univ fun i : Fin 16 => tdPts m X2 PS R d (wid (Fin.cast nCore_zero c) i)))
  go q d c i := match q, c, i with
    | 0, c, i => (inferInstance : BI.Storable (upEmb : UEmb _ 𝕄) (goPts m X2 PS d (widK c i)))
  td q d c i := match q, c, i with
    | 0, c, i => (inferInstance : BI.Storable (upEmb : UEmb _ 𝕄) (tdPts m X2 PS R d (widK c i)))

/-! ## The rows split and join; the shares -/

theorem xRowSet_eq (w : Fin 32) : xRowSet w = (xrow w).set := by
  show ((View.whole (main_v7_scv : Ref sig .scVector)).slice (xrow w)).set = _
  rw [View.set_slice]; exact Finset.map_refl
theorem oRowSet_eq (w : Fin 32) : oRowSet w = (orow w).set := by
  show ((View.whole (main_v8_scv : Ref sig .scVector)).slice (orow w)).set = _
  rw [View.set_slice]; exact Finset.map_refl
theorem xrows_disjoint : ∀ i ∈ (Finset.univ : Finset (Fin 32)), ∀ j ∈ (Finset.univ : Finset (Fin 32)), i ≠ j → Disjoint (xRowSet i) (xRowSet j) :=
  fun i _ j _ h => by rw [xRowSet_eq, xRowSet_eq]; exact Rect.part_disjoint xdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem xrows_cover : (Finset.univ : Finset (Fin 32)).biUnion xRowSet = Finset.univ :=
  (Finset.biUnion_congr rfl fun i _ => xRowSet_eq i).trans (Rect.biUnion_part xdiv)
theorem orows_cover : (Finset.univ : Finset (Fin 32)).biUnion oRowSet = Finset.univ :=
  (Finset.biUnion_congr rfl fun i _ => oRowSet_eq i).trans (Rect.biUnion_part odiv)

theorem x2Pts_rows (d : Dev nD) (f : Buf (Elt F) (x2Loc d)) :
    (x2Loc d ↦{fullShare} f : sProp 𝕄) = bigSep Finset.univ fun w : Fin 32 => x2Loc d ↦[xRowSet w]{fullShare} f := by
  rw [← pointsTo_biUnion Finset.univ (ℓ := x2Loc d) xRowSet xrows_disjoint, xrows_cover]; try rfl
theorem outPts_rows (d : Dev nD) (f : Buf (Elt F) (outLoc d)) :
    (outLoc d ↦{fullShare} f : sProp 𝕄) = bigSep Finset.univ fun w : Fin 32 => outLoc d ↦[oRowSet w]{fullShare} f := by
  rw [← pointsTo_biUnion Finset.univ (ℓ := outLoc d) oRowSet orows_disjoint, orows_cover]; try rfl
theorem posPts_shares (d : Dev nD) (f : Buf (Elt F) (posLoc d)) :
    (posLoc d ↦{fullShare} f : sProp 𝕄) = bigSep Finset.univ fun w : Fin 32 => posLoc d ↦{pq w} f :=
  pointsTo_leaves Finset.univ f 5 fullShare
theorem tabPts_shares (d : Dev nD) (f : Buf (Elt F) (tabLoc d)) :
    (tabLoc d ↦{fullShare} f : sProp 𝕄) = bigSep Finset.univ fun w : Fin 32 => tabLoc d ↦{tq w} f :=
  pointsTo_leaves Finset.univ f 5 fullShare

/-- Over the tiles of the launch's grid, and over its SparseCores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Ψ : Fin 2 → sProp 𝕄) :
    (bigSep Finset.univ fun c : Fin ((K (F := F)).nCore 0) => Ψ (Fin.cast nCore_zero c)) = bigSep Finset.univ Ψ :=
  bigSep_congr fun _ _ => congrArg Ψ (Fin.ext rfl)

/-- Over the thirty-two workers is over the two SparseCores, over each one's sixteen tiles. -/
theorem bigSep_workers (Φ : Fin 32 → sProp 𝕄) :
    bigSep Finset.univ Φ
      = bigSep Finset.univ fun c : Fin ((K (F := F)).nCore 0) => bigSep Finset.univ fun i : Fin 16 => Φ (wid (Fin.cast nCore_zero c) i) := by
  rw [bigSep_univ_equiv widEquiv Φ, bigSep_univ_prod]
  exact (bigSep_cores (F := F) fun c => bigSep Finset.univ fun i : Fin 16 => Φ (wid c i)).symm

/-- Every worker's operands are the four arrays whole. -/
theorem goPts_all (d : Dev nD) :
    (bigSep Finset.univ fun w : Fin 32 => goPts m X2 PS d w)
      = iprop((x2Loc d ↦{fullShare} X2 d) ∗ (posLoc d ↦{fullShare} PS d) ∗ (tabLoc d ↦{fullShare} m (tabLoc d)) ∗ outLoc d ↦{fullShare} m (outLoc d)) := by
  rw [bigSep_sep', bigSep_sep', bigSep_sep', ← x2Pts_rows, ← posPts_shares, ← tabPts_shares, ← outPts_rows]

theorem st_all (d : Dev nD) :
    (bigSep Finset.univ fun c : Fin ((K (F := F)).nCore 0) => (P m X2 PS R).st 0 d c)
      = iprop((x2Loc d ↦{fullShare} X2 d) ∗ (posLoc d ↦{fullShare} PS d) ∗ (tabLoc d ↦{fullShare} m (tabLoc d)) ∗ outLoc d ↦{fullShare} m (outLoc d)) :=
  (bigSep_workers (F := F) (fun w => goPts m X2 PS d w)).symm.trans (goPts_all m X2 PS d)

theorem swap_pure {A : sProp 𝕄} {φ : Prop} : iprop(A ∗ ⌜φ⌝) ⊢ (iprop(⌜φ⌝ ∗ A) : sProp 𝕄) := by
  iintro ⟨HA, %h⟩
  isplitr
  · ipureintro; exact h
  · iexact HA

/-- The pure facts of the blocks, gathered. -/
theorem oRows_pure (d : Dev nD) (fs : Fin 32 → Buf (Elt F) (outLoc d)) :
    (bigSep Finset.univ fun w : Fin 32 => iprop((outLoc d ↦[oRowSet w]{fullShare} fs w) ∗ ⌜R d w (fs w)⌝))
      ⊢ (iprop(⌜∀ w ∈ (Finset.univ : Finset (Fin 32)), R d w (fs w)⌝ ∗ bigSep Finset.univ fun w : Fin 32 => outLoc d ↦[oRowSet w]{fullShare} fs w) : sProp 𝕄) :=
  (bigSep_mono fun w _ => swap_pure (F := F) (A := outLoc d ↦[oRowSet w]{fullShare} fs w) (φ := R d w (fs w))).trans
    (bigSep_pure_sep Finset.univ (fun w => R d w (fs w)) (fun w => (outLoc d ↦[oRowSet w]{fullShare} fs w : sProp 𝕄)))

/-- The workers' blocks of the result, each at contents of which its predicate holds, are the result whole at contents
    of which every worker's holds: the predicates read only their own blocks. -/
theorem oRows_join (hR : ∀ d w (f g : Buf (Elt F) (outLoc d)), (∀ j ∈ oRowSet w, f j = g j) → R d w f → R d w g) (d : Dev nD) :
    (bigSep Finset.univ fun w : Fin 32 => iprop(∃ f, (outLoc d ↦[oRowSet w]{fullShare} f) ∗ ⌜R d w f⌝))
      ⊢ (iprop(∃ f, ⌜∀ w, R d w f⌝ ∗ outLoc d ↦{fullShare} f) : sProp 𝕄) := by
  refine (bigSep_exists_pi Finset.univ (fun w (f : Buf (Elt F) (outLoc d)) => iprop((outLoc d ↦[oRowSet w]{fullShare} f) ∗ ⌜R d w f⌝))).trans ?_
  iintro ⟨%fs, H⟩
  ihave H1 := (oRows_pure R d fs) $$ H
  icases H1 with ⟨%hRs, H2⟩
  have : Nonempty (Buf (Elt F) (outLoc d)) := ⟨fs 0⟩
  ihave H3 := (pointsTo_biUnion_join (ℓ := outLoc d) (q := fullShare) (Val := Elt F) Finset.univ oRowSet fs (fs 0) orows_disjoint) $$ H2
  icases H3 with ⟨%g, %hg, Hg⟩
  rw [orows_cover]
  iexists g
  isplitr
  · ipureintro; intro w
    exact hR d w (fs w) g (fun j hj => (hg w (Finset.mem_univ w) j hj).symm) (hRs w (Finset.mem_univ w))
  · iexact Hg

theorem tdPts_all (hR : ∀ d w (f g : Buf (Elt F) (outLoc d)), (∀ j ∈ oRowSet w, f j = g j) → R d w f → R d w g) (d : Dev nD) :
    (bigSep Finset.univ fun w : Fin 32 => tdPts m X2 PS R d w)
      ⊢ (iprop((x2Loc d ↦{fullShare} X2 d) ∗ (posLoc d ↦{fullShare} PS d) ∗ (tabLoc d ↦{fullShare} m (tabLoc d))
          ∗ ∃ f, ⌜∀ w, R d w f⌝ ∗ outLoc d ↦{fullShare} f) : sProp 𝕄) := by
  rw [bigSep_sep', bigSep_sep', bigSep_sep', ← x2Pts_rows, ← posPts_shares, ← tabPts_shares]
  iintro ⟨Hx, Hp, Ht, Ho⟩
  isplitl [Hx]; · iexact Hx
  isplitl [Hp]; · iexact Hp
  isplitl [Ht]; · iexact Ht
  iapply (oRows_join R hR d); iexact Ho

theorem dn_all (hR : ∀ d w (f g : Buf (Elt F) (outLoc d)), (∀ j ∈ oRowSet w, f j = g j) → R d w f → R d w g) (d : Dev nD) :
    (bigSep Finset.univ fun c : Fin ((K (F := F)).nCore 0) => (P m X2 PS R).dn 0 d c)
      ⊢ (iprop((x2Loc d ↦{fullShare} X2 d) ∗ (posLoc d ↦{fullShare} PS d) ∗ (tabLoc d ↦{fullShare} m (tabLoc d))
          ∗ ∃ f, ⌜∀ w, R d w f⌝ ∗ outLoc d ↦{fullShare} f) : sProp 𝕄) :=
  (Entails.of_eq (bigSep_workers (F := F) (fun w => tdPts m X2 PS R d w)).symm).trans (tdPts_all m X2 PS R hR d)

/-! ## A SparseCore's operands are its tiles' -/

theorem vecSplit : (K (F := F)).VecSplit' (P m X2 PS R) 0 := by
  intro d c
  show (bigSep Finset.univ fun i : Fin 16 => goPts m X2 PS d (wid (Fin.cast nCore_zero c) i)) ⊢ |={Set.univ}=> iprop(
      (bigSep Finset.univ fun i : Fin ((K (F := F)).nSub 0) => goPts m X2 PS d (wid (Fin.cast nCore_zero c) (Fin.cast nSub_zero i)))
      ∗ ((bigSep Finset.univ fun i : Fin ((K (F := F)).nSub 0) => tdPts m X2 PS R d (wid (Fin.cast nCore_zero c) (Fin.cast nSub_zero i)))
          -∗ bigSep Finset.univ fun i : Fin 16 => tdPts m X2 PS R d (wid (Fin.cast nCore_zero c) i)))
  rw [bigSep_tasks (F := F) (fun i => goPts m X2 PS d (wid (Fin.cast nCore_zero c) i)),
    bigSep_tasks (F := F) (fun i => tdPts m X2 PS R d (wid (Fin.cast nCore_zero c) i))]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X2 PS R).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m X2 PS R).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

abbrev a0Loc (d : Dev nD) : Loc nD τ sig := (SparseCore.T d).loc main_arg0
abbrev a2Loc (d : Dev nD) : Loc nD τ sig := (SparseCore.T d).loc main_arg2
abbrev a3Loc (d : Dev nD) : Loc nD τ sig := (SparseCore.T d).loc main_arg3
abbrev v9Loc (d : Dev nD) : Loc nD τ sig := (SparseCore.T d).loc main_v9

/-- The eight host operations before the call, in @main's order, and the one after it. -/
abbrev op0 : HloOp τ sig (Elt F) := StableHlo.reshape main_arg0 main_v0 rfl shapeCasts_S1024x16x16_S1024x256
abbrev op1 : HloOp τ sig (Elt F) := StableHlo.unary main_arg2 main_v1
  (broadcastInDim S16x16x64 ![0, 2] bcast_S16x64_S16x16x64_0_2 : (⟨S16x64, .f32⟩ : BufTy).Contents (Elt F) → (⟨S16x16x64, .f32⟩ : BufTy).Contents (Elt F))
abbrev op2 : HloOp τ sig (Elt F) := StableHlo.reshape main_v1 main_v2 rfl shapeCasts_S16x16x64_S256x64
abbrev op3 : HloOp τ sig (Elt F) := StableHlo.reshape main_arg3 main_v3 rfl shapeCasts_S16x64_S1x16x1x64
abbrev op4 : HloOp τ sig (Elt F) := StableHlo.unary main_v3 main_v4
  (broadcastInDim S16x16x1x64 ![0, 1, 2, 3] bcast_S1x16x1x64_S16x16x1x64_0_1_2_3 : (⟨S1x16x1x64, .f32⟩ : BufTy).Contents (Elt F) → (⟨S16x16x1x64, .f32⟩ : BufTy).Contents (Elt F))
abbrev op5 : HloOp τ sig (Elt F) := StableHlo.reshape main_v4 main_v5 rfl shapeCasts_S16x16x1x64_S256x64
abbrev op6 : HloOp τ sig (Elt F) := StableHlo.binary main_v2 main_v5 main_v6
  ((fun a b => concatenate S256x128 1 [⟨S256x64, a⟩, ⟨S256x64, b⟩] concatenates_S256x64_S256x64_S256x128_d1) :
    (⟨S256x64, .f32⟩ : BufTy).Contents (Elt F) → (⟨S256x64, .f32⟩ : BufTy).Contents (Elt F) → (⟨S256x128, .f32⟩ : BufTy).Contents (Elt F))
abbrev op7 : HloOp τ sig (Elt F) := StableHlo.reshape main_v0 main_v7 rfl shapeCasts_S1024x256_S2048x128
abbrev op9 : HloOp τ sig (Elt F) := StableHlo.reshape main_v8 main_v9 rfl shapeCasts_S262144x128_S1024x256x128
abbrev ops8 : List (HloOp τ sig (Elt F)) := [op0, op1, op2, op3, op4, op5, op6, op7]

/-- @main is the eight operations, the call, the reshape of its result. -/
theorem main_eq (d : Dev nD) :
    main (F := F) d = (seq (ops8 (F := F)) >>= fun _ => (K (F := F)).run d 0 >>= fun _ => seq [op9 (F := F)]) := rfl

/-- The TensorCore's arrays, all unscoped. -/
abbrev S14 : Finset (DevRef τ sig) := {a0', a1', a2', a3', v0', v1', v2', v3', v4', v5', v6', v7', v8', v9'}
abbrev S2 : Finset (DevRef τ sig) := {v8', v9'}

theorem held_S14 (d : Dev nD) (W : Valuation τ sig (Elt F)) :
    (held (T d) S14 W : sProp 𝕄)
      = iprop((a0Loc d ↦{fullShare} W a0') ∗ (tabLoc d ↦{fullShare} W a1') ∗ (a2Loc d ↦{fullShare} W a2') ∗ (a3Loc d ↦{fullShare} W a3')
          ∗ ((SparseCore.T d).loc main_v0 ↦{fullShare} W v0') ∗ ((SparseCore.T d).loc main_v1 ↦{fullShare} W v1')
          ∗ ((SparseCore.T d).loc main_v2 ↦{fullShare} W v2') ∗ ((SparseCore.T d).loc main_v3 ↦{fullShare} W v3')
          ∗ ((SparseCore.T d).loc main_v4 ↦{fullShare} W v4') ∗ ((SparseCore.T d).loc main_v5 ↦{fullShare} W v5')
          ∗ (posLoc d ↦{fullShare} W v6') ∗ (x2Loc d ↦{fullShare} W v7') ∗ (outLoc d ↦{fullShare} W v8') ∗ v9Loc d ↦{fullShare} W v9') := by
  unfold held S14
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem held_S2 (d : Dev nD) (W : Valuation τ sig (Elt F)) :
    (held (T d) S2 W : sProp 𝕄) = iprop((outLoc d ↦{fullShare} W v8') ∗ v9Loc d ↦{fullShare} W v9') := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tabLoc d ↦{fullShare} W main_arg1) ∗ (a2Loc d ↦{fullShare} W main_arg2) ∗ (a3Loc d ↦{fullShare} W main_arg3)
          ∗ ((SparseCore.T d).loc main_v0 ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4) ∗ ((SparseCore.T d).loc main_v5 ↦{fullShare} W main_v5)
          ∗ (posLoc d ↦{fullShare} W main_v6) ∗ (x2Loc d ↦{fullShare} W main_v7) ∗ (outLoc d ↦{fullShare} W main_v8) ∗ v9Loc d ↦{fullShare} W main_v9) := by
  unfold unscopedBufs
  rw [show (Finset.univ.filter fun b : Ref sig .tc => ¬ b.isScoped)
      = {main_arg0, main_arg1, main_arg2, main_arg3, main_v0, main_v1, main_v2, main_v3, main_v4, main_v5, main_v6, main_v7, main_v8, main_v9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, the valuation before the call (the eight operations' results), and after it with the result
    array at `f`. -/
def V0 (d : Dev nD) : Valuation τ sig (Elt F) := fun b => m (d, b)
def V8 (d : Dev nD) : Valuation τ sig (Elt F) := after (ops8 (F := F)) (V0 m d)
def V9 (d : Dev nD) (f : Buf (Elt F) (outLoc d)) : Valuation τ sig (Elt F) := Function.update (V8 m d) v8' f

theorem unscoped_held (d : Dev nD) : (unscopedBufs d (fun b => m ((SparseCore.T d).loc b)) : sProp 𝕄) = held (T d) S14 (V0 m d) := by
  rw [unscopedBufs_eq, held_S14]; rfl

theorem V8_a0 (d : Dev nD) : V8 m d a0' = m (a0Loc d) := by unfold V8 ops8; after_results; rfl
theorem V8_a1 (d : Dev nD) : V8 m d a1' = m (tabLoc d) := by unfold V8 ops8; after_results; rfl
theorem V8_a2 (d : Dev nD) : V8 m d a2' = m (a2Loc d) := by unfold V8 ops8; after_results; rfl
theorem V8_a3 (d : Dev nD) : V8 m d a3' = m (a3Loc d) := by unfold V8 ops8; after_results; rfl
theorem V8_v8 (d : Dev nD) : V8 m d v8' = m (outLoc d) := by unfold V8 ops8; after_results; rfl
/-- The host operations leave the index array and the positional array at `x2Of` and `posOf`. -/
theorem V8_v7 (d : Dev nD) : V8 m d v7' = x2Of m d := by unfold V8 ops8; after_results; rfl
theorem V8_v6 (d : Dev nD) : V8 m d v6' = posOf m d := by unfold V8 ops8; after_results; rfl

/-- The fourteen arrays before the call: the arguments and the result array at their launch contents, the index array and
    the positional array at what the host operations computed. -/
theorem held_V8 (d : Dev nD) :
    (held (T d) S14 (after (ops8 (F := F)) (V0 m d)) : sProp 𝕄)
      = iprop((a0Loc d ↦{fullShare} m (a0Loc d)) ∗ (tabLoc d ↦{fullShare} m (tabLoc d)) ∗ (a2Loc d ↦{fullShare} m (a2Loc d)) ∗ (a3Loc d ↦{fullShare} m (a3Loc d))
          ∗ ((SparseCore.T d).loc main_v0 ↦{fullShare} V8 m d v0') ∗ ((SparseCore.T d).loc main_v1 ↦{fullShare} V8 m d v1')
          ∗ ((SparseCore.T d).loc main_v2 ↦{fullShare} V8 m d v2') ∗ ((SparseCore.T d).loc main_v3 ↦{fullShare} V8 m d v3')
          ∗ ((SparseCore.T d).loc main_v4 ↦{fullShare} V8 m d v4') ∗ ((SparseCore.T d).loc main_v5 ↦{fullShare} V8 m d v5')
          ∗ (posLoc d ↦{fullShare} posOf m d) ∗ (x2Loc d ↦{fullShare} x2Of m d) ∗ (outLoc d ↦{fullShare} m (outLoc d)) ∗ v9Loc d ↦{fullShare} V8 m d v9') := by
  show held (SparseCore.T d) S14 (V8 m d) = _
  rw [held_S14, V8_a0, V8_a1, V8_a2, V8_a3, V8_v6, V8_v7, V8_v8]

theorem hops8 : ∀ op ∈ ops8 (F := F), op.bufs ⊆ S14 :=
  List.forall_iff_forall_mem.1 (show List.Forall (fun op : HloOp τ sig (Elt F) => op.bufs ⊆ S14) ops8 from
    ⟨show ({a0', v0'} : Finset (DevRef τ sig)) ⊆ S14 by decide, show ({a2', v1'} : Finset (DevRef τ sig)) ⊆ S14 by decide,
      show ({v1', v2'} : Finset (DevRef τ sig)) ⊆ S14 by decide, show ({a3', v3'} : Finset (DevRef τ sig)) ⊆ S14 by decide,
      show ({v3', v4'} : Finset (DevRef τ sig)) ⊆ S14 by decide, show ({v4', v5'} : Finset (DevRef τ sig)) ⊆ S14 by decide,
      show ({v2', v5', v6'} : Finset (DevRef τ sig)) ⊆ S14 by decide, show ({v0', v7'} : Finset (DevRef τ sig)) ⊆ S14 by decide⟩)
theorem hfresh8 : ∀ op ∈ ops8 (F := F), op.fresh = ∅ := by
  intro _ h; (repeat (cases h with | head => rfl | tail _ h => ?_)); exact nomatch h
theorem hop9 : (op9 (F := F)).bufs ⊆ S2 := show ({v8', v9'} : Finset (DevRef τ sig)) ⊆ S2 from subset_rfl

/-- The program's result from the call's: its reshape to 1024 × 256 × 128. -/
abbrev outOf (d : Dev nD) (f : Buf (Elt F) (outLoc d)) : Buf (Elt F) (v9Loc d) :=
  shapeCast S1024x256x128 f shapeCasts_S262144x128_S1024x256x128

theorem V9_v8 (d : Dev nD) (f : Buf (Elt F) (outLoc d)) : V9 m d f v8' = f := Function.update_self _ _ _
theorem V9_v9 (d : Dev nD) (f : Buf (Elt F) (outLoc d)) : V9 m d f v9' = V8 m d v9' := Function.update_of_ne (show v9' ≠ v8' by decide) _ _
theorem op9_v8 (d : Dev nD) (f : Buf (Elt F) (outLoc d)) : (op9 (F := F)).result (V9 m d f) v8' = f :=
  ((op9 (F := F)).result_of_not_mem _ (show v8' ∉ ({v9'} : Finset (DevRef τ sig)) by decide)).trans (V9_v8 m d f)
theorem op9_v9 (d : Dev nD) (f : Buf (Elt F) (outLoc d)) : (op9 (F := F)).result (V9 m d f) v9' = outOf d f := by
  unfold op9; rw [StableHlo.reshape_result, V9_v8]; rfl

/-- What @main leaves the claim: the four arguments at their launch contents, the result the reshape of contents of the
    call's result array of which every worker's predicate holds. -/
abbrev FIN (d : Dev nD) : sProp 𝕄 :=
  iprop((a0Loc d ↦{fullShare} m (a0Loc d)) ∗ (tabLoc d ↦{fullShare} m (tabLoc d)) ∗ (a2Loc d ↦{fullShare} m (a2Loc d)) ∗ (a3Loc d ↦{fullShare} m (a3Loc d))
    ∗ ∃ f, ⌜∀ w, R d w f⌝ ∗ v9Loc d ↦{fullShare} outOf d f)

set_option backward.isDefEq.respectTransparency.types false in
set_option maxRecDepth 16384 in
/-- @main on device `d`'s TensorCore: the eight host operations over the fourteen arrays held whole, the call — the
    index array, the positional array, the table and the result array dealt to the thirty-two workers and joined
    again —, the reshape; the arguments kept. -/
theorem hmain (hR : ∀ d w (f g : Buf (Elt F) (outLoc d)), (∀ j ∈ oRowSet w, f j = g j) → R d w f → R d w g)
    (κ : GSem nD τ sig → ℕ) (d : Dev nD) :
    iprop((K (F := F)).ctx EH (P m (x2Of m) (posOf m) R) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [unscoped_held, main_eq]
  iintro ⟨#Hctx, Hst, ⟨Hb, Hheld, -, -⟩, -⟩
  -- the eight host operations
  iapply (wp_seq 𝒱 none Set.univ d S14 _ (ops8 (F := F)) hops8 hfresh8 (V0 m d)) $$ [Hb Hheld]
  · isplitl [Hb] <;> iassumption
  iintro ⟨Hb, Hheld⟩
  ihave Hh := (Entails.of_eq (held_V8 (F := F) m d)) $$ Hheld
  icases Hh with ⟨Ha0, Ha1, Ha2, Ha3, -, -, -, -, -, -, Hv6, Hv7, Hv8, Hv9⟩
  -- the call
  simp only [seq, wp_bind, wp_pure]
  iapply ((K (F := F)).wp_run (D (F := F)) 𝒱 (EH := EH) (P := P m (x2Of m) (posOf m) R) κ d 0) $$ [Hst Ha1 Hv6 Hv7 Hv8 Hb Ha0 Ha2 Ha3 Hv9]
  isplitr; · iexact Hctx
  isplitl [Hst]; · iexact Hst
  isplitl [Ha1 Hv6 Hv7 Hv8]
  · rw [st_all]
    isplitl [Hv7]; · iexact Hv7
    isplitl [Hv6]; · iexact Hv6
    isplitl [Ha1]; · iexact Ha1
    iexact Hv8
  iintro ⟨Hst, Hdn⟩
  ihave Hdn' := (dn_all m (x2Of m) (posOf m) R hR d) $$ Hdn
  icases Hdn' with ⟨-, -, Ha1, %f, %hf, Hv8⟩
  -- the reshape of the result
  iapply (wp_hlo_within 𝒱 (SparseCore.T d) none Set.univ (op := op9) (S := S2) hop9 (V := V9 m d f)) $$ [Hb Hv8 Hv9]
  · isplitl [Hb]; · iexact Hb
    rw [held_S2, V9_v8, V9_v9]
    isplitl [Hv8]; · iexact Hv8
    iexact Hv9
  iintro ⟨Hb, Hheld⟩
  ihave Hh := (Entails.of_eq (held_S2 (F := F) d ((op9 (F := F)).result (V9 m d f)))) $$ Hheld
  icases Hh with ⟨-, Hv9⟩
  rw [op9_v9, wp_ret]; imodintro; imodintro
  isplitl [Hst]; · iexact Hst
  isplitl [Ha0]; · iexact Ha0
  isplitl [Ha1]; · iexact Ha1
  isplitl [Ha2]; · iexact Ha2
  isplitl [Ha3]; · iexact Ha3
  iexists f
  isplitr
  · ipureintro; exact hf
  · iexact Hv9

/-! ## How the final memory reads the claim -/

def fq (d : Dev nD) (s' : Phys nD τ sig (Elt F)) : Prop :=
  (∃ f, (∀ w, R d w f) ∧ s'.mem.mem (v9Loc d) = outOf d f)
    ∧ s'.mem.mem (a0Loc d) = m (a0Loc d) ∧ s'.mem.mem (tabLoc d) = m (tabLoc d) ∧ s'.mem.mem (a2Loc d) = m (a2Loc d) ∧ s'.mem.mem (a3Loc d) = m (a3Loc d)

set_option maxRecDepth 16384 in
theorem hfin (d : Dev nD) (s' : Phys nD τ sig (Elt F)) : iprop(FIN m R d ∗ SI s') ⊢ (⌜fq m R d s'⌝ : sProp 𝕄) := by
  iintro ⟨⟨H0, H1, H2, H3, %f, %hf, H9⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := tabLoc d) (I := Finset.univ) (q := fullShare) (f := m (tabLoc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v9Loc d) (I := Finset.univ) (q := fullShare) (f := outOf d f)) $$ [HSI H9]
  · isplitl [HSI] <;> iassumption
  icases H with %h9
  ipureintro
  exact ⟨⟨f, hf, funext fun i => h9 i (Finset.mem_univ i)⟩, funext fun i => h0 i (Finset.mem_univ i), funext fun i => h1 i (Finset.mem_univ i),
    funext fun i => h2 i (Finset.mem_univ i), funext fun i => h3 i (Finset.mem_univ i)⟩

/-! ## The program's run -/

/-- On every device: the result is the reshape of contents of the call's result array of which every worker's predicate
    holds, and the four arguments are unchanged. -/
def QC : PUnit × MemSt nD τ sig (Elt F) → Prop := fun r => ∀ c : Dev nD,
  (∃ f : Buf (Elt F) (outLoc c), (∀ w, R c w f) ∧ r.2.mem ((c.tc : Thread nD τ).loc main_v9) = outOf c f)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- The whole program runs, from a proof of one tile's task at a symbolic place. -/
theorem run_main [∀ e, Nonempty (Elt F e)]
    (hR : ∀ d w (f g : Buf (Elt F) (outLoc d)), (∀ j ∈ oRowSet w, f j = g j) → R d w f → R d w g)
    (tileObl : (K (F := F)).TileObl (D (F := F)) 𝒱 (P m (x2Of m) (posOf m) R) v₀ 0) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P m (x2Of m) (posOf m) R) facts v₀
    (fun q hq => match q with | 0 => nomatch hq)
    (fun q _ => match q with | 0 => tileObl)
    (fun q _ => match q with | 0 => SparseCore.Cfg.VecSplit.of_plain (vecSplit m (x2Of m) (posOf m) R))
    m ρ main (fun _ => iprop(emp)) (FIN m R) (u₀ (F := F)) (sep_elim_left.trans (hu₀ m (x2Of m) (posOf m) R)) (hmain m ρ R hR)
    (fq m R) (hfin m R) (QC m R) (fun _ h => h)

end Cert.Proof.KI

end
-- ==== Proof.TileRes.lean ====
/-
  A tile's resources, as its body addresses them: the tile's thread, the sixty-four rows of its index scratch (a
  partition of the scratch, each row the offset list of one gather), the two slots of the gathered-rows scratch and of
  the sum scratch, and what one trip of a row loop holds: the slot of gathered rows and the positional rows at their
  contents, the slot of sums at any.
-/
import proofs.«208673_g37134287241914_cont_8to1_b_302_3_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)
abbrev cV (L : grid0.Coords) : Fin τ.nSC := (L 0).castLE hcore0
abbrev jV (L : grid0.Coords) : Fin τ.nSub := (L 1).castLE hsub0

/-! ## The rows of the index scratch -/
omit [FloatOps F] in
theorem idx_row_inb (c : Fin 64) : ∀ a, (![c.val, 0] : Fin 2 → ℕ) a + S1x128.size a ≤ S64x128.size a := by
  have := c.isLt
  intro a
  match a with
  | 0 => show c.val + 1 ≤ 64; omega
  | 1 => show 0 + 128 ≤ 128; omega

abbrev idxRect (c : Fin 64) : Rect S64x128 := Rect.unit (s := S64x128) ![c.val, 0] S1x128.size (idx_row_inb c)
abbrev idxRowM (c : Fin 64) : Memref sig .scVector .vmem S128 .i32 := ((sV).slice (idxRect c) (fun _ => rfl)).squeeze S128 squeezes_S1x128_S128

theorem rdiv : 64 ∣ S64x128.size 0 := ⟨1, rfl⟩
abbrev idxPart (c : Fin 64) : Rect S64x128 := Rect.part (s := S64x128) (a₀ := 0) rdiv c

omit [FloatOps F] in
theorem idxRect_eq (c : Fin 64) : idxRect c = idxPart c := by
  unfold idxRect idxPart Rect.part Rect.block
  congr 1 <;> funext a
  · match a with
    | 0 => simp [Shape.partIx, Shape.partSize]
    | 1 => simp [Shape.partIx, Shape.partSize]
  · match a with
    | 0 => simp [Shape.partSize]
    | 1 => simp [Shape.partSize]

abbrev rowSet (c : Fin 64) : Finset S64x128.Idx := (idxRowM c).view.set

omit [FloatOps F] in
theorem rowSet_eq (c : Fin 64) : rowSet c = (idxPart c).set := by
  have h1 : rowSet c = ((sV).view.slice (idxPart c)).set := by
    show (((sV).view.slice (idxRect c)).reshape S128 squeezes_S1x128_S128.numel_eq).set = ((sV).view.slice (idxPart c)).set
    rw [View.set_reshape]
    exact idxRect_eq c ▸ rfl
  rw [h1]
  show ((View.whole (cc0_scratch0 : Ref sig .scVector)).slice (idxPart c)).set = _
  rw [View.set_slice]; exact Finset.map_refl

omit [FloatOps F] in
theorem rows_disjoint : ∀ i ∈ (Finset.univ : Finset (Fin 64)), ∀ j ∈ (Finset.univ : Finset (Fin 64)), i ≠ j → Disjoint (rowSet i) (rowSet j) :=
  fun i _ j _ h => by rw [rowSet_eq, rowSet_eq]; exact Rect.part_disjoint rdiv h
omit [FloatOps F] in
theorem rows_cover : (Finset.univ : Finset (Fin 64)).biUnion rowSet = Finset.univ :=
  (Finset.biUnion_congr rfl fun i _ => rowSet_eq i).trans (Rect.biUnion_part rdiv)

abbrev sLoc : Loc nD τ sig := (V d (cV L) (jV L)).loc cc0_scratch0

omit [FloatOps F] in
/-- The index scratch whole is its sixty-four rows. -/
theorem sPts_rows (f : Buf (Elt F) (sLoc d L)) :
    (sLoc d L ↦{fullShare} f : sProp 𝕄) = bigSep Finset.univ fun c : Fin 64 => sLoc d L ↦[rowSet c]{fullShare} f := by
  rw [← pointsTo_biUnion Finset.univ (ℓ := sLoc d L) rowSet rows_disjoint, rows_cover]; try rfl

omit [FloatOps F] in
/-- The rows from k on are row k and the rows from k + 1 on. -/
theorem rows_take (Φ : Fin 64 → sProp 𝕄) (k : ℕ) (hk : k < 64) :
    bigSep (Finset.univ.filter fun j : Fin 64 => k ≤ j.val) Φ = iprop(Φ ⟨k, hk⟩ ∗ bigSep (Finset.univ.filter fun j : Fin 64 => k + 1 ≤ j.val) Φ) := by
  have e : (Finset.univ.filter fun j : Fin 64 => k ≤ j.val) = insert (⟨k, hk⟩ : Fin 64) (Finset.univ.filter fun j : Fin 64 => k + 1 ≤ j.val) := by
    ext j; simp only [Finset.mem_filter, Finset.mem_univ, true_and, Finset.mem_insert, Fin.ext_iff]; omega
  rw [e, bigSep_insert (by simp)]; rfl
omit [FloatOps F] in
/-- The rows before k + 1 are row k and the rows before k. -/
theorem rows_put (Φ : Fin 64 → sProp 𝕄) (k : ℕ) (hk : k < 64) :
    bigSep (Finset.univ.filter fun j : Fin 64 => j.val < k + 1) Φ = iprop(Φ ⟨k, hk⟩ ∗ bigSep (Finset.univ.filter fun j : Fin 64 => j.val < k) Φ) := by
  have e : (Finset.univ.filter fun j : Fin 64 => j.val < k + 1) = insert (⟨k, hk⟩ : Fin 64) (Finset.univ.filter fun j : Fin 64 => j.val < k) := by
    ext j; simp only [Finset.mem_filter, Finset.mem_univ, true_and, Finset.mem_insert, Fin.ext_iff]; omega
  rw [e, bigSep_insert (by simp)]; rfl

/-- One trip's resources for slot 0: the gathered rows and the positional rows at their contents, the sum slot at any. -/
def TripRes0 (d : Dev nD) (L : grid0.Coords) (X : BufTy.Contents (Elt F) (ibS0).view.ty) (P : BufTy.Contents (Elt F) (qV).view.ty) (f : BufTy.Contents (Elt F) (obS0).view.ty) : sProp 𝕄 :=
  iprop(((ibS0).view.loc (V d (cV L) (jV L)) ↦[(ibS0).view.set]{fullShare} X)
    ∗ ((qV).view.loc (V d (cV L) (jV L)) ↦[(qV).view.set]{fullShare} P)
    ∗ ((obS0).view.loc (V d (cV L) (jV L)) ↦[(obS0).view.set]{fullShare} f))

/-- One trip's resources for slot 1: the gathered rows and the positional rows at their contents, the sum slot at any. -/
def TripRes1 (d : Dev nD) (L : grid0.Coords) (X : BufTy.Contents (Elt F) (ibS1).view.ty) (P : BufTy.Contents (Elt F) (qV).view.ty) (f : BufTy.Contents (Elt F) (obS1).view.ty) : sProp 𝕄 :=
  iprop(((ibS1).view.loc (V d (cV L) (jV L)) ↦[(ibS1).view.set]{fullShare} X)
    ∗ ((qV).view.loc (V d (cV L) (jV L)) ↦[(qV).view.set]{fullShare} P)
    ∗ ((obS1).view.loc (V d (cV L) (jV L)) ↦[(obS1).view.set]{fullShare} f))

end Tile

end Cert.Proof.KI
end
-- ==== Proof.TileOwn.lean ====
/-
  More of a tile's resources: its block of index rows and its block of the result as its body addresses them, that
  every word the index fetch lands names a row of the table when every word of the index array does, and the tile's
  own semaphores and scratch buffers among those of its thread.
-/
import proofs.«208673_g37134287241914_cont_8to1_b_302_3_alg».proof.Proof.Common
import proofs.«208673_g37134287241914_cont_8to1_b_302_3_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)

/-! ## The tile's block of index rows, its block of the result, and what the index fetch lands -/

abbrev xrowK (L : grid0.Coords) : Rect S2048x128 := Rect.unit (s := S2048x128) (k0_off1 L) S64x128.size (k0_off1_inb L)
abbrev xRowK (L : grid0.Coords) : Memref sig .scVector .hbm S64x128 .i32 := (xV).slice (xrowK L) (fun _ => rfl)

omit [FloatOps F] in
theorem oTR_inb (L : grid0.Coords) : ∀ a, (![16384 * (L 1).val + 8192 * (L 0).val, 0] : Fin 2 → ℕ) a + (![8192, 128] : Fin 2 → ℕ) a ≤ S262144x128.size a := by
  have h1 : (L 1).val < 16 := (L 1).isLt
  have h0 : (L 0).val < 2 := (L 0).isLt
  intro a
  match a with
  | 0 => show 16384 * (L 1).val + 8192 * (L 0).val + 8192 ≤ 262144; omega
  | 1 => show 0 + 128 ≤ 128; omega

/-- The tile's block of the result: rows 8192 (2 s + c) and the 8191 after. -/
abbrev oTR (L : grid0.Coords) : Rect S262144x128 := Rect.unit (s := S262144x128) ![16384 * (L 1).val + 8192 * (L 0).val, 0] ![8192, 128] (oTR_inb L)

omit [FloatOps F] in
/-- Every word of every row of the index scratch, once the tile's block of index rows has landed in it, names a row of the table. -/
theorem inb_row (X2 : Buf (Elt F) ((xV).view.loc (V d (cV L) (jV L)))) (hX : ∀ j, (X2 j).toNat < 100000)
    (fs : Buf (Elt F) ((sV).view.loc (V d (cV L) (jV L)))) (pay : S64x128.Idx → Elt F .i32)
    (hpay : pay = (xRowK L).view.read (Elt F) X2) (c : Fin 64) :
    ∀ x, ((idxRowM c).view.read (Elt F) (View.write (Elt F) (sV).view fs pay Finset.univ) x).toNat < 100000 := by
  subst hpay; intro x
  simp only [Memref.view_whole, View.write_whole_univ]
  rw [show ∀ (g : S64x128.Idx → Elt F .i32) j, (idxRowM c).view.read (Elt F) g j = g ((idxRowM c).view.emb j) from fun g j => (View.read_apply _ _).trans (cast_eq _ _)]
  rw [show ∀ j, (xRowK L).view.read (Elt F) X2 j = X2 ((xRowK L).view.emb j) from fun j => (View.read_apply _ _).trans (cast_eq _ _)]
  exact hX _

omit [FloatOps F] in
theorem cell_ne (thr : Thread nD τ) {s t : DmaSem sig} (h : s ≠ t) : ((thr, SemLoc.dma s) : GSem nD τ sig) ≠ (thr, SemLoc.dma t) :=
  fun e => h (by injection e with _ e2; injection e2)

omit [FloatOps F] in
theorem ownSems0_V :
    (ownSems0 (V d (cV L) (jV L)) : sProp 𝕄)
      = iprop(semVal (((V d (cV L) (jV L)), SemLoc.dma cc0_scratch4.sem) : GSem nD τ sig) 0 ∗ semVal (((V d (cV L) (jV L)), SemLoc.dma cc0_scratch5.sem) : GSem nD τ sig) 0 ∗ semVal (((V d (cV L) (jV L)), SemLoc.dma cc0_scratch6.sem) : GSem nD τ sig) 0 ∗ semVal (((V d (cV L) (jV L)), SemLoc.dma cc0_scratch7.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0
          ∗ bigSep (((((((ownCells (V d (cV L) (jV L))).erase ((V d (cV L) (jV L)), SemLoc.dma cc0_scratch4.sem)).erase ((V d (cV L) (jV L)), SemLoc.dma cc0_scratch5.sem)).erase ((V d (cV L) (jV L)), SemLoc.dma cc0_scratch6.sem)).erase ((V d (cV L) (jV L)), SemLoc.dma cc0_scratch7.sem)).erase ((V d (cV L) (jV L)), SemLoc.dma cc0_scoped0.sem)).erase ((V d (cV L) (jV L)), SemLoc.dma cc0_scoped1.sem)) fun g => semVal g 0) := by
  unfold SparseCore.Cfg.ownSems0
  rw [SparseCore.bigSep_erase' ((mem_ownCells (g := (((V d (cV L) (jV L)), SemLoc.dma cc0_scratch4.sem) : GSem nD τ sig))).mpr ⟨rfl, by show (SemLoc.dma cc0_scratch4.sem : SemLoc sig).isScoped .scVector = true; decide⟩),
    SparseCore.bigSep_erase' (Finset.mem_erase.mpr ⟨cell_ne _ (by decide), (mem_ownCells (g := (((V d (cV L) (jV L)), SemLoc.dma cc0_scratch5.sem) : GSem nD τ sig))).mpr ⟨rfl, by show (SemLoc.dma cc0_scratch5.sem : SemLoc sig).isScoped .scVector = true; decide⟩⟩),
    SparseCore.bigSep_erase' (Finset.mem_erase.mpr ⟨cell_ne _ (by decide), Finset.mem_erase.mpr ⟨cell_ne _ (by decide), (mem_ownCells (g := (((V d (cV L) (jV L)), SemLoc.dma cc0_scratch6.sem) : GSem nD τ sig))).mpr ⟨rfl, by show (SemLoc.dma cc0_scratch6.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

end Tile
end Cert.Proof.KI
end
-- ==== Proof.TileSlots.lean ====
/-
  The gathered-rows scratch and the sum scratch are each two slots of 128 rows; held whole, a scratch is its two
  slots held apart, each by exactly its own elements as the body's slices of it address them.
-/
import proofs.«208673_g37134287241914_cont_8to1_b_302_3_alg».proof.Proof.Common
import proofs.«208673_g37134287241914_cont_8to1_b_302_3_alg».proof.Proof.TileOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)

theorem sdiv2 : 2 ∣ S2x128x128.size 0 := ⟨1, rfl⟩
abbrev slotPart (s : Fin 2) : Rect S2x128x128 := Rect.part (s := S2x128x128) (a₀ := 0) sdiv2 s

omit [FloatOps F] in
theorem slotRect0_eq : Rect.unit (s := S2x128x128) ![0, 0, 0] S1x128x128.size inb_S2x128x128_S1x128x128_0_0_0 = slotPart 0 := by
  unfold slotPart Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem slotRect1_eq : Rect.unit (s := S2x128x128) ![1, 0, 0] S1x128x128.size inb_S2x128x128_S1x128x128_1_0_0 = slotPart 1 := by
  unfold slotPart Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-! ### The two slots of the gathered-rows scratch -/

omit [FloatOps F] in
theorem ibS0_set : (ibS0).view.set = (slotPart 0).set := by
  have h1 : (ibS0).view.set = ((iB).view.slice (slotPart 0)).set := by
    show (((iB).view.slice (Rect.unit (s := S2x128x128) ![0, 0, 0] S1x128x128.size inb_S2x128x128_S1x128x128_0_0_0)).reshape S128x128 squeezes_S1x128x128_S128x128.numel_eq).set = ((iB).view.slice (slotPart 0)).set
    rw [View.set_reshape]
    exact slotRect0_eq ▸ rfl
  rw [h1]
  show ((View.whole (cc0_scratch2 : Ref sig .scVector)).slice (slotPart 0)).set = _
  rw [View.set_slice]; exact Finset.map_refl
omit [FloatOps F] in
theorem ibS1_set : (ibS1).view.set = (slotPart 1).set := by
  have h1 : (ibS1).view.set = ((iB).view.slice (slotPart 1)).set := by
    show (((iB).view.slice (Rect.unit (s := S2x128x128) ![1, 0, 0] S1x128x128.size inb_S2x128x128_S1x128x128_1_0_0)).reshape S128x128 squeezes_S1x128x128_S128x128.numel_eq).set = ((iB).view.slice (slotPart 1)).set
    rw [View.set_reshape]
    exact slotRect1_eq ▸ rfl
  rw [h1]
  show ((View.whole (cc0_scratch2 : Ref sig .scVector)).slice (slotPart 1)).set = _
  rw [View.set_slice]; exact Finset.map_refl

omit [FloatOps F] in
/-- The scratch whole is its two slots. -/
theorem iB_slots (f : Buf (Elt F) ((iB).view.loc (V d (cV L) (jV L)))) :
    (((iB).view.loc (V d (cV L) (jV L)) ↦{fullShare} f) : sProp 𝕄)
      = iprop((((ibS0).view.loc (V d (cV L) (jV L)) ↦[(ibS0).view.set]{fullShare} f))
          ∗ ((ibS1).view.loc (V d (cV L) (jV L)) ↦[(ibS1).view.set]{fullShare} f)) := by
  rw [ibS0_set, ibS1_set]
  have e : (Finset.univ : Finset (Fin 2)).biUnion (fun s => (slotPart s).set) = Finset.univ := Rect.biUnion_part sdiv2
  have h : (((iB).view.loc (V d (cV L) (jV L)) ↦[(Finset.univ : Finset (Fin 2)).biUnion fun s => (slotPart s).set]{fullShare} f) : sProp 𝕄)
      = bigSep Finset.univ fun s : Fin 2 => ((iB).view.loc (V d (cV L) (jV L)) ↦[(slotPart s).set]{fullShare} f) :=
    pointsTo_biUnion Finset.univ (ℓ := (iB).view.loc (V d (cV L) (jV L))) (fun s => (slotPart s).set) (fun i _ j _ hij => Rect.part_disjoint sdiv2 hij)
  rw [e] at h
  refine h.trans ?_
  rw [show (Finset.univ : Finset (Fin 2)) = {0, 1} from by decide, bigSep_insert (by decide), bigSep_singleton]
  rfl

/-! ### The two slots of the sum scratch -/

omit [FloatOps F] in
theorem obS0_set : (obS0).view.set = (slotPart 0).set := by
  have h1 : (obS0).view.set = ((oB).view.slice (slotPart 0)).set := by
    show (((oB).view.slice (Rect.unit (s := S2x128x128) ![0, 0, 0] S1x128x128.size inb_S2x128x128_S1x128x128_0_0_0)).reshape S128x128 squeezes_S1x128x128_S128x128.numel_eq).set = ((oB).view.slice (slotPart 0)).set
    rw [View.set_reshape]
    exact slotRect0_eq ▸ rfl
  rw [h1]
  show ((View.whole (cc0_scratch3 : Ref sig .scVector)).slice (slotPart 0)).set = _
  rw [View.set_slice]; exact Finset.map_refl
omit [FloatOps F] in
theorem obS1_set : (obS1).view.set = (slotPart 1).set := by
  have h1 : (obS1).view.set = ((oB).view.slice (slotPart 1)).set := by
    show (((oB).view.slice (Rect.unit (s := S2x128x128) ![1, 0, 0] S1x128x128.size inb_S2x128x128_S1x128x128_1_0_0)).reshape S128x128 squeezes_S1x128x128_S128x128.numel_eq).set = ((oB).view.slice (slotPart 1)).set
    rw [View.set_reshape]
    exact slotRect1_eq ▸ rfl
  rw [h1]
  show ((View.whole (cc0_scratch3 : Ref sig .scVector)).slice (slotPart 1)).set = _
  rw [View.set_slice]; exact Finset.map_refl

omit [FloatOps F] in
/-- The scratch whole is its two slots. -/
theorem oB_slots (f : Buf (Elt F) ((oB).view.loc (V d (cV L) (jV L)))) :
    (((oB).view.loc (V d (cV L) (jV L)) ↦{fullShare} f) : sProp 𝕄)
      = iprop((((obS0).view.loc (V d (cV L) (jV L)) ↦[(obS0).view.set]{fullShare} f))
          ∗ ((obS1).view.loc (V d (cV L) (jV L)) ↦[(obS1).view.set]{fullShare} f)) := by
  rw [obS0_set, obS1_set]
  have e : (Finset.univ : Finset (Fin 2)).biUnion (fun s => (slotPart s).set) = Finset.univ := Rect.biUnion_part sdiv2
  have h : (((oB).view.loc (V d (cV L) (jV L)) ↦[(Finset.univ : Finset (Fin 2)).biUnion fun s => (slotPart s).set]{fullShare} f) : sProp 𝕄)
      = bigSep Finset.univ fun s : Fin 2 => ((oB).view.loc (V d (cV L) (jV L)) ↦[(slotPart s).set]{fullShare} f) :=
    pointsTo_biUnion Finset.univ (ℓ := (oB).view.loc (V d (cV L) (jV L))) (fun s => (slotPart s).set) (fun i _ j _ hij => Rect.part_disjoint sdiv2 hij)
  rw [e] at h
  refine h.trans ?_
  rw [show (Finset.univ : Finset (Fin 2)) = {0, 1} from by decide, bigSep_insert (by decide), bigSep_singleton]
  rfl

end Tile
end Cert.Proof.KI
end
-- ==== Proof.TileJoin.lean ====
/-
  The two slots of a scratch, held apart at whatever the body left in them, are the scratch whole again.
-/
import proofs.«208673_g37134287241914_cont_8to1_b_302_3_alg».proof.Proof.Common
import proofs.«208673_g37134287241914_cont_8to1_b_302_3_alg».proof.Proof.TileSlots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)

omit [FloatOps F] in
/-- The two slots held apart, at any contents, are the scratch whole at some contents. -/
theorem iB_join (f0 : Buf (Elt F) ((ibS0).view.loc (V d (cV L) (jV L)))) (f1 : Buf (Elt F) ((ibS1).view.loc (V d (cV L) (jV L)))) :
    (iprop((((ibS0).view.loc (V d (cV L) (jV L)) ↦[(ibS0).view.set]{fullShare} f0))
        ∗ ((ibS1).view.loc (V d (cV L) (jV L)) ↦[(ibS1).view.set]{fullShare} f1)) : sProp 𝕄)
      ⊢ iprop(∃ f, ((iB).view.loc (V d (cV L) (jV L)) ↦{fullShare} f)) := by
  rw [ibS0_set, ibS1_set]
  have e : (bigSep (Finset.univ : Finset (Fin 2)) (fun s : Fin 2 => ((iB).view.loc (V d (cV L) (jV L)) ↦[(slotPart s).set]{fullShare} (if s = 0 then f0 else f1))) : sProp 𝕄)
      = iprop((((iB).view.loc (V d (cV L) (jV L)) ↦[(slotPart 0).set]{fullShare} f0)) ∗ ((iB).view.loc (V d (cV L) (jV L)) ↦[(slotPart 1).set]{fullShare} f1)) := by
    rw [show (Finset.univ : Finset (Fin 2)) = {0, 1} from by decide, bigSep_insert (by decide), bigSep_singleton]
    rfl
  iintro ⟨H0, H1⟩
  ihave H := (pointsTo_biUnion_join (ℓ := (iB).view.loc (V d (cV L) (jV L))) (q := fullShare) (Val := Elt F) (Finset.univ : Finset (Fin 2))
      (fun s => (slotPart s).set) (fun s : Fin 2 => if s = 0 then f0 else f1) f0 (fun i _ j _ hij => Rect.part_disjoint sdiv2 hij)) $$ [H0 H1]
  · rw [e]
    isplitl [H0]
    · iexact H0
    · iexact H1
  icases H with ⟨%g, -, Hg⟩
  rw [Rect.biUnion_part sdiv2]
  iexists g; iexact Hg

omit [FloatOps F] in
/-- The two slots held apart, at any contents, are the scratch whole at some contents. -/
theorem oB_join (f0 : Buf (Elt F) ((obS0).view.loc (V d (cV L) (jV L)))) (f1 : Buf (Elt F) ((obS1).view.loc (V d (cV L) (jV L)))) :
    (iprop((((obS0).view.loc (V d (cV L) (jV L)) ↦[(obS0).view.set]{fullShare} f0))
        ∗ ((obS1).view.loc (V d (cV L) (jV L)) ↦[(obS1).view.set]{fullShare} f1)) : sProp 𝕄)
      ⊢ iprop(∃ f, ((oB).view.loc (V d (cV L) (jV L)) ↦{fullShare} f)) := by
  rw [obS0_set, obS1_set]
  have e : (bigSep (Finset.univ : Finset (Fin 2)) (fun s : Fin 2 => ((oB).view.loc (V d (cV L) (jV L)) ↦[(slotPart s).set]{fullShare} (if s = 0 then f0 else f1))) : sProp 𝕄)
      = iprop((((oB).view.loc (V d (cV L) (jV L)) ↦[(slotPart 0).set]{fullShare} f0)) ∗ ((oB).view.loc (V d (cV L) (jV L)) ↦[(slotPart 1).set]{fullShare} f1)) := by
    rw [show (Finset.univ : Finset (Fin 2)) = {0, 1} from by decide, bigSep_insert (by decide), bigSep_singleton]
    rfl
  iintro ⟨H0, H1⟩
  ihave H := (pointsTo_biUnion_join (ℓ := (oB).view.loc (V d (cV L) (jV L))) (q := fullShare) (Val := Elt F) (Finset.univ : Finset (Fin 2))
      (fun s => (slotPart s).set) (fun s : Fin 2 => if s = 0 then f0 else f1) f0 (fun i _ j _ hij => Rect.part_disjoint sdiv2 hij)) $$ [H0 H1]
  · rw [e]
    isplitl [H0]
    · iexact H0
    · iexact H1
  icases H with ⟨%g, -, Hg⟩
  rw [Rect.biUnion_part sdiv2]
  iexists g; iexact Hg

end Tile
end Cert.Proof.KI
end
-- ==== Proof.TileBlocks.lean ====
/-
  The tile's block of the result is sixty-four windows of 128 rows, one per chunk, as the body's write-backs address
  them: the windows are pairwise disjoint and cover the block.
-/
import proofs.«208673_g37134287241914_cont_8to1_b_302_3_alg».proof.Proof.Common
import proofs.«208673_g37134287241914_cont_8to1_b_302_3_alg».proof.Proof.TileOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)

/-- Chunk c's window of the result, as the write-back slices it. -/
abbrev blkRect (c : Fin 64) : Rect S262144x128 :=
  Rect.unit (s := S262144x128) (k0_off18 L (BitVec.ofNat 32 (128 * c.val))) S128x128.size (k0_off18_inb L c)
abbrev blkM (c : Fin 64) : Memref sig .scVector .hbm S128x128 .f32 := (oV).slice (blkRect L c) (fun _ => rfl)

omit [FloatOps F] in
theorem mem_blkRect (c : Fin 64) (y : S262144x128.Idx) :
    y ∈ (blkRect L c).set ↔ (16384 * (L 1).val + 8192 * (L 0).val + 128 * c.val ≤ (y 0).val ∧ (y 0).val < 16384 * (L 1).val + 8192 * (L 0).val + 128 * c.val + 128) := by
  rw [Rect.mem_set_unit, k0_off18_eq L c]
  constructor
  · intro h
    have h0 := h 0
    simpa using h0
  · intro h a
    match a with
    | 0 => simpa using h
    | 1 => exact ⟨Nat.zero_le _, by have := (y 1).isLt; simpa using this⟩

omit [FloatOps F] in
theorem mem_oTR (y : S262144x128.Idx) :
    y ∈ (oTR L).set ↔ (16384 * (L 1).val + 8192 * (L 0).val ≤ (y 0).val ∧ (y 0).val < 16384 * (L 1).val + 8192 * (L 0).val + 8192) := by
  rw [Rect.mem_set_unit]
  constructor
  · intro h
    have h0 := h 0
    simpa using h0
  · intro h a
    match a with
    | 0 => simpa using h
    | 1 => exact ⟨Nat.zero_le _, by have := (y 1).isLt; simpa using this⟩

omit [FloatOps F] in
theorem blk_disjoint : ∀ i ∈ (Finset.univ : Finset (Fin 64)), ∀ j ∈ (Finset.univ : Finset (Fin 64)), i ≠ j → Disjoint (blkRect L i).set (blkRect L j).set := by
  intro i _ j _ hij
  rw [Finset.disjoint_left]
  intro y hi hj
  rw [mem_blkRect] at hi hj
  have : i.val ≠ j.val := fun e => hij (Fin.ext e)
  omega

omit [FloatOps F] in
theorem blk_cover : (Finset.univ : Finset (Fin 64)).biUnion (fun c => (blkRect L c).set) = (oTR L).set := by
  ext y
  rw [Finset.mem_biUnion, mem_oTR]
  constructor
  · rintro ⟨c, _, hc⟩
    rw [mem_blkRect] at hc
    have := c.isLt
    omega
  · intro h
    refine ⟨⟨((y 0).val - (16384 * (L 1).val + 8192 * (L 0).val)) / 128, by omega⟩, Finset.mem_univ _, ?_⟩
    rw [mem_blkRect]
    show _ ≤ _ ∧ _ < _
    simp only
    omega

abbrev blkSet (c : Fin 64) : Finset S262144x128.Idx := (blkM L c).view.set

omit [FloatOps F] in
theorem blkSet_eq (c : Fin 64) : blkSet L c = (blkRect L c).set.map (oV).view.emb := by
  show ((oV).view.slice (blkRect L c)).set = _
  rw [View.set_slice]

omit [FloatOps F] in
/-- The tile's block of the result, held whole, is its sixty-four windows held apart. -/
theorem oPts_blocks (f : Buf (Elt F) ((oV).view.loc (V d (cV L) (jV L)))) :
    ((((oV).view.loc (V d (cV L) (jV L)) ↦[(oV).view.setOn (oTR L).set]{fullShare} f)) : sProp 𝕄)
      = bigSep Finset.univ fun c : Fin 64 => ((blkM L c).view.loc (V d (cV L) (jV L)) ↦[(blkM L c).view.set]{fullShare} f) := by
  have hd : ∀ i ∈ (Finset.univ : Finset (Fin 64)), ∀ j ∈ (Finset.univ : Finset (Fin 64)), i ≠ j → Disjoint (blkSet L i) (blkSet L j) := by
    intro i hi j hj hij
    rw [blkSet_eq, blkSet_eq]
    exact (Finset.disjoint_map _).mpr (blk_disjoint L i hi j hj hij)
  have hc : (Finset.univ : Finset (Fin 64)).biUnion (blkSet L) = (oV).view.setOn (oTR L).set := by
    show _ = (oTR L).set.map (oV).view.emb
    ext j
    simp only [Finset.mem_biUnion, Finset.mem_map, blkSet_eq, Finset.mem_univ, true_and]
    constructor
    · rintro ⟨c, y, hy, rfl⟩
      exact ⟨y, by rw [← blk_cover L]; exact Finset.mem_biUnion.mpr ⟨c, Finset.mem_univ _, hy⟩, rfl⟩
    · rintro ⟨y, hy, rfl⟩
      rw [← blk_cover L] at hy
      obtain ⟨c, _, hc⟩ := Finset.mem_biUnion.mp hy
      exact ⟨c, y, hc, rfl⟩
  rw [← hc, pointsTo_biUnion Finset.univ (ℓ := (oV).view.loc (V d (cV L) (jV L))) (blkSet L) hd]

end Tile
end Cert.Proof.KI
end
-- ==== Proof.TileEnd.lean ====
/-
  Small facts for the end of a tile's run: a family over no rows is empty; a wait recorded at the kernel's own index
  keeps the recorded waits within the allowed ones.
-/
import proofs.«208673_g37134287241914_cont_8to1_b_302_3_alg».proof.Proof.Common
import proofs.«208673_g37134287241914_cont_8to1_b_302_3_alg».proof.Proof.TileJoin
import proofs.«208673_g37134287241914_cont_8to1_b_302_3_alg».proof.Proof.TileBlocks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)

omit [FloatOps F] in
theorem rows_all (Φ : Fin 64 → sProp 𝕄) : bigSep Finset.univ Φ = bigSep (Finset.univ.filter fun j : Fin 64 => 0 ≤ j.val) Φ := by
  rw [Finset.filter_true_of_mem (fun j _ => Nat.zero_le _)]

omit [FloatOps F] in
theorem rows_none (Φ : Fin 64 → sProp 𝕄) : bigSep (Finset.univ.filter fun j : Fin 64 => 64 ≤ j.val) Φ = iprop(emp) := by
  rw [Finset.filter_false_of_mem (fun j _ => by have := j.isLt; omega), bigSep_empty]
  rfl

omit [FloatOps F] in
theorem qV_set (f : Buf (Elt F) ((qV).view.loc (V d (cV L) (jV L)))) :
    ((((qV).view.loc (V d (cV L) (jV L)) ↦{fullShare} f)) : sProp 𝕄) = ((qV).view.loc (V d (cV L) (jV L)) ↦[(qV).view.set]{fullShare} f) := by
  rw [View.set_whole]

omit [FloatOps F] in
/-- One more wait at the kernel's own index. -/
theorem ins_ok {W S : Waits sig (HIx 1)} (x : SemLoc sig) (h : ∀ p ∈ S, p ∈ W ∨ p.2 = none) :
    ∀ p ∈ insert (x, (default : HIx 1)) S, p ∈ W ∨ p.2 = none := by
  intro p hp
  rcases Finset.mem_insert.mp hp with hp | hp
  · exact .inr (hp ▸ rfl)
  · exact h p hp

end Tile
end Cert.Proof.KI
end
-- ==== Proof.GatherVal.lean ====
/-
  What one gather lands. The index scratch holds the tile's block of index rows; its row c, read as a list of 128 words,
  names 128 rows of the table, and the gather lands row r of its slot with the table row that word r of the list names.
  Word r of row c of the scratch is word r of row 128 s + 64 c' + c of the index array, for the tile on SparseCore c',
  subcore s: the payload at (r, lane) is the table at (that word, lane). The same row in the result array's numbering:
  result row n = 8192 (2 s + c') + 128 c + r reads word n of the index array, which lies at row 64 (2 s + c') + c,
  column r, and adds row n mod 256 = 128 (c mod 2) + r of the positional array.
-/
import proofs.«208673_g37134287241914_cont_8to1_b_302_3_alg».proof.Proof.TileOwn
import Idealize.ShloMosaic.Lib.SparseCore.Stream
import Idealize.ShloMosaic.Lib.ValueIdx
import proofs.«208673_g37134287241914_cont_8to1_b_302_3_alg».proof.Proof.OutVal

noncomputable section

namespace Cert.Proof.KI

open Cert.KernelIdeal Cert.KernelIdeal.Gen

open Idealize.ShloMosaic Idealize.ShloMosaic.ValueIdx
open Idealize.ShloMosaic.SparseCore (S V T)

variable {F : FTy → Type}

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

/-- The whole table, as the body slices it. -/
abbrev tabAll : Memref sig .scVector .hbm S100000x128 .f32 :=
  (tV).slice (Rect.unit (s := S100000x128) ![0, 0] S100000x128.size inb_S100000x128_S100000x128_0_0) (fun _ => rfl)

/-! ## Where the three views put an index -/

/-- The table sliced whole is the table. -/
theorem tabAll_emb (j : S100000x128.Idx) : (tabAll).view.emb j = j := by
  funext a; apply Fin.ext
  show (![0, 0] : Fin 2 → ℕ) a + 1 * (j a).val = (j a).val
  match a with
  | ⟨0, _⟩ => show 0 + 1 * (j 0).val = (j 0).val; omega
  | ⟨1, _⟩ => show 0 + 1 * (j 1).val = (j 1).val; omega

/-- Entry k of a list of 128 words in row-major order is its word k. -/
theorem rowMajor_symm_S128 (k : Fin S128.numel) : ((S128.rowMajor.symm k) 0).val = k.val := by
  rw [← Shape.rowMajor_val_one (S128.rowMajor.symm k), Equiv.apply_symm_apply]

/-- Word y of row c of the index scratch is its word (c, y). -/
theorem idxRowM_emb (c : Fin 64) (y : S128.Idx) : (idxRowM c).view.emb y = (ix2 c (y 0) : S64x128.Idx) := by
  show (idxRect c).emb (Shape.reshapeEquiv squeezes_S1x128_S128.numel_eq y) = _
  rw [Shape.reshapeEquiv_eq_of_rowMajor squeezes_S1x128_S128.numel_eq (y := (ix2 (0 : Fin 1) (y 0) : S1x128.Idx))
    (by rw [Shape.rowMajor_val_two, Shape.rowMajor_val_one]; show 0 * 128 + (y 0).val = (y 0).val; omega)]
  funext a; apply Fin.ext
  match a with
  | ⟨0, _⟩ => show c.val + 1 * 0 = c.val; omega
  | ⟨1, _⟩ => show 0 + 1 * (y 0).val = (y 0).val; omega

section Tile

variable (L : grid0.Coords)

theorem L0_lt : (L 0).val < 2 := (L 0).isLt
theorem L1_lt : (L 1).val < 16 := (L 1).isLt

/-- Row c of the tile's block of index rows, as a row of the index array. -/
abbrev xIdxRow (c : Fin 64) : Fin 2048 :=
  ⟨128 * (L 1).val + 64 * (L 0).val + c.val, by have := L0_lt L; have := L1_lt L; have := c.isLt; omega⟩

/-- Word z of the tile's block of index rows is word (128 s + 64 c' + z 0, z 1) of the index array. -/
theorem xRowK_emb (z : S64x128.Idx) : (xRowK L).view.emb z = (ix2 (xIdxRow L (z 0)) (z 1) : S2048x128.Idx) := by
  funext a; apply Fin.ext
  show (k0_off1 L) a + 1 * (z a).val = _
  rw [k0_off1_eq]
  match a with
  | ⟨0, _⟩ => show 128 * (L 1).val + 64 * (L 0).val + 1 * (z 0).val = 128 * (L 1).val + 64 * (L 0).val + (z 0).val; omega
  | ⟨1, _⟩ => show 0 + 1 * (z 1).val = (z 1).val; omega

/-! ## The payload -/

/-- Row r, lane col of what the gather for row c of the index scratch lands: the table at the row that word r of row c
    of the tile's index block names, lane col. -/
theorem gather_val (c : Fin 64) (X2 : S2048x128.Idx → Elt F .i32) (hX : ∀ j, (X2 j).toNat < 100000)
    (TB : S100000x128.Idx → Elt F .f32) (fs : S64x128.Idx → Elt F .i32) (pay : S64x128.Idx → Elt F .i32)
    (hpay : pay = (xRowK L).view.read (Elt F) X2)
    (hn : S128.numel = S128x128.size gathers_S100000x128_S128x128.axis')
    (hin : ∀ x, ((idxRowM c).view.read (Elt F) (View.write (Elt F) (sV).view fs pay Finset.univ) x).toNat
      < S100000x128.size gathers_S100000x128_S128x128.axis)
    (r col : Fin 128) :
    SparseCore.gatherPayload gathers_S100000x128_S128x128 ((tabAll).view.read (Elt F) TB)
        (SparseCore.rows ((idxRowM c).view.read (Elt F) (View.write (Elt F) (sV).view fs pay Finset.univ)) hn hin)
        (ix2 r col : S128x128.Idx)
      = TB (ix2 (⟨(X2 (ix2 (xIdxRow L c) r)).toNat, hX _⟩ : Fin 100000) col) := by
  subst hpay
  unfold SparseCore.gatherPayload
  rw [show ∀ j, (tabAll).view.read (Elt F) TB j = TB ((tabAll).view.emb j) from fun j => (View.read_apply _ _).trans (cast_eq _ _),
    tabAll_emb]
  refine congrArg TB (funext fun b => Fin.ext ?_)
  match b with
  | ⟨0, _⟩ =>
    show ((gathers_S100000x128_S128x128.idx _ (ix2 r col : S128x128.Idx)) gathers_S100000x128_S128x128.axis).val = _
    rw [Shape.Gathers.idx_axis]
    show ((idxRowM c).view.read (Elt F) (View.write (Elt F) (sV).view fs ((xRowK L).view.read (Elt F) X2) Finset.univ)
        (S128.rowMajor.symm ((r : Fin (S128x128.size gathers_S100000x128_S128x128.axis')).cast hn.symm))).toNat = (X2 (ix2 (xIdxRow L c) r)).toNat
    simp only [Memref.view_whole, View.write_whole_univ]
    rw [show ∀ (g : S64x128.Idx → Elt F .i32) j, (idxRowM c).view.read (Elt F) g j = g ((idxRowM c).view.emb j) from fun g j => (View.read_apply _ _).trans (cast_eq _ _),
      show ∀ j, (xRowK L).view.read (Elt F) X2 j = X2 ((xRowK L).view.emb j) from fun j => (View.read_apply _ _).trans (cast_eq _ _),
      idxRowM_emb, xRowK_emb]
    refine congrArg (fun j => (X2 j).toNat) ?_
    refine congrArg (fun k => (ix2 (xIdxRow L c) k : S2048x128.Idx)) (Fin.ext ?_)
    exact rowMajor_symm_S128 _
  | ⟨1, _⟩ =>
    rw [Shape.Gathers.idx_of_ne gathers_S100000x128_S128x128 _ _ (⟨1, by decide⟩ : Fin S100000x128.rank) (by decide)]
    rfl

end Tile

/-! ## The same row in the result array's numbering -/

section Numbering

variable (L : grid0.Coords) (c : Fin 64) (r : Fin 128)

/-- Result row 8192 (2 s + c') + 128 c + r. -/
abbrev outRowN : Fin 262144 :=
  ⟨8192 * (2 * (L 1).val + (L 0).val) + 128 * c.val + r.val, by have := L0_lt L; have := L1_lt L; have := c.isLt; have := r.isLt; omega⟩

/-- It reads the index array at row 64 (2 s + c') + c, which is row c of the tile's block, -/
theorem outRowN_div : (outRowN L c r).val / 128 = (xIdxRow L c).val := by
  show (8192 * (2 * (L 1).val + (L 0).val) + 128 * c.val + r.val) / 128 = 128 * (L 1).val + 64 * (L 0).val + c.val
  have := r.isLt; omega
/-- column r, -/
theorem outRowN_mod : (outRowN L c r).val % 128 = r.val := by
  show (8192 * (2 * (L 1).val + (L 0).val) + 128 * c.val + r.val) % 128 = r.val
  have := r.isLt; omega
/-- and row 128 (c mod 2) + r of the positional array. -/
theorem outRowN_mod256 : (outRowN L c r).val % 256 = 128 * (c.val % 2) + r.val := by
  show (8192 * (2 * (L 1).val + (L 0).val) + 128 * c.val + r.val) % 256 = 128 * (c.val % 2) + r.val
  have := r.isLt; omega

/-- The positional row of result row n, as a row number. -/
abbrev posRowN : Fin 256 := ⟨128 * (c.val % 2) + r.val, by have := r.isLt; omega⟩

/-- The same three facts in the result function's own spelling. -/
theorem xRow_outRowN : xRow (outRowN L c r) = xIdxRow L c := Fin.ext (outRowN_div L c r)
theorem xCol_outRowN : xCol (outRowN L c r) = r := Fin.ext (outRowN_mod L c r)
theorem pRow_outRowN : pRow (outRowN L c r) = posRowN c r := Fin.ext (outRowN_mod256 L c r)

end Numbering

end Cert.Proof.KI

end
-- ==== Proof.ChunkVal.lean ====
/-
  The value of one chunk. The positional scratch, written whole with the positional array, reads that array. A slot
  written whole reads its newest whole piece, whatever was written before. A window of the result written whole with
  the chunk's sums holds the result function on the window: window c of the tile on SparseCore c', subcore s starts at
  result row 16384 s + 8192 c' + 128 c = 8192 (2 s + c') + 128 c. And the chunk's sums are the result function: row r of
  chunk c is the gathered row, which is the table row that word r of row c of the tile's index block names, plus row
  128 (c mod 2) + r of the positional array, which is row n mod 256 for result row n = 8192 (2 s + c') + 128 c + r.
-/
import proofs.«208673_g37134287241914_cont_8to1_b_302_3_alg».proof.Proof.GatherVal
import proofs.«208673_g37134287241914_cont_8to1_b_302_3_alg».proof.Proof.TileBlocks
import proofs.«208673_g37134287241914_cont_8to1_b_302_3_alg».proof.Proof.OutVal

noncomputable section

namespace Cert.Proof.KI

open Cert.KernelIdeal Cert.KernelIdeal.Gen

open Idealize.ShloMosaic Idealize.ShloMosaic.ValueIdx
open Idealize.ShloMosaic.SparseCore (S V T)

variable {F : FTy → Type} [FloatOps F]

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

/-! ## The positional scratch -/

/-- The positional scratch, written whole with what the positional array holds, reads the positional array. -/
theorem posScratch_read (fq : S256x128.Idx → Elt F .f32) (PS : S256x128.Idx → Elt F .f32) (pay : S256x128.Idx → Elt F .f32)
    (hpay : pay = (pV).view.read (Elt F) PS) (p : Fin 256) (col : Fin 128) :
    (qV).view.read (Elt F) (View.write (Elt F) (qV).view fq pay Finset.univ) (ix2 p col : S256x128.Idx) = PS (ix2 p col) := by
  subst hpay
  simp only [Memref.view_whole, View.write_whole_univ, View.read_whole]

/-! ## A slot written whole -/

/-- A buffer whose newest write is of the whole shape reads that write's payload, whatever the earlier writes and the
    prior contents were. -/
theorem read_writes_whole {sig' : RefSig} {κ : Kind} {sp : Space} (v : View sig' κ sp S128x128 .f32) (f : v.ty.Contents (Elt F))
    (w : S128x128.Idx → Elt F .f32) (rest : List (View.Piece (Elt F) S128x128 .f32)) (y : S128x128.Idx) :
    v.read (Elt F) (v.writes (Elt F) f (⟨Rect.whole S128x128, w⟩ :: rest)) y = w y := by
  have h := View.read_writes_cons_emb v f (Rect.whole S128x128) w rest y
  rwa [Rect.emb_whole_apply] at h

/-! ## A window of the result written whole -/

section Window

variable (L : grid0.Coords) (c : Fin 64)

/-- Entry y of window c of the tile's block of the result is entry (8192 (2 s + c') + 128 c + y 0, y 1) of the result. -/
theorem blkM_emb (y : S128x128.Idx) : (blkM L c).view.emb y = (ix2 (outRowN L c (y 0)) (y 1) : S262144x128.Idx) := by
  funext a; apply Fin.ext
  show (k0_off18 L (BitVec.ofNat 32 (128 * c.val))) a + 1 * (y a).val = _
  rw [k0_off18_eq L c]
  match a with
  | ⟨0, _⟩ =>
    show 16384 * (L 1).val + 8192 * (L 0).val + 128 * c.val + 1 * (y 0).val = 8192 * (2 * (L 1).val + (L 0).val) + 128 * c.val + (y 0).val
    omega
  | ⟨1, _⟩ => show 0 + 1 * (y 1).val = (y 1).val; omega

variable (X2 : S2048x128.Idx → Elt F .i32) (PS : S256x128.Idx → Elt F .f32) (TB : S100000x128.Idx → Elt F .f32)
  (hX : ∀ j, (X2 j).toNat < 100000)

/-- The window written whole, in one unmasked write, with the chunk's sums holds the result function on the window. -/
theorem window_write (O0 : S262144x128.Idx → Elt F .f32) (put : S128x128.Idx → Elt F .f32)
    (hput : ∀ r col : Fin 128, put (ix2 r col) = outG X2 PS TB hX (ix2 (outRowN L c r) col)) :
    ∀ j ∈ (blkM L c).view.set, (View.write (Elt F) (blkM L c).view O0 put Finset.univ) j = outG X2 PS TB hX j := by
  intro j hj
  obtain ⟨y, -, rfl⟩ := Finset.mem_map.mp hj
  show (View.write (Elt F) (blkM L c).view O0 put Finset.univ) ((blkM L c).view.emb y) = _
  rw [View.write_emb_of_mem _ _ (Finset.mem_univ y), blkM_emb, eq_ix2 y]
  exact (cast_eq _ _).trans (hput (y 0) (y 1))

/-- The same as a one-piece list of writes. -/
theorem window_writes (O0 : S262144x128.Idx → Elt F .f32) (put : S128x128.Idx → Elt F .f32)
    (hput : ∀ r col : Fin 128, put (ix2 r col) = outG X2 PS TB hX (ix2 (outRowN L c r) col)) :
    ∀ j ∈ (blkM L c).view.set, ((blkM L c).view.writes (Elt F) O0 [⟨Rect.whole S128x128, put⟩]) j = outG X2 PS TB hX j := by
  intro j hj
  obtain ⟨y, -, rfl⟩ := Finset.mem_map.mp hj
  have e : (blkM L c).view.emb y = ((blkM L c).view.slice (Rect.whole S128x128)).emb y := by
    show _ = (blkM L c).view.emb ((Rect.whole S128x128).emb y)
    rw [Rect.emb_whole_apply]
  show ((blkM L c).view.writes (Elt F) O0 [⟨Rect.whole S128x128, put⟩]) ((blkM L c).view.emb y) = _
  rw [View.writes_singleton, e, View.write_emb_of_mem _ _ (Finset.mem_univ y), ← e, blkM_emb, eq_ix2 y]
  exact (cast_eq _ _).trans (hput (y 0) (y 1))

/-! ## The chunk's sums are the result function -/

/-- Row r, lane col of chunk c: the gathered rows' entry, read from a slot whose newest write is the gather's whole
    payload, plus the positional scratch's entry 128 (c mod 2) rows further down, is the result function at result row
    8192 (2 s + c') + 128 c + r, lane col. -/
theorem chunk_sum {sig' : RefSig} {κ : Kind} {sp : Space} (vX : View sig' κ sp S128x128 .f32)
    (fs pay : S64x128.Idx → Elt F .i32) (hpay : pay = (xRowK L).view.read (Elt F) X2)
    (hn : S128.numel = S128x128.size gathers_S100000x128_S128x128.axis')
    (hin : ∀ x, ((idxRowM c).view.read (Elt F) (View.write (Elt F) (sV).view fs pay Finset.univ) x).toNat
      < S100000x128.size gathers_S100000x128_S128x128.axis)
    (junk : vX.ty.Contents (Elt F)) (rest : List (View.Piece (Elt F) S128x128 .f32))
    (fq payP : S256x128.Idx → Elt F .f32) (hpayP : payP = (pV).view.read (Elt F) PS)
    (prow0 : ℕ) (hp0 : prow0 = 128 * (c.val % 2)) (r col : Fin 128) (hrow : r.val + prow0 < 256) :
    FloatOps.addf
        (vX.read (Elt F) (vX.writes (Elt F) junk
          (⟨Rect.whole S128x128, SparseCore.gatherPayload gathers_S100000x128_S128x128 ((tabAll).view.read (Elt F) TB)
            (SparseCore.rows ((idxRowM c).view.read (Elt F) (View.write (Elt F) (sV).view fs pay Finset.univ)) hn hin)⟩ :: rest))
          (ix2 r col : S128x128.Idx))
        ((qV).view.read (Elt F) (View.write (Elt F) (qV).view fq payP Finset.univ) (ix2 (⟨r.val + prow0, hrow⟩ : Fin 256) col : S256x128.Idx))
      = outG X2 PS TB hX (ix2 (outRowN L c r) col) := by
  subst hp0
  rw [read_writes_whole, gather_val L c X2 hX TB fs pay hpay hn hin r col, posScratch_read fq PS payP hpayP, outG_apply]
  refine congrArg₂ FloatOps.addf ?_ ?_
  · refine congrArg TB (congrArg (fun k => (ix2 k col : S100000x128.Idx)) (Fin.ext ?_))
    show (X2 (ix2 (xIdxRow L c) r)).toNat = (X2 (ix2 (xRow (outRowN L c r)) (xCol (outRowN L c r)))).toNat
    rw [xRow_outRowN, xCol_outRowN]
  · refine congrArg (fun k => PS (ix2 k col)) (Fin.ext ?_)
    show r.val + 128 * (c.val % 2) = (outRowN L c r).val % 256
    rw [outRowN_mod256]; omega

end Window

end Cert.Proof.KI

end
-- ==== Proof.LoopsA.lean ====
/- Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.Common
import proofs.«208673_g37134287241914_cont_8to1_b_302_3_alg».proof.Proof.Gen.KernelIdeal.Skeleton
import proofs.«208673_g37134287241914_cont_8to1_b_302_3_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### loop 1 (slot 0) -/

set_option maxHeartbeats 4000000 in
/-- One trip of row loop 1 at a symbolic row: the pieces it writes into the sum slot are the run's own finds. -/
@[irreducible] def trip_t1 (d : Dev nD) (L : grid0.Coords) (v2 : BitVec 32)
    (X : BufTy.Contents (Elt F) (ibS0).view.ty) (P : BufTy.Contents (Elt F) (qV).view.ty) (k : Fin k0_t1_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t1_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t1_body TripRes0
    iintro ⟨HX, HP, HW⟩
    sl_exec
    sl_step
    sl_close

abbrev tripL_t1 (d : Dev nD) (L : grid0.Coords) (v2 : BitVec 32) (X : BufTy.Contents (Elt F) (ibS0).view.ty) (P : BufTy.Contents (Elt F) (qV).view.ty) (k : Fin k0_t1_loop.trips) : List (View.Piece (Elt F) S128x128 .f32) :=
  (trip_t1 (F := F) d L v2 X P k).1

@[irreducible] def pb_t1Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t1_loop.trips then (tripL_t1 (F := F) d L v2 X P ⟨k, h⟩) ++ prev else prev

/-- The pieces of the rows before k (last first). -/
def pb_t1 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t1Step d L v2 X P k (pb_t1 d L v2 X P k)

theorem pb_t1_succ (d : Dev nD) (L : grid0.Coords) (v2 : BitVec 32) (X : BufTy.Contents (Elt F) (ibS0).view.ty) (P : BufTy.Contents (Elt F) (qV).view.ty) (k : Fin k0_t1_loop.trips) :
    pb_t1 (F := F) d L v2 X P (k.val + 1) = (tripL_t1 (F := F) d L v2 X P k) ++ (pb_t1 (F := F) d L v2 X P k.val) := by
  rw [pb_t1.eq_2]; unfold pb_t1Step; exact dif_pos k.isLt

set_option warn.classDefReducibility false in
/-- Row loop 1 by its invariant: the gathered rows and the positional rows read, the sum slot holding the pieces of the rows before k over its contents at loop entry. -/
@[sl_loop] def loopInv_t1 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t1_loop.lb k0_t1_loop.ub k0_t1_loop.st k0_t1_ok () (k0_t1_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t1 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t1 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t1_succ]
      iexists _; isplitl [HW]; · iexact HW
      ipureintro; rw [hf, ← View.writes_append]

/-! ### loop 2 (slot 1) -/

set_option maxHeartbeats 4000000 in
/-- One trip of row loop 2 at a symbolic row: the pieces it writes into the sum slot are the run's own finds. -/
@[irreducible] def trip_t2 (d : Dev nD) (L : grid0.Coords) (v2 : BitVec 32)
    (X : BufTy.Contents (Elt F) (ibS1).view.ty) (P : BufTy.Contents (Elt F) (qV).view.ty) (k : Fin k0_t2_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t2_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t2_body TripRes1
    iintro ⟨HX, HP, HW⟩
    sl_exec
    sl_step
    sl_close

abbrev tripL_t2 (d : Dev nD) (L : grid0.Coords) (v2 : BitVec 32) (X : BufTy.Contents (Elt F) (ibS1).view.ty) (P : BufTy.Contents (Elt F) (qV).view.ty) (k : Fin k0_t2_loop.trips) : List (View.Piece (Elt F) S128x128 .f32) :=
  (trip_t2 (F := F) d L v2 X P k).1

@[irreducible] def pb_t2Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t2_loop.trips then (tripL_t2 (F := F) d L v2 X P ⟨k, h⟩) ++ prev else prev

/-- The pieces of the rows before k (last first). -/
def pb_t2 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t2Step d L v2 X P k (pb_t2 d L v2 X P k)

theorem pb_t2_succ (d : Dev nD) (L : grid0.Coords) (v2 : BitVec 32) (X : BufTy.Contents (Elt F) (ibS1).view.ty) (P : BufTy.Contents (Elt F) (qV).view.ty) (k : Fin k0_t2_loop.trips) :
    pb_t2 (F := F) d L v2 X P (k.val + 1) = (tripL_t2 (F := F) d L v2 X P k) ++ (pb_t2 (F := F) d L v2 X P k.val) := by
  rw [pb_t2.eq_2]; unfold pb_t2Step; exact dif_pos k.isLt

set_option warn.classDefReducibility false in
/-- Row loop 2 by its invariant: the gathered rows and the positional rows read, the sum slot holding the pieces of the rows before k over its contents at loop entry. -/
@[sl_loop] def loopInv_t2 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t2_loop.lb k0_t2_loop.ub k0_t2_loop.st k0_t2_ok () (k0_t2_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t2 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t2 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t2_succ]
      iexists _; isplitl [HW]; · iexact HW
      ipureintro; rw [hf, ← View.writes_append]

/-! ### loop 3 (slot 0) -/

set_option maxHeartbeats 4000000 in
/-- One trip of row loop 3 at a symbolic row: the pieces it writes into the sum slot are the run's own finds. -/
@[irreducible] def trip_t3 (d : Dev nD) (L : grid0.Coords) (v2 wa wb : BitVec 32)
    (X : BufTy.Contents (Elt F) (ibS0).view.ty) (P : BufTy.Contents (Elt F) (qV).view.ty) (k : Fin k0_t3_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t3_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t3_body TripRes0
    iintro ⟨HX, HP, HW⟩
    sl_exec
    sl_step
    sl_close

abbrev tripL_t3 (d : Dev nD) (L : grid0.Coords) (v2 wa wb : BitVec 32) (X : BufTy.Contents (Elt F) (ibS0).view.ty) (P : BufTy.Contents (Elt F) (qV).view.ty) (k : Fin k0_t3_loop.trips) : List (View.Piece (Elt F) S128x128 .f32) :=
  (trip_t3 (F := F) d L v2 wa wb X P k).1

@[irreducible] def pb_t3Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t3_loop.trips then (tripL_t3 (F := F) d L v2 wa wb X P ⟨k, h⟩) ++ prev else prev

/-- The pieces of the rows before k (last first). -/
def pb_t3 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t3Step d L v2 wa wb X P k (pb_t3 d L v2 wa wb X P k)

theorem pb_t3_succ (d : Dev nD) (L : grid0.Coords) (v2 wa wb : BitVec 32) (X : BufTy.Contents (Elt F) (ibS0).view.ty) (P : BufTy.Contents (Elt F) (qV).view.ty) (k : Fin k0_t3_loop.trips) :
    pb_t3 (F := F) d L v2 wa wb X P (k.val + 1) = (tripL_t3 (F := F) d L v2 wa wb X P k) ++ (pb_t3 (F := F) d L v2 wa wb X P k.val) := by
  rw [pb_t3.eq_2]; unfold pb_t3Step; exact dif_pos k.isLt

set_option warn.classDefReducibility false in
/-- Row loop 3 by its invariant: the gathered rows and the positional rows read, the sum slot holding the pieces of the rows before k over its contents at loop entry. -/
@[sl_loop] def loopInv_t3 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t3_loop.lb k0_t3_loop.ub k0_t3_loop.st k0_t3_ok () (k0_t3_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t3 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t3 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t3_succ]
      iexists _; isplitl [HW]; · iexact HW
      ipureintro; rw [hf, ← View.writes_append]

/-! ### loop 4 (slot 1) -/

set_option maxHeartbeats 4000000 in
/-- One trip of row loop 4 at a symbolic row: the pieces it writes into the sum slot are the run's own finds. -/
@[irreducible] def trip_t4 (d : Dev nD) (L : grid0.Coords) (v2 : BitVec 32)
    (X : BufTy.Contents (Elt F) (ibS1).view.ty) (P : BufTy.Contents (Elt F) (qV).view.ty) (k : Fin k0_t4_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t4_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t4_body TripRes1
    iintro ⟨HX, HP, HW⟩
    sl_exec
    sl_step
    sl_close

abbrev tripL_t4 (d : Dev nD) (L : grid0.Coords) (v2 : BitVec 32) (X : BufTy.Contents (Elt F) (ibS1).view.ty) (P : BufTy.Contents (Elt F) (qV).view.ty) (k : Fin k0_t4_loop.trips) : List (View.Piece (Elt F) S128x128 .f32) :=
  (trip_t4 (F := F) d L v2 X P k).1

@[irreducible] def pb_t4Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t4_loop.trips then (tripL_t4 (F := F) d L v2 X P ⟨k, h⟩) ++ prev else prev

/-- The pieces of the rows before k (last first). -/
def pb_t4 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t4Step d L v2 X P k (pb_t4 d L v2 X P k)

theorem pb_t4_succ (d : Dev nD) (L : grid0.Coords) (v2 : BitVec 32) (X : BufTy.Contents (Elt F) (ibS1).view.ty) (P : BufTy.Contents (Elt F) (qV).view.ty) (k : Fin k0_t4_loop.trips) :
    pb_t4 (F := F) d L v2 X P (k.val + 1) = (tripL_t4 (F := F) d L v2 X P k) ++ (pb_t4 (F := F) d L v2 X P k.val) := by
  rw [pb_t4.eq_2]; unfold pb_t4Step; exact dif_pos k.isLt

set_option warn.classDefReducibility false in
/-- Row loop 4 by its invariant: the gathered rows and the positional rows read, the sum slot holding the pieces of the rows before k over its contents at loop entry. -/
@[sl_loop] def loopInv_t4 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t4_loop.lb k0_t4_loop.ub k0_t4_loop.st k0_t4_ok () (k0_t4_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t4 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t4 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t4_succ]
      iexists _; isplitl [HW]; · iexact HW
      ipureintro; rw [hf, ← View.writes_append]

/-! ### loop 5 (slot 0) -/

set_option maxHeartbeats 4000000 in
/-- One trip of row loop 5 at a symbolic row: the pieces it writes into the sum slot are the run's own finds. -/
@[irreducible] def trip_t5 (d : Dev nD) (L : grid0.Coords) (v2 : BitVec 32)
    (X : BufTy.Contents (Elt F) (ibS0).view.ty) (P : BufTy.Contents (Elt F) (qV).view.ty) (k : Fin k0_t5_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t5_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t5_body TripRes0
    iintro ⟨HX, HP, HW⟩
    sl_exec
    sl_step
    sl_close

abbrev tripL_t5 (d : Dev nD) (L : grid0.Coords) (v2 : BitVec 32) (X : BufTy.Contents (Elt F) (ibS0).view.ty) (P : BufTy.Contents (Elt F) (qV).view.ty) (k : Fin k0_t5_loop.trips) : List (View.Piece (Elt F) S128x128 .f32) :=
  (trip_t5 (F := F) d L v2 X P k).1

@[irreducible] def pb_t5Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t5_loop.trips then (tripL_t5 (F := F) d L v2 X P ⟨k, h⟩) ++ prev else prev

/-- The pieces of the rows before k (last first). -/
def pb_t5 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t5Step d L v2 X P k (pb_t5 d L v2 X P k)

theorem pb_t5_succ (d : Dev nD) (L : grid0.Coords) (v2 : BitVec 32) (X : BufTy.Contents (Elt F) (ibS0).view.ty) (P : BufTy.Contents (Elt F) (qV).view.ty) (k : Fin k0_t5_loop.trips) :
    pb_t5 (F := F) d L v2 X P (k.val + 1) = (tripL_t5 (F := F) d L v2 X P k) ++ (pb_t5 (F := F) d L v2 X P k.val) := by
  rw [pb_t5.eq_2]; unfold pb_t5Step; exact dif_pos k.isLt

set_option warn.classDefReducibility false in
/-- Row loop 5 by its invariant: the gathered rows and the positional rows read, the sum slot holding the pieces of the rows before k over its contents at loop entry. -/
@[sl_loop] def loopInv_t5 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t5_loop.lb k0_t5_loop.ub k0_t5_loop.st k0_t5_ok () (k0_t5_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t5 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t5 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t5_succ]
      iexists _; isplitl [HW]; · iexact HW
      ipureintro; rw [hf, ← View.writes_append]

/-! ### loop 6 (slot 1) -/

set_option maxHeartbeats 4000000 in
/-- One trip of row loop 6 at a symbolic row: the pieces it writes into the sum slot are the run's own finds. -/
@[irreducible] def trip_t6 (d : Dev nD) (L : grid0.Coords) (v2 : BitVec 32)
    (X : BufTy.Contents (Elt F) (ibS1).view.ty) (P : BufTy.Contents (Elt F) (qV).view.ty) (k : Fin k0_t6_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t6_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t6_body TripRes1
    iintro ⟨HX, HP, HW⟩
    sl_exec
    sl_step
    sl_close

abbrev tripL_t6 (d : Dev nD) (L : grid0.Coords) (v2 : BitVec 32) (X : BufTy.Contents (Elt F) (ibS1).view.ty) (P : BufTy.Contents (Elt F) (qV).view.ty) (k : Fin k0_t6_loop.trips) : List (View.Piece (Elt F) S128x128 .f32) :=
  (trip_t6 (F := F) d L v2 X P k).1

@[irreducible] def pb_t6Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t6_loop.trips then (tripL_t6 (F := F) d L v2 X P ⟨k, h⟩) ++ prev else prev

/-- The pieces of the rows before k (last first). -/
def pb_t6 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t6Step d L v2 X P k (pb_t6 d L v2 X P k)

theorem pb_t6_succ (d : Dev nD) (L : grid0.Coords) (v2 : BitVec 32) (X : BufTy.Contents (Elt F) (ibS1).view.ty) (P : BufTy.Contents (Elt F) (qV).view.ty) (k : Fin k0_t6_loop.trips) :
    pb_t6 (F := F) d L v2 X P (k.val + 1) = (tripL_t6 (F := F) d L v2 X P k) ++ (pb_t6 (F := F) d L v2 X P k.val) := by
  rw [pb_t6.eq_2]; unfold pb_t6Step; exact dif_pos k.isLt

set_option warn.classDefReducibility false in
/-- Row loop 6 by its invariant: the gathered rows and the positional rows read, the sum slot holding the pieces of the rows before k over its contents at loop entry. -/
@[sl_loop] def loopInv_t6 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t6_loop.lb k0_t6_loop.ub k0_t6_loop.st k0_t6_ok () (k0_t6_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t6 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t6 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t6_succ]
      iexists _; isplitl [HW]; · iexact HW
      ipureintro; rw [hf, ← View.writes_append]

/-! ### loop 7 (slot 0) -/

set_option maxHeartbeats 4000000 in
/-- One trip of row loop 7 at a symbolic row: the pieces it writes into the sum slot are the run's own finds. -/
@[irreducible] def trip_t7 (d : Dev nD) (L : grid0.Coords) (v2 : BitVec 32)
    (X : BufTy.Contents (Elt F) (ibS0).view.ty) (P : BufTy.Contents (Elt F) (qV).view.ty) (k : Fin k0_t7_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t7_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t7_body TripRes0
    iintro ⟨HX, HP, HW⟩
    sl_exec
    sl_step
    sl_close

abbrev tripL_t7 (d : Dev nD) (L : grid0.Coords) (v2 : BitVec 32) (X : BufTy.Contents (Elt F) (ibS0).view.ty) (P : BufTy.Contents (Elt F) (qV).view.ty) (k : Fin k0_t7_loop.trips) : List (View.Piece (Elt F) S128x128 .f32) :=
  (trip_t7 (F := F) d L v2 X P k).1

@[irreducible] def pb_t7Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t7_loop.trips then (tripL_t7 (F := F) d L v2 X P ⟨k, h⟩) ++ prev else prev

/-- The pieces of the rows before k (last first). -/
def pb_t7 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t7Step d L v2 X P k (pb_t7 d L v2 X P k)

theorem pb_t7_succ (d : Dev nD) (L : grid0.Coords) (v2 : BitVec 32) (X : BufTy.Contents (Elt F) (ibS0).view.ty) (P : BufTy.Contents (Elt F) (qV).view.ty) (k : Fin k0_t7_loop.trips) :
    pb_t7 (F := F) d L v2 X P (k.val + 1) = (tripL_t7 (F := F) d L v2 X P k) ++ (pb_t7 (F := F) d L v2 X P k.val) := by
  rw [pb_t7.eq_2]; unfold pb_t7Step; exact dif_pos k.isLt

set_option warn.classDefReducibility false in
/-- Row loop 7 by its invariant: the gathered rows and the positional rows read, the sum slot holding the pieces of the rows before k over its contents at loop entry. -/
@[sl_loop] def loopInv_t7 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t7_loop.lb k0_t7_loop.ub k0_t7_loop.st k0_t7_ok () (k0_t7_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t7 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t7 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t7_succ]
      iexists _; isplitl [HW]; · iexact HW
      ipureintro; rw [hf, ← View.writes_append]

/-! ### loop 8 (slot 1) -/

set_option maxHeartbeats 4000000 in
/-- One trip of row loop 8 at a symbolic row: the pieces it writes into the sum slot are the run's own finds. -/
@[irreducible] def trip_t8 (d : Dev nD) (L : grid0.Coords) (v2 : BitVec 32)
    (X : BufTy.Contents (Elt F) (ibS1).view.ty) (P : BufTy.Contents (Elt F) (qV).view.ty) (k : Fin k0_t8_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t8_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t8_body TripRes1
    iintro ⟨HX, HP, HW⟩
    sl_exec
    sl_step
    sl_close

abbrev tripL_t8 (d : Dev nD) (L : grid0.Coords) (v2 : BitVec 32) (X : BufTy.Contents (Elt F) (ibS1).view.ty) (P : BufTy.Contents (Elt F) (qV).view.ty) (k : Fin k0_t8_loop.trips) : List (View.Piece (Elt F) S128x128 .f32) :=
  (trip_t8 (F := F) d L v2 X P k).1

@[irreducible] def pb_t8Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t8_loop.trips then (tripL_t8 (F := F) d L v2 X P ⟨k, h⟩) ++ prev else prev

/-- The pieces of the rows before k (last first). -/
def pb_t8 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t8Step d L v2 X P k (pb_t8 d L v2 X P k)

theorem pb_t8_succ (d : Dev nD) (L : grid0.Coords) (v2 : BitVec 32) (X : BufTy.Contents (Elt F) (ibS1).view.ty) (P : BufTy.Contents (Elt F) (qV).view.ty) (k : Fin k0_t8_loop.trips) :
    pb_t8 (F := F) d L v2 X P (k.val + 1) = (tripL_t8 (F := F) d L v2 X P k) ++ (pb_t8 (F := F) d L v2 X P k.val) := by
  rw [pb_t8.eq_2]; unfold pb_t8Step; exact dif_pos k.isLt

set_option warn.classDefReducibility false in
/-- Row loop 8 by its invariant: the gathered rows and the positional rows read, the sum slot holding the pieces of the rows before k over its contents at loop entry. -/
@[sl_loop] def loopInv_t8 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t8_loop.lb k0_t8_loop.ub k0_t8_loop.st k0_t8_ok () (k0_t8_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t8 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t8 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t8_succ]
      iexists _; isplitl [HW]; · iexact HW
      ipureintro; rw [hf, ← View.writes_append]

/-! ### loop 9 (slot 0) -/

set_option maxHeartbeats 4000000 in
/-- One trip of row loop 9 at a symbolic row: the pieces it writes into the sum slot are the run's own finds. -/
@[irreducible] def trip_t9 (d : Dev nD) (L : grid0.Coords) (v2 : BitVec 32)
    (X : BufTy.Contents (Elt F) (ibS0).view.ty) (P : BufTy.Contents (Elt F) (qV).view.ty) (k : Fin k0_t9_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t9_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t9_body TripRes0
    iintro ⟨HX, HP, HW⟩
    sl_exec
    sl_step
    sl_close

abbrev tripL_t9 (d : Dev nD) (L : grid0.Coords) (v2 : BitVec 32) (X : BufTy.Contents (Elt F) (ibS0).view.ty) (P : BufTy.Contents (Elt F) (qV).view.ty) (k : Fin k0_t9_loop.trips) : List (View.Piece (Elt F) S128x128 .f32) :=
  (trip_t9 (F := F) d L v2 X P k).1

@[irreducible] def pb_t9Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t9_loop.trips then (tripL_t9 (F := F) d L v2 X P ⟨k, h⟩) ++ prev else prev

/-- The pieces of the rows before k (last first). -/
def pb_t9 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t9Step d L v2 X P k (pb_t9 d L v2 X P k)

theorem pb_t9_succ (d : Dev nD) (L : grid0.Coords) (v2 : BitVec 32) (X : BufTy.Contents (Elt F) (ibS0).view.ty) (P : BufTy.Contents (Elt F) (qV).view.ty) (k : Fin k0_t9_loop.trips) :
    pb_t9 (F := F) d L v2 X P (k.val + 1) = (tripL_t9 (F := F) d L v2 X P k) ++ (pb_t9 (F := F) d L v2 X P k.val) := by
  rw [pb_t9.eq_2]; unfold pb_t9Step; exact dif_pos k.isLt

set_option warn.classDefReducibility false in
/-- Row loop 9 by its invariant: the gathered rows and the positional rows read, the sum slot holding the pieces of the rows before k over its contents at loop entry. -/
@[sl_loop] def loopInv_t9 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t9_loop.lb k0_t9_loop.ub k0_t9_loop.st k0_t9_ok () (k0_t9_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t9 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t9 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t9_succ]
      iexists _; isplitl [HW]; · iexact HW
      ipureintro; rw [hf, ← View.writes_append]

/-! ### loop 10 (slot 1) -/

set_option maxHeartbeats 4000000 in
/-- One trip of row loop 10 at a symbolic row: the pieces it writes into the sum slot are the run's own finds. -/
@[irreducible] def trip_t10 (d : Dev nD) (L : grid0.Coords) (v2 : BitVec 32)
    (X : BufTy.Contents (Elt F) (ibS1).view.ty) (P : BufTy.Contents (Elt F) (qV).view.ty) (k : Fin k0_t10_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t10_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t10_body TripRes1
    iintro ⟨HX, HP, HW⟩
    sl_exec
    sl_step
    sl_close

abbrev tripL_t10 (d : Dev nD) (L : grid0.Coords) (v2 : BitVec 32) (X : BufTy.Contents (Elt F) (ibS1).view.ty) (P : BufTy.Contents (Elt F) (qV).view.ty) (k : Fin k0_t10_loop.trips) : List (View.Piece (Elt F) S128x128 .f32) :=
  (trip_t10 (F := F) d L v2 X P k).1

@[irreducible] def pb_t10Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t10_loop.trips then (tripL_t10 (F := F) d L v2 X P ⟨k, h⟩) ++ prev else prev

/-- The pieces of the rows before k (last first). -/
def pb_t10 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t10Step d L v2 X P k (pb_t10 d L v2 X P k)

theorem pb_t10_succ (d : Dev nD) (L : grid0.Coords) (v2 : BitVec 32) (X : BufTy.Contents (Elt F) (ibS1).view.ty) (P : BufTy.Contents (Elt F) (qV).view.ty) (k : Fin k0_t10_loop.trips) :
    pb_t10 (F := F) d L v2 X P (k.val + 1) = (tripL_t10 (F := F) d L v2 X P k) ++ (pb_t10 (F := F) d L v2 X P k.val) := by
  rw [pb_t10.eq_2]; unfold pb_t10Step; exact dif_pos k.isLt

set_option warn.classDefReducibility false in
/-- Row loop 10 by its invariant: the gathered rows and the positional rows read, the sum slot holding the pieces of the rows before k over its contents at loop entry. -/
@[sl_loop] def loopInv_t10 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t10_loop.lb k0_t10_loop.ub k0_t10_loop.st k0_t10_ok () (k0_t10_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t10 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t10 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t10_succ]
      iexists _; isplitl [HW]; · iexact HW
      ipureintro; rw [hf, ← View.writes_append]

/-! ### loop 11 (slot 0) -/

set_option maxHeartbeats 4000000 in
/-- One trip of row loop 11 at a symbolic row: the pieces it writes into the sum slot are the run's own finds. -/
@[irreducible] def trip_t11 (d : Dev nD) (L : grid0.Coords) (v2 : BitVec 32)
    (X : BufTy.Contents (Elt F) (ibS0).view.ty) (P : BufTy.Contents (Elt F) (qV).view.ty) (k : Fin k0_t11_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t11_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t11_body TripRes0
    iintro ⟨HX, HP, HW⟩
    sl_exec
    sl_step
    sl_close

abbrev tripL_t11 (d : Dev nD) (L : grid0.Coords) (v2 : BitVec 32) (X : BufTy.Contents (Elt F) (ibS0).view.ty) (P : BufTy.Contents (Elt F) (qV).view.ty) (k : Fin k0_t11_loop.trips) : List (View.Piece (Elt F) S128x128 .f32) :=
  (trip_t11 (F := F) d L v2 X P k).1

@[irreducible] def pb_t11Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t11_loop.trips then (tripL_t11 (F := F) d L v2 X P ⟨k, h⟩) ++ prev else prev

/-- The pieces of the rows before k (last first). -/
def pb_t11 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t11Step d L v2 X P k (pb_t11 d L v2 X P k)

theorem pb_t11_succ (d : Dev nD) (L : grid0.Coords) (v2 : BitVec 32) (X : BufTy.Contents (Elt F) (ibS0).view.ty) (P : BufTy.Contents (Elt F) (qV).view.ty) (k : Fin k0_t11_loop.trips) :
    pb_t11 (F := F) d L v2 X P (k.val + 1) = (tripL_t11 (F := F) d L v2 X P k) ++ (pb_t11 (F := F) d L v2 X P k.val) := by
  rw [pb_t11.eq_2]; unfold pb_t11Step; exact dif_pos k.isLt

set_option warn.classDefReducibility false in
/-- Row loop 11 by its invariant: the gathered rows and the positional rows read, the sum slot holding the pieces of the rows before k over its contents at loop entry. -/
@[sl_loop] def loopInv_t11 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t11_loop.lb k0_t11_loop.ub k0_t11_loop.st k0_t11_ok () (k0_t11_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t11 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t11 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t11_succ]
      iexists _; isplitl [HW]; · iexact HW
      ipureintro; rw [hf, ← View.writes_append]

/-! ### loop 12 (slot 1) -/

set_option maxHeartbeats 4000000 in
/-- One trip of row loop 12 at a symbolic row: the pieces it writes into the sum slot are the run's own finds. -/
@[irreducible] def trip_t12 (d : Dev nD) (L : grid0.Coords) (v2 : BitVec 32)
    (X : BufTy.Contents (Elt F) (ibS1).view.ty) (P : BufTy.Contents (Elt F) (qV).view.ty) (k : Fin k0_t12_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t12_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t12_body TripRes1
    iintro ⟨HX, HP, HW⟩
    sl_exec
    sl_step
    sl_close

abbrev tripL_t12 (d : Dev nD) (L : grid0.Coords) (v2 : BitVec 32) (X : BufTy.Contents (Elt F) (ibS1).view.ty) (P : BufTy.Contents (Elt F) (qV).view.ty) (k : Fin k0_t12_loop.trips) : List (View.Piece (Elt F) S128x128 .f32) :=
  (trip_t12 (F := F) d L v2 X P k).1

@[irreducible] def pb_t12Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t12_loop.trips then (tripL_t12 (F := F) d L v2 X P ⟨k, h⟩) ++ prev else prev

/-- The pieces of the rows before k (last first). -/
def pb_t12 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t12Step d L v2 X P k (pb_t12 d L v2 X P k)

theorem pb_t12_succ (d : Dev nD) (L : grid0.Coords) (v2 : BitVec 32) (X : BufTy.Contents (Elt F) (ibS1).view.ty) (P : BufTy.Contents (Elt F) (qV).view.ty) (k : Fin k0_t12_loop.trips) :
    pb_t12 (F := F) d L v2 X P (k.val + 1) = (tripL_t12 (F := F) d L v2 X P k) ++ (pb_t12 (F := F) d L v2 X P k.val) := by
  rw [pb_t12.eq_2]; unfold pb_t12Step; exact dif_pos k.isLt

set_option warn.classDefReducibility false in
/-- Row loop 12 by its invariant: the gathered rows and the positional rows read, the sum slot holding the pieces of the rows before k over its contents at loop entry. -/
@[sl_loop] def loopInv_t12 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t12_loop.lb k0_t12_loop.ub k0_t12_loop.st k0_t12_ok () (k0_t12_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t12 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t12 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t12_succ]
      iexists _; isplitl [HW]; · iexact HW
      ipureintro; rw [hf, ← View.writes_append]

/-! ### loop 13 (slot 0) -/

set_option maxHeartbeats 4000000 in
/-- One trip of row loop 13 at a symbolic row: the pieces it writes into the sum slot are the run's own finds. -/
@[irreducible] def trip_t13 (d : Dev nD) (L : grid0.Coords) (v2 wa wb : BitVec 32)
    (X : BufTy.Contents (Elt F) (ibS0).view.ty) (P : BufTy.Contents (Elt F) (qV).view.ty) (k : Fin k0_t13_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t13_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t13_body TripRes0
    iintro ⟨HX, HP, HW⟩
    sl_exec
    sl_step
    sl_close

abbrev tripL_t13 (d : Dev nD) (L : grid0.Coords) (v2 wa wb : BitVec 32) (X : BufTy.Contents (Elt F) (ibS0).view.ty) (P : BufTy.Contents (Elt F) (qV).view.ty) (k : Fin k0_t13_loop.trips) : List (View.Piece (Elt F) S128x128 .f32) :=
  (trip_t13 (F := F) d L v2 wa wb X P k).1

@[irreducible] def pb_t13Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t13_loop.trips then (tripL_t13 (F := F) d L v2 wa wb X P ⟨k, h⟩) ++ prev else prev

/-- The pieces of the rows before k (last first). -/
def pb_t13 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t13Step d L v2 wa wb X P k (pb_t13 d L v2 wa wb X P k)

theorem pb_t13_succ (d : Dev nD) (L : grid0.Coords) (v2 wa wb : BitVec 32) (X : BufTy.Contents (Elt F) (ibS0).view.ty) (P : BufTy.Contents (Elt F) (qV).view.ty) (k : Fin k0_t13_loop.trips) :
    pb_t13 (F := F) d L v2 wa wb X P (k.val + 1) = (tripL_t13 (F := F) d L v2 wa wb X P k) ++ (pb_t13 (F := F) d L v2 wa wb X P k.val) := by
  rw [pb_t13.eq_2]; unfold pb_t13Step; exact dif_pos k.isLt

set_option warn.classDefReducibility false in
/-- Row loop 13 by its invariant: the gathered rows and the positional rows read, the sum slot holding the pieces of the rows before k over its contents at loop entry. -/
@[sl_loop] def loopInv_t13 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t13_loop.lb k0_t13_loop.ub k0_t13_loop.st k0_t13_ok () (k0_t13_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t13 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t13 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t13_succ]
      iexists _; isplitl [HW]; · iexact HW
      ipureintro; rw [hf, ← View.writes_append]

/-! ### loop 14 (slot 1) -/

set_option maxHeartbeats 4000000 in
/-- One trip of row loop 14 at a symbolic row: the pieces it writes into the sum slot are the run's own finds. -/
@[irreducible] def trip_t14 (d : Dev nD) (L : grid0.Coords) (v2 : BitVec 32)
    (X : BufTy.Contents (Elt F) (ibS1).view.ty) (P : BufTy.Contents (Elt F) (qV).view.ty) (k : Fin k0_t14_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t14_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t14_body TripRes1
    iintro ⟨HX, HP, HW⟩
    sl_exec
    sl_step
    sl_close

abbrev tripL_t14 (d : Dev nD) (L : grid0.Coords) (v2 : BitVec 32) (X : BufTy.Contents (Elt F) (ibS1).view.ty) (P : BufTy.Contents (Elt F) (qV).view.ty) (k : Fin k0_t14_loop.trips) : List (View.Piece (Elt F) S128x128 .f32) :=
  (trip_t14 (F := F) d L v2 X P k).1

@[irreducible] def pb_t14Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t14_loop.trips then (tripL_t14 (F := F) d L v2 X P ⟨k, h⟩) ++ prev else prev

/-- The pieces of the rows before k (last first). -/
def pb_t14 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t14Step d L v2 X P k (pb_t14 d L v2 X P k)

theorem pb_t14_succ (d : Dev nD) (L : grid0.Coords) (v2 : BitVec 32) (X : BufTy.Contents (Elt F) (ibS1).view.ty) (P : BufTy.Contents (Elt F) (qV).view.ty) (k : Fin k0_t14_loop.trips) :
    pb_t14 (F := F) d L v2 X P (k.val + 1) = (tripL_t14 (F := F) d L v2 X P k) ++ (pb_t14 (F := F) d L v2 X P k.val) := by
  rw [pb_t14.eq_2]; unfold pb_t14Step; exact dif_pos k.isLt

set_option warn.classDefReducibility false in
/-- Row loop 14 by its invariant: the gathered rows and the positional rows read, the sum slot holding the pieces of the rows before k over its contents at loop entry. -/
@[sl_loop] def loopInv_t14 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t14_loop.lb k0_t14_loop.ub k0_t14_loop.st k0_t14_ok () (k0_t14_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t14 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t14 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t14_succ]
      iexists _; isplitl [HW]; · iexact HW
      ipureintro; rw [hf, ← View.writes_append]

/-! ### loop 15 (slot 0) -/

set_option maxHeartbeats 4000000 in
/-- One trip of row loop 15 at a symbolic row: the pieces it writes into the sum slot are the run's own finds. -/
@[irreducible] def trip_t15 (d : Dev nD) (L : grid0.Coords) (v2 : BitVec 32)
    (X : BufTy.Contents (Elt F) (ibS0).view.ty) (P : BufTy.Contents (Elt F) (qV).view.ty) (k : Fin k0_t15_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t15_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t15_body TripRes0
    iintro ⟨HX, HP, HW⟩
    sl_exec
    sl_step
    sl_close

abbrev tripL_t15 (d : Dev nD) (L : grid0.Coords) (v2 : BitVec 32) (X : BufTy.Contents (Elt F) (ibS0).view.ty) (P : BufTy.Contents (Elt F) (qV).view.ty) (k : Fin k0_t15_loop.trips) : List (View.Piece (Elt F) S128x128 .f32) :=
  (trip_t15 (F := F) d L v2 X P k).1

@[irreducible] def pb_t15Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t15_loop.trips then (tripL_t15 (F := F) d L v2 X P ⟨k, h⟩) ++ prev else prev

/-- The pieces of the rows before k (last first). -/
def pb_t15 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t15Step d L v2 X P k (pb_t15 d L v2 X P k)

theorem pb_t15_succ (d : Dev nD) (L : grid0.Coords) (v2 : BitVec 32) (X : BufTy.Contents (Elt F) (ibS0).view.ty) (P : BufTy.Contents (Elt F) (qV).view.ty) (k : Fin k0_t15_loop.trips) :
    pb_t15 (F := F) d L v2 X P (k.val + 1) = (tripL_t15 (F := F) d L v2 X P k) ++ (pb_t15 (F := F) d L v2 X P k.val) := by
  rw [pb_t15.eq_2]; unfold pb_t15Step; exact dif_pos k.isLt

set_option warn.classDefReducibility false in
/-- Row loop 15 by its invariant: the gathered rows and the positional rows read, the sum slot holding the pieces of the rows before k over its contents at loop entry. -/
@[sl_loop] def loopInv_t15 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t15_loop.lb k0_t15_loop.ub k0_t15_loop.st k0_t15_ok () (k0_t15_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t15 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t15 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t15_succ]
      iexists _; isplitl [HW]; · iexact HW
      ipureintro; rw [hf, ← View.writes_append]

/-! ### loop 16 (slot 1) -/

set_option maxHeartbeats 4000000 in
/-- One trip of row loop 16 at a symbolic row: the pieces it writes into the sum slot are the run's own finds. -/
@[irreducible] def trip_t16 (d : Dev nD) (L : grid0.Coords) (v2 : BitVec 32)
    (X : BufTy.Contents (Elt F) (ibS1).view.ty) (P : BufTy.Contents (Elt F) (qV).view.ty) (k : Fin k0_t16_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t16_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t16_body TripRes1
    iintro ⟨HX, HP, HW⟩
    sl_exec
    sl_step
    sl_close

abbrev tripL_t16 (d : Dev nD) (L : grid0.Coords) (v2 : BitVec 32) (X : BufTy.Contents (Elt F) (ibS1).view.ty) (P : BufTy.Contents (Elt F) (qV).view.ty) (k : Fin k0_t16_loop.trips) : List (View.Piece (Elt F) S128x128 .f32) :=
  (trip_t16 (F := F) d L v2 X P k).1

@[irreducible] def pb_t16Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t16_loop.trips then (tripL_t16 (F := F) d L v2 X P ⟨k, h⟩) ++ prev else prev

/-- The pieces of the rows before k (last first). -/
def pb_t16 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t16Step d L v2 X P k (pb_t16 d L v2 X P k)

theorem pb_t16_succ (d : Dev nD) (L : grid0.Coords) (v2 : BitVec 32) (X : BufTy.Contents (Elt F) (ibS1).view.ty) (P : BufTy.Contents (Elt F) (qV).view.ty) (k : Fin k0_t16_loop.trips) :
    pb_t16 (F := F) d L v2 X P (k.val + 1) = (tripL_t16 (F := F) d L v2 X P k) ++ (pb_t16 (F := F) d L v2 X P k.val) := by
  rw [pb_t16.eq_2]; unfold pb_t16Step; exact dif_pos k.isLt

set_option warn.classDefReducibility false in
/-- Row loop 16 by its invariant: the gathered rows and the positional rows read, the sum slot holding the pieces of the rows before k over its contents at loop entry. -/
@[sl_loop] def loopInv_t16 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t16_loop.lb k0_t16_loop.ub k0_t16_loop.st k0_t16_ok () (k0_t16_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t16 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t16 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t16_succ]
      iexists _; isplitl [HW]; · iexact HW
      ipureintro; rw [hf, ← View.writes_append]

end Tile
end Cert.Proof.KI
end
-- ==== Proof.RowsLib.lean ====
/-
  A buffer filled row by row by a counted loop, read back.

  A loop whose trip k writes a list of pieces, the pieces of the trips before k accumulated last trip first: when
  every piece of every trip is a block of ONE function G of the buffer's index, the buffer after the loop reads G at
  every index some trip's piece covers, whatever it held before. The trips here write one row of a 128 × 128 slot in
  eight stores of sixteen lanes: the sum, lane by lane, of the same sixteen lanes of a row of gathered rows and of a
  row, a fixed number of rows further down, of a 256 × 128 positional array. A shape cast to a vector and back around
  a lane-wise sum is the lane-wise sum; a unit-stride rectangle of one row and sixteen lanes places lane x at column
  offset + x; so each store's payload is that function G on its rectangle, and the eight rectangles of trip r cover
  row r.
-/
import Idealize.ShloMosaic.Lib.Writes
import Idealize.ShloMosaic.Lib.Pipeline.Value
import Idealize.ShloMosaic.Lib.ValueIdx

noncomputable section

namespace RowsLib

open Idealize.ShloMosaic Idealize.ShloMosaic.ValueIdx

/-! ## The pieces of the trips before a bound -/

section Trips
variable {Val : EltTy → Type} {s : Shape} {e : EltTy} {n : ℕ}
variable (pb : ℕ → List (View.Piece Val s e)) (tripL : Fin n → List (View.Piece Val s e))

/-- A piece of trip k is among the pieces of the trips before any later bound. -/
theorem mem_pb (hs : ∀ k : Fin n, pb (k.val + 1) = tripL k ++ pb k.val) (k : Fin n) (p : View.Piece Val s e) (hp : p ∈ tripL k) :
    ∀ j, k.val < j → j ≤ n → p ∈ pb j
  | 0, h, _ => absurd h (Nat.not_lt_zero _)
  | j + 1, h, hj => by
    have hjn : j < n := hj
    rw [hs ⟨j, hjn⟩]
    by_cases hk : k.val = j
    · have : k = ⟨j, hjn⟩ := Fin.ext hk
      exact List.mem_append_left _ (this ▸ hp)
    · exact List.mem_append_right _ (mem_pb hs k p hp j (by omega) (by omega))

/-- Every piece before a bound is a piece of some trip. -/
theorem of_mem_pb (h0 : pb 0 = []) (hs : ∀ k : Fin n, pb (k.val + 1) = tripL k ++ pb k.val) (p : View.Piece Val s e) :
    ∀ j, j ≤ n → p ∈ pb j → ∃ k : Fin n, p ∈ tripL k
  | 0, _, hp => by rw [h0] at hp; exact absurd hp List.not_mem_nil
  | j + 1, hj, hp => by
    have hjn : j < n := hj
    rw [hs ⟨j, hjn⟩] at hp
    rcases List.mem_append.mp hp with h | h
    · exact ⟨⟨j, hjn⟩, h⟩
    · exact of_mem_pb h0 hs p j (by omega) h

variable {sig : RefSig} {κ : Kind} {sp : Space}

/-- The buffer after the loop reads G wherever some trip's piece covers, when every trip's pieces are blocks of G. -/
theorem read_writes_trips (v : View sig κ sp s e) (f : v.ty.Contents Val) (G : s.Idx → Val e)
    (h0 : pb 0 = []) (hs : ∀ k : Fin n, pb (k.val + 1) = tripL k ++ pb k.val)
    (hG : ∀ k, ∀ p ∈ tripL k, ∀ x : p.1.shape.Idx, p.2 x = G (p.1.emb x))
    (y : s.Idx) (k : Fin n) (hy : ∃ p ∈ tripL k, y ∈ p.1.set) :
    v.read Val (v.writes Val f (pb n)) y = G y :=
  View.read_writes_apply_of_pieces v f G (pb n)
    (fun p hp x => by obtain ⟨k', hk'⟩ := of_mem_pb pb tripL h0 hs p n (Nat.le_refl n) hp; exact hG k' p hk' x) y
    (by obtain ⟨p, hp, hyp⟩ := hy; exact ⟨p, mem_pb pb tripL hs k p hp n k.isLt (Nat.le_refl n), hyp⟩)

end Trips

/-! ## A lane-wise sum through a shape cast and back -/

section Lane
variable {F : FTy → Type} [FloatOps F]

theorem lane_sum {s t : Shape} {φ : FTy} (A B : FVec F s φ) (h1 : s.ShapeCasts t) (h2 : t.ShapeCasts s) :
    shapeCast s (addf (shapeCast t A h1) (shapeCast t B h1)) h2 = addf A B := by
  show addf (shapeCast s (shapeCast t A h1) h2) (shapeCast s (shapeCast t B h1) h2) = _
  rw [shapeCast_shapeCast, shapeCast_shapeCast]

end Lane

/-! ## One row of a 128 × 128 slot: gathered row plus positional row -/

section Row
variable {F : FTy → Type} [FloatOps F]
variable {sig : RefSig} {κ κ' : Kind} {sp sp' : Space}

abbrev SS : Shape := ⟨2, ![128, 128]⟩
abbrev SP : Shape := ⟨2, ![256, 128]⟩
abbrev SL : Shape := ⟨2, ![1, 16]⟩

/-- The index prow0 rows further down in the positional array. -/
def shiftRow (prow0 : ℕ) (hprow : prow0 ≤ 128) (y : SS.Idx) : SP.Idx :=
  ix2 (⟨(y 0).val + prow0, by have := (idx2_lt0 y); omega⟩ : Fin 256) (⟨(y 1).val, idx2_lt1 y⟩ : Fin 128)

/-- What the slot of sums holds at y: the gathered rows' entry plus the positional array's entry prow0 rows down. -/
def rowG (vX : View sig κ sp SS .f32) (vP : View sig κ' sp' SP .f32) (X : vX.ty.Contents (Elt F)) (P : vP.ty.Contents (Elt F))
    (prow0 : ℕ) (hprow : prow0 ≤ 128) (y : SS.Idx) : Elt F .f32 :=
  FloatOps.addf (vX.read (Elt F) X y) (vP.read (Elt F) P (shiftRow prow0 hprow y))

/-- One store's payload is rowG on its rectangle: the rectangle of the gathered rows' load is the store's, the
    positional load's is prow0 rows down. -/
theorem piece_eq (vX : View sig κ sp SS .f32) (vP : View sig κ' sp' SP .f32) (X : vX.ty.Contents (Elt F)) (P : vP.ty.Contents (Elt F))
    (prow0 : ℕ) (hprow : prow0 ≤ 128) (offS offP : Fin 2 → ℕ)
    (inbS inbS' : ∀ a, offS a + SL.size a ≤ SS.size a) (inbP : ∀ a, offP a + SL.size a ≤ SP.size a)
    (r r' c0 : ℕ) (hS : offS = ![r, c0]) (hP : offP = ![r', c0]) (hr : r' = r + prow0)
    (w : SL.Idx → Elt F .f32)
    (hw : w = addf (vX.readAt (Elt F) (Rect.unit (s := SS) offS SL.size inbS).toLoadRect X)
                   (vP.readAt (Elt F) (Rect.unit (s := SP) offP SL.size inbP).toLoadRect P))
    (x : SL.Idx) :
    w x = rowG vX vP X P prow0 hprow ((Rect.unit (s := SS) offS SL.size inbS').emb x) := by
  subst hw hS hP hr
  show FloatOps.addf (vX.read (Elt F) X _) (vP.read (Elt F) P _) = FloatOps.addf (vX.read (Elt F) X _) (vP.read (Elt F) P _)
  refine congrArg₂ FloatOps.addf rfl (congrArg (vP.read (Elt F) P) (funext fun a => Fin.ext ?_))
  match a with
  | ⟨0, _⟩ =>
    show r + prow0 + 1 * (x 0).val = r + 1 * (x 0).val + prow0
    omega
  | ⟨1, _⟩ => rfl

/-- Entry (r, c) lies in the one-row, sixteen-lane rectangle at (r, c0) when c0 ≤ c < c0 + 16. -/
theorem mem_unit (off : Fin 2 → ℕ) (inb : ∀ a, off a + SL.size a ≤ SS.size a) (r c : Fin 128) (rr c0 : ℕ)
    (h : off = ![rr, c0]) (hrr : rr = r.val) (h0 : c0 ≤ c.val) (h1 : c.val < c0 + 16) :
    (ix2 r c : SS.Idx) ∈ (Rect.unit (s := SS) off SL.size inb).set := by
  subst h hrr
  rw [Rect.mem_set_unit]
  intro a
  match a with
  | ⟨0, _⟩ => show r.val ≤ r.val ∧ r.val < r.val + 1; omega
  | ⟨1, _⟩ => show c0 ≤ c.val ∧ c.val < c0 + 16; omega

/-- A column below 128 lies in one of the eight blocks of sixteen. -/
theorem col_block (c : Fin 128) :
    (0 ≤ c.val ∧ c.val < 0 + 16) ∨ (16 ≤ c.val ∧ c.val < 16 + 16) ∨ (32 ≤ c.val ∧ c.val < 32 + 16) ∨ (48 ≤ c.val ∧ c.val < 48 + 16)
    ∨ (64 ≤ c.val ∧ c.val < 64 + 16) ∨ (80 ≤ c.val ∧ c.val < 80 + 16) ∨ (96 ≤ c.val ∧ c.val < 96 + 16) ∨ (112 ≤ c.val ∧ c.val < 112 + 16) := by
  have := c.isLt
  omega

end Row

end RowsLib

end
-- ==== Proof.RowsValueA.lean ====
/-
  The slot of sums after each of the row loops 1 to 16.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsA
import proofs.«208673_g37134287241914_cont_8to1_b_302_3_alg».proof.Proof.RowsLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### the value of row loop 1 (slot 0, positional rows 0 … 127) -/

theorem trips_t1 : k0_t1_loop.trips = 128 := rfl

set_option maxHeartbeats 2000000 in
/-- Every piece of a trip of row loop 1 is the row sum on its rectangle. -/
theorem trip_pieces_t1 (d : Dev nD) (L : grid0.Coords) (v2 : BitVec 32) (X : BufTy.Contents (Elt F) (ibS0).view.ty) (P : BufTy.Contents (Elt F) (qV).view.ty) (k : Fin k0_t1_loop.trips) :
    ∀ p ∈ tripL_t1 (F := F) d L v2 X P k, ∀ x : p.1.shape.Idx, p.2 x = RowsLib.rowG (ibS0).view (qV).view X P 0 (by omega) (p.1.emb x) := by
  unfold tripL_t1 trip_t1
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off16_inb k) (k0_off16_inb k) (k0_off17_inb k) k.val (k.val + 0) 112 (k0_off16_eq k) (k0_off17_eq k) rfl _ (RowsLib.lane_sum _ _ _ _) x
  · exact fun x => RowsLib.piece_eq _ _ X P 0 _ _ _ (k0_off14_inb k) (k0_off14_inb k) (k0_off15_inb k) k.val (k.val + 0) 96 (k0_off14_eq k) (k0_off15_eq k) rfl _ (RowsLib.lane_sum _ _ _ _) x
  · exact fun x => RowsLib.piece_eq _ _ X P 0 _ _ _ (k0_off12_inb k) (k0_off12_inb k) (k0_off13_inb k) k.val (k.val + 0) 80 (k0_off12_eq k) (k0_off13_eq k) rfl _ (RowsLib.lane_sum _ _ _ _) x
  · exact fun x => RowsLib.piece_eq _ _ X P 0 _ _ _ (k0_off10_inb k) (k0_off10_inb k) (k0_off11_inb k) k.val (k.val + 0) 64 (k0_off10_eq k) (k0_off11_eq k) rfl _ (RowsLib.lane_sum _ _ _ _) x
  · exact fun x => RowsLib.piece_eq _ _ X P 0 _ _ _ (k0_off8_inb k) (k0_off8_inb k) (k0_off9_inb k) k.val (k.val + 0) 48 (k0_off8_eq k) (k0_off9_eq k) rfl _ (RowsLib.lane_sum _ _ _ _) x
  · exact fun x => RowsLib.piece_eq _ _ X P 0 _ _ _ (k0_off6_inb k) (k0_off6_inb k) (k0_off7_inb k) k.val (k.val + 0) 32 (k0_off6_eq k) (k0_off7_eq k) rfl _ (RowsLib.lane_sum _ _ _ _) x
  · exact fun x => RowsLib.piece_eq _ _ X P 0 _ _ _ (k0_off4_inb k) (k0_off4_inb k) (k0_off5_inb k) k.val (k.val + 0) 16 (k0_off4_eq k) (k0_off5_eq k) rfl _ (RowsLib.lane_sum _ _ _ _) x
  · exact fun x => RowsLib.piece_eq _ _ X P 0 _ _ _ (k0_off2_inb k) (k0_off2_inb k) (k0_off3_inb k) k.val (k.val + 0) 0 (k0_off2_eq k) (k0_off3_eq k) rfl _ (RowsLib.lane_sum _ _ _ _) x

set_option maxHeartbeats 2000000 in
/-- The eight pieces of trip k cover row k. -/
theorem trip_cover_t1 (d : Dev nD) (L : grid0.Coords) (v2 : BitVec 32) (X : BufTy.Contents (Elt F) (ibS0).view.ty) (P : BufTy.Contents (Elt F) (qV).view.ty)
    (k : Fin k0_t1_loop.trips) (r c : Fin 128) (hr : k.val = r.val) :
    ∃ p ∈ tripL_t1 (F := F) d L v2 X P k, (ValueIdx.ix2 r c : RowsLib.SS.Idx) ∈ p.1.set := by
  unfold tripL_t1 trip_t1
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off2_inb k) r c k.val 0 (k0_off2_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off4_inb k) r c k.val 16 (k0_off4_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off6_inb k) r c k.val 32 (k0_off6_eq k) hr h.1 h.2⟩
  · exact ⟨_, List.mem_cons_of_mem _ (List.mem_cons_of_mem _ (List.mem_cons_of_mem _ (List.mem_cons_of_mem _ (List.mem_cons_self)))), RowsLib.mem_unit _ (k0_off8_inb k) r c k.val 48 (k0_off8_eq k) hr h.1 h.2⟩
  · exact ⟨_, List.mem_cons_of_mem _ (List.mem_cons_of_mem _ (List.mem_cons_of_mem _ (List.mem_cons_self))), RowsLib.mem_unit _ (k0_off10_inb k) r c k.val 64 (k0_off10_eq k) hr h.1 h.2⟩
  · exact ⟨_, List.mem_cons_of_mem _ (List.mem_cons_of_mem _ (List.mem_cons_self)), RowsLib.mem_unit _ (k0_off12_inb k) r c k.val 80 (k0_off12_eq k) hr h.1 h.2⟩
  · exact ⟨_, List.mem_cons_of_mem _ (List.mem_cons_self), RowsLib.mem_unit _ (k0_off14_inb k) r c k.val 96 (k0_off14_eq k) hr h.1 h.2⟩
  · exact ⟨_, List.mem_cons_self, RowsLib.mem_unit _ (k0_off16_inb k) r c k.val 112 (k0_off16_eq k) hr h.1 h.2⟩

/-- The slot of sums after row loop 1, as the row-sum function: at (r, c) the gathered rows' entry plus the positional scratch's entry of row r + 0. -/
theorem rows_t1_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t1 (F := F) d L v2 X P 128)) (ValueIdx.ix2 r c)
      = RowsLib.rowG (ibS0).view (qV).view X P 0 (by omega) (ValueIdx.ix2 r c) :=
  RowsLib.read_writes_trips (n := k0_t1_loop.trips) (pb_t1 (F := F) d L v2 X P) (tripL_t1 (F := F) d L v2 X P) (obS0).view G _
    rfl (pb_t1_succ (F := F) d L v2 X P) (trip_pieces_t1 d L v2 X P) _ ⟨r.val, r.isLt⟩ (trip_cover_t1 d L v2 X P ⟨r.val, r.isLt⟩ r c rfl)

/-- THE SLOT OF SUMS AFTER ROW LOOP 1, whatever it held before: at (r, c) the gathered rows' entry (r, c) plus the positional
    scratch's entry (r + 0, c). -/
theorem rows_t1 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t1 (F := F) d L v2 X P (Scf.trips k0_t1_loop.lb k0_t1_loop.ub k0_t1_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t1_G d L v2 X P G r c

/-! ### the value of row loop 2 (slot 1, positional rows 128 … 255) -/

theorem trips_t2 : k0_t2_loop.trips = 128 := rfl

set_option maxHeartbeats 2000000 in
/-- Every piece of a trip of row loop 2 is the row sum on its rectangle. -/
theorem trip_pieces_t2 (d : Dev nD) (L : grid0.Coords) (v2 : BitVec 32) (X : BufTy.Contents (Elt F) (ibS1).view.ty) (P : BufTy.Contents (Elt F) (qV).view.ty) (k : Fin k0_t2_loop.trips) :
    ∀ p ∈ tripL_t2 (F := F) d L v2 X P k, ∀ x : p.1.shape.Idx, p.2 x = RowsLib.rowG (ibS1).view (qV).view X P 128 (by omega) (p.1.emb x) := by
  unfold tripL_t2 trip_t2
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off33_inb k) (k0_off33_inb k) (k0_off34_inb k) k.val (k.val + 128) 112 (k0_off33_eq k) (k0_off34_eq k) rfl _ (RowsLib.lane_sum _ _ _ _) x
  · exact fun x => RowsLib.piece_eq _ _ X P 128 _ _ _ (k0_off31_inb k) (k0_off31_inb k) (k0_off32_inb k) k.val (k.val + 128) 96 (k0_off31_eq k) (k0_off32_eq k) rfl _ (RowsLib.lane_sum _ _ _ _) x
  · exact fun x => RowsLib.piece_eq _ _ X P 128 _ _ _ (k0_off29_inb k) (k0_off29_inb k) (k0_off30_inb k) k.val (k.val + 128) 80 (k0_off29_eq k) (k0_off30_eq k) rfl _ (RowsLib.lane_sum _ _ _ _) x
  · exact fun x => RowsLib.piece_eq _ _ X P 128 _ _ _ (k0_off27_inb k) (k0_off27_inb k) (k0_off28_inb k) k.val (k.val + 128) 64 (k0_off27_eq k) (k0_off28_eq k) rfl _ (RowsLib.lane_sum _ _ _ _) x
  · exact fun x => RowsLib.piece_eq _ _ X P 128 _ _ _ (k0_off25_inb k) (k0_off25_inb k) (k0_off26_inb k) k.val (k.val + 128) 48 (k0_off25_eq k) (k0_off26_eq k) rfl _ (RowsLib.lane_sum _ _ _ _) x
  · exact fun x => RowsLib.piece_eq _ _ X P 128 _ _ _ (k0_off23_inb k) (k0_off23_inb k) (k0_off24_inb k) k.val (k.val + 128) 32 (k0_off23_eq k) (k0_off24_eq k) rfl _ (RowsLib.lane_sum _ _ _ _) x
  · exact fun x => RowsLib.piece_eq _ _ X P 128 _ _ _ (k0_off21_inb k) (k0_off21_inb k) (k0_off22_inb k) k.val (k.val + 128) 16 (k0_off21_eq k) (k0_off22_eq k) rfl _ (RowsLib.lane_sum _ _ _ _) x
  · exact fun x => RowsLib.piece_eq _ _ X P 128 _ _ _ (k0_off19_inb k) (k0_off19_inb k) (k0_off20_inb k) k.val (k.val + 128) 0 (k0_off19_eq k) (k0_off20_eq k) rfl _ (RowsLib.lane_sum _ _ _ _) x

set_option maxHeartbeats 2000000 in
/-- The eight pieces of trip k cover row k. -/
theorem trip_cover_t2 (d : Dev nD) (L : grid0.Coords) (v2 : BitVec 32) (X : BufTy.Contents (Elt F) (ibS1).view.ty) (P : BufTy.Contents (Elt F) (qV).view.ty)
    (k : Fin k0_t2_loop.trips) (r c : Fin 128) (hr : k.val = r.val) :
    ∃ p ∈ tripL_t2 (F := F) d L v2 X P k, (ValueIdx.ix2 r c : RowsLib.SS.Idx) ∈ p.1.set := by
  unfold tripL_t2 trip_t2
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off19_inb k) r c k.val 0 (k0_off19_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off21_inb k) r c k.val 16 (k0_off21_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off23_inb k) r c k.val 32 (k0_off23_eq k) hr h.1 h.2⟩
  · exact ⟨_, List.mem_cons_of_mem _ (List.mem_cons_of_mem _ (List.mem_cons_of_mem _ (List.mem_cons_of_mem _ (List.mem_cons_self)))), RowsLib.mem_unit _ (k0_off25_inb k) r c k.val 48 (k0_off25_eq k) hr h.1 h.2⟩
  · exact ⟨_, List.mem_cons_of_mem _ (List.mem_cons_of_mem _ (List.mem_cons_of_mem _ (List.mem_cons_self))), RowsLib.mem_unit _ (k0_off27_inb k) r c k.val 64 (k0_off27_eq k) hr h.1 h.2⟩
  · exact ⟨_, List.mem_cons_of_mem _ (List.mem_cons_of_mem _ (List.mem_cons_self)), RowsLib.mem_unit _ (k0_off29_inb k) r c k.val 80 (k0_off29_eq k) hr h.1 h.2⟩
  · exact ⟨_, List.mem_cons_of_mem _ (List.mem_cons_self), RowsLib.mem_unit _ (k0_off31_inb k) r c k.val 96 (k0_off31_eq k) hr h.1 h.2⟩
  · exact ⟨_, List.mem_cons_self, RowsLib.mem_unit _ (k0_off33_inb k) r c k.val 112 (k0_off33_eq k) hr h.1 h.2⟩

/-- The slot of sums after row loop 2, as the row-sum function: at (r, c) the gathered rows' entry plus the positional scratch's entry of row r + 128. -/
theorem rows_t2_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t2 (F := F) d L v2 X P 128)) (ValueIdx.ix2 r c)
      = RowsLib.rowG (ibS1).view (qV).view X P 128 (by omega) (ValueIdx.ix2 r c) :=
  RowsLib.read_writes_trips (n := k0_t2_loop.trips) (pb_t2 (F := F) d L v2 X P) (tripL_t2 (F := F) d L v2 X P) (obS1).view G _
    rfl (pb_t2_succ (F := F) d L v2 X P) (trip_pieces_t2 d L v2 X P) _ ⟨r.val, r.isLt⟩ (trip_cover_t2 d L v2 X P ⟨r.val, r.isLt⟩ r c rfl)

/-- THE SLOT OF SUMS AFTER ROW LOOP 2, whatever it held before: at (r, c) the gathered rows' entry (r, c) plus the positional
    scratch's entry (r + 128, c). -/
theorem rows_t2 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t2 (F := F) d L v2 X P (Scf.trips k0_t2_loop.lb k0_t2_loop.ub k0_t2_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t2_G d L v2 X P G r c

/-! ### the value of row loop 3 (slot 0, positional rows 0 … 127) -/

theorem trips_t3 : k0_t3_loop.trips = 128 := rfl

set_option maxHeartbeats 2000000 in
/-- Every piece of a trip of row loop 3 is the row sum on its rectangle. -/
theorem trip_pieces_t3 (d : Dev nD) (L : grid0.Coords) (v2 wa wb : BitVec 32) (X : BufTy.Contents (Elt F) (ibS0).view.ty) (P : BufTy.Contents (Elt F) (qV).view.ty) (k : Fin k0_t3_loop.trips) :
    ∀ p ∈ tripL_t3 (F := F) d L v2 wa wb X P k, ∀ x : p.1.shape.Idx, p.2 x = RowsLib.rowG (ibS0).view (qV).view X P 0 (by omega) (p.1.emb x) := by
  unfold tripL_t3 trip_t3
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off49_inb k) (k0_off49_inb k) (k0_off50_inb k) k.val (k.val + 0) 112 (k0_off49_eq k) (k0_off50_eq k) rfl _ (RowsLib.lane_sum _ _ _ _) x
  · exact fun x => RowsLib.piece_eq _ _ X P 0 _ _ _ (k0_off47_inb k) (k0_off47_inb k) (k0_off48_inb k) k.val (k.val + 0) 96 (k0_off47_eq k) (k0_off48_eq k) rfl _ (RowsLib.lane_sum _ _ _ _) x
  · exact fun x => RowsLib.piece_eq _ _ X P 0 _ _ _ (k0_off45_inb k) (k0_off45_inb k) (k0_off46_inb k) k.val (k.val + 0) 80 (k0_off45_eq k) (k0_off46_eq k) rfl _ (RowsLib.lane_sum _ _ _ _) x
  · exact fun x => RowsLib.piece_eq _ _ X P 0 _ _ _ (k0_off43_inb k) (k0_off43_inb k) (k0_off44_inb k) k.val (k.val + 0) 64 (k0_off43_eq k) (k0_off44_eq k) rfl _ (RowsLib.lane_sum _ _ _ _) x
  · exact fun x => RowsLib.piece_eq _ _ X P 0 _ _ _ (k0_off41_inb k) (k0_off41_inb k) (k0_off42_inb k) k.val (k.val + 0) 48 (k0_off41_eq k) (k0_off42_eq k) rfl _ (RowsLib.lane_sum _ _ _ _) x
  · exact fun x => RowsLib.piece_eq _ _ X P 0 _ _ _ (k0_off39_inb k) (k0_off39_inb k) (k0_off40_inb k) k.val (k.val + 0) 32 (k0_off39_eq k) (k0_off40_eq k) rfl _ (RowsLib.lane_sum _ _ _ _) x
  · exact fun x => RowsLib.piece_eq _ _ X P 0 _ _ _ (k0_off37_inb k) (k0_off37_inb k) (k0_off38_inb k) k.val (k.val + 0) 16 (k0_off37_eq k) (k0_off38_eq k) rfl _ (RowsLib.lane_sum _ _ _ _) x
  · exact fun x => RowsLib.piece_eq _ _ X P 0 _ _ _ (k0_off35_inb k) (k0_off35_inb k) (k0_off36_inb k) k.val (k.val + 0) 0 (k0_off35_eq k) (k0_off36_eq k) rfl _ (RowsLib.lane_sum _ _ _ _) x

set_option maxHeartbeats 2000000 in
/-- The eight pieces of trip k cover row k. -/
theorem trip_cover_t3 (d : Dev nD) (L : grid0.Coords) (v2 wa wb : BitVec 32) (X : BufTy.Contents (Elt F) (ibS0).view.ty) (P : BufTy.Contents (Elt F) (qV).view.ty)
    (k : Fin k0_t3_loop.trips) (r c : Fin 128) (hr : k.val = r.val) :
    ∃ p ∈ tripL_t3 (F := F) d L v2 wa wb X P k, (ValueIdx.ix2 r c : RowsLib.SS.Idx) ∈ p.1.set := by
  unfold tripL_t3 trip_t3
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off35_inb k) r c k.val 0 (k0_off35_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off37_inb k) r c k.val 16 (k0_off37_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off39_inb k) r c k.val 32 (k0_off39_eq k) hr h.1 h.2⟩
  · exact ⟨_, List.mem_cons_of_mem _ (List.mem_cons_of_mem _ (List.mem_cons_of_mem _ (List.mem_cons_of_mem _ (List.mem_cons_self)))), RowsLib.mem_unit _ (k0_off41_inb k) r c k.val 48 (k0_off41_eq k) hr h.1 h.2⟩
  · exact ⟨_, List.mem_cons_of_mem _ (List.mem_cons_of_mem _ (List.mem_cons_of_mem _ (List.mem_cons_self))), RowsLib.mem_unit _ (k0_off43_inb k) r c k.val 64 (k0_off43_eq k) hr h.1 h.2⟩
  · exact ⟨_, List.mem_cons_of_mem _ (List.mem_cons_of_mem _ (List.mem_cons_self)), RowsLib.mem_unit _ (k0_off45_inb k) r c k.val 80 (k0_off45_eq k) hr h.1 h.2⟩
  · exact ⟨_, List.mem_cons_of_mem _ (List.mem_cons_self), RowsLib.mem_unit _ (k0_off47_inb k) r c k.val 96 (k0_off47_eq k) hr h.1 h.2⟩
  · exact ⟨_, List.mem_cons_self, RowsLib.mem_unit _ (k0_off49_inb k) r c k.val 112 (k0_off49_eq k) hr h.1 h.2⟩

/-- The slot of sums after row loop 3, as the row-sum function: at (r, c) the gathered rows' entry plus the positional scratch's entry of row r + 0. -/
theorem rows_t3_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t3 (F := F) d L v2 wa wb X P 128)) (ValueIdx.ix2 r c)
      = RowsLib.rowG (ibS0).view (qV).view X P 0 (by omega) (ValueIdx.ix2 r c) :=
  RowsLib.read_writes_trips (n := k0_t3_loop.trips) (pb_t3 (F := F) d L v2 wa wb X P) (tripL_t3 (F := F) d L v2 wa wb X P) (obS0).view G _
    rfl (pb_t3_succ (F := F) d L v2 wa wb X P) (trip_pieces_t3 d L v2 wa wb X P) _ ⟨r.val, r.isLt⟩ (trip_cover_t3 d L v2 wa wb X P ⟨r.val, r.isLt⟩ r c rfl)

/-- THE SLOT OF SUMS AFTER ROW LOOP 3, whatever it held before: at (r, c) the gathered rows' entry (r, c) plus the positional
    scratch's entry (r + 0, c). -/
theorem rows_t3 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t3 (F := F) d L v2 wa wb X P (Scf.trips k0_t3_loop.lb k0_t3_loop.ub k0_t3_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t3_G d L v2 wa wb X P G r c

/-! ### the value of row loop 4 (slot 1, positional rows 128 … 255) -/

theorem trips_t4 : k0_t4_loop.trips = 128 := rfl

set_option maxHeartbeats 2000000 in
/-- Every piece of a trip of row loop 4 is the row sum on its rectangle. -/
theorem trip_pieces_t4 (d : Dev nD) (L : grid0.Coords) (v2 : BitVec 32) (X : BufTy.Contents (Elt F) (ibS1).view.ty) (P : BufTy.Contents (Elt F) (qV).view.ty) (k : Fin k0_t4_loop.trips) :
    ∀ p ∈ tripL_t4 (F := F) d L v2 X P k, ∀ x : p.1.shape.Idx, p.2 x = RowsLib.rowG (ibS1).view (qV).view X P 128 (by omega) (p.1.emb x) := by
  unfold tripL_t4 trip_t4
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off65_inb k) (k0_off65_inb k) (k0_off66_inb k) k.val (k.val + 128) 112 (k0_off65_eq k) (k0_off66_eq k) rfl _ (RowsLib.lane_sum _ _ _ _) x
  · exact fun x => RowsLib.piece_eq _ _ X P 128 _ _ _ (k0_off63_inb k) (k0_off63_inb k) (k0_off64_inb k) k.val (k.val + 128) 96 (k0_off63_eq k) (k0_off64_eq k) rfl _ (RowsLib.lane_sum _ _ _ _) x
  · exact fun x => RowsLib.piece_eq _ _ X P 128 _ _ _ (k0_off61_inb k) (k0_off61_inb k) (k0_off62_inb k) k.val (k.val + 128) 80 (k0_off61_eq k) (k0_off62_eq k) rfl _ (RowsLib.lane_sum _ _ _ _) x
  · exact fun x => RowsLib.piece_eq _ _ X P 128 _ _ _ (k0_off59_inb k) (k0_off59_inb k) (k0_off60_inb k) k.val (k.val + 128) 64 (k0_off59_eq k) (k0_off60_eq k) rfl _ (RowsLib.lane_sum _ _ _ _) x
  · exact fun x => RowsLib.piece_eq _ _ X P 128 _ _ _ (k0_off57_inb k) (k0_off57_inb k) (k0_off58_inb k) k.val (k.val + 128) 48 (k0_off57_eq k) (k0_off58_eq k) rfl _ (RowsLib.lane_sum _ _ _ _) x
  · exact fun x => RowsLib.piece_eq _ _ X P 128 _ _ _ (k0_off55_inb k) (k0_off55_inb k) (k0_off56_inb k) k.val (k.val + 128) 32 (k0_off55_eq k) (k0_off56_eq k) rfl _ (RowsLib.lane_sum _ _ _ _) x
  · exact fun x => RowsLib.piece_eq _ _ X P 128 _ _ _ (k0_off53_inb k) (k0_off53_inb k) (k0_off54_inb k) k.val (k.val + 128) 16 (k0_off53_eq k) (k0_off54_eq k) rfl _ (RowsLib.lane_sum _ _ _ _) x
  · exact fun x => RowsLib.piece_eq _ _ X P 128 _ _ _ (k0_off51_inb k) (k0_off51_inb k) (k0_off52_inb k) k.val (k.val + 128) 0 (k0_off51_eq k) (k0_off52_eq k) rfl _ (RowsLib.lane_sum _ _ _ _) x

set_option maxHeartbeats 2000000 in
/-- The eight pieces of trip k cover row k. -/
theorem trip_cover_t4 (d : Dev nD) (L : grid0.Coords) (v2 : BitVec 32) (X : BufTy.Contents (Elt F) (ibS1).view.ty) (P : BufTy.Contents (Elt F) (qV).view.ty)
    (k : Fin k0_t4_loop.trips) (r c : Fin 128) (hr : k.val = r.val) :
    ∃ p ∈ tripL_t4 (F := F) d L v2 X P k, (ValueIdx.ix2 r c : RowsLib.SS.Idx) ∈ p.1.set := by
  unfold tripL_t4 trip_t4
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off51_inb k) r c k.val 0 (k0_off51_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off53_inb k) r c k.val 16 (k0_off53_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off55_inb k) r c k.val 32 (k0_off55_eq k) hr h.1 h.2⟩
  · exact ⟨_, List.mem_cons_of_mem _ (List.mem_cons_of_mem _ (List.mem_cons_of_mem _ (List.mem_cons_of_mem _ (List.mem_cons_self)))), RowsLib.mem_unit _ (k0_off57_inb k) r c k.val 48 (k0_off57_eq k) hr h.1 h.2⟩
  · exact ⟨_, List.mem_cons_of_mem _ (List.mem_cons_of_mem _ (List.mem_cons_of_mem _ (List.mem_cons_self))), RowsLib.mem_unit _ (k0_off59_inb k) r c k.val 64 (k0_off59_eq k) hr h.1 h.2⟩
  · exact ⟨_, List.mem_cons_of_mem _ (List.mem_cons_of_mem _ (List.mem_cons_self)), RowsLib.mem_unit _ (k0_off61_inb k) r c k.val 80 (k0_off61_eq k) hr h.1 h.2⟩
  · exact ⟨_, List.mem_cons_of_mem _ (List.mem_cons_self), RowsLib.mem_unit _ (k0_off63_inb k) r c k.val 96 (k0_off63_eq k) hr h.1 h.2⟩
  · exact ⟨_, List.mem_cons_self, RowsLib.mem_unit _ (k0_off65_inb k) r c k.val 112 (k0_off65_eq k) hr h.1 h.2⟩

/-- The slot of sums after row loop 4, as the row-sum function: at (r, c) the gathered rows' entry plus the positional scratch's entry of row r + 128. -/
theorem rows_t4_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t4 (F := F) d L v2 X P 128)) (ValueIdx.ix2 r c)
      = RowsLib.rowG (ibS1).view (qV).view X P 128 (by omega) (ValueIdx.ix2 r c) :=
  RowsLib.read_writes_trips (n := k0_t4_loop.trips) (pb_t4 (F := F) d L v2 X P) (tripL_t4 (F := F) d L v2 X P) (obS1).view G _
    rfl (pb_t4_succ (F := F) d L v2 X P) (trip_pieces_t4 d L v2 X P) _ ⟨r.val, r.isLt⟩ (trip_cover_t4 d L v2 X P ⟨r.val, r.isLt⟩ r c rfl)

/-- THE SLOT OF SUMS AFTER ROW LOOP 4, whatever it held before: at (r, c) the gathered rows' entry (r, c) plus the positional
    scratch's entry (r + 128, c). -/
theorem rows_t4 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t4 (F := F) d L v2 X P (Scf.trips k0_t4_loop.lb k0_t4_loop.ub k0_t4_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t4_G d L v2 X P G r c

/-! ### the value of row loop 5 (slot 0, positional rows 0 … 127) -/

theorem trips_t5 : k0_t5_loop.trips = 128 := rfl

set_option maxHeartbeats 2000000 in
/-- Every piece of a trip of row loop 5 is the row sum on its rectangle. -/
theorem trip_pieces_t5 (d : Dev nD) (L : grid0.Coords) (v2 : BitVec 32) (X : BufTy.Contents (Elt F) (ibS0).view.ty) (P : BufTy.Contents (Elt F) (qV).view.ty) (k : Fin k0_t5_loop.trips) :
    ∀ p ∈ tripL_t5 (F := F) d L v2 X P k, ∀ x : p.1.shape.Idx, p.2 x = RowsLib.rowG (ibS0).view (qV).view X P 0 (by omega) (p.1.emb x) := by
  unfold tripL_t5 trip_t5
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off81_inb k) (k0_off81_inb k) (k0_off82_inb k) k.val (k.val + 0) 112 (k0_off81_eq k) (k0_off82_eq k) rfl _ (RowsLib.lane_sum _ _ _ _) x
  · exact fun x => RowsLib.piece_eq _ _ X P 0 _ _ _ (k0_off79_inb k) (k0_off79_inb k) (k0_off80_inb k) k.val (k.val + 0) 96 (k0_off79_eq k) (k0_off80_eq k) rfl _ (RowsLib.lane_sum _ _ _ _) x
  · exact fun x => RowsLib.piece_eq _ _ X P 0 _ _ _ (k0_off77_inb k) (k0_off77_inb k) (k0_off78_inb k) k.val (k.val + 0) 80 (k0_off77_eq k) (k0_off78_eq k) rfl _ (RowsLib.lane_sum _ _ _ _) x
  · exact fun x => RowsLib.piece_eq _ _ X P 0 _ _ _ (k0_off75_inb k) (k0_off75_inb k) (k0_off76_inb k) k.val (k.val + 0) 64 (k0_off75_eq k) (k0_off76_eq k) rfl _ (RowsLib.lane_sum _ _ _ _) x
  · exact fun x => RowsLib.piece_eq _ _ X P 0 _ _ _ (k0_off73_inb k) (k0_off73_inb k) (k0_off74_inb k) k.val (k.val + 0) 48 (k0_off73_eq k) (k0_off74_eq k) rfl _ (RowsLib.lane_sum _ _ _ _) x
  · exact fun x => RowsLib.piece_eq _ _ X P 0 _ _ _ (k0_off71_inb k) (k0_off71_inb k) (k0_off72_inb k) k.val (k.val + 0) 32 (k0_off71_eq k) (k0_off72_eq k) rfl _ (RowsLib.lane_sum _ _ _ _) x
  · exact fun x => RowsLib.piece_eq _ _ X P 0 _ _ _ (k0_off69_inb k) (k0_off69_inb k) (k0_off70_inb k) k.val (k.val + 0) 16 (k0_off69_eq k) (k0_off70_eq k) rfl _ (RowsLib.lane_sum _ _ _ _) x
  · exact fun x => RowsLib.piece_eq _ _ X P 0 _ _ _ (k0_off67_inb k) (k0_off67_inb k) (k0_off68_inb k) k.val (k.val + 0) 0 (k0_off67_eq k) (k0_off68_eq k) rfl _ (RowsLib.lane_sum _ _ _ _) x

set_option maxHeartbeats 2000000 in
/-- The eight pieces of trip k cover row k. -/
theorem trip_cover_t5 (d : Dev nD) (L : grid0.Coords) (v2 : BitVec 32) (X : BufTy.Contents (Elt F) (ibS0).view.ty) (P : BufTy.Contents (Elt F) (qV).view.ty)
    (k : Fin k0_t5_loop.trips) (r c : Fin 128) (hr : k.val = r.val) :
    ∃ p ∈ tripL_t5 (F := F) d L v2 X P k, (ValueIdx.ix2 r c : RowsLib.SS.Idx) ∈ p.1.set := by
  unfold tripL_t5 trip_t5
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off67_inb k) r c k.val 0 (k0_off67_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off69_inb k) r c k.val 16 (k0_off69_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off71_inb k) r c k.val 32 (k0_off71_eq k) hr h.1 h.2⟩
  · exact ⟨_, List.mem_cons_of_mem _ (List.mem_cons_of_mem _ (List.mem_cons_of_mem _ (List.mem_cons_of_mem _ (List.mem_cons_self)))), RowsLib.mem_unit _ (k0_off73_inb k) r c k.val 48 (k0_off73_eq k) hr h.1 h.2⟩
  · exact ⟨_, List.mem_cons_of_mem _ (List.mem_cons_of_mem _ (List.mem_cons_of_mem _ (List.mem_cons_self))), RowsLib.mem_unit _ (k0_off75_inb k) r c k.val 64 (k0_off75_eq k) hr h.1 h.2⟩
  · exact ⟨_, List.mem_cons_of_mem _ (List.mem_cons_of_mem _ (List.mem_cons_self)), RowsLib.mem_unit _ (k0_off77_inb k) r c k.val 80 (k0_off77_eq k) hr h.1 h.2⟩
  · exact ⟨_, List.mem_cons_of_mem _ (List.mem_cons_self), RowsLib.mem_unit _ (k0_off79_inb k) r c k.val 96 (k0_off79_eq k) hr h.1 h.2⟩
  · exact ⟨_, List.mem_cons_self, RowsLib.mem_unit _ (k0_off81_inb k) r c k.val 112 (k0_off81_eq k) hr h.1 h.2⟩

/-- The slot of sums after row loop 5, as the row-sum function: at (r, c) the gathered rows' entry plus the positional scratch's entry of row r + 0. -/
theorem rows_t5_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t5 (F := F) d L v2 X P 128)) (ValueIdx.ix2 r c)
      = RowsLib.rowG (ibS0).view (qV).view X P 0 (by omega) (ValueIdx.ix2 r c) :=
  RowsLib.read_writes_trips (n := k0_t5_loop.trips) (pb_t5 (F := F) d L v2 X P) (tripL_t5 (F := F) d L v2 X P) (obS0).view G _
    rfl (pb_t5_succ (F := F) d L v2 X P) (trip_pieces_t5 d L v2 X P) _ ⟨r.val, r.isLt⟩ (trip_cover_t5 d L v2 X P ⟨r.val, r.isLt⟩ r c rfl)

/-- THE SLOT OF SUMS AFTER ROW LOOP 5, whatever it held before: at (r, c) the gathered rows' entry (r, c) plus the positional
    scratch's entry (r + 0, c). -/
theorem rows_t5 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t5 (F := F) d L v2 X P (Scf.trips k0_t5_loop.lb k0_t5_loop.ub k0_t5_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t5_G d L v2 X P G r c

/-! ### the value of row loop 6 (slot 1, positional rows 128 … 255) -/

theorem trips_t6 : k0_t6_loop.trips = 128 := rfl

set_option maxHeartbeats 2000000 in
/-- Every piece of a trip of row loop 6 is the row sum on its rectangle. -/
theorem trip_pieces_t6 (d : Dev nD) (L : grid0.Coords) (v2 : BitVec 32) (X : BufTy.Contents (Elt F) (ibS1).view.ty) (P : BufTy.Contents (Elt F) (qV).view.ty) (k : Fin k0_t6_loop.trips) :
    ∀ p ∈ tripL_t6 (F := F) d L v2 X P k, ∀ x : p.1.shape.Idx, p.2 x = RowsLib.rowG (ibS1).view (qV).view X P 128 (by omega) (p.1.emb x) := by
  unfold tripL_t6 trip_t6
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off97_inb k) (k0_off97_inb k) (k0_off98_inb k) k.val (k.val + 128) 112 (k0_off97_eq k) (k0_off98_eq k) rfl _ (RowsLib.lane_sum _ _ _ _) x
  · exact fun x => RowsLib.piece_eq _ _ X P 128 _ _ _ (k0_off95_inb k) (k0_off95_inb k) (k0_off96_inb k) k.val (k.val + 128) 96 (k0_off95_eq k) (k0_off96_eq k) rfl _ (RowsLib.lane_sum _ _ _ _) x
  · exact fun x => RowsLib.piece_eq _ _ X P 128 _ _ _ (k0_off93_inb k) (k0_off93_inb k) (k0_off94_inb k) k.val (k.val + 128) 80 (k0_off93_eq k) (k0_off94_eq k) rfl _ (RowsLib.lane_sum _ _ _ _) x
  · exact fun x => RowsLib.piece_eq _ _ X P 128 _ _ _ (k0_off91_inb k) (k0_off91_inb k) (k0_off92_inb k) k.val (k.val + 128) 64 (k0_off91_eq k) (k0_off92_eq k) rfl _ (RowsLib.lane_sum _ _ _ _) x
  · exact fun x => RowsLib.piece_eq _ _ X P 128 _ _ _ (k0_off89_inb k) (k0_off89_inb k) (k0_off90_inb k) k.val (k.val + 128) 48 (k0_off89_eq k) (k0_off90_eq k) rfl _ (RowsLib.lane_sum _ _ _ _) x
  · exact fun x => RowsLib.piece_eq _ _ X P 128 _ _ _ (k0_off87_inb k) (k0_off87_inb k) (k0_off88_inb k) k.val (k.val + 128) 32 (k0_off87_eq k) (k0_off88_eq k) rfl _ (RowsLib.lane_sum _ _ _ _) x
  · exact fun x => RowsLib.piece_eq _ _ X P 128 _ _ _ (k0_off85_inb k) (k0_off85_inb k) (k0_off86_inb k) k.val (k.val + 128) 16 (k0_off85_eq k) (k0_off86_eq k) rfl _ (RowsLib.lane_sum _ _ _ _) x
  · exact fun x => RowsLib.piece_eq _ _ X P 128 _ _ _ (k0_off83_inb k) (k0_off83_inb k) (k0_off84_inb k) k.val (k.val + 128) 0 (k0_off83_eq k) (k0_off84_eq k) rfl _ (RowsLib.lane_sum _ _ _ _) x

set_option maxHeartbeats 2000000 in
/-- The eight pieces of trip k cover row k. -/
theorem trip_cover_t6 (d : Dev nD) (L : grid0.Coords) (v2 : BitVec 32) (X : BufTy.Contents (Elt F) (ibS1).view.ty) (P : BufTy.Contents (Elt F) (qV).view.ty)
    (k : Fin k0_t6_loop.trips) (r c : Fin 128) (hr : k.val = r.val) :
    ∃ p ∈ tripL_t6 (F := F) d L v2 X P k, (ValueIdx.ix2 r c : RowsLib.SS.Idx) ∈ p.1.set := by
  unfold tripL_t6 trip_t6
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off83_inb k) r c k.val 0 (k0_off83_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off85_inb k) r c k.val 16 (k0_off85_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off87_inb k) r c k.val 32 (k0_off87_eq k) hr h.1 h.2⟩
  · exact ⟨_, List.mem_cons_of_mem _ (List.mem_cons_of_mem _ (List.mem_cons_of_mem _ (List.mem_cons_of_mem _ (List.mem_cons_self)))), RowsLib.mem_unit _ (k0_off89_inb k) r c k.val 48 (k0_off89_eq k) hr h.1 h.2⟩
  · exact ⟨_, List.mem_cons_of_mem _ (List.mem_cons_of_mem _ (List.mem_cons_of_mem _ (List.mem_cons_self))), RowsLib.mem_unit _ (k0_off91_inb k) r c k.val 64 (k0_off91_eq k) hr h.1 h.2⟩
  · exact ⟨_, List.mem_cons_of_mem _ (List.mem_cons_of_mem _ (List.mem_cons_self)), RowsLib.mem_unit _ (k0_off93_inb k) r c k.val 80 (k0_off93_eq k) hr h.1 h.2⟩
  · exact ⟨_, List.mem_cons_of_mem _ (List.mem_cons_self), RowsLib.mem_unit _ (k0_off95_inb k) r c k.val 96 (k0_off95_eq k) hr h.1 h.2⟩
  · exact ⟨_, List.mem_cons_self, RowsLib.mem_unit _ (k0_off97_inb k) r c k.val 112 (k0_off97_eq k) hr h.1 h.2⟩

/-- The slot of sums after row loop 6, as the row-sum function: at (r, c) the gathered rows' entry plus the positional scratch's entry of row r + 128. -/
theorem rows_t6_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t6 (F := F) d L v2 X P 128)) (ValueIdx.ix2 r c)
      = RowsLib.rowG (ibS1).view (qV).view X P 128 (by omega) (ValueIdx.ix2 r c) :=
  RowsLib.read_writes_trips (n := k0_t6_loop.trips) (pb_t6 (F := F) d L v2 X P) (tripL_t6 (F := F) d L v2 X P) (obS1).view G _
    rfl (pb_t6_succ (F := F) d L v2 X P) (trip_pieces_t6 d L v2 X P) _ ⟨r.val, r.isLt⟩ (trip_cover_t6 d L v2 X P ⟨r.val, r.isLt⟩ r c rfl)

/-- THE SLOT OF SUMS AFTER ROW LOOP 6, whatever it held before: at (r, c) the gathered rows' entry (r, c) plus the positional
    scratch's entry (r + 128, c). -/
theorem rows_t6 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t6 (F := F) d L v2 X P (Scf.trips k0_t6_loop.lb k0_t6_loop.ub k0_t6_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t6_G d L v2 X P G r c

/-! ### the value of row loop 7 (slot 0, positional rows 0 … 127) -/

theorem trips_t7 : k0_t7_loop.trips = 128 := rfl

set_option maxHeartbeats 2000000 in
/-- Every piece of a trip of row loop 7 is the row sum on its rectangle. -/
theorem trip_pieces_t7 (d : Dev nD) (L : grid0.Coords) (v2 : BitVec 32) (X : BufTy.Contents (Elt F) (ibS0).view.ty) (P : BufTy.Contents (Elt F) (qV).view.ty) (k : Fin k0_t7_loop.trips) :
    ∀ p ∈ tripL_t7 (F := F) d L v2 X P k, ∀ x : p.1.shape.Idx, p.2 x = RowsLib.rowG (ibS0).view (qV).view X P 0 (by omega) (p.1.emb x) := by
  unfold tripL_t7 trip_t7
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off113_inb k) (k0_off113_inb k) (k0_off114_inb k) k.val (k.val + 0) 112 (k0_off113_eq k) (k0_off114_eq k) rfl _ (RowsLib.lane_sum _ _ _ _) x
  · exact fun x => RowsLib.piece_eq _ _ X P 0 _ _ _ (k0_off111_inb k) (k0_off111_inb k) (k0_off112_inb k) k.val (k.val + 0) 96 (k0_off111_eq k) (k0_off112_eq k) rfl _ (RowsLib.lane_sum _ _ _ _) x
  · exact fun x => RowsLib.piece_eq _ _ X P 0 _ _ _ (k0_off109_inb k) (k0_off109_inb k) (k0_off110_inb k) k.val (k.val + 0) 80 (k0_off109_eq k) (k0_off110_eq k) rfl _ (RowsLib.lane_sum _ _ _ _) x
  · exact fun x => RowsLib.piece_eq _ _ X P 0 _ _ _ (k0_off107_inb k) (k0_off107_inb k) (k0_off108_inb k) k.val (k.val + 0) 64 (k0_off107_eq k) (k0_off108_eq k) rfl _ (RowsLib.lane_sum _ _ _ _) x
  · exact fun x => RowsLib.piece_eq _ _ X P 0 _ _ _ (k0_off105_inb k) (k0_off105_inb k) (k0_off106_inb k) k.val (k.val + 0) 48 (k0_off105_eq k) (k0_off106_eq k) rfl _ (RowsLib.lane_sum _ _ _ _) x
  · exact fun x => RowsLib.piece_eq _ _ X P 0 _ _ _ (k0_off103_inb k) (k0_off103_inb k) (k0_off104_inb k) k.val (k.val + 0) 32 (k0_off103_eq k) (k0_off104_eq k) rfl _ (RowsLib.lane_sum _ _ _ _) x
  · exact fun x => RowsLib.piece_eq _ _ X P 0 _ _ _ (k0_off101_inb k) (k0_off101_inb k) (k0_off102_inb k) k.val (k.val + 0) 16 (k0_off101_eq k) (k0_off102_eq k) rfl _ (RowsLib.lane_sum _ _ _ _) x
  · exact fun x => RowsLib.piece_eq _ _ X P 0 _ _ _ (k0_off99_inb k) (k0_off99_inb k) (k0_off100_inb k) k.val (k.val + 0) 0 (k0_off99_eq k) (k0_off100_eq k) rfl _ (RowsLib.lane_sum _ _ _ _) x

set_option maxHeartbeats 2000000 in
/-- The eight pieces of trip k cover row k. -/
theorem trip_cover_t7 (d : Dev nD) (L : grid0.Coords) (v2 : BitVec 32) (X : BufTy.Contents (Elt F) (ibS0).view.ty) (P : BufTy.Contents (Elt F) (qV).view.ty)
    (k : Fin k0_t7_loop.trips) (r c : Fin 128) (hr : k.val = r.val) :
    ∃ p ∈ tripL_t7 (F := F) d L v2 X P k, (ValueIdx.ix2 r c : RowsLib.SS.Idx) ∈ p.1.set := by
  unfold tripL_t7 trip_t7
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off99_inb k) r c k.val 0 (k0_off99_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off101_inb k) r c k.val 16 (k0_off101_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off103_inb k) r c k.val 32 (k0_off103_eq k) hr h.1 h.2⟩
  · exact ⟨_, List.mem_cons_of_mem _ (List.mem_cons_of_mem _ (List.mem_cons_of_mem _ (List.mem_cons_of_mem _ (List.mem_cons_self)))), RowsLib.mem_unit _ (k0_off105_inb k) r c k.val 48 (k0_off105_eq k) hr h.1 h.2⟩
  · exact ⟨_, List.mem_cons_of_mem _ (List.mem_cons_of_mem _ (List.mem_cons_of_mem _ (List.mem_cons_self))), RowsLib.mem_unit _ (k0_off107_inb k) r c k.val 64 (k0_off107_eq k) hr h.1 h.2⟩
  · exact ⟨_, List.mem_cons_of_mem _ (List.mem_cons_of_mem _ (List.mem_cons_self)), RowsLib.mem_unit _ (k0_off109_inb k) r c k.val 80 (k0_off109_eq k) hr h.1 h.2⟩
  · exact ⟨_, List.mem_cons_of_mem _ (List.mem_cons_self), RowsLib.mem_unit _ (k0_off111_inb k) r c k.val 96 (k0_off111_eq k) hr h.1 h.2⟩
  · exact ⟨_, List.mem_cons_self, RowsLib.mem_unit _ (k0_off113_inb k) r c k.val 112 (k0_off113_eq k) hr h.1 h.2⟩

/-- The slot of sums after row loop 7, as the row-sum function: at (r, c) the gathered rows' entry plus the positional scratch's entry of row r + 0. -/
theorem rows_t7_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t7 (F := F) d L v2 X P 128)) (ValueIdx.ix2 r c)
      = RowsLib.rowG (ibS0).view (qV).view X P 0 (by omega) (ValueIdx.ix2 r c) :=
  RowsLib.read_writes_trips (n := k0_t7_loop.trips) (pb_t7 (F := F) d L v2 X P) (tripL_t7 (F := F) d L v2 X P) (obS0).view G _
    rfl (pb_t7_succ (F := F) d L v2 X P) (trip_pieces_t7 d L v2 X P) _ ⟨r.val, r.isLt⟩ (trip_cover_t7 d L v2 X P ⟨r.val, r.isLt⟩ r c rfl)

/-- THE SLOT OF SUMS AFTER ROW LOOP 7, whatever it held before: at (r, c) the gathered rows' entry (r, c) plus the positional
    scratch's entry (r + 0, c). -/
theorem rows_t7 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t7 (F := F) d L v2 X P (Scf.trips k0_t7_loop.lb k0_t7_loop.ub k0_t7_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t7_G d L v2 X P G r c

/-! ### the value of row loop 8 (slot 1, positional rows 128 … 255) -/

theorem trips_t8 : k0_t8_loop.trips = 128 := rfl

set_option maxHeartbeats 2000000 in
/-- Every piece of a trip of row loop 8 is the row sum on its rectangle. -/
theorem trip_pieces_t8 (d : Dev nD) (L : grid0.Coords) (v2 : BitVec 32) (X : BufTy.Contents (Elt F) (ibS1).view.ty) (P : BufTy.Contents (Elt F) (qV).view.ty) (k : Fin k0_t8_loop.trips) :
    ∀ p ∈ tripL_t8 (F := F) d L v2 X P k, ∀ x : p.1.shape.Idx, p.2 x = RowsLib.rowG (ibS1).view (qV).view X P 128 (by omega) (p.1.emb x) := by
  unfold tripL_t8 trip_t8
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off129_inb k) (k0_off129_inb k) (k0_off130_inb k) k.val (k.val + 128) 112 (k0_off129_eq k) (k0_off130_eq k) rfl _ (RowsLib.lane_sum _ _ _ _) x
  · exact fun x => RowsLib.piece_eq _ _ X P 128 _ _ _ (k0_off127_inb k) (k0_off127_inb k) (k0_off128_inb k) k.val (k.val + 128) 96 (k0_off127_eq k) (k0_off128_eq k) rfl _ (RowsLib.lane_sum _ _ _ _) x
  · exact fun x => RowsLib.piece_eq _ _ X P 128 _ _ _ (k0_off125_inb k) (k0_off125_inb k) (k0_off126_inb k) k.val (k.val + 128) 80 (k0_off125_eq k) (k0_off126_eq k) rfl _ (RowsLib.lane_sum _ _ _ _) x
  · exact fun x => RowsLib.piece_eq _ _ X P 128 _ _ _ (k0_off123_inb k) (k0_off123_inb k) (k0_off124_inb k) k.val (k.val + 128) 64 (k0_off123_eq k) (k0_off124_eq k) rfl _ (RowsLib.lane_sum _ _ _ _) x
  · exact fun x => RowsLib.piece_eq _ _ X P 128 _ _ _ (k0_off121_inb k) (k0_off121_inb k) (k0_off122_inb k) k.val (k.val + 128) 48 (k0_off121_eq k) (k0_off122_eq k) rfl _ (RowsLib.lane_sum _ _ _ _) x
  · exact fun x => RowsLib.piece_eq _ _ X P 128 _ _ _ (k0_off119_inb k) (k0_off119_inb k) (k0_off120_inb k) k.val (k.val + 128) 32 (k0_off119_eq k) (k0_off120_eq k) rfl _ (RowsLib.lane_sum _ _ _ _) x
  · exact fun x => RowsLib.piece_eq _ _ X P 128 _ _ _ (k0_off117_inb k) (k0_off117_inb k) (k0_off118_inb k) k.val (k.val + 128) 16 (k0_off117_eq k) (k0_off118_eq k) rfl _ (RowsLib.lane_sum _ _ _ _) x
  · exact fun x => RowsLib.piece_eq _ _ X P 128 _ _ _ (k0_off115_inb k) (k0_off115_inb k) (k0_off116_inb k) k.val (k.val + 128) 0 (k0_off115_eq k) (k0_off116_eq k) rfl _ (RowsLib.lane_sum _ _ _ _) x

set_option maxHeartbeats 2000000 in
/-- The eight pieces of trip k cover row k. -/
theorem trip_cover_t8 (d : Dev nD) (L : grid0.Coords) (v2 : BitVec 32) (X : BufTy.Contents (Elt F) (ibS1).view.ty) (P : BufTy.Contents (Elt F) (qV).view.ty)
    (k : Fin k0_t8_loop.trips) (r c : Fin 128) (hr : k.val = r.val) :
    ∃ p ∈ tripL_t8 (F := F) d L v2 X P k, (ValueIdx.ix2 r c : RowsLib.SS.Idx) ∈ p.1.set := by
  unfold tripL_t8 trip_t8
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off115_inb k) r c k.val 0 (k0_off115_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off117_inb k) r c k.val 16 (k0_off117_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off119_inb k) r c k.val 32 (k0_off119_eq k) hr h.1 h.2⟩
  · exact ⟨_, List.mem_cons_of_mem _ (List.mem_cons_of_mem _ (List.mem_cons_of_mem _ (List.mem_cons_of_mem _ (List.mem_cons_self)))), RowsLib.mem_unit _ (k0_off121_inb k) r c k.val 48 (k0_off121_eq k) hr h.1 h.2⟩
  · exact ⟨_, List.mem_cons_of_mem _ (List.mem_cons_of_mem _ (List.mem_cons_of_mem _ (List.mem_cons_self))), RowsLib.mem_unit _ (k0_off123_inb k) r c k.val 64 (k0_off123_eq k) hr h.1 h.2⟩
  · exact ⟨_, List.mem_cons_of_mem _ (List.mem_cons_of_mem _ (List.mem_cons_self)), RowsLib.mem_unit _ (k0_off125_inb k) r c k.val 80 (k0_off125_eq k) hr h.1 h.2⟩
  · exact ⟨_, List.mem_cons_of_mem _ (List.mem_cons_self), RowsLib.mem_unit _ (k0_off127_inb k) r c k.val 96 (k0_off127_eq k) hr h.1 h.2⟩
  · exact ⟨_, List.mem_cons_self, RowsLib.mem_unit _ (k0_off129_inb k) r c k.val 112 (k0_off129_eq k) hr h.1 h.2⟩

/-- The slot of sums after row loop 8, as the row-sum function: at (r, c) the gathered rows' entry plus the positional scratch's entry of row r + 128. -/
theorem rows_t8_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t8 (F := F) d L v2 X P 128)) (ValueIdx.ix2 r c)
      = RowsLib.rowG (ibS1).view (qV).view X P 128 (by omega) (ValueIdx.ix2 r c) :=
  RowsLib.read_writes_trips (n := k0_t8_loop.trips) (pb_t8 (F := F) d L v2 X P) (tripL_t8 (F := F) d L v2 X P) (obS1).view G _
    rfl (pb_t8_succ (F := F) d L v2 X P) (trip_pieces_t8 d L v2 X P) _ ⟨r.val, r.isLt⟩ (trip_cover_t8 d L v2 X P ⟨r.val, r.isLt⟩ r c rfl)

/-- THE SLOT OF SUMS AFTER ROW LOOP 8, whatever it held before: at (r, c) the gathered rows' entry (r, c) plus the positional
    scratch's entry (r + 128, c). -/
theorem rows_t8 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t8 (F := F) d L v2 X P (Scf.trips k0_t8_loop.lb k0_t8_loop.ub k0_t8_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t8_G d L v2 X P G r c

/-! ### the value of row loop 9 (slot 0, positional rows 0 … 127) -/

theorem trips_t9 : k0_t9_loop.trips = 128 := rfl

set_option maxHeartbeats 2000000 in
/-- Every piece of a trip of row loop 9 is the row sum on its rectangle. -/
theorem trip_pieces_t9 (d : Dev nD) (L : grid0.Coords) (v2 : BitVec 32) (X : BufTy.Contents (Elt F) (ibS0).view.ty) (P : BufTy.Contents (Elt F) (qV).view.ty) (k : Fin k0_t9_loop.trips) :
    ∀ p ∈ tripL_t9 (F := F) d L v2 X P k, ∀ x : p.1.shape.Idx, p.2 x = RowsLib.rowG (ibS0).view (qV).view X P 0 (by omega) (p.1.emb x) := by
  unfold tripL_t9 trip_t9
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off145_inb k) (k0_off145_inb k) (k0_off146_inb k) k.val (k.val + 0) 112 (k0_off145_eq k) (k0_off146_eq k) rfl _ (RowsLib.lane_sum _ _ _ _) x
  · exact fun x => RowsLib.piece_eq _ _ X P 0 _ _ _ (k0_off143_inb k) (k0_off143_inb k) (k0_off144_inb k) k.val (k.val + 0) 96 (k0_off143_eq k) (k0_off144_eq k) rfl _ (RowsLib.lane_sum _ _ _ _) x
  · exact fun x => RowsLib.piece_eq _ _ X P 0 _ _ _ (k0_off141_inb k) (k0_off141_inb k) (k0_off142_inb k) k.val (k.val + 0) 80 (k0_off141_eq k) (k0_off142_eq k) rfl _ (RowsLib.lane_sum _ _ _ _) x
  · exact fun x => RowsLib.piece_eq _ _ X P 0 _ _ _ (k0_off139_inb k) (k0_off139_inb k) (k0_off140_inb k) k.val (k.val + 0) 64 (k0_off139_eq k) (k0_off140_eq k) rfl _ (RowsLib.lane_sum _ _ _ _) x
  · exact fun x => RowsLib.piece_eq _ _ X P 0 _ _ _ (k0_off137_inb k) (k0_off137_inb k) (k0_off138_inb k) k.val (k.val + 0) 48 (k0_off137_eq k) (k0_off138_eq k) rfl _ (RowsLib.lane_sum _ _ _ _) x
  · exact fun x => RowsLib.piece_eq _ _ X P 0 _ _ _ (k0_off135_inb k) (k0_off135_inb k) (k0_off136_inb k) k.val (k.val + 0) 32 (k0_off135_eq k) (k0_off136_eq k) rfl _ (RowsLib.lane_sum _ _ _ _) x
  · exact fun x => RowsLib.piece_eq _ _ X P 0 _ _ _ (k0_off133_inb k) (k0_off133_inb k) (k0_off134_inb k) k.val (k.val + 0) 16 (k0_off133_eq k) (k0_off134_eq k) rfl _ (RowsLib.lane_sum _ _ _ _) x
  · exact fun x => RowsLib.piece_eq _ _ X P 0 _ _ _ (k0_off131_inb k) (k0_off131_inb k) (k0_off132_inb k) k.val (k.val + 0) 0 (k0_off131_eq k) (k0_off132_eq k) rfl _ (RowsLib.lane_sum _ _ _ _) x

set_option maxHeartbeats 2000000 in
/-- The eight pieces of trip k cover row k. -/
theorem trip_cover_t9 (d : Dev nD) (L : grid0.Coords) (v2 : BitVec 32) (X : BufTy.Contents (Elt F) (ibS0).view.ty) (P : BufTy.Contents (Elt F) (qV).view.ty)
    (k : Fin k0_t9_loop.trips) (r c : Fin 128) (hr : k.val = r.val) :
    ∃ p ∈ tripL_t9 (F := F) d L v2 X P k, (ValueIdx.ix2 r c : RowsLib.SS.Idx) ∈ p.1.set := by
  unfold tripL_t9 trip_t9
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off131_inb k) r c k.val 0 (k0_off131_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off133_inb k) r c k.val 16 (k0_off133_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off135_inb k) r c k.val 32 (k0_off135_eq k) hr h.1 h.2⟩
  · exact ⟨_, List.mem_cons_of_mem _ (List.mem_cons_of_mem _ (List.mem_cons_of_mem _ (List.mem_cons_of_mem _ (List.mem_cons_self)))), RowsLib.mem_unit _ (k0_off137_inb k) r c k.val 48 (k0_off137_eq k) hr h.1 h.2⟩
  · exact ⟨_, List.mem_cons_of_mem _ (List.mem_cons_of_mem _ (List.mem_cons_of_mem _ (List.mem_cons_self))), RowsLib.mem_unit _ (k0_off139_inb k) r c k.val 64 (k0_off139_eq k) hr h.1 h.2⟩
  · exact ⟨_, List.mem_cons_of_mem _ (List.mem_cons_of_mem _ (List.mem_cons_self)), RowsLib.mem_unit _ (k0_off141_inb k) r c k.val 80 (k0_off141_eq k) hr h.1 h.2⟩
  · exact ⟨_, List.mem_cons_of_mem _ (List.mem_cons_self), RowsLib.mem_unit _ (k0_off143_inb k) r c k.val 96 (k0_off143_eq k) hr h.1 h.2⟩
  · exact ⟨_, List.mem_cons_self, RowsLib.mem_unit _ (k0_off145_inb k) r c k.val 112 (k0_off145_eq k) hr h.1 h.2⟩

/-- The slot of sums after row loop 9, as the row-sum function: at (r, c) the gathered rows' entry plus the positional scratch's entry of row r + 0. -/
theorem rows_t9_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t9 (F := F) d L v2 X P 128)) (ValueIdx.ix2 r c)
      = RowsLib.rowG (ibS0).view (qV).view X P 0 (by omega) (ValueIdx.ix2 r c) :=
  RowsLib.read_writes_trips (n := k0_t9_loop.trips) (pb_t9 (F := F) d L v2 X P) (tripL_t9 (F := F) d L v2 X P) (obS0).view G _
    rfl (pb_t9_succ (F := F) d L v2 X P) (trip_pieces_t9 d L v2 X P) _ ⟨r.val, r.isLt⟩ (trip_cover_t9 d L v2 X P ⟨r.val, r.isLt⟩ r c rfl)

/-- THE SLOT OF SUMS AFTER ROW LOOP 9, whatever it held before: at (r, c) the gathered rows' entry (r, c) plus the positional
    scratch's entry (r + 0, c). -/
theorem rows_t9 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t9 (F := F) d L v2 X P (Scf.trips k0_t9_loop.lb k0_t9_loop.ub k0_t9_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t9_G d L v2 X P G r c

/-! ### the value of row loop 10 (slot 1, positional rows 128 … 255) -/

theorem trips_t10 : k0_t10_loop.trips = 128 := rfl

set_option maxHeartbeats 2000000 in
/-- Every piece of a trip of row loop 10 is the row sum on its rectangle. -/
theorem trip_pieces_t10 (d : Dev nD) (L : grid0.Coords) (v2 : BitVec 32) (X : BufTy.Contents (Elt F) (ibS1).view.ty) (P : BufTy.Contents (Elt F) (qV).view.ty) (k : Fin k0_t10_loop.trips) :
    ∀ p ∈ tripL_t10 (F := F) d L v2 X P k, ∀ x : p.1.shape.Idx, p.2 x = RowsLib.rowG (ibS1).view (qV).view X P 128 (by omega) (p.1.emb x) := by
  unfold tripL_t10 trip_t10
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off161_inb k) (k0_off161_inb k) (k0_off162_inb k) k.val (k.val + 128) 112 (k0_off161_eq k) (k0_off162_eq k) rfl _ (RowsLib.lane_sum _ _ _ _) x
  · exact fun x => RowsLib.piece_eq _ _ X P 128 _ _ _ (k0_off159_inb k) (k0_off159_inb k) (k0_off160_inb k) k.val (k.val + 128) 96 (k0_off159_eq k) (k0_off160_eq k) rfl _ (RowsLib.lane_sum _ _ _ _) x
  · exact fun x => RowsLib.piece_eq _ _ X P 128 _ _ _ (k0_off157_inb k) (k0_off157_inb k) (k0_off158_inb k) k.val (k.val + 128) 80 (k0_off157_eq k) (k0_off158_eq k) rfl _ (RowsLib.lane_sum _ _ _ _) x
  · exact fun x => RowsLib.piece_eq _ _ X P 128 _ _ _ (k0_off155_inb k) (k0_off155_inb k) (k0_off156_inb k) k.val (k.val + 128) 64 (k0_off155_eq k) (k0_off156_eq k) rfl _ (RowsLib.lane_sum _ _ _ _) x
  · exact fun x => RowsLib.piece_eq _ _ X P 128 _ _ _ (k0_off153_inb k) (k0_off153_inb k) (k0_off154_inb k) k.val (k.val + 128) 48 (k0_off153_eq k) (k0_off154_eq k) rfl _ (RowsLib.lane_sum _ _ _ _) x
  · exact fun x => RowsLib.piece_eq _ _ X P 128 _ _ _ (k0_off151_inb k) (k0_off151_inb k) (k0_off152_inb k) k.val (k.val + 128) 32 (k0_off151_eq k) (k0_off152_eq k) rfl _ (RowsLib.lane_sum _ _ _ _) x
  · exact fun x => RowsLib.piece_eq _ _ X P 128 _ _ _ (k0_off149_inb k) (k0_off149_inb k) (k0_off150_inb k) k.val (k.val + 128) 16 (k0_off149_eq k) (k0_off150_eq k) rfl _ (RowsLib.lane_sum _ _ _ _) x
  · exact fun x => RowsLib.piece_eq _ _ X P 128 _ _ _ (k0_off147_inb k) (k0_off147_inb k) (k0_off148_inb k) k.val (k.val + 128) 0 (k0_off147_eq k) (k0_off148_eq k) rfl _ (RowsLib.lane_sum _ _ _ _) x

set_option maxHeartbeats 2000000 in
/-- The eight pieces of trip k cover row k. -/
theorem trip_cover_t10 (d : Dev nD) (L : grid0.Coords) (v2 : BitVec 32) (X : BufTy.Contents (Elt F) (ibS1).view.ty) (P : BufTy.Contents (Elt F) (qV).view.ty)
    (k : Fin k0_t10_loop.trips) (r c : Fin 128) (hr : k.val = r.val) :
    ∃ p ∈ tripL_t10 (F := F) d L v2 X P k, (ValueIdx.ix2 r c : RowsLib.SS.Idx) ∈ p.1.set := by
  unfold tripL_t10 trip_t10
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off147_inb k) r c k.val 0 (k0_off147_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off149_inb k) r c k.val 16 (k0_off149_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off151_inb k) r c k.val 32 (k0_off151_eq k) hr h.1 h.2⟩
  · exact ⟨_, List.mem_cons_of_mem _ (List.mem_cons_of_mem _ (List.mem_cons_of_mem _ (List.mem_cons_of_mem _ (List.mem_cons_self)))), RowsLib.mem_unit _ (k0_off153_inb k) r c k.val 48 (k0_off153_eq k) hr h.1 h.2⟩
  · exact ⟨_, List.mem_cons_of_mem _ (List.mem_cons_of_mem _ (List.mem_cons_of_mem _ (List.mem_cons_self))), RowsLib.mem_unit _ (k0_off155_inb k) r c k.val 64 (k0_off155_eq k) hr h.1 h.2⟩
  · exact ⟨_, List.mem_cons_of_mem _ (List.mem_cons_of_mem _ (List.mem_cons_self)), RowsLib.mem_unit _ (k0_off157_inb k) r c k.val 80 (k0_off157_eq k) hr h.1 h.2⟩
  · exact ⟨_, List.mem_cons_of_mem _ (List.mem_cons_self), RowsLib.mem_unit _ (k0_off159_inb k) r c k.val 96 (k0_off159_eq k) hr h.1 h.2⟩
  · exact ⟨_, List.mem_cons_self, RowsLib.mem_unit _ (k0_off161_inb k) r c k.val 112 (k0_off161_eq k) hr h.1 h.2⟩

/-- The slot of sums after row loop 10, as the row-sum function: at (r, c) the gathered rows' entry plus the positional scratch's entry of row r + 128. -/
theorem rows_t10_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t10 (F := F) d L v2 X P 128)) (ValueIdx.ix2 r c)
      = RowsLib.rowG (ibS1).view (qV).view X P 128 (by omega) (ValueIdx.ix2 r c) :=
  RowsLib.read_writes_trips (n := k0_t10_loop.trips) (pb_t10 (F := F) d L v2 X P) (tripL_t10 (F := F) d L v2 X P) (obS1).view G _
    rfl (pb_t10_succ (F := F) d L v2 X P) (trip_pieces_t10 d L v2 X P) _ ⟨r.val, r.isLt⟩ (trip_cover_t10 d L v2 X P ⟨r.val, r.isLt⟩ r c rfl)

/-- THE SLOT OF SUMS AFTER ROW LOOP 10, whatever it held before: at (r, c) the gathered rows' entry (r, c) plus the positional
    scratch's entry (r + 128, c). -/
theorem rows_t10 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t10 (F := F) d L v2 X P (Scf.trips k0_t10_loop.lb k0_t10_loop.ub k0_t10_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t10_G d L v2 X P G r c

/-! ### the value of row loop 11 (slot 0, positional rows 0 … 127) -/

theorem trips_t11 : k0_t11_loop.trips = 128 := rfl

set_option maxHeartbeats 2000000 in
/-- Every piece of a trip of row loop 11 is the row sum on its rectangle. -/
theorem trip_pieces_t11 (d : Dev nD) (L : grid0.Coords) (v2 : BitVec 32) (X : BufTy.Contents (Elt F) (ibS0).view.ty) (P : BufTy.Contents (Elt F) (qV).view.ty) (k : Fin k0_t11_loop.trips) :
    ∀ p ∈ tripL_t11 (F := F) d L v2 X P k, ∀ x : p.1.shape.Idx, p.2 x = RowsLib.rowG (ibS0).view (qV).view X P 0 (by omega) (p.1.emb x) := by
  unfold tripL_t11 trip_t11
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off177_inb k) (k0_off177_inb k) (k0_off178_inb k) k.val (k.val + 0) 112 (k0_off177_eq k) (k0_off178_eq k) rfl _ (RowsLib.lane_sum _ _ _ _) x
  · exact fun x => RowsLib.piece_eq _ _ X P 0 _ _ _ (k0_off175_inb k) (k0_off175_inb k) (k0_off176_inb k) k.val (k.val + 0) 96 (k0_off175_eq k) (k0_off176_eq k) rfl _ (RowsLib.lane_sum _ _ _ _) x
  · exact fun x => RowsLib.piece_eq _ _ X P 0 _ _ _ (k0_off173_inb k) (k0_off173_inb k) (k0_off174_inb k) k.val (k.val + 0) 80 (k0_off173_eq k) (k0_off174_eq k) rfl _ (RowsLib.lane_sum _ _ _ _) x
  · exact fun x => RowsLib.piece_eq _ _ X P 0 _ _ _ (k0_off171_inb k) (k0_off171_inb k) (k0_off172_inb k) k.val (k.val + 0) 64 (k0_off171_eq k) (k0_off172_eq k) rfl _ (RowsLib.lane_sum _ _ _ _) x
  · exact fun x => RowsLib.piece_eq _ _ X P 0 _ _ _ (k0_off169_inb k) (k0_off169_inb k) (k0_off170_inb k) k.val (k.val + 0) 48 (k0_off169_eq k) (k0_off170_eq k) rfl _ (RowsLib.lane_sum _ _ _ _) x
  · exact fun x => RowsLib.piece_eq _ _ X P 0 _ _ _ (k0_off167_inb k) (k0_off167_inb k) (k0_off168_inb k) k.val (k.val + 0) 32 (k0_off167_eq k) (k0_off168_eq k) rfl _ (RowsLib.lane_sum _ _ _ _) x
  · exact fun x => RowsLib.piece_eq _ _ X P 0 _ _ _ (k0_off165_inb k) (k0_off165_inb k) (k0_off166_inb k) k.val (k.val + 0) 16 (k0_off165_eq k) (k0_off166_eq k) rfl _ (RowsLib.lane_sum _ _ _ _) x
  · exact fun x => RowsLib.piece_eq _ _ X P 0 _ _ _ (k0_off163_inb k) (k0_off163_inb k) (k0_off164_inb k) k.val (k.val + 0) 0 (k0_off163_eq k) (k0_off164_eq k) rfl _ (RowsLib.lane_sum _ _ _ _) x

set_option maxHeartbeats 2000000 in
/-- The eight pieces of trip k cover row k. -/
theorem trip_cover_t11 (d : Dev nD) (L : grid0.Coords) (v2 : BitVec 32) (X : BufTy.Contents (Elt F) (ibS0).view.ty) (P : BufTy.Contents (Elt F) (qV).view.ty)
    (k : Fin k0_t11_loop.trips) (r c : Fin 128) (hr : k.val = r.val) :
    ∃ p ∈ tripL_t11 (F := F) d L v2 X P k, (ValueIdx.ix2 r c : RowsLib.SS.Idx) ∈ p.1.set := by
  unfold tripL_t11 trip_t11
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off163_inb k) r c k.val 0 (k0_off163_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off165_inb k) r c k.val 16 (k0_off165_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off167_inb k) r c k.val 32 (k0_off167_eq k) hr h.1 h.2⟩
  · exact ⟨_, List.mem_cons_of_mem _ (List.mem_cons_of_mem _ (List.mem_cons_of_mem _ (List.mem_cons_of_mem _ (List.mem_cons_self)))), RowsLib.mem_unit _ (k0_off169_inb k) r c k.val 48 (k0_off169_eq k) hr h.1 h.2⟩
  · exact ⟨_, List.mem_cons_of_mem _ (List.mem_cons_of_mem _ (List.mem_cons_of_mem _ (List.mem_cons_self))), RowsLib.mem_unit _ (k0_off171_inb k) r c k.val 64 (k0_off171_eq k) hr h.1 h.2⟩
  · exact ⟨_, List.mem_cons_of_mem _ (List.mem_cons_of_mem _ (List.mem_cons_self)), RowsLib.mem_unit _ (k0_off173_inb k) r c k.val 80 (k0_off173_eq k) hr h.1 h.2⟩
  · exact ⟨_, List.mem_cons_of_mem _ (List.mem_cons_self), RowsLib.mem_unit _ (k0_off175_inb k) r c k.val 96 (k0_off175_eq k) hr h.1 h.2⟩
  · exact ⟨_, List.mem_cons_self, RowsLib.mem_unit _ (k0_off177_inb k) r c k.val 112 (k0_off177_eq k) hr h.1 h.2⟩

/-- The slot of sums after row loop 11, as the row-sum function: at (r, c) the gathered rows' entry plus the positional scratch's entry of row r + 0. -/
theorem rows_t11_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t11 (F := F) d L v2 X P 128)) (ValueIdx.ix2 r c)
      = RowsLib.rowG (ibS0).view (qV).view X P 0 (by omega) (ValueIdx.ix2 r c) :=
  RowsLib.read_writes_trips (n := k0_t11_loop.trips) (pb_t11 (F := F) d L v2 X P) (tripL_t11 (F := F) d L v2 X P) (obS0).view G _
    rfl (pb_t11_succ (F := F) d L v2 X P) (trip_pieces_t11 d L v2 X P) _ ⟨r.val, r.isLt⟩ (trip_cover_t11 d L v2 X P ⟨r.val, r.isLt⟩ r c rfl)

/-- THE SLOT OF SUMS AFTER ROW LOOP 11, whatever it held before: at (r, c) the gathered rows' entry (r, c) plus the positional
    scratch's entry (r + 0, c). -/
theorem rows_t11 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t11 (F := F) d L v2 X P (Scf.trips k0_t11_loop.lb k0_t11_loop.ub k0_t11_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t11_G d L v2 X P G r c

/-! ### the value of row loop 12 (slot 1, positional rows 128 … 255) -/

theorem trips_t12 : k0_t12_loop.trips = 128 := rfl

set_option maxHeartbeats 2000000 in
/-- Every piece of a trip of row loop 12 is the row sum on its rectangle. -/
theorem trip_pieces_t12 (d : Dev nD) (L : grid0.Coords) (v2 : BitVec 32) (X : BufTy.Contents (Elt F) (ibS1).view.ty) (P : BufTy.Contents (Elt F) (qV).view.ty) (k : Fin k0_t12_loop.trips) :
    ∀ p ∈ tripL_t12 (F := F) d L v2 X P k, ∀ x : p.1.shape.Idx, p.2 x = RowsLib.rowG (ibS1).view (qV).view X P 128 (by omega) (p.1.emb x) := by
  unfold tripL_t12 trip_t12
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off193_inb k) (k0_off193_inb k) (k0_off194_inb k) k.val (k.val + 128) 112 (k0_off193_eq k) (k0_off194_eq k) rfl _ (RowsLib.lane_sum _ _ _ _) x
  · exact fun x => RowsLib.piece_eq _ _ X P 128 _ _ _ (k0_off191_inb k) (k0_off191_inb k) (k0_off192_inb k) k.val (k.val + 128) 96 (k0_off191_eq k) (k0_off192_eq k) rfl _ (RowsLib.lane_sum _ _ _ _) x
  · exact fun x => RowsLib.piece_eq _ _ X P 128 _ _ _ (k0_off189_inb k) (k0_off189_inb k) (k0_off190_inb k) k.val (k.val + 128) 80 (k0_off189_eq k) (k0_off190_eq k) rfl _ (RowsLib.lane_sum _ _ _ _) x
  · exact fun x => RowsLib.piece_eq _ _ X P 128 _ _ _ (k0_off187_inb k) (k0_off187_inb k) (k0_off188_inb k) k.val (k.val + 128) 64 (k0_off187_eq k) (k0_off188_eq k) rfl _ (RowsLib.lane_sum _ _ _ _) x
  · exact fun x => RowsLib.piece_eq _ _ X P 128 _ _ _ (k0_off185_inb k) (k0_off185_inb k) (k0_off186_inb k) k.val (k.val + 128) 48 (k0_off185_eq k) (k0_off186_eq k) rfl _ (RowsLib.lane_sum _ _ _ _) x
  · exact fun x => RowsLib.piece_eq _ _ X P 128 _ _ _ (k0_off183_inb k) (k0_off183_inb k) (k0_off184_inb k) k.val (k.val + 128) 32 (k0_off183_eq k) (k0_off184_eq k) rfl _ (RowsLib.lane_sum _ _ _ _) x
  · exact fun x => RowsLib.piece_eq _ _ X P 128 _ _ _ (k0_off181_inb k) (k0_off181_inb k) (k0_off182_inb k) k.val (k.val + 128) 16 (k0_off181_eq k) (k0_off182_eq k) rfl _ (RowsLib.lane_sum _ _ _ _) x
  · exact fun x => RowsLib.piece_eq _ _ X P 128 _ _ _ (k0_off179_inb k) (k0_off179_inb k) (k0_off180_inb k) k.val (k.val + 128) 0 (k0_off179_eq k) (k0_off180_eq k) rfl _ (RowsLib.lane_sum _ _ _ _) x

set_option maxHeartbeats 2000000 in
/-- The eight pieces of trip k cover row k. -/
theorem trip_cover_t12 (d : Dev nD) (L : grid0.Coords) (v2 : BitVec 32) (X : BufTy.Contents (Elt F) (ibS1).view.ty) (P : BufTy.Contents (Elt F) (qV).view.ty)
    (k : Fin k0_t12_loop.trips) (r c : Fin 128) (hr : k.val = r.val) :
    ∃ p ∈ tripL_t12 (F := F) d L v2 X P k, (ValueIdx.ix2 r c : RowsLib.SS.Idx) ∈ p.1.set := by
  unfold tripL_t12 trip_t12
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off179_inb k) r c k.val 0 (k0_off179_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off181_inb k) r c k.val 16 (k0_off181_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off183_inb k) r c k.val 32 (k0_off183_eq k) hr h.1 h.2⟩
  · exact ⟨_, List.mem_cons_of_mem _ (List.mem_cons_of_mem _ (List.mem_cons_of_mem _ (List.mem_cons_of_mem _ (List.mem_cons_self)))), RowsLib.mem_unit _ (k0_off185_inb k) r c k.val 48 (k0_off185_eq k) hr h.1 h.2⟩
  · exact ⟨_, List.mem_cons_of_mem _ (List.mem_cons_of_mem _ (List.mem_cons_of_mem _ (List.mem_cons_self))), RowsLib.mem_unit _ (k0_off187_inb k) r c k.val 64 (k0_off187_eq k) hr h.1 h.2⟩
  · exact ⟨_, List.mem_cons_of_mem _ (List.mem_cons_of_mem _ (List.mem_cons_self)), RowsLib.mem_unit _ (k0_off189_inb k) r c k.val 80 (k0_off189_eq k) hr h.1 h.2⟩
  · exact ⟨_, List.mem_cons_of_mem _ (List.mem_cons_self), RowsLib.mem_unit _ (k0_off191_inb k) r c k.val 96 (k0_off191_eq k) hr h.1 h.2⟩
  · exact ⟨_, List.mem_cons_self, RowsLib.mem_unit _ (k0_off193_inb k) r c k.val 112 (k0_off193_eq k) hr h.1 h.2⟩

/-- The slot of sums after row loop 12, as the row-sum function: at (r, c) the gathered rows' entry plus the positional scratch's entry of row r + 128. -/
theorem rows_t12_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t12 (F := F) d L v2 X P 128)) (ValueIdx.ix2 r c)
      = RowsLib.rowG (ibS1).view (qV).view X P 128 (by omega) (ValueIdx.ix2 r c) :=
  RowsLib.read_writes_trips (n := k0_t12_loop.trips) (pb_t12 (F := F) d L v2 X P) (tripL_t12 (F := F) d L v2 X P) (obS1).view G _
    rfl (pb_t12_succ (F := F) d L v2 X P) (trip_pieces_t12 d L v2 X P) _ ⟨r.val, r.isLt⟩ (trip_cover_t12 d L v2 X P ⟨r.val, r.isLt⟩ r c rfl)

/-- THE SLOT OF SUMS AFTER ROW LOOP 12, whatever it held before: at (r, c) the gathered rows' entry (r, c) plus the positional
    scratch's entry (r + 128, c). -/
theorem rows_t12 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t12 (F := F) d L v2 X P (Scf.trips k0_t12_loop.lb k0_t12_loop.ub k0_t12_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t12_G d L v2 X P G r c

/-! ### the value of row loop 13 (slot 0, positional rows 0 … 127) -/

theorem trips_t13 : k0_t13_loop.trips = 128 := rfl

set_option maxHeartbeats 2000000 in
/-- Every piece of a trip of row loop 13 is the row sum on its rectangle. -/
theorem trip_pieces_t13 (d : Dev nD) (L : grid0.Coords) (v2 wa wb : BitVec 32) (X : BufTy.Contents (Elt F) (ibS0).view.ty) (P : BufTy.Contents (Elt F) (qV).view.ty) (k : Fin k0_t13_loop.trips) :
    ∀ p ∈ tripL_t13 (F := F) d L v2 wa wb X P k, ∀ x : p.1.shape.Idx, p.2 x = RowsLib.rowG (ibS0).view (qV).view X P 0 (by omega) (p.1.emb x) := by
  unfold tripL_t13 trip_t13
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off209_inb k) (k0_off209_inb k) (k0_off210_inb k) k.val (k.val + 0) 112 (k0_off209_eq k) (k0_off210_eq k) rfl _ (RowsLib.lane_sum _ _ _ _) x
  · exact fun x => RowsLib.piece_eq _ _ X P 0 _ _ _ (k0_off207_inb k) (k0_off207_inb k) (k0_off208_inb k) k.val (k.val + 0) 96 (k0_off207_eq k) (k0_off208_eq k) rfl _ (RowsLib.lane_sum _ _ _ _) x
  · exact fun x => RowsLib.piece_eq _ _ X P 0 _ _ _ (k0_off205_inb k) (k0_off205_inb k) (k0_off206_inb k) k.val (k.val + 0) 80 (k0_off205_eq k) (k0_off206_eq k) rfl _ (RowsLib.lane_sum _ _ _ _) x
  · exact fun x => RowsLib.piece_eq _ _ X P 0 _ _ _ (k0_off203_inb k) (k0_off203_inb k) (k0_off204_inb k) k.val (k.val + 0) 64 (k0_off203_eq k) (k0_off204_eq k) rfl _ (RowsLib.lane_sum _ _ _ _) x
  · exact fun x => RowsLib.piece_eq _ _ X P 0 _ _ _ (k0_off201_inb k) (k0_off201_inb k) (k0_off202_inb k) k.val (k.val + 0) 48 (k0_off201_eq k) (k0_off202_eq k) rfl _ (RowsLib.lane_sum _ _ _ _) x
  · exact fun x => RowsLib.piece_eq _ _ X P 0 _ _ _ (k0_off199_inb k) (k0_off199_inb k) (k0_off200_inb k) k.val (k.val + 0) 32 (k0_off199_eq k) (k0_off200_eq k) rfl _ (RowsLib.lane_sum _ _ _ _) x
  · exact fun x => RowsLib.piece_eq _ _ X P 0 _ _ _ (k0_off197_inb k) (k0_off197_inb k) (k0_off198_inb k) k.val (k.val + 0) 16 (k0_off197_eq k) (k0_off198_eq k) rfl _ (RowsLib.lane_sum _ _ _ _) x
  · exact fun x => RowsLib.piece_eq _ _ X P 0 _ _ _ (k0_off195_inb k) (k0_off195_inb k) (k0_off196_inb k) k.val (k.val + 0) 0 (k0_off195_eq k) (k0_off196_eq k) rfl _ (RowsLib.lane_sum _ _ _ _) x

set_option maxHeartbeats 2000000 in
/-- The eight pieces of trip k cover row k. -/
theorem trip_cover_t13 (d : Dev nD) (L : grid0.Coords) (v2 wa wb : BitVec 32) (X : BufTy.Contents (Elt F) (ibS0).view.ty) (P : BufTy.Contents (Elt F) (qV).view.ty)
    (k : Fin k0_t13_loop.trips) (r c : Fin 128) (hr : k.val = r.val) :
    ∃ p ∈ tripL_t13 (F := F) d L v2 wa wb X P k, (ValueIdx.ix2 r c : RowsLib.SS.Idx) ∈ p.1.set := by
  unfold tripL_t13 trip_t13
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off195_inb k) r c k.val 0 (k0_off195_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off197_inb k) r c k.val 16 (k0_off197_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off199_inb k) r c k.val 32 (k0_off199_eq k) hr h.1 h.2⟩
  · exact ⟨_, List.mem_cons_of_mem _ (List.mem_cons_of_mem _ (List.mem_cons_of_mem _ (List.mem_cons_of_mem _ (List.mem_cons_self)))), RowsLib.mem_unit _ (k0_off201_inb k) r c k.val 48 (k0_off201_eq k) hr h.1 h.2⟩
  · exact ⟨_, List.mem_cons_of_mem _ (List.mem_cons_of_mem _ (List.mem_cons_of_mem _ (List.mem_cons_self))), RowsLib.mem_unit _ (k0_off203_inb k) r c k.val 64 (k0_off203_eq k) hr h.1 h.2⟩
  · exact ⟨_, List.mem_cons_of_mem _ (List.mem_cons_of_mem _ (List.mem_cons_self)), RowsLib.mem_unit _ (k0_off205_inb k) r c k.val 80 (k0_off205_eq k) hr h.1 h.2⟩
  · exact ⟨_, List.mem_cons_of_mem _ (List.mem_cons_self), RowsLib.mem_unit _ (k0_off207_inb k) r c k.val 96 (k0_off207_eq k) hr h.1 h.2⟩
  · exact ⟨_, List.mem_cons_self, RowsLib.mem_unit _ (k0_off209_inb k) r c k.val 112 (k0_off209_eq k) hr h.1 h.2⟩

/-- The slot of sums after row loop 13, as the row-sum function: at (r, c) the gathered rows' entry plus the positional scratch's entry of row r + 0. -/
theorem rows_t13_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t13 (F := F) d L v2 wa wb X P 128)) (ValueIdx.ix2 r c)
      = RowsLib.rowG (ibS0).view (qV).view X P 0 (by omega) (ValueIdx.ix2 r c) :=
  RowsLib.read_writes_trips (n := k0_t13_loop.trips) (pb_t13 (F := F) d L v2 wa wb X P) (tripL_t13 (F := F) d L v2 wa wb X P) (obS0).view G _
    rfl (pb_t13_succ (F := F) d L v2 wa wb X P) (trip_pieces_t13 d L v2 wa wb X P) _ ⟨r.val, r.isLt⟩ (trip_cover_t13 d L v2 wa wb X P ⟨r.val, r.isLt⟩ r c rfl)

/-- THE SLOT OF SUMS AFTER ROW LOOP 13, whatever it held before: at (r, c) the gathered rows' entry (r, c) plus the positional
    scratch's entry (r + 0, c). -/
theorem rows_t13 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t13 (F := F) d L v2 wa wb X P (Scf.trips k0_t13_loop.lb k0_t13_loop.ub k0_t13_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t13_G d L v2 wa wb X P G r c

/-! ### the value of row loop 14 (slot 1, positional rows 128 … 255) -/

theorem trips_t14 : k0_t14_loop.trips = 128 := rfl

set_option maxHeartbeats 2000000 in
/-- Every piece of a trip of row loop 14 is the row sum on its rectangle. -/
theorem trip_pieces_t14 (d : Dev nD) (L : grid0.Coords) (v2 : BitVec 32) (X : BufTy.Contents (Elt F) (ibS1).view.ty) (P : BufTy.Contents (Elt F) (qV).view.ty) (k : Fin k0_t14_loop.trips) :
    ∀ p ∈ tripL_t14 (F := F) d L v2 X P k, ∀ x : p.1.shape.Idx, p.2 x = RowsLib.rowG (ibS1).view (qV).view X P 128 (by omega) (p.1.emb x) := by
  unfold tripL_t14 trip_t14
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off225_inb k) (k0_off225_inb k) (k0_off226_inb k) k.val (k.val + 128) 112 (k0_off225_eq k) (k0_off226_eq k) rfl _ (RowsLib.lane_sum _ _ _ _) x
  · exact fun x => RowsLib.piece_eq _ _ X P 128 _ _ _ (k0_off223_inb k) (k0_off223_inb k) (k0_off224_inb k) k.val (k.val + 128) 96 (k0_off223_eq k) (k0_off224_eq k) rfl _ (RowsLib.lane_sum _ _ _ _) x
  · exact fun x => RowsLib.piece_eq _ _ X P 128 _ _ _ (k0_off221_inb k) (k0_off221_inb k) (k0_off222_inb k) k.val (k.val + 128) 80 (k0_off221_eq k) (k0_off222_eq k) rfl _ (RowsLib.lane_sum _ _ _ _) x
  · exact fun x => RowsLib.piece_eq _ _ X P 128 _ _ _ (k0_off219_inb k) (k0_off219_inb k) (k0_off220_inb k) k.val (k.val + 128) 64 (k0_off219_eq k) (k0_off220_eq k) rfl _ (RowsLib.lane_sum _ _ _ _) x
  · exact fun x => RowsLib.piece_eq _ _ X P 128 _ _ _ (k0_off217_inb k) (k0_off217_inb k) (k0_off218_inb k) k.val (k.val + 128) 48 (k0_off217_eq k) (k0_off218_eq k) rfl _ (RowsLib.lane_sum _ _ _ _) x
  · exact fun x => RowsLib.piece_eq _ _ X P 128 _ _ _ (k0_off215_inb k) (k0_off215_inb k) (k0_off216_inb k) k.val (k.val + 128) 32 (k0_off215_eq k) (k0_off216_eq k) rfl _ (RowsLib.lane_sum _ _ _ _) x
  · exact fun x => RowsLib.piece_eq _ _ X P 128 _ _ _ (k0_off213_inb k) (k0_off213_inb k) (k0_off214_inb k) k.val (k.val + 128) 16 (k0_off213_eq k) (k0_off214_eq k) rfl _ (RowsLib.lane_sum _ _ _ _) x
  · exact fun x => RowsLib.piece_eq _ _ X P 128 _ _ _ (k0_off211_inb k) (k0_off211_inb k) (k0_off212_inb k) k.val (k.val + 128) 0 (k0_off211_eq k) (k0_off212_eq k) rfl _ (RowsLib.lane_sum _ _ _ _) x

set_option maxHeartbeats 2000000 in
/-- The eight pieces of trip k cover row k. -/
theorem trip_cover_t14 (d : Dev nD) (L : grid0.Coords) (v2 : BitVec 32) (X : BufTy.Contents (Elt F) (ibS1).view.ty) (P : BufTy.Contents (Elt F) (qV).view.ty)
    (k : Fin k0_t14_loop.trips) (r c : Fin 128) (hr : k.val = r.val) :
    ∃ p ∈ tripL_t14 (F := F) d L v2 X P k, (ValueIdx.ix2 r c : RowsLib.SS.Idx) ∈ p.1.set := by
  unfold tripL_t14 trip_t14
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off211_inb k) r c k.val 0 (k0_off211_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off213_inb k) r c k.val 16 (k0_off213_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off215_inb k) r c k.val 32 (k0_off215_eq k) hr h.1 h.2⟩
  · exact ⟨_, List.mem_cons_of_mem _ (List.mem_cons_of_mem _ (List.mem_cons_of_mem _ (List.mem_cons_of_mem _ (List.mem_cons_self)))), RowsLib.mem_unit _ (k0_off217_inb k) r c k.val 48 (k0_off217_eq k) hr h.1 h.2⟩
  · exact ⟨_, List.mem_cons_of_mem _ (List.mem_cons_of_mem _ (List.mem_cons_of_mem _ (List.mem_cons_self))), RowsLib.mem_unit _ (k0_off219_inb k) r c k.val 64 (k0_off219_eq k) hr h.1 h.2⟩
  · exact ⟨_, List.mem_cons_of_mem _ (List.mem_cons_of_mem _ (List.mem_cons_self)), RowsLib.mem_unit _ (k0_off221_inb k) r c k.val 80 (k0_off221_eq k) hr h.1 h.2⟩
  · exact ⟨_, List.mem_cons_of_mem _ (List.mem_cons_self), RowsLib.mem_unit _ (k0_off223_inb k) r c k.val 96 (k0_off223_eq k) hr h.1 h.2⟩
  · exact ⟨_, List.mem_cons_self, RowsLib.mem_unit _ (k0_off225_inb k) r c k.val 112 (k0_off225_eq k) hr h.1 h.2⟩

/-- The slot of sums after row loop 14, as the row-sum function: at (r, c) the gathered rows' entry plus the positional scratch's entry of row r + 128. -/
theorem rows_t14_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t14 (F := F) d L v2 X P 128)) (ValueIdx.ix2 r c)
      = RowsLib.rowG (ibS1).view (qV).view X P 128 (by omega) (ValueIdx.ix2 r c) :=
  RowsLib.read_writes_trips (n := k0_t14_loop.trips) (pb_t14 (F := F) d L v2 X P) (tripL_t14 (F := F) d L v2 X P) (obS1).view G _
    rfl (pb_t14_succ (F := F) d L v2 X P) (trip_pieces_t14 d L v2 X P) _ ⟨r.val, r.isLt⟩ (trip_cover_t14 d L v2 X P ⟨r.val, r.isLt⟩ r c rfl)

/-- THE SLOT OF SUMS AFTER ROW LOOP 14, whatever it held before: at (r, c) the gathered rows' entry (r, c) plus the positional
    scratch's entry (r + 128, c). -/
theorem rows_t14 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t14 (F := F) d L v2 X P (Scf.trips k0_t14_loop.lb k0_t14_loop.ub k0_t14_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t14_G d L v2 X P G r c

/-! ### the value of row loop 15 (slot 0, positional rows 0 … 127) -/

theorem trips_t15 : k0_t15_loop.trips = 128 := rfl

set_option maxHeartbeats 2000000 in
/-- Every piece of a trip of row loop 15 is the row sum on its rectangle. -/
theorem trip_pieces_t15 (d : Dev nD) (L : grid0.Coords) (v2 : BitVec 32) (X : BufTy.Contents (Elt F) (ibS0).view.ty) (P : BufTy.Contents (Elt F) (qV).view.ty) (k : Fin k0_t15_loop.trips) :
    ∀ p ∈ tripL_t15 (F := F) d L v2 X P k, ∀ x : p.1.shape.Idx, p.2 x = RowsLib.rowG (ibS0).view (qV).view X P 0 (by omega) (p.1.emb x) := by
  unfold tripL_t15 trip_t15
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off241_inb k) (k0_off241_inb k) (k0_off242_inb k) k.val (k.val + 0) 112 (k0_off241_eq k) (k0_off242_eq k) rfl _ (RowsLib.lane_sum _ _ _ _) x
  · exact fun x => RowsLib.piece_eq _ _ X P 0 _ _ _ (k0_off239_inb k) (k0_off239_inb k) (k0_off240_inb k) k.val (k.val + 0) 96 (k0_off239_eq k) (k0_off240_eq k) rfl _ (RowsLib.lane_sum _ _ _ _) x
  · exact fun x => RowsLib.piece_eq _ _ X P 0 _ _ _ (k0_off237_inb k) (k0_off237_inb k) (k0_off238_inb k) k.val (k.val + 0) 80 (k0_off237_eq k) (k0_off238_eq k) rfl _ (RowsLib.lane_sum _ _ _ _) x
  · exact fun x => RowsLib.piece_eq _ _ X P 0 _ _ _ (k0_off235_inb k) (k0_off235_inb k) (k0_off236_inb k) k.val (k.val + 0) 64 (k0_off235_eq k) (k0_off236_eq k) rfl _ (RowsLib.lane_sum _ _ _ _) x
  · exact fun x => RowsLib.piece_eq _ _ X P 0 _ _ _ (k0_off233_inb k) (k0_off233_inb k) (k0_off234_inb k) k.val (k.val + 0) 48 (k0_off233_eq k) (k0_off234_eq k) rfl _ (RowsLib.lane_sum _ _ _ _) x
  · exact fun x => RowsLib.piece_eq _ _ X P 0 _ _ _ (k0_off231_inb k) (k0_off231_inb k) (k0_off232_inb k) k.val (k.val + 0) 32 (k0_off231_eq k) (k0_off232_eq k) rfl _ (RowsLib.lane_sum _ _ _ _) x
  · exact fun x => RowsLib.piece_eq _ _ X P 0 _ _ _ (k0_off229_inb k) (k0_off229_inb k) (k0_off230_inb k) k.val (k.val + 0) 16 (k0_off229_eq k) (k0_off230_eq k) rfl _ (RowsLib.lane_sum _ _ _ _) x
  · exact fun x => RowsLib.piece_eq _ _ X P 0 _ _ _ (k0_off227_inb k) (k0_off227_inb k) (k0_off228_inb k) k.val (k.val + 0) 0 (k0_off227_eq k) (k0_off228_eq k) rfl _ (RowsLib.lane_sum _ _ _ _) x

set_option maxHeartbeats 2000000 in
/-- The eight pieces of trip k cover row k. -/
theorem trip_cover_t15 (d : Dev nD) (L : grid0.Coords) (v2 : BitVec 32) (X : BufTy.Contents (Elt F) (ibS0).view.ty) (P : BufTy.Contents (Elt F) (qV).view.ty)
    (k : Fin k0_t15_loop.trips) (r c : Fin 128) (hr : k.val = r.val) :
    ∃ p ∈ tripL_t15 (F := F) d L v2 X P k, (ValueIdx.ix2 r c : RowsLib.SS.Idx) ∈ p.1.set := by
  unfold tripL_t15 trip_t15
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off227_inb k) r c k.val 0 (k0_off227_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off229_inb k) r c k.val 16 (k0_off229_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off231_inb k) r c k.val 32 (k0_off231_eq k) hr h.1 h.2⟩
  · exact ⟨_, List.mem_cons_of_mem _ (List.mem_cons_of_mem _ (List.mem_cons_of_mem _ (List.mem_cons_of_mem _ (List.mem_cons_self)))), RowsLib.mem_unit _ (k0_off233_inb k) r c k.val 48 (k0_off233_eq k) hr h.1 h.2⟩
  · exact ⟨_, List.mem_cons_of_mem _ (List.mem_cons_of_mem _ (List.mem_cons_of_mem _ (List.mem_cons_self))), RowsLib.mem_unit _ (k0_off235_inb k) r c k.val 64 (k0_off235_eq k) hr h.1 h.2⟩
  · exact ⟨_, List.mem_cons_of_mem _ (List.mem_cons_of_mem _ (List.mem_cons_self)), RowsLib.mem_unit _ (k0_off237_inb k) r c k.val 80 (k0_off237_eq k) hr h.1 h.2⟩
  · exact ⟨_, List.mem_cons_of_mem _ (List.mem_cons_self), RowsLib.mem_unit _ (k0_off239_inb k) r c k.val 96 (k0_off239_eq k) hr h.1 h.2⟩
  · exact ⟨_, List.mem_cons_self, RowsLib.mem_unit _ (k0_off241_inb k) r c k.val 112 (k0_off241_eq k) hr h.1 h.2⟩

/-- The slot of sums after row loop 15, as the row-sum function: at (r, c) the gathered rows' entry plus the positional scratch's entry of row r + 0. -/
theorem rows_t15_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t15 (F := F) d L v2 X P 128)) (ValueIdx.ix2 r c)
      = RowsLib.rowG (ibS0).view (qV).view X P 0 (by omega) (ValueIdx.ix2 r c) :=
  RowsLib.read_writes_trips (n := k0_t15_loop.trips) (pb_t15 (F := F) d L v2 X P) (tripL_t15 (F := F) d L v2 X P) (obS0).view G _
    rfl (pb_t15_succ (F := F) d L v2 X P) (trip_pieces_t15 d L v2 X P) _ ⟨r.val, r.isLt⟩ (trip_cover_t15 d L v2 X P ⟨r.val, r.isLt⟩ r c rfl)

/-- THE SLOT OF SUMS AFTER ROW LOOP 15, whatever it held before: at (r, c) the gathered rows' entry (r, c) plus the positional
    scratch's entry (r + 0, c). -/
theorem rows_t15 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t15 (F := F) d L v2 X P (Scf.trips k0_t15_loop.lb k0_t15_loop.ub k0_t15_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t15_G d L v2 X P G r c

/-! ### the value of row loop 16 (slot 1, positional rows 128 … 255) -/

theorem trips_t16 : k0_t16_loop.trips = 128 := rfl

set_option maxHeartbeats 2000000 in
/-- Every piece of a trip of row loop 16 is the row sum on its rectangle. -/
theorem trip_pieces_t16 (d : Dev nD) (L : grid0.Coords) (v2 : BitVec 32) (X : BufTy.Contents (Elt F) (ibS1).view.ty) (P : BufTy.Contents (Elt F) (qV).view.ty) (k : Fin k0_t16_loop.trips) :
    ∀ p ∈ tripL_t16 (F := F) d L v2 X P k, ∀ x : p.1.shape.Idx, p.2 x = RowsLib.rowG (ibS1).view (qV).view X P 128 (by omega) (p.1.emb x) := by
  unfold tripL_t16 trip_t16
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off257_inb k) (k0_off257_inb k) (k0_off258_inb k) k.val (k.val + 128) 112 (k0_off257_eq k) (k0_off258_eq k) rfl _ (RowsLib.lane_sum _ _ _ _) x
  · exact fun x => RowsLib.piece_eq _ _ X P 128 _ _ _ (k0_off255_inb k) (k0_off255_inb k) (k0_off256_inb k) k.val (k.val + 128) 96 (k0_off255_eq k) (k0_off256_eq k) rfl _ (RowsLib.lane_sum _ _ _ _) x
  · exact fun x => RowsLib.piece_eq _ _ X P 128 _ _ _ (k0_off253_inb k) (k0_off253_inb k) (k0_off254_inb k) k.val (k.val + 128) 80 (k0_off253_eq k) (k0_off254_eq k) rfl _ (RowsLib.lane_sum _ _ _ _) x
  · exact fun x => RowsLib.piece_eq _ _ X P 128 _ _ _ (k0_off251_inb k) (k0_off251_inb k) (k0_off252_inb k) k.val (k.val + 128) 64 (k0_off251_eq k) (k0_off252_eq k) rfl _ (RowsLib.lane_sum _ _ _ _) x
  · exact fun x => RowsLib.piece_eq _ _ X P 128 _ _ _ (k0_off249_inb k) (k0_off249_inb k) (k0_off250_inb k) k.val (k.val + 128) 48 (k0_off249_eq k) (k0_off250_eq k) rfl _ (RowsLib.lane_sum _ _ _ _) x
  · exact fun x => RowsLib.piece_eq _ _ X P 128 _ _ _ (k0_off247_inb k) (k0_off247_inb k) (k0_off248_inb k) k.val (k.val + 128) 32 (k0_off247_eq k) (k0_off248_eq k) rfl _ (RowsLib.lane_sum _ _ _ _) x
  · exact fun x => RowsLib.piece_eq _ _ X P 128 _ _ _ (k0_off245_inb k) (k0_off245_inb k) (k0_off246_inb k) k.val (k.val + 128) 16 (k0_off245_eq k) (k0_off246_eq k) rfl _ (RowsLib.lane_sum _ _ _ _) x
  · exact fun x => RowsLib.piece_eq _ _ X P 128 _ _ _ (k0_off243_inb k) (k0_off243_inb k) (k0_off244_inb k) k.val (k.val + 128) 0 (k0_off243_eq k) (k0_off244_eq k) rfl _ (RowsLib.lane_sum _ _ _ _) x

set_option maxHeartbeats 2000000 in
/-- The eight pieces of trip k cover row k. -/
theorem trip_cover_t16 (d : Dev nD) (L : grid0.Coords) (v2 : BitVec 32) (X : BufTy.Contents (Elt F) (ibS1).view.ty) (P : BufTy.Contents (Elt F) (qV).view.ty)
    (k : Fin k0_t16_loop.trips) (r c : Fin 128) (hr : k.val = r.val) :
    ∃ p ∈ tripL_t16 (F := F) d L v2 X P k, (ValueIdx.ix2 r c : RowsLib.SS.Idx) ∈ p.1.set := by
  unfold tripL_t16 trip_t16
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off243_inb k) r c k.val 0 (k0_off243_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off245_inb k) r c k.val 16 (k0_off245_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off247_inb k) r c k.val 32 (k0_off247_eq k) hr h.1 h.2⟩
  · exact ⟨_, List.mem_cons_of_mem _ (List.mem_cons_of_mem _ (List.mem_cons_of_mem _ (List.mem_cons_of_mem _ (List.mem_cons_self)))), RowsLib.mem_unit _ (k0_off249_inb k) r c k.val 48 (k0_off249_eq k) hr h.1 h.2⟩
  · exact ⟨_, List.mem_cons_of_mem _ (List.mem_cons_of_mem _ (List.mem_cons_of_mem _ (List.mem_cons_self))), RowsLib.mem_unit _ (k0_off251_inb k) r c k.val 64 (k0_off251_eq k) hr h.1 h.2⟩
  · exact ⟨_, List.mem_cons_of_mem _ (List.mem_cons_of_mem _ (List.mem_cons_self)), RowsLib.mem_unit _ (k0_off253_inb k) r c k.val 80 (k0_off253_eq k) hr h.1 h.2⟩
  · exact ⟨_, List.mem_cons_of_mem _ (List.mem_cons_self), RowsLib.mem_unit _ (k0_off255_inb k) r c k.val 96 (k0_off255_eq k) hr h.1 h.2⟩
  · exact ⟨_, List.mem_cons_self, RowsLib.mem_unit _ (k0_off257_inb k) r c k.val 112 (k0_off257_eq k) hr h.1 h.2⟩

/-- The slot of sums after row loop 16, as the row-sum function: at (r, c) the gathered rows' entry plus the positional scratch's entry of row r + 128. -/
theorem rows_t16_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t16 (F := F) d L v2 X P 128)) (ValueIdx.ix2 r c)
      = RowsLib.rowG (ibS1).view (qV).view X P 128 (by omega) (ValueIdx.ix2 r c) :=
  RowsLib.read_writes_trips (n := k0_t16_loop.trips) (pb_t16 (F := F) d L v2 X P) (tripL_t16 (F := F) d L v2 X P) (obS1).view G _
    rfl (pb_t16_succ (F := F) d L v2 X P) (trip_pieces_t16 d L v2 X P) _ ⟨r.val, r.isLt⟩ (trip_cover_t16 d L v2 X P ⟨r.val, r.isLt⟩ r c rfl)

/-- THE SLOT OF SUMS AFTER ROW LOOP 16, whatever it held before: at (r, c) the gathered rows' entry (r, c) plus the positional
    scratch's entry (r + 128, c). -/
theorem rows_t16 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t16 (F := F) d L v2 X P (Scf.trips k0_t16_loop.lb k0_t16_loop.ub k0_t16_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t16_G d L v2 X P G r c

end Tile

end Cert.Proof.KI

end
-- ==== Proof.LoopsB.lean ====
/- Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.Common
import proofs.«208673_g37134287241914_cont_8to1_b_302_3_alg».proof.Proof.Gen.KernelIdeal.Skeleton
import proofs.«208673_g37134287241914_cont_8to1_b_302_3_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### loop 17 (slot 0) -/

set_option maxHeartbeats 4000000 in
/-- One trip of row loop 17 at a symbolic row: the pieces it writes into the sum slot are the run's own finds. -/
@[irreducible] def trip_t17 (d : Dev nD) (L : grid0.Coords) (v2 : BitVec 32)
    (X : BufTy.Contents (Elt F) (ibS0).view.ty) (P : BufTy.Contents (Elt F) (qV).view.ty) (k : Fin k0_t17_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t17_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t17_body TripRes0
    iintro ⟨HX, HP, HW⟩
    sl_exec
    sl_step
    sl_close

abbrev tripL_t17 (d : Dev nD) (L : grid0.Coords) (v2 : BitVec 32) (X : BufTy.Contents (Elt F) (ibS0).view.ty) (P : BufTy.Contents (Elt F) (qV).view.ty) (k : Fin k0_t17_loop.trips) : List (View.Piece (Elt F) S128x128 .f32) :=
  (trip_t17 (F := F) d L v2 X P k).1

@[irreducible] def pb_t17Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t17_loop.trips then (tripL_t17 (F := F) d L v2 X P ⟨k, h⟩) ++ prev else prev

/-- The pieces of the rows before k (last first). -/
def pb_t17 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t17Step d L v2 X P k (pb_t17 d L v2 X P k)

theorem pb_t17_succ (d : Dev nD) (L : grid0.Coords) (v2 : BitVec 32) (X : BufTy.Contents (Elt F) (ibS0).view.ty) (P : BufTy.Contents (Elt F) (qV).view.ty) (k : Fin k0_t17_loop.trips) :
    pb_t17 (F := F) d L v2 X P (k.val + 1) = (tripL_t17 (F := F) d L v2 X P k) ++ (pb_t17 (F := F) d L v2 X P k.val) := by
  rw [pb_t17.eq_2]; unfold pb_t17Step; exact dif_pos k.isLt

set_option warn.classDefReducibility false in
/-- Row loop 17 by its invariant: the gathered rows and the positional rows read, the sum slot holding the pieces of the rows before k over its contents at loop entry. -/
@[sl_loop] def loopInv_t17 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t17_loop.lb k0_t17_loop.ub k0_t17_loop.st k0_t17_ok () (k0_t17_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t17 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t17 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t17_succ]
      iexists _; isplitl [HW]; · iexact HW
      ipureintro; rw [hf, ← View.writes_append]

/-! ### loop 18 (slot 1) -/

set_option maxHeartbeats 4000000 in
/-- One trip of row loop 18 at a symbolic row: the pieces it writes into the sum slot are the run's own finds. -/
@[irreducible] def trip_t18 (d : Dev nD) (L : grid0.Coords) (v2 : BitVec 32)
    (X : BufTy.Contents (Elt F) (ibS1).view.ty) (P : BufTy.Contents (Elt F) (qV).view.ty) (k : Fin k0_t18_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t18_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t18_body TripRes1
    iintro ⟨HX, HP, HW⟩
    sl_exec
    sl_step
    sl_close

abbrev tripL_t18 (d : Dev nD) (L : grid0.Coords) (v2 : BitVec 32) (X : BufTy.Contents (Elt F) (ibS1).view.ty) (P : BufTy.Contents (Elt F) (qV).view.ty) (k : Fin k0_t18_loop.trips) : List (View.Piece (Elt F) S128x128 .f32) :=
  (trip_t18 (F := F) d L v2 X P k).1

@[irreducible] def pb_t18Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t18_loop.trips then (tripL_t18 (F := F) d L v2 X P ⟨k, h⟩) ++ prev else prev

/-- The pieces of the rows before k (last first). -/
def pb_t18 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t18Step d L v2 X P k (pb_t18 d L v2 X P k)

theorem pb_t18_succ (d : Dev nD) (L : grid0.Coords) (v2 : BitVec 32) (X : BufTy.Contents (Elt F) (ibS1).view.ty) (P : BufTy.Contents (Elt F) (qV).view.ty) (k : Fin k0_t18_loop.trips) :
    pb_t18 (F := F) d L v2 X P (k.val + 1) = (tripL_t18 (F := F) d L v2 X P k) ++ (pb_t18 (F := F) d L v2 X P k.val) := by
  rw [pb_t18.eq_2]; unfold pb_t18Step; exact dif_pos k.isLt

set_option warn.classDefReducibility false in
/-- Row loop 18 by its invariant: the gathered rows and the positional rows read, the sum slot holding the pieces of the rows before k over its contents at loop entry. -/
@[sl_loop] def loopInv_t18 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t18_loop.lb k0_t18_loop.ub k0_t18_loop.st k0_t18_ok () (k0_t18_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t18 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t18 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t18_succ]
      iexists _; isplitl [HW]; · iexact HW
      ipureintro; rw [hf, ← View.writes_append]

/-! ### loop 19 (slot 0) -/

set_option maxHeartbeats 4000000 in
/-- One trip of row loop 19 at a symbolic row: the pieces it writes into the sum slot are the run's own finds. -/
@[irreducible] def trip_t19 (d : Dev nD) (L : grid0.Coords) (v2 : BitVec 32)
    (X : BufTy.Contents (Elt F) (ibS0).view.ty) (P : BufTy.Contents (Elt F) (qV).view.ty) (k : Fin k0_t19_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t19_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t19_body TripRes0
    iintro ⟨HX, HP, HW⟩
    sl_exec
    sl_step
    sl_close

abbrev tripL_t19 (d : Dev nD) (L : grid0.Coords) (v2 : BitVec 32) (X : BufTy.Contents (Elt F) (ibS0).view.ty) (P : BufTy.Contents (Elt F) (qV).view.ty) (k : Fin k0_t19_loop.trips) : List (View.Piece (Elt F) S128x128 .f32) :=
  (trip_t19 (F := F) d L v2 X P k).1

@[irreducible] def pb_t19Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t19_loop.trips then (tripL_t19 (F := F) d L v2 X P ⟨k, h⟩) ++ prev else prev

/-- The pieces of the rows before k (last first). -/
def pb_t19 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t19Step d L v2 X P k (pb_t19 d L v2 X P k)

theorem pb_t19_succ (d : Dev nD) (L : grid0.Coords) (v2 : BitVec 32) (X : BufTy.Contents (Elt F) (ibS0).view.ty) (P : BufTy.Contents (Elt F) (qV).view.ty) (k : Fin k0_t19_loop.trips) :
    pb_t19 (F := F) d L v2 X P (k.val + 1) = (tripL_t19 (F := F) d L v2 X P k) ++ (pb_t19 (F := F) d L v2 X P k.val) := by
  rw [pb_t19.eq_2]; unfold pb_t19Step; exact dif_pos k.isLt

set_option warn.classDefReducibility false in
/-- Row loop 19 by its invariant: the gathered rows and the positional rows read, the sum slot holding the pieces of the rows before k over its contents at loop entry. -/
@[sl_loop] def loopInv_t19 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t19_loop.lb k0_t19_loop.ub k0_t19_loop.st k0_t19_ok () (k0_t19_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t19 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t19 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t19_succ]
      iexists _; isplitl [HW]; · iexact HW
      ipureintro; rw [hf, ← View.writes_append]

/-! ### loop 20 (slot 1) -/

set_option maxHeartbeats 4000000 in
/-- One trip of row loop 20 at a symbolic row: the pieces it writes into the sum slot are the run's own finds. -/
@[irreducible] def trip_t20 (d : Dev nD) (L : grid0.Coords) (v2 : BitVec 32)
    (X : BufTy.Contents (Elt F) (ibS1).view.ty) (P : BufTy.Contents (Elt F) (qV).view.ty) (k : Fin k0_t20_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t20_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t20_body TripRes1
    iintro ⟨HX, HP, HW⟩
    sl_exec
    sl_step
    sl_close

abbrev tripL_t20 (d : Dev nD) (L : grid0.Coords) (v2 : BitVec 32) (X : BufTy.Contents (Elt F) (ibS1).view.ty) (P : BufTy.Contents (Elt F) (qV).view.ty) (k : Fin k0_t20_loop.trips) : List (View.Piece (Elt F) S128x128 .f32) :=
  (trip_t20 (F := F) d L v2 X P k).1

@[irreducible] def pb_t20Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t20_loop.trips then (tripL_t20 (F := F) d L v2 X P ⟨k, h⟩) ++ prev else prev

/-- The pieces of the rows before k (last first). -/
def pb_t20 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t20Step d L v2 X P k (pb_t20 d L v2 X P k)

theorem pb_t20_succ (d : Dev nD) (L : grid0.Coords) (v2 : BitVec 32) (X : BufTy.Contents (Elt F) (ibS1).view.ty) (P : BufTy.Contents (Elt F) (qV).view.ty) (k : Fin k0_t20_loop.trips) :
    pb_t20 (F := F) d L v2 X P (k.val + 1) = (tripL_t20 (F := F) d L v2 X P k) ++ (pb_t20 (F := F) d L v2 X P k.val) := by
  rw [pb_t20.eq_2]; unfold pb_t20Step; exact dif_pos k.isLt

set_option warn.classDefReducibility false in
/-- Row loop 20 by its invariant: the gathered rows and the positional rows read, the sum slot holding the pieces of the rows before k over its contents at loop entry. -/
@[sl_loop] def loopInv_t20 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t20_loop.lb k0_t20_loop.ub k0_t20_loop.st k0_t20_ok () (k0_t20_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t20 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t20 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t20_succ]
      iexists _; isplitl [HW]; · iexact HW
      ipureintro; rw [hf, ← View.writes_append]

/-! ### loop 21 (slot 0) -/

set_option maxHeartbeats 4000000 in
/-- One trip of row loop 21 at a symbolic row: the pieces it writes into the sum slot are the run's own finds. -/
@[irreducible] def trip_t21 (d : Dev nD) (L : grid0.Coords) (v2 : BitVec 32)
    (X : BufTy.Contents (Elt F) (ibS0).view.ty) (P : BufTy.Contents (Elt F) (qV).view.ty) (k : Fin k0_t21_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t21_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t21_body TripRes0
    iintro ⟨HX, HP, HW⟩
    sl_exec
    sl_step
    sl_close

abbrev tripL_t21 (d : Dev nD) (L : grid0.Coords) (v2 : BitVec 32) (X : BufTy.Contents (Elt F) (ibS0).view.ty) (P : BufTy.Contents (Elt F) (qV).view.ty) (k : Fin k0_t21_loop.trips) : List (View.Piece (Elt F) S128x128 .f32) :=
  (trip_t21 (F := F) d L v2 X P k).1

@[irreducible] def pb_t21Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t21_loop.trips then (tripL_t21 (F := F) d L v2 X P ⟨k, h⟩) ++ prev else prev

/-- The pieces of the rows before k (last first). -/
def pb_t21 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t21Step d L v2 X P k (pb_t21 d L v2 X P k)

theorem pb_t21_succ (d : Dev nD) (L : grid0.Coords) (v2 : BitVec 32) (X : BufTy.Contents (Elt F) (ibS0).view.ty) (P : BufTy.Contents (Elt F) (qV).view.ty) (k : Fin k0_t21_loop.trips) :
    pb_t21 (F := F) d L v2 X P (k.val + 1) = (tripL_t21 (F := F) d L v2 X P k) ++ (pb_t21 (F := F) d L v2 X P k.val) := by
  rw [pb_t21.eq_2]; unfold pb_t21Step; exact dif_pos k.isLt

set_option warn.classDefReducibility false in
/-- Row loop 21 by its invariant: the gathered rows and the positional rows read, the sum slot holding the pieces of the rows before k over its contents at loop entry. -/
@[sl_loop] def loopInv_t21 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t21_loop.lb k0_t21_loop.ub k0_t21_loop.st k0_t21_ok () (k0_t21_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t21 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t21 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t21_succ]
      iexists _; isplitl [HW]; · iexact HW
      ipureintro; rw [hf, ← View.writes_append]

/-! ### loop 22 (slot 1) -/

set_option maxHeartbeats 4000000 in
/-- One trip of row loop 22 at a symbolic row: the pieces it writes into the sum slot are the run's own finds. -/
@[irreducible] def trip_t22 (d : Dev nD) (L : grid0.Coords) (v2 : BitVec 32)
    (X : BufTy.Contents (Elt F) (ibS1).view.ty) (P : BufTy.Contents (Elt F) (qV).view.ty) (k : Fin k0_t22_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t22_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t22_body TripRes1
    iintro ⟨HX, HP, HW⟩
    sl_exec
    sl_step
    sl_close

abbrev tripL_t22 (d : Dev nD) (L : grid0.Coords) (v2 : BitVec 32) (X : BufTy.Contents (Elt F) (ibS1).view.ty) (P : BufTy.Contents (Elt F) (qV).view.ty) (k : Fin k0_t22_loop.trips) : List (View.Piece (Elt F) S128x128 .f32) :=
  (trip_t22 (F := F) d L v2 X P k).1

@[irreducible] def pb_t22Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t22_loop.trips then (tripL_t22 (F := F) d L v2 X P ⟨k, h⟩) ++ prev else prev

/-- The pieces of the rows before k (last first). -/
def pb_t22 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t22Step d L v2 X P k (pb_t22 d L v2 X P k)

theorem pb_t22_succ (d : Dev nD) (L : grid0.Coords) (v2 : BitVec 32) (X : BufTy.Contents (Elt F) (ibS1).view.ty) (P : BufTy.Contents (Elt F) (qV).view.ty) (k : Fin k0_t22_loop.trips) :
    pb_t22 (F := F) d L v2 X P (k.val + 1) = (tripL_t22 (F := F) d L v2 X P k) ++ (pb_t22 (F := F) d L v2 X P k.val) := by
  rw [pb_t22.eq_2]; unfold pb_t22Step; exact dif_pos k.isLt

set_option warn.classDefReducibility false in
/-- Row loop 22 by its invariant: the gathered rows and the positional rows read, the sum slot holding the pieces of the rows before k over its contents at loop entry. -/
@[sl_loop] def loopInv_t22 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t22_loop.lb k0_t22_loop.ub k0_t22_loop.st k0_t22_ok () (k0_t22_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t22 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t22 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t22_succ]
      iexists _; isplitl [HW]; · iexact HW
      ipureintro; rw [hf, ← View.writes_append]

/-! ### loop 23 (slot 0) -/

set_option maxHeartbeats 4000000 in
/-- One trip of row loop 23 at a symbolic row: the pieces it writes into the sum slot are the run's own finds. -/
@[irreducible] def trip_t23 (d : Dev nD) (L : grid0.Coords) (v2 wa wb : BitVec 32)
    (X : BufTy.Contents (Elt F) (ibS0).view.ty) (P : BufTy.Contents (Elt F) (qV).view.ty) (k : Fin k0_t23_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t23_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t23_body TripRes0
    iintro ⟨HX, HP, HW⟩
    sl_exec
    sl_step
    sl_close

abbrev tripL_t23 (d : Dev nD) (L : grid0.Coords) (v2 wa wb : BitVec 32) (X : BufTy.Contents (Elt F) (ibS0).view.ty) (P : BufTy.Contents (Elt F) (qV).view.ty) (k : Fin k0_t23_loop.trips) : List (View.Piece (Elt F) S128x128 .f32) :=
  (trip_t23 (F := F) d L v2 wa wb X P k).1

@[irreducible] def pb_t23Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t23_loop.trips then (tripL_t23 (F := F) d L v2 wa wb X P ⟨k, h⟩) ++ prev else prev

/-- The pieces of the rows before k (last first). -/
def pb_t23 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t23Step d L v2 wa wb X P k (pb_t23 d L v2 wa wb X P k)

theorem pb_t23_succ (d : Dev nD) (L : grid0.Coords) (v2 wa wb : BitVec 32) (X : BufTy.Contents (Elt F) (ibS0).view.ty) (P : BufTy.Contents (Elt F) (qV).view.ty) (k : Fin k0_t23_loop.trips) :
    pb_t23 (F := F) d L v2 wa wb X P (k.val + 1) = (tripL_t23 (F := F) d L v2 wa wb X P k) ++ (pb_t23 (F := F) d L v2 wa wb X P k.val) := by
  rw [pb_t23.eq_2]; unfold pb_t23Step; exact dif_pos k.isLt

set_option warn.classDefReducibility false in
/-- Row loop 23 by its invariant: the gathered rows and the positional rows read, the sum slot holding the pieces of the rows before k over its contents at loop entry. -/
@[sl_loop] def loopInv_t23 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t23_loop.lb k0_t23_loop.ub k0_t23_loop.st k0_t23_ok () (k0_t23_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t23 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t23 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t23_succ]
      iexists _; isplitl [HW]; · iexact HW
      ipureintro; rw [hf, ← View.writes_append]

/-! ### loop 24 (slot 1) -/

set_option maxHeartbeats 4000000 in
/-- One trip of row loop 24 at a symbolic row: the pieces it writes into the sum slot are the run's own finds. -/
@[irreducible] def trip_t24 (d : Dev nD) (L : grid0.Coords) (v2 : BitVec 32)
    (X : BufTy.Contents (Elt F) (ibS1).view.ty) (P : BufTy.Contents (Elt F) (qV).view.ty) (k : Fin k0_t24_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t24_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t24_body TripRes1
    iintro ⟨HX, HP, HW⟩
    sl_exec
    sl_step
    sl_close

abbrev tripL_t24 (d : Dev nD) (L : grid0.Coords) (v2 : BitVec 32) (X : BufTy.Contents (Elt F) (ibS1).view.ty) (P : BufTy.Contents (Elt F) (qV).view.ty) (k : Fin k0_t24_loop.trips) : List (View.Piece (Elt F) S128x128 .f32) :=
  (trip_t24 (F := F) d L v2 X P k).1

@[irreducible] def pb_t24Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t24_loop.trips then (tripL_t24 (F := F) d L v2 X P ⟨k, h⟩) ++ prev else prev

/-- The pieces of the rows before k (last first). -/
def pb_t24 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t24Step d L v2 X P k (pb_t24 d L v2 X P k)

theorem pb_t24_succ (d : Dev nD) (L : grid0.Coords) (v2 : BitVec 32) (X : BufTy.Contents (Elt F) (ibS1).view.ty) (P : BufTy.Contents (Elt F) (qV).view.ty) (k : Fin k0_t24_loop.trips) :
    pb_t24 (F := F) d L v2 X P (k.val + 1) = (tripL_t24 (F := F) d L v2 X P k) ++ (pb_t24 (F := F) d L v2 X P k.val) := by
  rw [pb_t24.eq_2]; unfold pb_t24Step; exact dif_pos k.isLt

set_option warn.classDefReducibility false in
/-- Row loop 24 by its invariant: the gathered rows and the positional rows read, the sum slot holding the pieces of the rows before k over its contents at loop entry. -/
@[sl_loop] def loopInv_t24 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t24_loop.lb k0_t24_loop.ub k0_t24_loop.st k0_t24_ok () (k0_t24_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t24 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t24 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t24_succ]
      iexists _; isplitl [HW]; · iexact HW
      ipureintro; rw [hf, ← View.writes_append]

/-! ### loop 25 (slot 0) -/

set_option maxHeartbeats 4000000 in
/-- One trip of row loop 25 at a symbolic row: the pieces it writes into the sum slot are the run's own finds. -/
@[irreducible] def trip_t25 (d : Dev nD) (L : grid0.Coords) (v2 : BitVec 32)
    (X : BufTy.Contents (Elt F) (ibS0).view.ty) (P : BufTy.Contents (Elt F) (qV).view.ty) (k : Fin k0_t25_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t25_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t25_body TripRes0
    iintro ⟨HX, HP, HW⟩
    sl_exec
    sl_step
    sl_close

abbrev tripL_t25 (d : Dev nD) (L : grid0.Coords) (v2 : BitVec 32) (X : BufTy.Contents (Elt F) (ibS0).view.ty) (P : BufTy.Contents (Elt F) (qV).view.ty) (k : Fin k0_t25_loop.trips) : List (View.Piece (Elt F) S128x128 .f32) :=
  (trip_t25 (F := F) d L v2 X P k).1

@[irreducible] def pb_t25Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t25_loop.trips then (tripL_t25 (F := F) d L v2 X P ⟨k, h⟩) ++ prev else prev

/-- The pieces of the rows before k (last first). -/
def pb_t25 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t25Step d L v2 X P k (pb_t25 d L v2 X P k)

theorem pb_t25_succ (d : Dev nD) (L : grid0.Coords) (v2 : BitVec 32) (X : BufTy.Contents (Elt F) (ibS0).view.ty) (P : BufTy.Contents (Elt F) (qV).view.ty) (k : Fin k0_t25_loop.trips) :
    pb_t25 (F := F) d L v2 X P (k.val + 1) = (tripL_t25 (F := F) d L v2 X P k) ++ (pb_t25 (F := F) d L v2 X P k.val) := by
  rw [pb_t25.eq_2]; unfold pb_t25Step; exact dif_pos k.isLt

set_option warn.classDefReducibility false in
/-- Row loop 25 by its invariant: the gathered rows and the positional rows read, the sum slot holding the pieces of the rows before k over its contents at loop entry. -/
@[sl_loop] def loopInv_t25 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t25_loop.lb k0_t25_loop.ub k0_t25_loop.st k0_t25_ok () (k0_t25_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t25 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t25 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t25_succ]
      iexists _; isplitl [HW]; · iexact HW
      ipureintro; rw [hf, ← View.writes_append]

/-! ### loop 26 (slot 1) -/

set_option maxHeartbeats 4000000 in
/-- One trip of row loop 26 at a symbolic row: the pieces it writes into the sum slot are the run's own finds. -/
@[irreducible] def trip_t26 (d : Dev nD) (L : grid0.Coords) (v2 : BitVec 32)
    (X : BufTy.Contents (Elt F) (ibS1).view.ty) (P : BufTy.Contents (Elt F) (qV).view.ty) (k : Fin k0_t26_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t26_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t26_body TripRes1
    iintro ⟨HX, HP, HW⟩
    sl_exec
    sl_step
    sl_close

abbrev tripL_t26 (d : Dev nD) (L : grid0.Coords) (v2 : BitVec 32) (X : BufTy.Contents (Elt F) (ibS1).view.ty) (P : BufTy.Contents (Elt F) (qV).view.ty) (k : Fin k0_t26_loop.trips) : List (View.Piece (Elt F) S128x128 .f32) :=
  (trip_t26 (F := F) d L v2 X P k).1

@[irreducible] def pb_t26Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t26_loop.trips then (tripL_t26 (F := F) d L v2 X P ⟨k, h⟩) ++ prev else prev

/-- The pieces of the rows before k (last first). -/
def pb_t26 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t26Step d L v2 X P k (pb_t26 d L v2 X P k)

theorem pb_t26_succ (d : Dev nD) (L : grid0.Coords) (v2 : BitVec 32) (X : BufTy.Contents (Elt F) (ibS1).view.ty) (P : BufTy.Contents (Elt F) (qV).view.ty) (k : Fin k0_t26_loop.trips) :
    pb_t26 (F := F) d L v2 X P (k.val + 1) = (tripL_t26 (F := F) d L v2 X P k) ++ (pb_t26 (F := F) d L v2 X P k.val) := by
  rw [pb_t26.eq_2]; unfold pb_t26Step; exact dif_pos k.isLt

set_option warn.classDefReducibility false in
/-- Row loop 26 by its invariant: the gathered rows and the positional rows read, the sum slot holding the pieces of the rows before k over its contents at loop entry. -/
@[sl_loop] def loopInv_t26 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t26_loop.lb k0_t26_loop.ub k0_t26_loop.st k0_t26_ok () (k0_t26_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t26 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t26 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t26_succ]
      iexists _; isplitl [HW]; · iexact HW
      ipureintro; rw [hf, ← View.writes_append]

/-! ### loop 27 (slot 0) -/

set_option maxHeartbeats 4000000 in
/-- One trip of row loop 27 at a symbolic row: the pieces it writes into the sum slot are the run's own finds. -/
@[irreducible] def trip_t27 (d : Dev nD) (L : grid0.Coords) (v2 : BitVec 32)
    (X : BufTy.Contents (Elt F) (ibS0).view.ty) (P : BufTy.Contents (Elt F) (qV).view.ty) (k : Fin k0_t27_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t27_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t27_body TripRes0
    iintro ⟨HX, HP, HW⟩
    sl_exec
    sl_step
    sl_close

abbrev tripL_t27 (d : Dev nD) (L : grid0.Coords) (v2 : BitVec 32) (X : BufTy.Contents (Elt F) (ibS0).view.ty) (P : BufTy.Contents (Elt F) (qV).view.ty) (k : Fin k0_t27_loop.trips) : List (View.Piece (Elt F) S128x128 .f32) :=
  (trip_t27 (F := F) d L v2 X P k).1

@[irreducible] def pb_t27Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t27_loop.trips then (tripL_t27 (F := F) d L v2 X P ⟨k, h⟩) ++ prev else prev

/-- The pieces of the rows before k (last first). -/
def pb_t27 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t27Step d L v2 X P k (pb_t27 d L v2 X P k)

theorem pb_t27_succ (d : Dev nD) (L : grid0.Coords) (v2 : BitVec 32) (X : BufTy.Contents (Elt F) (ibS0).view.ty) (P : BufTy.Contents (Elt F) (qV).view.ty) (k : Fin k0_t27_loop.trips) :
    pb_t27 (F := F) d L v2 X P (k.val + 1) = (tripL_t27 (F := F) d L v2 X P k) ++ (pb_t27 (F := F) d L v2 X P k.val) := by
  rw [pb_t27.eq_2]; unfold pb_t27Step; exact dif_pos k.isLt

set_option warn.classDefReducibility false in
/-- Row loop 27 by its invariant: the gathered rows and the positional rows read, the sum slot holding the pieces of the rows before k over its contents at loop entry. -/
@[sl_loop] def loopInv_t27 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t27_loop.lb k0_t27_loop.ub k0_t27_loop.st k0_t27_ok () (k0_t27_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t27 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t27 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t27_succ]
      iexists _; isplitl [HW]; · iexact HW
      ipureintro; rw [hf, ← View.writes_append]

/-! ### loop 28 (slot 1) -/

set_option maxHeartbeats 4000000 in
/-- One trip of row loop 28 at a symbolic row: the pieces it writes into the sum slot are the run's own finds. -/
@[irreducible] def trip_t28 (d : Dev nD) (L : grid0.Coords) (v2 : BitVec 32)
    (X : BufTy.Contents (Elt F) (ibS1).view.ty) (P : BufTy.Contents (Elt F) (qV).view.ty) (k : Fin k0_t28_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t28_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t28_body TripRes1
    iintro ⟨HX, HP, HW⟩
    sl_exec
    sl_step
    sl_close

abbrev tripL_t28 (d : Dev nD) (L : grid0.Coords) (v2 : BitVec 32) (X : BufTy.Contents (Elt F) (ibS1).view.ty) (P : BufTy.Contents (Elt F) (qV).view.ty) (k : Fin k0_t28_loop.trips) : List (View.Piece (Elt F) S128x128 .f32) :=
  (trip_t28 (F := F) d L v2 X P k).1

@[irreducible] def pb_t28Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t28_loop.trips then (tripL_t28 (F := F) d L v2 X P ⟨k, h⟩) ++ prev else prev

/-- The pieces of the rows before k (last first). -/
def pb_t28 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t28Step d L v2 X P k (pb_t28 d L v2 X P k)

theorem pb_t28_succ (d : Dev nD) (L : grid0.Coords) (v2 : BitVec 32) (X : BufTy.Contents (Elt F) (ibS1).view.ty) (P : BufTy.Contents (Elt F) (qV).view.ty) (k : Fin k0_t28_loop.trips) :
    pb_t28 (F := F) d L v2 X P (k.val + 1) = (tripL_t28 (F := F) d L v2 X P k) ++ (pb_t28 (F := F) d L v2 X P k.val) := by
  rw [pb_t28.eq_2]; unfold pb_t28Step; exact dif_pos k.isLt

set_option warn.classDefReducibility false in
/-- Row loop 28 by its invariant: the gathered rows and the positional rows read, the sum slot holding the pieces of the rows before k over its contents at loop entry. -/
@[sl_loop] def loopInv_t28 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t28_loop.lb k0_t28_loop.ub k0_t28_loop.st k0_t28_ok () (k0_t28_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t28 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t28 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t28_succ]
      iexists _; isplitl [HW]; · iexact HW
      ipureintro; rw [hf, ← View.writes_append]

/-! ### loop 29 (slot 0) -/

set_option maxHeartbeats 4000000 in
/-- One trip of row loop 29 at a symbolic row: the pieces it writes into the sum slot are the run's own finds. -/
@[irreducible] def trip_t29 (d : Dev nD) (L : grid0.Coords) (v2 : BitVec 32)
    (X : BufTy.Contents (Elt F) (ibS0).view.ty) (P : BufTy.Contents (Elt F) (qV).view.ty) (k : Fin k0_t29_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t29_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t29_body TripRes0
    iintro ⟨HX, HP, HW⟩
    sl_exec
    sl_step
    sl_close

abbrev tripL_t29 (d : Dev nD) (L : grid0.Coords) (v2 : BitVec 32) (X : BufTy.Contents (Elt F) (ibS0).view.ty) (P : BufTy.Contents (Elt F) (qV).view.ty) (k : Fin k0_t29_loop.trips) : List (View.Piece (Elt F) S128x128 .f32) :=
  (trip_t29 (F := F) d L v2 X P k).1

@[irreducible] def pb_t29Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t29_loop.trips then (tripL_t29 (F := F) d L v2 X P ⟨k, h⟩) ++ prev else prev

/-- The pieces of the rows before k (last first). -/
def pb_t29 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t29Step d L v2 X P k (pb_t29 d L v2 X P k)

theorem pb_t29_succ (d : Dev nD) (L : grid0.Coords) (v2 : BitVec 32) (X : BufTy.Contents (Elt F) (ibS0).view.ty) (P : BufTy.Contents (Elt F) (qV).view.ty) (k : Fin k0_t29_loop.trips) :
    pb_t29 (F := F) d L v2 X P (k.val + 1) = (tripL_t29 (F := F) d L v2 X P k) ++ (pb_t29 (F := F) d L v2 X P k.val) := by
  rw [pb_t29.eq_2]; unfold pb_t29Step; exact dif_pos k.isLt

set_option warn.classDefReducibility false in
/-- Row loop 29 by its invariant: the gathered rows and the positional rows read, the sum slot holding the pieces of the rows before k over its contents at loop entry. -/
@[sl_loop] def loopInv_t29 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t29_loop.lb k0_t29_loop.ub k0_t29_loop.st k0_t29_ok () (k0_t29_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t29 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t29 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t29_succ]
      iexists _; isplitl [HW]; · iexact HW
      ipureintro; rw [hf, ← View.writes_append]

/-! ### loop 30 (slot 1) -/

set_option maxHeartbeats 4000000 in
/-- One trip of row loop 30 at a symbolic row: the pieces it writes into the sum slot are the run's own finds. -/
@[irreducible] def trip_t30 (d : Dev nD) (L : grid0.Coords) (v2 : BitVec 32)
    (X : BufTy.Contents (Elt F) (ibS1).view.ty) (P : BufTy.Contents (Elt F) (qV).view.ty) (k : Fin k0_t30_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t30_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t30_body TripRes1
    iintro ⟨HX, HP, HW⟩
    sl_exec
    sl_step
    sl_close

abbrev tripL_t30 (d : Dev nD) (L : grid0.Coords) (v2 : BitVec 32) (X : BufTy.Contents (Elt F) (ibS1).view.ty) (P : BufTy.Contents (Elt F) (qV).view.ty) (k : Fin k0_t30_loop.trips) : List (View.Piece (Elt F) S128x128 .f32) :=
  (trip_t30 (F := F) d L v2 X P k).1

@[irreducible] def pb_t30Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t30_loop.trips then (tripL_t30 (F := F) d L v2 X P ⟨k, h⟩) ++ prev else prev

/-- The pieces of the rows before k (last first). -/
def pb_t30 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t30Step d L v2 X P k (pb_t30 d L v2 X P k)

theorem pb_t30_succ (d : Dev nD) (L : grid0.Coords) (v2 : BitVec 32) (X : BufTy.Contents (Elt F) (ibS1).view.ty) (P : BufTy.Contents (Elt F) (qV).view.ty) (k : Fin k0_t30_loop.trips) :
    pb_t30 (F := F) d L v2 X P (k.val + 1) = (tripL_t30 (F := F) d L v2 X P k) ++ (pb_t30 (F := F) d L v2 X P k.val) := by
  rw [pb_t30.eq_2]; unfold pb_t30Step; exact dif_pos k.isLt

set_option warn.classDefReducibility false in
/-- Row loop 30 by its invariant: the gathered rows and the positional rows read, the sum slot holding the pieces of the rows before k over its contents at loop entry. -/
@[sl_loop] def loopInv_t30 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t30_loop.lb k0_t30_loop.ub k0_t30_loop.st k0_t30_ok () (k0_t30_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t30 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t30 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t30_succ]
      iexists _; isplitl [HW]; · iexact HW
      ipureintro; rw [hf, ← View.writes_append]

/-! ### loop 31 (slot 0) -/

set_option maxHeartbeats 4000000 in
/-- One trip of row loop 31 at a symbolic row: the pieces it writes into the sum slot are the run's own finds. -/
@[irreducible] def trip_t31 (d : Dev nD) (L : grid0.Coords) (v2 : BitVec 32)
    (X : BufTy.Contents (Elt F) (ibS0).view.ty) (P : BufTy.Contents (Elt F) (qV).view.ty) (k : Fin k0_t31_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t31_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t31_body TripRes0
    iintro ⟨HX, HP, HW⟩
    sl_exec
    sl_step
    sl_close

abbrev tripL_t31 (d : Dev nD) (L : grid0.Coords) (v2 : BitVec 32) (X : BufTy.Contents (Elt F) (ibS0).view.ty) (P : BufTy.Contents (Elt F) (qV).view.ty) (k : Fin k0_t31_loop.trips) : List (View.Piece (Elt F) S128x128 .f32) :=
  (trip_t31 (F := F) d L v2 X P k).1

@[irreducible] def pb_t31Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t31_loop.trips then (tripL_t31 (F := F) d L v2 X P ⟨k, h⟩) ++ prev else prev

/-- The pieces of the rows before k (last first). -/
def pb_t31 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t31Step d L v2 X P k (pb_t31 d L v2 X P k)

theorem pb_t31_succ (d : Dev nD) (L : grid0.Coords) (v2 : BitVec 32) (X : BufTy.Contents (Elt F) (ibS0).view.ty) (P : BufTy.Contents (Elt F) (qV).view.ty) (k : Fin k0_t31_loop.trips) :
    pb_t31 (F := F) d L v2 X P (k.val + 1) = (tripL_t31 (F := F) d L v2 X P k) ++ (pb_t31 (F := F) d L v2 X P k.val) := by
  rw [pb_t31.eq_2]; unfold pb_t31Step; exact dif_pos k.isLt

set_option warn.classDefReducibility false in
/-- Row loop 31 by its invariant: the gathered rows and the positional rows read, the sum slot holding the pieces of the rows before k over its contents at loop entry. -/
@[sl_loop] def loopInv_t31 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t31_loop.lb k0_t31_loop.ub k0_t31_loop.st k0_t31_ok () (k0_t31_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t31 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t31 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t31_succ]
      iexists _; isplitl [HW]; · iexact HW
      ipureintro; rw [hf, ← View.writes_append]

/-! ### loop 32 (slot 1) -/

set_option maxHeartbeats 4000000 in
/-- One trip of row loop 32 at a symbolic row: the pieces it writes into the sum slot are the run's own finds. -/
@[irreducible] def trip_t32 (d : Dev nD) (L : grid0.Coords) (v2 : BitVec 32)
    (X : BufTy.Contents (Elt F) (ibS1).view.ty) (P : BufTy.Contents (Elt F) (qV).view.ty) (k : Fin k0_t32_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t32_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t32_body TripRes1
    iintro ⟨HX, HP, HW⟩
    sl_exec
    sl_step
    sl_close

abbrev tripL_t32 (d : Dev nD) (L : grid0.Coords) (v2 : BitVec 32) (X : BufTy.Contents (Elt F) (ibS1).view.ty) (P : BufTy.Contents (Elt F) (qV).view.ty) (k : Fin k0_t32_loop.trips) : List (View.Piece (Elt F) S128x128 .f32) :=
  (trip_t32 (F := F) d L v2 X P k).1

@[irreducible] def pb_t32Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t32_loop.trips then (tripL_t32 (F := F) d L v2 X P ⟨k, h⟩) ++ prev else prev

/-- The pieces of the rows before k (last first). -/
def pb_t32 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t32Step d L v2 X P k (pb_t32 d L v2 X P k)

theorem pb_t32_succ (d : Dev nD) (L : grid0.Coords) (v2 : BitVec 32) (X : BufTy.Contents (Elt F) (ibS1).view.ty) (P : BufTy.Contents (Elt F) (qV).view.ty) (k : Fin k0_t32_loop.trips) :
    pb_t32 (F := F) d L v2 X P (k.val + 1) = (tripL_t32 (F := F) d L v2 X P k) ++ (pb_t32 (F := F) d L v2 X P k.val) := by
  rw [pb_t32.eq_2]; unfold pb_t32Step; exact dif_pos k.isLt

set_option warn.classDefReducibility false in
/-- Row loop 32 by its invariant: the gathered rows and the positional rows read, the sum slot holding the pieces of the rows before k over its contents at loop entry. -/
@[sl_loop] def loopInv_t32 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t32_loop.lb k0_t32_loop.ub k0_t32_loop.st k0_t32_ok () (k0_t32_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t32 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t32 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t32_succ]
      iexists _; isplitl [HW]; · iexact HW
      ipureintro; rw [hf, ← View.writes_append]

end Tile
end Cert.Proof.KI
end
-- ==== Proof.RowsValueB.lean ====
/-
  The slot of sums after each of the row loops 17 to 32.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsB
import proofs.«208673_g37134287241914_cont_8to1_b_302_3_alg».proof.Proof.RowsLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### the value of row loop 17 (slot 0, positional rows 0 … 127) -/

theorem trips_t17 : k0_t17_loop.trips = 128 := rfl

set_option maxHeartbeats 2000000 in
/-- Every piece of a trip of row loop 17 is the row sum on its rectangle. -/
theorem trip_pieces_t17 (d : Dev nD) (L : grid0.Coords) (v2 : BitVec 32) (X : BufTy.Contents (Elt F) (ibS0).view.ty) (P : BufTy.Contents (Elt F) (qV).view.ty) (k : Fin k0_t17_loop.trips) :
    ∀ p ∈ tripL_t17 (F := F) d L v2 X P k, ∀ x : p.1.shape.Idx, p.2 x = RowsLib.rowG (ibS0).view (qV).view X P 0 (by omega) (p.1.emb x) := by
  unfold tripL_t17 trip_t17
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off273_inb k) (k0_off273_inb k) (k0_off274_inb k) k.val (k.val + 0) 112 (k0_off273_eq k) (k0_off274_eq k) rfl _ (RowsLib.lane_sum _ _ _ _) x
  · exact fun x => RowsLib.piece_eq _ _ X P 0 _ _ _ (k0_off271_inb k) (k0_off271_inb k) (k0_off272_inb k) k.val (k.val + 0) 96 (k0_off271_eq k) (k0_off272_eq k) rfl _ (RowsLib.lane_sum _ _ _ _) x
  · exact fun x => RowsLib.piece_eq _ _ X P 0 _ _ _ (k0_off269_inb k) (k0_off269_inb k) (k0_off270_inb k) k.val (k.val + 0) 80 (k0_off269_eq k) (k0_off270_eq k) rfl _ (RowsLib.lane_sum _ _ _ _) x
  · exact fun x => RowsLib.piece_eq _ _ X P 0 _ _ _ (k0_off267_inb k) (k0_off267_inb k) (k0_off268_inb k) k.val (k.val + 0) 64 (k0_off267_eq k) (k0_off268_eq k) rfl _ (RowsLib.lane_sum _ _ _ _) x
  · exact fun x => RowsLib.piece_eq _ _ X P 0 _ _ _ (k0_off265_inb k) (k0_off265_inb k) (k0_off266_inb k) k.val (k.val + 0) 48 (k0_off265_eq k) (k0_off266_eq k) rfl _ (RowsLib.lane_sum _ _ _ _) x
  · exact fun x => RowsLib.piece_eq _ _ X P 0 _ _ _ (k0_off263_inb k) (k0_off263_inb k) (k0_off264_inb k) k.val (k.val + 0) 32 (k0_off263_eq k) (k0_off264_eq k) rfl _ (RowsLib.lane_sum _ _ _ _) x
  · exact fun x => RowsLib.piece_eq _ _ X P 0 _ _ _ (k0_off261_inb k) (k0_off261_inb k) (k0_off262_inb k) k.val (k.val + 0) 16 (k0_off261_eq k) (k0_off262_eq k) rfl _ (RowsLib.lane_sum _ _ _ _) x
  · exact fun x => RowsLib.piece_eq _ _ X P 0 _ _ _ (k0_off259_inb k) (k0_off259_inb k) (k0_off260_inb k) k.val (k.val + 0) 0 (k0_off259_eq k) (k0_off260_eq k) rfl _ (RowsLib.lane_sum _ _ _ _) x

set_option maxHeartbeats 2000000 in
/-- The eight pieces of trip k cover row k. -/
theorem trip_cover_t17 (d : Dev nD) (L : grid0.Coords) (v2 : BitVec 32) (X : BufTy.Contents (Elt F) (ibS0).view.ty) (P : BufTy.Contents (Elt F) (qV).view.ty)
    (k : Fin k0_t17_loop.trips) (r c : Fin 128) (hr : k.val = r.val) :
    ∃ p ∈ tripL_t17 (F := F) d L v2 X P k, (ValueIdx.ix2 r c : RowsLib.SS.Idx) ∈ p.1.set := by
  unfold tripL_t17 trip_t17
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off259_inb k) r c k.val 0 (k0_off259_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off261_inb k) r c k.val 16 (k0_off261_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off263_inb k) r c k.val 32 (k0_off263_eq k) hr h.1 h.2⟩
  · exact ⟨_, List.mem_cons_of_mem _ (List.mem_cons_of_mem _ (List.mem_cons_of_mem _ (List.mem_cons_of_mem _ (List.mem_cons_self)))), RowsLib.mem_unit _ (k0_off265_inb k) r c k.val 48 (k0_off265_eq k) hr h.1 h.2⟩
  · exact ⟨_, List.mem_cons_of_mem _ (List.mem_cons_of_mem _ (List.mem_cons_of_mem _ (List.mem_cons_self))), RowsLib.mem_unit _ (k0_off267_inb k) r c k.val 64 (k0_off267_eq k) hr h.1 h.2⟩
  · exact ⟨_, List.mem_cons_of_mem _ (List.mem_cons_of_mem _ (List.mem_cons_self)), RowsLib.mem_unit _ (k0_off269_inb k) r c k.val 80 (k0_off269_eq k) hr h.1 h.2⟩
  · exact ⟨_, List.mem_cons_of_mem _ (List.mem_cons_self), RowsLib.mem_unit _ (k0_off271_inb k) r c k.val 96 (k0_off271_eq k) hr h.1 h.2⟩
  · exact ⟨_, List.mem_cons_self, RowsLib.mem_unit _ (k0_off273_inb k) r c k.val 112 (k0_off273_eq k) hr h.1 h.2⟩

/-- The slot of sums after row loop 17, as the row-sum function: at (r, c) the gathered rows' entry plus the positional scratch's entry of row r + 0. -/
theorem rows_t17_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t17 (F := F) d L v2 X P 128)) (ValueIdx.ix2 r c)
      = RowsLib.rowG (ibS0).view (qV).view X P 0 (by omega) (ValueIdx.ix2 r c) :=
  RowsLib.read_writes_trips (n := k0_t17_loop.trips) (pb_t17 (F := F) d L v2 X P) (tripL_t17 (F := F) d L v2 X P) (obS0).view G _
    rfl (pb_t17_succ (F := F) d L v2 X P) (trip_pieces_t17 d L v2 X P) _ ⟨r.val, r.isLt⟩ (trip_cover_t17 d L v2 X P ⟨r.val, r.isLt⟩ r c rfl)

/-- THE SLOT OF SUMS AFTER ROW LOOP 17, whatever it held before: at (r, c) the gathered rows' entry (r, c) plus the positional
    scratch's entry (r + 0, c). -/
theorem rows_t17 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t17 (F := F) d L v2 X P (Scf.trips k0_t17_loop.lb k0_t17_loop.ub k0_t17_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t17_G d L v2 X P G r c

/-! ### the value of row loop 18 (slot 1, positional rows 128 … 255) -/

theorem trips_t18 : k0_t18_loop.trips = 128 := rfl

set_option maxHeartbeats 2000000 in
/-- Every piece of a trip of row loop 18 is the row sum on its rectangle. -/
theorem trip_pieces_t18 (d : Dev nD) (L : grid0.Coords) (v2 : BitVec 32) (X : BufTy.Contents (Elt F) (ibS1).view.ty) (P : BufTy.Contents (Elt F) (qV).view.ty) (k : Fin k0_t18_loop.trips) :
    ∀ p ∈ tripL_t18 (F := F) d L v2 X P k, ∀ x : p.1.shape.Idx, p.2 x = RowsLib.rowG (ibS1).view (qV).view X P 128 (by omega) (p.1.emb x) := by
  unfold tripL_t18 trip_t18
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off289_inb k) (k0_off289_inb k) (k0_off290_inb k) k.val (k.val + 128) 112 (k0_off289_eq k) (k0_off290_eq k) rfl _ (RowsLib.lane_sum _ _ _ _) x
  · exact fun x => RowsLib.piece_eq _ _ X P 128 _ _ _ (k0_off287_inb k) (k0_off287_inb k) (k0_off288_inb k) k.val (k.val + 128) 96 (k0_off287_eq k) (k0_off288_eq k) rfl _ (RowsLib.lane_sum _ _ _ _) x
  · exact fun x => RowsLib.piece_eq _ _ X P 128 _ _ _ (k0_off285_inb k) (k0_off285_inb k) (k0_off286_inb k) k.val (k.val + 128) 80 (k0_off285_eq k) (k0_off286_eq k) rfl _ (RowsLib.lane_sum _ _ _ _) x
  · exact fun x => RowsLib.piece_eq _ _ X P 128 _ _ _ (k0_off283_inb k) (k0_off283_inb k) (k0_off284_inb k) k.val (k.val + 128) 64 (k0_off283_eq k) (k0_off284_eq k) rfl _ (RowsLib.lane_sum _ _ _ _) x
  · exact fun x => RowsLib.piece_eq _ _ X P 128 _ _ _ (k0_off281_inb k) (k0_off281_inb k) (k0_off282_inb k) k.val (k.val + 128) 48 (k0_off281_eq k) (k0_off282_eq k) rfl _ (RowsLib.lane_sum _ _ _ _) x
  · exact fun x => RowsLib.piece_eq _ _ X P 128 _ _ _ (k0_off279_inb k) (k0_off279_inb k) (k0_off280_inb k) k.val (k.val + 128) 32 (k0_off279_eq k) (k0_off280_eq k) rfl _ (RowsLib.lane_sum _ _ _ _) x
  · exact fun x => RowsLib.piece_eq _ _ X P 128 _ _ _ (k0_off277_inb k) (k0_off277_inb k) (k0_off278_inb k) k.val (k.val + 128) 16 (k0_off277_eq k) (k0_off278_eq k) rfl _ (RowsLib.lane_sum _ _ _ _) x
  · exact fun x => RowsLib.piece_eq _ _ X P 128 _ _ _ (k0_off275_inb k) (k0_off275_inb k) (k0_off276_inb k) k.val (k.val + 128) 0 (k0_off275_eq k) (k0_off276_eq k) rfl _ (RowsLib.lane_sum _ _ _ _) x

set_option maxHeartbeats 2000000 in
/-- The eight pieces of trip k cover row k. -/
theorem trip_cover_t18 (d : Dev nD) (L : grid0.Coords) (v2 : BitVec 32) (X : BufTy.Contents (Elt F) (ibS1).view.ty) (P : BufTy.Contents (Elt F) (qV).view.ty)
    (k : Fin k0_t18_loop.trips) (r c : Fin 128) (hr : k.val = r.val) :
    ∃ p ∈ tripL_t18 (F := F) d L v2 X P k, (ValueIdx.ix2 r c : RowsLib.SS.Idx) ∈ p.1.set := by
  unfold tripL_t18 trip_t18
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off275_inb k) r c k.val 0 (k0_off275_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off277_inb k) r c k.val 16 (k0_off277_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off279_inb k) r c k.val 32 (k0_off279_eq k) hr h.1 h.2⟩
  · exact ⟨_, List.mem_cons_of_mem _ (List.mem_cons_of_mem _ (List.mem_cons_of_mem _ (List.mem_cons_of_mem _ (List.mem_cons_self)))), RowsLib.mem_unit _ (k0_off281_inb k) r c k.val 48 (k0_off281_eq k) hr h.1 h.2⟩
  · exact ⟨_, List.mem_cons_of_mem _ (List.mem_cons_of_mem _ (List.mem_cons_of_mem _ (List.mem_cons_self))), RowsLib.mem_unit _ (k0_off283_inb k) r c k.val 64 (k0_off283_eq k) hr h.1 h.2⟩
  · exact ⟨_, List.mem_cons_of_mem _ (List.mem_cons_of_mem _ (List.mem_cons_self)), RowsLib.mem_unit _ (k0_off285_inb k) r c k.val 80 (k0_off285_eq k) hr h.1 h.2⟩
  · exact ⟨_, List.mem_cons_of_mem _ (List.mem_cons_self), RowsLib.mem_unit _ (k0_off287_inb k) r c k.val 96 (k0_off287_eq k) hr h.1 h.2⟩
  · exact ⟨_, List.mem_cons_self, RowsLib.mem_unit _ (k0_off289_inb k) r c k.val 112 (k0_off289_eq k) hr h.1 h.2⟩

/-- The slot of sums after row loop 18, as the row-sum function: at (r, c) the gathered rows' entry plus the positional scratch's entry of row r + 128. -/
theorem rows_t18_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t18 (F := F) d L v2 X P 128)) (ValueIdx.ix2 r c)
      = RowsLib.rowG (ibS1).view (qV).view X P 128 (by omega) (ValueIdx.ix2 r c) :=
  RowsLib.read_writes_trips (n := k0_t18_loop.trips) (pb_t18 (F := F) d L v2 X P) (tripL_t18 (F := F) d L v2 X P) (obS1).view G _
    rfl (pb_t18_succ (F := F) d L v2 X P) (trip_pieces_t18 d L v2 X P) _ ⟨r.val, r.isLt⟩ (trip_cover_t18 d L v2 X P ⟨r.val, r.isLt⟩ r c rfl)

/-- THE SLOT OF SUMS AFTER ROW LOOP 18, whatever it held before: at (r, c) the gathered rows' entry (r, c) plus the positional
    scratch's entry (r + 128, c). -/
theorem rows_t18 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t18 (F := F) d L v2 X P (Scf.trips k0_t18_loop.lb k0_t18_loop.ub k0_t18_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t18_G d L v2 X P G r c

/-! ### the value of row loop 19 (slot 0, positional rows 0 … 127) -/

theorem trips_t19 : k0_t19_loop.trips = 128 := rfl

set_option maxHeartbeats 2000000 in
/-- Every piece of a trip of row loop 19 is the row sum on its rectangle. -/
theorem trip_pieces_t19 (d : Dev nD) (L : grid0.Coords) (v2 : BitVec 32) (X : BufTy.Contents (Elt F) (ibS0).view.ty) (P : BufTy.Contents (Elt F) (qV).view.ty) (k : Fin k0_t19_loop.trips) :
    ∀ p ∈ tripL_t19 (F := F) d L v2 X P k, ∀ x : p.1.shape.Idx, p.2 x = RowsLib.rowG (ibS0).view (qV).view X P 0 (by omega) (p.1.emb x) := by
  unfold tripL_t19 trip_t19
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off305_inb k) (k0_off305_inb k) (k0_off306_inb k) k.val (k.val + 0) 112 (k0_off305_eq k) (k0_off306_eq k) rfl _ (RowsLib.lane_sum _ _ _ _) x
  · exact fun x => RowsLib.piece_eq _ _ X P 0 _ _ _ (k0_off303_inb k) (k0_off303_inb k) (k0_off304_inb k) k.val (k.val + 0) 96 (k0_off303_eq k) (k0_off304_eq k) rfl _ (RowsLib.lane_sum _ _ _ _) x
  · exact fun x => RowsLib.piece_eq _ _ X P 0 _ _ _ (k0_off301_inb k) (k0_off301_inb k) (k0_off302_inb k) k.val (k.val + 0) 80 (k0_off301_eq k) (k0_off302_eq k) rfl _ (RowsLib.lane_sum _ _ _ _) x
  · exact fun x => RowsLib.piece_eq _ _ X P 0 _ _ _ (k0_off299_inb k) (k0_off299_inb k) (k0_off300_inb k) k.val (k.val + 0) 64 (k0_off299_eq k) (k0_off300_eq k) rfl _ (RowsLib.lane_sum _ _ _ _) x
  · exact fun x => RowsLib.piece_eq _ _ X P 0 _ _ _ (k0_off297_inb k) (k0_off297_inb k) (k0_off298_inb k) k.val (k.val + 0) 48 (k0_off297_eq k) (k0_off298_eq k) rfl _ (RowsLib.lane_sum _ _ _ _) x
  · exact fun x => RowsLib.piece_eq _ _ X P 0 _ _ _ (k0_off295_inb k) (k0_off295_inb k) (k0_off296_inb k) k.val (k.val + 0) 32 (k0_off295_eq k) (k0_off296_eq k) rfl _ (RowsLib.lane_sum _ _ _ _) x
  · exact fun x => RowsLib.piece_eq _ _ X P 0 _ _ _ (k0_off293_inb k) (k0_off293_inb k) (k0_off294_inb k) k.val (k.val + 0) 16 (k0_off293_eq k) (k0_off294_eq k) rfl _ (RowsLib.lane_sum _ _ _ _) x
  · exact fun x => RowsLib.piece_eq _ _ X P 0 _ _ _ (k0_off291_inb k) (k0_off291_inb k) (k0_off292_inb k) k.val (k.val + 0) 0 (k0_off291_eq k) (k0_off292_eq k) rfl _ (RowsLib.lane_sum _ _ _ _) x

set_option maxHeartbeats 2000000 in
/-- The eight pieces of trip k cover row k. -/
theorem trip_cover_t19 (d : Dev nD) (L : grid0.Coords) (v2 : BitVec 32) (X : BufTy.Contents (Elt F) (ibS0).view.ty) (P : BufTy.Contents (Elt F) (qV).view.ty)
    (k : Fin k0_t19_loop.trips) (r c : Fin 128) (hr : k.val = r.val) :
    ∃ p ∈ tripL_t19 (F := F) d L v2 X P k, (ValueIdx.ix2 r c : RowsLib.SS.Idx) ∈ p.1.set := by
  unfold tripL_t19 trip_t19
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off291_inb k) r c k.val 0 (k0_off291_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off293_inb k) r c k.val 16 (k0_off293_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off295_inb k) r c k.val 32 (k0_off295_eq k) hr h.1 h.2⟩
  · exact ⟨_, List.mem_cons_of_mem _ (List.mem_cons_of_mem _ (List.mem_cons_of_mem _ (List.mem_cons_of_mem _ (List.mem_cons_self)))), RowsLib.mem_unit _ (k0_off297_inb k) r c k.val 48 (k0_off297_eq k) hr h.1 h.2⟩
  · exact ⟨_, List.mem_cons_of_mem _ (List.mem_cons_of_mem _ (List.mem_cons_of_mem _ (List.mem_cons_self))), RowsLib.mem_unit _ (k0_off299_inb k) r c k.val 64 (k0_off299_eq k) hr h.1 h.2⟩
  · exact ⟨_, List.mem_cons_of_mem _ (List.mem_cons_of_mem _ (List.mem_cons_self)), RowsLib.mem_unit _ (k0_off301_inb k) r c k.val 80 (k0_off301_eq k) hr h.1 h.2⟩
  · exact ⟨_, List.mem_cons_of_mem _ (List.mem_cons_self), RowsLib.mem_unit _ (k0_off303_inb k) r c k.val 96 (k0_off303_eq k) hr h.1 h.2⟩
  · exact ⟨_, List.mem_cons_self, RowsLib.mem_unit _ (k0_off305_inb k) r c k.val 112 (k0_off305_eq k) hr h.1 h.2⟩

/-- The slot of sums after row loop 19, as the row-sum function: at (r, c) the gathered rows' entry plus the positional scratch's entry of row r + 0. -/
theorem rows_t19_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t19 (F := F) d L v2 X P 128)) (ValueIdx.ix2 r c)
      = RowsLib.rowG (ibS0).view (qV).view X P 0 (by omega) (ValueIdx.ix2 r c) :=
  RowsLib.read_writes_trips (n := k0_t19_loop.trips) (pb_t19 (F := F) d L v2 X P) (tripL_t19 (F := F) d L v2 X P) (obS0).view G _
    rfl (pb_t19_succ (F := F) d L v2 X P) (trip_pieces_t19 d L v2 X P) _ ⟨r.val, r.isLt⟩ (trip_cover_t19 d L v2 X P ⟨r.val, r.isLt⟩ r c rfl)

/-- THE SLOT OF SUMS AFTER ROW LOOP 19, whatever it held before: at (r, c) the gathered rows' entry (r, c) plus the positional
    scratch's entry (r + 0, c). -/
theorem rows_t19 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t19 (F := F) d L v2 X P (Scf.trips k0_t19_loop.lb k0_t19_loop.ub k0_t19_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t19_G d L v2 X P G r c

/-! ### the value of row loop 20 (slot 1, positional rows 128 … 255) -/

theorem trips_t20 : k0_t20_loop.trips = 128 := rfl

set_option maxHeartbeats 2000000 in
/-- Every piece of a trip of row loop 20 is the row sum on its rectangle. -/
theorem trip_pieces_t20 (d : Dev nD) (L : grid0.Coords) (v2 : BitVec 32) (X : BufTy.Contents (Elt F) (ibS1).view.ty) (P : BufTy.Contents (Elt F) (qV).view.ty) (k : Fin k0_t20_loop.trips) :
    ∀ p ∈ tripL_t20 (F := F) d L v2 X P k, ∀ x : p.1.shape.Idx, p.2 x = RowsLib.rowG (ibS1).view (qV).view X P 128 (by omega) (p.1.emb x) := by
  unfold tripL_t20 trip_t20
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off321_inb k) (k0_off321_inb k) (k0_off322_inb k) k.val (k.val + 128) 112 (k0_off321_eq k) (k0_off322_eq k) rfl _ (RowsLib.lane_sum _ _ _ _) x
  · exact fun x => RowsLib.piece_eq _ _ X P 128 _ _ _ (k0_off319_inb k) (k0_off319_inb k) (k0_off320_inb k) k.val (k.val + 128) 96 (k0_off319_eq k) (k0_off320_eq k) rfl _ (RowsLib.lane_sum _ _ _ _) x
  · exact fun x => RowsLib.piece_eq _ _ X P 128 _ _ _ (k0_off317_inb k) (k0_off317_inb k) (k0_off318_inb k) k.val (k.val + 128) 80 (k0_off317_eq k) (k0_off318_eq k) rfl _ (RowsLib.lane_sum _ _ _ _) x
  · exact fun x => RowsLib.piece_eq _ _ X P 128 _ _ _ (k0_off315_inb k) (k0_off315_inb k) (k0_off316_inb k) k.val (k.val + 128) 64 (k0_off315_eq k) (k0_off316_eq k) rfl _ (RowsLib.lane_sum _ _ _ _) x
  · exact fun x => RowsLib.piece_eq _ _ X P 128 _ _ _ (k0_off313_inb k) (k0_off313_inb k) (k0_off314_inb k) k.val (k.val + 128) 48 (k0_off313_eq k) (k0_off314_eq k) rfl _ (RowsLib.lane_sum _ _ _ _) x
  · exact fun x => RowsLib.piece_eq _ _ X P 128 _ _ _ (k0_off311_inb k) (k0_off311_inb k) (k0_off312_inb k) k.val (k.val + 128) 32 (k0_off311_eq k) (k0_off312_eq k) rfl _ (RowsLib.lane_sum _ _ _ _) x
  · exact fun x => RowsLib.piece_eq _ _ X P 128 _ _ _ (k0_off309_inb k) (k0_off309_inb k) (k0_off310_inb k) k.val (k.val + 128) 16 (k0_off309_eq k) (k0_off310_eq k) rfl _ (RowsLib.lane_sum _ _ _ _) x
  · exact fun x => RowsLib.piece_eq _ _ X P 128 _ _ _ (k0_off307_inb k) (k0_off307_inb k) (k0_off308_inb k) k.val (k.val + 128) 0 (k0_off307_eq k) (k0_off308_eq k) rfl _ (RowsLib.lane_sum _ _ _ _) x

set_option maxHeartbeats 2000000 in
/-- The eight pieces of trip k cover row k. -/
theorem trip_cover_t20 (d : Dev nD) (L : grid0.Coords) (v2 : BitVec 32) (X : BufTy.Contents (Elt F) (ibS1).view.ty) (P : BufTy.Contents (Elt F) (qV).view.ty)
    (k : Fin k0_t20_loop.trips) (r c : Fin 128) (hr : k.val = r.val) :
    ∃ p ∈ tripL_t20 (F := F) d L v2 X P k, (ValueIdx.ix2 r c : RowsLib.SS.Idx) ∈ p.1.set := by
  unfold tripL_t20 trip_t20
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off307_inb k) r c k.val 0 (k0_off307_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off309_inb k) r c k.val 16 (k0_off309_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off311_inb k) r c k.val 32 (k0_off311_eq k) hr h.1 h.2⟩
  · exact ⟨_, List.mem_cons_of_mem _ (List.mem_cons_of_mem _ (List.mem_cons_of_mem _ (List.mem_cons_of_mem _ (List.mem_cons_self)))), RowsLib.mem_unit _ (k0_off313_inb k) r c k.val 48 (k0_off313_eq k) hr h.1 h.2⟩
  · exact ⟨_, List.mem_cons_of_mem _ (List.mem_cons_of_mem _ (List.mem_cons_of_mem _ (List.mem_cons_self))), RowsLib.mem_unit _ (k0_off315_inb k) r c k.val 64 (k0_off315_eq k) hr h.1 h.2⟩
  · exact ⟨_, List.mem_cons_of_mem _ (List.mem_cons_of_mem _ (List.mem_cons_self)), RowsLib.mem_unit _ (k0_off317_inb k) r c k.val 80 (k0_off317_eq k) hr h.1 h.2⟩
  · exact ⟨_, List.mem_cons_of_mem _ (List.mem_cons_self), RowsLib.mem_unit _ (k0_off319_inb k) r c k.val 96 (k0_off319_eq k) hr h.1 h.2⟩
  · exact ⟨_, List.mem_cons_self, RowsLib.mem_unit _ (k0_off321_inb k) r c k.val 112 (k0_off321_eq k) hr h.1 h.2⟩

/-- The slot of sums after row loop 20, as the row-sum function: at (r, c) the gathered rows' entry plus the positional scratch's entry of row r + 128. -/
theorem rows_t20_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t20 (F := F) d L v2 X P 128)) (ValueIdx.ix2 r c)
      = RowsLib.rowG (ibS1).view (qV).view X P 128 (by omega) (ValueIdx.ix2 r c) :=
  RowsLib.read_writes_trips (n := k0_t20_loop.trips) (pb_t20 (F := F) d L v2 X P) (tripL_t20 (F := F) d L v2 X P) (obS1).view G _
    rfl (pb_t20_succ (F := F) d L v2 X P) (trip_pieces_t20 d L v2 X P) _ ⟨r.val, r.isLt⟩ (trip_cover_t20 d L v2 X P ⟨r.val, r.isLt⟩ r c rfl)

/-- THE SLOT OF SUMS AFTER ROW LOOP 20, whatever it held before: at (r, c) the gathered rows' entry (r, c) plus the positional
    scratch's entry (r + 128, c). -/
theorem rows_t20 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t20 (F := F) d L v2 X P (Scf.trips k0_t20_loop.lb k0_t20_loop.ub k0_t20_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t20_G d L v2 X P G r c

/-! ### the value of row loop 21 (slot 0, positional rows 0 … 127) -/

theorem trips_t21 : k0_t21_loop.trips = 128 := rfl

set_option maxHeartbeats 2000000 in
/-- Every piece of a trip of row loop 21 is the row sum on its rectangle. -/
theorem trip_pieces_t21 (d : Dev nD) (L : grid0.Coords) (v2 : BitVec 32) (X : BufTy.Contents (Elt F) (ibS0).view.ty) (P : BufTy.Contents (Elt F) (qV).view.ty) (k : Fin k0_t21_loop.trips) :
    ∀ p ∈ tripL_t21 (F := F) d L v2 X P k, ∀ x : p.1.shape.Idx, p.2 x = RowsLib.rowG (ibS0).view (qV).view X P 0 (by omega) (p.1.emb x) := by
  unfold tripL_t21 trip_t21
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off337_inb k) (k0_off337_inb k) (k0_off338_inb k) k.val (k.val + 0) 112 (k0_off337_eq k) (k0_off338_eq k) rfl _ (RowsLib.lane_sum _ _ _ _) x
  · exact fun x => RowsLib.piece_eq _ _ X P 0 _ _ _ (k0_off335_inb k) (k0_off335_inb k) (k0_off336_inb k) k.val (k.val + 0) 96 (k0_off335_eq k) (k0_off336_eq k) rfl _ (RowsLib.lane_sum _ _ _ _) x
  · exact fun x => RowsLib.piece_eq _ _ X P 0 _ _ _ (k0_off333_inb k) (k0_off333_inb k) (k0_off334_inb k) k.val (k.val + 0) 80 (k0_off333_eq k) (k0_off334_eq k) rfl _ (RowsLib.lane_sum _ _ _ _) x
  · exact fun x => RowsLib.piece_eq _ _ X P 0 _ _ _ (k0_off331_inb k) (k0_off331_inb k) (k0_off332_inb k) k.val (k.val + 0) 64 (k0_off331_eq k) (k0_off332_eq k) rfl _ (RowsLib.lane_sum _ _ _ _) x
  · exact fun x => RowsLib.piece_eq _ _ X P 0 _ _ _ (k0_off329_inb k) (k0_off329_inb k) (k0_off330_inb k) k.val (k.val + 0) 48 (k0_off329_eq k) (k0_off330_eq k) rfl _ (RowsLib.lane_sum _ _ _ _) x
  · exact fun x => RowsLib.piece_eq _ _ X P 0 _ _ _ (k0_off327_inb k) (k0_off327_inb k) (k0_off328_inb k) k.val (k.val + 0) 32 (k0_off327_eq k) (k0_off328_eq k) rfl _ (RowsLib.lane_sum _ _ _ _) x
  · exact fun x => RowsLib.piece_eq _ _ X P 0 _ _ _ (k0_off325_inb k) (k0_off325_inb k) (k0_off326_inb k) k.val (k.val + 0) 16 (k0_off325_eq k) (k0_off326_eq k) rfl _ (RowsLib.lane_sum _ _ _ _) x
  · exact fun x => RowsLib.piece_eq _ _ X P 0 _ _ _ (k0_off323_inb k) (k0_off323_inb k) (k0_off324_inb k) k.val (k.val + 0) 0 (k0_off323_eq k) (k0_off324_eq k) rfl _ (RowsLib.lane_sum _ _ _ _) x

set_option maxHeartbeats 2000000 in
/-- The eight pieces of trip k cover row k. -/
theorem trip_cover_t21 (d : Dev nD) (L : grid0.Coords) (v2 : BitVec 32) (X : BufTy.Contents (Elt F) (ibS0).view.ty) (P : BufTy.Contents (Elt F) (qV).view.ty)
    (k : Fin k0_t21_loop.trips) (r c : Fin 128) (hr : k.val = r.val) :
    ∃ p ∈ tripL_t21 (F := F) d L v2 X P k, (ValueIdx.ix2 r c : RowsLib.SS.Idx) ∈ p.1.set := by
  unfold tripL_t21 trip_t21
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off323_inb k) r c k.val 0 (k0_off323_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off325_inb k) r c k.val 16 (k0_off325_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off327_inb k) r c k.val 32 (k0_off327_eq k) hr h.1 h.2⟩
  · exact ⟨_, List.mem_cons_of_mem _ (List.mem_cons_of_mem _ (List.mem_cons_of_mem _ (List.mem_cons_of_mem _ (List.mem_cons_self)))), RowsLib.mem_unit _ (k0_off329_inb k) r c k.val 48 (k0_off329_eq k) hr h.1 h.2⟩
  · exact ⟨_, List.mem_cons_of_mem _ (List.mem_cons_of_mem _ (List.mem_cons_of_mem _ (List.mem_cons_self))), RowsLib.mem_unit _ (k0_off331_inb k) r c k.val 64 (k0_off331_eq k) hr h.1 h.2⟩
  · exact ⟨_, List.mem_cons_of_mem _ (List.mem_cons_of_mem _ (List.mem_cons_self)), RowsLib.mem_unit _ (k0_off333_inb k) r c k.val 80 (k0_off333_eq k) hr h.1 h.2⟩
  · exact ⟨_, List.mem_cons_of_mem _ (List.mem_cons_self), RowsLib.mem_unit _ (k0_off335_inb k) r c k.val 96 (k0_off335_eq k) hr h.1 h.2⟩
  · exact ⟨_, List.mem_cons_self, RowsLib.mem_unit _ (k0_off337_inb k) r c k.val 112 (k0_off337_eq k) hr h.1 h.2⟩

/-- The slot of sums after row loop 21, as the row-sum function: at (r, c) the gathered rows' entry plus the positional scratch's entry of row r + 0. -/
theorem rows_t21_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t21 (F := F) d L v2 X P 128)) (ValueIdx.ix2 r c)
      = RowsLib.rowG (ibS0).view (qV).view X P 0 (by omega) (ValueIdx.ix2 r c) :=
  RowsLib.read_writes_trips (n := k0_t21_loop.trips) (pb_t21 (F := F) d L v2 X P) (tripL_t21 (F := F) d L v2 X P) (obS0).view G _
    rfl (pb_t21_succ (F := F) d L v2 X P) (trip_pieces_t21 d L v2 X P) _ ⟨r.val, r.isLt⟩ (trip_cover_t21 d L v2 X P ⟨r.val, r.isLt⟩ r c rfl)

/-- THE SLOT OF SUMS AFTER ROW LOOP 21, whatever it held before: at (r, c) the gathered rows' entry (r, c) plus the positional
    scratch's entry (r + 0, c). -/
theorem rows_t21 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t21 (F := F) d L v2 X P (Scf.trips k0_t21_loop.lb k0_t21_loop.ub k0_t21_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t21_G d L v2 X P G r c

/-! ### the value of row loop 22 (slot 1, positional rows 128 … 255) -/

theorem trips_t22 : k0_t22_loop.trips = 128 := rfl

set_option maxHeartbeats 2000000 in
/-- Every piece of a trip of row loop 22 is the row sum on its rectangle. -/
theorem trip_pieces_t22 (d : Dev nD) (L : grid0.Coords) (v2 : BitVec 32) (X : BufTy.Contents (Elt F) (ibS1).view.ty) (P : BufTy.Contents (Elt F) (qV).view.ty) (k : Fin k0_t22_loop.trips) :
    ∀ p ∈ tripL_t22 (F := F) d L v2 X P k, ∀ x : p.1.shape.Idx, p.2 x = RowsLib.rowG (ibS1).view (qV).view X P 128 (by omega) (p.1.emb x) := by
  unfold tripL_t22 trip_t22
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off353_inb k) (k0_off353_inb k) (k0_off354_inb k) k.val (k.val + 128) 112 (k0_off353_eq k) (k0_off354_eq k) rfl _ (RowsLib.lane_sum _ _ _ _) x
  · exact fun x => RowsLib.piece_eq _ _ X P 128 _ _ _ (k0_off351_inb k) (k0_off351_inb k) (k0_off352_inb k) k.val (k.val + 128) 96 (k0_off351_eq k) (k0_off352_eq k) rfl _ (RowsLib.lane_sum _ _ _ _) x
  · exact fun x => RowsLib.piece_eq _ _ X P 128 _ _ _ (k0_off349_inb k) (k0_off349_inb k) (k0_off350_inb k) k.val (k.val + 128) 80 (k0_off349_eq k) (k0_off350_eq k) rfl _ (RowsLib.lane_sum _ _ _ _) x
  · exact fun x => RowsLib.piece_eq _ _ X P 128 _ _ _ (k0_off347_inb k) (k0_off347_inb k) (k0_off348_inb k) k.val (k.val + 128) 64 (k0_off347_eq k) (k0_off348_eq k) rfl _ (RowsLib.lane_sum _ _ _ _) x
  · exact fun x => RowsLib.piece_eq _ _ X P 128 _ _ _ (k0_off345_inb k) (k0_off345_inb k) (k0_off346_inb k) k.val (k.val + 128) 48 (k0_off345_eq k) (k0_off346_eq k) rfl _ (RowsLib.lane_sum _ _ _ _) x
  · exact fun x => RowsLib.piece_eq _ _ X P 128 _ _ _ (k0_off343_inb k) (k0_off343_inb k) (k0_off344_inb k) k.val (k.val + 128) 32 (k0_off343_eq k) (k0_off344_eq k) rfl _ (RowsLib.lane_sum _ _ _ _) x
  · exact fun x => RowsLib.piece_eq _ _ X P 128 _ _ _ (k0_off341_inb k) (k0_off341_inb k) (k0_off342_inb k) k.val (k.val + 128) 16 (k0_off341_eq k) (k0_off342_eq k) rfl _ (RowsLib.lane_sum _ _ _ _) x
  · exact fun x => RowsLib.piece_eq _ _ X P 128 _ _ _ (k0_off339_inb k) (k0_off339_inb k) (k0_off340_inb k) k.val (k.val + 128) 0 (k0_off339_eq k) (k0_off340_eq k) rfl _ (RowsLib.lane_sum _ _ _ _) x

set_option maxHeartbeats 2000000 in
/-- The eight pieces of trip k cover row k. -/
theorem trip_cover_t22 (d : Dev nD) (L : grid0.Coords) (v2 : BitVec 32) (X : BufTy.Contents (Elt F) (ibS1).view.ty) (P : BufTy.Contents (Elt F) (qV).view.ty)
    (k : Fin k0_t22_loop.trips) (r c : Fin 128) (hr : k.val = r.val) :
    ∃ p ∈ tripL_t22 (F := F) d L v2 X P k, (ValueIdx.ix2 r c : RowsLib.SS.Idx) ∈ p.1.set := by
  unfold tripL_t22 trip_t22
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off339_inb k) r c k.val 0 (k0_off339_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off341_inb k) r c k.val 16 (k0_off341_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off343_inb k) r c k.val 32 (k0_off343_eq k) hr h.1 h.2⟩
  · exact ⟨_, List.mem_cons_of_mem _ (List.mem_cons_of_mem _ (List.mem_cons_of_mem _ (List.mem_cons_of_mem _ (List.mem_cons_self)))), RowsLib.mem_unit _ (k0_off345_inb k) r c k.val 48 (k0_off345_eq k) hr h.1 h.2⟩
  · exact ⟨_, List.mem_cons_of_mem _ (List.mem_cons_of_mem _ (List.mem_cons_of_mem _ (List.mem_cons_self))), RowsLib.mem_unit _ (k0_off347_inb k) r c k.val 64 (k0_off347_eq k) hr h.1 h.2⟩
  · exact ⟨_, List.mem_cons_of_mem _ (List.mem_cons_of_mem _ (List.mem_cons_self)), RowsLib.mem_unit _ (k0_off349_inb k) r c k.val 80 (k0_off349_eq k) hr h.1 h.2⟩
  · exact ⟨_, List.mem_cons_of_mem _ (List.mem_cons_self), RowsLib.mem_unit _ (k0_off351_inb k) r c k.val 96 (k0_off351_eq k) hr h.1 h.2⟩
  · exact ⟨_, List.mem_cons_self, RowsLib.mem_unit _ (k0_off353_inb k) r c k.val 112 (k0_off353_eq k) hr h.1 h.2⟩

/-- The slot of sums after row loop 22, as the row-sum function: at (r, c) the gathered rows' entry plus the positional scratch's entry of row r + 128. -/
theorem rows_t22_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t22 (F := F) d L v2 X P 128)) (ValueIdx.ix2 r c)
      = RowsLib.rowG (ibS1).view (qV).view X P 128 (by omega) (ValueIdx.ix2 r c) :=
  RowsLib.read_writes_trips (n := k0_t22_loop.trips) (pb_t22 (F := F) d L v2 X P) (tripL_t22 (F := F) d L v2 X P) (obS1).view G _
    rfl (pb_t22_succ (F := F) d L v2 X P) (trip_pieces_t22 d L v2 X P) _ ⟨r.val, r.isLt⟩ (trip_cover_t22 d L v2 X P ⟨r.val, r.isLt⟩ r c rfl)

/-- THE SLOT OF SUMS AFTER ROW LOOP 22, whatever it held before: at (r, c) the gathered rows' entry (r, c) plus the positional
    scratch's entry (r + 128, c). -/
theorem rows_t22 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t22 (F := F) d L v2 X P (Scf.trips k0_t22_loop.lb k0_t22_loop.ub k0_t22_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t22_G d L v2 X P G r c

/-! ### the value of row loop 23 (slot 0, positional rows 0 … 127) -/

theorem trips_t23 : k0_t23_loop.trips = 128 := rfl

set_option maxHeartbeats 2000000 in
/-- Every piece of a trip of row loop 23 is the row sum on its rectangle. -/
theorem trip_pieces_t23 (d : Dev nD) (L : grid0.Coords) (v2 wa wb : BitVec 32) (X : BufTy.Contents (Elt F) (ibS0).view.ty) (P : BufTy.Contents (Elt F) (qV).view.ty) (k : Fin k0_t23_loop.trips) :
    ∀ p ∈ tripL_t23 (F := F) d L v2 wa wb X P k, ∀ x : p.1.shape.Idx, p.2 x = RowsLib.rowG (ibS0).view (qV).view X P 0 (by omega) (p.1.emb x) := by
  unfold tripL_t23 trip_t23
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off369_inb k) (k0_off369_inb k) (k0_off370_inb k) k.val (k.val + 0) 112 (k0_off369_eq k) (k0_off370_eq k) rfl _ (RowsLib.lane_sum _ _ _ _) x
  · exact fun x => RowsLib.piece_eq _ _ X P 0 _ _ _ (k0_off367_inb k) (k0_off367_inb k) (k0_off368_inb k) k.val (k.val + 0) 96 (k0_off367_eq k) (k0_off368_eq k) rfl _ (RowsLib.lane_sum _ _ _ _) x
  · exact fun x => RowsLib.piece_eq _ _ X P 0 _ _ _ (k0_off365_inb k) (k0_off365_inb k) (k0_off366_inb k) k.val (k.val + 0) 80 (k0_off365_eq k) (k0_off366_eq k) rfl _ (RowsLib.lane_sum _ _ _ _) x
  · exact fun x => RowsLib.piece_eq _ _ X P 0 _ _ _ (k0_off363_inb k) (k0_off363_inb k) (k0_off364_inb k) k.val (k.val + 0) 64 (k0_off363_eq k) (k0_off364_eq k) rfl _ (RowsLib.lane_sum _ _ _ _) x
  · exact fun x => RowsLib.piece_eq _ _ X P 0 _ _ _ (k0_off361_inb k) (k0_off361_inb k) (k0_off362_inb k) k.val (k.val + 0) 48 (k0_off361_eq k) (k0_off362_eq k) rfl _ (RowsLib.lane_sum _ _ _ _) x
  · exact fun x => RowsLib.piece_eq _ _ X P 0 _ _ _ (k0_off359_inb k) (k0_off359_inb k) (k0_off360_inb k) k.val (k.val + 0) 32 (k0_off359_eq k) (k0_off360_eq k) rfl _ (RowsLib.lane_sum _ _ _ _) x
  · exact fun x => RowsLib.piece_eq _ _ X P 0 _ _ _ (k0_off357_inb k) (k0_off357_inb k) (k0_off358_inb k) k.val (k.val + 0) 16 (k0_off357_eq k) (k0_off358_eq k) rfl _ (RowsLib.lane_sum _ _ _ _) x
  · exact fun x => RowsLib.piece_eq _ _ X P 0 _ _ _ (k0_off355_inb k) (k0_off355_inb k) (k0_off356_inb k) k.val (k.val + 0) 0 (k0_off355_eq k) (k0_off356_eq k) rfl _ (RowsLib.lane_sum _ _ _ _) x

set_option maxHeartbeats 2000000 in
/-- The eight pieces of trip k cover row k. -/
theorem trip_cover_t23 (d : Dev nD) (L : grid0.Coords) (v2 wa wb : BitVec 32) (X : BufTy.Contents (Elt F) (ibS0).view.ty) (P : BufTy.Contents (Elt F) (qV).view.ty)
    (k : Fin k0_t23_loop.trips) (r c : Fin 128) (hr : k.val = r.val) :
    ∃ p ∈ tripL_t23 (F := F) d L v2 wa wb X P k, (ValueIdx.ix2 r c : RowsLib.SS.Idx) ∈ p.1.set := by
  unfold tripL_t23 trip_t23
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off355_inb k) r c k.val 0 (k0_off355_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off357_inb k) r c k.val 16 (k0_off357_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off359_inb k) r c k.val 32 (k0_off359_eq k) hr h.1 h.2⟩
  · exact ⟨_, List.mem_cons_of_mem _ (List.mem_cons_of_mem _ (List.mem_cons_of_mem _ (List.mem_cons_of_mem _ (List.mem_cons_self)))), RowsLib.mem_unit _ (k0_off361_inb k) r c k.val 48 (k0_off361_eq k) hr h.1 h.2⟩
  · exact ⟨_, List.mem_cons_of_mem _ (List.mem_cons_of_mem _ (List.mem_cons_of_mem _ (List.mem_cons_self))), RowsLib.mem_unit _ (k0_off363_inb k) r c k.val 64 (k0_off363_eq k) hr h.1 h.2⟩
  · exact ⟨_, List.mem_cons_of_mem _ (List.mem_cons_of_mem _ (List.mem_cons_self)), RowsLib.mem_unit _ (k0_off365_inb k) r c k.val 80 (k0_off365_eq k) hr h.1 h.2⟩
  · exact ⟨_, List.mem_cons_of_mem _ (List.mem_cons_self), RowsLib.mem_unit _ (k0_off367_inb k) r c k.val 96 (k0_off367_eq k) hr h.1 h.2⟩
  · exact ⟨_, List.mem_cons_self, RowsLib.mem_unit _ (k0_off369_inb k) r c k.val 112 (k0_off369_eq k) hr h.1 h.2⟩

/-- The slot of sums after row loop 23, as the row-sum function: at (r, c) the gathered rows' entry plus the positional scratch's entry of row r + 0. -/
theorem rows_t23_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t23 (F := F) d L v2 wa wb X P 128)) (ValueIdx.ix2 r c)
      = RowsLib.rowG (ibS0).view (qV).view X P 0 (by omega) (ValueIdx.ix2 r c) :=
  RowsLib.read_writes_trips (n := k0_t23_loop.trips) (pb_t23 (F := F) d L v2 wa wb X P) (tripL_t23 (F := F) d L v2 wa wb X P) (obS0).view G _
    rfl (pb_t23_succ (F := F) d L v2 wa wb X P) (trip_pieces_t23 d L v2 wa wb X P) _ ⟨r.val, r.isLt⟩ (trip_cover_t23 d L v2 wa wb X P ⟨r.val, r.isLt⟩ r c rfl)

/-- THE SLOT OF SUMS AFTER ROW LOOP 23, whatever it held before: at (r, c) the gathered rows' entry (r, c) plus the positional
    scratch's entry (r + 0, c). -/
theorem rows_t23 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t23 (F := F) d L v2 wa wb X P (Scf.trips k0_t23_loop.lb k0_t23_loop.ub k0_t23_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t23_G d L v2 wa wb X P G r c

/-! ### the value of row loop 24 (slot 1, positional rows 128 … 255) -/

theorem trips_t24 : k0_t24_loop.trips = 128 := rfl

set_option maxHeartbeats 2000000 in
/-- Every piece of a trip of row loop 24 is the row sum on its rectangle. -/
theorem trip_pieces_t24 (d : Dev nD) (L : grid0.Coords) (v2 : BitVec 32) (X : BufTy.Contents (Elt F) (ibS1).view.ty) (P : BufTy.Contents (Elt F) (qV).view.ty) (k : Fin k0_t24_loop.trips) :
    ∀ p ∈ tripL_t24 (F := F) d L v2 X P k, ∀ x : p.1.shape.Idx, p.2 x = RowsLib.rowG (ibS1).view (qV).view X P 128 (by omega) (p.1.emb x) := by
  unfold tripL_t24 trip_t24
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off385_inb k) (k0_off385_inb k) (k0_off386_inb k) k.val (k.val + 128) 112 (k0_off385_eq k) (k0_off386_eq k) rfl _ (RowsLib.lane_sum _ _ _ _) x
  · exact fun x => RowsLib.piece_eq _ _ X P 128 _ _ _ (k0_off383_inb k) (k0_off383_inb k) (k0_off384_inb k) k.val (k.val + 128) 96 (k0_off383_eq k) (k0_off384_eq k) rfl _ (RowsLib.lane_sum _ _ _ _) x
  · exact fun x => RowsLib.piece_eq _ _ X P 128 _ _ _ (k0_off381_inb k) (k0_off381_inb k) (k0_off382_inb k) k.val (k.val + 128) 80 (k0_off381_eq k) (k0_off382_eq k) rfl _ (RowsLib.lane_sum _ _ _ _) x
  · exact fun x => RowsLib.piece_eq _ _ X P 128 _ _ _ (k0_off379_inb k) (k0_off379_inb k) (k0_off380_inb k) k.val (k.val + 128) 64 (k0_off379_eq k) (k0_off380_eq k) rfl _ (RowsLib.lane_sum _ _ _ _) x
  · exact fun x => RowsLib.piece_eq _ _ X P 128 _ _ _ (k0_off377_inb k) (k0_off377_inb k) (k0_off378_inb k) k.val (k.val + 128) 48 (k0_off377_eq k) (k0_off378_eq k) rfl _ (RowsLib.lane_sum _ _ _ _) x
  · exact fun x => RowsLib.piece_eq _ _ X P 128 _ _ _ (k0_off375_inb k) (k0_off375_inb k) (k0_off376_inb k) k.val (k.val + 128) 32 (k0_off375_eq k) (k0_off376_eq k) rfl _ (RowsLib.lane_sum _ _ _ _) x
  · exact fun x => RowsLib.piece_eq _ _ X P 128 _ _ _ (k0_off373_inb k) (k0_off373_inb k) (k0_off374_inb k) k.val (k.val + 128) 16 (k0_off373_eq k) (k0_off374_eq k) rfl _ (RowsLib.lane_sum _ _ _ _) x
  · exact fun x => RowsLib.piece_eq _ _ X P 128 _ _ _ (k0_off371_inb k) (k0_off371_inb k) (k0_off372_inb k) k.val (k.val + 128) 0 (k0_off371_eq k) (k0_off372_eq k) rfl _ (RowsLib.lane_sum _ _ _ _) x

set_option maxHeartbeats 2000000 in
/-- The eight pieces of trip k cover row k. -/
theorem trip_cover_t24 (d : Dev nD) (L : grid0.Coords) (v2 : BitVec 32) (X : BufTy.Contents (Elt F) (ibS1).view.ty) (P : BufTy.Contents (Elt F) (qV).view.ty)
    (k : Fin k0_t24_loop.trips) (r c : Fin 128) (hr : k.val = r.val) :
    ∃ p ∈ tripL_t24 (F := F) d L v2 X P k, (ValueIdx.ix2 r c : RowsLib.SS.Idx) ∈ p.1.set := by
  unfold tripL_t24 trip_t24
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off371_inb k) r c k.val 0 (k0_off371_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off373_inb k) r c k.val 16 (k0_off373_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off375_inb k) r c k.val 32 (k0_off375_eq k) hr h.1 h.2⟩
  · exact ⟨_, List.mem_cons_of_mem _ (List.mem_cons_of_mem _ (List.mem_cons_of_mem _ (List.mem_cons_of_mem _ (List.mem_cons_self)))), RowsLib.mem_unit _ (k0_off377_inb k) r c k.val 48 (k0_off377_eq k) hr h.1 h.2⟩
  · exact ⟨_, List.mem_cons_of_mem _ (List.mem_cons_of_mem _ (List.mem_cons_of_mem _ (List.mem_cons_self))), RowsLib.mem_unit _ (k0_off379_inb k) r c k.val 64 (k0_off379_eq k) hr h.1 h.2⟩
  · exact ⟨_, List.mem_cons_of_mem _ (List.mem_cons_of_mem _ (List.mem_cons_self)), RowsLib.mem_unit _ (k0_off381_inb k) r c k.val 80 (k0_off381_eq k) hr h.1 h.2⟩
  · exact ⟨_, List.mem_cons_of_mem _ (List.mem_cons_self), RowsLib.mem_unit _ (k0_off383_inb k) r c k.val 96 (k0_off383_eq k) hr h.1 h.2⟩
  · exact ⟨_, List.mem_cons_self, RowsLib.mem_unit _ (k0_off385_inb k) r c k.val 112 (k0_off385_eq k) hr h.1 h.2⟩

/-- The slot of sums after row loop 24, as the row-sum function: at (r, c) the gathered rows' entry plus the positional scratch's entry of row r + 128. -/
theorem rows_t24_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t24 (F := F) d L v2 X P 128)) (ValueIdx.ix2 r c)
      = RowsLib.rowG (ibS1).view (qV).view X P 128 (by omega) (ValueIdx.ix2 r c) :=
  RowsLib.read_writes_trips (n := k0_t24_loop.trips) (pb_t24 (F := F) d L v2 X P) (tripL_t24 (F := F) d L v2 X P) (obS1).view G _
    rfl (pb_t24_succ (F := F) d L v2 X P) (trip_pieces_t24 d L v2 X P) _ ⟨r.val, r.isLt⟩ (trip_cover_t24 d L v2 X P ⟨r.val, r.isLt⟩ r c rfl)

/-- THE SLOT OF SUMS AFTER ROW LOOP 24, whatever it held before: at (r, c) the gathered rows' entry (r, c) plus the positional
    scratch's entry (r + 128, c). -/
theorem rows_t24 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t24 (F := F) d L v2 X P (Scf.trips k0_t24_loop.lb k0_t24_loop.ub k0_t24_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t24_G d L v2 X P G r c

/-! ### the value of row loop 25 (slot 0, positional rows 0 … 127) -/

theorem trips_t25 : k0_t25_loop.trips = 128 := rfl

set_option maxHeartbeats 2000000 in
/-- Every piece of a trip of row loop 25 is the row sum on its rectangle. -/
theorem trip_pieces_t25 (d : Dev nD) (L : grid0.Coords) (v2 : BitVec 32) (X : BufTy.Contents (Elt F) (ibS0).view.ty) (P : BufTy.Contents (Elt F) (qV).view.ty) (k : Fin k0_t25_loop.trips) :
    ∀ p ∈ tripL_t25 (F := F) d L v2 X P k, ∀ x : p.1.shape.Idx, p.2 x = RowsLib.rowG (ibS0).view (qV).view X P 0 (by omega) (p.1.emb x) := by
  unfold tripL_t25 trip_t25
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off401_inb k) (k0_off401_inb k) (k0_off402_inb k) k.val (k.val + 0) 112 (k0_off401_eq k) (k0_off402_eq k) rfl _ (RowsLib.lane_sum _ _ _ _) x
  · exact fun x => RowsLib.piece_eq _ _ X P 0 _ _ _ (k0_off399_inb k) (k0_off399_inb k) (k0_off400_inb k) k.val (k.val + 0) 96 (k0_off399_eq k) (k0_off400_eq k) rfl _ (RowsLib.lane_sum _ _ _ _) x
  · exact fun x => RowsLib.piece_eq _ _ X P 0 _ _ _ (k0_off397_inb k) (k0_off397_inb k) (k0_off398_inb k) k.val (k.val + 0) 80 (k0_off397_eq k) (k0_off398_eq k) rfl _ (RowsLib.lane_sum _ _ _ _) x
  · exact fun x => RowsLib.piece_eq _ _ X P 0 _ _ _ (k0_off395_inb k) (k0_off395_inb k) (k0_off396_inb k) k.val (k.val + 0) 64 (k0_off395_eq k) (k0_off396_eq k) rfl _ (RowsLib.lane_sum _ _ _ _) x
  · exact fun x => RowsLib.piece_eq _ _ X P 0 _ _ _ (k0_off393_inb k) (k0_off393_inb k) (k0_off394_inb k) k.val (k.val + 0) 48 (k0_off393_eq k) (k0_off394_eq k) rfl _ (RowsLib.lane_sum _ _ _ _) x
  · exact fun x => RowsLib.piece_eq _ _ X P 0 _ _ _ (k0_off391_inb k) (k0_off391_inb k) (k0_off392_inb k) k.val (k.val + 0) 32 (k0_off391_eq k) (k0_off392_eq k) rfl _ (RowsLib.lane_sum _ _ _ _) x
  · exact fun x => RowsLib.piece_eq _ _ X P 0 _ _ _ (k0_off389_inb k) (k0_off389_inb k) (k0_off390_inb k) k.val (k.val + 0) 16 (k0_off389_eq k) (k0_off390_eq k) rfl _ (RowsLib.lane_sum _ _ _ _) x
  · exact fun x => RowsLib.piece_eq _ _ X P 0 _ _ _ (k0_off387_inb k) (k0_off387_inb k) (k0_off388_inb k) k.val (k.val + 0) 0 (k0_off387_eq k) (k0_off388_eq k) rfl _ (RowsLib.lane_sum _ _ _ _) x

set_option maxHeartbeats 2000000 in
/-- The eight pieces of trip k cover row k. -/
theorem trip_cover_t25 (d : Dev nD) (L : grid0.Coords) (v2 : BitVec 32) (X : BufTy.Contents (Elt F) (ibS0).view.ty) (P : BufTy.Contents (Elt F) (qV).view.ty)
    (k : Fin k0_t25_loop.trips) (r c : Fin 128) (hr : k.val = r.val) :
    ∃ p ∈ tripL_t25 (F := F) d L v2 X P k, (ValueIdx.ix2 r c : RowsLib.SS.Idx) ∈ p.1.set := by
  unfold tripL_t25 trip_t25
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off387_inb k) r c k.val 0 (k0_off387_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off389_inb k) r c k.val 16 (k0_off389_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off391_inb k) r c k.val 32 (k0_off391_eq k) hr h.1 h.2⟩
  · exact ⟨_, List.mem_cons_of_mem _ (List.mem_cons_of_mem _ (List.mem_cons_of_mem _ (List.mem_cons_of_mem _ (List.mem_cons_self)))), RowsLib.mem_unit _ (k0_off393_inb k) r c k.val 48 (k0_off393_eq k) hr h.1 h.2⟩
  · exact ⟨_, List.mem_cons_of_mem _ (List.mem_cons_of_mem _ (List.mem_cons_of_mem _ (List.mem_cons_self))), RowsLib.mem_unit _ (k0_off395_inb k) r c k.val 64 (k0_off395_eq k) hr h.1 h.2⟩
  · exact ⟨_, List.mem_cons_of_mem _ (List.mem_cons_of_mem _ (List.mem_cons_self)), RowsLib.mem_unit _ (k0_off397_inb k) r c k.val 80 (k0_off397_eq k) hr h.1 h.2⟩
  · exact ⟨_, List.mem_cons_of_mem _ (List.mem_cons_self), RowsLib.mem_unit _ (k0_off399_inb k) r c k.val 96 (k0_off399_eq k) hr h.1 h.2⟩
  · exact ⟨_, List.mem_cons_self, RowsLib.mem_unit _ (k0_off401_inb k) r c k.val 112 (k0_off401_eq k) hr h.1 h.2⟩

/-- The slot of sums after row loop 25, as the row-sum function: at (r, c) the gathered rows' entry plus the positional scratch's entry of row r + 0. -/
theorem rows_t25_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t25 (F := F) d L v2 X P 128)) (ValueIdx.ix2 r c)
      = RowsLib.rowG (ibS0).view (qV).view X P 0 (by omega) (ValueIdx.ix2 r c) :=
  RowsLib.read_writes_trips (n := k0_t25_loop.trips) (pb_t25 (F := F) d L v2 X P) (tripL_t25 (F := F) d L v2 X P) (obS0).view G _
    rfl (pb_t25_succ (F := F) d L v2 X P) (trip_pieces_t25 d L v2 X P) _ ⟨r.val, r.isLt⟩ (trip_cover_t25 d L v2 X P ⟨r.val, r.isLt⟩ r c rfl)

/-- THE SLOT OF SUMS AFTER ROW LOOP 25, whatever it held before: at (r, c) the gathered rows' entry (r, c) plus the positional
    scratch's entry (r + 0, c). -/
theorem rows_t25 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t25 (F := F) d L v2 X P (Scf.trips k0_t25_loop.lb k0_t25_loop.ub k0_t25_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t25_G d L v2 X P G r c

/-! ### the value of row loop 26 (slot 1, positional rows 128 … 255) -/

theorem trips_t26 : k0_t26_loop.trips = 128 := rfl

set_option maxHeartbeats 2000000 in
/-- Every piece of a trip of row loop 26 is the row sum on its rectangle. -/
theorem trip_pieces_t26 (d : Dev nD) (L : grid0.Coords) (v2 : BitVec 32) (X : BufTy.Contents (Elt F) (ibS1).view.ty) (P : BufTy.Contents (Elt F) (qV).view.ty) (k : Fin k0_t26_loop.trips) :
    ∀ p ∈ tripL_t26 (F := F) d L v2 X P k, ∀ x : p.1.shape.Idx, p.2 x = RowsLib.rowG (ibS1).view (qV).view X P 128 (by omega) (p.1.emb x) := by
  unfold tripL_t26 trip_t26
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off417_inb k) (k0_off417_inb k) (k0_off418_inb k) k.val (k.val + 128) 112 (k0_off417_eq k) (k0_off418_eq k) rfl _ (RowsLib.lane_sum _ _ _ _) x
  · exact fun x => RowsLib.piece_eq _ _ X P 128 _ _ _ (k0_off415_inb k) (k0_off415_inb k) (k0_off416_inb k) k.val (k.val + 128) 96 (k0_off415_eq k) (k0_off416_eq k) rfl _ (RowsLib.lane_sum _ _ _ _) x
  · exact fun x => RowsLib.piece_eq _ _ X P 128 _ _ _ (k0_off413_inb k) (k0_off413_inb k) (k0_off414_inb k) k.val (k.val + 128) 80 (k0_off413_eq k) (k0_off414_eq k) rfl _ (RowsLib.lane_sum _ _ _ _) x
  · exact fun x => RowsLib.piece_eq _ _ X P 128 _ _ _ (k0_off411_inb k) (k0_off411_inb k) (k0_off412_inb k) k.val (k.val + 128) 64 (k0_off411_eq k) (k0_off412_eq k) rfl _ (RowsLib.lane_sum _ _ _ _) x
  · exact fun x => RowsLib.piece_eq _ _ X P 128 _ _ _ (k0_off409_inb k) (k0_off409_inb k) (k0_off410_inb k) k.val (k.val + 128) 48 (k0_off409_eq k) (k0_off410_eq k) rfl _ (RowsLib.lane_sum _ _ _ _) x
  · exact fun x => RowsLib.piece_eq _ _ X P 128 _ _ _ (k0_off407_inb k) (k0_off407_inb k) (k0_off408_inb k) k.val (k.val + 128) 32 (k0_off407_eq k) (k0_off408_eq k) rfl _ (RowsLib.lane_sum _ _ _ _) x
  · exact fun x => RowsLib.piece_eq _ _ X P 128 _ _ _ (k0_off405_inb k) (k0_off405_inb k) (k0_off406_inb k) k.val (k.val + 128) 16 (k0_off405_eq k) (k0_off406_eq k) rfl _ (RowsLib.lane_sum _ _ _ _) x
  · exact fun x => RowsLib.piece_eq _ _ X P 128 _ _ _ (k0_off403_inb k) (k0_off403_inb k) (k0_off404_inb k) k.val (k.val + 128) 0 (k0_off403_eq k) (k0_off404_eq k) rfl _ (RowsLib.lane_sum _ _ _ _) x

set_option maxHeartbeats 2000000 in
/-- The eight pieces of trip k cover row k. -/
theorem trip_cover_t26 (d : Dev nD) (L : grid0.Coords) (v2 : BitVec 32) (X : BufTy.Contents (Elt F) (ibS1).view.ty) (P : BufTy.Contents (Elt F) (qV).view.ty)
    (k : Fin k0_t26_loop.trips) (r c : Fin 128) (hr : k.val = r.val) :
    ∃ p ∈ tripL_t26 (F := F) d L v2 X P k, (ValueIdx.ix2 r c : RowsLib.SS.Idx) ∈ p.1.set := by
  unfold tripL_t26 trip_t26
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off403_inb k) r c k.val 0 (k0_off403_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off405_inb k) r c k.val 16 (k0_off405_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off407_inb k) r c k.val 32 (k0_off407_eq k) hr h.1 h.2⟩
  · exact ⟨_, List.mem_cons_of_mem _ (List.mem_cons_of_mem _ (List.mem_cons_of_mem _ (List.mem_cons_of_mem _ (List.mem_cons_self)))), RowsLib.mem_unit _ (k0_off409_inb k) r c k.val 48 (k0_off409_eq k) hr h.1 h.2⟩
  · exact ⟨_, List.mem_cons_of_mem _ (List.mem_cons_of_mem _ (List.mem_cons_of_mem _ (List.mem_cons_self))), RowsLib.mem_unit _ (k0_off411_inb k) r c k.val 64 (k0_off411_eq k) hr h.1 h.2⟩
  · exact ⟨_, List.mem_cons_of_mem _ (List.mem_cons_of_mem _ (List.mem_cons_self)), RowsLib.mem_unit _ (k0_off413_inb k) r c k.val 80 (k0_off413_eq k) hr h.1 h.2⟩
  · exact ⟨_, List.mem_cons_of_mem _ (List.mem_cons_self), RowsLib.mem_unit _ (k0_off415_inb k) r c k.val 96 (k0_off415_eq k) hr h.1 h.2⟩
  · exact ⟨_, List.mem_cons_self, RowsLib.mem_unit _ (k0_off417_inb k) r c k.val 112 (k0_off417_eq k) hr h.1 h.2⟩

/-- The slot of sums after row loop 26, as the row-sum function: at (r, c) the gathered rows' entry plus the positional scratch's entry of row r + 128. -/
theorem rows_t26_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t26 (F := F) d L v2 X P 128)) (ValueIdx.ix2 r c)
      = RowsLib.rowG (ibS1).view (qV).view X P 128 (by omega) (ValueIdx.ix2 r c) :=
  RowsLib.read_writes_trips (n := k0_t26_loop.trips) (pb_t26 (F := F) d L v2 X P) (tripL_t26 (F := F) d L v2 X P) (obS1).view G _
    rfl (pb_t26_succ (F := F) d L v2 X P) (trip_pieces_t26 d L v2 X P) _ ⟨r.val, r.isLt⟩ (trip_cover_t26 d L v2 X P ⟨r.val, r.isLt⟩ r c rfl)

/-- THE SLOT OF SUMS AFTER ROW LOOP 26, whatever it held before: at (r, c) the gathered rows' entry (r, c) plus the positional
    scratch's entry (r + 128, c). -/
theorem rows_t26 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t26 (F := F) d L v2 X P (Scf.trips k0_t26_loop.lb k0_t26_loop.ub k0_t26_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t26_G d L v2 X P G r c

/-! ### the value of row loop 27 (slot 0, positional rows 0 … 127) -/

theorem trips_t27 : k0_t27_loop.trips = 128 := rfl

set_option maxHeartbeats 2000000 in
/-- Every piece of a trip of row loop 27 is the row sum on its rectangle. -/
theorem trip_pieces_t27 (d : Dev nD) (L : grid0.Coords) (v2 : BitVec 32) (X : BufTy.Contents (Elt F) (ibS0).view.ty) (P : BufTy.Contents (Elt F) (qV).view.ty) (k : Fin k0_t27_loop.trips) :
    ∀ p ∈ tripL_t27 (F := F) d L v2 X P k, ∀ x : p.1.shape.Idx, p.2 x = RowsLib.rowG (ibS0).view (qV).view X P 0 (by omega) (p.1.emb x) := by
  unfold tripL_t27 trip_t27
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off433_inb k) (k0_off433_inb k) (k0_off434_inb k) k.val (k.val + 0) 112 (k0_off433_eq k) (k0_off434_eq k) rfl _ (RowsLib.lane_sum _ _ _ _) x
  · exact fun x => RowsLib.piece_eq _ _ X P 0 _ _ _ (k0_off431_inb k) (k0_off431_inb k) (k0_off432_inb k) k.val (k.val + 0) 96 (k0_off431_eq k) (k0_off432_eq k) rfl _ (RowsLib.lane_sum _ _ _ _) x
  · exact fun x => RowsLib.piece_eq _ _ X P 0 _ _ _ (k0_off429_inb k) (k0_off429_inb k) (k0_off430_inb k) k.val (k.val + 0) 80 (k0_off429_eq k) (k0_off430_eq k) rfl _ (RowsLib.lane_sum _ _ _ _) x
  · exact fun x => RowsLib.piece_eq _ _ X P 0 _ _ _ (k0_off427_inb k) (k0_off427_inb k) (k0_off428_inb k) k.val (k.val + 0) 64 (k0_off427_eq k) (k0_off428_eq k) rfl _ (RowsLib.lane_sum _ _ _ _) x
  · exact fun x => RowsLib.piece_eq _ _ X P 0 _ _ _ (k0_off425_inb k) (k0_off425_inb k) (k0_off426_inb k) k.val (k.val + 0) 48 (k0_off425_eq k) (k0_off426_eq k) rfl _ (RowsLib.lane_sum _ _ _ _) x
  · exact fun x => RowsLib.piece_eq _ _ X P 0 _ _ _ (k0_off423_inb k) (k0_off423_inb k) (k0_off424_inb k) k.val (k.val + 0) 32 (k0_off423_eq k) (k0_off424_eq k) rfl _ (RowsLib.lane_sum _ _ _ _) x
  · exact fun x => RowsLib.piece_eq _ _ X P 0 _ _ _ (k0_off421_inb k) (k0_off421_inb k) (k0_off422_inb k) k.val (k.val + 0) 16 (k0_off421_eq k) (k0_off422_eq k) rfl _ (RowsLib.lane_sum _ _ _ _) x
  · exact fun x => RowsLib.piece_eq _ _ X P 0 _ _ _ (k0_off419_inb k) (k0_off419_inb k) (k0_off420_inb k) k.val (k.val + 0) 0 (k0_off419_eq k) (k0_off420_eq k) rfl _ (RowsLib.lane_sum _ _ _ _) x

set_option maxHeartbeats 2000000 in
/-- The eight pieces of trip k cover row k. -/
theorem trip_cover_t27 (d : Dev nD) (L : grid0.Coords) (v2 : BitVec 32) (X : BufTy.Contents (Elt F) (ibS0).view.ty) (P : BufTy.Contents (Elt F) (qV).view.ty)
    (k : Fin k0_t27_loop.trips) (r c : Fin 128) (hr : k.val = r.val) :
    ∃ p ∈ tripL_t27 (F := F) d L v2 X P k, (ValueIdx.ix2 r c : RowsLib.SS.Idx) ∈ p.1.set := by
  unfold tripL_t27 trip_t27
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off419_inb k) r c k.val 0 (k0_off419_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off421_inb k) r c k.val 16 (k0_off421_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off423_inb k) r c k.val 32 (k0_off423_eq k) hr h.1 h.2⟩
  · exact ⟨_, List.mem_cons_of_mem _ (List.mem_cons_of_mem _ (List.mem_cons_of_mem _ (List.mem_cons_of_mem _ (List.mem_cons_self)))), RowsLib.mem_unit _ (k0_off425_inb k) r c k.val 48 (k0_off425_eq k) hr h.1 h.2⟩
  · exact ⟨_, List.mem_cons_of_mem _ (List.mem_cons_of_mem _ (List.mem_cons_of_mem _ (List.mem_cons_self))), RowsLib.mem_unit _ (k0_off427_inb k) r c k.val 64 (k0_off427_eq k) hr h.1 h.2⟩
  · exact ⟨_, List.mem_cons_of_mem _ (List.mem_cons_of_mem _ (List.mem_cons_self)), RowsLib.mem_unit _ (k0_off429_inb k) r c k.val 80 (k0_off429_eq k) hr h.1 h.2⟩
  · exact ⟨_, List.mem_cons_of_mem _ (List.mem_cons_self), RowsLib.mem_unit _ (k0_off431_inb k) r c k.val 96 (k0_off431_eq k) hr h.1 h.2⟩
  · exact ⟨_, List.mem_cons_self, RowsLib.mem_unit _ (k0_off433_inb k) r c k.val 112 (k0_off433_eq k) hr h.1 h.2⟩

/-- The slot of sums after row loop 27, as the row-sum function: at (r, c) the gathered rows' entry plus the positional scratch's entry of row r + 0. -/
theorem rows_t27_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t27 (F := F) d L v2 X P 128)) (ValueIdx.ix2 r c)
      = RowsLib.rowG (ibS0).view (qV).view X P 0 (by omega) (ValueIdx.ix2 r c) :=
  RowsLib.read_writes_trips (n := k0_t27_loop.trips) (pb_t27 (F := F) d L v2 X P) (tripL_t27 (F := F) d L v2 X P) (obS0).view G _
    rfl (pb_t27_succ (F := F) d L v2 X P) (trip_pieces_t27 d L v2 X P) _ ⟨r.val, r.isLt⟩ (trip_cover_t27 d L v2 X P ⟨r.val, r.isLt⟩ r c rfl)

/-- THE SLOT OF SUMS AFTER ROW LOOP 27, whatever it held before: at (r, c) the gathered rows' entry (r, c) plus the positional
    scratch's entry (r + 0, c). -/
theorem rows_t27 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t27 (F := F) d L v2 X P (Scf.trips k0_t27_loop.lb k0_t27_loop.ub k0_t27_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t27_G d L v2 X P G r c

/-! ### the value of row loop 28 (slot 1, positional rows 128 … 255) -/

theorem trips_t28 : k0_t28_loop.trips = 128 := rfl

set_option maxHeartbeats 2000000 in
/-- Every piece of a trip of row loop 28 is the row sum on its rectangle. -/
theorem trip_pieces_t28 (d : Dev nD) (L : grid0.Coords) (v2 : BitVec 32) (X : BufTy.Contents (Elt F) (ibS1).view.ty) (P : BufTy.Contents (Elt F) (qV).view.ty) (k : Fin k0_t28_loop.trips) :
    ∀ p ∈ tripL_t28 (F := F) d L v2 X P k, ∀ x : p.1.shape.Idx, p.2 x = RowsLib.rowG (ibS1).view (qV).view X P 128 (by omega) (p.1.emb x) := by
  unfold tripL_t28 trip_t28
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off449_inb k) (k0_off449_inb k) (k0_off450_inb k) k.val (k.val + 128) 112 (k0_off449_eq k) (k0_off450_eq k) rfl _ (RowsLib.lane_sum _ _ _ _) x
  · exact fun x => RowsLib.piece_eq _ _ X P 128 _ _ _ (k0_off447_inb k) (k0_off447_inb k) (k0_off448_inb k) k.val (k.val + 128) 96 (k0_off447_eq k) (k0_off448_eq k) rfl _ (RowsLib.lane_sum _ _ _ _) x
  · exact fun x => RowsLib.piece_eq _ _ X P 128 _ _ _ (k0_off445_inb k) (k0_off445_inb k) (k0_off446_inb k) k.val (k.val + 128) 80 (k0_off445_eq k) (k0_off446_eq k) rfl _ (RowsLib.lane_sum _ _ _ _) x
  · exact fun x => RowsLib.piece_eq _ _ X P 128 _ _ _ (k0_off443_inb k) (k0_off443_inb k) (k0_off444_inb k) k.val (k.val + 128) 64 (k0_off443_eq k) (k0_off444_eq k) rfl _ (RowsLib.lane_sum _ _ _ _) x
  · exact fun x => RowsLib.piece_eq _ _ X P 128 _ _ _ (k0_off441_inb k) (k0_off441_inb k) (k0_off442_inb k) k.val (k.val + 128) 48 (k0_off441_eq k) (k0_off442_eq k) rfl _ (RowsLib.lane_sum _ _ _ _) x
  · exact fun x => RowsLib.piece_eq _ _ X P 128 _ _ _ (k0_off439_inb k) (k0_off439_inb k) (k0_off440_inb k) k.val (k.val + 128) 32 (k0_off439_eq k) (k0_off440_eq k) rfl _ (RowsLib.lane_sum _ _ _ _) x
  · exact fun x => RowsLib.piece_eq _ _ X P 128 _ _ _ (k0_off437_inb k) (k0_off437_inb k) (k0_off438_inb k) k.val (k.val + 128) 16 (k0_off437_eq k) (k0_off438_eq k) rfl _ (RowsLib.lane_sum _ _ _ _) x
  · exact fun x => RowsLib.piece_eq _ _ X P 128 _ _ _ (k0_off435_inb k) (k0_off435_inb k) (k0_off436_inb k) k.val (k.val + 128) 0 (k0_off435_eq k) (k0_off436_eq k) rfl _ (RowsLib.lane_sum _ _ _ _) x

set_option maxHeartbeats 2000000 in
/-- The eight pieces of trip k cover row k. -/
theorem trip_cover_t28 (d : Dev nD) (L : grid0.Coords) (v2 : BitVec 32) (X : BufTy.Contents (Elt F) (ibS1).view.ty) (P : BufTy.Contents (Elt F) (qV).view.ty)
    (k : Fin k0_t28_loop.trips) (r c : Fin 128) (hr : k.val = r.val) :
    ∃ p ∈ tripL_t28 (F := F) d L v2 X P k, (ValueIdx.ix2 r c : RowsLib.SS.Idx) ∈ p.1.set := by
  unfold tripL_t28 trip_t28
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off435_inb k) r c k.val 0 (k0_off435_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off437_inb k) r c k.val 16 (k0_off437_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off439_inb k) r c k.val 32 (k0_off439_eq k) hr h.1 h.2⟩
  · exact ⟨_, List.mem_cons_of_mem _ (List.mem_cons_of_mem _ (List.mem_cons_of_mem _ (List.mem_cons_of_mem _ (List.mem_cons_self)))), RowsLib.mem_unit _ (k0_off441_inb k) r c k.val 48 (k0_off441_eq k) hr h.1 h.2⟩
  · exact ⟨_, List.mem_cons_of_mem _ (List.mem_cons_of_mem _ (List.mem_cons_of_mem _ (List.mem_cons_self))), RowsLib.mem_unit _ (k0_off443_inb k) r c k.val 64 (k0_off443_eq k) hr h.1 h.2⟩
  · exact ⟨_, List.mem_cons_of_mem _ (List.mem_cons_of_mem _ (List.mem_cons_self)), RowsLib.mem_unit _ (k0_off445_inb k) r c k.val 80 (k0_off445_eq k) hr h.1 h.2⟩
  · exact ⟨_, List.mem_cons_of_mem _ (List.mem_cons_self), RowsLib.mem_unit _ (k0_off447_inb k) r c k.val 96 (k0_off447_eq k) hr h.1 h.2⟩
  · exact ⟨_, List.mem_cons_self, RowsLib.mem_unit _ (k0_off449_inb k) r c k.val 112 (k0_off449_eq k) hr h.1 h.2⟩

/-- The slot of sums after row loop 28, as the row-sum function: at (r, c) the gathered rows' entry plus the positional scratch's entry of row r + 128. -/
theorem rows_t28_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t28 (F := F) d L v2 X P 128)) (ValueIdx.ix2 r c)
      = RowsLib.rowG (ibS1).view (qV).view X P 128 (by omega) (ValueIdx.ix2 r c) :=
  RowsLib.read_writes_trips (n := k0_t28_loop.trips) (pb_t28 (F := F) d L v2 X P) (tripL_t28 (F := F) d L v2 X P) (obS1).view G _
    rfl (pb_t28_succ (F := F) d L v2 X P) (trip_pieces_t28 d L v2 X P) _ ⟨r.val, r.isLt⟩ (trip_cover_t28 d L v2 X P ⟨r.val, r.isLt⟩ r c rfl)

/-- THE SLOT OF SUMS AFTER ROW LOOP 28, whatever it held before: at (r, c) the gathered rows' entry (r, c) plus the positional
    scratch's entry (r + 128, c). -/
theorem rows_t28 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t28 (F := F) d L v2 X P (Scf.trips k0_t28_loop.lb k0_t28_loop.ub k0_t28_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t28_G d L v2 X P G r c

/-! ### the value of row loop 29 (slot 0, positional rows 0 … 127) -/

theorem trips_t29 : k0_t29_loop.trips = 128 := rfl

set_option maxHeartbeats 2000000 in
/-- Every piece of a trip of row loop 29 is the row sum on its rectangle. -/
theorem trip_pieces_t29 (d : Dev nD) (L : grid0.Coords) (v2 : BitVec 32) (X : BufTy.Contents (Elt F) (ibS0).view.ty) (P : BufTy.Contents (Elt F) (qV).view.ty) (k : Fin k0_t29_loop.trips) :
    ∀ p ∈ tripL_t29 (F := F) d L v2 X P k, ∀ x : p.1.shape.Idx, p.2 x = RowsLib.rowG (ibS0).view (qV).view X P 0 (by omega) (p.1.emb x) := by
  unfold tripL_t29 trip_t29
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off465_inb k) (k0_off465_inb k) (k0_off466_inb k) k.val (k.val + 0) 112 (k0_off465_eq k) (k0_off466_eq k) rfl _ (RowsLib.lane_sum _ _ _ _) x
  · exact fun x => RowsLib.piece_eq _ _ X P 0 _ _ _ (k0_off463_inb k) (k0_off463_inb k) (k0_off464_inb k) k.val (k.val + 0) 96 (k0_off463_eq k) (k0_off464_eq k) rfl _ (RowsLib.lane_sum _ _ _ _) x
  · exact fun x => RowsLib.piece_eq _ _ X P 0 _ _ _ (k0_off461_inb k) (k0_off461_inb k) (k0_off462_inb k) k.val (k.val + 0) 80 (k0_off461_eq k) (k0_off462_eq k) rfl _ (RowsLib.lane_sum _ _ _ _) x
  · exact fun x => RowsLib.piece_eq _ _ X P 0 _ _ _ (k0_off459_inb k) (k0_off459_inb k) (k0_off460_inb k) k.val (k.val + 0) 64 (k0_off459_eq k) (k0_off460_eq k) rfl _ (RowsLib.lane_sum _ _ _ _) x
  · exact fun x => RowsLib.piece_eq _ _ X P 0 _ _ _ (k0_off457_inb k) (k0_off457_inb k) (k0_off458_inb k) k.val (k.val + 0) 48 (k0_off457_eq k) (k0_off458_eq k) rfl _ (RowsLib.lane_sum _ _ _ _) x
  · exact fun x => RowsLib.piece_eq _ _ X P 0 _ _ _ (k0_off455_inb k) (k0_off455_inb k) (k0_off456_inb k) k.val (k.val + 0) 32 (k0_off455_eq k) (k0_off456_eq k) rfl _ (RowsLib.lane_sum _ _ _ _) x
  · exact fun x => RowsLib.piece_eq _ _ X P 0 _ _ _ (k0_off453_inb k) (k0_off453_inb k) (k0_off454_inb k) k.val (k.val + 0) 16 (k0_off453_eq k) (k0_off454_eq k) rfl _ (RowsLib.lane_sum _ _ _ _) x
  · exact fun x => RowsLib.piece_eq _ _ X P 0 _ _ _ (k0_off451_inb k) (k0_off451_inb k) (k0_off452_inb k) k.val (k.val + 0) 0 (k0_off451_eq k) (k0_off452_eq k) rfl _ (RowsLib.lane_sum _ _ _ _) x

set_option maxHeartbeats 2000000 in
/-- The eight pieces of trip k cover row k. -/
theorem trip_cover_t29 (d : Dev nD) (L : grid0.Coords) (v2 : BitVec 32) (X : BufTy.Contents (Elt F) (ibS0).view.ty) (P : BufTy.Contents (Elt F) (qV).view.ty)
    (k : Fin k0_t29_loop.trips) (r c : Fin 128) (hr : k.val = r.val) :
    ∃ p ∈ tripL_t29 (F := F) d L v2 X P k, (ValueIdx.ix2 r c : RowsLib.SS.Idx) ∈ p.1.set := by
  unfold tripL_t29 trip_t29
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off451_inb k) r c k.val 0 (k0_off451_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off453_inb k) r c k.val 16 (k0_off453_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off455_inb k) r c k.val 32 (k0_off455_eq k) hr h.1 h.2⟩
  · exact ⟨_, List.mem_cons_of_mem _ (List.mem_cons_of_mem _ (List.mem_cons_of_mem _ (List.mem_cons_of_mem _ (List.mem_cons_self)))), RowsLib.mem_unit _ (k0_off457_inb k) r c k.val 48 (k0_off457_eq k) hr h.1 h.2⟩
  · exact ⟨_, List.mem_cons_of_mem _ (List.mem_cons_of_mem _ (List.mem_cons_of_mem _ (List.mem_cons_self))), RowsLib.mem_unit _ (k0_off459_inb k) r c k.val 64 (k0_off459_eq k) hr h.1 h.2⟩
  · exact ⟨_, List.mem_cons_of_mem _ (List.mem_cons_of_mem _ (List.mem_cons_self)), RowsLib.mem_unit _ (k0_off461_inb k) r c k.val 80 (k0_off461_eq k) hr h.1 h.2⟩
  · exact ⟨_, List.mem_cons_of_mem _ (List.mem_cons_self), RowsLib.mem_unit _ (k0_off463_inb k) r c k.val 96 (k0_off463_eq k) hr h.1 h.2⟩
  · exact ⟨_, List.mem_cons_self, RowsLib.mem_unit _ (k0_off465_inb k) r c k.val 112 (k0_off465_eq k) hr h.1 h.2⟩

/-- The slot of sums after row loop 29, as the row-sum function: at (r, c) the gathered rows' entry plus the positional scratch's entry of row r + 0. -/
theorem rows_t29_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t29 (F := F) d L v2 X P 128)) (ValueIdx.ix2 r c)
      = RowsLib.rowG (ibS0).view (qV).view X P 0 (by omega) (ValueIdx.ix2 r c) :=
  RowsLib.read_writes_trips (n := k0_t29_loop.trips) (pb_t29 (F := F) d L v2 X P) (tripL_t29 (F := F) d L v2 X P) (obS0).view G _
    rfl (pb_t29_succ (F := F) d L v2 X P) (trip_pieces_t29 d L v2 X P) _ ⟨r.val, r.isLt⟩ (trip_cover_t29 d L v2 X P ⟨r.val, r.isLt⟩ r c rfl)

/-- THE SLOT OF SUMS AFTER ROW LOOP 29, whatever it held before: at (r, c) the gathered rows' entry (r, c) plus the positional
    scratch's entry (r + 0, c). -/
theorem rows_t29 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t29 (F := F) d L v2 X P (Scf.trips k0_t29_loop.lb k0_t29_loop.ub k0_t29_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t29_G d L v2 X P G r c

/-! ### the value of row loop 30 (slot 1, positional rows 128 … 255) -/

theorem trips_t30 : k0_t30_loop.trips = 128 := rfl

set_option maxHeartbeats 2000000 in
/-- Every piece of a trip of row loop 30 is the row sum on its rectangle. -/
theorem trip_pieces_t30 (d : Dev nD) (L : grid0.Coords) (v2 : BitVec 32) (X : BufTy.Contents (Elt F) (ibS1).view.ty) (P : BufTy.Contents (Elt F) (qV).view.ty) (k : Fin k0_t30_loop.trips) :
    ∀ p ∈ tripL_t30 (F := F) d L v2 X P k, ∀ x : p.1.shape.Idx, p.2 x = RowsLib.rowG (ibS1).view (qV).view X P 128 (by omega) (p.1.emb x) := by
  unfold tripL_t30 trip_t30
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off481_inb k) (k0_off481_inb k) (k0_off482_inb k) k.val (k.val + 128) 112 (k0_off481_eq k) (k0_off482_eq k) rfl _ (RowsLib.lane_sum _ _ _ _) x
  · exact fun x => RowsLib.piece_eq _ _ X P 128 _ _ _ (k0_off479_inb k) (k0_off479_inb k) (k0_off480_inb k) k.val (k.val + 128) 96 (k0_off479_eq k) (k0_off480_eq k) rfl _ (RowsLib.lane_sum _ _ _ _) x
  · exact fun x => RowsLib.piece_eq _ _ X P 128 _ _ _ (k0_off477_inb k) (k0_off477_inb k) (k0_off478_inb k) k.val (k.val + 128) 80 (k0_off477_eq k) (k0_off478_eq k) rfl _ (RowsLib.lane_sum _ _ _ _) x
  · exact fun x => RowsLib.piece_eq _ _ X P 128 _ _ _ (k0_off475_inb k) (k0_off475_inb k) (k0_off476_inb k) k.val (k.val + 128) 64 (k0_off475_eq k) (k0_off476_eq k) rfl _ (RowsLib.lane_sum _ _ _ _) x
  · exact fun x => RowsLib.piece_eq _ _ X P 128 _ _ _ (k0_off473_inb k) (k0_off473_inb k) (k0_off474_inb k) k.val (k.val + 128) 48 (k0_off473_eq k) (k0_off474_eq k) rfl _ (RowsLib.lane_sum _ _ _ _) x
  · exact fun x => RowsLib.piece_eq _ _ X P 128 _ _ _ (k0_off471_inb k) (k0_off471_inb k) (k0_off472_inb k) k.val (k.val + 128) 32 (k0_off471_eq k) (k0_off472_eq k) rfl _ (RowsLib.lane_sum _ _ _ _) x
  · exact fun x => RowsLib.piece_eq _ _ X P 128 _ _ _ (k0_off469_inb k) (k0_off469_inb k) (k0_off470_inb k) k.val (k.val + 128) 16 (k0_off469_eq k) (k0_off470_eq k) rfl _ (RowsLib.lane_sum _ _ _ _) x
  · exact fun x => RowsLib.piece_eq _ _ X P 128 _ _ _ (k0_off467_inb k) (k0_off467_inb k) (k0_off468_inb k) k.val (k.val + 128) 0 (k0_off467_eq k) (k0_off468_eq k) rfl _ (RowsLib.lane_sum _ _ _ _) x

set_option maxHeartbeats 2000000 in
/-- The eight pieces of trip k cover row k. -/
theorem trip_cover_t30 (d : Dev nD) (L : grid0.Coords) (v2 : BitVec 32) (X : BufTy.Contents (Elt F) (ibS1).view.ty) (P : BufTy.Contents (Elt F) (qV).view.ty)
    (k : Fin k0_t30_loop.trips) (r c : Fin 128) (hr : k.val = r.val) :
    ∃ p ∈ tripL_t30 (F := F) d L v2 X P k, (ValueIdx.ix2 r c : RowsLib.SS.Idx) ∈ p.1.set := by
  unfold tripL_t30 trip_t30
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off467_inb k) r c k.val 0 (k0_off467_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off469_inb k) r c k.val 16 (k0_off469_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off471_inb k) r c k.val 32 (k0_off471_eq k) hr h.1 h.2⟩
  · exact ⟨_, List.mem_cons_of_mem _ (List.mem_cons_of_mem _ (List.mem_cons_of_mem _ (List.mem_cons_of_mem _ (List.mem_cons_self)))), RowsLib.mem_unit _ (k0_off473_inb k) r c k.val 48 (k0_off473_eq k) hr h.1 h.2⟩
  · exact ⟨_, List.mem_cons_of_mem _ (List.mem_cons_of_mem _ (List.mem_cons_of_mem _ (List.mem_cons_self))), RowsLib.mem_unit _ (k0_off475_inb k) r c k.val 64 (k0_off475_eq k) hr h.1 h.2⟩
  · exact ⟨_, List.mem_cons_of_mem _ (List.mem_cons_of_mem _ (List.mem_cons_self)), RowsLib.mem_unit _ (k0_off477_inb k) r c k.val 80 (k0_off477_eq k) hr h.1 h.2⟩
  · exact ⟨_, List.mem_cons_of_mem _ (List.mem_cons_self), RowsLib.mem_unit _ (k0_off479_inb k) r c k.val 96 (k0_off479_eq k) hr h.1 h.2⟩
  · exact ⟨_, List.mem_cons_self, RowsLib.mem_unit _ (k0_off481_inb k) r c k.val 112 (k0_off481_eq k) hr h.1 h.2⟩

/-- The slot of sums after row loop 30, as the row-sum function: at (r, c) the gathered rows' entry plus the positional scratch's entry of row r + 128. -/
theorem rows_t30_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t30 (F := F) d L v2 X P 128)) (ValueIdx.ix2 r c)
      = RowsLib.rowG (ibS1).view (qV).view X P 128 (by omega) (ValueIdx.ix2 r c) :=
  RowsLib.read_writes_trips (n := k0_t30_loop.trips) (pb_t30 (F := F) d L v2 X P) (tripL_t30 (F := F) d L v2 X P) (obS1).view G _
    rfl (pb_t30_succ (F := F) d L v2 X P) (trip_pieces_t30 d L v2 X P) _ ⟨r.val, r.isLt⟩ (trip_cover_t30 d L v2 X P ⟨r.val, r.isLt⟩ r c rfl)

/-- THE SLOT OF SUMS AFTER ROW LOOP 30, whatever it held before: at (r, c) the gathered rows' entry (r, c) plus the positional
    scratch's entry (r + 128, c). -/
theorem rows_t30 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t30 (F := F) d L v2 X P (Scf.trips k0_t30_loop.lb k0_t30_loop.ub k0_t30_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t30_G d L v2 X P G r c

/-! ### the value of row loop 31 (slot 0, positional rows 0 … 127) -/

theorem trips_t31 : k0_t31_loop.trips = 128 := rfl

set_option maxHeartbeats 2000000 in
/-- Every piece of a trip of row loop 31 is the row sum on its rectangle. -/
theorem trip_pieces_t31 (d : Dev nD) (L : grid0.Coords) (v2 : BitVec 32) (X : BufTy.Contents (Elt F) (ibS0).view.ty) (P : BufTy.Contents (Elt F) (qV).view.ty) (k : Fin k0_t31_loop.trips) :
    ∀ p ∈ tripL_t31 (F := F) d L v2 X P k, ∀ x : p.1.shape.Idx, p.2 x = RowsLib.rowG (ibS0).view (qV).view X P 0 (by omega) (p.1.emb x) := by
  unfold tripL_t31 trip_t31
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off497_inb k) (k0_off497_inb k) (k0_off498_inb k) k.val (k.val + 0) 112 (k0_off497_eq k) (k0_off498_eq k) rfl _ (RowsLib.lane_sum _ _ _ _) x
  · exact fun x => RowsLib.piece_eq _ _ X P 0 _ _ _ (k0_off495_inb k) (k0_off495_inb k) (k0_off496_inb k) k.val (k.val + 0) 96 (k0_off495_eq k) (k0_off496_eq k) rfl _ (RowsLib.lane_sum _ _ _ _) x
  · exact fun x => RowsLib.piece_eq _ _ X P 0 _ _ _ (k0_off493_inb k) (k0_off493_inb k) (k0_off494_inb k) k.val (k.val + 0) 80 (k0_off493_eq k) (k0_off494_eq k) rfl _ (RowsLib.lane_sum _ _ _ _) x
  · exact fun x => RowsLib.piece_eq _ _ X P 0 _ _ _ (k0_off491_inb k) (k0_off491_inb k) (k0_off492_inb k) k.val (k.val + 0) 64 (k0_off491_eq k) (k0_off492_eq k) rfl _ (RowsLib.lane_sum _ _ _ _) x
  · exact fun x => RowsLib.piece_eq _ _ X P 0 _ _ _ (k0_off489_inb k) (k0_off489_inb k) (k0_off490_inb k) k.val (k.val + 0) 48 (k0_off489_eq k) (k0_off490_eq k) rfl _ (RowsLib.lane_sum _ _ _ _) x
  · exact fun x => RowsLib.piece_eq _ _ X P 0 _ _ _ (k0_off487_inb k) (k0_off487_inb k) (k0_off488_inb k) k.val (k.val + 0) 32 (k0_off487_eq k) (k0_off488_eq k) rfl _ (RowsLib.lane_sum _ _ _ _) x
  · exact fun x => RowsLib.piece_eq _ _ X P 0 _ _ _ (k0_off485_inb k) (k0_off485_inb k) (k0_off486_inb k) k.val (k.val + 0) 16 (k0_off485_eq k) (k0_off486_eq k) rfl _ (RowsLib.lane_sum _ _ _ _) x
  · exact fun x => RowsLib.piece_eq _ _ X P 0 _ _ _ (k0_off483_inb k) (k0_off483_inb k) (k0_off484_inb k) k.val (k.val + 0) 0 (k0_off483_eq k) (k0_off484_eq k) rfl _ (RowsLib.lane_sum _ _ _ _) x

set_option maxHeartbeats 2000000 in
/-- The eight pieces of trip k cover row k. -/
theorem trip_cover_t31 (d : Dev nD) (L : grid0.Coords) (v2 : BitVec 32) (X : BufTy.Contents (Elt F) (ibS0).view.ty) (P : BufTy.Contents (Elt F) (qV).view.ty)
    (k : Fin k0_t31_loop.trips) (r c : Fin 128) (hr : k.val = r.val) :
    ∃ p ∈ tripL_t31 (F := F) d L v2 X P k, (ValueIdx.ix2 r c : RowsLib.SS.Idx) ∈ p.1.set := by
  unfold tripL_t31 trip_t31
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off483_inb k) r c k.val 0 (k0_off483_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off485_inb k) r c k.val 16 (k0_off485_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off487_inb k) r c k.val 32 (k0_off487_eq k) hr h.1 h.2⟩
  · exact ⟨_, List.mem_cons_of_mem _ (List.mem_cons_of_mem _ (List.mem_cons_of_mem _ (List.mem_cons_of_mem _ (List.mem_cons_self)))), RowsLib.mem_unit _ (k0_off489_inb k) r c k.val 48 (k0_off489_eq k) hr h.1 h.2⟩
  · exact ⟨_, List.mem_cons_of_mem _ (List.mem_cons_of_mem _ (List.mem_cons_of_mem _ (List.mem_cons_self))), RowsLib.mem_unit _ (k0_off491_inb k) r c k.val 64 (k0_off491_eq k) hr h.1 h.2⟩
  · exact ⟨_, List.mem_cons_of_mem _ (List.mem_cons_of_mem _ (List.mem_cons_self)), RowsLib.mem_unit _ (k0_off493_inb k) r c k.val 80 (k0_off493_eq k) hr h.1 h.2⟩
  · exact ⟨_, List.mem_cons_of_mem _ (List.mem_cons_self), RowsLib.mem_unit _ (k0_off495_inb k) r c k.val 96 (k0_off495_eq k) hr h.1 h.2⟩
  · exact ⟨_, List.mem_cons_self, RowsLib.mem_unit _ (k0_off497_inb k) r c k.val 112 (k0_off497_eq k) hr h.1 h.2⟩

/-- The slot of sums after row loop 31, as the row-sum function: at (r, c) the gathered rows' entry plus the positional scratch's entry of row r + 0. -/
theorem rows_t31_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t31 (F := F) d L v2 X P 128)) (ValueIdx.ix2 r c)
      = RowsLib.rowG (ibS0).view (qV).view X P 0 (by omega) (ValueIdx.ix2 r c) :=
  RowsLib.read_writes_trips (n := k0_t31_loop.trips) (pb_t31 (F := F) d L v2 X P) (tripL_t31 (F := F) d L v2 X P) (obS0).view G _
    rfl (pb_t31_succ (F := F) d L v2 X P) (trip_pieces_t31 d L v2 X P) _ ⟨r.val, r.isLt⟩ (trip_cover_t31 d L v2 X P ⟨r.val, r.isLt⟩ r c rfl)

/-- THE SLOT OF SUMS AFTER ROW LOOP 31, whatever it held before: at (r, c) the gathered rows' entry (r, c) plus the positional
    scratch's entry (r + 0, c). -/
theorem rows_t31 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t31 (F := F) d L v2 X P (Scf.trips k0_t31_loop.lb k0_t31_loop.ub k0_t31_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t31_G d L v2 X P G r c

/-! ### the value of row loop 32 (slot 1, positional rows 128 … 255) -/

theorem trips_t32 : k0_t32_loop.trips = 128 := rfl

set_option maxHeartbeats 2000000 in
/-- Every piece of a trip of row loop 32 is the row sum on its rectangle. -/
theorem trip_pieces_t32 (d : Dev nD) (L : grid0.Coords) (v2 : BitVec 32) (X : BufTy.Contents (Elt F) (ibS1).view.ty) (P : BufTy.Contents (Elt F) (qV).view.ty) (k : Fin k0_t32_loop.trips) :
    ∀ p ∈ tripL_t32 (F := F) d L v2 X P k, ∀ x : p.1.shape.Idx, p.2 x = RowsLib.rowG (ibS1).view (qV).view X P 128 (by omega) (p.1.emb x) := by
  unfold tripL_t32 trip_t32
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off513_inb k) (k0_off513_inb k) (k0_off514_inb k) k.val (k.val + 128) 112 (k0_off513_eq k) (k0_off514_eq k) rfl _ (RowsLib.lane_sum _ _ _ _) x
  · exact fun x => RowsLib.piece_eq _ _ X P 128 _ _ _ (k0_off511_inb k) (k0_off511_inb k) (k0_off512_inb k) k.val (k.val + 128) 96 (k0_off511_eq k) (k0_off512_eq k) rfl _ (RowsLib.lane_sum _ _ _ _) x
  · exact fun x => RowsLib.piece_eq _ _ X P 128 _ _ _ (k0_off509_inb k) (k0_off509_inb k) (k0_off510_inb k) k.val (k.val + 128) 80 (k0_off509_eq k) (k0_off510_eq k) rfl _ (RowsLib.lane_sum _ _ _ _) x
  · exact fun x => RowsLib.piece_eq _ _ X P 128 _ _ _ (k0_off507_inb k) (k0_off507_inb k) (k0_off508_inb k) k.val (k.val + 128) 64 (k0_off507_eq k) (k0_off508_eq k) rfl _ (RowsLib.lane_sum _ _ _ _) x
  · exact fun x => RowsLib.piece_eq _ _ X P 128 _ _ _ (k0_off505_inb k) (k0_off505_inb k) (k0_off506_inb k) k.val (k.val + 128) 48 (k0_off505_eq k) (k0_off506_eq k) rfl _ (RowsLib.lane_sum _ _ _ _) x
  · exact fun x => RowsLib.piece_eq _ _ X P 128 _ _ _ (k0_off503_inb k) (k0_off503_inb k) (k0_off504_inb k) k.val (k.val + 128) 32 (k0_off503_eq k) (k0_off504_eq k) rfl _ (RowsLib.lane_sum _ _ _ _) x
  · exact fun x => RowsLib.piece_eq _ _ X P 128 _ _ _ (k0_off501_inb k) (k0_off501_inb k) (k0_off502_inb k) k.val (k.val + 128) 16 (k0_off501_eq k) (k0_off502_eq k) rfl _ (RowsLib.lane_sum _ _ _ _) x
  · exact fun x => RowsLib.piece_eq _ _ X P 128 _ _ _ (k0_off499_inb k) (k0_off499_inb k) (k0_off500_inb k) k.val (k.val + 128) 0 (k0_off499_eq k) (k0_off500_eq k) rfl _ (RowsLib.lane_sum _ _ _ _) x

set_option maxHeartbeats 2000000 in
/-- The eight pieces of trip k cover row k. -/
theorem trip_cover_t32 (d : Dev nD) (L : grid0.Coords) (v2 : BitVec 32) (X : BufTy.Contents (Elt F) (ibS1).view.ty) (P : BufTy.Contents (Elt F) (qV).view.ty)
    (k : Fin k0_t32_loop.trips) (r c : Fin 128) (hr : k.val = r.val) :
    ∃ p ∈ tripL_t32 (F := F) d L v2 X P k, (ValueIdx.ix2 r c : RowsLib.SS.Idx) ∈ p.1.set := by
  unfold tripL_t32 trip_t32
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off499_inb k) r c k.val 0 (k0_off499_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off501_inb k) r c k.val 16 (k0_off501_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off503_inb k) r c k.val 32 (k0_off503_eq k) hr h.1 h.2⟩
  · exact ⟨_, List.mem_cons_of_mem _ (List.mem_cons_of_mem _ (List.mem_cons_of_mem _ (List.mem_cons_of_mem _ (List.mem_cons_self)))), RowsLib.mem_unit _ (k0_off505_inb k) r c k.val 48 (k0_off505_eq k) hr h.1 h.2⟩
  · exact ⟨_, List.mem_cons_of_mem _ (List.mem_cons_of_mem _ (List.mem_cons_of_mem _ (List.mem_cons_self))), RowsLib.mem_unit _ (k0_off507_inb k) r c k.val 64 (k0_off507_eq k) hr h.1 h.2⟩
  · exact ⟨_, List.mem_cons_of_mem _ (List.mem_cons_of_mem _ (List.mem_cons_self)), RowsLib.mem_unit _ (k0_off509_inb k) r c k.val 80 (k0_off509_eq k) hr h.1 h.2⟩
  · exact ⟨_, List.mem_cons_of_mem _ (List.mem_cons_self), RowsLib.mem_unit _ (k0_off511_inb k) r c k.val 96 (k0_off511_eq k) hr h.1 h.2⟩
  · exact ⟨_, List.mem_cons_self, RowsLib.mem_unit _ (k0_off513_inb k) r c k.val 112 (k0_off513_eq k) hr h.1 h.2⟩

/-- The slot of sums after row loop 32, as the row-sum function: at (r, c) the gathered rows' entry plus the positional scratch's entry of row r + 128. -/
theorem rows_t32_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t32 (F := F) d L v2 X P 128)) (ValueIdx.ix2 r c)
      = RowsLib.rowG (ibS1).view (qV).view X P 128 (by omega) (ValueIdx.ix2 r c) :=
  RowsLib.read_writes_trips (n := k0_t32_loop.trips) (pb_t32 (F := F) d L v2 X P) (tripL_t32 (F := F) d L v2 X P) (obS1).view G _
    rfl (pb_t32_succ (F := F) d L v2 X P) (trip_pieces_t32 d L v2 X P) _ ⟨r.val, r.isLt⟩ (trip_cover_t32 d L v2 X P ⟨r.val, r.isLt⟩ r c rfl)

/-- THE SLOT OF SUMS AFTER ROW LOOP 32, whatever it held before: at (r, c) the gathered rows' entry (r, c) plus the positional
    scratch's entry (r + 128, c). -/
theorem rows_t32 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t32 (F := F) d L v2 X P (Scf.trips k0_t32_loop.lb k0_t32_loop.ub k0_t32_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t32_G d L v2 X P G r c

end Tile

end Cert.Proof.KI

end
-- ==== Proof.LoopsC.lean ====
/- Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.Common
import proofs.«208673_g37134287241914_cont_8to1_b_302_3_alg».proof.Proof.Gen.KernelIdeal.Skeleton
import proofs.«208673_g37134287241914_cont_8to1_b_302_3_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### loop 33 (slot 0) -/

set_option maxHeartbeats 4000000 in
/-- One trip of row loop 33 at a symbolic row: the pieces it writes into the sum slot are the run's own finds. -/
@[irreducible] def trip_t33 (d : Dev nD) (L : grid0.Coords) (v2 wa wb : BitVec 32)
    (X : BufTy.Contents (Elt F) (ibS0).view.ty) (P : BufTy.Contents (Elt F) (qV).view.ty) (k : Fin k0_t33_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t33_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t33_body TripRes0
    iintro ⟨HX, HP, HW⟩
    sl_exec
    sl_step
    sl_close

abbrev tripL_t33 (d : Dev nD) (L : grid0.Coords) (v2 wa wb : BitVec 32) (X : BufTy.Contents (Elt F) (ibS0).view.ty) (P : BufTy.Contents (Elt F) (qV).view.ty) (k : Fin k0_t33_loop.trips) : List (View.Piece (Elt F) S128x128 .f32) :=
  (trip_t33 (F := F) d L v2 wa wb X P k).1

@[irreducible] def pb_t33Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t33_loop.trips then (tripL_t33 (F := F) d L v2 wa wb X P ⟨k, h⟩) ++ prev else prev

/-- The pieces of the rows before k (last first). -/
def pb_t33 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t33Step d L v2 wa wb X P k (pb_t33 d L v2 wa wb X P k)

theorem pb_t33_succ (d : Dev nD) (L : grid0.Coords) (v2 wa wb : BitVec 32) (X : BufTy.Contents (Elt F) (ibS0).view.ty) (P : BufTy.Contents (Elt F) (qV).view.ty) (k : Fin k0_t33_loop.trips) :
    pb_t33 (F := F) d L v2 wa wb X P (k.val + 1) = (tripL_t33 (F := F) d L v2 wa wb X P k) ++ (pb_t33 (F := F) d L v2 wa wb X P k.val) := by
  rw [pb_t33.eq_2]; unfold pb_t33Step; exact dif_pos k.isLt

set_option warn.classDefReducibility false in
/-- Row loop 33 by its invariant: the gathered rows and the positional rows read, the sum slot holding the pieces of the rows before k over its contents at loop entry. -/
@[sl_loop] def loopInv_t33 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t33_loop.lb k0_t33_loop.ub k0_t33_loop.st k0_t33_ok () (k0_t33_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t33 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t33 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t33_succ]
      iexists _; isplitl [HW]; · iexact HW
      ipureintro; rw [hf, ← View.writes_append]

/-! ### loop 34 (slot 1) -/

set_option maxHeartbeats 4000000 in
/-- One trip of row loop 34 at a symbolic row: the pieces it writes into the sum slot are the run's own finds. -/
@[irreducible] def trip_t34 (d : Dev nD) (L : grid0.Coords) (v2 : BitVec 32)
    (X : BufTy.Contents (Elt F) (ibS1).view.ty) (P : BufTy.Contents (Elt F) (qV).view.ty) (k : Fin k0_t34_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t34_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t34_body TripRes1
    iintro ⟨HX, HP, HW⟩
    sl_exec
    sl_step
    sl_close

abbrev tripL_t34 (d : Dev nD) (L : grid0.Coords) (v2 : BitVec 32) (X : BufTy.Contents (Elt F) (ibS1).view.ty) (P : BufTy.Contents (Elt F) (qV).view.ty) (k : Fin k0_t34_loop.trips) : List (View.Piece (Elt F) S128x128 .f32) :=
  (trip_t34 (F := F) d L v2 X P k).1

@[irreducible] def pb_t34Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t34_loop.trips then (tripL_t34 (F := F) d L v2 X P ⟨k, h⟩) ++ prev else prev

/-- The pieces of the rows before k (last first). -/
def pb_t34 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t34Step d L v2 X P k (pb_t34 d L v2 X P k)

theorem pb_t34_succ (d : Dev nD) (L : grid0.Coords) (v2 : BitVec 32) (X : BufTy.Contents (Elt F) (ibS1).view.ty) (P : BufTy.Contents (Elt F) (qV).view.ty) (k : Fin k0_t34_loop.trips) :
    pb_t34 (F := F) d L v2 X P (k.val + 1) = (tripL_t34 (F := F) d L v2 X P k) ++ (pb_t34 (F := F) d L v2 X P k.val) := by
  rw [pb_t34.eq_2]; unfold pb_t34Step; exact dif_pos k.isLt

set_option warn.classDefReducibility false in
/-- Row loop 34 by its invariant: the gathered rows and the positional rows read, the sum slot holding the pieces of the rows before k over its contents at loop entry. -/
@[sl_loop] def loopInv_t34 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t34_loop.lb k0_t34_loop.ub k0_t34_loop.st k0_t34_ok () (k0_t34_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t34 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t34 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t34_succ]
      iexists _; isplitl [HW]; · iexact HW
      ipureintro; rw [hf, ← View.writes_append]

/-! ### loop 35 (slot 0) -/

set_option maxHeartbeats 4000000 in
/-- One trip of row loop 35 at a symbolic row: the pieces it writes into the sum slot are the run's own finds. -/
@[irreducible] def trip_t35 (d : Dev nD) (L : grid0.Coords) (v2 : BitVec 32)
    (X : BufTy.Contents (Elt F) (ibS0).view.ty) (P : BufTy.Contents (Elt F) (qV).view.ty) (k : Fin k0_t35_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t35_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t35_body TripRes0
    iintro ⟨HX, HP, HW⟩
    sl_exec
    sl_step
    sl_close

abbrev tripL_t35 (d : Dev nD) (L : grid0.Coords) (v2 : BitVec 32) (X : BufTy.Contents (Elt F) (ibS0).view.ty) (P : BufTy.Contents (Elt F) (qV).view.ty) (k : Fin k0_t35_loop.trips) : List (View.Piece (Elt F) S128x128 .f32) :=
  (trip_t35 (F := F) d L v2 X P k).1

@[irreducible] def pb_t35Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t35_loop.trips then (tripL_t35 (F := F) d L v2 X P ⟨k, h⟩) ++ prev else prev

/-- The pieces of the rows before k (last first). -/
def pb_t35 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t35Step d L v2 X P k (pb_t35 d L v2 X P k)

theorem pb_t35_succ (d : Dev nD) (L : grid0.Coords) (v2 : BitVec 32) (X : BufTy.Contents (Elt F) (ibS0).view.ty) (P : BufTy.Contents (Elt F) (qV).view.ty) (k : Fin k0_t35_loop.trips) :
    pb_t35 (F := F) d L v2 X P (k.val + 1) = (tripL_t35 (F := F) d L v2 X P k) ++ (pb_t35 (F := F) d L v2 X P k.val) := by
  rw [pb_t35.eq_2]; unfold pb_t35Step; exact dif_pos k.isLt

set_option warn.classDefReducibility false in
/-- Row loop 35 by its invariant: the gathered rows and the positional rows read, the sum slot holding the pieces of the rows before k over its contents at loop entry. -/
@[sl_loop] def loopInv_t35 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t35_loop.lb k0_t35_loop.ub k0_t35_loop.st k0_t35_ok () (k0_t35_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t35 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t35 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t35_succ]
      iexists _; isplitl [HW]; · iexact HW
      ipureintro; rw [hf, ← View.writes_append]

/-! ### loop 36 (slot 1) -/

set_option maxHeartbeats 4000000 in
/-- One trip of row loop 36 at a symbolic row: the pieces it writes into the sum slot are the run's own finds. -/
@[irreducible] def trip_t36 (d : Dev nD) (L : grid0.Coords) (v2 : BitVec 32)
    (X : BufTy.Contents (Elt F) (ibS1).view.ty) (P : BufTy.Contents (Elt F) (qV).view.ty) (k : Fin k0_t36_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t36_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t36_body TripRes1
    iintro ⟨HX, HP, HW⟩
    sl_exec
    sl_step
    sl_close

abbrev tripL_t36 (d : Dev nD) (L : grid0.Coords) (v2 : BitVec 32) (X : BufTy.Contents (Elt F) (ibS1).view.ty) (P : BufTy.Contents (Elt F) (qV).view.ty) (k : Fin k0_t36_loop.trips) : List (View.Piece (Elt F) S128x128 .f32) :=
  (trip_t36 (F := F) d L v2 X P k).1

@[irreducible] def pb_t36Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t36_loop.trips then (tripL_t36 (F := F) d L v2 X P ⟨k, h⟩) ++ prev else prev

/-- The pieces of the rows before k (last first). -/
def pb_t36 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t36Step d L v2 X P k (pb_t36 d L v2 X P k)

theorem pb_t36_succ (d : Dev nD) (L : grid0.Coords) (v2 : BitVec 32) (X : BufTy.Contents (Elt F) (ibS1).view.ty) (P : BufTy.Contents (Elt F) (qV).view.ty) (k : Fin k0_t36_loop.trips) :
    pb_t36 (F := F) d L v2 X P (k.val + 1) = (tripL_t36 (F := F) d L v2 X P k) ++ (pb_t36 (F := F) d L v2 X P k.val) := by
  rw [pb_t36.eq_2]; unfold pb_t36Step; exact dif_pos k.isLt

set_option warn.classDefReducibility false in
/-- Row loop 36 by its invariant: the gathered rows and the positional rows read, the sum slot holding the pieces of the rows before k over its contents at loop entry. -/
@[sl_loop] def loopInv_t36 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t36_loop.lb k0_t36_loop.ub k0_t36_loop.st k0_t36_ok () (k0_t36_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t36 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t36 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t36_succ]
      iexists _; isplitl [HW]; · iexact HW
      ipureintro; rw [hf, ← View.writes_append]

/-! ### loop 37 (slot 0) -/

set_option maxHeartbeats 4000000 in
/-- One trip of row loop 37 at a symbolic row: the pieces it writes into the sum slot are the run's own finds. -/
@[irreducible] def trip_t37 (d : Dev nD) (L : grid0.Coords) (v2 : BitVec 32)
    (X : BufTy.Contents (Elt F) (ibS0).view.ty) (P : BufTy.Contents (Elt F) (qV).view.ty) (k : Fin k0_t37_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t37_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t37_body TripRes0
    iintro ⟨HX, HP, HW⟩
    sl_exec
    sl_step
    sl_close

abbrev tripL_t37 (d : Dev nD) (L : grid0.Coords) (v2 : BitVec 32) (X : BufTy.Contents (Elt F) (ibS0).view.ty) (P : BufTy.Contents (Elt F) (qV).view.ty) (k : Fin k0_t37_loop.trips) : List (View.Piece (Elt F) S128x128 .f32) :=
  (trip_t37 (F := F) d L v2 X P k).1

@[irreducible] def pb_t37Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t37_loop.trips then (tripL_t37 (F := F) d L v2 X P ⟨k, h⟩) ++ prev else prev

/-- The pieces of the rows before k (last first). -/
def pb_t37 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t37Step d L v2 X P k (pb_t37 d L v2 X P k)

theorem pb_t37_succ (d : Dev nD) (L : grid0.Coords) (v2 : BitVec 32) (X : BufTy.Contents (Elt F) (ibS0).view.ty) (P : BufTy.Contents (Elt F) (qV).view.ty) (k : Fin k0_t37_loop.trips) :
    pb_t37 (F := F) d L v2 X P (k.val + 1) = (tripL_t37 (F := F) d L v2 X P k) ++ (pb_t37 (F := F) d L v2 X P k.val) := by
  rw [pb_t37.eq_2]; unfold pb_t37Step; exact dif_pos k.isLt

set_option warn.classDefReducibility false in
/-- Row loop 37 by its invariant: the gathered rows and the positional rows read, the sum slot holding the pieces of the rows before k over its contents at loop entry. -/
@[sl_loop] def loopInv_t37 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t37_loop.lb k0_t37_loop.ub k0_t37_loop.st k0_t37_ok () (k0_t37_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t37 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t37 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t37_succ]
      iexists _; isplitl [HW]; · iexact HW
      ipureintro; rw [hf, ← View.writes_append]

/-! ### loop 38 (slot 1) -/

set_option maxHeartbeats 4000000 in
/-- One trip of row loop 38 at a symbolic row: the pieces it writes into the sum slot are the run's own finds. -/
@[irreducible] def trip_t38 (d : Dev nD) (L : grid0.Coords) (v2 : BitVec 32)
    (X : BufTy.Contents (Elt F) (ibS1).view.ty) (P : BufTy.Contents (Elt F) (qV).view.ty) (k : Fin k0_t38_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t38_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t38_body TripRes1
    iintro ⟨HX, HP, HW⟩
    sl_exec
    sl_step
    sl_close

abbrev tripL_t38 (d : Dev nD) (L : grid0.Coords) (v2 : BitVec 32) (X : BufTy.Contents (Elt F) (ibS1).view.ty) (P : BufTy.Contents (Elt F) (qV).view.ty) (k : Fin k0_t38_loop.trips) : List (View.Piece (Elt F) S128x128 .f32) :=
  (trip_t38 (F := F) d L v2 X P k).1

@[irreducible] def pb_t38Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t38_loop.trips then (tripL_t38 (F := F) d L v2 X P ⟨k, h⟩) ++ prev else prev

/-- The pieces of the rows before k (last first). -/
def pb_t38 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t38Step d L v2 X P k (pb_t38 d L v2 X P k)

theorem pb_t38_succ (d : Dev nD) (L : grid0.Coords) (v2 : BitVec 32) (X : BufTy.Contents (Elt F) (ibS1).view.ty) (P : BufTy.Contents (Elt F) (qV).view.ty) (k : Fin k0_t38_loop.trips) :
    pb_t38 (F := F) d L v2 X P (k.val + 1) = (tripL_t38 (F := F) d L v2 X P k) ++ (pb_t38 (F := F) d L v2 X P k.val) := by
  rw [pb_t38.eq_2]; unfold pb_t38Step; exact dif_pos k.isLt

set_option warn.classDefReducibility false in
/-- Row loop 38 by its invariant: the gathered rows and the positional rows read, the sum slot holding the pieces of the rows before k over its contents at loop entry. -/
@[sl_loop] def loopInv_t38 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t38_loop.lb k0_t38_loop.ub k0_t38_loop.st k0_t38_ok () (k0_t38_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t38 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t38 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t38_succ]
      iexists _; isplitl [HW]; · iexact HW
      ipureintro; rw [hf, ← View.writes_append]

/-! ### loop 39 (slot 0) -/

set_option maxHeartbeats 4000000 in
/-- One trip of row loop 39 at a symbolic row: the pieces it writes into the sum slot are the run's own finds. -/
@[irreducible] def trip_t39 (d : Dev nD) (L : grid0.Coords) (v2 : BitVec 32)
    (X : BufTy.Contents (Elt F) (ibS0).view.ty) (P : BufTy.Contents (Elt F) (qV).view.ty) (k : Fin k0_t39_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t39_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t39_body TripRes0
    iintro ⟨HX, HP, HW⟩
    sl_exec
    sl_step
    sl_close

abbrev tripL_t39 (d : Dev nD) (L : grid0.Coords) (v2 : BitVec 32) (X : BufTy.Contents (Elt F) (ibS0).view.ty) (P : BufTy.Contents (Elt F) (qV).view.ty) (k : Fin k0_t39_loop.trips) : List (View.Piece (Elt F) S128x128 .f32) :=
  (trip_t39 (F := F) d L v2 X P k).1

@[irreducible] def pb_t39Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t39_loop.trips then (tripL_t39 (F := F) d L v2 X P ⟨k, h⟩) ++ prev else prev

/-- The pieces of the rows before k (last first). -/
def pb_t39 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t39Step d L v2 X P k (pb_t39 d L v2 X P k)

theorem pb_t39_succ (d : Dev nD) (L : grid0.Coords) (v2 : BitVec 32) (X : BufTy.Contents (Elt F) (ibS0).view.ty) (P : BufTy.Contents (Elt F) (qV).view.ty) (k : Fin k0_t39_loop.trips) :
    pb_t39 (F := F) d L v2 X P (k.val + 1) = (tripL_t39 (F := F) d L v2 X P k) ++ (pb_t39 (F := F) d L v2 X P k.val) := by
  rw [pb_t39.eq_2]; unfold pb_t39Step; exact dif_pos k.isLt

set_option warn.classDefReducibility false in
/-- Row loop 39 by its invariant: the gathered rows and the positional rows read, the sum slot holding the pieces of the rows before k over its contents at loop entry. -/
@[sl_loop] def loopInv_t39 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t39_loop.lb k0_t39_loop.ub k0_t39_loop.st k0_t39_ok () (k0_t39_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t39 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t39 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t39_succ]
      iexists _; isplitl [HW]; · iexact HW
      ipureintro; rw [hf, ← View.writes_append]

/-! ### loop 40 (slot 1) -/

set_option maxHeartbeats 4000000 in
/-- One trip of row loop 40 at a symbolic row: the pieces it writes into the sum slot are the run's own finds. -/
@[irreducible] def trip_t40 (d : Dev nD) (L : grid0.Coords) (v2 : BitVec 32)
    (X : BufTy.Contents (Elt F) (ibS1).view.ty) (P : BufTy.Contents (Elt F) (qV).view.ty) (k : Fin k0_t40_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t40_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t40_body TripRes1
    iintro ⟨HX, HP, HW⟩
    sl_exec
    sl_step
    sl_close

abbrev tripL_t40 (d : Dev nD) (L : grid0.Coords) (v2 : BitVec 32) (X : BufTy.Contents (Elt F) (ibS1).view.ty) (P : BufTy.Contents (Elt F) (qV).view.ty) (k : Fin k0_t40_loop.trips) : List (View.Piece (Elt F) S128x128 .f32) :=
  (trip_t40 (F := F) d L v2 X P k).1

@[irreducible] def pb_t40Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t40_loop.trips then (tripL_t40 (F := F) d L v2 X P ⟨k, h⟩) ++ prev else prev

/-- The pieces of the rows before k (last first). -/
def pb_t40 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t40Step d L v2 X P k (pb_t40 d L v2 X P k)

theorem pb_t40_succ (d : Dev nD) (L : grid0.Coords) (v2 : BitVec 32) (X : BufTy.Contents (Elt F) (ibS1).view.ty) (P : BufTy.Contents (Elt F) (qV).view.ty) (k : Fin k0_t40_loop.trips) :
    pb_t40 (F := F) d L v2 X P (k.val + 1) = (tripL_t40 (F := F) d L v2 X P k) ++ (pb_t40 (F := F) d L v2 X P k.val) := by
  rw [pb_t40.eq_2]; unfold pb_t40Step; exact dif_pos k.isLt

set_option warn.classDefReducibility false in
/-- Row loop 40 by its invariant: the gathered rows and the positional rows read, the sum slot holding the pieces of the rows before k over its contents at loop entry. -/
@[sl_loop] def loopInv_t40 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t40_loop.lb k0_t40_loop.ub k0_t40_loop.st k0_t40_ok () (k0_t40_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t40 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t40 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t40_succ]
      iexists _; isplitl [HW]; · iexact HW
      ipureintro; rw [hf, ← View.writes_append]

/-! ### loop 41 (slot 0) -/

set_option maxHeartbeats 4000000 in
/-- One trip of row loop 41 at a symbolic row: the pieces it writes into the sum slot are the run's own finds. -/
@[irreducible] def trip_t41 (d : Dev nD) (L : grid0.Coords) (v2 : BitVec 32)
    (X : BufTy.Contents (Elt F) (ibS0).view.ty) (P : BufTy.Contents (Elt F) (qV).view.ty) (k : Fin k0_t41_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t41_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t41_body TripRes0
    iintro ⟨HX, HP, HW⟩
    sl_exec
    sl_step
    sl_close

abbrev tripL_t41 (d : Dev nD) (L : grid0.Coords) (v2 : BitVec 32) (X : BufTy.Contents (Elt F) (ibS0).view.ty) (P : BufTy.Contents (Elt F) (qV).view.ty) (k : Fin k0_t41_loop.trips) : List (View.Piece (Elt F) S128x128 .f32) :=
  (trip_t41 (F := F) d L v2 X P k).1

@[irreducible] def pb_t41Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t41_loop.trips then (tripL_t41 (F := F) d L v2 X P ⟨k, h⟩) ++ prev else prev

/-- The pieces of the rows before k (last first). -/
def pb_t41 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t41Step d L v2 X P k (pb_t41 d L v2 X P k)

theorem pb_t41_succ (d : Dev nD) (L : grid0.Coords) (v2 : BitVec 32) (X : BufTy.Contents (Elt F) (ibS0).view.ty) (P : BufTy.Contents (Elt F) (qV).view.ty) (k : Fin k0_t41_loop.trips) :
    pb_t41 (F := F) d L v2 X P (k.val + 1) = (tripL_t41 (F := F) d L v2 X P k) ++ (pb_t41 (F := F) d L v2 X P k.val) := by
  rw [pb_t41.eq_2]; unfold pb_t41Step; exact dif_pos k.isLt

set_option warn.classDefReducibility false in
/-- Row loop 41 by its invariant: the gathered rows and the positional rows read, the sum slot holding the pieces of the rows before k over its contents at loop entry. -/
@[sl_loop] def loopInv_t41 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t41_loop.lb k0_t41_loop.ub k0_t41_loop.st k0_t41_ok () (k0_t41_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t41 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t41 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t41_succ]
      iexists _; isplitl [HW]; · iexact HW
      ipureintro; rw [hf, ← View.writes_append]

/-! ### loop 42 (slot 1) -/

set_option maxHeartbeats 4000000 in
/-- One trip of row loop 42 at a symbolic row: the pieces it writes into the sum slot are the run's own finds. -/
@[irreducible] def trip_t42 (d : Dev nD) (L : grid0.Coords) (v2 : BitVec 32)
    (X : BufTy.Contents (Elt F) (ibS1).view.ty) (P : BufTy.Contents (Elt F) (qV).view.ty) (k : Fin k0_t42_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t42_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t42_body TripRes1
    iintro ⟨HX, HP, HW⟩
    sl_exec
    sl_step
    sl_close

abbrev tripL_t42 (d : Dev nD) (L : grid0.Coords) (v2 : BitVec 32) (X : BufTy.Contents (Elt F) (ibS1).view.ty) (P : BufTy.Contents (Elt F) (qV).view.ty) (k : Fin k0_t42_loop.trips) : List (View.Piece (Elt F) S128x128 .f32) :=
  (trip_t42 (F := F) d L v2 X P k).1

@[irreducible] def pb_t42Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t42_loop.trips then (tripL_t42 (F := F) d L v2 X P ⟨k, h⟩) ++ prev else prev

/-- The pieces of the rows before k (last first). -/
def pb_t42 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t42Step d L v2 X P k (pb_t42 d L v2 X P k)

theorem pb_t42_succ (d : Dev nD) (L : grid0.Coords) (v2 : BitVec 32) (X : BufTy.Contents (Elt F) (ibS1).view.ty) (P : BufTy.Contents (Elt F) (qV).view.ty) (k : Fin k0_t42_loop.trips) :
    pb_t42 (F := F) d L v2 X P (k.val + 1) = (tripL_t42 (F := F) d L v2 X P k) ++ (pb_t42 (F := F) d L v2 X P k.val) := by
  rw [pb_t42.eq_2]; unfold pb_t42Step; exact dif_pos k.isLt

set_option warn.classDefReducibility false in
/-- Row loop 42 by its invariant: the gathered rows and the positional rows read, the sum slot holding the pieces of the rows before k over its contents at loop entry. -/
@[sl_loop] def loopInv_t42 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t42_loop.lb k0_t42_loop.ub k0_t42_loop.st k0_t42_ok () (k0_t42_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t42 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t42 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t42_succ]
      iexists _; isplitl [HW]; · iexact HW
      ipureintro; rw [hf, ← View.writes_append]

/-! ### loop 43 (slot 0) -/

set_option maxHeartbeats 4000000 in
/-- One trip of row loop 43 at a symbolic row: the pieces it writes into the sum slot are the run's own finds. -/
@[irreducible] def trip_t43 (d : Dev nD) (L : grid0.Coords) (v2 wa wb : BitVec 32)
    (X : BufTy.Contents (Elt F) (ibS0).view.ty) (P : BufTy.Contents (Elt F) (qV).view.ty) (k : Fin k0_t43_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t43_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t43_body TripRes0
    iintro ⟨HX, HP, HW⟩
    sl_exec
    sl_step
    sl_close

abbrev tripL_t43 (d : Dev nD) (L : grid0.Coords) (v2 wa wb : BitVec 32) (X : BufTy.Contents (Elt F) (ibS0).view.ty) (P : BufTy.Contents (Elt F) (qV).view.ty) (k : Fin k0_t43_loop.trips) : List (View.Piece (Elt F) S128x128 .f32) :=
  (trip_t43 (F := F) d L v2 wa wb X P k).1

@[irreducible] def pb_t43Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t43_loop.trips then (tripL_t43 (F := F) d L v2 wa wb X P ⟨k, h⟩) ++ prev else prev

/-- The pieces of the rows before k (last first). -/
def pb_t43 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t43Step d L v2 wa wb X P k (pb_t43 d L v2 wa wb X P k)

theorem pb_t43_succ (d : Dev nD) (L : grid0.Coords) (v2 wa wb : BitVec 32) (X : BufTy.Contents (Elt F) (ibS0).view.ty) (P : BufTy.Contents (Elt F) (qV).view.ty) (k : Fin k0_t43_loop.trips) :
    pb_t43 (F := F) d L v2 wa wb X P (k.val + 1) = (tripL_t43 (F := F) d L v2 wa wb X P k) ++ (pb_t43 (F := F) d L v2 wa wb X P k.val) := by
  rw [pb_t43.eq_2]; unfold pb_t43Step; exact dif_pos k.isLt

set_option warn.classDefReducibility false in
/-- Row loop 43 by its invariant: the gathered rows and the positional rows read, the sum slot holding the pieces of the rows before k over its contents at loop entry. -/
@[sl_loop] def loopInv_t43 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t43_loop.lb k0_t43_loop.ub k0_t43_loop.st k0_t43_ok () (k0_t43_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t43 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t43 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t43_succ]
      iexists _; isplitl [HW]; · iexact HW
      ipureintro; rw [hf, ← View.writes_append]

/-! ### loop 44 (slot 1) -/

set_option maxHeartbeats 4000000 in
/-- One trip of row loop 44 at a symbolic row: the pieces it writes into the sum slot are the run's own finds. -/
@[irreducible] def trip_t44 (d : Dev nD) (L : grid0.Coords) (v2 : BitVec 32)
    (X : BufTy.Contents (Elt F) (ibS1).view.ty) (P : BufTy.Contents (Elt F) (qV).view.ty) (k : Fin k0_t44_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t44_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t44_body TripRes1
    iintro ⟨HX, HP, HW⟩
    sl_exec
    sl_step
    sl_close

abbrev tripL_t44 (d : Dev nD) (L : grid0.Coords) (v2 : BitVec 32) (X : BufTy.Contents (Elt F) (ibS1).view.ty) (P : BufTy.Contents (Elt F) (qV).view.ty) (k : Fin k0_t44_loop.trips) : List (View.Piece (Elt F) S128x128 .f32) :=
  (trip_t44 (F := F) d L v2 X P k).1

@[irreducible] def pb_t44Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t44_loop.trips then (tripL_t44 (F := F) d L v2 X P ⟨k, h⟩) ++ prev else prev

/-- The pieces of the rows before k (last first). -/
def pb_t44 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t44Step d L v2 X P k (pb_t44 d L v2 X P k)

theorem pb_t44_succ (d : Dev nD) (L : grid0.Coords) (v2 : BitVec 32) (X : BufTy.Contents (Elt F) (ibS1).view.ty) (P : BufTy.Contents (Elt F) (qV).view.ty) (k : Fin k0_t44_loop.trips) :
    pb_t44 (F := F) d L v2 X P (k.val + 1) = (tripL_t44 (F := F) d L v2 X P k) ++ (pb_t44 (F := F) d L v2 X P k.val) := by
  rw [pb_t44.eq_2]; unfold pb_t44Step; exact dif_pos k.isLt

set_option warn.classDefReducibility false in
/-- Row loop 44 by its invariant: the gathered rows and the positional rows read, the sum slot holding the pieces of the rows before k over its contents at loop entry. -/
@[sl_loop] def loopInv_t44 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t44_loop.lb k0_t44_loop.ub k0_t44_loop.st k0_t44_ok () (k0_t44_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t44 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t44 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t44_succ]
      iexists _; isplitl [HW]; · iexact HW
      ipureintro; rw [hf, ← View.writes_append]

/-! ### loop 45 (slot 0) -/

set_option maxHeartbeats 4000000 in
/-- One trip of row loop 45 at a symbolic row: the pieces it writes into the sum slot are the run's own finds. -/
@[irreducible] def trip_t45 (d : Dev nD) (L : grid0.Coords) (v2 : BitVec 32)
    (X : BufTy.Contents (Elt F) (ibS0).view.ty) (P : BufTy.Contents (Elt F) (qV).view.ty) (k : Fin k0_t45_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t45_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t45_body TripRes0
    iintro ⟨HX, HP, HW⟩
    sl_exec
    sl_step
    sl_close

abbrev tripL_t45 (d : Dev nD) (L : grid0.Coords) (v2 : BitVec 32) (X : BufTy.Contents (Elt F) (ibS0).view.ty) (P : BufTy.Contents (Elt F) (qV).view.ty) (k : Fin k0_t45_loop.trips) : List (View.Piece (Elt F) S128x128 .f32) :=
  (trip_t45 (F := F) d L v2 X P k).1

@[irreducible] def pb_t45Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t45_loop.trips then (tripL_t45 (F := F) d L v2 X P ⟨k, h⟩) ++ prev else prev

/-- The pieces of the rows before k (last first). -/
def pb_t45 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t45Step d L v2 X P k (pb_t45 d L v2 X P k)

theorem pb_t45_succ (d : Dev nD) (L : grid0.Coords) (v2 : BitVec 32) (X : BufTy.Contents (Elt F) (ibS0).view.ty) (P : BufTy.Contents (Elt F) (qV).view.ty) (k : Fin k0_t45_loop.trips) :
    pb_t45 (F := F) d L v2 X P (k.val + 1) = (tripL_t45 (F := F) d L v2 X P k) ++ (pb_t45 (F := F) d L v2 X P k.val) := by
  rw [pb_t45.eq_2]; unfold pb_t45Step; exact dif_pos k.isLt

set_option warn.classDefReducibility false in
/-- Row loop 45 by its invariant: the gathered rows and the positional rows read, the sum slot holding the pieces of the rows before k over its contents at loop entry. -/
@[sl_loop] def loopInv_t45 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t45_loop.lb k0_t45_loop.ub k0_t45_loop.st k0_t45_ok () (k0_t45_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t45 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t45 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t45_succ]
      iexists _; isplitl [HW]; · iexact HW
      ipureintro; rw [hf, ← View.writes_append]

/-! ### loop 46 (slot 1) -/

set_option maxHeartbeats 4000000 in
/-- One trip of row loop 46 at a symbolic row: the pieces it writes into the sum slot are the run's own finds. -/
@[irreducible] def trip_t46 (d : Dev nD) (L : grid0.Coords) (v2 : BitVec 32)
    (X : BufTy.Contents (Elt F) (ibS1).view.ty) (P : BufTy.Contents (Elt F) (qV).view.ty) (k : Fin k0_t46_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t46_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t46_body TripRes1
    iintro ⟨HX, HP, HW⟩
    sl_exec
    sl_step
    sl_close

abbrev tripL_t46 (d : Dev nD) (L : grid0.Coords) (v2 : BitVec 32) (X : BufTy.Contents (Elt F) (ibS1).view.ty) (P : BufTy.Contents (Elt F) (qV).view.ty) (k : Fin k0_t46_loop.trips) : List (View.Piece (Elt F) S128x128 .f32) :=
  (trip_t46 (F := F) d L v2 X P k).1

@[irreducible] def pb_t46Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t46_loop.trips then (tripL_t46 (F := F) d L v2 X P ⟨k, h⟩) ++ prev else prev

/-- The pieces of the rows before k (last first). -/
def pb_t46 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t46Step d L v2 X P k (pb_t46 d L v2 X P k)

theorem pb_t46_succ (d : Dev nD) (L : grid0.Coords) (v2 : BitVec 32) (X : BufTy.Contents (Elt F) (ibS1).view.ty) (P : BufTy.Contents (Elt F) (qV).view.ty) (k : Fin k0_t46_loop.trips) :
    pb_t46 (F := F) d L v2 X P (k.val + 1) = (tripL_t46 (F := F) d L v2 X P k) ++ (pb_t46 (F := F) d L v2 X P k.val) := by
  rw [pb_t46.eq_2]; unfold pb_t46Step; exact dif_pos k.isLt

set_option warn.classDefReducibility false in
/-- Row loop 46 by its invariant: the gathered rows and the positional rows read, the sum slot holding the pieces of the rows before k over its contents at loop entry. -/
@[sl_loop] def loopInv_t46 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t46_loop.lb k0_t46_loop.ub k0_t46_loop.st k0_t46_ok () (k0_t46_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t46 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t46 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t46_succ]
      iexists _; isplitl [HW]; · iexact HW
      ipureintro; rw [hf, ← View.writes_append]

/-! ### loop 47 (slot 0) -/

set_option maxHeartbeats 4000000 in
/-- One trip of row loop 47 at a symbolic row: the pieces it writes into the sum slot are the run's own finds. -/
@[irreducible] def trip_t47 (d : Dev nD) (L : grid0.Coords) (v2 : BitVec 32)
    (X : BufTy.Contents (Elt F) (ibS0).view.ty) (P : BufTy.Contents (Elt F) (qV).view.ty) (k : Fin k0_t47_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t47_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t47_body TripRes0
    iintro ⟨HX, HP, HW⟩
    sl_exec
    sl_step
    sl_close

abbrev tripL_t47 (d : Dev nD) (L : grid0.Coords) (v2 : BitVec 32) (X : BufTy.Contents (Elt F) (ibS0).view.ty) (P : BufTy.Contents (Elt F) (qV).view.ty) (k : Fin k0_t47_loop.trips) : List (View.Piece (Elt F) S128x128 .f32) :=
  (trip_t47 (F := F) d L v2 X P k).1

@[irreducible] def pb_t47Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t47_loop.trips then (tripL_t47 (F := F) d L v2 X P ⟨k, h⟩) ++ prev else prev

/-- The pieces of the rows before k (last first). -/
def pb_t47 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t47Step d L v2 X P k (pb_t47 d L v2 X P k)

theorem pb_t47_succ (d : Dev nD) (L : grid0.Coords) (v2 : BitVec 32) (X : BufTy.Contents (Elt F) (ibS0).view.ty) (P : BufTy.Contents (Elt F) (qV).view.ty) (k : Fin k0_t47_loop.trips) :
    pb_t47 (F := F) d L v2 X P (k.val + 1) = (tripL_t47 (F := F) d L v2 X P k) ++ (pb_t47 (F := F) d L v2 X P k.val) := by
  rw [pb_t47.eq_2]; unfold pb_t47Step; exact dif_pos k.isLt

set_option warn.classDefReducibility false in
/-- Row loop 47 by its invariant: the gathered rows and the positional rows read, the sum slot holding the pieces of the rows before k over its contents at loop entry. -/
@[sl_loop] def loopInv_t47 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t47_loop.lb k0_t47_loop.ub k0_t47_loop.st k0_t47_ok () (k0_t47_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t47 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t47 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t47_succ]
      iexists _; isplitl [HW]; · iexact HW
      ipureintro; rw [hf, ← View.writes_append]

/-! ### loop 48 (slot 1) -/

set_option maxHeartbeats 4000000 in
/-- One trip of row loop 48 at a symbolic row: the pieces it writes into the sum slot are the run's own finds. -/
@[irreducible] def trip_t48 (d : Dev nD) (L : grid0.Coords) (v2 : BitVec 32)
    (X : BufTy.Contents (Elt F) (ibS1).view.ty) (P : BufTy.Contents (Elt F) (qV).view.ty) (k : Fin k0_t48_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t48_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t48_body TripRes1
    iintro ⟨HX, HP, HW⟩
    sl_exec
    sl_step
    sl_close

abbrev tripL_t48 (d : Dev nD) (L : grid0.Coords) (v2 : BitVec 32) (X : BufTy.Contents (Elt F) (ibS1).view.ty) (P : BufTy.Contents (Elt F) (qV).view.ty) (k : Fin k0_t48_loop.trips) : List (View.Piece (Elt F) S128x128 .f32) :=
  (trip_t48 (F := F) d L v2 X P k).1

@[irreducible] def pb_t48Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t48_loop.trips then (tripL_t48 (F := F) d L v2 X P ⟨k, h⟩) ++ prev else prev

/-- The pieces of the rows before k (last first). -/
def pb_t48 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t48Step d L v2 X P k (pb_t48 d L v2 X P k)

theorem pb_t48_succ (d : Dev nD) (L : grid0.Coords) (v2 : BitVec 32) (X : BufTy.Contents (Elt F) (ibS1).view.ty) (P : BufTy.Contents (Elt F) (qV).view.ty) (k : Fin k0_t48_loop.trips) :
    pb_t48 (F := F) d L v2 X P (k.val + 1) = (tripL_t48 (F := F) d L v2 X P k) ++ (pb_t48 (F := F) d L v2 X P k.val) := by
  rw [pb_t48.eq_2]; unfold pb_t48Step; exact dif_pos k.isLt

set_option warn.classDefReducibility false in
/-- Row loop 48 by its invariant: the gathered rows and the positional rows read, the sum slot holding the pieces of the rows before k over its contents at loop entry. -/
@[sl_loop] def loopInv_t48 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t48_loop.lb k0_t48_loop.ub k0_t48_loop.st k0_t48_ok () (k0_t48_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t48 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t48 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t48_succ]
      iexists _; isplitl [HW]; · iexact HW
      ipureintro; rw [hf, ← View.writes_append]

end Tile
end Cert.Proof.KI
end
-- ==== Proof.RowsValueC.lean ====
/-
  The slot of sums after each of the row loops 33 to 48.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsC
import proofs.«208673_g37134287241914_cont_8to1_b_302_3_alg».proof.Proof.RowsLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### the value of row loop 33 (slot 0, positional rows 0 … 127) -/

theorem trips_t33 : k0_t33_loop.trips = 128 := rfl

set_option maxHeartbeats 2000000 in
/-- Every piece of a trip of row loop 33 is the row sum on its rectangle. -/
theorem trip_pieces_t33 (d : Dev nD) (L : grid0.Coords) (v2 wa wb : BitVec 32) (X : BufTy.Contents (Elt F) (ibS0).view.ty) (P : BufTy.Contents (Elt F) (qV).view.ty) (k : Fin k0_t33_loop.trips) :
    ∀ p ∈ tripL_t33 (F := F) d L v2 wa wb X P k, ∀ x : p.1.shape.Idx, p.2 x = RowsLib.rowG (ibS0).view (qV).view X P 0 (by omega) (p.1.emb x) := by
  unfold tripL_t33 trip_t33
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off529_inb k) (k0_off529_inb k) (k0_off530_inb k) k.val (k.val + 0) 112 (k0_off529_eq k) (k0_off530_eq k) rfl _ (RowsLib.lane_sum _ _ _ _) x
  · exact fun x => RowsLib.piece_eq _ _ X P 0 _ _ _ (k0_off527_inb k) (k0_off527_inb k) (k0_off528_inb k) k.val (k.val + 0) 96 (k0_off527_eq k) (k0_off528_eq k) rfl _ (RowsLib.lane_sum _ _ _ _) x
  · exact fun x => RowsLib.piece_eq _ _ X P 0 _ _ _ (k0_off525_inb k) (k0_off525_inb k) (k0_off526_inb k) k.val (k.val + 0) 80 (k0_off525_eq k) (k0_off526_eq k) rfl _ (RowsLib.lane_sum _ _ _ _) x
  · exact fun x => RowsLib.piece_eq _ _ X P 0 _ _ _ (k0_off523_inb k) (k0_off523_inb k) (k0_off524_inb k) k.val (k.val + 0) 64 (k0_off523_eq k) (k0_off524_eq k) rfl _ (RowsLib.lane_sum _ _ _ _) x
  · exact fun x => RowsLib.piece_eq _ _ X P 0 _ _ _ (k0_off521_inb k) (k0_off521_inb k) (k0_off522_inb k) k.val (k.val + 0) 48 (k0_off521_eq k) (k0_off522_eq k) rfl _ (RowsLib.lane_sum _ _ _ _) x
  · exact fun x => RowsLib.piece_eq _ _ X P 0 _ _ _ (k0_off519_inb k) (k0_off519_inb k) (k0_off520_inb k) k.val (k.val + 0) 32 (k0_off519_eq k) (k0_off520_eq k) rfl _ (RowsLib.lane_sum _ _ _ _) x
  · exact fun x => RowsLib.piece_eq _ _ X P 0 _ _ _ (k0_off517_inb k) (k0_off517_inb k) (k0_off518_inb k) k.val (k.val + 0) 16 (k0_off517_eq k) (k0_off518_eq k) rfl _ (RowsLib.lane_sum _ _ _ _) x
  · exact fun x => RowsLib.piece_eq _ _ X P 0 _ _ _ (k0_off515_inb k) (k0_off515_inb k) (k0_off516_inb k) k.val (k.val + 0) 0 (k0_off515_eq k) (k0_off516_eq k) rfl _ (RowsLib.lane_sum _ _ _ _) x

set_option maxHeartbeats 2000000 in
/-- The eight pieces of trip k cover row k. -/
theorem trip_cover_t33 (d : Dev nD) (L : grid0.Coords) (v2 wa wb : BitVec 32) (X : BufTy.Contents (Elt F) (ibS0).view.ty) (P : BufTy.Contents (Elt F) (qV).view.ty)
    (k : Fin k0_t33_loop.trips) (r c : Fin 128) (hr : k.val = r.val) :
    ∃ p ∈ tripL_t33 (F := F) d L v2 wa wb X P k, (ValueIdx.ix2 r c : RowsLib.SS.Idx) ∈ p.1.set := by
  unfold tripL_t33 trip_t33
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off515_inb k) r c k.val 0 (k0_off515_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off517_inb k) r c k.val 16 (k0_off517_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off519_inb k) r c k.val 32 (k0_off519_eq k) hr h.1 h.2⟩
  · exact ⟨_, List.mem_cons_of_mem _ (List.mem_cons_of_mem _ (List.mem_cons_of_mem _ (List.mem_cons_of_mem _ (List.mem_cons_self)))), RowsLib.mem_unit _ (k0_off521_inb k) r c k.val 48 (k0_off521_eq k) hr h.1 h.2⟩
  · exact ⟨_, List.mem_cons_of_mem _ (List.mem_cons_of_mem _ (List.mem_cons_of_mem _ (List.mem_cons_self))), RowsLib.mem_unit _ (k0_off523_inb k) r c k.val 64 (k0_off523_eq k) hr h.1 h.2⟩
  · exact ⟨_, List.mem_cons_of_mem _ (List.mem_cons_of_mem _ (List.mem_cons_self)), RowsLib.mem_unit _ (k0_off525_inb k) r c k.val 80 (k0_off525_eq k) hr h.1 h.2⟩
  · exact ⟨_, List.mem_cons_of_mem _ (List.mem_cons_self), RowsLib.mem_unit _ (k0_off527_inb k) r c k.val 96 (k0_off527_eq k) hr h.1 h.2⟩
  · exact ⟨_, List.mem_cons_self, RowsLib.mem_unit _ (k0_off529_inb k) r c k.val 112 (k0_off529_eq k) hr h.1 h.2⟩

/-- The slot of sums after row loop 33, as the row-sum function: at (r, c) the gathered rows' entry plus the positional scratch's entry of row r + 0. -/
theorem rows_t33_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t33 (F := F) d L v2 wa wb X P 128)) (ValueIdx.ix2 r c)
      = RowsLib.rowG (ibS0).view (qV).view X P 0 (by omega) (ValueIdx.ix2 r c) :=
  RowsLib.read_writes_trips (n := k0_t33_loop.trips) (pb_t33 (F := F) d L v2 wa wb X P) (tripL_t33 (F := F) d L v2 wa wb X P) (obS0).view G _
    rfl (pb_t33_succ (F := F) d L v2 wa wb X P) (trip_pieces_t33 d L v2 wa wb X P) _ ⟨r.val, r.isLt⟩ (trip_cover_t33 d L v2 wa wb X P ⟨r.val, r.isLt⟩ r c rfl)

/-- THE SLOT OF SUMS AFTER ROW LOOP 33, whatever it held before: at (r, c) the gathered rows' entry (r, c) plus the positional
    scratch's entry (r + 0, c). -/
theorem rows_t33 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t33 (F := F) d L v2 wa wb X P (Scf.trips k0_t33_loop.lb k0_t33_loop.ub k0_t33_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t33_G d L v2 wa wb X P G r c

/-! ### the value of row loop 34 (slot 1, positional rows 128 … 255) -/

theorem trips_t34 : k0_t34_loop.trips = 128 := rfl

set_option maxHeartbeats 2000000 in
/-- Every piece of a trip of row loop 34 is the row sum on its rectangle. -/
theorem trip_pieces_t34 (d : Dev nD) (L : grid0.Coords) (v2 : BitVec 32) (X : BufTy.Contents (Elt F) (ibS1).view.ty) (P : BufTy.Contents (Elt F) (qV).view.ty) (k : Fin k0_t34_loop.trips) :
    ∀ p ∈ tripL_t34 (F := F) d L v2 X P k, ∀ x : p.1.shape.Idx, p.2 x = RowsLib.rowG (ibS1).view (qV).view X P 128 (by omega) (p.1.emb x) := by
  unfold tripL_t34 trip_t34
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off545_inb k) (k0_off545_inb k) (k0_off546_inb k) k.val (k.val + 128) 112 (k0_off545_eq k) (k0_off546_eq k) rfl _ (RowsLib.lane_sum _ _ _ _) x
  · exact fun x => RowsLib.piece_eq _ _ X P 128 _ _ _ (k0_off543_inb k) (k0_off543_inb k) (k0_off544_inb k) k.val (k.val + 128) 96 (k0_off543_eq k) (k0_off544_eq k) rfl _ (RowsLib.lane_sum _ _ _ _) x
  · exact fun x => RowsLib.piece_eq _ _ X P 128 _ _ _ (k0_off541_inb k) (k0_off541_inb k) (k0_off542_inb k) k.val (k.val + 128) 80 (k0_off541_eq k) (k0_off542_eq k) rfl _ (RowsLib.lane_sum _ _ _ _) x
  · exact fun x => RowsLib.piece_eq _ _ X P 128 _ _ _ (k0_off539_inb k) (k0_off539_inb k) (k0_off540_inb k) k.val (k.val + 128) 64 (k0_off539_eq k) (k0_off540_eq k) rfl _ (RowsLib.lane_sum _ _ _ _) x
  · exact fun x => RowsLib.piece_eq _ _ X P 128 _ _ _ (k0_off537_inb k) (k0_off537_inb k) (k0_off538_inb k) k.val (k.val + 128) 48 (k0_off537_eq k) (k0_off538_eq k) rfl _ (RowsLib.lane_sum _ _ _ _) x
  · exact fun x => RowsLib.piece_eq _ _ X P 128 _ _ _ (k0_off535_inb k) (k0_off535_inb k) (k0_off536_inb k) k.val (k.val + 128) 32 (k0_off535_eq k) (k0_off536_eq k) rfl _ (RowsLib.lane_sum _ _ _ _) x
  · exact fun x => RowsLib.piece_eq _ _ X P 128 _ _ _ (k0_off533_inb k) (k0_off533_inb k) (k0_off534_inb k) k.val (k.val + 128) 16 (k0_off533_eq k) (k0_off534_eq k) rfl _ (RowsLib.lane_sum _ _ _ _) x
  · exact fun x => RowsLib.piece_eq _ _ X P 128 _ _ _ (k0_off531_inb k) (k0_off531_inb k) (k0_off532_inb k) k.val (k.val + 128) 0 (k0_off531_eq k) (k0_off532_eq k) rfl _ (RowsLib.lane_sum _ _ _ _) x

set_option maxHeartbeats 2000000 in
/-- The eight pieces of trip k cover row k. -/
theorem trip_cover_t34 (d : Dev nD) (L : grid0.Coords) (v2 : BitVec 32) (X : BufTy.Contents (Elt F) (ibS1).view.ty) (P : BufTy.Contents (Elt F) (qV).view.ty)
    (k : Fin k0_t34_loop.trips) (r c : Fin 128) (hr : k.val = r.val) :
    ∃ p ∈ tripL_t34 (F := F) d L v2 X P k, (ValueIdx.ix2 r c : RowsLib.SS.Idx) ∈ p.1.set := by
  unfold tripL_t34 trip_t34
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off531_inb k) r c k.val 0 (k0_off531_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off533_inb k) r c k.val 16 (k0_off533_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off535_inb k) r c k.val 32 (k0_off535_eq k) hr h.1 h.2⟩
  · exact ⟨_, List.mem_cons_of_mem _ (List.mem_cons_of_mem _ (List.mem_cons_of_mem _ (List.mem_cons_of_mem _ (List.mem_cons_self)))), RowsLib.mem_unit _ (k0_off537_inb k) r c k.val 48 (k0_off537_eq k) hr h.1 h.2⟩
  · exact ⟨_, List.mem_cons_of_mem _ (List.mem_cons_of_mem _ (List.mem_cons_of_mem _ (List.mem_cons_self))), RowsLib.mem_unit _ (k0_off539_inb k) r c k.val 64 (k0_off539_eq k) hr h.1 h.2⟩
  · exact ⟨_, List.mem_cons_of_mem _ (List.mem_cons_of_mem _ (List.mem_cons_self)), RowsLib.mem_unit _ (k0_off541_inb k) r c k.val 80 (k0_off541_eq k) hr h.1 h.2⟩
  · exact ⟨_, List.mem_cons_of_mem _ (List.mem_cons_self), RowsLib.mem_unit _ (k0_off543_inb k) r c k.val 96 (k0_off543_eq k) hr h.1 h.2⟩
  · exact ⟨_, List.mem_cons_self, RowsLib.mem_unit _ (k0_off545_inb k) r c k.val 112 (k0_off545_eq k) hr h.1 h.2⟩

/-- The slot of sums after row loop 34, as the row-sum function: at (r, c) the gathered rows' entry plus the positional scratch's entry of row r + 128. -/
theorem rows_t34_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t34 (F := F) d L v2 X P 128)) (ValueIdx.ix2 r c)
      = RowsLib.rowG (ibS1).view (qV).view X P 128 (by omega) (ValueIdx.ix2 r c) :=
  RowsLib.read_writes_trips (n := k0_t34_loop.trips) (pb_t34 (F := F) d L v2 X P) (tripL_t34 (F := F) d L v2 X P) (obS1).view G _
    rfl (pb_t34_succ (F := F) d L v2 X P) (trip_pieces_t34 d L v2 X P) _ ⟨r.val, r.isLt⟩ (trip_cover_t34 d L v2 X P ⟨r.val, r.isLt⟩ r c rfl)

/-- THE SLOT OF SUMS AFTER ROW LOOP 34, whatever it held before: at (r, c) the gathered rows' entry (r, c) plus the positional
    scratch's entry (r + 128, c). -/
theorem rows_t34 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t34 (F := F) d L v2 X P (Scf.trips k0_t34_loop.lb k0_t34_loop.ub k0_t34_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t34_G d L v2 X P G r c

/-! ### the value of row loop 35 (slot 0, positional rows 0 … 127) -/

theorem trips_t35 : k0_t35_loop.trips = 128 := rfl

set_option maxHeartbeats 2000000 in
/-- Every piece of a trip of row loop 35 is the row sum on its rectangle. -/
theorem trip_pieces_t35 (d : Dev nD) (L : grid0.Coords) (v2 : BitVec 32) (X : BufTy.Contents (Elt F) (ibS0).view.ty) (P : BufTy.Contents (Elt F) (qV).view.ty) (k : Fin k0_t35_loop.trips) :
    ∀ p ∈ tripL_t35 (F := F) d L v2 X P k, ∀ x : p.1.shape.Idx, p.2 x = RowsLib.rowG (ibS0).view (qV).view X P 0 (by omega) (p.1.emb x) := by
  unfold tripL_t35 trip_t35
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off561_inb k) (k0_off561_inb k) (k0_off562_inb k) k.val (k.val + 0) 112 (k0_off561_eq k) (k0_off562_eq k) rfl _ (RowsLib.lane_sum _ _ _ _) x
  · exact fun x => RowsLib.piece_eq _ _ X P 0 _ _ _ (k0_off559_inb k) (k0_off559_inb k) (k0_off560_inb k) k.val (k.val + 0) 96 (k0_off559_eq k) (k0_off560_eq k) rfl _ (RowsLib.lane_sum _ _ _ _) x
  · exact fun x => RowsLib.piece_eq _ _ X P 0 _ _ _ (k0_off557_inb k) (k0_off557_inb k) (k0_off558_inb k) k.val (k.val + 0) 80 (k0_off557_eq k) (k0_off558_eq k) rfl _ (RowsLib.lane_sum _ _ _ _) x
  · exact fun x => RowsLib.piece_eq _ _ X P 0 _ _ _ (k0_off555_inb k) (k0_off555_inb k) (k0_off556_inb k) k.val (k.val + 0) 64 (k0_off555_eq k) (k0_off556_eq k) rfl _ (RowsLib.lane_sum _ _ _ _) x
  · exact fun x => RowsLib.piece_eq _ _ X P 0 _ _ _ (k0_off553_inb k) (k0_off553_inb k) (k0_off554_inb k) k.val (k.val + 0) 48 (k0_off553_eq k) (k0_off554_eq k) rfl _ (RowsLib.lane_sum _ _ _ _) x
  · exact fun x => RowsLib.piece_eq _ _ X P 0 _ _ _ (k0_off551_inb k) (k0_off551_inb k) (k0_off552_inb k) k.val (k.val + 0) 32 (k0_off551_eq k) (k0_off552_eq k) rfl _ (RowsLib.lane_sum _ _ _ _) x
  · exact fun x => RowsLib.piece_eq _ _ X P 0 _ _ _ (k0_off549_inb k) (k0_off549_inb k) (k0_off550_inb k) k.val (k.val + 0) 16 (k0_off549_eq k) (k0_off550_eq k) rfl _ (RowsLib.lane_sum _ _ _ _) x
  · exact fun x => RowsLib.piece_eq _ _ X P 0 _ _ _ (k0_off547_inb k) (k0_off547_inb k) (k0_off548_inb k) k.val (k.val + 0) 0 (k0_off547_eq k) (k0_off548_eq k) rfl _ (RowsLib.lane_sum _ _ _ _) x

set_option maxHeartbeats 2000000 in
/-- The eight pieces of trip k cover row k. -/
theorem trip_cover_t35 (d : Dev nD) (L : grid0.Coords) (v2 : BitVec 32) (X : BufTy.Contents (Elt F) (ibS0).view.ty) (P : BufTy.Contents (Elt F) (qV).view.ty)
    (k : Fin k0_t35_loop.trips) (r c : Fin 128) (hr : k.val = r.val) :
    ∃ p ∈ tripL_t35 (F := F) d L v2 X P k, (ValueIdx.ix2 r c : RowsLib.SS.Idx) ∈ p.1.set := by
  unfold tripL_t35 trip_t35
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off547_inb k) r c k.val 0 (k0_off547_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off549_inb k) r c k.val 16 (k0_off549_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off551_inb k) r c k.val 32 (k0_off551_eq k) hr h.1 h.2⟩
  · exact ⟨_, List.mem_cons_of_mem _ (List.mem_cons_of_mem _ (List.mem_cons_of_mem _ (List.mem_cons_of_mem _ (List.mem_cons_self)))), RowsLib.mem_unit _ (k0_off553_inb k) r c k.val 48 (k0_off553_eq k) hr h.1 h.2⟩
  · exact ⟨_, List.mem_cons_of_mem _ (List.mem_cons_of_mem _ (List.mem_cons_of_mem _ (List.mem_cons_self))), RowsLib.mem_unit _ (k0_off555_inb k) r c k.val 64 (k0_off555_eq k) hr h.1 h.2⟩
  · exact ⟨_, List.mem_cons_of_mem _ (List.mem_cons_of_mem _ (List.mem_cons_self)), RowsLib.mem_unit _ (k0_off557_inb k) r c k.val 80 (k0_off557_eq k) hr h.1 h.2⟩
  · exact ⟨_, List.mem_cons_of_mem _ (List.mem_cons_self), RowsLib.mem_unit _ (k0_off559_inb k) r c k.val 96 (k0_off559_eq k) hr h.1 h.2⟩
  · exact ⟨_, List.mem_cons_self, RowsLib.mem_unit _ (k0_off561_inb k) r c k.val 112 (k0_off561_eq k) hr h.1 h.2⟩

/-- The slot of sums after row loop 35, as the row-sum function: at (r, c) the gathered rows' entry plus the positional scratch's entry of row r + 0. -/
theorem rows_t35_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t35 (F := F) d L v2 X P 128)) (ValueIdx.ix2 r c)
      = RowsLib.rowG (ibS0).view (qV).view X P 0 (by omega) (ValueIdx.ix2 r c) :=
  RowsLib.read_writes_trips (n := k0_t35_loop.trips) (pb_t35 (F := F) d L v2 X P) (tripL_t35 (F := F) d L v2 X P) (obS0).view G _
    rfl (pb_t35_succ (F := F) d L v2 X P) (trip_pieces_t35 d L v2 X P) _ ⟨r.val, r.isLt⟩ (trip_cover_t35 d L v2 X P ⟨r.val, r.isLt⟩ r c rfl)

/-- THE SLOT OF SUMS AFTER ROW LOOP 35, whatever it held before: at (r, c) the gathered rows' entry (r, c) plus the positional
    scratch's entry (r + 0, c). -/
theorem rows_t35 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t35 (F := F) d L v2 X P (Scf.trips k0_t35_loop.lb k0_t35_loop.ub k0_t35_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t35_G d L v2 X P G r c

/-! ### the value of row loop 36 (slot 1, positional rows 128 … 255) -/

theorem trips_t36 : k0_t36_loop.trips = 128 := rfl

set_option maxHeartbeats 2000000 in
/-- Every piece of a trip of row loop 36 is the row sum on its rectangle. -/
theorem trip_pieces_t36 (d : Dev nD) (L : grid0.Coords) (v2 : BitVec 32) (X : BufTy.Contents (Elt F) (ibS1).view.ty) (P : BufTy.Contents (Elt F) (qV).view.ty) (k : Fin k0_t36_loop.trips) :
    ∀ p ∈ tripL_t36 (F := F) d L v2 X P k, ∀ x : p.1.shape.Idx, p.2 x = RowsLib.rowG (ibS1).view (qV).view X P 128 (by omega) (p.1.emb x) := by
  unfold tripL_t36 trip_t36
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off577_inb k) (k0_off577_inb k) (k0_off578_inb k) k.val (k.val + 128) 112 (k0_off577_eq k) (k0_off578_eq k) rfl _ (RowsLib.lane_sum _ _ _ _) x
  · exact fun x => RowsLib.piece_eq _ _ X P 128 _ _ _ (k0_off575_inb k) (k0_off575_inb k) (k0_off576_inb k) k.val (k.val + 128) 96 (k0_off575_eq k) (k0_off576_eq k) rfl _ (RowsLib.lane_sum _ _ _ _) x
  · exact fun x => RowsLib.piece_eq _ _ X P 128 _ _ _ (k0_off573_inb k) (k0_off573_inb k) (k0_off574_inb k) k.val (k.val + 128) 80 (k0_off573_eq k) (k0_off574_eq k) rfl _ (RowsLib.lane_sum _ _ _ _) x
  · exact fun x => RowsLib.piece_eq _ _ X P 128 _ _ _ (k0_off571_inb k) (k0_off571_inb k) (k0_off572_inb k) k.val (k.val + 128) 64 (k0_off571_eq k) (k0_off572_eq k) rfl _ (RowsLib.lane_sum _ _ _ _) x
  · exact fun x => RowsLib.piece_eq _ _ X P 128 _ _ _ (k0_off569_inb k) (k0_off569_inb k) (k0_off570_inb k) k.val (k.val + 128) 48 (k0_off569_eq k) (k0_off570_eq k) rfl _ (RowsLib.lane_sum _ _ _ _) x
  · exact fun x => RowsLib.piece_eq _ _ X P 128 _ _ _ (k0_off567_inb k) (k0_off567_inb k) (k0_off568_inb k) k.val (k.val + 128) 32 (k0_off567_eq k) (k0_off568_eq k) rfl _ (RowsLib.lane_sum _ _ _ _) x
  · exact fun x => RowsLib.piece_eq _ _ X P 128 _ _ _ (k0_off565_inb k) (k0_off565_inb k) (k0_off566_inb k) k.val (k.val + 128) 16 (k0_off565_eq k) (k0_off566_eq k) rfl _ (RowsLib.lane_sum _ _ _ _) x
  · exact fun x => RowsLib.piece_eq _ _ X P 128 _ _ _ (k0_off563_inb k) (k0_off563_inb k) (k0_off564_inb k) k.val (k.val + 128) 0 (k0_off563_eq k) (k0_off564_eq k) rfl _ (RowsLib.lane_sum _ _ _ _) x

set_option maxHeartbeats 2000000 in
/-- The eight pieces of trip k cover row k. -/
theorem trip_cover_t36 (d : Dev nD) (L : grid0.Coords) (v2 : BitVec 32) (X : BufTy.Contents (Elt F) (ibS1).view.ty) (P : BufTy.Contents (Elt F) (qV).view.ty)
    (k : Fin k0_t36_loop.trips) (r c : Fin 128) (hr : k.val = r.val) :
    ∃ p ∈ tripL_t36 (F := F) d L v2 X P k, (ValueIdx.ix2 r c : RowsLib.SS.Idx) ∈ p.1.set := by
  unfold tripL_t36 trip_t36
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off563_inb k) r c k.val 0 (k0_off563_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off565_inb k) r c k.val 16 (k0_off565_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off567_inb k) r c k.val 32 (k0_off567_eq k) hr h.1 h.2⟩
  · exact ⟨_, List.mem_cons_of_mem _ (List.mem_cons_of_mem _ (List.mem_cons_of_mem _ (List.mem_cons_of_mem _ (List.mem_cons_self)))), RowsLib.mem_unit _ (k0_off569_inb k) r c k.val 48 (k0_off569_eq k) hr h.1 h.2⟩
  · exact ⟨_, List.mem_cons_of_mem _ (List.mem_cons_of_mem _ (List.mem_cons_of_mem _ (List.mem_cons_self))), RowsLib.mem_unit _ (k0_off571_inb k) r c k.val 64 (k0_off571_eq k) hr h.1 h.2⟩
  · exact ⟨_, List.mem_cons_of_mem _ (List.mem_cons_of_mem _ (List.mem_cons_self)), RowsLib.mem_unit _ (k0_off573_inb k) r c k.val 80 (k0_off573_eq k) hr h.1 h.2⟩
  · exact ⟨_, List.mem_cons_of_mem _ (List.mem_cons_self), RowsLib.mem_unit _ (k0_off575_inb k) r c k.val 96 (k0_off575_eq k) hr h.1 h.2⟩
  · exact ⟨_, List.mem_cons_self, RowsLib.mem_unit _ (k0_off577_inb k) r c k.val 112 (k0_off577_eq k) hr h.1 h.2⟩

/-- The slot of sums after row loop 36, as the row-sum function: at (r, c) the gathered rows' entry plus the positional scratch's entry of row r + 128. -/
theorem rows_t36_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t36 (F := F) d L v2 X P 128)) (ValueIdx.ix2 r c)
      = RowsLib.rowG (ibS1).view (qV).view X P 128 (by omega) (ValueIdx.ix2 r c) :=
  RowsLib.read_writes_trips (n := k0_t36_loop.trips) (pb_t36 (F := F) d L v2 X P) (tripL_t36 (F := F) d L v2 X P) (obS1).view G _
    rfl (pb_t36_succ (F := F) d L v2 X P) (trip_pieces_t36 d L v2 X P) _ ⟨r.val, r.isLt⟩ (trip_cover_t36 d L v2 X P ⟨r.val, r.isLt⟩ r c rfl)

/-- THE SLOT OF SUMS AFTER ROW LOOP 36, whatever it held before: at (r, c) the gathered rows' entry (r, c) plus the positional
    scratch's entry (r + 128, c). -/
theorem rows_t36 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t36 (F := F) d L v2 X P (Scf.trips k0_t36_loop.lb k0_t36_loop.ub k0_t36_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t36_G d L v2 X P G r c

/-! ### the value of row loop 37 (slot 0, positional rows 0 … 127) -/

theorem trips_t37 : k0_t37_loop.trips = 128 := rfl

set_option maxHeartbeats 2000000 in
/-- Every piece of a trip of row loop 37 is the row sum on its rectangle. -/
theorem trip_pieces_t37 (d : Dev nD) (L : grid0.Coords) (v2 : BitVec 32) (X : BufTy.Contents (Elt F) (ibS0).view.ty) (P : BufTy.Contents (Elt F) (qV).view.ty) (k : Fin k0_t37_loop.trips) :
    ∀ p ∈ tripL_t37 (F := F) d L v2 X P k, ∀ x : p.1.shape.Idx, p.2 x = RowsLib.rowG (ibS0).view (qV).view X P 0 (by omega) (p.1.emb x) := by
  unfold tripL_t37 trip_t37
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off593_inb k) (k0_off593_inb k) (k0_off594_inb k) k.val (k.val + 0) 112 (k0_off593_eq k) (k0_off594_eq k) rfl _ (RowsLib.lane_sum _ _ _ _) x
  · exact fun x => RowsLib.piece_eq _ _ X P 0 _ _ _ (k0_off591_inb k) (k0_off591_inb k) (k0_off592_inb k) k.val (k.val + 0) 96 (k0_off591_eq k) (k0_off592_eq k) rfl _ (RowsLib.lane_sum _ _ _ _) x
  · exact fun x => RowsLib.piece_eq _ _ X P 0 _ _ _ (k0_off589_inb k) (k0_off589_inb k) (k0_off590_inb k) k.val (k.val + 0) 80 (k0_off589_eq k) (k0_off590_eq k) rfl _ (RowsLib.lane_sum _ _ _ _) x
  · exact fun x => RowsLib.piece_eq _ _ X P 0 _ _ _ (k0_off587_inb k) (k0_off587_inb k) (k0_off588_inb k) k.val (k.val + 0) 64 (k0_off587_eq k) (k0_off588_eq k) rfl _ (RowsLib.lane_sum _ _ _ _) x
  · exact fun x => RowsLib.piece_eq _ _ X P 0 _ _ _ (k0_off585_inb k) (k0_off585_inb k) (k0_off586_inb k) k.val (k.val + 0) 48 (k0_off585_eq k) (k0_off586_eq k) rfl _ (RowsLib.lane_sum _ _ _ _) x
  · exact fun x => RowsLib.piece_eq _ _ X P 0 _ _ _ (k0_off583_inb k) (k0_off583_inb k) (k0_off584_inb k) k.val (k.val + 0) 32 (k0_off583_eq k) (k0_off584_eq k) rfl _ (RowsLib.lane_sum _ _ _ _) x
  · exact fun x => RowsLib.piece_eq _ _ X P 0 _ _ _ (k0_off581_inb k) (k0_off581_inb k) (k0_off582_inb k) k.val (k.val + 0) 16 (k0_off581_eq k) (k0_off582_eq k) rfl _ (RowsLib.lane_sum _ _ _ _) x
  · exact fun x => RowsLib.piece_eq _ _ X P 0 _ _ _ (k0_off579_inb k) (k0_off579_inb k) (k0_off580_inb k) k.val (k.val + 0) 0 (k0_off579_eq k) (k0_off580_eq k) rfl _ (RowsLib.lane_sum _ _ _ _) x

set_option maxHeartbeats 2000000 in
/-- The eight pieces of trip k cover row k. -/
theorem trip_cover_t37 (d : Dev nD) (L : grid0.Coords) (v2 : BitVec 32) (X : BufTy.Contents (Elt F) (ibS0).view.ty) (P : BufTy.Contents (Elt F) (qV).view.ty)
    (k : Fin k0_t37_loop.trips) (r c : Fin 128) (hr : k.val = r.val) :
    ∃ p ∈ tripL_t37 (F := F) d L v2 X P k, (ValueIdx.ix2 r c : RowsLib.SS.Idx) ∈ p.1.set := by
  unfold tripL_t37 trip_t37
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off579_inb k) r c k.val 0 (k0_off579_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off581_inb k) r c k.val 16 (k0_off581_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off583_inb k) r c k.val 32 (k0_off583_eq k) hr h.1 h.2⟩
  · exact ⟨_, List.mem_cons_of_mem _ (List.mem_cons_of_mem _ (List.mem_cons_of_mem _ (List.mem_cons_of_mem _ (List.mem_cons_self)))), RowsLib.mem_unit _ (k0_off585_inb k) r c k.val 48 (k0_off585_eq k) hr h.1 h.2⟩
  · exact ⟨_, List.mem_cons_of_mem _ (List.mem_cons_of_mem _ (List.mem_cons_of_mem _ (List.mem_cons_self))), RowsLib.mem_unit _ (k0_off587_inb k) r c k.val 64 (k0_off587_eq k) hr h.1 h.2⟩
  · exact ⟨_, List.mem_cons_of_mem _ (List.mem_cons_of_mem _ (List.mem_cons_self)), RowsLib.mem_unit _ (k0_off589_inb k) r c k.val 80 (k0_off589_eq k) hr h.1 h.2⟩
  · exact ⟨_, List.mem_cons_of_mem _ (List.mem_cons_self), RowsLib.mem_unit _ (k0_off591_inb k) r c k.val 96 (k0_off591_eq k) hr h.1 h.2⟩
  · exact ⟨_, List.mem_cons_self, RowsLib.mem_unit _ (k0_off593_inb k) r c k.val 112 (k0_off593_eq k) hr h.1 h.2⟩

/-- The slot of sums after row loop 37, as the row-sum function: at (r, c) the gathered rows' entry plus the positional scratch's entry of row r + 0. -/
theorem rows_t37_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t37 (F := F) d L v2 X P 128)) (ValueIdx.ix2 r c)
      = RowsLib.rowG (ibS0).view (qV).view X P 0 (by omega) (ValueIdx.ix2 r c) :=
  RowsLib.read_writes_trips (n := k0_t37_loop.trips) (pb_t37 (F := F) d L v2 X P) (tripL_t37 (F := F) d L v2 X P) (obS0).view G _
    rfl (pb_t37_succ (F := F) d L v2 X P) (trip_pieces_t37 d L v2 X P) _ ⟨r.val, r.isLt⟩ (trip_cover_t37 d L v2 X P ⟨r.val, r.isLt⟩ r c rfl)

/-- THE SLOT OF SUMS AFTER ROW LOOP 37, whatever it held before: at (r, c) the gathered rows' entry (r, c) plus the positional
    scratch's entry (r + 0, c). -/
theorem rows_t37 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t37 (F := F) d L v2 X P (Scf.trips k0_t37_loop.lb k0_t37_loop.ub k0_t37_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t37_G d L v2 X P G r c

/-! ### the value of row loop 38 (slot 1, positional rows 128 … 255) -/

theorem trips_t38 : k0_t38_loop.trips = 128 := rfl

set_option maxHeartbeats 2000000 in
/-- Every piece of a trip of row loop 38 is the row sum on its rectangle. -/
theorem trip_pieces_t38 (d : Dev nD) (L : grid0.Coords) (v2 : BitVec 32) (X : BufTy.Contents (Elt F) (ibS1).view.ty) (P : BufTy.Contents (Elt F) (qV).view.ty) (k : Fin k0_t38_loop.trips) :
    ∀ p ∈ tripL_t38 (F := F) d L v2 X P k, ∀ x : p.1.shape.Idx, p.2 x = RowsLib.rowG (ibS1).view (qV).view X P 128 (by omega) (p.1.emb x) := by
  unfold tripL_t38 trip_t38
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off609_inb k) (k0_off609_inb k) (k0_off610_inb k) k.val (k.val + 128) 112 (k0_off609_eq k) (k0_off610_eq k) rfl _ (RowsLib.lane_sum _ _ _ _) x
  · exact fun x => RowsLib.piece_eq _ _ X P 128 _ _ _ (k0_off607_inb k) (k0_off607_inb k) (k0_off608_inb k) k.val (k.val + 128) 96 (k0_off607_eq k) (k0_off608_eq k) rfl _ (RowsLib.lane_sum _ _ _ _) x
  · exact fun x => RowsLib.piece_eq _ _ X P 128 _ _ _ (k0_off605_inb k) (k0_off605_inb k) (k0_off606_inb k) k.val (k.val + 128) 80 (k0_off605_eq k) (k0_off606_eq k) rfl _ (RowsLib.lane_sum _ _ _ _) x
  · exact fun x => RowsLib.piece_eq _ _ X P 128 _ _ _ (k0_off603_inb k) (k0_off603_inb k) (k0_off604_inb k) k.val (k.val + 128) 64 (k0_off603_eq k) (k0_off604_eq k) rfl _ (RowsLib.lane_sum _ _ _ _) x
  · exact fun x => RowsLib.piece_eq _ _ X P 128 _ _ _ (k0_off601_inb k) (k0_off601_inb k) (k0_off602_inb k) k.val (k.val + 128) 48 (k0_off601_eq k) (k0_off602_eq k) rfl _ (RowsLib.lane_sum _ _ _ _) x
  · exact fun x => RowsLib.piece_eq _ _ X P 128 _ _ _ (k0_off599_inb k) (k0_off599_inb k) (k0_off600_inb k) k.val (k.val + 128) 32 (k0_off599_eq k) (k0_off600_eq k) rfl _ (RowsLib.lane_sum _ _ _ _) x
  · exact fun x => RowsLib.piece_eq _ _ X P 128 _ _ _ (k0_off597_inb k) (k0_off597_inb k) (k0_off598_inb k) k.val (k.val + 128) 16 (k0_off597_eq k) (k0_off598_eq k) rfl _ (RowsLib.lane_sum _ _ _ _) x
  · exact fun x => RowsLib.piece_eq _ _ X P 128 _ _ _ (k0_off595_inb k) (k0_off595_inb k) (k0_off596_inb k) k.val (k.val + 128) 0 (k0_off595_eq k) (k0_off596_eq k) rfl _ (RowsLib.lane_sum _ _ _ _) x

set_option maxHeartbeats 2000000 in
/-- The eight pieces of trip k cover row k. -/
theorem trip_cover_t38 (d : Dev nD) (L : grid0.Coords) (v2 : BitVec 32) (X : BufTy.Contents (Elt F) (ibS1).view.ty) (P : BufTy.Contents (Elt F) (qV).view.ty)
    (k : Fin k0_t38_loop.trips) (r c : Fin 128) (hr : k.val = r.val) :
    ∃ p ∈ tripL_t38 (F := F) d L v2 X P k, (ValueIdx.ix2 r c : RowsLib.SS.Idx) ∈ p.1.set := by
  unfold tripL_t38 trip_t38
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off595_inb k) r c k.val 0 (k0_off595_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off597_inb k) r c k.val 16 (k0_off597_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off599_inb k) r c k.val 32 (k0_off599_eq k) hr h.1 h.2⟩
  · exact ⟨_, List.mem_cons_of_mem _ (List.mem_cons_of_mem _ (List.mem_cons_of_mem _ (List.mem_cons_of_mem _ (List.mem_cons_self)))), RowsLib.mem_unit _ (k0_off601_inb k) r c k.val 48 (k0_off601_eq k) hr h.1 h.2⟩
  · exact ⟨_, List.mem_cons_of_mem _ (List.mem_cons_of_mem _ (List.mem_cons_of_mem _ (List.mem_cons_self))), RowsLib.mem_unit _ (k0_off603_inb k) r c k.val 64 (k0_off603_eq k) hr h.1 h.2⟩
  · exact ⟨_, List.mem_cons_of_mem _ (List.mem_cons_of_mem _ (List.mem_cons_self)), RowsLib.mem_unit _ (k0_off605_inb k) r c k.val 80 (k0_off605_eq k) hr h.1 h.2⟩
  · exact ⟨_, List.mem_cons_of_mem _ (List.mem_cons_self), RowsLib.mem_unit _ (k0_off607_inb k) r c k.val 96 (k0_off607_eq k) hr h.1 h.2⟩
  · exact ⟨_, List.mem_cons_self, RowsLib.mem_unit _ (k0_off609_inb k) r c k.val 112 (k0_off609_eq k) hr h.1 h.2⟩

/-- The slot of sums after row loop 38, as the row-sum function: at (r, c) the gathered rows' entry plus the positional scratch's entry of row r + 128. -/
theorem rows_t38_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t38 (F := F) d L v2 X P 128)) (ValueIdx.ix2 r c)
      = RowsLib.rowG (ibS1).view (qV).view X P 128 (by omega) (ValueIdx.ix2 r c) :=
  RowsLib.read_writes_trips (n := k0_t38_loop.trips) (pb_t38 (F := F) d L v2 X P) (tripL_t38 (F := F) d L v2 X P) (obS1).view G _
    rfl (pb_t38_succ (F := F) d L v2 X P) (trip_pieces_t38 d L v2 X P) _ ⟨r.val, r.isLt⟩ (trip_cover_t38 d L v2 X P ⟨r.val, r.isLt⟩ r c rfl)

/-- THE SLOT OF SUMS AFTER ROW LOOP 38, whatever it held before: at (r, c) the gathered rows' entry (r, c) plus the positional
    scratch's entry (r + 128, c). -/
theorem rows_t38 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t38 (F := F) d L v2 X P (Scf.trips k0_t38_loop.lb k0_t38_loop.ub k0_t38_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t38_G d L v2 X P G r c

/-! ### the value of row loop 39 (slot 0, positional rows 0 … 127) -/

theorem trips_t39 : k0_t39_loop.trips = 128 := rfl

set_option maxHeartbeats 2000000 in
/-- Every piece of a trip of row loop 39 is the row sum on its rectangle. -/
theorem trip_pieces_t39 (d : Dev nD) (L : grid0.Coords) (v2 : BitVec 32) (X : BufTy.Contents (Elt F) (ibS0).view.ty) (P : BufTy.Contents (Elt F) (qV).view.ty) (k : Fin k0_t39_loop.trips) :
    ∀ p ∈ tripL_t39 (F := F) d L v2 X P k, ∀ x : p.1.shape.Idx, p.2 x = RowsLib.rowG (ibS0).view (qV).view X P 0 (by omega) (p.1.emb x) := by
  unfold tripL_t39 trip_t39
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off625_inb k) (k0_off625_inb k) (k0_off626_inb k) k.val (k.val + 0) 112 (k0_off625_eq k) (k0_off626_eq k) rfl _ (RowsLib.lane_sum _ _ _ _) x
  · exact fun x => RowsLib.piece_eq _ _ X P 0 _ _ _ (k0_off623_inb k) (k0_off623_inb k) (k0_off624_inb k) k.val (k.val + 0) 96 (k0_off623_eq k) (k0_off624_eq k) rfl _ (RowsLib.lane_sum _ _ _ _) x
  · exact fun x => RowsLib.piece_eq _ _ X P 0 _ _ _ (k0_off621_inb k) (k0_off621_inb k) (k0_off622_inb k) k.val (k.val + 0) 80 (k0_off621_eq k) (k0_off622_eq k) rfl _ (RowsLib.lane_sum _ _ _ _) x
  · exact fun x => RowsLib.piece_eq _ _ X P 0 _ _ _ (k0_off619_inb k) (k0_off619_inb k) (k0_off620_inb k) k.val (k.val + 0) 64 (k0_off619_eq k) (k0_off620_eq k) rfl _ (RowsLib.lane_sum _ _ _ _) x
  · exact fun x => RowsLib.piece_eq _ _ X P 0 _ _ _ (k0_off617_inb k) (k0_off617_inb k) (k0_off618_inb k) k.val (k.val + 0) 48 (k0_off617_eq k) (k0_off618_eq k) rfl _ (RowsLib.lane_sum _ _ _ _) x
  · exact fun x => RowsLib.piece_eq _ _ X P 0 _ _ _ (k0_off615_inb k) (k0_off615_inb k) (k0_off616_inb k) k.val (k.val + 0) 32 (k0_off615_eq k) (k0_off616_eq k) rfl _ (RowsLib.lane_sum _ _ _ _) x
  · exact fun x => RowsLib.piece_eq _ _ X P 0 _ _ _ (k0_off613_inb k) (k0_off613_inb k) (k0_off614_inb k) k.val (k.val + 0) 16 (k0_off613_eq k) (k0_off614_eq k) rfl _ (RowsLib.lane_sum _ _ _ _) x
  · exact fun x => RowsLib.piece_eq _ _ X P 0 _ _ _ (k0_off611_inb k) (k0_off611_inb k) (k0_off612_inb k) k.val (k.val + 0) 0 (k0_off611_eq k) (k0_off612_eq k) rfl _ (RowsLib.lane_sum _ _ _ _) x

set_option maxHeartbeats 2000000 in
/-- The eight pieces of trip k cover row k. -/
theorem trip_cover_t39 (d : Dev nD) (L : grid0.Coords) (v2 : BitVec 32) (X : BufTy.Contents (Elt F) (ibS0).view.ty) (P : BufTy.Contents (Elt F) (qV).view.ty)
    (k : Fin k0_t39_loop.trips) (r c : Fin 128) (hr : k.val = r.val) :
    ∃ p ∈ tripL_t39 (F := F) d L v2 X P k, (ValueIdx.ix2 r c : RowsLib.SS.Idx) ∈ p.1.set := by
  unfold tripL_t39 trip_t39
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off611_inb k) r c k.val 0 (k0_off611_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off613_inb k) r c k.val 16 (k0_off613_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off615_inb k) r c k.val 32 (k0_off615_eq k) hr h.1 h.2⟩
  · exact ⟨_, List.mem_cons_of_mem _ (List.mem_cons_of_mem _ (List.mem_cons_of_mem _ (List.mem_cons_of_mem _ (List.mem_cons_self)))), RowsLib.mem_unit _ (k0_off617_inb k) r c k.val 48 (k0_off617_eq k) hr h.1 h.2⟩
  · exact ⟨_, List.mem_cons_of_mem _ (List.mem_cons_of_mem _ (List.mem_cons_of_mem _ (List.mem_cons_self))), RowsLib.mem_unit _ (k0_off619_inb k) r c k.val 64 (k0_off619_eq k) hr h.1 h.2⟩
  · exact ⟨_, List.mem_cons_of_mem _ (List.mem_cons_of_mem _ (List.mem_cons_self)), RowsLib.mem_unit _ (k0_off621_inb k) r c k.val 80 (k0_off621_eq k) hr h.1 h.2⟩
  · exact ⟨_, List.mem_cons_of_mem _ (List.mem_cons_self), RowsLib.mem_unit _ (k0_off623_inb k) r c k.val 96 (k0_off623_eq k) hr h.1 h.2⟩
  · exact ⟨_, List.mem_cons_self, RowsLib.mem_unit _ (k0_off625_inb k) r c k.val 112 (k0_off625_eq k) hr h.1 h.2⟩

/-- The slot of sums after row loop 39, as the row-sum function: at (r, c) the gathered rows' entry plus the positional scratch's entry of row r + 0. -/
theorem rows_t39_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t39 (F := F) d L v2 X P 128)) (ValueIdx.ix2 r c)
      = RowsLib.rowG (ibS0).view (qV).view X P 0 (by omega) (ValueIdx.ix2 r c) :=
  RowsLib.read_writes_trips (n := k0_t39_loop.trips) (pb_t39 (F := F) d L v2 X P) (tripL_t39 (F := F) d L v2 X P) (obS0).view G _
    rfl (pb_t39_succ (F := F) d L v2 X P) (trip_pieces_t39 d L v2 X P) _ ⟨r.val, r.isLt⟩ (trip_cover_t39 d L v2 X P ⟨r.val, r.isLt⟩ r c rfl)

/-- THE SLOT OF SUMS AFTER ROW LOOP 39, whatever it held before: at (r, c) the gathered rows' entry (r, c) plus the positional
    scratch's entry (r + 0, c). -/
theorem rows_t39 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t39 (F := F) d L v2 X P (Scf.trips k0_t39_loop.lb k0_t39_loop.ub k0_t39_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t39_G d L v2 X P G r c

/-! ### the value of row loop 40 (slot 1, positional rows 128 … 255) -/

theorem trips_t40 : k0_t40_loop.trips = 128 := rfl

set_option maxHeartbeats 2000000 in
/-- Every piece of a trip of row loop 40 is the row sum on its rectangle. -/
theorem trip_pieces_t40 (d : Dev nD) (L : grid0.Coords) (v2 : BitVec 32) (X : BufTy.Contents (Elt F) (ibS1).view.ty) (P : BufTy.Contents (Elt F) (qV).view.ty) (k : Fin k0_t40_loop.trips) :
    ∀ p ∈ tripL_t40 (F := F) d L v2 X P k, ∀ x : p.1.shape.Idx, p.2 x = RowsLib.rowG (ibS1).view (qV).view X P 128 (by omega) (p.1.emb x) := by
  unfold tripL_t40 trip_t40
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off641_inb k) (k0_off641_inb k) (k0_off642_inb k) k.val (k.val + 128) 112 (k0_off641_eq k) (k0_off642_eq k) rfl _ (RowsLib.lane_sum _ _ _ _) x
  · exact fun x => RowsLib.piece_eq _ _ X P 128 _ _ _ (k0_off639_inb k) (k0_off639_inb k) (k0_off640_inb k) k.val (k.val + 128) 96 (k0_off639_eq k) (k0_off640_eq k) rfl _ (RowsLib.lane_sum _ _ _ _) x
  · exact fun x => RowsLib.piece_eq _ _ X P 128 _ _ _ (k0_off637_inb k) (k0_off637_inb k) (k0_off638_inb k) k.val (k.val + 128) 80 (k0_off637_eq k) (k0_off638_eq k) rfl _ (RowsLib.lane_sum _ _ _ _) x
  · exact fun x => RowsLib.piece_eq _ _ X P 128 _ _ _ (k0_off635_inb k) (k0_off635_inb k) (k0_off636_inb k) k.val (k.val + 128) 64 (k0_off635_eq k) (k0_off636_eq k) rfl _ (RowsLib.lane_sum _ _ _ _) x
  · exact fun x => RowsLib.piece_eq _ _ X P 128 _ _ _ (k0_off633_inb k) (k0_off633_inb k) (k0_off634_inb k) k.val (k.val + 128) 48 (k0_off633_eq k) (k0_off634_eq k) rfl _ (RowsLib.lane_sum _ _ _ _) x
  · exact fun x => RowsLib.piece_eq _ _ X P 128 _ _ _ (k0_off631_inb k) (k0_off631_inb k) (k0_off632_inb k) k.val (k.val + 128) 32 (k0_off631_eq k) (k0_off632_eq k) rfl _ (RowsLib.lane_sum _ _ _ _) x
  · exact fun x => RowsLib.piece_eq _ _ X P 128 _ _ _ (k0_off629_inb k) (k0_off629_inb k) (k0_off630_inb k) k.val (k.val + 128) 16 (k0_off629_eq k) (k0_off630_eq k) rfl _ (RowsLib.lane_sum _ _ _ _) x
  · exact fun x => RowsLib.piece_eq _ _ X P 128 _ _ _ (k0_off627_inb k) (k0_off627_inb k) (k0_off628_inb k) k.val (k.val + 128) 0 (k0_off627_eq k) (k0_off628_eq k) rfl _ (RowsLib.lane_sum _ _ _ _) x

set_option maxHeartbeats 2000000 in
/-- The eight pieces of trip k cover row k. -/
theorem trip_cover_t40 (d : Dev nD) (L : grid0.Coords) (v2 : BitVec 32) (X : BufTy.Contents (Elt F) (ibS1).view.ty) (P : BufTy.Contents (Elt F) (qV).view.ty)
    (k : Fin k0_t40_loop.trips) (r c : Fin 128) (hr : k.val = r.val) :
    ∃ p ∈ tripL_t40 (F := F) d L v2 X P k, (ValueIdx.ix2 r c : RowsLib.SS.Idx) ∈ p.1.set := by
  unfold tripL_t40 trip_t40
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off627_inb k) r c k.val 0 (k0_off627_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off629_inb k) r c k.val 16 (k0_off629_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off631_inb k) r c k.val 32 (k0_off631_eq k) hr h.1 h.2⟩
  · exact ⟨_, List.mem_cons_of_mem _ (List.mem_cons_of_mem _ (List.mem_cons_of_mem _ (List.mem_cons_of_mem _ (List.mem_cons_self)))), RowsLib.mem_unit _ (k0_off633_inb k) r c k.val 48 (k0_off633_eq k) hr h.1 h.2⟩
  · exact ⟨_, List.mem_cons_of_mem _ (List.mem_cons_of_mem _ (List.mem_cons_of_mem _ (List.mem_cons_self))), RowsLib.mem_unit _ (k0_off635_inb k) r c k.val 64 (k0_off635_eq k) hr h.1 h.2⟩
  · exact ⟨_, List.mem_cons_of_mem _ (List.mem_cons_of_mem _ (List.mem_cons_self)), RowsLib.mem_unit _ (k0_off637_inb k) r c k.val 80 (k0_off637_eq k) hr h.1 h.2⟩
  · exact ⟨_, List.mem_cons_of_mem _ (List.mem_cons_self), RowsLib.mem_unit _ (k0_off639_inb k) r c k.val 96 (k0_off639_eq k) hr h.1 h.2⟩
  · exact ⟨_, List.mem_cons_self, RowsLib.mem_unit _ (k0_off641_inb k) r c k.val 112 (k0_off641_eq k) hr h.1 h.2⟩

/-- The slot of sums after row loop 40, as the row-sum function: at (r, c) the gathered rows' entry plus the positional scratch's entry of row r + 128. -/
theorem rows_t40_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t40 (F := F) d L v2 X P 128)) (ValueIdx.ix2 r c)
      = RowsLib.rowG (ibS1).view (qV).view X P 128 (by omega) (ValueIdx.ix2 r c) :=
  RowsLib.read_writes_trips (n := k0_t40_loop.trips) (pb_t40 (F := F) d L v2 X P) (tripL_t40 (F := F) d L v2 X P) (obS1).view G _
    rfl (pb_t40_succ (F := F) d L v2 X P) (trip_pieces_t40 d L v2 X P) _ ⟨r.val, r.isLt⟩ (trip_cover_t40 d L v2 X P ⟨r.val, r.isLt⟩ r c rfl)

/-- THE SLOT OF SUMS AFTER ROW LOOP 40, whatever it held before: at (r, c) the gathered rows' entry (r, c) plus the positional
    scratch's entry (r + 128, c). -/
theorem rows_t40 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t40 (F := F) d L v2 X P (Scf.trips k0_t40_loop.lb k0_t40_loop.ub k0_t40_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t40_G d L v2 X P G r c

/-! ### the value of row loop 41 (slot 0, positional rows 0 … 127) -/

theorem trips_t41 : k0_t41_loop.trips = 128 := rfl

set_option maxHeartbeats 2000000 in
/-- Every piece of a trip of row loop 41 is the row sum on its rectangle. -/
theorem trip_pieces_t41 (d : Dev nD) (L : grid0.Coords) (v2 : BitVec 32) (X : BufTy.Contents (Elt F) (ibS0).view.ty) (P : BufTy.Contents (Elt F) (qV).view.ty) (k : Fin k0_t41_loop.trips) :
    ∀ p ∈ tripL_t41 (F := F) d L v2 X P k, ∀ x : p.1.shape.Idx, p.2 x = RowsLib.rowG (ibS0).view (qV).view X P 0 (by omega) (p.1.emb x) := by
  unfold tripL_t41 trip_t41
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off657_inb k) (k0_off657_inb k) (k0_off658_inb k) k.val (k.val + 0) 112 (k0_off657_eq k) (k0_off658_eq k) rfl _ (RowsLib.lane_sum _ _ _ _) x
  · exact fun x => RowsLib.piece_eq _ _ X P 0 _ _ _ (k0_off655_inb k) (k0_off655_inb k) (k0_off656_inb k) k.val (k.val + 0) 96 (k0_off655_eq k) (k0_off656_eq k) rfl _ (RowsLib.lane_sum _ _ _ _) x
  · exact fun x => RowsLib.piece_eq _ _ X P 0 _ _ _ (k0_off653_inb k) (k0_off653_inb k) (k0_off654_inb k) k.val (k.val + 0) 80 (k0_off653_eq k) (k0_off654_eq k) rfl _ (RowsLib.lane_sum _ _ _ _) x
  · exact fun x => RowsLib.piece_eq _ _ X P 0 _ _ _ (k0_off651_inb k) (k0_off651_inb k) (k0_off652_inb k) k.val (k.val + 0) 64 (k0_off651_eq k) (k0_off652_eq k) rfl _ (RowsLib.lane_sum _ _ _ _) x
  · exact fun x => RowsLib.piece_eq _ _ X P 0 _ _ _ (k0_off649_inb k) (k0_off649_inb k) (k0_off650_inb k) k.val (k.val + 0) 48 (k0_off649_eq k) (k0_off650_eq k) rfl _ (RowsLib.lane_sum _ _ _ _) x
  · exact fun x => RowsLib.piece_eq _ _ X P 0 _ _ _ (k0_off647_inb k) (k0_off647_inb k) (k0_off648_inb k) k.val (k.val + 0) 32 (k0_off647_eq k) (k0_off648_eq k) rfl _ (RowsLib.lane_sum _ _ _ _) x
  · exact fun x => RowsLib.piece_eq _ _ X P 0 _ _ _ (k0_off645_inb k) (k0_off645_inb k) (k0_off646_inb k) k.val (k.val + 0) 16 (k0_off645_eq k) (k0_off646_eq k) rfl _ (RowsLib.lane_sum _ _ _ _) x
  · exact fun x => RowsLib.piece_eq _ _ X P 0 _ _ _ (k0_off643_inb k) (k0_off643_inb k) (k0_off644_inb k) k.val (k.val + 0) 0 (k0_off643_eq k) (k0_off644_eq k) rfl _ (RowsLib.lane_sum _ _ _ _) x

set_option maxHeartbeats 2000000 in
/-- The eight pieces of trip k cover row k. -/
theorem trip_cover_t41 (d : Dev nD) (L : grid0.Coords) (v2 : BitVec 32) (X : BufTy.Contents (Elt F) (ibS0).view.ty) (P : BufTy.Contents (Elt F) (qV).view.ty)
    (k : Fin k0_t41_loop.trips) (r c : Fin 128) (hr : k.val = r.val) :
    ∃ p ∈ tripL_t41 (F := F) d L v2 X P k, (ValueIdx.ix2 r c : RowsLib.SS.Idx) ∈ p.1.set := by
  unfold tripL_t41 trip_t41
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off643_inb k) r c k.val 0 (k0_off643_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off645_inb k) r c k.val 16 (k0_off645_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off647_inb k) r c k.val 32 (k0_off647_eq k) hr h.1 h.2⟩
  · exact ⟨_, List.mem_cons_of_mem _ (List.mem_cons_of_mem _ (List.mem_cons_of_mem _ (List.mem_cons_of_mem _ (List.mem_cons_self)))), RowsLib.mem_unit _ (k0_off649_inb k) r c k.val 48 (k0_off649_eq k) hr h.1 h.2⟩
  · exact ⟨_, List.mem_cons_of_mem _ (List.mem_cons_of_mem _ (List.mem_cons_of_mem _ (List.mem_cons_self))), RowsLib.mem_unit _ (k0_off651_inb k) r c k.val 64 (k0_off651_eq k) hr h.1 h.2⟩
  · exact ⟨_, List.mem_cons_of_mem _ (List.mem_cons_of_mem _ (List.mem_cons_self)), RowsLib.mem_unit _ (k0_off653_inb k) r c k.val 80 (k0_off653_eq k) hr h.1 h.2⟩
  · exact ⟨_, List.mem_cons_of_mem _ (List.mem_cons_self), RowsLib.mem_unit _ (k0_off655_inb k) r c k.val 96 (k0_off655_eq k) hr h.1 h.2⟩
  · exact ⟨_, List.mem_cons_self, RowsLib.mem_unit _ (k0_off657_inb k) r c k.val 112 (k0_off657_eq k) hr h.1 h.2⟩

/-- The slot of sums after row loop 41, as the row-sum function: at (r, c) the gathered rows' entry plus the positional scratch's entry of row r + 0. -/
theorem rows_t41_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t41 (F := F) d L v2 X P 128)) (ValueIdx.ix2 r c)
      = RowsLib.rowG (ibS0).view (qV).view X P 0 (by omega) (ValueIdx.ix2 r c) :=
  RowsLib.read_writes_trips (n := k0_t41_loop.trips) (pb_t41 (F := F) d L v2 X P) (tripL_t41 (F := F) d L v2 X P) (obS0).view G _
    rfl (pb_t41_succ (F := F) d L v2 X P) (trip_pieces_t41 d L v2 X P) _ ⟨r.val, r.isLt⟩ (trip_cover_t41 d L v2 X P ⟨r.val, r.isLt⟩ r c rfl)

/-- THE SLOT OF SUMS AFTER ROW LOOP 41, whatever it held before: at (r, c) the gathered rows' entry (r, c) plus the positional
    scratch's entry (r + 0, c). -/
theorem rows_t41 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t41 (F := F) d L v2 X P (Scf.trips k0_t41_loop.lb k0_t41_loop.ub k0_t41_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t41_G d L v2 X P G r c

/-! ### the value of row loop 42 (slot 1, positional rows 128 … 255) -/

theorem trips_t42 : k0_t42_loop.trips = 128 := rfl

set_option maxHeartbeats 2000000 in
/-- Every piece of a trip of row loop 42 is the row sum on its rectangle. -/
theorem trip_pieces_t42 (d : Dev nD) (L : grid0.Coords) (v2 : BitVec 32) (X : BufTy.Contents (Elt F) (ibS1).view.ty) (P : BufTy.Contents (Elt F) (qV).view.ty) (k : Fin k0_t42_loop.trips) :
    ∀ p ∈ tripL_t42 (F := F) d L v2 X P k, ∀ x : p.1.shape.Idx, p.2 x = RowsLib.rowG (ibS1).view (qV).view X P 128 (by omega) (p.1.emb x) := by
  unfold tripL_t42 trip_t42
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off673_inb k) (k0_off673_inb k) (k0_off674_inb k) k.val (k.val + 128) 112 (k0_off673_eq k) (k0_off674_eq k) rfl _ (RowsLib.lane_sum _ _ _ _) x
  · exact fun x => RowsLib.piece_eq _ _ X P 128 _ _ _ (k0_off671_inb k) (k0_off671_inb k) (k0_off672_inb k) k.val (k.val + 128) 96 (k0_off671_eq k) (k0_off672_eq k) rfl _ (RowsLib.lane_sum _ _ _ _) x
  · exact fun x => RowsLib.piece_eq _ _ X P 128 _ _ _ (k0_off669_inb k) (k0_off669_inb k) (k0_off670_inb k) k.val (k.val + 128) 80 (k0_off669_eq k) (k0_off670_eq k) rfl _ (RowsLib.lane_sum _ _ _ _) x
  · exact fun x => RowsLib.piece_eq _ _ X P 128 _ _ _ (k0_off667_inb k) (k0_off667_inb k) (k0_off668_inb k) k.val (k.val + 128) 64 (k0_off667_eq k) (k0_off668_eq k) rfl _ (RowsLib.lane_sum _ _ _ _) x
  · exact fun x => RowsLib.piece_eq _ _ X P 128 _ _ _ (k0_off665_inb k) (k0_off665_inb k) (k0_off666_inb k) k.val (k.val + 128) 48 (k0_off665_eq k) (k0_off666_eq k) rfl _ (RowsLib.lane_sum _ _ _ _) x
  · exact fun x => RowsLib.piece_eq _ _ X P 128 _ _ _ (k0_off663_inb k) (k0_off663_inb k) (k0_off664_inb k) k.val (k.val + 128) 32 (k0_off663_eq k) (k0_off664_eq k) rfl _ (RowsLib.lane_sum _ _ _ _) x
  · exact fun x => RowsLib.piece_eq _ _ X P 128 _ _ _ (k0_off661_inb k) (k0_off661_inb k) (k0_off662_inb k) k.val (k.val + 128) 16 (k0_off661_eq k) (k0_off662_eq k) rfl _ (RowsLib.lane_sum _ _ _ _) x
  · exact fun x => RowsLib.piece_eq _ _ X P 128 _ _ _ (k0_off659_inb k) (k0_off659_inb k) (k0_off660_inb k) k.val (k.val + 128) 0 (k0_off659_eq k) (k0_off660_eq k) rfl _ (RowsLib.lane_sum _ _ _ _) x

set_option maxHeartbeats 2000000 in
/-- The eight pieces of trip k cover row k. -/
theorem trip_cover_t42 (d : Dev nD) (L : grid0.Coords) (v2 : BitVec 32) (X : BufTy.Contents (Elt F) (ibS1).view.ty) (P : BufTy.Contents (Elt F) (qV).view.ty)
    (k : Fin k0_t42_loop.trips) (r c : Fin 128) (hr : k.val = r.val) :
    ∃ p ∈ tripL_t42 (F := F) d L v2 X P k, (ValueIdx.ix2 r c : RowsLib.SS.Idx) ∈ p.1.set := by
  unfold tripL_t42 trip_t42
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off659_inb k) r c k.val 0 (k0_off659_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off661_inb k) r c k.val 16 (k0_off661_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off663_inb k) r c k.val 32 (k0_off663_eq k) hr h.1 h.2⟩
  · exact ⟨_, List.mem_cons_of_mem _ (List.mem_cons_of_mem _ (List.mem_cons_of_mem _ (List.mem_cons_of_mem _ (List.mem_cons_self)))), RowsLib.mem_unit _ (k0_off665_inb k) r c k.val 48 (k0_off665_eq k) hr h.1 h.2⟩
  · exact ⟨_, List.mem_cons_of_mem _ (List.mem_cons_of_mem _ (List.mem_cons_of_mem _ (List.mem_cons_self))), RowsLib.mem_unit _ (k0_off667_inb k) r c k.val 64 (k0_off667_eq k) hr h.1 h.2⟩
  · exact ⟨_, List.mem_cons_of_mem _ (List.mem_cons_of_mem _ (List.mem_cons_self)), RowsLib.mem_unit _ (k0_off669_inb k) r c k.val 80 (k0_off669_eq k) hr h.1 h.2⟩
  · exact ⟨_, List.mem_cons_of_mem _ (List.mem_cons_self), RowsLib.mem_unit _ (k0_off671_inb k) r c k.val 96 (k0_off671_eq k) hr h.1 h.2⟩
  · exact ⟨_, List.mem_cons_self, RowsLib.mem_unit _ (k0_off673_inb k) r c k.val 112 (k0_off673_eq k) hr h.1 h.2⟩

/-- The slot of sums after row loop 42, as the row-sum function: at (r, c) the gathered rows' entry plus the positional scratch's entry of row r + 128. -/
theorem rows_t42_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t42 (F := F) d L v2 X P 128)) (ValueIdx.ix2 r c)
      = RowsLib.rowG (ibS1).view (qV).view X P 128 (by omega) (ValueIdx.ix2 r c) :=
  RowsLib.read_writes_trips (n := k0_t42_loop.trips) (pb_t42 (F := F) d L v2 X P) (tripL_t42 (F := F) d L v2 X P) (obS1).view G _
    rfl (pb_t42_succ (F := F) d L v2 X P) (trip_pieces_t42 d L v2 X P) _ ⟨r.val, r.isLt⟩ (trip_cover_t42 d L v2 X P ⟨r.val, r.isLt⟩ r c rfl)

/-- THE SLOT OF SUMS AFTER ROW LOOP 42, whatever it held before: at (r, c) the gathered rows' entry (r, c) plus the positional
    scratch's entry (r + 128, c). -/
theorem rows_t42 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t42 (F := F) d L v2 X P (Scf.trips k0_t42_loop.lb k0_t42_loop.ub k0_t42_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t42_G d L v2 X P G r c

/-! ### the value of row loop 43 (slot 0, positional rows 0 … 127) -/

theorem trips_t43 : k0_t43_loop.trips = 128 := rfl

set_option maxHeartbeats 2000000 in
/-- Every piece of a trip of row loop 43 is the row sum on its rectangle. -/
theorem trip_pieces_t43 (d : Dev nD) (L : grid0.Coords) (v2 wa wb : BitVec 32) (X : BufTy.Contents (Elt F) (ibS0).view.ty) (P : BufTy.Contents (Elt F) (qV).view.ty) (k : Fin k0_t43_loop.trips) :
    ∀ p ∈ tripL_t43 (F := F) d L v2 wa wb X P k, ∀ x : p.1.shape.Idx, p.2 x = RowsLib.rowG (ibS0).view (qV).view X P 0 (by omega) (p.1.emb x) := by
  unfold tripL_t43 trip_t43
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off689_inb k) (k0_off689_inb k) (k0_off690_inb k) k.val (k.val + 0) 112 (k0_off689_eq k) (k0_off690_eq k) rfl _ (RowsLib.lane_sum _ _ _ _) x
  · exact fun x => RowsLib.piece_eq _ _ X P 0 _ _ _ (k0_off687_inb k) (k0_off687_inb k) (k0_off688_inb k) k.val (k.val + 0) 96 (k0_off687_eq k) (k0_off688_eq k) rfl _ (RowsLib.lane_sum _ _ _ _) x
  · exact fun x => RowsLib.piece_eq _ _ X P 0 _ _ _ (k0_off685_inb k) (k0_off685_inb k) (k0_off686_inb k) k.val (k.val + 0) 80 (k0_off685_eq k) (k0_off686_eq k) rfl _ (RowsLib.lane_sum _ _ _ _) x
  · exact fun x => RowsLib.piece_eq _ _ X P 0 _ _ _ (k0_off683_inb k) (k0_off683_inb k) (k0_off684_inb k) k.val (k.val + 0) 64 (k0_off683_eq k) (k0_off684_eq k) rfl _ (RowsLib.lane_sum _ _ _ _) x
  · exact fun x => RowsLib.piece_eq _ _ X P 0 _ _ _ (k0_off681_inb k) (k0_off681_inb k) (k0_off682_inb k) k.val (k.val + 0) 48 (k0_off681_eq k) (k0_off682_eq k) rfl _ (RowsLib.lane_sum _ _ _ _) x
  · exact fun x => RowsLib.piece_eq _ _ X P 0 _ _ _ (k0_off679_inb k) (k0_off679_inb k) (k0_off680_inb k) k.val (k.val + 0) 32 (k0_off679_eq k) (k0_off680_eq k) rfl _ (RowsLib.lane_sum _ _ _ _) x
  · exact fun x => RowsLib.piece_eq _ _ X P 0 _ _ _ (k0_off677_inb k) (k0_off677_inb k) (k0_off678_inb k) k.val (k.val + 0) 16 (k0_off677_eq k) (k0_off678_eq k) rfl _ (RowsLib.lane_sum _ _ _ _) x
  · exact fun x => RowsLib.piece_eq _ _ X P 0 _ _ _ (k0_off675_inb k) (k0_off675_inb k) (k0_off676_inb k) k.val (k.val + 0) 0 (k0_off675_eq k) (k0_off676_eq k) rfl _ (RowsLib.lane_sum _ _ _ _) x

set_option maxHeartbeats 2000000 in
/-- The eight pieces of trip k cover row k. -/
theorem trip_cover_t43 (d : Dev nD) (L : grid0.Coords) (v2 wa wb : BitVec 32) (X : BufTy.Contents (Elt F) (ibS0).view.ty) (P : BufTy.Contents (Elt F) (qV).view.ty)
    (k : Fin k0_t43_loop.trips) (r c : Fin 128) (hr : k.val = r.val) :
    ∃ p ∈ tripL_t43 (F := F) d L v2 wa wb X P k, (ValueIdx.ix2 r c : RowsLib.SS.Idx) ∈ p.1.set := by
  unfold tripL_t43 trip_t43
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off675_inb k) r c k.val 0 (k0_off675_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off677_inb k) r c k.val 16 (k0_off677_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off679_inb k) r c k.val 32 (k0_off679_eq k) hr h.1 h.2⟩
  · exact ⟨_, List.mem_cons_of_mem _ (List.mem_cons_of_mem _ (List.mem_cons_of_mem _ (List.mem_cons_of_mem _ (List.mem_cons_self)))), RowsLib.mem_unit _ (k0_off681_inb k) r c k.val 48 (k0_off681_eq k) hr h.1 h.2⟩
  · exact ⟨_, List.mem_cons_of_mem _ (List.mem_cons_of_mem _ (List.mem_cons_of_mem _ (List.mem_cons_self))), RowsLib.mem_unit _ (k0_off683_inb k) r c k.val 64 (k0_off683_eq k) hr h.1 h.2⟩
  · exact ⟨_, List.mem_cons_of_mem _ (List.mem_cons_of_mem _ (List.mem_cons_self)), RowsLib.mem_unit _ (k0_off685_inb k) r c k.val 80 (k0_off685_eq k) hr h.1 h.2⟩
  · exact ⟨_, List.mem_cons_of_mem _ (List.mem_cons_self), RowsLib.mem_unit _ (k0_off687_inb k) r c k.val 96 (k0_off687_eq k) hr h.1 h.2⟩
  · exact ⟨_, List.mem_cons_self, RowsLib.mem_unit _ (k0_off689_inb k) r c k.val 112 (k0_off689_eq k) hr h.1 h.2⟩

/-- The slot of sums after row loop 43, as the row-sum function: at (r, c) the gathered rows' entry plus the positional scratch's entry of row r + 0. -/
theorem rows_t43_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t43 (F := F) d L v2 wa wb X P 128)) (ValueIdx.ix2 r c)
      = RowsLib.rowG (ibS0).view (qV).view X P 0 (by omega) (ValueIdx.ix2 r c) :=
  RowsLib.read_writes_trips (n := k0_t43_loop.trips) (pb_t43 (F := F) d L v2 wa wb X P) (tripL_t43 (F := F) d L v2 wa wb X P) (obS0).view G _
    rfl (pb_t43_succ (F := F) d L v2 wa wb X P) (trip_pieces_t43 d L v2 wa wb X P) _ ⟨r.val, r.isLt⟩ (trip_cover_t43 d L v2 wa wb X P ⟨r.val, r.isLt⟩ r c rfl)

/-- THE SLOT OF SUMS AFTER ROW LOOP 43, whatever it held before: at (r, c) the gathered rows' entry (r, c) plus the positional
    scratch's entry (r + 0, c). -/
theorem rows_t43 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t43 (F := F) d L v2 wa wb X P (Scf.trips k0_t43_loop.lb k0_t43_loop.ub k0_t43_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t43_G d L v2 wa wb X P G r c

/-! ### the value of row loop 44 (slot 1, positional rows 128 … 255) -/

theorem trips_t44 : k0_t44_loop.trips = 128 := rfl

set_option maxHeartbeats 2000000 in
/-- Every piece of a trip of row loop 44 is the row sum on its rectangle. -/
theorem trip_pieces_t44 (d : Dev nD) (L : grid0.Coords) (v2 : BitVec 32) (X : BufTy.Contents (Elt F) (ibS1).view.ty) (P : BufTy.Contents (Elt F) (qV).view.ty) (k : Fin k0_t44_loop.trips) :
    ∀ p ∈ tripL_t44 (F := F) d L v2 X P k, ∀ x : p.1.shape.Idx, p.2 x = RowsLib.rowG (ibS1).view (qV).view X P 128 (by omega) (p.1.emb x) := by
  unfold tripL_t44 trip_t44
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off705_inb k) (k0_off705_inb k) (k0_off706_inb k) k.val (k.val + 128) 112 (k0_off705_eq k) (k0_off706_eq k) rfl _ (RowsLib.lane_sum _ _ _ _) x
  · exact fun x => RowsLib.piece_eq _ _ X P 128 _ _ _ (k0_off703_inb k) (k0_off703_inb k) (k0_off704_inb k) k.val (k.val + 128) 96 (k0_off703_eq k) (k0_off704_eq k) rfl _ (RowsLib.lane_sum _ _ _ _) x
  · exact fun x => RowsLib.piece_eq _ _ X P 128 _ _ _ (k0_off701_inb k) (k0_off701_inb k) (k0_off702_inb k) k.val (k.val + 128) 80 (k0_off701_eq k) (k0_off702_eq k) rfl _ (RowsLib.lane_sum _ _ _ _) x
  · exact fun x => RowsLib.piece_eq _ _ X P 128 _ _ _ (k0_off699_inb k) (k0_off699_inb k) (k0_off700_inb k) k.val (k.val + 128) 64 (k0_off699_eq k) (k0_off700_eq k) rfl _ (RowsLib.lane_sum _ _ _ _) x
  · exact fun x => RowsLib.piece_eq _ _ X P 128 _ _ _ (k0_off697_inb k) (k0_off697_inb k) (k0_off698_inb k) k.val (k.val + 128) 48 (k0_off697_eq k) (k0_off698_eq k) rfl _ (RowsLib.lane_sum _ _ _ _) x
  · exact fun x => RowsLib.piece_eq _ _ X P 128 _ _ _ (k0_off695_inb k) (k0_off695_inb k) (k0_off696_inb k) k.val (k.val + 128) 32 (k0_off695_eq k) (k0_off696_eq k) rfl _ (RowsLib.lane_sum _ _ _ _) x
  · exact fun x => RowsLib.piece_eq _ _ X P 128 _ _ _ (k0_off693_inb k) (k0_off693_inb k) (k0_off694_inb k) k.val (k.val + 128) 16 (k0_off693_eq k) (k0_off694_eq k) rfl _ (RowsLib.lane_sum _ _ _ _) x
  · exact fun x => RowsLib.piece_eq _ _ X P 128 _ _ _ (k0_off691_inb k) (k0_off691_inb k) (k0_off692_inb k) k.val (k.val + 128) 0 (k0_off691_eq k) (k0_off692_eq k) rfl _ (RowsLib.lane_sum _ _ _ _) x

set_option maxHeartbeats 2000000 in
/-- The eight pieces of trip k cover row k. -/
theorem trip_cover_t44 (d : Dev nD) (L : grid0.Coords) (v2 : BitVec 32) (X : BufTy.Contents (Elt F) (ibS1).view.ty) (P : BufTy.Contents (Elt F) (qV).view.ty)
    (k : Fin k0_t44_loop.trips) (r c : Fin 128) (hr : k.val = r.val) :
    ∃ p ∈ tripL_t44 (F := F) d L v2 X P k, (ValueIdx.ix2 r c : RowsLib.SS.Idx) ∈ p.1.set := by
  unfold tripL_t44 trip_t44
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off691_inb k) r c k.val 0 (k0_off691_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off693_inb k) r c k.val 16 (k0_off693_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off695_inb k) r c k.val 32 (k0_off695_eq k) hr h.1 h.2⟩
  · exact ⟨_, List.mem_cons_of_mem _ (List.mem_cons_of_mem _ (List.mem_cons_of_mem _ (List.mem_cons_of_mem _ (List.mem_cons_self)))), RowsLib.mem_unit _ (k0_off697_inb k) r c k.val 48 (k0_off697_eq k) hr h.1 h.2⟩
  · exact ⟨_, List.mem_cons_of_mem _ (List.mem_cons_of_mem _ (List.mem_cons_of_mem _ (List.mem_cons_self))), RowsLib.mem_unit _ (k0_off699_inb k) r c k.val 64 (k0_off699_eq k) hr h.1 h.2⟩
  · exact ⟨_, List.mem_cons_of_mem _ (List.mem_cons_of_mem _ (List.mem_cons_self)), RowsLib.mem_unit _ (k0_off701_inb k) r c k.val 80 (k0_off701_eq k) hr h.1 h.2⟩
  · exact ⟨_, List.mem_cons_of_mem _ (List.mem_cons_self), RowsLib.mem_unit _ (k0_off703_inb k) r c k.val 96 (k0_off703_eq k) hr h.1 h.2⟩
  · exact ⟨_, List.mem_cons_self, RowsLib.mem_unit _ (k0_off705_inb k) r c k.val 112 (k0_off705_eq k) hr h.1 h.2⟩

/-- The slot of sums after row loop 44, as the row-sum function: at (r, c) the gathered rows' entry plus the positional scratch's entry of row r + 128. -/
theorem rows_t44_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t44 (F := F) d L v2 X P 128)) (ValueIdx.ix2 r c)
      = RowsLib.rowG (ibS1).view (qV).view X P 128 (by omega) (ValueIdx.ix2 r c) :=
  RowsLib.read_writes_trips (n := k0_t44_loop.trips) (pb_t44 (F := F) d L v2 X P) (tripL_t44 (F := F) d L v2 X P) (obS1).view G _
    rfl (pb_t44_succ (F := F) d L v2 X P) (trip_pieces_t44 d L v2 X P) _ ⟨r.val, r.isLt⟩ (trip_cover_t44 d L v2 X P ⟨r.val, r.isLt⟩ r c rfl)

/-- THE SLOT OF SUMS AFTER ROW LOOP 44, whatever it held before: at (r, c) the gathered rows' entry (r, c) plus the positional
    scratch's entry (r + 128, c). -/
theorem rows_t44 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t44 (F := F) d L v2 X P (Scf.trips k0_t44_loop.lb k0_t44_loop.ub k0_t44_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t44_G d L v2 X P G r c

/-! ### the value of row loop 45 (slot 0, positional rows 0 … 127) -/

theorem trips_t45 : k0_t45_loop.trips = 128 := rfl

set_option maxHeartbeats 2000000 in
/-- Every piece of a trip of row loop 45 is the row sum on its rectangle. -/
theorem trip_pieces_t45 (d : Dev nD) (L : grid0.Coords) (v2 : BitVec 32) (X : BufTy.Contents (Elt F) (ibS0).view.ty) (P : BufTy.Contents (Elt F) (qV).view.ty) (k : Fin k0_t45_loop.trips) :
    ∀ p ∈ tripL_t45 (F := F) d L v2 X P k, ∀ x : p.1.shape.Idx, p.2 x = RowsLib.rowG (ibS0).view (qV).view X P 0 (by omega) (p.1.emb x) := by
  unfold tripL_t45 trip_t45
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off721_inb k) (k0_off721_inb k) (k0_off722_inb k) k.val (k.val + 0) 112 (k0_off721_eq k) (k0_off722_eq k) rfl _ (RowsLib.lane_sum _ _ _ _) x
  · exact fun x => RowsLib.piece_eq _ _ X P 0 _ _ _ (k0_off719_inb k) (k0_off719_inb k) (k0_off720_inb k) k.val (k.val + 0) 96 (k0_off719_eq k) (k0_off720_eq k) rfl _ (RowsLib.lane_sum _ _ _ _) x
  · exact fun x => RowsLib.piece_eq _ _ X P 0 _ _ _ (k0_off717_inb k) (k0_off717_inb k) (k0_off718_inb k) k.val (k.val + 0) 80 (k0_off717_eq k) (k0_off718_eq k) rfl _ (RowsLib.lane_sum _ _ _ _) x
  · exact fun x => RowsLib.piece_eq _ _ X P 0 _ _ _ (k0_off715_inb k) (k0_off715_inb k) (k0_off716_inb k) k.val (k.val + 0) 64 (k0_off715_eq k) (k0_off716_eq k) rfl _ (RowsLib.lane_sum _ _ _ _) x
  · exact fun x => RowsLib.piece_eq _ _ X P 0 _ _ _ (k0_off713_inb k) (k0_off713_inb k) (k0_off714_inb k) k.val (k.val + 0) 48 (k0_off713_eq k) (k0_off714_eq k) rfl _ (RowsLib.lane_sum _ _ _ _) x
  · exact fun x => RowsLib.piece_eq _ _ X P 0 _ _ _ (k0_off711_inb k) (k0_off711_inb k) (k0_off712_inb k) k.val (k.val + 0) 32 (k0_off711_eq k) (k0_off712_eq k) rfl _ (RowsLib.lane_sum _ _ _ _) x
  · exact fun x => RowsLib.piece_eq _ _ X P 0 _ _ _ (k0_off709_inb k) (k0_off709_inb k) (k0_off710_inb k) k.val (k.val + 0) 16 (k0_off709_eq k) (k0_off710_eq k) rfl _ (RowsLib.lane_sum _ _ _ _) x
  · exact fun x => RowsLib.piece_eq _ _ X P 0 _ _ _ (k0_off707_inb k) (k0_off707_inb k) (k0_off708_inb k) k.val (k.val + 0) 0 (k0_off707_eq k) (k0_off708_eq k) rfl _ (RowsLib.lane_sum _ _ _ _) x

set_option maxHeartbeats 2000000 in
/-- The eight pieces of trip k cover row k. -/
theorem trip_cover_t45 (d : Dev nD) (L : grid0.Coords) (v2 : BitVec 32) (X : BufTy.Contents (Elt F) (ibS0).view.ty) (P : BufTy.Contents (Elt F) (qV).view.ty)
    (k : Fin k0_t45_loop.trips) (r c : Fin 128) (hr : k.val = r.val) :
    ∃ p ∈ tripL_t45 (F := F) d L v2 X P k, (ValueIdx.ix2 r c : RowsLib.SS.Idx) ∈ p.1.set := by
  unfold tripL_t45 trip_t45
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off707_inb k) r c k.val 0 (k0_off707_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off709_inb k) r c k.val 16 (k0_off709_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off711_inb k) r c k.val 32 (k0_off711_eq k) hr h.1 h.2⟩
  · exact ⟨_, List.mem_cons_of_mem _ (List.mem_cons_of_mem _ (List.mem_cons_of_mem _ (List.mem_cons_of_mem _ (List.mem_cons_self)))), RowsLib.mem_unit _ (k0_off713_inb k) r c k.val 48 (k0_off713_eq k) hr h.1 h.2⟩
  · exact ⟨_, List.mem_cons_of_mem _ (List.mem_cons_of_mem _ (List.mem_cons_of_mem _ (List.mem_cons_self))), RowsLib.mem_unit _ (k0_off715_inb k) r c k.val 64 (k0_off715_eq k) hr h.1 h.2⟩
  · exact ⟨_, List.mem_cons_of_mem _ (List.mem_cons_of_mem _ (List.mem_cons_self)), RowsLib.mem_unit _ (k0_off717_inb k) r c k.val 80 (k0_off717_eq k) hr h.1 h.2⟩
  · exact ⟨_, List.mem_cons_of_mem _ (List.mem_cons_self), RowsLib.mem_unit _ (k0_off719_inb k) r c k.val 96 (k0_off719_eq k) hr h.1 h.2⟩
  · exact ⟨_, List.mem_cons_self, RowsLib.mem_unit _ (k0_off721_inb k) r c k.val 112 (k0_off721_eq k) hr h.1 h.2⟩

/-- The slot of sums after row loop 45, as the row-sum function: at (r, c) the gathered rows' entry plus the positional scratch's entry of row r + 0. -/
theorem rows_t45_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t45 (F := F) d L v2 X P 128)) (ValueIdx.ix2 r c)
      = RowsLib.rowG (ibS0).view (qV).view X P 0 (by omega) (ValueIdx.ix2 r c) :=
  RowsLib.read_writes_trips (n := k0_t45_loop.trips) (pb_t45 (F := F) d L v2 X P) (tripL_t45 (F := F) d L v2 X P) (obS0).view G _
    rfl (pb_t45_succ (F := F) d L v2 X P) (trip_pieces_t45 d L v2 X P) _ ⟨r.val, r.isLt⟩ (trip_cover_t45 d L v2 X P ⟨r.val, r.isLt⟩ r c rfl)

/-- THE SLOT OF SUMS AFTER ROW LOOP 45, whatever it held before: at (r, c) the gathered rows' entry (r, c) plus the positional
    scratch's entry (r + 0, c). -/
theorem rows_t45 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t45 (F := F) d L v2 X P (Scf.trips k0_t45_loop.lb k0_t45_loop.ub k0_t45_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t45_G d L v2 X P G r c

/-! ### the value of row loop 46 (slot 1, positional rows 128 … 255) -/

theorem trips_t46 : k0_t46_loop.trips = 128 := rfl

set_option maxHeartbeats 2000000 in
/-- Every piece of a trip of row loop 46 is the row sum on its rectangle. -/
theorem trip_pieces_t46 (d : Dev nD) (L : grid0.Coords) (v2 : BitVec 32) (X : BufTy.Contents (Elt F) (ibS1).view.ty) (P : BufTy.Contents (Elt F) (qV).view.ty) (k : Fin k0_t46_loop.trips) :
    ∀ p ∈ tripL_t46 (F := F) d L v2 X P k, ∀ x : p.1.shape.Idx, p.2 x = RowsLib.rowG (ibS1).view (qV).view X P 128 (by omega) (p.1.emb x) := by
  unfold tripL_t46 trip_t46
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off737_inb k) (k0_off737_inb k) (k0_off738_inb k) k.val (k.val + 128) 112 (k0_off737_eq k) (k0_off738_eq k) rfl _ (RowsLib.lane_sum _ _ _ _) x
  · exact fun x => RowsLib.piece_eq _ _ X P 128 _ _ _ (k0_off735_inb k) (k0_off735_inb k) (k0_off736_inb k) k.val (k.val + 128) 96 (k0_off735_eq k) (k0_off736_eq k) rfl _ (RowsLib.lane_sum _ _ _ _) x
  · exact fun x => RowsLib.piece_eq _ _ X P 128 _ _ _ (k0_off733_inb k) (k0_off733_inb k) (k0_off734_inb k) k.val (k.val + 128) 80 (k0_off733_eq k) (k0_off734_eq k) rfl _ (RowsLib.lane_sum _ _ _ _) x
  · exact fun x => RowsLib.piece_eq _ _ X P 128 _ _ _ (k0_off731_inb k) (k0_off731_inb k) (k0_off732_inb k) k.val (k.val + 128) 64 (k0_off731_eq k) (k0_off732_eq k) rfl _ (RowsLib.lane_sum _ _ _ _) x
  · exact fun x => RowsLib.piece_eq _ _ X P 128 _ _ _ (k0_off729_inb k) (k0_off729_inb k) (k0_off730_inb k) k.val (k.val + 128) 48 (k0_off729_eq k) (k0_off730_eq k) rfl _ (RowsLib.lane_sum _ _ _ _) x
  · exact fun x => RowsLib.piece_eq _ _ X P 128 _ _ _ (k0_off727_inb k) (k0_off727_inb k) (k0_off728_inb k) k.val (k.val + 128) 32 (k0_off727_eq k) (k0_off728_eq k) rfl _ (RowsLib.lane_sum _ _ _ _) x
  · exact fun x => RowsLib.piece_eq _ _ X P 128 _ _ _ (k0_off725_inb k) (k0_off725_inb k) (k0_off726_inb k) k.val (k.val + 128) 16 (k0_off725_eq k) (k0_off726_eq k) rfl _ (RowsLib.lane_sum _ _ _ _) x
  · exact fun x => RowsLib.piece_eq _ _ X P 128 _ _ _ (k0_off723_inb k) (k0_off723_inb k) (k0_off724_inb k) k.val (k.val + 128) 0 (k0_off723_eq k) (k0_off724_eq k) rfl _ (RowsLib.lane_sum _ _ _ _) x

set_option maxHeartbeats 2000000 in
/-- The eight pieces of trip k cover row k. -/
theorem trip_cover_t46 (d : Dev nD) (L : grid0.Coords) (v2 : BitVec 32) (X : BufTy.Contents (Elt F) (ibS1).view.ty) (P : BufTy.Contents (Elt F) (qV).view.ty)
    (k : Fin k0_t46_loop.trips) (r c : Fin 128) (hr : k.val = r.val) :
    ∃ p ∈ tripL_t46 (F := F) d L v2 X P k, (ValueIdx.ix2 r c : RowsLib.SS.Idx) ∈ p.1.set := by
  unfold tripL_t46 trip_t46
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off723_inb k) r c k.val 0 (k0_off723_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off725_inb k) r c k.val 16 (k0_off725_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off727_inb k) r c k.val 32 (k0_off727_eq k) hr h.1 h.2⟩
  · exact ⟨_, List.mem_cons_of_mem _ (List.mem_cons_of_mem _ (List.mem_cons_of_mem _ (List.mem_cons_of_mem _ (List.mem_cons_self)))), RowsLib.mem_unit _ (k0_off729_inb k) r c k.val 48 (k0_off729_eq k) hr h.1 h.2⟩
  · exact ⟨_, List.mem_cons_of_mem _ (List.mem_cons_of_mem _ (List.mem_cons_of_mem _ (List.mem_cons_self))), RowsLib.mem_unit _ (k0_off731_inb k) r c k.val 64 (k0_off731_eq k) hr h.1 h.2⟩
  · exact ⟨_, List.mem_cons_of_mem _ (List.mem_cons_of_mem _ (List.mem_cons_self)), RowsLib.mem_unit _ (k0_off733_inb k) r c k.val 80 (k0_off733_eq k) hr h.1 h.2⟩
  · exact ⟨_, List.mem_cons_of_mem _ (List.mem_cons_self), RowsLib.mem_unit _ (k0_off735_inb k) r c k.val 96 (k0_off735_eq k) hr h.1 h.2⟩
  · exact ⟨_, List.mem_cons_self, RowsLib.mem_unit _ (k0_off737_inb k) r c k.val 112 (k0_off737_eq k) hr h.1 h.2⟩

/-- The slot of sums after row loop 46, as the row-sum function: at (r, c) the gathered rows' entry plus the positional scratch's entry of row r + 128. -/
theorem rows_t46_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t46 (F := F) d L v2 X P 128)) (ValueIdx.ix2 r c)
      = RowsLib.rowG (ibS1).view (qV).view X P 128 (by omega) (ValueIdx.ix2 r c) :=
  RowsLib.read_writes_trips (n := k0_t46_loop.trips) (pb_t46 (F := F) d L v2 X P) (tripL_t46 (F := F) d L v2 X P) (obS1).view G _
    rfl (pb_t46_succ (F := F) d L v2 X P) (trip_pieces_t46 d L v2 X P) _ ⟨r.val, r.isLt⟩ (trip_cover_t46 d L v2 X P ⟨r.val, r.isLt⟩ r c rfl)

/-- THE SLOT OF SUMS AFTER ROW LOOP 46, whatever it held before: at (r, c) the gathered rows' entry (r, c) plus the positional
    scratch's entry (r + 128, c). -/
theorem rows_t46 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t46 (F := F) d L v2 X P (Scf.trips k0_t46_loop.lb k0_t46_loop.ub k0_t46_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t46_G d L v2 X P G r c

/-! ### the value of row loop 47 (slot 0, positional rows 0 … 127) -/

theorem trips_t47 : k0_t47_loop.trips = 128 := rfl

set_option maxHeartbeats 2000000 in
/-- Every piece of a trip of row loop 47 is the row sum on its rectangle. -/
theorem trip_pieces_t47 (d : Dev nD) (L : grid0.Coords) (v2 : BitVec 32) (X : BufTy.Contents (Elt F) (ibS0).view.ty) (P : BufTy.Contents (Elt F) (qV).view.ty) (k : Fin k0_t47_loop.trips) :
    ∀ p ∈ tripL_t47 (F := F) d L v2 X P k, ∀ x : p.1.shape.Idx, p.2 x = RowsLib.rowG (ibS0).view (qV).view X P 0 (by omega) (p.1.emb x) := by
  unfold tripL_t47 trip_t47
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off753_inb k) (k0_off753_inb k) (k0_off754_inb k) k.val (k.val + 0) 112 (k0_off753_eq k) (k0_off754_eq k) rfl _ (RowsLib.lane_sum _ _ _ _) x
  · exact fun x => RowsLib.piece_eq _ _ X P 0 _ _ _ (k0_off751_inb k) (k0_off751_inb k) (k0_off752_inb k) k.val (k.val + 0) 96 (k0_off751_eq k) (k0_off752_eq k) rfl _ (RowsLib.lane_sum _ _ _ _) x
  · exact fun x => RowsLib.piece_eq _ _ X P 0 _ _ _ (k0_off749_inb k) (k0_off749_inb k) (k0_off750_inb k) k.val (k.val + 0) 80 (k0_off749_eq k) (k0_off750_eq k) rfl _ (RowsLib.lane_sum _ _ _ _) x
  · exact fun x => RowsLib.piece_eq _ _ X P 0 _ _ _ (k0_off747_inb k) (k0_off747_inb k) (k0_off748_inb k) k.val (k.val + 0) 64 (k0_off747_eq k) (k0_off748_eq k) rfl _ (RowsLib.lane_sum _ _ _ _) x
  · exact fun x => RowsLib.piece_eq _ _ X P 0 _ _ _ (k0_off745_inb k) (k0_off745_inb k) (k0_off746_inb k) k.val (k.val + 0) 48 (k0_off745_eq k) (k0_off746_eq k) rfl _ (RowsLib.lane_sum _ _ _ _) x
  · exact fun x => RowsLib.piece_eq _ _ X P 0 _ _ _ (k0_off743_inb k) (k0_off743_inb k) (k0_off744_inb k) k.val (k.val + 0) 32 (k0_off743_eq k) (k0_off744_eq k) rfl _ (RowsLib.lane_sum _ _ _ _) x
  · exact fun x => RowsLib.piece_eq _ _ X P 0 _ _ _ (k0_off741_inb k) (k0_off741_inb k) (k0_off742_inb k) k.val (k.val + 0) 16 (k0_off741_eq k) (k0_off742_eq k) rfl _ (RowsLib.lane_sum _ _ _ _) x
  · exact fun x => RowsLib.piece_eq _ _ X P 0 _ _ _ (k0_off739_inb k) (k0_off739_inb k) (k0_off740_inb k) k.val (k.val + 0) 0 (k0_off739_eq k) (k0_off740_eq k) rfl _ (RowsLib.lane_sum _ _ _ _) x

set_option maxHeartbeats 2000000 in
/-- The eight pieces of trip k cover row k. -/
theorem trip_cover_t47 (d : Dev nD) (L : grid0.Coords) (v2 : BitVec 32) (X : BufTy.Contents (Elt F) (ibS0).view.ty) (P : BufTy.Contents (Elt F) (qV).view.ty)
    (k : Fin k0_t47_loop.trips) (r c : Fin 128) (hr : k.val = r.val) :
    ∃ p ∈ tripL_t47 (F := F) d L v2 X P k, (ValueIdx.ix2 r c : RowsLib.SS.Idx) ∈ p.1.set := by
  unfold tripL_t47 trip_t47
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off739_inb k) r c k.val 0 (k0_off739_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off741_inb k) r c k.val 16 (k0_off741_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off743_inb k) r c k.val 32 (k0_off743_eq k) hr h.1 h.2⟩
  · exact ⟨_, List.mem_cons_of_mem _ (List.mem_cons_of_mem _ (List.mem_cons_of_mem _ (List.mem_cons_of_mem _ (List.mem_cons_self)))), RowsLib.mem_unit _ (k0_off745_inb k) r c k.val 48 (k0_off745_eq k) hr h.1 h.2⟩
  · exact ⟨_, List.mem_cons_of_mem _ (List.mem_cons_of_mem _ (List.mem_cons_of_mem _ (List.mem_cons_self))), RowsLib.mem_unit _ (k0_off747_inb k) r c k.val 64 (k0_off747_eq k) hr h.1 h.2⟩
  · exact ⟨_, List.mem_cons_of_mem _ (List.mem_cons_of_mem _ (List.mem_cons_self)), RowsLib.mem_unit _ (k0_off749_inb k) r c k.val 80 (k0_off749_eq k) hr h.1 h.2⟩
  · exact ⟨_, List.mem_cons_of_mem _ (List.mem_cons_self), RowsLib.mem_unit _ (k0_off751_inb k) r c k.val 96 (k0_off751_eq k) hr h.1 h.2⟩
  · exact ⟨_, List.mem_cons_self, RowsLib.mem_unit _ (k0_off753_inb k) r c k.val 112 (k0_off753_eq k) hr h.1 h.2⟩

/-- The slot of sums after row loop 47, as the row-sum function: at (r, c) the gathered rows' entry plus the positional scratch's entry of row r + 0. -/
theorem rows_t47_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t47 (F := F) d L v2 X P 128)) (ValueIdx.ix2 r c)
      = RowsLib.rowG (ibS0).view (qV).view X P 0 (by omega) (ValueIdx.ix2 r c) :=
  RowsLib.read_writes_trips (n := k0_t47_loop.trips) (pb_t47 (F := F) d L v2 X P) (tripL_t47 (F := F) d L v2 X P) (obS0).view G _
    rfl (pb_t47_succ (F := F) d L v2 X P) (trip_pieces_t47 d L v2 X P) _ ⟨r.val, r.isLt⟩ (trip_cover_t47 d L v2 X P ⟨r.val, r.isLt⟩ r c rfl)

/-- THE SLOT OF SUMS AFTER ROW LOOP 47, whatever it held before: at (r, c) the gathered rows' entry (r, c) plus the positional
    scratch's entry (r + 0, c). -/
theorem rows_t47 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t47 (F := F) d L v2 X P (Scf.trips k0_t47_loop.lb k0_t47_loop.ub k0_t47_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t47_G d L v2 X P G r c

/-! ### the value of row loop 48 (slot 1, positional rows 128 … 255) -/

theorem trips_t48 : k0_t48_loop.trips = 128 := rfl

set_option maxHeartbeats 2000000 in
/-- Every piece of a trip of row loop 48 is the row sum on its rectangle. -/
theorem trip_pieces_t48 (d : Dev nD) (L : grid0.Coords) (v2 : BitVec 32) (X : BufTy.Contents (Elt F) (ibS1).view.ty) (P : BufTy.Contents (Elt F) (qV).view.ty) (k : Fin k0_t48_loop.trips) :
    ∀ p ∈ tripL_t48 (F := F) d L v2 X P k, ∀ x : p.1.shape.Idx, p.2 x = RowsLib.rowG (ibS1).view (qV).view X P 128 (by omega) (p.1.emb x) := by
  unfold tripL_t48 trip_t48
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off769_inb k) (k0_off769_inb k) (k0_off770_inb k) k.val (k.val + 128) 112 (k0_off769_eq k) (k0_off770_eq k) rfl _ (RowsLib.lane_sum _ _ _ _) x
  · exact fun x => RowsLib.piece_eq _ _ X P 128 _ _ _ (k0_off767_inb k) (k0_off767_inb k) (k0_off768_inb k) k.val (k.val + 128) 96 (k0_off767_eq k) (k0_off768_eq k) rfl _ (RowsLib.lane_sum _ _ _ _) x
  · exact fun x => RowsLib.piece_eq _ _ X P 128 _ _ _ (k0_off765_inb k) (k0_off765_inb k) (k0_off766_inb k) k.val (k.val + 128) 80 (k0_off765_eq k) (k0_off766_eq k) rfl _ (RowsLib.lane_sum _ _ _ _) x
  · exact fun x => RowsLib.piece_eq _ _ X P 128 _ _ _ (k0_off763_inb k) (k0_off763_inb k) (k0_off764_inb k) k.val (k.val + 128) 64 (k0_off763_eq k) (k0_off764_eq k) rfl _ (RowsLib.lane_sum _ _ _ _) x
  · exact fun x => RowsLib.piece_eq _ _ X P 128 _ _ _ (k0_off761_inb k) (k0_off761_inb k) (k0_off762_inb k) k.val (k.val + 128) 48 (k0_off761_eq k) (k0_off762_eq k) rfl _ (RowsLib.lane_sum _ _ _ _) x
  · exact fun x => RowsLib.piece_eq _ _ X P 128 _ _ _ (k0_off759_inb k) (k0_off759_inb k) (k0_off760_inb k) k.val (k.val + 128) 32 (k0_off759_eq k) (k0_off760_eq k) rfl _ (RowsLib.lane_sum _ _ _ _) x
  · exact fun x => RowsLib.piece_eq _ _ X P 128 _ _ _ (k0_off757_inb k) (k0_off757_inb k) (k0_off758_inb k) k.val (k.val + 128) 16 (k0_off757_eq k) (k0_off758_eq k) rfl _ (RowsLib.lane_sum _ _ _ _) x
  · exact fun x => RowsLib.piece_eq _ _ X P 128 _ _ _ (k0_off755_inb k) (k0_off755_inb k) (k0_off756_inb k) k.val (k.val + 128) 0 (k0_off755_eq k) (k0_off756_eq k) rfl _ (RowsLib.lane_sum _ _ _ _) x

set_option maxHeartbeats 2000000 in
/-- The eight pieces of trip k cover row k. -/
theorem trip_cover_t48 (d : Dev nD) (L : grid0.Coords) (v2 : BitVec 32) (X : BufTy.Contents (Elt F) (ibS1).view.ty) (P : BufTy.Contents (Elt F) (qV).view.ty)
    (k : Fin k0_t48_loop.trips) (r c : Fin 128) (hr : k.val = r.val) :
    ∃ p ∈ tripL_t48 (F := F) d L v2 X P k, (ValueIdx.ix2 r c : RowsLib.SS.Idx) ∈ p.1.set := by
  unfold tripL_t48 trip_t48
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off755_inb k) r c k.val 0 (k0_off755_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off757_inb k) r c k.val 16 (k0_off757_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off759_inb k) r c k.val 32 (k0_off759_eq k) hr h.1 h.2⟩
  · exact ⟨_, List.mem_cons_of_mem _ (List.mem_cons_of_mem _ (List.mem_cons_of_mem _ (List.mem_cons_of_mem _ (List.mem_cons_self)))), RowsLib.mem_unit _ (k0_off761_inb k) r c k.val 48 (k0_off761_eq k) hr h.1 h.2⟩
  · exact ⟨_, List.mem_cons_of_mem _ (List.mem_cons_of_mem _ (List.mem_cons_of_mem _ (List.mem_cons_self))), RowsLib.mem_unit _ (k0_off763_inb k) r c k.val 64 (k0_off763_eq k) hr h.1 h.2⟩
  · exact ⟨_, List.mem_cons_of_mem _ (List.mem_cons_of_mem _ (List.mem_cons_self)), RowsLib.mem_unit _ (k0_off765_inb k) r c k.val 80 (k0_off765_eq k) hr h.1 h.2⟩
  · exact ⟨_, List.mem_cons_of_mem _ (List.mem_cons_self), RowsLib.mem_unit _ (k0_off767_inb k) r c k.val 96 (k0_off767_eq k) hr h.1 h.2⟩
  · exact ⟨_, List.mem_cons_self, RowsLib.mem_unit _ (k0_off769_inb k) r c k.val 112 (k0_off769_eq k) hr h.1 h.2⟩

/-- The slot of sums after row loop 48, as the row-sum function: at (r, c) the gathered rows' entry plus the positional scratch's entry of row r + 128. -/
theorem rows_t48_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t48 (F := F) d L v2 X P 128)) (ValueIdx.ix2 r c)
      = RowsLib.rowG (ibS1).view (qV).view X P 128 (by omega) (ValueIdx.ix2 r c) :=
  RowsLib.read_writes_trips (n := k0_t48_loop.trips) (pb_t48 (F := F) d L v2 X P) (tripL_t48 (F := F) d L v2 X P) (obS1).view G _
    rfl (pb_t48_succ (F := F) d L v2 X P) (trip_pieces_t48 d L v2 X P) _ ⟨r.val, r.isLt⟩ (trip_cover_t48 d L v2 X P ⟨r.val, r.isLt⟩ r c rfl)

/-- THE SLOT OF SUMS AFTER ROW LOOP 48, whatever it held before: at (r, c) the gathered rows' entry (r, c) plus the positional
    scratch's entry (r + 128, c). -/
theorem rows_t48 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t48 (F := F) d L v2 X P (Scf.trips k0_t48_loop.lb k0_t48_loop.ub k0_t48_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t48_G d L v2 X P G r c

end Tile

end Cert.Proof.KI

end
-- ==== Proof.LoopsD.lean ====
/- Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.Common
import proofs.«208673_g37134287241914_cont_8to1_b_302_3_alg».proof.Proof.Gen.KernelIdeal.Skeleton
import proofs.«208673_g37134287241914_cont_8to1_b_302_3_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### loop 49 (slot 0) -/

set_option maxHeartbeats 4000000 in
/-- One trip of row loop 49 at a symbolic row: the pieces it writes into the sum slot are the run's own finds. -/
@[irreducible] def trip_t49 (d : Dev nD) (L : grid0.Coords) (v2 : BitVec 32)
    (X : BufTy.Contents (Elt F) (ibS0).view.ty) (P : BufTy.Contents (Elt F) (qV).view.ty) (k : Fin k0_t49_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t49_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t49_body TripRes0
    iintro ⟨HX, HP, HW⟩
    sl_exec
    sl_step
    sl_close

abbrev tripL_t49 (d : Dev nD) (L : grid0.Coords) (v2 : BitVec 32) (X : BufTy.Contents (Elt F) (ibS0).view.ty) (P : BufTy.Contents (Elt F) (qV).view.ty) (k : Fin k0_t49_loop.trips) : List (View.Piece (Elt F) S128x128 .f32) :=
  (trip_t49 (F := F) d L v2 X P k).1

@[irreducible] def pb_t49Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t49_loop.trips then (tripL_t49 (F := F) d L v2 X P ⟨k, h⟩) ++ prev else prev

/-- The pieces of the rows before k (last first). -/
def pb_t49 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t49Step d L v2 X P k (pb_t49 d L v2 X P k)

theorem pb_t49_succ (d : Dev nD) (L : grid0.Coords) (v2 : BitVec 32) (X : BufTy.Contents (Elt F) (ibS0).view.ty) (P : BufTy.Contents (Elt F) (qV).view.ty) (k : Fin k0_t49_loop.trips) :
    pb_t49 (F := F) d L v2 X P (k.val + 1) = (tripL_t49 (F := F) d L v2 X P k) ++ (pb_t49 (F := F) d L v2 X P k.val) := by
  rw [pb_t49.eq_2]; unfold pb_t49Step; exact dif_pos k.isLt

set_option warn.classDefReducibility false in
/-- Row loop 49 by its invariant: the gathered rows and the positional rows read, the sum slot holding the pieces of the rows before k over its contents at loop entry. -/
@[sl_loop] def loopInv_t49 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t49_loop.lb k0_t49_loop.ub k0_t49_loop.st k0_t49_ok () (k0_t49_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t49 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t49 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t49_succ]
      iexists _; isplitl [HW]; · iexact HW
      ipureintro; rw [hf, ← View.writes_append]

/-! ### loop 50 (slot 1) -/

set_option maxHeartbeats 4000000 in
/-- One trip of row loop 50 at a symbolic row: the pieces it writes into the sum slot are the run's own finds. -/
@[irreducible] def trip_t50 (d : Dev nD) (L : grid0.Coords) (v2 : BitVec 32)
    (X : BufTy.Contents (Elt F) (ibS1).view.ty) (P : BufTy.Contents (Elt F) (qV).view.ty) (k : Fin k0_t50_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t50_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t50_body TripRes1
    iintro ⟨HX, HP, HW⟩
    sl_exec
    sl_step
    sl_close

abbrev tripL_t50 (d : Dev nD) (L : grid0.Coords) (v2 : BitVec 32) (X : BufTy.Contents (Elt F) (ibS1).view.ty) (P : BufTy.Contents (Elt F) (qV).view.ty) (k : Fin k0_t50_loop.trips) : List (View.Piece (Elt F) S128x128 .f32) :=
  (trip_t50 (F := F) d L v2 X P k).1

@[irreducible] def pb_t50Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t50_loop.trips then (tripL_t50 (F := F) d L v2 X P ⟨k, h⟩) ++ prev else prev

/-- The pieces of the rows before k (last first). -/
def pb_t50 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t50Step d L v2 X P k (pb_t50 d L v2 X P k)

theorem pb_t50_succ (d : Dev nD) (L : grid0.Coords) (v2 : BitVec 32) (X : BufTy.Contents (Elt F) (ibS1).view.ty) (P : BufTy.Contents (Elt F) (qV).view.ty) (k : Fin k0_t50_loop.trips) :
    pb_t50 (F := F) d L v2 X P (k.val + 1) = (tripL_t50 (F := F) d L v2 X P k) ++ (pb_t50 (F := F) d L v2 X P k.val) := by
  rw [pb_t50.eq_2]; unfold pb_t50Step; exact dif_pos k.isLt

set_option warn.classDefReducibility false in
/-- Row loop 50 by its invariant: the gathered rows and the positional rows read, the sum slot holding the pieces of the rows before k over its contents at loop entry. -/
@[sl_loop] def loopInv_t50 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t50_loop.lb k0_t50_loop.ub k0_t50_loop.st k0_t50_ok () (k0_t50_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t50 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t50 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t50_succ]
      iexists _; isplitl [HW]; · iexact HW
      ipureintro; rw [hf, ← View.writes_append]

/-! ### loop 51 (slot 0) -/

set_option maxHeartbeats 4000000 in
/-- One trip of row loop 51 at a symbolic row: the pieces it writes into the sum slot are the run's own finds. -/
@[irreducible] def trip_t51 (d : Dev nD) (L : grid0.Coords) (v2 : BitVec 32)
    (X : BufTy.Contents (Elt F) (ibS0).view.ty) (P : BufTy.Contents (Elt F) (qV).view.ty) (k : Fin k0_t51_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t51_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t51_body TripRes0
    iintro ⟨HX, HP, HW⟩
    sl_exec
    sl_step
    sl_close

abbrev tripL_t51 (d : Dev nD) (L : grid0.Coords) (v2 : BitVec 32) (X : BufTy.Contents (Elt F) (ibS0).view.ty) (P : BufTy.Contents (Elt F) (qV).view.ty) (k : Fin k0_t51_loop.trips) : List (View.Piece (Elt F) S128x128 .f32) :=
  (trip_t51 (F := F) d L v2 X P k).1

@[irreducible] def pb_t51Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t51_loop.trips then (tripL_t51 (F := F) d L v2 X P ⟨k, h⟩) ++ prev else prev

/-- The pieces of the rows before k (last first). -/
def pb_t51 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t51Step d L v2 X P k (pb_t51 d L v2 X P k)

theorem pb_t51_succ (d : Dev nD) (L : grid0.Coords) (v2 : BitVec 32) (X : BufTy.Contents (Elt F) (ibS0).view.ty) (P : BufTy.Contents (Elt F) (qV).view.ty) (k : Fin k0_t51_loop.trips) :
    pb_t51 (F := F) d L v2 X P (k.val + 1) = (tripL_t51 (F := F) d L v2 X P k) ++ (pb_t51 (F := F) d L v2 X P k.val) := by
  rw [pb_t51.eq_2]; unfold pb_t51Step; exact dif_pos k.isLt

set_option warn.classDefReducibility false in
/-- Row loop 51 by its invariant: the gathered rows and the positional rows read, the sum slot holding the pieces of the rows before k over its contents at loop entry. -/
@[sl_loop] def loopInv_t51 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t51_loop.lb k0_t51_loop.ub k0_t51_loop.st k0_t51_ok () (k0_t51_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t51 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t51 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t51_succ]
      iexists _; isplitl [HW]; · iexact HW
      ipureintro; rw [hf, ← View.writes_append]

/-! ### loop 52 (slot 1) -/

set_option maxHeartbeats 4000000 in
/-- One trip of row loop 52 at a symbolic row: the pieces it writes into the sum slot are the run's own finds. -/
@[irreducible] def trip_t52 (d : Dev nD) (L : grid0.Coords) (v2 : BitVec 32)
    (X : BufTy.Contents (Elt F) (ibS1).view.ty) (P : BufTy.Contents (Elt F) (qV).view.ty) (k : Fin k0_t52_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t52_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t52_body TripRes1
    iintro ⟨HX, HP, HW⟩
    sl_exec
    sl_step
    sl_close

abbrev tripL_t52 (d : Dev nD) (L : grid0.Coords) (v2 : BitVec 32) (X : BufTy.Contents (Elt F) (ibS1).view.ty) (P : BufTy.Contents (Elt F) (qV).view.ty) (k : Fin k0_t52_loop.trips) : List (View.Piece (Elt F) S128x128 .f32) :=
  (trip_t52 (F := F) d L v2 X P k).1

@[irreducible] def pb_t52Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t52_loop.trips then (tripL_t52 (F := F) d L v2 X P ⟨k, h⟩) ++ prev else prev

/-- The pieces of the rows before k (last first). -/
def pb_t52 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t52Step d L v2 X P k (pb_t52 d L v2 X P k)

theorem pb_t52_succ (d : Dev nD) (L : grid0.Coords) (v2 : BitVec 32) (X : BufTy.Contents (Elt F) (ibS1).view.ty) (P : BufTy.Contents (Elt F) (qV).view.ty) (k : Fin k0_t52_loop.trips) :
    pb_t52 (F := F) d L v2 X P (k.val + 1) = (tripL_t52 (F := F) d L v2 X P k) ++ (pb_t52 (F := F) d L v2 X P k.val) := by
  rw [pb_t52.eq_2]; unfold pb_t52Step; exact dif_pos k.isLt

set_option warn.classDefReducibility false in
/-- Row loop 52 by its invariant: the gathered rows and the positional rows read, the sum slot holding the pieces of the rows before k over its contents at loop entry. -/
@[sl_loop] def loopInv_t52 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t52_loop.lb k0_t52_loop.ub k0_t52_loop.st k0_t52_ok () (k0_t52_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t52 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t52 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t52_succ]
      iexists _; isplitl [HW]; · iexact HW
      ipureintro; rw [hf, ← View.writes_append]

/-! ### loop 53 (slot 0) -/

set_option maxHeartbeats 4000000 in
/-- One trip of row loop 53 at a symbolic row: the pieces it writes into the sum slot are the run's own finds. -/
@[irreducible] def trip_t53 (d : Dev nD) (L : grid0.Coords) (v2 wa wb : BitVec 32)
    (X : BufTy.Contents (Elt F) (ibS0).view.ty) (P : BufTy.Contents (Elt F) (qV).view.ty) (k : Fin k0_t53_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t53_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t53_body TripRes0
    iintro ⟨HX, HP, HW⟩
    sl_exec
    sl_step
    sl_close

abbrev tripL_t53 (d : Dev nD) (L : grid0.Coords) (v2 wa wb : BitVec 32) (X : BufTy.Contents (Elt F) (ibS0).view.ty) (P : BufTy.Contents (Elt F) (qV).view.ty) (k : Fin k0_t53_loop.trips) : List (View.Piece (Elt F) S128x128 .f32) :=
  (trip_t53 (F := F) d L v2 wa wb X P k).1

@[irreducible] def pb_t53Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t53_loop.trips then (tripL_t53 (F := F) d L v2 wa wb X P ⟨k, h⟩) ++ prev else prev

/-- The pieces of the rows before k (last first). -/
def pb_t53 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t53Step d L v2 wa wb X P k (pb_t53 d L v2 wa wb X P k)

theorem pb_t53_succ (d : Dev nD) (L : grid0.Coords) (v2 wa wb : BitVec 32) (X : BufTy.Contents (Elt F) (ibS0).view.ty) (P : BufTy.Contents (Elt F) (qV).view.ty) (k : Fin k0_t53_loop.trips) :
    pb_t53 (F := F) d L v2 wa wb X P (k.val + 1) = (tripL_t53 (F := F) d L v2 wa wb X P k) ++ (pb_t53 (F := F) d L v2 wa wb X P k.val) := by
  rw [pb_t53.eq_2]; unfold pb_t53Step; exact dif_pos k.isLt

set_option warn.classDefReducibility false in
/-- Row loop 53 by its invariant: the gathered rows and the positional rows read, the sum slot holding the pieces of the rows before k over its contents at loop entry. -/
@[sl_loop] def loopInv_t53 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t53_loop.lb k0_t53_loop.ub k0_t53_loop.st k0_t53_ok () (k0_t53_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t53 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t53 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t53_succ]
      iexists _; isplitl [HW]; · iexact HW
      ipureintro; rw [hf, ← View.writes_append]

/-! ### loop 54 (slot 1) -/

set_option maxHeartbeats 4000000 in
/-- One trip of row loop 54 at a symbolic row: the pieces it writes into the sum slot are the run's own finds. -/
@[irreducible] def trip_t54 (d : Dev nD) (L : grid0.Coords) (v2 : BitVec 32)
    (X : BufTy.Contents (Elt F) (ibS1).view.ty) (P : BufTy.Contents (Elt F) (qV).view.ty) (k : Fin k0_t54_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t54_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t54_body TripRes1
    iintro ⟨HX, HP, HW⟩
    sl_exec
    sl_step
    sl_close

abbrev tripL_t54 (d : Dev nD) (L : grid0.Coords) (v2 : BitVec 32) (X : BufTy.Contents (Elt F) (ibS1).view.ty) (P : BufTy.Contents (Elt F) (qV).view.ty) (k : Fin k0_t54_loop.trips) : List (View.Piece (Elt F) S128x128 .f32) :=
  (trip_t54 (F := F) d L v2 X P k).1

@[irreducible] def pb_t54Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t54_loop.trips then (tripL_t54 (F := F) d L v2 X P ⟨k, h⟩) ++ prev else prev

/-- The pieces of the rows before k (last first). -/
def pb_t54 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t54Step d L v2 X P k (pb_t54 d L v2 X P k)

theorem pb_t54_succ (d : Dev nD) (L : grid0.Coords) (v2 : BitVec 32) (X : BufTy.Contents (Elt F) (ibS1).view.ty) (P : BufTy.Contents (Elt F) (qV).view.ty) (k : Fin k0_t54_loop.trips) :
    pb_t54 (F := F) d L v2 X P (k.val + 1) = (tripL_t54 (F := F) d L v2 X P k) ++ (pb_t54 (F := F) d L v2 X P k.val) := by
  rw [pb_t54.eq_2]; unfold pb_t54Step; exact dif_pos k.isLt

set_option warn.classDefReducibility false in
/-- Row loop 54 by its invariant: the gathered rows and the positional rows read, the sum slot holding the pieces of the rows before k over its contents at loop entry. -/
@[sl_loop] def loopInv_t54 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t54_loop.lb k0_t54_loop.ub k0_t54_loop.st k0_t54_ok () (k0_t54_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t54 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t54 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t54_succ]
      iexists _; isplitl [HW]; · iexact HW
      ipureintro; rw [hf, ← View.writes_append]

/-! ### loop 55 (slot 0) -/

set_option maxHeartbeats 4000000 in
/-- One trip of row loop 55 at a symbolic row: the pieces it writes into the sum slot are the run's own finds. -/
@[irreducible] def trip_t55 (d : Dev nD) (L : grid0.Coords) (v2 : BitVec 32)
    (X : BufTy.Contents (Elt F) (ibS0).view.ty) (P : BufTy.Contents (Elt F) (qV).view.ty) (k : Fin k0_t55_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t55_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t55_body TripRes0
    iintro ⟨HX, HP, HW⟩
    sl_exec
    sl_step
    sl_close

abbrev tripL_t55 (d : Dev nD) (L : grid0.Coords) (v2 : BitVec 32) (X : BufTy.Contents (Elt F) (ibS0).view.ty) (P : BufTy.Contents (Elt F) (qV).view.ty) (k : Fin k0_t55_loop.trips) : List (View.Piece (Elt F) S128x128 .f32) :=
  (trip_t55 (F := F) d L v2 X P k).1

@[irreducible] def pb_t55Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t55_loop.trips then (tripL_t55 (F := F) d L v2 X P ⟨k, h⟩) ++ prev else prev

/-- The pieces of the rows before k (last first). -/
def pb_t55 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t55Step d L v2 X P k (pb_t55 d L v2 X P k)

theorem pb_t55_succ (d : Dev nD) (L : grid0.Coords) (v2 : BitVec 32) (X : BufTy.Contents (Elt F) (ibS0).view.ty) (P : BufTy.Contents (Elt F) (qV).view.ty) (k : Fin k0_t55_loop.trips) :
    pb_t55 (F := F) d L v2 X P (k.val + 1) = (tripL_t55 (F := F) d L v2 X P k) ++ (pb_t55 (F := F) d L v2 X P k.val) := by
  rw [pb_t55.eq_2]; unfold pb_t55Step; exact dif_pos k.isLt

set_option warn.classDefReducibility false in
/-- Row loop 55 by its invariant: the gathered rows and the positional rows read, the sum slot holding the pieces of the rows before k over its contents at loop entry. -/
@[sl_loop] def loopInv_t55 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t55_loop.lb k0_t55_loop.ub k0_t55_loop.st k0_t55_ok () (k0_t55_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t55 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t55 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t55_succ]
      iexists _; isplitl [HW]; · iexact HW
      ipureintro; rw [hf, ← View.writes_append]

/-! ### loop 56 (slot 1) -/

set_option maxHeartbeats 4000000 in
/-- One trip of row loop 56 at a symbolic row: the pieces it writes into the sum slot are the run's own finds. -/
@[irreducible] def trip_t56 (d : Dev nD) (L : grid0.Coords) (v2 : BitVec 32)
    (X : BufTy.Contents (Elt F) (ibS1).view.ty) (P : BufTy.Contents (Elt F) (qV).view.ty) (k : Fin k0_t56_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t56_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t56_body TripRes1
    iintro ⟨HX, HP, HW⟩
    sl_exec
    sl_step
    sl_close

abbrev tripL_t56 (d : Dev nD) (L : grid0.Coords) (v2 : BitVec 32) (X : BufTy.Contents (Elt F) (ibS1).view.ty) (P : BufTy.Contents (Elt F) (qV).view.ty) (k : Fin k0_t56_loop.trips) : List (View.Piece (Elt F) S128x128 .f32) :=
  (trip_t56 (F := F) d L v2 X P k).1

@[irreducible] def pb_t56Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t56_loop.trips then (tripL_t56 (F := F) d L v2 X P ⟨k, h⟩) ++ prev else prev

/-- The pieces of the rows before k (last first). -/
def pb_t56 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t56Step d L v2 X P k (pb_t56 d L v2 X P k)

theorem pb_t56_succ (d : Dev nD) (L : grid0.Coords) (v2 : BitVec 32) (X : BufTy.Contents (Elt F) (ibS1).view.ty) (P : BufTy.Contents (Elt F) (qV).view.ty) (k : Fin k0_t56_loop.trips) :
    pb_t56 (F := F) d L v2 X P (k.val + 1) = (tripL_t56 (F := F) d L v2 X P k) ++ (pb_t56 (F := F) d L v2 X P k.val) := by
  rw [pb_t56.eq_2]; unfold pb_t56Step; exact dif_pos k.isLt

set_option warn.classDefReducibility false in
/-- Row loop 56 by its invariant: the gathered rows and the positional rows read, the sum slot holding the pieces of the rows before k over its contents at loop entry. -/
@[sl_loop] def loopInv_t56 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t56_loop.lb k0_t56_loop.ub k0_t56_loop.st k0_t56_ok () (k0_t56_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t56 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t56 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t56_succ]
      iexists _; isplitl [HW]; · iexact HW
      ipureintro; rw [hf, ← View.writes_append]

/-! ### loop 57 (slot 0) -/

set_option maxHeartbeats 4000000 in
/-- One trip of row loop 57 at a symbolic row: the pieces it writes into the sum slot are the run's own finds. -/
@[irreducible] def trip_t57 (d : Dev nD) (L : grid0.Coords) (v2 : BitVec 32)
    (X : BufTy.Contents (Elt F) (ibS0).view.ty) (P : BufTy.Contents (Elt F) (qV).view.ty) (k : Fin k0_t57_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t57_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t57_body TripRes0
    iintro ⟨HX, HP, HW⟩
    sl_exec
    sl_step
    sl_close

abbrev tripL_t57 (d : Dev nD) (L : grid0.Coords) (v2 : BitVec 32) (X : BufTy.Contents (Elt F) (ibS0).view.ty) (P : BufTy.Contents (Elt F) (qV).view.ty) (k : Fin k0_t57_loop.trips) : List (View.Piece (Elt F) S128x128 .f32) :=
  (trip_t57 (F := F) d L v2 X P k).1

@[irreducible] def pb_t57Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t57_loop.trips then (tripL_t57 (F := F) d L v2 X P ⟨k, h⟩) ++ prev else prev

/-- The pieces of the rows before k (last first). -/
def pb_t57 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t57Step d L v2 X P k (pb_t57 d L v2 X P k)

theorem pb_t57_succ (d : Dev nD) (L : grid0.Coords) (v2 : BitVec 32) (X : BufTy.Contents (Elt F) (ibS0).view.ty) (P : BufTy.Contents (Elt F) (qV).view.ty) (k : Fin k0_t57_loop.trips) :
    pb_t57 (F := F) d L v2 X P (k.val + 1) = (tripL_t57 (F := F) d L v2 X P k) ++ (pb_t57 (F := F) d L v2 X P k.val) := by
  rw [pb_t57.eq_2]; unfold pb_t57Step; exact dif_pos k.isLt

set_option warn.classDefReducibility false in
/-- Row loop 57 by its invariant: the gathered rows and the positional rows read, the sum slot holding the pieces of the rows before k over its contents at loop entry. -/
@[sl_loop] def loopInv_t57 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t57_loop.lb k0_t57_loop.ub k0_t57_loop.st k0_t57_ok () (k0_t57_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t57 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t57 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t57_succ]
      iexists _; isplitl [HW]; · iexact HW
      ipureintro; rw [hf, ← View.writes_append]

/-! ### loop 58 (slot 1) -/

set_option maxHeartbeats 4000000 in
/-- One trip of row loop 58 at a symbolic row: the pieces it writes into the sum slot are the run's own finds. -/
@[irreducible] def trip_t58 (d : Dev nD) (L : grid0.Coords) (v2 : BitVec 32)
    (X : BufTy.Contents (Elt F) (ibS1).view.ty) (P : BufTy.Contents (Elt F) (qV).view.ty) (k : Fin k0_t58_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t58_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t58_body TripRes1
    iintro ⟨HX, HP, HW⟩
    sl_exec
    sl_step
    sl_close

abbrev tripL_t58 (d : Dev nD) (L : grid0.Coords) (v2 : BitVec 32) (X : BufTy.Contents (Elt F) (ibS1).view.ty) (P : BufTy.Contents (Elt F) (qV).view.ty) (k : Fin k0_t58_loop.trips) : List (View.Piece (Elt F) S128x128 .f32) :=
  (trip_t58 (F := F) d L v2 X P k).1

@[irreducible] def pb_t58Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t58_loop.trips then (tripL_t58 (F := F) d L v2 X P ⟨k, h⟩) ++ prev else prev

/-- The pieces of the rows before k (last first). -/
def pb_t58 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t58Step d L v2 X P k (pb_t58 d L v2 X P k)

theorem pb_t58_succ (d : Dev nD) (L : grid0.Coords) (v2 : BitVec 32) (X : BufTy.Contents (Elt F) (ibS1).view.ty) (P : BufTy.Contents (Elt F) (qV).view.ty) (k : Fin k0_t58_loop.trips) :
    pb_t58 (F := F) d L v2 X P (k.val + 1) = (tripL_t58 (F := F) d L v2 X P k) ++ (pb_t58 (F := F) d L v2 X P k.val) := by
  rw [pb_t58.eq_2]; unfold pb_t58Step; exact dif_pos k.isLt

set_option warn.classDefReducibility false in
/-- Row loop 58 by its invariant: the gathered rows and the positional rows read, the sum slot holding the pieces of the rows before k over its contents at loop entry. -/
@[sl_loop] def loopInv_t58 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t58_loop.lb k0_t58_loop.ub k0_t58_loop.st k0_t58_ok () (k0_t58_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t58 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t58 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t58_succ]
      iexists _; isplitl [HW]; · iexact HW
      ipureintro; rw [hf, ← View.writes_append]

/-! ### loop 59 (slot 0) -/

set_option maxHeartbeats 4000000 in
/-- One trip of row loop 59 at a symbolic row: the pieces it writes into the sum slot are the run's own finds. -/
@[irreducible] def trip_t59 (d : Dev nD) (L : grid0.Coords) (v2 : BitVec 32)
    (X : BufTy.Contents (Elt F) (ibS0).view.ty) (P : BufTy.Contents (Elt F) (qV).view.ty) (k : Fin k0_t59_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t59_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t59_body TripRes0
    iintro ⟨HX, HP, HW⟩
    sl_exec
    sl_step
    sl_close

abbrev tripL_t59 (d : Dev nD) (L : grid0.Coords) (v2 : BitVec 32) (X : BufTy.Contents (Elt F) (ibS0).view.ty) (P : BufTy.Contents (Elt F) (qV).view.ty) (k : Fin k0_t59_loop.trips) : List (View.Piece (Elt F) S128x128 .f32) :=
  (trip_t59 (F := F) d L v2 X P k).1

@[irreducible] def pb_t59Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t59_loop.trips then (tripL_t59 (F := F) d L v2 X P ⟨k, h⟩) ++ prev else prev

/-- The pieces of the rows before k (last first). -/
def pb_t59 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t59Step d L v2 X P k (pb_t59 d L v2 X P k)

theorem pb_t59_succ (d : Dev nD) (L : grid0.Coords) (v2 : BitVec 32) (X : BufTy.Contents (Elt F) (ibS0).view.ty) (P : BufTy.Contents (Elt F) (qV).view.ty) (k : Fin k0_t59_loop.trips) :
    pb_t59 (F := F) d L v2 X P (k.val + 1) = (tripL_t59 (F := F) d L v2 X P k) ++ (pb_t59 (F := F) d L v2 X P k.val) := by
  rw [pb_t59.eq_2]; unfold pb_t59Step; exact dif_pos k.isLt

set_option warn.classDefReducibility false in
/-- Row loop 59 by its invariant: the gathered rows and the positional rows read, the sum slot holding the pieces of the rows before k over its contents at loop entry. -/
@[sl_loop] def loopInv_t59 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t59_loop.lb k0_t59_loop.ub k0_t59_loop.st k0_t59_ok () (k0_t59_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t59 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t59 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t59_succ]
      iexists _; isplitl [HW]; · iexact HW
      ipureintro; rw [hf, ← View.writes_append]

/-! ### loop 60 (slot 1) -/

set_option maxHeartbeats 4000000 in
/-- One trip of row loop 60 at a symbolic row: the pieces it writes into the sum slot are the run's own finds. -/
@[irreducible] def trip_t60 (d : Dev nD) (L : grid0.Coords) (v2 : BitVec 32)
    (X : BufTy.Contents (Elt F) (ibS1).view.ty) (P : BufTy.Contents (Elt F) (qV).view.ty) (k : Fin k0_t60_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t60_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t60_body TripRes1
    iintro ⟨HX, HP, HW⟩
    sl_exec
    sl_step
    sl_close

abbrev tripL_t60 (d : Dev nD) (L : grid0.Coords) (v2 : BitVec 32) (X : BufTy.Contents (Elt F) (ibS1).view.ty) (P : BufTy.Contents (Elt F) (qV).view.ty) (k : Fin k0_t60_loop.trips) : List (View.Piece (Elt F) S128x128 .f32) :=
  (trip_t60 (F := F) d L v2 X P k).1

@[irreducible] def pb_t60Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t60_loop.trips then (tripL_t60 (F := F) d L v2 X P ⟨k, h⟩) ++ prev else prev

/-- The pieces of the rows before k (last first). -/
def pb_t60 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t60Step d L v2 X P k (pb_t60 d L v2 X P k)

theorem pb_t60_succ (d : Dev nD) (L : grid0.Coords) (v2 : BitVec 32) (X : BufTy.Contents (Elt F) (ibS1).view.ty) (P : BufTy.Contents (Elt F) (qV).view.ty) (k : Fin k0_t60_loop.trips) :
    pb_t60 (F := F) d L v2 X P (k.val + 1) = (tripL_t60 (F := F) d L v2 X P k) ++ (pb_t60 (F := F) d L v2 X P k.val) := by
  rw [pb_t60.eq_2]; unfold pb_t60Step; exact dif_pos k.isLt

set_option warn.classDefReducibility false in
/-- Row loop 60 by its invariant: the gathered rows and the positional rows read, the sum slot holding the pieces of the rows before k over its contents at loop entry. -/
@[sl_loop] def loopInv_t60 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t60_loop.lb k0_t60_loop.ub k0_t60_loop.st k0_t60_ok () (k0_t60_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t60 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t60 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t60_succ]
      iexists _; isplitl [HW]; · iexact HW
      ipureintro; rw [hf, ← View.writes_append]

/-! ### loop 61 (slot 0) -/

set_option maxHeartbeats 4000000 in
/-- One trip of row loop 61 at a symbolic row: the pieces it writes into the sum slot are the run's own finds. -/
@[irreducible] def trip_t61 (d : Dev nD) (L : grid0.Coords) (v2 : BitVec 32)
    (X : BufTy.Contents (Elt F) (ibS0).view.ty) (P : BufTy.Contents (Elt F) (qV).view.ty) (k : Fin k0_t61_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t61_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t61_body TripRes0
    iintro ⟨HX, HP, HW⟩
    sl_exec
    sl_step
    sl_close

abbrev tripL_t61 (d : Dev nD) (L : grid0.Coords) (v2 : BitVec 32) (X : BufTy.Contents (Elt F) (ibS0).view.ty) (P : BufTy.Contents (Elt F) (qV).view.ty) (k : Fin k0_t61_loop.trips) : List (View.Piece (Elt F) S128x128 .f32) :=
  (trip_t61 (F := F) d L v2 X P k).1

@[irreducible] def pb_t61Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t61_loop.trips then (tripL_t61 (F := F) d L v2 X P ⟨k, h⟩) ++ prev else prev

/-- The pieces of the rows before k (last first). -/
def pb_t61 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t61Step d L v2 X P k (pb_t61 d L v2 X P k)

theorem pb_t61_succ (d : Dev nD) (L : grid0.Coords) (v2 : BitVec 32) (X : BufTy.Contents (Elt F) (ibS0).view.ty) (P : BufTy.Contents (Elt F) (qV).view.ty) (k : Fin k0_t61_loop.trips) :
    pb_t61 (F := F) d L v2 X P (k.val + 1) = (tripL_t61 (F := F) d L v2 X P k) ++ (pb_t61 (F := F) d L v2 X P k.val) := by
  rw [pb_t61.eq_2]; unfold pb_t61Step; exact dif_pos k.isLt

set_option warn.classDefReducibility false in
/-- Row loop 61 by its invariant: the gathered rows and the positional rows read, the sum slot holding the pieces of the rows before k over its contents at loop entry. -/
@[sl_loop] def loopInv_t61 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t61_loop.lb k0_t61_loop.ub k0_t61_loop.st k0_t61_ok () (k0_t61_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t61 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t61 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t61_succ]
      iexists _; isplitl [HW]; · iexact HW
      ipureintro; rw [hf, ← View.writes_append]

/-! ### loop 62 (slot 1) -/

set_option maxHeartbeats 4000000 in
/-- One trip of row loop 62 at a symbolic row: the pieces it writes into the sum slot are the run's own finds. -/
@[irreducible] def trip_t62 (d : Dev nD) (L : grid0.Coords) (v2 : BitVec 32)
    (X : BufTy.Contents (Elt F) (ibS1).view.ty) (P : BufTy.Contents (Elt F) (qV).view.ty) (k : Fin k0_t62_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t62_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t62_body TripRes1
    iintro ⟨HX, HP, HW⟩
    sl_exec
    sl_step
    sl_close

abbrev tripL_t62 (d : Dev nD) (L : grid0.Coords) (v2 : BitVec 32) (X : BufTy.Contents (Elt F) (ibS1).view.ty) (P : BufTy.Contents (Elt F) (qV).view.ty) (k : Fin k0_t62_loop.trips) : List (View.Piece (Elt F) S128x128 .f32) :=
  (trip_t62 (F := F) d L v2 X P k).1

@[irreducible] def pb_t62Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t62_loop.trips then (tripL_t62 (F := F) d L v2 X P ⟨k, h⟩) ++ prev else prev

/-- The pieces of the rows before k (last first). -/
def pb_t62 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t62Step d L v2 X P k (pb_t62 d L v2 X P k)

theorem pb_t62_succ (d : Dev nD) (L : grid0.Coords) (v2 : BitVec 32) (X : BufTy.Contents (Elt F) (ibS1).view.ty) (P : BufTy.Contents (Elt F) (qV).view.ty) (k : Fin k0_t62_loop.trips) :
    pb_t62 (F := F) d L v2 X P (k.val + 1) = (tripL_t62 (F := F) d L v2 X P k) ++ (pb_t62 (F := F) d L v2 X P k.val) := by
  rw [pb_t62.eq_2]; unfold pb_t62Step; exact dif_pos k.isLt

set_option warn.classDefReducibility false in
/-- Row loop 62 by its invariant: the gathered rows and the positional rows read, the sum slot holding the pieces of the rows before k over its contents at loop entry. -/
@[sl_loop] def loopInv_t62 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t62_loop.lb k0_t62_loop.ub k0_t62_loop.st k0_t62_ok () (k0_t62_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t62 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t62 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t62_succ]
      iexists _; isplitl [HW]; · iexact HW
      ipureintro; rw [hf, ← View.writes_append]

/-! ### loop 63 (slot 0) -/

set_option maxHeartbeats 4000000 in
/-- One trip of row loop 63 at a symbolic row: the pieces it writes into the sum slot are the run's own finds. -/
@[irreducible] def trip_t63 (d : Dev nD) (L : grid0.Coords) (v2 wa wb : BitVec 32)
    (X : BufTy.Contents (Elt F) (ibS0).view.ty) (P : BufTy.Contents (Elt F) (qV).view.ty) (k : Fin k0_t63_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t63_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t63_body TripRes0
    iintro ⟨HX, HP, HW⟩
    sl_exec
    sl_step
    sl_close

abbrev tripL_t63 (d : Dev nD) (L : grid0.Coords) (v2 wa wb : BitVec 32) (X : BufTy.Contents (Elt F) (ibS0).view.ty) (P : BufTy.Contents (Elt F) (qV).view.ty) (k : Fin k0_t63_loop.trips) : List (View.Piece (Elt F) S128x128 .f32) :=
  (trip_t63 (F := F) d L v2 wa wb X P k).1

@[irreducible] def pb_t63Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t63_loop.trips then (tripL_t63 (F := F) d L v2 wa wb X P ⟨k, h⟩) ++ prev else prev

/-- The pieces of the rows before k (last first). -/
def pb_t63 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t63Step d L v2 wa wb X P k (pb_t63 d L v2 wa wb X P k)

theorem pb_t63_succ (d : Dev nD) (L : grid0.Coords) (v2 wa wb : BitVec 32) (X : BufTy.Contents (Elt F) (ibS0).view.ty) (P : BufTy.Contents (Elt F) (qV).view.ty) (k : Fin k0_t63_loop.trips) :
    pb_t63 (F := F) d L v2 wa wb X P (k.val + 1) = (tripL_t63 (F := F) d L v2 wa wb X P k) ++ (pb_t63 (F := F) d L v2 wa wb X P k.val) := by
  rw [pb_t63.eq_2]; unfold pb_t63Step; exact dif_pos k.isLt

set_option warn.classDefReducibility false in
/-- Row loop 63 by its invariant: the gathered rows and the positional rows read, the sum slot holding the pieces of the rows before k over its contents at loop entry. -/
@[sl_loop] def loopInv_t63 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t63_loop.lb k0_t63_loop.ub k0_t63_loop.st k0_t63_ok () (k0_t63_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t63 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t63 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t63_succ]
      iexists _; isplitl [HW]; · iexact HW
      ipureintro; rw [hf, ← View.writes_append]

/-! ### loop 64 (slot 1) -/

set_option maxHeartbeats 4000000 in
/-- One trip of row loop 64 at a symbolic row: the pieces it writes into the sum slot are the run's own finds. -/
@[irreducible] def trip_t64 (d : Dev nD) (L : grid0.Coords) (v2 wa wb : BitVec 32)
    (X : BufTy.Contents (Elt F) (ibS1).view.ty) (P : BufTy.Contents (Elt F) (qV).view.ty) (k : Fin k0_t64_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t64_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes1 (F := F) d L X P ((obS1).view.writes (Elt F) f Lw)) } := by
  refine ⟨?_, fun f => ?run⟩
  case run =>
    unfold k0_t64_body TripRes1
    iintro ⟨HX, HP, HW⟩
    sl_exec
    sl_step
    sl_close

abbrev tripL_t64 (d : Dev nD) (L : grid0.Coords) (v2 wa wb : BitVec 32) (X : BufTy.Contents (Elt F) (ibS1).view.ty) (P : BufTy.Contents (Elt F) (qV).view.ty) (k : Fin k0_t64_loop.trips) : List (View.Piece (Elt F) S128x128 .f32) :=
  (trip_t64 (F := F) d L v2 wa wb X P k).1

@[irreducible] def pb_t64Step (d : Dev nD) (L : grid0.Coords) (v2 wa wb : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t64_loop.trips then (tripL_t64 (F := F) d L v2 wa wb X P ⟨k, h⟩) ++ prev else prev

/-- The pieces of the rows before k (last first). -/
def pb_t64 (d : Dev nD) (L : grid0.Coords) (v2 wa wb : BitVec 32) (X : BufTy.Contents (Elt F) (ibS1).view.ty) (P : BufTy.Contents (Elt F) (qV).view.ty) : ℕ → List (View.Piece (Elt F) S128x128 .f32)
  | 0 => []
  | k + 1 => pb_t64Step d L v2 wa wb X P k (pb_t64 d L v2 wa wb X P k)

theorem pb_t64_succ (d : Dev nD) (L : grid0.Coords) (v2 wa wb : BitVec 32) (X : BufTy.Contents (Elt F) (ibS1).view.ty) (P : BufTy.Contents (Elt F) (qV).view.ty) (k : Fin k0_t64_loop.trips) :
    pb_t64 (F := F) d L v2 wa wb X P (k.val + 1) = (tripL_t64 (F := F) d L v2 wa wb X P k) ++ (pb_t64 (F := F) d L v2 wa wb X P k.val) := by
  rw [pb_t64.eq_2]; unfold pb_t64Step; exact dif_pos k.isLt

set_option warn.classDefReducibility false in
/-- Row loop 64 by its invariant: the gathered rows and the positional rows read, the sum slot holding the pieces of the rows before k over its contents at loop entry. -/
@[sl_loop] def loopInv_t64 (d : Dev nD) (L : grid0.Coords) (v2 wa wb : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t64_loop.lb k0_t64_loop.ub k0_t64_loop.st k0_t64_ok () (k0_t64_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t64 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t64 (F := F) d L v2 wa wb X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t64_succ]
      iexists _; isplitl [HW]; · iexact HW
      ipureintro; rw [hf, ← View.writes_append]

end Tile
end Cert.Proof.KI
end
-- ==== Proof.RowsValueD.lean ====
/-
  The slot of sums after each of the row loops 49 to 64.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsD
import proofs.«208673_g37134287241914_cont_8to1_b_302_3_alg».proof.Proof.RowsLib

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

set_option maxRecDepth 8192

section Tile

/-! ### the value of row loop 49 (slot 0, positional rows 0 … 127) -/

theorem trips_t49 : k0_t49_loop.trips = 128 := rfl

set_option maxHeartbeats 2000000 in
/-- Every piece of a trip of row loop 49 is the row sum on its rectangle. -/
theorem trip_pieces_t49 (d : Dev nD) (L : grid0.Coords) (v2 : BitVec 32) (X : BufTy.Contents (Elt F) (ibS0).view.ty) (P : BufTy.Contents (Elt F) (qV).view.ty) (k : Fin k0_t49_loop.trips) :
    ∀ p ∈ tripL_t49 (F := F) d L v2 X P k, ∀ x : p.1.shape.Idx, p.2 x = RowsLib.rowG (ibS0).view (qV).view X P 0 (by omega) (p.1.emb x) := by
  unfold tripL_t49 trip_t49
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off785_inb k) (k0_off785_inb k) (k0_off786_inb k) k.val (k.val + 0) 112 (k0_off785_eq k) (k0_off786_eq k) rfl _ (RowsLib.lane_sum _ _ _ _) x
  · exact fun x => RowsLib.piece_eq _ _ X P 0 _ _ _ (k0_off783_inb k) (k0_off783_inb k) (k0_off784_inb k) k.val (k.val + 0) 96 (k0_off783_eq k) (k0_off784_eq k) rfl _ (RowsLib.lane_sum _ _ _ _) x
  · exact fun x => RowsLib.piece_eq _ _ X P 0 _ _ _ (k0_off781_inb k) (k0_off781_inb k) (k0_off782_inb k) k.val (k.val + 0) 80 (k0_off781_eq k) (k0_off782_eq k) rfl _ (RowsLib.lane_sum _ _ _ _) x
  · exact fun x => RowsLib.piece_eq _ _ X P 0 _ _ _ (k0_off779_inb k) (k0_off779_inb k) (k0_off780_inb k) k.val (k.val + 0) 64 (k0_off779_eq k) (k0_off780_eq k) rfl _ (RowsLib.lane_sum _ _ _ _) x
  · exact fun x => RowsLib.piece_eq _ _ X P 0 _ _ _ (k0_off777_inb k) (k0_off777_inb k) (k0_off778_inb k) k.val (k.val + 0) 48 (k0_off777_eq k) (k0_off778_eq k) rfl _ (RowsLib.lane_sum _ _ _ _) x
  · exact fun x => RowsLib.piece_eq _ _ X P 0 _ _ _ (k0_off775_inb k) (k0_off775_inb k) (k0_off776_inb k) k.val (k.val + 0) 32 (k0_off775_eq k) (k0_off776_eq k) rfl _ (RowsLib.lane_sum _ _ _ _) x
  · exact fun x => RowsLib.piece_eq _ _ X P 0 _ _ _ (k0_off773_inb k) (k0_off773_inb k) (k0_off774_inb k) k.val (k.val + 0) 16 (k0_off773_eq k) (k0_off774_eq k) rfl _ (RowsLib.lane_sum _ _ _ _) x
  · exact fun x => RowsLib.piece_eq _ _ X P 0 _ _ _ (k0_off771_inb k) (k0_off771_inb k) (k0_off772_inb k) k.val (k.val + 0) 0 (k0_off771_eq k) (k0_off772_eq k) rfl _ (RowsLib.lane_sum _ _ _ _) x

set_option maxHeartbeats 2000000 in
/-- The eight pieces of trip k cover row k. -/
theorem trip_cover_t49 (d : Dev nD) (L : grid0.Coords) (v2 : BitVec 32) (X : BufTy.Contents (Elt F) (ibS0).view.ty) (P : BufTy.Contents (Elt F) (qV).view.ty)
    (k : Fin k0_t49_loop.trips) (r c : Fin 128) (hr : k.val = r.val) :
    ∃ p ∈ tripL_t49 (F := F) d L v2 X P k, (ValueIdx.ix2 r c : RowsLib.SS.Idx) ∈ p.1.set := by
  unfold tripL_t49 trip_t49
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off771_inb k) r c k.val 0 (k0_off771_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off773_inb k) r c k.val 16 (k0_off773_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off775_inb k) r c k.val 32 (k0_off775_eq k) hr h.1 h.2⟩
  · exact ⟨_, List.mem_cons_of_mem _ (List.mem_cons_of_mem _ (List.mem_cons_of_mem _ (List.mem_cons_of_mem _ (List.mem_cons_self)))), RowsLib.mem_unit _ (k0_off777_inb k) r c k.val 48 (k0_off777_eq k) hr h.1 h.2⟩
  · exact ⟨_, List.mem_cons_of_mem _ (List.mem_cons_of_mem _ (List.mem_cons_of_mem _ (List.mem_cons_self))), RowsLib.mem_unit _ (k0_off779_inb k) r c k.val 64 (k0_off779_eq k) hr h.1 h.2⟩
  · exact ⟨_, List.mem_cons_of_mem _ (List.mem_cons_of_mem _ (List.mem_cons_self)), RowsLib.mem_unit _ (k0_off781_inb k) r c k.val 80 (k0_off781_eq k) hr h.1 h.2⟩
  · exact ⟨_, List.mem_cons_of_mem _ (List.mem_cons_self), RowsLib.mem_unit _ (k0_off783_inb k) r c k.val 96 (k0_off783_eq k) hr h.1 h.2⟩
  · exact ⟨_, List.mem_cons_self, RowsLib.mem_unit _ (k0_off785_inb k) r c k.val 112 (k0_off785_eq k) hr h.1 h.2⟩

/-- The slot of sums after row loop 49, as the row-sum function: at (r, c) the gathered rows' entry plus the positional scratch's entry of row r + 0. -/
theorem rows_t49_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t49 (F := F) d L v2 X P 128)) (ValueIdx.ix2 r c)
      = RowsLib.rowG (ibS0).view (qV).view X P 0 (by omega) (ValueIdx.ix2 r c) :=
  RowsLib.read_writes_trips (n := k0_t49_loop.trips) (pb_t49 (F := F) d L v2 X P) (tripL_t49 (F := F) d L v2 X P) (obS0).view G _
    rfl (pb_t49_succ (F := F) d L v2 X P) (trip_pieces_t49 d L v2 X P) _ ⟨r.val, r.isLt⟩ (trip_cover_t49 d L v2 X P ⟨r.val, r.isLt⟩ r c rfl)

/-- THE SLOT OF SUMS AFTER ROW LOOP 49, whatever it held before: at (r, c) the gathered rows' entry (r, c) plus the positional
    scratch's entry (r + 0, c). -/
theorem rows_t49 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t49 (F := F) d L v2 X P (Scf.trips k0_t49_loop.lb k0_t49_loop.ub k0_t49_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t49_G d L v2 X P G r c

/-! ### the value of row loop 50 (slot 1, positional rows 128 … 255) -/

theorem trips_t50 : k0_t50_loop.trips = 128 := rfl

set_option maxHeartbeats 2000000 in
/-- Every piece of a trip of row loop 50 is the row sum on its rectangle. -/
theorem trip_pieces_t50 (d : Dev nD) (L : grid0.Coords) (v2 : BitVec 32) (X : BufTy.Contents (Elt F) (ibS1).view.ty) (P : BufTy.Contents (Elt F) (qV).view.ty) (k : Fin k0_t50_loop.trips) :
    ∀ p ∈ tripL_t50 (F := F) d L v2 X P k, ∀ x : p.1.shape.Idx, p.2 x = RowsLib.rowG (ibS1).view (qV).view X P 128 (by omega) (p.1.emb x) := by
  unfold tripL_t50 trip_t50
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off801_inb k) (k0_off801_inb k) (k0_off802_inb k) k.val (k.val + 128) 112 (k0_off801_eq k) (k0_off802_eq k) rfl _ (RowsLib.lane_sum _ _ _ _) x
  · exact fun x => RowsLib.piece_eq _ _ X P 128 _ _ _ (k0_off799_inb k) (k0_off799_inb k) (k0_off800_inb k) k.val (k.val + 128) 96 (k0_off799_eq k) (k0_off800_eq k) rfl _ (RowsLib.lane_sum _ _ _ _) x
  · exact fun x => RowsLib.piece_eq _ _ X P 128 _ _ _ (k0_off797_inb k) (k0_off797_inb k) (k0_off798_inb k) k.val (k.val + 128) 80 (k0_off797_eq k) (k0_off798_eq k) rfl _ (RowsLib.lane_sum _ _ _ _) x
  · exact fun x => RowsLib.piece_eq _ _ X P 128 _ _ _ (k0_off795_inb k) (k0_off795_inb k) (k0_off796_inb k) k.val (k.val + 128) 64 (k0_off795_eq k) (k0_off796_eq k) rfl _ (RowsLib.lane_sum _ _ _ _) x
  · exact fun x => RowsLib.piece_eq _ _ X P 128 _ _ _ (k0_off793_inb k) (k0_off793_inb k) (k0_off794_inb k) k.val (k.val + 128) 48 (k0_off793_eq k) (k0_off794_eq k) rfl _ (RowsLib.lane_sum _ _ _ _) x
  · exact fun x => RowsLib.piece_eq _ _ X P 128 _ _ _ (k0_off791_inb k) (k0_off791_inb k) (k0_off792_inb k) k.val (k.val + 128) 32 (k0_off791_eq k) (k0_off792_eq k) rfl _ (RowsLib.lane_sum _ _ _ _) x
  · exact fun x => RowsLib.piece_eq _ _ X P 128 _ _ _ (k0_off789_inb k) (k0_off789_inb k) (k0_off790_inb k) k.val (k.val + 128) 16 (k0_off789_eq k) (k0_off790_eq k) rfl _ (RowsLib.lane_sum _ _ _ _) x
  · exact fun x => RowsLib.piece_eq _ _ X P 128 _ _ _ (k0_off787_inb k) (k0_off787_inb k) (k0_off788_inb k) k.val (k.val + 128) 0 (k0_off787_eq k) (k0_off788_eq k) rfl _ (RowsLib.lane_sum _ _ _ _) x

set_option maxHeartbeats 2000000 in
/-- The eight pieces of trip k cover row k. -/
theorem trip_cover_t50 (d : Dev nD) (L : grid0.Coords) (v2 : BitVec 32) (X : BufTy.Contents (Elt F) (ibS1).view.ty) (P : BufTy.Contents (Elt F) (qV).view.ty)
    (k : Fin k0_t50_loop.trips) (r c : Fin 128) (hr : k.val = r.val) :
    ∃ p ∈ tripL_t50 (F := F) d L v2 X P k, (ValueIdx.ix2 r c : RowsLib.SS.Idx) ∈ p.1.set := by
  unfold tripL_t50 trip_t50
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off787_inb k) r c k.val 0 (k0_off787_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off789_inb k) r c k.val 16 (k0_off789_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off791_inb k) r c k.val 32 (k0_off791_eq k) hr h.1 h.2⟩
  · exact ⟨_, List.mem_cons_of_mem _ (List.mem_cons_of_mem _ (List.mem_cons_of_mem _ (List.mem_cons_of_mem _ (List.mem_cons_self)))), RowsLib.mem_unit _ (k0_off793_inb k) r c k.val 48 (k0_off793_eq k) hr h.1 h.2⟩
  · exact ⟨_, List.mem_cons_of_mem _ (List.mem_cons_of_mem _ (List.mem_cons_of_mem _ (List.mem_cons_self))), RowsLib.mem_unit _ (k0_off795_inb k) r c k.val 64 (k0_off795_eq k) hr h.1 h.2⟩
  · exact ⟨_, List.mem_cons_of_mem _ (List.mem_cons_of_mem _ (List.mem_cons_self)), RowsLib.mem_unit _ (k0_off797_inb k) r c k.val 80 (k0_off797_eq k) hr h.1 h.2⟩
  · exact ⟨_, List.mem_cons_of_mem _ (List.mem_cons_self), RowsLib.mem_unit _ (k0_off799_inb k) r c k.val 96 (k0_off799_eq k) hr h.1 h.2⟩
  · exact ⟨_, List.mem_cons_self, RowsLib.mem_unit _ (k0_off801_inb k) r c k.val 112 (k0_off801_eq k) hr h.1 h.2⟩

/-- The slot of sums after row loop 50, as the row-sum function: at (r, c) the gathered rows' entry plus the positional scratch's entry of row r + 128. -/
theorem rows_t50_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t50 (F := F) d L v2 X P 128)) (ValueIdx.ix2 r c)
      = RowsLib.rowG (ibS1).view (qV).view X P 128 (by omega) (ValueIdx.ix2 r c) :=
  RowsLib.read_writes_trips (n := k0_t50_loop.trips) (pb_t50 (F := F) d L v2 X P) (tripL_t50 (F := F) d L v2 X P) (obS1).view G _
    rfl (pb_t50_succ (F := F) d L v2 X P) (trip_pieces_t50 d L v2 X P) _ ⟨r.val, r.isLt⟩ (trip_cover_t50 d L v2 X P ⟨r.val, r.isLt⟩ r c rfl)

/-- THE SLOT OF SUMS AFTER ROW LOOP 50, whatever it held before: at (r, c) the gathered rows' entry (r, c) plus the positional
    scratch's entry (r + 128, c). -/
theorem rows_t50 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t50 (F := F) d L v2 X P (Scf.trips k0_t50_loop.lb k0_t50_loop.ub k0_t50_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t50_G d L v2 X P G r c

/-! ### the value of row loop 51 (slot 0, positional rows 0 … 127) -/

theorem trips_t51 : k0_t51_loop.trips = 128 := rfl

set_option maxHeartbeats 2000000 in
/-- Every piece of a trip of row loop 51 is the row sum on its rectangle. -/
theorem trip_pieces_t51 (d : Dev nD) (L : grid0.Coords) (v2 : BitVec 32) (X : BufTy.Contents (Elt F) (ibS0).view.ty) (P : BufTy.Contents (Elt F) (qV).view.ty) (k : Fin k0_t51_loop.trips) :
    ∀ p ∈ tripL_t51 (F := F) d L v2 X P k, ∀ x : p.1.shape.Idx, p.2 x = RowsLib.rowG (ibS0).view (qV).view X P 0 (by omega) (p.1.emb x) := by
  unfold tripL_t51 trip_t51
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off817_inb k) (k0_off817_inb k) (k0_off818_inb k) k.val (k.val + 0) 112 (k0_off817_eq k) (k0_off818_eq k) rfl _ (RowsLib.lane_sum _ _ _ _) x
  · exact fun x => RowsLib.piece_eq _ _ X P 0 _ _ _ (k0_off815_inb k) (k0_off815_inb k) (k0_off816_inb k) k.val (k.val + 0) 96 (k0_off815_eq k) (k0_off816_eq k) rfl _ (RowsLib.lane_sum _ _ _ _) x
  · exact fun x => RowsLib.piece_eq _ _ X P 0 _ _ _ (k0_off813_inb k) (k0_off813_inb k) (k0_off814_inb k) k.val (k.val + 0) 80 (k0_off813_eq k) (k0_off814_eq k) rfl _ (RowsLib.lane_sum _ _ _ _) x
  · exact fun x => RowsLib.piece_eq _ _ X P 0 _ _ _ (k0_off811_inb k) (k0_off811_inb k) (k0_off812_inb k) k.val (k.val + 0) 64 (k0_off811_eq k) (k0_off812_eq k) rfl _ (RowsLib.lane_sum _ _ _ _) x
  · exact fun x => RowsLib.piece_eq _ _ X P 0 _ _ _ (k0_off809_inb k) (k0_off809_inb k) (k0_off810_inb k) k.val (k.val + 0) 48 (k0_off809_eq k) (k0_off810_eq k) rfl _ (RowsLib.lane_sum _ _ _ _) x
  · exact fun x => RowsLib.piece_eq _ _ X P 0 _ _ _ (k0_off807_inb k) (k0_off807_inb k) (k0_off808_inb k) k.val (k.val + 0) 32 (k0_off807_eq k) (k0_off808_eq k) rfl _ (RowsLib.lane_sum _ _ _ _) x
  · exact fun x => RowsLib.piece_eq _ _ X P 0 _ _ _ (k0_off805_inb k) (k0_off805_inb k) (k0_off806_inb k) k.val (k.val + 0) 16 (k0_off805_eq k) (k0_off806_eq k) rfl _ (RowsLib.lane_sum _ _ _ _) x
  · exact fun x => RowsLib.piece_eq _ _ X P 0 _ _ _ (k0_off803_inb k) (k0_off803_inb k) (k0_off804_inb k) k.val (k.val + 0) 0 (k0_off803_eq k) (k0_off804_eq k) rfl _ (RowsLib.lane_sum _ _ _ _) x

set_option maxHeartbeats 2000000 in
/-- The eight pieces of trip k cover row k. -/
theorem trip_cover_t51 (d : Dev nD) (L : grid0.Coords) (v2 : BitVec 32) (X : BufTy.Contents (Elt F) (ibS0).view.ty) (P : BufTy.Contents (Elt F) (qV).view.ty)
    (k : Fin k0_t51_loop.trips) (r c : Fin 128) (hr : k.val = r.val) :
    ∃ p ∈ tripL_t51 (F := F) d L v2 X P k, (ValueIdx.ix2 r c : RowsLib.SS.Idx) ∈ p.1.set := by
  unfold tripL_t51 trip_t51
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off803_inb k) r c k.val 0 (k0_off803_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off805_inb k) r c k.val 16 (k0_off805_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off807_inb k) r c k.val 32 (k0_off807_eq k) hr h.1 h.2⟩
  · exact ⟨_, List.mem_cons_of_mem _ (List.mem_cons_of_mem _ (List.mem_cons_of_mem _ (List.mem_cons_of_mem _ (List.mem_cons_self)))), RowsLib.mem_unit _ (k0_off809_inb k) r c k.val 48 (k0_off809_eq k) hr h.1 h.2⟩
  · exact ⟨_, List.mem_cons_of_mem _ (List.mem_cons_of_mem _ (List.mem_cons_of_mem _ (List.mem_cons_self))), RowsLib.mem_unit _ (k0_off811_inb k) r c k.val 64 (k0_off811_eq k) hr h.1 h.2⟩
  · exact ⟨_, List.mem_cons_of_mem _ (List.mem_cons_of_mem _ (List.mem_cons_self)), RowsLib.mem_unit _ (k0_off813_inb k) r c k.val 80 (k0_off813_eq k) hr h.1 h.2⟩
  · exact ⟨_, List.mem_cons_of_mem _ (List.mem_cons_self), RowsLib.mem_unit _ (k0_off815_inb k) r c k.val 96 (k0_off815_eq k) hr h.1 h.2⟩
  · exact ⟨_, List.mem_cons_self, RowsLib.mem_unit _ (k0_off817_inb k) r c k.val 112 (k0_off817_eq k) hr h.1 h.2⟩

/-- The slot of sums after row loop 51, as the row-sum function: at (r, c) the gathered rows' entry plus the positional scratch's entry of row r + 0. -/
theorem rows_t51_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t51 (F := F) d L v2 X P 128)) (ValueIdx.ix2 r c)
      = RowsLib.rowG (ibS0).view (qV).view X P 0 (by omega) (ValueIdx.ix2 r c) :=
  RowsLib.read_writes_trips (n := k0_t51_loop.trips) (pb_t51 (F := F) d L v2 X P) (tripL_t51 (F := F) d L v2 X P) (obS0).view G _
    rfl (pb_t51_succ (F := F) d L v2 X P) (trip_pieces_t51 d L v2 X P) _ ⟨r.val, r.isLt⟩ (trip_cover_t51 d L v2 X P ⟨r.val, r.isLt⟩ r c rfl)

/-- THE SLOT OF SUMS AFTER ROW LOOP 51, whatever it held before: at (r, c) the gathered rows' entry (r, c) plus the positional
    scratch's entry (r + 0, c). -/
theorem rows_t51 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t51 (F := F) d L v2 X P (Scf.trips k0_t51_loop.lb k0_t51_loop.ub k0_t51_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t51_G d L v2 X P G r c

/-! ### the value of row loop 52 (slot 1, positional rows 128 … 255) -/

theorem trips_t52 : k0_t52_loop.trips = 128 := rfl

set_option maxHeartbeats 2000000 in
/-- Every piece of a trip of row loop 52 is the row sum on its rectangle. -/
theorem trip_pieces_t52 (d : Dev nD) (L : grid0.Coords) (v2 : BitVec 32) (X : BufTy.Contents (Elt F) (ibS1).view.ty) (P : BufTy.Contents (Elt F) (qV).view.ty) (k : Fin k0_t52_loop.trips) :
    ∀ p ∈ tripL_t52 (F := F) d L v2 X P k, ∀ x : p.1.shape.Idx, p.2 x = RowsLib.rowG (ibS1).view (qV).view X P 128 (by omega) (p.1.emb x) := by
  unfold tripL_t52 trip_t52
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off833_inb k) (k0_off833_inb k) (k0_off834_inb k) k.val (k.val + 128) 112 (k0_off833_eq k) (k0_off834_eq k) rfl _ (RowsLib.lane_sum _ _ _ _) x
  · exact fun x => RowsLib.piece_eq _ _ X P 128 _ _ _ (k0_off831_inb k) (k0_off831_inb k) (k0_off832_inb k) k.val (k.val + 128) 96 (k0_off831_eq k) (k0_off832_eq k) rfl _ (RowsLib.lane_sum _ _ _ _) x
  · exact fun x => RowsLib.piece_eq _ _ X P 128 _ _ _ (k0_off829_inb k) (k0_off829_inb k) (k0_off830_inb k) k.val (k.val + 128) 80 (k0_off829_eq k) (k0_off830_eq k) rfl _ (RowsLib.lane_sum _ _ _ _) x
  · exact fun x => RowsLib.piece_eq _ _ X P 128 _ _ _ (k0_off827_inb k) (k0_off827_inb k) (k0_off828_inb k) k.val (k.val + 128) 64 (k0_off827_eq k) (k0_off828_eq k) rfl _ (RowsLib.lane_sum _ _ _ _) x
  · exact fun x => RowsLib.piece_eq _ _ X P 128 _ _ _ (k0_off825_inb k) (k0_off825_inb k) (k0_off826_inb k) k.val (k.val + 128) 48 (k0_off825_eq k) (k0_off826_eq k) rfl _ (RowsLib.lane_sum _ _ _ _) x
  · exact fun x => RowsLib.piece_eq _ _ X P 128 _ _ _ (k0_off823_inb k) (k0_off823_inb k) (k0_off824_inb k) k.val (k.val + 128) 32 (k0_off823_eq k) (k0_off824_eq k) rfl _ (RowsLib.lane_sum _ _ _ _) x
  · exact fun x => RowsLib.piece_eq _ _ X P 128 _ _ _ (k0_off821_inb k) (k0_off821_inb k) (k0_off822_inb k) k.val (k.val + 128) 16 (k0_off821_eq k) (k0_off822_eq k) rfl _ (RowsLib.lane_sum _ _ _ _) x
  · exact fun x => RowsLib.piece_eq _ _ X P 128 _ _ _ (k0_off819_inb k) (k0_off819_inb k) (k0_off820_inb k) k.val (k.val + 128) 0 (k0_off819_eq k) (k0_off820_eq k) rfl _ (RowsLib.lane_sum _ _ _ _) x

set_option maxHeartbeats 2000000 in
/-- The eight pieces of trip k cover row k. -/
theorem trip_cover_t52 (d : Dev nD) (L : grid0.Coords) (v2 : BitVec 32) (X : BufTy.Contents (Elt F) (ibS1).view.ty) (P : BufTy.Contents (Elt F) (qV).view.ty)
    (k : Fin k0_t52_loop.trips) (r c : Fin 128) (hr : k.val = r.val) :
    ∃ p ∈ tripL_t52 (F := F) d L v2 X P k, (ValueIdx.ix2 r c : RowsLib.SS.Idx) ∈ p.1.set := by
  unfold tripL_t52 trip_t52
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off819_inb k) r c k.val 0 (k0_off819_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off821_inb k) r c k.val 16 (k0_off821_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off823_inb k) r c k.val 32 (k0_off823_eq k) hr h.1 h.2⟩
  · exact ⟨_, List.mem_cons_of_mem _ (List.mem_cons_of_mem _ (List.mem_cons_of_mem _ (List.mem_cons_of_mem _ (List.mem_cons_self)))), RowsLib.mem_unit _ (k0_off825_inb k) r c k.val 48 (k0_off825_eq k) hr h.1 h.2⟩
  · exact ⟨_, List.mem_cons_of_mem _ (List.mem_cons_of_mem _ (List.mem_cons_of_mem _ (List.mem_cons_self))), RowsLib.mem_unit _ (k0_off827_inb k) r c k.val 64 (k0_off827_eq k) hr h.1 h.2⟩
  · exact ⟨_, List.mem_cons_of_mem _ (List.mem_cons_of_mem _ (List.mem_cons_self)), RowsLib.mem_unit _ (k0_off829_inb k) r c k.val 80 (k0_off829_eq k) hr h.1 h.2⟩
  · exact ⟨_, List.mem_cons_of_mem _ (List.mem_cons_self), RowsLib.mem_unit _ (k0_off831_inb k) r c k.val 96 (k0_off831_eq k) hr h.1 h.2⟩
  · exact ⟨_, List.mem_cons_self, RowsLib.mem_unit _ (k0_off833_inb k) r c k.val 112 (k0_off833_eq k) hr h.1 h.2⟩

/-- The slot of sums after row loop 52, as the row-sum function: at (r, c) the gathered rows' entry plus the positional scratch's entry of row r + 128. -/
theorem rows_t52_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t52 (F := F) d L v2 X P 128)) (ValueIdx.ix2 r c)
      = RowsLib.rowG (ibS1).view (qV).view X P 128 (by omega) (ValueIdx.ix2 r c) :=
  RowsLib.read_writes_trips (n := k0_t52_loop.trips) (pb_t52 (F := F) d L v2 X P) (tripL_t52 (F := F) d L v2 X P) (obS1).view G _
    rfl (pb_t52_succ (F := F) d L v2 X P) (trip_pieces_t52 d L v2 X P) _ ⟨r.val, r.isLt⟩ (trip_cover_t52 d L v2 X P ⟨r.val, r.isLt⟩ r c rfl)

/-- THE SLOT OF SUMS AFTER ROW LOOP 52, whatever it held before: at (r, c) the gathered rows' entry (r, c) plus the positional
    scratch's entry (r + 128, c). -/
theorem rows_t52 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t52 (F := F) d L v2 X P (Scf.trips k0_t52_loop.lb k0_t52_loop.ub k0_t52_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t52_G d L v2 X P G r c

/-! ### the value of row loop 53 (slot 0, positional rows 0 … 127) -/

theorem trips_t53 : k0_t53_loop.trips = 128 := rfl

set_option maxHeartbeats 2000000 in
/-- Every piece of a trip of row loop 53 is the row sum on its rectangle. -/
theorem trip_pieces_t53 (d : Dev nD) (L : grid0.Coords) (v2 wa wb : BitVec 32) (X : BufTy.Contents (Elt F) (ibS0).view.ty) (P : BufTy.Contents (Elt F) (qV).view.ty) (k : Fin k0_t53_loop.trips) :
    ∀ p ∈ tripL_t53 (F := F) d L v2 wa wb X P k, ∀ x : p.1.shape.Idx, p.2 x = RowsLib.rowG (ibS0).view (qV).view X P 0 (by omega) (p.1.emb x) := by
  unfold tripL_t53 trip_t53
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off849_inb k) (k0_off849_inb k) (k0_off850_inb k) k.val (k.val + 0) 112 (k0_off849_eq k) (k0_off850_eq k) rfl _ (RowsLib.lane_sum _ _ _ _) x
  · exact fun x => RowsLib.piece_eq _ _ X P 0 _ _ _ (k0_off847_inb k) (k0_off847_inb k) (k0_off848_inb k) k.val (k.val + 0) 96 (k0_off847_eq k) (k0_off848_eq k) rfl _ (RowsLib.lane_sum _ _ _ _) x
  · exact fun x => RowsLib.piece_eq _ _ X P 0 _ _ _ (k0_off845_inb k) (k0_off845_inb k) (k0_off846_inb k) k.val (k.val + 0) 80 (k0_off845_eq k) (k0_off846_eq k) rfl _ (RowsLib.lane_sum _ _ _ _) x
  · exact fun x => RowsLib.piece_eq _ _ X P 0 _ _ _ (k0_off843_inb k) (k0_off843_inb k) (k0_off844_inb k) k.val (k.val + 0) 64 (k0_off843_eq k) (k0_off844_eq k) rfl _ (RowsLib.lane_sum _ _ _ _) x
  · exact fun x => RowsLib.piece_eq _ _ X P 0 _ _ _ (k0_off841_inb k) (k0_off841_inb k) (k0_off842_inb k) k.val (k.val + 0) 48 (k0_off841_eq k) (k0_off842_eq k) rfl _ (RowsLib.lane_sum _ _ _ _) x
  · exact fun x => RowsLib.piece_eq _ _ X P 0 _ _ _ (k0_off839_inb k) (k0_off839_inb k) (k0_off840_inb k) k.val (k.val + 0) 32 (k0_off839_eq k) (k0_off840_eq k) rfl _ (RowsLib.lane_sum _ _ _ _) x
  · exact fun x => RowsLib.piece_eq _ _ X P 0 _ _ _ (k0_off837_inb k) (k0_off837_inb k) (k0_off838_inb k) k.val (k.val + 0) 16 (k0_off837_eq k) (k0_off838_eq k) rfl _ (RowsLib.lane_sum _ _ _ _) x
  · exact fun x => RowsLib.piece_eq _ _ X P 0 _ _ _ (k0_off835_inb k) (k0_off835_inb k) (k0_off836_inb k) k.val (k.val + 0) 0 (k0_off835_eq k) (k0_off836_eq k) rfl _ (RowsLib.lane_sum _ _ _ _) x

set_option maxHeartbeats 2000000 in
/-- The eight pieces of trip k cover row k. -/
theorem trip_cover_t53 (d : Dev nD) (L : grid0.Coords) (v2 wa wb : BitVec 32) (X : BufTy.Contents (Elt F) (ibS0).view.ty) (P : BufTy.Contents (Elt F) (qV).view.ty)
    (k : Fin k0_t53_loop.trips) (r c : Fin 128) (hr : k.val = r.val) :
    ∃ p ∈ tripL_t53 (F := F) d L v2 wa wb X P k, (ValueIdx.ix2 r c : RowsLib.SS.Idx) ∈ p.1.set := by
  unfold tripL_t53 trip_t53
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off835_inb k) r c k.val 0 (k0_off835_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off837_inb k) r c k.val 16 (k0_off837_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off839_inb k) r c k.val 32 (k0_off839_eq k) hr h.1 h.2⟩
  · exact ⟨_, List.mem_cons_of_mem _ (List.mem_cons_of_mem _ (List.mem_cons_of_mem _ (List.mem_cons_of_mem _ (List.mem_cons_self)))), RowsLib.mem_unit _ (k0_off841_inb k) r c k.val 48 (k0_off841_eq k) hr h.1 h.2⟩
  · exact ⟨_, List.mem_cons_of_mem _ (List.mem_cons_of_mem _ (List.mem_cons_of_mem _ (List.mem_cons_self))), RowsLib.mem_unit _ (k0_off843_inb k) r c k.val 64 (k0_off843_eq k) hr h.1 h.2⟩
  · exact ⟨_, List.mem_cons_of_mem _ (List.mem_cons_of_mem _ (List.mem_cons_self)), RowsLib.mem_unit _ (k0_off845_inb k) r c k.val 80 (k0_off845_eq k) hr h.1 h.2⟩
  · exact ⟨_, List.mem_cons_of_mem _ (List.mem_cons_self), RowsLib.mem_unit _ (k0_off847_inb k) r c k.val 96 (k0_off847_eq k) hr h.1 h.2⟩
  · exact ⟨_, List.mem_cons_self, RowsLib.mem_unit _ (k0_off849_inb k) r c k.val 112 (k0_off849_eq k) hr h.1 h.2⟩

/-- The slot of sums after row loop 53, as the row-sum function: at (r, c) the gathered rows' entry plus the positional scratch's entry of row r + 0. -/
theorem rows_t53_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t53 (F := F) d L v2 wa wb X P 128)) (ValueIdx.ix2 r c)
      = RowsLib.rowG (ibS0).view (qV).view X P 0 (by omega) (ValueIdx.ix2 r c) :=
  RowsLib.read_writes_trips (n := k0_t53_loop.trips) (pb_t53 (F := F) d L v2 wa wb X P) (tripL_t53 (F := F) d L v2 wa wb X P) (obS0).view G _
    rfl (pb_t53_succ (F := F) d L v2 wa wb X P) (trip_pieces_t53 d L v2 wa wb X P) _ ⟨r.val, r.isLt⟩ (trip_cover_t53 d L v2 wa wb X P ⟨r.val, r.isLt⟩ r c rfl)

/-- THE SLOT OF SUMS AFTER ROW LOOP 53, whatever it held before: at (r, c) the gathered rows' entry (r, c) plus the positional
    scratch's entry (r + 0, c). -/
theorem rows_t53 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t53 (F := F) d L v2 wa wb X P (Scf.trips k0_t53_loop.lb k0_t53_loop.ub k0_t53_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t53_G d L v2 wa wb X P G r c

/-! ### the value of row loop 54 (slot 1, positional rows 128 … 255) -/

theorem trips_t54 : k0_t54_loop.trips = 128 := rfl

set_option maxHeartbeats 2000000 in
/-- Every piece of a trip of row loop 54 is the row sum on its rectangle. -/
theorem trip_pieces_t54 (d : Dev nD) (L : grid0.Coords) (v2 : BitVec 32) (X : BufTy.Contents (Elt F) (ibS1).view.ty) (P : BufTy.Contents (Elt F) (qV).view.ty) (k : Fin k0_t54_loop.trips) :
    ∀ p ∈ tripL_t54 (F := F) d L v2 X P k, ∀ x : p.1.shape.Idx, p.2 x = RowsLib.rowG (ibS1).view (qV).view X P 128 (by omega) (p.1.emb x) := by
  unfold tripL_t54 trip_t54
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off865_inb k) (k0_off865_inb k) (k0_off866_inb k) k.val (k.val + 128) 112 (k0_off865_eq k) (k0_off866_eq k) rfl _ (RowsLib.lane_sum _ _ _ _) x
  · exact fun x => RowsLib.piece_eq _ _ X P 128 _ _ _ (k0_off863_inb k) (k0_off863_inb k) (k0_off864_inb k) k.val (k.val + 128) 96 (k0_off863_eq k) (k0_off864_eq k) rfl _ (RowsLib.lane_sum _ _ _ _) x
  · exact fun x => RowsLib.piece_eq _ _ X P 128 _ _ _ (k0_off861_inb k) (k0_off861_inb k) (k0_off862_inb k) k.val (k.val + 128) 80 (k0_off861_eq k) (k0_off862_eq k) rfl _ (RowsLib.lane_sum _ _ _ _) x
  · exact fun x => RowsLib.piece_eq _ _ X P 128 _ _ _ (k0_off859_inb k) (k0_off859_inb k) (k0_off860_inb k) k.val (k.val + 128) 64 (k0_off859_eq k) (k0_off860_eq k) rfl _ (RowsLib.lane_sum _ _ _ _) x
  · exact fun x => RowsLib.piece_eq _ _ X P 128 _ _ _ (k0_off857_inb k) (k0_off857_inb k) (k0_off858_inb k) k.val (k.val + 128) 48 (k0_off857_eq k) (k0_off858_eq k) rfl _ (RowsLib.lane_sum _ _ _ _) x
  · exact fun x => RowsLib.piece_eq _ _ X P 128 _ _ _ (k0_off855_inb k) (k0_off855_inb k) (k0_off856_inb k) k.val (k.val + 128) 32 (k0_off855_eq k) (k0_off856_eq k) rfl _ (RowsLib.lane_sum _ _ _ _) x
  · exact fun x => RowsLib.piece_eq _ _ X P 128 _ _ _ (k0_off853_inb k) (k0_off853_inb k) (k0_off854_inb k) k.val (k.val + 128) 16 (k0_off853_eq k) (k0_off854_eq k) rfl _ (RowsLib.lane_sum _ _ _ _) x
  · exact fun x => RowsLib.piece_eq _ _ X P 128 _ _ _ (k0_off851_inb k) (k0_off851_inb k) (k0_off852_inb k) k.val (k.val + 128) 0 (k0_off851_eq k) (k0_off852_eq k) rfl _ (RowsLib.lane_sum _ _ _ _) x

set_option maxHeartbeats 2000000 in
/-- The eight pieces of trip k cover row k. -/
theorem trip_cover_t54 (d : Dev nD) (L : grid0.Coords) (v2 : BitVec 32) (X : BufTy.Contents (Elt F) (ibS1).view.ty) (P : BufTy.Contents (Elt F) (qV).view.ty)
    (k : Fin k0_t54_loop.trips) (r c : Fin 128) (hr : k.val = r.val) :
    ∃ p ∈ tripL_t54 (F := F) d L v2 X P k, (ValueIdx.ix2 r c : RowsLib.SS.Idx) ∈ p.1.set := by
  unfold tripL_t54 trip_t54
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off851_inb k) r c k.val 0 (k0_off851_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off853_inb k) r c k.val 16 (k0_off853_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off855_inb k) r c k.val 32 (k0_off855_eq k) hr h.1 h.2⟩
  · exact ⟨_, List.mem_cons_of_mem _ (List.mem_cons_of_mem _ (List.mem_cons_of_mem _ (List.mem_cons_of_mem _ (List.mem_cons_self)))), RowsLib.mem_unit _ (k0_off857_inb k) r c k.val 48 (k0_off857_eq k) hr h.1 h.2⟩
  · exact ⟨_, List.mem_cons_of_mem _ (List.mem_cons_of_mem _ (List.mem_cons_of_mem _ (List.mem_cons_self))), RowsLib.mem_unit _ (k0_off859_inb k) r c k.val 64 (k0_off859_eq k) hr h.1 h.2⟩
  · exact ⟨_, List.mem_cons_of_mem _ (List.mem_cons_of_mem _ (List.mem_cons_self)), RowsLib.mem_unit _ (k0_off861_inb k) r c k.val 80 (k0_off861_eq k) hr h.1 h.2⟩
  · exact ⟨_, List.mem_cons_of_mem _ (List.mem_cons_self), RowsLib.mem_unit _ (k0_off863_inb k) r c k.val 96 (k0_off863_eq k) hr h.1 h.2⟩
  · exact ⟨_, List.mem_cons_self, RowsLib.mem_unit _ (k0_off865_inb k) r c k.val 112 (k0_off865_eq k) hr h.1 h.2⟩

/-- The slot of sums after row loop 54, as the row-sum function: at (r, c) the gathered rows' entry plus the positional scratch's entry of row r + 128. -/
theorem rows_t54_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t54 (F := F) d L v2 X P 128)) (ValueIdx.ix2 r c)
      = RowsLib.rowG (ibS1).view (qV).view X P 128 (by omega) (ValueIdx.ix2 r c) :=
  RowsLib.read_writes_trips (n := k0_t54_loop.trips) (pb_t54 (F := F) d L v2 X P) (tripL_t54 (F := F) d L v2 X P) (obS1).view G _
    rfl (pb_t54_succ (F := F) d L v2 X P) (trip_pieces_t54 d L v2 X P) _ ⟨r.val, r.isLt⟩ (trip_cover_t54 d L v2 X P ⟨r.val, r.isLt⟩ r c rfl)

/-- THE SLOT OF SUMS AFTER ROW LOOP 54, whatever it held before: at (r, c) the gathered rows' entry (r, c) plus the positional
    scratch's entry (r + 128, c). -/
theorem rows_t54 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t54 (F := F) d L v2 X P (Scf.trips k0_t54_loop.lb k0_t54_loop.ub k0_t54_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t54_G d L v2 X P G r c

/-! ### the value of row loop 55 (slot 0, positional rows 0 … 127) -/

theorem trips_t55 : k0_t55_loop.trips = 128 := rfl

set_option maxHeartbeats 2000000 in
/-- Every piece of a trip of row loop 55 is the row sum on its rectangle. -/
theorem trip_pieces_t55 (d : Dev nD) (L : grid0.Coords) (v2 : BitVec 32) (X : BufTy.Contents (Elt F) (ibS0).view.ty) (P : BufTy.Contents (Elt F) (qV).view.ty) (k : Fin k0_t55_loop.trips) :
    ∀ p ∈ tripL_t55 (F := F) d L v2 X P k, ∀ x : p.1.shape.Idx, p.2 x = RowsLib.rowG (ibS0).view (qV).view X P 0 (by omega) (p.1.emb x) := by
  unfold tripL_t55 trip_t55
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off881_inb k) (k0_off881_inb k) (k0_off882_inb k) k.val (k.val + 0) 112 (k0_off881_eq k) (k0_off882_eq k) rfl _ (RowsLib.lane_sum _ _ _ _) x
  · exact fun x => RowsLib.piece_eq _ _ X P 0 _ _ _ (k0_off879_inb k) (k0_off879_inb k) (k0_off880_inb k) k.val (k.val + 0) 96 (k0_off879_eq k) (k0_off880_eq k) rfl _ (RowsLib.lane_sum _ _ _ _) x
  · exact fun x => RowsLib.piece_eq _ _ X P 0 _ _ _ (k0_off877_inb k) (k0_off877_inb k) (k0_off878_inb k) k.val (k.val + 0) 80 (k0_off877_eq k) (k0_off878_eq k) rfl _ (RowsLib.lane_sum _ _ _ _) x
  · exact fun x => RowsLib.piece_eq _ _ X P 0 _ _ _ (k0_off875_inb k) (k0_off875_inb k) (k0_off876_inb k) k.val (k.val + 0) 64 (k0_off875_eq k) (k0_off876_eq k) rfl _ (RowsLib.lane_sum _ _ _ _) x
  · exact fun x => RowsLib.piece_eq _ _ X P 0 _ _ _ (k0_off873_inb k) (k0_off873_inb k) (k0_off874_inb k) k.val (k.val + 0) 48 (k0_off873_eq k) (k0_off874_eq k) rfl _ (RowsLib.lane_sum _ _ _ _) x
  · exact fun x => RowsLib.piece_eq _ _ X P 0 _ _ _ (k0_off871_inb k) (k0_off871_inb k) (k0_off872_inb k) k.val (k.val + 0) 32 (k0_off871_eq k) (k0_off872_eq k) rfl _ (RowsLib.lane_sum _ _ _ _) x
  · exact fun x => RowsLib.piece_eq _ _ X P 0 _ _ _ (k0_off869_inb k) (k0_off869_inb k) (k0_off870_inb k) k.val (k.val + 0) 16 (k0_off869_eq k) (k0_off870_eq k) rfl _ (RowsLib.lane_sum _ _ _ _) x
  · exact fun x => RowsLib.piece_eq _ _ X P 0 _ _ _ (k0_off867_inb k) (k0_off867_inb k) (k0_off868_inb k) k.val (k.val + 0) 0 (k0_off867_eq k) (k0_off868_eq k) rfl _ (RowsLib.lane_sum _ _ _ _) x

set_option maxHeartbeats 2000000 in
/-- The eight pieces of trip k cover row k. -/
theorem trip_cover_t55 (d : Dev nD) (L : grid0.Coords) (v2 : BitVec 32) (X : BufTy.Contents (Elt F) (ibS0).view.ty) (P : BufTy.Contents (Elt F) (qV).view.ty)
    (k : Fin k0_t55_loop.trips) (r c : Fin 128) (hr : k.val = r.val) :
    ∃ p ∈ tripL_t55 (F := F) d L v2 X P k, (ValueIdx.ix2 r c : RowsLib.SS.Idx) ∈ p.1.set := by
  unfold tripL_t55 trip_t55
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off867_inb k) r c k.val 0 (k0_off867_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off869_inb k) r c k.val 16 (k0_off869_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off871_inb k) r c k.val 32 (k0_off871_eq k) hr h.1 h.2⟩
  · exact ⟨_, List.mem_cons_of_mem _ (List.mem_cons_of_mem _ (List.mem_cons_of_mem _ (List.mem_cons_of_mem _ (List.mem_cons_self)))), RowsLib.mem_unit _ (k0_off873_inb k) r c k.val 48 (k0_off873_eq k) hr h.1 h.2⟩
  · exact ⟨_, List.mem_cons_of_mem _ (List.mem_cons_of_mem _ (List.mem_cons_of_mem _ (List.mem_cons_self))), RowsLib.mem_unit _ (k0_off875_inb k) r c k.val 64 (k0_off875_eq k) hr h.1 h.2⟩
  · exact ⟨_, List.mem_cons_of_mem _ (List.mem_cons_of_mem _ (List.mem_cons_self)), RowsLib.mem_unit _ (k0_off877_inb k) r c k.val 80 (k0_off877_eq k) hr h.1 h.2⟩
  · exact ⟨_, List.mem_cons_of_mem _ (List.mem_cons_self), RowsLib.mem_unit _ (k0_off879_inb k) r c k.val 96 (k0_off879_eq k) hr h.1 h.2⟩
  · exact ⟨_, List.mem_cons_self, RowsLib.mem_unit _ (k0_off881_inb k) r c k.val 112 (k0_off881_eq k) hr h.1 h.2⟩

/-- The slot of sums after row loop 55, as the row-sum function: at (r, c) the gathered rows' entry plus the positional scratch's entry of row r + 0. -/
theorem rows_t55_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t55 (F := F) d L v2 X P 128)) (ValueIdx.ix2 r c)
      = RowsLib.rowG (ibS0).view (qV).view X P 0 (by omega) (ValueIdx.ix2 r c) :=
  RowsLib.read_writes_trips (n := k0_t55_loop.trips) (pb_t55 (F := F) d L v2 X P) (tripL_t55 (F := F) d L v2 X P) (obS0).view G _
    rfl (pb_t55_succ (F := F) d L v2 X P) (trip_pieces_t55 d L v2 X P) _ ⟨r.val, r.isLt⟩ (trip_cover_t55 d L v2 X P ⟨r.val, r.isLt⟩ r c rfl)

/-- THE SLOT OF SUMS AFTER ROW LOOP 55, whatever it held before: at (r, c) the gathered rows' entry (r, c) plus the positional
    scratch's entry (r + 0, c). -/
theorem rows_t55 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t55 (F := F) d L v2 X P (Scf.trips k0_t55_loop.lb k0_t55_loop.ub k0_t55_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t55_G d L v2 X P G r c

/-! ### the value of row loop 56 (slot 1, positional rows 128 … 255) -/

theorem trips_t56 : k0_t56_loop.trips = 128 := rfl

set_option maxHeartbeats 2000000 in
/-- Every piece of a trip of row loop 56 is the row sum on its rectangle. -/
theorem trip_pieces_t56 (d : Dev nD) (L : grid0.Coords) (v2 : BitVec 32) (X : BufTy.Contents (Elt F) (ibS1).view.ty) (P : BufTy.Contents (Elt F) (qV).view.ty) (k : Fin k0_t56_loop.trips) :
    ∀ p ∈ tripL_t56 (F := F) d L v2 X P k, ∀ x : p.1.shape.Idx, p.2 x = RowsLib.rowG (ibS1).view (qV).view X P 128 (by omega) (p.1.emb x) := by
  unfold tripL_t56 trip_t56
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off897_inb k) (k0_off897_inb k) (k0_off898_inb k) k.val (k.val + 128) 112 (k0_off897_eq k) (k0_off898_eq k) rfl _ (RowsLib.lane_sum _ _ _ _) x
  · exact fun x => RowsLib.piece_eq _ _ X P 128 _ _ _ (k0_off895_inb k) (k0_off895_inb k) (k0_off896_inb k) k.val (k.val + 128) 96 (k0_off895_eq k) (k0_off896_eq k) rfl _ (RowsLib.lane_sum _ _ _ _) x
  · exact fun x => RowsLib.piece_eq _ _ X P 128 _ _ _ (k0_off893_inb k) (k0_off893_inb k) (k0_off894_inb k) k.val (k.val + 128) 80 (k0_off893_eq k) (k0_off894_eq k) rfl _ (RowsLib.lane_sum _ _ _ _) x
  · exact fun x => RowsLib.piece_eq _ _ X P 128 _ _ _ (k0_off891_inb k) (k0_off891_inb k) (k0_off892_inb k) k.val (k.val + 128) 64 (k0_off891_eq k) (k0_off892_eq k) rfl _ (RowsLib.lane_sum _ _ _ _) x
  · exact fun x => RowsLib.piece_eq _ _ X P 128 _ _ _ (k0_off889_inb k) (k0_off889_inb k) (k0_off890_inb k) k.val (k.val + 128) 48 (k0_off889_eq k) (k0_off890_eq k) rfl _ (RowsLib.lane_sum _ _ _ _) x
  · exact fun x => RowsLib.piece_eq _ _ X P 128 _ _ _ (k0_off887_inb k) (k0_off887_inb k) (k0_off888_inb k) k.val (k.val + 128) 32 (k0_off887_eq k) (k0_off888_eq k) rfl _ (RowsLib.lane_sum _ _ _ _) x
  · exact fun x => RowsLib.piece_eq _ _ X P 128 _ _ _ (k0_off885_inb k) (k0_off885_inb k) (k0_off886_inb k) k.val (k.val + 128) 16 (k0_off885_eq k) (k0_off886_eq k) rfl _ (RowsLib.lane_sum _ _ _ _) x
  · exact fun x => RowsLib.piece_eq _ _ X P 128 _ _ _ (k0_off883_inb k) (k0_off883_inb k) (k0_off884_inb k) k.val (k.val + 128) 0 (k0_off883_eq k) (k0_off884_eq k) rfl _ (RowsLib.lane_sum _ _ _ _) x

set_option maxHeartbeats 2000000 in
/-- The eight pieces of trip k cover row k. -/
theorem trip_cover_t56 (d : Dev nD) (L : grid0.Coords) (v2 : BitVec 32) (X : BufTy.Contents (Elt F) (ibS1).view.ty) (P : BufTy.Contents (Elt F) (qV).view.ty)
    (k : Fin k0_t56_loop.trips) (r c : Fin 128) (hr : k.val = r.val) :
    ∃ p ∈ tripL_t56 (F := F) d L v2 X P k, (ValueIdx.ix2 r c : RowsLib.SS.Idx) ∈ p.1.set := by
  unfold tripL_t56 trip_t56
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off883_inb k) r c k.val 0 (k0_off883_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off885_inb k) r c k.val 16 (k0_off885_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off887_inb k) r c k.val 32 (k0_off887_eq k) hr h.1 h.2⟩
  · exact ⟨_, List.mem_cons_of_mem _ (List.mem_cons_of_mem _ (List.mem_cons_of_mem _ (List.mem_cons_of_mem _ (List.mem_cons_self)))), RowsLib.mem_unit _ (k0_off889_inb k) r c k.val 48 (k0_off889_eq k) hr h.1 h.2⟩
  · exact ⟨_, List.mem_cons_of_mem _ (List.mem_cons_of_mem _ (List.mem_cons_of_mem _ (List.mem_cons_self))), RowsLib.mem_unit _ (k0_off891_inb k) r c k.val 64 (k0_off891_eq k) hr h.1 h.2⟩
  · exact ⟨_, List.mem_cons_of_mem _ (List.mem_cons_of_mem _ (List.mem_cons_self)), RowsLib.mem_unit _ (k0_off893_inb k) r c k.val 80 (k0_off893_eq k) hr h.1 h.2⟩
  · exact ⟨_, List.mem_cons_of_mem _ (List.mem_cons_self), RowsLib.mem_unit _ (k0_off895_inb k) r c k.val 96 (k0_off895_eq k) hr h.1 h.2⟩
  · exact ⟨_, List.mem_cons_self, RowsLib.mem_unit _ (k0_off897_inb k) r c k.val 112 (k0_off897_eq k) hr h.1 h.2⟩

/-- The slot of sums after row loop 56, as the row-sum function: at (r, c) the gathered rows' entry plus the positional scratch's entry of row r + 128. -/
theorem rows_t56_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t56 (F := F) d L v2 X P 128)) (ValueIdx.ix2 r c)
      = RowsLib.rowG (ibS1).view (qV).view X P 128 (by omega) (ValueIdx.ix2 r c) :=
  RowsLib.read_writes_trips (n := k0_t56_loop.trips) (pb_t56 (F := F) d L v2 X P) (tripL_t56 (F := F) d L v2 X P) (obS1).view G _
    rfl (pb_t56_succ (F := F) d L v2 X P) (trip_pieces_t56 d L v2 X P) _ ⟨r.val, r.isLt⟩ (trip_cover_t56 d L v2 X P ⟨r.val, r.isLt⟩ r c rfl)

/-- THE SLOT OF SUMS AFTER ROW LOOP 56, whatever it held before: at (r, c) the gathered rows' entry (r, c) plus the positional
    scratch's entry (r + 128, c). -/
theorem rows_t56 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t56 (F := F) d L v2 X P (Scf.trips k0_t56_loop.lb k0_t56_loop.ub k0_t56_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t56_G d L v2 X P G r c

/-! ### the value of row loop 57 (slot 0, positional rows 0 … 127) -/

theorem trips_t57 : k0_t57_loop.trips = 128 := rfl

set_option maxHeartbeats 2000000 in
/-- Every piece of a trip of row loop 57 is the row sum on its rectangle. -/
theorem trip_pieces_t57 (d : Dev nD) (L : grid0.Coords) (v2 : BitVec 32) (X : BufTy.Contents (Elt F) (ibS0).view.ty) (P : BufTy.Contents (Elt F) (qV).view.ty) (k : Fin k0_t57_loop.trips) :
    ∀ p ∈ tripL_t57 (F := F) d L v2 X P k, ∀ x : p.1.shape.Idx, p.2 x = RowsLib.rowG (ibS0).view (qV).view X P 0 (by omega) (p.1.emb x) := by
  unfold tripL_t57 trip_t57
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off913_inb k) (k0_off913_inb k) (k0_off914_inb k) k.val (k.val + 0) 112 (k0_off913_eq k) (k0_off914_eq k) rfl _ (RowsLib.lane_sum _ _ _ _) x
  · exact fun x => RowsLib.piece_eq _ _ X P 0 _ _ _ (k0_off911_inb k) (k0_off911_inb k) (k0_off912_inb k) k.val (k.val + 0) 96 (k0_off911_eq k) (k0_off912_eq k) rfl _ (RowsLib.lane_sum _ _ _ _) x
  · exact fun x => RowsLib.piece_eq _ _ X P 0 _ _ _ (k0_off909_inb k) (k0_off909_inb k) (k0_off910_inb k) k.val (k.val + 0) 80 (k0_off909_eq k) (k0_off910_eq k) rfl _ (RowsLib.lane_sum _ _ _ _) x
  · exact fun x => RowsLib.piece_eq _ _ X P 0 _ _ _ (k0_off907_inb k) (k0_off907_inb k) (k0_off908_inb k) k.val (k.val + 0) 64 (k0_off907_eq k) (k0_off908_eq k) rfl _ (RowsLib.lane_sum _ _ _ _) x
  · exact fun x => RowsLib.piece_eq _ _ X P 0 _ _ _ (k0_off905_inb k) (k0_off905_inb k) (k0_off906_inb k) k.val (k.val + 0) 48 (k0_off905_eq k) (k0_off906_eq k) rfl _ (RowsLib.lane_sum _ _ _ _) x
  · exact fun x => RowsLib.piece_eq _ _ X P 0 _ _ _ (k0_off903_inb k) (k0_off903_inb k) (k0_off904_inb k) k.val (k.val + 0) 32 (k0_off903_eq k) (k0_off904_eq k) rfl _ (RowsLib.lane_sum _ _ _ _) x
  · exact fun x => RowsLib.piece_eq _ _ X P 0 _ _ _ (k0_off901_inb k) (k0_off901_inb k) (k0_off902_inb k) k.val (k.val + 0) 16 (k0_off901_eq k) (k0_off902_eq k) rfl _ (RowsLib.lane_sum _ _ _ _) x
  · exact fun x => RowsLib.piece_eq _ _ X P 0 _ _ _ (k0_off899_inb k) (k0_off899_inb k) (k0_off900_inb k) k.val (k.val + 0) 0 (k0_off899_eq k) (k0_off900_eq k) rfl _ (RowsLib.lane_sum _ _ _ _) x

set_option maxHeartbeats 2000000 in
/-- The eight pieces of trip k cover row k. -/
theorem trip_cover_t57 (d : Dev nD) (L : grid0.Coords) (v2 : BitVec 32) (X : BufTy.Contents (Elt F) (ibS0).view.ty) (P : BufTy.Contents (Elt F) (qV).view.ty)
    (k : Fin k0_t57_loop.trips) (r c : Fin 128) (hr : k.val = r.val) :
    ∃ p ∈ tripL_t57 (F := F) d L v2 X P k, (ValueIdx.ix2 r c : RowsLib.SS.Idx) ∈ p.1.set := by
  unfold tripL_t57 trip_t57
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off899_inb k) r c k.val 0 (k0_off899_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off901_inb k) r c k.val 16 (k0_off901_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off903_inb k) r c k.val 32 (k0_off903_eq k) hr h.1 h.2⟩
  · exact ⟨_, List.mem_cons_of_mem _ (List.mem_cons_of_mem _ (List.mem_cons_of_mem _ (List.mem_cons_of_mem _ (List.mem_cons_self)))), RowsLib.mem_unit _ (k0_off905_inb k) r c k.val 48 (k0_off905_eq k) hr h.1 h.2⟩
  · exact ⟨_, List.mem_cons_of_mem _ (List.mem_cons_of_mem _ (List.mem_cons_of_mem _ (List.mem_cons_self))), RowsLib.mem_unit _ (k0_off907_inb k) r c k.val 64 (k0_off907_eq k) hr h.1 h.2⟩
  · exact ⟨_, List.mem_cons_of_mem _ (List.mem_cons_of_mem _ (List.mem_cons_self)), RowsLib.mem_unit _ (k0_off909_inb k) r c k.val 80 (k0_off909_eq k) hr h.1 h.2⟩
  · exact ⟨_, List.mem_cons_of_mem _ (List.mem_cons_self), RowsLib.mem_unit _ (k0_off911_inb k) r c k.val 96 (k0_off911_eq k) hr h.1 h.2⟩
  · exact ⟨_, List.mem_cons_self, RowsLib.mem_unit _ (k0_off913_inb k) r c k.val 112 (k0_off913_eq k) hr h.1 h.2⟩

/-- The slot of sums after row loop 57, as the row-sum function: at (r, c) the gathered rows' entry plus the positional scratch's entry of row r + 0. -/
theorem rows_t57_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t57 (F := F) d L v2 X P 128)) (ValueIdx.ix2 r c)
      = RowsLib.rowG (ibS0).view (qV).view X P 0 (by omega) (ValueIdx.ix2 r c) :=
  RowsLib.read_writes_trips (n := k0_t57_loop.trips) (pb_t57 (F := F) d L v2 X P) (tripL_t57 (F := F) d L v2 X P) (obS0).view G _
    rfl (pb_t57_succ (F := F) d L v2 X P) (trip_pieces_t57 d L v2 X P) _ ⟨r.val, r.isLt⟩ (trip_cover_t57 d L v2 X P ⟨r.val, r.isLt⟩ r c rfl)

/-- THE SLOT OF SUMS AFTER ROW LOOP 57, whatever it held before: at (r, c) the gathered rows' entry (r, c) plus the positional
    scratch's entry (r + 0, c). -/
theorem rows_t57 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t57 (F := F) d L v2 X P (Scf.trips k0_t57_loop.lb k0_t57_loop.ub k0_t57_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t57_G d L v2 X P G r c

/-! ### the value of row loop 58 (slot 1, positional rows 128 … 255) -/

theorem trips_t58 : k0_t58_loop.trips = 128 := rfl

set_option maxHeartbeats 2000000 in
/-- Every piece of a trip of row loop 58 is the row sum on its rectangle. -/
theorem trip_pieces_t58 (d : Dev nD) (L : grid0.Coords) (v2 : BitVec 32) (X : BufTy.Contents (Elt F) (ibS1).view.ty) (P : BufTy.Contents (Elt F) (qV).view.ty) (k : Fin k0_t58_loop.trips) :
    ∀ p ∈ tripL_t58 (F := F) d L v2 X P k, ∀ x : p.1.shape.Idx, p.2 x = RowsLib.rowG (ibS1).view (qV).view X P 128 (by omega) (p.1.emb x) := by
  unfold tripL_t58 trip_t58
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off929_inb k) (k0_off929_inb k) (k0_off930_inb k) k.val (k.val + 128) 112 (k0_off929_eq k) (k0_off930_eq k) rfl _ (RowsLib.lane_sum _ _ _ _) x
  · exact fun x => RowsLib.piece_eq _ _ X P 128 _ _ _ (k0_off927_inb k) (k0_off927_inb k) (k0_off928_inb k) k.val (k.val + 128) 96 (k0_off927_eq k) (k0_off928_eq k) rfl _ (RowsLib.lane_sum _ _ _ _) x
  · exact fun x => RowsLib.piece_eq _ _ X P 128 _ _ _ (k0_off925_inb k) (k0_off925_inb k) (k0_off926_inb k) k.val (k.val + 128) 80 (k0_off925_eq k) (k0_off926_eq k) rfl _ (RowsLib.lane_sum _ _ _ _) x
  · exact fun x => RowsLib.piece_eq _ _ X P 128 _ _ _ (k0_off923_inb k) (k0_off923_inb k) (k0_off924_inb k) k.val (k.val + 128) 64 (k0_off923_eq k) (k0_off924_eq k) rfl _ (RowsLib.lane_sum _ _ _ _) x
  · exact fun x => RowsLib.piece_eq _ _ X P 128 _ _ _ (k0_off921_inb k) (k0_off921_inb k) (k0_off922_inb k) k.val (k.val + 128) 48 (k0_off921_eq k) (k0_off922_eq k) rfl _ (RowsLib.lane_sum _ _ _ _) x
  · exact fun x => RowsLib.piece_eq _ _ X P 128 _ _ _ (k0_off919_inb k) (k0_off919_inb k) (k0_off920_inb k) k.val (k.val + 128) 32 (k0_off919_eq k) (k0_off920_eq k) rfl _ (RowsLib.lane_sum _ _ _ _) x
  · exact fun x => RowsLib.piece_eq _ _ X P 128 _ _ _ (k0_off917_inb k) (k0_off917_inb k) (k0_off918_inb k) k.val (k.val + 128) 16 (k0_off917_eq k) (k0_off918_eq k) rfl _ (RowsLib.lane_sum _ _ _ _) x
  · exact fun x => RowsLib.piece_eq _ _ X P 128 _ _ _ (k0_off915_inb k) (k0_off915_inb k) (k0_off916_inb k) k.val (k.val + 128) 0 (k0_off915_eq k) (k0_off916_eq k) rfl _ (RowsLib.lane_sum _ _ _ _) x

set_option maxHeartbeats 2000000 in
/-- The eight pieces of trip k cover row k. -/
theorem trip_cover_t58 (d : Dev nD) (L : grid0.Coords) (v2 : BitVec 32) (X : BufTy.Contents (Elt F) (ibS1).view.ty) (P : BufTy.Contents (Elt F) (qV).view.ty)
    (k : Fin k0_t58_loop.trips) (r c : Fin 128) (hr : k.val = r.val) :
    ∃ p ∈ tripL_t58 (F := F) d L v2 X P k, (ValueIdx.ix2 r c : RowsLib.SS.Idx) ∈ p.1.set := by
  unfold tripL_t58 trip_t58
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off915_inb k) r c k.val 0 (k0_off915_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off917_inb k) r c k.val 16 (k0_off917_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off919_inb k) r c k.val 32 (k0_off919_eq k) hr h.1 h.2⟩
  · exact ⟨_, List.mem_cons_of_mem _ (List.mem_cons_of_mem _ (List.mem_cons_of_mem _ (List.mem_cons_of_mem _ (List.mem_cons_self)))), RowsLib.mem_unit _ (k0_off921_inb k) r c k.val 48 (k0_off921_eq k) hr h.1 h.2⟩
  · exact ⟨_, List.mem_cons_of_mem _ (List.mem_cons_of_mem _ (List.mem_cons_of_mem _ (List.mem_cons_self))), RowsLib.mem_unit _ (k0_off923_inb k) r c k.val 64 (k0_off923_eq k) hr h.1 h.2⟩
  · exact ⟨_, List.mem_cons_of_mem _ (List.mem_cons_of_mem _ (List.mem_cons_self)), RowsLib.mem_unit _ (k0_off925_inb k) r c k.val 80 (k0_off925_eq k) hr h.1 h.2⟩
  · exact ⟨_, List.mem_cons_of_mem _ (List.mem_cons_self), RowsLib.mem_unit _ (k0_off927_inb k) r c k.val 96 (k0_off927_eq k) hr h.1 h.2⟩
  · exact ⟨_, List.mem_cons_self, RowsLib.mem_unit _ (k0_off929_inb k) r c k.val 112 (k0_off929_eq k) hr h.1 h.2⟩

/-- The slot of sums after row loop 58, as the row-sum function: at (r, c) the gathered rows' entry plus the positional scratch's entry of row r + 128. -/
theorem rows_t58_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t58 (F := F) d L v2 X P 128)) (ValueIdx.ix2 r c)
      = RowsLib.rowG (ibS1).view (qV).view X P 128 (by omega) (ValueIdx.ix2 r c) :=
  RowsLib.read_writes_trips (n := k0_t58_loop.trips) (pb_t58 (F := F) d L v2 X P) (tripL_t58 (F := F) d L v2 X P) (obS1).view G _
    rfl (pb_t58_succ (F := F) d L v2 X P) (trip_pieces_t58 d L v2 X P) _ ⟨r.val, r.isLt⟩ (trip_cover_t58 d L v2 X P ⟨r.val, r.isLt⟩ r c rfl)

/-- THE SLOT OF SUMS AFTER ROW LOOP 58, whatever it held before: at (r, c) the gathered rows' entry (r, c) plus the positional
    scratch's entry (r + 128, c). -/
theorem rows_t58 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t58 (F := F) d L v2 X P (Scf.trips k0_t58_loop.lb k0_t58_loop.ub k0_t58_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t58_G d L v2 X P G r c

/-! ### the value of row loop 59 (slot 0, positional rows 0 … 127) -/

theorem trips_t59 : k0_t59_loop.trips = 128 := rfl

set_option maxHeartbeats 2000000 in
/-- Every piece of a trip of row loop 59 is the row sum on its rectangle. -/
theorem trip_pieces_t59 (d : Dev nD) (L : grid0.Coords) (v2 : BitVec 32) (X : BufTy.Contents (Elt F) (ibS0).view.ty) (P : BufTy.Contents (Elt F) (qV).view.ty) (k : Fin k0_t59_loop.trips) :
    ∀ p ∈ tripL_t59 (F := F) d L v2 X P k, ∀ x : p.1.shape.Idx, p.2 x = RowsLib.rowG (ibS0).view (qV).view X P 0 (by omega) (p.1.emb x) := by
  unfold tripL_t59 trip_t59
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off945_inb k) (k0_off945_inb k) (k0_off946_inb k) k.val (k.val + 0) 112 (k0_off945_eq k) (k0_off946_eq k) rfl _ (RowsLib.lane_sum _ _ _ _) x
  · exact fun x => RowsLib.piece_eq _ _ X P 0 _ _ _ (k0_off943_inb k) (k0_off943_inb k) (k0_off944_inb k) k.val (k.val + 0) 96 (k0_off943_eq k) (k0_off944_eq k) rfl _ (RowsLib.lane_sum _ _ _ _) x
  · exact fun x => RowsLib.piece_eq _ _ X P 0 _ _ _ (k0_off941_inb k) (k0_off941_inb k) (k0_off942_inb k) k.val (k.val + 0) 80 (k0_off941_eq k) (k0_off942_eq k) rfl _ (RowsLib.lane_sum _ _ _ _) x
  · exact fun x => RowsLib.piece_eq _ _ X P 0 _ _ _ (k0_off939_inb k) (k0_off939_inb k) (k0_off940_inb k) k.val (k.val + 0) 64 (k0_off939_eq k) (k0_off940_eq k) rfl _ (RowsLib.lane_sum _ _ _ _) x
  · exact fun x => RowsLib.piece_eq _ _ X P 0 _ _ _ (k0_off937_inb k) (k0_off937_inb k) (k0_off938_inb k) k.val (k.val + 0) 48 (k0_off937_eq k) (k0_off938_eq k) rfl _ (RowsLib.lane_sum _ _ _ _) x
  · exact fun x => RowsLib.piece_eq _ _ X P 0 _ _ _ (k0_off935_inb k) (k0_off935_inb k) (k0_off936_inb k) k.val (k.val + 0) 32 (k0_off935_eq k) (k0_off936_eq k) rfl _ (RowsLib.lane_sum _ _ _ _) x
  · exact fun x => RowsLib.piece_eq _ _ X P 0 _ _ _ (k0_off933_inb k) (k0_off933_inb k) (k0_off934_inb k) k.val (k.val + 0) 16 (k0_off933_eq k) (k0_off934_eq k) rfl _ (RowsLib.lane_sum _ _ _ _) x
  · exact fun x => RowsLib.piece_eq _ _ X P 0 _ _ _ (k0_off931_inb k) (k0_off931_inb k) (k0_off932_inb k) k.val (k.val + 0) 0 (k0_off931_eq k) (k0_off932_eq k) rfl _ (RowsLib.lane_sum _ _ _ _) x

set_option maxHeartbeats 2000000 in
/-- The eight pieces of trip k cover row k. -/
theorem trip_cover_t59 (d : Dev nD) (L : grid0.Coords) (v2 : BitVec 32) (X : BufTy.Contents (Elt F) (ibS0).view.ty) (P : BufTy.Contents (Elt F) (qV).view.ty)
    (k : Fin k0_t59_loop.trips) (r c : Fin 128) (hr : k.val = r.val) :
    ∃ p ∈ tripL_t59 (F := F) d L v2 X P k, (ValueIdx.ix2 r c : RowsLib.SS.Idx) ∈ p.1.set := by
  unfold tripL_t59 trip_t59
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off931_inb k) r c k.val 0 (k0_off931_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off933_inb k) r c k.val 16 (k0_off933_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off935_inb k) r c k.val 32 (k0_off935_eq k) hr h.1 h.2⟩
  · exact ⟨_, List.mem_cons_of_mem _ (List.mem_cons_of_mem _ (List.mem_cons_of_mem _ (List.mem_cons_of_mem _ (List.mem_cons_self)))), RowsLib.mem_unit _ (k0_off937_inb k) r c k.val 48 (k0_off937_eq k) hr h.1 h.2⟩
  · exact ⟨_, List.mem_cons_of_mem _ (List.mem_cons_of_mem _ (List.mem_cons_of_mem _ (List.mem_cons_self))), RowsLib.mem_unit _ (k0_off939_inb k) r c k.val 64 (k0_off939_eq k) hr h.1 h.2⟩
  · exact ⟨_, List.mem_cons_of_mem _ (List.mem_cons_of_mem _ (List.mem_cons_self)), RowsLib.mem_unit _ (k0_off941_inb k) r c k.val 80 (k0_off941_eq k) hr h.1 h.2⟩
  · exact ⟨_, List.mem_cons_of_mem _ (List.mem_cons_self), RowsLib.mem_unit _ (k0_off943_inb k) r c k.val 96 (k0_off943_eq k) hr h.1 h.2⟩
  · exact ⟨_, List.mem_cons_self, RowsLib.mem_unit _ (k0_off945_inb k) r c k.val 112 (k0_off945_eq k) hr h.1 h.2⟩

/-- The slot of sums after row loop 59, as the row-sum function: at (r, c) the gathered rows' entry plus the positional scratch's entry of row r + 0. -/
theorem rows_t59_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t59 (F := F) d L v2 X P 128)) (ValueIdx.ix2 r c)
      = RowsLib.rowG (ibS0).view (qV).view X P 0 (by omega) (ValueIdx.ix2 r c) :=
  RowsLib.read_writes_trips (n := k0_t59_loop.trips) (pb_t59 (F := F) d L v2 X P) (tripL_t59 (F := F) d L v2 X P) (obS0).view G _
    rfl (pb_t59_succ (F := F) d L v2 X P) (trip_pieces_t59 d L v2 X P) _ ⟨r.val, r.isLt⟩ (trip_cover_t59 d L v2 X P ⟨r.val, r.isLt⟩ r c rfl)

/-- THE SLOT OF SUMS AFTER ROW LOOP 59, whatever it held before: at (r, c) the gathered rows' entry (r, c) plus the positional
    scratch's entry (r + 0, c). -/
theorem rows_t59 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t59 (F := F) d L v2 X P (Scf.trips k0_t59_loop.lb k0_t59_loop.ub k0_t59_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t59_G d L v2 X P G r c

/-! ### the value of row loop 60 (slot 1, positional rows 128 … 255) -/

theorem trips_t60 : k0_t60_loop.trips = 128 := rfl

set_option maxHeartbeats 2000000 in
/-- Every piece of a trip of row loop 60 is the row sum on its rectangle. -/
theorem trip_pieces_t60 (d : Dev nD) (L : grid0.Coords) (v2 : BitVec 32) (X : BufTy.Contents (Elt F) (ibS1).view.ty) (P : BufTy.Contents (Elt F) (qV).view.ty) (k : Fin k0_t60_loop.trips) :
    ∀ p ∈ tripL_t60 (F := F) d L v2 X P k, ∀ x : p.1.shape.Idx, p.2 x = RowsLib.rowG (ibS1).view (qV).view X P 128 (by omega) (p.1.emb x) := by
  unfold tripL_t60 trip_t60
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off961_inb k) (k0_off961_inb k) (k0_off962_inb k) k.val (k.val + 128) 112 (k0_off961_eq k) (k0_off962_eq k) rfl _ (RowsLib.lane_sum _ _ _ _) x
  · exact fun x => RowsLib.piece_eq _ _ X P 128 _ _ _ (k0_off959_inb k) (k0_off959_inb k) (k0_off960_inb k) k.val (k.val + 128) 96 (k0_off959_eq k) (k0_off960_eq k) rfl _ (RowsLib.lane_sum _ _ _ _) x
  · exact fun x => RowsLib.piece_eq _ _ X P 128 _ _ _ (k0_off957_inb k) (k0_off957_inb k) (k0_off958_inb k) k.val (k.val + 128) 80 (k0_off957_eq k) (k0_off958_eq k) rfl _ (RowsLib.lane_sum _ _ _ _) x
  · exact fun x => RowsLib.piece_eq _ _ X P 128 _ _ _ (k0_off955_inb k) (k0_off955_inb k) (k0_off956_inb k) k.val (k.val + 128) 64 (k0_off955_eq k) (k0_off956_eq k) rfl _ (RowsLib.lane_sum _ _ _ _) x
  · exact fun x => RowsLib.piece_eq _ _ X P 128 _ _ _ (k0_off953_inb k) (k0_off953_inb k) (k0_off954_inb k) k.val (k.val + 128) 48 (k0_off953_eq k) (k0_off954_eq k) rfl _ (RowsLib.lane_sum _ _ _ _) x
  · exact fun x => RowsLib.piece_eq _ _ X P 128 _ _ _ (k0_off951_inb k) (k0_off951_inb k) (k0_off952_inb k) k.val (k.val + 128) 32 (k0_off951_eq k) (k0_off952_eq k) rfl _ (RowsLib.lane_sum _ _ _ _) x
  · exact fun x => RowsLib.piece_eq _ _ X P 128 _ _ _ (k0_off949_inb k) (k0_off949_inb k) (k0_off950_inb k) k.val (k.val + 128) 16 (k0_off949_eq k) (k0_off950_eq k) rfl _ (RowsLib.lane_sum _ _ _ _) x
  · exact fun x => RowsLib.piece_eq _ _ X P 128 _ _ _ (k0_off947_inb k) (k0_off947_inb k) (k0_off948_inb k) k.val (k.val + 128) 0 (k0_off947_eq k) (k0_off948_eq k) rfl _ (RowsLib.lane_sum _ _ _ _) x

set_option maxHeartbeats 2000000 in
/-- The eight pieces of trip k cover row k. -/
theorem trip_cover_t60 (d : Dev nD) (L : grid0.Coords) (v2 : BitVec 32) (X : BufTy.Contents (Elt F) (ibS1).view.ty) (P : BufTy.Contents (Elt F) (qV).view.ty)
    (k : Fin k0_t60_loop.trips) (r c : Fin 128) (hr : k.val = r.val) :
    ∃ p ∈ tripL_t60 (F := F) d L v2 X P k, (ValueIdx.ix2 r c : RowsLib.SS.Idx) ∈ p.1.set := by
  unfold tripL_t60 trip_t60
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off947_inb k) r c k.val 0 (k0_off947_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off949_inb k) r c k.val 16 (k0_off949_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off951_inb k) r c k.val 32 (k0_off951_eq k) hr h.1 h.2⟩
  · exact ⟨_, List.mem_cons_of_mem _ (List.mem_cons_of_mem _ (List.mem_cons_of_mem _ (List.mem_cons_of_mem _ (List.mem_cons_self)))), RowsLib.mem_unit _ (k0_off953_inb k) r c k.val 48 (k0_off953_eq k) hr h.1 h.2⟩
  · exact ⟨_, List.mem_cons_of_mem _ (List.mem_cons_of_mem _ (List.mem_cons_of_mem _ (List.mem_cons_self))), RowsLib.mem_unit _ (k0_off955_inb k) r c k.val 64 (k0_off955_eq k) hr h.1 h.2⟩
  · exact ⟨_, List.mem_cons_of_mem _ (List.mem_cons_of_mem _ (List.mem_cons_self)), RowsLib.mem_unit _ (k0_off957_inb k) r c k.val 80 (k0_off957_eq k) hr h.1 h.2⟩
  · exact ⟨_, List.mem_cons_of_mem _ (List.mem_cons_self), RowsLib.mem_unit _ (k0_off959_inb k) r c k.val 96 (k0_off959_eq k) hr h.1 h.2⟩
  · exact ⟨_, List.mem_cons_self, RowsLib.mem_unit _ (k0_off961_inb k) r c k.val 112 (k0_off961_eq k) hr h.1 h.2⟩

/-- The slot of sums after row loop 60, as the row-sum function: at (r, c) the gathered rows' entry plus the positional scratch's entry of row r + 128. -/
theorem rows_t60_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t60 (F := F) d L v2 X P 128)) (ValueIdx.ix2 r c)
      = RowsLib.rowG (ibS1).view (qV).view X P 128 (by omega) (ValueIdx.ix2 r c) :=
  RowsLib.read_writes_trips (n := k0_t60_loop.trips) (pb_t60 (F := F) d L v2 X P) (tripL_t60 (F := F) d L v2 X P) (obS1).view G _
    rfl (pb_t60_succ (F := F) d L v2 X P) (trip_pieces_t60 d L v2 X P) _ ⟨r.val, r.isLt⟩ (trip_cover_t60 d L v2 X P ⟨r.val, r.isLt⟩ r c rfl)

/-- THE SLOT OF SUMS AFTER ROW LOOP 60, whatever it held before: at (r, c) the gathered rows' entry (r, c) plus the positional
    scratch's entry (r + 128, c). -/
theorem rows_t60 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t60 (F := F) d L v2 X P (Scf.trips k0_t60_loop.lb k0_t60_loop.ub k0_t60_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t60_G d L v2 X P G r c

/-! ### the value of row loop 61 (slot 0, positional rows 0 … 127) -/

theorem trips_t61 : k0_t61_loop.trips = 128 := rfl

set_option maxHeartbeats 2000000 in
/-- Every piece of a trip of row loop 61 is the row sum on its rectangle. -/
theorem trip_pieces_t61 (d : Dev nD) (L : grid0.Coords) (v2 : BitVec 32) (X : BufTy.Contents (Elt F) (ibS0).view.ty) (P : BufTy.Contents (Elt F) (qV).view.ty) (k : Fin k0_t61_loop.trips) :
    ∀ p ∈ tripL_t61 (F := F) d L v2 X P k, ∀ x : p.1.shape.Idx, p.2 x = RowsLib.rowG (ibS0).view (qV).view X P 0 (by omega) (p.1.emb x) := by
  unfold tripL_t61 trip_t61
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off977_inb k) (k0_off977_inb k) (k0_off978_inb k) k.val (k.val + 0) 112 (k0_off977_eq k) (k0_off978_eq k) rfl _ (RowsLib.lane_sum _ _ _ _) x
  · exact fun x => RowsLib.piece_eq _ _ X P 0 _ _ _ (k0_off975_inb k) (k0_off975_inb k) (k0_off976_inb k) k.val (k.val + 0) 96 (k0_off975_eq k) (k0_off976_eq k) rfl _ (RowsLib.lane_sum _ _ _ _) x
  · exact fun x => RowsLib.piece_eq _ _ X P 0 _ _ _ (k0_off973_inb k) (k0_off973_inb k) (k0_off974_inb k) k.val (k.val + 0) 80 (k0_off973_eq k) (k0_off974_eq k) rfl _ (RowsLib.lane_sum _ _ _ _) x
  · exact fun x => RowsLib.piece_eq _ _ X P 0 _ _ _ (k0_off971_inb k) (k0_off971_inb k) (k0_off972_inb k) k.val (k.val + 0) 64 (k0_off971_eq k) (k0_off972_eq k) rfl _ (RowsLib.lane_sum _ _ _ _) x
  · exact fun x => RowsLib.piece_eq _ _ X P 0 _ _ _ (k0_off969_inb k) (k0_off969_inb k) (k0_off970_inb k) k.val (k.val + 0) 48 (k0_off969_eq k) (k0_off970_eq k) rfl _ (RowsLib.lane_sum _ _ _ _) x
  · exact fun x => RowsLib.piece_eq _ _ X P 0 _ _ _ (k0_off967_inb k) (k0_off967_inb k) (k0_off968_inb k) k.val (k.val + 0) 32 (k0_off967_eq k) (k0_off968_eq k) rfl _ (RowsLib.lane_sum _ _ _ _) x
  · exact fun x => RowsLib.piece_eq _ _ X P 0 _ _ _ (k0_off965_inb k) (k0_off965_inb k) (k0_off966_inb k) k.val (k.val + 0) 16 (k0_off965_eq k) (k0_off966_eq k) rfl _ (RowsLib.lane_sum _ _ _ _) x
  · exact fun x => RowsLib.piece_eq _ _ X P 0 _ _ _ (k0_off963_inb k) (k0_off963_inb k) (k0_off964_inb k) k.val (k.val + 0) 0 (k0_off963_eq k) (k0_off964_eq k) rfl _ (RowsLib.lane_sum _ _ _ _) x

set_option maxHeartbeats 2000000 in
/-- The eight pieces of trip k cover row k. -/
theorem trip_cover_t61 (d : Dev nD) (L : grid0.Coords) (v2 : BitVec 32) (X : BufTy.Contents (Elt F) (ibS0).view.ty) (P : BufTy.Contents (Elt F) (qV).view.ty)
    (k : Fin k0_t61_loop.trips) (r c : Fin 128) (hr : k.val = r.val) :
    ∃ p ∈ tripL_t61 (F := F) d L v2 X P k, (ValueIdx.ix2 r c : RowsLib.SS.Idx) ∈ p.1.set := by
  unfold tripL_t61 trip_t61
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off963_inb k) r c k.val 0 (k0_off963_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off965_inb k) r c k.val 16 (k0_off965_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off967_inb k) r c k.val 32 (k0_off967_eq k) hr h.1 h.2⟩
  · exact ⟨_, List.mem_cons_of_mem _ (List.mem_cons_of_mem _ (List.mem_cons_of_mem _ (List.mem_cons_of_mem _ (List.mem_cons_self)))), RowsLib.mem_unit _ (k0_off969_inb k) r c k.val 48 (k0_off969_eq k) hr h.1 h.2⟩
  · exact ⟨_, List.mem_cons_of_mem _ (List.mem_cons_of_mem _ (List.mem_cons_of_mem _ (List.mem_cons_self))), RowsLib.mem_unit _ (k0_off971_inb k) r c k.val 64 (k0_off971_eq k) hr h.1 h.2⟩
  · exact ⟨_, List.mem_cons_of_mem _ (List.mem_cons_of_mem _ (List.mem_cons_self)), RowsLib.mem_unit _ (k0_off973_inb k) r c k.val 80 (k0_off973_eq k) hr h.1 h.2⟩
  · exact ⟨_, List.mem_cons_of_mem _ (List.mem_cons_self), RowsLib.mem_unit _ (k0_off975_inb k) r c k.val 96 (k0_off975_eq k) hr h.1 h.2⟩
  · exact ⟨_, List.mem_cons_self, RowsLib.mem_unit _ (k0_off977_inb k) r c k.val 112 (k0_off977_eq k) hr h.1 h.2⟩

/-- The slot of sums after row loop 61, as the row-sum function: at (r, c) the gathered rows' entry plus the positional scratch's entry of row r + 0. -/
theorem rows_t61_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t61 (F := F) d L v2 X P 128)) (ValueIdx.ix2 r c)
      = RowsLib.rowG (ibS0).view (qV).view X P 0 (by omega) (ValueIdx.ix2 r c) :=
  RowsLib.read_writes_trips (n := k0_t61_loop.trips) (pb_t61 (F := F) d L v2 X P) (tripL_t61 (F := F) d L v2 X P) (obS0).view G _
    rfl (pb_t61_succ (F := F) d L v2 X P) (trip_pieces_t61 d L v2 X P) _ ⟨r.val, r.isLt⟩ (trip_cover_t61 d L v2 X P ⟨r.val, r.isLt⟩ r c rfl)

/-- THE SLOT OF SUMS AFTER ROW LOOP 61, whatever it held before: at (r, c) the gathered rows' entry (r, c) plus the positional
    scratch's entry (r + 0, c). -/
theorem rows_t61 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t61 (F := F) d L v2 X P (Scf.trips k0_t61_loop.lb k0_t61_loop.ub k0_t61_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t61_G d L v2 X P G r c

/-! ### the value of row loop 62 (slot 1, positional rows 128 … 255) -/

theorem trips_t62 : k0_t62_loop.trips = 128 := rfl

set_option maxHeartbeats 2000000 in
/-- Every piece of a trip of row loop 62 is the row sum on its rectangle. -/
theorem trip_pieces_t62 (d : Dev nD) (L : grid0.Coords) (v2 : BitVec 32) (X : BufTy.Contents (Elt F) (ibS1).view.ty) (P : BufTy.Contents (Elt F) (qV).view.ty) (k : Fin k0_t62_loop.trips) :
    ∀ p ∈ tripL_t62 (F := F) d L v2 X P k, ∀ x : p.1.shape.Idx, p.2 x = RowsLib.rowG (ibS1).view (qV).view X P 128 (by omega) (p.1.emb x) := by
  unfold tripL_t62 trip_t62
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off993_inb k) (k0_off993_inb k) (k0_off994_inb k) k.val (k.val + 128) 112 (k0_off993_eq k) (k0_off994_eq k) rfl _ (RowsLib.lane_sum _ _ _ _) x
  · exact fun x => RowsLib.piece_eq _ _ X P 128 _ _ _ (k0_off991_inb k) (k0_off991_inb k) (k0_off992_inb k) k.val (k.val + 128) 96 (k0_off991_eq k) (k0_off992_eq k) rfl _ (RowsLib.lane_sum _ _ _ _) x
  · exact fun x => RowsLib.piece_eq _ _ X P 128 _ _ _ (k0_off989_inb k) (k0_off989_inb k) (k0_off990_inb k) k.val (k.val + 128) 80 (k0_off989_eq k) (k0_off990_eq k) rfl _ (RowsLib.lane_sum _ _ _ _) x
  · exact fun x => RowsLib.piece_eq _ _ X P 128 _ _ _ (k0_off987_inb k) (k0_off987_inb k) (k0_off988_inb k) k.val (k.val + 128) 64 (k0_off987_eq k) (k0_off988_eq k) rfl _ (RowsLib.lane_sum _ _ _ _) x
  · exact fun x => RowsLib.piece_eq _ _ X P 128 _ _ _ (k0_off985_inb k) (k0_off985_inb k) (k0_off986_inb k) k.val (k.val + 128) 48 (k0_off985_eq k) (k0_off986_eq k) rfl _ (RowsLib.lane_sum _ _ _ _) x
  · exact fun x => RowsLib.piece_eq _ _ X P 128 _ _ _ (k0_off983_inb k) (k0_off983_inb k) (k0_off984_inb k) k.val (k.val + 128) 32 (k0_off983_eq k) (k0_off984_eq k) rfl _ (RowsLib.lane_sum _ _ _ _) x
  · exact fun x => RowsLib.piece_eq _ _ X P 128 _ _ _ (k0_off981_inb k) (k0_off981_inb k) (k0_off982_inb k) k.val (k.val + 128) 16 (k0_off981_eq k) (k0_off982_eq k) rfl _ (RowsLib.lane_sum _ _ _ _) x
  · exact fun x => RowsLib.piece_eq _ _ X P 128 _ _ _ (k0_off979_inb k) (k0_off979_inb k) (k0_off980_inb k) k.val (k.val + 128) 0 (k0_off979_eq k) (k0_off980_eq k) rfl _ (RowsLib.lane_sum _ _ _ _) x

set_option maxHeartbeats 2000000 in
/-- The eight pieces of trip k cover row k. -/
theorem trip_cover_t62 (d : Dev nD) (L : grid0.Coords) (v2 : BitVec 32) (X : BufTy.Contents (Elt F) (ibS1).view.ty) (P : BufTy.Contents (Elt F) (qV).view.ty)
    (k : Fin k0_t62_loop.trips) (r c : Fin 128) (hr : k.val = r.val) :
    ∃ p ∈ tripL_t62 (F := F) d L v2 X P k, (ValueIdx.ix2 r c : RowsLib.SS.Idx) ∈ p.1.set := by
  unfold tripL_t62 trip_t62
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off979_inb k) r c k.val 0 (k0_off979_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off981_inb k) r c k.val 16 (k0_off981_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off983_inb k) r c k.val 32 (k0_off983_eq k) hr h.1 h.2⟩
  · exact ⟨_, List.mem_cons_of_mem _ (List.mem_cons_of_mem _ (List.mem_cons_of_mem _ (List.mem_cons_of_mem _ (List.mem_cons_self)))), RowsLib.mem_unit _ (k0_off985_inb k) r c k.val 48 (k0_off985_eq k) hr h.1 h.2⟩
  · exact ⟨_, List.mem_cons_of_mem _ (List.mem_cons_of_mem _ (List.mem_cons_of_mem _ (List.mem_cons_self))), RowsLib.mem_unit _ (k0_off987_inb k) r c k.val 64 (k0_off987_eq k) hr h.1 h.2⟩
  · exact ⟨_, List.mem_cons_of_mem _ (List.mem_cons_of_mem _ (List.mem_cons_self)), RowsLib.mem_unit _ (k0_off989_inb k) r c k.val 80 (k0_off989_eq k) hr h.1 h.2⟩
  · exact ⟨_, List.mem_cons_of_mem _ (List.mem_cons_self), RowsLib.mem_unit _ (k0_off991_inb k) r c k.val 96 (k0_off991_eq k) hr h.1 h.2⟩
  · exact ⟨_, List.mem_cons_self, RowsLib.mem_unit _ (k0_off993_inb k) r c k.val 112 (k0_off993_eq k) hr h.1 h.2⟩

/-- The slot of sums after row loop 62, as the row-sum function: at (r, c) the gathered rows' entry plus the positional scratch's entry of row r + 128. -/
theorem rows_t62_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t62 (F := F) d L v2 X P 128)) (ValueIdx.ix2 r c)
      = RowsLib.rowG (ibS1).view (qV).view X P 128 (by omega) (ValueIdx.ix2 r c) :=
  RowsLib.read_writes_trips (n := k0_t62_loop.trips) (pb_t62 (F := F) d L v2 X P) (tripL_t62 (F := F) d L v2 X P) (obS1).view G _
    rfl (pb_t62_succ (F := F) d L v2 X P) (trip_pieces_t62 d L v2 X P) _ ⟨r.val, r.isLt⟩ (trip_cover_t62 d L v2 X P ⟨r.val, r.isLt⟩ r c rfl)

/-- THE SLOT OF SUMS AFTER ROW LOOP 62, whatever it held before: at (r, c) the gathered rows' entry (r, c) plus the positional
    scratch's entry (r + 128, c). -/
theorem rows_t62 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t62 (F := F) d L v2 X P (Scf.trips k0_t62_loop.lb k0_t62_loop.ub k0_t62_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t62_G d L v2 X P G r c

/-! ### the value of row loop 63 (slot 0, positional rows 0 … 127) -/

theorem trips_t63 : k0_t63_loop.trips = 128 := rfl

set_option maxHeartbeats 2000000 in
/-- Every piece of a trip of row loop 63 is the row sum on its rectangle. -/
theorem trip_pieces_t63 (d : Dev nD) (L : grid0.Coords) (v2 wa wb : BitVec 32) (X : BufTy.Contents (Elt F) (ibS0).view.ty) (P : BufTy.Contents (Elt F) (qV).view.ty) (k : Fin k0_t63_loop.trips) :
    ∀ p ∈ tripL_t63 (F := F) d L v2 wa wb X P k, ∀ x : p.1.shape.Idx, p.2 x = RowsLib.rowG (ibS0).view (qV).view X P 0 (by omega) (p.1.emb x) := by
  unfold tripL_t63 trip_t63
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off1009_inb k) (k0_off1009_inb k) (k0_off1010_inb k) k.val (k.val + 0) 112 (k0_off1009_eq k) (k0_off1010_eq k) rfl _ (RowsLib.lane_sum _ _ _ _) x
  · exact fun x => RowsLib.piece_eq _ _ X P 0 _ _ _ (k0_off1007_inb k) (k0_off1007_inb k) (k0_off1008_inb k) k.val (k.val + 0) 96 (k0_off1007_eq k) (k0_off1008_eq k) rfl _ (RowsLib.lane_sum _ _ _ _) x
  · exact fun x => RowsLib.piece_eq _ _ X P 0 _ _ _ (k0_off1005_inb k) (k0_off1005_inb k) (k0_off1006_inb k) k.val (k.val + 0) 80 (k0_off1005_eq k) (k0_off1006_eq k) rfl _ (RowsLib.lane_sum _ _ _ _) x
  · exact fun x => RowsLib.piece_eq _ _ X P 0 _ _ _ (k0_off1003_inb k) (k0_off1003_inb k) (k0_off1004_inb k) k.val (k.val + 0) 64 (k0_off1003_eq k) (k0_off1004_eq k) rfl _ (RowsLib.lane_sum _ _ _ _) x
  · exact fun x => RowsLib.piece_eq _ _ X P 0 _ _ _ (k0_off1001_inb k) (k0_off1001_inb k) (k0_off1002_inb k) k.val (k.val + 0) 48 (k0_off1001_eq k) (k0_off1002_eq k) rfl _ (RowsLib.lane_sum _ _ _ _) x
  · exact fun x => RowsLib.piece_eq _ _ X P 0 _ _ _ (k0_off999_inb k) (k0_off999_inb k) (k0_off1000_inb k) k.val (k.val + 0) 32 (k0_off999_eq k) (k0_off1000_eq k) rfl _ (RowsLib.lane_sum _ _ _ _) x
  · exact fun x => RowsLib.piece_eq _ _ X P 0 _ _ _ (k0_off997_inb k) (k0_off997_inb k) (k0_off998_inb k) k.val (k.val + 0) 16 (k0_off997_eq k) (k0_off998_eq k) rfl _ (RowsLib.lane_sum _ _ _ _) x
  · exact fun x => RowsLib.piece_eq _ _ X P 0 _ _ _ (k0_off995_inb k) (k0_off995_inb k) (k0_off996_inb k) k.val (k.val + 0) 0 (k0_off995_eq k) (k0_off996_eq k) rfl _ (RowsLib.lane_sum _ _ _ _) x

set_option maxHeartbeats 2000000 in
/-- The eight pieces of trip k cover row k. -/
theorem trip_cover_t63 (d : Dev nD) (L : grid0.Coords) (v2 wa wb : BitVec 32) (X : BufTy.Contents (Elt F) (ibS0).view.ty) (P : BufTy.Contents (Elt F) (qV).view.ty)
    (k : Fin k0_t63_loop.trips) (r c : Fin 128) (hr : k.val = r.val) :
    ∃ p ∈ tripL_t63 (F := F) d L v2 wa wb X P k, (ValueIdx.ix2 r c : RowsLib.SS.Idx) ∈ p.1.set := by
  unfold tripL_t63 trip_t63
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off995_inb k) r c k.val 0 (k0_off995_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off997_inb k) r c k.val 16 (k0_off997_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off999_inb k) r c k.val 32 (k0_off999_eq k) hr h.1 h.2⟩
  · exact ⟨_, List.mem_cons_of_mem _ (List.mem_cons_of_mem _ (List.mem_cons_of_mem _ (List.mem_cons_of_mem _ (List.mem_cons_self)))), RowsLib.mem_unit _ (k0_off1001_inb k) r c k.val 48 (k0_off1001_eq k) hr h.1 h.2⟩
  · exact ⟨_, List.mem_cons_of_mem _ (List.mem_cons_of_mem _ (List.mem_cons_of_mem _ (List.mem_cons_self))), RowsLib.mem_unit _ (k0_off1003_inb k) r c k.val 64 (k0_off1003_eq k) hr h.1 h.2⟩
  · exact ⟨_, List.mem_cons_of_mem _ (List.mem_cons_of_mem _ (List.mem_cons_self)), RowsLib.mem_unit _ (k0_off1005_inb k) r c k.val 80 (k0_off1005_eq k) hr h.1 h.2⟩
  · exact ⟨_, List.mem_cons_of_mem _ (List.mem_cons_self), RowsLib.mem_unit _ (k0_off1007_inb k) r c k.val 96 (k0_off1007_eq k) hr h.1 h.2⟩
  · exact ⟨_, List.mem_cons_self, RowsLib.mem_unit _ (k0_off1009_inb k) r c k.val 112 (k0_off1009_eq k) hr h.1 h.2⟩

/-- The slot of sums after row loop 63, as the row-sum function: at (r, c) the gathered rows' entry plus the positional scratch's entry of row r + 0. -/
theorem rows_t63_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t63 (F := F) d L v2 wa wb X P 128)) (ValueIdx.ix2 r c)
      = RowsLib.rowG (ibS0).view (qV).view X P 0 (by omega) (ValueIdx.ix2 r c) :=
  RowsLib.read_writes_trips (n := k0_t63_loop.trips) (pb_t63 (F := F) d L v2 wa wb X P) (tripL_t63 (F := F) d L v2 wa wb X P) (obS0).view G _
    rfl (pb_t63_succ (F := F) d L v2 wa wb X P) (trip_pieces_t63 d L v2 wa wb X P) _ ⟨r.val, r.isLt⟩ (trip_cover_t63 d L v2 wa wb X P ⟨r.val, r.isLt⟩ r c rfl)

/-- THE SLOT OF SUMS AFTER ROW LOOP 63, whatever it held before: at (r, c) the gathered rows' entry (r, c) plus the positional
    scratch's entry (r + 0, c). -/
theorem rows_t63 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t63 (F := F) d L v2 wa wb X P (Scf.trips k0_t63_loop.lb k0_t63_loop.ub k0_t63_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t63_G d L v2 wa wb X P G r c

/-! ### the value of row loop 64 (slot 1, positional rows 128 … 255) -/

theorem trips_t64 : k0_t64_loop.trips = 128 := rfl

set_option maxHeartbeats 2000000 in
/-- Every piece of a trip of row loop 64 is the row sum on its rectangle. -/
theorem trip_pieces_t64 (d : Dev nD) (L : grid0.Coords) (v2 wa wb : BitVec 32) (X : BufTy.Contents (Elt F) (ibS1).view.ty) (P : BufTy.Contents (Elt F) (qV).view.ty) (k : Fin k0_t64_loop.trips) :
    ∀ p ∈ tripL_t64 (F := F) d L v2 wa wb X P k, ∀ x : p.1.shape.Idx, p.2 x = RowsLib.rowG (ibS1).view (qV).view X P 128 (by omega) (p.1.emb x) := by
  unfold tripL_t64 trip_t64
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off1025_inb k) (k0_off1025_inb k) (k0_off1026_inb k) k.val (k.val + 128) 112 (k0_off1025_eq k) (k0_off1026_eq k) rfl _ (RowsLib.lane_sum _ _ _ _) x
  · exact fun x => RowsLib.piece_eq _ _ X P 128 _ _ _ (k0_off1023_inb k) (k0_off1023_inb k) (k0_off1024_inb k) k.val (k.val + 128) 96 (k0_off1023_eq k) (k0_off1024_eq k) rfl _ (RowsLib.lane_sum _ _ _ _) x
  · exact fun x => RowsLib.piece_eq _ _ X P 128 _ _ _ (k0_off1021_inb k) (k0_off1021_inb k) (k0_off1022_inb k) k.val (k.val + 128) 80 (k0_off1021_eq k) (k0_off1022_eq k) rfl _ (RowsLib.lane_sum _ _ _ _) x
  · exact fun x => RowsLib.piece_eq _ _ X P 128 _ _ _ (k0_off1019_inb k) (k0_off1019_inb k) (k0_off1020_inb k) k.val (k.val + 128) 64 (k0_off1019_eq k) (k0_off1020_eq k) rfl _ (RowsLib.lane_sum _ _ _ _) x
  · exact fun x => RowsLib.piece_eq _ _ X P 128 _ _ _ (k0_off1017_inb k) (k0_off1017_inb k) (k0_off1018_inb k) k.val (k.val + 128) 48 (k0_off1017_eq k) (k0_off1018_eq k) rfl _ (RowsLib.lane_sum _ _ _ _) x
  · exact fun x => RowsLib.piece_eq _ _ X P 128 _ _ _ (k0_off1015_inb k) (k0_off1015_inb k) (k0_off1016_inb k) k.val (k.val + 128) 32 (k0_off1015_eq k) (k0_off1016_eq k) rfl _ (RowsLib.lane_sum _ _ _ _) x
  · exact fun x => RowsLib.piece_eq _ _ X P 128 _ _ _ (k0_off1013_inb k) (k0_off1013_inb k) (k0_off1014_inb k) k.val (k.val + 128) 16 (k0_off1013_eq k) (k0_off1014_eq k) rfl _ (RowsLib.lane_sum _ _ _ _) x
  · exact fun x => RowsLib.piece_eq _ _ X P 128 _ _ _ (k0_off1011_inb k) (k0_off1011_inb k) (k0_off1012_inb k) k.val (k.val + 128) 0 (k0_off1011_eq k) (k0_off1012_eq k) rfl _ (RowsLib.lane_sum _ _ _ _) x

set_option maxHeartbeats 2000000 in
/-- The eight pieces of trip k cover row k. -/
theorem trip_cover_t64 (d : Dev nD) (L : grid0.Coords) (v2 wa wb : BitVec 32) (X : BufTy.Contents (Elt F) (ibS1).view.ty) (P : BufTy.Contents (Elt F) (qV).view.ty)
    (k : Fin k0_t64_loop.trips) (r c : Fin 128) (hr : k.val = r.val) :
    ∃ p ∈ tripL_t64 (F := F) d L v2 wa wb X P k, (ValueIdx.ix2 r c : RowsLib.SS.Idx) ∈ p.1.set := by
  unfold tripL_t64 trip_t64
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off1011_inb k) r c k.val 0 (k0_off1011_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off1013_inb k) r c k.val 16 (k0_off1013_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off1015_inb k) r c k.val 32 (k0_off1015_eq k) hr h.1 h.2⟩
  · exact ⟨_, List.mem_cons_of_mem _ (List.mem_cons_of_mem _ (List.mem_cons_of_mem _ (List.mem_cons_of_mem _ (List.mem_cons_self)))), RowsLib.mem_unit _ (k0_off1017_inb k) r c k.val 48 (k0_off1017_eq k) hr h.1 h.2⟩
  · exact ⟨_, List.mem_cons_of_mem _ (List.mem_cons_of_mem _ (List.mem_cons_of_mem _ (List.mem_cons_self))), RowsLib.mem_unit _ (k0_off1019_inb k) r c k.val 64 (k0_off1019_eq k) hr h.1 h.2⟩
  · exact ⟨_, List.mem_cons_of_mem _ (List.mem_cons_of_mem _ (List.mem_cons_self)), RowsLib.mem_unit _ (k0_off1021_inb k) r c k.val 80 (k0_off1021_eq k) hr h.1 h.2⟩
  · exact ⟨_, List.mem_cons_of_mem _ (List.mem_cons_self), RowsLib.mem_unit _ (k0_off1023_inb k) r c k.val 96 (k0_off1023_eq k) hr h.1 h.2⟩
  · exact ⟨_, List.mem_cons_self, RowsLib.mem_unit _ (k0_off1025_inb k) r c k.val 112 (k0_off1025_eq k) hr h.1 h.2⟩

/-- The slot of sums after row loop 64, as the row-sum function: at (r, c) the gathered rows' entry plus the positional scratch's entry of row r + 128. -/
theorem rows_t64_G (d : Dev nD) (L : grid0.Coords) (v2 wa wb : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t64 (F := F) d L v2 wa wb X P 128)) (ValueIdx.ix2 r c)
      = RowsLib.rowG (ibS1).view (qV).view X P 128 (by omega) (ValueIdx.ix2 r c) :=
  RowsLib.read_writes_trips (n := k0_t64_loop.trips) (pb_t64 (F := F) d L v2 wa wb X P) (tripL_t64 (F := F) d L v2 wa wb X P) (obS1).view G _
    rfl (pb_t64_succ (F := F) d L v2 wa wb X P) (trip_pieces_t64 d L v2 wa wb X P) _ ⟨r.val, r.isLt⟩ (trip_cover_t64 d L v2 wa wb X P ⟨r.val, r.isLt⟩ r c rfl)

/-- THE SLOT OF SUMS AFTER ROW LOOP 64, whatever it held before: at (r, c) the gathered rows' entry (r, c) plus the positional
    scratch's entry (r + 128, c). -/
theorem rows_t64 (d : Dev nD) (L : grid0.Coords) (v2 wa wb : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t64 (F := F) d L v2 wa wb X P (Scf.trips k0_t64_loop.lb k0_t64_loop.ub k0_t64_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t64_G d L v2 wa wb X P G r c

end Tile

end Cert.Proof.KI

end
-- ==== Proof.Body.lean ====
/- The tile's body, run once at a symbolic tile (SparseCore L 0, vector subcore L 1): its block of index rows is fetched into the index scratch
   and the positional rows into theirs; chunk c gathers the table rows its row of indices names into one slot of the gathered-rows scratch,
   its row loop stores their sums with the positional rows in the same slot of the sum scratch, and that slot is written back into the chunk's
   window of the tile's block of the result; two gathers and two write-backs are in flight at a time, on a slot each. Every word of the
   index rows names a table row (the index array's words are below 100000), so no gather stops. The windows of the result are taken as
   their chunks come up and handed back once written: each then holds, row by row, the named table row plus the positional row — the
   kernel's result as one function of what the call finds — by the row loops' value, the gather's payload and the positional fetch;
   together they are the tile's block again. The scratch buffers and semaphores come back as they were dealt. -/
import proofs.«208673_g37134287241914_cont_8to1_b_302_3_alg».proof.Proof.Common
import proofs.«208673_g37134287241914_cont_8to1_b_302_3_alg».proof.Proof.Gen.KernelIdeal.Skeleton
import proofs.«208673_g37134287241914_cont_8to1_b_302_3_alg».proof.Proof.TileEnd
import proofs.«208673_g37134287241914_cont_8to1_b_302_3_alg».proof.Proof.ChunkVal
import proofs.«208673_g37134287241914_cont_8to1_b_302_3_alg».proof.Proof.RowsValueA
import proofs.«208673_g37134287241914_cont_8to1_b_302_3_alg».proof.Proof.RowsValueB
import proofs.«208673_g37134287241914_cont_8to1_b_302_3_alg».proof.Proof.RowsValueC
import proofs.«208673_g37134287241914_cont_8to1_b_302_3_alg».proof.Proof.RowsValueD

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

set_option quotPrecheck false

local notation "ibS0" => (((Memref.whole Cert.KernelIdeal.cc0_scratch2 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "ibS1" => (((Memref.whole Cert.KernelIdeal.cc0_scratch2 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)
local notation "obS0" => (((Memref.whole Cert.KernelIdeal.cc0_scratch3 : Memref Cert.KernelIdeal.sig Kind.scVector Space.vmem Cert.KernelIdeal.S2x128x128 EltTy.f32).slice (Rect.unit (s := Cert.KernelIdeal.S2x128x128) ![0, 0, 0] Cert.KernelIdeal.S1x128x128.size Cert.KernelIdeal.Gen.inb_S2x128x128_S1x128x128_0_0_0) (fun _ => rfl)).squeeze Cert.KernelIdeal.S128x128 Cert.KernelIdeal.Gen.squeezes_S1x128x128_S128x128)
local notation "obS1" => (((Memref.whole Cert.KernelIdeal.cc0_scratch3 : Memref Cert.KernelIdeal.sig Kind.scVector Space.vmem Cert.KernelIdeal.S2x128x128 EltTy.f32).slice (Rect.unit (s := Cert.KernelIdeal.S2x128x128) ![1, 0, 0] Cert.KernelIdeal.S1x128x128.size Cert.KernelIdeal.Gen.inb_S2x128x128_S1x128x128_1_0_0) (fun _ => rfl)).squeeze Cert.KernelIdeal.S128x128 Cert.KernelIdeal.Gen.squeezes_S1x128x128_S128x128)

variable [FloatOps F]

section Tile
variable (d : Dev nD) (L : grid0.Coords)

theorem clt_0 : 0 < 64 := by decide
theorem clt_1 : 1 < 64 := by decide
theorem clt_2 : 2 < 64 := by decide
theorem clt_3 : 3 < 64 := by decide
theorem clt_4 : 4 < 64 := by decide
theorem clt_5 : 5 < 64 := by decide
theorem clt_6 : 6 < 64 := by decide
theorem clt_7 : 7 < 64 := by decide
theorem clt_8 : 8 < 64 := by decide
theorem clt_9 : 9 < 64 := by decide
theorem clt_10 : 10 < 64 := by decide
theorem clt_11 : 11 < 64 := by decide
theorem clt_12 : 12 < 64 := by decide
theorem clt_13 : 13 < 64 := by decide
theorem clt_14 : 14 < 64 := by decide
theorem clt_15 : 15 < 64 := by decide
theorem clt_16 : 16 < 64 := by decide
theorem clt_17 : 17 < 64 := by decide
theorem clt_18 : 18 < 64 := by decide
theorem clt_19 : 19 < 64 := by decide
theorem clt_20 : 20 < 64 := by decide
theorem clt_21 : 21 < 64 := by decide
theorem clt_22 : 22 < 64 := by decide
theorem clt_23 : 23 < 64 := by decide
theorem clt_24 : 24 < 64 := by decide
theorem clt_25 : 25 < 64 := by decide
theorem clt_26 : 26 < 64 := by decide
theorem clt_27 : 27 < 64 := by decide
theorem clt_28 : 28 < 64 := by decide
theorem clt_29 : 29 < 64 := by decide
theorem clt_30 : 30 < 64 := by decide
theorem clt_31 : 31 < 64 := by decide
theorem clt_32 : 32 < 64 := by decide
theorem clt_33 : 33 < 64 := by decide
theorem clt_34 : 34 < 64 := by decide
theorem clt_35 : 35 < 64 := by decide
theorem clt_36 : 36 < 64 := by decide
theorem clt_37 : 37 < 64 := by decide
theorem clt_38 : 38 < 64 := by decide
theorem clt_39 : 39 < 64 := by decide
theorem clt_40 : 40 < 64 := by decide
theorem clt_41 : 41 < 64 := by decide
theorem clt_42 : 42 < 64 := by decide
theorem clt_43 : 43 < 64 := by decide
theorem clt_44 : 44 < 64 := by decide
theorem clt_45 : 45 < 64 := by decide
theorem clt_46 : 46 < 64 := by decide
theorem clt_47 : 47 < 64 := by decide
theorem clt_48 : 48 < 64 := by decide
theorem clt_49 : 49 < 64 := by decide
theorem clt_50 : 50 < 64 := by decide
theorem clt_51 : 51 < 64 := by decide
theorem clt_52 : 52 < 64 := by decide
theorem clt_53 : 53 < 64 := by decide
theorem clt_54 : 54 < 64 := by decide
theorem clt_55 : 55 < 64 := by decide
theorem clt_56 : 56 < 64 := by decide
theorem clt_57 : 57 < 64 := by decide
theorem clt_58 : 58 < 64 := by decide
theorem clt_59 : 59 < 64 := by decide
theorem clt_60 : 60 < 64 := by decide
theorem clt_61 : 61 < 64 := by decide
theorem clt_62 : 62 < 64 := by decide
theorem clt_63 : 63 < 64 := by decide

omit [FloatOps F] in
theorem rows_lt0 (Φ : Fin 64 → sProp 𝕄) : bigSep (Finset.univ.filter fun j : Fin 64 => j.val < 0) Φ = iprop(emp) := by
  rw [Finset.filter_false_of_mem (fun j _ => Nat.not_lt_zero _), bigSep_empty]
  rfl
omit [FloatOps F] in
theorem rows_lt64 (Φ : Fin 64 → sProp 𝕄) : bigSep (Finset.univ.filter fun j : Fin 64 => j.val < 63 + 1) Φ = bigSep Finset.univ Φ := by
  rw [Finset.filter_true_of_mem (fun j _ => j.isLt)]

set_option maxHeartbeats 0 in
theorem tile_body (hF : (K (F := F)).Facts) (O : CellTallies nD τ sig (HIx 1)) (W : Waits sig (HIx 1)) (hO : ∀ g, O g none = 0)
    (pq tq : PosShare TreeShare)
    (X2 : Buf (Elt F) ((xV).view.loc (V d (cV L) (jV L)))) (PS : Buf (Elt F) ((pV).view.loc (V d (cV L) (jV L))))
    (TB : Buf (Elt F) ((tV).view.loc (V d (cV L) (jV L)))) (O0 : Buf (Elt F) ((oV).view.loc (V d (cV L) (jV L))))
    (hX : ∀ j, (X2 j).toNat < 100000) :
    (iprop(levAts (K (F := F)).L (K (F := F)).lev ∗ emp
        ∗ (((xRowK L).view.loc (V d (cV L) (jV L)) ↦[(xRowK L).view.set]{fullShare} X2)
          ∗ ((pV).view.loc (V d (cV L) (jV L)) ↦{pq} PS)
          ∗ ((tV).view.loc (V d (cV L) (jV L)) ↦{tq} TB)
          ∗ ((oV).view.loc (V d (cV L) (jV L)) ↦[(oV).view.setOn (oTR L).set]{fullShare} O0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_embed L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1)
          fun _ => iprop((((xRowK L).view.loc (V d (cV L) (jV L)) ↦[(xRowK L).view.set]{fullShare} X2)
              ∗ ((pV).view.loc (V d (cV L) (jV L)) ↦{pq} PS)
              ∗ ((tV).view.loc (V d (cV L) (jV L)) ↦{tq} TB)
              ∗ ∃ f, ((oV).view.loc (V d (cV L) (jV L)) ↦[(oV).view.setOn (oTR L).set]{fullShare} f) ∗ ⌜∀ j ∈ (oV).view.setOn (oTR L).set, f j = outG X2 PS TB hX j⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_embed_eq_skeleton]; unfold cc0_embed_skel
  rw [(K (F := F)).scopedBufs_V hF d (cV L) (jV L), SparseCore.Cfg.scopedSems0_V (Val := Elt F) d (cV L) (jV L), ownSems0_V, ownBufs_V]
  iintro ⟨#Hlv, Hemp, ⟨Hx, Hp, Ht, Ho⟩, ⟨⟨%fs, Hs⟩, ⟨%fq, Hq⟩, ⟨%fi, HiB⟩, ⟨%fo, HoB⟩, Hbufs⟩, ⟨Hg0, Hg1, Hp0, Hp1, Hr0, Hr1, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs := (Entails.of_eq (show ((V d (cV L) (jV L)).loc cc0_scratch0 ↦{fullShare} fs : sProp 𝕄) = ((sV).view.loc (V d (cV L) (jV L)) ↦{fullShare} fs) from rfl)) $$ Hs
  ihave Hq := (Entails.of_eq (show ((V d (cV L) (jV L)).loc cc0_scratch1 ↦{fullShare} fq : sProp 𝕄) = ((qV).view.loc (V d (cV L) (jV L)) ↦{fullShare} fq) from rfl)) $$ Hq
  ihave HiB := (Entails.of_eq (show ((V d (cV L) (jV L)).loc cc0_scratch2 ↦{fullShare} fi : sProp 𝕄) = ((iB).view.loc (V d (cV L) (jV L)) ↦{fullShare} fi) from rfl)) $$ HiB
  ihave HoB := (Entails.of_eq (show ((V d (cV L) (jV L)).loc cc0_scratch3 ↦{fullShare} fo : sProp 𝕄) = ((oB).view.loc (V d (cV L) (jV L)) ↦{fullShare} fo) from rfl)) $$ HoB
  ihave Hx := (Entails.of_eq (show (_ : sProp 𝕄) = ((xRowK L).view.loc (V d (cV L) (jV L)) ↦[(xRowK L).view.set]{fullShare} X2) from rfl)) $$ Hx
  ihave Hp := (Entails.of_eq (show (_ : sProp 𝕄) = ((pV).view.loc (V d (cV L) (jV L)) ↦{pq} PS) from rfl)) $$ Hp
  ihave Ht := (Entails.of_eq (show (_ : sProp 𝕄) = ((tV).view.loc (V d (cV L) (jV L)) ↦{tq} TB) from rfl)) $$ Ht
  ihave Ho := (Entails.of_eq (show (_ : sProp 𝕄) = ((oV).view.loc (V d (cV L) (jV L)) ↦[(oV).view.setOn (oTR L).set]{fullShare} O0) from rfl)) $$ Ho
  -- the two fetches: the tile's block of index rows into the index scratch, the positional rows into theirs
  sl_exec_parts
  -- two gathers read the table at once: the tile's share of it in halves
  ihave Ht2 := (pointsTo_share (PosShare.mem_left_op_right tq)).1 $$ Ht
  icases Ht2 with ⟨Ht, Ht'⟩
  -- the two scratches of two slots each, slot by slot
  ihave HiB2 := (Entails.of_eq (iB_slots d L _)) $$ HiB
  icases HiB2 with ⟨HiB0, HiB1⟩
  ihave HoB2 := (Entails.of_eq (oB_slots d L _)) $$ HoB
  icases HoB2 with ⟨HoB0, HoB1⟩
  ihave Hq := (Entails.of_eq (qV_set d L _)) $$ Hq
  -- every row of the index scratch is a list of table rows
  have hinAll : ∀ (k : ℕ) (hk : k < 64), ∀ x, ((idxRowM ⟨k, hk⟩).view.read (Elt F) (View.write (Elt F) (sV).view fs (tile_body.sl.dma0 d L X2) Finset.univ) x).toNat < 100000 :=
    fun k hk => inb_row d L X2 hX fs _ rfl ⟨k, hk⟩
  -- the tile's block of the result: its windows are taken as their chunks come up and handed back once written
  ihave Hob := (Entails.of_eq (oPts_blocks d L _)) $$ Ho
  ihave Hob := (Entails.of_eq (rows_all _)) $$ Hob
  ihave Hdone := (Entails.of_eq (rows_lt0 (fun c : Fin 64 => ((blkM L c).view.loc (V d (cV L) (jV L)) ↦[(blkM L c).view.set]{fullShare} (outG X2 PS TB hX : Buf (Elt F) ((oV).view.loc (V d (cV L) (jV L))))))).symm) $$ Hemp
  ihave Hob := (Entails.of_eq (rows_take _ 0 clt_0)) $$ Hob
  icases Hob with ⟨Hob0, Hob⟩
  ihave Hob0 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 0#32) Cert.KernelIdeal.S128x128.size (Cert.KernelIdeal.Gen.k0_off18_inb L 0)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 0#32) Cert.KernelIdeal.S128x128.size (Cert.KernelIdeal.Gen.k0_off18_inb L 0)) (fun _ => rfl)).view.set]{fullShare} O0) from Entails.refl _) $$ Hob0
  ihave Hob := (Entails.of_eq (rows_take _ 1 clt_1)) $$ Hob
  icases Hob with ⟨Hob1, Hob⟩
  ihave Hob1 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 128#32) Cert.KernelIdeal.S128x128.size (Cert.KernelIdeal.Gen.k0_off18_inb L 1)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 128#32) Cert.KernelIdeal.S128x128.size (Cert.KernelIdeal.Gen.k0_off18_inb L 1)) (fun _ => rfl)).view.set]{fullShare} O0) from Entails.refl _) $$ Hob1
  ihave Hob := (Entails.of_eq (rows_take _ 2 clt_2)) $$ Hob
  icases Hob with ⟨Hob2, Hob⟩
  ihave Hob2 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 256#32) Cert.KernelIdeal.S128x128.size (Cert.KernelIdeal.Gen.k0_off18_inb L 2)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 256#32) Cert.KernelIdeal.S128x128.size (Cert.KernelIdeal.Gen.k0_off18_inb L 2)) (fun _ => rfl)).view.set]{fullShare} O0) from Entails.refl _) $$ Hob2
  ihave Hob := (Entails.of_eq (rows_take _ 3 clt_3)) $$ Hob
  icases Hob with ⟨Hob3, Hob⟩
  ihave Hob3 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 384#32) Cert.KernelIdeal.S128x128.size (Cert.KernelIdeal.Gen.k0_off18_inb L 3)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 384#32) Cert.KernelIdeal.S128x128.size (Cert.KernelIdeal.Gen.k0_off18_inb L 3)) (fun _ => rfl)).view.set]{fullShare} O0) from Entails.refl _) $$ Hob3
  ihave Hob := (Entails.of_eq (rows_take _ 4 clt_4)) $$ Hob
  icases Hob with ⟨Hob4, Hob⟩
  ihave Hob4 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 512#32) Cert.KernelIdeal.S128x128.size (Cert.KernelIdeal.Gen.k0_off18_inb L 4)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 512#32) Cert.KernelIdeal.S128x128.size (Cert.KernelIdeal.Gen.k0_off18_inb L 4)) (fun _ => rfl)).view.set]{fullShare} O0) from Entails.refl _) $$ Hob4
  ihave Hob := (Entails.of_eq (rows_take _ 5 clt_5)) $$ Hob
  icases Hob with ⟨Hob5, Hob⟩
  ihave Hob5 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 640#32) Cert.KernelIdeal.S128x128.size (Cert.KernelIdeal.Gen.k0_off18_inb L 5)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 640#32) Cert.KernelIdeal.S128x128.size (Cert.KernelIdeal.Gen.k0_off18_inb L 5)) (fun _ => rfl)).view.set]{fullShare} O0) from Entails.refl _) $$ Hob5
  ihave Hob := (Entails.of_eq (rows_take _ 6 clt_6)) $$ Hob
  icases Hob with ⟨Hob6, Hob⟩
  ihave Hob6 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 768#32) Cert.KernelIdeal.S128x128.size (Cert.KernelIdeal.Gen.k0_off18_inb L 6)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 768#32) Cert.KernelIdeal.S128x128.size (Cert.KernelIdeal.Gen.k0_off18_inb L 6)) (fun _ => rfl)).view.set]{fullShare} O0) from Entails.refl _) $$ Hob6
  ihave Hob := (Entails.of_eq (rows_take _ 7 clt_7)) $$ Hob
  icases Hob with ⟨Hob7, Hob⟩
  ihave Hob7 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 896#32) Cert.KernelIdeal.S128x128.size (Cert.KernelIdeal.Gen.k0_off18_inb L 7)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 896#32) Cert.KernelIdeal.S128x128.size (Cert.KernelIdeal.Gen.k0_off18_inb L 7)) (fun _ => rfl)).view.set]{fullShare} O0) from Entails.refl _) $$ Hob7
  ihave Hob := (Entails.of_eq (rows_take _ 8 clt_8)) $$ Hob
  icases Hob with ⟨Hob8, Hob⟩
  ihave Hob8 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1024#32) Cert.KernelIdeal.S128x128.size (Cert.KernelIdeal.Gen.k0_off18_inb L 8)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1024#32) Cert.KernelIdeal.S128x128.size (Cert.KernelIdeal.Gen.k0_off18_inb L 8)) (fun _ => rfl)).view.set]{fullShare} O0) from Entails.refl _) $$ Hob8
  ihave Hob := (Entails.of_eq (rows_take _ 9 clt_9)) $$ Hob
  icases Hob with ⟨Hob9, Hob⟩
  ihave Hob9 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1152#32) Cert.KernelIdeal.S128x128.size (Cert.KernelIdeal.Gen.k0_off18_inb L 9)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1152#32) Cert.KernelIdeal.S128x128.size (Cert.KernelIdeal.Gen.k0_off18_inb L 9)) (fun _ => rfl)).view.set]{fullShare} O0) from Entails.refl _) $$ Hob9
  sl_exec_parts
  have hput0 : ∀ r col : Fin 128, (tile_body.sl.dma0_2 d L X2 PS TB fs fq fo hinAll) (ValueIdx.ix2 r col) = outG X2 PS TB hX (ValueIdx.ix2 (outRowN L ⟨0, clt_0⟩ r) col) := by
    intro r col
    show (obS0).view.read (Elt F) ((obS0).view.writes (Elt F) _ (pb_t1 (F := F) d L _ _ _ _)) (ValueIdx.ix2 r col) = _
    refine (rows_t1 (F := F) d L _ _ _ _ r col).trans ?_
    exact chunk_sum L ⟨0, clt_0⟩ X2 PS TB hX _ fs _ rfl _ (hinAll 0 clt_0) _ _ fq _ rfl 0 (by decide) r col _
  ihave Hob0 := (Entails.of_eq (pointsTo_congr (q := fullShare) (g := (outG X2 PS TB hX : Buf (Elt F) ((oV).view.loc (V d (cV L) (jV L))))) (window_writes L ⟨0, clt_0⟩ X2 PS TB hX _ _ hput0))) $$ Hob0
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 0 clt_0).symm) $$ [Hob0 Hdone]
  · isplitl [Hob0]
    · iexact Hob0
    · iexact Hdone
  have hput1 : ∀ r col : Fin 128, (tile_body.sl.dma0_3 d L X2 PS TB fs fq fo hinAll) (ValueIdx.ix2 r col) = outG X2 PS TB hX (ValueIdx.ix2 (outRowN L ⟨1, clt_1⟩ r) col) := by
    intro r col
    show (obS1).view.read (Elt F) ((obS1).view.writes (Elt F) _ (pb_t2 (F := F) d L _ _ _ _)) (ValueIdx.ix2 r col) = _
    refine (rows_t2 (F := F) d L _ _ _ _ r col).trans ?_
    exact chunk_sum L ⟨1, clt_1⟩ X2 PS TB hX _ fs _ rfl _ (hinAll 1 clt_1) _ _ fq _ rfl 128 (by decide) r col _
  ihave Hob1 := (Entails.of_eq (pointsTo_congr (q := fullShare) (g := (outG X2 PS TB hX : Buf (Elt F) ((oV).view.loc (V d (cV L) (jV L))))) (window_writes L ⟨1, clt_1⟩ X2 PS TB hX _ _ hput1))) $$ Hob1
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 1 clt_1).symm) $$ [Hob1 Hdone]
  · isplitl [Hob1]
    · iexact Hob1
    · iexact Hdone
  have hput2 : ∀ r col : Fin 128, (tile_body.sl.dma0_4 d L X2 PS TB fs fq fo hinAll) (ValueIdx.ix2 r col) = outG X2 PS TB hX (ValueIdx.ix2 (outRowN L ⟨2, clt_2⟩ r) col) := by
    intro r col
    show (obS0).view.read (Elt F) ((obS0).view.writes (Elt F) _ (pb_t3 (F := F) d L _ _ _ _ _ _ ++ _)) (ValueIdx.ix2 r col) = _
    rw [View.writes_append]
    refine (rows_t3 (F := F) d L _ _ _ _ _ _ r col).trans ?_
    exact chunk_sum L ⟨2, clt_2⟩ X2 PS TB hX _ fs _ rfl _ (hinAll 2 clt_2) _ _ fq _ rfl 0 (by decide) r col _
  ihave Hob2 := (Entails.of_eq (pointsTo_congr (q := fullShare) (g := (outG X2 PS TB hX : Buf (Elt F) ((oV).view.loc (V d (cV L) (jV L))))) (window_writes L ⟨2, clt_2⟩ X2 PS TB hX _ _ hput2))) $$ Hob2
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 2 clt_2).symm) $$ [Hob2 Hdone]
  · isplitl [Hob2]
    · iexact Hob2
    · iexact Hdone
  have hput3 : ∀ r col : Fin 128, (tile_body.sl.dma0_5 d L X2 PS TB fs fq fo hinAll) (ValueIdx.ix2 r col) = outG X2 PS TB hX (ValueIdx.ix2 (outRowN L ⟨3, clt_3⟩ r) col) := by
    intro r col
    show (obS1).view.read (Elt F) ((obS1).view.writes (Elt F) _ (pb_t4 (F := F) d L _ _ _ _ ++ _)) (ValueIdx.ix2 r col) = _
    rw [View.writes_append]
    refine (rows_t4 (F := F) d L _ _ _ _ r col).trans ?_
    exact chunk_sum L ⟨3, clt_3⟩ X2 PS TB hX _ fs _ rfl _ (hinAll 3 clt_3) _ _ fq _ rfl 128 (by decide) r col _
  ihave Hob3 := (Entails.of_eq (pointsTo_congr (q := fullShare) (g := (outG X2 PS TB hX : Buf (Elt F) ((oV).view.loc (V d (cV L) (jV L))))) (window_writes L ⟨3, clt_3⟩ X2 PS TB hX _ _ hput3))) $$ Hob3
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 3 clt_3).symm) $$ [Hob3 Hdone]
  · isplitl [Hob3]
    · iexact Hob3
    · iexact Hdone
  have hput4 : ∀ r col : Fin 128, (tile_body.sl.dma0_6 d L X2 PS TB fs fq fo hinAll) (ValueIdx.ix2 r col) = outG X2 PS TB hX (ValueIdx.ix2 (outRowN L ⟨4, clt_4⟩ r) col) := by
    intro r col
    show (obS0).view.read (Elt F) ((obS0).view.writes (Elt F) _ (pb_t5 (F := F) d L _ _ _ _ ++ _)) (ValueIdx.ix2 r col) = _
    rw [View.writes_append]
    refine (rows_t5 (F := F) d L _ _ _ _ r col).trans ?_
    exact chunk_sum L ⟨4, clt_4⟩ X2 PS TB hX _ fs _ rfl _ (hinAll 4 clt_4) _ _ fq _ rfl 0 (by decide) r col _
  ihave Hob4 := (Entails.of_eq (pointsTo_congr (q := fullShare) (g := (outG X2 PS TB hX : Buf (Elt F) ((oV).view.loc (V d (cV L) (jV L))))) (window_writes L ⟨4, clt_4⟩ X2 PS TB hX _ _ hput4))) $$ Hob4
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 4 clt_4).symm) $$ [Hob4 Hdone]
  · isplitl [Hob4]
    · iexact Hob4
    · iexact Hdone
  have hput5 : ∀ r col : Fin 128, (tile_body.sl.dma0_7 d L X2 PS TB fs fq fo hinAll) (ValueIdx.ix2 r col) = outG X2 PS TB hX (ValueIdx.ix2 (outRowN L ⟨5, clt_5⟩ r) col) := by
    intro r col
    show (obS1).view.read (Elt F) ((obS1).view.writes (Elt F) _ (pb_t6 (F := F) d L _ _ _ _ ++ _)) (ValueIdx.ix2 r col) = _
    rw [View.writes_append]
    refine (rows_t6 (F := F) d L _ _ _ _ r col).trans ?_
    exact chunk_sum L ⟨5, clt_5⟩ X2 PS TB hX _ fs _ rfl _ (hinAll 5 clt_5) _ _ fq _ rfl 128 (by decide) r col _
  ihave Hob5 := (Entails.of_eq (pointsTo_congr (q := fullShare) (g := (outG X2 PS TB hX : Buf (Elt F) ((oV).view.loc (V d (cV L) (jV L))))) (window_writes L ⟨5, clt_5⟩ X2 PS TB hX _ _ hput5))) $$ Hob5
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 5 clt_5).symm) $$ [Hob5 Hdone]
  · isplitl [Hob5]
    · iexact Hob5
    · iexact Hdone
  have hput6 : ∀ r col : Fin 128, (tile_body.sl.dma0_8 d L X2 PS TB fs fq fo hinAll) (ValueIdx.ix2 r col) = outG X2 PS TB hX (ValueIdx.ix2 (outRowN L ⟨6, clt_6⟩ r) col) := by
    intro r col
    show (obS0).view.read (Elt F) ((obS0).view.writes (Elt F) _ (pb_t7 (F := F) d L _ _ _ _ ++ _)) (ValueIdx.ix2 r col) = _
    rw [View.writes_append]
    refine (rows_t7 (F := F) d L _ _ _ _ r col).trans ?_
    exact chunk_sum L ⟨6, clt_6⟩ X2 PS TB hX _ fs _ rfl _ (hinAll 6 clt_6) _ _ fq _ rfl 0 (by decide) r col _
  ihave Hob6 := (Entails.of_eq (pointsTo_congr (q := fullShare) (g := (outG X2 PS TB hX : Buf (Elt F) ((oV).view.loc (V d (cV L) (jV L))))) (window_writes L ⟨6, clt_6⟩ X2 PS TB hX _ _ hput6))) $$ Hob6
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 6 clt_6).symm) $$ [Hob6 Hdone]
  · isplitl [Hob6]
    · iexact Hob6
    · iexact Hdone
  have hput7 : ∀ r col : Fin 128, (tile_body.sl.dma0_9 d L X2 PS TB fs fq fo hinAll) (ValueIdx.ix2 r col) = outG X2 PS TB hX (ValueIdx.ix2 (outRowN L ⟨7, clt_7⟩ r) col) := by
    intro r col
    show (obS1).view.read (Elt F) ((obS1).view.writes (Elt F) _ (pb_t8 (F := F) d L _ _ _ _ ++ _)) (ValueIdx.ix2 r col) = _
    rw [View.writes_append]
    refine (rows_t8 (F := F) d L _ _ _ _ r col).trans ?_
    exact chunk_sum L ⟨7, clt_7⟩ X2 PS TB hX _ fs _ rfl _ (hinAll 7 clt_7) _ _ fq _ rfl 128 (by decide) r col _
  ihave Hob7 := (Entails.of_eq (pointsTo_congr (q := fullShare) (g := (outG X2 PS TB hX : Buf (Elt F) ((oV).view.loc (V d (cV L) (jV L))))) (window_writes L ⟨7, clt_7⟩ X2 PS TB hX _ _ hput7))) $$ Hob7
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 7 clt_7).symm) $$ [Hob7 Hdone]
  · isplitl [Hob7]
    · iexact Hob7
    · iexact Hdone
  have hput8 : ∀ r col : Fin 128, (tile_body.sl.dma0_10 d L X2 PS TB fs fq fo hinAll) (ValueIdx.ix2 r col) = outG X2 PS TB hX (ValueIdx.ix2 (outRowN L ⟨8, clt_8⟩ r) col) := by
    intro r col
    show (obS0).view.read (Elt F) ((obS0).view.writes (Elt F) _ (pb_t9 (F := F) d L _ _ _ _ ++ _)) (ValueIdx.ix2 r col) = _
    rw [View.writes_append]
    refine (rows_t9 (F := F) d L _ _ _ _ r col).trans ?_
    exact chunk_sum L ⟨8, clt_8⟩ X2 PS TB hX _ fs _ rfl _ (hinAll 8 clt_8) _ _ fq _ rfl 0 (by decide) r col _
  ihave Hob8 := (Entails.of_eq (pointsTo_congr (q := fullShare) (g := (outG X2 PS TB hX : Buf (Elt F) ((oV).view.loc (V d (cV L) (jV L))))) (window_writes L ⟨8, clt_8⟩ X2 PS TB hX _ _ hput8))) $$ Hob8
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 8 clt_8).symm) $$ [Hob8 Hdone]
  · isplitl [Hob8]
    · iexact Hob8
    · iexact Hdone
  ihave Hob := (Entails.of_eq (rows_take _ 10 clt_10)) $$ Hob
  icases Hob with ⟨Hob10, Hob⟩
  ihave Hob10 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1280#32) Cert.KernelIdeal.S128x128.size (Cert.KernelIdeal.Gen.k0_off18_inb L 10)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1280#32) Cert.KernelIdeal.S128x128.size (Cert.KernelIdeal.Gen.k0_off18_inb L 10)) (fun _ => rfl)).view.set]{fullShare} O0) from Entails.refl _) $$ Hob10
  ihave Hob := (Entails.of_eq (rows_take _ 11 clt_11)) $$ Hob
  icases Hob with ⟨Hob11, Hob⟩
  ihave Hob11 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1408#32) Cert.KernelIdeal.S128x128.size (Cert.KernelIdeal.Gen.k0_off18_inb L 11)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1408#32) Cert.KernelIdeal.S128x128.size (Cert.KernelIdeal.Gen.k0_off18_inb L 11)) (fun _ => rfl)).view.set]{fullShare} O0) from Entails.refl _) $$ Hob11
  ihave Hob := (Entails.of_eq (rows_take _ 12 clt_12)) $$ Hob
  icases Hob with ⟨Hob12, Hob⟩
  ihave Hob12 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1536#32) Cert.KernelIdeal.S128x128.size (Cert.KernelIdeal.Gen.k0_off18_inb L 12)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1536#32) Cert.KernelIdeal.S128x128.size (Cert.KernelIdeal.Gen.k0_off18_inb L 12)) (fun _ => rfl)).view.set]{fullShare} O0) from Entails.refl _) $$ Hob12
  ihave Hob := (Entails.of_eq (rows_take _ 13 clt_13)) $$ Hob
  icases Hob with ⟨Hob13, Hob⟩
  ihave Hob13 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1664#32) Cert.KernelIdeal.S128x128.size (Cert.KernelIdeal.Gen.k0_off18_inb L 13)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1664#32) Cert.KernelIdeal.S128x128.size (Cert.KernelIdeal.Gen.k0_off18_inb L 13)) (fun _ => rfl)).view.set]{fullShare} O0) from Entails.refl _) $$ Hob13
  ihave Hob := (Entails.of_eq (rows_take _ 14 clt_14)) $$ Hob
  icases Hob with ⟨Hob14, Hob⟩
  ihave Hob14 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1792#32) Cert.KernelIdeal.S128x128.size (Cert.KernelIdeal.Gen.k0_off18_inb L 14)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1792#32) Cert.KernelIdeal.S128x128.size (Cert.KernelIdeal.Gen.k0_off18_inb L 14)) (fun _ => rfl)).view.set]{fullShare} O0) from Entails.refl _) $$ Hob14
  ihave Hob := (Entails.of_eq (rows_take _ 15 clt_15)) $$ Hob
  icases Hob with ⟨Hob15, Hob⟩
  ihave Hob15 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1920#32) Cert.KernelIdeal.S128x128.size (Cert.KernelIdeal.Gen.k0_off18_inb L 15)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 1920#32) Cert.KernelIdeal.S128x128.size (Cert.KernelIdeal.Gen.k0_off18_inb L 15)) (fun _ => rfl)).view.set]{fullShare} O0) from Entails.refl _) $$ Hob15
  ihave Hob := (Entails.of_eq (rows_take _ 16 clt_16)) $$ Hob
  icases Hob with ⟨Hob16, Hob⟩
  ihave Hob16 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2048#32) Cert.KernelIdeal.S128x128.size (Cert.KernelIdeal.Gen.k0_off18_inb L 16)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2048#32) Cert.KernelIdeal.S128x128.size (Cert.KernelIdeal.Gen.k0_off18_inb L 16)) (fun _ => rfl)).view.set]{fullShare} O0) from Entails.refl _) $$ Hob16
  ihave Hob := (Entails.of_eq (rows_take _ 17 clt_17)) $$ Hob
  icases Hob with ⟨Hob17, Hob⟩
  ihave Hob17 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2176#32) Cert.KernelIdeal.S128x128.size (Cert.KernelIdeal.Gen.k0_off18_inb L 17)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2176#32) Cert.KernelIdeal.S128x128.size (Cert.KernelIdeal.Gen.k0_off18_inb L 17)) (fun _ => rfl)).view.set]{fullShare} O0) from Entails.refl _) $$ Hob17
  sl_exec_parts
  have hput9 : ∀ r col : Fin 128, (tile_body.sl.dma0_11 d L X2 PS TB fs fq fo hinAll) (ValueIdx.ix2 r col) = outG X2 PS TB hX (ValueIdx.ix2 (outRowN L ⟨9, clt_9⟩ r) col) := by
    intro r col
    show (obS1).view.read (Elt F) ((obS1).view.writes (Elt F) _ (pb_t10 (F := F) d L _ _ _ _ ++ _)) (ValueIdx.ix2 r col) = _
    rw [View.writes_append]
    refine (rows_t10 (F := F) d L _ _ _ _ r col).trans ?_
    exact chunk_sum L ⟨9, clt_9⟩ X2 PS TB hX _ fs _ rfl _ (hinAll 9 clt_9) _ _ fq _ rfl 128 (by decide) r col _
  ihave Hob9 := (Entails.of_eq (pointsTo_congr (q := fullShare) (g := (outG X2 PS TB hX : Buf (Elt F) ((oV).view.loc (V d (cV L) (jV L))))) (window_writes L ⟨9, clt_9⟩ X2 PS TB hX _ _ hput9))) $$ Hob9
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 9 clt_9).symm) $$ [Hob9 Hdone]
  · isplitl [Hob9]
    · iexact Hob9
    · iexact Hdone
  have hput10 : ∀ r col : Fin 128, (tile_body.sl.dma0_12 d L X2 PS TB fs fq fo hinAll) (ValueIdx.ix2 r col) = outG X2 PS TB hX (ValueIdx.ix2 (outRowN L ⟨10, clt_10⟩ r) col) := by
    intro r col
    show (obS0).view.read (Elt F) ((obS0).view.writes (Elt F) _ (pb_t11 (F := F) d L _ _ _ _ ++ _)) (ValueIdx.ix2 r col) = _
    rw [View.writes_append]
    refine (rows_t11 (F := F) d L _ _ _ _ r col).trans ?_
    exact chunk_sum L ⟨10, clt_10⟩ X2 PS TB hX _ fs _ rfl _ (hinAll 10 clt_10) _ _ fq _ rfl 0 (by decide) r col _
  ihave Hob10 := (Entails.of_eq (pointsTo_congr (q := fullShare) (g := (outG X2 PS TB hX : Buf (Elt F) ((oV).view.loc (V d (cV L) (jV L))))) (window_writes L ⟨10, clt_10⟩ X2 PS TB hX _ _ hput10))) $$ Hob10
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 10 clt_10).symm) $$ [Hob10 Hdone]
  · isplitl [Hob10]
    · iexact Hob10
    · iexact Hdone
  have hput11 : ∀ r col : Fin 128, (tile_body.sl.dma0_13 d L X2 PS TB fs fq fo hinAll) (ValueIdx.ix2 r col) = outG X2 PS TB hX (ValueIdx.ix2 (outRowN L ⟨11, clt_11⟩ r) col) := by
    intro r col
    show (obS1).view.read (Elt F) ((obS1).view.writes (Elt F) _ (pb_t12 (F := F) d L _ _ _ _ ++ _)) (ValueIdx.ix2 r col) = _
    rw [View.writes_append]
    refine (rows_t12 (F := F) d L _ _ _ _ r col).trans ?_
    exact chunk_sum L ⟨11, clt_11⟩ X2 PS TB hX _ fs _ rfl _ (hinAll 11 clt_11) _ _ fq _ rfl 128 (by decide) r col _
  ihave Hob11 := (Entails.of_eq (pointsTo_congr (q := fullShare) (g := (outG X2 PS TB hX : Buf (Elt F) ((oV).view.loc (V d (cV L) (jV L))))) (window_writes L ⟨11, clt_11⟩ X2 PS TB hX _ _ hput11))) $$ Hob11
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 11 clt_11).symm) $$ [Hob11 Hdone]
  · isplitl [Hob11]
    · iexact Hob11
    · iexact Hdone
  have hput12 : ∀ r col : Fin 128, (tile_body.sl.dma0_14 d L X2 PS TB fs fq fo hinAll) (ValueIdx.ix2 r col) = outG X2 PS TB hX (ValueIdx.ix2 (outRowN L ⟨12, clt_12⟩ r) col) := by
    intro r col
    show (obS0).view.read (Elt F) ((obS0).view.writes (Elt F) _ (pb_t13 (F := F) d L _ _ _ _ _ _ ++ _)) (ValueIdx.ix2 r col) = _
    rw [View.writes_append]
    refine (rows_t13 (F := F) d L _ _ _ _ _ _ r col).trans ?_
    exact chunk_sum L ⟨12, clt_12⟩ X2 PS TB hX _ fs _ rfl _ (hinAll 12 clt_12) _ _ fq _ rfl 0 (by decide) r col _
  ihave Hob12 := (Entails.of_eq (pointsTo_congr (q := fullShare) (g := (outG X2 PS TB hX : Buf (Elt F) ((oV).view.loc (V d (cV L) (jV L))))) (window_writes L ⟨12, clt_12⟩ X2 PS TB hX _ _ hput12))) $$ Hob12
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 12 clt_12).symm) $$ [Hob12 Hdone]
  · isplitl [Hob12]
    · iexact Hob12
    · iexact Hdone
  have hput13 : ∀ r col : Fin 128, (tile_body.sl.dma0_15 d L X2 PS TB fs fq fo hinAll) (ValueIdx.ix2 r col) = outG X2 PS TB hX (ValueIdx.ix2 (outRowN L ⟨13, clt_13⟩ r) col) := by
    intro r col
    show (obS1).view.read (Elt F) ((obS1).view.writes (Elt F) _ (pb_t14 (F := F) d L _ _ _ _ ++ _)) (ValueIdx.ix2 r col) = _
    rw [View.writes_append]
    refine (rows_t14 (F := F) d L _ _ _ _ r col).trans ?_
    exact chunk_sum L ⟨13, clt_13⟩ X2 PS TB hX _ fs _ rfl _ (hinAll 13 clt_13) _ _ fq _ rfl 128 (by decide) r col _
  ihave Hob13 := (Entails.of_eq (pointsTo_congr (q := fullShare) (g := (outG X2 PS TB hX : Buf (Elt F) ((oV).view.loc (V d (cV L) (jV L))))) (window_writes L ⟨13, clt_13⟩ X2 PS TB hX _ _ hput13))) $$ Hob13
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 13 clt_13).symm) $$ [Hob13 Hdone]
  · isplitl [Hob13]
    · iexact Hob13
    · iexact Hdone
  have hput14 : ∀ r col : Fin 128, (tile_body.sl.dma0_16 d L X2 PS TB fs fq fo hinAll) (ValueIdx.ix2 r col) = outG X2 PS TB hX (ValueIdx.ix2 (outRowN L ⟨14, clt_14⟩ r) col) := by
    intro r col
    show (obS0).view.read (Elt F) ((obS0).view.writes (Elt F) _ (pb_t15 (F := F) d L _ _ _ _ ++ _)) (ValueIdx.ix2 r col) = _
    rw [View.writes_append]
    refine (rows_t15 (F := F) d L _ _ _ _ r col).trans ?_
    exact chunk_sum L ⟨14, clt_14⟩ X2 PS TB hX _ fs _ rfl _ (hinAll 14 clt_14) _ _ fq _ rfl 0 (by decide) r col _
  ihave Hob14 := (Entails.of_eq (pointsTo_congr (q := fullShare) (g := (outG X2 PS TB hX : Buf (Elt F) ((oV).view.loc (V d (cV L) (jV L))))) (window_writes L ⟨14, clt_14⟩ X2 PS TB hX _ _ hput14))) $$ Hob14
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 14 clt_14).symm) $$ [Hob14 Hdone]
  · isplitl [Hob14]
    · iexact Hob14
    · iexact Hdone
  have hput15 : ∀ r col : Fin 128, (tile_body.sl.dma0_17 d L X2 PS TB fs fq fo hinAll) (ValueIdx.ix2 r col) = outG X2 PS TB hX (ValueIdx.ix2 (outRowN L ⟨15, clt_15⟩ r) col) := by
    intro r col
    show (obS1).view.read (Elt F) ((obS1).view.writes (Elt F) _ (pb_t16 (F := F) d L _ _ _ _ ++ _)) (ValueIdx.ix2 r col) = _
    rw [View.writes_append]
    refine (rows_t16 (F := F) d L _ _ _ _ r col).trans ?_
    exact chunk_sum L ⟨15, clt_15⟩ X2 PS TB hX _ fs _ rfl _ (hinAll 15 clt_15) _ _ fq _ rfl 128 (by decide) r col _
  ihave Hob15 := (Entails.of_eq (pointsTo_congr (q := fullShare) (g := (outG X2 PS TB hX : Buf (Elt F) ((oV).view.loc (V d (cV L) (jV L))))) (window_writes L ⟨15, clt_15⟩ X2 PS TB hX _ _ hput15))) $$ Hob15
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 15 clt_15).symm) $$ [Hob15 Hdone]
  · isplitl [Hob15]
    · iexact Hob15
    · iexact Hdone
  have hput16 : ∀ r col : Fin 128, (tile_body.sl.dma0_18 d L X2 PS TB fs fq fo hinAll) (ValueIdx.ix2 r col) = outG X2 PS TB hX (ValueIdx.ix2 (outRowN L ⟨16, clt_16⟩ r) col) := by
    intro r col
    show (obS0).view.read (Elt F) ((obS0).view.writes (Elt F) _ (pb_t17 (F := F) d L _ _ _ _ ++ _)) (ValueIdx.ix2 r col) = _
    rw [View.writes_append]
    refine (rows_t17 (F := F) d L _ _ _ _ r col).trans ?_
    exact chunk_sum L ⟨16, clt_16⟩ X2 PS TB hX _ fs _ rfl _ (hinAll 16 clt_16) _ _ fq _ rfl 0 (by decide) r col _
  ihave Hob16 := (Entails.of_eq (pointsTo_congr (q := fullShare) (g := (outG X2 PS TB hX : Buf (Elt F) ((oV).view.loc (V d (cV L) (jV L))))) (window_writes L ⟨16, clt_16⟩ X2 PS TB hX _ _ hput16))) $$ Hob16
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 16 clt_16).symm) $$ [Hob16 Hdone]
  · isplitl [Hob16]
    · iexact Hob16
    · iexact Hdone
  ihave Hob := (Entails.of_eq (rows_take _ 18 clt_18)) $$ Hob
  icases Hob with ⟨Hob18, Hob⟩
  ihave Hob18 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2304#32) Cert.KernelIdeal.S128x128.size (Cert.KernelIdeal.Gen.k0_off18_inb L 18)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2304#32) Cert.KernelIdeal.S128x128.size (Cert.KernelIdeal.Gen.k0_off18_inb L 18)) (fun _ => rfl)).view.set]{fullShare} O0) from Entails.refl _) $$ Hob18
  ihave Hob := (Entails.of_eq (rows_take _ 19 clt_19)) $$ Hob
  icases Hob with ⟨Hob19, Hob⟩
  ihave Hob19 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2432#32) Cert.KernelIdeal.S128x128.size (Cert.KernelIdeal.Gen.k0_off18_inb L 19)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2432#32) Cert.KernelIdeal.S128x128.size (Cert.KernelIdeal.Gen.k0_off18_inb L 19)) (fun _ => rfl)).view.set]{fullShare} O0) from Entails.refl _) $$ Hob19
  ihave Hob := (Entails.of_eq (rows_take _ 20 clt_20)) $$ Hob
  icases Hob with ⟨Hob20, Hob⟩
  ihave Hob20 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2560#32) Cert.KernelIdeal.S128x128.size (Cert.KernelIdeal.Gen.k0_off18_inb L 20)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2560#32) Cert.KernelIdeal.S128x128.size (Cert.KernelIdeal.Gen.k0_off18_inb L 20)) (fun _ => rfl)).view.set]{fullShare} O0) from Entails.refl _) $$ Hob20
  ihave Hob := (Entails.of_eq (rows_take _ 21 clt_21)) $$ Hob
  icases Hob with ⟨Hob21, Hob⟩
  ihave Hob21 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2688#32) Cert.KernelIdeal.S128x128.size (Cert.KernelIdeal.Gen.k0_off18_inb L 21)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2688#32) Cert.KernelIdeal.S128x128.size (Cert.KernelIdeal.Gen.k0_off18_inb L 21)) (fun _ => rfl)).view.set]{fullShare} O0) from Entails.refl _) $$ Hob21
  ihave Hob := (Entails.of_eq (rows_take _ 22 clt_22)) $$ Hob
  icases Hob with ⟨Hob22, Hob⟩
  ihave Hob22 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2816#32) Cert.KernelIdeal.S128x128.size (Cert.KernelIdeal.Gen.k0_off18_inb L 22)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2816#32) Cert.KernelIdeal.S128x128.size (Cert.KernelIdeal.Gen.k0_off18_inb L 22)) (fun _ => rfl)).view.set]{fullShare} O0) from Entails.refl _) $$ Hob22
  ihave Hob := (Entails.of_eq (rows_take _ 23 clt_23)) $$ Hob
  icases Hob with ⟨Hob23, Hob⟩
  ihave Hob23 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2944#32) Cert.KernelIdeal.S128x128.size (Cert.KernelIdeal.Gen.k0_off18_inb L 23)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 2944#32) Cert.KernelIdeal.S128x128.size (Cert.KernelIdeal.Gen.k0_off18_inb L 23)) (fun _ => rfl)).view.set]{fullShare} O0) from Entails.refl _) $$ Hob23
  ihave Hob := (Entails.of_eq (rows_take _ 24 clt_24)) $$ Hob
  icases Hob with ⟨Hob24, Hob⟩
  ihave Hob24 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3072#32) Cert.KernelIdeal.S128x128.size (Cert.KernelIdeal.Gen.k0_off18_inb L 24)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3072#32) Cert.KernelIdeal.S128x128.size (Cert.KernelIdeal.Gen.k0_off18_inb L 24)) (fun _ => rfl)).view.set]{fullShare} O0) from Entails.refl _) $$ Hob24
  ihave Hob := (Entails.of_eq (rows_take _ 25 clt_25)) $$ Hob
  icases Hob with ⟨Hob25, Hob⟩
  ihave Hob25 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3200#32) Cert.KernelIdeal.S128x128.size (Cert.KernelIdeal.Gen.k0_off18_inb L 25)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3200#32) Cert.KernelIdeal.S128x128.size (Cert.KernelIdeal.Gen.k0_off18_inb L 25)) (fun _ => rfl)).view.set]{fullShare} O0) from Entails.refl _) $$ Hob25
  sl_exec_parts
  have hput17 : ∀ r col : Fin 128, (tile_body.sl.dma0_19 d L X2 PS TB fs fq fo hinAll) (ValueIdx.ix2 r col) = outG X2 PS TB hX (ValueIdx.ix2 (outRowN L ⟨17, clt_17⟩ r) col) := by
    intro r col
    show (obS1).view.read (Elt F) ((obS1).view.writes (Elt F) _ (pb_t18 (F := F) d L _ _ _ _ ++ _)) (ValueIdx.ix2 r col) = _
    rw [View.writes_append]
    refine (rows_t18 (F := F) d L _ _ _ _ r col).trans ?_
    exact chunk_sum L ⟨17, clt_17⟩ X2 PS TB hX _ fs _ rfl _ (hinAll 17 clt_17) _ _ fq _ rfl 128 (by decide) r col _
  ihave Hob17 := (Entails.of_eq (pointsTo_congr (q := fullShare) (g := (outG X2 PS TB hX : Buf (Elt F) ((oV).view.loc (V d (cV L) (jV L))))) (window_writes L ⟨17, clt_17⟩ X2 PS TB hX _ _ hput17))) $$ Hob17
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 17 clt_17).symm) $$ [Hob17 Hdone]
  · isplitl [Hob17]
    · iexact Hob17
    · iexact Hdone
  have hput18 : ∀ r col : Fin 128, (tile_body.sl.dma0_20 d L X2 PS TB fs fq fo hinAll) (ValueIdx.ix2 r col) = outG X2 PS TB hX (ValueIdx.ix2 (outRowN L ⟨18, clt_18⟩ r) col) := by
    intro r col
    show (obS0).view.read (Elt F) ((obS0).view.writes (Elt F) _ (pb_t19 (F := F) d L _ _ _ _ ++ _)) (ValueIdx.ix2 r col) = _
    rw [View.writes_append]
    refine (rows_t19 (F := F) d L _ _ _ _ r col).trans ?_
    exact chunk_sum L ⟨18, clt_18⟩ X2 PS TB hX _ fs _ rfl _ (hinAll 18 clt_18) _ _ fq _ rfl 0 (by decide) r col _
  ihave Hob18 := (Entails.of_eq (pointsTo_congr (q := fullShare) (g := (outG X2 PS TB hX : Buf (Elt F) ((oV).view.loc (V d (cV L) (jV L))))) (window_writes L ⟨18, clt_18⟩ X2 PS TB hX _ _ hput18))) $$ Hob18
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 18 clt_18).symm) $$ [Hob18 Hdone]
  · isplitl [Hob18]
    · iexact Hob18
    · iexact Hdone
  have hput19 : ∀ r col : Fin 128, (tile_body.sl.dma0_21 d L X2 PS TB fs fq fo hinAll) (ValueIdx.ix2 r col) = outG X2 PS TB hX (ValueIdx.ix2 (outRowN L ⟨19, clt_19⟩ r) col) := by
    intro r col
    show (obS1).view.read (Elt F) ((obS1).view.writes (Elt F) _ (pb_t20 (F := F) d L _ _ _ _ ++ _)) (ValueIdx.ix2 r col) = _
    rw [View.writes_append]
    refine (rows_t20 (F := F) d L _ _ _ _ r col).trans ?_
    exact chunk_sum L ⟨19, clt_19⟩ X2 PS TB hX _ fs _ rfl _ (hinAll 19 clt_19) _ _ fq _ rfl 128 (by decide) r col _
  ihave Hob19 := (Entails.of_eq (pointsTo_congr (q := fullShare) (g := (outG X2 PS TB hX : Buf (Elt F) ((oV).view.loc (V d (cV L) (jV L))))) (window_writes L ⟨19, clt_19⟩ X2 PS TB hX _ _ hput19))) $$ Hob19
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 19 clt_19).symm) $$ [Hob19 Hdone]
  · isplitl [Hob19]
    · iexact Hob19
    · iexact Hdone
  have hput20 : ∀ r col : Fin 128, (tile_body.sl.dma0_22 d L X2 PS TB fs fq fo hinAll) (ValueIdx.ix2 r col) = outG X2 PS TB hX (ValueIdx.ix2 (outRowN L ⟨20, clt_20⟩ r) col) := by
    intro r col
    show (obS0).view.read (Elt F) ((obS0).view.writes (Elt F) _ (pb_t21 (F := F) d L _ _ _ _ ++ _)) (ValueIdx.ix2 r col) = _
    rw [View.writes_append]
    refine (rows_t21 (F := F) d L _ _ _ _ r col).trans ?_
    exact chunk_sum L ⟨20, clt_20⟩ X2 PS TB hX _ fs _ rfl _ (hinAll 20 clt_20) _ _ fq _ rfl 0 (by decide) r col _
  ihave Hob20 := (Entails.of_eq (pointsTo_congr (q := fullShare) (g := (outG X2 PS TB hX : Buf (Elt F) ((oV).view.loc (V d (cV L) (jV L))))) (window_writes L ⟨20, clt_20⟩ X2 PS TB hX _ _ hput20))) $$ Hob20
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 20 clt_20).symm) $$ [Hob20 Hdone]
  · isplitl [Hob20]
    · iexact Hob20
    · iexact Hdone
  have hput21 : ∀ r col : Fin 128, (tile_body.sl.dma0_23 d L X2 PS TB fs fq fo hinAll) (ValueIdx.ix2 r col) = outG X2 PS TB hX (ValueIdx.ix2 (outRowN L ⟨21, clt_21⟩ r) col) := by
    intro r col
    show (obS1).view.read (Elt F) ((obS1).view.writes (Elt F) _ (pb_t22 (F := F) d L _ _ _ _ ++ _)) (ValueIdx.ix2 r col) = _
    rw [View.writes_append]
    refine (rows_t22 (F := F) d L _ _ _ _ r col).trans ?_
    exact chunk_sum L ⟨21, clt_21⟩ X2 PS TB hX _ fs _ rfl _ (hinAll 21 clt_21) _ _ fq _ rfl 128 (by decide) r col _
  ihave Hob21 := (Entails.of_eq (pointsTo_congr (q := fullShare) (g := (outG X2 PS TB hX : Buf (Elt F) ((oV).view.loc (V d (cV L) (jV L))))) (window_writes L ⟨21, clt_21⟩ X2 PS TB hX _ _ hput21))) $$ Hob21
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 21 clt_21).symm) $$ [Hob21 Hdone]
  · isplitl [Hob21]
    · iexact Hob21
    · iexact Hdone
  have hput22 : ∀ r col : Fin 128, (tile_body.sl.dma0_24 d L X2 PS TB fs fq fo hinAll) (ValueIdx.ix2 r col) = outG X2 PS TB hX (ValueIdx.ix2 (outRowN L ⟨22, clt_22⟩ r) col) := by
    intro r col
    show (obS0).view.read (Elt F) ((obS0).view.writes (Elt F) _ (pb_t23 (F := F) d L _ _ _ _ _ _ ++ _)) (ValueIdx.ix2 r col) = _
    rw [View.writes_append]
    refine (rows_t23 (F := F) d L _ _ _ _ _ _ r col).trans ?_
    exact chunk_sum L ⟨22, clt_22⟩ X2 PS TB hX _ fs _ rfl _ (hinAll 22 clt_22) _ _ fq _ rfl 0 (by decide) r col _
  ihave Hob22 := (Entails.of_eq (pointsTo_congr (q := fullShare) (g := (outG X2 PS TB hX : Buf (Elt F) ((oV).view.loc (V d (cV L) (jV L))))) (window_writes L ⟨22, clt_22⟩ X2 PS TB hX _ _ hput22))) $$ Hob22
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 22 clt_22).symm) $$ [Hob22 Hdone]
  · isplitl [Hob22]
    · iexact Hob22
    · iexact Hdone
  have hput23 : ∀ r col : Fin 128, (tile_body.sl.dma0_25 d L X2 PS TB fs fq fo hinAll) (ValueIdx.ix2 r col) = outG X2 PS TB hX (ValueIdx.ix2 (outRowN L ⟨23, clt_23⟩ r) col) := by
    intro r col
    show (obS1).view.read (Elt F) ((obS1).view.writes (Elt F) _ (pb_t24 (F := F) d L _ _ _ _ ++ _)) (ValueIdx.ix2 r col) = _
    rw [View.writes_append]
    refine (rows_t24 (F := F) d L _ _ _ _ r col).trans ?_
    exact chunk_sum L ⟨23, clt_23⟩ X2 PS TB hX _ fs _ rfl _ (hinAll 23 clt_23) _ _ fq _ rfl 128 (by decide) r col _
  ihave Hob23 := (Entails.of_eq (pointsTo_congr (q := fullShare) (g := (outG X2 PS TB hX : Buf (Elt F) ((oV).view.loc (V d (cV L) (jV L))))) (window_writes L ⟨23, clt_23⟩ X2 PS TB hX _ _ hput23))) $$ Hob23
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 23 clt_23).symm) $$ [Hob23 Hdone]
  · isplitl [Hob23]
    · iexact Hob23
    · iexact Hdone
  have hput24 : ∀ r col : Fin 128, (tile_body.sl.dma0_26 d L X2 PS TB fs fq fo hinAll) (ValueIdx.ix2 r col) = outG X2 PS TB hX (ValueIdx.ix2 (outRowN L ⟨24, clt_24⟩ r) col) := by
    intro r col
    show (obS0).view.read (Elt F) ((obS0).view.writes (Elt F) _ (pb_t25 (F := F) d L _ _ _ _ ++ _)) (ValueIdx.ix2 r col) = _
    rw [View.writes_append]
    refine (rows_t25 (F := F) d L _ _ _ _ r col).trans ?_
    exact chunk_sum L ⟨24, clt_24⟩ X2 PS TB hX _ fs _ rfl _ (hinAll 24 clt_24) _ _ fq _ rfl 0 (by decide) r col _
  ihave Hob24 := (Entails.of_eq (pointsTo_congr (q := fullShare) (g := (outG X2 PS TB hX : Buf (Elt F) ((oV).view.loc (V d (cV L) (jV L))))) (window_writes L ⟨24, clt_24⟩ X2 PS TB hX _ _ hput24))) $$ Hob24
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 24 clt_24).symm) $$ [Hob24 Hdone]
  · isplitl [Hob24]
    · iexact Hob24
    · iexact Hdone
  ihave Hob := (Entails.of_eq (rows_take _ 26 clt_26)) $$ Hob
  icases Hob with ⟨Hob26, Hob⟩
  ihave Hob26 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3328#32) Cert.KernelIdeal.S128x128.size (Cert.KernelIdeal.Gen.k0_off18_inb L 26)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3328#32) Cert.KernelIdeal.S128x128.size (Cert.KernelIdeal.Gen.k0_off18_inb L 26)) (fun _ => rfl)).view.set]{fullShare} O0) from Entails.refl _) $$ Hob26
  ihave Hob := (Entails.of_eq (rows_take _ 27 clt_27)) $$ Hob
  icases Hob with ⟨Hob27, Hob⟩
  ihave Hob27 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3456#32) Cert.KernelIdeal.S128x128.size (Cert.KernelIdeal.Gen.k0_off18_inb L 27)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3456#32) Cert.KernelIdeal.S128x128.size (Cert.KernelIdeal.Gen.k0_off18_inb L 27)) (fun _ => rfl)).view.set]{fullShare} O0) from Entails.refl _) $$ Hob27
  ihave Hob := (Entails.of_eq (rows_take _ 28 clt_28)) $$ Hob
  icases Hob with ⟨Hob28, Hob⟩
  ihave Hob28 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3584#32) Cert.KernelIdeal.S128x128.size (Cert.KernelIdeal.Gen.k0_off18_inb L 28)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3584#32) Cert.KernelIdeal.S128x128.size (Cert.KernelIdeal.Gen.k0_off18_inb L 28)) (fun _ => rfl)).view.set]{fullShare} O0) from Entails.refl _) $$ Hob28
  ihave Hob := (Entails.of_eq (rows_take _ 29 clt_29)) $$ Hob
  icases Hob with ⟨Hob29, Hob⟩
  ihave Hob29 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3712#32) Cert.KernelIdeal.S128x128.size (Cert.KernelIdeal.Gen.k0_off18_inb L 29)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3712#32) Cert.KernelIdeal.S128x128.size (Cert.KernelIdeal.Gen.k0_off18_inb L 29)) (fun _ => rfl)).view.set]{fullShare} O0) from Entails.refl _) $$ Hob29
  ihave Hob := (Entails.of_eq (rows_take _ 30 clt_30)) $$ Hob
  icases Hob with ⟨Hob30, Hob⟩
  ihave Hob30 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3840#32) Cert.KernelIdeal.S128x128.size (Cert.KernelIdeal.Gen.k0_off18_inb L 30)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3840#32) Cert.KernelIdeal.S128x128.size (Cert.KernelIdeal.Gen.k0_off18_inb L 30)) (fun _ => rfl)).view.set]{fullShare} O0) from Entails.refl _) $$ Hob30
  ihave Hob := (Entails.of_eq (rows_take _ 31 clt_31)) $$ Hob
  icases Hob with ⟨Hob31, Hob⟩
  ihave Hob31 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3968#32) Cert.KernelIdeal.S128x128.size (Cert.KernelIdeal.Gen.k0_off18_inb L 31)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 3968#32) Cert.KernelIdeal.S128x128.size (Cert.KernelIdeal.Gen.k0_off18_inb L 31)) (fun _ => rfl)).view.set]{fullShare} O0) from Entails.refl _) $$ Hob31
  ihave Hob := (Entails.of_eq (rows_take _ 32 clt_32)) $$ Hob
  icases Hob with ⟨Hob32, Hob⟩
  ihave Hob32 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4096#32) Cert.KernelIdeal.S128x128.size (Cert.KernelIdeal.Gen.k0_off18_inb L 32)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4096#32) Cert.KernelIdeal.S128x128.size (Cert.KernelIdeal.Gen.k0_off18_inb L 32)) (fun _ => rfl)).view.set]{fullShare} O0) from Entails.refl _) $$ Hob32
  ihave Hob := (Entails.of_eq (rows_take _ 33 clt_33)) $$ Hob
  icases Hob with ⟨Hob33, Hob⟩
  ihave Hob33 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4224#32) Cert.KernelIdeal.S128x128.size (Cert.KernelIdeal.Gen.k0_off18_inb L 33)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4224#32) Cert.KernelIdeal.S128x128.size (Cert.KernelIdeal.Gen.k0_off18_inb L 33)) (fun _ => rfl)).view.set]{fullShare} O0) from Entails.refl _) $$ Hob33
  sl_exec_parts
  have hput25 : ∀ r col : Fin 128, (tile_body.sl.dma0_27 d L X2 PS TB fs fq fo hinAll) (ValueIdx.ix2 r col) = outG X2 PS TB hX (ValueIdx.ix2 (outRowN L ⟨25, clt_25⟩ r) col) := by
    intro r col
    show (obS1).view.read (Elt F) ((obS1).view.writes (Elt F) _ (pb_t26 (F := F) d L _ _ _ _ ++ _)) (ValueIdx.ix2 r col) = _
    rw [View.writes_append]
    refine (rows_t26 (F := F) d L _ _ _ _ r col).trans ?_
    exact chunk_sum L ⟨25, clt_25⟩ X2 PS TB hX _ fs _ rfl _ (hinAll 25 clt_25) _ _ fq _ rfl 128 (by decide) r col _
  ihave Hob25 := (Entails.of_eq (pointsTo_congr (q := fullShare) (g := (outG X2 PS TB hX : Buf (Elt F) ((oV).view.loc (V d (cV L) (jV L))))) (window_writes L ⟨25, clt_25⟩ X2 PS TB hX _ _ hput25))) $$ Hob25
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 25 clt_25).symm) $$ [Hob25 Hdone]
  · isplitl [Hob25]
    · iexact Hob25
    · iexact Hdone
  have hput26 : ∀ r col : Fin 128, (tile_body.sl.dma0_28 d L X2 PS TB fs fq fo hinAll) (ValueIdx.ix2 r col) = outG X2 PS TB hX (ValueIdx.ix2 (outRowN L ⟨26, clt_26⟩ r) col) := by
    intro r col
    show (obS0).view.read (Elt F) ((obS0).view.writes (Elt F) _ (pb_t27 (F := F) d L _ _ _ _ ++ _)) (ValueIdx.ix2 r col) = _
    rw [View.writes_append]
    refine (rows_t27 (F := F) d L _ _ _ _ r col).trans ?_
    exact chunk_sum L ⟨26, clt_26⟩ X2 PS TB hX _ fs _ rfl _ (hinAll 26 clt_26) _ _ fq _ rfl 0 (by decide) r col _
  ihave Hob26 := (Entails.of_eq (pointsTo_congr (q := fullShare) (g := (outG X2 PS TB hX : Buf (Elt F) ((oV).view.loc (V d (cV L) (jV L))))) (window_writes L ⟨26, clt_26⟩ X2 PS TB hX _ _ hput26))) $$ Hob26
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 26 clt_26).symm) $$ [Hob26 Hdone]
  · isplitl [Hob26]
    · iexact Hob26
    · iexact Hdone
  have hput27 : ∀ r col : Fin 128, (tile_body.sl.dma0_29 d L X2 PS TB fs fq fo hinAll) (ValueIdx.ix2 r col) = outG X2 PS TB hX (ValueIdx.ix2 (outRowN L ⟨27, clt_27⟩ r) col) := by
    intro r col
    show (obS1).view.read (Elt F) ((obS1).view.writes (Elt F) _ (pb_t28 (F := F) d L _ _ _ _ ++ _)) (ValueIdx.ix2 r col) = _
    rw [View.writes_append]
    refine (rows_t28 (F := F) d L _ _ _ _ r col).trans ?_
    exact chunk_sum L ⟨27, clt_27⟩ X2 PS TB hX _ fs _ rfl _ (hinAll 27 clt_27) _ _ fq _ rfl 128 (by decide) r col _
  ihave Hob27 := (Entails.of_eq (pointsTo_congr (q := fullShare) (g := (outG X2 PS TB hX : Buf (Elt F) ((oV).view.loc (V d (cV L) (jV L))))) (window_writes L ⟨27, clt_27⟩ X2 PS TB hX _ _ hput27))) $$ Hob27
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 27 clt_27).symm) $$ [Hob27 Hdone]
  · isplitl [Hob27]
    · iexact Hob27
    · iexact Hdone
  have hput28 : ∀ r col : Fin 128, (tile_body.sl.dma0_30 d L X2 PS TB fs fq fo hinAll) (ValueIdx.ix2 r col) = outG X2 PS TB hX (ValueIdx.ix2 (outRowN L ⟨28, clt_28⟩ r) col) := by
    intro r col
    show (obS0).view.read (Elt F) ((obS0).view.writes (Elt F) _ (pb_t29 (F := F) d L _ _ _ _ ++ _)) (ValueIdx.ix2 r col) = _
    rw [View.writes_append]
    refine (rows_t29 (F := F) d L _ _ _ _ r col).trans ?_
    exact chunk_sum L ⟨28, clt_28⟩ X2 PS TB hX _ fs _ rfl _ (hinAll 28 clt_28) _ _ fq _ rfl 0 (by decide) r col _
  ihave Hob28 := (Entails.of_eq (pointsTo_congr (q := fullShare) (g := (outG X2 PS TB hX : Buf (Elt F) ((oV).view.loc (V d (cV L) (jV L))))) (window_writes L ⟨28, clt_28⟩ X2 PS TB hX _ _ hput28))) $$ Hob28
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 28 clt_28).symm) $$ [Hob28 Hdone]
  · isplitl [Hob28]
    · iexact Hob28
    · iexact Hdone
  have hput29 : ∀ r col : Fin 128, (tile_body.sl.dma0_31 d L X2 PS TB fs fq fo hinAll) (ValueIdx.ix2 r col) = outG X2 PS TB hX (ValueIdx.ix2 (outRowN L ⟨29, clt_29⟩ r) col) := by
    intro r col
    show (obS1).view.read (Elt F) ((obS1).view.writes (Elt F) _ (pb_t30 (F := F) d L _ _ _ _ ++ _)) (ValueIdx.ix2 r col) = _
    rw [View.writes_append]
    refine (rows_t30 (F := F) d L _ _ _ _ r col).trans ?_
    exact chunk_sum L ⟨29, clt_29⟩ X2 PS TB hX _ fs _ rfl _ (hinAll 29 clt_29) _ _ fq _ rfl 128 (by decide) r col _
  ihave Hob29 := (Entails.of_eq (pointsTo_congr (q := fullShare) (g := (outG X2 PS TB hX : Buf (Elt F) ((oV).view.loc (V d (cV L) (jV L))))) (window_writes L ⟨29, clt_29⟩ X2 PS TB hX _ _ hput29))) $$ Hob29
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 29 clt_29).symm) $$ [Hob29 Hdone]
  · isplitl [Hob29]
    · iexact Hob29
    · iexact Hdone
  have hput30 : ∀ r col : Fin 128, (tile_body.sl.dma0_32 d L X2 PS TB fs fq fo hinAll) (ValueIdx.ix2 r col) = outG X2 PS TB hX (ValueIdx.ix2 (outRowN L ⟨30, clt_30⟩ r) col) := by
    intro r col
    show (obS0).view.read (Elt F) ((obS0).view.writes (Elt F) _ (pb_t31 (F := F) d L _ _ _ _ ++ _)) (ValueIdx.ix2 r col) = _
    rw [View.writes_append]
    refine (rows_t31 (F := F) d L _ _ _ _ r col).trans ?_
    exact chunk_sum L ⟨30, clt_30⟩ X2 PS TB hX _ fs _ rfl _ (hinAll 30 clt_30) _ _ fq _ rfl 0 (by decide) r col _
  ihave Hob30 := (Entails.of_eq (pointsTo_congr (q := fullShare) (g := (outG X2 PS TB hX : Buf (Elt F) ((oV).view.loc (V d (cV L) (jV L))))) (window_writes L ⟨30, clt_30⟩ X2 PS TB hX _ _ hput30))) $$ Hob30
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 30 clt_30).symm) $$ [Hob30 Hdone]
  · isplitl [Hob30]
    · iexact Hob30
    · iexact Hdone
  have hput31 : ∀ r col : Fin 128, (tile_body.sl.dma0_33 d L X2 PS TB fs fq fo hinAll) (ValueIdx.ix2 r col) = outG X2 PS TB hX (ValueIdx.ix2 (outRowN L ⟨31, clt_31⟩ r) col) := by
    intro r col
    show (obS1).view.read (Elt F) ((obS1).view.writes (Elt F) _ (pb_t32 (F := F) d L _ _ _ _ ++ _)) (ValueIdx.ix2 r col) = _
    rw [View.writes_append]
    refine (rows_t32 (F := F) d L _ _ _ _ r col).trans ?_
    exact chunk_sum L ⟨31, clt_31⟩ X2 PS TB hX _ fs _ rfl _ (hinAll 31 clt_31) _ _ fq _ rfl 128 (by decide) r col _
  ihave Hob31 := (Entails.of_eq (pointsTo_congr (q := fullShare) (g := (outG X2 PS TB hX : Buf (Elt F) ((oV).view.loc (V d (cV L) (jV L))))) (window_writes L ⟨31, clt_31⟩ X2 PS TB hX _ _ hput31))) $$ Hob31
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 31 clt_31).symm) $$ [Hob31 Hdone]
  · isplitl [Hob31]
    · iexact Hob31
    · iexact Hdone
  have hput32 : ∀ r col : Fin 128, (tile_body.sl.dma0_34 d L X2 PS TB fs fq fo hinAll) (ValueIdx.ix2 r col) = outG X2 PS TB hX (ValueIdx.ix2 (outRowN L ⟨32, clt_32⟩ r) col) := by
    intro r col
    show (obS0).view.read (Elt F) ((obS0).view.writes (Elt F) _ (pb_t33 (F := F) d L _ _ _ _ _ _ ++ _)) (ValueIdx.ix2 r col) = _
    rw [View.writes_append]
    refine (rows_t33 (F := F) d L _ _ _ _ _ _ r col).trans ?_
    exact chunk_sum L ⟨32, clt_32⟩ X2 PS TB hX _ fs _ rfl _ (hinAll 32 clt_32) _ _ fq _ rfl 0 (by decide) r col _
  ihave Hob32 := (Entails.of_eq (pointsTo_congr (q := fullShare) (g := (outG X2 PS TB hX : Buf (Elt F) ((oV).view.loc (V d (cV L) (jV L))))) (window_writes L ⟨32, clt_32⟩ X2 PS TB hX _ _ hput32))) $$ Hob32
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 32 clt_32).symm) $$ [Hob32 Hdone]
  · isplitl [Hob32]
    · iexact Hob32
    · iexact Hdone
  ihave Hob := (Entails.of_eq (rows_take _ 34 clt_34)) $$ Hob
  icases Hob with ⟨Hob34, Hob⟩
  ihave Hob34 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4352#32) Cert.KernelIdeal.S128x128.size (Cert.KernelIdeal.Gen.k0_off18_inb L 34)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4352#32) Cert.KernelIdeal.S128x128.size (Cert.KernelIdeal.Gen.k0_off18_inb L 34)) (fun _ => rfl)).view.set]{fullShare} O0) from Entails.refl _) $$ Hob34
  ihave Hob := (Entails.of_eq (rows_take _ 35 clt_35)) $$ Hob
  icases Hob with ⟨Hob35, Hob⟩
  ihave Hob35 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4480#32) Cert.KernelIdeal.S128x128.size (Cert.KernelIdeal.Gen.k0_off18_inb L 35)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4480#32) Cert.KernelIdeal.S128x128.size (Cert.KernelIdeal.Gen.k0_off18_inb L 35)) (fun _ => rfl)).view.set]{fullShare} O0) from Entails.refl _) $$ Hob35
  ihave Hob := (Entails.of_eq (rows_take _ 36 clt_36)) $$ Hob
  icases Hob with ⟨Hob36, Hob⟩
  ihave Hob36 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4608#32) Cert.KernelIdeal.S128x128.size (Cert.KernelIdeal.Gen.k0_off18_inb L 36)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4608#32) Cert.KernelIdeal.S128x128.size (Cert.KernelIdeal.Gen.k0_off18_inb L 36)) (fun _ => rfl)).view.set]{fullShare} O0) from Entails.refl _) $$ Hob36
  ihave Hob := (Entails.of_eq (rows_take _ 37 clt_37)) $$ Hob
  icases Hob with ⟨Hob37, Hob⟩
  ihave Hob37 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4736#32) Cert.KernelIdeal.S128x128.size (Cert.KernelIdeal.Gen.k0_off18_inb L 37)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4736#32) Cert.KernelIdeal.S128x128.size (Cert.KernelIdeal.Gen.k0_off18_inb L 37)) (fun _ => rfl)).view.set]{fullShare} O0) from Entails.refl _) $$ Hob37
  ihave Hob := (Entails.of_eq (rows_take _ 38 clt_38)) $$ Hob
  icases Hob with ⟨Hob38, Hob⟩
  ihave Hob38 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4864#32) Cert.KernelIdeal.S128x128.size (Cert.KernelIdeal.Gen.k0_off18_inb L 38)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4864#32) Cert.KernelIdeal.S128x128.size (Cert.KernelIdeal.Gen.k0_off18_inb L 38)) (fun _ => rfl)).view.set]{fullShare} O0) from Entails.refl _) $$ Hob38
  ihave Hob := (Entails.of_eq (rows_take _ 39 clt_39)) $$ Hob
  icases Hob with ⟨Hob39, Hob⟩
  ihave Hob39 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4992#32) Cert.KernelIdeal.S128x128.size (Cert.KernelIdeal.Gen.k0_off18_inb L 39)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 4992#32) Cert.KernelIdeal.S128x128.size (Cert.KernelIdeal.Gen.k0_off18_inb L 39)) (fun _ => rfl)).view.set]{fullShare} O0) from Entails.refl _) $$ Hob39
  ihave Hob := (Entails.of_eq (rows_take _ 40 clt_40)) $$ Hob
  icases Hob with ⟨Hob40, Hob⟩
  ihave Hob40 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5120#32) Cert.KernelIdeal.S128x128.size (Cert.KernelIdeal.Gen.k0_off18_inb L 40)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5120#32) Cert.KernelIdeal.S128x128.size (Cert.KernelIdeal.Gen.k0_off18_inb L 40)) (fun _ => rfl)).view.set]{fullShare} O0) from Entails.refl _) $$ Hob40
  ihave Hob := (Entails.of_eq (rows_take _ 41 clt_41)) $$ Hob
  icases Hob with ⟨Hob41, Hob⟩
  ihave Hob41 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5248#32) Cert.KernelIdeal.S128x128.size (Cert.KernelIdeal.Gen.k0_off18_inb L 41)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5248#32) Cert.KernelIdeal.S128x128.size (Cert.KernelIdeal.Gen.k0_off18_inb L 41)) (fun _ => rfl)).view.set]{fullShare} O0) from Entails.refl _) $$ Hob41
  sl_exec_parts
  have hput33 : ∀ r col : Fin 128, (tile_body.sl.dma0_35 d L X2 PS TB fs fq fo hinAll) (ValueIdx.ix2 r col) = outG X2 PS TB hX (ValueIdx.ix2 (outRowN L ⟨33, clt_33⟩ r) col) := by
    intro r col
    show (obS1).view.read (Elt F) ((obS1).view.writes (Elt F) _ (pb_t34 (F := F) d L _ _ _ _ ++ _)) (ValueIdx.ix2 r col) = _
    rw [View.writes_append]
    refine (rows_t34 (F := F) d L _ _ _ _ r col).trans ?_
    exact chunk_sum L ⟨33, clt_33⟩ X2 PS TB hX _ fs _ rfl _ (hinAll 33 clt_33) _ _ fq _ rfl 128 (by decide) r col _
  ihave Hob33 := (Entails.of_eq (pointsTo_congr (q := fullShare) (g := (outG X2 PS TB hX : Buf (Elt F) ((oV).view.loc (V d (cV L) (jV L))))) (window_writes L ⟨33, clt_33⟩ X2 PS TB hX _ _ hput33))) $$ Hob33
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 33 clt_33).symm) $$ [Hob33 Hdone]
  · isplitl [Hob33]
    · iexact Hob33
    · iexact Hdone
  have hput34 : ∀ r col : Fin 128, (tile_body.sl.dma0_36 d L X2 PS TB fs fq fo hinAll) (ValueIdx.ix2 r col) = outG X2 PS TB hX (ValueIdx.ix2 (outRowN L ⟨34, clt_34⟩ r) col) := by
    intro r col
    show (obS0).view.read (Elt F) ((obS0).view.writes (Elt F) _ (pb_t35 (F := F) d L _ _ _ _ ++ _)) (ValueIdx.ix2 r col) = _
    rw [View.writes_append]
    refine (rows_t35 (F := F) d L _ _ _ _ r col).trans ?_
    exact chunk_sum L ⟨34, clt_34⟩ X2 PS TB hX _ fs _ rfl _ (hinAll 34 clt_34) _ _ fq _ rfl 0 (by decide) r col _
  ihave Hob34 := (Entails.of_eq (pointsTo_congr (q := fullShare) (g := (outG X2 PS TB hX : Buf (Elt F) ((oV).view.loc (V d (cV L) (jV L))))) (window_writes L ⟨34, clt_34⟩ X2 PS TB hX _ _ hput34))) $$ Hob34
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 34 clt_34).symm) $$ [Hob34 Hdone]
  · isplitl [Hob34]
    · iexact Hob34
    · iexact Hdone
  have hput35 : ∀ r col : Fin 128, (tile_body.sl.dma0_37 d L X2 PS TB fs fq fo hinAll) (ValueIdx.ix2 r col) = outG X2 PS TB hX (ValueIdx.ix2 (outRowN L ⟨35, clt_35⟩ r) col) := by
    intro r col
    show (obS1).view.read (Elt F) ((obS1).view.writes (Elt F) _ (pb_t36 (F := F) d L _ _ _ _ ++ _)) (ValueIdx.ix2 r col) = _
    rw [View.writes_append]
    refine (rows_t36 (F := F) d L _ _ _ _ r col).trans ?_
    exact chunk_sum L ⟨35, clt_35⟩ X2 PS TB hX _ fs _ rfl _ (hinAll 35 clt_35) _ _ fq _ rfl 128 (by decide) r col _
  ihave Hob35 := (Entails.of_eq (pointsTo_congr (q := fullShare) (g := (outG X2 PS TB hX : Buf (Elt F) ((oV).view.loc (V d (cV L) (jV L))))) (window_writes L ⟨35, clt_35⟩ X2 PS TB hX _ _ hput35))) $$ Hob35
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 35 clt_35).symm) $$ [Hob35 Hdone]
  · isplitl [Hob35]
    · iexact Hob35
    · iexact Hdone
  have hput36 : ∀ r col : Fin 128, (tile_body.sl.dma0_38 d L X2 PS TB fs fq fo hinAll) (ValueIdx.ix2 r col) = outG X2 PS TB hX (ValueIdx.ix2 (outRowN L ⟨36, clt_36⟩ r) col) := by
    intro r col
    show (obS0).view.read (Elt F) ((obS0).view.writes (Elt F) _ (pb_t37 (F := F) d L _ _ _ _ ++ _)) (ValueIdx.ix2 r col) = _
    rw [View.writes_append]
    refine (rows_t37 (F := F) d L _ _ _ _ r col).trans ?_
    exact chunk_sum L ⟨36, clt_36⟩ X2 PS TB hX _ fs _ rfl _ (hinAll 36 clt_36) _ _ fq _ rfl 0 (by decide) r col _
  ihave Hob36 := (Entails.of_eq (pointsTo_congr (q := fullShare) (g := (outG X2 PS TB hX : Buf (Elt F) ((oV).view.loc (V d (cV L) (jV L))))) (window_writes L ⟨36, clt_36⟩ X2 PS TB hX _ _ hput36))) $$ Hob36
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 36 clt_36).symm) $$ [Hob36 Hdone]
  · isplitl [Hob36]
    · iexact Hob36
    · iexact Hdone
  have hput37 : ∀ r col : Fin 128, (tile_body.sl.dma0_39 d L X2 PS TB fs fq fo hinAll) (ValueIdx.ix2 r col) = outG X2 PS TB hX (ValueIdx.ix2 (outRowN L ⟨37, clt_37⟩ r) col) := by
    intro r col
    show (obS1).view.read (Elt F) ((obS1).view.writes (Elt F) _ (pb_t38 (F := F) d L _ _ _ _ ++ _)) (ValueIdx.ix2 r col) = _
    rw [View.writes_append]
    refine (rows_t38 (F := F) d L _ _ _ _ r col).trans ?_
    exact chunk_sum L ⟨37, clt_37⟩ X2 PS TB hX _ fs _ rfl _ (hinAll 37 clt_37) _ _ fq _ rfl 128 (by decide) r col _
  ihave Hob37 := (Entails.of_eq (pointsTo_congr (q := fullShare) (g := (outG X2 PS TB hX : Buf (Elt F) ((oV).view.loc (V d (cV L) (jV L))))) (window_writes L ⟨37, clt_37⟩ X2 PS TB hX _ _ hput37))) $$ Hob37
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 37 clt_37).symm) $$ [Hob37 Hdone]
  · isplitl [Hob37]
    · iexact Hob37
    · iexact Hdone
  have hput38 : ∀ r col : Fin 128, (tile_body.sl.dma0_40 d L X2 PS TB fs fq fo hinAll) (ValueIdx.ix2 r col) = outG X2 PS TB hX (ValueIdx.ix2 (outRowN L ⟨38, clt_38⟩ r) col) := by
    intro r col
    show (obS0).view.read (Elt F) ((obS0).view.writes (Elt F) _ (pb_t39 (F := F) d L _ _ _ _ ++ _)) (ValueIdx.ix2 r col) = _
    rw [View.writes_append]
    refine (rows_t39 (F := F) d L _ _ _ _ r col).trans ?_
    exact chunk_sum L ⟨38, clt_38⟩ X2 PS TB hX _ fs _ rfl _ (hinAll 38 clt_38) _ _ fq _ rfl 0 (by decide) r col _
  ihave Hob38 := (Entails.of_eq (pointsTo_congr (q := fullShare) (g := (outG X2 PS TB hX : Buf (Elt F) ((oV).view.loc (V d (cV L) (jV L))))) (window_writes L ⟨38, clt_38⟩ X2 PS TB hX _ _ hput38))) $$ Hob38
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 38 clt_38).symm) $$ [Hob38 Hdone]
  · isplitl [Hob38]
    · iexact Hob38
    · iexact Hdone
  have hput39 : ∀ r col : Fin 128, (tile_body.sl.dma0_41 d L X2 PS TB fs fq fo hinAll) (ValueIdx.ix2 r col) = outG X2 PS TB hX (ValueIdx.ix2 (outRowN L ⟨39, clt_39⟩ r) col) := by
    intro r col
    show (obS1).view.read (Elt F) ((obS1).view.writes (Elt F) _ (pb_t40 (F := F) d L _ _ _ _ ++ _)) (ValueIdx.ix2 r col) = _
    rw [View.writes_append]
    refine (rows_t40 (F := F) d L _ _ _ _ r col).trans ?_
    exact chunk_sum L ⟨39, clt_39⟩ X2 PS TB hX _ fs _ rfl _ (hinAll 39 clt_39) _ _ fq _ rfl 128 (by decide) r col _
  ihave Hob39 := (Entails.of_eq (pointsTo_congr (q := fullShare) (g := (outG X2 PS TB hX : Buf (Elt F) ((oV).view.loc (V d (cV L) (jV L))))) (window_writes L ⟨39, clt_39⟩ X2 PS TB hX _ _ hput39))) $$ Hob39
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 39 clt_39).symm) $$ [Hob39 Hdone]
  · isplitl [Hob39]
    · iexact Hob39
    · iexact Hdone
  have hput40 : ∀ r col : Fin 128, (tile_body.sl.dma0_42 d L X2 PS TB fs fq fo hinAll) (ValueIdx.ix2 r col) = outG X2 PS TB hX (ValueIdx.ix2 (outRowN L ⟨40, clt_40⟩ r) col) := by
    intro r col
    show (obS0).view.read (Elt F) ((obS0).view.writes (Elt F) _ (pb_t41 (F := F) d L _ _ _ _ ++ _)) (ValueIdx.ix2 r col) = _
    rw [View.writes_append]
    refine (rows_t41 (F := F) d L _ _ _ _ r col).trans ?_
    exact chunk_sum L ⟨40, clt_40⟩ X2 PS TB hX _ fs _ rfl _ (hinAll 40 clt_40) _ _ fq _ rfl 0 (by decide) r col _
  ihave Hob40 := (Entails.of_eq (pointsTo_congr (q := fullShare) (g := (outG X2 PS TB hX : Buf (Elt F) ((oV).view.loc (V d (cV L) (jV L))))) (window_writes L ⟨40, clt_40⟩ X2 PS TB hX _ _ hput40))) $$ Hob40
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 40 clt_40).symm) $$ [Hob40 Hdone]
  · isplitl [Hob40]
    · iexact Hob40
    · iexact Hdone
  ihave Hob := (Entails.of_eq (rows_take _ 42 clt_42)) $$ Hob
  icases Hob with ⟨Hob42, Hob⟩
  ihave Hob42 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5376#32) Cert.KernelIdeal.S128x128.size (Cert.KernelIdeal.Gen.k0_off18_inb L 42)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5376#32) Cert.KernelIdeal.S128x128.size (Cert.KernelIdeal.Gen.k0_off18_inb L 42)) (fun _ => rfl)).view.set]{fullShare} O0) from Entails.refl _) $$ Hob42
  ihave Hob := (Entails.of_eq (rows_take _ 43 clt_43)) $$ Hob
  icases Hob with ⟨Hob43, Hob⟩
  ihave Hob43 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5504#32) Cert.KernelIdeal.S128x128.size (Cert.KernelIdeal.Gen.k0_off18_inb L 43)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5504#32) Cert.KernelIdeal.S128x128.size (Cert.KernelIdeal.Gen.k0_off18_inb L 43)) (fun _ => rfl)).view.set]{fullShare} O0) from Entails.refl _) $$ Hob43
  ihave Hob := (Entails.of_eq (rows_take _ 44 clt_44)) $$ Hob
  icases Hob with ⟨Hob44, Hob⟩
  ihave Hob44 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5632#32) Cert.KernelIdeal.S128x128.size (Cert.KernelIdeal.Gen.k0_off18_inb L 44)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5632#32) Cert.KernelIdeal.S128x128.size (Cert.KernelIdeal.Gen.k0_off18_inb L 44)) (fun _ => rfl)).view.set]{fullShare} O0) from Entails.refl _) $$ Hob44
  ihave Hob := (Entails.of_eq (rows_take _ 45 clt_45)) $$ Hob
  icases Hob with ⟨Hob45, Hob⟩
  ihave Hob45 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5760#32) Cert.KernelIdeal.S128x128.size (Cert.KernelIdeal.Gen.k0_off18_inb L 45)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5760#32) Cert.KernelIdeal.S128x128.size (Cert.KernelIdeal.Gen.k0_off18_inb L 45)) (fun _ => rfl)).view.set]{fullShare} O0) from Entails.refl _) $$ Hob45
  ihave Hob := (Entails.of_eq (rows_take _ 46 clt_46)) $$ Hob
  icases Hob with ⟨Hob46, Hob⟩
  ihave Hob46 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5888#32) Cert.KernelIdeal.S128x128.size (Cert.KernelIdeal.Gen.k0_off18_inb L 46)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 5888#32) Cert.KernelIdeal.S128x128.size (Cert.KernelIdeal.Gen.k0_off18_inb L 46)) (fun _ => rfl)).view.set]{fullShare} O0) from Entails.refl _) $$ Hob46
  ihave Hob := (Entails.of_eq (rows_take _ 47 clt_47)) $$ Hob
  icases Hob with ⟨Hob47, Hob⟩
  ihave Hob47 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6016#32) Cert.KernelIdeal.S128x128.size (Cert.KernelIdeal.Gen.k0_off18_inb L 47)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6016#32) Cert.KernelIdeal.S128x128.size (Cert.KernelIdeal.Gen.k0_off18_inb L 47)) (fun _ => rfl)).view.set]{fullShare} O0) from Entails.refl _) $$ Hob47
  ihave Hob := (Entails.of_eq (rows_take _ 48 clt_48)) $$ Hob
  icases Hob with ⟨Hob48, Hob⟩
  ihave Hob48 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6144#32) Cert.KernelIdeal.S128x128.size (Cert.KernelIdeal.Gen.k0_off18_inb L 48)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6144#32) Cert.KernelIdeal.S128x128.size (Cert.KernelIdeal.Gen.k0_off18_inb L 48)) (fun _ => rfl)).view.set]{fullShare} O0) from Entails.refl _) $$ Hob48
  ihave Hob := (Entails.of_eq (rows_take _ 49 clt_49)) $$ Hob
  icases Hob with ⟨Hob49, Hob⟩
  ihave Hob49 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6272#32) Cert.KernelIdeal.S128x128.size (Cert.KernelIdeal.Gen.k0_off18_inb L 49)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6272#32) Cert.KernelIdeal.S128x128.size (Cert.KernelIdeal.Gen.k0_off18_inb L 49)) (fun _ => rfl)).view.set]{fullShare} O0) from Entails.refl _) $$ Hob49
  sl_exec_parts
  have hput41 : ∀ r col : Fin 128, (tile_body.sl.dma0_43 d L X2 PS TB fs fq fo hinAll) (ValueIdx.ix2 r col) = outG X2 PS TB hX (ValueIdx.ix2 (outRowN L ⟨41, clt_41⟩ r) col) := by
    intro r col
    show (obS1).view.read (Elt F) ((obS1).view.writes (Elt F) _ (pb_t42 (F := F) d L _ _ _ _ ++ _)) (ValueIdx.ix2 r col) = _
    rw [View.writes_append]
    refine (rows_t42 (F := F) d L _ _ _ _ r col).trans ?_
    exact chunk_sum L ⟨41, clt_41⟩ X2 PS TB hX _ fs _ rfl _ (hinAll 41 clt_41) _ _ fq _ rfl 128 (by decide) r col _
  ihave Hob41 := (Entails.of_eq (pointsTo_congr (q := fullShare) (g := (outG X2 PS TB hX : Buf (Elt F) ((oV).view.loc (V d (cV L) (jV L))))) (window_writes L ⟨41, clt_41⟩ X2 PS TB hX _ _ hput41))) $$ Hob41
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 41 clt_41).symm) $$ [Hob41 Hdone]
  · isplitl [Hob41]
    · iexact Hob41
    · iexact Hdone
  have hput42 : ∀ r col : Fin 128, (tile_body.sl.dma0_44 d L X2 PS TB fs fq fo hinAll) (ValueIdx.ix2 r col) = outG X2 PS TB hX (ValueIdx.ix2 (outRowN L ⟨42, clt_42⟩ r) col) := by
    intro r col
    show (obS0).view.read (Elt F) ((obS0).view.writes (Elt F) _ (pb_t43 (F := F) d L _ _ _ _ _ _ ++ _)) (ValueIdx.ix2 r col) = _
    rw [View.writes_append]
    refine (rows_t43 (F := F) d L _ _ _ _ _ _ r col).trans ?_
    exact chunk_sum L ⟨42, clt_42⟩ X2 PS TB hX _ fs _ rfl _ (hinAll 42 clt_42) _ _ fq _ rfl 0 (by decide) r col _
  ihave Hob42 := (Entails.of_eq (pointsTo_congr (q := fullShare) (g := (outG X2 PS TB hX : Buf (Elt F) ((oV).view.loc (V d (cV L) (jV L))))) (window_writes L ⟨42, clt_42⟩ X2 PS TB hX _ _ hput42))) $$ Hob42
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 42 clt_42).symm) $$ [Hob42 Hdone]
  · isplitl [Hob42]
    · iexact Hob42
    · iexact Hdone
  have hput43 : ∀ r col : Fin 128, (tile_body.sl.dma0_45 d L X2 PS TB fs fq fo hinAll) (ValueIdx.ix2 r col) = outG X2 PS TB hX (ValueIdx.ix2 (outRowN L ⟨43, clt_43⟩ r) col) := by
    intro r col
    show (obS1).view.read (Elt F) ((obS1).view.writes (Elt F) _ (pb_t44 (F := F) d L _ _ _ _ ++ _)) (ValueIdx.ix2 r col) = _
    rw [View.writes_append]
    refine (rows_t44 (F := F) d L _ _ _ _ r col).trans ?_
    exact chunk_sum L ⟨43, clt_43⟩ X2 PS TB hX _ fs _ rfl _ (hinAll 43 clt_43) _ _ fq _ rfl 128 (by decide) r col _
  ihave Hob43 := (Entails.of_eq (pointsTo_congr (q := fullShare) (g := (outG X2 PS TB hX : Buf (Elt F) ((oV).view.loc (V d (cV L) (jV L))))) (window_writes L ⟨43, clt_43⟩ X2 PS TB hX _ _ hput43))) $$ Hob43
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 43 clt_43).symm) $$ [Hob43 Hdone]
  · isplitl [Hob43]
    · iexact Hob43
    · iexact Hdone
  have hput44 : ∀ r col : Fin 128, (tile_body.sl.dma0_46 d L X2 PS TB fs fq fo hinAll) (ValueIdx.ix2 r col) = outG X2 PS TB hX (ValueIdx.ix2 (outRowN L ⟨44, clt_44⟩ r) col) := by
    intro r col
    show (obS0).view.read (Elt F) ((obS0).view.writes (Elt F) _ (pb_t45 (F := F) d L _ _ _ _ ++ _)) (ValueIdx.ix2 r col) = _
    rw [View.writes_append]
    refine (rows_t45 (F := F) d L _ _ _ _ r col).trans ?_
    exact chunk_sum L ⟨44, clt_44⟩ X2 PS TB hX _ fs _ rfl _ (hinAll 44 clt_44) _ _ fq _ rfl 0 (by decide) r col _
  ihave Hob44 := (Entails.of_eq (pointsTo_congr (q := fullShare) (g := (outG X2 PS TB hX : Buf (Elt F) ((oV).view.loc (V d (cV L) (jV L))))) (window_writes L ⟨44, clt_44⟩ X2 PS TB hX _ _ hput44))) $$ Hob44
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 44 clt_44).symm) $$ [Hob44 Hdone]
  · isplitl [Hob44]
    · iexact Hob44
    · iexact Hdone
  have hput45 : ∀ r col : Fin 128, (tile_body.sl.dma0_47 d L X2 PS TB fs fq fo hinAll) (ValueIdx.ix2 r col) = outG X2 PS TB hX (ValueIdx.ix2 (outRowN L ⟨45, clt_45⟩ r) col) := by
    intro r col
    show (obS1).view.read (Elt F) ((obS1).view.writes (Elt F) _ (pb_t46 (F := F) d L _ _ _ _ ++ _)) (ValueIdx.ix2 r col) = _
    rw [View.writes_append]
    refine (rows_t46 (F := F) d L _ _ _ _ r col).trans ?_
    exact chunk_sum L ⟨45, clt_45⟩ X2 PS TB hX _ fs _ rfl _ (hinAll 45 clt_45) _ _ fq _ rfl 128 (by decide) r col _
  ihave Hob45 := (Entails.of_eq (pointsTo_congr (q := fullShare) (g := (outG X2 PS TB hX : Buf (Elt F) ((oV).view.loc (V d (cV L) (jV L))))) (window_writes L ⟨45, clt_45⟩ X2 PS TB hX _ _ hput45))) $$ Hob45
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 45 clt_45).symm) $$ [Hob45 Hdone]
  · isplitl [Hob45]
    · iexact Hob45
    · iexact Hdone
  have hput46 : ∀ r col : Fin 128, (tile_body.sl.dma0_48 d L X2 PS TB fs fq fo hinAll) (ValueIdx.ix2 r col) = outG X2 PS TB hX (ValueIdx.ix2 (outRowN L ⟨46, clt_46⟩ r) col) := by
    intro r col
    show (obS0).view.read (Elt F) ((obS0).view.writes (Elt F) _ (pb_t47 (F := F) d L _ _ _ _ ++ _)) (ValueIdx.ix2 r col) = _
    rw [View.writes_append]
    refine (rows_t47 (F := F) d L _ _ _ _ r col).trans ?_
    exact chunk_sum L ⟨46, clt_46⟩ X2 PS TB hX _ fs _ rfl _ (hinAll 46 clt_46) _ _ fq _ rfl 0 (by decide) r col _
  ihave Hob46 := (Entails.of_eq (pointsTo_congr (q := fullShare) (g := (outG X2 PS TB hX : Buf (Elt F) ((oV).view.loc (V d (cV L) (jV L))))) (window_writes L ⟨46, clt_46⟩ X2 PS TB hX _ _ hput46))) $$ Hob46
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 46 clt_46).symm) $$ [Hob46 Hdone]
  · isplitl [Hob46]
    · iexact Hob46
    · iexact Hdone
  have hput47 : ∀ r col : Fin 128, (tile_body.sl.dma0_49 d L X2 PS TB fs fq fo hinAll) (ValueIdx.ix2 r col) = outG X2 PS TB hX (ValueIdx.ix2 (outRowN L ⟨47, clt_47⟩ r) col) := by
    intro r col
    show (obS1).view.read (Elt F) ((obS1).view.writes (Elt F) _ (pb_t48 (F := F) d L _ _ _ _ ++ _)) (ValueIdx.ix2 r col) = _
    rw [View.writes_append]
    refine (rows_t48 (F := F) d L _ _ _ _ r col).trans ?_
    exact chunk_sum L ⟨47, clt_47⟩ X2 PS TB hX _ fs _ rfl _ (hinAll 47 clt_47) _ _ fq _ rfl 128 (by decide) r col _
  ihave Hob47 := (Entails.of_eq (pointsTo_congr (q := fullShare) (g := (outG X2 PS TB hX : Buf (Elt F) ((oV).view.loc (V d (cV L) (jV L))))) (window_writes L ⟨47, clt_47⟩ X2 PS TB hX _ _ hput47))) $$ Hob47
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 47 clt_47).symm) $$ [Hob47 Hdone]
  · isplitl [Hob47]
    · iexact Hob47
    · iexact Hdone
  have hput48 : ∀ r col : Fin 128, (tile_body.sl.dma0_50 d L X2 PS TB fs fq fo hinAll) (ValueIdx.ix2 r col) = outG X2 PS TB hX (ValueIdx.ix2 (outRowN L ⟨48, clt_48⟩ r) col) := by
    intro r col
    show (obS0).view.read (Elt F) ((obS0).view.writes (Elt F) _ (pb_t49 (F := F) d L _ _ _ _ ++ _)) (ValueIdx.ix2 r col) = _
    rw [View.writes_append]
    refine (rows_t49 (F := F) d L _ _ _ _ r col).trans ?_
    exact chunk_sum L ⟨48, clt_48⟩ X2 PS TB hX _ fs _ rfl _ (hinAll 48 clt_48) _ _ fq _ rfl 0 (by decide) r col _
  ihave Hob48 := (Entails.of_eq (pointsTo_congr (q := fullShare) (g := (outG X2 PS TB hX : Buf (Elt F) ((oV).view.loc (V d (cV L) (jV L))))) (window_writes L ⟨48, clt_48⟩ X2 PS TB hX _ _ hput48))) $$ Hob48
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 48 clt_48).symm) $$ [Hob48 Hdone]
  · isplitl [Hob48]
    · iexact Hob48
    · iexact Hdone
  ihave Hob := (Entails.of_eq (rows_take _ 50 clt_50)) $$ Hob
  icases Hob with ⟨Hob50, Hob⟩
  ihave Hob50 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6400#32) Cert.KernelIdeal.S128x128.size (Cert.KernelIdeal.Gen.k0_off18_inb L 50)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6400#32) Cert.KernelIdeal.S128x128.size (Cert.KernelIdeal.Gen.k0_off18_inb L 50)) (fun _ => rfl)).view.set]{fullShare} O0) from Entails.refl _) $$ Hob50
  ihave Hob := (Entails.of_eq (rows_take _ 51 clt_51)) $$ Hob
  icases Hob with ⟨Hob51, Hob⟩
  ihave Hob51 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6528#32) Cert.KernelIdeal.S128x128.size (Cert.KernelIdeal.Gen.k0_off18_inb L 51)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6528#32) Cert.KernelIdeal.S128x128.size (Cert.KernelIdeal.Gen.k0_off18_inb L 51)) (fun _ => rfl)).view.set]{fullShare} O0) from Entails.refl _) $$ Hob51
  ihave Hob := (Entails.of_eq (rows_take _ 52 clt_52)) $$ Hob
  icases Hob with ⟨Hob52, Hob⟩
  ihave Hob52 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6656#32) Cert.KernelIdeal.S128x128.size (Cert.KernelIdeal.Gen.k0_off18_inb L 52)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6656#32) Cert.KernelIdeal.S128x128.size (Cert.KernelIdeal.Gen.k0_off18_inb L 52)) (fun _ => rfl)).view.set]{fullShare} O0) from Entails.refl _) $$ Hob52
  ihave Hob := (Entails.of_eq (rows_take _ 53 clt_53)) $$ Hob
  icases Hob with ⟨Hob53, Hob⟩
  ihave Hob53 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6784#32) Cert.KernelIdeal.S128x128.size (Cert.KernelIdeal.Gen.k0_off18_inb L 53)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6784#32) Cert.KernelIdeal.S128x128.size (Cert.KernelIdeal.Gen.k0_off18_inb L 53)) (fun _ => rfl)).view.set]{fullShare} O0) from Entails.refl _) $$ Hob53
  ihave Hob := (Entails.of_eq (rows_take _ 54 clt_54)) $$ Hob
  icases Hob with ⟨Hob54, Hob⟩
  ihave Hob54 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6912#32) Cert.KernelIdeal.S128x128.size (Cert.KernelIdeal.Gen.k0_off18_inb L 54)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 6912#32) Cert.KernelIdeal.S128x128.size (Cert.KernelIdeal.Gen.k0_off18_inb L 54)) (fun _ => rfl)).view.set]{fullShare} O0) from Entails.refl _) $$ Hob54
  ihave Hob := (Entails.of_eq (rows_take _ 55 clt_55)) $$ Hob
  icases Hob with ⟨Hob55, Hob⟩
  ihave Hob55 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7040#32) Cert.KernelIdeal.S128x128.size (Cert.KernelIdeal.Gen.k0_off18_inb L 55)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7040#32) Cert.KernelIdeal.S128x128.size (Cert.KernelIdeal.Gen.k0_off18_inb L 55)) (fun _ => rfl)).view.set]{fullShare} O0) from Entails.refl _) $$ Hob55
  ihave Hob := (Entails.of_eq (rows_take _ 56 clt_56)) $$ Hob
  icases Hob with ⟨Hob56, Hob⟩
  ihave Hob56 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7168#32) Cert.KernelIdeal.S128x128.size (Cert.KernelIdeal.Gen.k0_off18_inb L 56)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7168#32) Cert.KernelIdeal.S128x128.size (Cert.KernelIdeal.Gen.k0_off18_inb L 56)) (fun _ => rfl)).view.set]{fullShare} O0) from Entails.refl _) $$ Hob56
  ihave Hob := (Entails.of_eq (rows_take _ 57 clt_57)) $$ Hob
  icases Hob with ⟨Hob57, Hob⟩
  ihave Hob57 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7296#32) Cert.KernelIdeal.S128x128.size (Cert.KernelIdeal.Gen.k0_off18_inb L 57)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7296#32) Cert.KernelIdeal.S128x128.size (Cert.KernelIdeal.Gen.k0_off18_inb L 57)) (fun _ => rfl)).view.set]{fullShare} O0) from Entails.refl _) $$ Hob57
  sl_exec_parts
  have hput49 : ∀ r col : Fin 128, (tile_body.sl.dma0_51 d L X2 PS TB fs fq fo hinAll) (ValueIdx.ix2 r col) = outG X2 PS TB hX (ValueIdx.ix2 (outRowN L ⟨49, clt_49⟩ r) col) := by
    intro r col
    show (obS1).view.read (Elt F) ((obS1).view.writes (Elt F) _ (pb_t50 (F := F) d L _ _ _ _ ++ _)) (ValueIdx.ix2 r col) = _
    rw [View.writes_append]
    refine (rows_t50 (F := F) d L _ _ _ _ r col).trans ?_
    exact chunk_sum L ⟨49, clt_49⟩ X2 PS TB hX _ fs _ rfl _ (hinAll 49 clt_49) _ _ fq _ rfl 128 (by decide) r col _
  ihave Hob49 := (Entails.of_eq (pointsTo_congr (q := fullShare) (g := (outG X2 PS TB hX : Buf (Elt F) ((oV).view.loc (V d (cV L) (jV L))))) (window_writes L ⟨49, clt_49⟩ X2 PS TB hX _ _ hput49))) $$ Hob49
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 49 clt_49).symm) $$ [Hob49 Hdone]
  · isplitl [Hob49]
    · iexact Hob49
    · iexact Hdone
  have hput50 : ∀ r col : Fin 128, (tile_body.sl.dma0_52 d L X2 PS TB fs fq fo hinAll) (ValueIdx.ix2 r col) = outG X2 PS TB hX (ValueIdx.ix2 (outRowN L ⟨50, clt_50⟩ r) col) := by
    intro r col
    show (obS0).view.read (Elt F) ((obS0).view.writes (Elt F) _ (pb_t51 (F := F) d L _ _ _ _ ++ _)) (ValueIdx.ix2 r col) = _
    rw [View.writes_append]
    refine (rows_t51 (F := F) d L _ _ _ _ r col).trans ?_
    exact chunk_sum L ⟨50, clt_50⟩ X2 PS TB hX _ fs _ rfl _ (hinAll 50 clt_50) _ _ fq _ rfl 0 (by decide) r col _
  ihave Hob50 := (Entails.of_eq (pointsTo_congr (q := fullShare) (g := (outG X2 PS TB hX : Buf (Elt F) ((oV).view.loc (V d (cV L) (jV L))))) (window_writes L ⟨50, clt_50⟩ X2 PS TB hX _ _ hput50))) $$ Hob50
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 50 clt_50).symm) $$ [Hob50 Hdone]
  · isplitl [Hob50]
    · iexact Hob50
    · iexact Hdone
  have hput51 : ∀ r col : Fin 128, (tile_body.sl.dma0_53 d L X2 PS TB fs fq fo hinAll) (ValueIdx.ix2 r col) = outG X2 PS TB hX (ValueIdx.ix2 (outRowN L ⟨51, clt_51⟩ r) col) := by
    intro r col
    show (obS1).view.read (Elt F) ((obS1).view.writes (Elt F) _ (pb_t52 (F := F) d L _ _ _ _ ++ _)) (ValueIdx.ix2 r col) = _
    rw [View.writes_append]
    refine (rows_t52 (F := F) d L _ _ _ _ r col).trans ?_
    exact chunk_sum L ⟨51, clt_51⟩ X2 PS TB hX _ fs _ rfl _ (hinAll 51 clt_51) _ _ fq _ rfl 128 (by decide) r col _
  ihave Hob51 := (Entails.of_eq (pointsTo_congr (q := fullShare) (g := (outG X2 PS TB hX : Buf (Elt F) ((oV).view.loc (V d (cV L) (jV L))))) (window_writes L ⟨51, clt_51⟩ X2 PS TB hX _ _ hput51))) $$ Hob51
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 51 clt_51).symm) $$ [Hob51 Hdone]
  · isplitl [Hob51]
    · iexact Hob51
    · iexact Hdone
  have hput52 : ∀ r col : Fin 128, (tile_body.sl.dma0_54 d L X2 PS TB fs fq fo hinAll) (ValueIdx.ix2 r col) = outG X2 PS TB hX (ValueIdx.ix2 (outRowN L ⟨52, clt_52⟩ r) col) := by
    intro r col
    show (obS0).view.read (Elt F) ((obS0).view.writes (Elt F) _ (pb_t53 (F := F) d L _ _ _ _ _ _ ++ _)) (ValueIdx.ix2 r col) = _
    rw [View.writes_append]
    refine (rows_t53 (F := F) d L _ _ _ _ _ _ r col).trans ?_
    exact chunk_sum L ⟨52, clt_52⟩ X2 PS TB hX _ fs _ rfl _ (hinAll 52 clt_52) _ _ fq _ rfl 0 (by decide) r col _
  ihave Hob52 := (Entails.of_eq (pointsTo_congr (q := fullShare) (g := (outG X2 PS TB hX : Buf (Elt F) ((oV).view.loc (V d (cV L) (jV L))))) (window_writes L ⟨52, clt_52⟩ X2 PS TB hX _ _ hput52))) $$ Hob52
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 52 clt_52).symm) $$ [Hob52 Hdone]
  · isplitl [Hob52]
    · iexact Hob52
    · iexact Hdone
  have hput53 : ∀ r col : Fin 128, (tile_body.sl.dma0_55 d L X2 PS TB fs fq fo hinAll) (ValueIdx.ix2 r col) = outG X2 PS TB hX (ValueIdx.ix2 (outRowN L ⟨53, clt_53⟩ r) col) := by
    intro r col
    show (obS1).view.read (Elt F) ((obS1).view.writes (Elt F) _ (pb_t54 (F := F) d L _ _ _ _ ++ _)) (ValueIdx.ix2 r col) = _
    rw [View.writes_append]
    refine (rows_t54 (F := F) d L _ _ _ _ r col).trans ?_
    exact chunk_sum L ⟨53, clt_53⟩ X2 PS TB hX _ fs _ rfl _ (hinAll 53 clt_53) _ _ fq _ rfl 128 (by decide) r col _
  ihave Hob53 := (Entails.of_eq (pointsTo_congr (q := fullShare) (g := (outG X2 PS TB hX : Buf (Elt F) ((oV).view.loc (V d (cV L) (jV L))))) (window_writes L ⟨53, clt_53⟩ X2 PS TB hX _ _ hput53))) $$ Hob53
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 53 clt_53).symm) $$ [Hob53 Hdone]
  · isplitl [Hob53]
    · iexact Hob53
    · iexact Hdone
  have hput54 : ∀ r col : Fin 128, (tile_body.sl.dma0_56 d L X2 PS TB fs fq fo hinAll) (ValueIdx.ix2 r col) = outG X2 PS TB hX (ValueIdx.ix2 (outRowN L ⟨54, clt_54⟩ r) col) := by
    intro r col
    show (obS0).view.read (Elt F) ((obS0).view.writes (Elt F) _ (pb_t55 (F := F) d L _ _ _ _ ++ _)) (ValueIdx.ix2 r col) = _
    rw [View.writes_append]
    refine (rows_t55 (F := F) d L _ _ _ _ r col).trans ?_
    exact chunk_sum L ⟨54, clt_54⟩ X2 PS TB hX _ fs _ rfl _ (hinAll 54 clt_54) _ _ fq _ rfl 0 (by decide) r col _
  ihave Hob54 := (Entails.of_eq (pointsTo_congr (q := fullShare) (g := (outG X2 PS TB hX : Buf (Elt F) ((oV).view.loc (V d (cV L) (jV L))))) (window_writes L ⟨54, clt_54⟩ X2 PS TB hX _ _ hput54))) $$ Hob54
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 54 clt_54).symm) $$ [Hob54 Hdone]
  · isplitl [Hob54]
    · iexact Hob54
    · iexact Hdone
  have hput55 : ∀ r col : Fin 128, (tile_body.sl.dma0_57 d L X2 PS TB fs fq fo hinAll) (ValueIdx.ix2 r col) = outG X2 PS TB hX (ValueIdx.ix2 (outRowN L ⟨55, clt_55⟩ r) col) := by
    intro r col
    show (obS1).view.read (Elt F) ((obS1).view.writes (Elt F) _ (pb_t56 (F := F) d L _ _ _ _ ++ _)) (ValueIdx.ix2 r col) = _
    rw [View.writes_append]
    refine (rows_t56 (F := F) d L _ _ _ _ r col).trans ?_
    exact chunk_sum L ⟨55, clt_55⟩ X2 PS TB hX _ fs _ rfl _ (hinAll 55 clt_55) _ _ fq _ rfl 128 (by decide) r col _
  ihave Hob55 := (Entails.of_eq (pointsTo_congr (q := fullShare) (g := (outG X2 PS TB hX : Buf (Elt F) ((oV).view.loc (V d (cV L) (jV L))))) (window_writes L ⟨55, clt_55⟩ X2 PS TB hX _ _ hput55))) $$ Hob55
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 55 clt_55).symm) $$ [Hob55 Hdone]
  · isplitl [Hob55]
    · iexact Hob55
    · iexact Hdone
  have hput56 : ∀ r col : Fin 128, (tile_body.sl.dma0_58 d L X2 PS TB fs fq fo hinAll) (ValueIdx.ix2 r col) = outG X2 PS TB hX (ValueIdx.ix2 (outRowN L ⟨56, clt_56⟩ r) col) := by
    intro r col
    show (obS0).view.read (Elt F) ((obS0).view.writes (Elt F) _ (pb_t57 (F := F) d L _ _ _ _ ++ _)) (ValueIdx.ix2 r col) = _
    rw [View.writes_append]
    refine (rows_t57 (F := F) d L _ _ _ _ r col).trans ?_
    exact chunk_sum L ⟨56, clt_56⟩ X2 PS TB hX _ fs _ rfl _ (hinAll 56 clt_56) _ _ fq _ rfl 0 (by decide) r col _
  ihave Hob56 := (Entails.of_eq (pointsTo_congr (q := fullShare) (g := (outG X2 PS TB hX : Buf (Elt F) ((oV).view.loc (V d (cV L) (jV L))))) (window_writes L ⟨56, clt_56⟩ X2 PS TB hX _ _ hput56))) $$ Hob56
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 56 clt_56).symm) $$ [Hob56 Hdone]
  · isplitl [Hob56]
    · iexact Hob56
    · iexact Hdone
  ihave Hob := (Entails.of_eq (rows_take _ 58 clt_58)) $$ Hob
  icases Hob with ⟨Hob58, Hob⟩
  ihave Hob58 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7424#32) Cert.KernelIdeal.S128x128.size (Cert.KernelIdeal.Gen.k0_off18_inb L 58)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7424#32) Cert.KernelIdeal.S128x128.size (Cert.KernelIdeal.Gen.k0_off18_inb L 58)) (fun _ => rfl)).view.set]{fullShare} O0) from Entails.refl _) $$ Hob58
  ihave Hob := (Entails.of_eq (rows_take _ 59 clt_59)) $$ Hob
  icases Hob with ⟨Hob59, Hob⟩
  ihave Hob59 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7552#32) Cert.KernelIdeal.S128x128.size (Cert.KernelIdeal.Gen.k0_off18_inb L 59)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7552#32) Cert.KernelIdeal.S128x128.size (Cert.KernelIdeal.Gen.k0_off18_inb L 59)) (fun _ => rfl)).view.set]{fullShare} O0) from Entails.refl _) $$ Hob59
  ihave Hob := (Entails.of_eq (rows_take _ 60 clt_60)) $$ Hob
  icases Hob with ⟨Hob60, Hob⟩
  ihave Hob60 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7680#32) Cert.KernelIdeal.S128x128.size (Cert.KernelIdeal.Gen.k0_off18_inb L 60)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7680#32) Cert.KernelIdeal.S128x128.size (Cert.KernelIdeal.Gen.k0_off18_inb L 60)) (fun _ => rfl)).view.set]{fullShare} O0) from Entails.refl _) $$ Hob60
  ihave Hob := (Entails.of_eq (rows_take _ 61 clt_61)) $$ Hob
  icases Hob with ⟨Hob61, Hob⟩
  ihave Hob61 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7808#32) Cert.KernelIdeal.S128x128.size (Cert.KernelIdeal.Gen.k0_off18_inb L 61)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7808#32) Cert.KernelIdeal.S128x128.size (Cert.KernelIdeal.Gen.k0_off18_inb L 61)) (fun _ => rfl)).view.set]{fullShare} O0) from Entails.refl _) $$ Hob61
  ihave Hob := (Entails.of_eq (rows_take _ 62 clt_62)) $$ Hob
  icases Hob with ⟨Hob62, Hob⟩
  ihave Hob62 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7936#32) Cert.KernelIdeal.S128x128.size (Cert.KernelIdeal.Gen.k0_off18_inb L 62)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 7936#32) Cert.KernelIdeal.S128x128.size (Cert.KernelIdeal.Gen.k0_off18_inb L 62)) (fun _ => rfl)).view.set]{fullShare} O0) from Entails.refl _) $$ Hob62
  ihave Hob := (Entails.of_eq (rows_take _ 63 clt_63)) $$ Hob
  icases Hob with ⟨Hob63, Hob⟩
  ihave Hob63 := (show (_ : sProp 𝕄) ⊢ (((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 8064#32) Cert.KernelIdeal.S128x128.size (Cert.KernelIdeal.Gen.k0_off18_inb L 63)) (fun _ => rfl)).view.loc (V d (cV L) (jV L)) ↦[((Memref.whole Cert.KernelIdeal.main_v8_scv : Memref Cert.KernelIdeal.sig Kind.scVector Space.hbm Cert.KernelIdeal.S262144x128 EltTy.f32).slice (Rect.unit (s := Cert.KernelIdeal.S262144x128) (Cert.KernelIdeal.k0_off18 L 8064#32) Cert.KernelIdeal.S128x128.size (Cert.KernelIdeal.Gen.k0_off18_inb L 63)) (fun _ => rfl)).view.set]{fullShare} O0) from Entails.refl _) $$ Hob63
  sl_exec_parts
  sl_step
  have hput57 : ∀ r col : Fin 128, (tile_body.sl.dma0_59 d L X2 PS TB fs fq fo hinAll) (ValueIdx.ix2 r col) = outG X2 PS TB hX (ValueIdx.ix2 (outRowN L ⟨57, clt_57⟩ r) col) := by
    intro r col
    show (obS1).view.read (Elt F) ((obS1).view.writes (Elt F) _ (pb_t58 (F := F) d L _ _ _ _ ++ _)) (ValueIdx.ix2 r col) = _
    rw [View.writes_append]
    refine (rows_t58 (F := F) d L _ _ _ _ r col).trans ?_
    exact chunk_sum L ⟨57, clt_57⟩ X2 PS TB hX _ fs _ rfl _ (hinAll 57 clt_57) _ _ fq _ rfl 128 (by decide) r col _
  ihave Hob57 := (Entails.of_eq (pointsTo_congr (q := fullShare) (g := (outG X2 PS TB hX : Buf (Elt F) ((oV).view.loc (V d (cV L) (jV L))))) (window_writes L ⟨57, clt_57⟩ X2 PS TB hX _ _ hput57))) $$ Hob57
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 57 clt_57).symm) $$ [Hob57 Hdone]
  · isplitl [Hob57]
    · iexact Hob57
    · iexact Hdone
  have hput58 : ∀ r col : Fin 128, (tile_body.sl.dma0_60 d L X2 PS TB fs fq fo hinAll) (ValueIdx.ix2 r col) = outG X2 PS TB hX (ValueIdx.ix2 (outRowN L ⟨58, clt_58⟩ r) col) := by
    intro r col
    show (obS0).view.read (Elt F) ((obS0).view.writes (Elt F) _ (pb_t59 (F := F) d L _ _ _ _ ++ _)) (ValueIdx.ix2 r col) = _
    rw [View.writes_append]
    refine (rows_t59 (F := F) d L _ _ _ _ r col).trans ?_
    exact chunk_sum L ⟨58, clt_58⟩ X2 PS TB hX _ fs _ rfl _ (hinAll 58 clt_58) _ _ fq _ rfl 0 (by decide) r col _
  ihave Hob58 := (Entails.of_eq (pointsTo_congr (q := fullShare) (g := (outG X2 PS TB hX : Buf (Elt F) ((oV).view.loc (V d (cV L) (jV L))))) (window_writes L ⟨58, clt_58⟩ X2 PS TB hX _ _ hput58))) $$ Hob58
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 58 clt_58).symm) $$ [Hob58 Hdone]
  · isplitl [Hob58]
    · iexact Hob58
    · iexact Hdone
  have hput59 : ∀ r col : Fin 128, (tile_body.sl.dma0_61 d L X2 PS TB fs fq fo hinAll) (ValueIdx.ix2 r col) = outG X2 PS TB hX (ValueIdx.ix2 (outRowN L ⟨59, clt_59⟩ r) col) := by
    intro r col
    show (obS1).view.read (Elt F) ((obS1).view.writes (Elt F) _ (pb_t60 (F := F) d L _ _ _ _ ++ _)) (ValueIdx.ix2 r col) = _
    rw [View.writes_append]
    refine (rows_t60 (F := F) d L _ _ _ _ r col).trans ?_
    exact chunk_sum L ⟨59, clt_59⟩ X2 PS TB hX _ fs _ rfl _ (hinAll 59 clt_59) _ _ fq _ rfl 128 (by decide) r col _
  ihave Hob59 := (Entails.of_eq (pointsTo_congr (q := fullShare) (g := (outG X2 PS TB hX : Buf (Elt F) ((oV).view.loc (V d (cV L) (jV L))))) (window_writes L ⟨59, clt_59⟩ X2 PS TB hX _ _ hput59))) $$ Hob59
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 59 clt_59).symm) $$ [Hob59 Hdone]
  · isplitl [Hob59]
    · iexact Hob59
    · iexact Hdone
  have hput60 : ∀ r col : Fin 128, (tile_body.sl.dma0_62 d L X2 PS TB fs fq fo hinAll) (ValueIdx.ix2 r col) = outG X2 PS TB hX (ValueIdx.ix2 (outRowN L ⟨60, clt_60⟩ r) col) := by
    intro r col
    show (obS0).view.read (Elt F) ((obS0).view.writes (Elt F) _ (pb_t61 (F := F) d L _ _ _ _ ++ _)) (ValueIdx.ix2 r col) = _
    rw [View.writes_append]
    refine (rows_t61 (F := F) d L _ _ _ _ r col).trans ?_
    exact chunk_sum L ⟨60, clt_60⟩ X2 PS TB hX _ fs _ rfl _ (hinAll 60 clt_60) _ _ fq _ rfl 0 (by decide) r col _
  ihave Hob60 := (Entails.of_eq (pointsTo_congr (q := fullShare) (g := (outG X2 PS TB hX : Buf (Elt F) ((oV).view.loc (V d (cV L) (jV L))))) (window_writes L ⟨60, clt_60⟩ X2 PS TB hX _ _ hput60))) $$ Hob60
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 60 clt_60).symm) $$ [Hob60 Hdone]
  · isplitl [Hob60]
    · iexact Hob60
    · iexact Hdone
  have hput61 : ∀ r col : Fin 128, (tile_body.sl.dma0_63 d L X2 PS TB fs fq fo hinAll) (ValueIdx.ix2 r col) = outG X2 PS TB hX (ValueIdx.ix2 (outRowN L ⟨61, clt_61⟩ r) col) := by
    intro r col
    show (obS1).view.read (Elt F) ((obS1).view.writes (Elt F) _ (pb_t62 (F := F) d L _ _ _ _ ++ _)) (ValueIdx.ix2 r col) = _
    rw [View.writes_append]
    refine (rows_t62 (F := F) d L _ _ _ _ r col).trans ?_
    exact chunk_sum L ⟨61, clt_61⟩ X2 PS TB hX _ fs _ rfl _ (hinAll 61 clt_61) _ _ fq _ rfl 128 (by decide) r col _
  ihave Hob61 := (Entails.of_eq (pointsTo_congr (q := fullShare) (g := (outG X2 PS TB hX : Buf (Elt F) ((oV).view.loc (V d (cV L) (jV L))))) (window_writes L ⟨61, clt_61⟩ X2 PS TB hX _ _ hput61))) $$ Hob61
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 61 clt_61).symm) $$ [Hob61 Hdone]
  · isplitl [Hob61]
    · iexact Hob61
    · iexact Hdone
  have hput62 : ∀ r col : Fin 128, (tile_body.sl.dma0_64 d L X2 PS TB fs fq fo hinAll) (ValueIdx.ix2 r col) = outG X2 PS TB hX (ValueIdx.ix2 (outRowN L ⟨62, clt_62⟩ r) col) := by
    intro r col
    show (obS0).view.read (Elt F) ((obS0).view.writes (Elt F) _ (pb_t63 (F := F) d L _ _ _ _ _ _ ++ _)) (ValueIdx.ix2 r col) = _
    rw [View.writes_append]
    refine (rows_t63 (F := F) d L _ _ _ _ _ _ r col).trans ?_
    exact chunk_sum L ⟨62, clt_62⟩ X2 PS TB hX _ fs _ rfl _ (hinAll 62 clt_62) _ _ fq _ rfl 0 (by decide) r col _
  ihave Hob62 := (Entails.of_eq (pointsTo_congr (q := fullShare) (g := (outG X2 PS TB hX : Buf (Elt F) ((oV).view.loc (V d (cV L) (jV L))))) (window_writes L ⟨62, clt_62⟩ X2 PS TB hX _ _ hput62))) $$ Hob62
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 62 clt_62).symm) $$ [Hob62 Hdone]
  · isplitl [Hob62]
    · iexact Hob62
    · iexact Hdone
  have hput63 : ∀ r col : Fin 128, (tile_body.sl.dma0_65 d L X2 PS TB fs fq fo hinAll) (ValueIdx.ix2 r col) = outG X2 PS TB hX (ValueIdx.ix2 (outRowN L ⟨63, clt_63⟩ r) col) := by
    intro r col
    show (obS1).view.read (Elt F) ((obS1).view.writes (Elt F) _ (pb_t64 (F := F) d L _ _ _ _ _ _ ++ _)) (ValueIdx.ix2 r col) = _
    rw [View.writes_append]
    refine (rows_t64 (F := F) d L _ _ _ _ _ _ r col).trans ?_
    exact chunk_sum L ⟨63, clt_63⟩ X2 PS TB hX _ fs _ rfl _ (hinAll 63 clt_63) _ _ fq _ rfl 128 (by decide) r col _
  ihave Hob63 := (Entails.of_eq (pointsTo_congr (q := fullShare) (g := (outG X2 PS TB hX : Buf (Elt F) ((oV).view.loc (V d (cV L) (jV L))))) (window_writes L ⟨63, clt_63⟩ X2 PS TB hX _ _ hput63))) $$ Hob63
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 63 clt_63).symm) $$ [Hob63 Hdone]
  · isplitl [Hob63]
    · iexact Hob63
    · iexact Hdone
  -- the windows together are the tile's block again
  ihave Hleft := (Entails.of_eq (rows_none _)) $$ Hob
  icases Hleft with -
  ihave Hdone := (Entails.of_eq (rows_lt64 (fun c : Fin 64 => ((blkM L c).view.loc (V d (cV L) (jV L)) ↦[(blkM L c).view.set]{fullShare} (outG X2 PS TB hX : Buf (Elt F) ((oV).view.loc (V d (cV L) (jV L)))))))) $$ Hdone
  ihave Ho := (Entails.of_eq (oPts_blocks d L (outG X2 PS TB hX : Buf (Elt F) ((oV).view.loc (V d (cV L) (jV L))))).symm) $$ Hdone
  isplitl [Hx Hp Ht Ht' Ho]
  · isplitl [Hx]; · iexact Hx
    isplitl [Hp]; · iexact Hp
    isplitl [Ht Ht']
    · iapply (pointsTo_share (PosShare.mem_left_op_right tq)).2
      isplitl [Ht]
      · iexact Ht
      · iexact Ht'
    iexists (outG X2 PS TB hX : Buf (Elt F) ((oV).view.loc (V d (cV L) (jV L))))
    isplitl [Ho]; · iexact Ho
    ipureintro; intro j _; rfl
  isplitl [Hs Hq HiB0 HiB1 HoB0 HoB1 Hbufs]
  · isplitl [Hs]; · iexists _; iexact Hs
    isplitl [Hq]; · iexists _; iapply (Entails.of_eq (qV_set d L _).symm); iexact Hq
    isplitl [HiB0 HiB1]
    · iapply (iB_join d L _ _)
      isplitl [HiB0]
      · iexact HiB0
      · iexact HiB1
    isplitl [HoB0 HoB1]
    · iapply (oB_join d L _ _)
      isplitl [HoB0]
      · iexact HoB0
      · iexact HoB1
    iexact Hbufs
  isplitl [Hg0 Hg1 Hp0 Hp1 Hr0 Hr1 Hsems]
  · isplitl [Hg0]; · iexact Hg0
    isplitl [Hg1]; · iexact Hg1
    isplitl [Hp0]; · iexact Hp0
    isplitl [Hp1]; · iexact Hp1
    isplitl [Hr0]; · iexact Hr0
    isplitl [Hr1]; · iexact Hr1
    iexact Hsems
  iexists _; isplitr
  swap; · iexact HO
  ipureintro
  repeat (apply ins_ok)
  exact fun p hp => Or.inl hp

end Tile

end Cert.Proof.KI
end
-- ==== Proof.TileObl.lean ====
/-
  One tile's task of the embedding lookup, from its operands to its results. The tile on SparseCore c, subcore s is
  worker 2 s + c: the 64 index rows it fetches start at row 128 s + 64 c = 64 (2 s + c) of the index array and the 8192
  result rows it writes at row 16384 s + 8192 c = 8192 (2 s + c), so the slices the body takes are the worker's blocks
  of the two arrays. The body's run, stated over those slices, is then the task from the worker's operands to its
  results: its block of the result holds the result function, which is what the worker's predicate asks.
-/
import proofs.«208673_g37134287241914_cont_8to1_b_302_3_alg».proof.Proof.Launch
import proofs.«208673_g37134287241914_cont_8to1_b_302_3_alg».proof.Proof.OutVal
import proofs.«208673_g37134287241914_cont_8to1_b_302_3_alg».proof.Proof.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v7_scv : Memref Cert.KernelIdeal.sig Kind.scVector Space.hbm Cert.KernelIdeal.S2048x128 EltTy.i32)
local notation "pV" => (Memref.whole Cert.KernelIdeal.main_v6_scv : Memref Cert.KernelIdeal.sig Kind.scVector Space.hbm Cert.KernelIdeal.S256x128 EltTy.f32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v8_scv : Memref Cert.KernelIdeal.sig Kind.scVector Space.hbm Cert.KernelIdeal.S262144x128 EltTy.f32)
local notation "sV" => (Memref.whole Cert.KernelIdeal.cc0_scratch0 : Memref Cert.KernelIdeal.sig Kind.scVector Space.vmem Cert.KernelIdeal.S64x128 EltTy.i32)
local notation "qV" => (Memref.whole Cert.KernelIdeal.cc0_scratch1 : Memref Cert.KernelIdeal.sig Kind.scVector Space.vmem Cert.KernelIdeal.S256x128 EltTy.f32)
local notation "iB" => (Memref.whole Cert.KernelIdeal.cc0_scratch2 : Memref Cert.KernelIdeal.sig Kind.scVector Space.vmem Cert.KernelIdeal.S2x128x128 EltTy.f32)
local notation "oB" => (Memref.whole Cert.KernelIdeal.cc0_scratch3 : Memref Cert.KernelIdeal.sig Kind.scVector Space.vmem Cert.KernelIdeal.S2x128x128 EltTy.f32)

/-! ## The tile's slices are its worker's blocks -/

section Tile

variable (d : Dev nD) (L : grid0.Coords)

theorem bound_zero : grid0.bound 0 = 2 := rfl
theorem bound_one : grid0.bound 1 = 16 := rfl
/-- The SparseCore and the subcore of the grid point, and its worker. -/
abbrev cL (L : grid0.Coords) : Fin 2 := Fin.cast bound_zero (L 0)
abbrev jL (L : grid0.Coords) : Fin 16 := Fin.cast bound_one (L 1)
abbrev wL (L : grid0.Coords) : Fin 32 := wid (cL L) (jL L)

theorem xrowK_eq : xrowK L = xrow (wL L) := by
  unfold xrowK xrow Rect.part Rect.block
  congr 1 <;> funext a
  · rw [k0_off1_eq]
    match a with
    | 0 =>
      show 128 * (L 1).val + 64 * (L 0).val = ((L 1).val * 2 + (L 0).val) * (2048 / 32)
      omega
    | 1 => simp [Shape.partIx, Shape.partSize]
  · match a with
    | 0 => simp [Shape.partSize]
    | 1 => simp [Shape.partSize]

theorem oTR_eq : oTR L = orow (wL L) := by
  unfold oTR orow Rect.part Rect.block
  congr 1 <;> funext a
  · match a with
    | 0 =>
      show 16384 * (L 1).val + 8192 * (L 0).val = ((L 1).val * 2 + (L 0).val) * (262144 / 32)
      omega
    | 1 => simp [Shape.partIx, Shape.partSize]
  · match a with
    | 0 => simp [Shape.partSize]
    | 1 => simp [Shape.partSize]

theorem set_xRowK : (xRowK L).view.set = xRowSet (wL L) := by
  show ((xV).view.slice (xrowK L)).set = ((xV).view.slice (xrow (wL L))).set
  rw [xrowK_eq]

theorem set_oTR : (oV).view.setOn (oTR L).set = oRowSet (wL L) := by
  show _ = ((oV).view.slice (orow (wL L))).set
  rw [View.set_slice, oTR_eq]; rfl

/-! ## The task, from the body's run -/

variable (m : (ℓ : Loc nD τ sig) → Buf (Elt F) ℓ) (R : (d : Dev nD) → Fin 32 → Buf (Elt F) (outLoc d) → Prop)

/-- The task of the tile at grid point `L`, over its worker's operands and results. -/
theorem tile_task (hx2 : ∀ d j, ((x2Of m d) j).toNat < 100000)
    (hRv : ∀ d w (f : Buf (Elt F) (outLoc d)), (∀ j ∈ oRowSet w, f j = outG (x2Of m d) (posOf m d) (m (tabLoc d)) (hx2 d) j) → R d w f)
    (O : CellTallies nD τ sig (HIx 1)) (W : Waits sig (HIx 1)) (hO : ∀ g, O g none = 0) :
    (iprop(levAts (K (F := F)).L (K (F := F)).lev ∗ emp ∗ goPts m (x2Of m) (posOf m) d (wL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_embed L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1)
          fun _ => iprop(tdPts m (x2Of m) (posOf m) R d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hb := tile_body (F := F) d L facts O W hO (pq (wL L)) (tq (wL L)) (x2Of m d) (posOf m d) (m (tabLoc d)) (m (outLoc d)) (hx2 d)
  rw [set_xRowK, set_oTR] at hb
  refine hb.trans (wp_mono frame _ _ fun _ => ?_)
  iintro ⟨⟨Hx, Hp, Ht, %f, Ho, %hv⟩, Hrest⟩
  isplitl [Hx Hp Ht Ho]
  · isplitl [Hx]; · iexact Hx
    isplitl [Hp]; · iexact Hp
    isplitl [Ht]; · iexact Ht
    iexists f
    isplitl [Ho]; · iexact Ho
    ipureintro; exact hRv d (wL L) f hv
  · iexact Hrest

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_embed (coordsV c s) xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (m : (ℓ : Loc nD τ sig) → Buf (Elt F) ℓ) (R : (d : Dev nD) → Fin 32 → Buf (Elt F) (outLoc d) → Prop)
    (hx2 : ∀ d j, ((x2Of m d) j).toNat < 100000)
    (hRv : ∀ d w (f : Buf (Elt F) (outLoc d)), (∀ j ∈ oRowSet w, f j = outG (x2Of m d) (posOf m d) (m (tabLoc d)) (hx2 d) j) → R d w f) :
    (K (F := F)).TileObl (D (F := F)) 𝒱 (P m (x2Of m) (posOf m) R) v₀ 0 := by
  intro d c i O W hO _ _
  simp only [P_ox, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task d (coordsV ⟨_, hci.1⟩ ⟨_, hci.2⟩) m R hx2 hRv O W hO).trans (wp_mono frame _ _ fun _ => obl_post)

end Cert.Proof.KI

end
-- ==== Proof.CommonB.lean ====
-- The same text as Common.lean, read at the printed kernel's own namespace: Cert.Kernel for Cert.KernelIdeal throughout.
/-
  The vocabulary of the launch of the embedding lookup on two SparseCores of sixteen tiles each: the configuration as
  the launch theorem sees it, the ghost state, the four HBM arrays a tile addresses, a tile's worker number, the row
  blocks of the index array and of the result, the read shares of the table and of the positional array (the full
  share halved five times), what the two host-side inputs of the call hold when it starts, and what the handshakes
  carry: each tile its block of index rows, a share of the positional array and of the table, and its block of the
  result, which comes back at contents of which a per-tile predicate holds.
-/
import proofs.«208673_g37134287241914_cont_8to1_b_302_3_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208673_g37134287241914_cont_8to1_b_302_3_alg».proof.Proof.Gen.Kernel
import proofs.«208673_g37134287241914_cont_8to1_b_302_3_alg».proof.Proof.TileObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

/-- The model every assertion of this certificate is over. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

/-! ## The arrays a tile addresses -/

/-- The index array (`main_v7`, 2048 × 128 words), the positional array (`main_v6`, 256 × 128), the table
    (`main_arg1`, 100000 × 128) and the result (`main_v8`, 262144 × 128) of device `d`. -/
abbrev x2Loc (d : Dev nD) : Loc nD τ sig := (SparseCore.T d).loc main_v7
abbrev posLoc (d : Dev nD) : Loc nD τ sig := (SparseCore.T d).loc main_v6
abbrev tabLoc (d : Dev nD) : Loc nD τ sig := (SparseCore.T d).loc main_arg1
abbrev outLoc (d : Dev nD) : Loc nD τ sig := (SparseCore.T d).loc main_v8

/-- The four arrays whole, as a vector subcore names them. -/
abbrev x2V : Memref sig .scVector .hbm S2048x128 .i32 := Memref.whole main_v7_scv
abbrev posV : Memref sig .scVector .hbm S256x128 .f32 := Memref.whole main_v6_scv
abbrev tabV : Memref sig .scVector .hbm S100000x128 .f32 := Memref.whole main_arg1_scv
abbrev outV : Memref sig .scVector .hbm S262144x128 .f32 := Memref.whole main_v8_scv

/-! ## Workers: tile `s` of SparseCore `c` is worker `2 s + c` -/

/-- The worker number of tile `s` of SparseCore `c`. -/
def wid (c : Fin 2) (s : Fin 16) : Fin 32 := ⟨s.val * 2 + c.val, by have := c.isLt; have := s.isLt; omega⟩

theorem wid_val (c : Fin 2) (s : Fin 16) : (wid c s).val = s.val * 2 + c.val := rfl

/-- Every worker is one tile of one SparseCore. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have := c.isLt; have := s.isLt
    refine Prod.ext (Fin.ext ?_) (Fin.ext ?_)
    · show (s.val * 2 + c.val) % 2 = c.val; omega
    · show (s.val * 2 + c.val) / 2 = s.val; omega
  right_inv := fun w => by
    refine Fin.ext ?_
    show w.val / 2 * 2 + w.val % 2 = w.val; omega

theorem widEquiv_apply (c : Fin 2) (s : Fin 16) : widEquiv (c, s) = wid c s := rfl

/-- The worker of the launch's tile `i` of its SparseCore `c`. -/
abbrev widK (c : Fin ((K (F := F)).nCore 0)) (i : Fin ((K (F := F)).nSub 0)) : Fin 32 := wid (Fin.cast nCore_zero c) (Fin.cast nSub_zero i)

/-! ## Row blocks: worker `w` has rows `[64 w, 64 w + 64)` of the index array and `[8192 w, 8192 w + 8192)` of the result -/

theorem xdiv : 32 ∣ S2048x128.size 0 := ⟨64, rfl⟩
theorem odiv : 32 ∣ S262144x128.size 0 := ⟨8192, rfl⟩
abbrev xrow (w : Fin 32) : Rect S2048x128 := Rect.part (s := S2048x128) (a₀ := 0) xdiv w
abbrev orow (w : Fin 32) : Rect S262144x128 := Rect.part (s := S262144x128) (a₀ := 0) odiv w
abbrev xRowSet (w : Fin 32) : Finset S2048x128.Idx := ((x2V).view.slice (xrow w)).set
abbrev oRowSet (w : Fin 32) : Finset S262144x128.Idx := ((outV).view.slice (orow w)).set

/-! ## Read shares: the full share halved five times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker `w`'s share of the table, and of the positional array. -/
abbrev tq (w : Fin 32) : PosShare TreeShare := leaf 5 fullShare w
abbrev pq (w : Fin 32) : PosShare TreeShare := leaf 5 fullShare w

/-! ## What the call finds in its two host-side inputs -/

variable (m : (ℓ : Loc nD τ sig) → Buf (Elt F) ℓ)

/-- The index array when the call starts: @main's argument 0 reshaped to 1024 × 256, then to 2048 × 128. -/
def x2Of (d : Dev nD) : Buf (Elt F) (x2Loc d) :=
  shapeCast S2048x128 (shapeCast S1024x256 (m ((SparseCore.T d).loc main_arg0)) shapeCasts_S1024x16x16_S1024x256) shapeCasts_S1024x256_S2048x128

/-- The positional array when the call starts: argument 2 broadcast along a new middle axis and reshaped to 256 × 64,
    beside argument 3 reshaped, broadcast along a new leading axis and reshaped to 256 × 64. -/
def posOf (d : Dev nD) : Buf (Elt F) (posLoc d) :=
  concatenate S256x128 1
    [⟨S256x64, shapeCast S256x64 (broadcastInDim S16x16x64 ![0, 2] bcast_S16x64_S16x16x64_0_2 (m ((SparseCore.T d).loc main_arg2))) shapeCasts_S16x16x64_S256x64⟩,
     ⟨S256x64, shapeCast S256x64 (broadcastInDim S16x16x1x64 ![0, 1, 2, 3] bcast_S1x16x1x64_S16x16x1x64_0_1_2_3
        (shapeCast S1x16x1x64 (m ((SparseCore.T d).loc main_arg3)) shapeCasts_S16x64_S1x16x1x64)) shapeCasts_S16x16x1x64_S256x64⟩]
    concatenates_S256x64_S256x64_S256x128_d1

/-! ## What the handshakes carry -/

variable (X2 : (d : Dev nD) → Buf (Elt F) (x2Loc d)) (PS : (d : Dev nD) → Buf (Elt F) (posLoc d))
variable (R : (d : Dev nD) → Fin 32 → Buf (Elt F) (outLoc d) → Prop)

/-- What worker `w` is handed: its block of index rows, its shares of the positional array and of the table, its block
    of the result at the launch contents. -/
abbrev goPts (d : Dev nD) (w : Fin 32) : sProp 𝕄 :=
  iprop((x2Loc d ↦[xRowSet w]{fullShare} X2 d) ∗ (posLoc d ↦{pq w} PS d) ∗ (tabLoc d ↦{tq w} m (tabLoc d))
    ∗ outLoc d ↦[oRowSet w]{fullShare} m (outLoc d))
/-- What it hands back: the same three unchanged, its block of the result at contents of which `R d w` holds. -/
abbrev tdPts (d : Dev nD) (w : Fin 32) : sProp 𝕄 :=
  iprop((x2Loc d ↦[xRowSet w]{fullShare} X2 d) ∗ (posLoc d ↦{pq w} PS d) ∗ (tabLoc d ↦{tq w} m (tabLoc d))
    ∗ ∃ f, (outLoc d ↦[oRowSet w]{fullShare} f) ∗ ⌜R d w f⌝)

/-- The one call: SparseCore `c` takes its sixteen workers' operands (`wid c i`, `i : Fin 16`: the blocks interleave
    between the two SparseCores; of the positional array and the table its workers' sixteen leaves) and brings their
    results back. -/
def P : (K (F := F)).Pay (nD := nD) (Val := Elt F) (Name := ℕ) (U := UU) where
  st := fun q d c => match q, c with
    | 0, c => bigSep Finset.univ fun i : Fin 16 => goPts m X2 PS d (wid (Fin.cast nCore_zero c) i)
  dn := fun q d c => match q, c with
    | 0, c => bigSep Finset.univ fun i : Fin 16 => tdPts m X2 PS R d (wid (Fin.cast nCore_zero c) i)
  go := fun q d c i => match q, c, i with
    | 0, c, i => goPts m X2 PS d (widK c i)
  td := fun q d c i => match q, c, i with
    | 0, c, i => tdPts m X2 PS R d (widK c i)
  x := fun _ _ => iprop(emp)

theorem P_st (d : Dev nD) (c : Fin ((K (F := F)).nCore 0)) :
    (P m X2 PS R).st 0 d c = bigSep Finset.univ fun i : Fin 16 => goPts m X2 PS d (wid (Fin.cast nCore_zero c) i) := rfl
theorem P_dn (d : Dev nD) (c : Fin ((K (F := F)).nCore 0)) :
    (P m X2 PS R).dn 0 d c = bigSep Finset.univ fun i : Fin 16 => tdPts m X2 PS R d (wid (Fin.cast nCore_zero c) i) := rfl
theorem P_go (d : Dev nD) (c : Fin ((K (F := F)).nCore 0)) (i : Fin ((K (F := F)).nSub 0)) :
    (P m X2 PS R).go 0 d c i = goPts m X2 PS d (widK c i) := rfl
theorem P_td (d : Dev nD) (c : Fin ((K (F := F)).nCore 0)) (i : Fin ((K (F := F)).nSub 0)) :
    (P m X2 PS R).td 0 d c i = tdPts m X2 PS R d (widK c i) := rfl
theorem P_x (q : Fin 1) (thr : Thread nD τ) : (P m X2 PS R).x q thr = iprop(emp) := rfl
theorem P_ox : (P m X2 PS R).ox = fun _ _ => 0 := rfl

end Cert.Proof.KB

end
-- ==== Proof.X2RangeB.lean ====
-- The same text as X2Range.lean, read at the printed kernel's own namespace: Cert.Kernel for Cert.KernelIdeal throughout.
/-
  The index array the call finds is a reshape of the program's first argument, so its words are that argument's: if
  every word of the argument names a row of the table, so does every word of the index array.
-/
import proofs.«208673_g37134287241914_cont_8to1_b_302_3_alg».proof.Proof.CommonB

noncomputable section

namespace Cert.Proof.KB

open Cert.Kernel Cert.Kernel.Gen Idealize.ShloMosaic

variable {F : FTy → Type} [FloatOps F]
variable (m : (ℓ : Loc nD τ sig) → Buf (Elt F) ℓ) (d : Dev nD)

/-- The index array the call finds is a reshape of x: its words are x's. -/
theorem x2Of_in_range (hx : ∀ j, ((m ((SparseCore.T d).loc Cert.Kernel.main_arg0) : IVec S1024x16x16 32) j).toNat < 100000) :
    ∀ j, ((x2Of m d : IVec S2048x128 32) j).toNat < 100000 := fun j => by
  unfold x2Of shapeCast
  exact hx _

end Cert.Proof.KB

end
-- ==== Proof.LaunchB.lean ====
-- The same text as Launch.lean, read at the printed kernel's own namespace: Cert.Kernel for Cert.KernelIdeal throughout.
/-
  The launch of the embedding lookup: how a SparseCore's operands split among its sixteen tiles and gather again, the
  launch element of the ghost state, @main on the TensorCore — eight host operations that compute the index array and
  the positional array from the arguments, the call, which hands every worker its block of index rows, its shares of
  the positional array and of the table and its block of the result and gets them back, and the reshape of the result —,
  how the final memory reads the claim, and the run of the whole program from a proof of one tile's task.
-/
import proofs.«208673_g37134287241914_cont_8to1_b_302_3_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq seq after)

variable {F : FTy → Type} [FloatOps F]

local notation "𝕄" => MT nD τ sig (HIx 1) (Elt F) ℕ UU ℕ

variable (m : (ℓ : Loc nD τ sig) → Buf (Elt F) ℓ) (ρ : Dev nD → PrngReg)
variable (X2 : (d : Dev nD) → Buf (Elt F) (x2Loc d)) (PS : (d : Dev nD) → Buf (Elt F) (posLoc d))
variable (R : (d : Dev nD) → Fin 32 → Buf (Elt F) (outLoc d) → Prop)

instance P_storable : (P (F := F) m X2 PS R).IsStorable where
  st q d c := match q, c with
    | 0, c => (inferInstance : BI.Storable (upEmb : UEmb _ 𝕄) (bigSep Finset.univ fun i : Fin 16 => goPts m X2 PS d (wid (Fin.cast nCore_zero c) i)))
  dn q d c := match q, c with
    | 0, c => (inferInstance : BI.Storable (upEmb : UEmb _ 𝕄) (bigSep Finset.univ fun i : Fin 16 => tdPts m X2 PS R d (wid (Fin.cast nCore_zero c) i)))
  go q d c i := match q, c, i with
    | 0, c, i => (inferInstance : BI.Storable (upEmb : UEmb _ 𝕄) (goPts m X2 PS d (widK c i)))
  td q d c i := match q, c, i with
    | 0, c, i => (inferInstance : BI.Storable (upEmb : UEmb _ 𝕄) (tdPts m X2 PS R d (widK c i)))

/-! ## The rows split and join; the shares -/

theorem xRowSet_eq (w : Fin 32) : xRowSet w = (xrow w).set := by
  show ((View.whole (main_v7_scv : Ref sig .scVector)).slice (xrow w)).set = _
  rw [View.set_slice]; exact Finset.map_refl
theorem oRowSet_eq (w : Fin 32) : oRowSet w = (orow w).set := by
  show ((View.whole (main_v8_scv : Ref sig .scVector)).slice (orow w)).set = _
  rw [View.set_slice]; exact Finset.map_refl
theorem xrows_disjoint : ∀ i ∈ (Finset.univ : Finset (Fin 32)), ∀ j ∈ (Finset.univ : Finset (Fin 32)), i ≠ j → Disjoint (xRowSet i) (xRowSet j) :=
  fun i _ j _ h => by rw [xRowSet_eq, xRowSet_eq]; exact Rect.part_disjoint xdiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem xrows_cover : (Finset.univ : Finset (Fin 32)).biUnion xRowSet = Finset.univ :=
  (Finset.biUnion_congr rfl fun i _ => xRowSet_eq i).trans (Rect.biUnion_part xdiv)
theorem orows_cover : (Finset.univ : Finset (Fin 32)).biUnion oRowSet = Finset.univ :=
  (Finset.biUnion_congr rfl fun i _ => oRowSet_eq i).trans (Rect.biUnion_part odiv)

theorem x2Pts_rows (d : Dev nD) (f : Buf (Elt F) (x2Loc d)) :
    (x2Loc d ↦{fullShare} f : sProp 𝕄) = bigSep Finset.univ fun w : Fin 32 => x2Loc d ↦[xRowSet w]{fullShare} f := by
  rw [← pointsTo_biUnion Finset.univ (ℓ := x2Loc d) xRowSet xrows_disjoint, xrows_cover]; try rfl
theorem outPts_rows (d : Dev nD) (f : Buf (Elt F) (outLoc d)) :
    (outLoc d ↦{fullShare} f : sProp 𝕄) = bigSep Finset.univ fun w : Fin 32 => outLoc d ↦[oRowSet w]{fullShare} f := by
  rw [← pointsTo_biUnion Finset.univ (ℓ := outLoc d) oRowSet orows_disjoint, orows_cover]; try rfl
theorem posPts_shares (d : Dev nD) (f : Buf (Elt F) (posLoc d)) :
    (posLoc d ↦{fullShare} f : sProp 𝕄) = bigSep Finset.univ fun w : Fin 32 => posLoc d ↦{pq w} f :=
  pointsTo_leaves Finset.univ f 5 fullShare
theorem tabPts_shares (d : Dev nD) (f : Buf (Elt F) (tabLoc d)) :
    (tabLoc d ↦{fullShare} f : sProp 𝕄) = bigSep Finset.univ fun w : Fin 32 => tabLoc d ↦{tq w} f :=
  pointsTo_leaves Finset.univ f 5 fullShare

/-- Over the tiles of the launch's grid, and over its SparseCores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Ψ : Fin 2 → sProp 𝕄) :
    (bigSep Finset.univ fun c : Fin ((K (F := F)).nCore 0) => Ψ (Fin.cast nCore_zero c)) = bigSep Finset.univ Ψ :=
  bigSep_congr fun _ _ => congrArg Ψ (Fin.ext rfl)

/-- Over the thirty-two workers is over the two SparseCores, over each one's sixteen tiles. -/
theorem bigSep_workers (Φ : Fin 32 → sProp 𝕄) :
    bigSep Finset.univ Φ
      = bigSep Finset.univ fun c : Fin ((K (F := F)).nCore 0) => bigSep Finset.univ fun i : Fin 16 => Φ (wid (Fin.cast nCore_zero c) i) := by
  rw [bigSep_univ_equiv widEquiv Φ, bigSep_univ_prod]
  exact (bigSep_cores (F := F) fun c => bigSep Finset.univ fun i : Fin 16 => Φ (wid c i)).symm

/-- Every worker's operands are the four arrays whole. -/
theorem goPts_all (d : Dev nD) :
    (bigSep Finset.univ fun w : Fin 32 => goPts m X2 PS d w)
      = iprop((x2Loc d ↦{fullShare} X2 d) ∗ (posLoc d ↦{fullShare} PS d) ∗ (tabLoc d ↦{fullShare} m (tabLoc d)) ∗ outLoc d ↦{fullShare} m (outLoc d)) := by
  rw [bigSep_sep', bigSep_sep', bigSep_sep', ← x2Pts_rows, ← posPts_shares, ← tabPts_shares, ← outPts_rows]

theorem st_all (d : Dev nD) :
    (bigSep Finset.univ fun c : Fin ((K (F := F)).nCore 0) => (P m X2 PS R).st 0 d c)
      = iprop((x2Loc d ↦{fullShare} X2 d) ∗ (posLoc d ↦{fullShare} PS d) ∗ (tabLoc d ↦{fullShare} m (tabLoc d)) ∗ outLoc d ↦{fullShare} m (outLoc d)) :=
  (bigSep_workers (F := F) (fun w => goPts m X2 PS d w)).symm.trans (goPts_all m X2 PS d)

theorem swap_pure {A : sProp 𝕄} {φ : Prop} : iprop(A ∗ ⌜φ⌝) ⊢ (iprop(⌜φ⌝ ∗ A) : sProp 𝕄) := by
  iintro ⟨HA, %h⟩
  isplitr
  · ipureintro; exact h
  · iexact HA

/-- The pure facts of the blocks, gathered. -/
theorem oRows_pure (d : Dev nD) (fs : Fin 32 → Buf (Elt F) (outLoc d)) :
    (bigSep Finset.univ fun w : Fin 32 => iprop((outLoc d ↦[oRowSet w]{fullShare} fs w) ∗ ⌜R d w (fs w)⌝))
      ⊢ (iprop(⌜∀ w ∈ (Finset.univ : Finset (Fin 32)), R d w (fs w)⌝ ∗ bigSep Finset.univ fun w : Fin 32 => outLoc d ↦[oRowSet w]{fullShare} fs w) : sProp 𝕄) :=
  (bigSep_mono fun w _ => swap_pure (F := F) (A := outLoc d ↦[oRowSet w]{fullShare} fs w) (φ := R d w (fs w))).trans
    (bigSep_pure_sep Finset.univ (fun w => R d w (fs w)) (fun w => (outLoc d ↦[oRowSet w]{fullShare} fs w : sProp 𝕄)))

/-- The workers' blocks of the result, each at contents of which its predicate holds, are the result whole at contents
    of which every worker's holds: the predicates read only their own blocks. -/
theorem oRows_join (hR : ∀ d w (f g : Buf (Elt F) (outLoc d)), (∀ j ∈ oRowSet w, f j = g j) → R d w f → R d w g) (d : Dev nD) :
    (bigSep Finset.univ fun w : Fin 32 => iprop(∃ f, (outLoc d ↦[oRowSet w]{fullShare} f) ∗ ⌜R d w f⌝))
      ⊢ (iprop(∃ f, ⌜∀ w, R d w f⌝ ∗ outLoc d ↦{fullShare} f) : sProp 𝕄) := by
  refine (bigSep_exists_pi Finset.univ (fun w (f : Buf (Elt F) (outLoc d)) => iprop((outLoc d ↦[oRowSet w]{fullShare} f) ∗ ⌜R d w f⌝))).trans ?_
  iintro ⟨%fs, H⟩
  ihave H1 := (oRows_pure R d fs) $$ H
  icases H1 with ⟨%hRs, H2⟩
  have : Nonempty (Buf (Elt F) (outLoc d)) := ⟨fs 0⟩
  ihave H3 := (pointsTo_biUnion_join (ℓ := outLoc d) (q := fullShare) (Val := Elt F) Finset.univ oRowSet fs (fs 0) orows_disjoint) $$ H2
  icases H3 with ⟨%g, %hg, Hg⟩
  rw [orows_cover]
  iexists g
  isplitr
  · ipureintro; intro w
    exact hR d w (fs w) g (fun j hj => (hg w (Finset.mem_univ w) j hj).symm) (hRs w (Finset.mem_univ w))
  · iexact Hg

theorem tdPts_all (hR : ∀ d w (f g : Buf (Elt F) (outLoc d)), (∀ j ∈ oRowSet w, f j = g j) → R d w f → R d w g) (d : Dev nD) :
    (bigSep Finset.univ fun w : Fin 32 => tdPts m X2 PS R d w)
      ⊢ (iprop((x2Loc d ↦{fullShare} X2 d) ∗ (posLoc d ↦{fullShare} PS d) ∗ (tabLoc d ↦{fullShare} m (tabLoc d))
          ∗ ∃ f, ⌜∀ w, R d w f⌝ ∗ outLoc d ↦{fullShare} f) : sProp 𝕄) := by
  rw [bigSep_sep', bigSep_sep', bigSep_sep', ← x2Pts_rows, ← posPts_shares, ← tabPts_shares]
  iintro ⟨Hx, Hp, Ht, Ho⟩
  isplitl [Hx]; · iexact Hx
  isplitl [Hp]; · iexact Hp
  isplitl [Ht]; · iexact Ht
  iapply (oRows_join R hR d); iexact Ho

theorem dn_all (hR : ∀ d w (f g : Buf (Elt F) (outLoc d)), (∀ j ∈ oRowSet w, f j = g j) → R d w f → R d w g) (d : Dev nD) :
    (bigSep Finset.univ fun c : Fin ((K (F := F)).nCore 0) => (P m X2 PS R).dn 0 d c)
      ⊢ (iprop((x2Loc d ↦{fullShare} X2 d) ∗ (posLoc d ↦{fullShare} PS d) ∗ (tabLoc d ↦{fullShare} m (tabLoc d))
          ∗ ∃ f, ⌜∀ w, R d w f⌝ ∗ outLoc d ↦{fullShare} f) : sProp 𝕄) :=
  (Entails.of_eq (bigSep_workers (F := F) (fun w => tdPts m X2 PS R d w)).symm).trans (tdPts_all m X2 PS R hR d)

/-! ## A SparseCore's operands are its tiles' -/

theorem vecSplit : (K (F := F)).VecSplit' (P m X2 PS R) 0 := by
  intro d c
  show (bigSep Finset.univ fun i : Fin 16 => goPts m X2 PS d (wid (Fin.cast nCore_zero c) i)) ⊢ |={Set.univ}=> iprop(
      (bigSep Finset.univ fun i : Fin ((K (F := F)).nSub 0) => goPts m X2 PS d (wid (Fin.cast nCore_zero c) (Fin.cast nSub_zero i)))
      ∗ ((bigSep Finset.univ fun i : Fin ((K (F := F)).nSub 0) => tdPts m X2 PS R d (wid (Fin.cast nCore_zero c) (Fin.cast nSub_zero i)))
          -∗ bigSep Finset.univ fun i : Fin 16 => tdPts m X2 PS R d (wid (Fin.cast nCore_zero c) i)))
  rw [bigSep_tasks (F := F) (fun i => goPts m X2 PS d (wid (Fin.cast nCore_zero c) i)),
    bigSep_tasks (F := F) (fun i => tdPts m X2 PS R d (wid (Fin.cast nCore_zero c) i))]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X2 PS R).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m X2 PS R).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

abbrev a0Loc (d : Dev nD) : Loc nD τ sig := (SparseCore.T d).loc main_arg0
abbrev a2Loc (d : Dev nD) : Loc nD τ sig := (SparseCore.T d).loc main_arg2
abbrev a3Loc (d : Dev nD) : Loc nD τ sig := (SparseCore.T d).loc main_arg3
abbrev v9Loc (d : Dev nD) : Loc nD τ sig := (SparseCore.T d).loc main_v9

/-- The eight host operations before the call, in @main's order, and the one after it. -/
abbrev op0 : HloOp τ sig (Elt F) := StableHlo.reshape main_arg0 main_v0 rfl shapeCasts_S1024x16x16_S1024x256
abbrev op1 : HloOp τ sig (Elt F) := StableHlo.unary main_arg2 main_v1
  (broadcastInDim S16x16x64 ![0, 2] bcast_S16x64_S16x16x64_0_2 : (⟨S16x64, .f32⟩ : BufTy).Contents (Elt F) → (⟨S16x16x64, .f32⟩ : BufTy).Contents (Elt F))
abbrev op2 : HloOp τ sig (Elt F) := StableHlo.reshape main_v1 main_v2 rfl shapeCasts_S16x16x64_S256x64
abbrev op3 : HloOp τ sig (Elt F) := StableHlo.reshape main_arg3 main_v3 rfl shapeCasts_S16x64_S1x16x1x64
abbrev op4 : HloOp τ sig (Elt F) := StableHlo.unary main_v3 main_v4
  (broadcastInDim S16x16x1x64 ![0, 1, 2, 3] bcast_S1x16x1x64_S16x16x1x64_0_1_2_3 : (⟨S1x16x1x64, .f32⟩ : BufTy).Contents (Elt F) → (⟨S16x16x1x64, .f32⟩ : BufTy).Contents (Elt F))
abbrev op5 : HloOp τ sig (Elt F) := StableHlo.reshape main_v4 main_v5 rfl shapeCasts_S16x16x1x64_S256x64
abbrev op6 : HloOp τ sig (Elt F) := StableHlo.binary main_v2 main_v5 main_v6
  ((fun a b => concatenate S256x128 1 [⟨S256x64, a⟩, ⟨S256x64, b⟩] concatenates_S256x64_S256x64_S256x128_d1) :
    (⟨S256x64, .f32⟩ : BufTy).Contents (Elt F) → (⟨S256x64, .f32⟩ : BufTy).Contents (Elt F) → (⟨S256x128, .f32⟩ : BufTy).Contents (Elt F))
abbrev op7 : HloOp τ sig (Elt F) := StableHlo.reshape main_v0 main_v7 rfl shapeCasts_S1024x256_S2048x128
abbrev op9 : HloOp τ sig (Elt F) := StableHlo.reshape main_v8 main_v9 rfl shapeCasts_S262144x128_S1024x256x128
abbrev ops8 : List (HloOp τ sig (Elt F)) := [op0, op1, op2, op3, op4, op5, op6, op7]

/-- @main is the eight operations, the call, the reshape of its result. -/
theorem main_eq (d : Dev nD) :
    main (F := F) d = (seq (ops8 (F := F)) >>= fun _ => (K (F := F)).run d 0 >>= fun _ => seq [op9 (F := F)]) := rfl

/-- The TensorCore's arrays, all unscoped. -/
abbrev S14 : Finset (DevRef τ sig) := {a0', a1', a2', a3', v0', v1', v2', v3', v4', v5', v6', v7', v8', v9'}
abbrev S2 : Finset (DevRef τ sig) := {v8', v9'}

theorem held_S14 (d : Dev nD) (W : Valuation τ sig (Elt F)) :
    (held (T d) S14 W : sProp 𝕄)
      = iprop((a0Loc d ↦{fullShare} W a0') ∗ (tabLoc d ↦{fullShare} W a1') ∗ (a2Loc d ↦{fullShare} W a2') ∗ (a3Loc d ↦{fullShare} W a3')
          ∗ ((SparseCore.T d).loc main_v0 ↦{fullShare} W v0') ∗ ((SparseCore.T d).loc main_v1 ↦{fullShare} W v1')
          ∗ ((SparseCore.T d).loc main_v2 ↦{fullShare} W v2') ∗ ((SparseCore.T d).loc main_v3 ↦{fullShare} W v3')
          ∗ ((SparseCore.T d).loc main_v4 ↦{fullShare} W v4') ∗ ((SparseCore.T d).loc main_v5 ↦{fullShare} W v5')
          ∗ (posLoc d ↦{fullShare} W v6') ∗ (x2Loc d ↦{fullShare} W v7') ∗ (outLoc d ↦{fullShare} W v8') ∗ v9Loc d ↦{fullShare} W v9') := by
  unfold held S14
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem held_S2 (d : Dev nD) (W : Valuation τ sig (Elt F)) :
    (held (T d) S2 W : sProp 𝕄) = iprop((outLoc d ↦{fullShare} W v8') ∗ v9Loc d ↦{fullShare} W v9') := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (tabLoc d ↦{fullShare} W main_arg1) ∗ (a2Loc d ↦{fullShare} W main_arg2) ∗ (a3Loc d ↦{fullShare} W main_arg3)
          ∗ ((SparseCore.T d).loc main_v0 ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4) ∗ ((SparseCore.T d).loc main_v5 ↦{fullShare} W main_v5)
          ∗ (posLoc d ↦{fullShare} W main_v6) ∗ (x2Loc d ↦{fullShare} W main_v7) ∗ (outLoc d ↦{fullShare} W main_v8) ∗ v9Loc d ↦{fullShare} W main_v9) := by
  unfold unscopedBufs
  rw [show (Finset.univ.filter fun b : Ref sig .tc => ¬ b.isScoped)
      = {main_arg0, main_arg1, main_arg2, main_arg3, main_v0, main_v1, main_v2, main_v3, main_v4, main_v5, main_v6, main_v7, main_v8, main_v9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, the valuation before the call (the eight operations' results), and after it with the result
    array at `f`. -/
def V0 (d : Dev nD) : Valuation τ sig (Elt F) := fun b => m (d, b)
def V8 (d : Dev nD) : Valuation τ sig (Elt F) := after (ops8 (F := F)) (V0 m d)
def V9 (d : Dev nD) (f : Buf (Elt F) (outLoc d)) : Valuation τ sig (Elt F) := Function.update (V8 m d) v8' f

theorem unscoped_held (d : Dev nD) : (unscopedBufs d (fun b => m ((SparseCore.T d).loc b)) : sProp 𝕄) = held (T d) S14 (V0 m d) := by
  rw [unscopedBufs_eq, held_S14]; rfl

theorem V8_a0 (d : Dev nD) : V8 m d a0' = m (a0Loc d) := by unfold V8 ops8; after_results; rfl
theorem V8_a1 (d : Dev nD) : V8 m d a1' = m (tabLoc d) := by unfold V8 ops8; after_results; rfl
theorem V8_a2 (d : Dev nD) : V8 m d a2' = m (a2Loc d) := by unfold V8 ops8; after_results; rfl
theorem V8_a3 (d : Dev nD) : V8 m d a3' = m (a3Loc d) := by unfold V8 ops8; after_results; rfl
theorem V8_v8 (d : Dev nD) : V8 m d v8' = m (outLoc d) := by unfold V8 ops8; after_results; rfl
/-- The host operations leave the index array and the positional array at `x2Of` and `posOf`. -/
theorem V8_v7 (d : Dev nD) : V8 m d v7' = x2Of m d := by unfold V8 ops8; after_results; rfl
theorem V8_v6 (d : Dev nD) : V8 m d v6' = posOf m d := by unfold V8 ops8; after_results; rfl

/-- The fourteen arrays before the call: the arguments and the result array at their launch contents, the index array and
    the positional array at what the host operations computed. -/
theorem held_V8 (d : Dev nD) :
    (held (T d) S14 (after (ops8 (F := F)) (V0 m d)) : sProp 𝕄)
      = iprop((a0Loc d ↦{fullShare} m (a0Loc d)) ∗ (tabLoc d ↦{fullShare} m (tabLoc d)) ∗ (a2Loc d ↦{fullShare} m (a2Loc d)) ∗ (a3Loc d ↦{fullShare} m (a3Loc d))
          ∗ ((SparseCore.T d).loc main_v0 ↦{fullShare} V8 m d v0') ∗ ((SparseCore.T d).loc main_v1 ↦{fullShare} V8 m d v1')
          ∗ ((SparseCore.T d).loc main_v2 ↦{fullShare} V8 m d v2') ∗ ((SparseCore.T d).loc main_v3 ↦{fullShare} V8 m d v3')
          ∗ ((SparseCore.T d).loc main_v4 ↦{fullShare} V8 m d v4') ∗ ((SparseCore.T d).loc main_v5 ↦{fullShare} V8 m d v5')
          ∗ (posLoc d ↦{fullShare} posOf m d) ∗ (x2Loc d ↦{fullShare} x2Of m d) ∗ (outLoc d ↦{fullShare} m (outLoc d)) ∗ v9Loc d ↦{fullShare} V8 m d v9') := by
  show held (SparseCore.T d) S14 (V8 m d) = _
  rw [held_S14, V8_a0, V8_a1, V8_a2, V8_a3, V8_v6, V8_v7, V8_v8]

theorem hops8 : ∀ op ∈ ops8 (F := F), op.bufs ⊆ S14 :=
  List.forall_iff_forall_mem.1 (show List.Forall (fun op : HloOp τ sig (Elt F) => op.bufs ⊆ S14) ops8 from
    ⟨show ({a0', v0'} : Finset (DevRef τ sig)) ⊆ S14 by decide, show ({a2', v1'} : Finset (DevRef τ sig)) ⊆ S14 by decide,
      show ({v1', v2'} : Finset (DevRef τ sig)) ⊆ S14 by decide, show ({a3', v3'} : Finset (DevRef τ sig)) ⊆ S14 by decide,
      show ({v3', v4'} : Finset (DevRef τ sig)) ⊆ S14 by decide, show ({v4', v5'} : Finset (DevRef τ sig)) ⊆ S14 by decide,
      show ({v2', v5', v6'} : Finset (DevRef τ sig)) ⊆ S14 by decide, show ({v0', v7'} : Finset (DevRef τ sig)) ⊆ S14 by decide⟩)
theorem hfresh8 : ∀ op ∈ ops8 (F := F), op.fresh = ∅ := by
  intro _ h; (repeat (cases h with | head => rfl | tail _ h => ?_)); exact nomatch h
theorem hop9 : (op9 (F := F)).bufs ⊆ S2 := show ({v8', v9'} : Finset (DevRef τ sig)) ⊆ S2 from subset_rfl

/-- The program's result from the call's: its reshape to 1024 × 256 × 128. -/
abbrev outOf (d : Dev nD) (f : Buf (Elt F) (outLoc d)) : Buf (Elt F) (v9Loc d) :=
  shapeCast S1024x256x128 f shapeCasts_S262144x128_S1024x256x128

theorem V9_v8 (d : Dev nD) (f : Buf (Elt F) (outLoc d)) : V9 m d f v8' = f := Function.update_self _ _ _
theorem V9_v9 (d : Dev nD) (f : Buf (Elt F) (outLoc d)) : V9 m d f v9' = V8 m d v9' := Function.update_of_ne (show v9' ≠ v8' by decide) _ _
theorem op9_v8 (d : Dev nD) (f : Buf (Elt F) (outLoc d)) : (op9 (F := F)).result (V9 m d f) v8' = f :=
  ((op9 (F := F)).result_of_not_mem _ (show v8' ∉ ({v9'} : Finset (DevRef τ sig)) by decide)).trans (V9_v8 m d f)
theorem op9_v9 (d : Dev nD) (f : Buf (Elt F) (outLoc d)) : (op9 (F := F)).result (V9 m d f) v9' = outOf d f := by
  unfold op9; rw [StableHlo.reshape_result, V9_v8]; rfl

/-- What @main leaves the claim: the four arguments at their launch contents, the result the reshape of contents of the
    call's result array of which every worker's predicate holds. -/
abbrev FIN (d : Dev nD) : sProp 𝕄 :=
  iprop((a0Loc d ↦{fullShare} m (a0Loc d)) ∗ (tabLoc d ↦{fullShare} m (tabLoc d)) ∗ (a2Loc d ↦{fullShare} m (a2Loc d)) ∗ (a3Loc d ↦{fullShare} m (a3Loc d))
    ∗ ∃ f, ⌜∀ w, R d w f⌝ ∗ v9Loc d ↦{fullShare} outOf d f)

set_option backward.isDefEq.respectTransparency.types false in
set_option maxRecDepth 16384 in
/-- @main on device `d`'s TensorCore: the eight host operations over the fourteen arrays held whole, the call — the
    index array, the positional array, the table and the result array dealt to the thirty-two workers and joined
    again —, the reshape; the arguments kept. -/
theorem hmain (hR : ∀ d w (f g : Buf (Elt F) (outLoc d)), (∀ j ∈ oRowSet w, f j = g j) → R d w f → R d w g)
    (κ : GSem nD τ sig → ℕ) (d : Dev nD) :
    iprop((K (F := F)).ctx EH (P m (x2Of m) (posOf m) R) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [unscoped_held, main_eq]
  iintro ⟨#Hctx, Hst, ⟨Hb, Hheld, -, -⟩, -⟩
  -- the eight host operations
  iapply (wp_seq 𝒱 none Set.univ d S14 _ (ops8 (F := F)) hops8 hfresh8 (V0 m d)) $$ [Hb Hheld]
  · isplitl [Hb] <;> iassumption
  iintro ⟨Hb, Hheld⟩
  ihave Hh := (Entails.of_eq (held_V8 (F := F) m d)) $$ Hheld
  icases Hh with ⟨Ha0, Ha1, Ha2, Ha3, -, -, -, -, -, -, Hv6, Hv7, Hv8, Hv9⟩
  -- the call
  simp only [seq, wp_bind, wp_pure]
  iapply ((K (F := F)).wp_run (D (F := F)) 𝒱 (EH := EH) (P := P m (x2Of m) (posOf m) R) κ d 0) $$ [Hst Ha1 Hv6 Hv7 Hv8 Hb Ha0 Ha2 Ha3 Hv9]
  isplitr; · iexact Hctx
  isplitl [Hst]; · iexact Hst
  isplitl [Ha1 Hv6 Hv7 Hv8]
  · rw [st_all]
    isplitl [Hv7]; · iexact Hv7
    isplitl [Hv6]; · iexact Hv6
    isplitl [Ha1]; · iexact Ha1
    iexact Hv8
  iintro ⟨Hst, Hdn⟩
  ihave Hdn' := (dn_all m (x2Of m) (posOf m) R hR d) $$ Hdn
  icases Hdn' with ⟨-, -, Ha1, %f, %hf, Hv8⟩
  -- the reshape of the result
  iapply (wp_hlo_within 𝒱 (SparseCore.T d) none Set.univ (op := op9) (S := S2) hop9 (V := V9 m d f)) $$ [Hb Hv8 Hv9]
  · isplitl [Hb]; · iexact Hb
    rw [held_S2, V9_v8, V9_v9]
    isplitl [Hv8]; · iexact Hv8
    iexact Hv9
  iintro ⟨Hb, Hheld⟩
  ihave Hh := (Entails.of_eq (held_S2 (F := F) d ((op9 (F := F)).result (V9 m d f)))) $$ Hheld
  icases Hh with ⟨-, Hv9⟩
  rw [op9_v9, wp_ret]; imodintro; imodintro
  isplitl [Hst]; · iexact Hst
  isplitl [Ha0]; · iexact Ha0
  isplitl [Ha1]; · iexact Ha1
  isplitl [Ha2]; · iexact Ha2
  isplitl [Ha3]; · iexact Ha3
  iexists f
  isplitr
  · ipureintro; exact hf
  · iexact Hv9

/-! ## How the final memory reads the claim -/

def fq (d : Dev nD) (s' : Phys nD τ sig (Elt F)) : Prop :=
  (∃ f, (∀ w, R d w f) ∧ s'.mem.mem (v9Loc d) = outOf d f)
    ∧ s'.mem.mem (a0Loc d) = m (a0Loc d) ∧ s'.mem.mem (tabLoc d) = m (tabLoc d) ∧ s'.mem.mem (a2Loc d) = m (a2Loc d) ∧ s'.mem.mem (a3Loc d) = m (a3Loc d)

set_option maxRecDepth 16384 in
theorem hfin (d : Dev nD) (s' : Phys nD τ sig (Elt F)) : iprop(FIN m R d ∗ SI s') ⊢ (⌜fq m R d s'⌝ : sProp 𝕄) := by
  iintro ⟨⟨H0, H1, H2, H3, %f, %hf, H9⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := tabLoc d) (I := Finset.univ) (q := fullShare) (f := m (tabLoc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v9Loc d) (I := Finset.univ) (q := fullShare) (f := outOf d f)) $$ [HSI H9]
  · isplitl [HSI] <;> iassumption
  icases H with %h9
  ipureintro
  exact ⟨⟨f, hf, funext fun i => h9 i (Finset.mem_univ i)⟩, funext fun i => h0 i (Finset.mem_univ i), funext fun i => h1 i (Finset.mem_univ i),
    funext fun i => h2 i (Finset.mem_univ i), funext fun i => h3 i (Finset.mem_univ i)⟩

/-! ## The program's run -/

/-- On every device: the result is the reshape of contents of the call's result array of which every worker's predicate
    holds, and the four arguments are unchanged. -/
def QC : PUnit × MemSt nD τ sig (Elt F) → Prop := fun r => ∀ c : Dev nD,
  (∃ f : Buf (Elt F) (outLoc c), (∀ w, R c w f) ∧ r.2.mem ((c.tc : Thread nD τ).loc main_v9) = outOf c f)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- The whole program runs, from a proof of one tile's task at a symbolic place. -/
theorem run_main [∀ e, Nonempty (Elt F e)]
    (hR : ∀ d w (f g : Buf (Elt F) (outLoc d)), (∀ j ∈ oRowSet w, f j = g j) → R d w f → R d w g)
    (tileObl : (K (F := F)).TileObl (D (F := F)) 𝒱 (P m (x2Of m) (posOf m) R) v₀ 0) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P m (x2Of m) (posOf m) R) facts v₀
    (fun q hq => match q with | 0 => nomatch hq)
    (fun q _ => match q with | 0 => tileObl)
    (fun q _ => match q with | 0 => SparseCore.Cfg.VecSplit.of_plain (vecSplit m (x2Of m) (posOf m) R))
    m ρ main (fun _ => iprop(emp)) (FIN m R) (u₀ (F := F)) (sep_elim_left.trans (hu₀ m (x2Of m) (posOf m) R)) (hmain m ρ R hR)
    (fq m R) (hfin m R) (QC m R) (fun _ h => h)

end Cert.Proof.KB

end
-- ==== Proof.OutValB.lean ====
-- The same text as OutVal.lean, read at the printed kernel's own namespace: Cert.Kernel for Cert.KernelIdeal throughout.
/-
  The kernel's result as one function of what the call finds.

  The SparseCore call is handed the index array as 2048 rows of 128 words, the positional array of 256 rows, and the
  table; its result has 262144 rows of 128 lanes. Row n of the result is the table row named by word n of the index
  array (row n / 128, column n % 128 of the 2048 × 128 layout) plus row n % 256 of the positional array, lane by lane,
  the table row first. `outG` is that array, for index words that name rows of the table.
-/
import proofs.«208673_g37134287241914_cont_8to1_b_302_3_alg».proof.Proof.CommonB
import Idealize.ShloMosaic.Lib.ValueIdx
import Idealize.ShloMosaic.PureOps.Ideal

noncomputable section

namespace Cert.Proof.KB

open Cert.Kernel Cert.Kernel.Gen Idealize.ShloMosaic Idealize.ShloMosaic.ValueIdx

variable {F : FTy → Type} [FloatOps F]

/-- Result row n reads word n of the index array: row n / 128 of its 2048 × 128 layout, -/
abbrev xRow (n : Fin 262144) : Fin 2048 := ⟨n.val / 128, by have := n.isLt; omega⟩
/-- column n % 128; -/
abbrev xCol (n : Fin 262144) : Fin 128 := ⟨n.val % 128, by omega⟩
/-- and row n % 256 of the positional array. -/
abbrev pRow (n : Fin 262144) : Fin 256 := ⟨n.val % 256, by omega⟩

/-- The result array: at (n, k) the table's row X2[n / 128, n % 128] at lane k plus the positional array's row n % 256
    at lane k. -/
def outG (X2 : S2048x128.Idx → Elt F .i32) (PS : S256x128.Idx → Elt F .f32) (TB : S100000x128.Idx → Elt F .f32)
    (hX : ∀ j, (X2 j).toNat < 100000) : S262144x128.Idx → Elt F .f32 := fun j =>
  FloatOps.addf (TB (ix2 (⟨(X2 (ix2 (xRow (j 0)) (xCol (j 0)))).toNat, hX _⟩ : Fin 100000) (j 1)))
    (PS (ix2 (pRow (j 0)) (j 1)))

/-- `outG` at (n, k). -/
theorem outG_apply (X2 : S2048x128.Idx → Elt F .i32) (PS : S256x128.Idx → Elt F .f32) (TB : S100000x128.Idx → Elt F .f32)
    (hX : ∀ j, (X2 j).toNat < 100000) (n : Fin 262144) (k : Fin 128) :
    outG X2 PS TB hX (ix2 n k)
      = FloatOps.addf (TB (ix2 (⟨(X2 (ix2 (xRow n) (xCol n))).toNat, hX _⟩ : Fin 100000) k)) (PS (ix2 (pRow n) k)) := rfl

/-- At the ideal instance the lane sum is the sum of extended reals, the table row first. -/
theorem outG_apply_ideal (X2 : S2048x128.Idx → Elt Ideal .i32) (PS : S256x128.Idx → Elt Ideal .f32)
    (TB : S100000x128.Idx → Elt Ideal .f32) (hX : ∀ j, (X2 j).toNat < 100000) (n : Fin 262144) (k : Fin 128) :
    outG X2 PS TB hX (ix2 n k)
      = TB (ix2 (⟨(X2 (ix2 (xRow n) (xCol n))).toNat, hX _⟩ : Fin 100000) k) + PS (ix2 (pRow n) k) := rfl

end Cert.Proof.KB

end
-- ==== Proof.TileResB.lean ====
-- The same text as TileRes.lean, read at the printed kernel's own namespace: Cert.Kernel for Cert.KernelIdeal throughout.
/-
  A tile's resources, as its body addresses them: the tile's thread, the sixty-four rows of its index scratch (a
  partition of the scratch, each row the offset list of one gather), the two slots of the gathered-rows scratch and of
  the sum scratch, and what one trip of a row loop holds: the slot of gathered rows and the positional rows at their
  contents, the slot of sums at any.
-/
import proofs.«208673_g37134287241914_cont_8to1_b_302_3_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)
abbrev cV (L : grid0.Coords) : Fin τ.nSC := (L 0).castLE hcore0
abbrev jV (L : grid0.Coords) : Fin τ.nSub := (L 1).castLE hsub0

/-! ## The rows of the index scratch -/
omit [FloatOps F] in
theorem idx_row_inb (c : Fin 64) : ∀ a, (![c.val, 0] : Fin 2 → ℕ) a + S1x128.size a ≤ S64x128.size a := by
  have := c.isLt
  intro a
  match a with
  | 0 => show c.val + 1 ≤ 64; omega
  | 1 => show 0 + 128 ≤ 128; omega

abbrev idxRect (c : Fin 64) : Rect S64x128 := Rect.unit (s := S64x128) ![c.val, 0] S1x128.size (idx_row_inb c)
abbrev idxRowM (c : Fin 64) : Memref sig .scVector .vmem S128 .i32 := ((sV).slice (idxRect c) (fun _ => rfl)).squeeze S128 squeezes_S1x128_S128

theorem rdiv : 64 ∣ S64x128.size 0 := ⟨1, rfl⟩
abbrev idxPart (c : Fin 64) : Rect S64x128 := Rect.part (s := S64x128) (a₀ := 0) rdiv c

omit [FloatOps F] in
theorem idxRect_eq (c : Fin 64) : idxRect c = idxPart c := by
  unfold idxRect idxPart Rect.part Rect.block
  congr 1 <;> funext a
  · match a with
    | 0 => simp [Shape.partIx, Shape.partSize]
    | 1 => simp [Shape.partIx, Shape.partSize]
  · match a with
    | 0 => simp [Shape.partSize]
    | 1 => simp [Shape.partSize]

abbrev rowSet (c : Fin 64) : Finset S64x128.Idx := (idxRowM c).view.set

omit [FloatOps F] in
theorem rowSet_eq (c : Fin 64) : rowSet c = (idxPart c).set := by
  have h1 : rowSet c = ((sV).view.slice (idxPart c)).set := by
    show (((sV).view.slice (idxRect c)).reshape S128 squeezes_S1x128_S128.numel_eq).set = ((sV).view.slice (idxPart c)).set
    rw [View.set_reshape]
    exact idxRect_eq c ▸ rfl
  rw [h1]
  show ((View.whole (cc0_scratch0 : Ref sig .scVector)).slice (idxPart c)).set = _
  rw [View.set_slice]; exact Finset.map_refl

omit [FloatOps F] in
theorem rows_disjoint : ∀ i ∈ (Finset.univ : Finset (Fin 64)), ∀ j ∈ (Finset.univ : Finset (Fin 64)), i ≠ j → Disjoint (rowSet i) (rowSet j) :=
  fun i _ j _ h => by rw [rowSet_eq, rowSet_eq]; exact Rect.part_disjoint rdiv h
omit [FloatOps F] in
theorem rows_cover : (Finset.univ : Finset (Fin 64)).biUnion rowSet = Finset.univ :=
  (Finset.biUnion_congr rfl fun i _ => rowSet_eq i).trans (Rect.biUnion_part rdiv)

abbrev sLoc : Loc nD τ sig := (V d (cV L) (jV L)).loc cc0_scratch0

omit [FloatOps F] in
/-- The index scratch whole is its sixty-four rows. -/
theorem sPts_rows (f : Buf (Elt F) (sLoc d L)) :
    (sLoc d L ↦{fullShare} f : sProp 𝕄) = bigSep Finset.univ fun c : Fin 64 => sLoc d L ↦[rowSet c]{fullShare} f := by
  rw [← pointsTo_biUnion Finset.univ (ℓ := sLoc d L) rowSet rows_disjoint, rows_cover]; try rfl

omit [FloatOps F] in
/-- The rows from k on are row k and the rows from k + 1 on. -/
theorem rows_take (Φ : Fin 64 → sProp 𝕄) (k : ℕ) (hk : k < 64) :
    bigSep (Finset.univ.filter fun j : Fin 64 => k ≤ j.val) Φ = iprop(Φ ⟨k, hk⟩ ∗ bigSep (Finset.univ.filter fun j : Fin 64 => k + 1 ≤ j.val) Φ) := by
  have e : (Finset.univ.filter fun j : Fin 64 => k ≤ j.val) = insert (⟨k, hk⟩ : Fin 64) (Finset.univ.filter fun j : Fin 64 => k + 1 ≤ j.val) := by
    ext j; simp only [Finset.mem_filter, Finset.mem_univ, true_and, Finset.mem_insert, Fin.ext_iff]; omega
  rw [e, bigSep_insert (by simp)]; rfl
omit [FloatOps F] in
/-- The rows before k + 1 are row k and the rows before k. -/
theorem rows_put (Φ : Fin 64 → sProp 𝕄) (k : ℕ) (hk : k < 64) :
    bigSep (Finset.univ.filter fun j : Fin 64 => j.val < k + 1) Φ = iprop(Φ ⟨k, hk⟩ ∗ bigSep (Finset.univ.filter fun j : Fin 64 => j.val < k) Φ) := by
  have e : (Finset.univ.filter fun j : Fin 64 => j.val < k + 1) = insert (⟨k, hk⟩ : Fin 64) (Finset.univ.filter fun j : Fin 64 => j.val < k) := by
    ext j; simp only [Finset.mem_filter, Finset.mem_univ, true_and, Finset.mem_insert, Fin.ext_iff]; omega
  rw [e, bigSep_insert (by simp)]; rfl

/-- One trip's resources for slot 0: the gathered rows and the positional rows at their contents, the sum slot at any. -/
def TripRes0 (d : Dev nD) (L : grid0.Coords) (X : BufTy.Contents (Elt F) (ibS0).view.ty) (P : BufTy.Contents (Elt F) (qV).view.ty) (f : BufTy.Contents (Elt F) (obS0).view.ty) : sProp 𝕄 :=
  iprop(((ibS0).view.loc (V d (cV L) (jV L)) ↦[(ibS0).view.set]{fullShare} X)
    ∗ ((qV).view.loc (V d (cV L) (jV L)) ↦[(qV).view.set]{fullShare} P)
    ∗ ((obS0).view.loc (V d (cV L) (jV L)) ↦[(obS0).view.set]{fullShare} f))

/-- One trip's resources for slot 1: the gathered rows and the positional rows at their contents, the sum slot at any. -/
def TripRes1 (d : Dev nD) (L : grid0.Coords) (X : BufTy.Contents (Elt F) (ibS1).view.ty) (P : BufTy.Contents (Elt F) (qV).view.ty) (f : BufTy.Contents (Elt F) (obS1).view.ty) : sProp 𝕄 :=
  iprop(((ibS1).view.loc (V d (cV L) (jV L)) ↦[(ibS1).view.set]{fullShare} X)
    ∗ ((qV).view.loc (V d (cV L) (jV L)) ↦[(qV).view.set]{fullShare} P)
    ∗ ((obS1).view.loc (V d (cV L) (jV L)) ↦[(obS1).view.set]{fullShare} f))

end Tile

end Cert.Proof.KB
end
-- ==== Proof.TileOwnB.lean ====
-- The same text as TileOwn.lean, read at the printed kernel's own namespace: Cert.Kernel for Cert.KernelIdeal throughout.
/-
  More of a tile's resources: its block of index rows and its block of the result as its body addresses them, that
  every word the index fetch lands names a row of the table when every word of the index array does, and the tile's
  own semaphores and scratch buffers among those of its thread.
-/
import proofs.«208673_g37134287241914_cont_8to1_b_302_3_alg».proof.Proof.CommonB
import proofs.«208673_g37134287241914_cont_8to1_b_302_3_alg».proof.Proof.TileResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)

/-! ## The tile's block of index rows, its block of the result, and what the index fetch lands -/

abbrev xrowK (L : grid0.Coords) : Rect S2048x128 := Rect.unit (s := S2048x128) (k0_off1 L) S64x128.size (k0_off1_inb L)
abbrev xRowK (L : grid0.Coords) : Memref sig .scVector .hbm S64x128 .i32 := (xV).slice (xrowK L) (fun _ => rfl)

omit [FloatOps F] in
theorem oTR_inb (L : grid0.Coords) : ∀ a, (![16384 * (L 1).val + 8192 * (L 0).val, 0] : Fin 2 → ℕ) a + (![8192, 128] : Fin 2 → ℕ) a ≤ S262144x128.size a := by
  have h1 : (L 1).val < 16 := (L 1).isLt
  have h0 : (L 0).val < 2 := (L 0).isLt
  intro a
  match a with
  | 0 => show 16384 * (L 1).val + 8192 * (L 0).val + 8192 ≤ 262144; omega
  | 1 => show 0 + 128 ≤ 128; omega

/-- The tile's block of the result: rows 8192 (2 s + c) and the 8191 after. -/
abbrev oTR (L : grid0.Coords) : Rect S262144x128 := Rect.unit (s := S262144x128) ![16384 * (L 1).val + 8192 * (L 0).val, 0] ![8192, 128] (oTR_inb L)

omit [FloatOps F] in
/-- Every word of every row of the index scratch, once the tile's block of index rows has landed in it, names a row of the table. -/
theorem inb_row (X2 : Buf (Elt F) ((xV).view.loc (V d (cV L) (jV L)))) (hX : ∀ j, (X2 j).toNat < 100000)
    (fs : Buf (Elt F) ((sV).view.loc (V d (cV L) (jV L)))) (pay : S64x128.Idx → Elt F .i32)
    (hpay : pay = (xRowK L).view.read (Elt F) X2) (c : Fin 64) :
    ∀ x, ((idxRowM c).view.read (Elt F) (View.write (Elt F) (sV).view fs pay Finset.univ) x).toNat < 100000 := by
  subst hpay; intro x
  simp only [Memref.view_whole, View.write_whole_univ]
  rw [show ∀ (g : S64x128.Idx → Elt F .i32) j, (idxRowM c).view.read (Elt F) g j = g ((idxRowM c).view.emb j) from fun g j => (View.read_apply _ _).trans (cast_eq _ _)]
  rw [show ∀ j, (xRowK L).view.read (Elt F) X2 j = X2 ((xRowK L).view.emb j) from fun j => (View.read_apply _ _).trans (cast_eq _ _)]
  exact hX _

omit [FloatOps F] in
theorem cell_ne (thr : Thread nD τ) {s t : DmaSem sig} (h : s ≠ t) : ((thr, SemLoc.dma s) : GSem nD τ sig) ≠ (thr, SemLoc.dma t) :=
  fun e => h (by injection e with _ e2; injection e2)

omit [FloatOps F] in
theorem ownSems0_V :
    (ownSems0 (V d (cV L) (jV L)) : sProp 𝕄)
      = iprop(semVal (((V d (cV L) (jV L)), SemLoc.dma cc0_scratch4.sem) : GSem nD τ sig) 0 ∗ semVal (((V d (cV L) (jV L)), SemLoc.dma cc0_scratch5.sem) : GSem nD τ sig) 0 ∗ semVal (((V d (cV L) (jV L)), SemLoc.dma cc0_scratch6.sem) : GSem nD τ sig) 0 ∗ semVal (((V d (cV L) (jV L)), SemLoc.dma cc0_scratch7.sem) : GSem nD τ sig) 0 ∗ semVal (((V d (cV L) (jV L)), SemLoc.dma cc0_scoped0.sem) : GSem nD τ sig) 0 ∗ semVal (((V d (cV L) (jV L)), SemLoc.dma cc0_scoped1.sem) : GSem nD τ sig) 0
          ∗ bigSep (((((((ownCells (V d (cV L) (jV L))).erase ((V d (cV L) (jV L)), SemLoc.dma cc0_scratch4.sem)).erase ((V d (cV L) (jV L)), SemLoc.dma cc0_scratch5.sem)).erase ((V d (cV L) (jV L)), SemLoc.dma cc0_scratch6.sem)).erase ((V d (cV L) (jV L)), SemLoc.dma cc0_scratch7.sem)).erase ((V d (cV L) (jV L)), SemLoc.dma cc0_scoped0.sem)).erase ((V d (cV L) (jV L)), SemLoc.dma cc0_scoped1.sem)) fun g => semVal g 0) := by
  unfold SparseCore.Cfg.ownSems0
  rw [SparseCore.bigSep_erase' ((mem_ownCells (g := (((V d (cV L) (jV L)), SemLoc.dma cc0_scratch4.sem) : GSem nD τ sig))).mpr ⟨rfl, by show (SemLoc.dma cc0_scratch4.sem : SemLoc sig).isScoped .scVector = true; decide⟩),
    SparseCore.bigSep_erase' (Finset.mem_erase.mpr ⟨cell_ne _ (by decide), (mem_ownCells (g := (((V d (cV L) (jV L)), SemLoc.dma cc0_scratch5.sem) : GSem nD τ sig))).mpr ⟨rfl, by show (SemLoc.dma cc0_scratch5.sem : SemLoc sig).isScoped .scVector = true; decide⟩⟩),
    SparseCore.bigSep_erase' (Finset.mem_erase.mpr ⟨cell_ne _ (by decide), Finset.mem_erase.mpr ⟨cell_ne _ (by decide), (mem_ownCells (g := (((V d (cV L) (jV L)), SemLoc.dma cc0_scratch6.sem) : GSem nD τ sig))).mpr ⟨rfl, by show (SemLoc.dma cc0_scratch6.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := (((V d (cV L) (jV L)), SemLoc.dma cc0_scratch7.sem) : GSem nD τ sig))).mpr ⟨rfl, by show (SemLoc.dma cc0_scratch7.sem : SemLoc sig).isScoped .scVector = true; decide⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (((V d (cV L) (jV L)), SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne _ (by decide), Finset.mem_erase.mpr ⟨cell_ne _ (by decide), Finset.mem_erase.mpr ⟨cell_ne _ (by decide), Finset.mem_erase.mpr ⟨cell_ne _ (by decide), Finset.mem_erase.mpr ⟨cell_ne _ (by decide), (mem_ownCells (g := (((V d (cV L) (jV L)), SemLoc.dma cc0_scoped1.sem) : GSem nD τ sig))).mpr ⟨rfl, by show (SemLoc.dma cc0_scoped1.sem : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩)]

end Tile
end Cert.Proof.KB
end
-- ==== Proof.TileSlotsB.lean ====
-- The same text as TileSlots.lean, read at the printed kernel's own namespace: Cert.Kernel for Cert.KernelIdeal throughout.
/-
  The gathered-rows scratch and the sum scratch are each two slots of 128 rows; held whole, a scratch is its two
  slots held apart, each by exactly its own elements as the body's slices of it address them.
-/
import proofs.«208673_g37134287241914_cont_8to1_b_302_3_alg».proof.Proof.CommonB
import proofs.«208673_g37134287241914_cont_8to1_b_302_3_alg».proof.Proof.TileOwnB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)

theorem sdiv2 : 2 ∣ S2x128x128.size 0 := ⟨1, rfl⟩
abbrev slotPart (s : Fin 2) : Rect S2x128x128 := Rect.part (s := S2x128x128) (a₀ := 0) sdiv2 s

omit [FloatOps F] in
theorem slotRect0_eq : Rect.unit (s := S2x128x128) ![0, 0, 0] S1x128x128.size inb_S2x128x128_S1x128x128_0_0_0 = slotPart 0 := by
  unfold slotPart Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem slotRect1_eq : Rect.unit (s := S2x128x128) ![1, 0, 0] S1x128x128.size inb_S2x128x128_S1x128x128_1_0_0 = slotPart 1 := by
  unfold slotPart Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-! ### The two slots of the gathered-rows scratch -/

omit [FloatOps F] in
theorem ibS0_set : (ibS0).view.set = (slotPart 0).set := by
  have h1 : (ibS0).view.set = ((iB).view.slice (slotPart 0)).set := by
    show (((iB).view.slice (Rect.unit (s := S2x128x128) ![0, 0, 0] S1x128x128.size inb_S2x128x128_S1x128x128_0_0_0)).reshape S128x128 squeezes_S1x128x128_S128x128.numel_eq).set = ((iB).view.slice (slotPart 0)).set
    rw [View.set_reshape]
    exact slotRect0_eq ▸ rfl
  rw [h1]
  show ((View.whole (cc0_scratch2 : Ref sig .scVector)).slice (slotPart 0)).set = _
  rw [View.set_slice]; exact Finset.map_refl
omit [FloatOps F] in
theorem ibS1_set : (ibS1).view.set = (slotPart 1).set := by
  have h1 : (ibS1).view.set = ((iB).view.slice (slotPart 1)).set := by
    show (((iB).view.slice (Rect.unit (s := S2x128x128) ![1, 0, 0] S1x128x128.size inb_S2x128x128_S1x128x128_1_0_0)).reshape S128x128 squeezes_S1x128x128_S128x128.numel_eq).set = ((iB).view.slice (slotPart 1)).set
    rw [View.set_reshape]
    exact slotRect1_eq ▸ rfl
  rw [h1]
  show ((View.whole (cc0_scratch2 : Ref sig .scVector)).slice (slotPart 1)).set = _
  rw [View.set_slice]; exact Finset.map_refl

omit [FloatOps F] in
/-- The scratch whole is its two slots. -/
theorem iB_slots (f : Buf (Elt F) ((iB).view.loc (V d (cV L) (jV L)))) :
    (((iB).view.loc (V d (cV L) (jV L)) ↦{fullShare} f) : sProp 𝕄)
      = iprop((((ibS0).view.loc (V d (cV L) (jV L)) ↦[(ibS0).view.set]{fullShare} f))
          ∗ ((ibS1).view.loc (V d (cV L) (jV L)) ↦[(ibS1).view.set]{fullShare} f)) := by
  rw [ibS0_set, ibS1_set]
  have e : (Finset.univ : Finset (Fin 2)).biUnion (fun s => (slotPart s).set) = Finset.univ := Rect.biUnion_part sdiv2
  have h : (((iB).view.loc (V d (cV L) (jV L)) ↦[(Finset.univ : Finset (Fin 2)).biUnion fun s => (slotPart s).set]{fullShare} f) : sProp 𝕄)
      = bigSep Finset.univ fun s : Fin 2 => ((iB).view.loc (V d (cV L) (jV L)) ↦[(slotPart s).set]{fullShare} f) :=
    pointsTo_biUnion Finset.univ (ℓ := (iB).view.loc (V d (cV L) (jV L))) (fun s => (slotPart s).set) (fun i _ j _ hij => Rect.part_disjoint sdiv2 hij)
  rw [e] at h
  refine h.trans ?_
  rw [show (Finset.univ : Finset (Fin 2)) = {0, 1} from by decide, bigSep_insert (by decide), bigSep_singleton]
  rfl

/-! ### The two slots of the sum scratch -/

omit [FloatOps F] in
theorem obS0_set : (obS0).view.set = (slotPart 0).set := by
  have h1 : (obS0).view.set = ((oB).view.slice (slotPart 0)).set := by
    show (((oB).view.slice (Rect.unit (s := S2x128x128) ![0, 0, 0] S1x128x128.size inb_S2x128x128_S1x128x128_0_0_0)).reshape S128x128 squeezes_S1x128x128_S128x128.numel_eq).set = ((oB).view.slice (slotPart 0)).set
    rw [View.set_reshape]
    exact slotRect0_eq ▸ rfl
  rw [h1]
  show ((View.whole (cc0_scratch3 : Ref sig .scVector)).slice (slotPart 0)).set = _
  rw [View.set_slice]; exact Finset.map_refl
omit [FloatOps F] in
theorem obS1_set : (obS1).view.set = (slotPart 1).set := by
  have h1 : (obS1).view.set = ((oB).view.slice (slotPart 1)).set := by
    show (((oB).view.slice (Rect.unit (s := S2x128x128) ![1, 0, 0] S1x128x128.size inb_S2x128x128_S1x128x128_1_0_0)).reshape S128x128 squeezes_S1x128x128_S128x128.numel_eq).set = ((oB).view.slice (slotPart 1)).set
    rw [View.set_reshape]
    exact slotRect1_eq ▸ rfl
  rw [h1]
  show ((View.whole (cc0_scratch3 : Ref sig .scVector)).slice (slotPart 1)).set = _
  rw [View.set_slice]; exact Finset.map_refl

omit [FloatOps F] in
/-- The scratch whole is its two slots. -/
theorem oB_slots (f : Buf (Elt F) ((oB).view.loc (V d (cV L) (jV L)))) :
    (((oB).view.loc (V d (cV L) (jV L)) ↦{fullShare} f) : sProp 𝕄)
      = iprop((((obS0).view.loc (V d (cV L) (jV L)) ↦[(obS0).view.set]{fullShare} f))
          ∗ ((obS1).view.loc (V d (cV L) (jV L)) ↦[(obS1).view.set]{fullShare} f)) := by
  rw [obS0_set, obS1_set]
  have e : (Finset.univ : Finset (Fin 2)).biUnion (fun s => (slotPart s).set) = Finset.univ := Rect.biUnion_part sdiv2
  have h : (((oB).view.loc (V d (cV L) (jV L)) ↦[(Finset.univ : Finset (Fin 2)).biUnion fun s => (slotPart s).set]{fullShare} f) : sProp 𝕄)
      = bigSep Finset.univ fun s : Fin 2 => ((oB).view.loc (V d (cV L) (jV L)) ↦[(slotPart s).set]{fullShare} f) :=
    pointsTo_biUnion Finset.univ (ℓ := (oB).view.loc (V d (cV L) (jV L))) (fun s => (slotPart s).set) (fun i _ j _ hij => Rect.part_disjoint sdiv2 hij)
  rw [e] at h
  refine h.trans ?_
  rw [show (Finset.univ : Finset (Fin 2)) = {0, 1} from by decide, bigSep_insert (by decide), bigSep_singleton]
  rfl

end Tile
end Cert.Proof.KB
end
-- ==== Proof.TileJoinB.lean ====
-- The same text as TileJoin.lean, read at the printed kernel's own namespace: Cert.Kernel for Cert.KernelIdeal throughout.
/-
  The two slots of a scratch, held apart at whatever the body left in them, are the scratch whole again.
-/
import proofs.«208673_g37134287241914_cont_8to1_b_302_3_alg».proof.Proof.CommonB
import proofs.«208673_g37134287241914_cont_8to1_b_302_3_alg».proof.Proof.TileSlotsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)

omit [FloatOps F] in
/-- The two slots held apart, at any contents, are the scratch whole at some contents. -/
theorem iB_join (f0 : Buf (Elt F) ((ibS0).view.loc (V d (cV L) (jV L)))) (f1 : Buf (Elt F) ((ibS1).view.loc (V d (cV L) (jV L)))) :
    (iprop((((ibS0).view.loc (V d (cV L) (jV L)) ↦[(ibS0).view.set]{fullShare} f0))
        ∗ ((ibS1).view.loc (V d (cV L) (jV L)) ↦[(ibS1).view.set]{fullShare} f1)) : sProp 𝕄)
      ⊢ iprop(∃ f, ((iB).view.loc (V d (cV L) (jV L)) ↦{fullShare} f)) := by
  rw [ibS0_set, ibS1_set]
  have e : (bigSep (Finset.univ : Finset (Fin 2)) (fun s : Fin 2 => ((iB).view.loc (V d (cV L) (jV L)) ↦[(slotPart s).set]{fullShare} (if s = 0 then f0 else f1))) : sProp 𝕄)
      = iprop((((iB).view.loc (V d (cV L) (jV L)) ↦[(slotPart 0).set]{fullShare} f0)) ∗ ((iB).view.loc (V d (cV L) (jV L)) ↦[(slotPart 1).set]{fullShare} f1)) := by
    rw [show (Finset.univ : Finset (Fin 2)) = {0, 1} from by decide, bigSep_insert (by decide), bigSep_singleton]
    rfl
  iintro ⟨H0, H1⟩
  ihave H := (pointsTo_biUnion_join (ℓ := (iB).view.loc (V d (cV L) (jV L))) (q := fullShare) (Val := Elt F) (Finset.univ : Finset (Fin 2))
      (fun s => (slotPart s).set) (fun s : Fin 2 => if s = 0 then f0 else f1) f0 (fun i _ j _ hij => Rect.part_disjoint sdiv2 hij)) $$ [H0 H1]
  · rw [e]
    isplitl [H0]
    · iexact H0
    · iexact H1
  icases H with ⟨%g, -, Hg⟩
  rw [Rect.biUnion_part sdiv2]
  iexists g; iexact Hg

omit [FloatOps F] in
/-- The two slots held apart, at any contents, are the scratch whole at some contents. -/
theorem oB_join (f0 : Buf (Elt F) ((obS0).view.loc (V d (cV L) (jV L)))) (f1 : Buf (Elt F) ((obS1).view.loc (V d (cV L) (jV L)))) :
    (iprop((((obS0).view.loc (V d (cV L) (jV L)) ↦[(obS0).view.set]{fullShare} f0))
        ∗ ((obS1).view.loc (V d (cV L) (jV L)) ↦[(obS1).view.set]{fullShare} f1)) : sProp 𝕄)
      ⊢ iprop(∃ f, ((oB).view.loc (V d (cV L) (jV L)) ↦{fullShare} f)) := by
  rw [obS0_set, obS1_set]
  have e : (bigSep (Finset.univ : Finset (Fin 2)) (fun s : Fin 2 => ((oB).view.loc (V d (cV L) (jV L)) ↦[(slotPart s).set]{fullShare} (if s = 0 then f0 else f1))) : sProp 𝕄)
      = iprop((((oB).view.loc (V d (cV L) (jV L)) ↦[(slotPart 0).set]{fullShare} f0)) ∗ ((oB).view.loc (V d (cV L) (jV L)) ↦[(slotPart 1).set]{fullShare} f1)) := by
    rw [show (Finset.univ : Finset (Fin 2)) = {0, 1} from by decide, bigSep_insert (by decide), bigSep_singleton]
    rfl
  iintro ⟨H0, H1⟩
  ihave H := (pointsTo_biUnion_join (ℓ := (oB).view.loc (V d (cV L) (jV L))) (q := fullShare) (Val := Elt F) (Finset.univ : Finset (Fin 2))
      (fun s => (slotPart s).set) (fun s : Fin 2 => if s = 0 then f0 else f1) f0 (fun i _ j _ hij => Rect.part_disjoint sdiv2 hij)) $$ [H0 H1]
  · rw [e]
    isplitl [H0]
    · iexact H0
    · iexact H1
  icases H with ⟨%g, -, Hg⟩
  rw [Rect.biUnion_part sdiv2]
  iexists g; iexact Hg

end Tile
end Cert.Proof.KB
end
-- ==== Proof.TileBlocksB.lean ====
-- The same text as TileBlocks.lean, read at the printed kernel's own namespace: Cert.Kernel for Cert.KernelIdeal throughout.
/-
  The tile's block of the result is sixty-four windows of 128 rows, one per chunk, as the body's write-backs address
  them: the windows are pairwise disjoint and cover the block.
-/
import proofs.«208673_g37134287241914_cont_8to1_b_302_3_alg».proof.Proof.CommonB
import proofs.«208673_g37134287241914_cont_8to1_b_302_3_alg».proof.Proof.TileOwnB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)

/-- Chunk c's window of the result, as the write-back slices it. -/
abbrev blkRect (c : Fin 64) : Rect S262144x128 :=
  Rect.unit (s := S262144x128) (k0_off18 L (BitVec.ofNat 32 (128 * c.val))) S128x128.size (k0_off18_inb L c)
abbrev blkM (c : Fin 64) : Memref sig .scVector .hbm S128x128 .f32 := (oV).slice (blkRect L c) (fun _ => rfl)

omit [FloatOps F] in
theorem mem_blkRect (c : Fin 64) (y : S262144x128.Idx) :
    y ∈ (blkRect L c).set ↔ (16384 * (L 1).val + 8192 * (L 0).val + 128 * c.val ≤ (y 0).val ∧ (y 0).val < 16384 * (L 1).val + 8192 * (L 0).val + 128 * c.val + 128) := by
  rw [Rect.mem_set_unit, k0_off18_eq L c]
  constructor
  · intro h
    have h0 := h 0
    simpa using h0
  · intro h a
    match a with
    | 0 => simpa using h
    | 1 => exact ⟨Nat.zero_le _, by have := (y 1).isLt; simpa using this⟩

omit [FloatOps F] in
theorem mem_oTR (y : S262144x128.Idx) :
    y ∈ (oTR L).set ↔ (16384 * (L 1).val + 8192 * (L 0).val ≤ (y 0).val ∧ (y 0).val < 16384 * (L 1).val + 8192 * (L 0).val + 8192) := by
  rw [Rect.mem_set_unit]
  constructor
  · intro h
    have h0 := h 0
    simpa using h0
  · intro h a
    match a with
    | 0 => simpa using h
    | 1 => exact ⟨Nat.zero_le _, by have := (y 1).isLt; simpa using this⟩

omit [FloatOps F] in
theorem blk_disjoint : ∀ i ∈ (Finset.univ : Finset (Fin 64)), ∀ j ∈ (Finset.univ : Finset (Fin 64)), i ≠ j → Disjoint (blkRect L i).set (blkRect L j).set := by
  intro i _ j _ hij
  rw [Finset.disjoint_left]
  intro y hi hj
  rw [mem_blkRect] at hi hj
  have : i.val ≠ j.val := fun e => hij (Fin.ext e)
  omega

omit [FloatOps F] in
theorem blk_cover : (Finset.univ : Finset (Fin 64)).biUnion (fun c => (blkRect L c).set) = (oTR L).set := by
  ext y
  rw [Finset.mem_biUnion, mem_oTR]
  constructor
  · rintro ⟨c, _, hc⟩
    rw [mem_blkRect] at hc
    have := c.isLt
    omega
  · intro h
    refine ⟨⟨((y 0).val - (16384 * (L 1).val + 8192 * (L 0).val)) / 128, by omega⟩, Finset.mem_univ _, ?_⟩
    rw [mem_blkRect]
    show _ ≤ _ ∧ _ < _
    simp only
    omega

abbrev blkSet (c : Fin 64) : Finset S262144x128.Idx := (blkM L c).view.set

omit [FloatOps F] in
theorem blkSet_eq (c : Fin 64) : blkSet L c = (blkRect L c).set.map (oV).view.emb := by
  show ((oV).view.slice (blkRect L c)).set = _
  rw [View.set_slice]

omit [FloatOps F] in
/-- The tile's block of the result, held whole, is its sixty-four windows held apart. -/
theorem oPts_blocks (f : Buf (Elt F) ((oV).view.loc (V d (cV L) (jV L)))) :
    ((((oV).view.loc (V d (cV L) (jV L)) ↦[(oV).view.setOn (oTR L).set]{fullShare} f)) : sProp 𝕄)
      = bigSep Finset.univ fun c : Fin 64 => ((blkM L c).view.loc (V d (cV L) (jV L)) ↦[(blkM L c).view.set]{fullShare} f) := by
  have hd : ∀ i ∈ (Finset.univ : Finset (Fin 64)), ∀ j ∈ (Finset.univ : Finset (Fin 64)), i ≠ j → Disjoint (blkSet L i) (blkSet L j) := by
    intro i hi j hj hij
    rw [blkSet_eq, blkSet_eq]
    exact (Finset.disjoint_map _).mpr (blk_disjoint L i hi j hj hij)
  have hc : (Finset.univ : Finset (Fin 64)).biUnion (blkSet L) = (oV).view.setOn (oTR L).set := by
    show _ = (oTR L).set.map (oV).view.emb
    ext j
    simp only [Finset.mem_biUnion, Finset.mem_map, blkSet_eq, Finset.mem_univ, true_and]
    constructor
    · rintro ⟨c, y, hy, rfl⟩
      exact ⟨y, by rw [← blk_cover L]; exact Finset.mem_biUnion.mpr ⟨c, Finset.mem_univ _, hy⟩, rfl⟩
    · rintro ⟨y, hy, rfl⟩
      rw [← blk_cover L] at hy
      obtain ⟨c, _, hc⟩ := Finset.mem_biUnion.mp hy
      exact ⟨c, y, hc, rfl⟩
  rw [← hc, pointsTo_biUnion Finset.univ (ℓ := (oV).view.loc (V d (cV L) (jV L))) (blkSet L) hd]

end Tile
end Cert.Proof.KB
end
-- ==== Proof.TileEndB.lean ====
-- The same text as TileEnd.lean, read at the printed kernel's own namespace: Cert.Kernel for Cert.KernelIdeal throughout.
/-
  Small facts for the end of a tile's run: a family over no rows is empty; a wait recorded at the kernel's own index
  keeps the recorded waits within the allowed ones.
-/
import proofs.«208673_g37134287241914_cont_8to1_b_302_3_alg».proof.Proof.CommonB
import proofs.«208673_g37134287241914_cont_8to1_b_302_3_alg».proof.Proof.TileJoinB
import proofs.«208673_g37134287241914_cont_8to1_b_302_3_alg».proof.Proof.TileBlocksB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)

omit [FloatOps F] in
theorem rows_all (Φ : Fin 64 → sProp 𝕄) : bigSep Finset.univ Φ = bigSep (Finset.univ.filter fun j : Fin 64 => 0 ≤ j.val) Φ := by
  rw [Finset.filter_true_of_mem (fun j _ => Nat.zero_le _)]

omit [FloatOps F] in
theorem rows_none (Φ : Fin 64 → sProp 𝕄) : bigSep (Finset.univ.filter fun j : Fin 64 => 64 ≤ j.val) Φ = iprop(emp) := by
  rw [Finset.filter_false_of_mem (fun j _ => by have := j.isLt; omega), bigSep_empty]
  rfl

omit [FloatOps F] in
theorem qV_set (f : Buf (Elt F) ((qV).view.loc (V d (cV L) (jV L)))) :
    ((((qV).view.loc (V d (cV L) (jV L)) ↦{fullShare} f)) : sProp 𝕄) = ((qV).view.loc (V d (cV L) (jV L)) ↦[(qV).view.set]{fullShare} f) := by
  rw [View.set_whole]

omit [FloatOps F] in
/-- One more wait at the kernel's own index. -/
theorem ins_ok {W S : Waits sig (HIx 1)} (x : SemLoc sig) (h : ∀ p ∈ S, p ∈ W ∨ p.2 = none) :
    ∀ p ∈ insert (x, (default : HIx 1)) S, p ∈ W ∨ p.2 = none := by
  intro p hp
  rcases Finset.mem_insert.mp hp with hp | hp
  · exact .inr (hp ▸ rfl)
  · exact h p hp

end Tile
end Cert.Proof.KB
end
-- ==== Proof.GatherValB.lean ====
-- The same text as GatherVal.lean, read at the printed kernel's own namespace: Cert.Kernel for Cert.KernelIdeal throughout.
/-
  What one gather lands. The index scratch holds the tile's block of index rows; its row c, read as a list of 128 words,
  names 128 rows of the table, and the gather lands row r of its slot with the table row that word r of the list names.
  Word r of row c of the scratch is word r of row 128 s + 64 c' + c of the index array, for the tile on SparseCore c',
  subcore s: the payload at (r, lane) is the table at (that word, lane). The same row in the result array's numbering:
  result row n = 8192 (2 s + c') + 128 c + r reads word n of the index array, which lies at row 64 (2 s + c') + c,
  column r, and adds row n mod 256 = 128 (c mod 2) + r of the positional array.
-/
import proofs.«208673_g37134287241914_cont_8to1_b_302_3_alg».proof.Proof.TileOwnB
import Idealize.ShloMosaic.Lib.SparseCore.Stream
import Idealize.ShloMosaic.Lib.ValueIdx
import proofs.«208673_g37134287241914_cont_8to1_b_302_3_alg».proof.Proof.OutValB

noncomputable section

namespace Cert.Proof.KB

open Cert.Kernel Cert.Kernel.Gen

open Idealize.ShloMosaic Idealize.ShloMosaic.ValueIdx
open Idealize.ShloMosaic.SparseCore (S V T)

variable {F : FTy → Type}

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

/-- The whole table, as the body slices it. -/
abbrev tabAll : Memref sig .scVector .hbm S100000x128 .f32 :=
  (tV).slice (Rect.unit (s := S100000x128) ![0, 0] S100000x128.size inb_S100000x128_S100000x128_0_0) (fun _ => rfl)

/-! ## Where the three views put an index -/

/-- The table sliced whole is the table. -/
theorem tabAll_emb (j : S100000x128.Idx) : (tabAll).view.emb j = j := by
  funext a; apply Fin.ext
  show (![0, 0] : Fin 2 → ℕ) a + 1 * (j a).val = (j a).val
  match a with
  | ⟨0, _⟩ => show 0 + 1 * (j 0).val = (j 0).val; omega
  | ⟨1, _⟩ => show 0 + 1 * (j 1).val = (j 1).val; omega

/-- Entry k of a list of 128 words in row-major order is its word k. -/
theorem rowMajor_symm_S128 (k : Fin S128.numel) : ((S128.rowMajor.symm k) 0).val = k.val := by
  rw [← Shape.rowMajor_val_one (S128.rowMajor.symm k), Equiv.apply_symm_apply]

/-- Word y of row c of the index scratch is its word (c, y). -/
theorem idxRowM_emb (c : Fin 64) (y : S128.Idx) : (idxRowM c).view.emb y = (ix2 c (y 0) : S64x128.Idx) := by
  show (idxRect c).emb (Shape.reshapeEquiv squeezes_S1x128_S128.numel_eq y) = _
  rw [Shape.reshapeEquiv_eq_of_rowMajor squeezes_S1x128_S128.numel_eq (y := (ix2 (0 : Fin 1) (y 0) : S1x128.Idx))
    (by rw [Shape.rowMajor_val_two, Shape.rowMajor_val_one]; show 0 * 128 + (y 0).val = (y 0).val; omega)]
  funext a; apply Fin.ext
  match a with
  | ⟨0, _⟩ => show c.val + 1 * 0 = c.val; omega
  | ⟨1, _⟩ => show 0 + 1 * (y 0).val = (y 0).val; omega

section Tile

variable (L : grid0.Coords)

theorem L0_lt : (L 0).val < 2 := (L 0).isLt
theorem L1_lt : (L 1).val < 16 := (L 1).isLt

/-- Row c of the tile's block of index rows, as a row of the index array. -/
abbrev xIdxRow (c : Fin 64) : Fin 2048 :=
  ⟨128 * (L 1).val + 64 * (L 0).val + c.val, by have := L0_lt L; have := L1_lt L; have := c.isLt; omega⟩

/-- Word z of the tile's block of index rows is word (128 s + 64 c' + z 0, z 1) of the index array. -/
theorem xRowK_emb (z : S64x128.Idx) : (xRowK L).view.emb z = (ix2 (xIdxRow L (z 0)) (z 1) : S2048x128.Idx) := by
  funext a; apply Fin.ext
  show (k0_off1 L) a + 1 * (z a).val = _
  rw [k0_off1_eq]
  match a with
  | ⟨0, _⟩ => show 128 * (L 1).val + 64 * (L 0).val + 1 * (z 0).val = 128 * (L 1).val + 64 * (L 0).val + (z 0).val; omega
  | ⟨1, _⟩ => show 0 + 1 * (z 1).val = (z 1).val; omega

/-! ## The payload -/

/-- Row r, lane col of what the gather for row c of the index scratch lands: the table at the row that word r of row c
    of the tile's index block names, lane col. -/
theorem gather_val (c : Fin 64) (X2 : S2048x128.Idx → Elt F .i32) (hX : ∀ j, (X2 j).toNat < 100000)
    (TB : S100000x128.Idx → Elt F .f32) (fs : S64x128.Idx → Elt F .i32) (pay : S64x128.Idx → Elt F .i32)
    (hpay : pay = (xRowK L).view.read (Elt F) X2)
    (hn : S128.numel = S128x128.size gathers_S100000x128_S128x128.axis')
    (hin : ∀ x, ((idxRowM c).view.read (Elt F) (View.write (Elt F) (sV).view fs pay Finset.univ) x).toNat
      < S100000x128.size gathers_S100000x128_S128x128.axis)
    (r col : Fin 128) :
    SparseCore.gatherPayload gathers_S100000x128_S128x128 ((tabAll).view.read (Elt F) TB)
        (SparseCore.rows ((idxRowM c).view.read (Elt F) (View.write (Elt F) (sV).view fs pay Finset.univ)) hn hin)
        (ix2 r col : S128x128.Idx)
      = TB (ix2 (⟨(X2 (ix2 (xIdxRow L c) r)).toNat, hX _⟩ : Fin 100000) col) := by
  subst hpay
  unfold SparseCore.gatherPayload
  rw [show ∀ j, (tabAll).view.read (Elt F) TB j = TB ((tabAll).view.emb j) from fun j => (View.read_apply _ _).trans (cast_eq _ _),
    tabAll_emb]
  refine congrArg TB (funext fun b => Fin.ext ?_)
  match b with
  | ⟨0, _⟩ =>
    show ((gathers_S100000x128_S128x128.idx _ (ix2 r col : S128x128.Idx)) gathers_S100000x128_S128x128.axis).val = _
    rw [Shape.Gathers.idx_axis]
    show ((idxRowM c).view.read (Elt F) (View.write (Elt F) (sV).view fs ((xRowK L).view.read (Elt F) X2) Finset.univ)
        (S128.rowMajor.symm ((r : Fin (S128x128.size gathers_S100000x128_S128x128.axis')).cast hn.symm))).toNat = (X2 (ix2 (xIdxRow L c) r)).toNat
    simp only [Memref.view_whole, View.write_whole_univ]
    rw [show ∀ (g : S64x128.Idx → Elt F .i32) j, (idxRowM c).view.read (Elt F) g j = g ((idxRowM c).view.emb j) from fun g j => (View.read_apply _ _).trans (cast_eq _ _),
      show ∀ j, (xRowK L).view.read (Elt F) X2 j = X2 ((xRowK L).view.emb j) from fun j => (View.read_apply _ _).trans (cast_eq _ _),
      idxRowM_emb, xRowK_emb]
    refine congrArg (fun j => (X2 j).toNat) ?_
    refine congrArg (fun k => (ix2 (xIdxRow L c) k : S2048x128.Idx)) (Fin.ext ?_)
    exact rowMajor_symm_S128 _
  | ⟨1, _⟩ =>
    rw [Shape.Gathers.idx_of_ne gathers_S100000x128_S128x128 _ _ (⟨1, by decide⟩ : Fin S100000x128.rank) (by decide)]
    rfl

end Tile

/-! ## The same row in the result array's numbering -/

section Numbering

variable (L : grid0.Coords) (c : Fin 64) (r : Fin 128)

/-- Result row 8192 (2 s + c') + 128 c + r. -/
abbrev outRowN : Fin 262144 :=
  ⟨8192 * (2 * (L 1).val + (L 0).val) + 128 * c.val + r.val, by have := L0_lt L; have := L1_lt L; have := c.isLt; have := r.isLt; omega⟩

/-- It reads the index array at row 64 (2 s + c') + c, which is row c of the tile's block, -/
theorem outRowN_div : (outRowN L c r).val / 128 = (xIdxRow L c).val := by
  show (8192 * (2 * (L 1).val + (L 0).val) + 128 * c.val + r.val) / 128 = 128 * (L 1).val + 64 * (L 0).val + c.val
  have := r.isLt; omega
/-- column r, -/
theorem outRowN_mod : (outRowN L c r).val % 128 = r.val := by
  show (8192 * (2 * (L 1).val + (L 0).val) + 128 * c.val + r.val) % 128 = r.val
  have := r.isLt; omega
/-- and row 128 (c mod 2) + r of the positional array. -/
theorem outRowN_mod256 : (outRowN L c r).val % 256 = 128 * (c.val % 2) + r.val := by
  show (8192 * (2 * (L 1).val + (L 0).val) + 128 * c.val + r.val) % 256 = 128 * (c.val % 2) + r.val
  have := r.isLt; omega

/-- The positional row of result row n, as a row number. -/
abbrev posRowN : Fin 256 := ⟨128 * (c.val % 2) + r.val, by have := r.isLt; omega⟩

/-- The same three facts in the result function's own spelling. -/
theorem xRow_outRowN : xRow (outRowN L c r) = xIdxRow L c := Fin.ext (outRowN_div L c r)
theorem xCol_outRowN : xCol (outRowN L c r) = r := Fin.ext (outRowN_mod L c r)
theorem pRow_outRowN : pRow (outRowN L c r) = posRowN c r := Fin.ext (outRowN_mod256 L c r)

end Numbering

end Cert.Proof.KB

end
-- ==== Proof.ChunkValB.lean ====
-- The same text as ChunkVal.lean, read at the printed kernel's own namespace: Cert.Kernel for Cert.KernelIdeal throughout.
/-
  The value of one chunk. The positional scratch, written whole with the positional array, reads that array. A slot
  written whole reads its newest whole piece, whatever was written before. A window of the result written whole with
  the chunk's sums holds the result function on the window: window c of the tile on SparseCore c', subcore s starts at
  result row 16384 s + 8192 c' + 128 c = 8192 (2 s + c') + 128 c. And the chunk's sums are the result function: row r of
  chunk c is the gathered row, which is the table row that word r of row c of the tile's index block names, plus row
  128 (c mod 2) + r of the positional array, which is row n mod 256 for result row n = 8192 (2 s + c') + 128 c + r.
-/
import proofs.«208673_g37134287241914_cont_8to1_b_302_3_alg».proof.Proof.GatherValB
import proofs.«208673_g37134287241914_cont_8to1_b_302_3_alg».proof.Proof.TileBlocksB
import proofs.«208673_g37134287241914_cont_8to1_b_302_3_alg».proof.Proof.OutValB

noncomputable section

namespace Cert.Proof.KB

open Cert.Kernel Cert.Kernel.Gen

open Idealize.ShloMosaic Idealize.ShloMosaic.ValueIdx
open Idealize.ShloMosaic.SparseCore (S V T)

variable {F : FTy → Type} [FloatOps F]

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

/-! ## The positional scratch -/

/-- The positional scratch, written whole with what the positional array holds, reads the positional array. -/
theorem posScratch_read (fq : S256x128.Idx → Elt F .f32) (PS : S256x128.Idx → Elt F .f32) (pay : S256x128.Idx → Elt F .f32)
    (hpay : pay = (pV).view.read (Elt F) PS) (p : Fin 256) (col : Fin 128) :
    (qV).view.read (Elt F) (View.write (Elt F) (qV).view fq pay Finset.univ) (ix2 p col : S256x128.Idx) = PS (ix2 p col) := by
  subst hpay
  simp only [Memref.view_whole, View.write_whole_univ, View.read_whole]

/-! ## A slot written whole -/

/-- A buffer whose newest write is of the whole shape reads that write's payload, whatever the earlier writes and the
    prior contents were. -/
theorem read_writes_whole {sig' : RefSig} {κ : Kind} {sp : Space} (v : View sig' κ sp S128x128 .f32) (f : v.ty.Contents (Elt F))
    (w : S128x128.Idx → Elt F .f32) (rest : List (View.Piece (Elt F) S128x128 .f32)) (y : S128x128.Idx) :
    v.read (Elt F) (v.writes (Elt F) f (⟨Rect.whole S128x128, w⟩ :: rest)) y = w y := by
  have h := View.read_writes_cons_emb v f (Rect.whole S128x128) w rest y
  rwa [Rect.emb_whole_apply] at h

/-! ## A window of the result written whole -/

section Window

variable (L : grid0.Coords) (c : Fin 64)

/-- Entry y of window c of the tile's block of the result is entry (8192 (2 s + c') + 128 c + y 0, y 1) of the result. -/
theorem blkM_emb (y : S128x128.Idx) : (blkM L c).view.emb y = (ix2 (outRowN L c (y 0)) (y 1) : S262144x128.Idx) := by
  funext a; apply Fin.ext
  show (k0_off18 L (BitVec.ofNat 32 (128 * c.val))) a + 1 * (y a).val = _
  rw [k0_off18_eq L c]
  match a with
  | ⟨0, _⟩ =>
    show 16384 * (L 1).val + 8192 * (L 0).val + 128 * c.val + 1 * (y 0).val = 8192 * (2 * (L 1).val + (L 0).val) + 128 * c.val + (y 0).val
    omega
  | ⟨1, _⟩ => show 0 + 1 * (y 1).val = (y 1).val; omega

variable (X2 : S2048x128.Idx → Elt F .i32) (PS : S256x128.Idx → Elt F .f32) (TB : S100000x128.Idx → Elt F .f32)
  (hX : ∀ j, (X2 j).toNat < 100000)

/-- The window written whole, in one unmasked write, with the chunk's sums holds the result function on the window. -/
theorem window_write (O0 : S262144x128.Idx → Elt F .f32) (put : S128x128.Idx → Elt F .f32)
    (hput : ∀ r col : Fin 128, put (ix2 r col) = outG X2 PS TB hX (ix2 (outRowN L c r) col)) :
    ∀ j ∈ (blkM L c).view.set, (View.write (Elt F) (blkM L c).view O0 put Finset.univ) j = outG X2 PS TB hX j := by
  intro j hj
  obtain ⟨y, -, rfl⟩ := Finset.mem_map.mp hj
  show (View.write (Elt F) (blkM L c).view O0 put Finset.univ) ((blkM L c).view.emb y) = _
  rw [View.write_emb_of_mem _ _ (Finset.mem_univ y), blkM_emb, eq_ix2 y]
  exact (cast_eq _ _).trans (hput (y 0) (y 1))

/-- The same as a one-piece list of writes. -/
theorem window_writes (O0 : S262144x128.Idx → Elt F .f32) (put : S128x128.Idx → Elt F .f32)
    (hput : ∀ r col : Fin 128, put (ix2 r col) = outG X2 PS TB hX (ix2 (outRowN L c r) col)) :
    ∀ j ∈ (blkM L c).view.set, ((blkM L c).view.writes (Elt F) O0 [⟨Rect.whole S128x128, put⟩]) j = outG X2 PS TB hX j := by
  intro j hj
  obtain ⟨y, -, rfl⟩ := Finset.mem_map.mp hj
  have e : (blkM L c).view.emb y = ((blkM L c).view.slice (Rect.whole S128x128)).emb y := by
    show _ = (blkM L c).view.emb ((Rect.whole S128x128).emb y)
    rw [Rect.emb_whole_apply]
  show ((blkM L c).view.writes (Elt F) O0 [⟨Rect.whole S128x128, put⟩]) ((blkM L c).view.emb y) = _
  rw [View.writes_singleton, e, View.write_emb_of_mem _ _ (Finset.mem_univ y), ← e, blkM_emb, eq_ix2 y]
  exact (cast_eq _ _).trans (hput (y 0) (y 1))

/-! ## The chunk's sums are the result function -/

/-- Row r, lane col of chunk c: the gathered rows' entry, read from a slot whose newest write is the gather's whole
    payload, plus the positional scratch's entry 128 (c mod 2) rows further down, is the result function at result row
    8192 (2 s + c') + 128 c + r, lane col. -/
theorem chunk_sum {sig' : RefSig} {κ : Kind} {sp : Space} (vX : View sig' κ sp S128x128 .f32)
    (fs pay : S64x128.Idx → Elt F .i32) (hpay : pay = (xRowK L).view.read (Elt F) X2)
    (hn : S128.numel = S128x128.size gathers_S100000x128_S128x128.axis')
    (hin : ∀ x, ((idxRowM c).view.read (Elt F) (View.write (Elt F) (sV).view fs pay Finset.univ) x).toNat
      < S100000x128.size gathers_S100000x128_S128x128.axis)
    (junk : vX.ty.Contents (Elt F)) (rest : List (View.Piece (Elt F) S128x128 .f32))
    (fq payP : S256x128.Idx → Elt F .f32) (hpayP : payP = (pV).view.read (Elt F) PS)
    (prow0 : ℕ) (hp0 : prow0 = 128 * (c.val % 2)) (r col : Fin 128) (hrow : r.val + prow0 < 256) :
    FloatOps.addf
        (vX.read (Elt F) (vX.writes (Elt F) junk
          (⟨Rect.whole S128x128, SparseCore.gatherPayload gathers_S100000x128_S128x128 ((tabAll).view.read (Elt F) TB)
            (SparseCore.rows ((idxRowM c).view.read (Elt F) (View.write (Elt F) (sV).view fs pay Finset.univ)) hn hin)⟩ :: rest))
          (ix2 r col : S128x128.Idx))
        ((qV).view.read (Elt F) (View.write (Elt F) (qV).view fq payP Finset.univ) (ix2 (⟨r.val + prow0, hrow⟩ : Fin 256) col : S256x128.Idx))
      = outG X2 PS TB hX (ix2 (outRowN L c r) col) := by
  subst hp0
  rw [read_writes_whole, gather_val L c X2 hX TB fs pay hpay hn hin r col, posScratch_read fq PS payP hpayP, outG_apply]
  refine congrArg₂ FloatOps.addf ?_ ?_
  · refine congrArg TB (congrArg (fun k => (ix2 k col : S100000x128.Idx)) (Fin.ext ?_))
    show (X2 (ix2 (xIdxRow L c) r)).toNat = (X2 (ix2 (xRow (outRowN L c r)) (xCol (outRowN L c r)))).toNat
    rw [xRow_outRowN, xCol_outRowN]
  · refine congrArg (fun k => PS (ix2 k col)) (Fin.ext ?_)
    show r.val + 128 * (c.val % 2) = (outRowN L c r).val % 256
    rw [outRowN_mod256]; omega

end Window

end Cert.Proof.KB

end
-- ==== Proof.LoopsAB.lean ====
-- The same text as LoopsA.lean, read at the printed kernel's own namespace: Cert.Kernel for Cert.KernelIdeal throughout.
/- GENERATED by: bun proofs/208673_g37134287241914_cont_8to1_b_302_3_alg/scratch/gen_loops.js (run from the package root): one text per row loop, instantiated at the loops 1 to 16.
   Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.CommonB
import proofs.«208673_g37134287241914_cont_8to1_b_302_3_alg».proof.Proof.Gen.Kernel.Skeleton
import proofs.«208673_g37134287241914_cont_8to1_b_302_3_alg».proof.Proof.TileResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### loop 1 (slot 0) -/

set_option maxHeartbeats 4000000 in
/-- One trip of row loop 1 at a symbolic row: the pieces it writes into the sum slot are the run's own finds. -/
@[irreducible] def trip_t1 (d : Dev nD) (L : grid0.Coords) (v2 : BitVec 32)
    (X : BufTy.Contents (Elt F) (ibS0).view.ty) (P : BufTy.Contents (Elt F) (qV).view.ty) (k : Fin k0_t1_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t1_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t1_body TripRes0
    iintro ⟨HX, HP, HW⟩
    sl_exec
    sl_step
    sl_close

abbrev tripL_t1 (d : Dev nD) (L : grid0.Coords) (v2 : BitVec 32) (X : BufTy.Contents (Elt F) (ibS0).view.ty) (P : BufTy.Contents (Elt F) (qV).view.ty) (k : Fin k0_t1_loop.trips) : List (View.Piece (Elt F) S128x128 .f32) :=
  (trip_t1 (F := F) d L v2 X P k).1

@[irreducible] def pb_t1Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t1_loop.trips then (tripL_t1 (F := F) d L v2 X P ⟨k, h⟩) ++ prev else prev

/-- The pieces of the rows before k (last first). -/
def pb_t1 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t1Step d L v2 X P k (pb_t1 d L v2 X P k)

theorem pb_t1_succ (d : Dev nD) (L : grid0.Coords) (v2 : BitVec 32) (X : BufTy.Contents (Elt F) (ibS0).view.ty) (P : BufTy.Contents (Elt F) (qV).view.ty) (k : Fin k0_t1_loop.trips) :
    pb_t1 (F := F) d L v2 X P (k.val + 1) = (tripL_t1 (F := F) d L v2 X P k) ++ (pb_t1 (F := F) d L v2 X P k.val) := by
  rw [pb_t1.eq_2]; unfold pb_t1Step; exact dif_pos k.isLt

set_option warn.classDefReducibility false in
/-- Row loop 1 by its invariant: the gathered rows and the positional rows read, the sum slot holding the pieces of the rows before k over its contents at loop entry. -/
@[sl_loop] def loopInv_t1 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t1_loop.lb k0_t1_loop.ub k0_t1_loop.st k0_t1_ok () (k0_t1_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t1 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t1 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t1_succ]
      iexists _; isplitl [HW]; · iexact HW
      ipureintro; rw [hf, ← View.writes_append]

/-! ### loop 2 (slot 1) -/

set_option maxHeartbeats 4000000 in
/-- One trip of row loop 2 at a symbolic row: the pieces it writes into the sum slot are the run's own finds. -/
@[irreducible] def trip_t2 (d : Dev nD) (L : grid0.Coords) (v2 : BitVec 32)
    (X : BufTy.Contents (Elt F) (ibS1).view.ty) (P : BufTy.Contents (Elt F) (qV).view.ty) (k : Fin k0_t2_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t2_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t2_body TripRes1
    iintro ⟨HX, HP, HW⟩
    sl_exec
    sl_step
    sl_close

abbrev tripL_t2 (d : Dev nD) (L : grid0.Coords) (v2 : BitVec 32) (X : BufTy.Contents (Elt F) (ibS1).view.ty) (P : BufTy.Contents (Elt F) (qV).view.ty) (k : Fin k0_t2_loop.trips) : List (View.Piece (Elt F) S128x128 .f32) :=
  (trip_t2 (F := F) d L v2 X P k).1

@[irreducible] def pb_t2Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t2_loop.trips then (tripL_t2 (F := F) d L v2 X P ⟨k, h⟩) ++ prev else prev

/-- The pieces of the rows before k (last first). -/
def pb_t2 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t2Step d L v2 X P k (pb_t2 d L v2 X P k)

theorem pb_t2_succ (d : Dev nD) (L : grid0.Coords) (v2 : BitVec 32) (X : BufTy.Contents (Elt F) (ibS1).view.ty) (P : BufTy.Contents (Elt F) (qV).view.ty) (k : Fin k0_t2_loop.trips) :
    pb_t2 (F := F) d L v2 X P (k.val + 1) = (tripL_t2 (F := F) d L v2 X P k) ++ (pb_t2 (F := F) d L v2 X P k.val) := by
  rw [pb_t2.eq_2]; unfold pb_t2Step; exact dif_pos k.isLt

set_option warn.classDefReducibility false in
/-- Row loop 2 by its invariant: the gathered rows and the positional rows read, the sum slot holding the pieces of the rows before k over its contents at loop entry. -/
@[sl_loop] def loopInv_t2 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t2_loop.lb k0_t2_loop.ub k0_t2_loop.st k0_t2_ok () (k0_t2_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t2 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t2 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t2_succ]
      iexists _; isplitl [HW]; · iexact HW
      ipureintro; rw [hf, ← View.writes_append]

/-! ### loop 3 (slot 0) -/

set_option maxHeartbeats 4000000 in
/-- One trip of row loop 3 at a symbolic row: the pieces it writes into the sum slot are the run's own finds. -/
@[irreducible] def trip_t3 (d : Dev nD) (L : grid0.Coords) (v2 wa wb : BitVec 32)
    (X : BufTy.Contents (Elt F) (ibS0).view.ty) (P : BufTy.Contents (Elt F) (qV).view.ty) (k : Fin k0_t3_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t3_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t3_body TripRes0
    iintro ⟨HX, HP, HW⟩
    sl_exec
    sl_step
    sl_close

abbrev tripL_t3 (d : Dev nD) (L : grid0.Coords) (v2 wa wb : BitVec 32) (X : BufTy.Contents (Elt F) (ibS0).view.ty) (P : BufTy.Contents (Elt F) (qV).view.ty) (k : Fin k0_t3_loop.trips) : List (View.Piece (Elt F) S128x128 .f32) :=
  (trip_t3 (F := F) d L v2 wa wb X P k).1

@[irreducible] def pb_t3Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t3_loop.trips then (tripL_t3 (F := F) d L v2 wa wb X P ⟨k, h⟩) ++ prev else prev

/-- The pieces of the rows before k (last first). -/
def pb_t3 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t3Step d L v2 wa wb X P k (pb_t3 d L v2 wa wb X P k)

theorem pb_t3_succ (d : Dev nD) (L : grid0.Coords) (v2 wa wb : BitVec 32) (X : BufTy.Contents (Elt F) (ibS0).view.ty) (P : BufTy.Contents (Elt F) (qV).view.ty) (k : Fin k0_t3_loop.trips) :
    pb_t3 (F := F) d L v2 wa wb X P (k.val + 1) = (tripL_t3 (F := F) d L v2 wa wb X P k) ++ (pb_t3 (F := F) d L v2 wa wb X P k.val) := by
  rw [pb_t3.eq_2]; unfold pb_t3Step; exact dif_pos k.isLt

set_option warn.classDefReducibility false in
/-- Row loop 3 by its invariant: the gathered rows and the positional rows read, the sum slot holding the pieces of the rows before k over its contents at loop entry. -/
@[sl_loop] def loopInv_t3 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t3_loop.lb k0_t3_loop.ub k0_t3_loop.st k0_t3_ok () (k0_t3_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t3 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t3 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t3_succ]
      iexists _; isplitl [HW]; · iexact HW
      ipureintro; rw [hf, ← View.writes_append]

/-! ### loop 4 (slot 1) -/

set_option maxHeartbeats 4000000 in
/-- One trip of row loop 4 at a symbolic row: the pieces it writes into the sum slot are the run's own finds. -/
@[irreducible] def trip_t4 (d : Dev nD) (L : grid0.Coords) (v2 : BitVec 32)
    (X : BufTy.Contents (Elt F) (ibS1).view.ty) (P : BufTy.Contents (Elt F) (qV).view.ty) (k : Fin k0_t4_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t4_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t4_body TripRes1
    iintro ⟨HX, HP, HW⟩
    sl_exec
    sl_step
    sl_close

abbrev tripL_t4 (d : Dev nD) (L : grid0.Coords) (v2 : BitVec 32) (X : BufTy.Contents (Elt F) (ibS1).view.ty) (P : BufTy.Contents (Elt F) (qV).view.ty) (k : Fin k0_t4_loop.trips) : List (View.Piece (Elt F) S128x128 .f32) :=
  (trip_t4 (F := F) d L v2 X P k).1

@[irreducible] def pb_t4Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t4_loop.trips then (tripL_t4 (F := F) d L v2 X P ⟨k, h⟩) ++ prev else prev

/-- The pieces of the rows before k (last first). -/
def pb_t4 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t4Step d L v2 X P k (pb_t4 d L v2 X P k)

theorem pb_t4_succ (d : Dev nD) (L : grid0.Coords) (v2 : BitVec 32) (X : BufTy.Contents (Elt F) (ibS1).view.ty) (P : BufTy.Contents (Elt F) (qV).view.ty) (k : Fin k0_t4_loop.trips) :
    pb_t4 (F := F) d L v2 X P (k.val + 1) = (tripL_t4 (F := F) d L v2 X P k) ++ (pb_t4 (F := F) d L v2 X P k.val) := by
  rw [pb_t4.eq_2]; unfold pb_t4Step; exact dif_pos k.isLt

set_option warn.classDefReducibility false in
/-- Row loop 4 by its invariant: the gathered rows and the positional rows read, the sum slot holding the pieces of the rows before k over its contents at loop entry. -/
@[sl_loop] def loopInv_t4 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t4_loop.lb k0_t4_loop.ub k0_t4_loop.st k0_t4_ok () (k0_t4_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t4 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t4 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t4_succ]
      iexists _; isplitl [HW]; · iexact HW
      ipureintro; rw [hf, ← View.writes_append]

/-! ### loop 5 (slot 0) -/

set_option maxHeartbeats 4000000 in
/-- One trip of row loop 5 at a symbolic row: the pieces it writes into the sum slot are the run's own finds. -/
@[irreducible] def trip_t5 (d : Dev nD) (L : grid0.Coords) (v2 : BitVec 32)
    (X : BufTy.Contents (Elt F) (ibS0).view.ty) (P : BufTy.Contents (Elt F) (qV).view.ty) (k : Fin k0_t5_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t5_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t5_body TripRes0
    iintro ⟨HX, HP, HW⟩
    sl_exec
    sl_step
    sl_close

abbrev tripL_t5 (d : Dev nD) (L : grid0.Coords) (v2 : BitVec 32) (X : BufTy.Contents (Elt F) (ibS0).view.ty) (P : BufTy.Contents (Elt F) (qV).view.ty) (k : Fin k0_t5_loop.trips) : List (View.Piece (Elt F) S128x128 .f32) :=
  (trip_t5 (F := F) d L v2 X P k).1

@[irreducible] def pb_t5Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t5_loop.trips then (tripL_t5 (F := F) d L v2 X P ⟨k, h⟩) ++ prev else prev

/-- The pieces of the rows before k (last first). -/
def pb_t5 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t5Step d L v2 X P k (pb_t5 d L v2 X P k)

theorem pb_t5_succ (d : Dev nD) (L : grid0.Coords) (v2 : BitVec 32) (X : BufTy.Contents (Elt F) (ibS0).view.ty) (P : BufTy.Contents (Elt F) (qV).view.ty) (k : Fin k0_t5_loop.trips) :
    pb_t5 (F := F) d L v2 X P (k.val + 1) = (tripL_t5 (F := F) d L v2 X P k) ++ (pb_t5 (F := F) d L v2 X P k.val) := by
  rw [pb_t5.eq_2]; unfold pb_t5Step; exact dif_pos k.isLt

set_option warn.classDefReducibility false in
/-- Row loop 5 by its invariant: the gathered rows and the positional rows read, the sum slot holding the pieces of the rows before k over its contents at loop entry. -/
@[sl_loop] def loopInv_t5 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t5_loop.lb k0_t5_loop.ub k0_t5_loop.st k0_t5_ok () (k0_t5_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t5 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t5 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t5_succ]
      iexists _; isplitl [HW]; · iexact HW
      ipureintro; rw [hf, ← View.writes_append]

/-! ### loop 6 (slot 1) -/

set_option maxHeartbeats 4000000 in
/-- One trip of row loop 6 at a symbolic row: the pieces it writes into the sum slot are the run's own finds. -/
@[irreducible] def trip_t6 (d : Dev nD) (L : grid0.Coords) (v2 : BitVec 32)
    (X : BufTy.Contents (Elt F) (ibS1).view.ty) (P : BufTy.Contents (Elt F) (qV).view.ty) (k : Fin k0_t6_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t6_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t6_body TripRes1
    iintro ⟨HX, HP, HW⟩
    sl_exec
    sl_step
    sl_close

abbrev tripL_t6 (d : Dev nD) (L : grid0.Coords) (v2 : BitVec 32) (X : BufTy.Contents (Elt F) (ibS1).view.ty) (P : BufTy.Contents (Elt F) (qV).view.ty) (k : Fin k0_t6_loop.trips) : List (View.Piece (Elt F) S128x128 .f32) :=
  (trip_t6 (F := F) d L v2 X P k).1

@[irreducible] def pb_t6Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t6_loop.trips then (tripL_t6 (F := F) d L v2 X P ⟨k, h⟩) ++ prev else prev

/-- The pieces of the rows before k (last first). -/
def pb_t6 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t6Step d L v2 X P k (pb_t6 d L v2 X P k)

theorem pb_t6_succ (d : Dev nD) (L : grid0.Coords) (v2 : BitVec 32) (X : BufTy.Contents (Elt F) (ibS1).view.ty) (P : BufTy.Contents (Elt F) (qV).view.ty) (k : Fin k0_t6_loop.trips) :
    pb_t6 (F := F) d L v2 X P (k.val + 1) = (tripL_t6 (F := F) d L v2 X P k) ++ (pb_t6 (F := F) d L v2 X P k.val) := by
  rw [pb_t6.eq_2]; unfold pb_t6Step; exact dif_pos k.isLt

set_option warn.classDefReducibility false in
/-- Row loop 6 by its invariant: the gathered rows and the positional rows read, the sum slot holding the pieces of the rows before k over its contents at loop entry. -/
@[sl_loop] def loopInv_t6 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t6_loop.lb k0_t6_loop.ub k0_t6_loop.st k0_t6_ok () (k0_t6_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t6 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t6 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t6_succ]
      iexists _; isplitl [HW]; · iexact HW
      ipureintro; rw [hf, ← View.writes_append]

/-! ### loop 7 (slot 0) -/

set_option maxHeartbeats 4000000 in
/-- One trip of row loop 7 at a symbolic row: the pieces it writes into the sum slot are the run's own finds. -/
@[irreducible] def trip_t7 (d : Dev nD) (L : grid0.Coords) (v2 : BitVec 32)
    (X : BufTy.Contents (Elt F) (ibS0).view.ty) (P : BufTy.Contents (Elt F) (qV).view.ty) (k : Fin k0_t7_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t7_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t7_body TripRes0
    iintro ⟨HX, HP, HW⟩
    sl_exec
    sl_step
    sl_close

abbrev tripL_t7 (d : Dev nD) (L : grid0.Coords) (v2 : BitVec 32) (X : BufTy.Contents (Elt F) (ibS0).view.ty) (P : BufTy.Contents (Elt F) (qV).view.ty) (k : Fin k0_t7_loop.trips) : List (View.Piece (Elt F) S128x128 .f32) :=
  (trip_t7 (F := F) d L v2 X P k).1

@[irreducible] def pb_t7Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t7_loop.trips then (tripL_t7 (F := F) d L v2 X P ⟨k, h⟩) ++ prev else prev

/-- The pieces of the rows before k (last first). -/
def pb_t7 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t7Step d L v2 X P k (pb_t7 d L v2 X P k)

theorem pb_t7_succ (d : Dev nD) (L : grid0.Coords) (v2 : BitVec 32) (X : BufTy.Contents (Elt F) (ibS0).view.ty) (P : BufTy.Contents (Elt F) (qV).view.ty) (k : Fin k0_t7_loop.trips) :
    pb_t7 (F := F) d L v2 X P (k.val + 1) = (tripL_t7 (F := F) d L v2 X P k) ++ (pb_t7 (F := F) d L v2 X P k.val) := by
  rw [pb_t7.eq_2]; unfold pb_t7Step; exact dif_pos k.isLt

set_option warn.classDefReducibility false in
/-- Row loop 7 by its invariant: the gathered rows and the positional rows read, the sum slot holding the pieces of the rows before k over its contents at loop entry. -/
@[sl_loop] def loopInv_t7 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t7_loop.lb k0_t7_loop.ub k0_t7_loop.st k0_t7_ok () (k0_t7_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t7 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t7 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t7_succ]
      iexists _; isplitl [HW]; · iexact HW
      ipureintro; rw [hf, ← View.writes_append]

/-! ### loop 8 (slot 1) -/

set_option maxHeartbeats 4000000 in
/-- One trip of row loop 8 at a symbolic row: the pieces it writes into the sum slot are the run's own finds. -/
@[irreducible] def trip_t8 (d : Dev nD) (L : grid0.Coords) (v2 : BitVec 32)
    (X : BufTy.Contents (Elt F) (ibS1).view.ty) (P : BufTy.Contents (Elt F) (qV).view.ty) (k : Fin k0_t8_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t8_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t8_body TripRes1
    iintro ⟨HX, HP, HW⟩
    sl_exec
    sl_step
    sl_close

abbrev tripL_t8 (d : Dev nD) (L : grid0.Coords) (v2 : BitVec 32) (X : BufTy.Contents (Elt F) (ibS1).view.ty) (P : BufTy.Contents (Elt F) (qV).view.ty) (k : Fin k0_t8_loop.trips) : List (View.Piece (Elt F) S128x128 .f32) :=
  (trip_t8 (F := F) d L v2 X P k).1

@[irreducible] def pb_t8Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t8_loop.trips then (tripL_t8 (F := F) d L v2 X P ⟨k, h⟩) ++ prev else prev

/-- The pieces of the rows before k (last first). -/
def pb_t8 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t8Step d L v2 X P k (pb_t8 d L v2 X P k)

theorem pb_t8_succ (d : Dev nD) (L : grid0.Coords) (v2 : BitVec 32) (X : BufTy.Contents (Elt F) (ibS1).view.ty) (P : BufTy.Contents (Elt F) (qV).view.ty) (k : Fin k0_t8_loop.trips) :
    pb_t8 (F := F) d L v2 X P (k.val + 1) = (tripL_t8 (F := F) d L v2 X P k) ++ (pb_t8 (F := F) d L v2 X P k.val) := by
  rw [pb_t8.eq_2]; unfold pb_t8Step; exact dif_pos k.isLt

set_option warn.classDefReducibility false in
/-- Row loop 8 by its invariant: the gathered rows and the positional rows read, the sum slot holding the pieces of the rows before k over its contents at loop entry. -/
@[sl_loop] def loopInv_t8 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t8_loop.lb k0_t8_loop.ub k0_t8_loop.st k0_t8_ok () (k0_t8_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t8 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t8 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t8_succ]
      iexists _; isplitl [HW]; · iexact HW
      ipureintro; rw [hf, ← View.writes_append]

/-! ### loop 9 (slot 0) -/

set_option maxHeartbeats 4000000 in
/-- One trip of row loop 9 at a symbolic row: the pieces it writes into the sum slot are the run's own finds. -/
@[irreducible] def trip_t9 (d : Dev nD) (L : grid0.Coords) (v2 : BitVec 32)
    (X : BufTy.Contents (Elt F) (ibS0).view.ty) (P : BufTy.Contents (Elt F) (qV).view.ty) (k : Fin k0_t9_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t9_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t9_body TripRes0
    iintro ⟨HX, HP, HW⟩
    sl_exec
    sl_step
    sl_close

abbrev tripL_t9 (d : Dev nD) (L : grid0.Coords) (v2 : BitVec 32) (X : BufTy.Contents (Elt F) (ibS0).view.ty) (P : BufTy.Contents (Elt F) (qV).view.ty) (k : Fin k0_t9_loop.trips) : List (View.Piece (Elt F) S128x128 .f32) :=
  (trip_t9 (F := F) d L v2 X P k).1

@[irreducible] def pb_t9Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t9_loop.trips then (tripL_t9 (F := F) d L v2 X P ⟨k, h⟩) ++ prev else prev

/-- The pieces of the rows before k (last first). -/
def pb_t9 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t9Step d L v2 X P k (pb_t9 d L v2 X P k)

theorem pb_t9_succ (d : Dev nD) (L : grid0.Coords) (v2 : BitVec 32) (X : BufTy.Contents (Elt F) (ibS0).view.ty) (P : BufTy.Contents (Elt F) (qV).view.ty) (k : Fin k0_t9_loop.trips) :
    pb_t9 (F := F) d L v2 X P (k.val + 1) = (tripL_t9 (F := F) d L v2 X P k) ++ (pb_t9 (F := F) d L v2 X P k.val) := by
  rw [pb_t9.eq_2]; unfold pb_t9Step; exact dif_pos k.isLt

set_option warn.classDefReducibility false in
/-- Row loop 9 by its invariant: the gathered rows and the positional rows read, the sum slot holding the pieces of the rows before k over its contents at loop entry. -/
@[sl_loop] def loopInv_t9 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t9_loop.lb k0_t9_loop.ub k0_t9_loop.st k0_t9_ok () (k0_t9_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t9 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t9 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t9_succ]
      iexists _; isplitl [HW]; · iexact HW
      ipureintro; rw [hf, ← View.writes_append]

/-! ### loop 10 (slot 1) -/

set_option maxHeartbeats 4000000 in
/-- One trip of row loop 10 at a symbolic row: the pieces it writes into the sum slot are the run's own finds. -/
@[irreducible] def trip_t10 (d : Dev nD) (L : grid0.Coords) (v2 : BitVec 32)
    (X : BufTy.Contents (Elt F) (ibS1).view.ty) (P : BufTy.Contents (Elt F) (qV).view.ty) (k : Fin k0_t10_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t10_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t10_body TripRes1
    iintro ⟨HX, HP, HW⟩
    sl_exec
    sl_step
    sl_close

abbrev tripL_t10 (d : Dev nD) (L : grid0.Coords) (v2 : BitVec 32) (X : BufTy.Contents (Elt F) (ibS1).view.ty) (P : BufTy.Contents (Elt F) (qV).view.ty) (k : Fin k0_t10_loop.trips) : List (View.Piece (Elt F) S128x128 .f32) :=
  (trip_t10 (F := F) d L v2 X P k).1

@[irreducible] def pb_t10Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t10_loop.trips then (tripL_t10 (F := F) d L v2 X P ⟨k, h⟩) ++ prev else prev

/-- The pieces of the rows before k (last first). -/
def pb_t10 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t10Step d L v2 X P k (pb_t10 d L v2 X P k)

theorem pb_t10_succ (d : Dev nD) (L : grid0.Coords) (v2 : BitVec 32) (X : BufTy.Contents (Elt F) (ibS1).view.ty) (P : BufTy.Contents (Elt F) (qV).view.ty) (k : Fin k0_t10_loop.trips) :
    pb_t10 (F := F) d L v2 X P (k.val + 1) = (tripL_t10 (F := F) d L v2 X P k) ++ (pb_t10 (F := F) d L v2 X P k.val) := by
  rw [pb_t10.eq_2]; unfold pb_t10Step; exact dif_pos k.isLt

set_option warn.classDefReducibility false in
/-- Row loop 10 by its invariant: the gathered rows and the positional rows read, the sum slot holding the pieces of the rows before k over its contents at loop entry. -/
@[sl_loop] def loopInv_t10 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t10_loop.lb k0_t10_loop.ub k0_t10_loop.st k0_t10_ok () (k0_t10_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t10 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t10 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t10_succ]
      iexists _; isplitl [HW]; · iexact HW
      ipureintro; rw [hf, ← View.writes_append]

/-! ### loop 11 (slot 0) -/

set_option maxHeartbeats 4000000 in
/-- One trip of row loop 11 at a symbolic row: the pieces it writes into the sum slot are the run's own finds. -/
@[irreducible] def trip_t11 (d : Dev nD) (L : grid0.Coords) (v2 : BitVec 32)
    (X : BufTy.Contents (Elt F) (ibS0).view.ty) (P : BufTy.Contents (Elt F) (qV).view.ty) (k : Fin k0_t11_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t11_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t11_body TripRes0
    iintro ⟨HX, HP, HW⟩
    sl_exec
    sl_step
    sl_close

abbrev tripL_t11 (d : Dev nD) (L : grid0.Coords) (v2 : BitVec 32) (X : BufTy.Contents (Elt F) (ibS0).view.ty) (P : BufTy.Contents (Elt F) (qV).view.ty) (k : Fin k0_t11_loop.trips) : List (View.Piece (Elt F) S128x128 .f32) :=
  (trip_t11 (F := F) d L v2 X P k).1

@[irreducible] def pb_t11Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t11_loop.trips then (tripL_t11 (F := F) d L v2 X P ⟨k, h⟩) ++ prev else prev

/-- The pieces of the rows before k (last first). -/
def pb_t11 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t11Step d L v2 X P k (pb_t11 d L v2 X P k)

theorem pb_t11_succ (d : Dev nD) (L : grid0.Coords) (v2 : BitVec 32) (X : BufTy.Contents (Elt F) (ibS0).view.ty) (P : BufTy.Contents (Elt F) (qV).view.ty) (k : Fin k0_t11_loop.trips) :
    pb_t11 (F := F) d L v2 X P (k.val + 1) = (tripL_t11 (F := F) d L v2 X P k) ++ (pb_t11 (F := F) d L v2 X P k.val) := by
  rw [pb_t11.eq_2]; unfold pb_t11Step; exact dif_pos k.isLt

set_option warn.classDefReducibility false in
/-- Row loop 11 by its invariant: the gathered rows and the positional rows read, the sum slot holding the pieces of the rows before k over its contents at loop entry. -/
@[sl_loop] def loopInv_t11 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t11_loop.lb k0_t11_loop.ub k0_t11_loop.st k0_t11_ok () (k0_t11_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t11 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t11 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t11_succ]
      iexists _; isplitl [HW]; · iexact HW
      ipureintro; rw [hf, ← View.writes_append]

/-! ### loop 12 (slot 1) -/

set_option maxHeartbeats 4000000 in
/-- One trip of row loop 12 at a symbolic row: the pieces it writes into the sum slot are the run's own finds. -/
@[irreducible] def trip_t12 (d : Dev nD) (L : grid0.Coords) (v2 : BitVec 32)
    (X : BufTy.Contents (Elt F) (ibS1).view.ty) (P : BufTy.Contents (Elt F) (qV).view.ty) (k : Fin k0_t12_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t12_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t12_body TripRes1
    iintro ⟨HX, HP, HW⟩
    sl_exec
    sl_step
    sl_close

abbrev tripL_t12 (d : Dev nD) (L : grid0.Coords) (v2 : BitVec 32) (X : BufTy.Contents (Elt F) (ibS1).view.ty) (P : BufTy.Contents (Elt F) (qV).view.ty) (k : Fin k0_t12_loop.trips) : List (View.Piece (Elt F) S128x128 .f32) :=
  (trip_t12 (F := F) d L v2 X P k).1

@[irreducible] def pb_t12Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t12_loop.trips then (tripL_t12 (F := F) d L v2 X P ⟨k, h⟩) ++ prev else prev

/-- The pieces of the rows before k (last first). -/
def pb_t12 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t12Step d L v2 X P k (pb_t12 d L v2 X P k)

theorem pb_t12_succ (d : Dev nD) (L : grid0.Coords) (v2 : BitVec 32) (X : BufTy.Contents (Elt F) (ibS1).view.ty) (P : BufTy.Contents (Elt F) (qV).view.ty) (k : Fin k0_t12_loop.trips) :
    pb_t12 (F := F) d L v2 X P (k.val + 1) = (tripL_t12 (F := F) d L v2 X P k) ++ (pb_t12 (F := F) d L v2 X P k.val) := by
  rw [pb_t12.eq_2]; unfold pb_t12Step; exact dif_pos k.isLt

set_option warn.classDefReducibility false in
/-- Row loop 12 by its invariant: the gathered rows and the positional rows read, the sum slot holding the pieces of the rows before k over its contents at loop entry. -/
@[sl_loop] def loopInv_t12 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t12_loop.lb k0_t12_loop.ub k0_t12_loop.st k0_t12_ok () (k0_t12_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t12 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t12 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t12_succ]
      iexists _; isplitl [HW]; · iexact HW
      ipureintro; rw [hf, ← View.writes_append]

/-! ### loop 13 (slot 0) -/

set_option maxHeartbeats 4000000 in
/-- One trip of row loop 13 at a symbolic row: the pieces it writes into the sum slot are the run's own finds. -/
@[irreducible] def trip_t13 (d : Dev nD) (L : grid0.Coords) (v2 wa wb : BitVec 32)
    (X : BufTy.Contents (Elt F) (ibS0).view.ty) (P : BufTy.Contents (Elt F) (qV).view.ty) (k : Fin k0_t13_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t13_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t13_body TripRes0
    iintro ⟨HX, HP, HW⟩
    sl_exec
    sl_step
    sl_close

abbrev tripL_t13 (d : Dev nD) (L : grid0.Coords) (v2 wa wb : BitVec 32) (X : BufTy.Contents (Elt F) (ibS0).view.ty) (P : BufTy.Contents (Elt F) (qV).view.ty) (k : Fin k0_t13_loop.trips) : List (View.Piece (Elt F) S128x128 .f32) :=
  (trip_t13 (F := F) d L v2 wa wb X P k).1

@[irreducible] def pb_t13Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t13_loop.trips then (tripL_t13 (F := F) d L v2 wa wb X P ⟨k, h⟩) ++ prev else prev

/-- The pieces of the rows before k (last first). -/
def pb_t13 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t13Step d L v2 wa wb X P k (pb_t13 d L v2 wa wb X P k)

theorem pb_t13_succ (d : Dev nD) (L : grid0.Coords) (v2 wa wb : BitVec 32) (X : BufTy.Contents (Elt F) (ibS0).view.ty) (P : BufTy.Contents (Elt F) (qV).view.ty) (k : Fin k0_t13_loop.trips) :
    pb_t13 (F := F) d L v2 wa wb X P (k.val + 1) = (tripL_t13 (F := F) d L v2 wa wb X P k) ++ (pb_t13 (F := F) d L v2 wa wb X P k.val) := by
  rw [pb_t13.eq_2]; unfold pb_t13Step; exact dif_pos k.isLt

set_option warn.classDefReducibility false in
/-- Row loop 13 by its invariant: the gathered rows and the positional rows read, the sum slot holding the pieces of the rows before k over its contents at loop entry. -/
@[sl_loop] def loopInv_t13 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t13_loop.lb k0_t13_loop.ub k0_t13_loop.st k0_t13_ok () (k0_t13_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t13 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t13 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t13_succ]
      iexists _; isplitl [HW]; · iexact HW
      ipureintro; rw [hf, ← View.writes_append]

/-! ### loop 14 (slot 1) -/

set_option maxHeartbeats 4000000 in
/-- One trip of row loop 14 at a symbolic row: the pieces it writes into the sum slot are the run's own finds. -/
@[irreducible] def trip_t14 (d : Dev nD) (L : grid0.Coords) (v2 : BitVec 32)
    (X : BufTy.Contents (Elt F) (ibS1).view.ty) (P : BufTy.Contents (Elt F) (qV).view.ty) (k : Fin k0_t14_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t14_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t14_body TripRes1
    iintro ⟨HX, HP, HW⟩
    sl_exec
    sl_step
    sl_close

abbrev tripL_t14 (d : Dev nD) (L : grid0.Coords) (v2 : BitVec 32) (X : BufTy.Contents (Elt F) (ibS1).view.ty) (P : BufTy.Contents (Elt F) (qV).view.ty) (k : Fin k0_t14_loop.trips) : List (View.Piece (Elt F) S128x128 .f32) :=
  (trip_t14 (F := F) d L v2 X P k).1

@[irreducible] def pb_t14Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t14_loop.trips then (tripL_t14 (F := F) d L v2 X P ⟨k, h⟩) ++ prev else prev

/-- The pieces of the rows before k (last first). -/
def pb_t14 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t14Step d L v2 X P k (pb_t14 d L v2 X P k)

theorem pb_t14_succ (d : Dev nD) (L : grid0.Coords) (v2 : BitVec 32) (X : BufTy.Contents (Elt F) (ibS1).view.ty) (P : BufTy.Contents (Elt F) (qV).view.ty) (k : Fin k0_t14_loop.trips) :
    pb_t14 (F := F) d L v2 X P (k.val + 1) = (tripL_t14 (F := F) d L v2 X P k) ++ (pb_t14 (F := F) d L v2 X P k.val) := by
  rw [pb_t14.eq_2]; unfold pb_t14Step; exact dif_pos k.isLt

set_option warn.classDefReducibility false in
/-- Row loop 14 by its invariant: the gathered rows and the positional rows read, the sum slot holding the pieces of the rows before k over its contents at loop entry. -/
@[sl_loop] def loopInv_t14 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t14_loop.lb k0_t14_loop.ub k0_t14_loop.st k0_t14_ok () (k0_t14_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t14 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t14 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t14_succ]
      iexists _; isplitl [HW]; · iexact HW
      ipureintro; rw [hf, ← View.writes_append]

/-! ### loop 15 (slot 0) -/

set_option maxHeartbeats 4000000 in
/-- One trip of row loop 15 at a symbolic row: the pieces it writes into the sum slot are the run's own finds. -/
@[irreducible] def trip_t15 (d : Dev nD) (L : grid0.Coords) (v2 : BitVec 32)
    (X : BufTy.Contents (Elt F) (ibS0).view.ty) (P : BufTy.Contents (Elt F) (qV).view.ty) (k : Fin k0_t15_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t15_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t15_body TripRes0
    iintro ⟨HX, HP, HW⟩
    sl_exec
    sl_step
    sl_close

abbrev tripL_t15 (d : Dev nD) (L : grid0.Coords) (v2 : BitVec 32) (X : BufTy.Contents (Elt F) (ibS0).view.ty) (P : BufTy.Contents (Elt F) (qV).view.ty) (k : Fin k0_t15_loop.trips) : List (View.Piece (Elt F) S128x128 .f32) :=
  (trip_t15 (F := F) d L v2 X P k).1

@[irreducible] def pb_t15Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t15_loop.trips then (tripL_t15 (F := F) d L v2 X P ⟨k, h⟩) ++ prev else prev

/-- The pieces of the rows before k (last first). -/
def pb_t15 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t15Step d L v2 X P k (pb_t15 d L v2 X P k)

theorem pb_t15_succ (d : Dev nD) (L : grid0.Coords) (v2 : BitVec 32) (X : BufTy.Contents (Elt F) (ibS0).view.ty) (P : BufTy.Contents (Elt F) (qV).view.ty) (k : Fin k0_t15_loop.trips) :
    pb_t15 (F := F) d L v2 X P (k.val + 1) = (tripL_t15 (F := F) d L v2 X P k) ++ (pb_t15 (F := F) d L v2 X P k.val) := by
  rw [pb_t15.eq_2]; unfold pb_t15Step; exact dif_pos k.isLt

set_option warn.classDefReducibility false in
/-- Row loop 15 by its invariant: the gathered rows and the positional rows read, the sum slot holding the pieces of the rows before k over its contents at loop entry. -/
@[sl_loop] def loopInv_t15 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t15_loop.lb k0_t15_loop.ub k0_t15_loop.st k0_t15_ok () (k0_t15_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t15 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t15 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t15_succ]
      iexists _; isplitl [HW]; · iexact HW
      ipureintro; rw [hf, ← View.writes_append]

/-! ### loop 16 (slot 1) -/

set_option maxHeartbeats 4000000 in
/-- One trip of row loop 16 at a symbolic row: the pieces it writes into the sum slot are the run's own finds. -/
@[irreducible] def trip_t16 (d : Dev nD) (L : grid0.Coords) (v2 : BitVec 32)
    (X : BufTy.Contents (Elt F) (ibS1).view.ty) (P : BufTy.Contents (Elt F) (qV).view.ty) (k : Fin k0_t16_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t16_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t16_body TripRes1
    iintro ⟨HX, HP, HW⟩
    sl_exec
    sl_step
    sl_close

abbrev tripL_t16 (d : Dev nD) (L : grid0.Coords) (v2 : BitVec 32) (X : BufTy.Contents (Elt F) (ibS1).view.ty) (P : BufTy.Contents (Elt F) (qV).view.ty) (k : Fin k0_t16_loop.trips) : List (View.Piece (Elt F) S128x128 .f32) :=
  (trip_t16 (F := F) d L v2 X P k).1

@[irreducible] def pb_t16Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t16_loop.trips then (tripL_t16 (F := F) d L v2 X P ⟨k, h⟩) ++ prev else prev

/-- The pieces of the rows before k (last first). -/
def pb_t16 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t16Step d L v2 X P k (pb_t16 d L v2 X P k)

theorem pb_t16_succ (d : Dev nD) (L : grid0.Coords) (v2 : BitVec 32) (X : BufTy.Contents (Elt F) (ibS1).view.ty) (P : BufTy.Contents (Elt F) (qV).view.ty) (k : Fin k0_t16_loop.trips) :
    pb_t16 (F := F) d L v2 X P (k.val + 1) = (tripL_t16 (F := F) d L v2 X P k) ++ (pb_t16 (F := F) d L v2 X P k.val) := by
  rw [pb_t16.eq_2]; unfold pb_t16Step; exact dif_pos k.isLt

set_option warn.classDefReducibility false in
/-- Row loop 16 by its invariant: the gathered rows and the positional rows read, the sum slot holding the pieces of the rows before k over its contents at loop entry. -/
@[sl_loop] def loopInv_t16 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t16_loop.lb k0_t16_loop.ub k0_t16_loop.st k0_t16_ok () (k0_t16_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t16 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t16 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t16_succ]
      iexists _; isplitl [HW]; · iexact HW
      ipureintro; rw [hf, ← View.writes_append]

end Tile
end Cert.Proof.KB
end
-- ==== Proof.RowsValueAB.lean ====
-- The same text as RowsValueA.lean, read at the printed kernel's own namespace: Cert.Kernel for Cert.KernelIdeal throughout.
/-
  The slot of sums after each of the row loops 1 to 16.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsAB
import proofs.«208673_g37134287241914_cont_8to1_b_302_3_alg».proof.Proof.RowsLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### the value of row loop 1 (slot 0, positional rows 0 … 127) -/

theorem trips_t1 : k0_t1_loop.trips = 128 := rfl

set_option maxHeartbeats 2000000 in
/-- Every piece of a trip of row loop 1 is the row sum on its rectangle. -/
theorem trip_pieces_t1 (d : Dev nD) (L : grid0.Coords) (v2 : BitVec 32) (X : BufTy.Contents (Elt F) (ibS0).view.ty) (P : BufTy.Contents (Elt F) (qV).view.ty) (k : Fin k0_t1_loop.trips) :
    ∀ p ∈ tripL_t1 (F := F) d L v2 X P k, ∀ x : p.1.shape.Idx, p.2 x = RowsLib.rowG (ibS0).view (qV).view X P 0 (by omega) (p.1.emb x) := by
  unfold tripL_t1 trip_t1
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off16_inb k) (k0_off16_inb k) (k0_off17_inb k) k.val (k.val + 0) 112 (k0_off16_eq k) (k0_off17_eq k) rfl _ (RowsLib.lane_sum _ _ _ _) x
  · exact fun x => RowsLib.piece_eq _ _ X P 0 _ _ _ (k0_off14_inb k) (k0_off14_inb k) (k0_off15_inb k) k.val (k.val + 0) 96 (k0_off14_eq k) (k0_off15_eq k) rfl _ (RowsLib.lane_sum _ _ _ _) x
  · exact fun x => RowsLib.piece_eq _ _ X P 0 _ _ _ (k0_off12_inb k) (k0_off12_inb k) (k0_off13_inb k) k.val (k.val + 0) 80 (k0_off12_eq k) (k0_off13_eq k) rfl _ (RowsLib.lane_sum _ _ _ _) x
  · exact fun x => RowsLib.piece_eq _ _ X P 0 _ _ _ (k0_off10_inb k) (k0_off10_inb k) (k0_off11_inb k) k.val (k.val + 0) 64 (k0_off10_eq k) (k0_off11_eq k) rfl _ (RowsLib.lane_sum _ _ _ _) x
  · exact fun x => RowsLib.piece_eq _ _ X P 0 _ _ _ (k0_off8_inb k) (k0_off8_inb k) (k0_off9_inb k) k.val (k.val + 0) 48 (k0_off8_eq k) (k0_off9_eq k) rfl _ (RowsLib.lane_sum _ _ _ _) x
  · exact fun x => RowsLib.piece_eq _ _ X P 0 _ _ _ (k0_off6_inb k) (k0_off6_inb k) (k0_off7_inb k) k.val (k.val + 0) 32 (k0_off6_eq k) (k0_off7_eq k) rfl _ (RowsLib.lane_sum _ _ _ _) x
  · exact fun x => RowsLib.piece_eq _ _ X P 0 _ _ _ (k0_off4_inb k) (k0_off4_inb k) (k0_off5_inb k) k.val (k.val + 0) 16 (k0_off4_eq k) (k0_off5_eq k) rfl _ (RowsLib.lane_sum _ _ _ _) x
  · exact fun x => RowsLib.piece_eq _ _ X P 0 _ _ _ (k0_off2_inb k) (k0_off2_inb k) (k0_off3_inb k) k.val (k.val + 0) 0 (k0_off2_eq k) (k0_off3_eq k) rfl _ (RowsLib.lane_sum _ _ _ _) x

set_option maxHeartbeats 2000000 in
/-- The eight pieces of trip k cover row k. -/
theorem trip_cover_t1 (d : Dev nD) (L : grid0.Coords) (v2 : BitVec 32) (X : BufTy.Contents (Elt F) (ibS0).view.ty) (P : BufTy.Contents (Elt F) (qV).view.ty)
    (k : Fin k0_t1_loop.trips) (r c : Fin 128) (hr : k.val = r.val) :
    ∃ p ∈ tripL_t1 (F := F) d L v2 X P k, (ValueIdx.ix2 r c : RowsLib.SS.Idx) ∈ p.1.set := by
  unfold tripL_t1 trip_t1
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off2_inb k) r c k.val 0 (k0_off2_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off4_inb k) r c k.val 16 (k0_off4_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off6_inb k) r c k.val 32 (k0_off6_eq k) hr h.1 h.2⟩
  · exact ⟨_, List.mem_cons_of_mem _ (List.mem_cons_of_mem _ (List.mem_cons_of_mem _ (List.mem_cons_of_mem _ (List.mem_cons_self)))), RowsLib.mem_unit _ (k0_off8_inb k) r c k.val 48 (k0_off8_eq k) hr h.1 h.2⟩
  · exact ⟨_, List.mem_cons_of_mem _ (List.mem_cons_of_mem _ (List.mem_cons_of_mem _ (List.mem_cons_self))), RowsLib.mem_unit _ (k0_off10_inb k) r c k.val 64 (k0_off10_eq k) hr h.1 h.2⟩
  · exact ⟨_, List.mem_cons_of_mem _ (List.mem_cons_of_mem _ (List.mem_cons_self)), RowsLib.mem_unit _ (k0_off12_inb k) r c k.val 80 (k0_off12_eq k) hr h.1 h.2⟩
  · exact ⟨_, List.mem_cons_of_mem _ (List.mem_cons_self), RowsLib.mem_unit _ (k0_off14_inb k) r c k.val 96 (k0_off14_eq k) hr h.1 h.2⟩
  · exact ⟨_, List.mem_cons_self, RowsLib.mem_unit _ (k0_off16_inb k) r c k.val 112 (k0_off16_eq k) hr h.1 h.2⟩

/-- The slot of sums after row loop 1, as the row-sum function: at (r, c) the gathered rows' entry plus the positional scratch's entry of row r + 0. -/
theorem rows_t1_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t1 (F := F) d L v2 X P 128)) (ValueIdx.ix2 r c)
      = RowsLib.rowG (ibS0).view (qV).view X P 0 (by omega) (ValueIdx.ix2 r c) :=
  RowsLib.read_writes_trips (n := k0_t1_loop.trips) (pb_t1 (F := F) d L v2 X P) (tripL_t1 (F := F) d L v2 X P) (obS0).view G _
    rfl (pb_t1_succ (F := F) d L v2 X P) (trip_pieces_t1 d L v2 X P) _ ⟨r.val, r.isLt⟩ (trip_cover_t1 d L v2 X P ⟨r.val, r.isLt⟩ r c rfl)

/-- THE SLOT OF SUMS AFTER ROW LOOP 1, whatever it held before: at (r, c) the gathered rows' entry (r, c) plus the positional
    scratch's entry (r + 0, c). -/
theorem rows_t1 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t1 (F := F) d L v2 X P (Scf.trips k0_t1_loop.lb k0_t1_loop.ub k0_t1_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t1_G d L v2 X P G r c

/-! ### the value of row loop 2 (slot 1, positional rows 128 … 255) -/

theorem trips_t2 : k0_t2_loop.trips = 128 := rfl

set_option maxHeartbeats 2000000 in
/-- Every piece of a trip of row loop 2 is the row sum on its rectangle. -/
theorem trip_pieces_t2 (d : Dev nD) (L : grid0.Coords) (v2 : BitVec 32) (X : BufTy.Contents (Elt F) (ibS1).view.ty) (P : BufTy.Contents (Elt F) (qV).view.ty) (k : Fin k0_t2_loop.trips) :
    ∀ p ∈ tripL_t2 (F := F) d L v2 X P k, ∀ x : p.1.shape.Idx, p.2 x = RowsLib.rowG (ibS1).view (qV).view X P 128 (by omega) (p.1.emb x) := by
  unfold tripL_t2 trip_t2
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off33_inb k) (k0_off33_inb k) (k0_off34_inb k) k.val (k.val + 128) 112 (k0_off33_eq k) (k0_off34_eq k) rfl _ (RowsLib.lane_sum _ _ _ _) x
  · exact fun x => RowsLib.piece_eq _ _ X P 128 _ _ _ (k0_off31_inb k) (k0_off31_inb k) (k0_off32_inb k) k.val (k.val + 128) 96 (k0_off31_eq k) (k0_off32_eq k) rfl _ (RowsLib.lane_sum _ _ _ _) x
  · exact fun x => RowsLib.piece_eq _ _ X P 128 _ _ _ (k0_off29_inb k) (k0_off29_inb k) (k0_off30_inb k) k.val (k.val + 128) 80 (k0_off29_eq k) (k0_off30_eq k) rfl _ (RowsLib.lane_sum _ _ _ _) x
  · exact fun x => RowsLib.piece_eq _ _ X P 128 _ _ _ (k0_off27_inb k) (k0_off27_inb k) (k0_off28_inb k) k.val (k.val + 128) 64 (k0_off27_eq k) (k0_off28_eq k) rfl _ (RowsLib.lane_sum _ _ _ _) x
  · exact fun x => RowsLib.piece_eq _ _ X P 128 _ _ _ (k0_off25_inb k) (k0_off25_inb k) (k0_off26_inb k) k.val (k.val + 128) 48 (k0_off25_eq k) (k0_off26_eq k) rfl _ (RowsLib.lane_sum _ _ _ _) x
  · exact fun x => RowsLib.piece_eq _ _ X P 128 _ _ _ (k0_off23_inb k) (k0_off23_inb k) (k0_off24_inb k) k.val (k.val + 128) 32 (k0_off23_eq k) (k0_off24_eq k) rfl _ (RowsLib.lane_sum _ _ _ _) x
  · exact fun x => RowsLib.piece_eq _ _ X P 128 _ _ _ (k0_off21_inb k) (k0_off21_inb k) (k0_off22_inb k) k.val (k.val + 128) 16 (k0_off21_eq k) (k0_off22_eq k) rfl _ (RowsLib.lane_sum _ _ _ _) x
  · exact fun x => RowsLib.piece_eq _ _ X P 128 _ _ _ (k0_off19_inb k) (k0_off19_inb k) (k0_off20_inb k) k.val (k.val + 128) 0 (k0_off19_eq k) (k0_off20_eq k) rfl _ (RowsLib.lane_sum _ _ _ _) x

set_option maxHeartbeats 2000000 in
/-- The eight pieces of trip k cover row k. -/
theorem trip_cover_t2 (d : Dev nD) (L : grid0.Coords) (v2 : BitVec 32) (X : BufTy.Contents (Elt F) (ibS1).view.ty) (P : BufTy.Contents (Elt F) (qV).view.ty)
    (k : Fin k0_t2_loop.trips) (r c : Fin 128) (hr : k.val = r.val) :
    ∃ p ∈ tripL_t2 (F := F) d L v2 X P k, (ValueIdx.ix2 r c : RowsLib.SS.Idx) ∈ p.1.set := by
  unfold tripL_t2 trip_t2
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off19_inb k) r c k.val 0 (k0_off19_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off21_inb k) r c k.val 16 (k0_off21_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off23_inb k) r c k.val 32 (k0_off23_eq k) hr h.1 h.2⟩
  · exact ⟨_, List.mem_cons_of_mem _ (List.mem_cons_of_mem _ (List.mem_cons_of_mem _ (List.mem_cons_of_mem _ (List.mem_cons_self)))), RowsLib.mem_unit _ (k0_off25_inb k) r c k.val 48 (k0_off25_eq k) hr h.1 h.2⟩
  · exact ⟨_, List.mem_cons_of_mem _ (List.mem_cons_of_mem _ (List.mem_cons_of_mem _ (List.mem_cons_self))), RowsLib.mem_unit _ (k0_off27_inb k) r c k.val 64 (k0_off27_eq k) hr h.1 h.2⟩
  · exact ⟨_, List.mem_cons_of_mem _ (List.mem_cons_of_mem _ (List.mem_cons_self)), RowsLib.mem_unit _ (k0_off29_inb k) r c k.val 80 (k0_off29_eq k) hr h.1 h.2⟩
  · exact ⟨_, List.mem_cons_of_mem _ (List.mem_cons_self), RowsLib.mem_unit _ (k0_off31_inb k) r c k.val 96 (k0_off31_eq k) hr h.1 h.2⟩
  · exact ⟨_, List.mem_cons_self, RowsLib.mem_unit _ (k0_off33_inb k) r c k.val 112 (k0_off33_eq k) hr h.1 h.2⟩

/-- The slot of sums after row loop 2, as the row-sum function: at (r, c) the gathered rows' entry plus the positional scratch's entry of row r + 128. -/
theorem rows_t2_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t2 (F := F) d L v2 X P 128)) (ValueIdx.ix2 r c)
      = RowsLib.rowG (ibS1).view (qV).view X P 128 (by omega) (ValueIdx.ix2 r c) :=
  RowsLib.read_writes_trips (n := k0_t2_loop.trips) (pb_t2 (F := F) d L v2 X P) (tripL_t2 (F := F) d L v2 X P) (obS1).view G _
    rfl (pb_t2_succ (F := F) d L v2 X P) (trip_pieces_t2 d L v2 X P) _ ⟨r.val, r.isLt⟩ (trip_cover_t2 d L v2 X P ⟨r.val, r.isLt⟩ r c rfl)

/-- THE SLOT OF SUMS AFTER ROW LOOP 2, whatever it held before: at (r, c) the gathered rows' entry (r, c) plus the positional
    scratch's entry (r + 128, c). -/
theorem rows_t2 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t2 (F := F) d L v2 X P (Scf.trips k0_t2_loop.lb k0_t2_loop.ub k0_t2_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t2_G d L v2 X P G r c

/-! ### the value of row loop 3 (slot 0, positional rows 0 … 127) -/

theorem trips_t3 : k0_t3_loop.trips = 128 := rfl

set_option maxHeartbeats 2000000 in
/-- Every piece of a trip of row loop 3 is the row sum on its rectangle. -/
theorem trip_pieces_t3 (d : Dev nD) (L : grid0.Coords) (v2 wa wb : BitVec 32) (X : BufTy.Contents (Elt F) (ibS0).view.ty) (P : BufTy.Contents (Elt F) (qV).view.ty) (k : Fin k0_t3_loop.trips) :
    ∀ p ∈ tripL_t3 (F := F) d L v2 wa wb X P k, ∀ x : p.1.shape.Idx, p.2 x = RowsLib.rowG (ibS0).view (qV).view X P 0 (by omega) (p.1.emb x) := by
  unfold tripL_t3 trip_t3
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off49_inb k) (k0_off49_inb k) (k0_off50_inb k) k.val (k.val + 0) 112 (k0_off49_eq k) (k0_off50_eq k) rfl _ (RowsLib.lane_sum _ _ _ _) x
  · exact fun x => RowsLib.piece_eq _ _ X P 0 _ _ _ (k0_off47_inb k) (k0_off47_inb k) (k0_off48_inb k) k.val (k.val + 0) 96 (k0_off47_eq k) (k0_off48_eq k) rfl _ (RowsLib.lane_sum _ _ _ _) x
  · exact fun x => RowsLib.piece_eq _ _ X P 0 _ _ _ (k0_off45_inb k) (k0_off45_inb k) (k0_off46_inb k) k.val (k.val + 0) 80 (k0_off45_eq k) (k0_off46_eq k) rfl _ (RowsLib.lane_sum _ _ _ _) x
  · exact fun x => RowsLib.piece_eq _ _ X P 0 _ _ _ (k0_off43_inb k) (k0_off43_inb k) (k0_off44_inb k) k.val (k.val + 0) 64 (k0_off43_eq k) (k0_off44_eq k) rfl _ (RowsLib.lane_sum _ _ _ _) x
  · exact fun x => RowsLib.piece_eq _ _ X P 0 _ _ _ (k0_off41_inb k) (k0_off41_inb k) (k0_off42_inb k) k.val (k.val + 0) 48 (k0_off41_eq k) (k0_off42_eq k) rfl _ (RowsLib.lane_sum _ _ _ _) x
  · exact fun x => RowsLib.piece_eq _ _ X P 0 _ _ _ (k0_off39_inb k) (k0_off39_inb k) (k0_off40_inb k) k.val (k.val + 0) 32 (k0_off39_eq k) (k0_off40_eq k) rfl _ (RowsLib.lane_sum _ _ _ _) x
  · exact fun x => RowsLib.piece_eq _ _ X P 0 _ _ _ (k0_off37_inb k) (k0_off37_inb k) (k0_off38_inb k) k.val (k.val + 0) 16 (k0_off37_eq k) (k0_off38_eq k) rfl _ (RowsLib.lane_sum _ _ _ _) x
  · exact fun x => RowsLib.piece_eq _ _ X P 0 _ _ _ (k0_off35_inb k) (k0_off35_inb k) (k0_off36_inb k) k.val (k.val + 0) 0 (k0_off35_eq k) (k0_off36_eq k) rfl _ (RowsLib.lane_sum _ _ _ _) x

set_option maxHeartbeats 2000000 in
/-- The eight pieces of trip k cover row k. -/
theorem trip_cover_t3 (d : Dev nD) (L : grid0.Coords) (v2 wa wb : BitVec 32) (X : BufTy.Contents (Elt F) (ibS0).view.ty) (P : BufTy.Contents (Elt F) (qV).view.ty)
    (k : Fin k0_t3_loop.trips) (r c : Fin 128) (hr : k.val = r.val) :
    ∃ p ∈ tripL_t3 (F := F) d L v2 wa wb X P k, (ValueIdx.ix2 r c : RowsLib.SS.Idx) ∈ p.1.set := by
  unfold tripL_t3 trip_t3
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off35_inb k) r c k.val 0 (k0_off35_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off37_inb k) r c k.val 16 (k0_off37_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off39_inb k) r c k.val 32 (k0_off39_eq k) hr h.1 h.2⟩
  · exact ⟨_, List.mem_cons_of_mem _ (List.mem_cons_of_mem _ (List.mem_cons_of_mem _ (List.mem_cons_of_mem _ (List.mem_cons_self)))), RowsLib.mem_unit _ (k0_off41_inb k) r c k.val 48 (k0_off41_eq k) hr h.1 h.2⟩
  · exact ⟨_, List.mem_cons_of_mem _ (List.mem_cons_of_mem _ (List.mem_cons_of_mem _ (List.mem_cons_self))), RowsLib.mem_unit _ (k0_off43_inb k) r c k.val 64 (k0_off43_eq k) hr h.1 h.2⟩
  · exact ⟨_, List.mem_cons_of_mem _ (List.mem_cons_of_mem _ (List.mem_cons_self)), RowsLib.mem_unit _ (k0_off45_inb k) r c k.val 80 (k0_off45_eq k) hr h.1 h.2⟩
  · exact ⟨_, List.mem_cons_of_mem _ (List.mem_cons_self), RowsLib.mem_unit _ (k0_off47_inb k) r c k.val 96 (k0_off47_eq k) hr h.1 h.2⟩
  · exact ⟨_, List.mem_cons_self, RowsLib.mem_unit _ (k0_off49_inb k) r c k.val 112 (k0_off49_eq k) hr h.1 h.2⟩

/-- The slot of sums after row loop 3, as the row-sum function: at (r, c) the gathered rows' entry plus the positional scratch's entry of row r + 0. -/
theorem rows_t3_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t3 (F := F) d L v2 wa wb X P 128)) (ValueIdx.ix2 r c)
      = RowsLib.rowG (ibS0).view (qV).view X P 0 (by omega) (ValueIdx.ix2 r c) :=
  RowsLib.read_writes_trips (n := k0_t3_loop.trips) (pb_t3 (F := F) d L v2 wa wb X P) (tripL_t3 (F := F) d L v2 wa wb X P) (obS0).view G _
    rfl (pb_t3_succ (F := F) d L v2 wa wb X P) (trip_pieces_t3 d L v2 wa wb X P) _ ⟨r.val, r.isLt⟩ (trip_cover_t3 d L v2 wa wb X P ⟨r.val, r.isLt⟩ r c rfl)

/-- THE SLOT OF SUMS AFTER ROW LOOP 3, whatever it held before: at (r, c) the gathered rows' entry (r, c) plus the positional
    scratch's entry (r + 0, c). -/
theorem rows_t3 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t3 (F := F) d L v2 wa wb X P (Scf.trips k0_t3_loop.lb k0_t3_loop.ub k0_t3_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t3_G d L v2 wa wb X P G r c

/-! ### the value of row loop 4 (slot 1, positional rows 128 … 255) -/

theorem trips_t4 : k0_t4_loop.trips = 128 := rfl

set_option maxHeartbeats 2000000 in
/-- Every piece of a trip of row loop 4 is the row sum on its rectangle. -/
theorem trip_pieces_t4 (d : Dev nD) (L : grid0.Coords) (v2 : BitVec 32) (X : BufTy.Contents (Elt F) (ibS1).view.ty) (P : BufTy.Contents (Elt F) (qV).view.ty) (k : Fin k0_t4_loop.trips) :
    ∀ p ∈ tripL_t4 (F := F) d L v2 X P k, ∀ x : p.1.shape.Idx, p.2 x = RowsLib.rowG (ibS1).view (qV).view X P 128 (by omega) (p.1.emb x) := by
  unfold tripL_t4 trip_t4
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off65_inb k) (k0_off65_inb k) (k0_off66_inb k) k.val (k.val + 128) 112 (k0_off65_eq k) (k0_off66_eq k) rfl _ (RowsLib.lane_sum _ _ _ _) x
  · exact fun x => RowsLib.piece_eq _ _ X P 128 _ _ _ (k0_off63_inb k) (k0_off63_inb k) (k0_off64_inb k) k.val (k.val + 128) 96 (k0_off63_eq k) (k0_off64_eq k) rfl _ (RowsLib.lane_sum _ _ _ _) x
  · exact fun x => RowsLib.piece_eq _ _ X P 128 _ _ _ (k0_off61_inb k) (k0_off61_inb k) (k0_off62_inb k) k.val (k.val + 128) 80 (k0_off61_eq k) (k0_off62_eq k) rfl _ (RowsLib.lane_sum _ _ _ _) x
  · exact fun x => RowsLib.piece_eq _ _ X P 128 _ _ _ (k0_off59_inb k) (k0_off59_inb k) (k0_off60_inb k) k.val (k.val + 128) 64 (k0_off59_eq k) (k0_off60_eq k) rfl _ (RowsLib.lane_sum _ _ _ _) x
  · exact fun x => RowsLib.piece_eq _ _ X P 128 _ _ _ (k0_off57_inb k) (k0_off57_inb k) (k0_off58_inb k) k.val (k.val + 128) 48 (k0_off57_eq k) (k0_off58_eq k) rfl _ (RowsLib.lane_sum _ _ _ _) x
  · exact fun x => RowsLib.piece_eq _ _ X P 128 _ _ _ (k0_off55_inb k) (k0_off55_inb k) (k0_off56_inb k) k.val (k.val + 128) 32 (k0_off55_eq k) (k0_off56_eq k) rfl _ (RowsLib.lane_sum _ _ _ _) x
  · exact fun x => RowsLib.piece_eq _ _ X P 128 _ _ _ (k0_off53_inb k) (k0_off53_inb k) (k0_off54_inb k) k.val (k.val + 128) 16 (k0_off53_eq k) (k0_off54_eq k) rfl _ (RowsLib.lane_sum _ _ _ _) x
  · exact fun x => RowsLib.piece_eq _ _ X P 128 _ _ _ (k0_off51_inb k) (k0_off51_inb k) (k0_off52_inb k) k.val (k.val + 128) 0 (k0_off51_eq k) (k0_off52_eq k) rfl _ (RowsLib.lane_sum _ _ _ _) x

set_option maxHeartbeats 2000000 in
/-- The eight pieces of trip k cover row k. -/
theorem trip_cover_t4 (d : Dev nD) (L : grid0.Coords) (v2 : BitVec 32) (X : BufTy.Contents (Elt F) (ibS1).view.ty) (P : BufTy.Contents (Elt F) (qV).view.ty)
    (k : Fin k0_t4_loop.trips) (r c : Fin 128) (hr : k.val = r.val) :
    ∃ p ∈ tripL_t4 (F := F) d L v2 X P k, (ValueIdx.ix2 r c : RowsLib.SS.Idx) ∈ p.1.set := by
  unfold tripL_t4 trip_t4
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off51_inb k) r c k.val 0 (k0_off51_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off53_inb k) r c k.val 16 (k0_off53_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off55_inb k) r c k.val 32 (k0_off55_eq k) hr h.1 h.2⟩
  · exact ⟨_, List.mem_cons_of_mem _ (List.mem_cons_of_mem _ (List.mem_cons_of_mem _ (List.mem_cons_of_mem _ (List.mem_cons_self)))), RowsLib.mem_unit _ (k0_off57_inb k) r c k.val 48 (k0_off57_eq k) hr h.1 h.2⟩
  · exact ⟨_, List.mem_cons_of_mem _ (List.mem_cons_of_mem _ (List.mem_cons_of_mem _ (List.mem_cons_self))), RowsLib.mem_unit _ (k0_off59_inb k) r c k.val 64 (k0_off59_eq k) hr h.1 h.2⟩
  · exact ⟨_, List.mem_cons_of_mem _ (List.mem_cons_of_mem _ (List.mem_cons_self)), RowsLib.mem_unit _ (k0_off61_inb k) r c k.val 80 (k0_off61_eq k) hr h.1 h.2⟩
  · exact ⟨_, List.mem_cons_of_mem _ (List.mem_cons_self), RowsLib.mem_unit _ (k0_off63_inb k) r c k.val 96 (k0_off63_eq k) hr h.1 h.2⟩
  · exact ⟨_, List.mem_cons_self, RowsLib.mem_unit _ (k0_off65_inb k) r c k.val 112 (k0_off65_eq k) hr h.1 h.2⟩

/-- The slot of sums after row loop 4, as the row-sum function: at (r, c) the gathered rows' entry plus the positional scratch's entry of row r + 128. -/
theorem rows_t4_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t4 (F := F) d L v2 X P 128)) (ValueIdx.ix2 r c)
      = RowsLib.rowG (ibS1).view (qV).view X P 128 (by omega) (ValueIdx.ix2 r c) :=
  RowsLib.read_writes_trips (n := k0_t4_loop.trips) (pb_t4 (F := F) d L v2 X P) (tripL_t4 (F := F) d L v2 X P) (obS1).view G _
    rfl (pb_t4_succ (F := F) d L v2 X P) (trip_pieces_t4 d L v2 X P) _ ⟨r.val, r.isLt⟩ (trip_cover_t4 d L v2 X P ⟨r.val, r.isLt⟩ r c rfl)

/-- THE SLOT OF SUMS AFTER ROW LOOP 4, whatever it held before: at (r, c) the gathered rows' entry (r, c) plus the positional
    scratch's entry (r + 128, c). -/
theorem rows_t4 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t4 (F := F) d L v2 X P (Scf.trips k0_t4_loop.lb k0_t4_loop.ub k0_t4_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t4_G d L v2 X P G r c

/-! ### the value of row loop 5 (slot 0, positional rows 0 … 127) -/

theorem trips_t5 : k0_t5_loop.trips = 128 := rfl

set_option maxHeartbeats 2000000 in
/-- Every piece of a trip of row loop 5 is the row sum on its rectangle. -/
theorem trip_pieces_t5 (d : Dev nD) (L : grid0.Coords) (v2 : BitVec 32) (X : BufTy.Contents (Elt F) (ibS0).view.ty) (P : BufTy.Contents (Elt F) (qV).view.ty) (k : Fin k0_t5_loop.trips) :
    ∀ p ∈ tripL_t5 (F := F) d L v2 X P k, ∀ x : p.1.shape.Idx, p.2 x = RowsLib.rowG (ibS0).view (qV).view X P 0 (by omega) (p.1.emb x) := by
  unfold tripL_t5 trip_t5
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off81_inb k) (k0_off81_inb k) (k0_off82_inb k) k.val (k.val + 0) 112 (k0_off81_eq k) (k0_off82_eq k) rfl _ (RowsLib.lane_sum _ _ _ _) x
  · exact fun x => RowsLib.piece_eq _ _ X P 0 _ _ _ (k0_off79_inb k) (k0_off79_inb k) (k0_off80_inb k) k.val (k.val + 0) 96 (k0_off79_eq k) (k0_off80_eq k) rfl _ (RowsLib.lane_sum _ _ _ _) x
  · exact fun x => RowsLib.piece_eq _ _ X P 0 _ _ _ (k0_off77_inb k) (k0_off77_inb k) (k0_off78_inb k) k.val (k.val + 0) 80 (k0_off77_eq k) (k0_off78_eq k) rfl _ (RowsLib.lane_sum _ _ _ _) x
  · exact fun x => RowsLib.piece_eq _ _ X P 0 _ _ _ (k0_off75_inb k) (k0_off75_inb k) (k0_off76_inb k) k.val (k.val + 0) 64 (k0_off75_eq k) (k0_off76_eq k) rfl _ (RowsLib.lane_sum _ _ _ _) x
  · exact fun x => RowsLib.piece_eq _ _ X P 0 _ _ _ (k0_off73_inb k) (k0_off73_inb k) (k0_off74_inb k) k.val (k.val + 0) 48 (k0_off73_eq k) (k0_off74_eq k) rfl _ (RowsLib.lane_sum _ _ _ _) x
  · exact fun x => RowsLib.piece_eq _ _ X P 0 _ _ _ (k0_off71_inb k) (k0_off71_inb k) (k0_off72_inb k) k.val (k.val + 0) 32 (k0_off71_eq k) (k0_off72_eq k) rfl _ (RowsLib.lane_sum _ _ _ _) x
  · exact fun x => RowsLib.piece_eq _ _ X P 0 _ _ _ (k0_off69_inb k) (k0_off69_inb k) (k0_off70_inb k) k.val (k.val + 0) 16 (k0_off69_eq k) (k0_off70_eq k) rfl _ (RowsLib.lane_sum _ _ _ _) x
  · exact fun x => RowsLib.piece_eq _ _ X P 0 _ _ _ (k0_off67_inb k) (k0_off67_inb k) (k0_off68_inb k) k.val (k.val + 0) 0 (k0_off67_eq k) (k0_off68_eq k) rfl _ (RowsLib.lane_sum _ _ _ _) x

set_option maxHeartbeats 2000000 in
/-- The eight pieces of trip k cover row k. -/
theorem trip_cover_t5 (d : Dev nD) (L : grid0.Coords) (v2 : BitVec 32) (X : BufTy.Contents (Elt F) (ibS0).view.ty) (P : BufTy.Contents (Elt F) (qV).view.ty)
    (k : Fin k0_t5_loop.trips) (r c : Fin 128) (hr : k.val = r.val) :
    ∃ p ∈ tripL_t5 (F := F) d L v2 X P k, (ValueIdx.ix2 r c : RowsLib.SS.Idx) ∈ p.1.set := by
  unfold tripL_t5 trip_t5
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off67_inb k) r c k.val 0 (k0_off67_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off69_inb k) r c k.val 16 (k0_off69_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off71_inb k) r c k.val 32 (k0_off71_eq k) hr h.1 h.2⟩
  · exact ⟨_, List.mem_cons_of_mem _ (List.mem_cons_of_mem _ (List.mem_cons_of_mem _ (List.mem_cons_of_mem _ (List.mem_cons_self)))), RowsLib.mem_unit _ (k0_off73_inb k) r c k.val 48 (k0_off73_eq k) hr h.1 h.2⟩
  · exact ⟨_, List.mem_cons_of_mem _ (List.mem_cons_of_mem _ (List.mem_cons_of_mem _ (List.mem_cons_self))), RowsLib.mem_unit _ (k0_off75_inb k) r c k.val 64 (k0_off75_eq k) hr h.1 h.2⟩
  · exact ⟨_, List.mem_cons_of_mem _ (List.mem_cons_of_mem _ (List.mem_cons_self)), RowsLib.mem_unit _ (k0_off77_inb k) r c k.val 80 (k0_off77_eq k) hr h.1 h.2⟩
  · exact ⟨_, List.mem_cons_of_mem _ (List.mem_cons_self), RowsLib.mem_unit _ (k0_off79_inb k) r c k.val 96 (k0_off79_eq k) hr h.1 h.2⟩
  · exact ⟨_, List.mem_cons_self, RowsLib.mem_unit _ (k0_off81_inb k) r c k.val 112 (k0_off81_eq k) hr h.1 h.2⟩

/-- The slot of sums after row loop 5, as the row-sum function: at (r, c) the gathered rows' entry plus the positional scratch's entry of row r + 0. -/
theorem rows_t5_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t5 (F := F) d L v2 X P 128)) (ValueIdx.ix2 r c)
      = RowsLib.rowG (ibS0).view (qV).view X P 0 (by omega) (ValueIdx.ix2 r c) :=
  RowsLib.read_writes_trips (n := k0_t5_loop.trips) (pb_t5 (F := F) d L v2 X P) (tripL_t5 (F := F) d L v2 X P) (obS0).view G _
    rfl (pb_t5_succ (F := F) d L v2 X P) (trip_pieces_t5 d L v2 X P) _ ⟨r.val, r.isLt⟩ (trip_cover_t5 d L v2 X P ⟨r.val, r.isLt⟩ r c rfl)

/-- THE SLOT OF SUMS AFTER ROW LOOP 5, whatever it held before: at (r, c) the gathered rows' entry (r, c) plus the positional
    scratch's entry (r + 0, c). -/
theorem rows_t5 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t5 (F := F) d L v2 X P (Scf.trips k0_t5_loop.lb k0_t5_loop.ub k0_t5_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t5_G d L v2 X P G r c

/-! ### the value of row loop 6 (slot 1, positional rows 128 … 255) -/

theorem trips_t6 : k0_t6_loop.trips = 128 := rfl

set_option maxHeartbeats 2000000 in
/-- Every piece of a trip of row loop 6 is the row sum on its rectangle. -/
theorem trip_pieces_t6 (d : Dev nD) (L : grid0.Coords) (v2 : BitVec 32) (X : BufTy.Contents (Elt F) (ibS1).view.ty) (P : BufTy.Contents (Elt F) (qV).view.ty) (k : Fin k0_t6_loop.trips) :
    ∀ p ∈ tripL_t6 (F := F) d L v2 X P k, ∀ x : p.1.shape.Idx, p.2 x = RowsLib.rowG (ibS1).view (qV).view X P 128 (by omega) (p.1.emb x) := by
  unfold tripL_t6 trip_t6
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off97_inb k) (k0_off97_inb k) (k0_off98_inb k) k.val (k.val + 128) 112 (k0_off97_eq k) (k0_off98_eq k) rfl _ (RowsLib.lane_sum _ _ _ _) x
  · exact fun x => RowsLib.piece_eq _ _ X P 128 _ _ _ (k0_off95_inb k) (k0_off95_inb k) (k0_off96_inb k) k.val (k.val + 128) 96 (k0_off95_eq k) (k0_off96_eq k) rfl _ (RowsLib.lane_sum _ _ _ _) x
  · exact fun x => RowsLib.piece_eq _ _ X P 128 _ _ _ (k0_off93_inb k) (k0_off93_inb k) (k0_off94_inb k) k.val (k.val + 128) 80 (k0_off93_eq k) (k0_off94_eq k) rfl _ (RowsLib.lane_sum _ _ _ _) x
  · exact fun x => RowsLib.piece_eq _ _ X P 128 _ _ _ (k0_off91_inb k) (k0_off91_inb k) (k0_off92_inb k) k.val (k.val + 128) 64 (k0_off91_eq k) (k0_off92_eq k) rfl _ (RowsLib.lane_sum _ _ _ _) x
  · exact fun x => RowsLib.piece_eq _ _ X P 128 _ _ _ (k0_off89_inb k) (k0_off89_inb k) (k0_off90_inb k) k.val (k.val + 128) 48 (k0_off89_eq k) (k0_off90_eq k) rfl _ (RowsLib.lane_sum _ _ _ _) x
  · exact fun x => RowsLib.piece_eq _ _ X P 128 _ _ _ (k0_off87_inb k) (k0_off87_inb k) (k0_off88_inb k) k.val (k.val + 128) 32 (k0_off87_eq k) (k0_off88_eq k) rfl _ (RowsLib.lane_sum _ _ _ _) x
  · exact fun x => RowsLib.piece_eq _ _ X P 128 _ _ _ (k0_off85_inb k) (k0_off85_inb k) (k0_off86_inb k) k.val (k.val + 128) 16 (k0_off85_eq k) (k0_off86_eq k) rfl _ (RowsLib.lane_sum _ _ _ _) x
  · exact fun x => RowsLib.piece_eq _ _ X P 128 _ _ _ (k0_off83_inb k) (k0_off83_inb k) (k0_off84_inb k) k.val (k.val + 128) 0 (k0_off83_eq k) (k0_off84_eq k) rfl _ (RowsLib.lane_sum _ _ _ _) x

set_option maxHeartbeats 2000000 in
/-- The eight pieces of trip k cover row k. -/
theorem trip_cover_t6 (d : Dev nD) (L : grid0.Coords) (v2 : BitVec 32) (X : BufTy.Contents (Elt F) (ibS1).view.ty) (P : BufTy.Contents (Elt F) (qV).view.ty)
    (k : Fin k0_t6_loop.trips) (r c : Fin 128) (hr : k.val = r.val) :
    ∃ p ∈ tripL_t6 (F := F) d L v2 X P k, (ValueIdx.ix2 r c : RowsLib.SS.Idx) ∈ p.1.set := by
  unfold tripL_t6 trip_t6
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off83_inb k) r c k.val 0 (k0_off83_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off85_inb k) r c k.val 16 (k0_off85_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off87_inb k) r c k.val 32 (k0_off87_eq k) hr h.1 h.2⟩
  · exact ⟨_, List.mem_cons_of_mem _ (List.mem_cons_of_mem _ (List.mem_cons_of_mem _ (List.mem_cons_of_mem _ (List.mem_cons_self)))), RowsLib.mem_unit _ (k0_off89_inb k) r c k.val 48 (k0_off89_eq k) hr h.1 h.2⟩
  · exact ⟨_, List.mem_cons_of_mem _ (List.mem_cons_of_mem _ (List.mem_cons_of_mem _ (List.mem_cons_self))), RowsLib.mem_unit _ (k0_off91_inb k) r c k.val 64 (k0_off91_eq k) hr h.1 h.2⟩
  · exact ⟨_, List.mem_cons_of_mem _ (List.mem_cons_of_mem _ (List.mem_cons_self)), RowsLib.mem_unit _ (k0_off93_inb k) r c k.val 80 (k0_off93_eq k) hr h.1 h.2⟩
  · exact ⟨_, List.mem_cons_of_mem _ (List.mem_cons_self), RowsLib.mem_unit _ (k0_off95_inb k) r c k.val 96 (k0_off95_eq k) hr h.1 h.2⟩
  · exact ⟨_, List.mem_cons_self, RowsLib.mem_unit _ (k0_off97_inb k) r c k.val 112 (k0_off97_eq k) hr h.1 h.2⟩

/-- The slot of sums after row loop 6, as the row-sum function: at (r, c) the gathered rows' entry plus the positional scratch's entry of row r + 128. -/
theorem rows_t6_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t6 (F := F) d L v2 X P 128)) (ValueIdx.ix2 r c)
      = RowsLib.rowG (ibS1).view (qV).view X P 128 (by omega) (ValueIdx.ix2 r c) :=
  RowsLib.read_writes_trips (n := k0_t6_loop.trips) (pb_t6 (F := F) d L v2 X P) (tripL_t6 (F := F) d L v2 X P) (obS1).view G _
    rfl (pb_t6_succ (F := F) d L v2 X P) (trip_pieces_t6 d L v2 X P) _ ⟨r.val, r.isLt⟩ (trip_cover_t6 d L v2 X P ⟨r.val, r.isLt⟩ r c rfl)

/-- THE SLOT OF SUMS AFTER ROW LOOP 6, whatever it held before: at (r, c) the gathered rows' entry (r, c) plus the positional
    scratch's entry (r + 128, c). -/
theorem rows_t6 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t6 (F := F) d L v2 X P (Scf.trips k0_t6_loop.lb k0_t6_loop.ub k0_t6_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t6_G d L v2 X P G r c

/-! ### the value of row loop 7 (slot 0, positional rows 0 … 127) -/

theorem trips_t7 : k0_t7_loop.trips = 128 := rfl

set_option maxHeartbeats 2000000 in
/-- Every piece of a trip of row loop 7 is the row sum on its rectangle. -/
theorem trip_pieces_t7 (d : Dev nD) (L : grid0.Coords) (v2 : BitVec 32) (X : BufTy.Contents (Elt F) (ibS0).view.ty) (P : BufTy.Contents (Elt F) (qV).view.ty) (k : Fin k0_t7_loop.trips) :
    ∀ p ∈ tripL_t7 (F := F) d L v2 X P k, ∀ x : p.1.shape.Idx, p.2 x = RowsLib.rowG (ibS0).view (qV).view X P 0 (by omega) (p.1.emb x) := by
  unfold tripL_t7 trip_t7
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off113_inb k) (k0_off113_inb k) (k0_off114_inb k) k.val (k.val + 0) 112 (k0_off113_eq k) (k0_off114_eq k) rfl _ (RowsLib.lane_sum _ _ _ _) x
  · exact fun x => RowsLib.piece_eq _ _ X P 0 _ _ _ (k0_off111_inb k) (k0_off111_inb k) (k0_off112_inb k) k.val (k.val + 0) 96 (k0_off111_eq k) (k0_off112_eq k) rfl _ (RowsLib.lane_sum _ _ _ _) x
  · exact fun x => RowsLib.piece_eq _ _ X P 0 _ _ _ (k0_off109_inb k) (k0_off109_inb k) (k0_off110_inb k) k.val (k.val + 0) 80 (k0_off109_eq k) (k0_off110_eq k) rfl _ (RowsLib.lane_sum _ _ _ _) x
  · exact fun x => RowsLib.piece_eq _ _ X P 0 _ _ _ (k0_off107_inb k) (k0_off107_inb k) (k0_off108_inb k) k.val (k.val + 0) 64 (k0_off107_eq k) (k0_off108_eq k) rfl _ (RowsLib.lane_sum _ _ _ _) x
  · exact fun x => RowsLib.piece_eq _ _ X P 0 _ _ _ (k0_off105_inb k) (k0_off105_inb k) (k0_off106_inb k) k.val (k.val + 0) 48 (k0_off105_eq k) (k0_off106_eq k) rfl _ (RowsLib.lane_sum _ _ _ _) x
  · exact fun x => RowsLib.piece_eq _ _ X P 0 _ _ _ (k0_off103_inb k) (k0_off103_inb k) (k0_off104_inb k) k.val (k.val + 0) 32 (k0_off103_eq k) (k0_off104_eq k) rfl _ (RowsLib.lane_sum _ _ _ _) x
  · exact fun x => RowsLib.piece_eq _ _ X P 0 _ _ _ (k0_off101_inb k) (k0_off101_inb k) (k0_off102_inb k) k.val (k.val + 0) 16 (k0_off101_eq k) (k0_off102_eq k) rfl _ (RowsLib.lane_sum _ _ _ _) x
  · exact fun x => RowsLib.piece_eq _ _ X P 0 _ _ _ (k0_off99_inb k) (k0_off99_inb k) (k0_off100_inb k) k.val (k.val + 0) 0 (k0_off99_eq k) (k0_off100_eq k) rfl _ (RowsLib.lane_sum _ _ _ _) x

set_option maxHeartbeats 2000000 in
/-- The eight pieces of trip k cover row k. -/
theorem trip_cover_t7 (d : Dev nD) (L : grid0.Coords) (v2 : BitVec 32) (X : BufTy.Contents (Elt F) (ibS0).view.ty) (P : BufTy.Contents (Elt F) (qV).view.ty)
    (k : Fin k0_t7_loop.trips) (r c : Fin 128) (hr : k.val = r.val) :
    ∃ p ∈ tripL_t7 (F := F) d L v2 X P k, (ValueIdx.ix2 r c : RowsLib.SS.Idx) ∈ p.1.set := by
  unfold tripL_t7 trip_t7
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off99_inb k) r c k.val 0 (k0_off99_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off101_inb k) r c k.val 16 (k0_off101_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off103_inb k) r c k.val 32 (k0_off103_eq k) hr h.1 h.2⟩
  · exact ⟨_, List.mem_cons_of_mem _ (List.mem_cons_of_mem _ (List.mem_cons_of_mem _ (List.mem_cons_of_mem _ (List.mem_cons_self)))), RowsLib.mem_unit _ (k0_off105_inb k) r c k.val 48 (k0_off105_eq k) hr h.1 h.2⟩
  · exact ⟨_, List.mem_cons_of_mem _ (List.mem_cons_of_mem _ (List.mem_cons_of_mem _ (List.mem_cons_self))), RowsLib.mem_unit _ (k0_off107_inb k) r c k.val 64 (k0_off107_eq k) hr h.1 h.2⟩
  · exact ⟨_, List.mem_cons_of_mem _ (List.mem_cons_of_mem _ (List.mem_cons_self)), RowsLib.mem_unit _ (k0_off109_inb k) r c k.val 80 (k0_off109_eq k) hr h.1 h.2⟩
  · exact ⟨_, List.mem_cons_of_mem _ (List.mem_cons_self), RowsLib.mem_unit _ (k0_off111_inb k) r c k.val 96 (k0_off111_eq k) hr h.1 h.2⟩
  · exact ⟨_, List.mem_cons_self, RowsLib.mem_unit _ (k0_off113_inb k) r c k.val 112 (k0_off113_eq k) hr h.1 h.2⟩

/-- The slot of sums after row loop 7, as the row-sum function: at (r, c) the gathered rows' entry plus the positional scratch's entry of row r + 0. -/
theorem rows_t7_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t7 (F := F) d L v2 X P 128)) (ValueIdx.ix2 r c)
      = RowsLib.rowG (ibS0).view (qV).view X P 0 (by omega) (ValueIdx.ix2 r c) :=
  RowsLib.read_writes_trips (n := k0_t7_loop.trips) (pb_t7 (F := F) d L v2 X P) (tripL_t7 (F := F) d L v2 X P) (obS0).view G _
    rfl (pb_t7_succ (F := F) d L v2 X P) (trip_pieces_t7 d L v2 X P) _ ⟨r.val, r.isLt⟩ (trip_cover_t7 d L v2 X P ⟨r.val, r.isLt⟩ r c rfl)

/-- THE SLOT OF SUMS AFTER ROW LOOP 7, whatever it held before: at (r, c) the gathered rows' entry (r, c) plus the positional
    scratch's entry (r + 0, c). -/
theorem rows_t7 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t7 (F := F) d L v2 X P (Scf.trips k0_t7_loop.lb k0_t7_loop.ub k0_t7_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t7_G d L v2 X P G r c

/-! ### the value of row loop 8 (slot 1, positional rows 128 … 255) -/

theorem trips_t8 : k0_t8_loop.trips = 128 := rfl

set_option maxHeartbeats 2000000 in
/-- Every piece of a trip of row loop 8 is the row sum on its rectangle. -/
theorem trip_pieces_t8 (d : Dev nD) (L : grid0.Coords) (v2 : BitVec 32) (X : BufTy.Contents (Elt F) (ibS1).view.ty) (P : BufTy.Contents (Elt F) (qV).view.ty) (k : Fin k0_t8_loop.trips) :
    ∀ p ∈ tripL_t8 (F := F) d L v2 X P k, ∀ x : p.1.shape.Idx, p.2 x = RowsLib.rowG (ibS1).view (qV).view X P 128 (by omega) (p.1.emb x) := by
  unfold tripL_t8 trip_t8
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off129_inb k) (k0_off129_inb k) (k0_off130_inb k) k.val (k.val + 128) 112 (k0_off129_eq k) (k0_off130_eq k) rfl _ (RowsLib.lane_sum _ _ _ _) x
  · exact fun x => RowsLib.piece_eq _ _ X P 128 _ _ _ (k0_off127_inb k) (k0_off127_inb k) (k0_off128_inb k) k.val (k.val + 128) 96 (k0_off127_eq k) (k0_off128_eq k) rfl _ (RowsLib.lane_sum _ _ _ _) x
  · exact fun x => RowsLib.piece_eq _ _ X P 128 _ _ _ (k0_off125_inb k) (k0_off125_inb k) (k0_off126_inb k) k.val (k.val + 128) 80 (k0_off125_eq k) (k0_off126_eq k) rfl _ (RowsLib.lane_sum _ _ _ _) x
  · exact fun x => RowsLib.piece_eq _ _ X P 128 _ _ _ (k0_off123_inb k) (k0_off123_inb k) (k0_off124_inb k) k.val (k.val + 128) 64 (k0_off123_eq k) (k0_off124_eq k) rfl _ (RowsLib.lane_sum _ _ _ _) x
  · exact fun x => RowsLib.piece_eq _ _ X P 128 _ _ _ (k0_off121_inb k) (k0_off121_inb k) (k0_off122_inb k) k.val (k.val + 128) 48 (k0_off121_eq k) (k0_off122_eq k) rfl _ (RowsLib.lane_sum _ _ _ _) x
  · exact fun x => RowsLib.piece_eq _ _ X P 128 _ _ _ (k0_off119_inb k) (k0_off119_inb k) (k0_off120_inb k) k.val (k.val + 128) 32 (k0_off119_eq k) (k0_off120_eq k) rfl _ (RowsLib.lane_sum _ _ _ _) x
  · exact fun x => RowsLib.piece_eq _ _ X P 128 _ _ _ (k0_off117_inb k) (k0_off117_inb k) (k0_off118_inb k) k.val (k.val + 128) 16 (k0_off117_eq k) (k0_off118_eq k) rfl _ (RowsLib.lane_sum _ _ _ _) x
  · exact fun x => RowsLib.piece_eq _ _ X P 128 _ _ _ (k0_off115_inb k) (k0_off115_inb k) (k0_off116_inb k) k.val (k.val + 128) 0 (k0_off115_eq k) (k0_off116_eq k) rfl _ (RowsLib.lane_sum _ _ _ _) x

set_option maxHeartbeats 2000000 in
/-- The eight pieces of trip k cover row k. -/
theorem trip_cover_t8 (d : Dev nD) (L : grid0.Coords) (v2 : BitVec 32) (X : BufTy.Contents (Elt F) (ibS1).view.ty) (P : BufTy.Contents (Elt F) (qV).view.ty)
    (k : Fin k0_t8_loop.trips) (r c : Fin 128) (hr : k.val = r.val) :
    ∃ p ∈ tripL_t8 (F := F) d L v2 X P k, (ValueIdx.ix2 r c : RowsLib.SS.Idx) ∈ p.1.set := by
  unfold tripL_t8 trip_t8
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off115_inb k) r c k.val 0 (k0_off115_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off117_inb k) r c k.val 16 (k0_off117_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off119_inb k) r c k.val 32 (k0_off119_eq k) hr h.1 h.2⟩
  · exact ⟨_, List.mem_cons_of_mem _ (List.mem_cons_of_mem _ (List.mem_cons_of_mem _ (List.mem_cons_of_mem _ (List.mem_cons_self)))), RowsLib.mem_unit _ (k0_off121_inb k) r c k.val 48 (k0_off121_eq k) hr h.1 h.2⟩
  · exact ⟨_, List.mem_cons_of_mem _ (List.mem_cons_of_mem _ (List.mem_cons_of_mem _ (List.mem_cons_self))), RowsLib.mem_unit _ (k0_off123_inb k) r c k.val 64 (k0_off123_eq k) hr h.1 h.2⟩
  · exact ⟨_, List.mem_cons_of_mem _ (List.mem_cons_of_mem _ (List.mem_cons_self)), RowsLib.mem_unit _ (k0_off125_inb k) r c k.val 80 (k0_off125_eq k) hr h.1 h.2⟩
  · exact ⟨_, List.mem_cons_of_mem _ (List.mem_cons_self), RowsLib.mem_unit _ (k0_off127_inb k) r c k.val 96 (k0_off127_eq k) hr h.1 h.2⟩
  · exact ⟨_, List.mem_cons_self, RowsLib.mem_unit _ (k0_off129_inb k) r c k.val 112 (k0_off129_eq k) hr h.1 h.2⟩

/-- The slot of sums after row loop 8, as the row-sum function: at (r, c) the gathered rows' entry plus the positional scratch's entry of row r + 128. -/
theorem rows_t8_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t8 (F := F) d L v2 X P 128)) (ValueIdx.ix2 r c)
      = RowsLib.rowG (ibS1).view (qV).view X P 128 (by omega) (ValueIdx.ix2 r c) :=
  RowsLib.read_writes_trips (n := k0_t8_loop.trips) (pb_t8 (F := F) d L v2 X P) (tripL_t8 (F := F) d L v2 X P) (obS1).view G _
    rfl (pb_t8_succ (F := F) d L v2 X P) (trip_pieces_t8 d L v2 X P) _ ⟨r.val, r.isLt⟩ (trip_cover_t8 d L v2 X P ⟨r.val, r.isLt⟩ r c rfl)

/-- THE SLOT OF SUMS AFTER ROW LOOP 8, whatever it held before: at (r, c) the gathered rows' entry (r, c) plus the positional
    scratch's entry (r + 128, c). -/
theorem rows_t8 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t8 (F := F) d L v2 X P (Scf.trips k0_t8_loop.lb k0_t8_loop.ub k0_t8_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t8_G d L v2 X P G r c

/-! ### the value of row loop 9 (slot 0, positional rows 0 … 127) -/

theorem trips_t9 : k0_t9_loop.trips = 128 := rfl

set_option maxHeartbeats 2000000 in
/-- Every piece of a trip of row loop 9 is the row sum on its rectangle. -/
theorem trip_pieces_t9 (d : Dev nD) (L : grid0.Coords) (v2 : BitVec 32) (X : BufTy.Contents (Elt F) (ibS0).view.ty) (P : BufTy.Contents (Elt F) (qV).view.ty) (k : Fin k0_t9_loop.trips) :
    ∀ p ∈ tripL_t9 (F := F) d L v2 X P k, ∀ x : p.1.shape.Idx, p.2 x = RowsLib.rowG (ibS0).view (qV).view X P 0 (by omega) (p.1.emb x) := by
  unfold tripL_t9 trip_t9
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off145_inb k) (k0_off145_inb k) (k0_off146_inb k) k.val (k.val + 0) 112 (k0_off145_eq k) (k0_off146_eq k) rfl _ (RowsLib.lane_sum _ _ _ _) x
  · exact fun x => RowsLib.piece_eq _ _ X P 0 _ _ _ (k0_off143_inb k) (k0_off143_inb k) (k0_off144_inb k) k.val (k.val + 0) 96 (k0_off143_eq k) (k0_off144_eq k) rfl _ (RowsLib.lane_sum _ _ _ _) x
  · exact fun x => RowsLib.piece_eq _ _ X P 0 _ _ _ (k0_off141_inb k) (k0_off141_inb k) (k0_off142_inb k) k.val (k.val + 0) 80 (k0_off141_eq k) (k0_off142_eq k) rfl _ (RowsLib.lane_sum _ _ _ _) x
  · exact fun x => RowsLib.piece_eq _ _ X P 0 _ _ _ (k0_off139_inb k) (k0_off139_inb k) (k0_off140_inb k) k.val (k.val + 0) 64 (k0_off139_eq k) (k0_off140_eq k) rfl _ (RowsLib.lane_sum _ _ _ _) x
  · exact fun x => RowsLib.piece_eq _ _ X P 0 _ _ _ (k0_off137_inb k) (k0_off137_inb k) (k0_off138_inb k) k.val (k.val + 0) 48 (k0_off137_eq k) (k0_off138_eq k) rfl _ (RowsLib.lane_sum _ _ _ _) x
  · exact fun x => RowsLib.piece_eq _ _ X P 0 _ _ _ (k0_off135_inb k) (k0_off135_inb k) (k0_off136_inb k) k.val (k.val + 0) 32 (k0_off135_eq k) (k0_off136_eq k) rfl _ (RowsLib.lane_sum _ _ _ _) x
  · exact fun x => RowsLib.piece_eq _ _ X P 0 _ _ _ (k0_off133_inb k) (k0_off133_inb k) (k0_off134_inb k) k.val (k.val + 0) 16 (k0_off133_eq k) (k0_off134_eq k) rfl _ (RowsLib.lane_sum _ _ _ _) x
  · exact fun x => RowsLib.piece_eq _ _ X P 0 _ _ _ (k0_off131_inb k) (k0_off131_inb k) (k0_off132_inb k) k.val (k.val + 0) 0 (k0_off131_eq k) (k0_off132_eq k) rfl _ (RowsLib.lane_sum _ _ _ _) x

set_option maxHeartbeats 2000000 in
/-- The eight pieces of trip k cover row k. -/
theorem trip_cover_t9 (d : Dev nD) (L : grid0.Coords) (v2 : BitVec 32) (X : BufTy.Contents (Elt F) (ibS0).view.ty) (P : BufTy.Contents (Elt F) (qV).view.ty)
    (k : Fin k0_t9_loop.trips) (r c : Fin 128) (hr : k.val = r.val) :
    ∃ p ∈ tripL_t9 (F := F) d L v2 X P k, (ValueIdx.ix2 r c : RowsLib.SS.Idx) ∈ p.1.set := by
  unfold tripL_t9 trip_t9
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off131_inb k) r c k.val 0 (k0_off131_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off133_inb k) r c k.val 16 (k0_off133_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off135_inb k) r c k.val 32 (k0_off135_eq k) hr h.1 h.2⟩
  · exact ⟨_, List.mem_cons_of_mem _ (List.mem_cons_of_mem _ (List.mem_cons_of_mem _ (List.mem_cons_of_mem _ (List.mem_cons_self)))), RowsLib.mem_unit _ (k0_off137_inb k) r c k.val 48 (k0_off137_eq k) hr h.1 h.2⟩
  · exact ⟨_, List.mem_cons_of_mem _ (List.mem_cons_of_mem _ (List.mem_cons_of_mem _ (List.mem_cons_self))), RowsLib.mem_unit _ (k0_off139_inb k) r c k.val 64 (k0_off139_eq k) hr h.1 h.2⟩
  · exact ⟨_, List.mem_cons_of_mem _ (List.mem_cons_of_mem _ (List.mem_cons_self)), RowsLib.mem_unit _ (k0_off141_inb k) r c k.val 80 (k0_off141_eq k) hr h.1 h.2⟩
  · exact ⟨_, List.mem_cons_of_mem _ (List.mem_cons_self), RowsLib.mem_unit _ (k0_off143_inb k) r c k.val 96 (k0_off143_eq k) hr h.1 h.2⟩
  · exact ⟨_, List.mem_cons_self, RowsLib.mem_unit _ (k0_off145_inb k) r c k.val 112 (k0_off145_eq k) hr h.1 h.2⟩

/-- The slot of sums after row loop 9, as the row-sum function: at (r, c) the gathered rows' entry plus the positional scratch's entry of row r + 0. -/
theorem rows_t9_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t9 (F := F) d L v2 X P 128)) (ValueIdx.ix2 r c)
      = RowsLib.rowG (ibS0).view (qV).view X P 0 (by omega) (ValueIdx.ix2 r c) :=
  RowsLib.read_writes_trips (n := k0_t9_loop.trips) (pb_t9 (F := F) d L v2 X P) (tripL_t9 (F := F) d L v2 X P) (obS0).view G _
    rfl (pb_t9_succ (F := F) d L v2 X P) (trip_pieces_t9 d L v2 X P) _ ⟨r.val, r.isLt⟩ (trip_cover_t9 d L v2 X P ⟨r.val, r.isLt⟩ r c rfl)

/-- THE SLOT OF SUMS AFTER ROW LOOP 9, whatever it held before: at (r, c) the gathered rows' entry (r, c) plus the positional
    scratch's entry (r + 0, c). -/
theorem rows_t9 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t9 (F := F) d L v2 X P (Scf.trips k0_t9_loop.lb k0_t9_loop.ub k0_t9_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t9_G d L v2 X P G r c

/-! ### the value of row loop 10 (slot 1, positional rows 128 … 255) -/

theorem trips_t10 : k0_t10_loop.trips = 128 := rfl

set_option maxHeartbeats 2000000 in
/-- Every piece of a trip of row loop 10 is the row sum on its rectangle. -/
theorem trip_pieces_t10 (d : Dev nD) (L : grid0.Coords) (v2 : BitVec 32) (X : BufTy.Contents (Elt F) (ibS1).view.ty) (P : BufTy.Contents (Elt F) (qV).view.ty) (k : Fin k0_t10_loop.trips) :
    ∀ p ∈ tripL_t10 (F := F) d L v2 X P k, ∀ x : p.1.shape.Idx, p.2 x = RowsLib.rowG (ibS1).view (qV).view X P 128 (by omega) (p.1.emb x) := by
  unfold tripL_t10 trip_t10
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off161_inb k) (k0_off161_inb k) (k0_off162_inb k) k.val (k.val + 128) 112 (k0_off161_eq k) (k0_off162_eq k) rfl _ (RowsLib.lane_sum _ _ _ _) x
  · exact fun x => RowsLib.piece_eq _ _ X P 128 _ _ _ (k0_off159_inb k) (k0_off159_inb k) (k0_off160_inb k) k.val (k.val + 128) 96 (k0_off159_eq k) (k0_off160_eq k) rfl _ (RowsLib.lane_sum _ _ _ _) x
  · exact fun x => RowsLib.piece_eq _ _ X P 128 _ _ _ (k0_off157_inb k) (k0_off157_inb k) (k0_off158_inb k) k.val (k.val + 128) 80 (k0_off157_eq k) (k0_off158_eq k) rfl _ (RowsLib.lane_sum _ _ _ _) x
  · exact fun x => RowsLib.piece_eq _ _ X P 128 _ _ _ (k0_off155_inb k) (k0_off155_inb k) (k0_off156_inb k) k.val (k.val + 128) 64 (k0_off155_eq k) (k0_off156_eq k) rfl _ (RowsLib.lane_sum _ _ _ _) x
  · exact fun x => RowsLib.piece_eq _ _ X P 128 _ _ _ (k0_off153_inb k) (k0_off153_inb k) (k0_off154_inb k) k.val (k.val + 128) 48 (k0_off153_eq k) (k0_off154_eq k) rfl _ (RowsLib.lane_sum _ _ _ _) x
  · exact fun x => RowsLib.piece_eq _ _ X P 128 _ _ _ (k0_off151_inb k) (k0_off151_inb k) (k0_off152_inb k) k.val (k.val + 128) 32 (k0_off151_eq k) (k0_off152_eq k) rfl _ (RowsLib.lane_sum _ _ _ _) x
  · exact fun x => RowsLib.piece_eq _ _ X P 128 _ _ _ (k0_off149_inb k) (k0_off149_inb k) (k0_off150_inb k) k.val (k.val + 128) 16 (k0_off149_eq k) (k0_off150_eq k) rfl _ (RowsLib.lane_sum _ _ _ _) x
  · exact fun x => RowsLib.piece_eq _ _ X P 128 _ _ _ (k0_off147_inb k) (k0_off147_inb k) (k0_off148_inb k) k.val (k.val + 128) 0 (k0_off147_eq k) (k0_off148_eq k) rfl _ (RowsLib.lane_sum _ _ _ _) x

set_option maxHeartbeats 2000000 in
/-- The eight pieces of trip k cover row k. -/
theorem trip_cover_t10 (d : Dev nD) (L : grid0.Coords) (v2 : BitVec 32) (X : BufTy.Contents (Elt F) (ibS1).view.ty) (P : BufTy.Contents (Elt F) (qV).view.ty)
    (k : Fin k0_t10_loop.trips) (r c : Fin 128) (hr : k.val = r.val) :
    ∃ p ∈ tripL_t10 (F := F) d L v2 X P k, (ValueIdx.ix2 r c : RowsLib.SS.Idx) ∈ p.1.set := by
  unfold tripL_t10 trip_t10
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off147_inb k) r c k.val 0 (k0_off147_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off149_inb k) r c k.val 16 (k0_off149_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off151_inb k) r c k.val 32 (k0_off151_eq k) hr h.1 h.2⟩
  · exact ⟨_, List.mem_cons_of_mem _ (List.mem_cons_of_mem _ (List.mem_cons_of_mem _ (List.mem_cons_of_mem _ (List.mem_cons_self)))), RowsLib.mem_unit _ (k0_off153_inb k) r c k.val 48 (k0_off153_eq k) hr h.1 h.2⟩
  · exact ⟨_, List.mem_cons_of_mem _ (List.mem_cons_of_mem _ (List.mem_cons_of_mem _ (List.mem_cons_self))), RowsLib.mem_unit _ (k0_off155_inb k) r c k.val 64 (k0_off155_eq k) hr h.1 h.2⟩
  · exact ⟨_, List.mem_cons_of_mem _ (List.mem_cons_of_mem _ (List.mem_cons_self)), RowsLib.mem_unit _ (k0_off157_inb k) r c k.val 80 (k0_off157_eq k) hr h.1 h.2⟩
  · exact ⟨_, List.mem_cons_of_mem _ (List.mem_cons_self), RowsLib.mem_unit _ (k0_off159_inb k) r c k.val 96 (k0_off159_eq k) hr h.1 h.2⟩
  · exact ⟨_, List.mem_cons_self, RowsLib.mem_unit _ (k0_off161_inb k) r c k.val 112 (k0_off161_eq k) hr h.1 h.2⟩

/-- The slot of sums after row loop 10, as the row-sum function: at (r, c) the gathered rows' entry plus the positional scratch's entry of row r + 128. -/
theorem rows_t10_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t10 (F := F) d L v2 X P 128)) (ValueIdx.ix2 r c)
      = RowsLib.rowG (ibS1).view (qV).view X P 128 (by omega) (ValueIdx.ix2 r c) :=
  RowsLib.read_writes_trips (n := k0_t10_loop.trips) (pb_t10 (F := F) d L v2 X P) (tripL_t10 (F := F) d L v2 X P) (obS1).view G _
    rfl (pb_t10_succ (F := F) d L v2 X P) (trip_pieces_t10 d L v2 X P) _ ⟨r.val, r.isLt⟩ (trip_cover_t10 d L v2 X P ⟨r.val, r.isLt⟩ r c rfl)

/-- THE SLOT OF SUMS AFTER ROW LOOP 10, whatever it held before: at (r, c) the gathered rows' entry (r, c) plus the positional
    scratch's entry (r + 128, c). -/
theorem rows_t10 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t10 (F := F) d L v2 X P (Scf.trips k0_t10_loop.lb k0_t10_loop.ub k0_t10_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t10_G d L v2 X P G r c

/-! ### the value of row loop 11 (slot 0, positional rows 0 … 127) -/

theorem trips_t11 : k0_t11_loop.trips = 128 := rfl

set_option maxHeartbeats 2000000 in
/-- Every piece of a trip of row loop 11 is the row sum on its rectangle. -/
theorem trip_pieces_t11 (d : Dev nD) (L : grid0.Coords) (v2 : BitVec 32) (X : BufTy.Contents (Elt F) (ibS0).view.ty) (P : BufTy.Contents (Elt F) (qV).view.ty) (k : Fin k0_t11_loop.trips) :
    ∀ p ∈ tripL_t11 (F := F) d L v2 X P k, ∀ x : p.1.shape.Idx, p.2 x = RowsLib.rowG (ibS0).view (qV).view X P 0 (by omega) (p.1.emb x) := by
  unfold tripL_t11 trip_t11
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off177_inb k) (k0_off177_inb k) (k0_off178_inb k) k.val (k.val + 0) 112 (k0_off177_eq k) (k0_off178_eq k) rfl _ (RowsLib.lane_sum _ _ _ _) x
  · exact fun x => RowsLib.piece_eq _ _ X P 0 _ _ _ (k0_off175_inb k) (k0_off175_inb k) (k0_off176_inb k) k.val (k.val + 0) 96 (k0_off175_eq k) (k0_off176_eq k) rfl _ (RowsLib.lane_sum _ _ _ _) x
  · exact fun x => RowsLib.piece_eq _ _ X P 0 _ _ _ (k0_off173_inb k) (k0_off173_inb k) (k0_off174_inb k) k.val (k.val + 0) 80 (k0_off173_eq k) (k0_off174_eq k) rfl _ (RowsLib.lane_sum _ _ _ _) x
  · exact fun x => RowsLib.piece_eq _ _ X P 0 _ _ _ (k0_off171_inb k) (k0_off171_inb k) (k0_off172_inb k) k.val (k.val + 0) 64 (k0_off171_eq k) (k0_off172_eq k) rfl _ (RowsLib.lane_sum _ _ _ _) x
  · exact fun x => RowsLib.piece_eq _ _ X P 0 _ _ _ (k0_off169_inb k) (k0_off169_inb k) (k0_off170_inb k) k.val (k.val + 0) 48 (k0_off169_eq k) (k0_off170_eq k) rfl _ (RowsLib.lane_sum _ _ _ _) x
  · exact fun x => RowsLib.piece_eq _ _ X P 0 _ _ _ (k0_off167_inb k) (k0_off167_inb k) (k0_off168_inb k) k.val (k.val + 0) 32 (k0_off167_eq k) (k0_off168_eq k) rfl _ (RowsLib.lane_sum _ _ _ _) x
  · exact fun x => RowsLib.piece_eq _ _ X P 0 _ _ _ (k0_off165_inb k) (k0_off165_inb k) (k0_off166_inb k) k.val (k.val + 0) 16 (k0_off165_eq k) (k0_off166_eq k) rfl _ (RowsLib.lane_sum _ _ _ _) x
  · exact fun x => RowsLib.piece_eq _ _ X P 0 _ _ _ (k0_off163_inb k) (k0_off163_inb k) (k0_off164_inb k) k.val (k.val + 0) 0 (k0_off163_eq k) (k0_off164_eq k) rfl _ (RowsLib.lane_sum _ _ _ _) x

set_option maxHeartbeats 2000000 in
/-- The eight pieces of trip k cover row k. -/
theorem trip_cover_t11 (d : Dev nD) (L : grid0.Coords) (v2 : BitVec 32) (X : BufTy.Contents (Elt F) (ibS0).view.ty) (P : BufTy.Contents (Elt F) (qV).view.ty)
    (k : Fin k0_t11_loop.trips) (r c : Fin 128) (hr : k.val = r.val) :
    ∃ p ∈ tripL_t11 (F := F) d L v2 X P k, (ValueIdx.ix2 r c : RowsLib.SS.Idx) ∈ p.1.set := by
  unfold tripL_t11 trip_t11
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off163_inb k) r c k.val 0 (k0_off163_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off165_inb k) r c k.val 16 (k0_off165_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off167_inb k) r c k.val 32 (k0_off167_eq k) hr h.1 h.2⟩
  · exact ⟨_, List.mem_cons_of_mem _ (List.mem_cons_of_mem _ (List.mem_cons_of_mem _ (List.mem_cons_of_mem _ (List.mem_cons_self)))), RowsLib.mem_unit _ (k0_off169_inb k) r c k.val 48 (k0_off169_eq k) hr h.1 h.2⟩
  · exact ⟨_, List.mem_cons_of_mem _ (List.mem_cons_of_mem _ (List.mem_cons_of_mem _ (List.mem_cons_self))), RowsLib.mem_unit _ (k0_off171_inb k) r c k.val 64 (k0_off171_eq k) hr h.1 h.2⟩
  · exact ⟨_, List.mem_cons_of_mem _ (List.mem_cons_of_mem _ (List.mem_cons_self)), RowsLib.mem_unit _ (k0_off173_inb k) r c k.val 80 (k0_off173_eq k) hr h.1 h.2⟩
  · exact ⟨_, List.mem_cons_of_mem _ (List.mem_cons_self), RowsLib.mem_unit _ (k0_off175_inb k) r c k.val 96 (k0_off175_eq k) hr h.1 h.2⟩
  · exact ⟨_, List.mem_cons_self, RowsLib.mem_unit _ (k0_off177_inb k) r c k.val 112 (k0_off177_eq k) hr h.1 h.2⟩

/-- The slot of sums after row loop 11, as the row-sum function: at (r, c) the gathered rows' entry plus the positional scratch's entry of row r + 0. -/
theorem rows_t11_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t11 (F := F) d L v2 X P 128)) (ValueIdx.ix2 r c)
      = RowsLib.rowG (ibS0).view (qV).view X P 0 (by omega) (ValueIdx.ix2 r c) :=
  RowsLib.read_writes_trips (n := k0_t11_loop.trips) (pb_t11 (F := F) d L v2 X P) (tripL_t11 (F := F) d L v2 X P) (obS0).view G _
    rfl (pb_t11_succ (F := F) d L v2 X P) (trip_pieces_t11 d L v2 X P) _ ⟨r.val, r.isLt⟩ (trip_cover_t11 d L v2 X P ⟨r.val, r.isLt⟩ r c rfl)

/-- THE SLOT OF SUMS AFTER ROW LOOP 11, whatever it held before: at (r, c) the gathered rows' entry (r, c) plus the positional
    scratch's entry (r + 0, c). -/
theorem rows_t11 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t11 (F := F) d L v2 X P (Scf.trips k0_t11_loop.lb k0_t11_loop.ub k0_t11_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t11_G d L v2 X P G r c

/-! ### the value of row loop 12 (slot 1, positional rows 128 … 255) -/

theorem trips_t12 : k0_t12_loop.trips = 128 := rfl

set_option maxHeartbeats 2000000 in
/-- Every piece of a trip of row loop 12 is the row sum on its rectangle. -/
theorem trip_pieces_t12 (d : Dev nD) (L : grid0.Coords) (v2 : BitVec 32) (X : BufTy.Contents (Elt F) (ibS1).view.ty) (P : BufTy.Contents (Elt F) (qV).view.ty) (k : Fin k0_t12_loop.trips) :
    ∀ p ∈ tripL_t12 (F := F) d L v2 X P k, ∀ x : p.1.shape.Idx, p.2 x = RowsLib.rowG (ibS1).view (qV).view X P 128 (by omega) (p.1.emb x) := by
  unfold tripL_t12 trip_t12
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off193_inb k) (k0_off193_inb k) (k0_off194_inb k) k.val (k.val + 128) 112 (k0_off193_eq k) (k0_off194_eq k) rfl _ (RowsLib.lane_sum _ _ _ _) x
  · exact fun x => RowsLib.piece_eq _ _ X P 128 _ _ _ (k0_off191_inb k) (k0_off191_inb k) (k0_off192_inb k) k.val (k.val + 128) 96 (k0_off191_eq k) (k0_off192_eq k) rfl _ (RowsLib.lane_sum _ _ _ _) x
  · exact fun x => RowsLib.piece_eq _ _ X P 128 _ _ _ (k0_off189_inb k) (k0_off189_inb k) (k0_off190_inb k) k.val (k.val + 128) 80 (k0_off189_eq k) (k0_off190_eq k) rfl _ (RowsLib.lane_sum _ _ _ _) x
  · exact fun x => RowsLib.piece_eq _ _ X P 128 _ _ _ (k0_off187_inb k) (k0_off187_inb k) (k0_off188_inb k) k.val (k.val + 128) 64 (k0_off187_eq k) (k0_off188_eq k) rfl _ (RowsLib.lane_sum _ _ _ _) x
  · exact fun x => RowsLib.piece_eq _ _ X P 128 _ _ _ (k0_off185_inb k) (k0_off185_inb k) (k0_off186_inb k) k.val (k.val + 128) 48 (k0_off185_eq k) (k0_off186_eq k) rfl _ (RowsLib.lane_sum _ _ _ _) x
  · exact fun x => RowsLib.piece_eq _ _ X P 128 _ _ _ (k0_off183_inb k) (k0_off183_inb k) (k0_off184_inb k) k.val (k.val + 128) 32 (k0_off183_eq k) (k0_off184_eq k) rfl _ (RowsLib.lane_sum _ _ _ _) x
  · exact fun x => RowsLib.piece_eq _ _ X P 128 _ _ _ (k0_off181_inb k) (k0_off181_inb k) (k0_off182_inb k) k.val (k.val + 128) 16 (k0_off181_eq k) (k0_off182_eq k) rfl _ (RowsLib.lane_sum _ _ _ _) x
  · exact fun x => RowsLib.piece_eq _ _ X P 128 _ _ _ (k0_off179_inb k) (k0_off179_inb k) (k0_off180_inb k) k.val (k.val + 128) 0 (k0_off179_eq k) (k0_off180_eq k) rfl _ (RowsLib.lane_sum _ _ _ _) x

set_option maxHeartbeats 2000000 in
/-- The eight pieces of trip k cover row k. -/
theorem trip_cover_t12 (d : Dev nD) (L : grid0.Coords) (v2 : BitVec 32) (X : BufTy.Contents (Elt F) (ibS1).view.ty) (P : BufTy.Contents (Elt F) (qV).view.ty)
    (k : Fin k0_t12_loop.trips) (r c : Fin 128) (hr : k.val = r.val) :
    ∃ p ∈ tripL_t12 (F := F) d L v2 X P k, (ValueIdx.ix2 r c : RowsLib.SS.Idx) ∈ p.1.set := by
  unfold tripL_t12 trip_t12
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off179_inb k) r c k.val 0 (k0_off179_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off181_inb k) r c k.val 16 (k0_off181_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off183_inb k) r c k.val 32 (k0_off183_eq k) hr h.1 h.2⟩
  · exact ⟨_, List.mem_cons_of_mem _ (List.mem_cons_of_mem _ (List.mem_cons_of_mem _ (List.mem_cons_of_mem _ (List.mem_cons_self)))), RowsLib.mem_unit _ (k0_off185_inb k) r c k.val 48 (k0_off185_eq k) hr h.1 h.2⟩
  · exact ⟨_, List.mem_cons_of_mem _ (List.mem_cons_of_mem _ (List.mem_cons_of_mem _ (List.mem_cons_self))), RowsLib.mem_unit _ (k0_off187_inb k) r c k.val 64 (k0_off187_eq k) hr h.1 h.2⟩
  · exact ⟨_, List.mem_cons_of_mem _ (List.mem_cons_of_mem _ (List.mem_cons_self)), RowsLib.mem_unit _ (k0_off189_inb k) r c k.val 80 (k0_off189_eq k) hr h.1 h.2⟩
  · exact ⟨_, List.mem_cons_of_mem _ (List.mem_cons_self), RowsLib.mem_unit _ (k0_off191_inb k) r c k.val 96 (k0_off191_eq k) hr h.1 h.2⟩
  · exact ⟨_, List.mem_cons_self, RowsLib.mem_unit _ (k0_off193_inb k) r c k.val 112 (k0_off193_eq k) hr h.1 h.2⟩

/-- The slot of sums after row loop 12, as the row-sum function: at (r, c) the gathered rows' entry plus the positional scratch's entry of row r + 128. -/
theorem rows_t12_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t12 (F := F) d L v2 X P 128)) (ValueIdx.ix2 r c)
      = RowsLib.rowG (ibS1).view (qV).view X P 128 (by omega) (ValueIdx.ix2 r c) :=
  RowsLib.read_writes_trips (n := k0_t12_loop.trips) (pb_t12 (F := F) d L v2 X P) (tripL_t12 (F := F) d L v2 X P) (obS1).view G _
    rfl (pb_t12_succ (F := F) d L v2 X P) (trip_pieces_t12 d L v2 X P) _ ⟨r.val, r.isLt⟩ (trip_cover_t12 d L v2 X P ⟨r.val, r.isLt⟩ r c rfl)

/-- THE SLOT OF SUMS AFTER ROW LOOP 12, whatever it held before: at (r, c) the gathered rows' entry (r, c) plus the positional
    scratch's entry (r + 128, c). -/
theorem rows_t12 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t12 (F := F) d L v2 X P (Scf.trips k0_t12_loop.lb k0_t12_loop.ub k0_t12_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t12_G d L v2 X P G r c

/-! ### the value of row loop 13 (slot 0, positional rows 0 … 127) -/

theorem trips_t13 : k0_t13_loop.trips = 128 := rfl

set_option maxHeartbeats 2000000 in
/-- Every piece of a trip of row loop 13 is the row sum on its rectangle. -/
theorem trip_pieces_t13 (d : Dev nD) (L : grid0.Coords) (v2 wa wb : BitVec 32) (X : BufTy.Contents (Elt F) (ibS0).view.ty) (P : BufTy.Contents (Elt F) (qV).view.ty) (k : Fin k0_t13_loop.trips) :
    ∀ p ∈ tripL_t13 (F := F) d L v2 wa wb X P k, ∀ x : p.1.shape.Idx, p.2 x = RowsLib.rowG (ibS0).view (qV).view X P 0 (by omega) (p.1.emb x) := by
  unfold tripL_t13 trip_t13
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off209_inb k) (k0_off209_inb k) (k0_off210_inb k) k.val (k.val + 0) 112 (k0_off209_eq k) (k0_off210_eq k) rfl _ (RowsLib.lane_sum _ _ _ _) x
  · exact fun x => RowsLib.piece_eq _ _ X P 0 _ _ _ (k0_off207_inb k) (k0_off207_inb k) (k0_off208_inb k) k.val (k.val + 0) 96 (k0_off207_eq k) (k0_off208_eq k) rfl _ (RowsLib.lane_sum _ _ _ _) x
  · exact fun x => RowsLib.piece_eq _ _ X P 0 _ _ _ (k0_off205_inb k) (k0_off205_inb k) (k0_off206_inb k) k.val (k.val + 0) 80 (k0_off205_eq k) (k0_off206_eq k) rfl _ (RowsLib.lane_sum _ _ _ _) x
  · exact fun x => RowsLib.piece_eq _ _ X P 0 _ _ _ (k0_off203_inb k) (k0_off203_inb k) (k0_off204_inb k) k.val (k.val + 0) 64 (k0_off203_eq k) (k0_off204_eq k) rfl _ (RowsLib.lane_sum _ _ _ _) x
  · exact fun x => RowsLib.piece_eq _ _ X P 0 _ _ _ (k0_off201_inb k) (k0_off201_inb k) (k0_off202_inb k) k.val (k.val + 0) 48 (k0_off201_eq k) (k0_off202_eq k) rfl _ (RowsLib.lane_sum _ _ _ _) x
  · exact fun x => RowsLib.piece_eq _ _ X P 0 _ _ _ (k0_off199_inb k) (k0_off199_inb k) (k0_off200_inb k) k.val (k.val + 0) 32 (k0_off199_eq k) (k0_off200_eq k) rfl _ (RowsLib.lane_sum _ _ _ _) x
  · exact fun x => RowsLib.piece_eq _ _ X P 0 _ _ _ (k0_off197_inb k) (k0_off197_inb k) (k0_off198_inb k) k.val (k.val + 0) 16 (k0_off197_eq k) (k0_off198_eq k) rfl _ (RowsLib.lane_sum _ _ _ _) x
  · exact fun x => RowsLib.piece_eq _ _ X P 0 _ _ _ (k0_off195_inb k) (k0_off195_inb k) (k0_off196_inb k) k.val (k.val + 0) 0 (k0_off195_eq k) (k0_off196_eq k) rfl _ (RowsLib.lane_sum _ _ _ _) x

set_option maxHeartbeats 2000000 in
/-- The eight pieces of trip k cover row k. -/
theorem trip_cover_t13 (d : Dev nD) (L : grid0.Coords) (v2 wa wb : BitVec 32) (X : BufTy.Contents (Elt F) (ibS0).view.ty) (P : BufTy.Contents (Elt F) (qV).view.ty)
    (k : Fin k0_t13_loop.trips) (r c : Fin 128) (hr : k.val = r.val) :
    ∃ p ∈ tripL_t13 (F := F) d L v2 wa wb X P k, (ValueIdx.ix2 r c : RowsLib.SS.Idx) ∈ p.1.set := by
  unfold tripL_t13 trip_t13
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off195_inb k) r c k.val 0 (k0_off195_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off197_inb k) r c k.val 16 (k0_off197_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off199_inb k) r c k.val 32 (k0_off199_eq k) hr h.1 h.2⟩
  · exact ⟨_, List.mem_cons_of_mem _ (List.mem_cons_of_mem _ (List.mem_cons_of_mem _ (List.mem_cons_of_mem _ (List.mem_cons_self)))), RowsLib.mem_unit _ (k0_off201_inb k) r c k.val 48 (k0_off201_eq k) hr h.1 h.2⟩
  · exact ⟨_, List.mem_cons_of_mem _ (List.mem_cons_of_mem _ (List.mem_cons_of_mem _ (List.mem_cons_self))), RowsLib.mem_unit _ (k0_off203_inb k) r c k.val 64 (k0_off203_eq k) hr h.1 h.2⟩
  · exact ⟨_, List.mem_cons_of_mem _ (List.mem_cons_of_mem _ (List.mem_cons_self)), RowsLib.mem_unit _ (k0_off205_inb k) r c k.val 80 (k0_off205_eq k) hr h.1 h.2⟩
  · exact ⟨_, List.mem_cons_of_mem _ (List.mem_cons_self), RowsLib.mem_unit _ (k0_off207_inb k) r c k.val 96 (k0_off207_eq k) hr h.1 h.2⟩
  · exact ⟨_, List.mem_cons_self, RowsLib.mem_unit _ (k0_off209_inb k) r c k.val 112 (k0_off209_eq k) hr h.1 h.2⟩

/-- The slot of sums after row loop 13, as the row-sum function: at (r, c) the gathered rows' entry plus the positional scratch's entry of row r + 0. -/
theorem rows_t13_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t13 (F := F) d L v2 wa wb X P 128)) (ValueIdx.ix2 r c)
      = RowsLib.rowG (ibS0).view (qV).view X P 0 (by omega) (ValueIdx.ix2 r c) :=
  RowsLib.read_writes_trips (n := k0_t13_loop.trips) (pb_t13 (F := F) d L v2 wa wb X P) (tripL_t13 (F := F) d L v2 wa wb X P) (obS0).view G _
    rfl (pb_t13_succ (F := F) d L v2 wa wb X P) (trip_pieces_t13 d L v2 wa wb X P) _ ⟨r.val, r.isLt⟩ (trip_cover_t13 d L v2 wa wb X P ⟨r.val, r.isLt⟩ r c rfl)

/-- THE SLOT OF SUMS AFTER ROW LOOP 13, whatever it held before: at (r, c) the gathered rows' entry (r, c) plus the positional
    scratch's entry (r + 0, c). -/
theorem rows_t13 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t13 (F := F) d L v2 wa wb X P (Scf.trips k0_t13_loop.lb k0_t13_loop.ub k0_t13_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t13_G d L v2 wa wb X P G r c

/-! ### the value of row loop 14 (slot 1, positional rows 128 … 255) -/

theorem trips_t14 : k0_t14_loop.trips = 128 := rfl

set_option maxHeartbeats 2000000 in
/-- Every piece of a trip of row loop 14 is the row sum on its rectangle. -/
theorem trip_pieces_t14 (d : Dev nD) (L : grid0.Coords) (v2 : BitVec 32) (X : BufTy.Contents (Elt F) (ibS1).view.ty) (P : BufTy.Contents (Elt F) (qV).view.ty) (k : Fin k0_t14_loop.trips) :
    ∀ p ∈ tripL_t14 (F := F) d L v2 X P k, ∀ x : p.1.shape.Idx, p.2 x = RowsLib.rowG (ibS1).view (qV).view X P 128 (by omega) (p.1.emb x) := by
  unfold tripL_t14 trip_t14
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off225_inb k) (k0_off225_inb k) (k0_off226_inb k) k.val (k.val + 128) 112 (k0_off225_eq k) (k0_off226_eq k) rfl _ (RowsLib.lane_sum _ _ _ _) x
  · exact fun x => RowsLib.piece_eq _ _ X P 128 _ _ _ (k0_off223_inb k) (k0_off223_inb k) (k0_off224_inb k) k.val (k.val + 128) 96 (k0_off223_eq k) (k0_off224_eq k) rfl _ (RowsLib.lane_sum _ _ _ _) x
  · exact fun x => RowsLib.piece_eq _ _ X P 128 _ _ _ (k0_off221_inb k) (k0_off221_inb k) (k0_off222_inb k) k.val (k.val + 128) 80 (k0_off221_eq k) (k0_off222_eq k) rfl _ (RowsLib.lane_sum _ _ _ _) x
  · exact fun x => RowsLib.piece_eq _ _ X P 128 _ _ _ (k0_off219_inb k) (k0_off219_inb k) (k0_off220_inb k) k.val (k.val + 128) 64 (k0_off219_eq k) (k0_off220_eq k) rfl _ (RowsLib.lane_sum _ _ _ _) x
  · exact fun x => RowsLib.piece_eq _ _ X P 128 _ _ _ (k0_off217_inb k) (k0_off217_inb k) (k0_off218_inb k) k.val (k.val + 128) 48 (k0_off217_eq k) (k0_off218_eq k) rfl _ (RowsLib.lane_sum _ _ _ _) x
  · exact fun x => RowsLib.piece_eq _ _ X P 128 _ _ _ (k0_off215_inb k) (k0_off215_inb k) (k0_off216_inb k) k.val (k.val + 128) 32 (k0_off215_eq k) (k0_off216_eq k) rfl _ (RowsLib.lane_sum _ _ _ _) x
  · exact fun x => RowsLib.piece_eq _ _ X P 128 _ _ _ (k0_off213_inb k) (k0_off213_inb k) (k0_off214_inb k) k.val (k.val + 128) 16 (k0_off213_eq k) (k0_off214_eq k) rfl _ (RowsLib.lane_sum _ _ _ _) x
  · exact fun x => RowsLib.piece_eq _ _ X P 128 _ _ _ (k0_off211_inb k) (k0_off211_inb k) (k0_off212_inb k) k.val (k.val + 128) 0 (k0_off211_eq k) (k0_off212_eq k) rfl _ (RowsLib.lane_sum _ _ _ _) x

set_option maxHeartbeats 2000000 in
/-- The eight pieces of trip k cover row k. -/
theorem trip_cover_t14 (d : Dev nD) (L : grid0.Coords) (v2 : BitVec 32) (X : BufTy.Contents (Elt F) (ibS1).view.ty) (P : BufTy.Contents (Elt F) (qV).view.ty)
    (k : Fin k0_t14_loop.trips) (r c : Fin 128) (hr : k.val = r.val) :
    ∃ p ∈ tripL_t14 (F := F) d L v2 X P k, (ValueIdx.ix2 r c : RowsLib.SS.Idx) ∈ p.1.set := by
  unfold tripL_t14 trip_t14
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off211_inb k) r c k.val 0 (k0_off211_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off213_inb k) r c k.val 16 (k0_off213_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off215_inb k) r c k.val 32 (k0_off215_eq k) hr h.1 h.2⟩
  · exact ⟨_, List.mem_cons_of_mem _ (List.mem_cons_of_mem _ (List.mem_cons_of_mem _ (List.mem_cons_of_mem _ (List.mem_cons_self)))), RowsLib.mem_unit _ (k0_off217_inb k) r c k.val 48 (k0_off217_eq k) hr h.1 h.2⟩
  · exact ⟨_, List.mem_cons_of_mem _ (List.mem_cons_of_mem _ (List.mem_cons_of_mem _ (List.mem_cons_self))), RowsLib.mem_unit _ (k0_off219_inb k) r c k.val 64 (k0_off219_eq k) hr h.1 h.2⟩
  · exact ⟨_, List.mem_cons_of_mem _ (List.mem_cons_of_mem _ (List.mem_cons_self)), RowsLib.mem_unit _ (k0_off221_inb k) r c k.val 80 (k0_off221_eq k) hr h.1 h.2⟩
  · exact ⟨_, List.mem_cons_of_mem _ (List.mem_cons_self), RowsLib.mem_unit _ (k0_off223_inb k) r c k.val 96 (k0_off223_eq k) hr h.1 h.2⟩
  · exact ⟨_, List.mem_cons_self, RowsLib.mem_unit _ (k0_off225_inb k) r c k.val 112 (k0_off225_eq k) hr h.1 h.2⟩

/-- The slot of sums after row loop 14, as the row-sum function: at (r, c) the gathered rows' entry plus the positional scratch's entry of row r + 128. -/
theorem rows_t14_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t14 (F := F) d L v2 X P 128)) (ValueIdx.ix2 r c)
      = RowsLib.rowG (ibS1).view (qV).view X P 128 (by omega) (ValueIdx.ix2 r c) :=
  RowsLib.read_writes_trips (n := k0_t14_loop.trips) (pb_t14 (F := F) d L v2 X P) (tripL_t14 (F := F) d L v2 X P) (obS1).view G _
    rfl (pb_t14_succ (F := F) d L v2 X P) (trip_pieces_t14 d L v2 X P) _ ⟨r.val, r.isLt⟩ (trip_cover_t14 d L v2 X P ⟨r.val, r.isLt⟩ r c rfl)

/-- THE SLOT OF SUMS AFTER ROW LOOP 14, whatever it held before: at (r, c) the gathered rows' entry (r, c) plus the positional
    scratch's entry (r + 128, c). -/
theorem rows_t14 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t14 (F := F) d L v2 X P (Scf.trips k0_t14_loop.lb k0_t14_loop.ub k0_t14_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t14_G d L v2 X P G r c

/-! ### the value of row loop 15 (slot 0, positional rows 0 … 127) -/

theorem trips_t15 : k0_t15_loop.trips = 128 := rfl

set_option maxHeartbeats 2000000 in
/-- Every piece of a trip of row loop 15 is the row sum on its rectangle. -/
theorem trip_pieces_t15 (d : Dev nD) (L : grid0.Coords) (v2 : BitVec 32) (X : BufTy.Contents (Elt F) (ibS0).view.ty) (P : BufTy.Contents (Elt F) (qV).view.ty) (k : Fin k0_t15_loop.trips) :
    ∀ p ∈ tripL_t15 (F := F) d L v2 X P k, ∀ x : p.1.shape.Idx, p.2 x = RowsLib.rowG (ibS0).view (qV).view X P 0 (by omega) (p.1.emb x) := by
  unfold tripL_t15 trip_t15
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off241_inb k) (k0_off241_inb k) (k0_off242_inb k) k.val (k.val + 0) 112 (k0_off241_eq k) (k0_off242_eq k) rfl _ (RowsLib.lane_sum _ _ _ _) x
  · exact fun x => RowsLib.piece_eq _ _ X P 0 _ _ _ (k0_off239_inb k) (k0_off239_inb k) (k0_off240_inb k) k.val (k.val + 0) 96 (k0_off239_eq k) (k0_off240_eq k) rfl _ (RowsLib.lane_sum _ _ _ _) x
  · exact fun x => RowsLib.piece_eq _ _ X P 0 _ _ _ (k0_off237_inb k) (k0_off237_inb k) (k0_off238_inb k) k.val (k.val + 0) 80 (k0_off237_eq k) (k0_off238_eq k) rfl _ (RowsLib.lane_sum _ _ _ _) x
  · exact fun x => RowsLib.piece_eq _ _ X P 0 _ _ _ (k0_off235_inb k) (k0_off235_inb k) (k0_off236_inb k) k.val (k.val + 0) 64 (k0_off235_eq k) (k0_off236_eq k) rfl _ (RowsLib.lane_sum _ _ _ _) x
  · exact fun x => RowsLib.piece_eq _ _ X P 0 _ _ _ (k0_off233_inb k) (k0_off233_inb k) (k0_off234_inb k) k.val (k.val + 0) 48 (k0_off233_eq k) (k0_off234_eq k) rfl _ (RowsLib.lane_sum _ _ _ _) x
  · exact fun x => RowsLib.piece_eq _ _ X P 0 _ _ _ (k0_off231_inb k) (k0_off231_inb k) (k0_off232_inb k) k.val (k.val + 0) 32 (k0_off231_eq k) (k0_off232_eq k) rfl _ (RowsLib.lane_sum _ _ _ _) x
  · exact fun x => RowsLib.piece_eq _ _ X P 0 _ _ _ (k0_off229_inb k) (k0_off229_inb k) (k0_off230_inb k) k.val (k.val + 0) 16 (k0_off229_eq k) (k0_off230_eq k) rfl _ (RowsLib.lane_sum _ _ _ _) x
  · exact fun x => RowsLib.piece_eq _ _ X P 0 _ _ _ (k0_off227_inb k) (k0_off227_inb k) (k0_off228_inb k) k.val (k.val + 0) 0 (k0_off227_eq k) (k0_off228_eq k) rfl _ (RowsLib.lane_sum _ _ _ _) x

set_option maxHeartbeats 2000000 in
/-- The eight pieces of trip k cover row k. -/
theorem trip_cover_t15 (d : Dev nD) (L : grid0.Coords) (v2 : BitVec 32) (X : BufTy.Contents (Elt F) (ibS0).view.ty) (P : BufTy.Contents (Elt F) (qV).view.ty)
    (k : Fin k0_t15_loop.trips) (r c : Fin 128) (hr : k.val = r.val) :
    ∃ p ∈ tripL_t15 (F := F) d L v2 X P k, (ValueIdx.ix2 r c : RowsLib.SS.Idx) ∈ p.1.set := by
  unfold tripL_t15 trip_t15
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off227_inb k) r c k.val 0 (k0_off227_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off229_inb k) r c k.val 16 (k0_off229_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off231_inb k) r c k.val 32 (k0_off231_eq k) hr h.1 h.2⟩
  · exact ⟨_, List.mem_cons_of_mem _ (List.mem_cons_of_mem _ (List.mem_cons_of_mem _ (List.mem_cons_of_mem _ (List.mem_cons_self)))), RowsLib.mem_unit _ (k0_off233_inb k) r c k.val 48 (k0_off233_eq k) hr h.1 h.2⟩
  · exact ⟨_, List.mem_cons_of_mem _ (List.mem_cons_of_mem _ (List.mem_cons_of_mem _ (List.mem_cons_self))), RowsLib.mem_unit _ (k0_off235_inb k) r c k.val 64 (k0_off235_eq k) hr h.1 h.2⟩
  · exact ⟨_, List.mem_cons_of_mem _ (List.mem_cons_of_mem _ (List.mem_cons_self)), RowsLib.mem_unit _ (k0_off237_inb k) r c k.val 80 (k0_off237_eq k) hr h.1 h.2⟩
  · exact ⟨_, List.mem_cons_of_mem _ (List.mem_cons_self), RowsLib.mem_unit _ (k0_off239_inb k) r c k.val 96 (k0_off239_eq k) hr h.1 h.2⟩
  · exact ⟨_, List.mem_cons_self, RowsLib.mem_unit _ (k0_off241_inb k) r c k.val 112 (k0_off241_eq k) hr h.1 h.2⟩

/-- The slot of sums after row loop 15, as the row-sum function: at (r, c) the gathered rows' entry plus the positional scratch's entry of row r + 0. -/
theorem rows_t15_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t15 (F := F) d L v2 X P 128)) (ValueIdx.ix2 r c)
      = RowsLib.rowG (ibS0).view (qV).view X P 0 (by omega) (ValueIdx.ix2 r c) :=
  RowsLib.read_writes_trips (n := k0_t15_loop.trips) (pb_t15 (F := F) d L v2 X P) (tripL_t15 (F := F) d L v2 X P) (obS0).view G _
    rfl (pb_t15_succ (F := F) d L v2 X P) (trip_pieces_t15 d L v2 X P) _ ⟨r.val, r.isLt⟩ (trip_cover_t15 d L v2 X P ⟨r.val, r.isLt⟩ r c rfl)

/-- THE SLOT OF SUMS AFTER ROW LOOP 15, whatever it held before: at (r, c) the gathered rows' entry (r, c) plus the positional
    scratch's entry (r + 0, c). -/
theorem rows_t15 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t15 (F := F) d L v2 X P (Scf.trips k0_t15_loop.lb k0_t15_loop.ub k0_t15_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t15_G d L v2 X P G r c

/-! ### the value of row loop 16 (slot 1, positional rows 128 … 255) -/

theorem trips_t16 : k0_t16_loop.trips = 128 := rfl

set_option maxHeartbeats 2000000 in
/-- Every piece of a trip of row loop 16 is the row sum on its rectangle. -/
theorem trip_pieces_t16 (d : Dev nD) (L : grid0.Coords) (v2 : BitVec 32) (X : BufTy.Contents (Elt F) (ibS1).view.ty) (P : BufTy.Contents (Elt F) (qV).view.ty) (k : Fin k0_t16_loop.trips) :
    ∀ p ∈ tripL_t16 (F := F) d L v2 X P k, ∀ x : p.1.shape.Idx, p.2 x = RowsLib.rowG (ibS1).view (qV).view X P 128 (by omega) (p.1.emb x) := by
  unfold tripL_t16 trip_t16
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off257_inb k) (k0_off257_inb k) (k0_off258_inb k) k.val (k.val + 128) 112 (k0_off257_eq k) (k0_off258_eq k) rfl _ (RowsLib.lane_sum _ _ _ _) x
  · exact fun x => RowsLib.piece_eq _ _ X P 128 _ _ _ (k0_off255_inb k) (k0_off255_inb k) (k0_off256_inb k) k.val (k.val + 128) 96 (k0_off255_eq k) (k0_off256_eq k) rfl _ (RowsLib.lane_sum _ _ _ _) x
  · exact fun x => RowsLib.piece_eq _ _ X P 128 _ _ _ (k0_off253_inb k) (k0_off253_inb k) (k0_off254_inb k) k.val (k.val + 128) 80 (k0_off253_eq k) (k0_off254_eq k) rfl _ (RowsLib.lane_sum _ _ _ _) x
  · exact fun x => RowsLib.piece_eq _ _ X P 128 _ _ _ (k0_off251_inb k) (k0_off251_inb k) (k0_off252_inb k) k.val (k.val + 128) 64 (k0_off251_eq k) (k0_off252_eq k) rfl _ (RowsLib.lane_sum _ _ _ _) x
  · exact fun x => RowsLib.piece_eq _ _ X P 128 _ _ _ (k0_off249_inb k) (k0_off249_inb k) (k0_off250_inb k) k.val (k.val + 128) 48 (k0_off249_eq k) (k0_off250_eq k) rfl _ (RowsLib.lane_sum _ _ _ _) x
  · exact fun x => RowsLib.piece_eq _ _ X P 128 _ _ _ (k0_off247_inb k) (k0_off247_inb k) (k0_off248_inb k) k.val (k.val + 128) 32 (k0_off247_eq k) (k0_off248_eq k) rfl _ (RowsLib.lane_sum _ _ _ _) x
  · exact fun x => RowsLib.piece_eq _ _ X P 128 _ _ _ (k0_off245_inb k) (k0_off245_inb k) (k0_off246_inb k) k.val (k.val + 128) 16 (k0_off245_eq k) (k0_off246_eq k) rfl _ (RowsLib.lane_sum _ _ _ _) x
  · exact fun x => RowsLib.piece_eq _ _ X P 128 _ _ _ (k0_off243_inb k) (k0_off243_inb k) (k0_off244_inb k) k.val (k.val + 128) 0 (k0_off243_eq k) (k0_off244_eq k) rfl _ (RowsLib.lane_sum _ _ _ _) x

set_option maxHeartbeats 2000000 in
/-- The eight pieces of trip k cover row k. -/
theorem trip_cover_t16 (d : Dev nD) (L : grid0.Coords) (v2 : BitVec 32) (X : BufTy.Contents (Elt F) (ibS1).view.ty) (P : BufTy.Contents (Elt F) (qV).view.ty)
    (k : Fin k0_t16_loop.trips) (r c : Fin 128) (hr : k.val = r.val) :
    ∃ p ∈ tripL_t16 (F := F) d L v2 X P k, (ValueIdx.ix2 r c : RowsLib.SS.Idx) ∈ p.1.set := by
  unfold tripL_t16 trip_t16
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off243_inb k) r c k.val 0 (k0_off243_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off245_inb k) r c k.val 16 (k0_off245_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off247_inb k) r c k.val 32 (k0_off247_eq k) hr h.1 h.2⟩
  · exact ⟨_, List.mem_cons_of_mem _ (List.mem_cons_of_mem _ (List.mem_cons_of_mem _ (List.mem_cons_of_mem _ (List.mem_cons_self)))), RowsLib.mem_unit _ (k0_off249_inb k) r c k.val 48 (k0_off249_eq k) hr h.1 h.2⟩
  · exact ⟨_, List.mem_cons_of_mem _ (List.mem_cons_of_mem _ (List.mem_cons_of_mem _ (List.mem_cons_self))), RowsLib.mem_unit _ (k0_off251_inb k) r c k.val 64 (k0_off251_eq k) hr h.1 h.2⟩
  · exact ⟨_, List.mem_cons_of_mem _ (List.mem_cons_of_mem _ (List.mem_cons_self)), RowsLib.mem_unit _ (k0_off253_inb k) r c k.val 80 (k0_off253_eq k) hr h.1 h.2⟩
  · exact ⟨_, List.mem_cons_of_mem _ (List.mem_cons_self), RowsLib.mem_unit _ (k0_off255_inb k) r c k.val 96 (k0_off255_eq k) hr h.1 h.2⟩
  · exact ⟨_, List.mem_cons_self, RowsLib.mem_unit _ (k0_off257_inb k) r c k.val 112 (k0_off257_eq k) hr h.1 h.2⟩

/-- The slot of sums after row loop 16, as the row-sum function: at (r, c) the gathered rows' entry plus the positional scratch's entry of row r + 128. -/
theorem rows_t16_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t16 (F := F) d L v2 X P 128)) (ValueIdx.ix2 r c)
      = RowsLib.rowG (ibS1).view (qV).view X P 128 (by omega) (ValueIdx.ix2 r c) :=
  RowsLib.read_writes_trips (n := k0_t16_loop.trips) (pb_t16 (F := F) d L v2 X P) (tripL_t16 (F := F) d L v2 X P) (obS1).view G _
    rfl (pb_t16_succ (F := F) d L v2 X P) (trip_pieces_t16 d L v2 X P) _ ⟨r.val, r.isLt⟩ (trip_cover_t16 d L v2 X P ⟨r.val, r.isLt⟩ r c rfl)

/-- THE SLOT OF SUMS AFTER ROW LOOP 16, whatever it held before: at (r, c) the gathered rows' entry (r, c) plus the positional
    scratch's entry (r + 128, c). -/
theorem rows_t16 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t16 (F := F) d L v2 X P (Scf.trips k0_t16_loop.lb k0_t16_loop.ub k0_t16_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t16_G d L v2 X P G r c

end Tile

end Cert.Proof.KB

end
-- ==== Proof.LoopsBB.lean ====
-- The same text as LoopsB.lean, read at the printed kernel's own namespace: Cert.Kernel for Cert.KernelIdeal throughout.
/- GENERATED by: bun proofs/208673_g37134287241914_cont_8to1_b_302_3_alg/scratch/gen_loops.js (run from the package root): one text per row loop, instantiated at the loops 17 to 32.
   Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.CommonB
import proofs.«208673_g37134287241914_cont_8to1_b_302_3_alg».proof.Proof.Gen.Kernel.Skeleton
import proofs.«208673_g37134287241914_cont_8to1_b_302_3_alg».proof.Proof.TileResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### loop 17 (slot 0) -/

set_option maxHeartbeats 4000000 in
/-- One trip of row loop 17 at a symbolic row: the pieces it writes into the sum slot are the run's own finds. -/
@[irreducible] def trip_t17 (d : Dev nD) (L : grid0.Coords) (v2 : BitVec 32)
    (X : BufTy.Contents (Elt F) (ibS0).view.ty) (P : BufTy.Contents (Elt F) (qV).view.ty) (k : Fin k0_t17_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t17_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t17_body TripRes0
    iintro ⟨HX, HP, HW⟩
    sl_exec
    sl_step
    sl_close

abbrev tripL_t17 (d : Dev nD) (L : grid0.Coords) (v2 : BitVec 32) (X : BufTy.Contents (Elt F) (ibS0).view.ty) (P : BufTy.Contents (Elt F) (qV).view.ty) (k : Fin k0_t17_loop.trips) : List (View.Piece (Elt F) S128x128 .f32) :=
  (trip_t17 (F := F) d L v2 X P k).1

@[irreducible] def pb_t17Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t17_loop.trips then (tripL_t17 (F := F) d L v2 X P ⟨k, h⟩) ++ prev else prev

/-- The pieces of the rows before k (last first). -/
def pb_t17 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t17Step d L v2 X P k (pb_t17 d L v2 X P k)

theorem pb_t17_succ (d : Dev nD) (L : grid0.Coords) (v2 : BitVec 32) (X : BufTy.Contents (Elt F) (ibS0).view.ty) (P : BufTy.Contents (Elt F) (qV).view.ty) (k : Fin k0_t17_loop.trips) :
    pb_t17 (F := F) d L v2 X P (k.val + 1) = (tripL_t17 (F := F) d L v2 X P k) ++ (pb_t17 (F := F) d L v2 X P k.val) := by
  rw [pb_t17.eq_2]; unfold pb_t17Step; exact dif_pos k.isLt

set_option warn.classDefReducibility false in
/-- Row loop 17 by its invariant: the gathered rows and the positional rows read, the sum slot holding the pieces of the rows before k over its contents at loop entry. -/
@[sl_loop] def loopInv_t17 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t17_loop.lb k0_t17_loop.ub k0_t17_loop.st k0_t17_ok () (k0_t17_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t17 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t17 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t17_succ]
      iexists _; isplitl [HW]; · iexact HW
      ipureintro; rw [hf, ← View.writes_append]

/-! ### loop 18 (slot 1) -/

set_option maxHeartbeats 4000000 in
/-- One trip of row loop 18 at a symbolic row: the pieces it writes into the sum slot are the run's own finds. -/
@[irreducible] def trip_t18 (d : Dev nD) (L : grid0.Coords) (v2 : BitVec 32)
    (X : BufTy.Contents (Elt F) (ibS1).view.ty) (P : BufTy.Contents (Elt F) (qV).view.ty) (k : Fin k0_t18_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t18_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t18_body TripRes1
    iintro ⟨HX, HP, HW⟩
    sl_exec
    sl_step
    sl_close

abbrev tripL_t18 (d : Dev nD) (L : grid0.Coords) (v2 : BitVec 32) (X : BufTy.Contents (Elt F) (ibS1).view.ty) (P : BufTy.Contents (Elt F) (qV).view.ty) (k : Fin k0_t18_loop.trips) : List (View.Piece (Elt F) S128x128 .f32) :=
  (trip_t18 (F := F) d L v2 X P k).1

@[irreducible] def pb_t18Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t18_loop.trips then (tripL_t18 (F := F) d L v2 X P ⟨k, h⟩) ++ prev else prev

/-- The pieces of the rows before k (last first). -/
def pb_t18 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t18Step d L v2 X P k (pb_t18 d L v2 X P k)

theorem pb_t18_succ (d : Dev nD) (L : grid0.Coords) (v2 : BitVec 32) (X : BufTy.Contents (Elt F) (ibS1).view.ty) (P : BufTy.Contents (Elt F) (qV).view.ty) (k : Fin k0_t18_loop.trips) :
    pb_t18 (F := F) d L v2 X P (k.val + 1) = (tripL_t18 (F := F) d L v2 X P k) ++ (pb_t18 (F := F) d L v2 X P k.val) := by
  rw [pb_t18.eq_2]; unfold pb_t18Step; exact dif_pos k.isLt

set_option warn.classDefReducibility false in
/-- Row loop 18 by its invariant: the gathered rows and the positional rows read, the sum slot holding the pieces of the rows before k over its contents at loop entry. -/
@[sl_loop] def loopInv_t18 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t18_loop.lb k0_t18_loop.ub k0_t18_loop.st k0_t18_ok () (k0_t18_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t18 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t18 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t18_succ]
      iexists _; isplitl [HW]; · iexact HW
      ipureintro; rw [hf, ← View.writes_append]

/-! ### loop 19 (slot 0) -/

set_option maxHeartbeats 4000000 in
/-- One trip of row loop 19 at a symbolic row: the pieces it writes into the sum slot are the run's own finds. -/
@[irreducible] def trip_t19 (d : Dev nD) (L : grid0.Coords) (v2 : BitVec 32)
    (X : BufTy.Contents (Elt F) (ibS0).view.ty) (P : BufTy.Contents (Elt F) (qV).view.ty) (k : Fin k0_t19_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t19_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t19_body TripRes0
    iintro ⟨HX, HP, HW⟩
    sl_exec
    sl_step
    sl_close

abbrev tripL_t19 (d : Dev nD) (L : grid0.Coords) (v2 : BitVec 32) (X : BufTy.Contents (Elt F) (ibS0).view.ty) (P : BufTy.Contents (Elt F) (qV).view.ty) (k : Fin k0_t19_loop.trips) : List (View.Piece (Elt F) S128x128 .f32) :=
  (trip_t19 (F := F) d L v2 X P k).1

@[irreducible] def pb_t19Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t19_loop.trips then (tripL_t19 (F := F) d L v2 X P ⟨k, h⟩) ++ prev else prev

/-- The pieces of the rows before k (last first). -/
def pb_t19 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t19Step d L v2 X P k (pb_t19 d L v2 X P k)

theorem pb_t19_succ (d : Dev nD) (L : grid0.Coords) (v2 : BitVec 32) (X : BufTy.Contents (Elt F) (ibS0).view.ty) (P : BufTy.Contents (Elt F) (qV).view.ty) (k : Fin k0_t19_loop.trips) :
    pb_t19 (F := F) d L v2 X P (k.val + 1) = (tripL_t19 (F := F) d L v2 X P k) ++ (pb_t19 (F := F) d L v2 X P k.val) := by
  rw [pb_t19.eq_2]; unfold pb_t19Step; exact dif_pos k.isLt

set_option warn.classDefReducibility false in
/-- Row loop 19 by its invariant: the gathered rows and the positional rows read, the sum slot holding the pieces of the rows before k over its contents at loop entry. -/
@[sl_loop] def loopInv_t19 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t19_loop.lb k0_t19_loop.ub k0_t19_loop.st k0_t19_ok () (k0_t19_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t19 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t19 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t19_succ]
      iexists _; isplitl [HW]; · iexact HW
      ipureintro; rw [hf, ← View.writes_append]

/-! ### loop 20 (slot 1) -/

set_option maxHeartbeats 4000000 in
/-- One trip of row loop 20 at a symbolic row: the pieces it writes into the sum slot are the run's own finds. -/
@[irreducible] def trip_t20 (d : Dev nD) (L : grid0.Coords) (v2 : BitVec 32)
    (X : BufTy.Contents (Elt F) (ibS1).view.ty) (P : BufTy.Contents (Elt F) (qV).view.ty) (k : Fin k0_t20_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t20_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t20_body TripRes1
    iintro ⟨HX, HP, HW⟩
    sl_exec
    sl_step
    sl_close

abbrev tripL_t20 (d : Dev nD) (L : grid0.Coords) (v2 : BitVec 32) (X : BufTy.Contents (Elt F) (ibS1).view.ty) (P : BufTy.Contents (Elt F) (qV).view.ty) (k : Fin k0_t20_loop.trips) : List (View.Piece (Elt F) S128x128 .f32) :=
  (trip_t20 (F := F) d L v2 X P k).1

@[irreducible] def pb_t20Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t20_loop.trips then (tripL_t20 (F := F) d L v2 X P ⟨k, h⟩) ++ prev else prev

/-- The pieces of the rows before k (last first). -/
def pb_t20 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t20Step d L v2 X P k (pb_t20 d L v2 X P k)

theorem pb_t20_succ (d : Dev nD) (L : grid0.Coords) (v2 : BitVec 32) (X : BufTy.Contents (Elt F) (ibS1).view.ty) (P : BufTy.Contents (Elt F) (qV).view.ty) (k : Fin k0_t20_loop.trips) :
    pb_t20 (F := F) d L v2 X P (k.val + 1) = (tripL_t20 (F := F) d L v2 X P k) ++ (pb_t20 (F := F) d L v2 X P k.val) := by
  rw [pb_t20.eq_2]; unfold pb_t20Step; exact dif_pos k.isLt

set_option warn.classDefReducibility false in
/-- Row loop 20 by its invariant: the gathered rows and the positional rows read, the sum slot holding the pieces of the rows before k over its contents at loop entry. -/
@[sl_loop] def loopInv_t20 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t20_loop.lb k0_t20_loop.ub k0_t20_loop.st k0_t20_ok () (k0_t20_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t20 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t20 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t20_succ]
      iexists _; isplitl [HW]; · iexact HW
      ipureintro; rw [hf, ← View.writes_append]

/-! ### loop 21 (slot 0) -/

set_option maxHeartbeats 4000000 in
/-- One trip of row loop 21 at a symbolic row: the pieces it writes into the sum slot are the run's own finds. -/
@[irreducible] def trip_t21 (d : Dev nD) (L : grid0.Coords) (v2 : BitVec 32)
    (X : BufTy.Contents (Elt F) (ibS0).view.ty) (P : BufTy.Contents (Elt F) (qV).view.ty) (k : Fin k0_t21_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t21_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t21_body TripRes0
    iintro ⟨HX, HP, HW⟩
    sl_exec
    sl_step
    sl_close

abbrev tripL_t21 (d : Dev nD) (L : grid0.Coords) (v2 : BitVec 32) (X : BufTy.Contents (Elt F) (ibS0).view.ty) (P : BufTy.Contents (Elt F) (qV).view.ty) (k : Fin k0_t21_loop.trips) : List (View.Piece (Elt F) S128x128 .f32) :=
  (trip_t21 (F := F) d L v2 X P k).1

@[irreducible] def pb_t21Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t21_loop.trips then (tripL_t21 (F := F) d L v2 X P ⟨k, h⟩) ++ prev else prev

/-- The pieces of the rows before k (last first). -/
def pb_t21 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t21Step d L v2 X P k (pb_t21 d L v2 X P k)

theorem pb_t21_succ (d : Dev nD) (L : grid0.Coords) (v2 : BitVec 32) (X : BufTy.Contents (Elt F) (ibS0).view.ty) (P : BufTy.Contents (Elt F) (qV).view.ty) (k : Fin k0_t21_loop.trips) :
    pb_t21 (F := F) d L v2 X P (k.val + 1) = (tripL_t21 (F := F) d L v2 X P k) ++ (pb_t21 (F := F) d L v2 X P k.val) := by
  rw [pb_t21.eq_2]; unfold pb_t21Step; exact dif_pos k.isLt

set_option warn.classDefReducibility false in
/-- Row loop 21 by its invariant: the gathered rows and the positional rows read, the sum slot holding the pieces of the rows before k over its contents at loop entry. -/
@[sl_loop] def loopInv_t21 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t21_loop.lb k0_t21_loop.ub k0_t21_loop.st k0_t21_ok () (k0_t21_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t21 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t21 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t21_succ]
      iexists _; isplitl [HW]; · iexact HW
      ipureintro; rw [hf, ← View.writes_append]

/-! ### loop 22 (slot 1) -/

set_option maxHeartbeats 4000000 in
/-- One trip of row loop 22 at a symbolic row: the pieces it writes into the sum slot are the run's own finds. -/
@[irreducible] def trip_t22 (d : Dev nD) (L : grid0.Coords) (v2 : BitVec 32)
    (X : BufTy.Contents (Elt F) (ibS1).view.ty) (P : BufTy.Contents (Elt F) (qV).view.ty) (k : Fin k0_t22_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t22_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t22_body TripRes1
    iintro ⟨HX, HP, HW⟩
    sl_exec
    sl_step
    sl_close

abbrev tripL_t22 (d : Dev nD) (L : grid0.Coords) (v2 : BitVec 32) (X : BufTy.Contents (Elt F) (ibS1).view.ty) (P : BufTy.Contents (Elt F) (qV).view.ty) (k : Fin k0_t22_loop.trips) : List (View.Piece (Elt F) S128x128 .f32) :=
  (trip_t22 (F := F) d L v2 X P k).1

@[irreducible] def pb_t22Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t22_loop.trips then (tripL_t22 (F := F) d L v2 X P ⟨k, h⟩) ++ prev else prev

/-- The pieces of the rows before k (last first). -/
def pb_t22 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t22Step d L v2 X P k (pb_t22 d L v2 X P k)

theorem pb_t22_succ (d : Dev nD) (L : grid0.Coords) (v2 : BitVec 32) (X : BufTy.Contents (Elt F) (ibS1).view.ty) (P : BufTy.Contents (Elt F) (qV).view.ty) (k : Fin k0_t22_loop.trips) :
    pb_t22 (F := F) d L v2 X P (k.val + 1) = (tripL_t22 (F := F) d L v2 X P k) ++ (pb_t22 (F := F) d L v2 X P k.val) := by
  rw [pb_t22.eq_2]; unfold pb_t22Step; exact dif_pos k.isLt

set_option warn.classDefReducibility false in
/-- Row loop 22 by its invariant: the gathered rows and the positional rows read, the sum slot holding the pieces of the rows before k over its contents at loop entry. -/
@[sl_loop] def loopInv_t22 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t22_loop.lb k0_t22_loop.ub k0_t22_loop.st k0_t22_ok () (k0_t22_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t22 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t22 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t22_succ]
      iexists _; isplitl [HW]; · iexact HW
      ipureintro; rw [hf, ← View.writes_append]

/-! ### loop 23 (slot 0) -/

set_option maxHeartbeats 4000000 in
/-- One trip of row loop 23 at a symbolic row: the pieces it writes into the sum slot are the run's own finds. -/
@[irreducible] def trip_t23 (d : Dev nD) (L : grid0.Coords) (v2 wa wb : BitVec 32)
    (X : BufTy.Contents (Elt F) (ibS0).view.ty) (P : BufTy.Contents (Elt F) (qV).view.ty) (k : Fin k0_t23_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t23_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t23_body TripRes0
    iintro ⟨HX, HP, HW⟩
    sl_exec
    sl_step
    sl_close

abbrev tripL_t23 (d : Dev nD) (L : grid0.Coords) (v2 wa wb : BitVec 32) (X : BufTy.Contents (Elt F) (ibS0).view.ty) (P : BufTy.Contents (Elt F) (qV).view.ty) (k : Fin k0_t23_loop.trips) : List (View.Piece (Elt F) S128x128 .f32) :=
  (trip_t23 (F := F) d L v2 wa wb X P k).1

@[irreducible] def pb_t23Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t23_loop.trips then (tripL_t23 (F := F) d L v2 wa wb X P ⟨k, h⟩) ++ prev else prev

/-- The pieces of the rows before k (last first). -/
def pb_t23 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t23Step d L v2 wa wb X P k (pb_t23 d L v2 wa wb X P k)

theorem pb_t23_succ (d : Dev nD) (L : grid0.Coords) (v2 wa wb : BitVec 32) (X : BufTy.Contents (Elt F) (ibS0).view.ty) (P : BufTy.Contents (Elt F) (qV).view.ty) (k : Fin k0_t23_loop.trips) :
    pb_t23 (F := F) d L v2 wa wb X P (k.val + 1) = (tripL_t23 (F := F) d L v2 wa wb X P k) ++ (pb_t23 (F := F) d L v2 wa wb X P k.val) := by
  rw [pb_t23.eq_2]; unfold pb_t23Step; exact dif_pos k.isLt

set_option warn.classDefReducibility false in
/-- Row loop 23 by its invariant: the gathered rows and the positional rows read, the sum slot holding the pieces of the rows before k over its contents at loop entry. -/
@[sl_loop] def loopInv_t23 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t23_loop.lb k0_t23_loop.ub k0_t23_loop.st k0_t23_ok () (k0_t23_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t23 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t23 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t23_succ]
      iexists _; isplitl [HW]; · iexact HW
      ipureintro; rw [hf, ← View.writes_append]

/-! ### loop 24 (slot 1) -/

set_option maxHeartbeats 4000000 in
/-- One trip of row loop 24 at a symbolic row: the pieces it writes into the sum slot are the run's own finds. -/
@[irreducible] def trip_t24 (d : Dev nD) (L : grid0.Coords) (v2 : BitVec 32)
    (X : BufTy.Contents (Elt F) (ibS1).view.ty) (P : BufTy.Contents (Elt F) (qV).view.ty) (k : Fin k0_t24_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t24_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t24_body TripRes1
    iintro ⟨HX, HP, HW⟩
    sl_exec
    sl_step
    sl_close

abbrev tripL_t24 (d : Dev nD) (L : grid0.Coords) (v2 : BitVec 32) (X : BufTy.Contents (Elt F) (ibS1).view.ty) (P : BufTy.Contents (Elt F) (qV).view.ty) (k : Fin k0_t24_loop.trips) : List (View.Piece (Elt F) S128x128 .f32) :=
  (trip_t24 (F := F) d L v2 X P k).1

@[irreducible] def pb_t24Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t24_loop.trips then (tripL_t24 (F := F) d L v2 X P ⟨k, h⟩) ++ prev else prev

/-- The pieces of the rows before k (last first). -/
def pb_t24 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t24Step d L v2 X P k (pb_t24 d L v2 X P k)

theorem pb_t24_succ (d : Dev nD) (L : grid0.Coords) (v2 : BitVec 32) (X : BufTy.Contents (Elt F) (ibS1).view.ty) (P : BufTy.Contents (Elt F) (qV).view.ty) (k : Fin k0_t24_loop.trips) :
    pb_t24 (F := F) d L v2 X P (k.val + 1) = (tripL_t24 (F := F) d L v2 X P k) ++ (pb_t24 (F := F) d L v2 X P k.val) := by
  rw [pb_t24.eq_2]; unfold pb_t24Step; exact dif_pos k.isLt

set_option warn.classDefReducibility false in
/-- Row loop 24 by its invariant: the gathered rows and the positional rows read, the sum slot holding the pieces of the rows before k over its contents at loop entry. -/
@[sl_loop] def loopInv_t24 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t24_loop.lb k0_t24_loop.ub k0_t24_loop.st k0_t24_ok () (k0_t24_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t24 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t24 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t24_succ]
      iexists _; isplitl [HW]; · iexact HW
      ipureintro; rw [hf, ← View.writes_append]

/-! ### loop 25 (slot 0) -/

set_option maxHeartbeats 4000000 in
/-- One trip of row loop 25 at a symbolic row: the pieces it writes into the sum slot are the run's own finds. -/
@[irreducible] def trip_t25 (d : Dev nD) (L : grid0.Coords) (v2 : BitVec 32)
    (X : BufTy.Contents (Elt F) (ibS0).view.ty) (P : BufTy.Contents (Elt F) (qV).view.ty) (k : Fin k0_t25_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t25_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t25_body TripRes0
    iintro ⟨HX, HP, HW⟩
    sl_exec
    sl_step
    sl_close

abbrev tripL_t25 (d : Dev nD) (L : grid0.Coords) (v2 : BitVec 32) (X : BufTy.Contents (Elt F) (ibS0).view.ty) (P : BufTy.Contents (Elt F) (qV).view.ty) (k : Fin k0_t25_loop.trips) : List (View.Piece (Elt F) S128x128 .f32) :=
  (trip_t25 (F := F) d L v2 X P k).1

@[irreducible] def pb_t25Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t25_loop.trips then (tripL_t25 (F := F) d L v2 X P ⟨k, h⟩) ++ prev else prev

/-- The pieces of the rows before k (last first). -/
def pb_t25 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t25Step d L v2 X P k (pb_t25 d L v2 X P k)

theorem pb_t25_succ (d : Dev nD) (L : grid0.Coords) (v2 : BitVec 32) (X : BufTy.Contents (Elt F) (ibS0).view.ty) (P : BufTy.Contents (Elt F) (qV).view.ty) (k : Fin k0_t25_loop.trips) :
    pb_t25 (F := F) d L v2 X P (k.val + 1) = (tripL_t25 (F := F) d L v2 X P k) ++ (pb_t25 (F := F) d L v2 X P k.val) := by
  rw [pb_t25.eq_2]; unfold pb_t25Step; exact dif_pos k.isLt

set_option warn.classDefReducibility false in
/-- Row loop 25 by its invariant: the gathered rows and the positional rows read, the sum slot holding the pieces of the rows before k over its contents at loop entry. -/
@[sl_loop] def loopInv_t25 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t25_loop.lb k0_t25_loop.ub k0_t25_loop.st k0_t25_ok () (k0_t25_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t25 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t25 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t25_succ]
      iexists _; isplitl [HW]; · iexact HW
      ipureintro; rw [hf, ← View.writes_append]

/-! ### loop 26 (slot 1) -/

set_option maxHeartbeats 4000000 in
/-- One trip of row loop 26 at a symbolic row: the pieces it writes into the sum slot are the run's own finds. -/
@[irreducible] def trip_t26 (d : Dev nD) (L : grid0.Coords) (v2 : BitVec 32)
    (X : BufTy.Contents (Elt F) (ibS1).view.ty) (P : BufTy.Contents (Elt F) (qV).view.ty) (k : Fin k0_t26_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t26_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t26_body TripRes1
    iintro ⟨HX, HP, HW⟩
    sl_exec
    sl_step
    sl_close

abbrev tripL_t26 (d : Dev nD) (L : grid0.Coords) (v2 : BitVec 32) (X : BufTy.Contents (Elt F) (ibS1).view.ty) (P : BufTy.Contents (Elt F) (qV).view.ty) (k : Fin k0_t26_loop.trips) : List (View.Piece (Elt F) S128x128 .f32) :=
  (trip_t26 (F := F) d L v2 X P k).1

@[irreducible] def pb_t26Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t26_loop.trips then (tripL_t26 (F := F) d L v2 X P ⟨k, h⟩) ++ prev else prev

/-- The pieces of the rows before k (last first). -/
def pb_t26 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t26Step d L v2 X P k (pb_t26 d L v2 X P k)

theorem pb_t26_succ (d : Dev nD) (L : grid0.Coords) (v2 : BitVec 32) (X : BufTy.Contents (Elt F) (ibS1).view.ty) (P : BufTy.Contents (Elt F) (qV).view.ty) (k : Fin k0_t26_loop.trips) :
    pb_t26 (F := F) d L v2 X P (k.val + 1) = (tripL_t26 (F := F) d L v2 X P k) ++ (pb_t26 (F := F) d L v2 X P k.val) := by
  rw [pb_t26.eq_2]; unfold pb_t26Step; exact dif_pos k.isLt

set_option warn.classDefReducibility false in
/-- Row loop 26 by its invariant: the gathered rows and the positional rows read, the sum slot holding the pieces of the rows before k over its contents at loop entry. -/
@[sl_loop] def loopInv_t26 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t26_loop.lb k0_t26_loop.ub k0_t26_loop.st k0_t26_ok () (k0_t26_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t26 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t26 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t26_succ]
      iexists _; isplitl [HW]; · iexact HW
      ipureintro; rw [hf, ← View.writes_append]

/-! ### loop 27 (slot 0) -/

set_option maxHeartbeats 4000000 in
/-- One trip of row loop 27 at a symbolic row: the pieces it writes into the sum slot are the run's own finds. -/
@[irreducible] def trip_t27 (d : Dev nD) (L : grid0.Coords) (v2 : BitVec 32)
    (X : BufTy.Contents (Elt F) (ibS0).view.ty) (P : BufTy.Contents (Elt F) (qV).view.ty) (k : Fin k0_t27_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t27_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t27_body TripRes0
    iintro ⟨HX, HP, HW⟩
    sl_exec
    sl_step
    sl_close

abbrev tripL_t27 (d : Dev nD) (L : grid0.Coords) (v2 : BitVec 32) (X : BufTy.Contents (Elt F) (ibS0).view.ty) (P : BufTy.Contents (Elt F) (qV).view.ty) (k : Fin k0_t27_loop.trips) : List (View.Piece (Elt F) S128x128 .f32) :=
  (trip_t27 (F := F) d L v2 X P k).1

@[irreducible] def pb_t27Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t27_loop.trips then (tripL_t27 (F := F) d L v2 X P ⟨k, h⟩) ++ prev else prev

/-- The pieces of the rows before k (last first). -/
def pb_t27 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t27Step d L v2 X P k (pb_t27 d L v2 X P k)

theorem pb_t27_succ (d : Dev nD) (L : grid0.Coords) (v2 : BitVec 32) (X : BufTy.Contents (Elt F) (ibS0).view.ty) (P : BufTy.Contents (Elt F) (qV).view.ty) (k : Fin k0_t27_loop.trips) :
    pb_t27 (F := F) d L v2 X P (k.val + 1) = (tripL_t27 (F := F) d L v2 X P k) ++ (pb_t27 (F := F) d L v2 X P k.val) := by
  rw [pb_t27.eq_2]; unfold pb_t27Step; exact dif_pos k.isLt

set_option warn.classDefReducibility false in
/-- Row loop 27 by its invariant: the gathered rows and the positional rows read, the sum slot holding the pieces of the rows before k over its contents at loop entry. -/
@[sl_loop] def loopInv_t27 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t27_loop.lb k0_t27_loop.ub k0_t27_loop.st k0_t27_ok () (k0_t27_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t27 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t27 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t27_succ]
      iexists _; isplitl [HW]; · iexact HW
      ipureintro; rw [hf, ← View.writes_append]

/-! ### loop 28 (slot 1) -/

set_option maxHeartbeats 4000000 in
/-- One trip of row loop 28 at a symbolic row: the pieces it writes into the sum slot are the run's own finds. -/
@[irreducible] def trip_t28 (d : Dev nD) (L : grid0.Coords) (v2 : BitVec 32)
    (X : BufTy.Contents (Elt F) (ibS1).view.ty) (P : BufTy.Contents (Elt F) (qV).view.ty) (k : Fin k0_t28_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t28_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t28_body TripRes1
    iintro ⟨HX, HP, HW⟩
    sl_exec
    sl_step
    sl_close

abbrev tripL_t28 (d : Dev nD) (L : grid0.Coords) (v2 : BitVec 32) (X : BufTy.Contents (Elt F) (ibS1).view.ty) (P : BufTy.Contents (Elt F) (qV).view.ty) (k : Fin k0_t28_loop.trips) : List (View.Piece (Elt F) S128x128 .f32) :=
  (trip_t28 (F := F) d L v2 X P k).1

@[irreducible] def pb_t28Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t28_loop.trips then (tripL_t28 (F := F) d L v2 X P ⟨k, h⟩) ++ prev else prev

/-- The pieces of the rows before k (last first). -/
def pb_t28 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t28Step d L v2 X P k (pb_t28 d L v2 X P k)

theorem pb_t28_succ (d : Dev nD) (L : grid0.Coords) (v2 : BitVec 32) (X : BufTy.Contents (Elt F) (ibS1).view.ty) (P : BufTy.Contents (Elt F) (qV).view.ty) (k : Fin k0_t28_loop.trips) :
    pb_t28 (F := F) d L v2 X P (k.val + 1) = (tripL_t28 (F := F) d L v2 X P k) ++ (pb_t28 (F := F) d L v2 X P k.val) := by
  rw [pb_t28.eq_2]; unfold pb_t28Step; exact dif_pos k.isLt

set_option warn.classDefReducibility false in
/-- Row loop 28 by its invariant: the gathered rows and the positional rows read, the sum slot holding the pieces of the rows before k over its contents at loop entry. -/
@[sl_loop] def loopInv_t28 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t28_loop.lb k0_t28_loop.ub k0_t28_loop.st k0_t28_ok () (k0_t28_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t28 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t28 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t28_succ]
      iexists _; isplitl [HW]; · iexact HW
      ipureintro; rw [hf, ← View.writes_append]

/-! ### loop 29 (slot 0) -/

set_option maxHeartbeats 4000000 in
/-- One trip of row loop 29 at a symbolic row: the pieces it writes into the sum slot are the run's own finds. -/
@[irreducible] def trip_t29 (d : Dev nD) (L : grid0.Coords) (v2 : BitVec 32)
    (X : BufTy.Contents (Elt F) (ibS0).view.ty) (P : BufTy.Contents (Elt F) (qV).view.ty) (k : Fin k0_t29_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t29_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t29_body TripRes0
    iintro ⟨HX, HP, HW⟩
    sl_exec
    sl_step
    sl_close

abbrev tripL_t29 (d : Dev nD) (L : grid0.Coords) (v2 : BitVec 32) (X : BufTy.Contents (Elt F) (ibS0).view.ty) (P : BufTy.Contents (Elt F) (qV).view.ty) (k : Fin k0_t29_loop.trips) : List (View.Piece (Elt F) S128x128 .f32) :=
  (trip_t29 (F := F) d L v2 X P k).1

@[irreducible] def pb_t29Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t29_loop.trips then (tripL_t29 (F := F) d L v2 X P ⟨k, h⟩) ++ prev else prev

/-- The pieces of the rows before k (last first). -/
def pb_t29 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t29Step d L v2 X P k (pb_t29 d L v2 X P k)

theorem pb_t29_succ (d : Dev nD) (L : grid0.Coords) (v2 : BitVec 32) (X : BufTy.Contents (Elt F) (ibS0).view.ty) (P : BufTy.Contents (Elt F) (qV).view.ty) (k : Fin k0_t29_loop.trips) :
    pb_t29 (F := F) d L v2 X P (k.val + 1) = (tripL_t29 (F := F) d L v2 X P k) ++ (pb_t29 (F := F) d L v2 X P k.val) := by
  rw [pb_t29.eq_2]; unfold pb_t29Step; exact dif_pos k.isLt

set_option warn.classDefReducibility false in
/-- Row loop 29 by its invariant: the gathered rows and the positional rows read, the sum slot holding the pieces of the rows before k over its contents at loop entry. -/
@[sl_loop] def loopInv_t29 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t29_loop.lb k0_t29_loop.ub k0_t29_loop.st k0_t29_ok () (k0_t29_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t29 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t29 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t29_succ]
      iexists _; isplitl [HW]; · iexact HW
      ipureintro; rw [hf, ← View.writes_append]

/-! ### loop 30 (slot 1) -/

set_option maxHeartbeats 4000000 in
/-- One trip of row loop 30 at a symbolic row: the pieces it writes into the sum slot are the run's own finds. -/
@[irreducible] def trip_t30 (d : Dev nD) (L : grid0.Coords) (v2 : BitVec 32)
    (X : BufTy.Contents (Elt F) (ibS1).view.ty) (P : BufTy.Contents (Elt F) (qV).view.ty) (k : Fin k0_t30_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t30_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t30_body TripRes1
    iintro ⟨HX, HP, HW⟩
    sl_exec
    sl_step
    sl_close

abbrev tripL_t30 (d : Dev nD) (L : grid0.Coords) (v2 : BitVec 32) (X : BufTy.Contents (Elt F) (ibS1).view.ty) (P : BufTy.Contents (Elt F) (qV).view.ty) (k : Fin k0_t30_loop.trips) : List (View.Piece (Elt F) S128x128 .f32) :=
  (trip_t30 (F := F) d L v2 X P k).1

@[irreducible] def pb_t30Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t30_loop.trips then (tripL_t30 (F := F) d L v2 X P ⟨k, h⟩) ++ prev else prev

/-- The pieces of the rows before k (last first). -/
def pb_t30 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t30Step d L v2 X P k (pb_t30 d L v2 X P k)

theorem pb_t30_succ (d : Dev nD) (L : grid0.Coords) (v2 : BitVec 32) (X : BufTy.Contents (Elt F) (ibS1).view.ty) (P : BufTy.Contents (Elt F) (qV).view.ty) (k : Fin k0_t30_loop.trips) :
    pb_t30 (F := F) d L v2 X P (k.val + 1) = (tripL_t30 (F := F) d L v2 X P k) ++ (pb_t30 (F := F) d L v2 X P k.val) := by
  rw [pb_t30.eq_2]; unfold pb_t30Step; exact dif_pos k.isLt

set_option warn.classDefReducibility false in
/-- Row loop 30 by its invariant: the gathered rows and the positional rows read, the sum slot holding the pieces of the rows before k over its contents at loop entry. -/
@[sl_loop] def loopInv_t30 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t30_loop.lb k0_t30_loop.ub k0_t30_loop.st k0_t30_ok () (k0_t30_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t30 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t30 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t30_succ]
      iexists _; isplitl [HW]; · iexact HW
      ipureintro; rw [hf, ← View.writes_append]

/-! ### loop 31 (slot 0) -/

set_option maxHeartbeats 4000000 in
/-- One trip of row loop 31 at a symbolic row: the pieces it writes into the sum slot are the run's own finds. -/
@[irreducible] def trip_t31 (d : Dev nD) (L : grid0.Coords) (v2 : BitVec 32)
    (X : BufTy.Contents (Elt F) (ibS0).view.ty) (P : BufTy.Contents (Elt F) (qV).view.ty) (k : Fin k0_t31_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t31_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t31_body TripRes0
    iintro ⟨HX, HP, HW⟩
    sl_exec
    sl_step
    sl_close

abbrev tripL_t31 (d : Dev nD) (L : grid0.Coords) (v2 : BitVec 32) (X : BufTy.Contents (Elt F) (ibS0).view.ty) (P : BufTy.Contents (Elt F) (qV).view.ty) (k : Fin k0_t31_loop.trips) : List (View.Piece (Elt F) S128x128 .f32) :=
  (trip_t31 (F := F) d L v2 X P k).1

@[irreducible] def pb_t31Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t31_loop.trips then (tripL_t31 (F := F) d L v2 X P ⟨k, h⟩) ++ prev else prev

/-- The pieces of the rows before k (last first). -/
def pb_t31 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t31Step d L v2 X P k (pb_t31 d L v2 X P k)

theorem pb_t31_succ (d : Dev nD) (L : grid0.Coords) (v2 : BitVec 32) (X : BufTy.Contents (Elt F) (ibS0).view.ty) (P : BufTy.Contents (Elt F) (qV).view.ty) (k : Fin k0_t31_loop.trips) :
    pb_t31 (F := F) d L v2 X P (k.val + 1) = (tripL_t31 (F := F) d L v2 X P k) ++ (pb_t31 (F := F) d L v2 X P k.val) := by
  rw [pb_t31.eq_2]; unfold pb_t31Step; exact dif_pos k.isLt

set_option warn.classDefReducibility false in
/-- Row loop 31 by its invariant: the gathered rows and the positional rows read, the sum slot holding the pieces of the rows before k over its contents at loop entry. -/
@[sl_loop] def loopInv_t31 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t31_loop.lb k0_t31_loop.ub k0_t31_loop.st k0_t31_ok () (k0_t31_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t31 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t31 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t31_succ]
      iexists _; isplitl [HW]; · iexact HW
      ipureintro; rw [hf, ← View.writes_append]

/-! ### loop 32 (slot 1) -/

set_option maxHeartbeats 4000000 in
/-- One trip of row loop 32 at a symbolic row: the pieces it writes into the sum slot are the run's own finds. -/
@[irreducible] def trip_t32 (d : Dev nD) (L : grid0.Coords) (v2 : BitVec 32)
    (X : BufTy.Contents (Elt F) (ibS1).view.ty) (P : BufTy.Contents (Elt F) (qV).view.ty) (k : Fin k0_t32_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t32_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t32_body TripRes1
    iintro ⟨HX, HP, HW⟩
    sl_exec
    sl_step
    sl_close

abbrev tripL_t32 (d : Dev nD) (L : grid0.Coords) (v2 : BitVec 32) (X : BufTy.Contents (Elt F) (ibS1).view.ty) (P : BufTy.Contents (Elt F) (qV).view.ty) (k : Fin k0_t32_loop.trips) : List (View.Piece (Elt F) S128x128 .f32) :=
  (trip_t32 (F := F) d L v2 X P k).1

@[irreducible] def pb_t32Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t32_loop.trips then (tripL_t32 (F := F) d L v2 X P ⟨k, h⟩) ++ prev else prev

/-- The pieces of the rows before k (last first). -/
def pb_t32 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t32Step d L v2 X P k (pb_t32 d L v2 X P k)

theorem pb_t32_succ (d : Dev nD) (L : grid0.Coords) (v2 : BitVec 32) (X : BufTy.Contents (Elt F) (ibS1).view.ty) (P : BufTy.Contents (Elt F) (qV).view.ty) (k : Fin k0_t32_loop.trips) :
    pb_t32 (F := F) d L v2 X P (k.val + 1) = (tripL_t32 (F := F) d L v2 X P k) ++ (pb_t32 (F := F) d L v2 X P k.val) := by
  rw [pb_t32.eq_2]; unfold pb_t32Step; exact dif_pos k.isLt

set_option warn.classDefReducibility false in
/-- Row loop 32 by its invariant: the gathered rows and the positional rows read, the sum slot holding the pieces of the rows before k over its contents at loop entry. -/
@[sl_loop] def loopInv_t32 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t32_loop.lb k0_t32_loop.ub k0_t32_loop.st k0_t32_ok () (k0_t32_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t32 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t32 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t32_succ]
      iexists _; isplitl [HW]; · iexact HW
      ipureintro; rw [hf, ← View.writes_append]

end Tile
end Cert.Proof.KB
end
-- ==== Proof.RowsValueBB.lean ====
-- The same text as RowsValueB.lean, read at the printed kernel's own namespace: Cert.Kernel for Cert.KernelIdeal throughout.
/-
  The slot of sums after each of the row loops 17 to 32.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsBB
import proofs.«208673_g37134287241914_cont_8to1_b_302_3_alg».proof.Proof.RowsLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### the value of row loop 17 (slot 0, positional rows 0 … 127) -/

theorem trips_t17 : k0_t17_loop.trips = 128 := rfl

set_option maxHeartbeats 2000000 in
/-- Every piece of a trip of row loop 17 is the row sum on its rectangle. -/
theorem trip_pieces_t17 (d : Dev nD) (L : grid0.Coords) (v2 : BitVec 32) (X : BufTy.Contents (Elt F) (ibS0).view.ty) (P : BufTy.Contents (Elt F) (qV).view.ty) (k : Fin k0_t17_loop.trips) :
    ∀ p ∈ tripL_t17 (F := F) d L v2 X P k, ∀ x : p.1.shape.Idx, p.2 x = RowsLib.rowG (ibS0).view (qV).view X P 0 (by omega) (p.1.emb x) := by
  unfold tripL_t17 trip_t17
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off273_inb k) (k0_off273_inb k) (k0_off274_inb k) k.val (k.val + 0) 112 (k0_off273_eq k) (k0_off274_eq k) rfl _ (RowsLib.lane_sum _ _ _ _) x
  · exact fun x => RowsLib.piece_eq _ _ X P 0 _ _ _ (k0_off271_inb k) (k0_off271_inb k) (k0_off272_inb k) k.val (k.val + 0) 96 (k0_off271_eq k) (k0_off272_eq k) rfl _ (RowsLib.lane_sum _ _ _ _) x
  · exact fun x => RowsLib.piece_eq _ _ X P 0 _ _ _ (k0_off269_inb k) (k0_off269_inb k) (k0_off270_inb k) k.val (k.val + 0) 80 (k0_off269_eq k) (k0_off270_eq k) rfl _ (RowsLib.lane_sum _ _ _ _) x
  · exact fun x => RowsLib.piece_eq _ _ X P 0 _ _ _ (k0_off267_inb k) (k0_off267_inb k) (k0_off268_inb k) k.val (k.val + 0) 64 (k0_off267_eq k) (k0_off268_eq k) rfl _ (RowsLib.lane_sum _ _ _ _) x
  · exact fun x => RowsLib.piece_eq _ _ X P 0 _ _ _ (k0_off265_inb k) (k0_off265_inb k) (k0_off266_inb k) k.val (k.val + 0) 48 (k0_off265_eq k) (k0_off266_eq k) rfl _ (RowsLib.lane_sum _ _ _ _) x
  · exact fun x => RowsLib.piece_eq _ _ X P 0 _ _ _ (k0_off263_inb k) (k0_off263_inb k) (k0_off264_inb k) k.val (k.val + 0) 32 (k0_off263_eq k) (k0_off264_eq k) rfl _ (RowsLib.lane_sum _ _ _ _) x
  · exact fun x => RowsLib.piece_eq _ _ X P 0 _ _ _ (k0_off261_inb k) (k0_off261_inb k) (k0_off262_inb k) k.val (k.val + 0) 16 (k0_off261_eq k) (k0_off262_eq k) rfl _ (RowsLib.lane_sum _ _ _ _) x
  · exact fun x => RowsLib.piece_eq _ _ X P 0 _ _ _ (k0_off259_inb k) (k0_off259_inb k) (k0_off260_inb k) k.val (k.val + 0) 0 (k0_off259_eq k) (k0_off260_eq k) rfl _ (RowsLib.lane_sum _ _ _ _) x

set_option maxHeartbeats 2000000 in
/-- The eight pieces of trip k cover row k. -/
theorem trip_cover_t17 (d : Dev nD) (L : grid0.Coords) (v2 : BitVec 32) (X : BufTy.Contents (Elt F) (ibS0).view.ty) (P : BufTy.Contents (Elt F) (qV).view.ty)
    (k : Fin k0_t17_loop.trips) (r c : Fin 128) (hr : k.val = r.val) :
    ∃ p ∈ tripL_t17 (F := F) d L v2 X P k, (ValueIdx.ix2 r c : RowsLib.SS.Idx) ∈ p.1.set := by
  unfold tripL_t17 trip_t17
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off259_inb k) r c k.val 0 (k0_off259_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off261_inb k) r c k.val 16 (k0_off261_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off263_inb k) r c k.val 32 (k0_off263_eq k) hr h.1 h.2⟩
  · exact ⟨_, List.mem_cons_of_mem _ (List.mem_cons_of_mem _ (List.mem_cons_of_mem _ (List.mem_cons_of_mem _ (List.mem_cons_self)))), RowsLib.mem_unit _ (k0_off265_inb k) r c k.val 48 (k0_off265_eq k) hr h.1 h.2⟩
  · exact ⟨_, List.mem_cons_of_mem _ (List.mem_cons_of_mem _ (List.mem_cons_of_mem _ (List.mem_cons_self))), RowsLib.mem_unit _ (k0_off267_inb k) r c k.val 64 (k0_off267_eq k) hr h.1 h.2⟩
  · exact ⟨_, List.mem_cons_of_mem _ (List.mem_cons_of_mem _ (List.mem_cons_self)), RowsLib.mem_unit _ (k0_off269_inb k) r c k.val 80 (k0_off269_eq k) hr h.1 h.2⟩
  · exact ⟨_, List.mem_cons_of_mem _ (List.mem_cons_self), RowsLib.mem_unit _ (k0_off271_inb k) r c k.val 96 (k0_off271_eq k) hr h.1 h.2⟩
  · exact ⟨_, List.mem_cons_self, RowsLib.mem_unit _ (k0_off273_inb k) r c k.val 112 (k0_off273_eq k) hr h.1 h.2⟩

/-- The slot of sums after row loop 17, as the row-sum function: at (r, c) the gathered rows' entry plus the positional scratch's entry of row r + 0. -/
theorem rows_t17_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t17 (F := F) d L v2 X P 128)) (ValueIdx.ix2 r c)
      = RowsLib.rowG (ibS0).view (qV).view X P 0 (by omega) (ValueIdx.ix2 r c) :=
  RowsLib.read_writes_trips (n := k0_t17_loop.trips) (pb_t17 (F := F) d L v2 X P) (tripL_t17 (F := F) d L v2 X P) (obS0).view G _
    rfl (pb_t17_succ (F := F) d L v2 X P) (trip_pieces_t17 d L v2 X P) _ ⟨r.val, r.isLt⟩ (trip_cover_t17 d L v2 X P ⟨r.val, r.isLt⟩ r c rfl)

/-- THE SLOT OF SUMS AFTER ROW LOOP 17, whatever it held before: at (r, c) the gathered rows' entry (r, c) plus the positional
    scratch's entry (r + 0, c). -/
theorem rows_t17 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t17 (F := F) d L v2 X P (Scf.trips k0_t17_loop.lb k0_t17_loop.ub k0_t17_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t17_G d L v2 X P G r c

/-! ### the value of row loop 18 (slot 1, positional rows 128 … 255) -/

theorem trips_t18 : k0_t18_loop.trips = 128 := rfl

set_option maxHeartbeats 2000000 in
/-- Every piece of a trip of row loop 18 is the row sum on its rectangle. -/
theorem trip_pieces_t18 (d : Dev nD) (L : grid0.Coords) (v2 : BitVec 32) (X : BufTy.Contents (Elt F) (ibS1).view.ty) (P : BufTy.Contents (Elt F) (qV).view.ty) (k : Fin k0_t18_loop.trips) :
    ∀ p ∈ tripL_t18 (F := F) d L v2 X P k, ∀ x : p.1.shape.Idx, p.2 x = RowsLib.rowG (ibS1).view (qV).view X P 128 (by omega) (p.1.emb x) := by
  unfold tripL_t18 trip_t18
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off289_inb k) (k0_off289_inb k) (k0_off290_inb k) k.val (k.val + 128) 112 (k0_off289_eq k) (k0_off290_eq k) rfl _ (RowsLib.lane_sum _ _ _ _) x
  · exact fun x => RowsLib.piece_eq _ _ X P 128 _ _ _ (k0_off287_inb k) (k0_off287_inb k) (k0_off288_inb k) k.val (k.val + 128) 96 (k0_off287_eq k) (k0_off288_eq k) rfl _ (RowsLib.lane_sum _ _ _ _) x
  · exact fun x => RowsLib.piece_eq _ _ X P 128 _ _ _ (k0_off285_inb k) (k0_off285_inb k) (k0_off286_inb k) k.val (k.val + 128) 80 (k0_off285_eq k) (k0_off286_eq k) rfl _ (RowsLib.lane_sum _ _ _ _) x
  · exact fun x => RowsLib.piece_eq _ _ X P 128 _ _ _ (k0_off283_inb k) (k0_off283_inb k) (k0_off284_inb k) k.val (k.val + 128) 64 (k0_off283_eq k) (k0_off284_eq k) rfl _ (RowsLib.lane_sum _ _ _ _) x
  · exact fun x => RowsLib.piece_eq _ _ X P 128 _ _ _ (k0_off281_inb k) (k0_off281_inb k) (k0_off282_inb k) k.val (k.val + 128) 48 (k0_off281_eq k) (k0_off282_eq k) rfl _ (RowsLib.lane_sum _ _ _ _) x
  · exact fun x => RowsLib.piece_eq _ _ X P 128 _ _ _ (k0_off279_inb k) (k0_off279_inb k) (k0_off280_inb k) k.val (k.val + 128) 32 (k0_off279_eq k) (k0_off280_eq k) rfl _ (RowsLib.lane_sum _ _ _ _) x
  · exact fun x => RowsLib.piece_eq _ _ X P 128 _ _ _ (k0_off277_inb k) (k0_off277_inb k) (k0_off278_inb k) k.val (k.val + 128) 16 (k0_off277_eq k) (k0_off278_eq k) rfl _ (RowsLib.lane_sum _ _ _ _) x
  · exact fun x => RowsLib.piece_eq _ _ X P 128 _ _ _ (k0_off275_inb k) (k0_off275_inb k) (k0_off276_inb k) k.val (k.val + 128) 0 (k0_off275_eq k) (k0_off276_eq k) rfl _ (RowsLib.lane_sum _ _ _ _) x

set_option maxHeartbeats 2000000 in
/-- The eight pieces of trip k cover row k. -/
theorem trip_cover_t18 (d : Dev nD) (L : grid0.Coords) (v2 : BitVec 32) (X : BufTy.Contents (Elt F) (ibS1).view.ty) (P : BufTy.Contents (Elt F) (qV).view.ty)
    (k : Fin k0_t18_loop.trips) (r c : Fin 128) (hr : k.val = r.val) :
    ∃ p ∈ tripL_t18 (F := F) d L v2 X P k, (ValueIdx.ix2 r c : RowsLib.SS.Idx) ∈ p.1.set := by
  unfold tripL_t18 trip_t18
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off275_inb k) r c k.val 0 (k0_off275_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off277_inb k) r c k.val 16 (k0_off277_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off279_inb k) r c k.val 32 (k0_off279_eq k) hr h.1 h.2⟩
  · exact ⟨_, List.mem_cons_of_mem _ (List.mem_cons_of_mem _ (List.mem_cons_of_mem _ (List.mem_cons_of_mem _ (List.mem_cons_self)))), RowsLib.mem_unit _ (k0_off281_inb k) r c k.val 48 (k0_off281_eq k) hr h.1 h.2⟩
  · exact ⟨_, List.mem_cons_of_mem _ (List.mem_cons_of_mem _ (List.mem_cons_of_mem _ (List.mem_cons_self))), RowsLib.mem_unit _ (k0_off283_inb k) r c k.val 64 (k0_off283_eq k) hr h.1 h.2⟩
  · exact ⟨_, List.mem_cons_of_mem _ (List.mem_cons_of_mem _ (List.mem_cons_self)), RowsLib.mem_unit _ (k0_off285_inb k) r c k.val 80 (k0_off285_eq k) hr h.1 h.2⟩
  · exact ⟨_, List.mem_cons_of_mem _ (List.mem_cons_self), RowsLib.mem_unit _ (k0_off287_inb k) r c k.val 96 (k0_off287_eq k) hr h.1 h.2⟩
  · exact ⟨_, List.mem_cons_self, RowsLib.mem_unit _ (k0_off289_inb k) r c k.val 112 (k0_off289_eq k) hr h.1 h.2⟩

/-- The slot of sums after row loop 18, as the row-sum function: at (r, c) the gathered rows' entry plus the positional scratch's entry of row r + 128. -/
theorem rows_t18_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t18 (F := F) d L v2 X P 128)) (ValueIdx.ix2 r c)
      = RowsLib.rowG (ibS1).view (qV).view X P 128 (by omega) (ValueIdx.ix2 r c) :=
  RowsLib.read_writes_trips (n := k0_t18_loop.trips) (pb_t18 (F := F) d L v2 X P) (tripL_t18 (F := F) d L v2 X P) (obS1).view G _
    rfl (pb_t18_succ (F := F) d L v2 X P) (trip_pieces_t18 d L v2 X P) _ ⟨r.val, r.isLt⟩ (trip_cover_t18 d L v2 X P ⟨r.val, r.isLt⟩ r c rfl)

/-- THE SLOT OF SUMS AFTER ROW LOOP 18, whatever it held before: at (r, c) the gathered rows' entry (r, c) plus the positional
    scratch's entry (r + 128, c). -/
theorem rows_t18 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t18 (F := F) d L v2 X P (Scf.trips k0_t18_loop.lb k0_t18_loop.ub k0_t18_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t18_G d L v2 X P G r c

/-! ### the value of row loop 19 (slot 0, positional rows 0 … 127) -/

theorem trips_t19 : k0_t19_loop.trips = 128 := rfl

set_option maxHeartbeats 2000000 in
/-- Every piece of a trip of row loop 19 is the row sum on its rectangle. -/
theorem trip_pieces_t19 (d : Dev nD) (L : grid0.Coords) (v2 : BitVec 32) (X : BufTy.Contents (Elt F) (ibS0).view.ty) (P : BufTy.Contents (Elt F) (qV).view.ty) (k : Fin k0_t19_loop.trips) :
    ∀ p ∈ tripL_t19 (F := F) d L v2 X P k, ∀ x : p.1.shape.Idx, p.2 x = RowsLib.rowG (ibS0).view (qV).view X P 0 (by omega) (p.1.emb x) := by
  unfold tripL_t19 trip_t19
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off305_inb k) (k0_off305_inb k) (k0_off306_inb k) k.val (k.val + 0) 112 (k0_off305_eq k) (k0_off306_eq k) rfl _ (RowsLib.lane_sum _ _ _ _) x
  · exact fun x => RowsLib.piece_eq _ _ X P 0 _ _ _ (k0_off303_inb k) (k0_off303_inb k) (k0_off304_inb k) k.val (k.val + 0) 96 (k0_off303_eq k) (k0_off304_eq k) rfl _ (RowsLib.lane_sum _ _ _ _) x
  · exact fun x => RowsLib.piece_eq _ _ X P 0 _ _ _ (k0_off301_inb k) (k0_off301_inb k) (k0_off302_inb k) k.val (k.val + 0) 80 (k0_off301_eq k) (k0_off302_eq k) rfl _ (RowsLib.lane_sum _ _ _ _) x
  · exact fun x => RowsLib.piece_eq _ _ X P 0 _ _ _ (k0_off299_inb k) (k0_off299_inb k) (k0_off300_inb k) k.val (k.val + 0) 64 (k0_off299_eq k) (k0_off300_eq k) rfl _ (RowsLib.lane_sum _ _ _ _) x
  · exact fun x => RowsLib.piece_eq _ _ X P 0 _ _ _ (k0_off297_inb k) (k0_off297_inb k) (k0_off298_inb k) k.val (k.val + 0) 48 (k0_off297_eq k) (k0_off298_eq k) rfl _ (RowsLib.lane_sum _ _ _ _) x
  · exact fun x => RowsLib.piece_eq _ _ X P 0 _ _ _ (k0_off295_inb k) (k0_off295_inb k) (k0_off296_inb k) k.val (k.val + 0) 32 (k0_off295_eq k) (k0_off296_eq k) rfl _ (RowsLib.lane_sum _ _ _ _) x
  · exact fun x => RowsLib.piece_eq _ _ X P 0 _ _ _ (k0_off293_inb k) (k0_off293_inb k) (k0_off294_inb k) k.val (k.val + 0) 16 (k0_off293_eq k) (k0_off294_eq k) rfl _ (RowsLib.lane_sum _ _ _ _) x
  · exact fun x => RowsLib.piece_eq _ _ X P 0 _ _ _ (k0_off291_inb k) (k0_off291_inb k) (k0_off292_inb k) k.val (k.val + 0) 0 (k0_off291_eq k) (k0_off292_eq k) rfl _ (RowsLib.lane_sum _ _ _ _) x

set_option maxHeartbeats 2000000 in
/-- The eight pieces of trip k cover row k. -/
theorem trip_cover_t19 (d : Dev nD) (L : grid0.Coords) (v2 : BitVec 32) (X : BufTy.Contents (Elt F) (ibS0).view.ty) (P : BufTy.Contents (Elt F) (qV).view.ty)
    (k : Fin k0_t19_loop.trips) (r c : Fin 128) (hr : k.val = r.val) :
    ∃ p ∈ tripL_t19 (F := F) d L v2 X P k, (ValueIdx.ix2 r c : RowsLib.SS.Idx) ∈ p.1.set := by
  unfold tripL_t19 trip_t19
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off291_inb k) r c k.val 0 (k0_off291_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off293_inb k) r c k.val 16 (k0_off293_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off295_inb k) r c k.val 32 (k0_off295_eq k) hr h.1 h.2⟩
  · exact ⟨_, List.mem_cons_of_mem _ (List.mem_cons_of_mem _ (List.mem_cons_of_mem _ (List.mem_cons_of_mem _ (List.mem_cons_self)))), RowsLib.mem_unit _ (k0_off297_inb k) r c k.val 48 (k0_off297_eq k) hr h.1 h.2⟩
  · exact ⟨_, List.mem_cons_of_mem _ (List.mem_cons_of_mem _ (List.mem_cons_of_mem _ (List.mem_cons_self))), RowsLib.mem_unit _ (k0_off299_inb k) r c k.val 64 (k0_off299_eq k) hr h.1 h.2⟩
  · exact ⟨_, List.mem_cons_of_mem _ (List.mem_cons_of_mem _ (List.mem_cons_self)), RowsLib.mem_unit _ (k0_off301_inb k) r c k.val 80 (k0_off301_eq k) hr h.1 h.2⟩
  · exact ⟨_, List.mem_cons_of_mem _ (List.mem_cons_self), RowsLib.mem_unit _ (k0_off303_inb k) r c k.val 96 (k0_off303_eq k) hr h.1 h.2⟩
  · exact ⟨_, List.mem_cons_self, RowsLib.mem_unit _ (k0_off305_inb k) r c k.val 112 (k0_off305_eq k) hr h.1 h.2⟩

/-- The slot of sums after row loop 19, as the row-sum function: at (r, c) the gathered rows' entry plus the positional scratch's entry of row r + 0. -/
theorem rows_t19_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t19 (F := F) d L v2 X P 128)) (ValueIdx.ix2 r c)
      = RowsLib.rowG (ibS0).view (qV).view X P 0 (by omega) (ValueIdx.ix2 r c) :=
  RowsLib.read_writes_trips (n := k0_t19_loop.trips) (pb_t19 (F := F) d L v2 X P) (tripL_t19 (F := F) d L v2 X P) (obS0).view G _
    rfl (pb_t19_succ (F := F) d L v2 X P) (trip_pieces_t19 d L v2 X P) _ ⟨r.val, r.isLt⟩ (trip_cover_t19 d L v2 X P ⟨r.val, r.isLt⟩ r c rfl)

/-- THE SLOT OF SUMS AFTER ROW LOOP 19, whatever it held before: at (r, c) the gathered rows' entry (r, c) plus the positional
    scratch's entry (r + 0, c). -/
theorem rows_t19 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t19 (F := F) d L v2 X P (Scf.trips k0_t19_loop.lb k0_t19_loop.ub k0_t19_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t19_G d L v2 X P G r c

/-! ### the value of row loop 20 (slot 1, positional rows 128 … 255) -/

theorem trips_t20 : k0_t20_loop.trips = 128 := rfl

set_option maxHeartbeats 2000000 in
/-- Every piece of a trip of row loop 20 is the row sum on its rectangle. -/
theorem trip_pieces_t20 (d : Dev nD) (L : grid0.Coords) (v2 : BitVec 32) (X : BufTy.Contents (Elt F) (ibS1).view.ty) (P : BufTy.Contents (Elt F) (qV).view.ty) (k : Fin k0_t20_loop.trips) :
    ∀ p ∈ tripL_t20 (F := F) d L v2 X P k, ∀ x : p.1.shape.Idx, p.2 x = RowsLib.rowG (ibS1).view (qV).view X P 128 (by omega) (p.1.emb x) := by
  unfold tripL_t20 trip_t20
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off321_inb k) (k0_off321_inb k) (k0_off322_inb k) k.val (k.val + 128) 112 (k0_off321_eq k) (k0_off322_eq k) rfl _ (RowsLib.lane_sum _ _ _ _) x
  · exact fun x => RowsLib.piece_eq _ _ X P 128 _ _ _ (k0_off319_inb k) (k0_off319_inb k) (k0_off320_inb k) k.val (k.val + 128) 96 (k0_off319_eq k) (k0_off320_eq k) rfl _ (RowsLib.lane_sum _ _ _ _) x
  · exact fun x => RowsLib.piece_eq _ _ X P 128 _ _ _ (k0_off317_inb k) (k0_off317_inb k) (k0_off318_inb k) k.val (k.val + 128) 80 (k0_off317_eq k) (k0_off318_eq k) rfl _ (RowsLib.lane_sum _ _ _ _) x
  · exact fun x => RowsLib.piece_eq _ _ X P 128 _ _ _ (k0_off315_inb k) (k0_off315_inb k) (k0_off316_inb k) k.val (k.val + 128) 64 (k0_off315_eq k) (k0_off316_eq k) rfl _ (RowsLib.lane_sum _ _ _ _) x
  · exact fun x => RowsLib.piece_eq _ _ X P 128 _ _ _ (k0_off313_inb k) (k0_off313_inb k) (k0_off314_inb k) k.val (k.val + 128) 48 (k0_off313_eq k) (k0_off314_eq k) rfl _ (RowsLib.lane_sum _ _ _ _) x
  · exact fun x => RowsLib.piece_eq _ _ X P 128 _ _ _ (k0_off311_inb k) (k0_off311_inb k) (k0_off312_inb k) k.val (k.val + 128) 32 (k0_off311_eq k) (k0_off312_eq k) rfl _ (RowsLib.lane_sum _ _ _ _) x
  · exact fun x => RowsLib.piece_eq _ _ X P 128 _ _ _ (k0_off309_inb k) (k0_off309_inb k) (k0_off310_inb k) k.val (k.val + 128) 16 (k0_off309_eq k) (k0_off310_eq k) rfl _ (RowsLib.lane_sum _ _ _ _) x
  · exact fun x => RowsLib.piece_eq _ _ X P 128 _ _ _ (k0_off307_inb k) (k0_off307_inb k) (k0_off308_inb k) k.val (k.val + 128) 0 (k0_off307_eq k) (k0_off308_eq k) rfl _ (RowsLib.lane_sum _ _ _ _) x

set_option maxHeartbeats 2000000 in
/-- The eight pieces of trip k cover row k. -/
theorem trip_cover_t20 (d : Dev nD) (L : grid0.Coords) (v2 : BitVec 32) (X : BufTy.Contents (Elt F) (ibS1).view.ty) (P : BufTy.Contents (Elt F) (qV).view.ty)
    (k : Fin k0_t20_loop.trips) (r c : Fin 128) (hr : k.val = r.val) :
    ∃ p ∈ tripL_t20 (F := F) d L v2 X P k, (ValueIdx.ix2 r c : RowsLib.SS.Idx) ∈ p.1.set := by
  unfold tripL_t20 trip_t20
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off307_inb k) r c k.val 0 (k0_off307_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off309_inb k) r c k.val 16 (k0_off309_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off311_inb k) r c k.val 32 (k0_off311_eq k) hr h.1 h.2⟩
  · exact ⟨_, List.mem_cons_of_mem _ (List.mem_cons_of_mem _ (List.mem_cons_of_mem _ (List.mem_cons_of_mem _ (List.mem_cons_self)))), RowsLib.mem_unit _ (k0_off313_inb k) r c k.val 48 (k0_off313_eq k) hr h.1 h.2⟩
  · exact ⟨_, List.mem_cons_of_mem _ (List.mem_cons_of_mem _ (List.mem_cons_of_mem _ (List.mem_cons_self))), RowsLib.mem_unit _ (k0_off315_inb k) r c k.val 64 (k0_off315_eq k) hr h.1 h.2⟩
  · exact ⟨_, List.mem_cons_of_mem _ (List.mem_cons_of_mem _ (List.mem_cons_self)), RowsLib.mem_unit _ (k0_off317_inb k) r c k.val 80 (k0_off317_eq k) hr h.1 h.2⟩
  · exact ⟨_, List.mem_cons_of_mem _ (List.mem_cons_self), RowsLib.mem_unit _ (k0_off319_inb k) r c k.val 96 (k0_off319_eq k) hr h.1 h.2⟩
  · exact ⟨_, List.mem_cons_self, RowsLib.mem_unit _ (k0_off321_inb k) r c k.val 112 (k0_off321_eq k) hr h.1 h.2⟩

/-- The slot of sums after row loop 20, as the row-sum function: at (r, c) the gathered rows' entry plus the positional scratch's entry of row r + 128. -/
theorem rows_t20_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t20 (F := F) d L v2 X P 128)) (ValueIdx.ix2 r c)
      = RowsLib.rowG (ibS1).view (qV).view X P 128 (by omega) (ValueIdx.ix2 r c) :=
  RowsLib.read_writes_trips (n := k0_t20_loop.trips) (pb_t20 (F := F) d L v2 X P) (tripL_t20 (F := F) d L v2 X P) (obS1).view G _
    rfl (pb_t20_succ (F := F) d L v2 X P) (trip_pieces_t20 d L v2 X P) _ ⟨r.val, r.isLt⟩ (trip_cover_t20 d L v2 X P ⟨r.val, r.isLt⟩ r c rfl)

/-- THE SLOT OF SUMS AFTER ROW LOOP 20, whatever it held before: at (r, c) the gathered rows' entry (r, c) plus the positional
    scratch's entry (r + 128, c). -/
theorem rows_t20 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t20 (F := F) d L v2 X P (Scf.trips k0_t20_loop.lb k0_t20_loop.ub k0_t20_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t20_G d L v2 X P G r c

/-! ### the value of row loop 21 (slot 0, positional rows 0 … 127) -/

theorem trips_t21 : k0_t21_loop.trips = 128 := rfl

set_option maxHeartbeats 2000000 in
/-- Every piece of a trip of row loop 21 is the row sum on its rectangle. -/
theorem trip_pieces_t21 (d : Dev nD) (L : grid0.Coords) (v2 : BitVec 32) (X : BufTy.Contents (Elt F) (ibS0).view.ty) (P : BufTy.Contents (Elt F) (qV).view.ty) (k : Fin k0_t21_loop.trips) :
    ∀ p ∈ tripL_t21 (F := F) d L v2 X P k, ∀ x : p.1.shape.Idx, p.2 x = RowsLib.rowG (ibS0).view (qV).view X P 0 (by omega) (p.1.emb x) := by
  unfold tripL_t21 trip_t21
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off337_inb k) (k0_off337_inb k) (k0_off338_inb k) k.val (k.val + 0) 112 (k0_off337_eq k) (k0_off338_eq k) rfl _ (RowsLib.lane_sum _ _ _ _) x
  · exact fun x => RowsLib.piece_eq _ _ X P 0 _ _ _ (k0_off335_inb k) (k0_off335_inb k) (k0_off336_inb k) k.val (k.val + 0) 96 (k0_off335_eq k) (k0_off336_eq k) rfl _ (RowsLib.lane_sum _ _ _ _) x
  · exact fun x => RowsLib.piece_eq _ _ X P 0 _ _ _ (k0_off333_inb k) (k0_off333_inb k) (k0_off334_inb k) k.val (k.val + 0) 80 (k0_off333_eq k) (k0_off334_eq k) rfl _ (RowsLib.lane_sum _ _ _ _) x
  · exact fun x => RowsLib.piece_eq _ _ X P 0 _ _ _ (k0_off331_inb k) (k0_off331_inb k) (k0_off332_inb k) k.val (k.val + 0) 64 (k0_off331_eq k) (k0_off332_eq k) rfl _ (RowsLib.lane_sum _ _ _ _) x
  · exact fun x => RowsLib.piece_eq _ _ X P 0 _ _ _ (k0_off329_inb k) (k0_off329_inb k) (k0_off330_inb k) k.val (k.val + 0) 48 (k0_off329_eq k) (k0_off330_eq k) rfl _ (RowsLib.lane_sum _ _ _ _) x
  · exact fun x => RowsLib.piece_eq _ _ X P 0 _ _ _ (k0_off327_inb k) (k0_off327_inb k) (k0_off328_inb k) k.val (k.val + 0) 32 (k0_off327_eq k) (k0_off328_eq k) rfl _ (RowsLib.lane_sum _ _ _ _) x
  · exact fun x => RowsLib.piece_eq _ _ X P 0 _ _ _ (k0_off325_inb k) (k0_off325_inb k) (k0_off326_inb k) k.val (k.val + 0) 16 (k0_off325_eq k) (k0_off326_eq k) rfl _ (RowsLib.lane_sum _ _ _ _) x
  · exact fun x => RowsLib.piece_eq _ _ X P 0 _ _ _ (k0_off323_inb k) (k0_off323_inb k) (k0_off324_inb k) k.val (k.val + 0) 0 (k0_off323_eq k) (k0_off324_eq k) rfl _ (RowsLib.lane_sum _ _ _ _) x

set_option maxHeartbeats 2000000 in
/-- The eight pieces of trip k cover row k. -/
theorem trip_cover_t21 (d : Dev nD) (L : grid0.Coords) (v2 : BitVec 32) (X : BufTy.Contents (Elt F) (ibS0).view.ty) (P : BufTy.Contents (Elt F) (qV).view.ty)
    (k : Fin k0_t21_loop.trips) (r c : Fin 128) (hr : k.val = r.val) :
    ∃ p ∈ tripL_t21 (F := F) d L v2 X P k, (ValueIdx.ix2 r c : RowsLib.SS.Idx) ∈ p.1.set := by
  unfold tripL_t21 trip_t21
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off323_inb k) r c k.val 0 (k0_off323_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off325_inb k) r c k.val 16 (k0_off325_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off327_inb k) r c k.val 32 (k0_off327_eq k) hr h.1 h.2⟩
  · exact ⟨_, List.mem_cons_of_mem _ (List.mem_cons_of_mem _ (List.mem_cons_of_mem _ (List.mem_cons_of_mem _ (List.mem_cons_self)))), RowsLib.mem_unit _ (k0_off329_inb k) r c k.val 48 (k0_off329_eq k) hr h.1 h.2⟩
  · exact ⟨_, List.mem_cons_of_mem _ (List.mem_cons_of_mem _ (List.mem_cons_of_mem _ (List.mem_cons_self))), RowsLib.mem_unit _ (k0_off331_inb k) r c k.val 64 (k0_off331_eq k) hr h.1 h.2⟩
  · exact ⟨_, List.mem_cons_of_mem _ (List.mem_cons_of_mem _ (List.mem_cons_self)), RowsLib.mem_unit _ (k0_off333_inb k) r c k.val 80 (k0_off333_eq k) hr h.1 h.2⟩
  · exact ⟨_, List.mem_cons_of_mem _ (List.mem_cons_self), RowsLib.mem_unit _ (k0_off335_inb k) r c k.val 96 (k0_off335_eq k) hr h.1 h.2⟩
  · exact ⟨_, List.mem_cons_self, RowsLib.mem_unit _ (k0_off337_inb k) r c k.val 112 (k0_off337_eq k) hr h.1 h.2⟩

/-- The slot of sums after row loop 21, as the row-sum function: at (r, c) the gathered rows' entry plus the positional scratch's entry of row r + 0. -/
theorem rows_t21_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t21 (F := F) d L v2 X P 128)) (ValueIdx.ix2 r c)
      = RowsLib.rowG (ibS0).view (qV).view X P 0 (by omega) (ValueIdx.ix2 r c) :=
  RowsLib.read_writes_trips (n := k0_t21_loop.trips) (pb_t21 (F := F) d L v2 X P) (tripL_t21 (F := F) d L v2 X P) (obS0).view G _
    rfl (pb_t21_succ (F := F) d L v2 X P) (trip_pieces_t21 d L v2 X P) _ ⟨r.val, r.isLt⟩ (trip_cover_t21 d L v2 X P ⟨r.val, r.isLt⟩ r c rfl)

/-- THE SLOT OF SUMS AFTER ROW LOOP 21, whatever it held before: at (r, c) the gathered rows' entry (r, c) plus the positional
    scratch's entry (r + 0, c). -/
theorem rows_t21 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t21 (F := F) d L v2 X P (Scf.trips k0_t21_loop.lb k0_t21_loop.ub k0_t21_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t21_G d L v2 X P G r c

/-! ### the value of row loop 22 (slot 1, positional rows 128 … 255) -/

theorem trips_t22 : k0_t22_loop.trips = 128 := rfl

set_option maxHeartbeats 2000000 in
/-- Every piece of a trip of row loop 22 is the row sum on its rectangle. -/
theorem trip_pieces_t22 (d : Dev nD) (L : grid0.Coords) (v2 : BitVec 32) (X : BufTy.Contents (Elt F) (ibS1).view.ty) (P : BufTy.Contents (Elt F) (qV).view.ty) (k : Fin k0_t22_loop.trips) :
    ∀ p ∈ tripL_t22 (F := F) d L v2 X P k, ∀ x : p.1.shape.Idx, p.2 x = RowsLib.rowG (ibS1).view (qV).view X P 128 (by omega) (p.1.emb x) := by
  unfold tripL_t22 trip_t22
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off353_inb k) (k0_off353_inb k) (k0_off354_inb k) k.val (k.val + 128) 112 (k0_off353_eq k) (k0_off354_eq k) rfl _ (RowsLib.lane_sum _ _ _ _) x
  · exact fun x => RowsLib.piece_eq _ _ X P 128 _ _ _ (k0_off351_inb k) (k0_off351_inb k) (k0_off352_inb k) k.val (k.val + 128) 96 (k0_off351_eq k) (k0_off352_eq k) rfl _ (RowsLib.lane_sum _ _ _ _) x
  · exact fun x => RowsLib.piece_eq _ _ X P 128 _ _ _ (k0_off349_inb k) (k0_off349_inb k) (k0_off350_inb k) k.val (k.val + 128) 80 (k0_off349_eq k) (k0_off350_eq k) rfl _ (RowsLib.lane_sum _ _ _ _) x
  · exact fun x => RowsLib.piece_eq _ _ X P 128 _ _ _ (k0_off347_inb k) (k0_off347_inb k) (k0_off348_inb k) k.val (k.val + 128) 64 (k0_off347_eq k) (k0_off348_eq k) rfl _ (RowsLib.lane_sum _ _ _ _) x
  · exact fun x => RowsLib.piece_eq _ _ X P 128 _ _ _ (k0_off345_inb k) (k0_off345_inb k) (k0_off346_inb k) k.val (k.val + 128) 48 (k0_off345_eq k) (k0_off346_eq k) rfl _ (RowsLib.lane_sum _ _ _ _) x
  · exact fun x => RowsLib.piece_eq _ _ X P 128 _ _ _ (k0_off343_inb k) (k0_off343_inb k) (k0_off344_inb k) k.val (k.val + 128) 32 (k0_off343_eq k) (k0_off344_eq k) rfl _ (RowsLib.lane_sum _ _ _ _) x
  · exact fun x => RowsLib.piece_eq _ _ X P 128 _ _ _ (k0_off341_inb k) (k0_off341_inb k) (k0_off342_inb k) k.val (k.val + 128) 16 (k0_off341_eq k) (k0_off342_eq k) rfl _ (RowsLib.lane_sum _ _ _ _) x
  · exact fun x => RowsLib.piece_eq _ _ X P 128 _ _ _ (k0_off339_inb k) (k0_off339_inb k) (k0_off340_inb k) k.val (k.val + 128) 0 (k0_off339_eq k) (k0_off340_eq k) rfl _ (RowsLib.lane_sum _ _ _ _) x

set_option maxHeartbeats 2000000 in
/-- The eight pieces of trip k cover row k. -/
theorem trip_cover_t22 (d : Dev nD) (L : grid0.Coords) (v2 : BitVec 32) (X : BufTy.Contents (Elt F) (ibS1).view.ty) (P : BufTy.Contents (Elt F) (qV).view.ty)
    (k : Fin k0_t22_loop.trips) (r c : Fin 128) (hr : k.val = r.val) :
    ∃ p ∈ tripL_t22 (F := F) d L v2 X P k, (ValueIdx.ix2 r c : RowsLib.SS.Idx) ∈ p.1.set := by
  unfold tripL_t22 trip_t22
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off339_inb k) r c k.val 0 (k0_off339_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off341_inb k) r c k.val 16 (k0_off341_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off343_inb k) r c k.val 32 (k0_off343_eq k) hr h.1 h.2⟩
  · exact ⟨_, List.mem_cons_of_mem _ (List.mem_cons_of_mem _ (List.mem_cons_of_mem _ (List.mem_cons_of_mem _ (List.mem_cons_self)))), RowsLib.mem_unit _ (k0_off345_inb k) r c k.val 48 (k0_off345_eq k) hr h.1 h.2⟩
  · exact ⟨_, List.mem_cons_of_mem _ (List.mem_cons_of_mem _ (List.mem_cons_of_mem _ (List.mem_cons_self))), RowsLib.mem_unit _ (k0_off347_inb k) r c k.val 64 (k0_off347_eq k) hr h.1 h.2⟩
  · exact ⟨_, List.mem_cons_of_mem _ (List.mem_cons_of_mem _ (List.mem_cons_self)), RowsLib.mem_unit _ (k0_off349_inb k) r c k.val 80 (k0_off349_eq k) hr h.1 h.2⟩
  · exact ⟨_, List.mem_cons_of_mem _ (List.mem_cons_self), RowsLib.mem_unit _ (k0_off351_inb k) r c k.val 96 (k0_off351_eq k) hr h.1 h.2⟩
  · exact ⟨_, List.mem_cons_self, RowsLib.mem_unit _ (k0_off353_inb k) r c k.val 112 (k0_off353_eq k) hr h.1 h.2⟩

/-- The slot of sums after row loop 22, as the row-sum function: at (r, c) the gathered rows' entry plus the positional scratch's entry of row r + 128. -/
theorem rows_t22_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t22 (F := F) d L v2 X P 128)) (ValueIdx.ix2 r c)
      = RowsLib.rowG (ibS1).view (qV).view X P 128 (by omega) (ValueIdx.ix2 r c) :=
  RowsLib.read_writes_trips (n := k0_t22_loop.trips) (pb_t22 (F := F) d L v2 X P) (tripL_t22 (F := F) d L v2 X P) (obS1).view G _
    rfl (pb_t22_succ (F := F) d L v2 X P) (trip_pieces_t22 d L v2 X P) _ ⟨r.val, r.isLt⟩ (trip_cover_t22 d L v2 X P ⟨r.val, r.isLt⟩ r c rfl)

/-- THE SLOT OF SUMS AFTER ROW LOOP 22, whatever it held before: at (r, c) the gathered rows' entry (r, c) plus the positional
    scratch's entry (r + 128, c). -/
theorem rows_t22 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t22 (F := F) d L v2 X P (Scf.trips k0_t22_loop.lb k0_t22_loop.ub k0_t22_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t22_G d L v2 X P G r c

/-! ### the value of row loop 23 (slot 0, positional rows 0 … 127) -/

theorem trips_t23 : k0_t23_loop.trips = 128 := rfl

set_option maxHeartbeats 2000000 in
/-- Every piece of a trip of row loop 23 is the row sum on its rectangle. -/
theorem trip_pieces_t23 (d : Dev nD) (L : grid0.Coords) (v2 wa wb : BitVec 32) (X : BufTy.Contents (Elt F) (ibS0).view.ty) (P : BufTy.Contents (Elt F) (qV).view.ty) (k : Fin k0_t23_loop.trips) :
    ∀ p ∈ tripL_t23 (F := F) d L v2 wa wb X P k, ∀ x : p.1.shape.Idx, p.2 x = RowsLib.rowG (ibS0).view (qV).view X P 0 (by omega) (p.1.emb x) := by
  unfold tripL_t23 trip_t23
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off369_inb k) (k0_off369_inb k) (k0_off370_inb k) k.val (k.val + 0) 112 (k0_off369_eq k) (k0_off370_eq k) rfl _ (RowsLib.lane_sum _ _ _ _) x
  · exact fun x => RowsLib.piece_eq _ _ X P 0 _ _ _ (k0_off367_inb k) (k0_off367_inb k) (k0_off368_inb k) k.val (k.val + 0) 96 (k0_off367_eq k) (k0_off368_eq k) rfl _ (RowsLib.lane_sum _ _ _ _) x
  · exact fun x => RowsLib.piece_eq _ _ X P 0 _ _ _ (k0_off365_inb k) (k0_off365_inb k) (k0_off366_inb k) k.val (k.val + 0) 80 (k0_off365_eq k) (k0_off366_eq k) rfl _ (RowsLib.lane_sum _ _ _ _) x
  · exact fun x => RowsLib.piece_eq _ _ X P 0 _ _ _ (k0_off363_inb k) (k0_off363_inb k) (k0_off364_inb k) k.val (k.val + 0) 64 (k0_off363_eq k) (k0_off364_eq k) rfl _ (RowsLib.lane_sum _ _ _ _) x
  · exact fun x => RowsLib.piece_eq _ _ X P 0 _ _ _ (k0_off361_inb k) (k0_off361_inb k) (k0_off362_inb k) k.val (k.val + 0) 48 (k0_off361_eq k) (k0_off362_eq k) rfl _ (RowsLib.lane_sum _ _ _ _) x
  · exact fun x => RowsLib.piece_eq _ _ X P 0 _ _ _ (k0_off359_inb k) (k0_off359_inb k) (k0_off360_inb k) k.val (k.val + 0) 32 (k0_off359_eq k) (k0_off360_eq k) rfl _ (RowsLib.lane_sum _ _ _ _) x
  · exact fun x => RowsLib.piece_eq _ _ X P 0 _ _ _ (k0_off357_inb k) (k0_off357_inb k) (k0_off358_inb k) k.val (k.val + 0) 16 (k0_off357_eq k) (k0_off358_eq k) rfl _ (RowsLib.lane_sum _ _ _ _) x
  · exact fun x => RowsLib.piece_eq _ _ X P 0 _ _ _ (k0_off355_inb k) (k0_off355_inb k) (k0_off356_inb k) k.val (k.val + 0) 0 (k0_off355_eq k) (k0_off356_eq k) rfl _ (RowsLib.lane_sum _ _ _ _) x

set_option maxHeartbeats 2000000 in
/-- The eight pieces of trip k cover row k. -/
theorem trip_cover_t23 (d : Dev nD) (L : grid0.Coords) (v2 wa wb : BitVec 32) (X : BufTy.Contents (Elt F) (ibS0).view.ty) (P : BufTy.Contents (Elt F) (qV).view.ty)
    (k : Fin k0_t23_loop.trips) (r c : Fin 128) (hr : k.val = r.val) :
    ∃ p ∈ tripL_t23 (F := F) d L v2 wa wb X P k, (ValueIdx.ix2 r c : RowsLib.SS.Idx) ∈ p.1.set := by
  unfold tripL_t23 trip_t23
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off355_inb k) r c k.val 0 (k0_off355_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off357_inb k) r c k.val 16 (k0_off357_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off359_inb k) r c k.val 32 (k0_off359_eq k) hr h.1 h.2⟩
  · exact ⟨_, List.mem_cons_of_mem _ (List.mem_cons_of_mem _ (List.mem_cons_of_mem _ (List.mem_cons_of_mem _ (List.mem_cons_self)))), RowsLib.mem_unit _ (k0_off361_inb k) r c k.val 48 (k0_off361_eq k) hr h.1 h.2⟩
  · exact ⟨_, List.mem_cons_of_mem _ (List.mem_cons_of_mem _ (List.mem_cons_of_mem _ (List.mem_cons_self))), RowsLib.mem_unit _ (k0_off363_inb k) r c k.val 64 (k0_off363_eq k) hr h.1 h.2⟩
  · exact ⟨_, List.mem_cons_of_mem _ (List.mem_cons_of_mem _ (List.mem_cons_self)), RowsLib.mem_unit _ (k0_off365_inb k) r c k.val 80 (k0_off365_eq k) hr h.1 h.2⟩
  · exact ⟨_, List.mem_cons_of_mem _ (List.mem_cons_self), RowsLib.mem_unit _ (k0_off367_inb k) r c k.val 96 (k0_off367_eq k) hr h.1 h.2⟩
  · exact ⟨_, List.mem_cons_self, RowsLib.mem_unit _ (k0_off369_inb k) r c k.val 112 (k0_off369_eq k) hr h.1 h.2⟩

/-- The slot of sums after row loop 23, as the row-sum function: at (r, c) the gathered rows' entry plus the positional scratch's entry of row r + 0. -/
theorem rows_t23_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t23 (F := F) d L v2 wa wb X P 128)) (ValueIdx.ix2 r c)
      = RowsLib.rowG (ibS0).view (qV).view X P 0 (by omega) (ValueIdx.ix2 r c) :=
  RowsLib.read_writes_trips (n := k0_t23_loop.trips) (pb_t23 (F := F) d L v2 wa wb X P) (tripL_t23 (F := F) d L v2 wa wb X P) (obS0).view G _
    rfl (pb_t23_succ (F := F) d L v2 wa wb X P) (trip_pieces_t23 d L v2 wa wb X P) _ ⟨r.val, r.isLt⟩ (trip_cover_t23 d L v2 wa wb X P ⟨r.val, r.isLt⟩ r c rfl)

/-- THE SLOT OF SUMS AFTER ROW LOOP 23, whatever it held before: at (r, c) the gathered rows' entry (r, c) plus the positional
    scratch's entry (r + 0, c). -/
theorem rows_t23 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t23 (F := F) d L v2 wa wb X P (Scf.trips k0_t23_loop.lb k0_t23_loop.ub k0_t23_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t23_G d L v2 wa wb X P G r c

/-! ### the value of row loop 24 (slot 1, positional rows 128 … 255) -/

theorem trips_t24 : k0_t24_loop.trips = 128 := rfl

set_option maxHeartbeats 2000000 in
/-- Every piece of a trip of row loop 24 is the row sum on its rectangle. -/
theorem trip_pieces_t24 (d : Dev nD) (L : grid0.Coords) (v2 : BitVec 32) (X : BufTy.Contents (Elt F) (ibS1).view.ty) (P : BufTy.Contents (Elt F) (qV).view.ty) (k : Fin k0_t24_loop.trips) :
    ∀ p ∈ tripL_t24 (F := F) d L v2 X P k, ∀ x : p.1.shape.Idx, p.2 x = RowsLib.rowG (ibS1).view (qV).view X P 128 (by omega) (p.1.emb x) := by
  unfold tripL_t24 trip_t24
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off385_inb k) (k0_off385_inb k) (k0_off386_inb k) k.val (k.val + 128) 112 (k0_off385_eq k) (k0_off386_eq k) rfl _ (RowsLib.lane_sum _ _ _ _) x
  · exact fun x => RowsLib.piece_eq _ _ X P 128 _ _ _ (k0_off383_inb k) (k0_off383_inb k) (k0_off384_inb k) k.val (k.val + 128) 96 (k0_off383_eq k) (k0_off384_eq k) rfl _ (RowsLib.lane_sum _ _ _ _) x
  · exact fun x => RowsLib.piece_eq _ _ X P 128 _ _ _ (k0_off381_inb k) (k0_off381_inb k) (k0_off382_inb k) k.val (k.val + 128) 80 (k0_off381_eq k) (k0_off382_eq k) rfl _ (RowsLib.lane_sum _ _ _ _) x
  · exact fun x => RowsLib.piece_eq _ _ X P 128 _ _ _ (k0_off379_inb k) (k0_off379_inb k) (k0_off380_inb k) k.val (k.val + 128) 64 (k0_off379_eq k) (k0_off380_eq k) rfl _ (RowsLib.lane_sum _ _ _ _) x
  · exact fun x => RowsLib.piece_eq _ _ X P 128 _ _ _ (k0_off377_inb k) (k0_off377_inb k) (k0_off378_inb k) k.val (k.val + 128) 48 (k0_off377_eq k) (k0_off378_eq k) rfl _ (RowsLib.lane_sum _ _ _ _) x
  · exact fun x => RowsLib.piece_eq _ _ X P 128 _ _ _ (k0_off375_inb k) (k0_off375_inb k) (k0_off376_inb k) k.val (k.val + 128) 32 (k0_off375_eq k) (k0_off376_eq k) rfl _ (RowsLib.lane_sum _ _ _ _) x
  · exact fun x => RowsLib.piece_eq _ _ X P 128 _ _ _ (k0_off373_inb k) (k0_off373_inb k) (k0_off374_inb k) k.val (k.val + 128) 16 (k0_off373_eq k) (k0_off374_eq k) rfl _ (RowsLib.lane_sum _ _ _ _) x
  · exact fun x => RowsLib.piece_eq _ _ X P 128 _ _ _ (k0_off371_inb k) (k0_off371_inb k) (k0_off372_inb k) k.val (k.val + 128) 0 (k0_off371_eq k) (k0_off372_eq k) rfl _ (RowsLib.lane_sum _ _ _ _) x

set_option maxHeartbeats 2000000 in
/-- The eight pieces of trip k cover row k. -/
theorem trip_cover_t24 (d : Dev nD) (L : grid0.Coords) (v2 : BitVec 32) (X : BufTy.Contents (Elt F) (ibS1).view.ty) (P : BufTy.Contents (Elt F) (qV).view.ty)
    (k : Fin k0_t24_loop.trips) (r c : Fin 128) (hr : k.val = r.val) :
    ∃ p ∈ tripL_t24 (F := F) d L v2 X P k, (ValueIdx.ix2 r c : RowsLib.SS.Idx) ∈ p.1.set := by
  unfold tripL_t24 trip_t24
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off371_inb k) r c k.val 0 (k0_off371_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off373_inb k) r c k.val 16 (k0_off373_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off375_inb k) r c k.val 32 (k0_off375_eq k) hr h.1 h.2⟩
  · exact ⟨_, List.mem_cons_of_mem _ (List.mem_cons_of_mem _ (List.mem_cons_of_mem _ (List.mem_cons_of_mem _ (List.mem_cons_self)))), RowsLib.mem_unit _ (k0_off377_inb k) r c k.val 48 (k0_off377_eq k) hr h.1 h.2⟩
  · exact ⟨_, List.mem_cons_of_mem _ (List.mem_cons_of_mem _ (List.mem_cons_of_mem _ (List.mem_cons_self))), RowsLib.mem_unit _ (k0_off379_inb k) r c k.val 64 (k0_off379_eq k) hr h.1 h.2⟩
  · exact ⟨_, List.mem_cons_of_mem _ (List.mem_cons_of_mem _ (List.mem_cons_self)), RowsLib.mem_unit _ (k0_off381_inb k) r c k.val 80 (k0_off381_eq k) hr h.1 h.2⟩
  · exact ⟨_, List.mem_cons_of_mem _ (List.mem_cons_self), RowsLib.mem_unit _ (k0_off383_inb k) r c k.val 96 (k0_off383_eq k) hr h.1 h.2⟩
  · exact ⟨_, List.mem_cons_self, RowsLib.mem_unit _ (k0_off385_inb k) r c k.val 112 (k0_off385_eq k) hr h.1 h.2⟩

/-- The slot of sums after row loop 24, as the row-sum function: at (r, c) the gathered rows' entry plus the positional scratch's entry of row r + 128. -/
theorem rows_t24_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t24 (F := F) d L v2 X P 128)) (ValueIdx.ix2 r c)
      = RowsLib.rowG (ibS1).view (qV).view X P 128 (by omega) (ValueIdx.ix2 r c) :=
  RowsLib.read_writes_trips (n := k0_t24_loop.trips) (pb_t24 (F := F) d L v2 X P) (tripL_t24 (F := F) d L v2 X P) (obS1).view G _
    rfl (pb_t24_succ (F := F) d L v2 X P) (trip_pieces_t24 d L v2 X P) _ ⟨r.val, r.isLt⟩ (trip_cover_t24 d L v2 X P ⟨r.val, r.isLt⟩ r c rfl)

/-- THE SLOT OF SUMS AFTER ROW LOOP 24, whatever it held before: at (r, c) the gathered rows' entry (r, c) plus the positional
    scratch's entry (r + 128, c). -/
theorem rows_t24 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t24 (F := F) d L v2 X P (Scf.trips k0_t24_loop.lb k0_t24_loop.ub k0_t24_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t24_G d L v2 X P G r c

/-! ### the value of row loop 25 (slot 0, positional rows 0 … 127) -/

theorem trips_t25 : k0_t25_loop.trips = 128 := rfl

set_option maxHeartbeats 2000000 in
/-- Every piece of a trip of row loop 25 is the row sum on its rectangle. -/
theorem trip_pieces_t25 (d : Dev nD) (L : grid0.Coords) (v2 : BitVec 32) (X : BufTy.Contents (Elt F) (ibS0).view.ty) (P : BufTy.Contents (Elt F) (qV).view.ty) (k : Fin k0_t25_loop.trips) :
    ∀ p ∈ tripL_t25 (F := F) d L v2 X P k, ∀ x : p.1.shape.Idx, p.2 x = RowsLib.rowG (ibS0).view (qV).view X P 0 (by omega) (p.1.emb x) := by
  unfold tripL_t25 trip_t25
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off401_inb k) (k0_off401_inb k) (k0_off402_inb k) k.val (k.val + 0) 112 (k0_off401_eq k) (k0_off402_eq k) rfl _ (RowsLib.lane_sum _ _ _ _) x
  · exact fun x => RowsLib.piece_eq _ _ X P 0 _ _ _ (k0_off399_inb k) (k0_off399_inb k) (k0_off400_inb k) k.val (k.val + 0) 96 (k0_off399_eq k) (k0_off400_eq k) rfl _ (RowsLib.lane_sum _ _ _ _) x
  · exact fun x => RowsLib.piece_eq _ _ X P 0 _ _ _ (k0_off397_inb k) (k0_off397_inb k) (k0_off398_inb k) k.val (k.val + 0) 80 (k0_off397_eq k) (k0_off398_eq k) rfl _ (RowsLib.lane_sum _ _ _ _) x
  · exact fun x => RowsLib.piece_eq _ _ X P 0 _ _ _ (k0_off395_inb k) (k0_off395_inb k) (k0_off396_inb k) k.val (k.val + 0) 64 (k0_off395_eq k) (k0_off396_eq k) rfl _ (RowsLib.lane_sum _ _ _ _) x
  · exact fun x => RowsLib.piece_eq _ _ X P 0 _ _ _ (k0_off393_inb k) (k0_off393_inb k) (k0_off394_inb k) k.val (k.val + 0) 48 (k0_off393_eq k) (k0_off394_eq k) rfl _ (RowsLib.lane_sum _ _ _ _) x
  · exact fun x => RowsLib.piece_eq _ _ X P 0 _ _ _ (k0_off391_inb k) (k0_off391_inb k) (k0_off392_inb k) k.val (k.val + 0) 32 (k0_off391_eq k) (k0_off392_eq k) rfl _ (RowsLib.lane_sum _ _ _ _) x
  · exact fun x => RowsLib.piece_eq _ _ X P 0 _ _ _ (k0_off389_inb k) (k0_off389_inb k) (k0_off390_inb k) k.val (k.val + 0) 16 (k0_off389_eq k) (k0_off390_eq k) rfl _ (RowsLib.lane_sum _ _ _ _) x
  · exact fun x => RowsLib.piece_eq _ _ X P 0 _ _ _ (k0_off387_inb k) (k0_off387_inb k) (k0_off388_inb k) k.val (k.val + 0) 0 (k0_off387_eq k) (k0_off388_eq k) rfl _ (RowsLib.lane_sum _ _ _ _) x

set_option maxHeartbeats 2000000 in
/-- The eight pieces of trip k cover row k. -/
theorem trip_cover_t25 (d : Dev nD) (L : grid0.Coords) (v2 : BitVec 32) (X : BufTy.Contents (Elt F) (ibS0).view.ty) (P : BufTy.Contents (Elt F) (qV).view.ty)
    (k : Fin k0_t25_loop.trips) (r c : Fin 128) (hr : k.val = r.val) :
    ∃ p ∈ tripL_t25 (F := F) d L v2 X P k, (ValueIdx.ix2 r c : RowsLib.SS.Idx) ∈ p.1.set := by
  unfold tripL_t25 trip_t25
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off387_inb k) r c k.val 0 (k0_off387_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off389_inb k) r c k.val 16 (k0_off389_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off391_inb k) r c k.val 32 (k0_off391_eq k) hr h.1 h.2⟩
  · exact ⟨_, List.mem_cons_of_mem _ (List.mem_cons_of_mem _ (List.mem_cons_of_mem _ (List.mem_cons_of_mem _ (List.mem_cons_self)))), RowsLib.mem_unit _ (k0_off393_inb k) r c k.val 48 (k0_off393_eq k) hr h.1 h.2⟩
  · exact ⟨_, List.mem_cons_of_mem _ (List.mem_cons_of_mem _ (List.mem_cons_of_mem _ (List.mem_cons_self))), RowsLib.mem_unit _ (k0_off395_inb k) r c k.val 64 (k0_off395_eq k) hr h.1 h.2⟩
  · exact ⟨_, List.mem_cons_of_mem _ (List.mem_cons_of_mem _ (List.mem_cons_self)), RowsLib.mem_unit _ (k0_off397_inb k) r c k.val 80 (k0_off397_eq k) hr h.1 h.2⟩
  · exact ⟨_, List.mem_cons_of_mem _ (List.mem_cons_self), RowsLib.mem_unit _ (k0_off399_inb k) r c k.val 96 (k0_off399_eq k) hr h.1 h.2⟩
  · exact ⟨_, List.mem_cons_self, RowsLib.mem_unit _ (k0_off401_inb k) r c k.val 112 (k0_off401_eq k) hr h.1 h.2⟩

/-- The slot of sums after row loop 25, as the row-sum function: at (r, c) the gathered rows' entry plus the positional scratch's entry of row r + 0. -/
theorem rows_t25_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t25 (F := F) d L v2 X P 128)) (ValueIdx.ix2 r c)
      = RowsLib.rowG (ibS0).view (qV).view X P 0 (by omega) (ValueIdx.ix2 r c) :=
  RowsLib.read_writes_trips (n := k0_t25_loop.trips) (pb_t25 (F := F) d L v2 X P) (tripL_t25 (F := F) d L v2 X P) (obS0).view G _
    rfl (pb_t25_succ (F := F) d L v2 X P) (trip_pieces_t25 d L v2 X P) _ ⟨r.val, r.isLt⟩ (trip_cover_t25 d L v2 X P ⟨r.val, r.isLt⟩ r c rfl)

/-- THE SLOT OF SUMS AFTER ROW LOOP 25, whatever it held before: at (r, c) the gathered rows' entry (r, c) plus the positional
    scratch's entry (r + 0, c). -/
theorem rows_t25 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t25 (F := F) d L v2 X P (Scf.trips k0_t25_loop.lb k0_t25_loop.ub k0_t25_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t25_G d L v2 X P G r c

/-! ### the value of row loop 26 (slot 1, positional rows 128 … 255) -/

theorem trips_t26 : k0_t26_loop.trips = 128 := rfl

set_option maxHeartbeats 2000000 in
/-- Every piece of a trip of row loop 26 is the row sum on its rectangle. -/
theorem trip_pieces_t26 (d : Dev nD) (L : grid0.Coords) (v2 : BitVec 32) (X : BufTy.Contents (Elt F) (ibS1).view.ty) (P : BufTy.Contents (Elt F) (qV).view.ty) (k : Fin k0_t26_loop.trips) :
    ∀ p ∈ tripL_t26 (F := F) d L v2 X P k, ∀ x : p.1.shape.Idx, p.2 x = RowsLib.rowG (ibS1).view (qV).view X P 128 (by omega) (p.1.emb x) := by
  unfold tripL_t26 trip_t26
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off417_inb k) (k0_off417_inb k) (k0_off418_inb k) k.val (k.val + 128) 112 (k0_off417_eq k) (k0_off418_eq k) rfl _ (RowsLib.lane_sum _ _ _ _) x
  · exact fun x => RowsLib.piece_eq _ _ X P 128 _ _ _ (k0_off415_inb k) (k0_off415_inb k) (k0_off416_inb k) k.val (k.val + 128) 96 (k0_off415_eq k) (k0_off416_eq k) rfl _ (RowsLib.lane_sum _ _ _ _) x
  · exact fun x => RowsLib.piece_eq _ _ X P 128 _ _ _ (k0_off413_inb k) (k0_off413_inb k) (k0_off414_inb k) k.val (k.val + 128) 80 (k0_off413_eq k) (k0_off414_eq k) rfl _ (RowsLib.lane_sum _ _ _ _) x
  · exact fun x => RowsLib.piece_eq _ _ X P 128 _ _ _ (k0_off411_inb k) (k0_off411_inb k) (k0_off412_inb k) k.val (k.val + 128) 64 (k0_off411_eq k) (k0_off412_eq k) rfl _ (RowsLib.lane_sum _ _ _ _) x
  · exact fun x => RowsLib.piece_eq _ _ X P 128 _ _ _ (k0_off409_inb k) (k0_off409_inb k) (k0_off410_inb k) k.val (k.val + 128) 48 (k0_off409_eq k) (k0_off410_eq k) rfl _ (RowsLib.lane_sum _ _ _ _) x
  · exact fun x => RowsLib.piece_eq _ _ X P 128 _ _ _ (k0_off407_inb k) (k0_off407_inb k) (k0_off408_inb k) k.val (k.val + 128) 32 (k0_off407_eq k) (k0_off408_eq k) rfl _ (RowsLib.lane_sum _ _ _ _) x
  · exact fun x => RowsLib.piece_eq _ _ X P 128 _ _ _ (k0_off405_inb k) (k0_off405_inb k) (k0_off406_inb k) k.val (k.val + 128) 16 (k0_off405_eq k) (k0_off406_eq k) rfl _ (RowsLib.lane_sum _ _ _ _) x
  · exact fun x => RowsLib.piece_eq _ _ X P 128 _ _ _ (k0_off403_inb k) (k0_off403_inb k) (k0_off404_inb k) k.val (k.val + 128) 0 (k0_off403_eq k) (k0_off404_eq k) rfl _ (RowsLib.lane_sum _ _ _ _) x

set_option maxHeartbeats 2000000 in
/-- The eight pieces of trip k cover row k. -/
theorem trip_cover_t26 (d : Dev nD) (L : grid0.Coords) (v2 : BitVec 32) (X : BufTy.Contents (Elt F) (ibS1).view.ty) (P : BufTy.Contents (Elt F) (qV).view.ty)
    (k : Fin k0_t26_loop.trips) (r c : Fin 128) (hr : k.val = r.val) :
    ∃ p ∈ tripL_t26 (F := F) d L v2 X P k, (ValueIdx.ix2 r c : RowsLib.SS.Idx) ∈ p.1.set := by
  unfold tripL_t26 trip_t26
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off403_inb k) r c k.val 0 (k0_off403_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off405_inb k) r c k.val 16 (k0_off405_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off407_inb k) r c k.val 32 (k0_off407_eq k) hr h.1 h.2⟩
  · exact ⟨_, List.mem_cons_of_mem _ (List.mem_cons_of_mem _ (List.mem_cons_of_mem _ (List.mem_cons_of_mem _ (List.mem_cons_self)))), RowsLib.mem_unit _ (k0_off409_inb k) r c k.val 48 (k0_off409_eq k) hr h.1 h.2⟩
  · exact ⟨_, List.mem_cons_of_mem _ (List.mem_cons_of_mem _ (List.mem_cons_of_mem _ (List.mem_cons_self))), RowsLib.mem_unit _ (k0_off411_inb k) r c k.val 64 (k0_off411_eq k) hr h.1 h.2⟩
  · exact ⟨_, List.mem_cons_of_mem _ (List.mem_cons_of_mem _ (List.mem_cons_self)), RowsLib.mem_unit _ (k0_off413_inb k) r c k.val 80 (k0_off413_eq k) hr h.1 h.2⟩
  · exact ⟨_, List.mem_cons_of_mem _ (List.mem_cons_self), RowsLib.mem_unit _ (k0_off415_inb k) r c k.val 96 (k0_off415_eq k) hr h.1 h.2⟩
  · exact ⟨_, List.mem_cons_self, RowsLib.mem_unit _ (k0_off417_inb k) r c k.val 112 (k0_off417_eq k) hr h.1 h.2⟩

/-- The slot of sums after row loop 26, as the row-sum function: at (r, c) the gathered rows' entry plus the positional scratch's entry of row r + 128. -/
theorem rows_t26_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t26 (F := F) d L v2 X P 128)) (ValueIdx.ix2 r c)
      = RowsLib.rowG (ibS1).view (qV).view X P 128 (by omega) (ValueIdx.ix2 r c) :=
  RowsLib.read_writes_trips (n := k0_t26_loop.trips) (pb_t26 (F := F) d L v2 X P) (tripL_t26 (F := F) d L v2 X P) (obS1).view G _
    rfl (pb_t26_succ (F := F) d L v2 X P) (trip_pieces_t26 d L v2 X P) _ ⟨r.val, r.isLt⟩ (trip_cover_t26 d L v2 X P ⟨r.val, r.isLt⟩ r c rfl)

/-- THE SLOT OF SUMS AFTER ROW LOOP 26, whatever it held before: at (r, c) the gathered rows' entry (r, c) plus the positional
    scratch's entry (r + 128, c). -/
theorem rows_t26 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t26 (F := F) d L v2 X P (Scf.trips k0_t26_loop.lb k0_t26_loop.ub k0_t26_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t26_G d L v2 X P G r c

/-! ### the value of row loop 27 (slot 0, positional rows 0 … 127) -/

theorem trips_t27 : k0_t27_loop.trips = 128 := rfl

set_option maxHeartbeats 2000000 in
/-- Every piece of a trip of row loop 27 is the row sum on its rectangle. -/
theorem trip_pieces_t27 (d : Dev nD) (L : grid0.Coords) (v2 : BitVec 32) (X : BufTy.Contents (Elt F) (ibS0).view.ty) (P : BufTy.Contents (Elt F) (qV).view.ty) (k : Fin k0_t27_loop.trips) :
    ∀ p ∈ tripL_t27 (F := F) d L v2 X P k, ∀ x : p.1.shape.Idx, p.2 x = RowsLib.rowG (ibS0).view (qV).view X P 0 (by omega) (p.1.emb x) := by
  unfold tripL_t27 trip_t27
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off433_inb k) (k0_off433_inb k) (k0_off434_inb k) k.val (k.val + 0) 112 (k0_off433_eq k) (k0_off434_eq k) rfl _ (RowsLib.lane_sum _ _ _ _) x
  · exact fun x => RowsLib.piece_eq _ _ X P 0 _ _ _ (k0_off431_inb k) (k0_off431_inb k) (k0_off432_inb k) k.val (k.val + 0) 96 (k0_off431_eq k) (k0_off432_eq k) rfl _ (RowsLib.lane_sum _ _ _ _) x
  · exact fun x => RowsLib.piece_eq _ _ X P 0 _ _ _ (k0_off429_inb k) (k0_off429_inb k) (k0_off430_inb k) k.val (k.val + 0) 80 (k0_off429_eq k) (k0_off430_eq k) rfl _ (RowsLib.lane_sum _ _ _ _) x
  · exact fun x => RowsLib.piece_eq _ _ X P 0 _ _ _ (k0_off427_inb k) (k0_off427_inb k) (k0_off428_inb k) k.val (k.val + 0) 64 (k0_off427_eq k) (k0_off428_eq k) rfl _ (RowsLib.lane_sum _ _ _ _) x
  · exact fun x => RowsLib.piece_eq _ _ X P 0 _ _ _ (k0_off425_inb k) (k0_off425_inb k) (k0_off426_inb k) k.val (k.val + 0) 48 (k0_off425_eq k) (k0_off426_eq k) rfl _ (RowsLib.lane_sum _ _ _ _) x
  · exact fun x => RowsLib.piece_eq _ _ X P 0 _ _ _ (k0_off423_inb k) (k0_off423_inb k) (k0_off424_inb k) k.val (k.val + 0) 32 (k0_off423_eq k) (k0_off424_eq k) rfl _ (RowsLib.lane_sum _ _ _ _) x
  · exact fun x => RowsLib.piece_eq _ _ X P 0 _ _ _ (k0_off421_inb k) (k0_off421_inb k) (k0_off422_inb k) k.val (k.val + 0) 16 (k0_off421_eq k) (k0_off422_eq k) rfl _ (RowsLib.lane_sum _ _ _ _) x
  · exact fun x => RowsLib.piece_eq _ _ X P 0 _ _ _ (k0_off419_inb k) (k0_off419_inb k) (k0_off420_inb k) k.val (k.val + 0) 0 (k0_off419_eq k) (k0_off420_eq k) rfl _ (RowsLib.lane_sum _ _ _ _) x

set_option maxHeartbeats 2000000 in
/-- The eight pieces of trip k cover row k. -/
theorem trip_cover_t27 (d : Dev nD) (L : grid0.Coords) (v2 : BitVec 32) (X : BufTy.Contents (Elt F) (ibS0).view.ty) (P : BufTy.Contents (Elt F) (qV).view.ty)
    (k : Fin k0_t27_loop.trips) (r c : Fin 128) (hr : k.val = r.val) :
    ∃ p ∈ tripL_t27 (F := F) d L v2 X P k, (ValueIdx.ix2 r c : RowsLib.SS.Idx) ∈ p.1.set := by
  unfold tripL_t27 trip_t27
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off419_inb k) r c k.val 0 (k0_off419_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off421_inb k) r c k.val 16 (k0_off421_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off423_inb k) r c k.val 32 (k0_off423_eq k) hr h.1 h.2⟩
  · exact ⟨_, List.mem_cons_of_mem _ (List.mem_cons_of_mem _ (List.mem_cons_of_mem _ (List.mem_cons_of_mem _ (List.mem_cons_self)))), RowsLib.mem_unit _ (k0_off425_inb k) r c k.val 48 (k0_off425_eq k) hr h.1 h.2⟩
  · exact ⟨_, List.mem_cons_of_mem _ (List.mem_cons_of_mem _ (List.mem_cons_of_mem _ (List.mem_cons_self))), RowsLib.mem_unit _ (k0_off427_inb k) r c k.val 64 (k0_off427_eq k) hr h.1 h.2⟩
  · exact ⟨_, List.mem_cons_of_mem _ (List.mem_cons_of_mem _ (List.mem_cons_self)), RowsLib.mem_unit _ (k0_off429_inb k) r c k.val 80 (k0_off429_eq k) hr h.1 h.2⟩
  · exact ⟨_, List.mem_cons_of_mem _ (List.mem_cons_self), RowsLib.mem_unit _ (k0_off431_inb k) r c k.val 96 (k0_off431_eq k) hr h.1 h.2⟩
  · exact ⟨_, List.mem_cons_self, RowsLib.mem_unit _ (k0_off433_inb k) r c k.val 112 (k0_off433_eq k) hr h.1 h.2⟩

/-- The slot of sums after row loop 27, as the row-sum function: at (r, c) the gathered rows' entry plus the positional scratch's entry of row r + 0. -/
theorem rows_t27_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t27 (F := F) d L v2 X P 128)) (ValueIdx.ix2 r c)
      = RowsLib.rowG (ibS0).view (qV).view X P 0 (by omega) (ValueIdx.ix2 r c) :=
  RowsLib.read_writes_trips (n := k0_t27_loop.trips) (pb_t27 (F := F) d L v2 X P) (tripL_t27 (F := F) d L v2 X P) (obS0).view G _
    rfl (pb_t27_succ (F := F) d L v2 X P) (trip_pieces_t27 d L v2 X P) _ ⟨r.val, r.isLt⟩ (trip_cover_t27 d L v2 X P ⟨r.val, r.isLt⟩ r c rfl)

/-- THE SLOT OF SUMS AFTER ROW LOOP 27, whatever it held before: at (r, c) the gathered rows' entry (r, c) plus the positional
    scratch's entry (r + 0, c). -/
theorem rows_t27 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t27 (F := F) d L v2 X P (Scf.trips k0_t27_loop.lb k0_t27_loop.ub k0_t27_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t27_G d L v2 X P G r c

/-! ### the value of row loop 28 (slot 1, positional rows 128 … 255) -/

theorem trips_t28 : k0_t28_loop.trips = 128 := rfl

set_option maxHeartbeats 2000000 in
/-- Every piece of a trip of row loop 28 is the row sum on its rectangle. -/
theorem trip_pieces_t28 (d : Dev nD) (L : grid0.Coords) (v2 : BitVec 32) (X : BufTy.Contents (Elt F) (ibS1).view.ty) (P : BufTy.Contents (Elt F) (qV).view.ty) (k : Fin k0_t28_loop.trips) :
    ∀ p ∈ tripL_t28 (F := F) d L v2 X P k, ∀ x : p.1.shape.Idx, p.2 x = RowsLib.rowG (ibS1).view (qV).view X P 128 (by omega) (p.1.emb x) := by
  unfold tripL_t28 trip_t28
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off449_inb k) (k0_off449_inb k) (k0_off450_inb k) k.val (k.val + 128) 112 (k0_off449_eq k) (k0_off450_eq k) rfl _ (RowsLib.lane_sum _ _ _ _) x
  · exact fun x => RowsLib.piece_eq _ _ X P 128 _ _ _ (k0_off447_inb k) (k0_off447_inb k) (k0_off448_inb k) k.val (k.val + 128) 96 (k0_off447_eq k) (k0_off448_eq k) rfl _ (RowsLib.lane_sum _ _ _ _) x
  · exact fun x => RowsLib.piece_eq _ _ X P 128 _ _ _ (k0_off445_inb k) (k0_off445_inb k) (k0_off446_inb k) k.val (k.val + 128) 80 (k0_off445_eq k) (k0_off446_eq k) rfl _ (RowsLib.lane_sum _ _ _ _) x
  · exact fun x => RowsLib.piece_eq _ _ X P 128 _ _ _ (k0_off443_inb k) (k0_off443_inb k) (k0_off444_inb k) k.val (k.val + 128) 64 (k0_off443_eq k) (k0_off444_eq k) rfl _ (RowsLib.lane_sum _ _ _ _) x
  · exact fun x => RowsLib.piece_eq _ _ X P 128 _ _ _ (k0_off441_inb k) (k0_off441_inb k) (k0_off442_inb k) k.val (k.val + 128) 48 (k0_off441_eq k) (k0_off442_eq k) rfl _ (RowsLib.lane_sum _ _ _ _) x
  · exact fun x => RowsLib.piece_eq _ _ X P 128 _ _ _ (k0_off439_inb k) (k0_off439_inb k) (k0_off440_inb k) k.val (k.val + 128) 32 (k0_off439_eq k) (k0_off440_eq k) rfl _ (RowsLib.lane_sum _ _ _ _) x
  · exact fun x => RowsLib.piece_eq _ _ X P 128 _ _ _ (k0_off437_inb k) (k0_off437_inb k) (k0_off438_inb k) k.val (k.val + 128) 16 (k0_off437_eq k) (k0_off438_eq k) rfl _ (RowsLib.lane_sum _ _ _ _) x
  · exact fun x => RowsLib.piece_eq _ _ X P 128 _ _ _ (k0_off435_inb k) (k0_off435_inb k) (k0_off436_inb k) k.val (k.val + 128) 0 (k0_off435_eq k) (k0_off436_eq k) rfl _ (RowsLib.lane_sum _ _ _ _) x

set_option maxHeartbeats 2000000 in
/-- The eight pieces of trip k cover row k. -/
theorem trip_cover_t28 (d : Dev nD) (L : grid0.Coords) (v2 : BitVec 32) (X : BufTy.Contents (Elt F) (ibS1).view.ty) (P : BufTy.Contents (Elt F) (qV).view.ty)
    (k : Fin k0_t28_loop.trips) (r c : Fin 128) (hr : k.val = r.val) :
    ∃ p ∈ tripL_t28 (F := F) d L v2 X P k, (ValueIdx.ix2 r c : RowsLib.SS.Idx) ∈ p.1.set := by
  unfold tripL_t28 trip_t28
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off435_inb k) r c k.val 0 (k0_off435_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off437_inb k) r c k.val 16 (k0_off437_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off439_inb k) r c k.val 32 (k0_off439_eq k) hr h.1 h.2⟩
  · exact ⟨_, List.mem_cons_of_mem _ (List.mem_cons_of_mem _ (List.mem_cons_of_mem _ (List.mem_cons_of_mem _ (List.mem_cons_self)))), RowsLib.mem_unit _ (k0_off441_inb k) r c k.val 48 (k0_off441_eq k) hr h.1 h.2⟩
  · exact ⟨_, List.mem_cons_of_mem _ (List.mem_cons_of_mem _ (List.mem_cons_of_mem _ (List.mem_cons_self))), RowsLib.mem_unit _ (k0_off443_inb k) r c k.val 64 (k0_off443_eq k) hr h.1 h.2⟩
  · exact ⟨_, List.mem_cons_of_mem _ (List.mem_cons_of_mem _ (List.mem_cons_self)), RowsLib.mem_unit _ (k0_off445_inb k) r c k.val 80 (k0_off445_eq k) hr h.1 h.2⟩
  · exact ⟨_, List.mem_cons_of_mem _ (List.mem_cons_self), RowsLib.mem_unit _ (k0_off447_inb k) r c k.val 96 (k0_off447_eq k) hr h.1 h.2⟩
  · exact ⟨_, List.mem_cons_self, RowsLib.mem_unit _ (k0_off449_inb k) r c k.val 112 (k0_off449_eq k) hr h.1 h.2⟩

/-- The slot of sums after row loop 28, as the row-sum function: at (r, c) the gathered rows' entry plus the positional scratch's entry of row r + 128. -/
theorem rows_t28_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t28 (F := F) d L v2 X P 128)) (ValueIdx.ix2 r c)
      = RowsLib.rowG (ibS1).view (qV).view X P 128 (by omega) (ValueIdx.ix2 r c) :=
  RowsLib.read_writes_trips (n := k0_t28_loop.trips) (pb_t28 (F := F) d L v2 X P) (tripL_t28 (F := F) d L v2 X P) (obS1).view G _
    rfl (pb_t28_succ (F := F) d L v2 X P) (trip_pieces_t28 d L v2 X P) _ ⟨r.val, r.isLt⟩ (trip_cover_t28 d L v2 X P ⟨r.val, r.isLt⟩ r c rfl)

/-- THE SLOT OF SUMS AFTER ROW LOOP 28, whatever it held before: at (r, c) the gathered rows' entry (r, c) plus the positional
    scratch's entry (r + 128, c). -/
theorem rows_t28 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t28 (F := F) d L v2 X P (Scf.trips k0_t28_loop.lb k0_t28_loop.ub k0_t28_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t28_G d L v2 X P G r c

/-! ### the value of row loop 29 (slot 0, positional rows 0 … 127) -/

theorem trips_t29 : k0_t29_loop.trips = 128 := rfl

set_option maxHeartbeats 2000000 in
/-- Every piece of a trip of row loop 29 is the row sum on its rectangle. -/
theorem trip_pieces_t29 (d : Dev nD) (L : grid0.Coords) (v2 : BitVec 32) (X : BufTy.Contents (Elt F) (ibS0).view.ty) (P : BufTy.Contents (Elt F) (qV).view.ty) (k : Fin k0_t29_loop.trips) :
    ∀ p ∈ tripL_t29 (F := F) d L v2 X P k, ∀ x : p.1.shape.Idx, p.2 x = RowsLib.rowG (ibS0).view (qV).view X P 0 (by omega) (p.1.emb x) := by
  unfold tripL_t29 trip_t29
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off465_inb k) (k0_off465_inb k) (k0_off466_inb k) k.val (k.val + 0) 112 (k0_off465_eq k) (k0_off466_eq k) rfl _ (RowsLib.lane_sum _ _ _ _) x
  · exact fun x => RowsLib.piece_eq _ _ X P 0 _ _ _ (k0_off463_inb k) (k0_off463_inb k) (k0_off464_inb k) k.val (k.val + 0) 96 (k0_off463_eq k) (k0_off464_eq k) rfl _ (RowsLib.lane_sum _ _ _ _) x
  · exact fun x => RowsLib.piece_eq _ _ X P 0 _ _ _ (k0_off461_inb k) (k0_off461_inb k) (k0_off462_inb k) k.val (k.val + 0) 80 (k0_off461_eq k) (k0_off462_eq k) rfl _ (RowsLib.lane_sum _ _ _ _) x
  · exact fun x => RowsLib.piece_eq _ _ X P 0 _ _ _ (k0_off459_inb k) (k0_off459_inb k) (k0_off460_inb k) k.val (k.val + 0) 64 (k0_off459_eq k) (k0_off460_eq k) rfl _ (RowsLib.lane_sum _ _ _ _) x
  · exact fun x => RowsLib.piece_eq _ _ X P 0 _ _ _ (k0_off457_inb k) (k0_off457_inb k) (k0_off458_inb k) k.val (k.val + 0) 48 (k0_off457_eq k) (k0_off458_eq k) rfl _ (RowsLib.lane_sum _ _ _ _) x
  · exact fun x => RowsLib.piece_eq _ _ X P 0 _ _ _ (k0_off455_inb k) (k0_off455_inb k) (k0_off456_inb k) k.val (k.val + 0) 32 (k0_off455_eq k) (k0_off456_eq k) rfl _ (RowsLib.lane_sum _ _ _ _) x
  · exact fun x => RowsLib.piece_eq _ _ X P 0 _ _ _ (k0_off453_inb k) (k0_off453_inb k) (k0_off454_inb k) k.val (k.val + 0) 16 (k0_off453_eq k) (k0_off454_eq k) rfl _ (RowsLib.lane_sum _ _ _ _) x
  · exact fun x => RowsLib.piece_eq _ _ X P 0 _ _ _ (k0_off451_inb k) (k0_off451_inb k) (k0_off452_inb k) k.val (k.val + 0) 0 (k0_off451_eq k) (k0_off452_eq k) rfl _ (RowsLib.lane_sum _ _ _ _) x

set_option maxHeartbeats 2000000 in
/-- The eight pieces of trip k cover row k. -/
theorem trip_cover_t29 (d : Dev nD) (L : grid0.Coords) (v2 : BitVec 32) (X : BufTy.Contents (Elt F) (ibS0).view.ty) (P : BufTy.Contents (Elt F) (qV).view.ty)
    (k : Fin k0_t29_loop.trips) (r c : Fin 128) (hr : k.val = r.val) :
    ∃ p ∈ tripL_t29 (F := F) d L v2 X P k, (ValueIdx.ix2 r c : RowsLib.SS.Idx) ∈ p.1.set := by
  unfold tripL_t29 trip_t29
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off451_inb k) r c k.val 0 (k0_off451_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off453_inb k) r c k.val 16 (k0_off453_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off455_inb k) r c k.val 32 (k0_off455_eq k) hr h.1 h.2⟩
  · exact ⟨_, List.mem_cons_of_mem _ (List.mem_cons_of_mem _ (List.mem_cons_of_mem _ (List.mem_cons_of_mem _ (List.mem_cons_self)))), RowsLib.mem_unit _ (k0_off457_inb k) r c k.val 48 (k0_off457_eq k) hr h.1 h.2⟩
  · exact ⟨_, List.mem_cons_of_mem _ (List.mem_cons_of_mem _ (List.mem_cons_of_mem _ (List.mem_cons_self))), RowsLib.mem_unit _ (k0_off459_inb k) r c k.val 64 (k0_off459_eq k) hr h.1 h.2⟩
  · exact ⟨_, List.mem_cons_of_mem _ (List.mem_cons_of_mem _ (List.mem_cons_self)), RowsLib.mem_unit _ (k0_off461_inb k) r c k.val 80 (k0_off461_eq k) hr h.1 h.2⟩
  · exact ⟨_, List.mem_cons_of_mem _ (List.mem_cons_self), RowsLib.mem_unit _ (k0_off463_inb k) r c k.val 96 (k0_off463_eq k) hr h.1 h.2⟩
  · exact ⟨_, List.mem_cons_self, RowsLib.mem_unit _ (k0_off465_inb k) r c k.val 112 (k0_off465_eq k) hr h.1 h.2⟩

/-- The slot of sums after row loop 29, as the row-sum function: at (r, c) the gathered rows' entry plus the positional scratch's entry of row r + 0. -/
theorem rows_t29_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t29 (F := F) d L v2 X P 128)) (ValueIdx.ix2 r c)
      = RowsLib.rowG (ibS0).view (qV).view X P 0 (by omega) (ValueIdx.ix2 r c) :=
  RowsLib.read_writes_trips (n := k0_t29_loop.trips) (pb_t29 (F := F) d L v2 X P) (tripL_t29 (F := F) d L v2 X P) (obS0).view G _
    rfl (pb_t29_succ (F := F) d L v2 X P) (trip_pieces_t29 d L v2 X P) _ ⟨r.val, r.isLt⟩ (trip_cover_t29 d L v2 X P ⟨r.val, r.isLt⟩ r c rfl)

/-- THE SLOT OF SUMS AFTER ROW LOOP 29, whatever it held before: at (r, c) the gathered rows' entry (r, c) plus the positional
    scratch's entry (r + 0, c). -/
theorem rows_t29 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t29 (F := F) d L v2 X P (Scf.trips k0_t29_loop.lb k0_t29_loop.ub k0_t29_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t29_G d L v2 X P G r c

/-! ### the value of row loop 30 (slot 1, positional rows 128 … 255) -/

theorem trips_t30 : k0_t30_loop.trips = 128 := rfl

set_option maxHeartbeats 2000000 in
/-- Every piece of a trip of row loop 30 is the row sum on its rectangle. -/
theorem trip_pieces_t30 (d : Dev nD) (L : grid0.Coords) (v2 : BitVec 32) (X : BufTy.Contents (Elt F) (ibS1).view.ty) (P : BufTy.Contents (Elt F) (qV).view.ty) (k : Fin k0_t30_loop.trips) :
    ∀ p ∈ tripL_t30 (F := F) d L v2 X P k, ∀ x : p.1.shape.Idx, p.2 x = RowsLib.rowG (ibS1).view (qV).view X P 128 (by omega) (p.1.emb x) := by
  unfold tripL_t30 trip_t30
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off481_inb k) (k0_off481_inb k) (k0_off482_inb k) k.val (k.val + 128) 112 (k0_off481_eq k) (k0_off482_eq k) rfl _ (RowsLib.lane_sum _ _ _ _) x
  · exact fun x => RowsLib.piece_eq _ _ X P 128 _ _ _ (k0_off479_inb k) (k0_off479_inb k) (k0_off480_inb k) k.val (k.val + 128) 96 (k0_off479_eq k) (k0_off480_eq k) rfl _ (RowsLib.lane_sum _ _ _ _) x
  · exact fun x => RowsLib.piece_eq _ _ X P 128 _ _ _ (k0_off477_inb k) (k0_off477_inb k) (k0_off478_inb k) k.val (k.val + 128) 80 (k0_off477_eq k) (k0_off478_eq k) rfl _ (RowsLib.lane_sum _ _ _ _) x
  · exact fun x => RowsLib.piece_eq _ _ X P 128 _ _ _ (k0_off475_inb k) (k0_off475_inb k) (k0_off476_inb k) k.val (k.val + 128) 64 (k0_off475_eq k) (k0_off476_eq k) rfl _ (RowsLib.lane_sum _ _ _ _) x
  · exact fun x => RowsLib.piece_eq _ _ X P 128 _ _ _ (k0_off473_inb k) (k0_off473_inb k) (k0_off474_inb k) k.val (k.val + 128) 48 (k0_off473_eq k) (k0_off474_eq k) rfl _ (RowsLib.lane_sum _ _ _ _) x
  · exact fun x => RowsLib.piece_eq _ _ X P 128 _ _ _ (k0_off471_inb k) (k0_off471_inb k) (k0_off472_inb k) k.val (k.val + 128) 32 (k0_off471_eq k) (k0_off472_eq k) rfl _ (RowsLib.lane_sum _ _ _ _) x
  · exact fun x => RowsLib.piece_eq _ _ X P 128 _ _ _ (k0_off469_inb k) (k0_off469_inb k) (k0_off470_inb k) k.val (k.val + 128) 16 (k0_off469_eq k) (k0_off470_eq k) rfl _ (RowsLib.lane_sum _ _ _ _) x
  · exact fun x => RowsLib.piece_eq _ _ X P 128 _ _ _ (k0_off467_inb k) (k0_off467_inb k) (k0_off468_inb k) k.val (k.val + 128) 0 (k0_off467_eq k) (k0_off468_eq k) rfl _ (RowsLib.lane_sum _ _ _ _) x

set_option maxHeartbeats 2000000 in
/-- The eight pieces of trip k cover row k. -/
theorem trip_cover_t30 (d : Dev nD) (L : grid0.Coords) (v2 : BitVec 32) (X : BufTy.Contents (Elt F) (ibS1).view.ty) (P : BufTy.Contents (Elt F) (qV).view.ty)
    (k : Fin k0_t30_loop.trips) (r c : Fin 128) (hr : k.val = r.val) :
    ∃ p ∈ tripL_t30 (F := F) d L v2 X P k, (ValueIdx.ix2 r c : RowsLib.SS.Idx) ∈ p.1.set := by
  unfold tripL_t30 trip_t30
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off467_inb k) r c k.val 0 (k0_off467_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off469_inb k) r c k.val 16 (k0_off469_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off471_inb k) r c k.val 32 (k0_off471_eq k) hr h.1 h.2⟩
  · exact ⟨_, List.mem_cons_of_mem _ (List.mem_cons_of_mem _ (List.mem_cons_of_mem _ (List.mem_cons_of_mem _ (List.mem_cons_self)))), RowsLib.mem_unit _ (k0_off473_inb k) r c k.val 48 (k0_off473_eq k) hr h.1 h.2⟩
  · exact ⟨_, List.mem_cons_of_mem _ (List.mem_cons_of_mem _ (List.mem_cons_of_mem _ (List.mem_cons_self))), RowsLib.mem_unit _ (k0_off475_inb k) r c k.val 64 (k0_off475_eq k) hr h.1 h.2⟩
  · exact ⟨_, List.mem_cons_of_mem _ (List.mem_cons_of_mem _ (List.mem_cons_self)), RowsLib.mem_unit _ (k0_off477_inb k) r c k.val 80 (k0_off477_eq k) hr h.1 h.2⟩
  · exact ⟨_, List.mem_cons_of_mem _ (List.mem_cons_self), RowsLib.mem_unit _ (k0_off479_inb k) r c k.val 96 (k0_off479_eq k) hr h.1 h.2⟩
  · exact ⟨_, List.mem_cons_self, RowsLib.mem_unit _ (k0_off481_inb k) r c k.val 112 (k0_off481_eq k) hr h.1 h.2⟩

/-- The slot of sums after row loop 30, as the row-sum function: at (r, c) the gathered rows' entry plus the positional scratch's entry of row r + 128. -/
theorem rows_t30_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t30 (F := F) d L v2 X P 128)) (ValueIdx.ix2 r c)
      = RowsLib.rowG (ibS1).view (qV).view X P 128 (by omega) (ValueIdx.ix2 r c) :=
  RowsLib.read_writes_trips (n := k0_t30_loop.trips) (pb_t30 (F := F) d L v2 X P) (tripL_t30 (F := F) d L v2 X P) (obS1).view G _
    rfl (pb_t30_succ (F := F) d L v2 X P) (trip_pieces_t30 d L v2 X P) _ ⟨r.val, r.isLt⟩ (trip_cover_t30 d L v2 X P ⟨r.val, r.isLt⟩ r c rfl)

/-- THE SLOT OF SUMS AFTER ROW LOOP 30, whatever it held before: at (r, c) the gathered rows' entry (r, c) plus the positional
    scratch's entry (r + 128, c). -/
theorem rows_t30 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t30 (F := F) d L v2 X P (Scf.trips k0_t30_loop.lb k0_t30_loop.ub k0_t30_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t30_G d L v2 X P G r c

/-! ### the value of row loop 31 (slot 0, positional rows 0 … 127) -/

theorem trips_t31 : k0_t31_loop.trips = 128 := rfl

set_option maxHeartbeats 2000000 in
/-- Every piece of a trip of row loop 31 is the row sum on its rectangle. -/
theorem trip_pieces_t31 (d : Dev nD) (L : grid0.Coords) (v2 : BitVec 32) (X : BufTy.Contents (Elt F) (ibS0).view.ty) (P : BufTy.Contents (Elt F) (qV).view.ty) (k : Fin k0_t31_loop.trips) :
    ∀ p ∈ tripL_t31 (F := F) d L v2 X P k, ∀ x : p.1.shape.Idx, p.2 x = RowsLib.rowG (ibS0).view (qV).view X P 0 (by omega) (p.1.emb x) := by
  unfold tripL_t31 trip_t31
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off497_inb k) (k0_off497_inb k) (k0_off498_inb k) k.val (k.val + 0) 112 (k0_off497_eq k) (k0_off498_eq k) rfl _ (RowsLib.lane_sum _ _ _ _) x
  · exact fun x => RowsLib.piece_eq _ _ X P 0 _ _ _ (k0_off495_inb k) (k0_off495_inb k) (k0_off496_inb k) k.val (k.val + 0) 96 (k0_off495_eq k) (k0_off496_eq k) rfl _ (RowsLib.lane_sum _ _ _ _) x
  · exact fun x => RowsLib.piece_eq _ _ X P 0 _ _ _ (k0_off493_inb k) (k0_off493_inb k) (k0_off494_inb k) k.val (k.val + 0) 80 (k0_off493_eq k) (k0_off494_eq k) rfl _ (RowsLib.lane_sum _ _ _ _) x
  · exact fun x => RowsLib.piece_eq _ _ X P 0 _ _ _ (k0_off491_inb k) (k0_off491_inb k) (k0_off492_inb k) k.val (k.val + 0) 64 (k0_off491_eq k) (k0_off492_eq k) rfl _ (RowsLib.lane_sum _ _ _ _) x
  · exact fun x => RowsLib.piece_eq _ _ X P 0 _ _ _ (k0_off489_inb k) (k0_off489_inb k) (k0_off490_inb k) k.val (k.val + 0) 48 (k0_off489_eq k) (k0_off490_eq k) rfl _ (RowsLib.lane_sum _ _ _ _) x
  · exact fun x => RowsLib.piece_eq _ _ X P 0 _ _ _ (k0_off487_inb k) (k0_off487_inb k) (k0_off488_inb k) k.val (k.val + 0) 32 (k0_off487_eq k) (k0_off488_eq k) rfl _ (RowsLib.lane_sum _ _ _ _) x
  · exact fun x => RowsLib.piece_eq _ _ X P 0 _ _ _ (k0_off485_inb k) (k0_off485_inb k) (k0_off486_inb k) k.val (k.val + 0) 16 (k0_off485_eq k) (k0_off486_eq k) rfl _ (RowsLib.lane_sum _ _ _ _) x
  · exact fun x => RowsLib.piece_eq _ _ X P 0 _ _ _ (k0_off483_inb k) (k0_off483_inb k) (k0_off484_inb k) k.val (k.val + 0) 0 (k0_off483_eq k) (k0_off484_eq k) rfl _ (RowsLib.lane_sum _ _ _ _) x

set_option maxHeartbeats 2000000 in
/-- The eight pieces of trip k cover row k. -/
theorem trip_cover_t31 (d : Dev nD) (L : grid0.Coords) (v2 : BitVec 32) (X : BufTy.Contents (Elt F) (ibS0).view.ty) (P : BufTy.Contents (Elt F) (qV).view.ty)
    (k : Fin k0_t31_loop.trips) (r c : Fin 128) (hr : k.val = r.val) :
    ∃ p ∈ tripL_t31 (F := F) d L v2 X P k, (ValueIdx.ix2 r c : RowsLib.SS.Idx) ∈ p.1.set := by
  unfold tripL_t31 trip_t31
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off483_inb k) r c k.val 0 (k0_off483_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off485_inb k) r c k.val 16 (k0_off485_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off487_inb k) r c k.val 32 (k0_off487_eq k) hr h.1 h.2⟩
  · exact ⟨_, List.mem_cons_of_mem _ (List.mem_cons_of_mem _ (List.mem_cons_of_mem _ (List.mem_cons_of_mem _ (List.mem_cons_self)))), RowsLib.mem_unit _ (k0_off489_inb k) r c k.val 48 (k0_off489_eq k) hr h.1 h.2⟩
  · exact ⟨_, List.mem_cons_of_mem _ (List.mem_cons_of_mem _ (List.mem_cons_of_mem _ (List.mem_cons_self))), RowsLib.mem_unit _ (k0_off491_inb k) r c k.val 64 (k0_off491_eq k) hr h.1 h.2⟩
  · exact ⟨_, List.mem_cons_of_mem _ (List.mem_cons_of_mem _ (List.mem_cons_self)), RowsLib.mem_unit _ (k0_off493_inb k) r c k.val 80 (k0_off493_eq k) hr h.1 h.2⟩
  · exact ⟨_, List.mem_cons_of_mem _ (List.mem_cons_self), RowsLib.mem_unit _ (k0_off495_inb k) r c k.val 96 (k0_off495_eq k) hr h.1 h.2⟩
  · exact ⟨_, List.mem_cons_self, RowsLib.mem_unit _ (k0_off497_inb k) r c k.val 112 (k0_off497_eq k) hr h.1 h.2⟩

/-- The slot of sums after row loop 31, as the row-sum function: at (r, c) the gathered rows' entry plus the positional scratch's entry of row r + 0. -/
theorem rows_t31_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t31 (F := F) d L v2 X P 128)) (ValueIdx.ix2 r c)
      = RowsLib.rowG (ibS0).view (qV).view X P 0 (by omega) (ValueIdx.ix2 r c) :=
  RowsLib.read_writes_trips (n := k0_t31_loop.trips) (pb_t31 (F := F) d L v2 X P) (tripL_t31 (F := F) d L v2 X P) (obS0).view G _
    rfl (pb_t31_succ (F := F) d L v2 X P) (trip_pieces_t31 d L v2 X P) _ ⟨r.val, r.isLt⟩ (trip_cover_t31 d L v2 X P ⟨r.val, r.isLt⟩ r c rfl)

/-- THE SLOT OF SUMS AFTER ROW LOOP 31, whatever it held before: at (r, c) the gathered rows' entry (r, c) plus the positional
    scratch's entry (r + 0, c). -/
theorem rows_t31 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t31 (F := F) d L v2 X P (Scf.trips k0_t31_loop.lb k0_t31_loop.ub k0_t31_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t31_G d L v2 X P G r c

/-! ### the value of row loop 32 (slot 1, positional rows 128 … 255) -/

theorem trips_t32 : k0_t32_loop.trips = 128 := rfl

set_option maxHeartbeats 2000000 in
/-- Every piece of a trip of row loop 32 is the row sum on its rectangle. -/
theorem trip_pieces_t32 (d : Dev nD) (L : grid0.Coords) (v2 : BitVec 32) (X : BufTy.Contents (Elt F) (ibS1).view.ty) (P : BufTy.Contents (Elt F) (qV).view.ty) (k : Fin k0_t32_loop.trips) :
    ∀ p ∈ tripL_t32 (F := F) d L v2 X P k, ∀ x : p.1.shape.Idx, p.2 x = RowsLib.rowG (ibS1).view (qV).view X P 128 (by omega) (p.1.emb x) := by
  unfold tripL_t32 trip_t32
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off513_inb k) (k0_off513_inb k) (k0_off514_inb k) k.val (k.val + 128) 112 (k0_off513_eq k) (k0_off514_eq k) rfl _ (RowsLib.lane_sum _ _ _ _) x
  · exact fun x => RowsLib.piece_eq _ _ X P 128 _ _ _ (k0_off511_inb k) (k0_off511_inb k) (k0_off512_inb k) k.val (k.val + 128) 96 (k0_off511_eq k) (k0_off512_eq k) rfl _ (RowsLib.lane_sum _ _ _ _) x
  · exact fun x => RowsLib.piece_eq _ _ X P 128 _ _ _ (k0_off509_inb k) (k0_off509_inb k) (k0_off510_inb k) k.val (k.val + 128) 80 (k0_off509_eq k) (k0_off510_eq k) rfl _ (RowsLib.lane_sum _ _ _ _) x
  · exact fun x => RowsLib.piece_eq _ _ X P 128 _ _ _ (k0_off507_inb k) (k0_off507_inb k) (k0_off508_inb k) k.val (k.val + 128) 64 (k0_off507_eq k) (k0_off508_eq k) rfl _ (RowsLib.lane_sum _ _ _ _) x
  · exact fun x => RowsLib.piece_eq _ _ X P 128 _ _ _ (k0_off505_inb k) (k0_off505_inb k) (k0_off506_inb k) k.val (k.val + 128) 48 (k0_off505_eq k) (k0_off506_eq k) rfl _ (RowsLib.lane_sum _ _ _ _) x
  · exact fun x => RowsLib.piece_eq _ _ X P 128 _ _ _ (k0_off503_inb k) (k0_off503_inb k) (k0_off504_inb k) k.val (k.val + 128) 32 (k0_off503_eq k) (k0_off504_eq k) rfl _ (RowsLib.lane_sum _ _ _ _) x
  · exact fun x => RowsLib.piece_eq _ _ X P 128 _ _ _ (k0_off501_inb k) (k0_off501_inb k) (k0_off502_inb k) k.val (k.val + 128) 16 (k0_off501_eq k) (k0_off502_eq k) rfl _ (RowsLib.lane_sum _ _ _ _) x
  · exact fun x => RowsLib.piece_eq _ _ X P 128 _ _ _ (k0_off499_inb k) (k0_off499_inb k) (k0_off500_inb k) k.val (k.val + 128) 0 (k0_off499_eq k) (k0_off500_eq k) rfl _ (RowsLib.lane_sum _ _ _ _) x

set_option maxHeartbeats 2000000 in
/-- The eight pieces of trip k cover row k. -/
theorem trip_cover_t32 (d : Dev nD) (L : grid0.Coords) (v2 : BitVec 32) (X : BufTy.Contents (Elt F) (ibS1).view.ty) (P : BufTy.Contents (Elt F) (qV).view.ty)
    (k : Fin k0_t32_loop.trips) (r c : Fin 128) (hr : k.val = r.val) :
    ∃ p ∈ tripL_t32 (F := F) d L v2 X P k, (ValueIdx.ix2 r c : RowsLib.SS.Idx) ∈ p.1.set := by
  unfold tripL_t32 trip_t32
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off499_inb k) r c k.val 0 (k0_off499_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off501_inb k) r c k.val 16 (k0_off501_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off503_inb k) r c k.val 32 (k0_off503_eq k) hr h.1 h.2⟩
  · exact ⟨_, List.mem_cons_of_mem _ (List.mem_cons_of_mem _ (List.mem_cons_of_mem _ (List.mem_cons_of_mem _ (List.mem_cons_self)))), RowsLib.mem_unit _ (k0_off505_inb k) r c k.val 48 (k0_off505_eq k) hr h.1 h.2⟩
  · exact ⟨_, List.mem_cons_of_mem _ (List.mem_cons_of_mem _ (List.mem_cons_of_mem _ (List.mem_cons_self))), RowsLib.mem_unit _ (k0_off507_inb k) r c k.val 64 (k0_off507_eq k) hr h.1 h.2⟩
  · exact ⟨_, List.mem_cons_of_mem _ (List.mem_cons_of_mem _ (List.mem_cons_self)), RowsLib.mem_unit _ (k0_off509_inb k) r c k.val 80 (k0_off509_eq k) hr h.1 h.2⟩
  · exact ⟨_, List.mem_cons_of_mem _ (List.mem_cons_self), RowsLib.mem_unit _ (k0_off511_inb k) r c k.val 96 (k0_off511_eq k) hr h.1 h.2⟩
  · exact ⟨_, List.mem_cons_self, RowsLib.mem_unit _ (k0_off513_inb k) r c k.val 112 (k0_off513_eq k) hr h.1 h.2⟩

/-- The slot of sums after row loop 32, as the row-sum function: at (r, c) the gathered rows' entry plus the positional scratch's entry of row r + 128. -/
theorem rows_t32_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t32 (F := F) d L v2 X P 128)) (ValueIdx.ix2 r c)
      = RowsLib.rowG (ibS1).view (qV).view X P 128 (by omega) (ValueIdx.ix2 r c) :=
  RowsLib.read_writes_trips (n := k0_t32_loop.trips) (pb_t32 (F := F) d L v2 X P) (tripL_t32 (F := F) d L v2 X P) (obS1).view G _
    rfl (pb_t32_succ (F := F) d L v2 X P) (trip_pieces_t32 d L v2 X P) _ ⟨r.val, r.isLt⟩ (trip_cover_t32 d L v2 X P ⟨r.val, r.isLt⟩ r c rfl)

/-- THE SLOT OF SUMS AFTER ROW LOOP 32, whatever it held before: at (r, c) the gathered rows' entry (r, c) plus the positional
    scratch's entry (r + 128, c). -/
theorem rows_t32 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t32 (F := F) d L v2 X P (Scf.trips k0_t32_loop.lb k0_t32_loop.ub k0_t32_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t32_G d L v2 X P G r c

end Tile

end Cert.Proof.KB

end
-- ==== Proof.LoopsCB.lean ====
-- The same text as LoopsC.lean, read at the printed kernel's own namespace: Cert.Kernel for Cert.KernelIdeal throughout.
/- GENERATED by: bun proofs/208673_g37134287241914_cont_8to1_b_302_3_alg/scratch/gen_loops.js (run from the package root): one text per row loop, instantiated at the loops 33 to 48.
   Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.CommonB
import proofs.«208673_g37134287241914_cont_8to1_b_302_3_alg».proof.Proof.Gen.Kernel.Skeleton
import proofs.«208673_g37134287241914_cont_8to1_b_302_3_alg».proof.Proof.TileResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### loop 33 (slot 0) -/

set_option maxHeartbeats 4000000 in
/-- One trip of row loop 33 at a symbolic row: the pieces it writes into the sum slot are the run's own finds. -/
@[irreducible] def trip_t33 (d : Dev nD) (L : grid0.Coords) (v2 wa wb : BitVec 32)
    (X : BufTy.Contents (Elt F) (ibS0).view.ty) (P : BufTy.Contents (Elt F) (qV).view.ty) (k : Fin k0_t33_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t33_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t33_body TripRes0
    iintro ⟨HX, HP, HW⟩
    sl_exec
    sl_step
    sl_close

abbrev tripL_t33 (d : Dev nD) (L : grid0.Coords) (v2 wa wb : BitVec 32) (X : BufTy.Contents (Elt F) (ibS0).view.ty) (P : BufTy.Contents (Elt F) (qV).view.ty) (k : Fin k0_t33_loop.trips) : List (View.Piece (Elt F) S128x128 .f32) :=
  (trip_t33 (F := F) d L v2 wa wb X P k).1

@[irreducible] def pb_t33Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t33_loop.trips then (tripL_t33 (F := F) d L v2 wa wb X P ⟨k, h⟩) ++ prev else prev

/-- The pieces of the rows before k (last first). -/
def pb_t33 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t33Step d L v2 wa wb X P k (pb_t33 d L v2 wa wb X P k)

theorem pb_t33_succ (d : Dev nD) (L : grid0.Coords) (v2 wa wb : BitVec 32) (X : BufTy.Contents (Elt F) (ibS0).view.ty) (P : BufTy.Contents (Elt F) (qV).view.ty) (k : Fin k0_t33_loop.trips) :
    pb_t33 (F := F) d L v2 wa wb X P (k.val + 1) = (tripL_t33 (F := F) d L v2 wa wb X P k) ++ (pb_t33 (F := F) d L v2 wa wb X P k.val) := by
  rw [pb_t33.eq_2]; unfold pb_t33Step; exact dif_pos k.isLt

set_option warn.classDefReducibility false in
/-- Row loop 33 by its invariant: the gathered rows and the positional rows read, the sum slot holding the pieces of the rows before k over its contents at loop entry. -/
@[sl_loop] def loopInv_t33 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t33_loop.lb k0_t33_loop.ub k0_t33_loop.st k0_t33_ok () (k0_t33_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t33 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t33 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t33_succ]
      iexists _; isplitl [HW]; · iexact HW
      ipureintro; rw [hf, ← View.writes_append]

/-! ### loop 34 (slot 1) -/

set_option maxHeartbeats 4000000 in
/-- One trip of row loop 34 at a symbolic row: the pieces it writes into the sum slot are the run's own finds. -/
@[irreducible] def trip_t34 (d : Dev nD) (L : grid0.Coords) (v2 : BitVec 32)
    (X : BufTy.Contents (Elt F) (ibS1).view.ty) (P : BufTy.Contents (Elt F) (qV).view.ty) (k : Fin k0_t34_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t34_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t34_body TripRes1
    iintro ⟨HX, HP, HW⟩
    sl_exec
    sl_step
    sl_close

abbrev tripL_t34 (d : Dev nD) (L : grid0.Coords) (v2 : BitVec 32) (X : BufTy.Contents (Elt F) (ibS1).view.ty) (P : BufTy.Contents (Elt F) (qV).view.ty) (k : Fin k0_t34_loop.trips) : List (View.Piece (Elt F) S128x128 .f32) :=
  (trip_t34 (F := F) d L v2 X P k).1

@[irreducible] def pb_t34Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t34_loop.trips then (tripL_t34 (F := F) d L v2 X P ⟨k, h⟩) ++ prev else prev

/-- The pieces of the rows before k (last first). -/
def pb_t34 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t34Step d L v2 X P k (pb_t34 d L v2 X P k)

theorem pb_t34_succ (d : Dev nD) (L : grid0.Coords) (v2 : BitVec 32) (X : BufTy.Contents (Elt F) (ibS1).view.ty) (P : BufTy.Contents (Elt F) (qV).view.ty) (k : Fin k0_t34_loop.trips) :
    pb_t34 (F := F) d L v2 X P (k.val + 1) = (tripL_t34 (F := F) d L v2 X P k) ++ (pb_t34 (F := F) d L v2 X P k.val) := by
  rw [pb_t34.eq_2]; unfold pb_t34Step; exact dif_pos k.isLt

set_option warn.classDefReducibility false in
/-- Row loop 34 by its invariant: the gathered rows and the positional rows read, the sum slot holding the pieces of the rows before k over its contents at loop entry. -/
@[sl_loop] def loopInv_t34 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t34_loop.lb k0_t34_loop.ub k0_t34_loop.st k0_t34_ok () (k0_t34_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t34 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t34 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t34_succ]
      iexists _; isplitl [HW]; · iexact HW
      ipureintro; rw [hf, ← View.writes_append]

/-! ### loop 35 (slot 0) -/

set_option maxHeartbeats 4000000 in
/-- One trip of row loop 35 at a symbolic row: the pieces it writes into the sum slot are the run's own finds. -/
@[irreducible] def trip_t35 (d : Dev nD) (L : grid0.Coords) (v2 : BitVec 32)
    (X : BufTy.Contents (Elt F) (ibS0).view.ty) (P : BufTy.Contents (Elt F) (qV).view.ty) (k : Fin k0_t35_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t35_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t35_body TripRes0
    iintro ⟨HX, HP, HW⟩
    sl_exec
    sl_step
    sl_close

abbrev tripL_t35 (d : Dev nD) (L : grid0.Coords) (v2 : BitVec 32) (X : BufTy.Contents (Elt F) (ibS0).view.ty) (P : BufTy.Contents (Elt F) (qV).view.ty) (k : Fin k0_t35_loop.trips) : List (View.Piece (Elt F) S128x128 .f32) :=
  (trip_t35 (F := F) d L v2 X P k).1

@[irreducible] def pb_t35Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t35_loop.trips then (tripL_t35 (F := F) d L v2 X P ⟨k, h⟩) ++ prev else prev

/-- The pieces of the rows before k (last first). -/
def pb_t35 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t35Step d L v2 X P k (pb_t35 d L v2 X P k)

theorem pb_t35_succ (d : Dev nD) (L : grid0.Coords) (v2 : BitVec 32) (X : BufTy.Contents (Elt F) (ibS0).view.ty) (P : BufTy.Contents (Elt F) (qV).view.ty) (k : Fin k0_t35_loop.trips) :
    pb_t35 (F := F) d L v2 X P (k.val + 1) = (tripL_t35 (F := F) d L v2 X P k) ++ (pb_t35 (F := F) d L v2 X P k.val) := by
  rw [pb_t35.eq_2]; unfold pb_t35Step; exact dif_pos k.isLt

set_option warn.classDefReducibility false in
/-- Row loop 35 by its invariant: the gathered rows and the positional rows read, the sum slot holding the pieces of the rows before k over its contents at loop entry. -/
@[sl_loop] def loopInv_t35 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t35_loop.lb k0_t35_loop.ub k0_t35_loop.st k0_t35_ok () (k0_t35_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t35 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t35 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t35_succ]
      iexists _; isplitl [HW]; · iexact HW
      ipureintro; rw [hf, ← View.writes_append]

/-! ### loop 36 (slot 1) -/

set_option maxHeartbeats 4000000 in
/-- One trip of row loop 36 at a symbolic row: the pieces it writes into the sum slot are the run's own finds. -/
@[irreducible] def trip_t36 (d : Dev nD) (L : grid0.Coords) (v2 : BitVec 32)
    (X : BufTy.Contents (Elt F) (ibS1).view.ty) (P : BufTy.Contents (Elt F) (qV).view.ty) (k : Fin k0_t36_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t36_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t36_body TripRes1
    iintro ⟨HX, HP, HW⟩
    sl_exec
    sl_step
    sl_close

abbrev tripL_t36 (d : Dev nD) (L : grid0.Coords) (v2 : BitVec 32) (X : BufTy.Contents (Elt F) (ibS1).view.ty) (P : BufTy.Contents (Elt F) (qV).view.ty) (k : Fin k0_t36_loop.trips) : List (View.Piece (Elt F) S128x128 .f32) :=
  (trip_t36 (F := F) d L v2 X P k).1

@[irreducible] def pb_t36Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t36_loop.trips then (tripL_t36 (F := F) d L v2 X P ⟨k, h⟩) ++ prev else prev

/-- The pieces of the rows before k (last first). -/
def pb_t36 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t36Step d L v2 X P k (pb_t36 d L v2 X P k)

theorem pb_t36_succ (d : Dev nD) (L : grid0.Coords) (v2 : BitVec 32) (X : BufTy.Contents (Elt F) (ibS1).view.ty) (P : BufTy.Contents (Elt F) (qV).view.ty) (k : Fin k0_t36_loop.trips) :
    pb_t36 (F := F) d L v2 X P (k.val + 1) = (tripL_t36 (F := F) d L v2 X P k) ++ (pb_t36 (F := F) d L v2 X P k.val) := by
  rw [pb_t36.eq_2]; unfold pb_t36Step; exact dif_pos k.isLt

set_option warn.classDefReducibility false in
/-- Row loop 36 by its invariant: the gathered rows and the positional rows read, the sum slot holding the pieces of the rows before k over its contents at loop entry. -/
@[sl_loop] def loopInv_t36 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t36_loop.lb k0_t36_loop.ub k0_t36_loop.st k0_t36_ok () (k0_t36_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t36 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t36 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t36_succ]
      iexists _; isplitl [HW]; · iexact HW
      ipureintro; rw [hf, ← View.writes_append]

/-! ### loop 37 (slot 0) -/

set_option maxHeartbeats 4000000 in
/-- One trip of row loop 37 at a symbolic row: the pieces it writes into the sum slot are the run's own finds. -/
@[irreducible] def trip_t37 (d : Dev nD) (L : grid0.Coords) (v2 : BitVec 32)
    (X : BufTy.Contents (Elt F) (ibS0).view.ty) (P : BufTy.Contents (Elt F) (qV).view.ty) (k : Fin k0_t37_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t37_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t37_body TripRes0
    iintro ⟨HX, HP, HW⟩
    sl_exec
    sl_step
    sl_close

abbrev tripL_t37 (d : Dev nD) (L : grid0.Coords) (v2 : BitVec 32) (X : BufTy.Contents (Elt F) (ibS0).view.ty) (P : BufTy.Contents (Elt F) (qV).view.ty) (k : Fin k0_t37_loop.trips) : List (View.Piece (Elt F) S128x128 .f32) :=
  (trip_t37 (F := F) d L v2 X P k).1

@[irreducible] def pb_t37Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t37_loop.trips then (tripL_t37 (F := F) d L v2 X P ⟨k, h⟩) ++ prev else prev

/-- The pieces of the rows before k (last first). -/
def pb_t37 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t37Step d L v2 X P k (pb_t37 d L v2 X P k)

theorem pb_t37_succ (d : Dev nD) (L : grid0.Coords) (v2 : BitVec 32) (X : BufTy.Contents (Elt F) (ibS0).view.ty) (P : BufTy.Contents (Elt F) (qV).view.ty) (k : Fin k0_t37_loop.trips) :
    pb_t37 (F := F) d L v2 X P (k.val + 1) = (tripL_t37 (F := F) d L v2 X P k) ++ (pb_t37 (F := F) d L v2 X P k.val) := by
  rw [pb_t37.eq_2]; unfold pb_t37Step; exact dif_pos k.isLt

set_option warn.classDefReducibility false in
/-- Row loop 37 by its invariant: the gathered rows and the positional rows read, the sum slot holding the pieces of the rows before k over its contents at loop entry. -/
@[sl_loop] def loopInv_t37 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t37_loop.lb k0_t37_loop.ub k0_t37_loop.st k0_t37_ok () (k0_t37_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t37 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t37 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t37_succ]
      iexists _; isplitl [HW]; · iexact HW
      ipureintro; rw [hf, ← View.writes_append]

/-! ### loop 38 (slot 1) -/

set_option maxHeartbeats 4000000 in
/-- One trip of row loop 38 at a symbolic row: the pieces it writes into the sum slot are the run's own finds. -/
@[irreducible] def trip_t38 (d : Dev nD) (L : grid0.Coords) (v2 : BitVec 32)
    (X : BufTy.Contents (Elt F) (ibS1).view.ty) (P : BufTy.Contents (Elt F) (qV).view.ty) (k : Fin k0_t38_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t38_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t38_body TripRes1
    iintro ⟨HX, HP, HW⟩
    sl_exec
    sl_step
    sl_close

abbrev tripL_t38 (d : Dev nD) (L : grid0.Coords) (v2 : BitVec 32) (X : BufTy.Contents (Elt F) (ibS1).view.ty) (P : BufTy.Contents (Elt F) (qV).view.ty) (k : Fin k0_t38_loop.trips) : List (View.Piece (Elt F) S128x128 .f32) :=
  (trip_t38 (F := F) d L v2 X P k).1

@[irreducible] def pb_t38Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t38_loop.trips then (tripL_t38 (F := F) d L v2 X P ⟨k, h⟩) ++ prev else prev

/-- The pieces of the rows before k (last first). -/
def pb_t38 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t38Step d L v2 X P k (pb_t38 d L v2 X P k)

theorem pb_t38_succ (d : Dev nD) (L : grid0.Coords) (v2 : BitVec 32) (X : BufTy.Contents (Elt F) (ibS1).view.ty) (P : BufTy.Contents (Elt F) (qV).view.ty) (k : Fin k0_t38_loop.trips) :
    pb_t38 (F := F) d L v2 X P (k.val + 1) = (tripL_t38 (F := F) d L v2 X P k) ++ (pb_t38 (F := F) d L v2 X P k.val) := by
  rw [pb_t38.eq_2]; unfold pb_t38Step; exact dif_pos k.isLt

set_option warn.classDefReducibility false in
/-- Row loop 38 by its invariant: the gathered rows and the positional rows read, the sum slot holding the pieces of the rows before k over its contents at loop entry. -/
@[sl_loop] def loopInv_t38 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t38_loop.lb k0_t38_loop.ub k0_t38_loop.st k0_t38_ok () (k0_t38_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t38 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t38 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t38_succ]
      iexists _; isplitl [HW]; · iexact HW
      ipureintro; rw [hf, ← View.writes_append]

/-! ### loop 39 (slot 0) -/

set_option maxHeartbeats 4000000 in
/-- One trip of row loop 39 at a symbolic row: the pieces it writes into the sum slot are the run's own finds. -/
@[irreducible] def trip_t39 (d : Dev nD) (L : grid0.Coords) (v2 : BitVec 32)
    (X : BufTy.Contents (Elt F) (ibS0).view.ty) (P : BufTy.Contents (Elt F) (qV).view.ty) (k : Fin k0_t39_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t39_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t39_body TripRes0
    iintro ⟨HX, HP, HW⟩
    sl_exec
    sl_step
    sl_close

abbrev tripL_t39 (d : Dev nD) (L : grid0.Coords) (v2 : BitVec 32) (X : BufTy.Contents (Elt F) (ibS0).view.ty) (P : BufTy.Contents (Elt F) (qV).view.ty) (k : Fin k0_t39_loop.trips) : List (View.Piece (Elt F) S128x128 .f32) :=
  (trip_t39 (F := F) d L v2 X P k).1

@[irreducible] def pb_t39Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t39_loop.trips then (tripL_t39 (F := F) d L v2 X P ⟨k, h⟩) ++ prev else prev

/-- The pieces of the rows before k (last first). -/
def pb_t39 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t39Step d L v2 X P k (pb_t39 d L v2 X P k)

theorem pb_t39_succ (d : Dev nD) (L : grid0.Coords) (v2 : BitVec 32) (X : BufTy.Contents (Elt F) (ibS0).view.ty) (P : BufTy.Contents (Elt F) (qV).view.ty) (k : Fin k0_t39_loop.trips) :
    pb_t39 (F := F) d L v2 X P (k.val + 1) = (tripL_t39 (F := F) d L v2 X P k) ++ (pb_t39 (F := F) d L v2 X P k.val) := by
  rw [pb_t39.eq_2]; unfold pb_t39Step; exact dif_pos k.isLt

set_option warn.classDefReducibility false in
/-- Row loop 39 by its invariant: the gathered rows and the positional rows read, the sum slot holding the pieces of the rows before k over its contents at loop entry. -/
@[sl_loop] def loopInv_t39 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t39_loop.lb k0_t39_loop.ub k0_t39_loop.st k0_t39_ok () (k0_t39_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t39 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t39 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t39_succ]
      iexists _; isplitl [HW]; · iexact HW
      ipureintro; rw [hf, ← View.writes_append]

/-! ### loop 40 (slot 1) -/

set_option maxHeartbeats 4000000 in
/-- One trip of row loop 40 at a symbolic row: the pieces it writes into the sum slot are the run's own finds. -/
@[irreducible] def trip_t40 (d : Dev nD) (L : grid0.Coords) (v2 : BitVec 32)
    (X : BufTy.Contents (Elt F) (ibS1).view.ty) (P : BufTy.Contents (Elt F) (qV).view.ty) (k : Fin k0_t40_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t40_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t40_body TripRes1
    iintro ⟨HX, HP, HW⟩
    sl_exec
    sl_step
    sl_close

abbrev tripL_t40 (d : Dev nD) (L : grid0.Coords) (v2 : BitVec 32) (X : BufTy.Contents (Elt F) (ibS1).view.ty) (P : BufTy.Contents (Elt F) (qV).view.ty) (k : Fin k0_t40_loop.trips) : List (View.Piece (Elt F) S128x128 .f32) :=
  (trip_t40 (F := F) d L v2 X P k).1

@[irreducible] def pb_t40Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t40_loop.trips then (tripL_t40 (F := F) d L v2 X P ⟨k, h⟩) ++ prev else prev

/-- The pieces of the rows before k (last first). -/
def pb_t40 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t40Step d L v2 X P k (pb_t40 d L v2 X P k)

theorem pb_t40_succ (d : Dev nD) (L : grid0.Coords) (v2 : BitVec 32) (X : BufTy.Contents (Elt F) (ibS1).view.ty) (P : BufTy.Contents (Elt F) (qV).view.ty) (k : Fin k0_t40_loop.trips) :
    pb_t40 (F := F) d L v2 X P (k.val + 1) = (tripL_t40 (F := F) d L v2 X P k) ++ (pb_t40 (F := F) d L v2 X P k.val) := by
  rw [pb_t40.eq_2]; unfold pb_t40Step; exact dif_pos k.isLt

set_option warn.classDefReducibility false in
/-- Row loop 40 by its invariant: the gathered rows and the positional rows read, the sum slot holding the pieces of the rows before k over its contents at loop entry. -/
@[sl_loop] def loopInv_t40 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t40_loop.lb k0_t40_loop.ub k0_t40_loop.st k0_t40_ok () (k0_t40_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t40 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t40 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t40_succ]
      iexists _; isplitl [HW]; · iexact HW
      ipureintro; rw [hf, ← View.writes_append]

/-! ### loop 41 (slot 0) -/

set_option maxHeartbeats 4000000 in
/-- One trip of row loop 41 at a symbolic row: the pieces it writes into the sum slot are the run's own finds. -/
@[irreducible] def trip_t41 (d : Dev nD) (L : grid0.Coords) (v2 : BitVec 32)
    (X : BufTy.Contents (Elt F) (ibS0).view.ty) (P : BufTy.Contents (Elt F) (qV).view.ty) (k : Fin k0_t41_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t41_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t41_body TripRes0
    iintro ⟨HX, HP, HW⟩
    sl_exec
    sl_step
    sl_close

abbrev tripL_t41 (d : Dev nD) (L : grid0.Coords) (v2 : BitVec 32) (X : BufTy.Contents (Elt F) (ibS0).view.ty) (P : BufTy.Contents (Elt F) (qV).view.ty) (k : Fin k0_t41_loop.trips) : List (View.Piece (Elt F) S128x128 .f32) :=
  (trip_t41 (F := F) d L v2 X P k).1

@[irreducible] def pb_t41Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t41_loop.trips then (tripL_t41 (F := F) d L v2 X P ⟨k, h⟩) ++ prev else prev

/-- The pieces of the rows before k (last first). -/
def pb_t41 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t41Step d L v2 X P k (pb_t41 d L v2 X P k)

theorem pb_t41_succ (d : Dev nD) (L : grid0.Coords) (v2 : BitVec 32) (X : BufTy.Contents (Elt F) (ibS0).view.ty) (P : BufTy.Contents (Elt F) (qV).view.ty) (k : Fin k0_t41_loop.trips) :
    pb_t41 (F := F) d L v2 X P (k.val + 1) = (tripL_t41 (F := F) d L v2 X P k) ++ (pb_t41 (F := F) d L v2 X P k.val) := by
  rw [pb_t41.eq_2]; unfold pb_t41Step; exact dif_pos k.isLt

set_option warn.classDefReducibility false in
/-- Row loop 41 by its invariant: the gathered rows and the positional rows read, the sum slot holding the pieces of the rows before k over its contents at loop entry. -/
@[sl_loop] def loopInv_t41 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t41_loop.lb k0_t41_loop.ub k0_t41_loop.st k0_t41_ok () (k0_t41_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t41 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t41 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t41_succ]
      iexists _; isplitl [HW]; · iexact HW
      ipureintro; rw [hf, ← View.writes_append]

/-! ### loop 42 (slot 1) -/

set_option maxHeartbeats 4000000 in
/-- One trip of row loop 42 at a symbolic row: the pieces it writes into the sum slot are the run's own finds. -/
@[irreducible] def trip_t42 (d : Dev nD) (L : grid0.Coords) (v2 : BitVec 32)
    (X : BufTy.Contents (Elt F) (ibS1).view.ty) (P : BufTy.Contents (Elt F) (qV).view.ty) (k : Fin k0_t42_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t42_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t42_body TripRes1
    iintro ⟨HX, HP, HW⟩
    sl_exec
    sl_step
    sl_close

abbrev tripL_t42 (d : Dev nD) (L : grid0.Coords) (v2 : BitVec 32) (X : BufTy.Contents (Elt F) (ibS1).view.ty) (P : BufTy.Contents (Elt F) (qV).view.ty) (k : Fin k0_t42_loop.trips) : List (View.Piece (Elt F) S128x128 .f32) :=
  (trip_t42 (F := F) d L v2 X P k).1

@[irreducible] def pb_t42Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t42_loop.trips then (tripL_t42 (F := F) d L v2 X P ⟨k, h⟩) ++ prev else prev

/-- The pieces of the rows before k (last first). -/
def pb_t42 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t42Step d L v2 X P k (pb_t42 d L v2 X P k)

theorem pb_t42_succ (d : Dev nD) (L : grid0.Coords) (v2 : BitVec 32) (X : BufTy.Contents (Elt F) (ibS1).view.ty) (P : BufTy.Contents (Elt F) (qV).view.ty) (k : Fin k0_t42_loop.trips) :
    pb_t42 (F := F) d L v2 X P (k.val + 1) = (tripL_t42 (F := F) d L v2 X P k) ++ (pb_t42 (F := F) d L v2 X P k.val) := by
  rw [pb_t42.eq_2]; unfold pb_t42Step; exact dif_pos k.isLt

set_option warn.classDefReducibility false in
/-- Row loop 42 by its invariant: the gathered rows and the positional rows read, the sum slot holding the pieces of the rows before k over its contents at loop entry. -/
@[sl_loop] def loopInv_t42 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t42_loop.lb k0_t42_loop.ub k0_t42_loop.st k0_t42_ok () (k0_t42_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t42 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t42 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t42_succ]
      iexists _; isplitl [HW]; · iexact HW
      ipureintro; rw [hf, ← View.writes_append]

/-! ### loop 43 (slot 0) -/

set_option maxHeartbeats 4000000 in
/-- One trip of row loop 43 at a symbolic row: the pieces it writes into the sum slot are the run's own finds. -/
@[irreducible] def trip_t43 (d : Dev nD) (L : grid0.Coords) (v2 wa wb : BitVec 32)
    (X : BufTy.Contents (Elt F) (ibS0).view.ty) (P : BufTy.Contents (Elt F) (qV).view.ty) (k : Fin k0_t43_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t43_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t43_body TripRes0
    iintro ⟨HX, HP, HW⟩
    sl_exec
    sl_step
    sl_close

abbrev tripL_t43 (d : Dev nD) (L : grid0.Coords) (v2 wa wb : BitVec 32) (X : BufTy.Contents (Elt F) (ibS0).view.ty) (P : BufTy.Contents (Elt F) (qV).view.ty) (k : Fin k0_t43_loop.trips) : List (View.Piece (Elt F) S128x128 .f32) :=
  (trip_t43 (F := F) d L v2 wa wb X P k).1

@[irreducible] def pb_t43Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t43_loop.trips then (tripL_t43 (F := F) d L v2 wa wb X P ⟨k, h⟩) ++ prev else prev

/-- The pieces of the rows before k (last first). -/
def pb_t43 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t43Step d L v2 wa wb X P k (pb_t43 d L v2 wa wb X P k)

theorem pb_t43_succ (d : Dev nD) (L : grid0.Coords) (v2 wa wb : BitVec 32) (X : BufTy.Contents (Elt F) (ibS0).view.ty) (P : BufTy.Contents (Elt F) (qV).view.ty) (k : Fin k0_t43_loop.trips) :
    pb_t43 (F := F) d L v2 wa wb X P (k.val + 1) = (tripL_t43 (F := F) d L v2 wa wb X P k) ++ (pb_t43 (F := F) d L v2 wa wb X P k.val) := by
  rw [pb_t43.eq_2]; unfold pb_t43Step; exact dif_pos k.isLt

set_option warn.classDefReducibility false in
/-- Row loop 43 by its invariant: the gathered rows and the positional rows read, the sum slot holding the pieces of the rows before k over its contents at loop entry. -/
@[sl_loop] def loopInv_t43 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t43_loop.lb k0_t43_loop.ub k0_t43_loop.st k0_t43_ok () (k0_t43_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t43 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t43 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t43_succ]
      iexists _; isplitl [HW]; · iexact HW
      ipureintro; rw [hf, ← View.writes_append]

/-! ### loop 44 (slot 1) -/

set_option maxHeartbeats 4000000 in
/-- One trip of row loop 44 at a symbolic row: the pieces it writes into the sum slot are the run's own finds. -/
@[irreducible] def trip_t44 (d : Dev nD) (L : grid0.Coords) (v2 : BitVec 32)
    (X : BufTy.Contents (Elt F) (ibS1).view.ty) (P : BufTy.Contents (Elt F) (qV).view.ty) (k : Fin k0_t44_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t44_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t44_body TripRes1
    iintro ⟨HX, HP, HW⟩
    sl_exec
    sl_step
    sl_close

abbrev tripL_t44 (d : Dev nD) (L : grid0.Coords) (v2 : BitVec 32) (X : BufTy.Contents (Elt F) (ibS1).view.ty) (P : BufTy.Contents (Elt F) (qV).view.ty) (k : Fin k0_t44_loop.trips) : List (View.Piece (Elt F) S128x128 .f32) :=
  (trip_t44 (F := F) d L v2 X P k).1

@[irreducible] def pb_t44Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t44_loop.trips then (tripL_t44 (F := F) d L v2 X P ⟨k, h⟩) ++ prev else prev

/-- The pieces of the rows before k (last first). -/
def pb_t44 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t44Step d L v2 X P k (pb_t44 d L v2 X P k)

theorem pb_t44_succ (d : Dev nD) (L : grid0.Coords) (v2 : BitVec 32) (X : BufTy.Contents (Elt F) (ibS1).view.ty) (P : BufTy.Contents (Elt F) (qV).view.ty) (k : Fin k0_t44_loop.trips) :
    pb_t44 (F := F) d L v2 X P (k.val + 1) = (tripL_t44 (F := F) d L v2 X P k) ++ (pb_t44 (F := F) d L v2 X P k.val) := by
  rw [pb_t44.eq_2]; unfold pb_t44Step; exact dif_pos k.isLt

set_option warn.classDefReducibility false in
/-- Row loop 44 by its invariant: the gathered rows and the positional rows read, the sum slot holding the pieces of the rows before k over its contents at loop entry. -/
@[sl_loop] def loopInv_t44 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t44_loop.lb k0_t44_loop.ub k0_t44_loop.st k0_t44_ok () (k0_t44_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t44 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t44 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t44_succ]
      iexists _; isplitl [HW]; · iexact HW
      ipureintro; rw [hf, ← View.writes_append]

/-! ### loop 45 (slot 0) -/

set_option maxHeartbeats 4000000 in
/-- One trip of row loop 45 at a symbolic row: the pieces it writes into the sum slot are the run's own finds. -/
@[irreducible] def trip_t45 (d : Dev nD) (L : grid0.Coords) (v2 : BitVec 32)
    (X : BufTy.Contents (Elt F) (ibS0).view.ty) (P : BufTy.Contents (Elt F) (qV).view.ty) (k : Fin k0_t45_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t45_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t45_body TripRes0
    iintro ⟨HX, HP, HW⟩
    sl_exec
    sl_step
    sl_close

abbrev tripL_t45 (d : Dev nD) (L : grid0.Coords) (v2 : BitVec 32) (X : BufTy.Contents (Elt F) (ibS0).view.ty) (P : BufTy.Contents (Elt F) (qV).view.ty) (k : Fin k0_t45_loop.trips) : List (View.Piece (Elt F) S128x128 .f32) :=
  (trip_t45 (F := F) d L v2 X P k).1

@[irreducible] def pb_t45Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t45_loop.trips then (tripL_t45 (F := F) d L v2 X P ⟨k, h⟩) ++ prev else prev

/-- The pieces of the rows before k (last first). -/
def pb_t45 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t45Step d L v2 X P k (pb_t45 d L v2 X P k)

theorem pb_t45_succ (d : Dev nD) (L : grid0.Coords) (v2 : BitVec 32) (X : BufTy.Contents (Elt F) (ibS0).view.ty) (P : BufTy.Contents (Elt F) (qV).view.ty) (k : Fin k0_t45_loop.trips) :
    pb_t45 (F := F) d L v2 X P (k.val + 1) = (tripL_t45 (F := F) d L v2 X P k) ++ (pb_t45 (F := F) d L v2 X P k.val) := by
  rw [pb_t45.eq_2]; unfold pb_t45Step; exact dif_pos k.isLt

set_option warn.classDefReducibility false in
/-- Row loop 45 by its invariant: the gathered rows and the positional rows read, the sum slot holding the pieces of the rows before k over its contents at loop entry. -/
@[sl_loop] def loopInv_t45 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t45_loop.lb k0_t45_loop.ub k0_t45_loop.st k0_t45_ok () (k0_t45_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t45 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t45 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t45_succ]
      iexists _; isplitl [HW]; · iexact HW
      ipureintro; rw [hf, ← View.writes_append]

/-! ### loop 46 (slot 1) -/

set_option maxHeartbeats 4000000 in
/-- One trip of row loop 46 at a symbolic row: the pieces it writes into the sum slot are the run's own finds. -/
@[irreducible] def trip_t46 (d : Dev nD) (L : grid0.Coords) (v2 : BitVec 32)
    (X : BufTy.Contents (Elt F) (ibS1).view.ty) (P : BufTy.Contents (Elt F) (qV).view.ty) (k : Fin k0_t46_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t46_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t46_body TripRes1
    iintro ⟨HX, HP, HW⟩
    sl_exec
    sl_step
    sl_close

abbrev tripL_t46 (d : Dev nD) (L : grid0.Coords) (v2 : BitVec 32) (X : BufTy.Contents (Elt F) (ibS1).view.ty) (P : BufTy.Contents (Elt F) (qV).view.ty) (k : Fin k0_t46_loop.trips) : List (View.Piece (Elt F) S128x128 .f32) :=
  (trip_t46 (F := F) d L v2 X P k).1

@[irreducible] def pb_t46Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t46_loop.trips then (tripL_t46 (F := F) d L v2 X P ⟨k, h⟩) ++ prev else prev

/-- The pieces of the rows before k (last first). -/
def pb_t46 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t46Step d L v2 X P k (pb_t46 d L v2 X P k)

theorem pb_t46_succ (d : Dev nD) (L : grid0.Coords) (v2 : BitVec 32) (X : BufTy.Contents (Elt F) (ibS1).view.ty) (P : BufTy.Contents (Elt F) (qV).view.ty) (k : Fin k0_t46_loop.trips) :
    pb_t46 (F := F) d L v2 X P (k.val + 1) = (tripL_t46 (F := F) d L v2 X P k) ++ (pb_t46 (F := F) d L v2 X P k.val) := by
  rw [pb_t46.eq_2]; unfold pb_t46Step; exact dif_pos k.isLt

set_option warn.classDefReducibility false in
/-- Row loop 46 by its invariant: the gathered rows and the positional rows read, the sum slot holding the pieces of the rows before k over its contents at loop entry. -/
@[sl_loop] def loopInv_t46 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t46_loop.lb k0_t46_loop.ub k0_t46_loop.st k0_t46_ok () (k0_t46_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t46 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t46 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t46_succ]
      iexists _; isplitl [HW]; · iexact HW
      ipureintro; rw [hf, ← View.writes_append]

/-! ### loop 47 (slot 0) -/

set_option maxHeartbeats 4000000 in
/-- One trip of row loop 47 at a symbolic row: the pieces it writes into the sum slot are the run's own finds. -/
@[irreducible] def trip_t47 (d : Dev nD) (L : grid0.Coords) (v2 : BitVec 32)
    (X : BufTy.Contents (Elt F) (ibS0).view.ty) (P : BufTy.Contents (Elt F) (qV).view.ty) (k : Fin k0_t47_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t47_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t47_body TripRes0
    iintro ⟨HX, HP, HW⟩
    sl_exec
    sl_step
    sl_close

abbrev tripL_t47 (d : Dev nD) (L : grid0.Coords) (v2 : BitVec 32) (X : BufTy.Contents (Elt F) (ibS0).view.ty) (P : BufTy.Contents (Elt F) (qV).view.ty) (k : Fin k0_t47_loop.trips) : List (View.Piece (Elt F) S128x128 .f32) :=
  (trip_t47 (F := F) d L v2 X P k).1

@[irreducible] def pb_t47Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t47_loop.trips then (tripL_t47 (F := F) d L v2 X P ⟨k, h⟩) ++ prev else prev

/-- The pieces of the rows before k (last first). -/
def pb_t47 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t47Step d L v2 X P k (pb_t47 d L v2 X P k)

theorem pb_t47_succ (d : Dev nD) (L : grid0.Coords) (v2 : BitVec 32) (X : BufTy.Contents (Elt F) (ibS0).view.ty) (P : BufTy.Contents (Elt F) (qV).view.ty) (k : Fin k0_t47_loop.trips) :
    pb_t47 (F := F) d L v2 X P (k.val + 1) = (tripL_t47 (F := F) d L v2 X P k) ++ (pb_t47 (F := F) d L v2 X P k.val) := by
  rw [pb_t47.eq_2]; unfold pb_t47Step; exact dif_pos k.isLt

set_option warn.classDefReducibility false in
/-- Row loop 47 by its invariant: the gathered rows and the positional rows read, the sum slot holding the pieces of the rows before k over its contents at loop entry. -/
@[sl_loop] def loopInv_t47 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t47_loop.lb k0_t47_loop.ub k0_t47_loop.st k0_t47_ok () (k0_t47_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t47 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t47 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t47_succ]
      iexists _; isplitl [HW]; · iexact HW
      ipureintro; rw [hf, ← View.writes_append]

/-! ### loop 48 (slot 1) -/

set_option maxHeartbeats 4000000 in
/-- One trip of row loop 48 at a symbolic row: the pieces it writes into the sum slot are the run's own finds. -/
@[irreducible] def trip_t48 (d : Dev nD) (L : grid0.Coords) (v2 : BitVec 32)
    (X : BufTy.Contents (Elt F) (ibS1).view.ty) (P : BufTy.Contents (Elt F) (qV).view.ty) (k : Fin k0_t48_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t48_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t48_body TripRes1
    iintro ⟨HX, HP, HW⟩
    sl_exec
    sl_step
    sl_close

abbrev tripL_t48 (d : Dev nD) (L : grid0.Coords) (v2 : BitVec 32) (X : BufTy.Contents (Elt F) (ibS1).view.ty) (P : BufTy.Contents (Elt F) (qV).view.ty) (k : Fin k0_t48_loop.trips) : List (View.Piece (Elt F) S128x128 .f32) :=
  (trip_t48 (F := F) d L v2 X P k).1

@[irreducible] def pb_t48Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t48_loop.trips then (tripL_t48 (F := F) d L v2 X P ⟨k, h⟩) ++ prev else prev

/-- The pieces of the rows before k (last first). -/
def pb_t48 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t48Step d L v2 X P k (pb_t48 d L v2 X P k)

theorem pb_t48_succ (d : Dev nD) (L : grid0.Coords) (v2 : BitVec 32) (X : BufTy.Contents (Elt F) (ibS1).view.ty) (P : BufTy.Contents (Elt F) (qV).view.ty) (k : Fin k0_t48_loop.trips) :
    pb_t48 (F := F) d L v2 X P (k.val + 1) = (tripL_t48 (F := F) d L v2 X P k) ++ (pb_t48 (F := F) d L v2 X P k.val) := by
  rw [pb_t48.eq_2]; unfold pb_t48Step; exact dif_pos k.isLt

set_option warn.classDefReducibility false in
/-- Row loop 48 by its invariant: the gathered rows and the positional rows read, the sum slot holding the pieces of the rows before k over its contents at loop entry. -/
@[sl_loop] def loopInv_t48 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t48_loop.lb k0_t48_loop.ub k0_t48_loop.st k0_t48_ok () (k0_t48_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t48 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t48 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t48_succ]
      iexists _; isplitl [HW]; · iexact HW
      ipureintro; rw [hf, ← View.writes_append]

end Tile
end Cert.Proof.KB
end
-- ==== Proof.RowsValueCB.lean ====
-- The same text as RowsValueC.lean, read at the printed kernel's own namespace: Cert.Kernel for Cert.KernelIdeal throughout.
/-
  The slot of sums after each of the row loops 33 to 48.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsCB
import proofs.«208673_g37134287241914_cont_8to1_b_302_3_alg».proof.Proof.RowsLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### the value of row loop 33 (slot 0, positional rows 0 … 127) -/

theorem trips_t33 : k0_t33_loop.trips = 128 := rfl

set_option maxHeartbeats 2000000 in
/-- Every piece of a trip of row loop 33 is the row sum on its rectangle. -/
theorem trip_pieces_t33 (d : Dev nD) (L : grid0.Coords) (v2 wa wb : BitVec 32) (X : BufTy.Contents (Elt F) (ibS0).view.ty) (P : BufTy.Contents (Elt F) (qV).view.ty) (k : Fin k0_t33_loop.trips) :
    ∀ p ∈ tripL_t33 (F := F) d L v2 wa wb X P k, ∀ x : p.1.shape.Idx, p.2 x = RowsLib.rowG (ibS0).view (qV).view X P 0 (by omega) (p.1.emb x) := by
  unfold tripL_t33 trip_t33
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off529_inb k) (k0_off529_inb k) (k0_off530_inb k) k.val (k.val + 0) 112 (k0_off529_eq k) (k0_off530_eq k) rfl _ (RowsLib.lane_sum _ _ _ _) x
  · exact fun x => RowsLib.piece_eq _ _ X P 0 _ _ _ (k0_off527_inb k) (k0_off527_inb k) (k0_off528_inb k) k.val (k.val + 0) 96 (k0_off527_eq k) (k0_off528_eq k) rfl _ (RowsLib.lane_sum _ _ _ _) x
  · exact fun x => RowsLib.piece_eq _ _ X P 0 _ _ _ (k0_off525_inb k) (k0_off525_inb k) (k0_off526_inb k) k.val (k.val + 0) 80 (k0_off525_eq k) (k0_off526_eq k) rfl _ (RowsLib.lane_sum _ _ _ _) x
  · exact fun x => RowsLib.piece_eq _ _ X P 0 _ _ _ (k0_off523_inb k) (k0_off523_inb k) (k0_off524_inb k) k.val (k.val + 0) 64 (k0_off523_eq k) (k0_off524_eq k) rfl _ (RowsLib.lane_sum _ _ _ _) x
  · exact fun x => RowsLib.piece_eq _ _ X P 0 _ _ _ (k0_off521_inb k) (k0_off521_inb k) (k0_off522_inb k) k.val (k.val + 0) 48 (k0_off521_eq k) (k0_off522_eq k) rfl _ (RowsLib.lane_sum _ _ _ _) x
  · exact fun x => RowsLib.piece_eq _ _ X P 0 _ _ _ (k0_off519_inb k) (k0_off519_inb k) (k0_off520_inb k) k.val (k.val + 0) 32 (k0_off519_eq k) (k0_off520_eq k) rfl _ (RowsLib.lane_sum _ _ _ _) x
  · exact fun x => RowsLib.piece_eq _ _ X P 0 _ _ _ (k0_off517_inb k) (k0_off517_inb k) (k0_off518_inb k) k.val (k.val + 0) 16 (k0_off517_eq k) (k0_off518_eq k) rfl _ (RowsLib.lane_sum _ _ _ _) x
  · exact fun x => RowsLib.piece_eq _ _ X P 0 _ _ _ (k0_off515_inb k) (k0_off515_inb k) (k0_off516_inb k) k.val (k.val + 0) 0 (k0_off515_eq k) (k0_off516_eq k) rfl _ (RowsLib.lane_sum _ _ _ _) x

set_option maxHeartbeats 2000000 in
/-- The eight pieces of trip k cover row k. -/
theorem trip_cover_t33 (d : Dev nD) (L : grid0.Coords) (v2 wa wb : BitVec 32) (X : BufTy.Contents (Elt F) (ibS0).view.ty) (P : BufTy.Contents (Elt F) (qV).view.ty)
    (k : Fin k0_t33_loop.trips) (r c : Fin 128) (hr : k.val = r.val) :
    ∃ p ∈ tripL_t33 (F := F) d L v2 wa wb X P k, (ValueIdx.ix2 r c : RowsLib.SS.Idx) ∈ p.1.set := by
  unfold tripL_t33 trip_t33
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off515_inb k) r c k.val 0 (k0_off515_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off517_inb k) r c k.val 16 (k0_off517_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off519_inb k) r c k.val 32 (k0_off519_eq k) hr h.1 h.2⟩
  · exact ⟨_, List.mem_cons_of_mem _ (List.mem_cons_of_mem _ (List.mem_cons_of_mem _ (List.mem_cons_of_mem _ (List.mem_cons_self)))), RowsLib.mem_unit _ (k0_off521_inb k) r c k.val 48 (k0_off521_eq k) hr h.1 h.2⟩
  · exact ⟨_, List.mem_cons_of_mem _ (List.mem_cons_of_mem _ (List.mem_cons_of_mem _ (List.mem_cons_self))), RowsLib.mem_unit _ (k0_off523_inb k) r c k.val 64 (k0_off523_eq k) hr h.1 h.2⟩
  · exact ⟨_, List.mem_cons_of_mem _ (List.mem_cons_of_mem _ (List.mem_cons_self)), RowsLib.mem_unit _ (k0_off525_inb k) r c k.val 80 (k0_off525_eq k) hr h.1 h.2⟩
  · exact ⟨_, List.mem_cons_of_mem _ (List.mem_cons_self), RowsLib.mem_unit _ (k0_off527_inb k) r c k.val 96 (k0_off527_eq k) hr h.1 h.2⟩
  · exact ⟨_, List.mem_cons_self, RowsLib.mem_unit _ (k0_off529_inb k) r c k.val 112 (k0_off529_eq k) hr h.1 h.2⟩

/-- The slot of sums after row loop 33, as the row-sum function: at (r, c) the gathered rows' entry plus the positional scratch's entry of row r + 0. -/
theorem rows_t33_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t33 (F := F) d L v2 wa wb X P 128)) (ValueIdx.ix2 r c)
      = RowsLib.rowG (ibS0).view (qV).view X P 0 (by omega) (ValueIdx.ix2 r c) :=
  RowsLib.read_writes_trips (n := k0_t33_loop.trips) (pb_t33 (F := F) d L v2 wa wb X P) (tripL_t33 (F := F) d L v2 wa wb X P) (obS0).view G _
    rfl (pb_t33_succ (F := F) d L v2 wa wb X P) (trip_pieces_t33 d L v2 wa wb X P) _ ⟨r.val, r.isLt⟩ (trip_cover_t33 d L v2 wa wb X P ⟨r.val, r.isLt⟩ r c rfl)

/-- THE SLOT OF SUMS AFTER ROW LOOP 33, whatever it held before: at (r, c) the gathered rows' entry (r, c) plus the positional
    scratch's entry (r + 0, c). -/
theorem rows_t33 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t33 (F := F) d L v2 wa wb X P (Scf.trips k0_t33_loop.lb k0_t33_loop.ub k0_t33_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t33_G d L v2 wa wb X P G r c

/-! ### the value of row loop 34 (slot 1, positional rows 128 … 255) -/

theorem trips_t34 : k0_t34_loop.trips = 128 := rfl

set_option maxHeartbeats 2000000 in
/-- Every piece of a trip of row loop 34 is the row sum on its rectangle. -/
theorem trip_pieces_t34 (d : Dev nD) (L : grid0.Coords) (v2 : BitVec 32) (X : BufTy.Contents (Elt F) (ibS1).view.ty) (P : BufTy.Contents (Elt F) (qV).view.ty) (k : Fin k0_t34_loop.trips) :
    ∀ p ∈ tripL_t34 (F := F) d L v2 X P k, ∀ x : p.1.shape.Idx, p.2 x = RowsLib.rowG (ibS1).view (qV).view X P 128 (by omega) (p.1.emb x) := by
  unfold tripL_t34 trip_t34
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off545_inb k) (k0_off545_inb k) (k0_off546_inb k) k.val (k.val + 128) 112 (k0_off545_eq k) (k0_off546_eq k) rfl _ (RowsLib.lane_sum _ _ _ _) x
  · exact fun x => RowsLib.piece_eq _ _ X P 128 _ _ _ (k0_off543_inb k) (k0_off543_inb k) (k0_off544_inb k) k.val (k.val + 128) 96 (k0_off543_eq k) (k0_off544_eq k) rfl _ (RowsLib.lane_sum _ _ _ _) x
  · exact fun x => RowsLib.piece_eq _ _ X P 128 _ _ _ (k0_off541_inb k) (k0_off541_inb k) (k0_off542_inb k) k.val (k.val + 128) 80 (k0_off541_eq k) (k0_off542_eq k) rfl _ (RowsLib.lane_sum _ _ _ _) x
  · exact fun x => RowsLib.piece_eq _ _ X P 128 _ _ _ (k0_off539_inb k) (k0_off539_inb k) (k0_off540_inb k) k.val (k.val + 128) 64 (k0_off539_eq k) (k0_off540_eq k) rfl _ (RowsLib.lane_sum _ _ _ _) x
  · exact fun x => RowsLib.piece_eq _ _ X P 128 _ _ _ (k0_off537_inb k) (k0_off537_inb k) (k0_off538_inb k) k.val (k.val + 128) 48 (k0_off537_eq k) (k0_off538_eq k) rfl _ (RowsLib.lane_sum _ _ _ _) x
  · exact fun x => RowsLib.piece_eq _ _ X P 128 _ _ _ (k0_off535_inb k) (k0_off535_inb k) (k0_off536_inb k) k.val (k.val + 128) 32 (k0_off535_eq k) (k0_off536_eq k) rfl _ (RowsLib.lane_sum _ _ _ _) x
  · exact fun x => RowsLib.piece_eq _ _ X P 128 _ _ _ (k0_off533_inb k) (k0_off533_inb k) (k0_off534_inb k) k.val (k.val + 128) 16 (k0_off533_eq k) (k0_off534_eq k) rfl _ (RowsLib.lane_sum _ _ _ _) x
  · exact fun x => RowsLib.piece_eq _ _ X P 128 _ _ _ (k0_off531_inb k) (k0_off531_inb k) (k0_off532_inb k) k.val (k.val + 128) 0 (k0_off531_eq k) (k0_off532_eq k) rfl _ (RowsLib.lane_sum _ _ _ _) x

set_option maxHeartbeats 2000000 in
/-- The eight pieces of trip k cover row k. -/
theorem trip_cover_t34 (d : Dev nD) (L : grid0.Coords) (v2 : BitVec 32) (X : BufTy.Contents (Elt F) (ibS1).view.ty) (P : BufTy.Contents (Elt F) (qV).view.ty)
    (k : Fin k0_t34_loop.trips) (r c : Fin 128) (hr : k.val = r.val) :
    ∃ p ∈ tripL_t34 (F := F) d L v2 X P k, (ValueIdx.ix2 r c : RowsLib.SS.Idx) ∈ p.1.set := by
  unfold tripL_t34 trip_t34
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off531_inb k) r c k.val 0 (k0_off531_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off533_inb k) r c k.val 16 (k0_off533_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off535_inb k) r c k.val 32 (k0_off535_eq k) hr h.1 h.2⟩
  · exact ⟨_, List.mem_cons_of_mem _ (List.mem_cons_of_mem _ (List.mem_cons_of_mem _ (List.mem_cons_of_mem _ (List.mem_cons_self)))), RowsLib.mem_unit _ (k0_off537_inb k) r c k.val 48 (k0_off537_eq k) hr h.1 h.2⟩
  · exact ⟨_, List.mem_cons_of_mem _ (List.mem_cons_of_mem _ (List.mem_cons_of_mem _ (List.mem_cons_self))), RowsLib.mem_unit _ (k0_off539_inb k) r c k.val 64 (k0_off539_eq k) hr h.1 h.2⟩
  · exact ⟨_, List.mem_cons_of_mem _ (List.mem_cons_of_mem _ (List.mem_cons_self)), RowsLib.mem_unit _ (k0_off541_inb k) r c k.val 80 (k0_off541_eq k) hr h.1 h.2⟩
  · exact ⟨_, List.mem_cons_of_mem _ (List.mem_cons_self), RowsLib.mem_unit _ (k0_off543_inb k) r c k.val 96 (k0_off543_eq k) hr h.1 h.2⟩
  · exact ⟨_, List.mem_cons_self, RowsLib.mem_unit _ (k0_off545_inb k) r c k.val 112 (k0_off545_eq k) hr h.1 h.2⟩

/-- The slot of sums after row loop 34, as the row-sum function: at (r, c) the gathered rows' entry plus the positional scratch's entry of row r + 128. -/
theorem rows_t34_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t34 (F := F) d L v2 X P 128)) (ValueIdx.ix2 r c)
      = RowsLib.rowG (ibS1).view (qV).view X P 128 (by omega) (ValueIdx.ix2 r c) :=
  RowsLib.read_writes_trips (n := k0_t34_loop.trips) (pb_t34 (F := F) d L v2 X P) (tripL_t34 (F := F) d L v2 X P) (obS1).view G _
    rfl (pb_t34_succ (F := F) d L v2 X P) (trip_pieces_t34 d L v2 X P) _ ⟨r.val, r.isLt⟩ (trip_cover_t34 d L v2 X P ⟨r.val, r.isLt⟩ r c rfl)

/-- THE SLOT OF SUMS AFTER ROW LOOP 34, whatever it held before: at (r, c) the gathered rows' entry (r, c) plus the positional
    scratch's entry (r + 128, c). -/
theorem rows_t34 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t34 (F := F) d L v2 X P (Scf.trips k0_t34_loop.lb k0_t34_loop.ub k0_t34_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t34_G d L v2 X P G r c

/-! ### the value of row loop 35 (slot 0, positional rows 0 … 127) -/

theorem trips_t35 : k0_t35_loop.trips = 128 := rfl

set_option maxHeartbeats 2000000 in
/-- Every piece of a trip of row loop 35 is the row sum on its rectangle. -/
theorem trip_pieces_t35 (d : Dev nD) (L : grid0.Coords) (v2 : BitVec 32) (X : BufTy.Contents (Elt F) (ibS0).view.ty) (P : BufTy.Contents (Elt F) (qV).view.ty) (k : Fin k0_t35_loop.trips) :
    ∀ p ∈ tripL_t35 (F := F) d L v2 X P k, ∀ x : p.1.shape.Idx, p.2 x = RowsLib.rowG (ibS0).view (qV).view X P 0 (by omega) (p.1.emb x) := by
  unfold tripL_t35 trip_t35
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off561_inb k) (k0_off561_inb k) (k0_off562_inb k) k.val (k.val + 0) 112 (k0_off561_eq k) (k0_off562_eq k) rfl _ (RowsLib.lane_sum _ _ _ _) x
  · exact fun x => RowsLib.piece_eq _ _ X P 0 _ _ _ (k0_off559_inb k) (k0_off559_inb k) (k0_off560_inb k) k.val (k.val + 0) 96 (k0_off559_eq k) (k0_off560_eq k) rfl _ (RowsLib.lane_sum _ _ _ _) x
  · exact fun x => RowsLib.piece_eq _ _ X P 0 _ _ _ (k0_off557_inb k) (k0_off557_inb k) (k0_off558_inb k) k.val (k.val + 0) 80 (k0_off557_eq k) (k0_off558_eq k) rfl _ (RowsLib.lane_sum _ _ _ _) x
  · exact fun x => RowsLib.piece_eq _ _ X P 0 _ _ _ (k0_off555_inb k) (k0_off555_inb k) (k0_off556_inb k) k.val (k.val + 0) 64 (k0_off555_eq k) (k0_off556_eq k) rfl _ (RowsLib.lane_sum _ _ _ _) x
  · exact fun x => RowsLib.piece_eq _ _ X P 0 _ _ _ (k0_off553_inb k) (k0_off553_inb k) (k0_off554_inb k) k.val (k.val + 0) 48 (k0_off553_eq k) (k0_off554_eq k) rfl _ (RowsLib.lane_sum _ _ _ _) x
  · exact fun x => RowsLib.piece_eq _ _ X P 0 _ _ _ (k0_off551_inb k) (k0_off551_inb k) (k0_off552_inb k) k.val (k.val + 0) 32 (k0_off551_eq k) (k0_off552_eq k) rfl _ (RowsLib.lane_sum _ _ _ _) x
  · exact fun x => RowsLib.piece_eq _ _ X P 0 _ _ _ (k0_off549_inb k) (k0_off549_inb k) (k0_off550_inb k) k.val (k.val + 0) 16 (k0_off549_eq k) (k0_off550_eq k) rfl _ (RowsLib.lane_sum _ _ _ _) x
  · exact fun x => RowsLib.piece_eq _ _ X P 0 _ _ _ (k0_off547_inb k) (k0_off547_inb k) (k0_off548_inb k) k.val (k.val + 0) 0 (k0_off547_eq k) (k0_off548_eq k) rfl _ (RowsLib.lane_sum _ _ _ _) x

set_option maxHeartbeats 2000000 in
/-- The eight pieces of trip k cover row k. -/
theorem trip_cover_t35 (d : Dev nD) (L : grid0.Coords) (v2 : BitVec 32) (X : BufTy.Contents (Elt F) (ibS0).view.ty) (P : BufTy.Contents (Elt F) (qV).view.ty)
    (k : Fin k0_t35_loop.trips) (r c : Fin 128) (hr : k.val = r.val) :
    ∃ p ∈ tripL_t35 (F := F) d L v2 X P k, (ValueIdx.ix2 r c : RowsLib.SS.Idx) ∈ p.1.set := by
  unfold tripL_t35 trip_t35
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off547_inb k) r c k.val 0 (k0_off547_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off549_inb k) r c k.val 16 (k0_off549_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off551_inb k) r c k.val 32 (k0_off551_eq k) hr h.1 h.2⟩
  · exact ⟨_, List.mem_cons_of_mem _ (List.mem_cons_of_mem _ (List.mem_cons_of_mem _ (List.mem_cons_of_mem _ (List.mem_cons_self)))), RowsLib.mem_unit _ (k0_off553_inb k) r c k.val 48 (k0_off553_eq k) hr h.1 h.2⟩
  · exact ⟨_, List.mem_cons_of_mem _ (List.mem_cons_of_mem _ (List.mem_cons_of_mem _ (List.mem_cons_self))), RowsLib.mem_unit _ (k0_off555_inb k) r c k.val 64 (k0_off555_eq k) hr h.1 h.2⟩
  · exact ⟨_, List.mem_cons_of_mem _ (List.mem_cons_of_mem _ (List.mem_cons_self)), RowsLib.mem_unit _ (k0_off557_inb k) r c k.val 80 (k0_off557_eq k) hr h.1 h.2⟩
  · exact ⟨_, List.mem_cons_of_mem _ (List.mem_cons_self), RowsLib.mem_unit _ (k0_off559_inb k) r c k.val 96 (k0_off559_eq k) hr h.1 h.2⟩
  · exact ⟨_, List.mem_cons_self, RowsLib.mem_unit _ (k0_off561_inb k) r c k.val 112 (k0_off561_eq k) hr h.1 h.2⟩

/-- The slot of sums after row loop 35, as the row-sum function: at (r, c) the gathered rows' entry plus the positional scratch's entry of row r + 0. -/
theorem rows_t35_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t35 (F := F) d L v2 X P 128)) (ValueIdx.ix2 r c)
      = RowsLib.rowG (ibS0).view (qV).view X P 0 (by omega) (ValueIdx.ix2 r c) :=
  RowsLib.read_writes_trips (n := k0_t35_loop.trips) (pb_t35 (F := F) d L v2 X P) (tripL_t35 (F := F) d L v2 X P) (obS0).view G _
    rfl (pb_t35_succ (F := F) d L v2 X P) (trip_pieces_t35 d L v2 X P) _ ⟨r.val, r.isLt⟩ (trip_cover_t35 d L v2 X P ⟨r.val, r.isLt⟩ r c rfl)

/-- THE SLOT OF SUMS AFTER ROW LOOP 35, whatever it held before: at (r, c) the gathered rows' entry (r, c) plus the positional
    scratch's entry (r + 0, c). -/
theorem rows_t35 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t35 (F := F) d L v2 X P (Scf.trips k0_t35_loop.lb k0_t35_loop.ub k0_t35_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t35_G d L v2 X P G r c

/-! ### the value of row loop 36 (slot 1, positional rows 128 … 255) -/

theorem trips_t36 : k0_t36_loop.trips = 128 := rfl

set_option maxHeartbeats 2000000 in
/-- Every piece of a trip of row loop 36 is the row sum on its rectangle. -/
theorem trip_pieces_t36 (d : Dev nD) (L : grid0.Coords) (v2 : BitVec 32) (X : BufTy.Contents (Elt F) (ibS1).view.ty) (P : BufTy.Contents (Elt F) (qV).view.ty) (k : Fin k0_t36_loop.trips) :
    ∀ p ∈ tripL_t36 (F := F) d L v2 X P k, ∀ x : p.1.shape.Idx, p.2 x = RowsLib.rowG (ibS1).view (qV).view X P 128 (by omega) (p.1.emb x) := by
  unfold tripL_t36 trip_t36
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off577_inb k) (k0_off577_inb k) (k0_off578_inb k) k.val (k.val + 128) 112 (k0_off577_eq k) (k0_off578_eq k) rfl _ (RowsLib.lane_sum _ _ _ _) x
  · exact fun x => RowsLib.piece_eq _ _ X P 128 _ _ _ (k0_off575_inb k) (k0_off575_inb k) (k0_off576_inb k) k.val (k.val + 128) 96 (k0_off575_eq k) (k0_off576_eq k) rfl _ (RowsLib.lane_sum _ _ _ _) x
  · exact fun x => RowsLib.piece_eq _ _ X P 128 _ _ _ (k0_off573_inb k) (k0_off573_inb k) (k0_off574_inb k) k.val (k.val + 128) 80 (k0_off573_eq k) (k0_off574_eq k) rfl _ (RowsLib.lane_sum _ _ _ _) x
  · exact fun x => RowsLib.piece_eq _ _ X P 128 _ _ _ (k0_off571_inb k) (k0_off571_inb k) (k0_off572_inb k) k.val (k.val + 128) 64 (k0_off571_eq k) (k0_off572_eq k) rfl _ (RowsLib.lane_sum _ _ _ _) x
  · exact fun x => RowsLib.piece_eq _ _ X P 128 _ _ _ (k0_off569_inb k) (k0_off569_inb k) (k0_off570_inb k) k.val (k.val + 128) 48 (k0_off569_eq k) (k0_off570_eq k) rfl _ (RowsLib.lane_sum _ _ _ _) x
  · exact fun x => RowsLib.piece_eq _ _ X P 128 _ _ _ (k0_off567_inb k) (k0_off567_inb k) (k0_off568_inb k) k.val (k.val + 128) 32 (k0_off567_eq k) (k0_off568_eq k) rfl _ (RowsLib.lane_sum _ _ _ _) x
  · exact fun x => RowsLib.piece_eq _ _ X P 128 _ _ _ (k0_off565_inb k) (k0_off565_inb k) (k0_off566_inb k) k.val (k.val + 128) 16 (k0_off565_eq k) (k0_off566_eq k) rfl _ (RowsLib.lane_sum _ _ _ _) x
  · exact fun x => RowsLib.piece_eq _ _ X P 128 _ _ _ (k0_off563_inb k) (k0_off563_inb k) (k0_off564_inb k) k.val (k.val + 128) 0 (k0_off563_eq k) (k0_off564_eq k) rfl _ (RowsLib.lane_sum _ _ _ _) x

set_option maxHeartbeats 2000000 in
/-- The eight pieces of trip k cover row k. -/
theorem trip_cover_t36 (d : Dev nD) (L : grid0.Coords) (v2 : BitVec 32) (X : BufTy.Contents (Elt F) (ibS1).view.ty) (P : BufTy.Contents (Elt F) (qV).view.ty)
    (k : Fin k0_t36_loop.trips) (r c : Fin 128) (hr : k.val = r.val) :
    ∃ p ∈ tripL_t36 (F := F) d L v2 X P k, (ValueIdx.ix2 r c : RowsLib.SS.Idx) ∈ p.1.set := by
  unfold tripL_t36 trip_t36
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off563_inb k) r c k.val 0 (k0_off563_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off565_inb k) r c k.val 16 (k0_off565_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off567_inb k) r c k.val 32 (k0_off567_eq k) hr h.1 h.2⟩
  · exact ⟨_, List.mem_cons_of_mem _ (List.mem_cons_of_mem _ (List.mem_cons_of_mem _ (List.mem_cons_of_mem _ (List.mem_cons_self)))), RowsLib.mem_unit _ (k0_off569_inb k) r c k.val 48 (k0_off569_eq k) hr h.1 h.2⟩
  · exact ⟨_, List.mem_cons_of_mem _ (List.mem_cons_of_mem _ (List.mem_cons_of_mem _ (List.mem_cons_self))), RowsLib.mem_unit _ (k0_off571_inb k) r c k.val 64 (k0_off571_eq k) hr h.1 h.2⟩
  · exact ⟨_, List.mem_cons_of_mem _ (List.mem_cons_of_mem _ (List.mem_cons_self)), RowsLib.mem_unit _ (k0_off573_inb k) r c k.val 80 (k0_off573_eq k) hr h.1 h.2⟩
  · exact ⟨_, List.mem_cons_of_mem _ (List.mem_cons_self), RowsLib.mem_unit _ (k0_off575_inb k) r c k.val 96 (k0_off575_eq k) hr h.1 h.2⟩
  · exact ⟨_, List.mem_cons_self, RowsLib.mem_unit _ (k0_off577_inb k) r c k.val 112 (k0_off577_eq k) hr h.1 h.2⟩

/-- The slot of sums after row loop 36, as the row-sum function: at (r, c) the gathered rows' entry plus the positional scratch's entry of row r + 128. -/
theorem rows_t36_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t36 (F := F) d L v2 X P 128)) (ValueIdx.ix2 r c)
      = RowsLib.rowG (ibS1).view (qV).view X P 128 (by omega) (ValueIdx.ix2 r c) :=
  RowsLib.read_writes_trips (n := k0_t36_loop.trips) (pb_t36 (F := F) d L v2 X P) (tripL_t36 (F := F) d L v2 X P) (obS1).view G _
    rfl (pb_t36_succ (F := F) d L v2 X P) (trip_pieces_t36 d L v2 X P) _ ⟨r.val, r.isLt⟩ (trip_cover_t36 d L v2 X P ⟨r.val, r.isLt⟩ r c rfl)

/-- THE SLOT OF SUMS AFTER ROW LOOP 36, whatever it held before: at (r, c) the gathered rows' entry (r, c) plus the positional
    scratch's entry (r + 128, c). -/
theorem rows_t36 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t36 (F := F) d L v2 X P (Scf.trips k0_t36_loop.lb k0_t36_loop.ub k0_t36_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t36_G d L v2 X P G r c

/-! ### the value of row loop 37 (slot 0, positional rows 0 … 127) -/

theorem trips_t37 : k0_t37_loop.trips = 128 := rfl

set_option maxHeartbeats 2000000 in
/-- Every piece of a trip of row loop 37 is the row sum on its rectangle. -/
theorem trip_pieces_t37 (d : Dev nD) (L : grid0.Coords) (v2 : BitVec 32) (X : BufTy.Contents (Elt F) (ibS0).view.ty) (P : BufTy.Contents (Elt F) (qV).view.ty) (k : Fin k0_t37_loop.trips) :
    ∀ p ∈ tripL_t37 (F := F) d L v2 X P k, ∀ x : p.1.shape.Idx, p.2 x = RowsLib.rowG (ibS0).view (qV).view X P 0 (by omega) (p.1.emb x) := by
  unfold tripL_t37 trip_t37
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off593_inb k) (k0_off593_inb k) (k0_off594_inb k) k.val (k.val + 0) 112 (k0_off593_eq k) (k0_off594_eq k) rfl _ (RowsLib.lane_sum _ _ _ _) x
  · exact fun x => RowsLib.piece_eq _ _ X P 0 _ _ _ (k0_off591_inb k) (k0_off591_inb k) (k0_off592_inb k) k.val (k.val + 0) 96 (k0_off591_eq k) (k0_off592_eq k) rfl _ (RowsLib.lane_sum _ _ _ _) x
  · exact fun x => RowsLib.piece_eq _ _ X P 0 _ _ _ (k0_off589_inb k) (k0_off589_inb k) (k0_off590_inb k) k.val (k.val + 0) 80 (k0_off589_eq k) (k0_off590_eq k) rfl _ (RowsLib.lane_sum _ _ _ _) x
  · exact fun x => RowsLib.piece_eq _ _ X P 0 _ _ _ (k0_off587_inb k) (k0_off587_inb k) (k0_off588_inb k) k.val (k.val + 0) 64 (k0_off587_eq k) (k0_off588_eq k) rfl _ (RowsLib.lane_sum _ _ _ _) x
  · exact fun x => RowsLib.piece_eq _ _ X P 0 _ _ _ (k0_off585_inb k) (k0_off585_inb k) (k0_off586_inb k) k.val (k.val + 0) 48 (k0_off585_eq k) (k0_off586_eq k) rfl _ (RowsLib.lane_sum _ _ _ _) x
  · exact fun x => RowsLib.piece_eq _ _ X P 0 _ _ _ (k0_off583_inb k) (k0_off583_inb k) (k0_off584_inb k) k.val (k.val + 0) 32 (k0_off583_eq k) (k0_off584_eq k) rfl _ (RowsLib.lane_sum _ _ _ _) x
  · exact fun x => RowsLib.piece_eq _ _ X P 0 _ _ _ (k0_off581_inb k) (k0_off581_inb k) (k0_off582_inb k) k.val (k.val + 0) 16 (k0_off581_eq k) (k0_off582_eq k) rfl _ (RowsLib.lane_sum _ _ _ _) x
  · exact fun x => RowsLib.piece_eq _ _ X P 0 _ _ _ (k0_off579_inb k) (k0_off579_inb k) (k0_off580_inb k) k.val (k.val + 0) 0 (k0_off579_eq k) (k0_off580_eq k) rfl _ (RowsLib.lane_sum _ _ _ _) x

set_option maxHeartbeats 2000000 in
/-- The eight pieces of trip k cover row k. -/
theorem trip_cover_t37 (d : Dev nD) (L : grid0.Coords) (v2 : BitVec 32) (X : BufTy.Contents (Elt F) (ibS0).view.ty) (P : BufTy.Contents (Elt F) (qV).view.ty)
    (k : Fin k0_t37_loop.trips) (r c : Fin 128) (hr : k.val = r.val) :
    ∃ p ∈ tripL_t37 (F := F) d L v2 X P k, (ValueIdx.ix2 r c : RowsLib.SS.Idx) ∈ p.1.set := by
  unfold tripL_t37 trip_t37
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off579_inb k) r c k.val 0 (k0_off579_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off581_inb k) r c k.val 16 (k0_off581_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off583_inb k) r c k.val 32 (k0_off583_eq k) hr h.1 h.2⟩
  · exact ⟨_, List.mem_cons_of_mem _ (List.mem_cons_of_mem _ (List.mem_cons_of_mem _ (List.mem_cons_of_mem _ (List.mem_cons_self)))), RowsLib.mem_unit _ (k0_off585_inb k) r c k.val 48 (k0_off585_eq k) hr h.1 h.2⟩
  · exact ⟨_, List.mem_cons_of_mem _ (List.mem_cons_of_mem _ (List.mem_cons_of_mem _ (List.mem_cons_self))), RowsLib.mem_unit _ (k0_off587_inb k) r c k.val 64 (k0_off587_eq k) hr h.1 h.2⟩
  · exact ⟨_, List.mem_cons_of_mem _ (List.mem_cons_of_mem _ (List.mem_cons_self)), RowsLib.mem_unit _ (k0_off589_inb k) r c k.val 80 (k0_off589_eq k) hr h.1 h.2⟩
  · exact ⟨_, List.mem_cons_of_mem _ (List.mem_cons_self), RowsLib.mem_unit _ (k0_off591_inb k) r c k.val 96 (k0_off591_eq k) hr h.1 h.2⟩
  · exact ⟨_, List.mem_cons_self, RowsLib.mem_unit _ (k0_off593_inb k) r c k.val 112 (k0_off593_eq k) hr h.1 h.2⟩

/-- The slot of sums after row loop 37, as the row-sum function: at (r, c) the gathered rows' entry plus the positional scratch's entry of row r + 0. -/
theorem rows_t37_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t37 (F := F) d L v2 X P 128)) (ValueIdx.ix2 r c)
      = RowsLib.rowG (ibS0).view (qV).view X P 0 (by omega) (ValueIdx.ix2 r c) :=
  RowsLib.read_writes_trips (n := k0_t37_loop.trips) (pb_t37 (F := F) d L v2 X P) (tripL_t37 (F := F) d L v2 X P) (obS0).view G _
    rfl (pb_t37_succ (F := F) d L v2 X P) (trip_pieces_t37 d L v2 X P) _ ⟨r.val, r.isLt⟩ (trip_cover_t37 d L v2 X P ⟨r.val, r.isLt⟩ r c rfl)

/-- THE SLOT OF SUMS AFTER ROW LOOP 37, whatever it held before: at (r, c) the gathered rows' entry (r, c) plus the positional
    scratch's entry (r + 0, c). -/
theorem rows_t37 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t37 (F := F) d L v2 X P (Scf.trips k0_t37_loop.lb k0_t37_loop.ub k0_t37_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t37_G d L v2 X P G r c

/-! ### the value of row loop 38 (slot 1, positional rows 128 … 255) -/

theorem trips_t38 : k0_t38_loop.trips = 128 := rfl

set_option maxHeartbeats 2000000 in
/-- Every piece of a trip of row loop 38 is the row sum on its rectangle. -/
theorem trip_pieces_t38 (d : Dev nD) (L : grid0.Coords) (v2 : BitVec 32) (X : BufTy.Contents (Elt F) (ibS1).view.ty) (P : BufTy.Contents (Elt F) (qV).view.ty) (k : Fin k0_t38_loop.trips) :
    ∀ p ∈ tripL_t38 (F := F) d L v2 X P k, ∀ x : p.1.shape.Idx, p.2 x = RowsLib.rowG (ibS1).view (qV).view X P 128 (by omega) (p.1.emb x) := by
  unfold tripL_t38 trip_t38
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off609_inb k) (k0_off609_inb k) (k0_off610_inb k) k.val (k.val + 128) 112 (k0_off609_eq k) (k0_off610_eq k) rfl _ (RowsLib.lane_sum _ _ _ _) x
  · exact fun x => RowsLib.piece_eq _ _ X P 128 _ _ _ (k0_off607_inb k) (k0_off607_inb k) (k0_off608_inb k) k.val (k.val + 128) 96 (k0_off607_eq k) (k0_off608_eq k) rfl _ (RowsLib.lane_sum _ _ _ _) x
  · exact fun x => RowsLib.piece_eq _ _ X P 128 _ _ _ (k0_off605_inb k) (k0_off605_inb k) (k0_off606_inb k) k.val (k.val + 128) 80 (k0_off605_eq k) (k0_off606_eq k) rfl _ (RowsLib.lane_sum _ _ _ _) x
  · exact fun x => RowsLib.piece_eq _ _ X P 128 _ _ _ (k0_off603_inb k) (k0_off603_inb k) (k0_off604_inb k) k.val (k.val + 128) 64 (k0_off603_eq k) (k0_off604_eq k) rfl _ (RowsLib.lane_sum _ _ _ _) x
  · exact fun x => RowsLib.piece_eq _ _ X P 128 _ _ _ (k0_off601_inb k) (k0_off601_inb k) (k0_off602_inb k) k.val (k.val + 128) 48 (k0_off601_eq k) (k0_off602_eq k) rfl _ (RowsLib.lane_sum _ _ _ _) x
  · exact fun x => RowsLib.piece_eq _ _ X P 128 _ _ _ (k0_off599_inb k) (k0_off599_inb k) (k0_off600_inb k) k.val (k.val + 128) 32 (k0_off599_eq k) (k0_off600_eq k) rfl _ (RowsLib.lane_sum _ _ _ _) x
  · exact fun x => RowsLib.piece_eq _ _ X P 128 _ _ _ (k0_off597_inb k) (k0_off597_inb k) (k0_off598_inb k) k.val (k.val + 128) 16 (k0_off597_eq k) (k0_off598_eq k) rfl _ (RowsLib.lane_sum _ _ _ _) x
  · exact fun x => RowsLib.piece_eq _ _ X P 128 _ _ _ (k0_off595_inb k) (k0_off595_inb k) (k0_off596_inb k) k.val (k.val + 128) 0 (k0_off595_eq k) (k0_off596_eq k) rfl _ (RowsLib.lane_sum _ _ _ _) x

set_option maxHeartbeats 2000000 in
/-- The eight pieces of trip k cover row k. -/
theorem trip_cover_t38 (d : Dev nD) (L : grid0.Coords) (v2 : BitVec 32) (X : BufTy.Contents (Elt F) (ibS1).view.ty) (P : BufTy.Contents (Elt F) (qV).view.ty)
    (k : Fin k0_t38_loop.trips) (r c : Fin 128) (hr : k.val = r.val) :
    ∃ p ∈ tripL_t38 (F := F) d L v2 X P k, (ValueIdx.ix2 r c : RowsLib.SS.Idx) ∈ p.1.set := by
  unfold tripL_t38 trip_t38
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off595_inb k) r c k.val 0 (k0_off595_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off597_inb k) r c k.val 16 (k0_off597_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off599_inb k) r c k.val 32 (k0_off599_eq k) hr h.1 h.2⟩
  · exact ⟨_, List.mem_cons_of_mem _ (List.mem_cons_of_mem _ (List.mem_cons_of_mem _ (List.mem_cons_of_mem _ (List.mem_cons_self)))), RowsLib.mem_unit _ (k0_off601_inb k) r c k.val 48 (k0_off601_eq k) hr h.1 h.2⟩
  · exact ⟨_, List.mem_cons_of_mem _ (List.mem_cons_of_mem _ (List.mem_cons_of_mem _ (List.mem_cons_self))), RowsLib.mem_unit _ (k0_off603_inb k) r c k.val 64 (k0_off603_eq k) hr h.1 h.2⟩
  · exact ⟨_, List.mem_cons_of_mem _ (List.mem_cons_of_mem _ (List.mem_cons_self)), RowsLib.mem_unit _ (k0_off605_inb k) r c k.val 80 (k0_off605_eq k) hr h.1 h.2⟩
  · exact ⟨_, List.mem_cons_of_mem _ (List.mem_cons_self), RowsLib.mem_unit _ (k0_off607_inb k) r c k.val 96 (k0_off607_eq k) hr h.1 h.2⟩
  · exact ⟨_, List.mem_cons_self, RowsLib.mem_unit _ (k0_off609_inb k) r c k.val 112 (k0_off609_eq k) hr h.1 h.2⟩

/-- The slot of sums after row loop 38, as the row-sum function: at (r, c) the gathered rows' entry plus the positional scratch's entry of row r + 128. -/
theorem rows_t38_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t38 (F := F) d L v2 X P 128)) (ValueIdx.ix2 r c)
      = RowsLib.rowG (ibS1).view (qV).view X P 128 (by omega) (ValueIdx.ix2 r c) :=
  RowsLib.read_writes_trips (n := k0_t38_loop.trips) (pb_t38 (F := F) d L v2 X P) (tripL_t38 (F := F) d L v2 X P) (obS1).view G _
    rfl (pb_t38_succ (F := F) d L v2 X P) (trip_pieces_t38 d L v2 X P) _ ⟨r.val, r.isLt⟩ (trip_cover_t38 d L v2 X P ⟨r.val, r.isLt⟩ r c rfl)

/-- THE SLOT OF SUMS AFTER ROW LOOP 38, whatever it held before: at (r, c) the gathered rows' entry (r, c) plus the positional
    scratch's entry (r + 128, c). -/
theorem rows_t38 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t38 (F := F) d L v2 X P (Scf.trips k0_t38_loop.lb k0_t38_loop.ub k0_t38_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t38_G d L v2 X P G r c

/-! ### the value of row loop 39 (slot 0, positional rows 0 … 127) -/

theorem trips_t39 : k0_t39_loop.trips = 128 := rfl

set_option maxHeartbeats 2000000 in
/-- Every piece of a trip of row loop 39 is the row sum on its rectangle. -/
theorem trip_pieces_t39 (d : Dev nD) (L : grid0.Coords) (v2 : BitVec 32) (X : BufTy.Contents (Elt F) (ibS0).view.ty) (P : BufTy.Contents (Elt F) (qV).view.ty) (k : Fin k0_t39_loop.trips) :
    ∀ p ∈ tripL_t39 (F := F) d L v2 X P k, ∀ x : p.1.shape.Idx, p.2 x = RowsLib.rowG (ibS0).view (qV).view X P 0 (by omega) (p.1.emb x) := by
  unfold tripL_t39 trip_t39
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off625_inb k) (k0_off625_inb k) (k0_off626_inb k) k.val (k.val + 0) 112 (k0_off625_eq k) (k0_off626_eq k) rfl _ (RowsLib.lane_sum _ _ _ _) x
  · exact fun x => RowsLib.piece_eq _ _ X P 0 _ _ _ (k0_off623_inb k) (k0_off623_inb k) (k0_off624_inb k) k.val (k.val + 0) 96 (k0_off623_eq k) (k0_off624_eq k) rfl _ (RowsLib.lane_sum _ _ _ _) x
  · exact fun x => RowsLib.piece_eq _ _ X P 0 _ _ _ (k0_off621_inb k) (k0_off621_inb k) (k0_off622_inb k) k.val (k.val + 0) 80 (k0_off621_eq k) (k0_off622_eq k) rfl _ (RowsLib.lane_sum _ _ _ _) x
  · exact fun x => RowsLib.piece_eq _ _ X P 0 _ _ _ (k0_off619_inb k) (k0_off619_inb k) (k0_off620_inb k) k.val (k.val + 0) 64 (k0_off619_eq k) (k0_off620_eq k) rfl _ (RowsLib.lane_sum _ _ _ _) x
  · exact fun x => RowsLib.piece_eq _ _ X P 0 _ _ _ (k0_off617_inb k) (k0_off617_inb k) (k0_off618_inb k) k.val (k.val + 0) 48 (k0_off617_eq k) (k0_off618_eq k) rfl _ (RowsLib.lane_sum _ _ _ _) x
  · exact fun x => RowsLib.piece_eq _ _ X P 0 _ _ _ (k0_off615_inb k) (k0_off615_inb k) (k0_off616_inb k) k.val (k.val + 0) 32 (k0_off615_eq k) (k0_off616_eq k) rfl _ (RowsLib.lane_sum _ _ _ _) x
  · exact fun x => RowsLib.piece_eq _ _ X P 0 _ _ _ (k0_off613_inb k) (k0_off613_inb k) (k0_off614_inb k) k.val (k.val + 0) 16 (k0_off613_eq k) (k0_off614_eq k) rfl _ (RowsLib.lane_sum _ _ _ _) x
  · exact fun x => RowsLib.piece_eq _ _ X P 0 _ _ _ (k0_off611_inb k) (k0_off611_inb k) (k0_off612_inb k) k.val (k.val + 0) 0 (k0_off611_eq k) (k0_off612_eq k) rfl _ (RowsLib.lane_sum _ _ _ _) x

set_option maxHeartbeats 2000000 in
/-- The eight pieces of trip k cover row k. -/
theorem trip_cover_t39 (d : Dev nD) (L : grid0.Coords) (v2 : BitVec 32) (X : BufTy.Contents (Elt F) (ibS0).view.ty) (P : BufTy.Contents (Elt F) (qV).view.ty)
    (k : Fin k0_t39_loop.trips) (r c : Fin 128) (hr : k.val = r.val) :
    ∃ p ∈ tripL_t39 (F := F) d L v2 X P k, (ValueIdx.ix2 r c : RowsLib.SS.Idx) ∈ p.1.set := by
  unfold tripL_t39 trip_t39
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off611_inb k) r c k.val 0 (k0_off611_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off613_inb k) r c k.val 16 (k0_off613_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off615_inb k) r c k.val 32 (k0_off615_eq k) hr h.1 h.2⟩
  · exact ⟨_, List.mem_cons_of_mem _ (List.mem_cons_of_mem _ (List.mem_cons_of_mem _ (List.mem_cons_of_mem _ (List.mem_cons_self)))), RowsLib.mem_unit _ (k0_off617_inb k) r c k.val 48 (k0_off617_eq k) hr h.1 h.2⟩
  · exact ⟨_, List.mem_cons_of_mem _ (List.mem_cons_of_mem _ (List.mem_cons_of_mem _ (List.mem_cons_self))), RowsLib.mem_unit _ (k0_off619_inb k) r c k.val 64 (k0_off619_eq k) hr h.1 h.2⟩
  · exact ⟨_, List.mem_cons_of_mem _ (List.mem_cons_of_mem _ (List.mem_cons_self)), RowsLib.mem_unit _ (k0_off621_inb k) r c k.val 80 (k0_off621_eq k) hr h.1 h.2⟩
  · exact ⟨_, List.mem_cons_of_mem _ (List.mem_cons_self), RowsLib.mem_unit _ (k0_off623_inb k) r c k.val 96 (k0_off623_eq k) hr h.1 h.2⟩
  · exact ⟨_, List.mem_cons_self, RowsLib.mem_unit _ (k0_off625_inb k) r c k.val 112 (k0_off625_eq k) hr h.1 h.2⟩

/-- The slot of sums after row loop 39, as the row-sum function: at (r, c) the gathered rows' entry plus the positional scratch's entry of row r + 0. -/
theorem rows_t39_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t39 (F := F) d L v2 X P 128)) (ValueIdx.ix2 r c)
      = RowsLib.rowG (ibS0).view (qV).view X P 0 (by omega) (ValueIdx.ix2 r c) :=
  RowsLib.read_writes_trips (n := k0_t39_loop.trips) (pb_t39 (F := F) d L v2 X P) (tripL_t39 (F := F) d L v2 X P) (obS0).view G _
    rfl (pb_t39_succ (F := F) d L v2 X P) (trip_pieces_t39 d L v2 X P) _ ⟨r.val, r.isLt⟩ (trip_cover_t39 d L v2 X P ⟨r.val, r.isLt⟩ r c rfl)

/-- THE SLOT OF SUMS AFTER ROW LOOP 39, whatever it held before: at (r, c) the gathered rows' entry (r, c) plus the positional
    scratch's entry (r + 0, c). -/
theorem rows_t39 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t39 (F := F) d L v2 X P (Scf.trips k0_t39_loop.lb k0_t39_loop.ub k0_t39_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t39_G d L v2 X P G r c

/-! ### the value of row loop 40 (slot 1, positional rows 128 … 255) -/

theorem trips_t40 : k0_t40_loop.trips = 128 := rfl

set_option maxHeartbeats 2000000 in
/-- Every piece of a trip of row loop 40 is the row sum on its rectangle. -/
theorem trip_pieces_t40 (d : Dev nD) (L : grid0.Coords) (v2 : BitVec 32) (X : BufTy.Contents (Elt F) (ibS1).view.ty) (P : BufTy.Contents (Elt F) (qV).view.ty) (k : Fin k0_t40_loop.trips) :
    ∀ p ∈ tripL_t40 (F := F) d L v2 X P k, ∀ x : p.1.shape.Idx, p.2 x = RowsLib.rowG (ibS1).view (qV).view X P 128 (by omega) (p.1.emb x) := by
  unfold tripL_t40 trip_t40
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off641_inb k) (k0_off641_inb k) (k0_off642_inb k) k.val (k.val + 128) 112 (k0_off641_eq k) (k0_off642_eq k) rfl _ (RowsLib.lane_sum _ _ _ _) x
  · exact fun x => RowsLib.piece_eq _ _ X P 128 _ _ _ (k0_off639_inb k) (k0_off639_inb k) (k0_off640_inb k) k.val (k.val + 128) 96 (k0_off639_eq k) (k0_off640_eq k) rfl _ (RowsLib.lane_sum _ _ _ _) x
  · exact fun x => RowsLib.piece_eq _ _ X P 128 _ _ _ (k0_off637_inb k) (k0_off637_inb k) (k0_off638_inb k) k.val (k.val + 128) 80 (k0_off637_eq k) (k0_off638_eq k) rfl _ (RowsLib.lane_sum _ _ _ _) x
  · exact fun x => RowsLib.piece_eq _ _ X P 128 _ _ _ (k0_off635_inb k) (k0_off635_inb k) (k0_off636_inb k) k.val (k.val + 128) 64 (k0_off635_eq k) (k0_off636_eq k) rfl _ (RowsLib.lane_sum _ _ _ _) x
  · exact fun x => RowsLib.piece_eq _ _ X P 128 _ _ _ (k0_off633_inb k) (k0_off633_inb k) (k0_off634_inb k) k.val (k.val + 128) 48 (k0_off633_eq k) (k0_off634_eq k) rfl _ (RowsLib.lane_sum _ _ _ _) x
  · exact fun x => RowsLib.piece_eq _ _ X P 128 _ _ _ (k0_off631_inb k) (k0_off631_inb k) (k0_off632_inb k) k.val (k.val + 128) 32 (k0_off631_eq k) (k0_off632_eq k) rfl _ (RowsLib.lane_sum _ _ _ _) x
  · exact fun x => RowsLib.piece_eq _ _ X P 128 _ _ _ (k0_off629_inb k) (k0_off629_inb k) (k0_off630_inb k) k.val (k.val + 128) 16 (k0_off629_eq k) (k0_off630_eq k) rfl _ (RowsLib.lane_sum _ _ _ _) x
  · exact fun x => RowsLib.piece_eq _ _ X P 128 _ _ _ (k0_off627_inb k) (k0_off627_inb k) (k0_off628_inb k) k.val (k.val + 128) 0 (k0_off627_eq k) (k0_off628_eq k) rfl _ (RowsLib.lane_sum _ _ _ _) x

set_option maxHeartbeats 2000000 in
/-- The eight pieces of trip k cover row k. -/
theorem trip_cover_t40 (d : Dev nD) (L : grid0.Coords) (v2 : BitVec 32) (X : BufTy.Contents (Elt F) (ibS1).view.ty) (P : BufTy.Contents (Elt F) (qV).view.ty)
    (k : Fin k0_t40_loop.trips) (r c : Fin 128) (hr : k.val = r.val) :
    ∃ p ∈ tripL_t40 (F := F) d L v2 X P k, (ValueIdx.ix2 r c : RowsLib.SS.Idx) ∈ p.1.set := by
  unfold tripL_t40 trip_t40
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off627_inb k) r c k.val 0 (k0_off627_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off629_inb k) r c k.val 16 (k0_off629_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off631_inb k) r c k.val 32 (k0_off631_eq k) hr h.1 h.2⟩
  · exact ⟨_, List.mem_cons_of_mem _ (List.mem_cons_of_mem _ (List.mem_cons_of_mem _ (List.mem_cons_of_mem _ (List.mem_cons_self)))), RowsLib.mem_unit _ (k0_off633_inb k) r c k.val 48 (k0_off633_eq k) hr h.1 h.2⟩
  · exact ⟨_, List.mem_cons_of_mem _ (List.mem_cons_of_mem _ (List.mem_cons_of_mem _ (List.mem_cons_self))), RowsLib.mem_unit _ (k0_off635_inb k) r c k.val 64 (k0_off635_eq k) hr h.1 h.2⟩
  · exact ⟨_, List.mem_cons_of_mem _ (List.mem_cons_of_mem _ (List.mem_cons_self)), RowsLib.mem_unit _ (k0_off637_inb k) r c k.val 80 (k0_off637_eq k) hr h.1 h.2⟩
  · exact ⟨_, List.mem_cons_of_mem _ (List.mem_cons_self), RowsLib.mem_unit _ (k0_off639_inb k) r c k.val 96 (k0_off639_eq k) hr h.1 h.2⟩
  · exact ⟨_, List.mem_cons_self, RowsLib.mem_unit _ (k0_off641_inb k) r c k.val 112 (k0_off641_eq k) hr h.1 h.2⟩

/-- The slot of sums after row loop 40, as the row-sum function: at (r, c) the gathered rows' entry plus the positional scratch's entry of row r + 128. -/
theorem rows_t40_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t40 (F := F) d L v2 X P 128)) (ValueIdx.ix2 r c)
      = RowsLib.rowG (ibS1).view (qV).view X P 128 (by omega) (ValueIdx.ix2 r c) :=
  RowsLib.read_writes_trips (n := k0_t40_loop.trips) (pb_t40 (F := F) d L v2 X P) (tripL_t40 (F := F) d L v2 X P) (obS1).view G _
    rfl (pb_t40_succ (F := F) d L v2 X P) (trip_pieces_t40 d L v2 X P) _ ⟨r.val, r.isLt⟩ (trip_cover_t40 d L v2 X P ⟨r.val, r.isLt⟩ r c rfl)

/-- THE SLOT OF SUMS AFTER ROW LOOP 40, whatever it held before: at (r, c) the gathered rows' entry (r, c) plus the positional
    scratch's entry (r + 128, c). -/
theorem rows_t40 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t40 (F := F) d L v2 X P (Scf.trips k0_t40_loop.lb k0_t40_loop.ub k0_t40_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t40_G d L v2 X P G r c

/-! ### the value of row loop 41 (slot 0, positional rows 0 … 127) -/

theorem trips_t41 : k0_t41_loop.trips = 128 := rfl

set_option maxHeartbeats 2000000 in
/-- Every piece of a trip of row loop 41 is the row sum on its rectangle. -/
theorem trip_pieces_t41 (d : Dev nD) (L : grid0.Coords) (v2 : BitVec 32) (X : BufTy.Contents (Elt F) (ibS0).view.ty) (P : BufTy.Contents (Elt F) (qV).view.ty) (k : Fin k0_t41_loop.trips) :
    ∀ p ∈ tripL_t41 (F := F) d L v2 X P k, ∀ x : p.1.shape.Idx, p.2 x = RowsLib.rowG (ibS0).view (qV).view X P 0 (by omega) (p.1.emb x) := by
  unfold tripL_t41 trip_t41
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off657_inb k) (k0_off657_inb k) (k0_off658_inb k) k.val (k.val + 0) 112 (k0_off657_eq k) (k0_off658_eq k) rfl _ (RowsLib.lane_sum _ _ _ _) x
  · exact fun x => RowsLib.piece_eq _ _ X P 0 _ _ _ (k0_off655_inb k) (k0_off655_inb k) (k0_off656_inb k) k.val (k.val + 0) 96 (k0_off655_eq k) (k0_off656_eq k) rfl _ (RowsLib.lane_sum _ _ _ _) x
  · exact fun x => RowsLib.piece_eq _ _ X P 0 _ _ _ (k0_off653_inb k) (k0_off653_inb k) (k0_off654_inb k) k.val (k.val + 0) 80 (k0_off653_eq k) (k0_off654_eq k) rfl _ (RowsLib.lane_sum _ _ _ _) x
  · exact fun x => RowsLib.piece_eq _ _ X P 0 _ _ _ (k0_off651_inb k) (k0_off651_inb k) (k0_off652_inb k) k.val (k.val + 0) 64 (k0_off651_eq k) (k0_off652_eq k) rfl _ (RowsLib.lane_sum _ _ _ _) x
  · exact fun x => RowsLib.piece_eq _ _ X P 0 _ _ _ (k0_off649_inb k) (k0_off649_inb k) (k0_off650_inb k) k.val (k.val + 0) 48 (k0_off649_eq k) (k0_off650_eq k) rfl _ (RowsLib.lane_sum _ _ _ _) x
  · exact fun x => RowsLib.piece_eq _ _ X P 0 _ _ _ (k0_off647_inb k) (k0_off647_inb k) (k0_off648_inb k) k.val (k.val + 0) 32 (k0_off647_eq k) (k0_off648_eq k) rfl _ (RowsLib.lane_sum _ _ _ _) x
  · exact fun x => RowsLib.piece_eq _ _ X P 0 _ _ _ (k0_off645_inb k) (k0_off645_inb k) (k0_off646_inb k) k.val (k.val + 0) 16 (k0_off645_eq k) (k0_off646_eq k) rfl _ (RowsLib.lane_sum _ _ _ _) x
  · exact fun x => RowsLib.piece_eq _ _ X P 0 _ _ _ (k0_off643_inb k) (k0_off643_inb k) (k0_off644_inb k) k.val (k.val + 0) 0 (k0_off643_eq k) (k0_off644_eq k) rfl _ (RowsLib.lane_sum _ _ _ _) x

set_option maxHeartbeats 2000000 in
/-- The eight pieces of trip k cover row k. -/
theorem trip_cover_t41 (d : Dev nD) (L : grid0.Coords) (v2 : BitVec 32) (X : BufTy.Contents (Elt F) (ibS0).view.ty) (P : BufTy.Contents (Elt F) (qV).view.ty)
    (k : Fin k0_t41_loop.trips) (r c : Fin 128) (hr : k.val = r.val) :
    ∃ p ∈ tripL_t41 (F := F) d L v2 X P k, (ValueIdx.ix2 r c : RowsLib.SS.Idx) ∈ p.1.set := by
  unfold tripL_t41 trip_t41
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off643_inb k) r c k.val 0 (k0_off643_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off645_inb k) r c k.val 16 (k0_off645_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off647_inb k) r c k.val 32 (k0_off647_eq k) hr h.1 h.2⟩
  · exact ⟨_, List.mem_cons_of_mem _ (List.mem_cons_of_mem _ (List.mem_cons_of_mem _ (List.mem_cons_of_mem _ (List.mem_cons_self)))), RowsLib.mem_unit _ (k0_off649_inb k) r c k.val 48 (k0_off649_eq k) hr h.1 h.2⟩
  · exact ⟨_, List.mem_cons_of_mem _ (List.mem_cons_of_mem _ (List.mem_cons_of_mem _ (List.mem_cons_self))), RowsLib.mem_unit _ (k0_off651_inb k) r c k.val 64 (k0_off651_eq k) hr h.1 h.2⟩
  · exact ⟨_, List.mem_cons_of_mem _ (List.mem_cons_of_mem _ (List.mem_cons_self)), RowsLib.mem_unit _ (k0_off653_inb k) r c k.val 80 (k0_off653_eq k) hr h.1 h.2⟩
  · exact ⟨_, List.mem_cons_of_mem _ (List.mem_cons_self), RowsLib.mem_unit _ (k0_off655_inb k) r c k.val 96 (k0_off655_eq k) hr h.1 h.2⟩
  · exact ⟨_, List.mem_cons_self, RowsLib.mem_unit _ (k0_off657_inb k) r c k.val 112 (k0_off657_eq k) hr h.1 h.2⟩

/-- The slot of sums after row loop 41, as the row-sum function: at (r, c) the gathered rows' entry plus the positional scratch's entry of row r + 0. -/
theorem rows_t41_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t41 (F := F) d L v2 X P 128)) (ValueIdx.ix2 r c)
      = RowsLib.rowG (ibS0).view (qV).view X P 0 (by omega) (ValueIdx.ix2 r c) :=
  RowsLib.read_writes_trips (n := k0_t41_loop.trips) (pb_t41 (F := F) d L v2 X P) (tripL_t41 (F := F) d L v2 X P) (obS0).view G _
    rfl (pb_t41_succ (F := F) d L v2 X P) (trip_pieces_t41 d L v2 X P) _ ⟨r.val, r.isLt⟩ (trip_cover_t41 d L v2 X P ⟨r.val, r.isLt⟩ r c rfl)

/-- THE SLOT OF SUMS AFTER ROW LOOP 41, whatever it held before: at (r, c) the gathered rows' entry (r, c) plus the positional
    scratch's entry (r + 0, c). -/
theorem rows_t41 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t41 (F := F) d L v2 X P (Scf.trips k0_t41_loop.lb k0_t41_loop.ub k0_t41_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t41_G d L v2 X P G r c

/-! ### the value of row loop 42 (slot 1, positional rows 128 … 255) -/

theorem trips_t42 : k0_t42_loop.trips = 128 := rfl

set_option maxHeartbeats 2000000 in
/-- Every piece of a trip of row loop 42 is the row sum on its rectangle. -/
theorem trip_pieces_t42 (d : Dev nD) (L : grid0.Coords) (v2 : BitVec 32) (X : BufTy.Contents (Elt F) (ibS1).view.ty) (P : BufTy.Contents (Elt F) (qV).view.ty) (k : Fin k0_t42_loop.trips) :
    ∀ p ∈ tripL_t42 (F := F) d L v2 X P k, ∀ x : p.1.shape.Idx, p.2 x = RowsLib.rowG (ibS1).view (qV).view X P 128 (by omega) (p.1.emb x) := by
  unfold tripL_t42 trip_t42
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off673_inb k) (k0_off673_inb k) (k0_off674_inb k) k.val (k.val + 128) 112 (k0_off673_eq k) (k0_off674_eq k) rfl _ (RowsLib.lane_sum _ _ _ _) x
  · exact fun x => RowsLib.piece_eq _ _ X P 128 _ _ _ (k0_off671_inb k) (k0_off671_inb k) (k0_off672_inb k) k.val (k.val + 128) 96 (k0_off671_eq k) (k0_off672_eq k) rfl _ (RowsLib.lane_sum _ _ _ _) x
  · exact fun x => RowsLib.piece_eq _ _ X P 128 _ _ _ (k0_off669_inb k) (k0_off669_inb k) (k0_off670_inb k) k.val (k.val + 128) 80 (k0_off669_eq k) (k0_off670_eq k) rfl _ (RowsLib.lane_sum _ _ _ _) x
  · exact fun x => RowsLib.piece_eq _ _ X P 128 _ _ _ (k0_off667_inb k) (k0_off667_inb k) (k0_off668_inb k) k.val (k.val + 128) 64 (k0_off667_eq k) (k0_off668_eq k) rfl _ (RowsLib.lane_sum _ _ _ _) x
  · exact fun x => RowsLib.piece_eq _ _ X P 128 _ _ _ (k0_off665_inb k) (k0_off665_inb k) (k0_off666_inb k) k.val (k.val + 128) 48 (k0_off665_eq k) (k0_off666_eq k) rfl _ (RowsLib.lane_sum _ _ _ _) x
  · exact fun x => RowsLib.piece_eq _ _ X P 128 _ _ _ (k0_off663_inb k) (k0_off663_inb k) (k0_off664_inb k) k.val (k.val + 128) 32 (k0_off663_eq k) (k0_off664_eq k) rfl _ (RowsLib.lane_sum _ _ _ _) x
  · exact fun x => RowsLib.piece_eq _ _ X P 128 _ _ _ (k0_off661_inb k) (k0_off661_inb k) (k0_off662_inb k) k.val (k.val + 128) 16 (k0_off661_eq k) (k0_off662_eq k) rfl _ (RowsLib.lane_sum _ _ _ _) x
  · exact fun x => RowsLib.piece_eq _ _ X P 128 _ _ _ (k0_off659_inb k) (k0_off659_inb k) (k0_off660_inb k) k.val (k.val + 128) 0 (k0_off659_eq k) (k0_off660_eq k) rfl _ (RowsLib.lane_sum _ _ _ _) x

set_option maxHeartbeats 2000000 in
/-- The eight pieces of trip k cover row k. -/
theorem trip_cover_t42 (d : Dev nD) (L : grid0.Coords) (v2 : BitVec 32) (X : BufTy.Contents (Elt F) (ibS1).view.ty) (P : BufTy.Contents (Elt F) (qV).view.ty)
    (k : Fin k0_t42_loop.trips) (r c : Fin 128) (hr : k.val = r.val) :
    ∃ p ∈ tripL_t42 (F := F) d L v2 X P k, (ValueIdx.ix2 r c : RowsLib.SS.Idx) ∈ p.1.set := by
  unfold tripL_t42 trip_t42
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off659_inb k) r c k.val 0 (k0_off659_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off661_inb k) r c k.val 16 (k0_off661_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off663_inb k) r c k.val 32 (k0_off663_eq k) hr h.1 h.2⟩
  · exact ⟨_, List.mem_cons_of_mem _ (List.mem_cons_of_mem _ (List.mem_cons_of_mem _ (List.mem_cons_of_mem _ (List.mem_cons_self)))), RowsLib.mem_unit _ (k0_off665_inb k) r c k.val 48 (k0_off665_eq k) hr h.1 h.2⟩
  · exact ⟨_, List.mem_cons_of_mem _ (List.mem_cons_of_mem _ (List.mem_cons_of_mem _ (List.mem_cons_self))), RowsLib.mem_unit _ (k0_off667_inb k) r c k.val 64 (k0_off667_eq k) hr h.1 h.2⟩
  · exact ⟨_, List.mem_cons_of_mem _ (List.mem_cons_of_mem _ (List.mem_cons_self)), RowsLib.mem_unit _ (k0_off669_inb k) r c k.val 80 (k0_off669_eq k) hr h.1 h.2⟩
  · exact ⟨_, List.mem_cons_of_mem _ (List.mem_cons_self), RowsLib.mem_unit _ (k0_off671_inb k) r c k.val 96 (k0_off671_eq k) hr h.1 h.2⟩
  · exact ⟨_, List.mem_cons_self, RowsLib.mem_unit _ (k0_off673_inb k) r c k.val 112 (k0_off673_eq k) hr h.1 h.2⟩

/-- The slot of sums after row loop 42, as the row-sum function: at (r, c) the gathered rows' entry plus the positional scratch's entry of row r + 128. -/
theorem rows_t42_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t42 (F := F) d L v2 X P 128)) (ValueIdx.ix2 r c)
      = RowsLib.rowG (ibS1).view (qV).view X P 128 (by omega) (ValueIdx.ix2 r c) :=
  RowsLib.read_writes_trips (n := k0_t42_loop.trips) (pb_t42 (F := F) d L v2 X P) (tripL_t42 (F := F) d L v2 X P) (obS1).view G _
    rfl (pb_t42_succ (F := F) d L v2 X P) (trip_pieces_t42 d L v2 X P) _ ⟨r.val, r.isLt⟩ (trip_cover_t42 d L v2 X P ⟨r.val, r.isLt⟩ r c rfl)

/-- THE SLOT OF SUMS AFTER ROW LOOP 42, whatever it held before: at (r, c) the gathered rows' entry (r, c) plus the positional
    scratch's entry (r + 128, c). -/
theorem rows_t42 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t42 (F := F) d L v2 X P (Scf.trips k0_t42_loop.lb k0_t42_loop.ub k0_t42_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t42_G d L v2 X P G r c

/-! ### the value of row loop 43 (slot 0, positional rows 0 … 127) -/

theorem trips_t43 : k0_t43_loop.trips = 128 := rfl

set_option maxHeartbeats 2000000 in
/-- Every piece of a trip of row loop 43 is the row sum on its rectangle. -/
theorem trip_pieces_t43 (d : Dev nD) (L : grid0.Coords) (v2 wa wb : BitVec 32) (X : BufTy.Contents (Elt F) (ibS0).view.ty) (P : BufTy.Contents (Elt F) (qV).view.ty) (k : Fin k0_t43_loop.trips) :
    ∀ p ∈ tripL_t43 (F := F) d L v2 wa wb X P k, ∀ x : p.1.shape.Idx, p.2 x = RowsLib.rowG (ibS0).view (qV).view X P 0 (by omega) (p.1.emb x) := by
  unfold tripL_t43 trip_t43
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off689_inb k) (k0_off689_inb k) (k0_off690_inb k) k.val (k.val + 0) 112 (k0_off689_eq k) (k0_off690_eq k) rfl _ (RowsLib.lane_sum _ _ _ _) x
  · exact fun x => RowsLib.piece_eq _ _ X P 0 _ _ _ (k0_off687_inb k) (k0_off687_inb k) (k0_off688_inb k) k.val (k.val + 0) 96 (k0_off687_eq k) (k0_off688_eq k) rfl _ (RowsLib.lane_sum _ _ _ _) x
  · exact fun x => RowsLib.piece_eq _ _ X P 0 _ _ _ (k0_off685_inb k) (k0_off685_inb k) (k0_off686_inb k) k.val (k.val + 0) 80 (k0_off685_eq k) (k0_off686_eq k) rfl _ (RowsLib.lane_sum _ _ _ _) x
  · exact fun x => RowsLib.piece_eq _ _ X P 0 _ _ _ (k0_off683_inb k) (k0_off683_inb k) (k0_off684_inb k) k.val (k.val + 0) 64 (k0_off683_eq k) (k0_off684_eq k) rfl _ (RowsLib.lane_sum _ _ _ _) x
  · exact fun x => RowsLib.piece_eq _ _ X P 0 _ _ _ (k0_off681_inb k) (k0_off681_inb k) (k0_off682_inb k) k.val (k.val + 0) 48 (k0_off681_eq k) (k0_off682_eq k) rfl _ (RowsLib.lane_sum _ _ _ _) x
  · exact fun x => RowsLib.piece_eq _ _ X P 0 _ _ _ (k0_off679_inb k) (k0_off679_inb k) (k0_off680_inb k) k.val (k.val + 0) 32 (k0_off679_eq k) (k0_off680_eq k) rfl _ (RowsLib.lane_sum _ _ _ _) x
  · exact fun x => RowsLib.piece_eq _ _ X P 0 _ _ _ (k0_off677_inb k) (k0_off677_inb k) (k0_off678_inb k) k.val (k.val + 0) 16 (k0_off677_eq k) (k0_off678_eq k) rfl _ (RowsLib.lane_sum _ _ _ _) x
  · exact fun x => RowsLib.piece_eq _ _ X P 0 _ _ _ (k0_off675_inb k) (k0_off675_inb k) (k0_off676_inb k) k.val (k.val + 0) 0 (k0_off675_eq k) (k0_off676_eq k) rfl _ (RowsLib.lane_sum _ _ _ _) x

set_option maxHeartbeats 2000000 in
/-- The eight pieces of trip k cover row k. -/
theorem trip_cover_t43 (d : Dev nD) (L : grid0.Coords) (v2 wa wb : BitVec 32) (X : BufTy.Contents (Elt F) (ibS0).view.ty) (P : BufTy.Contents (Elt F) (qV).view.ty)
    (k : Fin k0_t43_loop.trips) (r c : Fin 128) (hr : k.val = r.val) :
    ∃ p ∈ tripL_t43 (F := F) d L v2 wa wb X P k, (ValueIdx.ix2 r c : RowsLib.SS.Idx) ∈ p.1.set := by
  unfold tripL_t43 trip_t43
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off675_inb k) r c k.val 0 (k0_off675_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off677_inb k) r c k.val 16 (k0_off677_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off679_inb k) r c k.val 32 (k0_off679_eq k) hr h.1 h.2⟩
  · exact ⟨_, List.mem_cons_of_mem _ (List.mem_cons_of_mem _ (List.mem_cons_of_mem _ (List.mem_cons_of_mem _ (List.mem_cons_self)))), RowsLib.mem_unit _ (k0_off681_inb k) r c k.val 48 (k0_off681_eq k) hr h.1 h.2⟩
  · exact ⟨_, List.mem_cons_of_mem _ (List.mem_cons_of_mem _ (List.mem_cons_of_mem _ (List.mem_cons_self))), RowsLib.mem_unit _ (k0_off683_inb k) r c k.val 64 (k0_off683_eq k) hr h.1 h.2⟩
  · exact ⟨_, List.mem_cons_of_mem _ (List.mem_cons_of_mem _ (List.mem_cons_self)), RowsLib.mem_unit _ (k0_off685_inb k) r c k.val 80 (k0_off685_eq k) hr h.1 h.2⟩
  · exact ⟨_, List.mem_cons_of_mem _ (List.mem_cons_self), RowsLib.mem_unit _ (k0_off687_inb k) r c k.val 96 (k0_off687_eq k) hr h.1 h.2⟩
  · exact ⟨_, List.mem_cons_self, RowsLib.mem_unit _ (k0_off689_inb k) r c k.val 112 (k0_off689_eq k) hr h.1 h.2⟩

/-- The slot of sums after row loop 43, as the row-sum function: at (r, c) the gathered rows' entry plus the positional scratch's entry of row r + 0. -/
theorem rows_t43_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t43 (F := F) d L v2 wa wb X P 128)) (ValueIdx.ix2 r c)
      = RowsLib.rowG (ibS0).view (qV).view X P 0 (by omega) (ValueIdx.ix2 r c) :=
  RowsLib.read_writes_trips (n := k0_t43_loop.trips) (pb_t43 (F := F) d L v2 wa wb X P) (tripL_t43 (F := F) d L v2 wa wb X P) (obS0).view G _
    rfl (pb_t43_succ (F := F) d L v2 wa wb X P) (trip_pieces_t43 d L v2 wa wb X P) _ ⟨r.val, r.isLt⟩ (trip_cover_t43 d L v2 wa wb X P ⟨r.val, r.isLt⟩ r c rfl)

/-- THE SLOT OF SUMS AFTER ROW LOOP 43, whatever it held before: at (r, c) the gathered rows' entry (r, c) plus the positional
    scratch's entry (r + 0, c). -/
theorem rows_t43 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t43 (F := F) d L v2 wa wb X P (Scf.trips k0_t43_loop.lb k0_t43_loop.ub k0_t43_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t43_G d L v2 wa wb X P G r c

/-! ### the value of row loop 44 (slot 1, positional rows 128 … 255) -/

theorem trips_t44 : k0_t44_loop.trips = 128 := rfl

set_option maxHeartbeats 2000000 in
/-- Every piece of a trip of row loop 44 is the row sum on its rectangle. -/
theorem trip_pieces_t44 (d : Dev nD) (L : grid0.Coords) (v2 : BitVec 32) (X : BufTy.Contents (Elt F) (ibS1).view.ty) (P : BufTy.Contents (Elt F) (qV).view.ty) (k : Fin k0_t44_loop.trips) :
    ∀ p ∈ tripL_t44 (F := F) d L v2 X P k, ∀ x : p.1.shape.Idx, p.2 x = RowsLib.rowG (ibS1).view (qV).view X P 128 (by omega) (p.1.emb x) := by
  unfold tripL_t44 trip_t44
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off705_inb k) (k0_off705_inb k) (k0_off706_inb k) k.val (k.val + 128) 112 (k0_off705_eq k) (k0_off706_eq k) rfl _ (RowsLib.lane_sum _ _ _ _) x
  · exact fun x => RowsLib.piece_eq _ _ X P 128 _ _ _ (k0_off703_inb k) (k0_off703_inb k) (k0_off704_inb k) k.val (k.val + 128) 96 (k0_off703_eq k) (k0_off704_eq k) rfl _ (RowsLib.lane_sum _ _ _ _) x
  · exact fun x => RowsLib.piece_eq _ _ X P 128 _ _ _ (k0_off701_inb k) (k0_off701_inb k) (k0_off702_inb k) k.val (k.val + 128) 80 (k0_off701_eq k) (k0_off702_eq k) rfl _ (RowsLib.lane_sum _ _ _ _) x
  · exact fun x => RowsLib.piece_eq _ _ X P 128 _ _ _ (k0_off699_inb k) (k0_off699_inb k) (k0_off700_inb k) k.val (k.val + 128) 64 (k0_off699_eq k) (k0_off700_eq k) rfl _ (RowsLib.lane_sum _ _ _ _) x
  · exact fun x => RowsLib.piece_eq _ _ X P 128 _ _ _ (k0_off697_inb k) (k0_off697_inb k) (k0_off698_inb k) k.val (k.val + 128) 48 (k0_off697_eq k) (k0_off698_eq k) rfl _ (RowsLib.lane_sum _ _ _ _) x
  · exact fun x => RowsLib.piece_eq _ _ X P 128 _ _ _ (k0_off695_inb k) (k0_off695_inb k) (k0_off696_inb k) k.val (k.val + 128) 32 (k0_off695_eq k) (k0_off696_eq k) rfl _ (RowsLib.lane_sum _ _ _ _) x
  · exact fun x => RowsLib.piece_eq _ _ X P 128 _ _ _ (k0_off693_inb k) (k0_off693_inb k) (k0_off694_inb k) k.val (k.val + 128) 16 (k0_off693_eq k) (k0_off694_eq k) rfl _ (RowsLib.lane_sum _ _ _ _) x
  · exact fun x => RowsLib.piece_eq _ _ X P 128 _ _ _ (k0_off691_inb k) (k0_off691_inb k) (k0_off692_inb k) k.val (k.val + 128) 0 (k0_off691_eq k) (k0_off692_eq k) rfl _ (RowsLib.lane_sum _ _ _ _) x

set_option maxHeartbeats 2000000 in
/-- The eight pieces of trip k cover row k. -/
theorem trip_cover_t44 (d : Dev nD) (L : grid0.Coords) (v2 : BitVec 32) (X : BufTy.Contents (Elt F) (ibS1).view.ty) (P : BufTy.Contents (Elt F) (qV).view.ty)
    (k : Fin k0_t44_loop.trips) (r c : Fin 128) (hr : k.val = r.val) :
    ∃ p ∈ tripL_t44 (F := F) d L v2 X P k, (ValueIdx.ix2 r c : RowsLib.SS.Idx) ∈ p.1.set := by
  unfold tripL_t44 trip_t44
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off691_inb k) r c k.val 0 (k0_off691_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off693_inb k) r c k.val 16 (k0_off693_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off695_inb k) r c k.val 32 (k0_off695_eq k) hr h.1 h.2⟩
  · exact ⟨_, List.mem_cons_of_mem _ (List.mem_cons_of_mem _ (List.mem_cons_of_mem _ (List.mem_cons_of_mem _ (List.mem_cons_self)))), RowsLib.mem_unit _ (k0_off697_inb k) r c k.val 48 (k0_off697_eq k) hr h.1 h.2⟩
  · exact ⟨_, List.mem_cons_of_mem _ (List.mem_cons_of_mem _ (List.mem_cons_of_mem _ (List.mem_cons_self))), RowsLib.mem_unit _ (k0_off699_inb k) r c k.val 64 (k0_off699_eq k) hr h.1 h.2⟩
  · exact ⟨_, List.mem_cons_of_mem _ (List.mem_cons_of_mem _ (List.mem_cons_self)), RowsLib.mem_unit _ (k0_off701_inb k) r c k.val 80 (k0_off701_eq k) hr h.1 h.2⟩
  · exact ⟨_, List.mem_cons_of_mem _ (List.mem_cons_self), RowsLib.mem_unit _ (k0_off703_inb k) r c k.val 96 (k0_off703_eq k) hr h.1 h.2⟩
  · exact ⟨_, List.mem_cons_self, RowsLib.mem_unit _ (k0_off705_inb k) r c k.val 112 (k0_off705_eq k) hr h.1 h.2⟩

/-- The slot of sums after row loop 44, as the row-sum function: at (r, c) the gathered rows' entry plus the positional scratch's entry of row r + 128. -/
theorem rows_t44_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t44 (F := F) d L v2 X P 128)) (ValueIdx.ix2 r c)
      = RowsLib.rowG (ibS1).view (qV).view X P 128 (by omega) (ValueIdx.ix2 r c) :=
  RowsLib.read_writes_trips (n := k0_t44_loop.trips) (pb_t44 (F := F) d L v2 X P) (tripL_t44 (F := F) d L v2 X P) (obS1).view G _
    rfl (pb_t44_succ (F := F) d L v2 X P) (trip_pieces_t44 d L v2 X P) _ ⟨r.val, r.isLt⟩ (trip_cover_t44 d L v2 X P ⟨r.val, r.isLt⟩ r c rfl)

/-- THE SLOT OF SUMS AFTER ROW LOOP 44, whatever it held before: at (r, c) the gathered rows' entry (r, c) plus the positional
    scratch's entry (r + 128, c). -/
theorem rows_t44 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t44 (F := F) d L v2 X P (Scf.trips k0_t44_loop.lb k0_t44_loop.ub k0_t44_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t44_G d L v2 X P G r c

/-! ### the value of row loop 45 (slot 0, positional rows 0 … 127) -/

theorem trips_t45 : k0_t45_loop.trips = 128 := rfl

set_option maxHeartbeats 2000000 in
/-- Every piece of a trip of row loop 45 is the row sum on its rectangle. -/
theorem trip_pieces_t45 (d : Dev nD) (L : grid0.Coords) (v2 : BitVec 32) (X : BufTy.Contents (Elt F) (ibS0).view.ty) (P : BufTy.Contents (Elt F) (qV).view.ty) (k : Fin k0_t45_loop.trips) :
    ∀ p ∈ tripL_t45 (F := F) d L v2 X P k, ∀ x : p.1.shape.Idx, p.2 x = RowsLib.rowG (ibS0).view (qV).view X P 0 (by omega) (p.1.emb x) := by
  unfold tripL_t45 trip_t45
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off721_inb k) (k0_off721_inb k) (k0_off722_inb k) k.val (k.val + 0) 112 (k0_off721_eq k) (k0_off722_eq k) rfl _ (RowsLib.lane_sum _ _ _ _) x
  · exact fun x => RowsLib.piece_eq _ _ X P 0 _ _ _ (k0_off719_inb k) (k0_off719_inb k) (k0_off720_inb k) k.val (k.val + 0) 96 (k0_off719_eq k) (k0_off720_eq k) rfl _ (RowsLib.lane_sum _ _ _ _) x
  · exact fun x => RowsLib.piece_eq _ _ X P 0 _ _ _ (k0_off717_inb k) (k0_off717_inb k) (k0_off718_inb k) k.val (k.val + 0) 80 (k0_off717_eq k) (k0_off718_eq k) rfl _ (RowsLib.lane_sum _ _ _ _) x
  · exact fun x => RowsLib.piece_eq _ _ X P 0 _ _ _ (k0_off715_inb k) (k0_off715_inb k) (k0_off716_inb k) k.val (k.val + 0) 64 (k0_off715_eq k) (k0_off716_eq k) rfl _ (RowsLib.lane_sum _ _ _ _) x
  · exact fun x => RowsLib.piece_eq _ _ X P 0 _ _ _ (k0_off713_inb k) (k0_off713_inb k) (k0_off714_inb k) k.val (k.val + 0) 48 (k0_off713_eq k) (k0_off714_eq k) rfl _ (RowsLib.lane_sum _ _ _ _) x
  · exact fun x => RowsLib.piece_eq _ _ X P 0 _ _ _ (k0_off711_inb k) (k0_off711_inb k) (k0_off712_inb k) k.val (k.val + 0) 32 (k0_off711_eq k) (k0_off712_eq k) rfl _ (RowsLib.lane_sum _ _ _ _) x
  · exact fun x => RowsLib.piece_eq _ _ X P 0 _ _ _ (k0_off709_inb k) (k0_off709_inb k) (k0_off710_inb k) k.val (k.val + 0) 16 (k0_off709_eq k) (k0_off710_eq k) rfl _ (RowsLib.lane_sum _ _ _ _) x
  · exact fun x => RowsLib.piece_eq _ _ X P 0 _ _ _ (k0_off707_inb k) (k0_off707_inb k) (k0_off708_inb k) k.val (k.val + 0) 0 (k0_off707_eq k) (k0_off708_eq k) rfl _ (RowsLib.lane_sum _ _ _ _) x

set_option maxHeartbeats 2000000 in
/-- The eight pieces of trip k cover row k. -/
theorem trip_cover_t45 (d : Dev nD) (L : grid0.Coords) (v2 : BitVec 32) (X : BufTy.Contents (Elt F) (ibS0).view.ty) (P : BufTy.Contents (Elt F) (qV).view.ty)
    (k : Fin k0_t45_loop.trips) (r c : Fin 128) (hr : k.val = r.val) :
    ∃ p ∈ tripL_t45 (F := F) d L v2 X P k, (ValueIdx.ix2 r c : RowsLib.SS.Idx) ∈ p.1.set := by
  unfold tripL_t45 trip_t45
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off707_inb k) r c k.val 0 (k0_off707_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off709_inb k) r c k.val 16 (k0_off709_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off711_inb k) r c k.val 32 (k0_off711_eq k) hr h.1 h.2⟩
  · exact ⟨_, List.mem_cons_of_mem _ (List.mem_cons_of_mem _ (List.mem_cons_of_mem _ (List.mem_cons_of_mem _ (List.mem_cons_self)))), RowsLib.mem_unit _ (k0_off713_inb k) r c k.val 48 (k0_off713_eq k) hr h.1 h.2⟩
  · exact ⟨_, List.mem_cons_of_mem _ (List.mem_cons_of_mem _ (List.mem_cons_of_mem _ (List.mem_cons_self))), RowsLib.mem_unit _ (k0_off715_inb k) r c k.val 64 (k0_off715_eq k) hr h.1 h.2⟩
  · exact ⟨_, List.mem_cons_of_mem _ (List.mem_cons_of_mem _ (List.mem_cons_self)), RowsLib.mem_unit _ (k0_off717_inb k) r c k.val 80 (k0_off717_eq k) hr h.1 h.2⟩
  · exact ⟨_, List.mem_cons_of_mem _ (List.mem_cons_self), RowsLib.mem_unit _ (k0_off719_inb k) r c k.val 96 (k0_off719_eq k) hr h.1 h.2⟩
  · exact ⟨_, List.mem_cons_self, RowsLib.mem_unit _ (k0_off721_inb k) r c k.val 112 (k0_off721_eq k) hr h.1 h.2⟩

/-- The slot of sums after row loop 45, as the row-sum function: at (r, c) the gathered rows' entry plus the positional scratch's entry of row r + 0. -/
theorem rows_t45_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t45 (F := F) d L v2 X P 128)) (ValueIdx.ix2 r c)
      = RowsLib.rowG (ibS0).view (qV).view X P 0 (by omega) (ValueIdx.ix2 r c) :=
  RowsLib.read_writes_trips (n := k0_t45_loop.trips) (pb_t45 (F := F) d L v2 X P) (tripL_t45 (F := F) d L v2 X P) (obS0).view G _
    rfl (pb_t45_succ (F := F) d L v2 X P) (trip_pieces_t45 d L v2 X P) _ ⟨r.val, r.isLt⟩ (trip_cover_t45 d L v2 X P ⟨r.val, r.isLt⟩ r c rfl)

/-- THE SLOT OF SUMS AFTER ROW LOOP 45, whatever it held before: at (r, c) the gathered rows' entry (r, c) plus the positional
    scratch's entry (r + 0, c). -/
theorem rows_t45 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t45 (F := F) d L v2 X P (Scf.trips k0_t45_loop.lb k0_t45_loop.ub k0_t45_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t45_G d L v2 X P G r c

/-! ### the value of row loop 46 (slot 1, positional rows 128 … 255) -/

theorem trips_t46 : k0_t46_loop.trips = 128 := rfl

set_option maxHeartbeats 2000000 in
/-- Every piece of a trip of row loop 46 is the row sum on its rectangle. -/
theorem trip_pieces_t46 (d : Dev nD) (L : grid0.Coords) (v2 : BitVec 32) (X : BufTy.Contents (Elt F) (ibS1).view.ty) (P : BufTy.Contents (Elt F) (qV).view.ty) (k : Fin k0_t46_loop.trips) :
    ∀ p ∈ tripL_t46 (F := F) d L v2 X P k, ∀ x : p.1.shape.Idx, p.2 x = RowsLib.rowG (ibS1).view (qV).view X P 128 (by omega) (p.1.emb x) := by
  unfold tripL_t46 trip_t46
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off737_inb k) (k0_off737_inb k) (k0_off738_inb k) k.val (k.val + 128) 112 (k0_off737_eq k) (k0_off738_eq k) rfl _ (RowsLib.lane_sum _ _ _ _) x
  · exact fun x => RowsLib.piece_eq _ _ X P 128 _ _ _ (k0_off735_inb k) (k0_off735_inb k) (k0_off736_inb k) k.val (k.val + 128) 96 (k0_off735_eq k) (k0_off736_eq k) rfl _ (RowsLib.lane_sum _ _ _ _) x
  · exact fun x => RowsLib.piece_eq _ _ X P 128 _ _ _ (k0_off733_inb k) (k0_off733_inb k) (k0_off734_inb k) k.val (k.val + 128) 80 (k0_off733_eq k) (k0_off734_eq k) rfl _ (RowsLib.lane_sum _ _ _ _) x
  · exact fun x => RowsLib.piece_eq _ _ X P 128 _ _ _ (k0_off731_inb k) (k0_off731_inb k) (k0_off732_inb k) k.val (k.val + 128) 64 (k0_off731_eq k) (k0_off732_eq k) rfl _ (RowsLib.lane_sum _ _ _ _) x
  · exact fun x => RowsLib.piece_eq _ _ X P 128 _ _ _ (k0_off729_inb k) (k0_off729_inb k) (k0_off730_inb k) k.val (k.val + 128) 48 (k0_off729_eq k) (k0_off730_eq k) rfl _ (RowsLib.lane_sum _ _ _ _) x
  · exact fun x => RowsLib.piece_eq _ _ X P 128 _ _ _ (k0_off727_inb k) (k0_off727_inb k) (k0_off728_inb k) k.val (k.val + 128) 32 (k0_off727_eq k) (k0_off728_eq k) rfl _ (RowsLib.lane_sum _ _ _ _) x
  · exact fun x => RowsLib.piece_eq _ _ X P 128 _ _ _ (k0_off725_inb k) (k0_off725_inb k) (k0_off726_inb k) k.val (k.val + 128) 16 (k0_off725_eq k) (k0_off726_eq k) rfl _ (RowsLib.lane_sum _ _ _ _) x
  · exact fun x => RowsLib.piece_eq _ _ X P 128 _ _ _ (k0_off723_inb k) (k0_off723_inb k) (k0_off724_inb k) k.val (k.val + 128) 0 (k0_off723_eq k) (k0_off724_eq k) rfl _ (RowsLib.lane_sum _ _ _ _) x

set_option maxHeartbeats 2000000 in
/-- The eight pieces of trip k cover row k. -/
theorem trip_cover_t46 (d : Dev nD) (L : grid0.Coords) (v2 : BitVec 32) (X : BufTy.Contents (Elt F) (ibS1).view.ty) (P : BufTy.Contents (Elt F) (qV).view.ty)
    (k : Fin k0_t46_loop.trips) (r c : Fin 128) (hr : k.val = r.val) :
    ∃ p ∈ tripL_t46 (F := F) d L v2 X P k, (ValueIdx.ix2 r c : RowsLib.SS.Idx) ∈ p.1.set := by
  unfold tripL_t46 trip_t46
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off723_inb k) r c k.val 0 (k0_off723_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off725_inb k) r c k.val 16 (k0_off725_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off727_inb k) r c k.val 32 (k0_off727_eq k) hr h.1 h.2⟩
  · exact ⟨_, List.mem_cons_of_mem _ (List.mem_cons_of_mem _ (List.mem_cons_of_mem _ (List.mem_cons_of_mem _ (List.mem_cons_self)))), RowsLib.mem_unit _ (k0_off729_inb k) r c k.val 48 (k0_off729_eq k) hr h.1 h.2⟩
  · exact ⟨_, List.mem_cons_of_mem _ (List.mem_cons_of_mem _ (List.mem_cons_of_mem _ (List.mem_cons_self))), RowsLib.mem_unit _ (k0_off731_inb k) r c k.val 64 (k0_off731_eq k) hr h.1 h.2⟩
  · exact ⟨_, List.mem_cons_of_mem _ (List.mem_cons_of_mem _ (List.mem_cons_self)), RowsLib.mem_unit _ (k0_off733_inb k) r c k.val 80 (k0_off733_eq k) hr h.1 h.2⟩
  · exact ⟨_, List.mem_cons_of_mem _ (List.mem_cons_self), RowsLib.mem_unit _ (k0_off735_inb k) r c k.val 96 (k0_off735_eq k) hr h.1 h.2⟩
  · exact ⟨_, List.mem_cons_self, RowsLib.mem_unit _ (k0_off737_inb k) r c k.val 112 (k0_off737_eq k) hr h.1 h.2⟩

/-- The slot of sums after row loop 46, as the row-sum function: at (r, c) the gathered rows' entry plus the positional scratch's entry of row r + 128. -/
theorem rows_t46_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t46 (F := F) d L v2 X P 128)) (ValueIdx.ix2 r c)
      = RowsLib.rowG (ibS1).view (qV).view X P 128 (by omega) (ValueIdx.ix2 r c) :=
  RowsLib.read_writes_trips (n := k0_t46_loop.trips) (pb_t46 (F := F) d L v2 X P) (tripL_t46 (F := F) d L v2 X P) (obS1).view G _
    rfl (pb_t46_succ (F := F) d L v2 X P) (trip_pieces_t46 d L v2 X P) _ ⟨r.val, r.isLt⟩ (trip_cover_t46 d L v2 X P ⟨r.val, r.isLt⟩ r c rfl)

/-- THE SLOT OF SUMS AFTER ROW LOOP 46, whatever it held before: at (r, c) the gathered rows' entry (r, c) plus the positional
    scratch's entry (r + 128, c). -/
theorem rows_t46 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t46 (F := F) d L v2 X P (Scf.trips k0_t46_loop.lb k0_t46_loop.ub k0_t46_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t46_G d L v2 X P G r c

/-! ### the value of row loop 47 (slot 0, positional rows 0 … 127) -/

theorem trips_t47 : k0_t47_loop.trips = 128 := rfl

set_option maxHeartbeats 2000000 in
/-- Every piece of a trip of row loop 47 is the row sum on its rectangle. -/
theorem trip_pieces_t47 (d : Dev nD) (L : grid0.Coords) (v2 : BitVec 32) (X : BufTy.Contents (Elt F) (ibS0).view.ty) (P : BufTy.Contents (Elt F) (qV).view.ty) (k : Fin k0_t47_loop.trips) :
    ∀ p ∈ tripL_t47 (F := F) d L v2 X P k, ∀ x : p.1.shape.Idx, p.2 x = RowsLib.rowG (ibS0).view (qV).view X P 0 (by omega) (p.1.emb x) := by
  unfold tripL_t47 trip_t47
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off753_inb k) (k0_off753_inb k) (k0_off754_inb k) k.val (k.val + 0) 112 (k0_off753_eq k) (k0_off754_eq k) rfl _ (RowsLib.lane_sum _ _ _ _) x
  · exact fun x => RowsLib.piece_eq _ _ X P 0 _ _ _ (k0_off751_inb k) (k0_off751_inb k) (k0_off752_inb k) k.val (k.val + 0) 96 (k0_off751_eq k) (k0_off752_eq k) rfl _ (RowsLib.lane_sum _ _ _ _) x
  · exact fun x => RowsLib.piece_eq _ _ X P 0 _ _ _ (k0_off749_inb k) (k0_off749_inb k) (k0_off750_inb k) k.val (k.val + 0) 80 (k0_off749_eq k) (k0_off750_eq k) rfl _ (RowsLib.lane_sum _ _ _ _) x
  · exact fun x => RowsLib.piece_eq _ _ X P 0 _ _ _ (k0_off747_inb k) (k0_off747_inb k) (k0_off748_inb k) k.val (k.val + 0) 64 (k0_off747_eq k) (k0_off748_eq k) rfl _ (RowsLib.lane_sum _ _ _ _) x
  · exact fun x => RowsLib.piece_eq _ _ X P 0 _ _ _ (k0_off745_inb k) (k0_off745_inb k) (k0_off746_inb k) k.val (k.val + 0) 48 (k0_off745_eq k) (k0_off746_eq k) rfl _ (RowsLib.lane_sum _ _ _ _) x
  · exact fun x => RowsLib.piece_eq _ _ X P 0 _ _ _ (k0_off743_inb k) (k0_off743_inb k) (k0_off744_inb k) k.val (k.val + 0) 32 (k0_off743_eq k) (k0_off744_eq k) rfl _ (RowsLib.lane_sum _ _ _ _) x
  · exact fun x => RowsLib.piece_eq _ _ X P 0 _ _ _ (k0_off741_inb k) (k0_off741_inb k) (k0_off742_inb k) k.val (k.val + 0) 16 (k0_off741_eq k) (k0_off742_eq k) rfl _ (RowsLib.lane_sum _ _ _ _) x
  · exact fun x => RowsLib.piece_eq _ _ X P 0 _ _ _ (k0_off739_inb k) (k0_off739_inb k) (k0_off740_inb k) k.val (k.val + 0) 0 (k0_off739_eq k) (k0_off740_eq k) rfl _ (RowsLib.lane_sum _ _ _ _) x

set_option maxHeartbeats 2000000 in
/-- The eight pieces of trip k cover row k. -/
theorem trip_cover_t47 (d : Dev nD) (L : grid0.Coords) (v2 : BitVec 32) (X : BufTy.Contents (Elt F) (ibS0).view.ty) (P : BufTy.Contents (Elt F) (qV).view.ty)
    (k : Fin k0_t47_loop.trips) (r c : Fin 128) (hr : k.val = r.val) :
    ∃ p ∈ tripL_t47 (F := F) d L v2 X P k, (ValueIdx.ix2 r c : RowsLib.SS.Idx) ∈ p.1.set := by
  unfold tripL_t47 trip_t47
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off739_inb k) r c k.val 0 (k0_off739_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off741_inb k) r c k.val 16 (k0_off741_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off743_inb k) r c k.val 32 (k0_off743_eq k) hr h.1 h.2⟩
  · exact ⟨_, List.mem_cons_of_mem _ (List.mem_cons_of_mem _ (List.mem_cons_of_mem _ (List.mem_cons_of_mem _ (List.mem_cons_self)))), RowsLib.mem_unit _ (k0_off745_inb k) r c k.val 48 (k0_off745_eq k) hr h.1 h.2⟩
  · exact ⟨_, List.mem_cons_of_mem _ (List.mem_cons_of_mem _ (List.mem_cons_of_mem _ (List.mem_cons_self))), RowsLib.mem_unit _ (k0_off747_inb k) r c k.val 64 (k0_off747_eq k) hr h.1 h.2⟩
  · exact ⟨_, List.mem_cons_of_mem _ (List.mem_cons_of_mem _ (List.mem_cons_self)), RowsLib.mem_unit _ (k0_off749_inb k) r c k.val 80 (k0_off749_eq k) hr h.1 h.2⟩
  · exact ⟨_, List.mem_cons_of_mem _ (List.mem_cons_self), RowsLib.mem_unit _ (k0_off751_inb k) r c k.val 96 (k0_off751_eq k) hr h.1 h.2⟩
  · exact ⟨_, List.mem_cons_self, RowsLib.mem_unit _ (k0_off753_inb k) r c k.val 112 (k0_off753_eq k) hr h.1 h.2⟩

/-- The slot of sums after row loop 47, as the row-sum function: at (r, c) the gathered rows' entry plus the positional scratch's entry of row r + 0. -/
theorem rows_t47_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t47 (F := F) d L v2 X P 128)) (ValueIdx.ix2 r c)
      = RowsLib.rowG (ibS0).view (qV).view X P 0 (by omega) (ValueIdx.ix2 r c) :=
  RowsLib.read_writes_trips (n := k0_t47_loop.trips) (pb_t47 (F := F) d L v2 X P) (tripL_t47 (F := F) d L v2 X P) (obS0).view G _
    rfl (pb_t47_succ (F := F) d L v2 X P) (trip_pieces_t47 d L v2 X P) _ ⟨r.val, r.isLt⟩ (trip_cover_t47 d L v2 X P ⟨r.val, r.isLt⟩ r c rfl)

/-- THE SLOT OF SUMS AFTER ROW LOOP 47, whatever it held before: at (r, c) the gathered rows' entry (r, c) plus the positional
    scratch's entry (r + 0, c). -/
theorem rows_t47 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t47 (F := F) d L v2 X P (Scf.trips k0_t47_loop.lb k0_t47_loop.ub k0_t47_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t47_G d L v2 X P G r c

/-! ### the value of row loop 48 (slot 1, positional rows 128 … 255) -/

theorem trips_t48 : k0_t48_loop.trips = 128 := rfl

set_option maxHeartbeats 2000000 in
/-- Every piece of a trip of row loop 48 is the row sum on its rectangle. -/
theorem trip_pieces_t48 (d : Dev nD) (L : grid0.Coords) (v2 : BitVec 32) (X : BufTy.Contents (Elt F) (ibS1).view.ty) (P : BufTy.Contents (Elt F) (qV).view.ty) (k : Fin k0_t48_loop.trips) :
    ∀ p ∈ tripL_t48 (F := F) d L v2 X P k, ∀ x : p.1.shape.Idx, p.2 x = RowsLib.rowG (ibS1).view (qV).view X P 128 (by omega) (p.1.emb x) := by
  unfold tripL_t48 trip_t48
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off769_inb k) (k0_off769_inb k) (k0_off770_inb k) k.val (k.val + 128) 112 (k0_off769_eq k) (k0_off770_eq k) rfl _ (RowsLib.lane_sum _ _ _ _) x
  · exact fun x => RowsLib.piece_eq _ _ X P 128 _ _ _ (k0_off767_inb k) (k0_off767_inb k) (k0_off768_inb k) k.val (k.val + 128) 96 (k0_off767_eq k) (k0_off768_eq k) rfl _ (RowsLib.lane_sum _ _ _ _) x
  · exact fun x => RowsLib.piece_eq _ _ X P 128 _ _ _ (k0_off765_inb k) (k0_off765_inb k) (k0_off766_inb k) k.val (k.val + 128) 80 (k0_off765_eq k) (k0_off766_eq k) rfl _ (RowsLib.lane_sum _ _ _ _) x
  · exact fun x => RowsLib.piece_eq _ _ X P 128 _ _ _ (k0_off763_inb k) (k0_off763_inb k) (k0_off764_inb k) k.val (k.val + 128) 64 (k0_off763_eq k) (k0_off764_eq k) rfl _ (RowsLib.lane_sum _ _ _ _) x
  · exact fun x => RowsLib.piece_eq _ _ X P 128 _ _ _ (k0_off761_inb k) (k0_off761_inb k) (k0_off762_inb k) k.val (k.val + 128) 48 (k0_off761_eq k) (k0_off762_eq k) rfl _ (RowsLib.lane_sum _ _ _ _) x
  · exact fun x => RowsLib.piece_eq _ _ X P 128 _ _ _ (k0_off759_inb k) (k0_off759_inb k) (k0_off760_inb k) k.val (k.val + 128) 32 (k0_off759_eq k) (k0_off760_eq k) rfl _ (RowsLib.lane_sum _ _ _ _) x
  · exact fun x => RowsLib.piece_eq _ _ X P 128 _ _ _ (k0_off757_inb k) (k0_off757_inb k) (k0_off758_inb k) k.val (k.val + 128) 16 (k0_off757_eq k) (k0_off758_eq k) rfl _ (RowsLib.lane_sum _ _ _ _) x
  · exact fun x => RowsLib.piece_eq _ _ X P 128 _ _ _ (k0_off755_inb k) (k0_off755_inb k) (k0_off756_inb k) k.val (k.val + 128) 0 (k0_off755_eq k) (k0_off756_eq k) rfl _ (RowsLib.lane_sum _ _ _ _) x

set_option maxHeartbeats 2000000 in
/-- The eight pieces of trip k cover row k. -/
theorem trip_cover_t48 (d : Dev nD) (L : grid0.Coords) (v2 : BitVec 32) (X : BufTy.Contents (Elt F) (ibS1).view.ty) (P : BufTy.Contents (Elt F) (qV).view.ty)
    (k : Fin k0_t48_loop.trips) (r c : Fin 128) (hr : k.val = r.val) :
    ∃ p ∈ tripL_t48 (F := F) d L v2 X P k, (ValueIdx.ix2 r c : RowsLib.SS.Idx) ∈ p.1.set := by
  unfold tripL_t48 trip_t48
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off755_inb k) r c k.val 0 (k0_off755_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off757_inb k) r c k.val 16 (k0_off757_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off759_inb k) r c k.val 32 (k0_off759_eq k) hr h.1 h.2⟩
  · exact ⟨_, List.mem_cons_of_mem _ (List.mem_cons_of_mem _ (List.mem_cons_of_mem _ (List.mem_cons_of_mem _ (List.mem_cons_self)))), RowsLib.mem_unit _ (k0_off761_inb k) r c k.val 48 (k0_off761_eq k) hr h.1 h.2⟩
  · exact ⟨_, List.mem_cons_of_mem _ (List.mem_cons_of_mem _ (List.mem_cons_of_mem _ (List.mem_cons_self))), RowsLib.mem_unit _ (k0_off763_inb k) r c k.val 64 (k0_off763_eq k) hr h.1 h.2⟩
  · exact ⟨_, List.mem_cons_of_mem _ (List.mem_cons_of_mem _ (List.mem_cons_self)), RowsLib.mem_unit _ (k0_off765_inb k) r c k.val 80 (k0_off765_eq k) hr h.1 h.2⟩
  · exact ⟨_, List.mem_cons_of_mem _ (List.mem_cons_self), RowsLib.mem_unit _ (k0_off767_inb k) r c k.val 96 (k0_off767_eq k) hr h.1 h.2⟩
  · exact ⟨_, List.mem_cons_self, RowsLib.mem_unit _ (k0_off769_inb k) r c k.val 112 (k0_off769_eq k) hr h.1 h.2⟩

/-- The slot of sums after row loop 48, as the row-sum function: at (r, c) the gathered rows' entry plus the positional scratch's entry of row r + 128. -/
theorem rows_t48_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t48 (F := F) d L v2 X P 128)) (ValueIdx.ix2 r c)
      = RowsLib.rowG (ibS1).view (qV).view X P 128 (by omega) (ValueIdx.ix2 r c) :=
  RowsLib.read_writes_trips (n := k0_t48_loop.trips) (pb_t48 (F := F) d L v2 X P) (tripL_t48 (F := F) d L v2 X P) (obS1).view G _
    rfl (pb_t48_succ (F := F) d L v2 X P) (trip_pieces_t48 d L v2 X P) _ ⟨r.val, r.isLt⟩ (trip_cover_t48 d L v2 X P ⟨r.val, r.isLt⟩ r c rfl)

/-- THE SLOT OF SUMS AFTER ROW LOOP 48, whatever it held before: at (r, c) the gathered rows' entry (r, c) plus the positional
    scratch's entry (r + 128, c). -/
theorem rows_t48 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t48 (F := F) d L v2 X P (Scf.trips k0_t48_loop.lb k0_t48_loop.ub k0_t48_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t48_G d L v2 X P G r c

end Tile

end Cert.Proof.KB

end
-- ==== Proof.LoopsDB.lean ====
-- The same text as LoopsD.lean, read at the printed kernel's own namespace: Cert.Kernel for Cert.KernelIdeal throughout.
/- GENERATED by: bun proofs/208673_g37134287241914_cont_8to1_b_302_3_alg/scratch/gen_loops.js (run from the package root): one text per row loop, instantiated at the loops 49 to 64.
   Each of the kernel's sixty-four row loops adds, row by row, the positional rows to the gathered rows of one slot and stores the sums in the same slot of the sum scratch.
   Per loop: one trip at a symbolic row (its stores' pieces read off its run), the pieces of the rows before k, and the loop by its invariant:
   the slot of sums holds those pieces written over its contents at loop entry. -/
import proofs.«208673_g37134287241914_cont_8to1_b_302_3_alg».proof.Proof.CommonB
import proofs.«208673_g37134287241914_cont_8to1_b_302_3_alg».proof.Proof.Gen.Kernel.Skeleton
import proofs.«208673_g37134287241914_cont_8to1_b_302_3_alg».proof.Proof.TileResB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### loop 49 (slot 0) -/

set_option maxHeartbeats 4000000 in
/-- One trip of row loop 49 at a symbolic row: the pieces it writes into the sum slot are the run's own finds. -/
@[irreducible] def trip_t49 (d : Dev nD) (L : grid0.Coords) (v2 : BitVec 32)
    (X : BufTy.Contents (Elt F) (ibS0).view.ty) (P : BufTy.Contents (Elt F) (qV).view.ty) (k : Fin k0_t49_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t49_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t49_body TripRes0
    iintro ⟨HX, HP, HW⟩
    sl_exec
    sl_step
    sl_close

abbrev tripL_t49 (d : Dev nD) (L : grid0.Coords) (v2 : BitVec 32) (X : BufTy.Contents (Elt F) (ibS0).view.ty) (P : BufTy.Contents (Elt F) (qV).view.ty) (k : Fin k0_t49_loop.trips) : List (View.Piece (Elt F) S128x128 .f32) :=
  (trip_t49 (F := F) d L v2 X P k).1

@[irreducible] def pb_t49Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t49_loop.trips then (tripL_t49 (F := F) d L v2 X P ⟨k, h⟩) ++ prev else prev

/-- The pieces of the rows before k (last first). -/
def pb_t49 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t49Step d L v2 X P k (pb_t49 d L v2 X P k)

theorem pb_t49_succ (d : Dev nD) (L : grid0.Coords) (v2 : BitVec 32) (X : BufTy.Contents (Elt F) (ibS0).view.ty) (P : BufTy.Contents (Elt F) (qV).view.ty) (k : Fin k0_t49_loop.trips) :
    pb_t49 (F := F) d L v2 X P (k.val + 1) = (tripL_t49 (F := F) d L v2 X P k) ++ (pb_t49 (F := F) d L v2 X P k.val) := by
  rw [pb_t49.eq_2]; unfold pb_t49Step; exact dif_pos k.isLt

set_option warn.classDefReducibility false in
/-- Row loop 49 by its invariant: the gathered rows and the positional rows read, the sum slot holding the pieces of the rows before k over its contents at loop entry. -/
@[sl_loop] def loopInv_t49 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t49_loop.lb k0_t49_loop.ub k0_t49_loop.st k0_t49_ok () (k0_t49_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t49 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t49 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t49_succ]
      iexists _; isplitl [HW]; · iexact HW
      ipureintro; rw [hf, ← View.writes_append]

/-! ### loop 50 (slot 1) -/

set_option maxHeartbeats 4000000 in
/-- One trip of row loop 50 at a symbolic row: the pieces it writes into the sum slot are the run's own finds. -/
@[irreducible] def trip_t50 (d : Dev nD) (L : grid0.Coords) (v2 : BitVec 32)
    (X : BufTy.Contents (Elt F) (ibS1).view.ty) (P : BufTy.Contents (Elt F) (qV).view.ty) (k : Fin k0_t50_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t50_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t50_body TripRes1
    iintro ⟨HX, HP, HW⟩
    sl_exec
    sl_step
    sl_close

abbrev tripL_t50 (d : Dev nD) (L : grid0.Coords) (v2 : BitVec 32) (X : BufTy.Contents (Elt F) (ibS1).view.ty) (P : BufTy.Contents (Elt F) (qV).view.ty) (k : Fin k0_t50_loop.trips) : List (View.Piece (Elt F) S128x128 .f32) :=
  (trip_t50 (F := F) d L v2 X P k).1

@[irreducible] def pb_t50Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t50_loop.trips then (tripL_t50 (F := F) d L v2 X P ⟨k, h⟩) ++ prev else prev

/-- The pieces of the rows before k (last first). -/
def pb_t50 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t50Step d L v2 X P k (pb_t50 d L v2 X P k)

theorem pb_t50_succ (d : Dev nD) (L : grid0.Coords) (v2 : BitVec 32) (X : BufTy.Contents (Elt F) (ibS1).view.ty) (P : BufTy.Contents (Elt F) (qV).view.ty) (k : Fin k0_t50_loop.trips) :
    pb_t50 (F := F) d L v2 X P (k.val + 1) = (tripL_t50 (F := F) d L v2 X P k) ++ (pb_t50 (F := F) d L v2 X P k.val) := by
  rw [pb_t50.eq_2]; unfold pb_t50Step; exact dif_pos k.isLt

set_option warn.classDefReducibility false in
/-- Row loop 50 by its invariant: the gathered rows and the positional rows read, the sum slot holding the pieces of the rows before k over its contents at loop entry. -/
@[sl_loop] def loopInv_t50 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t50_loop.lb k0_t50_loop.ub k0_t50_loop.st k0_t50_ok () (k0_t50_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t50 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t50 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t50_succ]
      iexists _; isplitl [HW]; · iexact HW
      ipureintro; rw [hf, ← View.writes_append]

/-! ### loop 51 (slot 0) -/

set_option maxHeartbeats 4000000 in
/-- One trip of row loop 51 at a symbolic row: the pieces it writes into the sum slot are the run's own finds. -/
@[irreducible] def trip_t51 (d : Dev nD) (L : grid0.Coords) (v2 : BitVec 32)
    (X : BufTy.Contents (Elt F) (ibS0).view.ty) (P : BufTy.Contents (Elt F) (qV).view.ty) (k : Fin k0_t51_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t51_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t51_body TripRes0
    iintro ⟨HX, HP, HW⟩
    sl_exec
    sl_step
    sl_close

abbrev tripL_t51 (d : Dev nD) (L : grid0.Coords) (v2 : BitVec 32) (X : BufTy.Contents (Elt F) (ibS0).view.ty) (P : BufTy.Contents (Elt F) (qV).view.ty) (k : Fin k0_t51_loop.trips) : List (View.Piece (Elt F) S128x128 .f32) :=
  (trip_t51 (F := F) d L v2 X P k).1

@[irreducible] def pb_t51Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t51_loop.trips then (tripL_t51 (F := F) d L v2 X P ⟨k, h⟩) ++ prev else prev

/-- The pieces of the rows before k (last first). -/
def pb_t51 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t51Step d L v2 X P k (pb_t51 d L v2 X P k)

theorem pb_t51_succ (d : Dev nD) (L : grid0.Coords) (v2 : BitVec 32) (X : BufTy.Contents (Elt F) (ibS0).view.ty) (P : BufTy.Contents (Elt F) (qV).view.ty) (k : Fin k0_t51_loop.trips) :
    pb_t51 (F := F) d L v2 X P (k.val + 1) = (tripL_t51 (F := F) d L v2 X P k) ++ (pb_t51 (F := F) d L v2 X P k.val) := by
  rw [pb_t51.eq_2]; unfold pb_t51Step; exact dif_pos k.isLt

set_option warn.classDefReducibility false in
/-- Row loop 51 by its invariant: the gathered rows and the positional rows read, the sum slot holding the pieces of the rows before k over its contents at loop entry. -/
@[sl_loop] def loopInv_t51 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t51_loop.lb k0_t51_loop.ub k0_t51_loop.st k0_t51_ok () (k0_t51_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t51 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t51 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t51_succ]
      iexists _; isplitl [HW]; · iexact HW
      ipureintro; rw [hf, ← View.writes_append]

/-! ### loop 52 (slot 1) -/

set_option maxHeartbeats 4000000 in
/-- One trip of row loop 52 at a symbolic row: the pieces it writes into the sum slot are the run's own finds. -/
@[irreducible] def trip_t52 (d : Dev nD) (L : grid0.Coords) (v2 : BitVec 32)
    (X : BufTy.Contents (Elt F) (ibS1).view.ty) (P : BufTy.Contents (Elt F) (qV).view.ty) (k : Fin k0_t52_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t52_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t52_body TripRes1
    iintro ⟨HX, HP, HW⟩
    sl_exec
    sl_step
    sl_close

abbrev tripL_t52 (d : Dev nD) (L : grid0.Coords) (v2 : BitVec 32) (X : BufTy.Contents (Elt F) (ibS1).view.ty) (P : BufTy.Contents (Elt F) (qV).view.ty) (k : Fin k0_t52_loop.trips) : List (View.Piece (Elt F) S128x128 .f32) :=
  (trip_t52 (F := F) d L v2 X P k).1

@[irreducible] def pb_t52Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t52_loop.trips then (tripL_t52 (F := F) d L v2 X P ⟨k, h⟩) ++ prev else prev

/-- The pieces of the rows before k (last first). -/
def pb_t52 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t52Step d L v2 X P k (pb_t52 d L v2 X P k)

theorem pb_t52_succ (d : Dev nD) (L : grid0.Coords) (v2 : BitVec 32) (X : BufTy.Contents (Elt F) (ibS1).view.ty) (P : BufTy.Contents (Elt F) (qV).view.ty) (k : Fin k0_t52_loop.trips) :
    pb_t52 (F := F) d L v2 X P (k.val + 1) = (tripL_t52 (F := F) d L v2 X P k) ++ (pb_t52 (F := F) d L v2 X P k.val) := by
  rw [pb_t52.eq_2]; unfold pb_t52Step; exact dif_pos k.isLt

set_option warn.classDefReducibility false in
/-- Row loop 52 by its invariant: the gathered rows and the positional rows read, the sum slot holding the pieces of the rows before k over its contents at loop entry. -/
@[sl_loop] def loopInv_t52 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t52_loop.lb k0_t52_loop.ub k0_t52_loop.st k0_t52_ok () (k0_t52_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t52 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t52 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t52_succ]
      iexists _; isplitl [HW]; · iexact HW
      ipureintro; rw [hf, ← View.writes_append]

/-! ### loop 53 (slot 0) -/

set_option maxHeartbeats 4000000 in
/-- One trip of row loop 53 at a symbolic row: the pieces it writes into the sum slot are the run's own finds. -/
@[irreducible] def trip_t53 (d : Dev nD) (L : grid0.Coords) (v2 wa wb : BitVec 32)
    (X : BufTy.Contents (Elt F) (ibS0).view.ty) (P : BufTy.Contents (Elt F) (qV).view.ty) (k : Fin k0_t53_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t53_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t53_body TripRes0
    iintro ⟨HX, HP, HW⟩
    sl_exec
    sl_step
    sl_close

abbrev tripL_t53 (d : Dev nD) (L : grid0.Coords) (v2 wa wb : BitVec 32) (X : BufTy.Contents (Elt F) (ibS0).view.ty) (P : BufTy.Contents (Elt F) (qV).view.ty) (k : Fin k0_t53_loop.trips) : List (View.Piece (Elt F) S128x128 .f32) :=
  (trip_t53 (F := F) d L v2 wa wb X P k).1

@[irreducible] def pb_t53Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t53_loop.trips then (tripL_t53 (F := F) d L v2 wa wb X P ⟨k, h⟩) ++ prev else prev

/-- The pieces of the rows before k (last first). -/
def pb_t53 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t53Step d L v2 wa wb X P k (pb_t53 d L v2 wa wb X P k)

theorem pb_t53_succ (d : Dev nD) (L : grid0.Coords) (v2 wa wb : BitVec 32) (X : BufTy.Contents (Elt F) (ibS0).view.ty) (P : BufTy.Contents (Elt F) (qV).view.ty) (k : Fin k0_t53_loop.trips) :
    pb_t53 (F := F) d L v2 wa wb X P (k.val + 1) = (tripL_t53 (F := F) d L v2 wa wb X P k) ++ (pb_t53 (F := F) d L v2 wa wb X P k.val) := by
  rw [pb_t53.eq_2]; unfold pb_t53Step; exact dif_pos k.isLt

set_option warn.classDefReducibility false in
/-- Row loop 53 by its invariant: the gathered rows and the positional rows read, the sum slot holding the pieces of the rows before k over its contents at loop entry. -/
@[sl_loop] def loopInv_t53 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t53_loop.lb k0_t53_loop.ub k0_t53_loop.st k0_t53_ok () (k0_t53_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t53 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t53 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t53_succ]
      iexists _; isplitl [HW]; · iexact HW
      ipureintro; rw [hf, ← View.writes_append]

/-! ### loop 54 (slot 1) -/

set_option maxHeartbeats 4000000 in
/-- One trip of row loop 54 at a symbolic row: the pieces it writes into the sum slot are the run's own finds. -/
@[irreducible] def trip_t54 (d : Dev nD) (L : grid0.Coords) (v2 : BitVec 32)
    (X : BufTy.Contents (Elt F) (ibS1).view.ty) (P : BufTy.Contents (Elt F) (qV).view.ty) (k : Fin k0_t54_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t54_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t54_body TripRes1
    iintro ⟨HX, HP, HW⟩
    sl_exec
    sl_step
    sl_close

abbrev tripL_t54 (d : Dev nD) (L : grid0.Coords) (v2 : BitVec 32) (X : BufTy.Contents (Elt F) (ibS1).view.ty) (P : BufTy.Contents (Elt F) (qV).view.ty) (k : Fin k0_t54_loop.trips) : List (View.Piece (Elt F) S128x128 .f32) :=
  (trip_t54 (F := F) d L v2 X P k).1

@[irreducible] def pb_t54Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t54_loop.trips then (tripL_t54 (F := F) d L v2 X P ⟨k, h⟩) ++ prev else prev

/-- The pieces of the rows before k (last first). -/
def pb_t54 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t54Step d L v2 X P k (pb_t54 d L v2 X P k)

theorem pb_t54_succ (d : Dev nD) (L : grid0.Coords) (v2 : BitVec 32) (X : BufTy.Contents (Elt F) (ibS1).view.ty) (P : BufTy.Contents (Elt F) (qV).view.ty) (k : Fin k0_t54_loop.trips) :
    pb_t54 (F := F) d L v2 X P (k.val + 1) = (tripL_t54 (F := F) d L v2 X P k) ++ (pb_t54 (F := F) d L v2 X P k.val) := by
  rw [pb_t54.eq_2]; unfold pb_t54Step; exact dif_pos k.isLt

set_option warn.classDefReducibility false in
/-- Row loop 54 by its invariant: the gathered rows and the positional rows read, the sum slot holding the pieces of the rows before k over its contents at loop entry. -/
@[sl_loop] def loopInv_t54 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t54_loop.lb k0_t54_loop.ub k0_t54_loop.st k0_t54_ok () (k0_t54_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t54 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t54 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t54_succ]
      iexists _; isplitl [HW]; · iexact HW
      ipureintro; rw [hf, ← View.writes_append]

/-! ### loop 55 (slot 0) -/

set_option maxHeartbeats 4000000 in
/-- One trip of row loop 55 at a symbolic row: the pieces it writes into the sum slot are the run's own finds. -/
@[irreducible] def trip_t55 (d : Dev nD) (L : grid0.Coords) (v2 : BitVec 32)
    (X : BufTy.Contents (Elt F) (ibS0).view.ty) (P : BufTy.Contents (Elt F) (qV).view.ty) (k : Fin k0_t55_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t55_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t55_body TripRes0
    iintro ⟨HX, HP, HW⟩
    sl_exec
    sl_step
    sl_close

abbrev tripL_t55 (d : Dev nD) (L : grid0.Coords) (v2 : BitVec 32) (X : BufTy.Contents (Elt F) (ibS0).view.ty) (P : BufTy.Contents (Elt F) (qV).view.ty) (k : Fin k0_t55_loop.trips) : List (View.Piece (Elt F) S128x128 .f32) :=
  (trip_t55 (F := F) d L v2 X P k).1

@[irreducible] def pb_t55Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t55_loop.trips then (tripL_t55 (F := F) d L v2 X P ⟨k, h⟩) ++ prev else prev

/-- The pieces of the rows before k (last first). -/
def pb_t55 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t55Step d L v2 X P k (pb_t55 d L v2 X P k)

theorem pb_t55_succ (d : Dev nD) (L : grid0.Coords) (v2 : BitVec 32) (X : BufTy.Contents (Elt F) (ibS0).view.ty) (P : BufTy.Contents (Elt F) (qV).view.ty) (k : Fin k0_t55_loop.trips) :
    pb_t55 (F := F) d L v2 X P (k.val + 1) = (tripL_t55 (F := F) d L v2 X P k) ++ (pb_t55 (F := F) d L v2 X P k.val) := by
  rw [pb_t55.eq_2]; unfold pb_t55Step; exact dif_pos k.isLt

set_option warn.classDefReducibility false in
/-- Row loop 55 by its invariant: the gathered rows and the positional rows read, the sum slot holding the pieces of the rows before k over its contents at loop entry. -/
@[sl_loop] def loopInv_t55 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t55_loop.lb k0_t55_loop.ub k0_t55_loop.st k0_t55_ok () (k0_t55_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t55 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t55 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t55_succ]
      iexists _; isplitl [HW]; · iexact HW
      ipureintro; rw [hf, ← View.writes_append]

/-! ### loop 56 (slot 1) -/

set_option maxHeartbeats 4000000 in
/-- One trip of row loop 56 at a symbolic row: the pieces it writes into the sum slot are the run's own finds. -/
@[irreducible] def trip_t56 (d : Dev nD) (L : grid0.Coords) (v2 : BitVec 32)
    (X : BufTy.Contents (Elt F) (ibS1).view.ty) (P : BufTy.Contents (Elt F) (qV).view.ty) (k : Fin k0_t56_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t56_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t56_body TripRes1
    iintro ⟨HX, HP, HW⟩
    sl_exec
    sl_step
    sl_close

abbrev tripL_t56 (d : Dev nD) (L : grid0.Coords) (v2 : BitVec 32) (X : BufTy.Contents (Elt F) (ibS1).view.ty) (P : BufTy.Contents (Elt F) (qV).view.ty) (k : Fin k0_t56_loop.trips) : List (View.Piece (Elt F) S128x128 .f32) :=
  (trip_t56 (F := F) d L v2 X P k).1

@[irreducible] def pb_t56Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t56_loop.trips then (tripL_t56 (F := F) d L v2 X P ⟨k, h⟩) ++ prev else prev

/-- The pieces of the rows before k (last first). -/
def pb_t56 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t56Step d L v2 X P k (pb_t56 d L v2 X P k)

theorem pb_t56_succ (d : Dev nD) (L : grid0.Coords) (v2 : BitVec 32) (X : BufTy.Contents (Elt F) (ibS1).view.ty) (P : BufTy.Contents (Elt F) (qV).view.ty) (k : Fin k0_t56_loop.trips) :
    pb_t56 (F := F) d L v2 X P (k.val + 1) = (tripL_t56 (F := F) d L v2 X P k) ++ (pb_t56 (F := F) d L v2 X P k.val) := by
  rw [pb_t56.eq_2]; unfold pb_t56Step; exact dif_pos k.isLt

set_option warn.classDefReducibility false in
/-- Row loop 56 by its invariant: the gathered rows and the positional rows read, the sum slot holding the pieces of the rows before k over its contents at loop entry. -/
@[sl_loop] def loopInv_t56 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t56_loop.lb k0_t56_loop.ub k0_t56_loop.st k0_t56_ok () (k0_t56_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t56 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t56 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t56_succ]
      iexists _; isplitl [HW]; · iexact HW
      ipureintro; rw [hf, ← View.writes_append]

/-! ### loop 57 (slot 0) -/

set_option maxHeartbeats 4000000 in
/-- One trip of row loop 57 at a symbolic row: the pieces it writes into the sum slot are the run's own finds. -/
@[irreducible] def trip_t57 (d : Dev nD) (L : grid0.Coords) (v2 : BitVec 32)
    (X : BufTy.Contents (Elt F) (ibS0).view.ty) (P : BufTy.Contents (Elt F) (qV).view.ty) (k : Fin k0_t57_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t57_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t57_body TripRes0
    iintro ⟨HX, HP, HW⟩
    sl_exec
    sl_step
    sl_close

abbrev tripL_t57 (d : Dev nD) (L : grid0.Coords) (v2 : BitVec 32) (X : BufTy.Contents (Elt F) (ibS0).view.ty) (P : BufTy.Contents (Elt F) (qV).view.ty) (k : Fin k0_t57_loop.trips) : List (View.Piece (Elt F) S128x128 .f32) :=
  (trip_t57 (F := F) d L v2 X P k).1

@[irreducible] def pb_t57Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t57_loop.trips then (tripL_t57 (F := F) d L v2 X P ⟨k, h⟩) ++ prev else prev

/-- The pieces of the rows before k (last first). -/
def pb_t57 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t57Step d L v2 X P k (pb_t57 d L v2 X P k)

theorem pb_t57_succ (d : Dev nD) (L : grid0.Coords) (v2 : BitVec 32) (X : BufTy.Contents (Elt F) (ibS0).view.ty) (P : BufTy.Contents (Elt F) (qV).view.ty) (k : Fin k0_t57_loop.trips) :
    pb_t57 (F := F) d L v2 X P (k.val + 1) = (tripL_t57 (F := F) d L v2 X P k) ++ (pb_t57 (F := F) d L v2 X P k.val) := by
  rw [pb_t57.eq_2]; unfold pb_t57Step; exact dif_pos k.isLt

set_option warn.classDefReducibility false in
/-- Row loop 57 by its invariant: the gathered rows and the positional rows read, the sum slot holding the pieces of the rows before k over its contents at loop entry. -/
@[sl_loop] def loopInv_t57 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t57_loop.lb k0_t57_loop.ub k0_t57_loop.st k0_t57_ok () (k0_t57_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t57 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t57 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t57_succ]
      iexists _; isplitl [HW]; · iexact HW
      ipureintro; rw [hf, ← View.writes_append]

/-! ### loop 58 (slot 1) -/

set_option maxHeartbeats 4000000 in
/-- One trip of row loop 58 at a symbolic row: the pieces it writes into the sum slot are the run's own finds. -/
@[irreducible] def trip_t58 (d : Dev nD) (L : grid0.Coords) (v2 : BitVec 32)
    (X : BufTy.Contents (Elt F) (ibS1).view.ty) (P : BufTy.Contents (Elt F) (qV).view.ty) (k : Fin k0_t58_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t58_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t58_body TripRes1
    iintro ⟨HX, HP, HW⟩
    sl_exec
    sl_step
    sl_close

abbrev tripL_t58 (d : Dev nD) (L : grid0.Coords) (v2 : BitVec 32) (X : BufTy.Contents (Elt F) (ibS1).view.ty) (P : BufTy.Contents (Elt F) (qV).view.ty) (k : Fin k0_t58_loop.trips) : List (View.Piece (Elt F) S128x128 .f32) :=
  (trip_t58 (F := F) d L v2 X P k).1

@[irreducible] def pb_t58Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t58_loop.trips then (tripL_t58 (F := F) d L v2 X P ⟨k, h⟩) ++ prev else prev

/-- The pieces of the rows before k (last first). -/
def pb_t58 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t58Step d L v2 X P k (pb_t58 d L v2 X P k)

theorem pb_t58_succ (d : Dev nD) (L : grid0.Coords) (v2 : BitVec 32) (X : BufTy.Contents (Elt F) (ibS1).view.ty) (P : BufTy.Contents (Elt F) (qV).view.ty) (k : Fin k0_t58_loop.trips) :
    pb_t58 (F := F) d L v2 X P (k.val + 1) = (tripL_t58 (F := F) d L v2 X P k) ++ (pb_t58 (F := F) d L v2 X P k.val) := by
  rw [pb_t58.eq_2]; unfold pb_t58Step; exact dif_pos k.isLt

set_option warn.classDefReducibility false in
/-- Row loop 58 by its invariant: the gathered rows and the positional rows read, the sum slot holding the pieces of the rows before k over its contents at loop entry. -/
@[sl_loop] def loopInv_t58 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t58_loop.lb k0_t58_loop.ub k0_t58_loop.st k0_t58_ok () (k0_t58_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t58 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t58 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t58_succ]
      iexists _; isplitl [HW]; · iexact HW
      ipureintro; rw [hf, ← View.writes_append]

/-! ### loop 59 (slot 0) -/

set_option maxHeartbeats 4000000 in
/-- One trip of row loop 59 at a symbolic row: the pieces it writes into the sum slot are the run's own finds. -/
@[irreducible] def trip_t59 (d : Dev nD) (L : grid0.Coords) (v2 : BitVec 32)
    (X : BufTy.Contents (Elt F) (ibS0).view.ty) (P : BufTy.Contents (Elt F) (qV).view.ty) (k : Fin k0_t59_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t59_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t59_body TripRes0
    iintro ⟨HX, HP, HW⟩
    sl_exec
    sl_step
    sl_close

abbrev tripL_t59 (d : Dev nD) (L : grid0.Coords) (v2 : BitVec 32) (X : BufTy.Contents (Elt F) (ibS0).view.ty) (P : BufTy.Contents (Elt F) (qV).view.ty) (k : Fin k0_t59_loop.trips) : List (View.Piece (Elt F) S128x128 .f32) :=
  (trip_t59 (F := F) d L v2 X P k).1

@[irreducible] def pb_t59Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t59_loop.trips then (tripL_t59 (F := F) d L v2 X P ⟨k, h⟩) ++ prev else prev

/-- The pieces of the rows before k (last first). -/
def pb_t59 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t59Step d L v2 X P k (pb_t59 d L v2 X P k)

theorem pb_t59_succ (d : Dev nD) (L : grid0.Coords) (v2 : BitVec 32) (X : BufTy.Contents (Elt F) (ibS0).view.ty) (P : BufTy.Contents (Elt F) (qV).view.ty) (k : Fin k0_t59_loop.trips) :
    pb_t59 (F := F) d L v2 X P (k.val + 1) = (tripL_t59 (F := F) d L v2 X P k) ++ (pb_t59 (F := F) d L v2 X P k.val) := by
  rw [pb_t59.eq_2]; unfold pb_t59Step; exact dif_pos k.isLt

set_option warn.classDefReducibility false in
/-- Row loop 59 by its invariant: the gathered rows and the positional rows read, the sum slot holding the pieces of the rows before k over its contents at loop entry. -/
@[sl_loop] def loopInv_t59 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t59_loop.lb k0_t59_loop.ub k0_t59_loop.st k0_t59_ok () (k0_t59_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t59 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t59 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t59_succ]
      iexists _; isplitl [HW]; · iexact HW
      ipureintro; rw [hf, ← View.writes_append]

/-! ### loop 60 (slot 1) -/

set_option maxHeartbeats 4000000 in
/-- One trip of row loop 60 at a symbolic row: the pieces it writes into the sum slot are the run's own finds. -/
@[irreducible] def trip_t60 (d : Dev nD) (L : grid0.Coords) (v2 : BitVec 32)
    (X : BufTy.Contents (Elt F) (ibS1).view.ty) (P : BufTy.Contents (Elt F) (qV).view.ty) (k : Fin k0_t60_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t60_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t60_body TripRes1
    iintro ⟨HX, HP, HW⟩
    sl_exec
    sl_step
    sl_close

abbrev tripL_t60 (d : Dev nD) (L : grid0.Coords) (v2 : BitVec 32) (X : BufTy.Contents (Elt F) (ibS1).view.ty) (P : BufTy.Contents (Elt F) (qV).view.ty) (k : Fin k0_t60_loop.trips) : List (View.Piece (Elt F) S128x128 .f32) :=
  (trip_t60 (F := F) d L v2 X P k).1

@[irreducible] def pb_t60Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t60_loop.trips then (tripL_t60 (F := F) d L v2 X P ⟨k, h⟩) ++ prev else prev

/-- The pieces of the rows before k (last first). -/
def pb_t60 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t60Step d L v2 X P k (pb_t60 d L v2 X P k)

theorem pb_t60_succ (d : Dev nD) (L : grid0.Coords) (v2 : BitVec 32) (X : BufTy.Contents (Elt F) (ibS1).view.ty) (P : BufTy.Contents (Elt F) (qV).view.ty) (k : Fin k0_t60_loop.trips) :
    pb_t60 (F := F) d L v2 X P (k.val + 1) = (tripL_t60 (F := F) d L v2 X P k) ++ (pb_t60 (F := F) d L v2 X P k.val) := by
  rw [pb_t60.eq_2]; unfold pb_t60Step; exact dif_pos k.isLt

set_option warn.classDefReducibility false in
/-- Row loop 60 by its invariant: the gathered rows and the positional rows read, the sum slot holding the pieces of the rows before k over its contents at loop entry. -/
@[sl_loop] def loopInv_t60 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t60_loop.lb k0_t60_loop.ub k0_t60_loop.st k0_t60_ok () (k0_t60_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t60 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t60 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t60_succ]
      iexists _; isplitl [HW]; · iexact HW
      ipureintro; rw [hf, ← View.writes_append]

/-! ### loop 61 (slot 0) -/

set_option maxHeartbeats 4000000 in
/-- One trip of row loop 61 at a symbolic row: the pieces it writes into the sum slot are the run's own finds. -/
@[irreducible] def trip_t61 (d : Dev nD) (L : grid0.Coords) (v2 : BitVec 32)
    (X : BufTy.Contents (Elt F) (ibS0).view.ty) (P : BufTy.Contents (Elt F) (qV).view.ty) (k : Fin k0_t61_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t61_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes0 (F := F) d L X P ((obS0).view.writes (Elt F) f Lw)) } := by
  refine ⟨?_, fun f => ?run⟩
  case run =>
    unfold k0_t61_body TripRes0
    iintro ⟨HX, HP, HW⟩
    sl_exec
    sl_step
    sl_close

abbrev tripL_t61 (d : Dev nD) (L : grid0.Coords) (v2 : BitVec 32) (X : BufTy.Contents (Elt F) (ibS0).view.ty) (P : BufTy.Contents (Elt F) (qV).view.ty) (k : Fin k0_t61_loop.trips) : List (View.Piece (Elt F) S128x128 .f32) :=
  (trip_t61 (F := F) d L v2 X P k).1

@[irreducible] def pb_t61Step (d : Dev nD) (L : grid0.Coords) (v2 : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t61_loop.trips then (tripL_t61 (F := F) d L v2 X P ⟨k, h⟩) ++ prev else prev

/-- The pieces of the rows before k (last first). -/
def pb_t61 (d : Dev nD) (L : grid0.Coords) (v2 : BitVec 32) (X : BufTy.Contents (Elt F) (ibS0).view.ty) (P : BufTy.Contents (Elt F) (qV).view.ty) : ℕ → List (View.Piece (Elt F) S128x128 .f32)
  | 0 => []
  | k + 1 => pb_t61Step d L v2 X P k (pb_t61 d L v2 X P k)

theorem pb_t61_succ (d : Dev nD) (L : grid0.Coords) (v2 : BitVec 32) (X : BufTy.Contents (Elt F) (ibS0).view.ty) (P : BufTy.Contents (Elt F) (qV).view.ty) (k : Fin k0_t61_loop.trips) :
    pb_t61 (F := F) d L v2 X P (k.val + 1) = (tripL_t61 (F := F) d L v2 X P k) ++ (pb_t61 (F := F) d L v2 X P k.val) := by
  rw [pb_t61.eq_2]; unfold pb_t61Step; exact dif_pos k.isLt

set_option warn.classDefReducibility false in
/-- Row loop 61 by its invariant: the gathered rows and the positional rows read, the sum slot holding the pieces of the rows before k over its contents at loop entry. -/
@[sl_loop] def loopInv_t61 (d : Dev nD) (L : grid0.Coords) (v2 : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t61_loop.lb k0_t61_loop.ub k0_t61_loop.st k0_t61_ok () (k0_t61_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t61 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t61 (F := F) d L v2 X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t61_succ]
      iexists _; isplitl [HW]; · iexact HW
      ipureintro; rw [hf, ← View.writes_append]

/-! ### loop 62 (slot 1) -/

set_option maxHeartbeats 4000000 in
/-- One trip of row loop 62 at a symbolic row: the pieces it writes into the sum slot are the run's own finds. -/
@[irreducible] def trip_t62 (d : Dev nD) (L : grid0.Coords) (v2 : BitVec 32)
    (X : BufTy.Contents (Elt F) (ibS1).view.ty) (P : BufTy.Contents (Elt F) (qV).view.ty) (k : Fin k0_t62_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t62_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 k PUnit.unit)
          (fun _ => TripRes1 (F := F) d L X P ((obS1).view.writes (Elt F) f Lw)) } := by
  refine ⟨?_, fun f => ?run⟩
  case run =>
    unfold k0_t62_body TripRes1
    iintro ⟨HX, HP, HW⟩
    sl_exec
    sl_step
    sl_close

abbrev tripL_t62 (d : Dev nD) (L : grid0.Coords) (v2 : BitVec 32) (X : BufTy.Contents (Elt F) (ibS1).view.ty) (P : BufTy.Contents (Elt F) (qV).view.ty) (k : Fin k0_t62_loop.trips) : List (View.Piece (Elt F) S128x128 .f32) :=
  (trip_t62 (F := F) d L v2 X P k).1

@[irreducible] def pb_t62Step (d : Dev nD) (L : grid0.Coords) (v2 : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t62_loop.trips then (tripL_t62 (F := F) d L v2 X P ⟨k, h⟩) ++ prev else prev

/-- The pieces of the rows before k (last first). -/
def pb_t62 (d : Dev nD) (L : grid0.Coords) (v2 : BitVec 32) (X : BufTy.Contents (Elt F) (ibS1).view.ty) (P : BufTy.Contents (Elt F) (qV).view.ty) : ℕ → List (View.Piece (Elt F) S128x128 .f32)
  | 0 => []
  | k + 1 => pb_t62Step d L v2 X P k (pb_t62 d L v2 X P k)

theorem pb_t62_succ (d : Dev nD) (L : grid0.Coords) (v2 : BitVec 32) (X : BufTy.Contents (Elt F) (ibS1).view.ty) (P : BufTy.Contents (Elt F) (qV).view.ty) (k : Fin k0_t62_loop.trips) :
    pb_t62 (F := F) d L v2 X P (k.val + 1) = (tripL_t62 (F := F) d L v2 X P k) ++ (pb_t62 (F := F) d L v2 X P k.val) := by
  rw [pb_t62.eq_2]; unfold pb_t62Step; exact dif_pos k.isLt

set_option warn.classDefReducibility false in
/-- Row loop 62 by its invariant: the gathered rows and the positional rows read, the sum slot holding the pieces of the rows before k over its contents at loop entry. -/
@[sl_loop] def loopInv_t62 (d : Dev nD) (L : grid0.Coords) (v2 : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t62_loop.lb k0_t62_loop.ub k0_t62_loop.st k0_t62_ok () (k0_t62_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t62 (F := F) d L v2 X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t62 (F := F) d L v2 X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t62_succ]
      iexists _; isplitl [HW]; · iexact HW
      ipureintro; rw [hf, ← View.writes_append]

/-! ### loop 63 (slot 0) -/

set_option maxHeartbeats 4000000 in
/-- One trip of row loop 63 at a symbolic row: the pieces it writes into the sum slot are the run's own finds. -/
@[irreducible] def trip_t63 (d : Dev nD) (L : grid0.Coords) (v2 wa wb : BitVec 32)
    (X : BufTy.Contents (Elt F) (ibS0).view.ty) (P : BufTy.Contents (Elt F) (qV).view.ty) (k : Fin k0_t63_loop.trips) :
    { Lw : List (View.Piece (Elt F) S128x128 .f32) // ∀ (f : BufTy.Contents (Elt F) (obS0).view.ty),
      TripRes0 (F := F) d L X P f
      ⊢ wp frame (wpE (defs₀ (F := F)) 𝒱₀ (V d (cV L) (jV L)) none) Set.univ (k0_t63_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes0 (F := F) d L X P ((obS0).view.writes (Elt F) f Lw)) } := by
  refine ⟨?_, fun f => ?run⟩
  case run =>
    unfold k0_t63_body TripRes0
    iintro ⟨HX, HP, HW⟩
    sl_exec
    sl_step
    sl_close

abbrev tripL_t63 (d : Dev nD) (L : grid0.Coords) (v2 wa wb : BitVec 32) (X : BufTy.Contents (Elt F) (ibS0).view.ty) (P : BufTy.Contents (Elt F) (qV).view.ty) (k : Fin k0_t63_loop.trips) : List (View.Piece (Elt F) S128x128 .f32) :=
  (trip_t63 (F := F) d L v2 wa wb X P k).1

@[irreducible] def pb_t63Step (d : Dev nD) (L : grid0.Coords) (v2 wa wb : BitVec 32) (X : BufTy.Contents (Elt F) (ibS0).view.ty) (P : BufTy.Contents (Elt F) (qV).view.ty) (k : ℕ) (prev : List (View.Piece (Elt F) S128x128 .f32)) : List (View.Piece (Elt F) S128x128 .f32) :=
  if h : k < k0_t63_loop.trips then (tripL_t63 (F := F) d L v2 wa wb X P ⟨k, h⟩) ++ prev else prev

/-- The pieces of the rows before k (last first). -/
def pb_t63 (d : Dev nD) (L : grid0.Coords) (v2 wa wb : BitVec 32) (X : BufTy.Contents (Elt F) (ibS0).view.ty) (P : BufTy.Contents (Elt F) (qV).view.ty) : ℕ → List (View.Piece (Elt F) S128x128 .f32)
  | 0 => []
  | k + 1 => pb_t63Step d L v2 wa wb X P k (pb_t63 d L v2 wa wb X P k)

theorem pb_t63_succ (d : Dev nD) (L : grid0.Coords) (v2 wa wb : BitVec 32) (X : BufTy.Contents (Elt F) (ibS0).view.ty) (P : BufTy.Contents (Elt F) (qV).view.ty) (k : Fin k0_t63_loop.trips) :
    pb_t63 (F := F) d L v2 wa wb X P (k.val + 1) = (tripL_t63 (F := F) d L v2 wa wb X P k) ++ (pb_t63 (F := F) d L v2 wa wb X P k.val) := by
  rw [pb_t63.eq_2]; unfold pb_t63Step; exact dif_pos k.isLt

set_option warn.classDefReducibility false in
/-- Row loop 63 by its invariant: the gathered rows and the positional rows read, the sum slot holding the pieces of the rows before k over its contents at loop entry. -/
@[sl_loop] def loopInv_t63 (d : Dev nD) (L : grid0.Coords) (v2 wa wb : BitVec 32)
    (X : BufTy.Contents (Elt F) (ibS0).view.ty) (P : BufTy.Contents (Elt F) (qV).view.ty) (G : BufTy.Contents (Elt F) (obS0).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t63_loop.lb k0_t63_loop.ub k0_t63_loop.st k0_t63_ok () (k0_t63_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS0).view.loc (V d (cV L) (jV L)) ↦[(ibS0).view.set]{fullShare} X)
    ∗ ((qV).view.loc (V d (cV L) (jV L)) ↦[(qV).view.set]{fullShare} P)
    ∗ (∃ f, ((obS0).view.loc (V d (cV L) (jV L)) ↦[(obS0).view.set]{fullShare} f) ∗ ⌜f = (obS0).view.writes (Elt F) G (pb_t63 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t63 (F := F) d L v2 wa wb X P k).2 f)
      unfold TripRes0
      isplitl [HX]; · iexact HX
      isplitl [HP]; · iexact HP
      iexact HW
    · iintro %_ H
      unfold TripRes0
      icases H with ⟨HX, HP, HW⟩
      isplitl [HX]; · iexact HX
      isplitl [HP]; · iexact HP
      rw [pb_t63_succ]
      iexists _; isplitl [HW]; · iexact HW
      ipureintro; rw [hf, ← View.writes_append]

/-! ### loop 64 (slot 1) -/

set_option maxHeartbeats 4000000 in
/-- One trip of row loop 64 at a symbolic row: the pieces it writes into the sum slot are the run's own finds. -/
@[irreducible] def trip_t64 (d : Dev nD) (L : grid0.Coords) (v2 wa wb : BitVec 32)
    (X : BufTy.Contents (Elt F) (ibS1).view.ty) (P : BufTy.Contents (Elt F) (qV).view.ty) (k : Fin k0_t64_loop.trips) :
    { Lw : List (View.Piece (Elt F) S128x128 .f32) // ∀ (f : BufTy.Contents (Elt F) (obS1).view.ty),
      TripRes1 (F := F) d L X P f
      ⊢ wp frame (wpE (defs₀ (F := F)) 𝒱₀ (V d (cV L) (jV L)) none) Set.univ (k0_t64_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb k PUnit.unit)
          (fun _ => TripRes1 (F := F) d L X P ((obS1).view.writes (Elt F) f Lw)) } := by
  refine ⟨?_, fun f => ?run⟩
  case run =>
    unfold k0_t64_body TripRes1
    iintro ⟨HX, HP, HW⟩
    sl_exec
    sl_step
    sl_close

abbrev tripL_t64 (d : Dev nD) (L : grid0.Coords) (v2 wa wb : BitVec 32) (X : BufTy.Contents (Elt F) (ibS1).view.ty) (P : BufTy.Contents (Elt F) (qV).view.ty) (k : Fin k0_t64_loop.trips) : List (View.Piece (Elt F) S128x128 .f32) :=
  (trip_t64 (F := F) d L v2 wa wb X P k).1

@[irreducible] def pb_t64Step (d : Dev nD) (L : grid0.Coords) (v2 wa wb : BitVec 32) (X : BufTy.Contents (Elt F) (ibS1).view.ty) (P : BufTy.Contents (Elt F) (qV).view.ty) (k : ℕ) (prev : List (View.Piece (Elt F) S128x128 .f32)) : List (View.Piece (Elt F) S128x128 .f32) :=
  if h : k < k0_t64_loop.trips then (tripL_t64 (F := F) d L v2 wa wb X P ⟨k, h⟩) ++ prev else prev

/-- The pieces of the rows before k (last first). -/
def pb_t64 (d : Dev nD) (L : grid0.Coords) (v2 wa wb : BitVec 32) (X : BufTy.Contents (Elt F) (ibS1).view.ty) (P : BufTy.Contents (Elt F) (qV).view.ty) : ℕ → List (View.Piece (Elt F) S128x128 .f32)
  | 0 => []
  | k + 1 => pb_t64Step d L v2 wa wb X P k (pb_t64 d L v2 wa wb X P k)

theorem pb_t64_succ (d : Dev nD) (L : grid0.Coords) (v2 wa wb : BitVec 32) (X : BufTy.Contents (Elt F) (ibS1).view.ty) (P : BufTy.Contents (Elt F) (qV).view.ty) (k : Fin k0_t64_loop.trips) :
    pb_t64 (F := F) d L v2 wa wb X P (k.val + 1) = (tripL_t64 (F := F) d L v2 wa wb X P k) ++ (pb_t64 (F := F) d L v2 wa wb X P k.val) := by
  rw [pb_t64.eq_2]; unfold pb_t64Step; exact dif_pos k.isLt

set_option warn.classDefReducibility false in
/-- Row loop 64 by its invariant: the gathered rows and the positional rows read, the sum slot holding the pieces of the rows before k over its contents at loop entry. -/
@[sl_loop] def loopInv_t64 (d : Dev nD) (L : grid0.Coords) (v2 wa wb : BitVec 32)
    (X : BufTy.Contents (Elt F) (ibS1).view.ty) (P : BufTy.Contents (Elt F) (qV).view.ty) (G : BufTy.Contents (Elt F) (obS1).view.ty) :
    Idealize.ShloMosaic.LoopInv (M := MT nD τ sig (HIx 1) (Elt F) ℕ UU ℕ) Idealize.ShloMosaic.frame (wpE (defs₀ (F := F)) 𝒱₀ (V d (cV L) (jV L)) none) Set.univ
      k0_t64_loop.lb k0_t64_loop.ub k0_t64_loop.st k0_t64_ok () (k0_t64_body (F := F) L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1 v2 wa wb) where
  inv := fun k _ => iprop(((ibS1).view.loc (V d (cV L) (jV L)) ↦[(ibS1).view.set]{fullShare} X)
    ∗ ((qV).view.loc (V d (cV L) (jV L)) ↦[(qV).view.set]{fullShare} P)
    ∗ (∃ f, ((obS1).view.loc (V d (cV L) (jV L)) ↦[(obS1).view.set]{fullShare} f) ∗ ⌜f = (obS1).view.writes (Elt F) G (pb_t64 (F := F) d L v2 wa wb X P k)⌝))
  step k acc := by
    iintro ⟨HX, HP, ⟨%f, HW, %hf⟩⟩
    iapply (wp_wand_r Idealize.ShloMosaic.frame (wpE (defs₀ (F := F)) 𝒱₀ (V d (cV L) (jV L)) none) Set.univ)
    isplitl [HX HP HW]
    · iapply ((trip_t64 (F := F) d L v2 wa wb X P k).2 f)
      unfold TripRes1
      isplitl [HX]; · iexact HX
      isplitl [HP]; · iexact HP
      iexact HW
    · iintro %_ H
      unfold TripRes1
      icases H with ⟨HX, HP, HW⟩
      isplitl [HX]; · iexact HX
      isplitl [HP]; · iexact HP
      rw [pb_t64_succ]
      iexists _; isplitl [HW]; · iexact HW
      ipureintro; rw [hf, ← View.writes_append]

end Tile
end Cert.Proof.KB
end
-- ==== Proof.RowsValueDB.lean ====
-- The same text as RowsValueD.lean, read at the printed kernel's own namespace: Cert.Kernel for Cert.KernelIdeal throughout.
/-
  The slot of sums after each of the row loops 49 to 64.

  A row loop adds, row by row, 128 rows of the positional scratch (rows 0 … 127 for a loop of slot 0, rows 128 … 255
  for a loop of slot 1) to the gathered rows of its slot and stores the sums in the same slot of the sum scratch: trip
  k writes row k in eight stores of sixteen lanes, each the lane-wise sum of the same sixteen lanes of row k of the
  gathered rows and of row k (slot 0) or k + 128 (slot 1) of the positional scratch. Every store's payload is
  therefore the row sum on its rectangle, the eight rectangles of trip k cover row k, and after the 128 trips the slot
  reads, at (r, c), the gathered rows' entry (r, c) plus the positional scratch's entry that many rows down, whatever
  it held before. One text per loop: the loops differ in their number, their slot, and the names of their sixteen
  offsets.
-/
import proofs.«208673_g37134287241914_cont_8to1_b_302_3_alg».proof.Proof.LoopsDB
import proofs.«208673_g37134287241914_cont_8to1_b_302_3_alg».proof.Proof.RowsLib

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

set_option maxRecDepth 8192

section Tile

/-! ### the value of row loop 49 (slot 0, positional rows 0 … 127) -/

theorem trips_t49 : k0_t49_loop.trips = 128 := rfl

set_option maxHeartbeats 2000000 in
/-- Every piece of a trip of row loop 49 is the row sum on its rectangle. -/
theorem trip_pieces_t49 (d : Dev nD) (L : grid0.Coords) (v2 : BitVec 32) (X : BufTy.Contents (Elt F) (ibS0).view.ty) (P : BufTy.Contents (Elt F) (qV).view.ty) (k : Fin k0_t49_loop.trips) :
    ∀ p ∈ tripL_t49 (F := F) d L v2 X P k, ∀ x : p.1.shape.Idx, p.2 x = RowsLib.rowG (ibS0).view (qV).view X P 0 (by omega) (p.1.emb x) := by
  unfold tripL_t49 trip_t49
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off785_inb k) (k0_off785_inb k) (k0_off786_inb k) k.val (k.val + 0) 112 (k0_off785_eq k) (k0_off786_eq k) rfl _ (RowsLib.lane_sum _ _ _ _) x
  · exact fun x => RowsLib.piece_eq _ _ X P 0 _ _ _ (k0_off783_inb k) (k0_off783_inb k) (k0_off784_inb k) k.val (k.val + 0) 96 (k0_off783_eq k) (k0_off784_eq k) rfl _ (RowsLib.lane_sum _ _ _ _) x
  · exact fun x => RowsLib.piece_eq _ _ X P 0 _ _ _ (k0_off781_inb k) (k0_off781_inb k) (k0_off782_inb k) k.val (k.val + 0) 80 (k0_off781_eq k) (k0_off782_eq k) rfl _ (RowsLib.lane_sum _ _ _ _) x
  · exact fun x => RowsLib.piece_eq _ _ X P 0 _ _ _ (k0_off779_inb k) (k0_off779_inb k) (k0_off780_inb k) k.val (k.val + 0) 64 (k0_off779_eq k) (k0_off780_eq k) rfl _ (RowsLib.lane_sum _ _ _ _) x
  · exact fun x => RowsLib.piece_eq _ _ X P 0 _ _ _ (k0_off777_inb k) (k0_off777_inb k) (k0_off778_inb k) k.val (k.val + 0) 48 (k0_off777_eq k) (k0_off778_eq k) rfl _ (RowsLib.lane_sum _ _ _ _) x
  · exact fun x => RowsLib.piece_eq _ _ X P 0 _ _ _ (k0_off775_inb k) (k0_off775_inb k) (k0_off776_inb k) k.val (k.val + 0) 32 (k0_off775_eq k) (k0_off776_eq k) rfl _ (RowsLib.lane_sum _ _ _ _) x
  · exact fun x => RowsLib.piece_eq _ _ X P 0 _ _ _ (k0_off773_inb k) (k0_off773_inb k) (k0_off774_inb k) k.val (k.val + 0) 16 (k0_off773_eq k) (k0_off774_eq k) rfl _ (RowsLib.lane_sum _ _ _ _) x
  · exact fun x => RowsLib.piece_eq _ _ X P 0 _ _ _ (k0_off771_inb k) (k0_off771_inb k) (k0_off772_inb k) k.val (k.val + 0) 0 (k0_off771_eq k) (k0_off772_eq k) rfl _ (RowsLib.lane_sum _ _ _ _) x

set_option maxHeartbeats 2000000 in
/-- The eight pieces of trip k cover row k. -/
theorem trip_cover_t49 (d : Dev nD) (L : grid0.Coords) (v2 : BitVec 32) (X : BufTy.Contents (Elt F) (ibS0).view.ty) (P : BufTy.Contents (Elt F) (qV).view.ty)
    (k : Fin k0_t49_loop.trips) (r c : Fin 128) (hr : k.val = r.val) :
    ∃ p ∈ tripL_t49 (F := F) d L v2 X P k, (ValueIdx.ix2 r c : RowsLib.SS.Idx) ∈ p.1.set := by
  unfold tripL_t49 trip_t49
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off771_inb k) r c k.val 0 (k0_off771_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off773_inb k) r c k.val 16 (k0_off773_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off775_inb k) r c k.val 32 (k0_off775_eq k) hr h.1 h.2⟩
  · exact ⟨_, List.mem_cons_of_mem _ (List.mem_cons_of_mem _ (List.mem_cons_of_mem _ (List.mem_cons_of_mem _ (List.mem_cons_self)))), RowsLib.mem_unit _ (k0_off777_inb k) r c k.val 48 (k0_off777_eq k) hr h.1 h.2⟩
  · exact ⟨_, List.mem_cons_of_mem _ (List.mem_cons_of_mem _ (List.mem_cons_of_mem _ (List.mem_cons_self))), RowsLib.mem_unit _ (k0_off779_inb k) r c k.val 64 (k0_off779_eq k) hr h.1 h.2⟩
  · exact ⟨_, List.mem_cons_of_mem _ (List.mem_cons_of_mem _ (List.mem_cons_self)), RowsLib.mem_unit _ (k0_off781_inb k) r c k.val 80 (k0_off781_eq k) hr h.1 h.2⟩
  · exact ⟨_, List.mem_cons_of_mem _ (List.mem_cons_self), RowsLib.mem_unit _ (k0_off783_inb k) r c k.val 96 (k0_off783_eq k) hr h.1 h.2⟩
  · exact ⟨_, List.mem_cons_self, RowsLib.mem_unit _ (k0_off785_inb k) r c k.val 112 (k0_off785_eq k) hr h.1 h.2⟩

/-- The slot of sums after row loop 49, as the row-sum function: at (r, c) the gathered rows' entry plus the positional scratch's entry of row r + 0. -/
theorem rows_t49_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t49 (F := F) d L v2 X P 128)) (ValueIdx.ix2 r c)
      = RowsLib.rowG (ibS0).view (qV).view X P 0 (by omega) (ValueIdx.ix2 r c) :=
  RowsLib.read_writes_trips (n := k0_t49_loop.trips) (pb_t49 (F := F) d L v2 X P) (tripL_t49 (F := F) d L v2 X P) (obS0).view G _
    rfl (pb_t49_succ (F := F) d L v2 X P) (trip_pieces_t49 d L v2 X P) _ ⟨r.val, r.isLt⟩ (trip_cover_t49 d L v2 X P ⟨r.val, r.isLt⟩ r c rfl)

/-- THE SLOT OF SUMS AFTER ROW LOOP 49, whatever it held before: at (r, c) the gathered rows' entry (r, c) plus the positional
    scratch's entry (r + 0, c). -/
theorem rows_t49 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t49 (F := F) d L v2 X P (Scf.trips k0_t49_loop.lb k0_t49_loop.ub k0_t49_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t49_G d L v2 X P G r c

/-! ### the value of row loop 50 (slot 1, positional rows 128 … 255) -/

theorem trips_t50 : k0_t50_loop.trips = 128 := rfl

set_option maxHeartbeats 2000000 in
/-- Every piece of a trip of row loop 50 is the row sum on its rectangle. -/
theorem trip_pieces_t50 (d : Dev nD) (L : grid0.Coords) (v2 : BitVec 32) (X : BufTy.Contents (Elt F) (ibS1).view.ty) (P : BufTy.Contents (Elt F) (qV).view.ty) (k : Fin k0_t50_loop.trips) :
    ∀ p ∈ tripL_t50 (F := F) d L v2 X P k, ∀ x : p.1.shape.Idx, p.2 x = RowsLib.rowG (ibS1).view (qV).view X P 128 (by omega) (p.1.emb x) := by
  unfold tripL_t50 trip_t50
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off801_inb k) (k0_off801_inb k) (k0_off802_inb k) k.val (k.val + 128) 112 (k0_off801_eq k) (k0_off802_eq k) rfl _ (RowsLib.lane_sum _ _ _ _) x
  · exact fun x => RowsLib.piece_eq _ _ X P 128 _ _ _ (k0_off799_inb k) (k0_off799_inb k) (k0_off800_inb k) k.val (k.val + 128) 96 (k0_off799_eq k) (k0_off800_eq k) rfl _ (RowsLib.lane_sum _ _ _ _) x
  · exact fun x => RowsLib.piece_eq _ _ X P 128 _ _ _ (k0_off797_inb k) (k0_off797_inb k) (k0_off798_inb k) k.val (k.val + 128) 80 (k0_off797_eq k) (k0_off798_eq k) rfl _ (RowsLib.lane_sum _ _ _ _) x
  · exact fun x => RowsLib.piece_eq _ _ X P 128 _ _ _ (k0_off795_inb k) (k0_off795_inb k) (k0_off796_inb k) k.val (k.val + 128) 64 (k0_off795_eq k) (k0_off796_eq k) rfl _ (RowsLib.lane_sum _ _ _ _) x
  · exact fun x => RowsLib.piece_eq _ _ X P 128 _ _ _ (k0_off793_inb k) (k0_off793_inb k) (k0_off794_inb k) k.val (k.val + 128) 48 (k0_off793_eq k) (k0_off794_eq k) rfl _ (RowsLib.lane_sum _ _ _ _) x
  · exact fun x => RowsLib.piece_eq _ _ X P 128 _ _ _ (k0_off791_inb k) (k0_off791_inb k) (k0_off792_inb k) k.val (k.val + 128) 32 (k0_off791_eq k) (k0_off792_eq k) rfl _ (RowsLib.lane_sum _ _ _ _) x
  · exact fun x => RowsLib.piece_eq _ _ X P 128 _ _ _ (k0_off789_inb k) (k0_off789_inb k) (k0_off790_inb k) k.val (k.val + 128) 16 (k0_off789_eq k) (k0_off790_eq k) rfl _ (RowsLib.lane_sum _ _ _ _) x
  · exact fun x => RowsLib.piece_eq _ _ X P 128 _ _ _ (k0_off787_inb k) (k0_off787_inb k) (k0_off788_inb k) k.val (k.val + 128) 0 (k0_off787_eq k) (k0_off788_eq k) rfl _ (RowsLib.lane_sum _ _ _ _) x

set_option maxHeartbeats 2000000 in
/-- The eight pieces of trip k cover row k. -/
theorem trip_cover_t50 (d : Dev nD) (L : grid0.Coords) (v2 : BitVec 32) (X : BufTy.Contents (Elt F) (ibS1).view.ty) (P : BufTy.Contents (Elt F) (qV).view.ty)
    (k : Fin k0_t50_loop.trips) (r c : Fin 128) (hr : k.val = r.val) :
    ∃ p ∈ tripL_t50 (F := F) d L v2 X P k, (ValueIdx.ix2 r c : RowsLib.SS.Idx) ∈ p.1.set := by
  unfold tripL_t50 trip_t50
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off787_inb k) r c k.val 0 (k0_off787_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off789_inb k) r c k.val 16 (k0_off789_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off791_inb k) r c k.val 32 (k0_off791_eq k) hr h.1 h.2⟩
  · exact ⟨_, List.mem_cons_of_mem _ (List.mem_cons_of_mem _ (List.mem_cons_of_mem _ (List.mem_cons_of_mem _ (List.mem_cons_self)))), RowsLib.mem_unit _ (k0_off793_inb k) r c k.val 48 (k0_off793_eq k) hr h.1 h.2⟩
  · exact ⟨_, List.mem_cons_of_mem _ (List.mem_cons_of_mem _ (List.mem_cons_of_mem _ (List.mem_cons_self))), RowsLib.mem_unit _ (k0_off795_inb k) r c k.val 64 (k0_off795_eq k) hr h.1 h.2⟩
  · exact ⟨_, List.mem_cons_of_mem _ (List.mem_cons_of_mem _ (List.mem_cons_self)), RowsLib.mem_unit _ (k0_off797_inb k) r c k.val 80 (k0_off797_eq k) hr h.1 h.2⟩
  · exact ⟨_, List.mem_cons_of_mem _ (List.mem_cons_self), RowsLib.mem_unit _ (k0_off799_inb k) r c k.val 96 (k0_off799_eq k) hr h.1 h.2⟩
  · exact ⟨_, List.mem_cons_self, RowsLib.mem_unit _ (k0_off801_inb k) r c k.val 112 (k0_off801_eq k) hr h.1 h.2⟩

/-- The slot of sums after row loop 50, as the row-sum function: at (r, c) the gathered rows' entry plus the positional scratch's entry of row r + 128. -/
theorem rows_t50_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t50 (F := F) d L v2 X P 128)) (ValueIdx.ix2 r c)
      = RowsLib.rowG (ibS1).view (qV).view X P 128 (by omega) (ValueIdx.ix2 r c) :=
  RowsLib.read_writes_trips (n := k0_t50_loop.trips) (pb_t50 (F := F) d L v2 X P) (tripL_t50 (F := F) d L v2 X P) (obS1).view G _
    rfl (pb_t50_succ (F := F) d L v2 X P) (trip_pieces_t50 d L v2 X P) _ ⟨r.val, r.isLt⟩ (trip_cover_t50 d L v2 X P ⟨r.val, r.isLt⟩ r c rfl)

/-- THE SLOT OF SUMS AFTER ROW LOOP 50, whatever it held before: at (r, c) the gathered rows' entry (r, c) plus the positional
    scratch's entry (r + 128, c). -/
theorem rows_t50 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t50 (F := F) d L v2 X P (Scf.trips k0_t50_loop.lb k0_t50_loop.ub k0_t50_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t50_G d L v2 X P G r c

/-! ### the value of row loop 51 (slot 0, positional rows 0 … 127) -/

theorem trips_t51 : k0_t51_loop.trips = 128 := rfl

set_option maxHeartbeats 2000000 in
/-- Every piece of a trip of row loop 51 is the row sum on its rectangle. -/
theorem trip_pieces_t51 (d : Dev nD) (L : grid0.Coords) (v2 : BitVec 32) (X : BufTy.Contents (Elt F) (ibS0).view.ty) (P : BufTy.Contents (Elt F) (qV).view.ty) (k : Fin k0_t51_loop.trips) :
    ∀ p ∈ tripL_t51 (F := F) d L v2 X P k, ∀ x : p.1.shape.Idx, p.2 x = RowsLib.rowG (ibS0).view (qV).view X P 0 (by omega) (p.1.emb x) := by
  unfold tripL_t51 trip_t51
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off817_inb k) (k0_off817_inb k) (k0_off818_inb k) k.val (k.val + 0) 112 (k0_off817_eq k) (k0_off818_eq k) rfl _ (RowsLib.lane_sum _ _ _ _) x
  · exact fun x => RowsLib.piece_eq _ _ X P 0 _ _ _ (k0_off815_inb k) (k0_off815_inb k) (k0_off816_inb k) k.val (k.val + 0) 96 (k0_off815_eq k) (k0_off816_eq k) rfl _ (RowsLib.lane_sum _ _ _ _) x
  · exact fun x => RowsLib.piece_eq _ _ X P 0 _ _ _ (k0_off813_inb k) (k0_off813_inb k) (k0_off814_inb k) k.val (k.val + 0) 80 (k0_off813_eq k) (k0_off814_eq k) rfl _ (RowsLib.lane_sum _ _ _ _) x
  · exact fun x => RowsLib.piece_eq _ _ X P 0 _ _ _ (k0_off811_inb k) (k0_off811_inb k) (k0_off812_inb k) k.val (k.val + 0) 64 (k0_off811_eq k) (k0_off812_eq k) rfl _ (RowsLib.lane_sum _ _ _ _) x
  · exact fun x => RowsLib.piece_eq _ _ X P 0 _ _ _ (k0_off809_inb k) (k0_off809_inb k) (k0_off810_inb k) k.val (k.val + 0) 48 (k0_off809_eq k) (k0_off810_eq k) rfl _ (RowsLib.lane_sum _ _ _ _) x
  · exact fun x => RowsLib.piece_eq _ _ X P 0 _ _ _ (k0_off807_inb k) (k0_off807_inb k) (k0_off808_inb k) k.val (k.val + 0) 32 (k0_off807_eq k) (k0_off808_eq k) rfl _ (RowsLib.lane_sum _ _ _ _) x
  · exact fun x => RowsLib.piece_eq _ _ X P 0 _ _ _ (k0_off805_inb k) (k0_off805_inb k) (k0_off806_inb k) k.val (k.val + 0) 16 (k0_off805_eq k) (k0_off806_eq k) rfl _ (RowsLib.lane_sum _ _ _ _) x
  · exact fun x => RowsLib.piece_eq _ _ X P 0 _ _ _ (k0_off803_inb k) (k0_off803_inb k) (k0_off804_inb k) k.val (k.val + 0) 0 (k0_off803_eq k) (k0_off804_eq k) rfl _ (RowsLib.lane_sum _ _ _ _) x

set_option maxHeartbeats 2000000 in
/-- The eight pieces of trip k cover row k. -/
theorem trip_cover_t51 (d : Dev nD) (L : grid0.Coords) (v2 : BitVec 32) (X : BufTy.Contents (Elt F) (ibS0).view.ty) (P : BufTy.Contents (Elt F) (qV).view.ty)
    (k : Fin k0_t51_loop.trips) (r c : Fin 128) (hr : k.val = r.val) :
    ∃ p ∈ tripL_t51 (F := F) d L v2 X P k, (ValueIdx.ix2 r c : RowsLib.SS.Idx) ∈ p.1.set := by
  unfold tripL_t51 trip_t51
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off803_inb k) r c k.val 0 (k0_off803_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off805_inb k) r c k.val 16 (k0_off805_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off807_inb k) r c k.val 32 (k0_off807_eq k) hr h.1 h.2⟩
  · exact ⟨_, List.mem_cons_of_mem _ (List.mem_cons_of_mem _ (List.mem_cons_of_mem _ (List.mem_cons_of_mem _ (List.mem_cons_self)))), RowsLib.mem_unit _ (k0_off809_inb k) r c k.val 48 (k0_off809_eq k) hr h.1 h.2⟩
  · exact ⟨_, List.mem_cons_of_mem _ (List.mem_cons_of_mem _ (List.mem_cons_of_mem _ (List.mem_cons_self))), RowsLib.mem_unit _ (k0_off811_inb k) r c k.val 64 (k0_off811_eq k) hr h.1 h.2⟩
  · exact ⟨_, List.mem_cons_of_mem _ (List.mem_cons_of_mem _ (List.mem_cons_self)), RowsLib.mem_unit _ (k0_off813_inb k) r c k.val 80 (k0_off813_eq k) hr h.1 h.2⟩
  · exact ⟨_, List.mem_cons_of_mem _ (List.mem_cons_self), RowsLib.mem_unit _ (k0_off815_inb k) r c k.val 96 (k0_off815_eq k) hr h.1 h.2⟩
  · exact ⟨_, List.mem_cons_self, RowsLib.mem_unit _ (k0_off817_inb k) r c k.val 112 (k0_off817_eq k) hr h.1 h.2⟩

/-- The slot of sums after row loop 51, as the row-sum function: at (r, c) the gathered rows' entry plus the positional scratch's entry of row r + 0. -/
theorem rows_t51_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t51 (F := F) d L v2 X P 128)) (ValueIdx.ix2 r c)
      = RowsLib.rowG (ibS0).view (qV).view X P 0 (by omega) (ValueIdx.ix2 r c) :=
  RowsLib.read_writes_trips (n := k0_t51_loop.trips) (pb_t51 (F := F) d L v2 X P) (tripL_t51 (F := F) d L v2 X P) (obS0).view G _
    rfl (pb_t51_succ (F := F) d L v2 X P) (trip_pieces_t51 d L v2 X P) _ ⟨r.val, r.isLt⟩ (trip_cover_t51 d L v2 X P ⟨r.val, r.isLt⟩ r c rfl)

/-- THE SLOT OF SUMS AFTER ROW LOOP 51, whatever it held before: at (r, c) the gathered rows' entry (r, c) plus the positional
    scratch's entry (r + 0, c). -/
theorem rows_t51 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t51 (F := F) d L v2 X P (Scf.trips k0_t51_loop.lb k0_t51_loop.ub k0_t51_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t51_G d L v2 X P G r c

/-! ### the value of row loop 52 (slot 1, positional rows 128 … 255) -/

theorem trips_t52 : k0_t52_loop.trips = 128 := rfl

set_option maxHeartbeats 2000000 in
/-- Every piece of a trip of row loop 52 is the row sum on its rectangle. -/
theorem trip_pieces_t52 (d : Dev nD) (L : grid0.Coords) (v2 : BitVec 32) (X : BufTy.Contents (Elt F) (ibS1).view.ty) (P : BufTy.Contents (Elt F) (qV).view.ty) (k : Fin k0_t52_loop.trips) :
    ∀ p ∈ tripL_t52 (F := F) d L v2 X P k, ∀ x : p.1.shape.Idx, p.2 x = RowsLib.rowG (ibS1).view (qV).view X P 128 (by omega) (p.1.emb x) := by
  unfold tripL_t52 trip_t52
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off833_inb k) (k0_off833_inb k) (k0_off834_inb k) k.val (k.val + 128) 112 (k0_off833_eq k) (k0_off834_eq k) rfl _ (RowsLib.lane_sum _ _ _ _) x
  · exact fun x => RowsLib.piece_eq _ _ X P 128 _ _ _ (k0_off831_inb k) (k0_off831_inb k) (k0_off832_inb k) k.val (k.val + 128) 96 (k0_off831_eq k) (k0_off832_eq k) rfl _ (RowsLib.lane_sum _ _ _ _) x
  · exact fun x => RowsLib.piece_eq _ _ X P 128 _ _ _ (k0_off829_inb k) (k0_off829_inb k) (k0_off830_inb k) k.val (k.val + 128) 80 (k0_off829_eq k) (k0_off830_eq k) rfl _ (RowsLib.lane_sum _ _ _ _) x
  · exact fun x => RowsLib.piece_eq _ _ X P 128 _ _ _ (k0_off827_inb k) (k0_off827_inb k) (k0_off828_inb k) k.val (k.val + 128) 64 (k0_off827_eq k) (k0_off828_eq k) rfl _ (RowsLib.lane_sum _ _ _ _) x
  · exact fun x => RowsLib.piece_eq _ _ X P 128 _ _ _ (k0_off825_inb k) (k0_off825_inb k) (k0_off826_inb k) k.val (k.val + 128) 48 (k0_off825_eq k) (k0_off826_eq k) rfl _ (RowsLib.lane_sum _ _ _ _) x
  · exact fun x => RowsLib.piece_eq _ _ X P 128 _ _ _ (k0_off823_inb k) (k0_off823_inb k) (k0_off824_inb k) k.val (k.val + 128) 32 (k0_off823_eq k) (k0_off824_eq k) rfl _ (RowsLib.lane_sum _ _ _ _) x
  · exact fun x => RowsLib.piece_eq _ _ X P 128 _ _ _ (k0_off821_inb k) (k0_off821_inb k) (k0_off822_inb k) k.val (k.val + 128) 16 (k0_off821_eq k) (k0_off822_eq k) rfl _ (RowsLib.lane_sum _ _ _ _) x
  · exact fun x => RowsLib.piece_eq _ _ X P 128 _ _ _ (k0_off819_inb k) (k0_off819_inb k) (k0_off820_inb k) k.val (k.val + 128) 0 (k0_off819_eq k) (k0_off820_eq k) rfl _ (RowsLib.lane_sum _ _ _ _) x

set_option maxHeartbeats 2000000 in
/-- The eight pieces of trip k cover row k. -/
theorem trip_cover_t52 (d : Dev nD) (L : grid0.Coords) (v2 : BitVec 32) (X : BufTy.Contents (Elt F) (ibS1).view.ty) (P : BufTy.Contents (Elt F) (qV).view.ty)
    (k : Fin k0_t52_loop.trips) (r c : Fin 128) (hr : k.val = r.val) :
    ∃ p ∈ tripL_t52 (F := F) d L v2 X P k, (ValueIdx.ix2 r c : RowsLib.SS.Idx) ∈ p.1.set := by
  unfold tripL_t52 trip_t52
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off819_inb k) r c k.val 0 (k0_off819_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off821_inb k) r c k.val 16 (k0_off821_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off823_inb k) r c k.val 32 (k0_off823_eq k) hr h.1 h.2⟩
  · exact ⟨_, List.mem_cons_of_mem _ (List.mem_cons_of_mem _ (List.mem_cons_of_mem _ (List.mem_cons_of_mem _ (List.mem_cons_self)))), RowsLib.mem_unit _ (k0_off825_inb k) r c k.val 48 (k0_off825_eq k) hr h.1 h.2⟩
  · exact ⟨_, List.mem_cons_of_mem _ (List.mem_cons_of_mem _ (List.mem_cons_of_mem _ (List.mem_cons_self))), RowsLib.mem_unit _ (k0_off827_inb k) r c k.val 64 (k0_off827_eq k) hr h.1 h.2⟩
  · exact ⟨_, List.mem_cons_of_mem _ (List.mem_cons_of_mem _ (List.mem_cons_self)), RowsLib.mem_unit _ (k0_off829_inb k) r c k.val 80 (k0_off829_eq k) hr h.1 h.2⟩
  · exact ⟨_, List.mem_cons_of_mem _ (List.mem_cons_self), RowsLib.mem_unit _ (k0_off831_inb k) r c k.val 96 (k0_off831_eq k) hr h.1 h.2⟩
  · exact ⟨_, List.mem_cons_self, RowsLib.mem_unit _ (k0_off833_inb k) r c k.val 112 (k0_off833_eq k) hr h.1 h.2⟩

/-- The slot of sums after row loop 52, as the row-sum function: at (r, c) the gathered rows' entry plus the positional scratch's entry of row r + 128. -/
theorem rows_t52_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t52 (F := F) d L v2 X P 128)) (ValueIdx.ix2 r c)
      = RowsLib.rowG (ibS1).view (qV).view X P 128 (by omega) (ValueIdx.ix2 r c) :=
  RowsLib.read_writes_trips (n := k0_t52_loop.trips) (pb_t52 (F := F) d L v2 X P) (tripL_t52 (F := F) d L v2 X P) (obS1).view G _
    rfl (pb_t52_succ (F := F) d L v2 X P) (trip_pieces_t52 d L v2 X P) _ ⟨r.val, r.isLt⟩ (trip_cover_t52 d L v2 X P ⟨r.val, r.isLt⟩ r c rfl)

/-- THE SLOT OF SUMS AFTER ROW LOOP 52, whatever it held before: at (r, c) the gathered rows' entry (r, c) plus the positional
    scratch's entry (r + 128, c). -/
theorem rows_t52 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t52 (F := F) d L v2 X P (Scf.trips k0_t52_loop.lb k0_t52_loop.ub k0_t52_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t52_G d L v2 X P G r c

/-! ### the value of row loop 53 (slot 0, positional rows 0 … 127) -/

theorem trips_t53 : k0_t53_loop.trips = 128 := rfl

set_option maxHeartbeats 2000000 in
/-- Every piece of a trip of row loop 53 is the row sum on its rectangle. -/
theorem trip_pieces_t53 (d : Dev nD) (L : grid0.Coords) (v2 wa wb : BitVec 32) (X : BufTy.Contents (Elt F) (ibS0).view.ty) (P : BufTy.Contents (Elt F) (qV).view.ty) (k : Fin k0_t53_loop.trips) :
    ∀ p ∈ tripL_t53 (F := F) d L v2 wa wb X P k, ∀ x : p.1.shape.Idx, p.2 x = RowsLib.rowG (ibS0).view (qV).view X P 0 (by omega) (p.1.emb x) := by
  unfold tripL_t53 trip_t53
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off849_inb k) (k0_off849_inb k) (k0_off850_inb k) k.val (k.val + 0) 112 (k0_off849_eq k) (k0_off850_eq k) rfl _ (RowsLib.lane_sum _ _ _ _) x
  · exact fun x => RowsLib.piece_eq _ _ X P 0 _ _ _ (k0_off847_inb k) (k0_off847_inb k) (k0_off848_inb k) k.val (k.val + 0) 96 (k0_off847_eq k) (k0_off848_eq k) rfl _ (RowsLib.lane_sum _ _ _ _) x
  · exact fun x => RowsLib.piece_eq _ _ X P 0 _ _ _ (k0_off845_inb k) (k0_off845_inb k) (k0_off846_inb k) k.val (k.val + 0) 80 (k0_off845_eq k) (k0_off846_eq k) rfl _ (RowsLib.lane_sum _ _ _ _) x
  · exact fun x => RowsLib.piece_eq _ _ X P 0 _ _ _ (k0_off843_inb k) (k0_off843_inb k) (k0_off844_inb k) k.val (k.val + 0) 64 (k0_off843_eq k) (k0_off844_eq k) rfl _ (RowsLib.lane_sum _ _ _ _) x
  · exact fun x => RowsLib.piece_eq _ _ X P 0 _ _ _ (k0_off841_inb k) (k0_off841_inb k) (k0_off842_inb k) k.val (k.val + 0) 48 (k0_off841_eq k) (k0_off842_eq k) rfl _ (RowsLib.lane_sum _ _ _ _) x
  · exact fun x => RowsLib.piece_eq _ _ X P 0 _ _ _ (k0_off839_inb k) (k0_off839_inb k) (k0_off840_inb k) k.val (k.val + 0) 32 (k0_off839_eq k) (k0_off840_eq k) rfl _ (RowsLib.lane_sum _ _ _ _) x
  · exact fun x => RowsLib.piece_eq _ _ X P 0 _ _ _ (k0_off837_inb k) (k0_off837_inb k) (k0_off838_inb k) k.val (k.val + 0) 16 (k0_off837_eq k) (k0_off838_eq k) rfl _ (RowsLib.lane_sum _ _ _ _) x
  · exact fun x => RowsLib.piece_eq _ _ X P 0 _ _ _ (k0_off835_inb k) (k0_off835_inb k) (k0_off836_inb k) k.val (k.val + 0) 0 (k0_off835_eq k) (k0_off836_eq k) rfl _ (RowsLib.lane_sum _ _ _ _) x

set_option maxHeartbeats 2000000 in
/-- The eight pieces of trip k cover row k. -/
theorem trip_cover_t53 (d : Dev nD) (L : grid0.Coords) (v2 wa wb : BitVec 32) (X : BufTy.Contents (Elt F) (ibS0).view.ty) (P : BufTy.Contents (Elt F) (qV).view.ty)
    (k : Fin k0_t53_loop.trips) (r c : Fin 128) (hr : k.val = r.val) :
    ∃ p ∈ tripL_t53 (F := F) d L v2 wa wb X P k, (ValueIdx.ix2 r c : RowsLib.SS.Idx) ∈ p.1.set := by
  unfold tripL_t53 trip_t53
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off835_inb k) r c k.val 0 (k0_off835_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off837_inb k) r c k.val 16 (k0_off837_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off839_inb k) r c k.val 32 (k0_off839_eq k) hr h.1 h.2⟩
  · exact ⟨_, List.mem_cons_of_mem _ (List.mem_cons_of_mem _ (List.mem_cons_of_mem _ (List.mem_cons_of_mem _ (List.mem_cons_self)))), RowsLib.mem_unit _ (k0_off841_inb k) r c k.val 48 (k0_off841_eq k) hr h.1 h.2⟩
  · exact ⟨_, List.mem_cons_of_mem _ (List.mem_cons_of_mem _ (List.mem_cons_of_mem _ (List.mem_cons_self))), RowsLib.mem_unit _ (k0_off843_inb k) r c k.val 64 (k0_off843_eq k) hr h.1 h.2⟩
  · exact ⟨_, List.mem_cons_of_mem _ (List.mem_cons_of_mem _ (List.mem_cons_self)), RowsLib.mem_unit _ (k0_off845_inb k) r c k.val 80 (k0_off845_eq k) hr h.1 h.2⟩
  · exact ⟨_, List.mem_cons_of_mem _ (List.mem_cons_self), RowsLib.mem_unit _ (k0_off847_inb k) r c k.val 96 (k0_off847_eq k) hr h.1 h.2⟩
  · exact ⟨_, List.mem_cons_self, RowsLib.mem_unit _ (k0_off849_inb k) r c k.val 112 (k0_off849_eq k) hr h.1 h.2⟩

/-- The slot of sums after row loop 53, as the row-sum function: at (r, c) the gathered rows' entry plus the positional scratch's entry of row r + 0. -/
theorem rows_t53_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t53 (F := F) d L v2 wa wb X P 128)) (ValueIdx.ix2 r c)
      = RowsLib.rowG (ibS0).view (qV).view X P 0 (by omega) (ValueIdx.ix2 r c) :=
  RowsLib.read_writes_trips (n := k0_t53_loop.trips) (pb_t53 (F := F) d L v2 wa wb X P) (tripL_t53 (F := F) d L v2 wa wb X P) (obS0).view G _
    rfl (pb_t53_succ (F := F) d L v2 wa wb X P) (trip_pieces_t53 d L v2 wa wb X P) _ ⟨r.val, r.isLt⟩ (trip_cover_t53 d L v2 wa wb X P ⟨r.val, r.isLt⟩ r c rfl)

/-- THE SLOT OF SUMS AFTER ROW LOOP 53, whatever it held before: at (r, c) the gathered rows' entry (r, c) plus the positional
    scratch's entry (r + 0, c). -/
theorem rows_t53 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t53 (F := F) d L v2 wa wb X P (Scf.trips k0_t53_loop.lb k0_t53_loop.ub k0_t53_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t53_G d L v2 wa wb X P G r c

/-! ### the value of row loop 54 (slot 1, positional rows 128 … 255) -/

theorem trips_t54 : k0_t54_loop.trips = 128 := rfl

set_option maxHeartbeats 2000000 in
/-- Every piece of a trip of row loop 54 is the row sum on its rectangle. -/
theorem trip_pieces_t54 (d : Dev nD) (L : grid0.Coords) (v2 : BitVec 32) (X : BufTy.Contents (Elt F) (ibS1).view.ty) (P : BufTy.Contents (Elt F) (qV).view.ty) (k : Fin k0_t54_loop.trips) :
    ∀ p ∈ tripL_t54 (F := F) d L v2 X P k, ∀ x : p.1.shape.Idx, p.2 x = RowsLib.rowG (ibS1).view (qV).view X P 128 (by omega) (p.1.emb x) := by
  unfold tripL_t54 trip_t54
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off865_inb k) (k0_off865_inb k) (k0_off866_inb k) k.val (k.val + 128) 112 (k0_off865_eq k) (k0_off866_eq k) rfl _ (RowsLib.lane_sum _ _ _ _) x
  · exact fun x => RowsLib.piece_eq _ _ X P 128 _ _ _ (k0_off863_inb k) (k0_off863_inb k) (k0_off864_inb k) k.val (k.val + 128) 96 (k0_off863_eq k) (k0_off864_eq k) rfl _ (RowsLib.lane_sum _ _ _ _) x
  · exact fun x => RowsLib.piece_eq _ _ X P 128 _ _ _ (k0_off861_inb k) (k0_off861_inb k) (k0_off862_inb k) k.val (k.val + 128) 80 (k0_off861_eq k) (k0_off862_eq k) rfl _ (RowsLib.lane_sum _ _ _ _) x
  · exact fun x => RowsLib.piece_eq _ _ X P 128 _ _ _ (k0_off859_inb k) (k0_off859_inb k) (k0_off860_inb k) k.val (k.val + 128) 64 (k0_off859_eq k) (k0_off860_eq k) rfl _ (RowsLib.lane_sum _ _ _ _) x
  · exact fun x => RowsLib.piece_eq _ _ X P 128 _ _ _ (k0_off857_inb k) (k0_off857_inb k) (k0_off858_inb k) k.val (k.val + 128) 48 (k0_off857_eq k) (k0_off858_eq k) rfl _ (RowsLib.lane_sum _ _ _ _) x
  · exact fun x => RowsLib.piece_eq _ _ X P 128 _ _ _ (k0_off855_inb k) (k0_off855_inb k) (k0_off856_inb k) k.val (k.val + 128) 32 (k0_off855_eq k) (k0_off856_eq k) rfl _ (RowsLib.lane_sum _ _ _ _) x
  · exact fun x => RowsLib.piece_eq _ _ X P 128 _ _ _ (k0_off853_inb k) (k0_off853_inb k) (k0_off854_inb k) k.val (k.val + 128) 16 (k0_off853_eq k) (k0_off854_eq k) rfl _ (RowsLib.lane_sum _ _ _ _) x
  · exact fun x => RowsLib.piece_eq _ _ X P 128 _ _ _ (k0_off851_inb k) (k0_off851_inb k) (k0_off852_inb k) k.val (k.val + 128) 0 (k0_off851_eq k) (k0_off852_eq k) rfl _ (RowsLib.lane_sum _ _ _ _) x

set_option maxHeartbeats 2000000 in
/-- The eight pieces of trip k cover row k. -/
theorem trip_cover_t54 (d : Dev nD) (L : grid0.Coords) (v2 : BitVec 32) (X : BufTy.Contents (Elt F) (ibS1).view.ty) (P : BufTy.Contents (Elt F) (qV).view.ty)
    (k : Fin k0_t54_loop.trips) (r c : Fin 128) (hr : k.val = r.val) :
    ∃ p ∈ tripL_t54 (F := F) d L v2 X P k, (ValueIdx.ix2 r c : RowsLib.SS.Idx) ∈ p.1.set := by
  unfold tripL_t54 trip_t54
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off851_inb k) r c k.val 0 (k0_off851_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off853_inb k) r c k.val 16 (k0_off853_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off855_inb k) r c k.val 32 (k0_off855_eq k) hr h.1 h.2⟩
  · exact ⟨_, List.mem_cons_of_mem _ (List.mem_cons_of_mem _ (List.mem_cons_of_mem _ (List.mem_cons_of_mem _ (List.mem_cons_self)))), RowsLib.mem_unit _ (k0_off857_inb k) r c k.val 48 (k0_off857_eq k) hr h.1 h.2⟩
  · exact ⟨_, List.mem_cons_of_mem _ (List.mem_cons_of_mem _ (List.mem_cons_of_mem _ (List.mem_cons_self))), RowsLib.mem_unit _ (k0_off859_inb k) r c k.val 64 (k0_off859_eq k) hr h.1 h.2⟩
  · exact ⟨_, List.mem_cons_of_mem _ (List.mem_cons_of_mem _ (List.mem_cons_self)), RowsLib.mem_unit _ (k0_off861_inb k) r c k.val 80 (k0_off861_eq k) hr h.1 h.2⟩
  · exact ⟨_, List.mem_cons_of_mem _ (List.mem_cons_self), RowsLib.mem_unit _ (k0_off863_inb k) r c k.val 96 (k0_off863_eq k) hr h.1 h.2⟩
  · exact ⟨_, List.mem_cons_self, RowsLib.mem_unit _ (k0_off865_inb k) r c k.val 112 (k0_off865_eq k) hr h.1 h.2⟩

/-- The slot of sums after row loop 54, as the row-sum function: at (r, c) the gathered rows' entry plus the positional scratch's entry of row r + 128. -/
theorem rows_t54_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t54 (F := F) d L v2 X P 128)) (ValueIdx.ix2 r c)
      = RowsLib.rowG (ibS1).view (qV).view X P 128 (by omega) (ValueIdx.ix2 r c) :=
  RowsLib.read_writes_trips (n := k0_t54_loop.trips) (pb_t54 (F := F) d L v2 X P) (tripL_t54 (F := F) d L v2 X P) (obS1).view G _
    rfl (pb_t54_succ (F := F) d L v2 X P) (trip_pieces_t54 d L v2 X P) _ ⟨r.val, r.isLt⟩ (trip_cover_t54 d L v2 X P ⟨r.val, r.isLt⟩ r c rfl)

/-- THE SLOT OF SUMS AFTER ROW LOOP 54, whatever it held before: at (r, c) the gathered rows' entry (r, c) plus the positional
    scratch's entry (r + 128, c). -/
theorem rows_t54 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t54 (F := F) d L v2 X P (Scf.trips k0_t54_loop.lb k0_t54_loop.ub k0_t54_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t54_G d L v2 X P G r c

/-! ### the value of row loop 55 (slot 0, positional rows 0 … 127) -/

theorem trips_t55 : k0_t55_loop.trips = 128 := rfl

set_option maxHeartbeats 2000000 in
/-- Every piece of a trip of row loop 55 is the row sum on its rectangle. -/
theorem trip_pieces_t55 (d : Dev nD) (L : grid0.Coords) (v2 : BitVec 32) (X : BufTy.Contents (Elt F) (ibS0).view.ty) (P : BufTy.Contents (Elt F) (qV).view.ty) (k : Fin k0_t55_loop.trips) :
    ∀ p ∈ tripL_t55 (F := F) d L v2 X P k, ∀ x : p.1.shape.Idx, p.2 x = RowsLib.rowG (ibS0).view (qV).view X P 0 (by omega) (p.1.emb x) := by
  unfold tripL_t55 trip_t55
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off881_inb k) (k0_off881_inb k) (k0_off882_inb k) k.val (k.val + 0) 112 (k0_off881_eq k) (k0_off882_eq k) rfl _ (RowsLib.lane_sum _ _ _ _) x
  · exact fun x => RowsLib.piece_eq _ _ X P 0 _ _ _ (k0_off879_inb k) (k0_off879_inb k) (k0_off880_inb k) k.val (k.val + 0) 96 (k0_off879_eq k) (k0_off880_eq k) rfl _ (RowsLib.lane_sum _ _ _ _) x
  · exact fun x => RowsLib.piece_eq _ _ X P 0 _ _ _ (k0_off877_inb k) (k0_off877_inb k) (k0_off878_inb k) k.val (k.val + 0) 80 (k0_off877_eq k) (k0_off878_eq k) rfl _ (RowsLib.lane_sum _ _ _ _) x
  · exact fun x => RowsLib.piece_eq _ _ X P 0 _ _ _ (k0_off875_inb k) (k0_off875_inb k) (k0_off876_inb k) k.val (k.val + 0) 64 (k0_off875_eq k) (k0_off876_eq k) rfl _ (RowsLib.lane_sum _ _ _ _) x
  · exact fun x => RowsLib.piece_eq _ _ X P 0 _ _ _ (k0_off873_inb k) (k0_off873_inb k) (k0_off874_inb k) k.val (k.val + 0) 48 (k0_off873_eq k) (k0_off874_eq k) rfl _ (RowsLib.lane_sum _ _ _ _) x
  · exact fun x => RowsLib.piece_eq _ _ X P 0 _ _ _ (k0_off871_inb k) (k0_off871_inb k) (k0_off872_inb k) k.val (k.val + 0) 32 (k0_off871_eq k) (k0_off872_eq k) rfl _ (RowsLib.lane_sum _ _ _ _) x
  · exact fun x => RowsLib.piece_eq _ _ X P 0 _ _ _ (k0_off869_inb k) (k0_off869_inb k) (k0_off870_inb k) k.val (k.val + 0) 16 (k0_off869_eq k) (k0_off870_eq k) rfl _ (RowsLib.lane_sum _ _ _ _) x
  · exact fun x => RowsLib.piece_eq _ _ X P 0 _ _ _ (k0_off867_inb k) (k0_off867_inb k) (k0_off868_inb k) k.val (k.val + 0) 0 (k0_off867_eq k) (k0_off868_eq k) rfl _ (RowsLib.lane_sum _ _ _ _) x

set_option maxHeartbeats 2000000 in
/-- The eight pieces of trip k cover row k. -/
theorem trip_cover_t55 (d : Dev nD) (L : grid0.Coords) (v2 : BitVec 32) (X : BufTy.Contents (Elt F) (ibS0).view.ty) (P : BufTy.Contents (Elt F) (qV).view.ty)
    (k : Fin k0_t55_loop.trips) (r c : Fin 128) (hr : k.val = r.val) :
    ∃ p ∈ tripL_t55 (F := F) d L v2 X P k, (ValueIdx.ix2 r c : RowsLib.SS.Idx) ∈ p.1.set := by
  unfold tripL_t55 trip_t55
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off867_inb k) r c k.val 0 (k0_off867_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off869_inb k) r c k.val 16 (k0_off869_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off871_inb k) r c k.val 32 (k0_off871_eq k) hr h.1 h.2⟩
  · exact ⟨_, List.mem_cons_of_mem _ (List.mem_cons_of_mem _ (List.mem_cons_of_mem _ (List.mem_cons_of_mem _ (List.mem_cons_self)))), RowsLib.mem_unit _ (k0_off873_inb k) r c k.val 48 (k0_off873_eq k) hr h.1 h.2⟩
  · exact ⟨_, List.mem_cons_of_mem _ (List.mem_cons_of_mem _ (List.mem_cons_of_mem _ (List.mem_cons_self))), RowsLib.mem_unit _ (k0_off875_inb k) r c k.val 64 (k0_off875_eq k) hr h.1 h.2⟩
  · exact ⟨_, List.mem_cons_of_mem _ (List.mem_cons_of_mem _ (List.mem_cons_self)), RowsLib.mem_unit _ (k0_off877_inb k) r c k.val 80 (k0_off877_eq k) hr h.1 h.2⟩
  · exact ⟨_, List.mem_cons_of_mem _ (List.mem_cons_self), RowsLib.mem_unit _ (k0_off879_inb k) r c k.val 96 (k0_off879_eq k) hr h.1 h.2⟩
  · exact ⟨_, List.mem_cons_self, RowsLib.mem_unit _ (k0_off881_inb k) r c k.val 112 (k0_off881_eq k) hr h.1 h.2⟩

/-- The slot of sums after row loop 55, as the row-sum function: at (r, c) the gathered rows' entry plus the positional scratch's entry of row r + 0. -/
theorem rows_t55_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t55 (F := F) d L v2 X P 128)) (ValueIdx.ix2 r c)
      = RowsLib.rowG (ibS0).view (qV).view X P 0 (by omega) (ValueIdx.ix2 r c) :=
  RowsLib.read_writes_trips (n := k0_t55_loop.trips) (pb_t55 (F := F) d L v2 X P) (tripL_t55 (F := F) d L v2 X P) (obS0).view G _
    rfl (pb_t55_succ (F := F) d L v2 X P) (trip_pieces_t55 d L v2 X P) _ ⟨r.val, r.isLt⟩ (trip_cover_t55 d L v2 X P ⟨r.val, r.isLt⟩ r c rfl)

/-- THE SLOT OF SUMS AFTER ROW LOOP 55, whatever it held before: at (r, c) the gathered rows' entry (r, c) plus the positional
    scratch's entry (r + 0, c). -/
theorem rows_t55 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t55 (F := F) d L v2 X P (Scf.trips k0_t55_loop.lb k0_t55_loop.ub k0_t55_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t55_G d L v2 X P G r c

/-! ### the value of row loop 56 (slot 1, positional rows 128 … 255) -/

theorem trips_t56 : k0_t56_loop.trips = 128 := rfl

set_option maxHeartbeats 2000000 in
/-- Every piece of a trip of row loop 56 is the row sum on its rectangle. -/
theorem trip_pieces_t56 (d : Dev nD) (L : grid0.Coords) (v2 : BitVec 32) (X : BufTy.Contents (Elt F) (ibS1).view.ty) (P : BufTy.Contents (Elt F) (qV).view.ty) (k : Fin k0_t56_loop.trips) :
    ∀ p ∈ tripL_t56 (F := F) d L v2 X P k, ∀ x : p.1.shape.Idx, p.2 x = RowsLib.rowG (ibS1).view (qV).view X P 128 (by omega) (p.1.emb x) := by
  unfold tripL_t56 trip_t56
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off897_inb k) (k0_off897_inb k) (k0_off898_inb k) k.val (k.val + 128) 112 (k0_off897_eq k) (k0_off898_eq k) rfl _ (RowsLib.lane_sum _ _ _ _) x
  · exact fun x => RowsLib.piece_eq _ _ X P 128 _ _ _ (k0_off895_inb k) (k0_off895_inb k) (k0_off896_inb k) k.val (k.val + 128) 96 (k0_off895_eq k) (k0_off896_eq k) rfl _ (RowsLib.lane_sum _ _ _ _) x
  · exact fun x => RowsLib.piece_eq _ _ X P 128 _ _ _ (k0_off893_inb k) (k0_off893_inb k) (k0_off894_inb k) k.val (k.val + 128) 80 (k0_off893_eq k) (k0_off894_eq k) rfl _ (RowsLib.lane_sum _ _ _ _) x
  · exact fun x => RowsLib.piece_eq _ _ X P 128 _ _ _ (k0_off891_inb k) (k0_off891_inb k) (k0_off892_inb k) k.val (k.val + 128) 64 (k0_off891_eq k) (k0_off892_eq k) rfl _ (RowsLib.lane_sum _ _ _ _) x
  · exact fun x => RowsLib.piece_eq _ _ X P 128 _ _ _ (k0_off889_inb k) (k0_off889_inb k) (k0_off890_inb k) k.val (k.val + 128) 48 (k0_off889_eq k) (k0_off890_eq k) rfl _ (RowsLib.lane_sum _ _ _ _) x
  · exact fun x => RowsLib.piece_eq _ _ X P 128 _ _ _ (k0_off887_inb k) (k0_off887_inb k) (k0_off888_inb k) k.val (k.val + 128) 32 (k0_off887_eq k) (k0_off888_eq k) rfl _ (RowsLib.lane_sum _ _ _ _) x
  · exact fun x => RowsLib.piece_eq _ _ X P 128 _ _ _ (k0_off885_inb k) (k0_off885_inb k) (k0_off886_inb k) k.val (k.val + 128) 16 (k0_off885_eq k) (k0_off886_eq k) rfl _ (RowsLib.lane_sum _ _ _ _) x
  · exact fun x => RowsLib.piece_eq _ _ X P 128 _ _ _ (k0_off883_inb k) (k0_off883_inb k) (k0_off884_inb k) k.val (k.val + 128) 0 (k0_off883_eq k) (k0_off884_eq k) rfl _ (RowsLib.lane_sum _ _ _ _) x

set_option maxHeartbeats 2000000 in
/-- The eight pieces of trip k cover row k. -/
theorem trip_cover_t56 (d : Dev nD) (L : grid0.Coords) (v2 : BitVec 32) (X : BufTy.Contents (Elt F) (ibS1).view.ty) (P : BufTy.Contents (Elt F) (qV).view.ty)
    (k : Fin k0_t56_loop.trips) (r c : Fin 128) (hr : k.val = r.val) :
    ∃ p ∈ tripL_t56 (F := F) d L v2 X P k, (ValueIdx.ix2 r c : RowsLib.SS.Idx) ∈ p.1.set := by
  unfold tripL_t56 trip_t56
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off883_inb k) r c k.val 0 (k0_off883_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off885_inb k) r c k.val 16 (k0_off885_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off887_inb k) r c k.val 32 (k0_off887_eq k) hr h.1 h.2⟩
  · exact ⟨_, List.mem_cons_of_mem _ (List.mem_cons_of_mem _ (List.mem_cons_of_mem _ (List.mem_cons_of_mem _ (List.mem_cons_self)))), RowsLib.mem_unit _ (k0_off889_inb k) r c k.val 48 (k0_off889_eq k) hr h.1 h.2⟩
  · exact ⟨_, List.mem_cons_of_mem _ (List.mem_cons_of_mem _ (List.mem_cons_of_mem _ (List.mem_cons_self))), RowsLib.mem_unit _ (k0_off891_inb k) r c k.val 64 (k0_off891_eq k) hr h.1 h.2⟩
  · exact ⟨_, List.mem_cons_of_mem _ (List.mem_cons_of_mem _ (List.mem_cons_self)), RowsLib.mem_unit _ (k0_off893_inb k) r c k.val 80 (k0_off893_eq k) hr h.1 h.2⟩
  · exact ⟨_, List.mem_cons_of_mem _ (List.mem_cons_self), RowsLib.mem_unit _ (k0_off895_inb k) r c k.val 96 (k0_off895_eq k) hr h.1 h.2⟩
  · exact ⟨_, List.mem_cons_self, RowsLib.mem_unit _ (k0_off897_inb k) r c k.val 112 (k0_off897_eq k) hr h.1 h.2⟩

/-- The slot of sums after row loop 56, as the row-sum function: at (r, c) the gathered rows' entry plus the positional scratch's entry of row r + 128. -/
theorem rows_t56_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t56 (F := F) d L v2 X P 128)) (ValueIdx.ix2 r c)
      = RowsLib.rowG (ibS1).view (qV).view X P 128 (by omega) (ValueIdx.ix2 r c) :=
  RowsLib.read_writes_trips (n := k0_t56_loop.trips) (pb_t56 (F := F) d L v2 X P) (tripL_t56 (F := F) d L v2 X P) (obS1).view G _
    rfl (pb_t56_succ (F := F) d L v2 X P) (trip_pieces_t56 d L v2 X P) _ ⟨r.val, r.isLt⟩ (trip_cover_t56 d L v2 X P ⟨r.val, r.isLt⟩ r c rfl)

/-- THE SLOT OF SUMS AFTER ROW LOOP 56, whatever it held before: at (r, c) the gathered rows' entry (r, c) plus the positional
    scratch's entry (r + 128, c). -/
theorem rows_t56 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t56 (F := F) d L v2 X P (Scf.trips k0_t56_loop.lb k0_t56_loop.ub k0_t56_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t56_G d L v2 X P G r c

/-! ### the value of row loop 57 (slot 0, positional rows 0 … 127) -/

theorem trips_t57 : k0_t57_loop.trips = 128 := rfl

set_option maxHeartbeats 2000000 in
/-- Every piece of a trip of row loop 57 is the row sum on its rectangle. -/
theorem trip_pieces_t57 (d : Dev nD) (L : grid0.Coords) (v2 : BitVec 32) (X : BufTy.Contents (Elt F) (ibS0).view.ty) (P : BufTy.Contents (Elt F) (qV).view.ty) (k : Fin k0_t57_loop.trips) :
    ∀ p ∈ tripL_t57 (F := F) d L v2 X P k, ∀ x : p.1.shape.Idx, p.2 x = RowsLib.rowG (ibS0).view (qV).view X P 0 (by omega) (p.1.emb x) := by
  unfold tripL_t57 trip_t57
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off913_inb k) (k0_off913_inb k) (k0_off914_inb k) k.val (k.val + 0) 112 (k0_off913_eq k) (k0_off914_eq k) rfl _ (RowsLib.lane_sum _ _ _ _) x
  · exact fun x => RowsLib.piece_eq _ _ X P 0 _ _ _ (k0_off911_inb k) (k0_off911_inb k) (k0_off912_inb k) k.val (k.val + 0) 96 (k0_off911_eq k) (k0_off912_eq k) rfl _ (RowsLib.lane_sum _ _ _ _) x
  · exact fun x => RowsLib.piece_eq _ _ X P 0 _ _ _ (k0_off909_inb k) (k0_off909_inb k) (k0_off910_inb k) k.val (k.val + 0) 80 (k0_off909_eq k) (k0_off910_eq k) rfl _ (RowsLib.lane_sum _ _ _ _) x
  · exact fun x => RowsLib.piece_eq _ _ X P 0 _ _ _ (k0_off907_inb k) (k0_off907_inb k) (k0_off908_inb k) k.val (k.val + 0) 64 (k0_off907_eq k) (k0_off908_eq k) rfl _ (RowsLib.lane_sum _ _ _ _) x
  · exact fun x => RowsLib.piece_eq _ _ X P 0 _ _ _ (k0_off905_inb k) (k0_off905_inb k) (k0_off906_inb k) k.val (k.val + 0) 48 (k0_off905_eq k) (k0_off906_eq k) rfl _ (RowsLib.lane_sum _ _ _ _) x
  · exact fun x => RowsLib.piece_eq _ _ X P 0 _ _ _ (k0_off903_inb k) (k0_off903_inb k) (k0_off904_inb k) k.val (k.val + 0) 32 (k0_off903_eq k) (k0_off904_eq k) rfl _ (RowsLib.lane_sum _ _ _ _) x
  · exact fun x => RowsLib.piece_eq _ _ X P 0 _ _ _ (k0_off901_inb k) (k0_off901_inb k) (k0_off902_inb k) k.val (k.val + 0) 16 (k0_off901_eq k) (k0_off902_eq k) rfl _ (RowsLib.lane_sum _ _ _ _) x
  · exact fun x => RowsLib.piece_eq _ _ X P 0 _ _ _ (k0_off899_inb k) (k0_off899_inb k) (k0_off900_inb k) k.val (k.val + 0) 0 (k0_off899_eq k) (k0_off900_eq k) rfl _ (RowsLib.lane_sum _ _ _ _) x

set_option maxHeartbeats 2000000 in
/-- The eight pieces of trip k cover row k. -/
theorem trip_cover_t57 (d : Dev nD) (L : grid0.Coords) (v2 : BitVec 32) (X : BufTy.Contents (Elt F) (ibS0).view.ty) (P : BufTy.Contents (Elt F) (qV).view.ty)
    (k : Fin k0_t57_loop.trips) (r c : Fin 128) (hr : k.val = r.val) :
    ∃ p ∈ tripL_t57 (F := F) d L v2 X P k, (ValueIdx.ix2 r c : RowsLib.SS.Idx) ∈ p.1.set := by
  unfold tripL_t57 trip_t57
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off899_inb k) r c k.val 0 (k0_off899_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off901_inb k) r c k.val 16 (k0_off901_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off903_inb k) r c k.val 32 (k0_off903_eq k) hr h.1 h.2⟩
  · exact ⟨_, List.mem_cons_of_mem _ (List.mem_cons_of_mem _ (List.mem_cons_of_mem _ (List.mem_cons_of_mem _ (List.mem_cons_self)))), RowsLib.mem_unit _ (k0_off905_inb k) r c k.val 48 (k0_off905_eq k) hr h.1 h.2⟩
  · exact ⟨_, List.mem_cons_of_mem _ (List.mem_cons_of_mem _ (List.mem_cons_of_mem _ (List.mem_cons_self))), RowsLib.mem_unit _ (k0_off907_inb k) r c k.val 64 (k0_off907_eq k) hr h.1 h.2⟩
  · exact ⟨_, List.mem_cons_of_mem _ (List.mem_cons_of_mem _ (List.mem_cons_self)), RowsLib.mem_unit _ (k0_off909_inb k) r c k.val 80 (k0_off909_eq k) hr h.1 h.2⟩
  · exact ⟨_, List.mem_cons_of_mem _ (List.mem_cons_self), RowsLib.mem_unit _ (k0_off911_inb k) r c k.val 96 (k0_off911_eq k) hr h.1 h.2⟩
  · exact ⟨_, List.mem_cons_self, RowsLib.mem_unit _ (k0_off913_inb k) r c k.val 112 (k0_off913_eq k) hr h.1 h.2⟩

/-- The slot of sums after row loop 57, as the row-sum function: at (r, c) the gathered rows' entry plus the positional scratch's entry of row r + 0. -/
theorem rows_t57_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t57 (F := F) d L v2 X P 128)) (ValueIdx.ix2 r c)
      = RowsLib.rowG (ibS0).view (qV).view X P 0 (by omega) (ValueIdx.ix2 r c) :=
  RowsLib.read_writes_trips (n := k0_t57_loop.trips) (pb_t57 (F := F) d L v2 X P) (tripL_t57 (F := F) d L v2 X P) (obS0).view G _
    rfl (pb_t57_succ (F := F) d L v2 X P) (trip_pieces_t57 d L v2 X P) _ ⟨r.val, r.isLt⟩ (trip_cover_t57 d L v2 X P ⟨r.val, r.isLt⟩ r c rfl)

/-- THE SLOT OF SUMS AFTER ROW LOOP 57, whatever it held before: at (r, c) the gathered rows' entry (r, c) plus the positional
    scratch's entry (r + 0, c). -/
theorem rows_t57 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t57 (F := F) d L v2 X P (Scf.trips k0_t57_loop.lb k0_t57_loop.ub k0_t57_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t57_G d L v2 X P G r c

/-! ### the value of row loop 58 (slot 1, positional rows 128 … 255) -/

theorem trips_t58 : k0_t58_loop.trips = 128 := rfl

set_option maxHeartbeats 2000000 in
/-- Every piece of a trip of row loop 58 is the row sum on its rectangle. -/
theorem trip_pieces_t58 (d : Dev nD) (L : grid0.Coords) (v2 : BitVec 32) (X : BufTy.Contents (Elt F) (ibS1).view.ty) (P : BufTy.Contents (Elt F) (qV).view.ty) (k : Fin k0_t58_loop.trips) :
    ∀ p ∈ tripL_t58 (F := F) d L v2 X P k, ∀ x : p.1.shape.Idx, p.2 x = RowsLib.rowG (ibS1).view (qV).view X P 128 (by omega) (p.1.emb x) := by
  unfold tripL_t58 trip_t58
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off929_inb k) (k0_off929_inb k) (k0_off930_inb k) k.val (k.val + 128) 112 (k0_off929_eq k) (k0_off930_eq k) rfl _ (RowsLib.lane_sum _ _ _ _) x
  · exact fun x => RowsLib.piece_eq _ _ X P 128 _ _ _ (k0_off927_inb k) (k0_off927_inb k) (k0_off928_inb k) k.val (k.val + 128) 96 (k0_off927_eq k) (k0_off928_eq k) rfl _ (RowsLib.lane_sum _ _ _ _) x
  · exact fun x => RowsLib.piece_eq _ _ X P 128 _ _ _ (k0_off925_inb k) (k0_off925_inb k) (k0_off926_inb k) k.val (k.val + 128) 80 (k0_off925_eq k) (k0_off926_eq k) rfl _ (RowsLib.lane_sum _ _ _ _) x
  · exact fun x => RowsLib.piece_eq _ _ X P 128 _ _ _ (k0_off923_inb k) (k0_off923_inb k) (k0_off924_inb k) k.val (k.val + 128) 64 (k0_off923_eq k) (k0_off924_eq k) rfl _ (RowsLib.lane_sum _ _ _ _) x
  · exact fun x => RowsLib.piece_eq _ _ X P 128 _ _ _ (k0_off921_inb k) (k0_off921_inb k) (k0_off922_inb k) k.val (k.val + 128) 48 (k0_off921_eq k) (k0_off922_eq k) rfl _ (RowsLib.lane_sum _ _ _ _) x
  · exact fun x => RowsLib.piece_eq _ _ X P 128 _ _ _ (k0_off919_inb k) (k0_off919_inb k) (k0_off920_inb k) k.val (k.val + 128) 32 (k0_off919_eq k) (k0_off920_eq k) rfl _ (RowsLib.lane_sum _ _ _ _) x
  · exact fun x => RowsLib.piece_eq _ _ X P 128 _ _ _ (k0_off917_inb k) (k0_off917_inb k) (k0_off918_inb k) k.val (k.val + 128) 16 (k0_off917_eq k) (k0_off918_eq k) rfl _ (RowsLib.lane_sum _ _ _ _) x
  · exact fun x => RowsLib.piece_eq _ _ X P 128 _ _ _ (k0_off915_inb k) (k0_off915_inb k) (k0_off916_inb k) k.val (k.val + 128) 0 (k0_off915_eq k) (k0_off916_eq k) rfl _ (RowsLib.lane_sum _ _ _ _) x

set_option maxHeartbeats 2000000 in
/-- The eight pieces of trip k cover row k. -/
theorem trip_cover_t58 (d : Dev nD) (L : grid0.Coords) (v2 : BitVec 32) (X : BufTy.Contents (Elt F) (ibS1).view.ty) (P : BufTy.Contents (Elt F) (qV).view.ty)
    (k : Fin k0_t58_loop.trips) (r c : Fin 128) (hr : k.val = r.val) :
    ∃ p ∈ tripL_t58 (F := F) d L v2 X P k, (ValueIdx.ix2 r c : RowsLib.SS.Idx) ∈ p.1.set := by
  unfold tripL_t58 trip_t58
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off915_inb k) r c k.val 0 (k0_off915_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off917_inb k) r c k.val 16 (k0_off917_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off919_inb k) r c k.val 32 (k0_off919_eq k) hr h.1 h.2⟩
  · exact ⟨_, List.mem_cons_of_mem _ (List.mem_cons_of_mem _ (List.mem_cons_of_mem _ (List.mem_cons_of_mem _ (List.mem_cons_self)))), RowsLib.mem_unit _ (k0_off921_inb k) r c k.val 48 (k0_off921_eq k) hr h.1 h.2⟩
  · exact ⟨_, List.mem_cons_of_mem _ (List.mem_cons_of_mem _ (List.mem_cons_of_mem _ (List.mem_cons_self))), RowsLib.mem_unit _ (k0_off923_inb k) r c k.val 64 (k0_off923_eq k) hr h.1 h.2⟩
  · exact ⟨_, List.mem_cons_of_mem _ (List.mem_cons_of_mem _ (List.mem_cons_self)), RowsLib.mem_unit _ (k0_off925_inb k) r c k.val 80 (k0_off925_eq k) hr h.1 h.2⟩
  · exact ⟨_, List.mem_cons_of_mem _ (List.mem_cons_self), RowsLib.mem_unit _ (k0_off927_inb k) r c k.val 96 (k0_off927_eq k) hr h.1 h.2⟩
  · exact ⟨_, List.mem_cons_self, RowsLib.mem_unit _ (k0_off929_inb k) r c k.val 112 (k0_off929_eq k) hr h.1 h.2⟩

/-- The slot of sums after row loop 58, as the row-sum function: at (r, c) the gathered rows' entry plus the positional scratch's entry of row r + 128. -/
theorem rows_t58_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t58 (F := F) d L v2 X P 128)) (ValueIdx.ix2 r c)
      = RowsLib.rowG (ibS1).view (qV).view X P 128 (by omega) (ValueIdx.ix2 r c) :=
  RowsLib.read_writes_trips (n := k0_t58_loop.trips) (pb_t58 (F := F) d L v2 X P) (tripL_t58 (F := F) d L v2 X P) (obS1).view G _
    rfl (pb_t58_succ (F := F) d L v2 X P) (trip_pieces_t58 d L v2 X P) _ ⟨r.val, r.isLt⟩ (trip_cover_t58 d L v2 X P ⟨r.val, r.isLt⟩ r c rfl)

/-- THE SLOT OF SUMS AFTER ROW LOOP 58, whatever it held before: at (r, c) the gathered rows' entry (r, c) plus the positional
    scratch's entry (r + 128, c). -/
theorem rows_t58 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t58 (F := F) d L v2 X P (Scf.trips k0_t58_loop.lb k0_t58_loop.ub k0_t58_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t58_G d L v2 X P G r c

/-! ### the value of row loop 59 (slot 0, positional rows 0 … 127) -/

theorem trips_t59 : k0_t59_loop.trips = 128 := rfl

set_option maxHeartbeats 2000000 in
/-- Every piece of a trip of row loop 59 is the row sum on its rectangle. -/
theorem trip_pieces_t59 (d : Dev nD) (L : grid0.Coords) (v2 : BitVec 32) (X : BufTy.Contents (Elt F) (ibS0).view.ty) (P : BufTy.Contents (Elt F) (qV).view.ty) (k : Fin k0_t59_loop.trips) :
    ∀ p ∈ tripL_t59 (F := F) d L v2 X P k, ∀ x : p.1.shape.Idx, p.2 x = RowsLib.rowG (ibS0).view (qV).view X P 0 (by omega) (p.1.emb x) := by
  unfold tripL_t59 trip_t59
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off945_inb k) (k0_off945_inb k) (k0_off946_inb k) k.val (k.val + 0) 112 (k0_off945_eq k) (k0_off946_eq k) rfl _ (RowsLib.lane_sum _ _ _ _) x
  · exact fun x => RowsLib.piece_eq _ _ X P 0 _ _ _ (k0_off943_inb k) (k0_off943_inb k) (k0_off944_inb k) k.val (k.val + 0) 96 (k0_off943_eq k) (k0_off944_eq k) rfl _ (RowsLib.lane_sum _ _ _ _) x
  · exact fun x => RowsLib.piece_eq _ _ X P 0 _ _ _ (k0_off941_inb k) (k0_off941_inb k) (k0_off942_inb k) k.val (k.val + 0) 80 (k0_off941_eq k) (k0_off942_eq k) rfl _ (RowsLib.lane_sum _ _ _ _) x
  · exact fun x => RowsLib.piece_eq _ _ X P 0 _ _ _ (k0_off939_inb k) (k0_off939_inb k) (k0_off940_inb k) k.val (k.val + 0) 64 (k0_off939_eq k) (k0_off940_eq k) rfl _ (RowsLib.lane_sum _ _ _ _) x
  · exact fun x => RowsLib.piece_eq _ _ X P 0 _ _ _ (k0_off937_inb k) (k0_off937_inb k) (k0_off938_inb k) k.val (k.val + 0) 48 (k0_off937_eq k) (k0_off938_eq k) rfl _ (RowsLib.lane_sum _ _ _ _) x
  · exact fun x => RowsLib.piece_eq _ _ X P 0 _ _ _ (k0_off935_inb k) (k0_off935_inb k) (k0_off936_inb k) k.val (k.val + 0) 32 (k0_off935_eq k) (k0_off936_eq k) rfl _ (RowsLib.lane_sum _ _ _ _) x
  · exact fun x => RowsLib.piece_eq _ _ X P 0 _ _ _ (k0_off933_inb k) (k0_off933_inb k) (k0_off934_inb k) k.val (k.val + 0) 16 (k0_off933_eq k) (k0_off934_eq k) rfl _ (RowsLib.lane_sum _ _ _ _) x
  · exact fun x => RowsLib.piece_eq _ _ X P 0 _ _ _ (k0_off931_inb k) (k0_off931_inb k) (k0_off932_inb k) k.val (k.val + 0) 0 (k0_off931_eq k) (k0_off932_eq k) rfl _ (RowsLib.lane_sum _ _ _ _) x

set_option maxHeartbeats 2000000 in
/-- The eight pieces of trip k cover row k. -/
theorem trip_cover_t59 (d : Dev nD) (L : grid0.Coords) (v2 : BitVec 32) (X : BufTy.Contents (Elt F) (ibS0).view.ty) (P : BufTy.Contents (Elt F) (qV).view.ty)
    (k : Fin k0_t59_loop.trips) (r c : Fin 128) (hr : k.val = r.val) :
    ∃ p ∈ tripL_t59 (F := F) d L v2 X P k, (ValueIdx.ix2 r c : RowsLib.SS.Idx) ∈ p.1.set := by
  unfold tripL_t59 trip_t59
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off931_inb k) r c k.val 0 (k0_off931_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off933_inb k) r c k.val 16 (k0_off933_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off935_inb k) r c k.val 32 (k0_off935_eq k) hr h.1 h.2⟩
  · exact ⟨_, List.mem_cons_of_mem _ (List.mem_cons_of_mem _ (List.mem_cons_of_mem _ (List.mem_cons_of_mem _ (List.mem_cons_self)))), RowsLib.mem_unit _ (k0_off937_inb k) r c k.val 48 (k0_off937_eq k) hr h.1 h.2⟩
  · exact ⟨_, List.mem_cons_of_mem _ (List.mem_cons_of_mem _ (List.mem_cons_of_mem _ (List.mem_cons_self))), RowsLib.mem_unit _ (k0_off939_inb k) r c k.val 64 (k0_off939_eq k) hr h.1 h.2⟩
  · exact ⟨_, List.mem_cons_of_mem _ (List.mem_cons_of_mem _ (List.mem_cons_self)), RowsLib.mem_unit _ (k0_off941_inb k) r c k.val 80 (k0_off941_eq k) hr h.1 h.2⟩
  · exact ⟨_, List.mem_cons_of_mem _ (List.mem_cons_self), RowsLib.mem_unit _ (k0_off943_inb k) r c k.val 96 (k0_off943_eq k) hr h.1 h.2⟩
  · exact ⟨_, List.mem_cons_self, RowsLib.mem_unit _ (k0_off945_inb k) r c k.val 112 (k0_off945_eq k) hr h.1 h.2⟩

/-- The slot of sums after row loop 59, as the row-sum function: at (r, c) the gathered rows' entry plus the positional scratch's entry of row r + 0. -/
theorem rows_t59_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t59 (F := F) d L v2 X P 128)) (ValueIdx.ix2 r c)
      = RowsLib.rowG (ibS0).view (qV).view X P 0 (by omega) (ValueIdx.ix2 r c) :=
  RowsLib.read_writes_trips (n := k0_t59_loop.trips) (pb_t59 (F := F) d L v2 X P) (tripL_t59 (F := F) d L v2 X P) (obS0).view G _
    rfl (pb_t59_succ (F := F) d L v2 X P) (trip_pieces_t59 d L v2 X P) _ ⟨r.val, r.isLt⟩ (trip_cover_t59 d L v2 X P ⟨r.val, r.isLt⟩ r c rfl)

/-- THE SLOT OF SUMS AFTER ROW LOOP 59, whatever it held before: at (r, c) the gathered rows' entry (r, c) plus the positional
    scratch's entry (r + 0, c). -/
theorem rows_t59 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t59 (F := F) d L v2 X P (Scf.trips k0_t59_loop.lb k0_t59_loop.ub k0_t59_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t59_G d L v2 X P G r c

/-! ### the value of row loop 60 (slot 1, positional rows 128 … 255) -/

theorem trips_t60 : k0_t60_loop.trips = 128 := rfl

set_option maxHeartbeats 2000000 in
/-- Every piece of a trip of row loop 60 is the row sum on its rectangle. -/
theorem trip_pieces_t60 (d : Dev nD) (L : grid0.Coords) (v2 : BitVec 32) (X : BufTy.Contents (Elt F) (ibS1).view.ty) (P : BufTy.Contents (Elt F) (qV).view.ty) (k : Fin k0_t60_loop.trips) :
    ∀ p ∈ tripL_t60 (F := F) d L v2 X P k, ∀ x : p.1.shape.Idx, p.2 x = RowsLib.rowG (ibS1).view (qV).view X P 128 (by omega) (p.1.emb x) := by
  unfold tripL_t60 trip_t60
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off961_inb k) (k0_off961_inb k) (k0_off962_inb k) k.val (k.val + 128) 112 (k0_off961_eq k) (k0_off962_eq k) rfl _ (RowsLib.lane_sum _ _ _ _) x
  · exact fun x => RowsLib.piece_eq _ _ X P 128 _ _ _ (k0_off959_inb k) (k0_off959_inb k) (k0_off960_inb k) k.val (k.val + 128) 96 (k0_off959_eq k) (k0_off960_eq k) rfl _ (RowsLib.lane_sum _ _ _ _) x
  · exact fun x => RowsLib.piece_eq _ _ X P 128 _ _ _ (k0_off957_inb k) (k0_off957_inb k) (k0_off958_inb k) k.val (k.val + 128) 80 (k0_off957_eq k) (k0_off958_eq k) rfl _ (RowsLib.lane_sum _ _ _ _) x
  · exact fun x => RowsLib.piece_eq _ _ X P 128 _ _ _ (k0_off955_inb k) (k0_off955_inb k) (k0_off956_inb k) k.val (k.val + 128) 64 (k0_off955_eq k) (k0_off956_eq k) rfl _ (RowsLib.lane_sum _ _ _ _) x
  · exact fun x => RowsLib.piece_eq _ _ X P 128 _ _ _ (k0_off953_inb k) (k0_off953_inb k) (k0_off954_inb k) k.val (k.val + 128) 48 (k0_off953_eq k) (k0_off954_eq k) rfl _ (RowsLib.lane_sum _ _ _ _) x
  · exact fun x => RowsLib.piece_eq _ _ X P 128 _ _ _ (k0_off951_inb k) (k0_off951_inb k) (k0_off952_inb k) k.val (k.val + 128) 32 (k0_off951_eq k) (k0_off952_eq k) rfl _ (RowsLib.lane_sum _ _ _ _) x
  · exact fun x => RowsLib.piece_eq _ _ X P 128 _ _ _ (k0_off949_inb k) (k0_off949_inb k) (k0_off950_inb k) k.val (k.val + 128) 16 (k0_off949_eq k) (k0_off950_eq k) rfl _ (RowsLib.lane_sum _ _ _ _) x
  · exact fun x => RowsLib.piece_eq _ _ X P 128 _ _ _ (k0_off947_inb k) (k0_off947_inb k) (k0_off948_inb k) k.val (k.val + 128) 0 (k0_off947_eq k) (k0_off948_eq k) rfl _ (RowsLib.lane_sum _ _ _ _) x

set_option maxHeartbeats 2000000 in
/-- The eight pieces of trip k cover row k. -/
theorem trip_cover_t60 (d : Dev nD) (L : grid0.Coords) (v2 : BitVec 32) (X : BufTy.Contents (Elt F) (ibS1).view.ty) (P : BufTy.Contents (Elt F) (qV).view.ty)
    (k : Fin k0_t60_loop.trips) (r c : Fin 128) (hr : k.val = r.val) :
    ∃ p ∈ tripL_t60 (F := F) d L v2 X P k, (ValueIdx.ix2 r c : RowsLib.SS.Idx) ∈ p.1.set := by
  unfold tripL_t60 trip_t60
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off947_inb k) r c k.val 0 (k0_off947_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off949_inb k) r c k.val 16 (k0_off949_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off951_inb k) r c k.val 32 (k0_off951_eq k) hr h.1 h.2⟩
  · exact ⟨_, List.mem_cons_of_mem _ (List.mem_cons_of_mem _ (List.mem_cons_of_mem _ (List.mem_cons_of_mem _ (List.mem_cons_self)))), RowsLib.mem_unit _ (k0_off953_inb k) r c k.val 48 (k0_off953_eq k) hr h.1 h.2⟩
  · exact ⟨_, List.mem_cons_of_mem _ (List.mem_cons_of_mem _ (List.mem_cons_of_mem _ (List.mem_cons_self))), RowsLib.mem_unit _ (k0_off955_inb k) r c k.val 64 (k0_off955_eq k) hr h.1 h.2⟩
  · exact ⟨_, List.mem_cons_of_mem _ (List.mem_cons_of_mem _ (List.mem_cons_self)), RowsLib.mem_unit _ (k0_off957_inb k) r c k.val 80 (k0_off957_eq k) hr h.1 h.2⟩
  · exact ⟨_, List.mem_cons_of_mem _ (List.mem_cons_self), RowsLib.mem_unit _ (k0_off959_inb k) r c k.val 96 (k0_off959_eq k) hr h.1 h.2⟩
  · exact ⟨_, List.mem_cons_self, RowsLib.mem_unit _ (k0_off961_inb k) r c k.val 112 (k0_off961_eq k) hr h.1 h.2⟩

/-- The slot of sums after row loop 60, as the row-sum function: at (r, c) the gathered rows' entry plus the positional scratch's entry of row r + 128. -/
theorem rows_t60_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t60 (F := F) d L v2 X P 128)) (ValueIdx.ix2 r c)
      = RowsLib.rowG (ibS1).view (qV).view X P 128 (by omega) (ValueIdx.ix2 r c) :=
  RowsLib.read_writes_trips (n := k0_t60_loop.trips) (pb_t60 (F := F) d L v2 X P) (tripL_t60 (F := F) d L v2 X P) (obS1).view G _
    rfl (pb_t60_succ (F := F) d L v2 X P) (trip_pieces_t60 d L v2 X P) _ ⟨r.val, r.isLt⟩ (trip_cover_t60 d L v2 X P ⟨r.val, r.isLt⟩ r c rfl)

/-- THE SLOT OF SUMS AFTER ROW LOOP 60, whatever it held before: at (r, c) the gathered rows' entry (r, c) plus the positional
    scratch's entry (r + 128, c). -/
theorem rows_t60 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t60 (F := F) d L v2 X P (Scf.trips k0_t60_loop.lb k0_t60_loop.ub k0_t60_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t60_G d L v2 X P G r c

/-! ### the value of row loop 61 (slot 0, positional rows 0 … 127) -/

theorem trips_t61 : k0_t61_loop.trips = 128 := rfl

set_option maxHeartbeats 2000000 in
/-- Every piece of a trip of row loop 61 is the row sum on its rectangle. -/
theorem trip_pieces_t61 (d : Dev nD) (L : grid0.Coords) (v2 : BitVec 32) (X : BufTy.Contents (Elt F) (ibS0).view.ty) (P : BufTy.Contents (Elt F) (qV).view.ty) (k : Fin k0_t61_loop.trips) :
    ∀ p ∈ tripL_t61 (F := F) d L v2 X P k, ∀ x : p.1.shape.Idx, p.2 x = RowsLib.rowG (ibS0).view (qV).view X P 0 (by omega) (p.1.emb x) := by
  unfold tripL_t61 trip_t61
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off977_inb k) (k0_off977_inb k) (k0_off978_inb k) k.val (k.val + 0) 112 (k0_off977_eq k) (k0_off978_eq k) rfl _ (RowsLib.lane_sum _ _ _ _) x
  · exact fun x => RowsLib.piece_eq _ _ X P 0 _ _ _ (k0_off975_inb k) (k0_off975_inb k) (k0_off976_inb k) k.val (k.val + 0) 96 (k0_off975_eq k) (k0_off976_eq k) rfl _ (RowsLib.lane_sum _ _ _ _) x
  · exact fun x => RowsLib.piece_eq _ _ X P 0 _ _ _ (k0_off973_inb k) (k0_off973_inb k) (k0_off974_inb k) k.val (k.val + 0) 80 (k0_off973_eq k) (k0_off974_eq k) rfl _ (RowsLib.lane_sum _ _ _ _) x
  · exact fun x => RowsLib.piece_eq _ _ X P 0 _ _ _ (k0_off971_inb k) (k0_off971_inb k) (k0_off972_inb k) k.val (k.val + 0) 64 (k0_off971_eq k) (k0_off972_eq k) rfl _ (RowsLib.lane_sum _ _ _ _) x
  · exact fun x => RowsLib.piece_eq _ _ X P 0 _ _ _ (k0_off969_inb k) (k0_off969_inb k) (k0_off970_inb k) k.val (k.val + 0) 48 (k0_off969_eq k) (k0_off970_eq k) rfl _ (RowsLib.lane_sum _ _ _ _) x
  · exact fun x => RowsLib.piece_eq _ _ X P 0 _ _ _ (k0_off967_inb k) (k0_off967_inb k) (k0_off968_inb k) k.val (k.val + 0) 32 (k0_off967_eq k) (k0_off968_eq k) rfl _ (RowsLib.lane_sum _ _ _ _) x
  · exact fun x => RowsLib.piece_eq _ _ X P 0 _ _ _ (k0_off965_inb k) (k0_off965_inb k) (k0_off966_inb k) k.val (k.val + 0) 16 (k0_off965_eq k) (k0_off966_eq k) rfl _ (RowsLib.lane_sum _ _ _ _) x
  · exact fun x => RowsLib.piece_eq _ _ X P 0 _ _ _ (k0_off963_inb k) (k0_off963_inb k) (k0_off964_inb k) k.val (k.val + 0) 0 (k0_off963_eq k) (k0_off964_eq k) rfl _ (RowsLib.lane_sum _ _ _ _) x

set_option maxHeartbeats 2000000 in
/-- The eight pieces of trip k cover row k. -/
theorem trip_cover_t61 (d : Dev nD) (L : grid0.Coords) (v2 : BitVec 32) (X : BufTy.Contents (Elt F) (ibS0).view.ty) (P : BufTy.Contents (Elt F) (qV).view.ty)
    (k : Fin k0_t61_loop.trips) (r c : Fin 128) (hr : k.val = r.val) :
    ∃ p ∈ tripL_t61 (F := F) d L v2 X P k, (ValueIdx.ix2 r c : RowsLib.SS.Idx) ∈ p.1.set := by
  unfold tripL_t61 trip_t61
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off963_inb k) r c k.val 0 (k0_off963_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off965_inb k) r c k.val 16 (k0_off965_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off967_inb k) r c k.val 32 (k0_off967_eq k) hr h.1 h.2⟩
  · exact ⟨_, List.mem_cons_of_mem _ (List.mem_cons_of_mem _ (List.mem_cons_of_mem _ (List.mem_cons_of_mem _ (List.mem_cons_self)))), RowsLib.mem_unit _ (k0_off969_inb k) r c k.val 48 (k0_off969_eq k) hr h.1 h.2⟩
  · exact ⟨_, List.mem_cons_of_mem _ (List.mem_cons_of_mem _ (List.mem_cons_of_mem _ (List.mem_cons_self))), RowsLib.mem_unit _ (k0_off971_inb k) r c k.val 64 (k0_off971_eq k) hr h.1 h.2⟩
  · exact ⟨_, List.mem_cons_of_mem _ (List.mem_cons_of_mem _ (List.mem_cons_self)), RowsLib.mem_unit _ (k0_off973_inb k) r c k.val 80 (k0_off973_eq k) hr h.1 h.2⟩
  · exact ⟨_, List.mem_cons_of_mem _ (List.mem_cons_self), RowsLib.mem_unit _ (k0_off975_inb k) r c k.val 96 (k0_off975_eq k) hr h.1 h.2⟩
  · exact ⟨_, List.mem_cons_self, RowsLib.mem_unit _ (k0_off977_inb k) r c k.val 112 (k0_off977_eq k) hr h.1 h.2⟩

/-- The slot of sums after row loop 61, as the row-sum function: at (r, c) the gathered rows' entry plus the positional scratch's entry of row r + 0. -/
theorem rows_t61_G (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t61 (F := F) d L v2 X P 128)) (ValueIdx.ix2 r c)
      = RowsLib.rowG (ibS0).view (qV).view X P 0 (by omega) (ValueIdx.ix2 r c) :=
  RowsLib.read_writes_trips (n := k0_t61_loop.trips) (pb_t61 (F := F) d L v2 X P) (tripL_t61 (F := F) d L v2 X P) (obS0).view G _
    rfl (pb_t61_succ (F := F) d L v2 X P) (trip_pieces_t61 d L v2 X P) _ ⟨r.val, r.isLt⟩ (trip_cover_t61 d L v2 X P ⟨r.val, r.isLt⟩ r c rfl)

/-- THE SLOT OF SUMS AFTER ROW LOOP 61, whatever it held before: at (r, c) the gathered rows' entry (r, c) plus the positional
    scratch's entry (r + 0, c). -/
theorem rows_t61 (d : Dev nD) (L : grid0.Coords) (v2 : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t61 (F := F) d L v2 X P (Scf.trips k0_t61_loop.lb k0_t61_loop.ub k0_t61_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t61_G d L v2 X P G r c

/-! ### the value of row loop 62 (slot 1, positional rows 128 … 255) -/

theorem trips_t62 : k0_t62_loop.trips = 128 := rfl

set_option maxHeartbeats 2000000 in
/-- Every piece of a trip of row loop 62 is the row sum on its rectangle. -/
theorem trip_pieces_t62 (d : Dev nD) (L : grid0.Coords) (v2 : BitVec 32) (X : BufTy.Contents (Elt F) (ibS1).view.ty) (P : BufTy.Contents (Elt F) (qV).view.ty) (k : Fin k0_t62_loop.trips) :
    ∀ p ∈ tripL_t62 (F := F) d L v2 X P k, ∀ x : p.1.shape.Idx, p.2 x = RowsLib.rowG (ibS1).view (qV).view X P 128 (by omega) (p.1.emb x) := by
  unfold tripL_t62 trip_t62
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off993_inb k) (k0_off993_inb k) (k0_off994_inb k) k.val (k.val + 128) 112 (k0_off993_eq k) (k0_off994_eq k) rfl _ (RowsLib.lane_sum _ _ _ _) x
  · exact fun x => RowsLib.piece_eq _ _ X P 128 _ _ _ (k0_off991_inb k) (k0_off991_inb k) (k0_off992_inb k) k.val (k.val + 128) 96 (k0_off991_eq k) (k0_off992_eq k) rfl _ (RowsLib.lane_sum _ _ _ _) x
  · exact fun x => RowsLib.piece_eq _ _ X P 128 _ _ _ (k0_off989_inb k) (k0_off989_inb k) (k0_off990_inb k) k.val (k.val + 128) 80 (k0_off989_eq k) (k0_off990_eq k) rfl _ (RowsLib.lane_sum _ _ _ _) x
  · exact fun x => RowsLib.piece_eq _ _ X P 128 _ _ _ (k0_off987_inb k) (k0_off987_inb k) (k0_off988_inb k) k.val (k.val + 128) 64 (k0_off987_eq k) (k0_off988_eq k) rfl _ (RowsLib.lane_sum _ _ _ _) x
  · exact fun x => RowsLib.piece_eq _ _ X P 128 _ _ _ (k0_off985_inb k) (k0_off985_inb k) (k0_off986_inb k) k.val (k.val + 128) 48 (k0_off985_eq k) (k0_off986_eq k) rfl _ (RowsLib.lane_sum _ _ _ _) x
  · exact fun x => RowsLib.piece_eq _ _ X P 128 _ _ _ (k0_off983_inb k) (k0_off983_inb k) (k0_off984_inb k) k.val (k.val + 128) 32 (k0_off983_eq k) (k0_off984_eq k) rfl _ (RowsLib.lane_sum _ _ _ _) x
  · exact fun x => RowsLib.piece_eq _ _ X P 128 _ _ _ (k0_off981_inb k) (k0_off981_inb k) (k0_off982_inb k) k.val (k.val + 128) 16 (k0_off981_eq k) (k0_off982_eq k) rfl _ (RowsLib.lane_sum _ _ _ _) x
  · exact fun x => RowsLib.piece_eq _ _ X P 128 _ _ _ (k0_off979_inb k) (k0_off979_inb k) (k0_off980_inb k) k.val (k.val + 128) 0 (k0_off979_eq k) (k0_off980_eq k) rfl _ (RowsLib.lane_sum _ _ _ _) x

set_option maxHeartbeats 2000000 in
/-- The eight pieces of trip k cover row k. -/
theorem trip_cover_t62 (d : Dev nD) (L : grid0.Coords) (v2 : BitVec 32) (X : BufTy.Contents (Elt F) (ibS1).view.ty) (P : BufTy.Contents (Elt F) (qV).view.ty)
    (k : Fin k0_t62_loop.trips) (r c : Fin 128) (hr : k.val = r.val) :
    ∃ p ∈ tripL_t62 (F := F) d L v2 X P k, (ValueIdx.ix2 r c : RowsLib.SS.Idx) ∈ p.1.set := by
  unfold tripL_t62 trip_t62
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off979_inb k) r c k.val 0 (k0_off979_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off981_inb k) r c k.val 16 (k0_off981_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off983_inb k) r c k.val 32 (k0_off983_eq k) hr h.1 h.2⟩
  · exact ⟨_, List.mem_cons_of_mem _ (List.mem_cons_of_mem _ (List.mem_cons_of_mem _ (List.mem_cons_of_mem _ (List.mem_cons_self)))), RowsLib.mem_unit _ (k0_off985_inb k) r c k.val 48 (k0_off985_eq k) hr h.1 h.2⟩
  · exact ⟨_, List.mem_cons_of_mem _ (List.mem_cons_of_mem _ (List.mem_cons_of_mem _ (List.mem_cons_self))), RowsLib.mem_unit _ (k0_off987_inb k) r c k.val 64 (k0_off987_eq k) hr h.1 h.2⟩
  · exact ⟨_, List.mem_cons_of_mem _ (List.mem_cons_of_mem _ (List.mem_cons_self)), RowsLib.mem_unit _ (k0_off989_inb k) r c k.val 80 (k0_off989_eq k) hr h.1 h.2⟩
  · exact ⟨_, List.mem_cons_of_mem _ (List.mem_cons_self), RowsLib.mem_unit _ (k0_off991_inb k) r c k.val 96 (k0_off991_eq k) hr h.1 h.2⟩
  · exact ⟨_, List.mem_cons_self, RowsLib.mem_unit _ (k0_off993_inb k) r c k.val 112 (k0_off993_eq k) hr h.1 h.2⟩

/-- The slot of sums after row loop 62, as the row-sum function: at (r, c) the gathered rows' entry plus the positional scratch's entry of row r + 128. -/
theorem rows_t62_G (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t62 (F := F) d L v2 X P 128)) (ValueIdx.ix2 r c)
      = RowsLib.rowG (ibS1).view (qV).view X P 128 (by omega) (ValueIdx.ix2 r c) :=
  RowsLib.read_writes_trips (n := k0_t62_loop.trips) (pb_t62 (F := F) d L v2 X P) (tripL_t62 (F := F) d L v2 X P) (obS1).view G _
    rfl (pb_t62_succ (F := F) d L v2 X P) (trip_pieces_t62 d L v2 X P) _ ⟨r.val, r.isLt⟩ (trip_cover_t62 d L v2 X P ⟨r.val, r.isLt⟩ r c rfl)

/-- THE SLOT OF SUMS AFTER ROW LOOP 62, whatever it held before: at (r, c) the gathered rows' entry (r, c) plus the positional
    scratch's entry (r + 128, c). -/
theorem rows_t62 (d : Dev nD) (L : grid0.Coords) (v2 : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t62 (F := F) d L v2 X P (Scf.trips k0_t62_loop.lb k0_t62_loop.ub k0_t62_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t62_G d L v2 X P G r c

/-! ### the value of row loop 63 (slot 0, positional rows 0 … 127) -/

theorem trips_t63 : k0_t63_loop.trips = 128 := rfl

set_option maxHeartbeats 2000000 in
/-- Every piece of a trip of row loop 63 is the row sum on its rectangle. -/
theorem trip_pieces_t63 (d : Dev nD) (L : grid0.Coords) (v2 wa wb : BitVec 32) (X : BufTy.Contents (Elt F) (ibS0).view.ty) (P : BufTy.Contents (Elt F) (qV).view.ty) (k : Fin k0_t63_loop.trips) :
    ∀ p ∈ tripL_t63 (F := F) d L v2 wa wb X P k, ∀ x : p.1.shape.Idx, p.2 x = RowsLib.rowG (ibS0).view (qV).view X P 0 (by omega) (p.1.emb x) := by
  unfold tripL_t63 trip_t63
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 0 _ _ _ (k0_off1009_inb k) (k0_off1009_inb k) (k0_off1010_inb k) k.val (k.val + 0) 112 (k0_off1009_eq k) (k0_off1010_eq k) rfl _ (RowsLib.lane_sum _ _ _ _) x
  · exact fun x => RowsLib.piece_eq _ _ X P 0 _ _ _ (k0_off1007_inb k) (k0_off1007_inb k) (k0_off1008_inb k) k.val (k.val + 0) 96 (k0_off1007_eq k) (k0_off1008_eq k) rfl _ (RowsLib.lane_sum _ _ _ _) x
  · exact fun x => RowsLib.piece_eq _ _ X P 0 _ _ _ (k0_off1005_inb k) (k0_off1005_inb k) (k0_off1006_inb k) k.val (k.val + 0) 80 (k0_off1005_eq k) (k0_off1006_eq k) rfl _ (RowsLib.lane_sum _ _ _ _) x
  · exact fun x => RowsLib.piece_eq _ _ X P 0 _ _ _ (k0_off1003_inb k) (k0_off1003_inb k) (k0_off1004_inb k) k.val (k.val + 0) 64 (k0_off1003_eq k) (k0_off1004_eq k) rfl _ (RowsLib.lane_sum _ _ _ _) x
  · exact fun x => RowsLib.piece_eq _ _ X P 0 _ _ _ (k0_off1001_inb k) (k0_off1001_inb k) (k0_off1002_inb k) k.val (k.val + 0) 48 (k0_off1001_eq k) (k0_off1002_eq k) rfl _ (RowsLib.lane_sum _ _ _ _) x
  · exact fun x => RowsLib.piece_eq _ _ X P 0 _ _ _ (k0_off999_inb k) (k0_off999_inb k) (k0_off1000_inb k) k.val (k.val + 0) 32 (k0_off999_eq k) (k0_off1000_eq k) rfl _ (RowsLib.lane_sum _ _ _ _) x
  · exact fun x => RowsLib.piece_eq _ _ X P 0 _ _ _ (k0_off997_inb k) (k0_off997_inb k) (k0_off998_inb k) k.val (k.val + 0) 16 (k0_off997_eq k) (k0_off998_eq k) rfl _ (RowsLib.lane_sum _ _ _ _) x
  · exact fun x => RowsLib.piece_eq _ _ X P 0 _ _ _ (k0_off995_inb k) (k0_off995_inb k) (k0_off996_inb k) k.val (k.val + 0) 0 (k0_off995_eq k) (k0_off996_eq k) rfl _ (RowsLib.lane_sum _ _ _ _) x

set_option maxHeartbeats 2000000 in
/-- The eight pieces of trip k cover row k. -/
theorem trip_cover_t63 (d : Dev nD) (L : grid0.Coords) (v2 wa wb : BitVec 32) (X : BufTy.Contents (Elt F) (ibS0).view.ty) (P : BufTy.Contents (Elt F) (qV).view.ty)
    (k : Fin k0_t63_loop.trips) (r c : Fin 128) (hr : k.val = r.val) :
    ∃ p ∈ tripL_t63 (F := F) d L v2 wa wb X P k, (ValueIdx.ix2 r c : RowsLib.SS.Idx) ∈ p.1.set := by
  unfold tripL_t63 trip_t63
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off995_inb k) r c k.val 0 (k0_off995_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off997_inb k) r c k.val 16 (k0_off997_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off999_inb k) r c k.val 32 (k0_off999_eq k) hr h.1 h.2⟩
  · exact ⟨_, List.mem_cons_of_mem _ (List.mem_cons_of_mem _ (List.mem_cons_of_mem _ (List.mem_cons_of_mem _ (List.mem_cons_self)))), RowsLib.mem_unit _ (k0_off1001_inb k) r c k.val 48 (k0_off1001_eq k) hr h.1 h.2⟩
  · exact ⟨_, List.mem_cons_of_mem _ (List.mem_cons_of_mem _ (List.mem_cons_of_mem _ (List.mem_cons_self))), RowsLib.mem_unit _ (k0_off1003_inb k) r c k.val 64 (k0_off1003_eq k) hr h.1 h.2⟩
  · exact ⟨_, List.mem_cons_of_mem _ (List.mem_cons_of_mem _ (List.mem_cons_self)), RowsLib.mem_unit _ (k0_off1005_inb k) r c k.val 80 (k0_off1005_eq k) hr h.1 h.2⟩
  · exact ⟨_, List.mem_cons_of_mem _ (List.mem_cons_self), RowsLib.mem_unit _ (k0_off1007_inb k) r c k.val 96 (k0_off1007_eq k) hr h.1 h.2⟩
  · exact ⟨_, List.mem_cons_self, RowsLib.mem_unit _ (k0_off1009_inb k) r c k.val 112 (k0_off1009_eq k) hr h.1 h.2⟩

/-- The slot of sums after row loop 63, as the row-sum function: at (r, c) the gathered rows' entry plus the positional scratch's entry of row r + 0. -/
theorem rows_t63_G (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t63 (F := F) d L v2 wa wb X P 128)) (ValueIdx.ix2 r c)
      = RowsLib.rowG (ibS0).view (qV).view X P 0 (by omega) (ValueIdx.ix2 r c) :=
  RowsLib.read_writes_trips (n := k0_t63_loop.trips) (pb_t63 (F := F) d L v2 wa wb X P) (tripL_t63 (F := F) d L v2 wa wb X P) (obS0).view G _
    rfl (pb_t63_succ (F := F) d L v2 wa wb X P) (trip_pieces_t63 d L v2 wa wb X P) _ ⟨r.val, r.isLt⟩ (trip_cover_t63 d L v2 wa wb X P ⟨r.val, r.isLt⟩ r c rfl)

/-- THE SLOT OF SUMS AFTER ROW LOOP 63, whatever it held before: at (r, c) the gathered rows' entry (r, c) plus the positional
    scratch's entry (r + 0, c). -/
theorem rows_t63 (d : Dev nD) (L : grid0.Coords) (v2 wa wb : BitVec 32) (X : BufTy.Contents (Elt F) (ibS0).view.ty) (P : BufTy.Contents (Elt F) (qV).view.ty)
    (G : BufTy.Contents (Elt F) (obS0).view.ty) (r c : Fin 128) :
    (obS0).view.read (Elt F) ((obS0).view.writes (Elt F) G (pb_t63 (F := F) d L v2 wa wb X P (Scf.trips k0_t63_loop.lb k0_t63_loop.ub k0_t63_loop.st))) (ValueIdx.ix2 r c)
      = FloatOps.addf ((ibS0).view.read (Elt F) X (ValueIdx.ix2 r c))
          ((qV).view.read (Elt F) P (ValueIdx.ix2 (⟨r.val + 0, by have := r.isLt; omega⟩ : Fin 256) c)) :=
  rows_t63_G d L v2 wa wb X P G r c

/-! ### the value of row loop 64 (slot 1, positional rows 128 … 255) -/

theorem trips_t64 : k0_t64_loop.trips = 128 := rfl

set_option maxHeartbeats 2000000 in
/-- Every piece of a trip of row loop 64 is the row sum on its rectangle. -/
theorem trip_pieces_t64 (d : Dev nD) (L : grid0.Coords) (v2 wa wb : BitVec 32) (X : BufTy.Contents (Elt F) (ibS1).view.ty) (P : BufTy.Contents (Elt F) (qV).view.ty) (k : Fin k0_t64_loop.trips) :
    ∀ p ∈ tripL_t64 (F := F) d L v2 wa wb X P k, ∀ x : p.1.shape.Idx, p.2 x = RowsLib.rowG (ibS1).view (qV).view X P 128 (by omega) (p.1.emb x) := by
  unfold tripL_t64 trip_t64
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · exact fun x => RowsLib.piece_eq _ _ X P 128 _ _ _ (k0_off1025_inb k) (k0_off1025_inb k) (k0_off1026_inb k) k.val (k.val + 128) 112 (k0_off1025_eq k) (k0_off1026_eq k) rfl _ (RowsLib.lane_sum _ _ _ _) x
  · exact fun x => RowsLib.piece_eq _ _ X P 128 _ _ _ (k0_off1023_inb k) (k0_off1023_inb k) (k0_off1024_inb k) k.val (k.val + 128) 96 (k0_off1023_eq k) (k0_off1024_eq k) rfl _ (RowsLib.lane_sum _ _ _ _) x
  · exact fun x => RowsLib.piece_eq _ _ X P 128 _ _ _ (k0_off1021_inb k) (k0_off1021_inb k) (k0_off1022_inb k) k.val (k.val + 128) 80 (k0_off1021_eq k) (k0_off1022_eq k) rfl _ (RowsLib.lane_sum _ _ _ _) x
  · exact fun x => RowsLib.piece_eq _ _ X P 128 _ _ _ (k0_off1019_inb k) (k0_off1019_inb k) (k0_off1020_inb k) k.val (k.val + 128) 64 (k0_off1019_eq k) (k0_off1020_eq k) rfl _ (RowsLib.lane_sum _ _ _ _) x
  · exact fun x => RowsLib.piece_eq _ _ X P 128 _ _ _ (k0_off1017_inb k) (k0_off1017_inb k) (k0_off1018_inb k) k.val (k.val + 128) 48 (k0_off1017_eq k) (k0_off1018_eq k) rfl _ (RowsLib.lane_sum _ _ _ _) x
  · exact fun x => RowsLib.piece_eq _ _ X P 128 _ _ _ (k0_off1015_inb k) (k0_off1015_inb k) (k0_off1016_inb k) k.val (k.val + 128) 32 (k0_off1015_eq k) (k0_off1016_eq k) rfl _ (RowsLib.lane_sum _ _ _ _) x
  · exact fun x => RowsLib.piece_eq _ _ X P 128 _ _ _ (k0_off1013_inb k) (k0_off1013_inb k) (k0_off1014_inb k) k.val (k.val + 128) 16 (k0_off1013_eq k) (k0_off1014_eq k) rfl _ (RowsLib.lane_sum _ _ _ _) x
  · exact fun x => RowsLib.piece_eq _ _ X P 128 _ _ _ (k0_off1011_inb k) (k0_off1011_inb k) (k0_off1012_inb k) k.val (k.val + 128) 0 (k0_off1011_eq k) (k0_off1012_eq k) rfl _ (RowsLib.lane_sum _ _ _ _) x

set_option maxHeartbeats 2000000 in
/-- The eight pieces of trip k cover row k. -/
theorem trip_cover_t64 (d : Dev nD) (L : grid0.Coords) (v2 wa wb : BitVec 32) (X : BufTy.Contents (Elt F) (ibS1).view.ty) (P : BufTy.Contents (Elt F) (qV).view.ty)
    (k : Fin k0_t64_loop.trips) (r c : Fin 128) (hr : k.val = r.val) :
    ∃ p ∈ tripL_t64 (F := F) d L v2 wa wb X P k, (ValueIdx.ix2 r c : RowsLib.SS.Idx) ∈ p.1.set := by
  unfold tripL_t64 trip_t64
  dsimp only
  rcases RowsLib.col_block c with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), RowsLib.mem_unit _ (k0_off1011_inb k) r c k.val 0 (k0_off1011_eq k) hr h.1 h.2⟩
  · exact ⟨_, List.mem_cons_of_mem _ (List.mem_cons_of_mem _ (List.mem_cons_of_mem _ (List.mem_cons_of_mem _ (List.mem_cons_of_mem _ (List.mem_cons_of_mem _ (List.mem_cons_self)))))), RowsLib.mem_unit _ (k0_off1013_inb k) r c k.val 16 (k0_off1013_eq k) hr h.1 h.2⟩
  · exact ⟨_, List.mem_cons_of_mem _ (List.mem_cons_of_mem _ (List.mem_cons_of_mem _ (List.mem_cons_of_mem _ (List.mem_cons_of_mem _ (List.mem_cons_self))))), RowsLib.mem_unit _ (k0_off1015_inb k) r c k.val 32 (k0_off1015_eq k) hr h.1 h.2⟩
  · exact ⟨_, List.mem_cons_of_mem _ (List.mem_cons_of_mem _ (List.mem_cons_of_mem _ (List.mem_cons_of_mem _ (List.mem_cons_self)))), RowsLib.mem_unit _ (k0_off1017_inb k) r c k.val 48 (k0_off1017_eq k) hr h.1 h.2⟩
  · exact ⟨_, List.mem_cons_of_mem _ (List.mem_cons_of_mem _ (List.mem_cons_of_mem _ (List.mem_cons_self))), RowsLib.mem_unit _ (k0_off1019_inb k) r c k.val 64 (k0_off1019_eq k) hr h.1 h.2⟩
  · exact ⟨_, List.mem_cons_of_mem _ (List.mem_cons_of_mem _ (List.mem_cons_self)), RowsLib.mem_unit _ (k0_off1021_inb k) r c k.val 80 (k0_off1021_eq k) hr h.1 h.2⟩
  · exact ⟨_, List.mem_cons_of_mem _ (List.mem_cons_self), RowsLib.mem_unit _ (k0_off1023_inb k) r c k.val 96 (k0_off1023_eq k) hr h.1 h.2⟩
  · exact ⟨_, List.mem_cons_self, RowsLib.mem_unit _ (k0_off1025_inb k) r c k.val 112 (k0_off1025_eq k) hr h.1 h.2⟩

/-- The slot of sums after row loop 64, as the row-sum function: at (r, c) the gathered rows' entry plus the positional scratch's entry of row r + 128. -/
theorem rows_t64_G (d : Dev nD) (L : grid0.Coords) (v2 wa wb : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t64 (F := F) d L v2 wa wb X P 128)) (ValueIdx.ix2 r c)
      = RowsLib.rowG (ibS1).view (qV).view X P 128 (by omega) (ValueIdx.ix2 r c) :=
  RowsLib.read_writes_trips (n := k0_t64_loop.trips) (pb_t64 (F := F) d L v2 wa wb X P) (tripL_t64 (F := F) d L v2 wa wb X P) (obS1).view G _
    rfl (pb_t64_succ (F := F) d L v2 wa wb X P) (trip_pieces_t64 d L v2 wa wb X P) _ ⟨r.val, r.isLt⟩ (trip_cover_t64 d L v2 wa wb X P ⟨r.val, r.isLt⟩ r c rfl)

/-- THE SLOT OF SUMS AFTER ROW LOOP 64, whatever it held before: at (r, c) the gathered rows' entry (r, c) plus the positional
    scratch's entry (r + 128, c). -/
theorem rows_t64 (d : Dev nD) (L : grid0.Coords) (v2 wa wb : BitVec 32) (X : BufTy.Contents (Elt F) (ibS1).view.ty) (P : BufTy.Contents (Elt F) (qV).view.ty)
    (G : BufTy.Contents (Elt F) (obS1).view.ty) (r c : Fin 128) :
    (obS1).view.read (Elt F) ((obS1).view.writes (Elt F) G (pb_t64 (F := F) d L v2 wa wb X P (Scf.trips k0_t64_loop.lb k0_t64_loop.ub k0_t64_loop.st))) (ValueIdx.ix2 r c)
      = FloatOps.addf ((ibS1).view.read (Elt F) X (ValueIdx.ix2 r c))
          ((qV).view.read (Elt F) P (ValueIdx.ix2 (⟨r.val + 128, by have := r.isLt; omega⟩ : Fin 256) c)) :=
  rows_t64_G d L v2 wa wb X P G r c

end Tile

end Cert.Proof.KB

end
-- ==== Proof.BodyB.lean ====
-- The same text as Body.lean, read at the printed kernel's own namespace: Cert.Kernel for Cert.KernelIdeal throughout.
/- GENERATED by: bun proofs/208673_g37134287241914_cont_8to1_b_302_3_alg/scratch/gen_body.js 8 (run from the package root): the per-chunk lines below are ONE text instantiated at the chunks 0 to 63.
   The tile's body, run once at a symbolic tile (SparseCore L 0, vector subcore L 1): its block of index rows is fetched into the index scratch
   and the positional rows into theirs; chunk c gathers the table rows its row of indices names into one slot of the gathered-rows scratch,
   its row loop stores their sums with the positional rows in the same slot of the sum scratch, and that slot is written back into the chunk's
   window of the tile's block of the result; two gathers and two write-backs are in flight at a time, on a slot each. Every word of the
   index rows names a table row (the index array's words are below 100000), so no gather stops. The windows of the result are taken as
   their chunks come up and handed back once written: each then holds, row by row, the named table row plus the positional row — the
   kernel's result as one function of what the call finds — by the row loops' value, the gather's payload and the positional fetch;
   together they are the tile's block again. The scratch buffers and semaphores come back as they were dealt. -/
import proofs.«208673_g37134287241914_cont_8to1_b_302_3_alg».proof.Proof.CommonB
import proofs.«208673_g37134287241914_cont_8to1_b_302_3_alg».proof.Proof.Gen.Kernel.Skeleton
import proofs.«208673_g37134287241914_cont_8to1_b_302_3_alg».proof.Proof.TileEndB
import proofs.«208673_g37134287241914_cont_8to1_b_302_3_alg».proof.Proof.ChunkValB
import proofs.«208673_g37134287241914_cont_8to1_b_302_3_alg».proof.Proof.RowsValueAB
import proofs.«208673_g37134287241914_cont_8to1_b_302_3_alg».proof.Proof.RowsValueBB
import proofs.«208673_g37134287241914_cont_8to1_b_302_3_alg».proof.Proof.RowsValueCB
import proofs.«208673_g37134287241914_cont_8to1_b_302_3_alg».proof.Proof.RowsValueDB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

set_option quotPrecheck false

local notation "ibS0" => (((Memref.whole Cert.Kernel.cc0_scratch2 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "ibS1" => (((Memref.whole Cert.Kernel.cc0_scratch2 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)
local notation "obS0" => (((Memref.whole Cert.Kernel.cc0_scratch3 : Memref Cert.Kernel.sig Kind.scVector Space.vmem Cert.Kernel.S2x128x128 EltTy.f32).slice (Rect.unit (s := Cert.Kernel.S2x128x128) ![0, 0, 0] Cert.Kernel.S1x128x128.size Cert.Kernel.Gen.inb_S2x128x128_S1x128x128_0_0_0) (fun _ => rfl)).squeeze Cert.Kernel.S128x128 Cert.Kernel.Gen.squeezes_S1x128x128_S128x128)
local notation "obS1" => (((Memref.whole Cert.Kernel.cc0_scratch3 : Memref Cert.Kernel.sig Kind.scVector Space.vmem Cert.Kernel.S2x128x128 EltTy.f32).slice (Rect.unit (s := Cert.Kernel.S2x128x128) ![1, 0, 0] Cert.Kernel.S1x128x128.size Cert.Kernel.Gen.inb_S2x128x128_S1x128x128_1_0_0) (fun _ => rfl)).squeeze Cert.Kernel.S128x128 Cert.Kernel.Gen.squeezes_S1x128x128_S128x128)

variable [FloatOps F]

section Tile
variable (d : Dev nD) (L : grid0.Coords)

theorem clt_0 : 0 < 64 := by decide
theorem clt_1 : 1 < 64 := by decide
theorem clt_2 : 2 < 64 := by decide
theorem clt_3 : 3 < 64 := by decide
theorem clt_4 : 4 < 64 := by decide
theorem clt_5 : 5 < 64 := by decide
theorem clt_6 : 6 < 64 := by decide
theorem clt_7 : 7 < 64 := by decide
theorem clt_8 : 8 < 64 := by decide
theorem clt_9 : 9 < 64 := by decide
theorem clt_10 : 10 < 64 := by decide
theorem clt_11 : 11 < 64 := by decide
theorem clt_12 : 12 < 64 := by decide
theorem clt_13 : 13 < 64 := by decide
theorem clt_14 : 14 < 64 := by decide
theorem clt_15 : 15 < 64 := by decide
theorem clt_16 : 16 < 64 := by decide
theorem clt_17 : 17 < 64 := by decide
theorem clt_18 : 18 < 64 := by decide
theorem clt_19 : 19 < 64 := by decide
theorem clt_20 : 20 < 64 := by decide
theorem clt_21 : 21 < 64 := by decide
theorem clt_22 : 22 < 64 := by decide
theorem clt_23 : 23 < 64 := by decide
theorem clt_24 : 24 < 64 := by decide
theorem clt_25 : 25 < 64 := by decide
theorem clt_26 : 26 < 64 := by decide
theorem clt_27 : 27 < 64 := by decide
theorem clt_28 : 28 < 64 := by decide
theorem clt_29 : 29 < 64 := by decide
theorem clt_30 : 30 < 64 := by decide
theorem clt_31 : 31 < 64 := by decide
theorem clt_32 : 32 < 64 := by decide
theorem clt_33 : 33 < 64 := by decide
theorem clt_34 : 34 < 64 := by decide
theorem clt_35 : 35 < 64 := by decide
theorem clt_36 : 36 < 64 := by decide
theorem clt_37 : 37 < 64 := by decide
theorem clt_38 : 38 < 64 := by decide
theorem clt_39 : 39 < 64 := by decide
theorem clt_40 : 40 < 64 := by decide
theorem clt_41 : 41 < 64 := by decide
theorem clt_42 : 42 < 64 := by decide
theorem clt_43 : 43 < 64 := by decide
theorem clt_44 : 44 < 64 := by decide
theorem clt_45 : 45 < 64 := by decide
theorem clt_46 : 46 < 64 := by decide
theorem clt_47 : 47 < 64 := by decide
theorem clt_48 : 48 < 64 := by decide
theorem clt_49 : 49 < 64 := by decide
theorem clt_50 : 50 < 64 := by decide
theorem clt_51 : 51 < 64 := by decide
theorem clt_52 : 52 < 64 := by decide
theorem clt_53 : 53 < 64 := by decide
theorem clt_54 : 54 < 64 := by decide
theorem clt_55 : 55 < 64 := by decide
theorem clt_56 : 56 < 64 := by decide
theorem clt_57 : 57 < 64 := by decide
theorem clt_58 : 58 < 64 := by decide
theorem clt_59 : 59 < 64 := by decide
theorem clt_60 : 60 < 64 := by decide
theorem clt_61 : 61 < 64 := by decide
theorem clt_62 : 62 < 64 := by decide
theorem clt_63 : 63 < 64 := by decide

omit [FloatOps F] in
theorem rows_lt0 (Φ : Fin 64 → sProp 𝕄) : bigSep (Finset.univ.filter fun j : Fin 64 => j.val < 0) Φ = iprop(emp) := by
  rw [Finset.filter_false_of_mem (fun j _ => Nat.not_lt_zero _), bigSep_empty]
  rfl
omit [FloatOps F] in
theorem rows_lt64 (Φ : Fin 64 → sProp 𝕄) : bigSep (Finset.univ.filter fun j : Fin 64 => j.val < 63 + 1) Φ = bigSep Finset.univ Φ := by
  rw [Finset.filter_true_of_mem (fun j _ => j.isLt)]

set_option maxHeartbeats 0 in
theorem tile_body (hF : (K (F := F)).Facts) (O : CellTallies nD τ sig (HIx 1)) (W : Waits sig (HIx 1)) (hO : ∀ g, O g none = 0)
    (pq tq : PosShare TreeShare)
    (X2 : Buf (Elt F) ((xV).view.loc (V d (cV L) (jV L)))) (PS : Buf (Elt F) ((pV).view.loc (V d (cV L) (jV L))))
    (TB : Buf (Elt F) ((tV).view.loc (V d (cV L) (jV L)))) (O0 : Buf (Elt F) ((oV).view.loc (V d (cV L) (jV L))))
    (hX : ∀ j, (X2 j).toNat < 100000) :
    (iprop(levAts (K (F := F)).L (K (F := F)).lev ∗ emp
        ∗ (((xRowK L).view.loc (V d (cV L) (jV L)) ↦[(xRowK L).view.set]{fullShare} X2)
          ∗ ((pV).view.loc (V d (cV L) (jV L)) ↦{pq} PS)
          ∗ ((tV).view.loc (V d (cV L) (jV L)) ↦{tq} TB)
          ∗ ((oV).view.loc (V d (cV L) (jV L)) ↦[(oV).view.setOn (oTR L).set]{fullShare} O0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_embed L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1)
          fun _ => iprop((((xRowK L).view.loc (V d (cV L) (jV L)) ↦[(xRowK L).view.set]{fullShare} X2)
              ∗ ((pV).view.loc (V d (cV L) (jV L)) ↦{pq} PS)
              ∗ ((tV).view.loc (V d (cV L) (jV L)) ↦{tq} TB)
              ∗ ∃ f, ((oV).view.loc (V d (cV L) (jV L)) ↦[(oV).view.setOn (oTR L).set]{fullShare} f) ∗ ⌜∀ j ∈ (oV).view.setOn (oTR L).set, f j = outG X2 PS TB hX j⌝)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_embed_eq_skeleton]; unfold cc0_embed_skel
  rw [(K (F := F)).scopedBufs_V hF d (cV L) (jV L), SparseCore.Cfg.scopedSems0_V (Val := Elt F) d (cV L) (jV L), ownSems0_V, ownBufs_V]
  iintro ⟨#Hlv, Hemp, ⟨Hx, Hp, Ht, Ho⟩, ⟨⟨%fs, Hs⟩, ⟨%fq, Hq⟩, ⟨%fi, HiB⟩, ⟨%fo, HoB⟩, Hbufs⟩, ⟨Hg0, Hg1, Hp0, Hp1, Hr0, Hr1, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hs := (Entails.of_eq (show ((V d (cV L) (jV L)).loc cc0_scratch0 ↦{fullShare} fs : sProp 𝕄) = ((sV).view.loc (V d (cV L) (jV L)) ↦{fullShare} fs) from rfl)) $$ Hs
  ihave Hq := (Entails.of_eq (show ((V d (cV L) (jV L)).loc cc0_scratch1 ↦{fullShare} fq : sProp 𝕄) = ((qV).view.loc (V d (cV L) (jV L)) ↦{fullShare} fq) from rfl)) $$ Hq
  ihave HiB := (Entails.of_eq (show ((V d (cV L) (jV L)).loc cc0_scratch2 ↦{fullShare} fi : sProp 𝕄) = ((iB).view.loc (V d (cV L) (jV L)) ↦{fullShare} fi) from rfl)) $$ HiB
  ihave HoB := (Entails.of_eq (show ((V d (cV L) (jV L)).loc cc0_scratch3 ↦{fullShare} fo : sProp 𝕄) = ((oB).view.loc (V d (cV L) (jV L)) ↦{fullShare} fo) from rfl)) $$ HoB
  ihave Hx := (Entails.of_eq (show (_ : sProp 𝕄) = ((xRowK L).view.loc (V d (cV L) (jV L)) ↦[(xRowK L).view.set]{fullShare} X2) from rfl)) $$ Hx
  ihave Hp := (Entails.of_eq (show (_ : sProp 𝕄) = ((pV).view.loc (V d (cV L) (jV L)) ↦{pq} PS) from rfl)) $$ Hp
  ihave Ht := (Entails.of_eq (show (_ : sProp 𝕄) = ((tV).view.loc (V d (cV L) (jV L)) ↦{tq} TB) from rfl)) $$ Ht
  ihave Ho := (Entails.of_eq (show (_ : sProp 𝕄) = ((oV).view.loc (V d (cV L) (jV L)) ↦[(oV).view.setOn (oTR L).set]{fullShare} O0) from rfl)) $$ Ho
  -- the two fetches: the tile's block of index rows into the index scratch, the positional rows into theirs
  sl_exec_parts
  -- two gathers read the table at once: the tile's share of it in halves
  ihave Ht2 := (pointsTo_share (PosShare.mem_left_op_right tq)).1 $$ Ht
  icases Ht2 with ⟨Ht, Ht'⟩
  -- the two scratches of two slots each, slot by slot
  ihave HiB2 := (Entails.of_eq (iB_slots d L _)) $$ HiB
  icases HiB2 with ⟨HiB0, HiB1⟩
  ihave HoB2 := (Entails.of_eq (oB_slots d L _)) $$ HoB
  icases HoB2 with ⟨HoB0, HoB1⟩
  ihave Hq := (Entails.of_eq (qV_set d L _)) $$ Hq
  -- every row of the index scratch is a list of table rows
  have hinAll : ∀ (k : ℕ) (hk : k < 64), ∀ x, ((idxRowM ⟨k, hk⟩).view.read (Elt F) (View.write (Elt F) (sV).view fs (tile_body.sl.dma0 d L X2) Finset.univ) x).toNat < 100000 :=
    fun k hk => inb_row d L X2 hX fs _ rfl ⟨k, hk⟩
  -- the tile's block of the result: its windows are taken as their chunks come up and handed back once written
  ihave Hob := (Entails.of_eq (oPts_blocks d L _)) $$ Ho
  ihave Hob := (Entails.of_eq (rows_all _)) $$ Hob
  ihave Hdone := (Entails.of_eq (rows_lt0 (fun c : Fin 64 => ((blkM L c).view.loc (V d (cV L) (jV L)) ↦[(blkM L c).view.set]{fullShare} (outG X2 PS TB hX : Buf (Elt F) ((oV).view.loc (V d (cV L) (jV L))))))).symm) $$ Hemp
  ihave Hob := (Entails.of_eq (rows_take _ 0 clt_0)) $$ Hob
  icases Hob with ⟨Hob0, Hob⟩
  ihave Hob0 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 0#32) Cert.Kernel.S128x128.size (Cert.Kernel.Gen.k0_off18_inb L 0)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 0#32) Cert.Kernel.S128x128.size (Cert.Kernel.Gen.k0_off18_inb L 0)) (fun _ => rfl)).view.set]{fullShare} O0) from Entails.refl _) $$ Hob0
  ihave Hob := (Entails.of_eq (rows_take _ 1 clt_1)) $$ Hob
  icases Hob with ⟨Hob1, Hob⟩
  ihave Hob1 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 128#32) Cert.Kernel.S128x128.size (Cert.Kernel.Gen.k0_off18_inb L 1)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 128#32) Cert.Kernel.S128x128.size (Cert.Kernel.Gen.k0_off18_inb L 1)) (fun _ => rfl)).view.set]{fullShare} O0) from Entails.refl _) $$ Hob1
  ihave Hob := (Entails.of_eq (rows_take _ 2 clt_2)) $$ Hob
  icases Hob with ⟨Hob2, Hob⟩
  ihave Hob2 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 256#32) Cert.Kernel.S128x128.size (Cert.Kernel.Gen.k0_off18_inb L 2)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 256#32) Cert.Kernel.S128x128.size (Cert.Kernel.Gen.k0_off18_inb L 2)) (fun _ => rfl)).view.set]{fullShare} O0) from Entails.refl _) $$ Hob2
  ihave Hob := (Entails.of_eq (rows_take _ 3 clt_3)) $$ Hob
  icases Hob with ⟨Hob3, Hob⟩
  ihave Hob3 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 384#32) Cert.Kernel.S128x128.size (Cert.Kernel.Gen.k0_off18_inb L 3)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 384#32) Cert.Kernel.S128x128.size (Cert.Kernel.Gen.k0_off18_inb L 3)) (fun _ => rfl)).view.set]{fullShare} O0) from Entails.refl _) $$ Hob3
  ihave Hob := (Entails.of_eq (rows_take _ 4 clt_4)) $$ Hob
  icases Hob with ⟨Hob4, Hob⟩
  ihave Hob4 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 512#32) Cert.Kernel.S128x128.size (Cert.Kernel.Gen.k0_off18_inb L 4)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 512#32) Cert.Kernel.S128x128.size (Cert.Kernel.Gen.k0_off18_inb L 4)) (fun _ => rfl)).view.set]{fullShare} O0) from Entails.refl _) $$ Hob4
  ihave Hob := (Entails.of_eq (rows_take _ 5 clt_5)) $$ Hob
  icases Hob with ⟨Hob5, Hob⟩
  ihave Hob5 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 640#32) Cert.Kernel.S128x128.size (Cert.Kernel.Gen.k0_off18_inb L 5)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 640#32) Cert.Kernel.S128x128.size (Cert.Kernel.Gen.k0_off18_inb L 5)) (fun _ => rfl)).view.set]{fullShare} O0) from Entails.refl _) $$ Hob5
  ihave Hob := (Entails.of_eq (rows_take _ 6 clt_6)) $$ Hob
  icases Hob with ⟨Hob6, Hob⟩
  ihave Hob6 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 768#32) Cert.Kernel.S128x128.size (Cert.Kernel.Gen.k0_off18_inb L 6)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 768#32) Cert.Kernel.S128x128.size (Cert.Kernel.Gen.k0_off18_inb L 6)) (fun _ => rfl)).view.set]{fullShare} O0) from Entails.refl _) $$ Hob6
  ihave Hob := (Entails.of_eq (rows_take _ 7 clt_7)) $$ Hob
  icases Hob with ⟨Hob7, Hob⟩
  ihave Hob7 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 896#32) Cert.Kernel.S128x128.size (Cert.Kernel.Gen.k0_off18_inb L 7)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 896#32) Cert.Kernel.S128x128.size (Cert.Kernel.Gen.k0_off18_inb L 7)) (fun _ => rfl)).view.set]{fullShare} O0) from Entails.refl _) $$ Hob7
  ihave Hob := (Entails.of_eq (rows_take _ 8 clt_8)) $$ Hob
  icases Hob with ⟨Hob8, Hob⟩
  ihave Hob8 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1024#32) Cert.Kernel.S128x128.size (Cert.Kernel.Gen.k0_off18_inb L 8)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1024#32) Cert.Kernel.S128x128.size (Cert.Kernel.Gen.k0_off18_inb L 8)) (fun _ => rfl)).view.set]{fullShare} O0) from Entails.refl _) $$ Hob8
  ihave Hob := (Entails.of_eq (rows_take _ 9 clt_9)) $$ Hob
  icases Hob with ⟨Hob9, Hob⟩
  ihave Hob9 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1152#32) Cert.Kernel.S128x128.size (Cert.Kernel.Gen.k0_off18_inb L 9)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1152#32) Cert.Kernel.S128x128.size (Cert.Kernel.Gen.k0_off18_inb L 9)) (fun _ => rfl)).view.set]{fullShare} O0) from Entails.refl _) $$ Hob9
  sl_exec_parts
  have hput0 : ∀ r col : Fin 128, (tile_body.sl.dma0_2 d L X2 PS TB fs fq fo hinAll) (ValueIdx.ix2 r col) = outG X2 PS TB hX (ValueIdx.ix2 (outRowN L ⟨0, clt_0⟩ r) col) := by
    intro r col
    show (obS0).view.read (Elt F) ((obS0).view.writes (Elt F) _ (pb_t1 (F := F) d L _ _ _ _)) (ValueIdx.ix2 r col) = _
    refine (rows_t1 (F := F) d L _ _ _ _ r col).trans ?_
    exact chunk_sum L ⟨0, clt_0⟩ X2 PS TB hX _ fs _ rfl _ (hinAll 0 clt_0) _ _ fq _ rfl 0 (by decide) r col _
  ihave Hob0 := (Entails.of_eq (pointsTo_congr (q := fullShare) (g := (outG X2 PS TB hX : Buf (Elt F) ((oV).view.loc (V d (cV L) (jV L))))) (window_writes L ⟨0, clt_0⟩ X2 PS TB hX _ _ hput0))) $$ Hob0
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 0 clt_0).symm) $$ [Hob0 Hdone]
  · isplitl [Hob0]
    · iexact Hob0
    · iexact Hdone
  have hput1 : ∀ r col : Fin 128, (tile_body.sl.dma0_3 d L X2 PS TB fs fq fo hinAll) (ValueIdx.ix2 r col) = outG X2 PS TB hX (ValueIdx.ix2 (outRowN L ⟨1, clt_1⟩ r) col) := by
    intro r col
    show (obS1).view.read (Elt F) ((obS1).view.writes (Elt F) _ (pb_t2 (F := F) d L _ _ _ _)) (ValueIdx.ix2 r col) = _
    refine (rows_t2 (F := F) d L _ _ _ _ r col).trans ?_
    exact chunk_sum L ⟨1, clt_1⟩ X2 PS TB hX _ fs _ rfl _ (hinAll 1 clt_1) _ _ fq _ rfl 128 (by decide) r col _
  ihave Hob1 := (Entails.of_eq (pointsTo_congr (q := fullShare) (g := (outG X2 PS TB hX : Buf (Elt F) ((oV).view.loc (V d (cV L) (jV L))))) (window_writes L ⟨1, clt_1⟩ X2 PS TB hX _ _ hput1))) $$ Hob1
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 1 clt_1).symm) $$ [Hob1 Hdone]
  · isplitl [Hob1]
    · iexact Hob1
    · iexact Hdone
  have hput2 : ∀ r col : Fin 128, (tile_body.sl.dma0_4 d L X2 PS TB fs fq fo hinAll) (ValueIdx.ix2 r col) = outG X2 PS TB hX (ValueIdx.ix2 (outRowN L ⟨2, clt_2⟩ r) col) := by
    intro r col
    show (obS0).view.read (Elt F) ((obS0).view.writes (Elt F) _ (pb_t3 (F := F) d L _ _ _ _ _ _ ++ _)) (ValueIdx.ix2 r col) = _
    rw [View.writes_append]
    refine (rows_t3 (F := F) d L _ _ _ _ _ _ r col).trans ?_
    exact chunk_sum L ⟨2, clt_2⟩ X2 PS TB hX _ fs _ rfl _ (hinAll 2 clt_2) _ _ fq _ rfl 0 (by decide) r col _
  ihave Hob2 := (Entails.of_eq (pointsTo_congr (q := fullShare) (g := (outG X2 PS TB hX : Buf (Elt F) ((oV).view.loc (V d (cV L) (jV L))))) (window_writes L ⟨2, clt_2⟩ X2 PS TB hX _ _ hput2))) $$ Hob2
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 2 clt_2).symm) $$ [Hob2 Hdone]
  · isplitl [Hob2]
    · iexact Hob2
    · iexact Hdone
  have hput3 : ∀ r col : Fin 128, (tile_body.sl.dma0_5 d L X2 PS TB fs fq fo hinAll) (ValueIdx.ix2 r col) = outG X2 PS TB hX (ValueIdx.ix2 (outRowN L ⟨3, clt_3⟩ r) col) := by
    intro r col
    show (obS1).view.read (Elt F) ((obS1).view.writes (Elt F) _ (pb_t4 (F := F) d L _ _ _ _ ++ _)) (ValueIdx.ix2 r col) = _
    rw [View.writes_append]
    refine (rows_t4 (F := F) d L _ _ _ _ r col).trans ?_
    exact chunk_sum L ⟨3, clt_3⟩ X2 PS TB hX _ fs _ rfl _ (hinAll 3 clt_3) _ _ fq _ rfl 128 (by decide) r col _
  ihave Hob3 := (Entails.of_eq (pointsTo_congr (q := fullShare) (g := (outG X2 PS TB hX : Buf (Elt F) ((oV).view.loc (V d (cV L) (jV L))))) (window_writes L ⟨3, clt_3⟩ X2 PS TB hX _ _ hput3))) $$ Hob3
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 3 clt_3).symm) $$ [Hob3 Hdone]
  · isplitl [Hob3]
    · iexact Hob3
    · iexact Hdone
  have hput4 : ∀ r col : Fin 128, (tile_body.sl.dma0_6 d L X2 PS TB fs fq fo hinAll) (ValueIdx.ix2 r col) = outG X2 PS TB hX (ValueIdx.ix2 (outRowN L ⟨4, clt_4⟩ r) col) := by
    intro r col
    show (obS0).view.read (Elt F) ((obS0).view.writes (Elt F) _ (pb_t5 (F := F) d L _ _ _ _ ++ _)) (ValueIdx.ix2 r col) = _
    rw [View.writes_append]
    refine (rows_t5 (F := F) d L _ _ _ _ r col).trans ?_
    exact chunk_sum L ⟨4, clt_4⟩ X2 PS TB hX _ fs _ rfl _ (hinAll 4 clt_4) _ _ fq _ rfl 0 (by decide) r col _
  ihave Hob4 := (Entails.of_eq (pointsTo_congr (q := fullShare) (g := (outG X2 PS TB hX : Buf (Elt F) ((oV).view.loc (V d (cV L) (jV L))))) (window_writes L ⟨4, clt_4⟩ X2 PS TB hX _ _ hput4))) $$ Hob4
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 4 clt_4).symm) $$ [Hob4 Hdone]
  · isplitl [Hob4]
    · iexact Hob4
    · iexact Hdone
  have hput5 : ∀ r col : Fin 128, (tile_body.sl.dma0_7 d L X2 PS TB fs fq fo hinAll) (ValueIdx.ix2 r col) = outG X2 PS TB hX (ValueIdx.ix2 (outRowN L ⟨5, clt_5⟩ r) col) := by
    intro r col
    show (obS1).view.read (Elt F) ((obS1).view.writes (Elt F) _ (pb_t6 (F := F) d L _ _ _ _ ++ _)) (ValueIdx.ix2 r col) = _
    rw [View.writes_append]
    refine (rows_t6 (F := F) d L _ _ _ _ r col).trans ?_
    exact chunk_sum L ⟨5, clt_5⟩ X2 PS TB hX _ fs _ rfl _ (hinAll 5 clt_5) _ _ fq _ rfl 128 (by decide) r col _
  ihave Hob5 := (Entails.of_eq (pointsTo_congr (q := fullShare) (g := (outG X2 PS TB hX : Buf (Elt F) ((oV).view.loc (V d (cV L) (jV L))))) (window_writes L ⟨5, clt_5⟩ X2 PS TB hX _ _ hput5))) $$ Hob5
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 5 clt_5).symm) $$ [Hob5 Hdone]
  · isplitl [Hob5]
    · iexact Hob5
    · iexact Hdone
  have hput6 : ∀ r col : Fin 128, (tile_body.sl.dma0_8 d L X2 PS TB fs fq fo hinAll) (ValueIdx.ix2 r col) = outG X2 PS TB hX (ValueIdx.ix2 (outRowN L ⟨6, clt_6⟩ r) col) := by
    intro r col
    show (obS0).view.read (Elt F) ((obS0).view.writes (Elt F) _ (pb_t7 (F := F) d L _ _ _ _ ++ _)) (ValueIdx.ix2 r col) = _
    rw [View.writes_append]
    refine (rows_t7 (F := F) d L _ _ _ _ r col).trans ?_
    exact chunk_sum L ⟨6, clt_6⟩ X2 PS TB hX _ fs _ rfl _ (hinAll 6 clt_6) _ _ fq _ rfl 0 (by decide) r col _
  ihave Hob6 := (Entails.of_eq (pointsTo_congr (q := fullShare) (g := (outG X2 PS TB hX : Buf (Elt F) ((oV).view.loc (V d (cV L) (jV L))))) (window_writes L ⟨6, clt_6⟩ X2 PS TB hX _ _ hput6))) $$ Hob6
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 6 clt_6).symm) $$ [Hob6 Hdone]
  · isplitl [Hob6]
    · iexact Hob6
    · iexact Hdone
  have hput7 : ∀ r col : Fin 128, (tile_body.sl.dma0_9 d L X2 PS TB fs fq fo hinAll) (ValueIdx.ix2 r col) = outG X2 PS TB hX (ValueIdx.ix2 (outRowN L ⟨7, clt_7⟩ r) col) := by
    intro r col
    show (obS1).view.read (Elt F) ((obS1).view.writes (Elt F) _ (pb_t8 (F := F) d L _ _ _ _ ++ _)) (ValueIdx.ix2 r col) = _
    rw [View.writes_append]
    refine (rows_t8 (F := F) d L _ _ _ _ r col).trans ?_
    exact chunk_sum L ⟨7, clt_7⟩ X2 PS TB hX _ fs _ rfl _ (hinAll 7 clt_7) _ _ fq _ rfl 128 (by decide) r col _
  ihave Hob7 := (Entails.of_eq (pointsTo_congr (q := fullShare) (g := (outG X2 PS TB hX : Buf (Elt F) ((oV).view.loc (V d (cV L) (jV L))))) (window_writes L ⟨7, clt_7⟩ X2 PS TB hX _ _ hput7))) $$ Hob7
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 7 clt_7).symm) $$ [Hob7 Hdone]
  · isplitl [Hob7]
    · iexact Hob7
    · iexact Hdone
  have hput8 : ∀ r col : Fin 128, (tile_body.sl.dma0_10 d L X2 PS TB fs fq fo hinAll) (ValueIdx.ix2 r col) = outG X2 PS TB hX (ValueIdx.ix2 (outRowN L ⟨8, clt_8⟩ r) col) := by
    intro r col
    show (obS0).view.read (Elt F) ((obS0).view.writes (Elt F) _ (pb_t9 (F := F) d L _ _ _ _ ++ _)) (ValueIdx.ix2 r col) = _
    rw [View.writes_append]
    refine (rows_t9 (F := F) d L _ _ _ _ r col).trans ?_
    exact chunk_sum L ⟨8, clt_8⟩ X2 PS TB hX _ fs _ rfl _ (hinAll 8 clt_8) _ _ fq _ rfl 0 (by decide) r col _
  ihave Hob8 := (Entails.of_eq (pointsTo_congr (q := fullShare) (g := (outG X2 PS TB hX : Buf (Elt F) ((oV).view.loc (V d (cV L) (jV L))))) (window_writes L ⟨8, clt_8⟩ X2 PS TB hX _ _ hput8))) $$ Hob8
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 8 clt_8).symm) $$ [Hob8 Hdone]
  · isplitl [Hob8]
    · iexact Hob8
    · iexact Hdone
  ihave Hob := (Entails.of_eq (rows_take _ 10 clt_10)) $$ Hob
  icases Hob with ⟨Hob10, Hob⟩
  ihave Hob10 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1280#32) Cert.Kernel.S128x128.size (Cert.Kernel.Gen.k0_off18_inb L 10)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1280#32) Cert.Kernel.S128x128.size (Cert.Kernel.Gen.k0_off18_inb L 10)) (fun _ => rfl)).view.set]{fullShare} O0) from Entails.refl _) $$ Hob10
  ihave Hob := (Entails.of_eq (rows_take _ 11 clt_11)) $$ Hob
  icases Hob with ⟨Hob11, Hob⟩
  ihave Hob11 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1408#32) Cert.Kernel.S128x128.size (Cert.Kernel.Gen.k0_off18_inb L 11)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1408#32) Cert.Kernel.S128x128.size (Cert.Kernel.Gen.k0_off18_inb L 11)) (fun _ => rfl)).view.set]{fullShare} O0) from Entails.refl _) $$ Hob11
  ihave Hob := (Entails.of_eq (rows_take _ 12 clt_12)) $$ Hob
  icases Hob with ⟨Hob12, Hob⟩
  ihave Hob12 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1536#32) Cert.Kernel.S128x128.size (Cert.Kernel.Gen.k0_off18_inb L 12)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1536#32) Cert.Kernel.S128x128.size (Cert.Kernel.Gen.k0_off18_inb L 12)) (fun _ => rfl)).view.set]{fullShare} O0) from Entails.refl _) $$ Hob12
  ihave Hob := (Entails.of_eq (rows_take _ 13 clt_13)) $$ Hob
  icases Hob with ⟨Hob13, Hob⟩
  ihave Hob13 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1664#32) Cert.Kernel.S128x128.size (Cert.Kernel.Gen.k0_off18_inb L 13)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1664#32) Cert.Kernel.S128x128.size (Cert.Kernel.Gen.k0_off18_inb L 13)) (fun _ => rfl)).view.set]{fullShare} O0) from Entails.refl _) $$ Hob13
  ihave Hob := (Entails.of_eq (rows_take _ 14 clt_14)) $$ Hob
  icases Hob with ⟨Hob14, Hob⟩
  ihave Hob14 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1792#32) Cert.Kernel.S128x128.size (Cert.Kernel.Gen.k0_off18_inb L 14)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1792#32) Cert.Kernel.S128x128.size (Cert.Kernel.Gen.k0_off18_inb L 14)) (fun _ => rfl)).view.set]{fullShare} O0) from Entails.refl _) $$ Hob14
  ihave Hob := (Entails.of_eq (rows_take _ 15 clt_15)) $$ Hob
  icases Hob with ⟨Hob15, Hob⟩
  ihave Hob15 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 1920#32) Cert.Kernel.S128x128.size (Cert.Kernel.Gen.k0_off18_inb L 15)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 1920#32) Cert.Kernel.S128x128.size (Cert.Kernel.Gen.k0_off18_inb L 15)) (fun _ => rfl)).view.set]{fullShare} O0) from Entails.refl _) $$ Hob15
  ihave Hob := (Entails.of_eq (rows_take _ 16 clt_16)) $$ Hob
  icases Hob with ⟨Hob16, Hob⟩
  ihave Hob16 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2048#32) Cert.Kernel.S128x128.size (Cert.Kernel.Gen.k0_off18_inb L 16)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2048#32) Cert.Kernel.S128x128.size (Cert.Kernel.Gen.k0_off18_inb L 16)) (fun _ => rfl)).view.set]{fullShare} O0) from Entails.refl _) $$ Hob16
  ihave Hob := (Entails.of_eq (rows_take _ 17 clt_17)) $$ Hob
  icases Hob with ⟨Hob17, Hob⟩
  ihave Hob17 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2176#32) Cert.Kernel.S128x128.size (Cert.Kernel.Gen.k0_off18_inb L 17)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2176#32) Cert.Kernel.S128x128.size (Cert.Kernel.Gen.k0_off18_inb L 17)) (fun _ => rfl)).view.set]{fullShare} O0) from Entails.refl _) $$ Hob17
  sl_exec_parts
  have hput9 : ∀ r col : Fin 128, (tile_body.sl.dma0_11 d L X2 PS TB fs fq fo hinAll) (ValueIdx.ix2 r col) = outG X2 PS TB hX (ValueIdx.ix2 (outRowN L ⟨9, clt_9⟩ r) col) := by
    intro r col
    show (obS1).view.read (Elt F) ((obS1).view.writes (Elt F) _ (pb_t10 (F := F) d L _ _ _ _ ++ _)) (ValueIdx.ix2 r col) = _
    rw [View.writes_append]
    refine (rows_t10 (F := F) d L _ _ _ _ r col).trans ?_
    exact chunk_sum L ⟨9, clt_9⟩ X2 PS TB hX _ fs _ rfl _ (hinAll 9 clt_9) _ _ fq _ rfl 128 (by decide) r col _
  ihave Hob9 := (Entails.of_eq (pointsTo_congr (q := fullShare) (g := (outG X2 PS TB hX : Buf (Elt F) ((oV).view.loc (V d (cV L) (jV L))))) (window_writes L ⟨9, clt_9⟩ X2 PS TB hX _ _ hput9))) $$ Hob9
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 9 clt_9).symm) $$ [Hob9 Hdone]
  · isplitl [Hob9]
    · iexact Hob9
    · iexact Hdone
  have hput10 : ∀ r col : Fin 128, (tile_body.sl.dma0_12 d L X2 PS TB fs fq fo hinAll) (ValueIdx.ix2 r col) = outG X2 PS TB hX (ValueIdx.ix2 (outRowN L ⟨10, clt_10⟩ r) col) := by
    intro r col
    show (obS0).view.read (Elt F) ((obS0).view.writes (Elt F) _ (pb_t11 (F := F) d L _ _ _ _ ++ _)) (ValueIdx.ix2 r col) = _
    rw [View.writes_append]
    refine (rows_t11 (F := F) d L _ _ _ _ r col).trans ?_
    exact chunk_sum L ⟨10, clt_10⟩ X2 PS TB hX _ fs _ rfl _ (hinAll 10 clt_10) _ _ fq _ rfl 0 (by decide) r col _
  ihave Hob10 := (Entails.of_eq (pointsTo_congr (q := fullShare) (g := (outG X2 PS TB hX : Buf (Elt F) ((oV).view.loc (V d (cV L) (jV L))))) (window_writes L ⟨10, clt_10⟩ X2 PS TB hX _ _ hput10))) $$ Hob10
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 10 clt_10).symm) $$ [Hob10 Hdone]
  · isplitl [Hob10]
    · iexact Hob10
    · iexact Hdone
  have hput11 : ∀ r col : Fin 128, (tile_body.sl.dma0_13 d L X2 PS TB fs fq fo hinAll) (ValueIdx.ix2 r col) = outG X2 PS TB hX (ValueIdx.ix2 (outRowN L ⟨11, clt_11⟩ r) col) := by
    intro r col
    show (obS1).view.read (Elt F) ((obS1).view.writes (Elt F) _ (pb_t12 (F := F) d L _ _ _ _ ++ _)) (ValueIdx.ix2 r col) = _
    rw [View.writes_append]
    refine (rows_t12 (F := F) d L _ _ _ _ r col).trans ?_
    exact chunk_sum L ⟨11, clt_11⟩ X2 PS TB hX _ fs _ rfl _ (hinAll 11 clt_11) _ _ fq _ rfl 128 (by decide) r col _
  ihave Hob11 := (Entails.of_eq (pointsTo_congr (q := fullShare) (g := (outG X2 PS TB hX : Buf (Elt F) ((oV).view.loc (V d (cV L) (jV L))))) (window_writes L ⟨11, clt_11⟩ X2 PS TB hX _ _ hput11))) $$ Hob11
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 11 clt_11).symm) $$ [Hob11 Hdone]
  · isplitl [Hob11]
    · iexact Hob11
    · iexact Hdone
  have hput12 : ∀ r col : Fin 128, (tile_body.sl.dma0_14 d L X2 PS TB fs fq fo hinAll) (ValueIdx.ix2 r col) = outG X2 PS TB hX (ValueIdx.ix2 (outRowN L ⟨12, clt_12⟩ r) col) := by
    intro r col
    show (obS0).view.read (Elt F) ((obS0).view.writes (Elt F) _ (pb_t13 (F := F) d L _ _ _ _ _ _ ++ _)) (ValueIdx.ix2 r col) = _
    rw [View.writes_append]
    refine (rows_t13 (F := F) d L _ _ _ _ _ _ r col).trans ?_
    exact chunk_sum L ⟨12, clt_12⟩ X2 PS TB hX _ fs _ rfl _ (hinAll 12 clt_12) _ _ fq _ rfl 0 (by decide) r col _
  ihave Hob12 := (Entails.of_eq (pointsTo_congr (q := fullShare) (g := (outG X2 PS TB hX : Buf (Elt F) ((oV).view.loc (V d (cV L) (jV L))))) (window_writes L ⟨12, clt_12⟩ X2 PS TB hX _ _ hput12))) $$ Hob12
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 12 clt_12).symm) $$ [Hob12 Hdone]
  · isplitl [Hob12]
    · iexact Hob12
    · iexact Hdone
  have hput13 : ∀ r col : Fin 128, (tile_body.sl.dma0_15 d L X2 PS TB fs fq fo hinAll) (ValueIdx.ix2 r col) = outG X2 PS TB hX (ValueIdx.ix2 (outRowN L ⟨13, clt_13⟩ r) col) := by
    intro r col
    show (obS1).view.read (Elt F) ((obS1).view.writes (Elt F) _ (pb_t14 (F := F) d L _ _ _ _ ++ _)) (ValueIdx.ix2 r col) = _
    rw [View.writes_append]
    refine (rows_t14 (F := F) d L _ _ _ _ r col).trans ?_
    exact chunk_sum L ⟨13, clt_13⟩ X2 PS TB hX _ fs _ rfl _ (hinAll 13 clt_13) _ _ fq _ rfl 128 (by decide) r col _
  ihave Hob13 := (Entails.of_eq (pointsTo_congr (q := fullShare) (g := (outG X2 PS TB hX : Buf (Elt F) ((oV).view.loc (V d (cV L) (jV L))))) (window_writes L ⟨13, clt_13⟩ X2 PS TB hX _ _ hput13))) $$ Hob13
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 13 clt_13).symm) $$ [Hob13 Hdone]
  · isplitl [Hob13]
    · iexact Hob13
    · iexact Hdone
  have hput14 : ∀ r col : Fin 128, (tile_body.sl.dma0_16 d L X2 PS TB fs fq fo hinAll) (ValueIdx.ix2 r col) = outG X2 PS TB hX (ValueIdx.ix2 (outRowN L ⟨14, clt_14⟩ r) col) := by
    intro r col
    show (obS0).view.read (Elt F) ((obS0).view.writes (Elt F) _ (pb_t15 (F := F) d L _ _ _ _ ++ _)) (ValueIdx.ix2 r col) = _
    rw [View.writes_append]
    refine (rows_t15 (F := F) d L _ _ _ _ r col).trans ?_
    exact chunk_sum L ⟨14, clt_14⟩ X2 PS TB hX _ fs _ rfl _ (hinAll 14 clt_14) _ _ fq _ rfl 0 (by decide) r col _
  ihave Hob14 := (Entails.of_eq (pointsTo_congr (q := fullShare) (g := (outG X2 PS TB hX : Buf (Elt F) ((oV).view.loc (V d (cV L) (jV L))))) (window_writes L ⟨14, clt_14⟩ X2 PS TB hX _ _ hput14))) $$ Hob14
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 14 clt_14).symm) $$ [Hob14 Hdone]
  · isplitl [Hob14]
    · iexact Hob14
    · iexact Hdone
  have hput15 : ∀ r col : Fin 128, (tile_body.sl.dma0_17 d L X2 PS TB fs fq fo hinAll) (ValueIdx.ix2 r col) = outG X2 PS TB hX (ValueIdx.ix2 (outRowN L ⟨15, clt_15⟩ r) col) := by
    intro r col
    show (obS1).view.read (Elt F) ((obS1).view.writes (Elt F) _ (pb_t16 (F := F) d L _ _ _ _ ++ _)) (ValueIdx.ix2 r col) = _
    rw [View.writes_append]
    refine (rows_t16 (F := F) d L _ _ _ _ r col).trans ?_
    exact chunk_sum L ⟨15, clt_15⟩ X2 PS TB hX _ fs _ rfl _ (hinAll 15 clt_15) _ _ fq _ rfl 128 (by decide) r col _
  ihave Hob15 := (Entails.of_eq (pointsTo_congr (q := fullShare) (g := (outG X2 PS TB hX : Buf (Elt F) ((oV).view.loc (V d (cV L) (jV L))))) (window_writes L ⟨15, clt_15⟩ X2 PS TB hX _ _ hput15))) $$ Hob15
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 15 clt_15).symm) $$ [Hob15 Hdone]
  · isplitl [Hob15]
    · iexact Hob15
    · iexact Hdone
  have hput16 : ∀ r col : Fin 128, (tile_body.sl.dma0_18 d L X2 PS TB fs fq fo hinAll) (ValueIdx.ix2 r col) = outG X2 PS TB hX (ValueIdx.ix2 (outRowN L ⟨16, clt_16⟩ r) col) := by
    intro r col
    show (obS0).view.read (Elt F) ((obS0).view.writes (Elt F) _ (pb_t17 (F := F) d L _ _ _ _ ++ _)) (ValueIdx.ix2 r col) = _
    rw [View.writes_append]
    refine (rows_t17 (F := F) d L _ _ _ _ r col).trans ?_
    exact chunk_sum L ⟨16, clt_16⟩ X2 PS TB hX _ fs _ rfl _ (hinAll 16 clt_16) _ _ fq _ rfl 0 (by decide) r col _
  ihave Hob16 := (Entails.of_eq (pointsTo_congr (q := fullShare) (g := (outG X2 PS TB hX : Buf (Elt F) ((oV).view.loc (V d (cV L) (jV L))))) (window_writes L ⟨16, clt_16⟩ X2 PS TB hX _ _ hput16))) $$ Hob16
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 16 clt_16).symm) $$ [Hob16 Hdone]
  · isplitl [Hob16]
    · iexact Hob16
    · iexact Hdone
  ihave Hob := (Entails.of_eq (rows_take _ 18 clt_18)) $$ Hob
  icases Hob with ⟨Hob18, Hob⟩
  ihave Hob18 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2304#32) Cert.Kernel.S128x128.size (Cert.Kernel.Gen.k0_off18_inb L 18)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2304#32) Cert.Kernel.S128x128.size (Cert.Kernel.Gen.k0_off18_inb L 18)) (fun _ => rfl)).view.set]{fullShare} O0) from Entails.refl _) $$ Hob18
  ihave Hob := (Entails.of_eq (rows_take _ 19 clt_19)) $$ Hob
  icases Hob with ⟨Hob19, Hob⟩
  ihave Hob19 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2432#32) Cert.Kernel.S128x128.size (Cert.Kernel.Gen.k0_off18_inb L 19)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2432#32) Cert.Kernel.S128x128.size (Cert.Kernel.Gen.k0_off18_inb L 19)) (fun _ => rfl)).view.set]{fullShare} O0) from Entails.refl _) $$ Hob19
  ihave Hob := (Entails.of_eq (rows_take _ 20 clt_20)) $$ Hob
  icases Hob with ⟨Hob20, Hob⟩
  ihave Hob20 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2560#32) Cert.Kernel.S128x128.size (Cert.Kernel.Gen.k0_off18_inb L 20)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2560#32) Cert.Kernel.S128x128.size (Cert.Kernel.Gen.k0_off18_inb L 20)) (fun _ => rfl)).view.set]{fullShare} O0) from Entails.refl _) $$ Hob20
  ihave Hob := (Entails.of_eq (rows_take _ 21 clt_21)) $$ Hob
  icases Hob with ⟨Hob21, Hob⟩
  ihave Hob21 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2688#32) Cert.Kernel.S128x128.size (Cert.Kernel.Gen.k0_off18_inb L 21)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2688#32) Cert.Kernel.S128x128.size (Cert.Kernel.Gen.k0_off18_inb L 21)) (fun _ => rfl)).view.set]{fullShare} O0) from Entails.refl _) $$ Hob21
  ihave Hob := (Entails.of_eq (rows_take _ 22 clt_22)) $$ Hob
  icases Hob with ⟨Hob22, Hob⟩
  ihave Hob22 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2816#32) Cert.Kernel.S128x128.size (Cert.Kernel.Gen.k0_off18_inb L 22)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2816#32) Cert.Kernel.S128x128.size (Cert.Kernel.Gen.k0_off18_inb L 22)) (fun _ => rfl)).view.set]{fullShare} O0) from Entails.refl _) $$ Hob22
  ihave Hob := (Entails.of_eq (rows_take _ 23 clt_23)) $$ Hob
  icases Hob with ⟨Hob23, Hob⟩
  ihave Hob23 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 2944#32) Cert.Kernel.S128x128.size (Cert.Kernel.Gen.k0_off18_inb L 23)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 2944#32) Cert.Kernel.S128x128.size (Cert.Kernel.Gen.k0_off18_inb L 23)) (fun _ => rfl)).view.set]{fullShare} O0) from Entails.refl _) $$ Hob23
  ihave Hob := (Entails.of_eq (rows_take _ 24 clt_24)) $$ Hob
  icases Hob with ⟨Hob24, Hob⟩
  ihave Hob24 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3072#32) Cert.Kernel.S128x128.size (Cert.Kernel.Gen.k0_off18_inb L 24)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3072#32) Cert.Kernel.S128x128.size (Cert.Kernel.Gen.k0_off18_inb L 24)) (fun _ => rfl)).view.set]{fullShare} O0) from Entails.refl _) $$ Hob24
  ihave Hob := (Entails.of_eq (rows_take _ 25 clt_25)) $$ Hob
  icases Hob with ⟨Hob25, Hob⟩
  ihave Hob25 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3200#32) Cert.Kernel.S128x128.size (Cert.Kernel.Gen.k0_off18_inb L 25)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3200#32) Cert.Kernel.S128x128.size (Cert.Kernel.Gen.k0_off18_inb L 25)) (fun _ => rfl)).view.set]{fullShare} O0) from Entails.refl _) $$ Hob25
  sl_exec_parts
  have hput17 : ∀ r col : Fin 128, (tile_body.sl.dma0_19 d L X2 PS TB fs fq fo hinAll) (ValueIdx.ix2 r col) = outG X2 PS TB hX (ValueIdx.ix2 (outRowN L ⟨17, clt_17⟩ r) col) := by
    intro r col
    show (obS1).view.read (Elt F) ((obS1).view.writes (Elt F) _ (pb_t18 (F := F) d L _ _ _ _ ++ _)) (ValueIdx.ix2 r col) = _
    rw [View.writes_append]
    refine (rows_t18 (F := F) d L _ _ _ _ r col).trans ?_
    exact chunk_sum L ⟨17, clt_17⟩ X2 PS TB hX _ fs _ rfl _ (hinAll 17 clt_17) _ _ fq _ rfl 128 (by decide) r col _
  ihave Hob17 := (Entails.of_eq (pointsTo_congr (q := fullShare) (g := (outG X2 PS TB hX : Buf (Elt F) ((oV).view.loc (V d (cV L) (jV L))))) (window_writes L ⟨17, clt_17⟩ X2 PS TB hX _ _ hput17))) $$ Hob17
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 17 clt_17).symm) $$ [Hob17 Hdone]
  · isplitl [Hob17]
    · iexact Hob17
    · iexact Hdone
  have hput18 : ∀ r col : Fin 128, (tile_body.sl.dma0_20 d L X2 PS TB fs fq fo hinAll) (ValueIdx.ix2 r col) = outG X2 PS TB hX (ValueIdx.ix2 (outRowN L ⟨18, clt_18⟩ r) col) := by
    intro r col
    show (obS0).view.read (Elt F) ((obS0).view.writes (Elt F) _ (pb_t19 (F := F) d L _ _ _ _ ++ _)) (ValueIdx.ix2 r col) = _
    rw [View.writes_append]
    refine (rows_t19 (F := F) d L _ _ _ _ r col).trans ?_
    exact chunk_sum L ⟨18, clt_18⟩ X2 PS TB hX _ fs _ rfl _ (hinAll 18 clt_18) _ _ fq _ rfl 0 (by decide) r col _
  ihave Hob18 := (Entails.of_eq (pointsTo_congr (q := fullShare) (g := (outG X2 PS TB hX : Buf (Elt F) ((oV).view.loc (V d (cV L) (jV L))))) (window_writes L ⟨18, clt_18⟩ X2 PS TB hX _ _ hput18))) $$ Hob18
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 18 clt_18).symm) $$ [Hob18 Hdone]
  · isplitl [Hob18]
    · iexact Hob18
    · iexact Hdone
  have hput19 : ∀ r col : Fin 128, (tile_body.sl.dma0_21 d L X2 PS TB fs fq fo hinAll) (ValueIdx.ix2 r col) = outG X2 PS TB hX (ValueIdx.ix2 (outRowN L ⟨19, clt_19⟩ r) col) := by
    intro r col
    show (obS1).view.read (Elt F) ((obS1).view.writes (Elt F) _ (pb_t20 (F := F) d L _ _ _ _ ++ _)) (ValueIdx.ix2 r col) = _
    rw [View.writes_append]
    refine (rows_t20 (F := F) d L _ _ _ _ r col).trans ?_
    exact chunk_sum L ⟨19, clt_19⟩ X2 PS TB hX _ fs _ rfl _ (hinAll 19 clt_19) _ _ fq _ rfl 128 (by decide) r col _
  ihave Hob19 := (Entails.of_eq (pointsTo_congr (q := fullShare) (g := (outG X2 PS TB hX : Buf (Elt F) ((oV).view.loc (V d (cV L) (jV L))))) (window_writes L ⟨19, clt_19⟩ X2 PS TB hX _ _ hput19))) $$ Hob19
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 19 clt_19).symm) $$ [Hob19 Hdone]
  · isplitl [Hob19]
    · iexact Hob19
    · iexact Hdone
  have hput20 : ∀ r col : Fin 128, (tile_body.sl.dma0_22 d L X2 PS TB fs fq fo hinAll) (ValueIdx.ix2 r col) = outG X2 PS TB hX (ValueIdx.ix2 (outRowN L ⟨20, clt_20⟩ r) col) := by
    intro r col
    show (obS0).view.read (Elt F) ((obS0).view.writes (Elt F) _ (pb_t21 (F := F) d L _ _ _ _ ++ _)) (ValueIdx.ix2 r col) = _
    rw [View.writes_append]
    refine (rows_t21 (F := F) d L _ _ _ _ r col).trans ?_
    exact chunk_sum L ⟨20, clt_20⟩ X2 PS TB hX _ fs _ rfl _ (hinAll 20 clt_20) _ _ fq _ rfl 0 (by decide) r col _
  ihave Hob20 := (Entails.of_eq (pointsTo_congr (q := fullShare) (g := (outG X2 PS TB hX : Buf (Elt F) ((oV).view.loc (V d (cV L) (jV L))))) (window_writes L ⟨20, clt_20⟩ X2 PS TB hX _ _ hput20))) $$ Hob20
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 20 clt_20).symm) $$ [Hob20 Hdone]
  · isplitl [Hob20]
    · iexact Hob20
    · iexact Hdone
  have hput21 : ∀ r col : Fin 128, (tile_body.sl.dma0_23 d L X2 PS TB fs fq fo hinAll) (ValueIdx.ix2 r col) = outG X2 PS TB hX (ValueIdx.ix2 (outRowN L ⟨21, clt_21⟩ r) col) := by
    intro r col
    show (obS1).view.read (Elt F) ((obS1).view.writes (Elt F) _ (pb_t22 (F := F) d L _ _ _ _ ++ _)) (ValueIdx.ix2 r col) = _
    rw [View.writes_append]
    refine (rows_t22 (F := F) d L _ _ _ _ r col).trans ?_
    exact chunk_sum L ⟨21, clt_21⟩ X2 PS TB hX _ fs _ rfl _ (hinAll 21 clt_21) _ _ fq _ rfl 128 (by decide) r col _
  ihave Hob21 := (Entails.of_eq (pointsTo_congr (q := fullShare) (g := (outG X2 PS TB hX : Buf (Elt F) ((oV).view.loc (V d (cV L) (jV L))))) (window_writes L ⟨21, clt_21⟩ X2 PS TB hX _ _ hput21))) $$ Hob21
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 21 clt_21).symm) $$ [Hob21 Hdone]
  · isplitl [Hob21]
    · iexact Hob21
    · iexact Hdone
  have hput22 : ∀ r col : Fin 128, (tile_body.sl.dma0_24 d L X2 PS TB fs fq fo hinAll) (ValueIdx.ix2 r col) = outG X2 PS TB hX (ValueIdx.ix2 (outRowN L ⟨22, clt_22⟩ r) col) := by
    intro r col
    show (obS0).view.read (Elt F) ((obS0).view.writes (Elt F) _ (pb_t23 (F := F) d L _ _ _ _ _ _ ++ _)) (ValueIdx.ix2 r col) = _
    rw [View.writes_append]
    refine (rows_t23 (F := F) d L _ _ _ _ _ _ r col).trans ?_
    exact chunk_sum L ⟨22, clt_22⟩ X2 PS TB hX _ fs _ rfl _ (hinAll 22 clt_22) _ _ fq _ rfl 0 (by decide) r col _
  ihave Hob22 := (Entails.of_eq (pointsTo_congr (q := fullShare) (g := (outG X2 PS TB hX : Buf (Elt F) ((oV).view.loc (V d (cV L) (jV L))))) (window_writes L ⟨22, clt_22⟩ X2 PS TB hX _ _ hput22))) $$ Hob22
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 22 clt_22).symm) $$ [Hob22 Hdone]
  · isplitl [Hob22]
    · iexact Hob22
    · iexact Hdone
  have hput23 : ∀ r col : Fin 128, (tile_body.sl.dma0_25 d L X2 PS TB fs fq fo hinAll) (ValueIdx.ix2 r col) = outG X2 PS TB hX (ValueIdx.ix2 (outRowN L ⟨23, clt_23⟩ r) col) := by
    intro r col
    show (obS1).view.read (Elt F) ((obS1).view.writes (Elt F) _ (pb_t24 (F := F) d L _ _ _ _ ++ _)) (ValueIdx.ix2 r col) = _
    rw [View.writes_append]
    refine (rows_t24 (F := F) d L _ _ _ _ r col).trans ?_
    exact chunk_sum L ⟨23, clt_23⟩ X2 PS TB hX _ fs _ rfl _ (hinAll 23 clt_23) _ _ fq _ rfl 128 (by decide) r col _
  ihave Hob23 := (Entails.of_eq (pointsTo_congr (q := fullShare) (g := (outG X2 PS TB hX : Buf (Elt F) ((oV).view.loc (V d (cV L) (jV L))))) (window_writes L ⟨23, clt_23⟩ X2 PS TB hX _ _ hput23))) $$ Hob23
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 23 clt_23).symm) $$ [Hob23 Hdone]
  · isplitl [Hob23]
    · iexact Hob23
    · iexact Hdone
  have hput24 : ∀ r col : Fin 128, (tile_body.sl.dma0_26 d L X2 PS TB fs fq fo hinAll) (ValueIdx.ix2 r col) = outG X2 PS TB hX (ValueIdx.ix2 (outRowN L ⟨24, clt_24⟩ r) col) := by
    intro r col
    show (obS0).view.read (Elt F) ((obS0).view.writes (Elt F) _ (pb_t25 (F := F) d L _ _ _ _ ++ _)) (ValueIdx.ix2 r col) = _
    rw [View.writes_append]
    refine (rows_t25 (F := F) d L _ _ _ _ r col).trans ?_
    exact chunk_sum L ⟨24, clt_24⟩ X2 PS TB hX _ fs _ rfl _ (hinAll 24 clt_24) _ _ fq _ rfl 0 (by decide) r col _
  ihave Hob24 := (Entails.of_eq (pointsTo_congr (q := fullShare) (g := (outG X2 PS TB hX : Buf (Elt F) ((oV).view.loc (V d (cV L) (jV L))))) (window_writes L ⟨24, clt_24⟩ X2 PS TB hX _ _ hput24))) $$ Hob24
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 24 clt_24).symm) $$ [Hob24 Hdone]
  · isplitl [Hob24]
    · iexact Hob24
    · iexact Hdone
  ihave Hob := (Entails.of_eq (rows_take _ 26 clt_26)) $$ Hob
  icases Hob with ⟨Hob26, Hob⟩
  ihave Hob26 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3328#32) Cert.Kernel.S128x128.size (Cert.Kernel.Gen.k0_off18_inb L 26)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3328#32) Cert.Kernel.S128x128.size (Cert.Kernel.Gen.k0_off18_inb L 26)) (fun _ => rfl)).view.set]{fullShare} O0) from Entails.refl _) $$ Hob26
  ihave Hob := (Entails.of_eq (rows_take _ 27 clt_27)) $$ Hob
  icases Hob with ⟨Hob27, Hob⟩
  ihave Hob27 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3456#32) Cert.Kernel.S128x128.size (Cert.Kernel.Gen.k0_off18_inb L 27)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3456#32) Cert.Kernel.S128x128.size (Cert.Kernel.Gen.k0_off18_inb L 27)) (fun _ => rfl)).view.set]{fullShare} O0) from Entails.refl _) $$ Hob27
  ihave Hob := (Entails.of_eq (rows_take _ 28 clt_28)) $$ Hob
  icases Hob with ⟨Hob28, Hob⟩
  ihave Hob28 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3584#32) Cert.Kernel.S128x128.size (Cert.Kernel.Gen.k0_off18_inb L 28)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3584#32) Cert.Kernel.S128x128.size (Cert.Kernel.Gen.k0_off18_inb L 28)) (fun _ => rfl)).view.set]{fullShare} O0) from Entails.refl _) $$ Hob28
  ihave Hob := (Entails.of_eq (rows_take _ 29 clt_29)) $$ Hob
  icases Hob with ⟨Hob29, Hob⟩
  ihave Hob29 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3712#32) Cert.Kernel.S128x128.size (Cert.Kernel.Gen.k0_off18_inb L 29)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3712#32) Cert.Kernel.S128x128.size (Cert.Kernel.Gen.k0_off18_inb L 29)) (fun _ => rfl)).view.set]{fullShare} O0) from Entails.refl _) $$ Hob29
  ihave Hob := (Entails.of_eq (rows_take _ 30 clt_30)) $$ Hob
  icases Hob with ⟨Hob30, Hob⟩
  ihave Hob30 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3840#32) Cert.Kernel.S128x128.size (Cert.Kernel.Gen.k0_off18_inb L 30)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3840#32) Cert.Kernel.S128x128.size (Cert.Kernel.Gen.k0_off18_inb L 30)) (fun _ => rfl)).view.set]{fullShare} O0) from Entails.refl _) $$ Hob30
  ihave Hob := (Entails.of_eq (rows_take _ 31 clt_31)) $$ Hob
  icases Hob with ⟨Hob31, Hob⟩
  ihave Hob31 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 3968#32) Cert.Kernel.S128x128.size (Cert.Kernel.Gen.k0_off18_inb L 31)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 3968#32) Cert.Kernel.S128x128.size (Cert.Kernel.Gen.k0_off18_inb L 31)) (fun _ => rfl)).view.set]{fullShare} O0) from Entails.refl _) $$ Hob31
  ihave Hob := (Entails.of_eq (rows_take _ 32 clt_32)) $$ Hob
  icases Hob with ⟨Hob32, Hob⟩
  ihave Hob32 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4096#32) Cert.Kernel.S128x128.size (Cert.Kernel.Gen.k0_off18_inb L 32)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4096#32) Cert.Kernel.S128x128.size (Cert.Kernel.Gen.k0_off18_inb L 32)) (fun _ => rfl)).view.set]{fullShare} O0) from Entails.refl _) $$ Hob32
  ihave Hob := (Entails.of_eq (rows_take _ 33 clt_33)) $$ Hob
  icases Hob with ⟨Hob33, Hob⟩
  ihave Hob33 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4224#32) Cert.Kernel.S128x128.size (Cert.Kernel.Gen.k0_off18_inb L 33)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4224#32) Cert.Kernel.S128x128.size (Cert.Kernel.Gen.k0_off18_inb L 33)) (fun _ => rfl)).view.set]{fullShare} O0) from Entails.refl _) $$ Hob33
  sl_exec_parts
  have hput25 : ∀ r col : Fin 128, (tile_body.sl.dma0_27 d L X2 PS TB fs fq fo hinAll) (ValueIdx.ix2 r col) = outG X2 PS TB hX (ValueIdx.ix2 (outRowN L ⟨25, clt_25⟩ r) col) := by
    intro r col
    show (obS1).view.read (Elt F) ((obS1).view.writes (Elt F) _ (pb_t26 (F := F) d L _ _ _ _ ++ _)) (ValueIdx.ix2 r col) = _
    rw [View.writes_append]
    refine (rows_t26 (F := F) d L _ _ _ _ r col).trans ?_
    exact chunk_sum L ⟨25, clt_25⟩ X2 PS TB hX _ fs _ rfl _ (hinAll 25 clt_25) _ _ fq _ rfl 128 (by decide) r col _
  ihave Hob25 := (Entails.of_eq (pointsTo_congr (q := fullShare) (g := (outG X2 PS TB hX : Buf (Elt F) ((oV).view.loc (V d (cV L) (jV L))))) (window_writes L ⟨25, clt_25⟩ X2 PS TB hX _ _ hput25))) $$ Hob25
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 25 clt_25).symm) $$ [Hob25 Hdone]
  · isplitl [Hob25]
    · iexact Hob25
    · iexact Hdone
  have hput26 : ∀ r col : Fin 128, (tile_body.sl.dma0_28 d L X2 PS TB fs fq fo hinAll) (ValueIdx.ix2 r col) = outG X2 PS TB hX (ValueIdx.ix2 (outRowN L ⟨26, clt_26⟩ r) col) := by
    intro r col
    show (obS0).view.read (Elt F) ((obS0).view.writes (Elt F) _ (pb_t27 (F := F) d L _ _ _ _ ++ _)) (ValueIdx.ix2 r col) = _
    rw [View.writes_append]
    refine (rows_t27 (F := F) d L _ _ _ _ r col).trans ?_
    exact chunk_sum L ⟨26, clt_26⟩ X2 PS TB hX _ fs _ rfl _ (hinAll 26 clt_26) _ _ fq _ rfl 0 (by decide) r col _
  ihave Hob26 := (Entails.of_eq (pointsTo_congr (q := fullShare) (g := (outG X2 PS TB hX : Buf (Elt F) ((oV).view.loc (V d (cV L) (jV L))))) (window_writes L ⟨26, clt_26⟩ X2 PS TB hX _ _ hput26))) $$ Hob26
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 26 clt_26).symm) $$ [Hob26 Hdone]
  · isplitl [Hob26]
    · iexact Hob26
    · iexact Hdone
  have hput27 : ∀ r col : Fin 128, (tile_body.sl.dma0_29 d L X2 PS TB fs fq fo hinAll) (ValueIdx.ix2 r col) = outG X2 PS TB hX (ValueIdx.ix2 (outRowN L ⟨27, clt_27⟩ r) col) := by
    intro r col
    show (obS1).view.read (Elt F) ((obS1).view.writes (Elt F) _ (pb_t28 (F := F) d L _ _ _ _ ++ _)) (ValueIdx.ix2 r col) = _
    rw [View.writes_append]
    refine (rows_t28 (F := F) d L _ _ _ _ r col).trans ?_
    exact chunk_sum L ⟨27, clt_27⟩ X2 PS TB hX _ fs _ rfl _ (hinAll 27 clt_27) _ _ fq _ rfl 128 (by decide) r col _
  ihave Hob27 := (Entails.of_eq (pointsTo_congr (q := fullShare) (g := (outG X2 PS TB hX : Buf (Elt F) ((oV).view.loc (V d (cV L) (jV L))))) (window_writes L ⟨27, clt_27⟩ X2 PS TB hX _ _ hput27))) $$ Hob27
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 27 clt_27).symm) $$ [Hob27 Hdone]
  · isplitl [Hob27]
    · iexact Hob27
    · iexact Hdone
  have hput28 : ∀ r col : Fin 128, (tile_body.sl.dma0_30 d L X2 PS TB fs fq fo hinAll) (ValueIdx.ix2 r col) = outG X2 PS TB hX (ValueIdx.ix2 (outRowN L ⟨28, clt_28⟩ r) col) := by
    intro r col
    show (obS0).view.read (Elt F) ((obS0).view.writes (Elt F) _ (pb_t29 (F := F) d L _ _ _ _ ++ _)) (ValueIdx.ix2 r col) = _
    rw [View.writes_append]
    refine (rows_t29 (F := F) d L _ _ _ _ r col).trans ?_
    exact chunk_sum L ⟨28, clt_28⟩ X2 PS TB hX _ fs _ rfl _ (hinAll 28 clt_28) _ _ fq _ rfl 0 (by decide) r col _
  ihave Hob28 := (Entails.of_eq (pointsTo_congr (q := fullShare) (g := (outG X2 PS TB hX : Buf (Elt F) ((oV).view.loc (V d (cV L) (jV L))))) (window_writes L ⟨28, clt_28⟩ X2 PS TB hX _ _ hput28))) $$ Hob28
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 28 clt_28).symm) $$ [Hob28 Hdone]
  · isplitl [Hob28]
    · iexact Hob28
    · iexact Hdone
  have hput29 : ∀ r col : Fin 128, (tile_body.sl.dma0_31 d L X2 PS TB fs fq fo hinAll) (ValueIdx.ix2 r col) = outG X2 PS TB hX (ValueIdx.ix2 (outRowN L ⟨29, clt_29⟩ r) col) := by
    intro r col
    show (obS1).view.read (Elt F) ((obS1).view.writes (Elt F) _ (pb_t30 (F := F) d L _ _ _ _ ++ _)) (ValueIdx.ix2 r col) = _
    rw [View.writes_append]
    refine (rows_t30 (F := F) d L _ _ _ _ r col).trans ?_
    exact chunk_sum L ⟨29, clt_29⟩ X2 PS TB hX _ fs _ rfl _ (hinAll 29 clt_29) _ _ fq _ rfl 128 (by decide) r col _
  ihave Hob29 := (Entails.of_eq (pointsTo_congr (q := fullShare) (g := (outG X2 PS TB hX : Buf (Elt F) ((oV).view.loc (V d (cV L) (jV L))))) (window_writes L ⟨29, clt_29⟩ X2 PS TB hX _ _ hput29))) $$ Hob29
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 29 clt_29).symm) $$ [Hob29 Hdone]
  · isplitl [Hob29]
    · iexact Hob29
    · iexact Hdone
  have hput30 : ∀ r col : Fin 128, (tile_body.sl.dma0_32 d L X2 PS TB fs fq fo hinAll) (ValueIdx.ix2 r col) = outG X2 PS TB hX (ValueIdx.ix2 (outRowN L ⟨30, clt_30⟩ r) col) := by
    intro r col
    show (obS0).view.read (Elt F) ((obS0).view.writes (Elt F) _ (pb_t31 (F := F) d L _ _ _ _ ++ _)) (ValueIdx.ix2 r col) = _
    rw [View.writes_append]
    refine (rows_t31 (F := F) d L _ _ _ _ r col).trans ?_
    exact chunk_sum L ⟨30, clt_30⟩ X2 PS TB hX _ fs _ rfl _ (hinAll 30 clt_30) _ _ fq _ rfl 0 (by decide) r col _
  ihave Hob30 := (Entails.of_eq (pointsTo_congr (q := fullShare) (g := (outG X2 PS TB hX : Buf (Elt F) ((oV).view.loc (V d (cV L) (jV L))))) (window_writes L ⟨30, clt_30⟩ X2 PS TB hX _ _ hput30))) $$ Hob30
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 30 clt_30).symm) $$ [Hob30 Hdone]
  · isplitl [Hob30]
    · iexact Hob30
    · iexact Hdone
  have hput31 : ∀ r col : Fin 128, (tile_body.sl.dma0_33 d L X2 PS TB fs fq fo hinAll) (ValueIdx.ix2 r col) = outG X2 PS TB hX (ValueIdx.ix2 (outRowN L ⟨31, clt_31⟩ r) col) := by
    intro r col
    show (obS1).view.read (Elt F) ((obS1).view.writes (Elt F) _ (pb_t32 (F := F) d L _ _ _ _ ++ _)) (ValueIdx.ix2 r col) = _
    rw [View.writes_append]
    refine (rows_t32 (F := F) d L _ _ _ _ r col).trans ?_
    exact chunk_sum L ⟨31, clt_31⟩ X2 PS TB hX _ fs _ rfl _ (hinAll 31 clt_31) _ _ fq _ rfl 128 (by decide) r col _
  ihave Hob31 := (Entails.of_eq (pointsTo_congr (q := fullShare) (g := (outG X2 PS TB hX : Buf (Elt F) ((oV).view.loc (V d (cV L) (jV L))))) (window_writes L ⟨31, clt_31⟩ X2 PS TB hX _ _ hput31))) $$ Hob31
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 31 clt_31).symm) $$ [Hob31 Hdone]
  · isplitl [Hob31]
    · iexact Hob31
    · iexact Hdone
  have hput32 : ∀ r col : Fin 128, (tile_body.sl.dma0_34 d L X2 PS TB fs fq fo hinAll) (ValueIdx.ix2 r col) = outG X2 PS TB hX (ValueIdx.ix2 (outRowN L ⟨32, clt_32⟩ r) col) := by
    intro r col
    show (obS0).view.read (Elt F) ((obS0).view.writes (Elt F) _ (pb_t33 (F := F) d L _ _ _ _ _ _ ++ _)) (ValueIdx.ix2 r col) = _
    rw [View.writes_append]
    refine (rows_t33 (F := F) d L _ _ _ _ _ _ r col).trans ?_
    exact chunk_sum L ⟨32, clt_32⟩ X2 PS TB hX _ fs _ rfl _ (hinAll 32 clt_32) _ _ fq _ rfl 0 (by decide) r col _
  ihave Hob32 := (Entails.of_eq (pointsTo_congr (q := fullShare) (g := (outG X2 PS TB hX : Buf (Elt F) ((oV).view.loc (V d (cV L) (jV L))))) (window_writes L ⟨32, clt_32⟩ X2 PS TB hX _ _ hput32))) $$ Hob32
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 32 clt_32).symm) $$ [Hob32 Hdone]
  · isplitl [Hob32]
    · iexact Hob32
    · iexact Hdone
  ihave Hob := (Entails.of_eq (rows_take _ 34 clt_34)) $$ Hob
  icases Hob with ⟨Hob34, Hob⟩
  ihave Hob34 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4352#32) Cert.Kernel.S128x128.size (Cert.Kernel.Gen.k0_off18_inb L 34)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4352#32) Cert.Kernel.S128x128.size (Cert.Kernel.Gen.k0_off18_inb L 34)) (fun _ => rfl)).view.set]{fullShare} O0) from Entails.refl _) $$ Hob34
  ihave Hob := (Entails.of_eq (rows_take _ 35 clt_35)) $$ Hob
  icases Hob with ⟨Hob35, Hob⟩
  ihave Hob35 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4480#32) Cert.Kernel.S128x128.size (Cert.Kernel.Gen.k0_off18_inb L 35)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4480#32) Cert.Kernel.S128x128.size (Cert.Kernel.Gen.k0_off18_inb L 35)) (fun _ => rfl)).view.set]{fullShare} O0) from Entails.refl _) $$ Hob35
  ihave Hob := (Entails.of_eq (rows_take _ 36 clt_36)) $$ Hob
  icases Hob with ⟨Hob36, Hob⟩
  ihave Hob36 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4608#32) Cert.Kernel.S128x128.size (Cert.Kernel.Gen.k0_off18_inb L 36)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4608#32) Cert.Kernel.S128x128.size (Cert.Kernel.Gen.k0_off18_inb L 36)) (fun _ => rfl)).view.set]{fullShare} O0) from Entails.refl _) $$ Hob36
  ihave Hob := (Entails.of_eq (rows_take _ 37 clt_37)) $$ Hob
  icases Hob with ⟨Hob37, Hob⟩
  ihave Hob37 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4736#32) Cert.Kernel.S128x128.size (Cert.Kernel.Gen.k0_off18_inb L 37)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4736#32) Cert.Kernel.S128x128.size (Cert.Kernel.Gen.k0_off18_inb L 37)) (fun _ => rfl)).view.set]{fullShare} O0) from Entails.refl _) $$ Hob37
  ihave Hob := (Entails.of_eq (rows_take _ 38 clt_38)) $$ Hob
  icases Hob with ⟨Hob38, Hob⟩
  ihave Hob38 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4864#32) Cert.Kernel.S128x128.size (Cert.Kernel.Gen.k0_off18_inb L 38)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4864#32) Cert.Kernel.S128x128.size (Cert.Kernel.Gen.k0_off18_inb L 38)) (fun _ => rfl)).view.set]{fullShare} O0) from Entails.refl _) $$ Hob38
  ihave Hob := (Entails.of_eq (rows_take _ 39 clt_39)) $$ Hob
  icases Hob with ⟨Hob39, Hob⟩
  ihave Hob39 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 4992#32) Cert.Kernel.S128x128.size (Cert.Kernel.Gen.k0_off18_inb L 39)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 4992#32) Cert.Kernel.S128x128.size (Cert.Kernel.Gen.k0_off18_inb L 39)) (fun _ => rfl)).view.set]{fullShare} O0) from Entails.refl _) $$ Hob39
  ihave Hob := (Entails.of_eq (rows_take _ 40 clt_40)) $$ Hob
  icases Hob with ⟨Hob40, Hob⟩
  ihave Hob40 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5120#32) Cert.Kernel.S128x128.size (Cert.Kernel.Gen.k0_off18_inb L 40)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5120#32) Cert.Kernel.S128x128.size (Cert.Kernel.Gen.k0_off18_inb L 40)) (fun _ => rfl)).view.set]{fullShare} O0) from Entails.refl _) $$ Hob40
  ihave Hob := (Entails.of_eq (rows_take _ 41 clt_41)) $$ Hob
  icases Hob with ⟨Hob41, Hob⟩
  ihave Hob41 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5248#32) Cert.Kernel.S128x128.size (Cert.Kernel.Gen.k0_off18_inb L 41)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5248#32) Cert.Kernel.S128x128.size (Cert.Kernel.Gen.k0_off18_inb L 41)) (fun _ => rfl)).view.set]{fullShare} O0) from Entails.refl _) $$ Hob41
  sl_exec_parts
  have hput33 : ∀ r col : Fin 128, (tile_body.sl.dma0_35 d L X2 PS TB fs fq fo hinAll) (ValueIdx.ix2 r col) = outG X2 PS TB hX (ValueIdx.ix2 (outRowN L ⟨33, clt_33⟩ r) col) := by
    intro r col
    show (obS1).view.read (Elt F) ((obS1).view.writes (Elt F) _ (pb_t34 (F := F) d L _ _ _ _ ++ _)) (ValueIdx.ix2 r col) = _
    rw [View.writes_append]
    refine (rows_t34 (F := F) d L _ _ _ _ r col).trans ?_
    exact chunk_sum L ⟨33, clt_33⟩ X2 PS TB hX _ fs _ rfl _ (hinAll 33 clt_33) _ _ fq _ rfl 128 (by decide) r col _
  ihave Hob33 := (Entails.of_eq (pointsTo_congr (q := fullShare) (g := (outG X2 PS TB hX : Buf (Elt F) ((oV).view.loc (V d (cV L) (jV L))))) (window_writes L ⟨33, clt_33⟩ X2 PS TB hX _ _ hput33))) $$ Hob33
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 33 clt_33).symm) $$ [Hob33 Hdone]
  · isplitl [Hob33]
    · iexact Hob33
    · iexact Hdone
  have hput34 : ∀ r col : Fin 128, (tile_body.sl.dma0_36 d L X2 PS TB fs fq fo hinAll) (ValueIdx.ix2 r col) = outG X2 PS TB hX (ValueIdx.ix2 (outRowN L ⟨34, clt_34⟩ r) col) := by
    intro r col
    show (obS0).view.read (Elt F) ((obS0).view.writes (Elt F) _ (pb_t35 (F := F) d L _ _ _ _ ++ _)) (ValueIdx.ix2 r col) = _
    rw [View.writes_append]
    refine (rows_t35 (F := F) d L _ _ _ _ r col).trans ?_
    exact chunk_sum L ⟨34, clt_34⟩ X2 PS TB hX _ fs _ rfl _ (hinAll 34 clt_34) _ _ fq _ rfl 0 (by decide) r col _
  ihave Hob34 := (Entails.of_eq (pointsTo_congr (q := fullShare) (g := (outG X2 PS TB hX : Buf (Elt F) ((oV).view.loc (V d (cV L) (jV L))))) (window_writes L ⟨34, clt_34⟩ X2 PS TB hX _ _ hput34))) $$ Hob34
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 34 clt_34).symm) $$ [Hob34 Hdone]
  · isplitl [Hob34]
    · iexact Hob34
    · iexact Hdone
  have hput35 : ∀ r col : Fin 128, (tile_body.sl.dma0_37 d L X2 PS TB fs fq fo hinAll) (ValueIdx.ix2 r col) = outG X2 PS TB hX (ValueIdx.ix2 (outRowN L ⟨35, clt_35⟩ r) col) := by
    intro r col
    show (obS1).view.read (Elt F) ((obS1).view.writes (Elt F) _ (pb_t36 (F := F) d L _ _ _ _ ++ _)) (ValueIdx.ix2 r col) = _
    rw [View.writes_append]
    refine (rows_t36 (F := F) d L _ _ _ _ r col).trans ?_
    exact chunk_sum L ⟨35, clt_35⟩ X2 PS TB hX _ fs _ rfl _ (hinAll 35 clt_35) _ _ fq _ rfl 128 (by decide) r col _
  ihave Hob35 := (Entails.of_eq (pointsTo_congr (q := fullShare) (g := (outG X2 PS TB hX : Buf (Elt F) ((oV).view.loc (V d (cV L) (jV L))))) (window_writes L ⟨35, clt_35⟩ X2 PS TB hX _ _ hput35))) $$ Hob35
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 35 clt_35).symm) $$ [Hob35 Hdone]
  · isplitl [Hob35]
    · iexact Hob35
    · iexact Hdone
  have hput36 : ∀ r col : Fin 128, (tile_body.sl.dma0_38 d L X2 PS TB fs fq fo hinAll) (ValueIdx.ix2 r col) = outG X2 PS TB hX (ValueIdx.ix2 (outRowN L ⟨36, clt_36⟩ r) col) := by
    intro r col
    show (obS0).view.read (Elt F) ((obS0).view.writes (Elt F) _ (pb_t37 (F := F) d L _ _ _ _ ++ _)) (ValueIdx.ix2 r col) = _
    rw [View.writes_append]
    refine (rows_t37 (F := F) d L _ _ _ _ r col).trans ?_
    exact chunk_sum L ⟨36, clt_36⟩ X2 PS TB hX _ fs _ rfl _ (hinAll 36 clt_36) _ _ fq _ rfl 0 (by decide) r col _
  ihave Hob36 := (Entails.of_eq (pointsTo_congr (q := fullShare) (g := (outG X2 PS TB hX : Buf (Elt F) ((oV).view.loc (V d (cV L) (jV L))))) (window_writes L ⟨36, clt_36⟩ X2 PS TB hX _ _ hput36))) $$ Hob36
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 36 clt_36).symm) $$ [Hob36 Hdone]
  · isplitl [Hob36]
    · iexact Hob36
    · iexact Hdone
  have hput37 : ∀ r col : Fin 128, (tile_body.sl.dma0_39 d L X2 PS TB fs fq fo hinAll) (ValueIdx.ix2 r col) = outG X2 PS TB hX (ValueIdx.ix2 (outRowN L ⟨37, clt_37⟩ r) col) := by
    intro r col
    show (obS1).view.read (Elt F) ((obS1).view.writes (Elt F) _ (pb_t38 (F := F) d L _ _ _ _ ++ _)) (ValueIdx.ix2 r col) = _
    rw [View.writes_append]
    refine (rows_t38 (F := F) d L _ _ _ _ r col).trans ?_
    exact chunk_sum L ⟨37, clt_37⟩ X2 PS TB hX _ fs _ rfl _ (hinAll 37 clt_37) _ _ fq _ rfl 128 (by decide) r col _
  ihave Hob37 := (Entails.of_eq (pointsTo_congr (q := fullShare) (g := (outG X2 PS TB hX : Buf (Elt F) ((oV).view.loc (V d (cV L) (jV L))))) (window_writes L ⟨37, clt_37⟩ X2 PS TB hX _ _ hput37))) $$ Hob37
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 37 clt_37).symm) $$ [Hob37 Hdone]
  · isplitl [Hob37]
    · iexact Hob37
    · iexact Hdone
  have hput38 : ∀ r col : Fin 128, (tile_body.sl.dma0_40 d L X2 PS TB fs fq fo hinAll) (ValueIdx.ix2 r col) = outG X2 PS TB hX (ValueIdx.ix2 (outRowN L ⟨38, clt_38⟩ r) col) := by
    intro r col
    show (obS0).view.read (Elt F) ((obS0).view.writes (Elt F) _ (pb_t39 (F := F) d L _ _ _ _ ++ _)) (ValueIdx.ix2 r col) = _
    rw [View.writes_append]
    refine (rows_t39 (F := F) d L _ _ _ _ r col).trans ?_
    exact chunk_sum L ⟨38, clt_38⟩ X2 PS TB hX _ fs _ rfl _ (hinAll 38 clt_38) _ _ fq _ rfl 0 (by decide) r col _
  ihave Hob38 := (Entails.of_eq (pointsTo_congr (q := fullShare) (g := (outG X2 PS TB hX : Buf (Elt F) ((oV).view.loc (V d (cV L) (jV L))))) (window_writes L ⟨38, clt_38⟩ X2 PS TB hX _ _ hput38))) $$ Hob38
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 38 clt_38).symm) $$ [Hob38 Hdone]
  · isplitl [Hob38]
    · iexact Hob38
    · iexact Hdone
  have hput39 : ∀ r col : Fin 128, (tile_body.sl.dma0_41 d L X2 PS TB fs fq fo hinAll) (ValueIdx.ix2 r col) = outG X2 PS TB hX (ValueIdx.ix2 (outRowN L ⟨39, clt_39⟩ r) col) := by
    intro r col
    show (obS1).view.read (Elt F) ((obS1).view.writes (Elt F) _ (pb_t40 (F := F) d L _ _ _ _ ++ _)) (ValueIdx.ix2 r col) = _
    rw [View.writes_append]
    refine (rows_t40 (F := F) d L _ _ _ _ r col).trans ?_
    exact chunk_sum L ⟨39, clt_39⟩ X2 PS TB hX _ fs _ rfl _ (hinAll 39 clt_39) _ _ fq _ rfl 128 (by decide) r col _
  ihave Hob39 := (Entails.of_eq (pointsTo_congr (q := fullShare) (g := (outG X2 PS TB hX : Buf (Elt F) ((oV).view.loc (V d (cV L) (jV L))))) (window_writes L ⟨39, clt_39⟩ X2 PS TB hX _ _ hput39))) $$ Hob39
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 39 clt_39).symm) $$ [Hob39 Hdone]
  · isplitl [Hob39]
    · iexact Hob39
    · iexact Hdone
  have hput40 : ∀ r col : Fin 128, (tile_body.sl.dma0_42 d L X2 PS TB fs fq fo hinAll) (ValueIdx.ix2 r col) = outG X2 PS TB hX (ValueIdx.ix2 (outRowN L ⟨40, clt_40⟩ r) col) := by
    intro r col
    show (obS0).view.read (Elt F) ((obS0).view.writes (Elt F) _ (pb_t41 (F := F) d L _ _ _ _ ++ _)) (ValueIdx.ix2 r col) = _
    rw [View.writes_append]
    refine (rows_t41 (F := F) d L _ _ _ _ r col).trans ?_
    exact chunk_sum L ⟨40, clt_40⟩ X2 PS TB hX _ fs _ rfl _ (hinAll 40 clt_40) _ _ fq _ rfl 0 (by decide) r col _
  ihave Hob40 := (Entails.of_eq (pointsTo_congr (q := fullShare) (g := (outG X2 PS TB hX : Buf (Elt F) ((oV).view.loc (V d (cV L) (jV L))))) (window_writes L ⟨40, clt_40⟩ X2 PS TB hX _ _ hput40))) $$ Hob40
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 40 clt_40).symm) $$ [Hob40 Hdone]
  · isplitl [Hob40]
    · iexact Hob40
    · iexact Hdone
  ihave Hob := (Entails.of_eq (rows_take _ 42 clt_42)) $$ Hob
  icases Hob with ⟨Hob42, Hob⟩
  ihave Hob42 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5376#32) Cert.Kernel.S128x128.size (Cert.Kernel.Gen.k0_off18_inb L 42)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5376#32) Cert.Kernel.S128x128.size (Cert.Kernel.Gen.k0_off18_inb L 42)) (fun _ => rfl)).view.set]{fullShare} O0) from Entails.refl _) $$ Hob42
  ihave Hob := (Entails.of_eq (rows_take _ 43 clt_43)) $$ Hob
  icases Hob with ⟨Hob43, Hob⟩
  ihave Hob43 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5504#32) Cert.Kernel.S128x128.size (Cert.Kernel.Gen.k0_off18_inb L 43)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5504#32) Cert.Kernel.S128x128.size (Cert.Kernel.Gen.k0_off18_inb L 43)) (fun _ => rfl)).view.set]{fullShare} O0) from Entails.refl _) $$ Hob43
  ihave Hob := (Entails.of_eq (rows_take _ 44 clt_44)) $$ Hob
  icases Hob with ⟨Hob44, Hob⟩
  ihave Hob44 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5632#32) Cert.Kernel.S128x128.size (Cert.Kernel.Gen.k0_off18_inb L 44)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5632#32) Cert.Kernel.S128x128.size (Cert.Kernel.Gen.k0_off18_inb L 44)) (fun _ => rfl)).view.set]{fullShare} O0) from Entails.refl _) $$ Hob44
  ihave Hob := (Entails.of_eq (rows_take _ 45 clt_45)) $$ Hob
  icases Hob with ⟨Hob45, Hob⟩
  ihave Hob45 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5760#32) Cert.Kernel.S128x128.size (Cert.Kernel.Gen.k0_off18_inb L 45)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5760#32) Cert.Kernel.S128x128.size (Cert.Kernel.Gen.k0_off18_inb L 45)) (fun _ => rfl)).view.set]{fullShare} O0) from Entails.refl _) $$ Hob45
  ihave Hob := (Entails.of_eq (rows_take _ 46 clt_46)) $$ Hob
  icases Hob with ⟨Hob46, Hob⟩
  ihave Hob46 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 5888#32) Cert.Kernel.S128x128.size (Cert.Kernel.Gen.k0_off18_inb L 46)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 5888#32) Cert.Kernel.S128x128.size (Cert.Kernel.Gen.k0_off18_inb L 46)) (fun _ => rfl)).view.set]{fullShare} O0) from Entails.refl _) $$ Hob46
  ihave Hob := (Entails.of_eq (rows_take _ 47 clt_47)) $$ Hob
  icases Hob with ⟨Hob47, Hob⟩
  ihave Hob47 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6016#32) Cert.Kernel.S128x128.size (Cert.Kernel.Gen.k0_off18_inb L 47)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6016#32) Cert.Kernel.S128x128.size (Cert.Kernel.Gen.k0_off18_inb L 47)) (fun _ => rfl)).view.set]{fullShare} O0) from Entails.refl _) $$ Hob47
  ihave Hob := (Entails.of_eq (rows_take _ 48 clt_48)) $$ Hob
  icases Hob with ⟨Hob48, Hob⟩
  ihave Hob48 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6144#32) Cert.Kernel.S128x128.size (Cert.Kernel.Gen.k0_off18_inb L 48)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6144#32) Cert.Kernel.S128x128.size (Cert.Kernel.Gen.k0_off18_inb L 48)) (fun _ => rfl)).view.set]{fullShare} O0) from Entails.refl _) $$ Hob48
  ihave Hob := (Entails.of_eq (rows_take _ 49 clt_49)) $$ Hob
  icases Hob with ⟨Hob49, Hob⟩
  ihave Hob49 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6272#32) Cert.Kernel.S128x128.size (Cert.Kernel.Gen.k0_off18_inb L 49)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6272#32) Cert.Kernel.S128x128.size (Cert.Kernel.Gen.k0_off18_inb L 49)) (fun _ => rfl)).view.set]{fullShare} O0) from Entails.refl _) $$ Hob49
  sl_exec_parts
  have hput41 : ∀ r col : Fin 128, (tile_body.sl.dma0_43 d L X2 PS TB fs fq fo hinAll) (ValueIdx.ix2 r col) = outG X2 PS TB hX (ValueIdx.ix2 (outRowN L ⟨41, clt_41⟩ r) col) := by
    intro r col
    show (obS1).view.read (Elt F) ((obS1).view.writes (Elt F) _ (pb_t42 (F := F) d L _ _ _ _ ++ _)) (ValueIdx.ix2 r col) = _
    rw [View.writes_append]
    refine (rows_t42 (F := F) d L _ _ _ _ r col).trans ?_
    exact chunk_sum L ⟨41, clt_41⟩ X2 PS TB hX _ fs _ rfl _ (hinAll 41 clt_41) _ _ fq _ rfl 128 (by decide) r col _
  ihave Hob41 := (Entails.of_eq (pointsTo_congr (q := fullShare) (g := (outG X2 PS TB hX : Buf (Elt F) ((oV).view.loc (V d (cV L) (jV L))))) (window_writes L ⟨41, clt_41⟩ X2 PS TB hX _ _ hput41))) $$ Hob41
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 41 clt_41).symm) $$ [Hob41 Hdone]
  · isplitl [Hob41]
    · iexact Hob41
    · iexact Hdone
  have hput42 : ∀ r col : Fin 128, (tile_body.sl.dma0_44 d L X2 PS TB fs fq fo hinAll) (ValueIdx.ix2 r col) = outG X2 PS TB hX (ValueIdx.ix2 (outRowN L ⟨42, clt_42⟩ r) col) := by
    intro r col
    show (obS0).view.read (Elt F) ((obS0).view.writes (Elt F) _ (pb_t43 (F := F) d L _ _ _ _ _ _ ++ _)) (ValueIdx.ix2 r col) = _
    rw [View.writes_append]
    refine (rows_t43 (F := F) d L _ _ _ _ _ _ r col).trans ?_
    exact chunk_sum L ⟨42, clt_42⟩ X2 PS TB hX _ fs _ rfl _ (hinAll 42 clt_42) _ _ fq _ rfl 0 (by decide) r col _
  ihave Hob42 := (Entails.of_eq (pointsTo_congr (q := fullShare) (g := (outG X2 PS TB hX : Buf (Elt F) ((oV).view.loc (V d (cV L) (jV L))))) (window_writes L ⟨42, clt_42⟩ X2 PS TB hX _ _ hput42))) $$ Hob42
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 42 clt_42).symm) $$ [Hob42 Hdone]
  · isplitl [Hob42]
    · iexact Hob42
    · iexact Hdone
  have hput43 : ∀ r col : Fin 128, (tile_body.sl.dma0_45 d L X2 PS TB fs fq fo hinAll) (ValueIdx.ix2 r col) = outG X2 PS TB hX (ValueIdx.ix2 (outRowN L ⟨43, clt_43⟩ r) col) := by
    intro r col
    show (obS1).view.read (Elt F) ((obS1).view.writes (Elt F) _ (pb_t44 (F := F) d L _ _ _ _ ++ _)) (ValueIdx.ix2 r col) = _
    rw [View.writes_append]
    refine (rows_t44 (F := F) d L _ _ _ _ r col).trans ?_
    exact chunk_sum L ⟨43, clt_43⟩ X2 PS TB hX _ fs _ rfl _ (hinAll 43 clt_43) _ _ fq _ rfl 128 (by decide) r col _
  ihave Hob43 := (Entails.of_eq (pointsTo_congr (q := fullShare) (g := (outG X2 PS TB hX : Buf (Elt F) ((oV).view.loc (V d (cV L) (jV L))))) (window_writes L ⟨43, clt_43⟩ X2 PS TB hX _ _ hput43))) $$ Hob43
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 43 clt_43).symm) $$ [Hob43 Hdone]
  · isplitl [Hob43]
    · iexact Hob43
    · iexact Hdone
  have hput44 : ∀ r col : Fin 128, (tile_body.sl.dma0_46 d L X2 PS TB fs fq fo hinAll) (ValueIdx.ix2 r col) = outG X2 PS TB hX (ValueIdx.ix2 (outRowN L ⟨44, clt_44⟩ r) col) := by
    intro r col
    show (obS0).view.read (Elt F) ((obS0).view.writes (Elt F) _ (pb_t45 (F := F) d L _ _ _ _ ++ _)) (ValueIdx.ix2 r col) = _
    rw [View.writes_append]
    refine (rows_t45 (F := F) d L _ _ _ _ r col).trans ?_
    exact chunk_sum L ⟨44, clt_44⟩ X2 PS TB hX _ fs _ rfl _ (hinAll 44 clt_44) _ _ fq _ rfl 0 (by decide) r col _
  ihave Hob44 := (Entails.of_eq (pointsTo_congr (q := fullShare) (g := (outG X2 PS TB hX : Buf (Elt F) ((oV).view.loc (V d (cV L) (jV L))))) (window_writes L ⟨44, clt_44⟩ X2 PS TB hX _ _ hput44))) $$ Hob44
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 44 clt_44).symm) $$ [Hob44 Hdone]
  · isplitl [Hob44]
    · iexact Hob44
    · iexact Hdone
  have hput45 : ∀ r col : Fin 128, (tile_body.sl.dma0_47 d L X2 PS TB fs fq fo hinAll) (ValueIdx.ix2 r col) = outG X2 PS TB hX (ValueIdx.ix2 (outRowN L ⟨45, clt_45⟩ r) col) := by
    intro r col
    show (obS1).view.read (Elt F) ((obS1).view.writes (Elt F) _ (pb_t46 (F := F) d L _ _ _ _ ++ _)) (ValueIdx.ix2 r col) = _
    rw [View.writes_append]
    refine (rows_t46 (F := F) d L _ _ _ _ r col).trans ?_
    exact chunk_sum L ⟨45, clt_45⟩ X2 PS TB hX _ fs _ rfl _ (hinAll 45 clt_45) _ _ fq _ rfl 128 (by decide) r col _
  ihave Hob45 := (Entails.of_eq (pointsTo_congr (q := fullShare) (g := (outG X2 PS TB hX : Buf (Elt F) ((oV).view.loc (V d (cV L) (jV L))))) (window_writes L ⟨45, clt_45⟩ X2 PS TB hX _ _ hput45))) $$ Hob45
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 45 clt_45).symm) $$ [Hob45 Hdone]
  · isplitl [Hob45]
    · iexact Hob45
    · iexact Hdone
  have hput46 : ∀ r col : Fin 128, (tile_body.sl.dma0_48 d L X2 PS TB fs fq fo hinAll) (ValueIdx.ix2 r col) = outG X2 PS TB hX (ValueIdx.ix2 (outRowN L ⟨46, clt_46⟩ r) col) := by
    intro r col
    show (obS0).view.read (Elt F) ((obS0).view.writes (Elt F) _ (pb_t47 (F := F) d L _ _ _ _ ++ _)) (ValueIdx.ix2 r col) = _
    rw [View.writes_append]
    refine (rows_t47 (F := F) d L _ _ _ _ r col).trans ?_
    exact chunk_sum L ⟨46, clt_46⟩ X2 PS TB hX _ fs _ rfl _ (hinAll 46 clt_46) _ _ fq _ rfl 0 (by decide) r col _
  ihave Hob46 := (Entails.of_eq (pointsTo_congr (q := fullShare) (g := (outG X2 PS TB hX : Buf (Elt F) ((oV).view.loc (V d (cV L) (jV L))))) (window_writes L ⟨46, clt_46⟩ X2 PS TB hX _ _ hput46))) $$ Hob46
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 46 clt_46).symm) $$ [Hob46 Hdone]
  · isplitl [Hob46]
    · iexact Hob46
    · iexact Hdone
  have hput47 : ∀ r col : Fin 128, (tile_body.sl.dma0_49 d L X2 PS TB fs fq fo hinAll) (ValueIdx.ix2 r col) = outG X2 PS TB hX (ValueIdx.ix2 (outRowN L ⟨47, clt_47⟩ r) col) := by
    intro r col
    show (obS1).view.read (Elt F) ((obS1).view.writes (Elt F) _ (pb_t48 (F := F) d L _ _ _ _ ++ _)) (ValueIdx.ix2 r col) = _
    rw [View.writes_append]
    refine (rows_t48 (F := F) d L _ _ _ _ r col).trans ?_
    exact chunk_sum L ⟨47, clt_47⟩ X2 PS TB hX _ fs _ rfl _ (hinAll 47 clt_47) _ _ fq _ rfl 128 (by decide) r col _
  ihave Hob47 := (Entails.of_eq (pointsTo_congr (q := fullShare) (g := (outG X2 PS TB hX : Buf (Elt F) ((oV).view.loc (V d (cV L) (jV L))))) (window_writes L ⟨47, clt_47⟩ X2 PS TB hX _ _ hput47))) $$ Hob47
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 47 clt_47).symm) $$ [Hob47 Hdone]
  · isplitl [Hob47]
    · iexact Hob47
    · iexact Hdone
  have hput48 : ∀ r col : Fin 128, (tile_body.sl.dma0_50 d L X2 PS TB fs fq fo hinAll) (ValueIdx.ix2 r col) = outG X2 PS TB hX (ValueIdx.ix2 (outRowN L ⟨48, clt_48⟩ r) col) := by
    intro r col
    show (obS0).view.read (Elt F) ((obS0).view.writes (Elt F) _ (pb_t49 (F := F) d L _ _ _ _ ++ _)) (ValueIdx.ix2 r col) = _
    rw [View.writes_append]
    refine (rows_t49 (F := F) d L _ _ _ _ r col).trans ?_
    exact chunk_sum L ⟨48, clt_48⟩ X2 PS TB hX _ fs _ rfl _ (hinAll 48 clt_48) _ _ fq _ rfl 0 (by decide) r col _
  ihave Hob48 := (Entails.of_eq (pointsTo_congr (q := fullShare) (g := (outG X2 PS TB hX : Buf (Elt F) ((oV).view.loc (V d (cV L) (jV L))))) (window_writes L ⟨48, clt_48⟩ X2 PS TB hX _ _ hput48))) $$ Hob48
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 48 clt_48).symm) $$ [Hob48 Hdone]
  · isplitl [Hob48]
    · iexact Hob48
    · iexact Hdone
  ihave Hob := (Entails.of_eq (rows_take _ 50 clt_50)) $$ Hob
  icases Hob with ⟨Hob50, Hob⟩
  ihave Hob50 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6400#32) Cert.Kernel.S128x128.size (Cert.Kernel.Gen.k0_off18_inb L 50)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6400#32) Cert.Kernel.S128x128.size (Cert.Kernel.Gen.k0_off18_inb L 50)) (fun _ => rfl)).view.set]{fullShare} O0) from Entails.refl _) $$ Hob50
  ihave Hob := (Entails.of_eq (rows_take _ 51 clt_51)) $$ Hob
  icases Hob with ⟨Hob51, Hob⟩
  ihave Hob51 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6528#32) Cert.Kernel.S128x128.size (Cert.Kernel.Gen.k0_off18_inb L 51)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6528#32) Cert.Kernel.S128x128.size (Cert.Kernel.Gen.k0_off18_inb L 51)) (fun _ => rfl)).view.set]{fullShare} O0) from Entails.refl _) $$ Hob51
  ihave Hob := (Entails.of_eq (rows_take _ 52 clt_52)) $$ Hob
  icases Hob with ⟨Hob52, Hob⟩
  ihave Hob52 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6656#32) Cert.Kernel.S128x128.size (Cert.Kernel.Gen.k0_off18_inb L 52)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6656#32) Cert.Kernel.S128x128.size (Cert.Kernel.Gen.k0_off18_inb L 52)) (fun _ => rfl)).view.set]{fullShare} O0) from Entails.refl _) $$ Hob52
  ihave Hob := (Entails.of_eq (rows_take _ 53 clt_53)) $$ Hob
  icases Hob with ⟨Hob53, Hob⟩
  ihave Hob53 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6784#32) Cert.Kernel.S128x128.size (Cert.Kernel.Gen.k0_off18_inb L 53)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6784#32) Cert.Kernel.S128x128.size (Cert.Kernel.Gen.k0_off18_inb L 53)) (fun _ => rfl)).view.set]{fullShare} O0) from Entails.refl _) $$ Hob53
  ihave Hob := (Entails.of_eq (rows_take _ 54 clt_54)) $$ Hob
  icases Hob with ⟨Hob54, Hob⟩
  ihave Hob54 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 6912#32) Cert.Kernel.S128x128.size (Cert.Kernel.Gen.k0_off18_inb L 54)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 6912#32) Cert.Kernel.S128x128.size (Cert.Kernel.Gen.k0_off18_inb L 54)) (fun _ => rfl)).view.set]{fullShare} O0) from Entails.refl _) $$ Hob54
  ihave Hob := (Entails.of_eq (rows_take _ 55 clt_55)) $$ Hob
  icases Hob with ⟨Hob55, Hob⟩
  ihave Hob55 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7040#32) Cert.Kernel.S128x128.size (Cert.Kernel.Gen.k0_off18_inb L 55)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7040#32) Cert.Kernel.S128x128.size (Cert.Kernel.Gen.k0_off18_inb L 55)) (fun _ => rfl)).view.set]{fullShare} O0) from Entails.refl _) $$ Hob55
  ihave Hob := (Entails.of_eq (rows_take _ 56 clt_56)) $$ Hob
  icases Hob with ⟨Hob56, Hob⟩
  ihave Hob56 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7168#32) Cert.Kernel.S128x128.size (Cert.Kernel.Gen.k0_off18_inb L 56)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7168#32) Cert.Kernel.S128x128.size (Cert.Kernel.Gen.k0_off18_inb L 56)) (fun _ => rfl)).view.set]{fullShare} O0) from Entails.refl _) $$ Hob56
  ihave Hob := (Entails.of_eq (rows_take _ 57 clt_57)) $$ Hob
  icases Hob with ⟨Hob57, Hob⟩
  ihave Hob57 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7296#32) Cert.Kernel.S128x128.size (Cert.Kernel.Gen.k0_off18_inb L 57)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7296#32) Cert.Kernel.S128x128.size (Cert.Kernel.Gen.k0_off18_inb L 57)) (fun _ => rfl)).view.set]{fullShare} O0) from Entails.refl _) $$ Hob57
  sl_exec_parts
  have hput49 : ∀ r col : Fin 128, (tile_body.sl.dma0_51 d L X2 PS TB fs fq fo hinAll) (ValueIdx.ix2 r col) = outG X2 PS TB hX (ValueIdx.ix2 (outRowN L ⟨49, clt_49⟩ r) col) := by
    intro r col
    show (obS1).view.read (Elt F) ((obS1).view.writes (Elt F) _ (pb_t50 (F := F) d L _ _ _ _ ++ _)) (ValueIdx.ix2 r col) = _
    rw [View.writes_append]
    refine (rows_t50 (F := F) d L _ _ _ _ r col).trans ?_
    exact chunk_sum L ⟨49, clt_49⟩ X2 PS TB hX _ fs _ rfl _ (hinAll 49 clt_49) _ _ fq _ rfl 128 (by decide) r col _
  ihave Hob49 := (Entails.of_eq (pointsTo_congr (q := fullShare) (g := (outG X2 PS TB hX : Buf (Elt F) ((oV).view.loc (V d (cV L) (jV L))))) (window_writes L ⟨49, clt_49⟩ X2 PS TB hX _ _ hput49))) $$ Hob49
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 49 clt_49).symm) $$ [Hob49 Hdone]
  · isplitl [Hob49]
    · iexact Hob49
    · iexact Hdone
  have hput50 : ∀ r col : Fin 128, (tile_body.sl.dma0_52 d L X2 PS TB fs fq fo hinAll) (ValueIdx.ix2 r col) = outG X2 PS TB hX (ValueIdx.ix2 (outRowN L ⟨50, clt_50⟩ r) col) := by
    intro r col
    show (obS0).view.read (Elt F) ((obS0).view.writes (Elt F) _ (pb_t51 (F := F) d L _ _ _ _ ++ _)) (ValueIdx.ix2 r col) = _
    rw [View.writes_append]
    refine (rows_t51 (F := F) d L _ _ _ _ r col).trans ?_
    exact chunk_sum L ⟨50, clt_50⟩ X2 PS TB hX _ fs _ rfl _ (hinAll 50 clt_50) _ _ fq _ rfl 0 (by decide) r col _
  ihave Hob50 := (Entails.of_eq (pointsTo_congr (q := fullShare) (g := (outG X2 PS TB hX : Buf (Elt F) ((oV).view.loc (V d (cV L) (jV L))))) (window_writes L ⟨50, clt_50⟩ X2 PS TB hX _ _ hput50))) $$ Hob50
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 50 clt_50).symm) $$ [Hob50 Hdone]
  · isplitl [Hob50]
    · iexact Hob50
    · iexact Hdone
  have hput51 : ∀ r col : Fin 128, (tile_body.sl.dma0_53 d L X2 PS TB fs fq fo hinAll) (ValueIdx.ix2 r col) = outG X2 PS TB hX (ValueIdx.ix2 (outRowN L ⟨51, clt_51⟩ r) col) := by
    intro r col
    show (obS1).view.read (Elt F) ((obS1).view.writes (Elt F) _ (pb_t52 (F := F) d L _ _ _ _ ++ _)) (ValueIdx.ix2 r col) = _
    rw [View.writes_append]
    refine (rows_t52 (F := F) d L _ _ _ _ r col).trans ?_
    exact chunk_sum L ⟨51, clt_51⟩ X2 PS TB hX _ fs _ rfl _ (hinAll 51 clt_51) _ _ fq _ rfl 128 (by decide) r col _
  ihave Hob51 := (Entails.of_eq (pointsTo_congr (q := fullShare) (g := (outG X2 PS TB hX : Buf (Elt F) ((oV).view.loc (V d (cV L) (jV L))))) (window_writes L ⟨51, clt_51⟩ X2 PS TB hX _ _ hput51))) $$ Hob51
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 51 clt_51).symm) $$ [Hob51 Hdone]
  · isplitl [Hob51]
    · iexact Hob51
    · iexact Hdone
  have hput52 : ∀ r col : Fin 128, (tile_body.sl.dma0_54 d L X2 PS TB fs fq fo hinAll) (ValueIdx.ix2 r col) = outG X2 PS TB hX (ValueIdx.ix2 (outRowN L ⟨52, clt_52⟩ r) col) := by
    intro r col
    show (obS0).view.read (Elt F) ((obS0).view.writes (Elt F) _ (pb_t53 (F := F) d L _ _ _ _ _ _ ++ _)) (ValueIdx.ix2 r col) = _
    rw [View.writes_append]
    refine (rows_t53 (F := F) d L _ _ _ _ _ _ r col).trans ?_
    exact chunk_sum L ⟨52, clt_52⟩ X2 PS TB hX _ fs _ rfl _ (hinAll 52 clt_52) _ _ fq _ rfl 0 (by decide) r col _
  ihave Hob52 := (Entails.of_eq (pointsTo_congr (q := fullShare) (g := (outG X2 PS TB hX : Buf (Elt F) ((oV).view.loc (V d (cV L) (jV L))))) (window_writes L ⟨52, clt_52⟩ X2 PS TB hX _ _ hput52))) $$ Hob52
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 52 clt_52).symm) $$ [Hob52 Hdone]
  · isplitl [Hob52]
    · iexact Hob52
    · iexact Hdone
  have hput53 : ∀ r col : Fin 128, (tile_body.sl.dma0_55 d L X2 PS TB fs fq fo hinAll) (ValueIdx.ix2 r col) = outG X2 PS TB hX (ValueIdx.ix2 (outRowN L ⟨53, clt_53⟩ r) col) := by
    intro r col
    show (obS1).view.read (Elt F) ((obS1).view.writes (Elt F) _ (pb_t54 (F := F) d L _ _ _ _ ++ _)) (ValueIdx.ix2 r col) = _
    rw [View.writes_append]
    refine (rows_t54 (F := F) d L _ _ _ _ r col).trans ?_
    exact chunk_sum L ⟨53, clt_53⟩ X2 PS TB hX _ fs _ rfl _ (hinAll 53 clt_53) _ _ fq _ rfl 128 (by decide) r col _
  ihave Hob53 := (Entails.of_eq (pointsTo_congr (q := fullShare) (g := (outG X2 PS TB hX : Buf (Elt F) ((oV).view.loc (V d (cV L) (jV L))))) (window_writes L ⟨53, clt_53⟩ X2 PS TB hX _ _ hput53))) $$ Hob53
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 53 clt_53).symm) $$ [Hob53 Hdone]
  · isplitl [Hob53]
    · iexact Hob53
    · iexact Hdone
  have hput54 : ∀ r col : Fin 128, (tile_body.sl.dma0_56 d L X2 PS TB fs fq fo hinAll) (ValueIdx.ix2 r col) = outG X2 PS TB hX (ValueIdx.ix2 (outRowN L ⟨54, clt_54⟩ r) col) := by
    intro r col
    show (obS0).view.read (Elt F) ((obS0).view.writes (Elt F) _ (pb_t55 (F := F) d L _ _ _ _ ++ _)) (ValueIdx.ix2 r col) = _
    rw [View.writes_append]
    refine (rows_t55 (F := F) d L _ _ _ _ r col).trans ?_
    exact chunk_sum L ⟨54, clt_54⟩ X2 PS TB hX _ fs _ rfl _ (hinAll 54 clt_54) _ _ fq _ rfl 0 (by decide) r col _
  ihave Hob54 := (Entails.of_eq (pointsTo_congr (q := fullShare) (g := (outG X2 PS TB hX : Buf (Elt F) ((oV).view.loc (V d (cV L) (jV L))))) (window_writes L ⟨54, clt_54⟩ X2 PS TB hX _ _ hput54))) $$ Hob54
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 54 clt_54).symm) $$ [Hob54 Hdone]
  · isplitl [Hob54]
    · iexact Hob54
    · iexact Hdone
  have hput55 : ∀ r col : Fin 128, (tile_body.sl.dma0_57 d L X2 PS TB fs fq fo hinAll) (ValueIdx.ix2 r col) = outG X2 PS TB hX (ValueIdx.ix2 (outRowN L ⟨55, clt_55⟩ r) col) := by
    intro r col
    show (obS1).view.read (Elt F) ((obS1).view.writes (Elt F) _ (pb_t56 (F := F) d L _ _ _ _ ++ _)) (ValueIdx.ix2 r col) = _
    rw [View.writes_append]
    refine (rows_t56 (F := F) d L _ _ _ _ r col).trans ?_
    exact chunk_sum L ⟨55, clt_55⟩ X2 PS TB hX _ fs _ rfl _ (hinAll 55 clt_55) _ _ fq _ rfl 128 (by decide) r col _
  ihave Hob55 := (Entails.of_eq (pointsTo_congr (q := fullShare) (g := (outG X2 PS TB hX : Buf (Elt F) ((oV).view.loc (V d (cV L) (jV L))))) (window_writes L ⟨55, clt_55⟩ X2 PS TB hX _ _ hput55))) $$ Hob55
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 55 clt_55).symm) $$ [Hob55 Hdone]
  · isplitl [Hob55]
    · iexact Hob55
    · iexact Hdone
  have hput56 : ∀ r col : Fin 128, (tile_body.sl.dma0_58 d L X2 PS TB fs fq fo hinAll) (ValueIdx.ix2 r col) = outG X2 PS TB hX (ValueIdx.ix2 (outRowN L ⟨56, clt_56⟩ r) col) := by
    intro r col
    show (obS0).view.read (Elt F) ((obS0).view.writes (Elt F) _ (pb_t57 (F := F) d L _ _ _ _ ++ _)) (ValueIdx.ix2 r col) = _
    rw [View.writes_append]
    refine (rows_t57 (F := F) d L _ _ _ _ r col).trans ?_
    exact chunk_sum L ⟨56, clt_56⟩ X2 PS TB hX _ fs _ rfl _ (hinAll 56 clt_56) _ _ fq _ rfl 0 (by decide) r col _
  ihave Hob56 := (Entails.of_eq (pointsTo_congr (q := fullShare) (g := (outG X2 PS TB hX : Buf (Elt F) ((oV).view.loc (V d (cV L) (jV L))))) (window_writes L ⟨56, clt_56⟩ X2 PS TB hX _ _ hput56))) $$ Hob56
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 56 clt_56).symm) $$ [Hob56 Hdone]
  · isplitl [Hob56]
    · iexact Hob56
    · iexact Hdone
  ihave Hob := (Entails.of_eq (rows_take _ 58 clt_58)) $$ Hob
  icases Hob with ⟨Hob58, Hob⟩
  ihave Hob58 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7424#32) Cert.Kernel.S128x128.size (Cert.Kernel.Gen.k0_off18_inb L 58)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7424#32) Cert.Kernel.S128x128.size (Cert.Kernel.Gen.k0_off18_inb L 58)) (fun _ => rfl)).view.set]{fullShare} O0) from Entails.refl _) $$ Hob58
  ihave Hob := (Entails.of_eq (rows_take _ 59 clt_59)) $$ Hob
  icases Hob with ⟨Hob59, Hob⟩
  ihave Hob59 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7552#32) Cert.Kernel.S128x128.size (Cert.Kernel.Gen.k0_off18_inb L 59)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7552#32) Cert.Kernel.S128x128.size (Cert.Kernel.Gen.k0_off18_inb L 59)) (fun _ => rfl)).view.set]{fullShare} O0) from Entails.refl _) $$ Hob59
  ihave Hob := (Entails.of_eq (rows_take _ 60 clt_60)) $$ Hob
  icases Hob with ⟨Hob60, Hob⟩
  ihave Hob60 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7680#32) Cert.Kernel.S128x128.size (Cert.Kernel.Gen.k0_off18_inb L 60)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7680#32) Cert.Kernel.S128x128.size (Cert.Kernel.Gen.k0_off18_inb L 60)) (fun _ => rfl)).view.set]{fullShare} O0) from Entails.refl _) $$ Hob60
  ihave Hob := (Entails.of_eq (rows_take _ 61 clt_61)) $$ Hob
  icases Hob with ⟨Hob61, Hob⟩
  ihave Hob61 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7808#32) Cert.Kernel.S128x128.size (Cert.Kernel.Gen.k0_off18_inb L 61)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7808#32) Cert.Kernel.S128x128.size (Cert.Kernel.Gen.k0_off18_inb L 61)) (fun _ => rfl)).view.set]{fullShare} O0) from Entails.refl _) $$ Hob61
  ihave Hob := (Entails.of_eq (rows_take _ 62 clt_62)) $$ Hob
  icases Hob with ⟨Hob62, Hob⟩
  ihave Hob62 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 7936#32) Cert.Kernel.S128x128.size (Cert.Kernel.Gen.k0_off18_inb L 62)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 7936#32) Cert.Kernel.S128x128.size (Cert.Kernel.Gen.k0_off18_inb L 62)) (fun _ => rfl)).view.set]{fullShare} O0) from Entails.refl _) $$ Hob62
  ihave Hob := (Entails.of_eq (rows_take _ 63 clt_63)) $$ Hob
  icases Hob with ⟨Hob63, Hob⟩
  ihave Hob63 := (show (_ : sProp 𝕄) ⊢ (((Memref.whole Cert.Kernel.main_v8_scv : Memref Cert.Kernel.sig Kind.scVector Space.hbm Cert.Kernel.S262144x128 EltTy.f32).slice (Rect.unit (s := Cert.Kernel.S262144x128) (Cert.Kernel.k0_off18 L 8064#32) Cert.Kernel.S128x128.size (Cert.Kernel.Gen.k0_off18_inb L 63)) (fun _ => rfl)).view.loc (V d (cV L) (jV L)) ↦[((Memref.whole Cert.Kernel.main_v8_scv : Memref Cert.Kernel.sig Kind.scVector Space.hbm Cert.Kernel.S262144x128 EltTy.f32).slice (Rect.unit (s := Cert.Kernel.S262144x128) (Cert.Kernel.k0_off18 L 8064#32) Cert.Kernel.S128x128.size (Cert.Kernel.Gen.k0_off18_inb L 63)) (fun _ => rfl)).view.set]{fullShare} O0) from Entails.refl _) $$ Hob63
  sl_exec_parts
  sl_step
  have hput57 : ∀ r col : Fin 128, (tile_body.sl.dma0_59 d L X2 PS TB fs fq fo hinAll) (ValueIdx.ix2 r col) = outG X2 PS TB hX (ValueIdx.ix2 (outRowN L ⟨57, clt_57⟩ r) col) := by
    intro r col
    show (obS1).view.read (Elt F) ((obS1).view.writes (Elt F) _ (pb_t58 (F := F) d L _ _ _ _ ++ _)) (ValueIdx.ix2 r col) = _
    rw [View.writes_append]
    refine (rows_t58 (F := F) d L _ _ _ _ r col).trans ?_
    exact chunk_sum L ⟨57, clt_57⟩ X2 PS TB hX _ fs _ rfl _ (hinAll 57 clt_57) _ _ fq _ rfl 128 (by decide) r col _
  ihave Hob57 := (Entails.of_eq (pointsTo_congr (q := fullShare) (g := (outG X2 PS TB hX : Buf (Elt F) ((oV).view.loc (V d (cV L) (jV L))))) (window_writes L ⟨57, clt_57⟩ X2 PS TB hX _ _ hput57))) $$ Hob57
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 57 clt_57).symm) $$ [Hob57 Hdone]
  · isplitl [Hob57]
    · iexact Hob57
    · iexact Hdone
  have hput58 : ∀ r col : Fin 128, (tile_body.sl.dma0_60 d L X2 PS TB fs fq fo hinAll) (ValueIdx.ix2 r col) = outG X2 PS TB hX (ValueIdx.ix2 (outRowN L ⟨58, clt_58⟩ r) col) := by
    intro r col
    show (obS0).view.read (Elt F) ((obS0).view.writes (Elt F) _ (pb_t59 (F := F) d L _ _ _ _ ++ _)) (ValueIdx.ix2 r col) = _
    rw [View.writes_append]
    refine (rows_t59 (F := F) d L _ _ _ _ r col).trans ?_
    exact chunk_sum L ⟨58, clt_58⟩ X2 PS TB hX _ fs _ rfl _ (hinAll 58 clt_58) _ _ fq _ rfl 0 (by decide) r col _
  ihave Hob58 := (Entails.of_eq (pointsTo_congr (q := fullShare) (g := (outG X2 PS TB hX : Buf (Elt F) ((oV).view.loc (V d (cV L) (jV L))))) (window_writes L ⟨58, clt_58⟩ X2 PS TB hX _ _ hput58))) $$ Hob58
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 58 clt_58).symm) $$ [Hob58 Hdone]
  · isplitl [Hob58]
    · iexact Hob58
    · iexact Hdone
  have hput59 : ∀ r col : Fin 128, (tile_body.sl.dma0_61 d L X2 PS TB fs fq fo hinAll) (ValueIdx.ix2 r col) = outG X2 PS TB hX (ValueIdx.ix2 (outRowN L ⟨59, clt_59⟩ r) col) := by
    intro r col
    show (obS1).view.read (Elt F) ((obS1).view.writes (Elt F) _ (pb_t60 (F := F) d L _ _ _ _ ++ _)) (ValueIdx.ix2 r col) = _
    rw [View.writes_append]
    refine (rows_t60 (F := F) d L _ _ _ _ r col).trans ?_
    exact chunk_sum L ⟨59, clt_59⟩ X2 PS TB hX _ fs _ rfl _ (hinAll 59 clt_59) _ _ fq _ rfl 128 (by decide) r col _
  ihave Hob59 := (Entails.of_eq (pointsTo_congr (q := fullShare) (g := (outG X2 PS TB hX : Buf (Elt F) ((oV).view.loc (V d (cV L) (jV L))))) (window_writes L ⟨59, clt_59⟩ X2 PS TB hX _ _ hput59))) $$ Hob59
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 59 clt_59).symm) $$ [Hob59 Hdone]
  · isplitl [Hob59]
    · iexact Hob59
    · iexact Hdone
  have hput60 : ∀ r col : Fin 128, (tile_body.sl.dma0_62 d L X2 PS TB fs fq fo hinAll) (ValueIdx.ix2 r col) = outG X2 PS TB hX (ValueIdx.ix2 (outRowN L ⟨60, clt_60⟩ r) col) := by
    intro r col
    show (obS0).view.read (Elt F) ((obS0).view.writes (Elt F) _ (pb_t61 (F := F) d L _ _ _ _ ++ _)) (ValueIdx.ix2 r col) = _
    rw [View.writes_append]
    refine (rows_t61 (F := F) d L _ _ _ _ r col).trans ?_
    exact chunk_sum L ⟨60, clt_60⟩ X2 PS TB hX _ fs _ rfl _ (hinAll 60 clt_60) _ _ fq _ rfl 0 (by decide) r col _
  ihave Hob60 := (Entails.of_eq (pointsTo_congr (q := fullShare) (g := (outG X2 PS TB hX : Buf (Elt F) ((oV).view.loc (V d (cV L) (jV L))))) (window_writes L ⟨60, clt_60⟩ X2 PS TB hX _ _ hput60))) $$ Hob60
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 60 clt_60).symm) $$ [Hob60 Hdone]
  · isplitl [Hob60]
    · iexact Hob60
    · iexact Hdone
  have hput61 : ∀ r col : Fin 128, (tile_body.sl.dma0_63 d L X2 PS TB fs fq fo hinAll) (ValueIdx.ix2 r col) = outG X2 PS TB hX (ValueIdx.ix2 (outRowN L ⟨61, clt_61⟩ r) col) := by
    intro r col
    show (obS1).view.read (Elt F) ((obS1).view.writes (Elt F) _ (pb_t62 (F := F) d L _ _ _ _ ++ _)) (ValueIdx.ix2 r col) = _
    rw [View.writes_append]
    refine (rows_t62 (F := F) d L _ _ _ _ r col).trans ?_
    exact chunk_sum L ⟨61, clt_61⟩ X2 PS TB hX _ fs _ rfl _ (hinAll 61 clt_61) _ _ fq _ rfl 128 (by decide) r col _
  ihave Hob61 := (Entails.of_eq (pointsTo_congr (q := fullShare) (g := (outG X2 PS TB hX : Buf (Elt F) ((oV).view.loc (V d (cV L) (jV L))))) (window_writes L ⟨61, clt_61⟩ X2 PS TB hX _ _ hput61))) $$ Hob61
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 61 clt_61).symm) $$ [Hob61 Hdone]
  · isplitl [Hob61]
    · iexact Hob61
    · iexact Hdone
  have hput62 : ∀ r col : Fin 128, (tile_body.sl.dma0_64 d L X2 PS TB fs fq fo hinAll) (ValueIdx.ix2 r col) = outG X2 PS TB hX (ValueIdx.ix2 (outRowN L ⟨62, clt_62⟩ r) col) := by
    intro r col
    show (obS0).view.read (Elt F) ((obS0).view.writes (Elt F) _ (pb_t63 (F := F) d L _ _ _ _ _ _ ++ _)) (ValueIdx.ix2 r col) = _
    rw [View.writes_append]
    refine (rows_t63 (F := F) d L _ _ _ _ _ _ r col).trans ?_
    exact chunk_sum L ⟨62, clt_62⟩ X2 PS TB hX _ fs _ rfl _ (hinAll 62 clt_62) _ _ fq _ rfl 0 (by decide) r col _
  ihave Hob62 := (Entails.of_eq (pointsTo_congr (q := fullShare) (g := (outG X2 PS TB hX : Buf (Elt F) ((oV).view.loc (V d (cV L) (jV L))))) (window_writes L ⟨62, clt_62⟩ X2 PS TB hX _ _ hput62))) $$ Hob62
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 62 clt_62).symm) $$ [Hob62 Hdone]
  · isplitl [Hob62]
    · iexact Hob62
    · iexact Hdone
  have hput63 : ∀ r col : Fin 128, (tile_body.sl.dma0_65 d L X2 PS TB fs fq fo hinAll) (ValueIdx.ix2 r col) = outG X2 PS TB hX (ValueIdx.ix2 (outRowN L ⟨63, clt_63⟩ r) col) := by
    intro r col
    show (obS1).view.read (Elt F) ((obS1).view.writes (Elt F) _ (pb_t64 (F := F) d L _ _ _ _ _ _ ++ _)) (ValueIdx.ix2 r col) = _
    rw [View.writes_append]
    refine (rows_t64 (F := F) d L _ _ _ _ _ _ r col).trans ?_
    exact chunk_sum L ⟨63, clt_63⟩ X2 PS TB hX _ fs _ rfl _ (hinAll 63 clt_63) _ _ fq _ rfl 128 (by decide) r col _
  ihave Hob63 := (Entails.of_eq (pointsTo_congr (q := fullShare) (g := (outG X2 PS TB hX : Buf (Elt F) ((oV).view.loc (V d (cV L) (jV L))))) (window_writes L ⟨63, clt_63⟩ X2 PS TB hX _ _ hput63))) $$ Hob63
  ihave Hdone := (Entails.of_eq (rows_put (fun c : Fin 64 => ((blkM L c).view.loc (V d (cV L) (jV L)) ↦[(blkM L c).view.set]{fullShare} (outG X2 PS TB hX : Buf (Elt F) ((oV).view.loc (V d (cV L) (jV L)))))) 63 clt_63).symm) $$ [Hob63 Hdone]
  · isplitl [Hob63]
    · iexact Hob63
    · iexact Hdone
  -- the windows together are the tile's block again
  ihave Hleft := (Entails.of_eq (rows_none _)) $$ Hob
  icases Hleft with -
  ihave Hdone := (Entails.of_eq (rows_lt64 (fun c : Fin 64 => ((blkM L c).view.loc (V d (cV L) (jV L)) ↦[(blkM L c).view.set]{fullShare} (outG X2 PS TB hX : Buf (Elt F) ((oV).view.loc (V d (cV L) (jV L)))))))) $$ Hdone
  ihave Ho := (Entails.of_eq (oPts_blocks d L (outG X2 PS TB hX : Buf (Elt F) ((oV).view.loc (V d (cV L) (jV L))))).symm) $$ Hdone
  isplitl [Hx Hp Ht Ht' Ho]
  · isplitl [Hx]; · iexact Hx
    isplitl [Hp]; · iexact Hp
    isplitl [Ht Ht']
    · iapply (pointsTo_share (PosShare.mem_left_op_right tq)).2
      isplitl [Ht]
      · iexact Ht
      · iexact Ht'
    iexists (outG X2 PS TB hX : Buf (Elt F) ((oV).view.loc (V d (cV L) (jV L))))
    isplitl [Ho]; · iexact Ho
    ipureintro; intro j _; rfl
  isplitl [Hs Hq HiB0 HiB1 HoB0 HoB1 Hbufs]
  · isplitl [Hs]; · iexists _; iexact Hs
    isplitl [Hq]; · iexists _; iapply (Entails.of_eq (qV_set d L _).symm); iexact Hq
    isplitl [HiB0 HiB1]
    · iapply (iB_join d L _ _)
      isplitl [HiB0]
      · iexact HiB0
      · iexact HiB1
    isplitl [HoB0 HoB1]
    · iapply (oB_join d L _ _)
      isplitl [HoB0]
      · iexact HoB0
      · iexact HoB1
    iexact Hbufs
  isplitl [Hg0 Hg1 Hp0 Hp1 Hr0 Hr1 Hsems]
  · isplitl [Hg0]; · iexact Hg0
    isplitl [Hg1]; · iexact Hg1
    isplitl [Hp0]; · iexact Hp0
    isplitl [Hp1]; · iexact Hp1
    isplitl [Hr0]; · iexact Hr0
    isplitl [Hr1]; · iexact Hr1
    iexact Hsems
  iexists _; isplitr
  swap; · iexact HO
  ipureintro
  repeat (apply ins_ok)
  exact fun p hp => Or.inl hp

end Tile

end Cert.Proof.KB
end
-- ==== Proof.TileOblB.lean ====
-- The same text as TileObl.lean, read at the printed kernel's own namespace: Cert.Kernel for Cert.KernelIdeal throughout.
/-
  One tile's task of the embedding lookup, from its operands to its results. The tile on SparseCore c, subcore s is
  worker 2 s + c: the 64 index rows it fetches start at row 128 s + 64 c = 64 (2 s + c) of the index array and the 8192
  result rows it writes at row 16384 s + 8192 c = 8192 (2 s + c), so the slices the body takes are the worker's blocks
  of the two arrays. The body's run, stated over those slices, is then the task from the worker's operands to its
  results: its block of the result holds the result function, which is what the worker's predicate asks.
-/
import proofs.«208673_g37134287241914_cont_8to1_b_302_3_alg».proof.Proof.LaunchB
import proofs.«208673_g37134287241914_cont_8to1_b_302_3_alg».proof.Proof.OutValB
import proofs.«208673_g37134287241914_cont_8to1_b_302_3_alg».proof.Proof.BodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v7_scv : Memref Cert.Kernel.sig Kind.scVector Space.hbm Cert.Kernel.S2048x128 EltTy.i32)
local notation "pV" => (Memref.whole Cert.Kernel.main_v6_scv : Memref Cert.Kernel.sig Kind.scVector Space.hbm Cert.Kernel.S256x128 EltTy.f32)
local notation "tV" => (Memref.whole Cert.Kernel.main_arg1_scv : Memref Cert.Kernel.sig Kind.scVector Space.hbm Cert.Kernel.S100000x128 EltTy.f32)
local notation "oV" => (Memref.whole Cert.Kernel.main_v8_scv : Memref Cert.Kernel.sig Kind.scVector Space.hbm Cert.Kernel.S262144x128 EltTy.f32)
local notation "sV" => (Memref.whole Cert.Kernel.cc0_scratch0 : Memref Cert.Kernel.sig Kind.scVector Space.vmem Cert.Kernel.S64x128 EltTy.i32)
local notation "qV" => (Memref.whole Cert.Kernel.cc0_scratch1 : Memref Cert.Kernel.sig Kind.scVector Space.vmem Cert.Kernel.S256x128 EltTy.f32)
local notation "iB" => (Memref.whole Cert.Kernel.cc0_scratch2 : Memref Cert.Kernel.sig Kind.scVector Space.vmem Cert.Kernel.S2x128x128 EltTy.f32)
local notation "oB" => (Memref.whole Cert.Kernel.cc0_scratch3 : Memref Cert.Kernel.sig Kind.scVector Space.vmem Cert.Kernel.S2x128x128 EltTy.f32)

/-! ## The tile's slices are its worker's blocks -/

section Tile

variable (d : Dev nD) (L : grid0.Coords)

theorem bound_zero : grid0.bound 0 = 2 := rfl
theorem bound_one : grid0.bound 1 = 16 := rfl
/-- The SparseCore and the subcore of the grid point, and its worker. -/
abbrev cL (L : grid0.Coords) : Fin 2 := Fin.cast bound_zero (L 0)
abbrev jL (L : grid0.Coords) : Fin 16 := Fin.cast bound_one (L 1)
abbrev wL (L : grid0.Coords) : Fin 32 := wid (cL L) (jL L)

theorem xrowK_eq : xrowK L = xrow (wL L) := by
  unfold xrowK xrow Rect.part Rect.block
  congr 1 <;> funext a
  · rw [k0_off1_eq]
    match a with
    | 0 =>
      show 128 * (L 1).val + 64 * (L 0).val = ((L 1).val * 2 + (L 0).val) * (2048 / 32)
      omega
    | 1 => simp [Shape.partIx, Shape.partSize]
  · match a with
    | 0 => simp [Shape.partSize]
    | 1 => simp [Shape.partSize]

theorem oTR_eq : oTR L = orow (wL L) := by
  unfold oTR orow Rect.part Rect.block
  congr 1 <;> funext a
  · match a with
    | 0 =>
      show 16384 * (L 1).val + 8192 * (L 0).val = ((L 1).val * 2 + (L 0).val) * (262144 / 32)
      omega
    | 1 => simp [Shape.partIx, Shape.partSize]
  · match a with
    | 0 => simp [Shape.partSize]
    | 1 => simp [Shape.partSize]

theorem set_xRowK : (xRowK L).view.set = xRowSet (wL L) := by
  show ((xV).view.slice (xrowK L)).set = ((xV).view.slice (xrow (wL L))).set
  rw [xrowK_eq]

theorem set_oTR : (oV).view.setOn (oTR L).set = oRowSet (wL L) := by
  show _ = ((oV).view.slice (orow (wL L))).set
  rw [View.set_slice, oTR_eq]; rfl

/-! ## The task, from the body's run -/

variable (m : (ℓ : Loc nD τ sig) → Buf (Elt F) ℓ) (R : (d : Dev nD) → Fin 32 → Buf (Elt F) (outLoc d) → Prop)

/-- The task of the tile at grid point `L`, over its worker's operands and results. -/
theorem tile_task (hx2 : ∀ d j, ((x2Of m d) j).toNat < 100000)
    (hRv : ∀ d w (f : Buf (Elt F) (outLoc d)), (∀ j ∈ oRowSet w, f j = outG (x2Of m d) (posOf m d) (m (tabLoc d)) (hx2 d) j) → R d w f)
    (O : CellTallies nD τ sig (HIx 1)) (W : Waits sig (HIx 1)) (hO : ∀ g, O g none = 0) :
    (iprop(levAts (K (F := F)).L (K (F := F)).lev ∗ emp ∗ goPts m (x2Of m) (posOf m) d (wL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_embed L xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1)
          fun _ => iprop(tdPts m (x2Of m) (posOf m) R d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hb := tile_body (F := F) d L facts O W hO (pq (wL L)) (tq (wL L)) (x2Of m d) (posOf m d) (m (tabLoc d)) (m (outLoc d)) (hx2 d)
  rw [set_xRowK, set_oTR] at hb
  refine hb.trans (wp_mono frame _ _ fun _ => ?_)
  iintro ⟨⟨Hx, Hp, Ht, %f, Ho, %hv⟩, Hrest⟩
  isplitl [Hx Hp Ht Ho]
  · isplitl [Hx]; · iexact Hx
    isplitl [Hp]; · iexact Hp
    isplitl [Ht]; · iexact Ht
    iexists f
    isplitl [Ho]; · iexact Ho
    ipureintro; exact hRv d (wL L) f hv
  · iexact Hrest

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_embed (coordsV c s) xV (Memref.isWhole_whole _) pV (Memref.isWhole_whole _) tV (Memref.isWhole_whole _) oV (Memref.isWhole_whole _) sV (Memref.isWhole_whole _) qV (Memref.isWhole_whole _) iB (Memref.isWhole_whole _) oB (Memref.isWhole_whole _) cc0_scratch4 cc0_scratch5 cc0_scratch6 cc0_scratch7 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (m : (ℓ : Loc nD τ sig) → Buf (Elt F) ℓ) (R : (d : Dev nD) → Fin 32 → Buf (Elt F) (outLoc d) → Prop)
    (hx2 : ∀ d j, ((x2Of m d) j).toNat < 100000)
    (hRv : ∀ d w (f : Buf (Elt F) (outLoc d)), (∀ j ∈ oRowSet w, f j = outG (x2Of m d) (posOf m d) (m (tabLoc d)) (hx2 d) j) → R d w f) :
    (K (F := F)).TileObl (D (F := F)) 𝒱 (P m (x2Of m) (posOf m) R) v₀ 0 := by
  intro d c i O W hO _ _
  simp only [P_ox, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task d (coordsV ⟨_, hci.1⟩ ⟨_, hci.2⟩) m R hx2 hRv O W hO).trans (wp_mono frame _ _ fun _ => obl_post)

end Cert.Proof.KB

end
-- ==== Proof.lean ====
/-
  The claim: an embedding lookup with a positional term, on the SparseCores, against its reference.

  The program reshapes its integer argument x to a list of 262144 row numbers, laid out as 2048 rows of 128 words, and
  builds a positional array of 256 rows from the row table and the column table; the call then has each of the 32
  vector subcores fetch its 64 rows of the list, gather the table rows they name, add row n mod 256 of the positional
  array to result row n and write its 8192 rows of the result; a last reshape gives the result its three axes.

  Frames. The run of the whole family of threads is the launch theorem's, from a proof of one tile's task at a symbolic
  place: it ends with the four arguments unchanged and the result the reshape of an array of which every worker's
  predicate holds. The precondition makes every word of x name a row of the table, and the index array the call finds
  is a reshape of x, so every gather is in range. Read at the printed kernel and at its idealization this gives their
  frames, the predicate being trivial; the reference is a straight line of host operations, and its run gives its frame.

  The algebraic claim. At the ideal instance take for a worker's predicate that its block of the result holds, entry by
  entry, the table row its index word names plus the positional row. The blocks cover the result, so the result array
  is that function everywhere; reshaped, it is the reference's value of the same four arguments: both sides read
  x[b, p / 16, p mod 16] as the row number of result row 256 b + p and add the row table's row p / 16 beside the column
  table's row p mod 16, the table row first. The reference runs from a memory that agrees on the arguments, so its value
  is the same. The idealization rewrote nothing: the preservation claim is trivial.
-/
import proofs.«208673_g37134287241914_cont_8to1_b_302_3_alg».proof.Defs
import proofs.«208673_g37134287241914_cont_8to1_b_302_3_alg».proof.Proof.Gen.Kernel
import proofs.«208673_g37134287241914_cont_8to1_b_302_3_alg».proof.Proof.Gen.KernelIdeal
import proofs.«208673_g37134287241914_cont_8to1_b_302_3_alg».proof.Proof.Gen.ReferenceIdeal
import proofs.«208673_g37134287241914_cont_8to1_b_302_3_alg».proof.Proof.Gen.Pre_input_domain
import proofs.«208673_g37134287241914_cont_8to1_b_302_3_alg».proof.Proof.PreRange
import proofs.«208673_g37134287241914_cont_8to1_b_302_3_alg».proof.Proof.RefRun
import proofs.«208673_g37134287241914_cont_8to1_b_302_3_alg».proof.Proof.Bridge
import proofs.«208673_g37134287241914_cont_8to1_b_302_3_alg».proof.Proof.X2Range
import proofs.«208673_g37134287241914_cont_8to1_b_302_3_alg».proof.Proof.TileObl
import proofs.«208673_g37134287241914_cont_8to1_b_302_3_alg».proof.Proof.X2RangeB
import proofs.«208673_g37134287241914_cont_8to1_b_302_3_alg».proof.Proof.TileOblB
import Idealize.ShloMosaic.Adequacy
import Idealize.ShloMosaic.Init

noncomputable section

namespace Cert.Proof

open Idealize.ShloMosaic Idealize.SL.Sem

/-! ## The precondition: every word of x names a row of the table -/

theorem x_ok_Kernel (m : (ℓ : Loc Cert.Kernel.nD Cert.Kernel.τ Cert.Kernel.sig) → Buf (Elt Bits) ℓ) (hpre : Cert.Pre_Kernel m)
    (d : Dev Cert.Kernel.nD) :
    ∀ j, ((m ((SparseCore.T d).loc Cert.Kernel.main_arg0) : IVec Cert.Kernel.S1024x16x16 32) j).toNat < 100000 :=
  Cert.Proof.PreRange.x_in_range (F := Bits) _ _ _ _ (hpre d)

theorem x_ok_KernelIdeal (m : (ℓ : Loc Cert.KernelIdeal.nD Cert.KernelIdeal.τ Cert.KernelIdeal.sig) → Buf (Elt Ideal) ℓ)
    (hpre : Cert.Pre_KernelIdeal m) (d : Dev Cert.KernelIdeal.nD) :
    ∀ j, ((m ((SparseCore.T d).loc Cert.KernelIdeal.main_arg0) : IVec Cert.KernelIdeal.S1024x16x16 32) j).toNat < 100000 :=
  Cert.Proof.PreRange.x_in_range (F := Ideal) _ _ _ _ (hpre d)

/-! ## The frames -/

theorem frame_Kernel : Cert.frame_Kernel := fun m g hpre =>
  (θ_run Cert.Kernel.defs _ _).mono (fun _ h c => (h c).2)
    (Cert.Proof.KB.run_main (F := Bits) m g (fun _ _ _ => True) (fun _ _ _ _ _ h => h)
      (Cert.Proof.KB.tileObl m (fun _ _ _ => True) (fun d => Cert.Proof.KB.x2Of_in_range m d (x_ok_Kernel m hpre d))
        (fun _ _ _ _ => trivial)))

theorem frame_KernelIdeal : Cert.frame_KernelIdeal := fun m g hpre =>
  (θ_run Cert.KernelIdeal.defs _ _).mono (fun _ h c => (h c).2)
    (Cert.Proof.KI.run_main (F := Ideal) m g (fun _ _ _ => True) (fun _ _ _ _ _ h => h)
      (Cert.Proof.KI.tileObl m (fun _ _ _ => True) (fun d => Cert.Proof.KI.x2Of_in_range m d (x_ok_KernelIdeal m hpre d))
        (fun _ _ _ _ => trivial)))

theorem frame_ReferenceIdeal : Cert.frame_ReferenceIdeal := fun m g _ =>
  (θ_run Cert.ReferenceIdeal.defs _ _).mono (fun _ h c => (h c).2) (Cert.Proof.Ref.run (F := Ideal) m g)

/-! ## The algebraic claim -/

open Cert.Proof.KI in
/-- An array that is the result function on every worker's block is the result function: the blocks cover it. -/
theorem eq_of_blocks {α : Type} (f G : Cert.KernelIdeal.S262144x128.Idx → α)
    (h : ∀ w : Fin 32, ∀ j ∈ oRowSet w, f j = G j) : f = G := funext fun j => by
  have hj : j ∈ (Finset.univ : Finset (Fin 32)).biUnion oRowSet := by rw [orows_cover]; exact Finset.mem_univ j
  obtain ⟨w, -, hw⟩ := Finset.mem_biUnion.mp hj
  exact h w j hw

set_option maxRecDepth 16384 in
open Cert.Proof.KI in
theorem algebraic : Cert.algebraic_KernelIdeal_ReferenceIdeal := fun m g m' g' hpre hagree => by
  have hx := x_ok_KernelIdeal m hpre
  have hx2 : ∀ d j, ((x2Of m d) j).toNat < 100000 := fun d => x2Of_in_range m d (hx d)
  refine ⟨fun c => Cert.Proof.Ref.refVal (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: its result array is the result function on every block, hence everywhere; reshaped it is the reference's value
    refine (θ_run Cert.KernelIdeal.defs _ _).mono (fun r h c => ?_)
      (run_main (F := Ideal) m g
        (fun d w f => ∀ j ∈ oRowSet w, f j = outG (x2Of m d) (posOf m d) (m (tabLoc d)) (hx2 d) j)
        (fun d w f f' hff' hf j hj => (hff' j hj).symm.trans (hf j hj))
        (tileObl m _ hx2 (fun _ _ _ h => h)))
    obtain ⟨⟨f, hf, h9⟩, hargs⟩ := h c
    have hfG : f = outG (x2Of m c) (posOf m c) (m (tabLoc c)) (hx2 c) := eq_of_blocks (α := Elt Ideal .f32) f _ hf
    exact ⟨h9.trans (by rw [hfG]; exact bridge m c (hx c)), hargs⟩
  · -- the reference: its value of its own arguments, which are the kernel's
    refine (θ_run Cert.ReferenceIdeal.defs _ _).mono (fun r h c => ?_) (Cert.Proof.Ref.run (F := Ideal) m' g')
    obtain ⟨hv, hargs⟩ := h c
    obtain ⟨e0, e1, e2, e3⟩ := hagree c
    exact ⟨hv.trans (by rw [e0, e1, e2, e3]), hargs⟩

/-! ## The claim -/

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
